-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1526)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1526) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2072) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S2x512x512 : Shape := ⟨3, ![2, 512, 512]⟩
abbrev S2x512 : Shape := ⟨2, ![2, 512]⟩
abbrev S2x40x512x512 : Shape := ⟨4, ![2, 40, 512, 512]⟩
abbrev S2x40x512 : Shape := ⟨3, ![2, 40, 512]⟩
abbrev S256x512 : Shape := ⟨2, ![256, 512]⟩
abbrev S256 : Shape := ⟨1, ![256]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S2x512x512 : S_.BroadcastsInDim S2x512x512 (![] : Fin 0 → Fin S2x512x512.rank)
  reducesTo_S2x512x512_S_d0_1_2 : S2x512x512.ReducesTo [0, 1, 2] S_
  bcast_S_S2x512 : S_.BroadcastsInDim S2x512 (![] : Fin 0 → Fin S2x512.rank)
  reducesTo_S2x512_S_d0_1 : S2x512.ReducesTo [0, 1] S_
  bcast_S_S2x40x512x512 : S_.BroadcastsInDim S2x40x512x512 (![] : Fin 0 → Fin S2x40x512x512.rank)
  reducesTo_S2x40x512x512_S_d0_1_2_3 : S2x40x512x512.ReducesTo [0, 1, 2, 3] S_
  bcast_S_S2x40x512 : S_.BroadcastsInDim S2x40x512 (![] : Fin 0 → Fin S2x40x512.rank)
  reducesTo_S2x40x512_S_d0_1_2 : S2x40x512.ReducesTo [0, 1, 2] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg7 : FVec F S2x40x512 .f32) (main_arg8 : FVec F S256x512 .f32) (main_arg9 : FVec F S256 .f32) (main_v13 : IVec S_ 1) (main_v16 : IVec S2x40x512x512 1) : IVec S_ 1 :=
  let main_c_5 : IVec S_ 1 := constantI S_ 1 1#1
  let main_v17 : IVec S_ 1 := (fun x v => Host.reduce IntOp.andi x v reducesTo_S2x40x512x512_S_d0_1_2_3 h_S_) main_v16 main_c_5
  let main_v18 : IVec S_ 1 := andi main_v13 main_v17
  let main_v19 : FVec F S2x40x512 .f32 := Host.absf main_arg7
  let main_cst_6 : FVec F S_ .f32 := constant S_ .f32 0x7F800000#32
  let main_v20 : FVec F S2x40x512 .f32 := broadcastInDim S2x40x512 ![] bcast_S_S2x40x512 main_cst_6
  let main_v21 : IVec S2x40x512 1 := cmpf .olt main_v19 main_v20
  let main_c_7 : IVec S_ 1 := constantI S_ 1 1#1
  let main_v22 : IVec S_ 1 := (fun x v => Host.reduce IntOp.andi x v reducesTo_S2x40x512_S_d0_1_2 h_S_) main_v21 main_c_7
  let main_v23 : IVec S_ 1 := andi main_v18 main_v22
  let main_v24 : FVec F S256x512 .f32 := Host.absf main_arg8
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8192x512 .f32) (main_arg1 : IVec S8192 32) (main_arg2 : IVec S8192 32) (main_arg3 : IVec S8192 32) (main_arg4 : FVec F S2x512x512 .f32) (main_arg5 : FVec F S2x512 .f32) (main_arg6 : FVec F S2x40x512x512 .f32) (main_arg7 : FVec F S2x40x512 .f32) (main_arg8 : FVec F S256x512 .f32) (main_arg9 : FVec F S256 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S2x512x512 .f32 := Host.absf main_arg4
  let main_cst_0 : FVec F S_ .f32 := constant S_ .f32 0x7F800000#32
  let main_v5 : FVec F S2x512x512 .f32 := broadcastInDim S2x512x512 ![] bcast_S_S2x512x512 main_cst_0
  let main_v6 : IVec S2x512x512 1 := cmpf .olt main_v4 main_v5
  let main_c_1 : IVec S_ 1 := constantI S_ 1 1#1
  let main_v7 : IVec S_ 1 := (fun x v => Host.reduce IntOp.andi x v reducesTo_S2x512x512_S_d0_1_2 h_S_) main_v6 main_c_1
  let main_v8 : IVec S_ 1 := andi main_v3 main_v7
  let main_v9 : FVec F S2x512 .f32 := Host.absf main_arg5
  let main_cst_2 : FVec F S_ .f32 := constant S_ .f32 0x7F800000#32
  let main_v10 : FVec F S2x512 .f32 := broadcastInDim S2x512 ![] bcast_S_S2x512 main_cst_2
  let main_v11 : IVec S2x512 1 := cmpf .olt main_v9 main_v10
  let main_c_3 : IVec S_ 1 := constantI S_ 1 1#1
  let main_v12 : IVec S_ 1 := (fun x v => Host.reduce IntOp.andi x v reducesTo_S2x512_S_d0_1 h_S_) main_v11 main_c_3
  let main_v13 : IVec S_ 1 := andi main_v8 main_v12
  let main_v14 : FVec F S2x40x512x512 .f32 := Host.absf main_arg6
  let main_cst_4 : FVec F S_ .f32 := constant S_ .f32 0x7F800000#32
  let main_v15 : FVec F S2x40x512x512 .f32 := broadcastInDim S2x40x512x512 ![] bcast_S_S2x40x512x512 main_cst_4
  let main_v16 : IVec S2x40x512x512 1 := cmpf .olt main_v14 main_v15
  fn_part1 (F := F) main_arg7 main_arg8 main_arg9 main_v13 main_v16
-- ==== Kernel.lean ====
abbrev S8192x512 : Shape := ⟨2, ![8192, 512]⟩
abbrev S8192 : Shape := ⟨1, ![8192]⟩
abbrev S2x512x512 : Shape := ⟨3, ![2, 512, 512]⟩
abbrev S2x512 : Shape := ⟨2, ![2, 512]⟩
abbrev S2x40x512x512 : Shape := ⟨4, ![2, 40, 512, 512]⟩
abbrev S2x40x512 : Shape := ⟨3, ![2, 40, 512]⟩
abbrev S256x512 : Shape := ⟨2, ![256, 512]⟩
abbrev S256 : Shape := ⟨1, ![256]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x40x512x512 : Shape := ⟨4, ![1, 40, 512, 512]⟩
abbrev S40x512x512 : Shape := ⟨3, ![40, 512, 512]⟩
abbrev S1x40x512 : Shape := ⟨3, ![1, 40, 512]⟩
abbrev S40x512 : Shape := ⟨2, ![40, 512]⟩
abbrev S41x512x512 : Shape := ⟨3, ![41, 512, 512]⟩
abbrev S41x512 : Shape := ⟨2, ![41, 512]⟩
abbrev S41x1x512 : Shape := ⟨3, ![41, 1, 512]⟩
abbrev S41x8192x512 : Shape := ⟨3, ![41, 8192, 512]⟩
abbrev S2048x512 : Shape := ⟨2, ![2048, 512]⟩
abbrev S1x1x512 : Shape := ⟨3, ![1, 1, 512]⟩
abbrev S1x2048x512 : Shape := ⟨3, ![1, 2048, 512]⟩
abbrev S1x8192x512 : Shape := ⟨3, ![1, 8192, 512]⟩
abbrev S_ : Shape := ⟨0, ![]⟩
abbrev S8192x1 : Shape := ⟨2, ![8192, 1]⟩
abbrev S512x256 : Shape := ⟨2, ![512, 256]⟩
abbrev S1x512x256 : Shape := ⟨3, ![1, 512, 256]⟩
abbrev S1x1x256 : Shape := ⟨3, ![1, 1, 256]⟩
abbrev S1x8192x256 : Shape := ⟨3, ![1, 8192, 256]⟩
abbrev S1x2048x256 : Shape := ⟨3, ![1, 2048, 256]⟩
abbrev S2048x256 : Shape := ⟨2, ![2048, 256]⟩
abbrev S1x256 : Shape := ⟨2, ![1, 256]⟩
abbrev S8192x256 : Shape := ⟨2, ![8192, 256]⟩

abbrev nBuf : Space → Nat
  | .hbm => 2221
  | .vmem => 22
  | .smem => 0
  | _ => 0

abbrev hbmTy0_0 (i : Nat) : BufTy := match i % 128 with
  | 0 => ⟨S8192x512, .f32⟩
  | 1 => ⟨S8192, .i32⟩
  | 2 => ⟨S8192, .i32⟩
  | 3 => ⟨S8192, .i32⟩
  | 4 => ⟨S2x512x512, .f32⟩
  | 5 => ⟨S2x512, .f32⟩
  | 6 => ⟨S2x40x512x512, .f32⟩
  | 7 => ⟨S2x40x512, .f32⟩
  | 8 => ⟨S256x512, .f32⟩
  | 9 => ⟨S256, .f32⟩
  | 10 => ⟨S1x512x512, .f32⟩
  | 11 => ⟨S512x512, .f32⟩
  | 12 => ⟨S1x512, .f32⟩
  | 13 => ⟨S512, .f32⟩
  | 14 => ⟨S1x40x512x512, .f32⟩
  | 15 => ⟨S40x512x512, .f32⟩
  | 16 => ⟨S1x40x512, .f32⟩
  | 17 => ⟨S40x512, .f32⟩
  | 18 => ⟨S1x512x512, .f32⟩
  | 19 => ⟨S41x512x512, .f32⟩
  | 20 => ⟨S41x512x512, .f32⟩
  | 21 => ⟨S1x512, .f32⟩
  | 22 => ⟨S41x512, .f32⟩
  | 23 => ⟨S41x1x512, .f32⟩
  | 24 => ⟨S8192x512, .bf16⟩
  | 25 => ⟨S41x512x512, .bf16⟩
  | 26 => ⟨S41x8192x512, .f32⟩
  | 27 => ⟨S1x8192x512, .f32⟩
  | 28 => ⟨S8192x512, .f32⟩
  | 29 => ⟨S_, .i32⟩
  | 30 => ⟨S8192, .i32⟩
  | 31 => ⟨S8192, .i1⟩
  | 32 => ⟨S8192x1, .i1⟩
  | 33 => ⟨S1x8192x512, .f32⟩
  | 34 => ⟨S8192x512, .f32⟩
  | 35 => ⟨S_, .i32⟩
  | 36 => ⟨S8192, .i32⟩
  | 37 => ⟨S8192, .i1⟩
  | 38 => ⟨S_, .i32⟩
  | 39 => ⟨S8192, .i32⟩
  | 40 => ⟨S8192, .i32⟩
  | 41 => ⟨S8192, .i32⟩
  | 42 => ⟨S8192x1, .i32⟩
  | 43 => ⟨S8192x512, .f32⟩
  | 44 => ⟨S_, .f32⟩
  | 45 => ⟨S_, .f32⟩
  | 46 => ⟨S8192x512, .i1⟩
  | 47 => ⟨S8192x512, .f32⟩
  | 48 => ⟨S8192x512, .f32⟩
  | 49 => ⟨S_, .i32⟩
  | 50 => ⟨S8192, .i32⟩
  | 51 => ⟨S8192, .i1⟩
  | 52 => ⟨S_, .i32⟩
  | 53 => ⟨S8192, .i32⟩
  | 54 => ⟨S8192, .i32⟩
  | 55 => ⟨S8192, .i32⟩
  | 56 => ⟨S8192x1, .i32⟩
  | 57 => ⟨S8192x512, .f32⟩
  | 58 => ⟨S1x8192x512, .f32⟩
  | 59 => ⟨S8192x512, .f32⟩
  | 60 => ⟨S_, .i32⟩
  | 61 => ⟨S8192, .i32⟩
  | 62 => ⟨S8192, .i1⟩
  | 63 => ⟨S_, .i32⟩
  | 64 => ⟨S8192, .i32⟩
  | 65 => ⟨S8192, .i32⟩
  | 66 => ⟨S8192, .i32⟩
  | 67 => ⟨S8192x1, .i32⟩
  | 68 => ⟨S8192x512, .f32⟩
  | 69 => ⟨S_, .f32⟩
  | 70 => ⟨S_, .f32⟩
  | 71 => ⟨S8192x512, .i1⟩
  | 72 => ⟨S8192x512, .f32⟩
  | 73 => ⟨S8192x512, .f32⟩
  | 74 => ⟨S_, .i32⟩
  | 75 => ⟨S8192, .i32⟩
  | 76 => ⟨S8192, .i1⟩
  | 77 => ⟨S_, .i32⟩
  | 78 => ⟨S8192, .i32⟩
  | 79 => ⟨S8192, .i32⟩
  | 80 => ⟨S8192, .i32⟩
  | 81 => ⟨S8192x1, .i32⟩
  | 82 => ⟨S8192x512, .f32⟩
  | 83 => ⟨S_, .i32⟩
  | 84 => ⟨S8192, .i32⟩
  | 85 => ⟨S8192, .i1⟩
  | 86 => ⟨S8192x1, .i1⟩
  | 87 => ⟨S1x8192x512, .f32⟩
  | 88 => ⟨S8192x512, .f32⟩
  | 89 => ⟨S_, .i32⟩
  | 90 => ⟨S8192, .i32⟩
  | 91 => ⟨S8192, .i1⟩
  | 92 => ⟨S_, .i32⟩
  | 93 => ⟨S8192, .i32⟩
  | 94 => ⟨S8192, .i32⟩
  | 95 => ⟨S8192, .i32⟩
  | 96 => ⟨S8192x1, .i32⟩
  | 97 => ⟨S8192x512, .f32⟩
  | 98 => ⟨S_, .f32⟩
  | 99 => ⟨S_, .f32⟩
  | 100 => ⟨S8192x512, .i1⟩
  | 101 => ⟨S8192x512, .f32⟩
  | 102 => ⟨S8192x512, .f32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S8192x512, .f32⟩
  | 112 => ⟨S1x8192x512, .f32⟩
  | 113 => ⟨S8192x512, .f32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S8192x512, .f32⟩
  | 123 => ⟨S_, .f32⟩
  | 124 => ⟨S_, .f32⟩
  | 125 => ⟨S8192x512, .i1⟩
  | 126 => ⟨S8192x512, .f32⟩
  | 127 => ⟨S8192x512, .f32⟩
  | _ => ⟨S8192x512, .f32⟩

abbrev hbmTy0_1 (i : Nat) : BufTy := match i % 128 with
  | 0 => ⟨S_, .i32⟩
  | 1 => ⟨S8192, .i32⟩
  | 2 => ⟨S8192, .i1⟩
  | 3 => ⟨S_, .i32⟩
  | 4 => ⟨S8192, .i32⟩
  | 5 => ⟨S8192, .i32⟩
  | 6 => ⟨S8192, .i32⟩
  | 7 => ⟨S8192x1, .i32⟩
  | 8 => ⟨S8192x512, .f32⟩
  | 9 => ⟨S_, .i32⟩
  | 10 => ⟨S8192, .i32⟩
  | 11 => ⟨S8192, .i1⟩
  | 12 => ⟨S8192x1, .i1⟩
  | 13 => ⟨S1x8192x512, .f32⟩
  | 14 => ⟨S8192x512, .f32⟩
  | 15 => ⟨S_, .i32⟩
  | 16 => ⟨S8192, .i32⟩
  | 17 => ⟨S8192, .i1⟩
  | 18 => ⟨S_, .i32⟩
  | 19 => ⟨S8192, .i32⟩
  | 20 => ⟨S8192, .i32⟩
  | 21 => ⟨S8192, .i32⟩
  | 22 => ⟨S8192x1, .i32⟩
  | 23 => ⟨S8192x512, .f32⟩
  | 24 => ⟨S_, .f32⟩
  | 25 => ⟨S_, .f32⟩
  | 26 => ⟨S8192x512, .i1⟩
  | 27 => ⟨S8192x512, .f32⟩
  | 28 => ⟨S8192x512, .f32⟩
  | 29 => ⟨S_, .i32⟩
  | 30 => ⟨S8192, .i32⟩
  | 31 => ⟨S8192, .i1⟩
  | 32 => ⟨S_, .i32⟩
  | 33 => ⟨S8192, .i32⟩
  | 34 => ⟨S8192, .i32⟩
  | 35 => ⟨S8192, .i32⟩
  | 36 => ⟨S8192x1, .i32⟩
  | 37 => ⟨S8192x512, .f32⟩
  | 38 => ⟨S1x8192x512, .f32⟩
  | 39 => ⟨S8192x512, .f32⟩
  | 40 => ⟨S_, .i32⟩
  | 41 => ⟨S8192, .i32⟩
  | 42 => ⟨S8192, .i1⟩
  | 43 => ⟨S_, .i32⟩
  | 44 => ⟨S8192, .i32⟩
  | 45 => ⟨S8192, .i32⟩
  | 46 => ⟨S8192, .i32⟩
  | 47 => ⟨S8192x1, .i32⟩
  | 48 => ⟨S8192x512, .f32⟩
  | 49 => ⟨S_, .f32⟩
  | 50 => ⟨S_, .f32⟩
  | 51 => ⟨S8192x512, .i1⟩
  | 52 => ⟨S8192x512, .f32⟩
  | 53 => ⟨S8192x512, .f32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S8192x1, .i32⟩
  | 62 => ⟨S8192x512, .f32⟩
  | 63 => ⟨S_, .i32⟩
  | 64 => ⟨S8192, .i32⟩
  | 65 => ⟨S8192, .i1⟩
  | 66 => ⟨S8192x1, .i1⟩
  | 67 => ⟨S1x8192x512, .f32⟩
  | 68 => ⟨S8192x512, .f32⟩
  | 69 => ⟨S_, .i32⟩
  | 70 => ⟨S8192, .i32⟩
  | 71 => ⟨S8192, .i1⟩
  | 72 => ⟨S_, .i32⟩
  | 73 => ⟨S8192, .i32⟩
  | 74 => ⟨S8192, .i32⟩
  | 75 => ⟨S8192, .i32⟩
  | 76 => ⟨S8192x1, .i32⟩
  | 77 => ⟨S8192x512, .f32⟩
  | 78 => ⟨S_, .f32⟩
  | 79 => ⟨S_, .f32⟩
  | 80 => ⟨S8192x512, .i1⟩
  | 81 => ⟨S8192x512, .f32⟩
  | 82 => ⟨S8192x512, .f32⟩
  | 83 => ⟨S_, .i32⟩
  | 84 => ⟨S8192, .i32⟩
  | 85 => ⟨S8192, .i1⟩
  | 86 => ⟨S_, .i32⟩
  | 87 => ⟨S8192, .i32⟩
  | 88 => ⟨S8192, .i32⟩
  | 89 => ⟨S8192, .i32⟩
  | 90 => ⟨S8192x1, .i32⟩
  | 91 => ⟨S8192x512, .f32⟩
  | 92 => ⟨S1x8192x512, .f32⟩
  | 93 => ⟨S8192x512, .f32⟩
  | 94 => ⟨S_, .i32⟩
  | 95 => ⟨S8192, .i32⟩
  | 96 => ⟨S8192, .i1⟩
  | 97 => ⟨S_, .i32⟩
  | 98 => ⟨S8192, .i32⟩
  | 99 => ⟨S8192, .i32⟩
  | 100 => ⟨S8192, .i32⟩
  | 101 => ⟨S8192x1, .i32⟩
  | 102 => ⟨S8192x512, .f32⟩
  | 103 => ⟨S_, .f32⟩
  | 104 => ⟨S_, .f32⟩
  | 105 => ⟨S8192x512, .i1⟩
  | 106 => ⟨S8192x512, .f32⟩
  | 107 => ⟨S8192x512, .f32⟩
  | 108 => ⟨S_, .i32⟩
  | 109 => ⟨S8192, .i32⟩
  | 110 => ⟨S8192, .i1⟩
  | 111 => ⟨S_, .i32⟩
  | 112 => ⟨S8192, .i32⟩
  | 113 => ⟨S8192, .i32⟩
  | 114 => ⟨S8192, .i32⟩
  | 115 => ⟨S8192x1, .i32⟩
  | 116 => ⟨S8192x512, .f32⟩
  | 117 => ⟨S_, .i32⟩
  | 118 => ⟨S8192, .i32⟩
  | 119 => ⟨S8192, .i1⟩
  | 120 => ⟨S8192x1, .i1⟩
  | 121 => ⟨S1x8192x512, .f32⟩
  | 122 => ⟨S8192x512, .f32⟩
  | 123 => ⟨S_, .i32⟩
  | 124 => ⟨S8192, .i32⟩
  | 125 => ⟨S8192, .i1⟩
  | 126 => ⟨S_, .i32⟩
  | 127 => ⟨S8192, .i32⟩
  | _ => ⟨S8192x512, .f32⟩

abbrev hbmTy0_2 (i : Nat) : BufTy := match i % 128 with
  | 0 => ⟨S8192, .i32⟩
  | 1 => ⟨S8192, .i32⟩
  | 2 => ⟨S8192x1, .i32⟩
  | 3 => ⟨S8192x512, .f32⟩
  | 4 => ⟨S_, .f32⟩
  | 5 => ⟨S_, .f32⟩
  | 6 => ⟨S8192x512, .i1⟩
  | 7 => ⟨S8192x512, .f32⟩
  | 8 => ⟨S8192x512, .f32⟩
  | 9 => ⟨S_, .i32⟩
  | 10 => ⟨S8192, .i32⟩
  | 11 => ⟨S8192, .i1⟩
  | 12 => ⟨S_, .i32⟩
  | 13 => ⟨S8192, .i32⟩
  | 14 => ⟨S8192, .i32⟩
  | 15 => ⟨S8192, .i32⟩
  | 16 => ⟨S8192x1, .i32⟩
  | 17 => ⟨S8192x512, .f32⟩
  | 18 => ⟨S1x8192x512, .f32⟩
  | 19 => ⟨S8192x512, .f32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192x512, .f32⟩
  | 29 => ⟨S_, .f32⟩
  | 30 => ⟨S_, .f32⟩
  | 31 => ⟨S8192x512, .i1⟩
  | 32 => ⟨S8192x512, .f32⟩
  | 33 => ⟨S8192x512, .f32⟩
  | 34 => ⟨S_, .i32⟩
  | 35 => ⟨S8192, .i32⟩
  | 36 => ⟨S8192, .i1⟩
  | 37 => ⟨S_, .i32⟩
  | 38 => ⟨S8192, .i32⟩
  | 39 => ⟨S8192, .i32⟩
  | 40 => ⟨S8192, .i32⟩
  | 41 => ⟨S8192x1, .i32⟩
  | 42 => ⟨S8192x512, .f32⟩
  | 43 => ⟨S_, .i32⟩
  | 44 => ⟨S8192, .i32⟩
  | 45 => ⟨S8192, .i1⟩
  | 46 => ⟨S8192x1, .i1⟩
  | 47 => ⟨S1x8192x512, .f32⟩
  | 48 => ⟨S8192x512, .f32⟩
  | 49 => ⟨S_, .i32⟩
  | 50 => ⟨S8192, .i32⟩
  | 51 => ⟨S8192, .i1⟩
  | 52 => ⟨S_, .i32⟩
  | 53 => ⟨S8192, .i32⟩
  | 54 => ⟨S8192, .i32⟩
  | 55 => ⟨S8192, .i32⟩
  | 56 => ⟨S8192x1, .i32⟩
  | 57 => ⟨S8192x512, .f32⟩
  | 58 => ⟨S_, .f32⟩
  | 59 => ⟨S_, .f32⟩
  | 60 => ⟨S8192x512, .i1⟩
  | 61 => ⟨S8192x512, .f32⟩
  | 62 => ⟨S8192x512, .f32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S8192x512, .f32⟩
  | 72 => ⟨S1x8192x512, .f32⟩
  | 73 => ⟨S8192x512, .f32⟩
  | 74 => ⟨S_, .i32⟩
  | 75 => ⟨S8192, .i32⟩
  | 76 => ⟨S8192, .i1⟩
  | 77 => ⟨S_, .i32⟩
  | 78 => ⟨S8192, .i32⟩
  | 79 => ⟨S8192, .i32⟩
  | 80 => ⟨S8192, .i32⟩
  | 81 => ⟨S8192x1, .i32⟩
  | 82 => ⟨S8192x512, .f32⟩
  | 83 => ⟨S_, .f32⟩
  | 84 => ⟨S_, .f32⟩
  | 85 => ⟨S8192x512, .i1⟩
  | 86 => ⟨S8192x512, .f32⟩
  | 87 => ⟨S8192x512, .f32⟩
  | 88 => ⟨S_, .i32⟩
  | 89 => ⟨S8192, .i32⟩
  | 90 => ⟨S8192, .i1⟩
  | 91 => ⟨S_, .i32⟩
  | 92 => ⟨S8192, .i32⟩
  | 93 => ⟨S8192, .i32⟩
  | 94 => ⟨S8192, .i32⟩
  | 95 => ⟨S8192x1, .i32⟩
  | 96 => ⟨S8192x512, .f32⟩
  | 97 => ⟨S_, .i32⟩
  | 98 => ⟨S8192, .i32⟩
  | 99 => ⟨S8192, .i1⟩
  | 100 => ⟨S8192x1, .i1⟩
  | 101 => ⟨S1x8192x512, .f32⟩
  | 102 => ⟨S8192x512, .f32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S8192x1, .i32⟩
  | 111 => ⟨S8192x512, .f32⟩
  | 112 => ⟨S_, .f32⟩
  | 113 => ⟨S_, .f32⟩
  | 114 => ⟨S8192x512, .i1⟩
  | 115 => ⟨S8192x512, .f32⟩
  | 116 => ⟨S8192x512, .f32⟩
  | 117 => ⟨S_, .i32⟩
  | 118 => ⟨S8192, .i32⟩
  | 119 => ⟨S8192, .i1⟩
  | 120 => ⟨S_, .i32⟩
  | 121 => ⟨S8192, .i32⟩
  | 122 => ⟨S8192, .i32⟩
  | 123 => ⟨S8192, .i32⟩
  | 124 => ⟨S8192x1, .i32⟩
  | 125 => ⟨S8192x512, .f32⟩
  | 126 => ⟨S1x8192x512, .f32⟩
  | 127 => ⟨S8192x512, .f32⟩
  | _ => ⟨S8192x512, .f32⟩

abbrev hbmTy0_3 (i : Nat) : BufTy := match i % 128 with
  | 0 => ⟨S_, .i32⟩
  | 1 => ⟨S8192, .i32⟩
  | 2 => ⟨S8192, .i1⟩
  | 3 => ⟨S_, .i32⟩
  | 4 => ⟨S8192, .i32⟩
  | 5 => ⟨S8192, .i32⟩
  | 6 => ⟨S8192, .i32⟩
  | 7 => ⟨S8192x1, .i32⟩
  | 8 => ⟨S8192x512, .f32⟩
  | 9 => ⟨S_, .f32⟩
  | 10 => ⟨S_, .f32⟩
  | 11 => ⟨S8192x512, .i1⟩
  | 12 => ⟨S8192x512, .f32⟩
  | 13 => ⟨S8192x512, .f32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192x512, .f32⟩
  | 23 => ⟨S_, .i32⟩
  | 24 => ⟨S8192, .i32⟩
  | 25 => ⟨S8192, .i1⟩
  | 26 => ⟨S8192x1, .i1⟩
  | 27 => ⟨S1x8192x512, .f32⟩
  | 28 => ⟨S8192x512, .f32⟩
  | 29 => ⟨S_, .i32⟩
  | 30 => ⟨S8192, .i32⟩
  | 31 => ⟨S8192, .i1⟩
  | 32 => ⟨S_, .i32⟩
  | 33 => ⟨S8192, .i32⟩
  | 34 => ⟨S8192, .i32⟩
  | 35 => ⟨S8192, .i32⟩
  | 36 => ⟨S8192x1, .i32⟩
  | 37 => ⟨S8192x512, .f32⟩
  | 38 => ⟨S_, .f32⟩
  | 39 => ⟨S_, .f32⟩
  | 40 => ⟨S8192x512, .i1⟩
  | 41 => ⟨S8192x512, .f32⟩
  | 42 => ⟨S8192x512, .f32⟩
  | 43 => ⟨S_, .i32⟩
  | 44 => ⟨S8192, .i32⟩
  | 45 => ⟨S8192, .i1⟩
  | 46 => ⟨S_, .i32⟩
  | 47 => ⟨S8192, .i32⟩
  | 48 => ⟨S8192, .i32⟩
  | 49 => ⟨S8192, .i32⟩
  | 50 => ⟨S8192x1, .i32⟩
  | 51 => ⟨S8192x512, .f32⟩
  | 52 => ⟨S1x8192x512, .f32⟩
  | 53 => ⟨S8192x512, .f32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S8192x1, .i32⟩
  | 62 => ⟨S8192x512, .f32⟩
  | 63 => ⟨S_, .f32⟩
  | 64 => ⟨S_, .f32⟩
  | 65 => ⟨S8192x512, .i1⟩
  | 66 => ⟨S8192x512, .f32⟩
  | 67 => ⟨S8192x512, .f32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192x512, .f32⟩
  | 77 => ⟨S_, .i32⟩
  | 78 => ⟨S8192, .i32⟩
  | 79 => ⟨S8192, .i1⟩
  | 80 => ⟨S8192x1, .i1⟩
  | 81 => ⟨S1x8192x512, .f32⟩
  | 82 => ⟨S8192x512, .f32⟩
  | 83 => ⟨S_, .i32⟩
  | 84 => ⟨S8192, .i32⟩
  | 85 => ⟨S8192, .i1⟩
  | 86 => ⟨S_, .i32⟩
  | 87 => ⟨S8192, .i32⟩
  | 88 => ⟨S8192, .i32⟩
  | 89 => ⟨S8192, .i32⟩
  | 90 => ⟨S8192x1, .i32⟩
  | 91 => ⟨S8192x512, .f32⟩
  | 92 => ⟨S_, .f32⟩
  | 93 => ⟨S_, .f32⟩
  | 94 => ⟨S8192x512, .i1⟩
  | 95 => ⟨S8192x512, .f32⟩
  | 96 => ⟨S8192x512, .f32⟩
  | 97 => ⟨S_, .i32⟩
  | 98 => ⟨S8192, .i32⟩
  | 99 => ⟨S8192, .i1⟩
  | 100 => ⟨S_, .i32⟩
  | 101 => ⟨S8192, .i32⟩
  | 102 => ⟨S8192, .i32⟩
  | 103 => ⟨S8192, .i32⟩
  | 104 => ⟨S8192x1, .i32⟩
  | 105 => ⟨S8192x512, .f32⟩
  | 106 => ⟨S1x8192x512, .f32⟩
  | 107 => ⟨S8192x512, .f32⟩
  | 108 => ⟨S_, .i32⟩
  | 109 => ⟨S8192, .i32⟩
  | 110 => ⟨S8192, .i1⟩
  | 111 => ⟨S_, .i32⟩
  | 112 => ⟨S8192, .i32⟩
  | 113 => ⟨S8192, .i32⟩
  | 114 => ⟨S8192, .i32⟩
  | 115 => ⟨S8192x1, .i32⟩
  | 116 => ⟨S8192x512, .f32⟩
  | 117 => ⟨S_, .f32⟩
  | 118 => ⟨S_, .f32⟩
  | 119 => ⟨S8192x512, .i1⟩
  | 120 => ⟨S8192x512, .f32⟩
  | 121 => ⟨S8192x512, .f32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S8192x512, .f32⟩

abbrev hbmTy0_4 (i : Nat) : BufTy := match i % 128 with
  | 0 => ⟨S8192, .i32⟩
  | 1 => ⟨S8192x1, .i32⟩
  | 2 => ⟨S8192x512, .f32⟩
  | 3 => ⟨S_, .i32⟩
  | 4 => ⟨S8192, .i32⟩
  | 5 => ⟨S8192, .i1⟩
  | 6 => ⟨S8192x1, .i1⟩
  | 7 => ⟨S1x8192x512, .f32⟩
  | 8 => ⟨S8192x512, .f32⟩
  | 9 => ⟨S_, .i32⟩
  | 10 => ⟨S8192, .i32⟩
  | 11 => ⟨S8192, .i1⟩
  | 12 => ⟨S_, .i32⟩
  | 13 => ⟨S8192, .i32⟩
  | 14 => ⟨S8192, .i32⟩
  | 15 => ⟨S8192, .i32⟩
  | 16 => ⟨S8192x1, .i32⟩
  | 17 => ⟨S8192x512, .f32⟩
  | 18 => ⟨S_, .f32⟩
  | 19 => ⟨S_, .f32⟩
  | 20 => ⟨S8192x512, .i1⟩
  | 21 => ⟨S8192x512, .f32⟩
  | 22 => ⟨S8192x512, .f32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S8192x512, .f32⟩
  | 32 => ⟨S1x8192x512, .f32⟩
  | 33 => ⟨S8192x512, .f32⟩
  | 34 => ⟨S_, .i32⟩
  | 35 => ⟨S8192, .i32⟩
  | 36 => ⟨S8192, .i1⟩
  | 37 => ⟨S_, .i32⟩
  | 38 => ⟨S8192, .i32⟩
  | 39 => ⟨S8192, .i32⟩
  | 40 => ⟨S8192, .i32⟩
  | 41 => ⟨S8192x1, .i32⟩
  | 42 => ⟨S8192x512, .f32⟩
  | 43 => ⟨S_, .f32⟩
  | 44 => ⟨S_, .f32⟩
  | 45 => ⟨S8192x512, .i1⟩
  | 46 => ⟨S8192x512, .f32⟩
  | 47 => ⟨S8192x512, .f32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S8192x512, .f32⟩
  | 57 => ⟨S_, .i32⟩
  | 58 => ⟨S8192, .i32⟩
  | 59 => ⟨S8192, .i1⟩
  | 60 => ⟨S8192x1, .i1⟩
  | 61 => ⟨S1x8192x512, .f32⟩
  | 62 => ⟨S8192x512, .f32⟩
  | 63 => ⟨S_, .i32⟩
  | 64 => ⟨S8192, .i32⟩
  | 65 => ⟨S8192, .i1⟩
  | 66 => ⟨S_, .i32⟩
  | 67 => ⟨S8192, .i32⟩
  | 68 => ⟨S8192, .i32⟩
  | 69 => ⟨S8192, .i32⟩
  | 70 => ⟨S8192x1, .i32⟩
  | 71 => ⟨S8192x512, .f32⟩
  | 72 => ⟨S_, .f32⟩
  | 73 => ⟨S_, .f32⟩
  | 74 => ⟨S8192x512, .i1⟩
  | 75 => ⟨S8192x512, .f32⟩
  | 76 => ⟨S8192x512, .f32⟩
  | 77 => ⟨S_, .i32⟩
  | 78 => ⟨S8192, .i32⟩
  | 79 => ⟨S8192, .i1⟩
  | 80 => ⟨S_, .i32⟩
  | 81 => ⟨S8192, .i32⟩
  | 82 => ⟨S8192, .i32⟩
  | 83 => ⟨S8192, .i32⟩
  | 84 => ⟨S8192x1, .i32⟩
  | 85 => ⟨S8192x512, .f32⟩
  | 86 => ⟨S1x8192x512, .f32⟩
  | 87 => ⟨S8192x512, .f32⟩
  | 88 => ⟨S_, .i32⟩
  | 89 => ⟨S8192, .i32⟩
  | 90 => ⟨S8192, .i1⟩
  | 91 => ⟨S_, .i32⟩
  | 92 => ⟨S8192, .i32⟩
  | 93 => ⟨S8192, .i32⟩
  | 94 => ⟨S8192, .i32⟩
  | 95 => ⟨S8192x1, .i32⟩
  | 96 => ⟨S8192x512, .f32⟩
  | 97 => ⟨S_, .f32⟩
  | 98 => ⟨S_, .f32⟩
  | 99 => ⟨S8192x512, .i1⟩
  | 100 => ⟨S8192x512, .f32⟩
  | 101 => ⟨S8192x512, .f32⟩
  | 102 => ⟨S_, .i32⟩
  | 103 => ⟨S8192, .i32⟩
  | 104 => ⟨S8192, .i1⟩
  | 105 => ⟨S_, .i32⟩
  | 106 => ⟨S8192, .i32⟩
  | 107 => ⟨S8192, .i32⟩
  | 108 => ⟨S8192, .i32⟩
  | 109 => ⟨S8192x1, .i32⟩
  | 110 => ⟨S8192x512, .f32⟩
  | 111 => ⟨S_, .i32⟩
  | 112 => ⟨S8192, .i32⟩
  | 113 => ⟨S8192, .i1⟩
  | 114 => ⟨S8192x1, .i1⟩
  | 115 => ⟨S1x8192x512, .f32⟩
  | 116 => ⟨S8192x512, .f32⟩
  | 117 => ⟨S_, .i32⟩
  | 118 => ⟨S8192, .i32⟩
  | 119 => ⟨S8192, .i1⟩
  | 120 => ⟨S_, .i32⟩
  | 121 => ⟨S8192, .i32⟩
  | 122 => ⟨S8192, .i32⟩
  | 123 => ⟨S8192, .i32⟩
  | 124 => ⟨S8192x1, .i32⟩
  | 125 => ⟨S8192x512, .f32⟩
  | 126 => ⟨S_, .f32⟩
  | 127 => ⟨S_, .f32⟩
  | _ => ⟨S8192x512, .f32⟩

abbrev hbmTy0_5 (i : Nat) : BufTy := match i % 128 with
  | 0 => ⟨S8192x512, .i1⟩
  | 1 => ⟨S8192x512, .f32⟩
  | 2 => ⟨S8192x512, .f32⟩
  | 3 => ⟨S_, .i32⟩
  | 4 => ⟨S8192, .i32⟩
  | 5 => ⟨S8192, .i1⟩
  | 6 => ⟨S_, .i32⟩
  | 7 => ⟨S8192, .i32⟩
  | 8 => ⟨S8192, .i32⟩
  | 9 => ⟨S8192, .i32⟩
  | 10 => ⟨S8192x1, .i32⟩
  | 11 => ⟨S8192x512, .f32⟩
  | 12 => ⟨S1x8192x512, .f32⟩
  | 13 => ⟨S8192x512, .f32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192x512, .f32⟩
  | 23 => ⟨S_, .f32⟩
  | 24 => ⟨S_, .f32⟩
  | 25 => ⟨S8192x512, .i1⟩
  | 26 => ⟨S8192x512, .f32⟩
  | 27 => ⟨S8192x512, .f32⟩
  | 28 => ⟨S_, .i32⟩
  | 29 => ⟨S8192, .i32⟩
  | 30 => ⟨S8192, .i1⟩
  | 31 => ⟨S_, .i32⟩
  | 32 => ⟨S8192, .i32⟩
  | 33 => ⟨S8192, .i32⟩
  | 34 => ⟨S8192, .i32⟩
  | 35 => ⟨S8192x1, .i32⟩
  | 36 => ⟨S8192x512, .f32⟩
  | 37 => ⟨S_, .i32⟩
  | 38 => ⟨S8192, .i32⟩
  | 39 => ⟨S8192, .i1⟩
  | 40 => ⟨S8192x1, .i1⟩
  | 41 => ⟨S1x8192x512, .f32⟩
  | 42 => ⟨S8192x512, .f32⟩
  | 43 => ⟨S_, .i32⟩
  | 44 => ⟨S8192, .i32⟩
  | 45 => ⟨S8192, .i1⟩
  | 46 => ⟨S_, .i32⟩
  | 47 => ⟨S8192, .i32⟩
  | 48 => ⟨S8192, .i32⟩
  | 49 => ⟨S8192, .i32⟩
  | 50 => ⟨S8192x1, .i32⟩
  | 51 => ⟨S8192x512, .f32⟩
  | 52 => ⟨S_, .f32⟩
  | 53 => ⟨S_, .f32⟩
  | 54 => ⟨S8192x512, .i1⟩
  | 55 => ⟨S8192x512, .f32⟩
  | 56 => ⟨S8192x512, .f32⟩
  | 57 => ⟨S_, .i32⟩
  | 58 => ⟨S8192, .i32⟩
  | 59 => ⟨S8192, .i1⟩
  | 60 => ⟨S_, .i32⟩
  | 61 => ⟨S8192, .i32⟩
  | 62 => ⟨S8192, .i32⟩
  | 63 => ⟨S8192, .i32⟩
  | 64 => ⟨S8192x1, .i32⟩
  | 65 => ⟨S8192x512, .f32⟩
  | 66 => ⟨S1x8192x512, .f32⟩
  | 67 => ⟨S8192x512, .f32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192x512, .f32⟩
  | 77 => ⟨S_, .f32⟩
  | 78 => ⟨S_, .f32⟩
  | 79 => ⟨S8192x512, .i1⟩
  | 80 => ⟨S8192x512, .f32⟩
  | 81 => ⟨S8192x512, .f32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S8192x512, .f32⟩
  | 91 => ⟨S_, .i32⟩
  | 92 => ⟨S8192, .i32⟩
  | 93 => ⟨S8192, .i1⟩
  | 94 => ⟨S8192x1, .i1⟩
  | 95 => ⟨S1x8192x512, .f32⟩
  | 96 => ⟨S8192x512, .f32⟩
  | 97 => ⟨S_, .i32⟩
  | 98 => ⟨S8192, .i32⟩
  | 99 => ⟨S8192, .i1⟩
  | 100 => ⟨S_, .i32⟩
  | 101 => ⟨S8192, .i32⟩
  | 102 => ⟨S8192, .i32⟩
  | 103 => ⟨S8192, .i32⟩
  | 104 => ⟨S8192x1, .i32⟩
  | 105 => ⟨S8192x512, .f32⟩
  | 106 => ⟨S_, .f32⟩
  | 107 => ⟨S_, .f32⟩
  | 108 => ⟨S8192x512, .i1⟩
  | 109 => ⟨S8192x512, .f32⟩
  | 110 => ⟨S8192x512, .f32⟩
  | 111 => ⟨S_, .i32⟩
  | 112 => ⟨S8192, .i32⟩
  | 113 => ⟨S8192, .i1⟩
  | 114 => ⟨S_, .i32⟩
  | 115 => ⟨S8192, .i32⟩
  | 116 => ⟨S8192, .i32⟩
  | 117 => ⟨S8192, .i32⟩
  | 118 => ⟨S8192x1, .i32⟩
  | 119 => ⟨S8192x512, .f32⟩
  | 120 => ⟨S1x8192x512, .f32⟩
  | 121 => ⟨S8192x512, .f32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S8192x512, .f32⟩

abbrev hbmTy0_6 (i : Nat) : BufTy := match i % 128 with
  | 0 => ⟨S8192, .i32⟩
  | 1 => ⟨S8192x1, .i32⟩
  | 2 => ⟨S8192x512, .f32⟩
  | 3 => ⟨S_, .f32⟩
  | 4 => ⟨S_, .f32⟩
  | 5 => ⟨S8192x512, .i1⟩
  | 6 => ⟨S8192x512, .f32⟩
  | 7 => ⟨S8192x512, .f32⟩
  | 8 => ⟨S_, .i32⟩
  | 9 => ⟨S8192, .i32⟩
  | 10 => ⟨S8192, .i1⟩
  | 11 => ⟨S_, .i32⟩
  | 12 => ⟨S8192, .i32⟩
  | 13 => ⟨S8192, .i32⟩
  | 14 => ⟨S8192, .i32⟩
  | 15 => ⟨S8192x1, .i32⟩
  | 16 => ⟨S8192x512, .f32⟩
  | 17 => ⟨S_, .i32⟩
  | 18 => ⟨S8192, .i32⟩
  | 19 => ⟨S8192, .i1⟩
  | 20 => ⟨S8192x1, .i1⟩
  | 21 => ⟨S1x8192x512, .f32⟩
  | 22 => ⟨S8192x512, .f32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S8192x512, .f32⟩
  | 32 => ⟨S_, .f32⟩
  | 33 => ⟨S_, .f32⟩
  | 34 => ⟨S8192x512, .i1⟩
  | 35 => ⟨S8192x512, .f32⟩
  | 36 => ⟨S8192x512, .f32⟩
  | 37 => ⟨S_, .i32⟩
  | 38 => ⟨S8192, .i32⟩
  | 39 => ⟨S8192, .i1⟩
  | 40 => ⟨S_, .i32⟩
  | 41 => ⟨S8192, .i32⟩
  | 42 => ⟨S8192, .i32⟩
  | 43 => ⟨S8192, .i32⟩
  | 44 => ⟨S8192x1, .i32⟩
  | 45 => ⟨S8192x512, .f32⟩
  | 46 => ⟨S1x8192x512, .f32⟩
  | 47 => ⟨S8192x512, .f32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S8192x512, .f32⟩
  | 57 => ⟨S_, .f32⟩
  | 58 => ⟨S_, .f32⟩
  | 59 => ⟨S8192x512, .i1⟩
  | 60 => ⟨S8192x512, .f32⟩
  | 61 => ⟨S8192x512, .f32⟩
  | 62 => ⟨S_, .i32⟩
  | 63 => ⟨S8192, .i32⟩
  | 64 => ⟨S8192, .i1⟩
  | 65 => ⟨S_, .i32⟩
  | 66 => ⟨S8192, .i32⟩
  | 67 => ⟨S8192, .i32⟩
  | 68 => ⟨S8192, .i32⟩
  | 69 => ⟨S8192x1, .i32⟩
  | 70 => ⟨S8192x512, .f32⟩
  | 71 => ⟨S_, .i32⟩
  | 72 => ⟨S8192, .i32⟩
  | 73 => ⟨S8192, .i1⟩
  | 74 => ⟨S8192x1, .i1⟩
  | 75 => ⟨S1x8192x512, .f32⟩
  | 76 => ⟨S8192x512, .f32⟩
  | 77 => ⟨S_, .i32⟩
  | 78 => ⟨S8192, .i32⟩
  | 79 => ⟨S8192, .i1⟩
  | 80 => ⟨S_, .i32⟩
  | 81 => ⟨S8192, .i32⟩
  | 82 => ⟨S8192, .i32⟩
  | 83 => ⟨S8192, .i32⟩
  | 84 => ⟨S8192x1, .i32⟩
  | 85 => ⟨S8192x512, .f32⟩
  | 86 => ⟨S_, .f32⟩
  | 87 => ⟨S_, .f32⟩
  | 88 => ⟨S8192x512, .i1⟩
  | 89 => ⟨S8192x512, .f32⟩
  | 90 => ⟨S8192x512, .f32⟩
  | 91 => ⟨S_, .i32⟩
  | 92 => ⟨S8192, .i32⟩
  | 93 => ⟨S8192, .i1⟩
  | 94 => ⟨S_, .i32⟩
  | 95 => ⟨S8192, .i32⟩
  | 96 => ⟨S8192, .i32⟩
  | 97 => ⟨S8192, .i32⟩
  | 98 => ⟨S8192x1, .i32⟩
  | 99 => ⟨S8192x512, .f32⟩
  | 100 => ⟨S1x8192x512, .f32⟩
  | 101 => ⟨S8192x512, .f32⟩
  | 102 => ⟨S_, .i32⟩
  | 103 => ⟨S8192, .i32⟩
  | 104 => ⟨S8192, .i1⟩
  | 105 => ⟨S_, .i32⟩
  | 106 => ⟨S8192, .i32⟩
  | 107 => ⟨S8192, .i32⟩
  | 108 => ⟨S8192, .i32⟩
  | 109 => ⟨S8192x1, .i32⟩
  | 110 => ⟨S8192x512, .f32⟩
  | 111 => ⟨S_, .f32⟩
  | 112 => ⟨S_, .f32⟩
  | 113 => ⟨S8192x512, .i1⟩
  | 114 => ⟨S8192x512, .f32⟩
  | 115 => ⟨S8192x512, .f32⟩
  | 116 => ⟨S_, .i32⟩
  | 117 => ⟨S8192, .i32⟩
  | 118 => ⟨S8192, .i1⟩
  | 119 => ⟨S_, .i32⟩
  | 120 => ⟨S8192, .i32⟩
  | 121 => ⟨S8192, .i32⟩
  | 122 => ⟨S8192, .i32⟩
  | 123 => ⟨S8192x1, .i32⟩
  | 124 => ⟨S8192x512, .f32⟩
  | 125 => ⟨S_, .i32⟩
  | 126 => ⟨S8192, .i32⟩
  | 127 => ⟨S8192, .i1⟩
  | _ => ⟨S8192x512, .f32⟩

abbrev hbmTy0_7 (i : Nat) : BufTy := match i % 128 with
  | 0 => ⟨S8192x1, .i1⟩
  | 1 => ⟨S1x8192x512, .f32⟩
  | 2 => ⟨S8192x512, .f32⟩
  | 3 => ⟨S_, .i32⟩
  | 4 => ⟨S8192, .i32⟩
  | 5 => ⟨S8192, .i1⟩
  | 6 => ⟨S_, .i32⟩
  | 7 => ⟨S8192, .i32⟩
  | 8 => ⟨S8192, .i32⟩
  | 9 => ⟨S8192, .i32⟩
  | 10 => ⟨S8192x1, .i32⟩
  | 11 => ⟨S8192x512, .f32⟩
  | 12 => ⟨S_, .f32⟩
  | 13 => ⟨S_, .f32⟩
  | 14 => ⟨S8192x512, .i1⟩
  | 15 => ⟨S8192x512, .f32⟩
  | 16 => ⟨S8192x512, .f32⟩
  | 17 => ⟨S_, .i32⟩
  | 18 => ⟨S8192, .i32⟩
  | 19 => ⟨S8192, .i1⟩
  | 20 => ⟨S_, .i32⟩
  | 21 => ⟨S8192, .i32⟩
  | 22 => ⟨S8192, .i32⟩
  | 23 => ⟨S8192, .i32⟩
  | 24 => ⟨S8192x1, .i32⟩
  | 25 => ⟨S8192x512, .f32⟩
  | 26 => ⟨S1x8192x512, .f32⟩
  | 27 => ⟨S8192x512, .f32⟩
  | 28 => ⟨S_, .i32⟩
  | 29 => ⟨S8192, .i32⟩
  | 30 => ⟨S8192, .i1⟩
  | 31 => ⟨S_, .i32⟩
  | 32 => ⟨S8192, .i32⟩
  | 33 => ⟨S8192, .i32⟩
  | 34 => ⟨S8192, .i32⟩
  | 35 => ⟨S8192x1, .i32⟩
  | 36 => ⟨S8192x512, .f32⟩
  | 37 => ⟨S_, .f32⟩
  | 38 => ⟨S_, .f32⟩
  | 39 => ⟨S8192x512, .i1⟩
  | 40 => ⟨S8192x512, .f32⟩
  | 41 => ⟨S8192x512, .f32⟩
  | 42 => ⟨S_, .i32⟩
  | 43 => ⟨S8192, .i32⟩
  | 44 => ⟨S8192, .i1⟩
  | 45 => ⟨S_, .i32⟩
  | 46 => ⟨S8192, .i32⟩
  | 47 => ⟨S8192, .i32⟩
  | 48 => ⟨S8192, .i32⟩
  | 49 => ⟨S8192x1, .i32⟩
  | 50 => ⟨S8192x512, .f32⟩
  | 51 => ⟨S_, .i32⟩
  | 52 => ⟨S8192, .i32⟩
  | 53 => ⟨S8192, .i1⟩
  | 54 => ⟨S8192x1, .i1⟩
  | 55 => ⟨S1x8192x512, .f32⟩
  | 56 => ⟨S8192x512, .f32⟩
  | 57 => ⟨S_, .i32⟩
  | 58 => ⟨S8192, .i32⟩
  | 59 => ⟨S8192, .i1⟩
  | 60 => ⟨S_, .i32⟩
  | 61 => ⟨S8192, .i32⟩
  | 62 => ⟨S8192, .i32⟩
  | 63 => ⟨S8192, .i32⟩
  | 64 => ⟨S8192x1, .i32⟩
  | 65 => ⟨S8192x512, .f32⟩
  | 66 => ⟨S_, .f32⟩
  | 67 => ⟨S_, .f32⟩
  | 68 => ⟨S8192x512, .i1⟩
  | 69 => ⟨S8192x512, .f32⟩
  | 70 => ⟨S8192x512, .f32⟩
  | 71 => ⟨S_, .i32⟩
  | 72 => ⟨S8192, .i32⟩
  | 73 => ⟨S8192, .i1⟩
  | 74 => ⟨S_, .i32⟩
  | 75 => ⟨S8192, .i32⟩
  | 76 => ⟨S8192, .i32⟩
  | 77 => ⟨S8192, .i32⟩
  | 78 => ⟨S8192x1, .i32⟩
  | 79 => ⟨S8192x512, .f32⟩
  | 80 => ⟨S1x8192x512, .f32⟩
  | 81 => ⟨S8192x512, .f32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S8192x512, .f32⟩
  | 91 => ⟨S_, .f32⟩
  | 92 => ⟨S_, .f32⟩
  | 93 => ⟨S8192x512, .i1⟩
  | 94 => ⟨S8192x512, .f32⟩
  | 95 => ⟨S8192x512, .f32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S8192x1, .i32⟩
  | 104 => ⟨S8192x512, .f32⟩
  | 105 => ⟨S_, .i32⟩
  | 106 => ⟨S8192, .i32⟩
  | 107 => ⟨S8192, .i1⟩
  | 108 => ⟨S8192x1, .i1⟩
  | 109 => ⟨S1x8192x512, .f32⟩
  | 110 => ⟨S8192x512, .f32⟩
  | 111 => ⟨S_, .i32⟩
  | 112 => ⟨S8192, .i32⟩
  | 113 => ⟨S8192, .i1⟩
  | 114 => ⟨S_, .i32⟩
  | 115 => ⟨S8192, .i32⟩
  | 116 => ⟨S8192, .i32⟩
  | 117 => ⟨S8192, .i32⟩
  | 118 => ⟨S8192x1, .i32⟩
  | 119 => ⟨S8192x512, .f32⟩
  | 120 => ⟨S_, .f32⟩
  | 121 => ⟨S_, .f32⟩
  | 122 => ⟨S8192x512, .i1⟩
  | 123 => ⟨S8192x512, .f32⟩
  | 124 => ⟨S8192x512, .f32⟩
  | 125 => ⟨S_, .i32⟩
  | 126 => ⟨S8192, .i32⟩
  | 127 => ⟨S8192, .i1⟩
  | _ => ⟨S8192x512, .f32⟩

abbrev hbmTy0_8 (i : Nat) : BufTy := match i % 128 with
  | 0 => ⟨S_, .i32⟩
  | 1 => ⟨S8192, .i32⟩
  | 2 => ⟨S8192, .i32⟩
  | 3 => ⟨S8192, .i32⟩
  | 4 => ⟨S8192x1, .i32⟩
  | 5 => ⟨S8192x512, .f32⟩
  | 6 => ⟨S1x8192x512, .f32⟩
  | 7 => ⟨S8192x512, .f32⟩
  | 8 => ⟨S_, .i32⟩
  | 9 => ⟨S8192, .i32⟩
  | 10 => ⟨S8192, .i1⟩
  | 11 => ⟨S_, .i32⟩
  | 12 => ⟨S8192, .i32⟩
  | 13 => ⟨S8192, .i32⟩
  | 14 => ⟨S8192, .i32⟩
  | 15 => ⟨S8192x1, .i32⟩
  | 16 => ⟨S8192x512, .f32⟩
  | 17 => ⟨S_, .f32⟩
  | 18 => ⟨S_, .f32⟩
  | 19 => ⟨S8192x512, .i1⟩
  | 20 => ⟨S8192x512, .f32⟩
  | 21 => ⟨S8192x512, .f32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S8192x1, .i32⟩
  | 30 => ⟨S8192x512, .f32⟩
  | 31 => ⟨S_, .i32⟩
  | 32 => ⟨S8192, .i32⟩
  | 33 => ⟨S8192, .i1⟩
  | 34 => ⟨S8192x1, .i1⟩
  | 35 => ⟨S1x8192x512, .f32⟩
  | 36 => ⟨S8192x512, .f32⟩
  | 37 => ⟨S_, .i32⟩
  | 38 => ⟨S8192, .i32⟩
  | 39 => ⟨S8192, .i1⟩
  | 40 => ⟨S_, .i32⟩
  | 41 => ⟨S8192, .i32⟩
  | 42 => ⟨S8192, .i32⟩
  | 43 => ⟨S8192, .i32⟩
  | 44 => ⟨S8192x1, .i32⟩
  | 45 => ⟨S8192x512, .f32⟩
  | 46 => ⟨S_, .f32⟩
  | 47 => ⟨S_, .f32⟩
  | 48 => ⟨S8192x512, .i1⟩
  | 49 => ⟨S8192x512, .f32⟩
  | 50 => ⟨S8192x512, .f32⟩
  | 51 => ⟨S_, .i32⟩
  | 52 => ⟨S8192, .i32⟩
  | 53 => ⟨S8192, .i1⟩
  | 54 => ⟨S_, .i32⟩
  | 55 => ⟨S8192, .i32⟩
  | 56 => ⟨S8192, .i32⟩
  | 57 => ⟨S8192, .i32⟩
  | 58 => ⟨S8192x1, .i32⟩
  | 59 => ⟨S8192x512, .f32⟩
  | 60 => ⟨S1x8192x512, .f32⟩
  | 61 => ⟨S8192x512, .f32⟩
  | 62 => ⟨S_, .i32⟩
  | 63 => ⟨S8192, .i32⟩
  | 64 => ⟨S8192, .i1⟩
  | 65 => ⟨S_, .i32⟩
  | 66 => ⟨S8192, .i32⟩
  | 67 => ⟨S8192, .i32⟩
  | 68 => ⟨S8192, .i32⟩
  | 69 => ⟨S8192x1, .i32⟩
  | 70 => ⟨S8192x512, .f32⟩
  | 71 => ⟨S_, .f32⟩
  | 72 => ⟨S_, .f32⟩
  | 73 => ⟨S8192x512, .i1⟩
  | 74 => ⟨S8192x512, .f32⟩
  | 75 => ⟨S8192x512, .f32⟩
  | 76 => ⟨S_, .i32⟩
  | 77 => ⟨S8192, .i32⟩
  | 78 => ⟨S8192, .i1⟩
  | 79 => ⟨S_, .i32⟩
  | 80 => ⟨S8192, .i32⟩
  | 81 => ⟨S8192, .i32⟩
  | 82 => ⟨S8192, .i32⟩
  | 83 => ⟨S8192x1, .i32⟩
  | 84 => ⟨S8192x512, .f32⟩
  | 85 => ⟨S_, .f32⟩
  | 86 => ⟨S8192x512, .f32⟩
  | 87 => ⟨S8192x512, .f32⟩
  | 88 => ⟨S1x512x512, .f32⟩
  | 89 => ⟨S512x512, .f32⟩
  | 90 => ⟨S1x512, .f32⟩
  | 91 => ⟨S512, .f32⟩
  | 92 => ⟨S1x40x512x512, .f32⟩
  | 93 => ⟨S40x512x512, .f32⟩
  | 94 => ⟨S1x40x512, .f32⟩
  | 95 => ⟨S40x512, .f32⟩
  | 96 => ⟨S1x512x512, .f32⟩
  | 97 => ⟨S41x512x512, .f32⟩
  | 98 => ⟨S41x512x512, .f32⟩
  | 99 => ⟨S1x512, .f32⟩
  | 100 => ⟨S41x512, .f32⟩
  | 101 => ⟨S41x1x512, .f32⟩
  | 102 => ⟨S8192x512, .bf16⟩
  | 103 => ⟨S41x512x512, .bf16⟩
  | 104 => ⟨S41x8192x512, .f32⟩
  | 105 => ⟨S1x8192x512, .f32⟩
  | 106 => ⟨S8192x512, .f32⟩
  | 107 => ⟨S_, .i32⟩
  | 108 => ⟨S8192, .i32⟩
  | 109 => ⟨S8192, .i1⟩
  | 110 => ⟨S8192x1, .i1⟩
  | 111 => ⟨S1x8192x512, .f32⟩
  | 112 => ⟨S8192x512, .f32⟩
  | 113 => ⟨S_, .i32⟩
  | 114 => ⟨S8192, .i32⟩
  | 115 => ⟨S8192, .i1⟩
  | 116 => ⟨S_, .i32⟩
  | 117 => ⟨S8192, .i32⟩
  | 118 => ⟨S8192, .i32⟩
  | 119 => ⟨S8192, .i32⟩
  | 120 => ⟨S8192x1, .i32⟩
  | 121 => ⟨S8192x512, .f32⟩
  | 122 => ⟨S_, .f32⟩
  | 123 => ⟨S_, .f32⟩
  | 124 => ⟨S8192x512, .i1⟩
  | 125 => ⟨S8192x512, .f32⟩
  | 126 => ⟨S8192x512, .f32⟩
  | 127 => ⟨S_, .i32⟩
  | _ => ⟨S8192x512, .f32⟩

abbrev hbmTy0_9 (i : Nat) : BufTy := match i % 128 with
  | 0 => ⟨S8192, .i32⟩
  | 1 => ⟨S8192, .i1⟩
  | 2 => ⟨S_, .i32⟩
  | 3 => ⟨S8192, .i32⟩
  | 4 => ⟨S8192, .i32⟩
  | 5 => ⟨S8192, .i32⟩
  | 6 => ⟨S8192x1, .i32⟩
  | 7 => ⟨S8192x512, .f32⟩
  | 8 => ⟨S1x8192x512, .f32⟩
  | 9 => ⟨S8192x512, .f32⟩
  | 10 => ⟨S_, .i32⟩
  | 11 => ⟨S8192, .i32⟩
  | 12 => ⟨S8192, .i1⟩
  | 13 => ⟨S_, .i32⟩
  | 14 => ⟨S8192, .i32⟩
  | 15 => ⟨S8192, .i32⟩
  | 16 => ⟨S8192, .i32⟩
  | 17 => ⟨S8192x1, .i32⟩
  | 18 => ⟨S8192x512, .f32⟩
  | 19 => ⟨S_, .f32⟩
  | 20 => ⟨S_, .f32⟩
  | 21 => ⟨S8192x512, .i1⟩
  | 22 => ⟨S8192x512, .f32⟩
  | 23 => ⟨S8192x512, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192x512, .f32⟩
  | 33 => ⟨S_, .i32⟩
  | 34 => ⟨S8192, .i32⟩
  | 35 => ⟨S8192, .i1⟩
  | 36 => ⟨S8192x1, .i1⟩
  | 37 => ⟨S1x8192x512, .f32⟩
  | 38 => ⟨S8192x512, .f32⟩
  | 39 => ⟨S_, .i32⟩
  | 40 => ⟨S8192, .i32⟩
  | 41 => ⟨S8192, .i1⟩
  | 42 => ⟨S_, .i32⟩
  | 43 => ⟨S8192, .i32⟩
  | 44 => ⟨S8192, .i32⟩
  | 45 => ⟨S8192, .i32⟩
  | 46 => ⟨S8192x1, .i32⟩
  | 47 => ⟨S8192x512, .f32⟩
  | 48 => ⟨S_, .f32⟩
  | 49 => ⟨S_, .f32⟩
  | 50 => ⟨S8192x512, .i1⟩
  | 51 => ⟨S8192x512, .f32⟩
  | 52 => ⟨S8192x512, .f32⟩
  | 53 => ⟨S_, .i32⟩
  | 54 => ⟨S8192, .i32⟩
  | 55 => ⟨S8192, .i1⟩
  | 56 => ⟨S_, .i32⟩
  | 57 => ⟨S8192, .i32⟩
  | 58 => ⟨S8192, .i32⟩
  | 59 => ⟨S8192, .i32⟩
  | 60 => ⟨S8192x1, .i32⟩
  | 61 => ⟨S8192x512, .f32⟩
  | 62 => ⟨S1x8192x512, .f32⟩
  | 63 => ⟨S8192x512, .f32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S8192x512, .f32⟩
  | 73 => ⟨S_, .f32⟩
  | 74 => ⟨S_, .f32⟩
  | 75 => ⟨S8192x512, .i1⟩
  | 76 => ⟨S8192x512, .f32⟩
  | 77 => ⟨S8192x512, .f32⟩
  | 78 => ⟨S_, .i32⟩
  | 79 => ⟨S8192, .i32⟩
  | 80 => ⟨S8192, .i1⟩
  | 81 => ⟨S_, .i32⟩
  | 82 => ⟨S8192, .i32⟩
  | 83 => ⟨S8192, .i32⟩
  | 84 => ⟨S8192, .i32⟩
  | 85 => ⟨S8192x1, .i32⟩
  | 86 => ⟨S8192x512, .f32⟩
  | 87 => ⟨S_, .i32⟩
  | 88 => ⟨S8192, .i32⟩
  | 89 => ⟨S8192, .i1⟩
  | 90 => ⟨S8192x1, .i1⟩
  | 91 => ⟨S1x8192x512, .f32⟩
  | 92 => ⟨S8192x512, .f32⟩
  | 93 => ⟨S_, .i32⟩
  | 94 => ⟨S8192, .i32⟩
  | 95 => ⟨S8192, .i1⟩
  | 96 => ⟨S_, .i32⟩
  | 97 => ⟨S8192, .i32⟩
  | 98 => ⟨S8192, .i32⟩
  | 99 => ⟨S8192, .i32⟩
  | 100 => ⟨S8192x1, .i32⟩
  | 101 => ⟨S8192x512, .f32⟩
  | 102 => ⟨S_, .f32⟩
  | 103 => ⟨S_, .f32⟩
  | 104 => ⟨S8192x512, .i1⟩
  | 105 => ⟨S8192x512, .f32⟩
  | 106 => ⟨S8192x512, .f32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S8192x512, .f32⟩
  | 116 => ⟨S1x8192x512, .f32⟩
  | 117 => ⟨S8192x512, .f32⟩
  | 118 => ⟨S_, .i32⟩
  | 119 => ⟨S8192, .i32⟩
  | 120 => ⟨S8192, .i1⟩
  | 121 => ⟨S_, .i32⟩
  | 122 => ⟨S8192, .i32⟩
  | 123 => ⟨S8192, .i32⟩
  | 124 => ⟨S8192, .i32⟩
  | 125 => ⟨S8192x1, .i32⟩
  | 126 => ⟨S8192x512, .f32⟩
  | 127 => ⟨S_, .f32⟩
  | _ => ⟨S8192x512, .f32⟩

abbrev hbmTy0_10 (i : Nat) : BufTy := match i % 128 with
  | 0 => ⟨S_, .f32⟩
  | 1 => ⟨S8192x512, .i1⟩
  | 2 => ⟨S8192x512, .f32⟩
  | 3 => ⟨S8192x512, .f32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S8192x512, .f32⟩
  | 13 => ⟨S_, .i32⟩
  | 14 => ⟨S8192, .i32⟩
  | 15 => ⟨S8192, .i1⟩
  | 16 => ⟨S8192x1, .i1⟩
  | 17 => ⟨S1x8192x512, .f32⟩
  | 18 => ⟨S8192x512, .f32⟩
  | 19 => ⟨S_, .i32⟩
  | 20 => ⟨S8192, .i32⟩
  | 21 => ⟨S8192, .i1⟩
  | 22 => ⟨S_, .i32⟩
  | 23 => ⟨S8192, .i32⟩
  | 24 => ⟨S8192, .i32⟩
  | 25 => ⟨S8192, .i32⟩
  | 26 => ⟨S8192x1, .i32⟩
  | 27 => ⟨S8192x512, .f32⟩
  | 28 => ⟨S_, .f32⟩
  | 29 => ⟨S_, .f32⟩
  | 30 => ⟨S8192x512, .i1⟩
  | 31 => ⟨S8192x512, .f32⟩
  | 32 => ⟨S8192x512, .f32⟩
  | 33 => ⟨S_, .i32⟩
  | 34 => ⟨S8192, .i32⟩
  | 35 => ⟨S8192, .i1⟩
  | 36 => ⟨S_, .i32⟩
  | 37 => ⟨S8192, .i32⟩
  | 38 => ⟨S8192, .i32⟩
  | 39 => ⟨S8192, .i32⟩
  | 40 => ⟨S8192x1, .i32⟩
  | 41 => ⟨S8192x512, .f32⟩
  | 42 => ⟨S1x8192x512, .f32⟩
  | 43 => ⟨S8192x512, .f32⟩
  | 44 => ⟨S_, .i32⟩
  | 45 => ⟨S8192, .i32⟩
  | 46 => ⟨S8192, .i1⟩
  | 47 => ⟨S_, .i32⟩
  | 48 => ⟨S8192, .i32⟩
  | 49 => ⟨S8192, .i32⟩
  | 50 => ⟨S8192, .i32⟩
  | 51 => ⟨S8192x1, .i32⟩
  | 52 => ⟨S8192x512, .f32⟩
  | 53 => ⟨S_, .f32⟩
  | 54 => ⟨S_, .f32⟩
  | 55 => ⟨S8192x512, .i1⟩
  | 56 => ⟨S8192x512, .f32⟩
  | 57 => ⟨S8192x512, .f32⟩
  | 58 => ⟨S_, .i32⟩
  | 59 => ⟨S8192, .i32⟩
  | 60 => ⟨S8192, .i1⟩
  | 61 => ⟨S_, .i32⟩
  | 62 => ⟨S8192, .i32⟩
  | 63 => ⟨S8192, .i32⟩
  | 64 => ⟨S8192, .i32⟩
  | 65 => ⟨S8192x1, .i32⟩
  | 66 => ⟨S8192x512, .f32⟩
  | 67 => ⟨S_, .i32⟩
  | 68 => ⟨S8192, .i32⟩
  | 69 => ⟨S8192, .i1⟩
  | 70 => ⟨S8192x1, .i1⟩
  | 71 => ⟨S1x8192x512, .f32⟩
  | 72 => ⟨S8192x512, .f32⟩
  | 73 => ⟨S_, .i32⟩
  | 74 => ⟨S8192, .i32⟩
  | 75 => ⟨S8192, .i1⟩
  | 76 => ⟨S_, .i32⟩
  | 77 => ⟨S8192, .i32⟩
  | 78 => ⟨S8192, .i32⟩
  | 79 => ⟨S8192, .i32⟩
  | 80 => ⟨S8192x1, .i32⟩
  | 81 => ⟨S8192x512, .f32⟩
  | 82 => ⟨S_, .f32⟩
  | 83 => ⟨S_, .f32⟩
  | 84 => ⟨S8192x512, .i1⟩
  | 85 => ⟨S8192x512, .f32⟩
  | 86 => ⟨S8192x512, .f32⟩
  | 87 => ⟨S_, .i32⟩
  | 88 => ⟨S8192, .i32⟩
  | 89 => ⟨S8192, .i1⟩
  | 90 => ⟨S_, .i32⟩
  | 91 => ⟨S8192, .i32⟩
  | 92 => ⟨S8192, .i32⟩
  | 93 => ⟨S8192, .i32⟩
  | 94 => ⟨S8192x1, .i32⟩
  | 95 => ⟨S8192x512, .f32⟩
  | 96 => ⟨S1x8192x512, .f32⟩
  | 97 => ⟨S8192x512, .f32⟩
  | 98 => ⟨S_, .i32⟩
  | 99 => ⟨S8192, .i32⟩
  | 100 => ⟨S8192, .i1⟩
  | 101 => ⟨S_, .i32⟩
  | 102 => ⟨S8192, .i32⟩
  | 103 => ⟨S8192, .i32⟩
  | 104 => ⟨S8192, .i32⟩
  | 105 => ⟨S8192x1, .i32⟩
  | 106 => ⟨S8192x512, .f32⟩
  | 107 => ⟨S_, .f32⟩
  | 108 => ⟨S_, .f32⟩
  | 109 => ⟨S8192x512, .i1⟩
  | 110 => ⟨S8192x512, .f32⟩
  | 111 => ⟨S8192x512, .f32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S8192x512, .f32⟩
  | 121 => ⟨S_, .i32⟩
  | 122 => ⟨S8192, .i32⟩
  | 123 => ⟨S8192, .i1⟩
  | 124 => ⟨S8192x1, .i1⟩
  | 125 => ⟨S1x8192x512, .f32⟩
  | 126 => ⟨S8192x512, .f32⟩
  | 127 => ⟨S_, .i32⟩
  | _ => ⟨S8192x512, .f32⟩

abbrev hbmTy0_11 (i : Nat) : BufTy := match i % 128 with
  | 0 => ⟨S8192, .i32⟩
  | 1 => ⟨S8192, .i1⟩
  | 2 => ⟨S_, .i32⟩
  | 3 => ⟨S8192, .i32⟩
  | 4 => ⟨S8192, .i32⟩
  | 5 => ⟨S8192, .i32⟩
  | 6 => ⟨S8192x1, .i32⟩
  | 7 => ⟨S8192x512, .f32⟩
  | 8 => ⟨S_, .f32⟩
  | 9 => ⟨S_, .f32⟩
  | 10 => ⟨S8192x512, .i1⟩
  | 11 => ⟨S8192x512, .f32⟩
  | 12 => ⟨S8192x512, .f32⟩
  | 13 => ⟨S_, .i32⟩
  | 14 => ⟨S8192, .i32⟩
  | 15 => ⟨S8192, .i1⟩
  | 16 => ⟨S_, .i32⟩
  | 17 => ⟨S8192, .i32⟩
  | 18 => ⟨S8192, .i32⟩
  | 19 => ⟨S8192, .i32⟩
  | 20 => ⟨S8192x1, .i32⟩
  | 21 => ⟨S8192x512, .f32⟩
  | 22 => ⟨S1x8192x512, .f32⟩
  | 23 => ⟨S8192x512, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192x512, .f32⟩
  | 33 => ⟨S_, .f32⟩
  | 34 => ⟨S_, .f32⟩
  | 35 => ⟨S8192x512, .i1⟩
  | 36 => ⟨S8192x512, .f32⟩
  | 37 => ⟨S8192x512, .f32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S8192x1, .i32⟩
  | 46 => ⟨S8192x512, .f32⟩
  | 47 => ⟨S_, .i32⟩
  | 48 => ⟨S8192, .i32⟩
  | 49 => ⟨S8192, .i1⟩
  | 50 => ⟨S8192x1, .i1⟩
  | 51 => ⟨S1x8192x512, .f32⟩
  | 52 => ⟨S8192x512, .f32⟩
  | 53 => ⟨S_, .i32⟩
  | 54 => ⟨S8192, .i32⟩
  | 55 => ⟨S8192, .i1⟩
  | 56 => ⟨S_, .i32⟩
  | 57 => ⟨S8192, .i32⟩
  | 58 => ⟨S8192, .i32⟩
  | 59 => ⟨S8192, .i32⟩
  | 60 => ⟨S8192x1, .i32⟩
  | 61 => ⟨S8192x512, .f32⟩
  | 62 => ⟨S_, .f32⟩
  | 63 => ⟨S_, .f32⟩
  | 64 => ⟨S8192x512, .i1⟩
  | 65 => ⟨S8192x512, .f32⟩
  | 66 => ⟨S8192x512, .f32⟩
  | 67 => ⟨S_, .i32⟩
  | 68 => ⟨S8192, .i32⟩
  | 69 => ⟨S8192, .i1⟩
  | 70 => ⟨S_, .i32⟩
  | 71 => ⟨S8192, .i32⟩
  | 72 => ⟨S8192, .i32⟩
  | 73 => ⟨S8192, .i32⟩
  | 74 => ⟨S8192x1, .i32⟩
  | 75 => ⟨S8192x512, .f32⟩
  | 76 => ⟨S1x8192x512, .f32⟩
  | 77 => ⟨S8192x512, .f32⟩
  | 78 => ⟨S_, .i32⟩
  | 79 => ⟨S8192, .i32⟩
  | 80 => ⟨S8192, .i1⟩
  | 81 => ⟨S_, .i32⟩
  | 82 => ⟨S8192, .i32⟩
  | 83 => ⟨S8192, .i32⟩
  | 84 => ⟨S8192, .i32⟩
  | 85 => ⟨S8192x1, .i32⟩
  | 86 => ⟨S8192x512, .f32⟩
  | 87 => ⟨S_, .f32⟩
  | 88 => ⟨S_, .f32⟩
  | 89 => ⟨S8192x512, .i1⟩
  | 90 => ⟨S8192x512, .f32⟩
  | 91 => ⟨S8192x512, .f32⟩
  | 92 => ⟨S_, .i32⟩
  | 93 => ⟨S8192, .i32⟩
  | 94 => ⟨S8192, .i1⟩
  | 95 => ⟨S_, .i32⟩
  | 96 => ⟨S8192, .i32⟩
  | 97 => ⟨S8192, .i32⟩
  | 98 => ⟨S8192, .i32⟩
  | 99 => ⟨S8192x1, .i32⟩
  | 100 => ⟨S8192x512, .f32⟩
  | 101 => ⟨S_, .i32⟩
  | 102 => ⟨S8192, .i32⟩
  | 103 => ⟨S8192, .i1⟩
  | 104 => ⟨S8192x1, .i1⟩
  | 105 => ⟨S1x8192x512, .f32⟩
  | 106 => ⟨S8192x512, .f32⟩
  | 107 => ⟨S_, .i32⟩
  | 108 => ⟨S8192, .i32⟩
  | 109 => ⟨S8192, .i1⟩
  | 110 => ⟨S_, .i32⟩
  | 111 => ⟨S8192, .i32⟩
  | 112 => ⟨S8192, .i32⟩
  | 113 => ⟨S8192, .i32⟩
  | 114 => ⟨S8192x1, .i32⟩
  | 115 => ⟨S8192x512, .f32⟩
  | 116 => ⟨S_, .f32⟩
  | 117 => ⟨S_, .f32⟩
  | 118 => ⟨S8192x512, .i1⟩
  | 119 => ⟨S8192x512, .f32⟩
  | 120 => ⟨S8192x512, .f32⟩
  | 121 => ⟨S_, .i32⟩
  | 122 => ⟨S8192, .i32⟩
  | 123 => ⟨S8192, .i1⟩
  | 124 => ⟨S_, .i32⟩
  | 125 => ⟨S8192, .i32⟩
  | 126 => ⟨S8192, .i32⟩
  | 127 => ⟨S8192, .i32⟩
  | _ => ⟨S8192x512, .f32⟩

abbrev hbmTy0_12 (i : Nat) : BufTy := match i % 128 with
  | 0 => ⟨S8192x1, .i32⟩
  | 1 => ⟨S8192x512, .f32⟩
  | 2 => ⟨S1x8192x512, .f32⟩
  | 3 => ⟨S8192x512, .f32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S8192x512, .f32⟩
  | 13 => ⟨S_, .f32⟩
  | 14 => ⟨S_, .f32⟩
  | 15 => ⟨S8192x512, .i1⟩
  | 16 => ⟨S8192x512, .f32⟩
  | 17 => ⟨S8192x512, .f32⟩
  | 18 => ⟨S_, .i32⟩
  | 19 => ⟨S8192, .i32⟩
  | 20 => ⟨S8192, .i1⟩
  | 21 => ⟨S_, .i32⟩
  | 22 => ⟨S8192, .i32⟩
  | 23 => ⟨S8192, .i32⟩
  | 24 => ⟨S8192, .i32⟩
  | 25 => ⟨S8192x1, .i32⟩
  | 26 => ⟨S8192x512, .f32⟩
  | 27 => ⟨S_, .i32⟩
  | 28 => ⟨S8192, .i32⟩
  | 29 => ⟨S8192, .i1⟩
  | 30 => ⟨S8192x1, .i1⟩
  | 31 => ⟨S1x8192x512, .f32⟩
  | 32 => ⟨S8192x512, .f32⟩
  | 33 => ⟨S_, .i32⟩
  | 34 => ⟨S8192, .i32⟩
  | 35 => ⟨S8192, .i1⟩
  | 36 => ⟨S_, .i32⟩
  | 37 => ⟨S8192, .i32⟩
  | 38 => ⟨S8192, .i32⟩
  | 39 => ⟨S8192, .i32⟩
  | 40 => ⟨S8192x1, .i32⟩
  | 41 => ⟨S8192x512, .f32⟩
  | 42 => ⟨S_, .f32⟩
  | 43 => ⟨S_, .f32⟩
  | 44 => ⟨S8192x512, .i1⟩
  | 45 => ⟨S8192x512, .f32⟩
  | 46 => ⟨S8192x512, .f32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S8192x512, .f32⟩
  | 56 => ⟨S1x8192x512, .f32⟩
  | 57 => ⟨S8192x512, .f32⟩
  | 58 => ⟨S_, .i32⟩
  | 59 => ⟨S8192, .i32⟩
  | 60 => ⟨S8192, .i1⟩
  | 61 => ⟨S_, .i32⟩
  | 62 => ⟨S8192, .i32⟩
  | 63 => ⟨S8192, .i32⟩
  | 64 => ⟨S8192, .i32⟩
  | 65 => ⟨S8192x1, .i32⟩
  | 66 => ⟨S8192x512, .f32⟩
  | 67 => ⟨S_, .f32⟩
  | 68 => ⟨S_, .f32⟩
  | 69 => ⟨S8192x512, .i1⟩
  | 70 => ⟨S8192x512, .f32⟩
  | 71 => ⟨S8192x512, .f32⟩
  | 72 => ⟨S_, .i32⟩
  | 73 => ⟨S8192, .i32⟩
  | 74 => ⟨S8192, .i1⟩
  | 75 => ⟨S_, .i32⟩
  | 76 => ⟨S8192, .i32⟩
  | 77 => ⟨S8192, .i32⟩
  | 78 => ⟨S8192, .i32⟩
  | 79 => ⟨S8192x1, .i32⟩
  | 80 => ⟨S8192x512, .f32⟩
  | 81 => ⟨S_, .i32⟩
  | 82 => ⟨S8192, .i32⟩
  | 83 => ⟨S8192, .i1⟩
  | 84 => ⟨S8192x1, .i1⟩
  | 85 => ⟨S1x8192x512, .f32⟩
  | 86 => ⟨S8192x512, .f32⟩
  | 87 => ⟨S_, .i32⟩
  | 88 => ⟨S8192, .i32⟩
  | 89 => ⟨S8192, .i1⟩
  | 90 => ⟨S_, .i32⟩
  | 91 => ⟨S8192, .i32⟩
  | 92 => ⟨S8192, .i32⟩
  | 93 => ⟨S8192, .i32⟩
  | 94 => ⟨S8192x1, .i32⟩
  | 95 => ⟨S8192x512, .f32⟩
  | 96 => ⟨S_, .f32⟩
  | 97 => ⟨S_, .f32⟩
  | 98 => ⟨S8192x512, .i1⟩
  | 99 => ⟨S8192x512, .f32⟩
  | 100 => ⟨S8192x512, .f32⟩
  | 101 => ⟨S_, .i32⟩
  | 102 => ⟨S8192, .i32⟩
  | 103 => ⟨S8192, .i1⟩
  | 104 => ⟨S_, .i32⟩
  | 105 => ⟨S8192, .i32⟩
  | 106 => ⟨S8192, .i32⟩
  | 107 => ⟨S8192, .i32⟩
  | 108 => ⟨S8192x1, .i32⟩
  | 109 => ⟨S8192x512, .f32⟩
  | 110 => ⟨S1x8192x512, .f32⟩
  | 111 => ⟨S8192x512, .f32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S8192x512, .f32⟩
  | 121 => ⟨S_, .f32⟩
  | 122 => ⟨S_, .f32⟩
  | 123 => ⟨S8192x512, .i1⟩
  | 124 => ⟨S8192x512, .f32⟩
  | 125 => ⟨S8192x512, .f32⟩
  | 126 => ⟨S_, .i32⟩
  | 127 => ⟨S8192, .i32⟩
  | _ => ⟨S8192x512, .f32⟩

abbrev hbmTy0_13 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S8192x512, .f32⟩
  | 7 => ⟨S_, .i32⟩
  | 8 => ⟨S8192, .i32⟩
  | 9 => ⟨S8192, .i1⟩
  | 10 => ⟨S8192x1, .i1⟩
  | 11 => ⟨S1x8192x512, .f32⟩
  | 12 => ⟨S8192x512, .f32⟩
  | 13 => ⟨S_, .i32⟩
  | 14 => ⟨S8192, .i32⟩
  | 15 => ⟨S8192, .i1⟩
  | 16 => ⟨S_, .i32⟩
  | 17 => ⟨S8192, .i32⟩
  | 18 => ⟨S8192, .i32⟩
  | 19 => ⟨S8192, .i32⟩
  | 20 => ⟨S8192x1, .i32⟩
  | 21 => ⟨S8192x512, .f32⟩
  | 22 => ⟨S_, .f32⟩
  | 23 => ⟨S_, .f32⟩
  | 24 => ⟨S8192x512, .i1⟩
  | 25 => ⟨S8192x512, .f32⟩
  | 26 => ⟨S8192x512, .f32⟩
  | 27 => ⟨S_, .i32⟩
  | 28 => ⟨S8192, .i32⟩
  | 29 => ⟨S8192, .i1⟩
  | 30 => ⟨S_, .i32⟩
  | 31 => ⟨S8192, .i32⟩
  | 32 => ⟨S8192, .i32⟩
  | 33 => ⟨S8192, .i32⟩
  | 34 => ⟨S8192x1, .i32⟩
  | 35 => ⟨S8192x512, .f32⟩
  | 36 => ⟨S1x8192x512, .f32⟩
  | 37 => ⟨S8192x512, .f32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S8192x1, .i32⟩
  | 46 => ⟨S8192x512, .f32⟩
  | 47 => ⟨S_, .f32⟩
  | 48 => ⟨S_, .f32⟩
  | 49 => ⟨S8192x512, .i1⟩
  | 50 => ⟨S8192x512, .f32⟩
  | 51 => ⟨S8192x512, .f32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S8192x1, .i32⟩
  | 60 => ⟨S8192x512, .f32⟩
  | 61 => ⟨S_, .i32⟩
  | 62 => ⟨S8192, .i32⟩
  | 63 => ⟨S8192, .i1⟩
  | 64 => ⟨S8192x1, .i1⟩
  | 65 => ⟨S1x8192x512, .f32⟩
  | 66 => ⟨S8192x512, .f32⟩
  | 67 => ⟨S_, .i32⟩
  | 68 => ⟨S8192, .i32⟩
  | 69 => ⟨S8192, .i1⟩
  | 70 => ⟨S_, .i32⟩
  | 71 => ⟨S8192, .i32⟩
  | 72 => ⟨S8192, .i32⟩
  | 73 => ⟨S8192, .i32⟩
  | 74 => ⟨S8192x1, .i32⟩
  | 75 => ⟨S8192x512, .f32⟩
  | 76 => ⟨S_, .f32⟩
  | 77 => ⟨S_, .f32⟩
  | 78 => ⟨S8192x512, .i1⟩
  | 79 => ⟨S8192x512, .f32⟩
  | 80 => ⟨S8192x512, .f32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S8192, .i32⟩
  | 88 => ⟨S8192x1, .i32⟩
  | 89 => ⟨S8192x512, .f32⟩
  | 90 => ⟨S1x8192x512, .f32⟩
  | 91 => ⟨S8192x512, .f32⟩
  | 92 => ⟨S_, .i32⟩
  | 93 => ⟨S8192, .i32⟩
  | 94 => ⟨S8192, .i1⟩
  | 95 => ⟨S_, .i32⟩
  | 96 => ⟨S8192, .i32⟩
  | 97 => ⟨S8192, .i32⟩
  | 98 => ⟨S8192, .i32⟩
  | 99 => ⟨S8192x1, .i32⟩
  | 100 => ⟨S8192x512, .f32⟩
  | 101 => ⟨S_, .f32⟩
  | 102 => ⟨S_, .f32⟩
  | 103 => ⟨S8192x512, .i1⟩
  | 104 => ⟨S8192x512, .f32⟩
  | 105 => ⟨S8192x512, .f32⟩
  | 106 => ⟨S_, .i32⟩
  | 107 => ⟨S8192, .i32⟩
  | 108 => ⟨S8192, .i1⟩
  | 109 => ⟨S_, .i32⟩
  | 110 => ⟨S8192, .i32⟩
  | 111 => ⟨S8192, .i32⟩
  | 112 => ⟨S8192, .i32⟩
  | 113 => ⟨S8192x1, .i32⟩
  | 114 => ⟨S8192x512, .f32⟩
  | 115 => ⟨S_, .i32⟩
  | 116 => ⟨S8192, .i32⟩
  | 117 => ⟨S8192, .i1⟩
  | 118 => ⟨S8192x1, .i1⟩
  | 119 => ⟨S1x8192x512, .f32⟩
  | 120 => ⟨S8192x512, .f32⟩
  | 121 => ⟨S_, .i32⟩
  | 122 => ⟨S8192, .i32⟩
  | 123 => ⟨S8192, .i1⟩
  | 124 => ⟨S_, .i32⟩
  | 125 => ⟨S8192, .i32⟩
  | 126 => ⟨S8192, .i32⟩
  | 127 => ⟨S8192, .i32⟩
  | _ => ⟨S8192x512, .f32⟩

abbrev hbmTy0_14 (i : Nat) : BufTy := match i % 128 with
  | 0 => ⟨S8192x1, .i32⟩
  | 1 => ⟨S8192x512, .f32⟩
  | 2 => ⟨S_, .f32⟩
  | 3 => ⟨S_, .f32⟩
  | 4 => ⟨S8192x512, .i1⟩
  | 5 => ⟨S8192x512, .f32⟩
  | 6 => ⟨S8192x512, .f32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S8192x512, .f32⟩
  | 16 => ⟨S1x8192x512, .f32⟩
  | 17 => ⟨S8192x512, .f32⟩
  | 18 => ⟨S_, .i32⟩
  | 19 => ⟨S8192, .i32⟩
  | 20 => ⟨S8192, .i1⟩
  | 21 => ⟨S_, .i32⟩
  | 22 => ⟨S8192, .i32⟩
  | 23 => ⟨S8192, .i32⟩
  | 24 => ⟨S8192, .i32⟩
  | 25 => ⟨S8192x1, .i32⟩
  | 26 => ⟨S8192x512, .f32⟩
  | 27 => ⟨S_, .f32⟩
  | 28 => ⟨S_, .f32⟩
  | 29 => ⟨S8192x512, .i1⟩
  | 30 => ⟨S8192x512, .f32⟩
  | 31 => ⟨S8192x512, .f32⟩
  | 32 => ⟨S_, .i32⟩
  | 33 => ⟨S8192, .i32⟩
  | 34 => ⟨S8192, .i1⟩
  | 35 => ⟨S_, .i32⟩
  | 36 => ⟨S8192, .i32⟩
  | 37 => ⟨S8192, .i32⟩
  | 38 => ⟨S8192, .i32⟩
  | 39 => ⟨S8192x1, .i32⟩
  | 40 => ⟨S8192x512, .f32⟩
  | 41 => ⟨S_, .i32⟩
  | 42 => ⟨S8192, .i32⟩
  | 43 => ⟨S8192, .i1⟩
  | 44 => ⟨S8192x1, .i1⟩
  | 45 => ⟨S1x8192x512, .f32⟩
  | 46 => ⟨S8192x512, .f32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S8192x512, .f32⟩
  | 56 => ⟨S_, .f32⟩
  | 57 => ⟨S_, .f32⟩
  | 58 => ⟨S8192x512, .i1⟩
  | 59 => ⟨S8192x512, .f32⟩
  | 60 => ⟨S8192x512, .f32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S8192x1, .i32⟩
  | 69 => ⟨S8192x512, .f32⟩
  | 70 => ⟨S1x8192x512, .f32⟩
  | 71 => ⟨S8192x512, .f32⟩
  | 72 => ⟨S_, .i32⟩
  | 73 => ⟨S8192, .i32⟩
  | 74 => ⟨S8192, .i1⟩
  | 75 => ⟨S_, .i32⟩
  | 76 => ⟨S8192, .i32⟩
  | 77 => ⟨S8192, .i32⟩
  | 78 => ⟨S8192, .i32⟩
  | 79 => ⟨S8192x1, .i32⟩
  | 80 => ⟨S8192x512, .f32⟩
  | 81 => ⟨S_, .f32⟩
  | 82 => ⟨S_, .f32⟩
  | 83 => ⟨S8192x512, .i1⟩
  | 84 => ⟨S8192x512, .f32⟩
  | 85 => ⟨S8192x512, .f32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S8192x512, .f32⟩
  | 95 => ⟨S_, .i32⟩
  | 96 => ⟨S8192, .i32⟩
  | 97 => ⟨S8192, .i1⟩
  | 98 => ⟨S8192x1, .i1⟩
  | 99 => ⟨S1x8192x512, .f32⟩
  | 100 => ⟨S8192x512, .f32⟩
  | 101 => ⟨S_, .i32⟩
  | 102 => ⟨S8192, .i32⟩
  | 103 => ⟨S8192, .i1⟩
  | 104 => ⟨S_, .i32⟩
  | 105 => ⟨S8192, .i32⟩
  | 106 => ⟨S8192, .i32⟩
  | 107 => ⟨S8192, .i32⟩
  | 108 => ⟨S8192x1, .i32⟩
  | 109 => ⟨S8192x512, .f32⟩
  | 110 => ⟨S_, .f32⟩
  | 111 => ⟨S_, .f32⟩
  | 112 => ⟨S8192x512, .i1⟩
  | 113 => ⟨S8192x512, .f32⟩
  | 114 => ⟨S8192x512, .f32⟩
  | 115 => ⟨S_, .i32⟩
  | 116 => ⟨S8192, .i32⟩
  | 117 => ⟨S8192, .i1⟩
  | 118 => ⟨S_, .i32⟩
  | 119 => ⟨S8192, .i32⟩
  | 120 => ⟨S8192, .i32⟩
  | 121 => ⟨S8192, .i32⟩
  | 122 => ⟨S8192x1, .i32⟩
  | 123 => ⟨S8192x512, .f32⟩
  | 124 => ⟨S1x8192x512, .f32⟩
  | 125 => ⟨S8192x512, .f32⟩
  | 126 => ⟨S_, .i32⟩
  | 127 => ⟨S8192, .i32⟩
  | _ => ⟨S8192x512, .f32⟩

abbrev hbmTy0_15 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S8192x512, .f32⟩
  | 7 => ⟨S_, .f32⟩
  | 8 => ⟨S_, .f32⟩
  | 9 => ⟨S8192x512, .i1⟩
  | 10 => ⟨S8192x512, .f32⟩
  | 11 => ⟨S8192x512, .f32⟩
  | 12 => ⟨S_, .i32⟩
  | 13 => ⟨S8192, .i32⟩
  | 14 => ⟨S8192, .i1⟩
  | 15 => ⟨S_, .i32⟩
  | 16 => ⟨S8192, .i32⟩
  | 17 => ⟨S8192, .i32⟩
  | 18 => ⟨S8192, .i32⟩
  | 19 => ⟨S8192x1, .i32⟩
  | 20 => ⟨S8192x512, .f32⟩
  | 21 => ⟨S_, .i32⟩
  | 22 => ⟨S8192, .i32⟩
  | 23 => ⟨S8192, .i1⟩
  | 24 => ⟨S8192x1, .i1⟩
  | 25 => ⟨S1x8192x512, .f32⟩
  | 26 => ⟨S8192x512, .f32⟩
  | 27 => ⟨S_, .i32⟩
  | 28 => ⟨S8192, .i32⟩
  | 29 => ⟨S8192, .i1⟩
  | 30 => ⟨S_, .i32⟩
  | 31 => ⟨S8192, .i32⟩
  | 32 => ⟨S8192, .i32⟩
  | 33 => ⟨S8192, .i32⟩
  | 34 => ⟨S8192x1, .i32⟩
  | 35 => ⟨S8192x512, .f32⟩
  | 36 => ⟨S_, .f32⟩
  | 37 => ⟨S_, .f32⟩
  | 38 => ⟨S8192x512, .i1⟩
  | 39 => ⟨S8192x512, .f32⟩
  | 40 => ⟨S8192x512, .f32⟩
  | 41 => ⟨S_, .i32⟩
  | 42 => ⟨S8192, .i32⟩
  | 43 => ⟨S8192, .i1⟩
  | 44 => ⟨S_, .i32⟩
  | 45 => ⟨S8192, .i32⟩
  | 46 => ⟨S8192, .i32⟩
  | 47 => ⟨S8192, .i32⟩
  | 48 => ⟨S8192x1, .i32⟩
  | 49 => ⟨S8192x512, .f32⟩
  | 50 => ⟨S1x8192x512, .f32⟩
  | 51 => ⟨S8192x512, .f32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S8192x1, .i32⟩
  | 60 => ⟨S8192x512, .f32⟩
  | 61 => ⟨S_, .f32⟩
  | 62 => ⟨S_, .f32⟩
  | 63 => ⟨S8192x512, .i1⟩
  | 64 => ⟨S8192x512, .f32⟩
  | 65 => ⟨S8192x512, .f32⟩
  | 66 => ⟨S_, .i32⟩
  | 67 => ⟨S8192, .i32⟩
  | 68 => ⟨S8192, .i1⟩
  | 69 => ⟨S_, .i32⟩
  | 70 => ⟨S8192, .i32⟩
  | 71 => ⟨S8192, .i32⟩
  | 72 => ⟨S8192, .i32⟩
  | 73 => ⟨S8192x1, .i32⟩
  | 74 => ⟨S8192x512, .f32⟩
  | 75 => ⟨S_, .i32⟩
  | 76 => ⟨S8192, .i32⟩
  | 77 => ⟨S8192, .i1⟩
  | 78 => ⟨S8192x1, .i1⟩
  | 79 => ⟨S1x8192x512, .f32⟩
  | 80 => ⟨S8192x512, .f32⟩
  | 81 => ⟨S_, .i32⟩
  | 82 => ⟨S8192, .i32⟩
  | 83 => ⟨S8192, .i1⟩
  | 84 => ⟨S_, .i32⟩
  | 85 => ⟨S8192, .i32⟩
  | 86 => ⟨S8192, .i32⟩
  | 87 => ⟨S8192, .i32⟩
  | 88 => ⟨S8192x1, .i32⟩
  | 89 => ⟨S8192x512, .f32⟩
  | 90 => ⟨S_, .f32⟩
  | 91 => ⟨S_, .f32⟩
  | 92 => ⟨S8192x512, .i1⟩
  | 93 => ⟨S8192x512, .f32⟩
  | 94 => ⟨S8192x512, .f32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S8192x512, .f32⟩
  | 104 => ⟨S1x8192x512, .f32⟩
  | 105 => ⟨S8192x512, .f32⟩
  | 106 => ⟨S_, .i32⟩
  | 107 => ⟨S8192, .i32⟩
  | 108 => ⟨S8192, .i1⟩
  | 109 => ⟨S_, .i32⟩
  | 110 => ⟨S8192, .i32⟩
  | 111 => ⟨S8192, .i32⟩
  | 112 => ⟨S8192, .i32⟩
  | 113 => ⟨S8192x1, .i32⟩
  | 114 => ⟨S8192x512, .f32⟩
  | 115 => ⟨S_, .f32⟩
  | 116 => ⟨S_, .f32⟩
  | 117 => ⟨S8192x512, .i1⟩
  | 118 => ⟨S8192x512, .f32⟩
  | 119 => ⟨S8192x512, .f32⟩
  | 120 => ⟨S_, .i32⟩
  | 121 => ⟨S8192, .i32⟩
  | 122 => ⟨S8192, .i1⟩
  | 123 => ⟨S_, .i32⟩
  | 124 => ⟨S8192, .i32⟩
  | 125 => ⟨S8192, .i32⟩
  | 126 => ⟨S8192, .i32⟩
  | 127 => ⟨S8192x1, .i32⟩
  | _ => ⟨S8192x512, .f32⟩

abbrev hbmTy0_16 (i : Nat) : BufTy := match i % 128 with
  | 0 => ⟨S8192x512, .f32⟩
  | 1 => ⟨S_, .i32⟩
  | 2 => ⟨S8192, .i32⟩
  | 3 => ⟨S8192, .i1⟩
  | 4 => ⟨S8192x1, .i1⟩
  | 5 => ⟨S1x8192x512, .f32⟩
  | 6 => ⟨S8192x512, .f32⟩
  | 7 => ⟨S_, .i32⟩
  | 8 => ⟨S8192, .i32⟩
  | 9 => ⟨S8192, .i1⟩
  | 10 => ⟨S_, .i32⟩
  | 11 => ⟨S8192, .i32⟩
  | 12 => ⟨S8192, .i32⟩
  | 13 => ⟨S8192, .i32⟩
  | 14 => ⟨S8192x1, .i32⟩
  | 15 => ⟨S8192x512, .f32⟩
  | 16 => ⟨S_, .f32⟩
  | 17 => ⟨S_, .f32⟩
  | 18 => ⟨S8192x512, .i1⟩
  | 19 => ⟨S8192x512, .f32⟩
  | 20 => ⟨S8192x512, .f32⟩
  | 21 => ⟨S_, .i32⟩
  | 22 => ⟨S8192, .i32⟩
  | 23 => ⟨S8192, .i1⟩
  | 24 => ⟨S_, .i32⟩
  | 25 => ⟨S8192, .i32⟩
  | 26 => ⟨S8192, .i32⟩
  | 27 => ⟨S8192, .i32⟩
  | 28 => ⟨S8192x1, .i32⟩
  | 29 => ⟨S8192x512, .f32⟩
  | 30 => ⟨S1x8192x512, .f32⟩
  | 31 => ⟨S8192x512, .f32⟩
  | 32 => ⟨S_, .i32⟩
  | 33 => ⟨S8192, .i32⟩
  | 34 => ⟨S8192, .i1⟩
  | 35 => ⟨S_, .i32⟩
  | 36 => ⟨S8192, .i32⟩
  | 37 => ⟨S8192, .i32⟩
  | 38 => ⟨S8192, .i32⟩
  | 39 => ⟨S8192x1, .i32⟩
  | 40 => ⟨S8192x512, .f32⟩
  | 41 => ⟨S_, .f32⟩
  | 42 => ⟨S_, .f32⟩
  | 43 => ⟨S8192x512, .i1⟩
  | 44 => ⟨S8192x512, .f32⟩
  | 45 => ⟨S8192x512, .f32⟩
  | 46 => ⟨S_, .i32⟩
  | 47 => ⟨S8192, .i32⟩
  | 48 => ⟨S8192, .i1⟩
  | 49 => ⟨S_, .i32⟩
  | 50 => ⟨S8192, .i32⟩
  | 51 => ⟨S8192, .i32⟩
  | 52 => ⟨S8192, .i32⟩
  | 53 => ⟨S8192x1, .i32⟩
  | 54 => ⟨S8192x512, .f32⟩
  | 55 => ⟨S_, .i32⟩
  | 56 => ⟨S8192, .i32⟩
  | 57 => ⟨S8192, .i1⟩
  | 58 => ⟨S8192x1, .i1⟩
  | 59 => ⟨S1x8192x512, .f32⟩
  | 60 => ⟨S8192x512, .f32⟩
  | 61 => ⟨S_, .i32⟩
  | 62 => ⟨S8192, .i32⟩
  | 63 => ⟨S8192, .i1⟩
  | 64 => ⟨S_, .i32⟩
  | 65 => ⟨S8192, .i32⟩
  | 66 => ⟨S8192, .i32⟩
  | 67 => ⟨S8192, .i32⟩
  | 68 => ⟨S8192x1, .i32⟩
  | 69 => ⟨S8192x512, .f32⟩
  | 70 => ⟨S_, .f32⟩
  | 71 => ⟨S_, .f32⟩
  | 72 => ⟨S8192x512, .i1⟩
  | 73 => ⟨S8192x512, .f32⟩
  | 74 => ⟨S8192x512, .f32⟩
  | 75 => ⟨S_, .i32⟩
  | 76 => ⟨S8192, .i32⟩
  | 77 => ⟨S8192, .i1⟩
  | 78 => ⟨S_, .i32⟩
  | 79 => ⟨S8192, .i32⟩
  | 80 => ⟨S8192, .i32⟩
  | 81 => ⟨S8192, .i32⟩
  | 82 => ⟨S8192x1, .i32⟩
  | 83 => ⟨S8192x512, .f32⟩
  | 84 => ⟨S1x8192x512, .f32⟩
  | 85 => ⟨S8192x512, .f32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S8192x512, .f32⟩
  | 95 => ⟨S_, .f32⟩
  | 96 => ⟨S_, .f32⟩
  | 97 => ⟨S8192x512, .i1⟩
  | 98 => ⟨S8192x512, .f32⟩
  | 99 => ⟨S8192x512, .f32⟩
  | 100 => ⟨S_, .i32⟩
  | 101 => ⟨S8192, .i32⟩
  | 102 => ⟨S8192, .i1⟩
  | 103 => ⟨S_, .i32⟩
  | 104 => ⟨S8192, .i32⟩
  | 105 => ⟨S8192, .i32⟩
  | 106 => ⟨S8192, .i32⟩
  | 107 => ⟨S8192x1, .i32⟩
  | 108 => ⟨S8192x512, .f32⟩
  | 109 => ⟨S_, .i32⟩
  | 110 => ⟨S8192, .i32⟩
  | 111 => ⟨S8192, .i1⟩
  | 112 => ⟨S8192x1, .i1⟩
  | 113 => ⟨S1x8192x512, .f32⟩
  | 114 => ⟨S8192x512, .f32⟩
  | 115 => ⟨S_, .i32⟩
  | 116 => ⟨S8192, .i32⟩
  | 117 => ⟨S8192, .i1⟩
  | 118 => ⟨S_, .i32⟩
  | 119 => ⟨S8192, .i32⟩
  | 120 => ⟨S8192, .i32⟩
  | 121 => ⟨S8192, .i32⟩
  | 122 => ⟨S8192x1, .i32⟩
  | 123 => ⟨S8192x512, .f32⟩
  | 124 => ⟨S_, .f32⟩
  | 125 => ⟨S_, .f32⟩
  | 126 => ⟨S8192x512, .i1⟩
  | 127 => ⟨S8192x512, .f32⟩
  | _ => ⟨S8192x512, .f32⟩

abbrev hbmTy0_17 (i : Nat) : BufTy := match i % 128 with
  | 0 => ⟨S8192x512, .f32⟩
  | 1 => ⟨S_, .i32⟩
  | 2 => ⟨S8192, .i32⟩
  | 3 => ⟨S8192, .i1⟩
  | 4 => ⟨S_, .i32⟩
  | 5 => ⟨S8192, .i32⟩
  | 6 => ⟨S8192, .i32⟩
  | 7 => ⟨S8192, .i32⟩
  | 8 => ⟨S8192x1, .i32⟩
  | 9 => ⟨S8192x512, .f32⟩
  | 10 => ⟨S1x8192x512, .f32⟩
  | 11 => ⟨S8192x512, .f32⟩
  | 12 => ⟨S_, .i32⟩
  | 13 => ⟨S8192, .i32⟩
  | 14 => ⟨S8192, .i1⟩
  | 15 => ⟨S_, .i32⟩
  | 16 => ⟨S8192, .i32⟩
  | 17 => ⟨S8192, .i32⟩
  | 18 => ⟨S8192, .i32⟩
  | 19 => ⟨S8192x1, .i32⟩
  | 20 => ⟨S8192x512, .f32⟩
  | 21 => ⟨S_, .f32⟩
  | 22 => ⟨S_, .f32⟩
  | 23 => ⟨S8192x512, .i1⟩
  | 24 => ⟨S8192x512, .f32⟩
  | 25 => ⟨S8192x512, .f32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S8192x1, .i32⟩
  | 34 => ⟨S8192x512, .f32⟩
  | 35 => ⟨S_, .f32⟩
  | 36 => ⟨S8192x512, .f32⟩
  | 37 => ⟨S8192x512, .f32⟩
  | 38 => ⟨S8192x512, .bf16⟩
  | 39 => ⟨S512x256, .f32⟩
  | 40 => ⟨S1x512x256, .f32⟩
  | 41 => ⟨S1x512x256, .bf16⟩
  | 42 => ⟨S1x1x256, .f32⟩
  | 43 => ⟨S1x8192x256, .f32⟩
  | 44 => ⟨S8192x256, .f32⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | _ => ⟨S8192x512, .f32⟩

abbrev bufTy : (tb : Table) → Fin (tcTables nBuf tb) → BufTy
  | .hbm, ⟨i, _⟩ => hbmTy i
  | .local _ .vmem, ⟨0, _⟩ => ⟨S2048x512, .bf16⟩
  | .local _ .vmem, ⟨1, _⟩ => ⟨S2048x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x1x512, .f32⟩
  | .local _ .vmem, ⟨5, _⟩ => ⟨S1x1x512, .f32⟩
  | .local _ .vmem, ⟨6, _⟩ => ⟨S1x2048x512, .f32⟩
  | .local _ .vmem, ⟨7, _⟩ => ⟨S1x2048x512, .f32⟩
  | .local _ .vmem, ⟨8, _⟩ => ⟨S2048x512, .bf16⟩
  | .local _ .vmem, ⟨9, _⟩ => ⟨S2048x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x1x512, .f32⟩
  | .local _ .vmem, ⟨13, _⟩ => ⟨S1x1x512, .f32⟩
  | .local _ .vmem, ⟨14, _⟩ => ⟨S1x2048x512, .f32⟩
  | .local _ .vmem, ⟨15, _⟩ => ⟨S1x2048x512, .f32⟩
  | .local _ .vmem, ⟨16, _⟩ => ⟨S2048x512, .bf16⟩
  | .local _ .vmem, ⟨17, _⟩ => ⟨S2048x512, .bf16⟩
  | .local _ .vmem, ⟨18, _⟩ => ⟨S1x512x256, .bf16⟩
  | .local _ .vmem, ⟨19, _⟩ => ⟨S1x1x256, .f32⟩
  | .local _ .vmem, ⟨20, _⟩ => ⟨S1x2048x256, .f32⟩
  | .local _ .vmem, ⟨21, _⟩ => ⟨S1x2048x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_0 : Ref sig .tc := ⟨.hbm, 35, rfl⟩
abbrev main_v24 : Ref sig .tc := ⟨.hbm, 36, rfl⟩
abbrev main_v25 : Ref sig .tc := ⟨.hbm, 37, rfl⟩
abbrev main_c_1 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v31 : Ref sig .tc := ⟨.hbm, 48, rfl⟩
abbrev main_c_2 : Ref sig .tc := ⟨.hbm, 49, rfl⟩
abbrev main_v32 : Ref sig .tc := ⟨.hbm, 50, rfl⟩
abbrev main_v33 : Ref sig .tc := ⟨.hbm, 51, rfl⟩
abbrev main_c_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_4 : Ref sig .tc := ⟨.hbm, 60, rfl⟩
abbrev main_v41 : Ref sig .tc := ⟨.hbm, 61, rfl⟩
abbrev main_v42 : Ref sig .tc := ⟨.hbm, 62, rfl⟩
abbrev main_c_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_v48 : Ref sig .tc := ⟨.hbm, 73, rfl⟩
abbrev main_c_7 : Ref sig .tc := ⟨.hbm, 74, rfl⟩
abbrev main_v49 : Ref sig .tc := ⟨.hbm, 75, rfl⟩
abbrev main_v50 : Ref sig .tc := ⟨.hbm, 76, rfl⟩
abbrev main_c_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_9 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_10 : Ref sig .tc := ⟨.hbm, 89, rfl⟩
abbrev main_v61 : Ref sig .tc := ⟨.hbm, 90, rfl⟩
abbrev main_v62 : Ref sig .tc := ⟨.hbm, 91, rfl⟩
abbrev main_c_11 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_12 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_v68 : Ref sig .tc := ⟨.hbm, 102, rfl⟩
abbrev main_c_13 : Ref sig .tc := ⟨.hbm, 103, rfl⟩
abbrev main_v69 : Ref sig .tc := ⟨.hbm, 104, rfl⟩
abbrev main_v70 : Ref sig .tc := ⟨.hbm, 105, rfl⟩
abbrev main_c_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_15 : Ref sig .tc := ⟨.hbm, 114, rfl⟩
abbrev main_v78 : Ref sig .tc := ⟨.hbm, 115, rfl⟩
abbrev main_v79 : Ref sig .tc := ⟨.hbm, 116, rfl⟩
abbrev main_c_16 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_17 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_v85 : Ref sig .tc := ⟨.hbm, 127, rfl⟩
abbrev main_c_18 : Ref sig .tc := ⟨.hbm, 128, rfl⟩
abbrev main_v86 : Ref sig .tc := ⟨.hbm, 129, rfl⟩
abbrev main_v87 : Ref sig .tc := ⟨.hbm, 130, rfl⟩
abbrev main_c_19 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_c_20 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_c_21 : Ref sig .tc := ⟨.hbm, 143, rfl⟩
abbrev main_v98 : Ref sig .tc := ⟨.hbm, 144, rfl⟩
abbrev main_v99 : Ref sig .tc := ⟨.hbm, 145, rfl⟩
abbrev main_c_22 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_cst_23 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_v105 : Ref sig .tc := ⟨.hbm, 156, rfl⟩
abbrev main_c_24 : Ref sig .tc := ⟨.hbm, 157, rfl⟩
abbrev main_v106 : Ref sig .tc := ⟨.hbm, 158, rfl⟩
abbrev main_v107 : Ref sig .tc := ⟨.hbm, 159, rfl⟩
abbrev main_c_25 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_c_26 : Ref sig .tc := ⟨.hbm, 168, rfl⟩
abbrev main_v115 : Ref sig .tc := ⟨.hbm, 169, rfl⟩
abbrev main_v116 : Ref sig .tc := ⟨.hbm, 170, rfl⟩
abbrev main_c_27 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_cst_28 : Ref sig .tc := ⟨.hbm, 177, rfl⟩
abbrev main_call5_v0 : Ref sig .tc := ⟨.hbm, 178, rfl⟩
abbrev main_call5_v1 : Ref sig .tc := ⟨.hbm, 179, rfl⟩
abbrev main_call5_v2 : Ref sig .tc := ⟨.hbm, 180, rfl⟩
abbrev main_v122 : Ref sig .tc := ⟨.hbm, 181, rfl⟩
abbrev main_c_29 : Ref sig .tc := ⟨.hbm, 182, rfl⟩
abbrev main_v123 : Ref sig .tc := ⟨.hbm, 183, rfl⟩
abbrev main_v124 : Ref sig .tc := ⟨.hbm, 184, rfl⟩
abbrev main_c_30 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_c_31 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_c_32 : Ref sig .tc := ⟨.hbm, 197, rfl⟩
abbrev main_v135 : Ref sig .tc := ⟨.hbm, 198, rfl⟩
abbrev main_v136 : Ref sig .tc := ⟨.hbm, 199, rfl⟩
abbrev main_c_33 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_cst_34 : Ref sig .tc := ⟨.hbm, 206, rfl⟩
abbrev main_call6_v0 : Ref sig .tc := ⟨.hbm, 207, rfl⟩
abbrev main_call6_v1 : Ref sig .tc := ⟨.hbm, 208, rfl⟩
abbrev main_call6_v2 : Ref sig .tc := ⟨.hbm, 209, rfl⟩
abbrev main_v142 : Ref sig .tc := ⟨.hbm, 210, rfl⟩
abbrev main_c_35 : Ref sig .tc := ⟨.hbm, 211, rfl⟩
abbrev main_v143 : Ref sig .tc := ⟨.hbm, 212, rfl⟩
abbrev main_v144 : Ref sig .tc := ⟨.hbm, 213, rfl⟩
abbrev main_c_36 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_c_37 : Ref sig .tc := ⟨.hbm, 222, rfl⟩
abbrev main_v152 : Ref sig .tc := ⟨.hbm, 223, rfl⟩
abbrev main_v153 : Ref sig .tc := ⟨.hbm, 224, rfl⟩
abbrev main_c_38 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_cst_39 : Ref sig .tc := ⟨.hbm, 231, rfl⟩
abbrev main_call7_v0 : Ref sig .tc := ⟨.hbm, 232, rfl⟩
abbrev main_call7_v1 : Ref sig .tc := ⟨.hbm, 233, rfl⟩
abbrev main_call7_v2 : Ref sig .tc := ⟨.hbm, 234, rfl⟩
abbrev main_v159 : Ref sig .tc := ⟨.hbm, 235, rfl⟩
abbrev main_c_40 : Ref sig .tc := ⟨.hbm, 236, rfl⟩
abbrev main_v160 : Ref sig .tc := ⟨.hbm, 237, rfl⟩
abbrev main_v161 : Ref sig .tc := ⟨.hbm, 238, rfl⟩
abbrev main_c_41 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_c_42 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_c_43 : Ref sig .tc := ⟨.hbm, 251, rfl⟩
abbrev main_v172 : Ref sig .tc := ⟨.hbm, 252, rfl⟩
abbrev main_v173 : Ref sig .tc := ⟨.hbm, 253, rfl⟩
abbrev main_c_44 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_cst_45 : Ref sig .tc := ⟨.hbm, 260, rfl⟩
abbrev main_call8_v0 : Ref sig .tc := ⟨.hbm, 261, rfl⟩
abbrev main_call8_v1 : Ref sig .tc := ⟨.hbm, 262, rfl⟩
abbrev main_call8_v2 : Ref sig .tc := ⟨.hbm, 263, rfl⟩
abbrev main_v179 : Ref sig .tc := ⟨.hbm, 264, rfl⟩
abbrev main_c_46 : Ref sig .tc := ⟨.hbm, 265, rfl⟩
abbrev main_v180 : Ref sig .tc := ⟨.hbm, 266, rfl⟩
abbrev main_v181 : Ref sig .tc := ⟨.hbm, 267, rfl⟩
abbrev main_c_47 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩
abbrev main_c_48 : Ref sig .tc := ⟨.hbm, 276, rfl⟩
abbrev main_v189 : Ref sig .tc := ⟨.hbm, 277, rfl⟩
abbrev main_v190 : Ref sig .tc := ⟨.hbm, 278, rfl⟩
abbrev main_c_49 : Ref sig .tc := ⟨.hbm, 279, rfl⟩
abbrev main_v191 : Ref sig .tc := ⟨.hbm, 280, rfl⟩
abbrev main_v192 : Ref sig .tc := ⟨.hbm, 281, rfl⟩
abbrev main_v193 : Ref sig .tc := ⟨.hbm, 282, rfl⟩
abbrev main_v194 : Ref sig .tc := ⟨.hbm, 283, rfl⟩
abbrev main_v195 : Ref sig .tc := ⟨.hbm, 284, rfl⟩
abbrev main_cst_50 : Ref sig .tc := ⟨.hbm, 285, rfl⟩
abbrev main_call9_v0 : Ref sig .tc := ⟨.hbm, 286, rfl⟩
abbrev main_call9_v1 : Ref sig .tc := ⟨.hbm, 287, rfl⟩
abbrev main_call9_v2 : Ref sig .tc := ⟨.hbm, 288, rfl⟩
abbrev main_v196 : Ref sig .tc := ⟨.hbm, 289, rfl⟩
abbrev main_c_51 : Ref sig .tc := ⟨.hbm, 290, rfl⟩
abbrev main_v197 : Ref sig .tc := ⟨.hbm, 291, rfl⟩
abbrev main_v198 : Ref sig .tc := ⟨.hbm, 292, rfl⟩
abbrev main_c_52 : Ref sig .tc := ⟨.hbm, 293, rfl⟩
abbrev main_v199 : Ref sig .tc := ⟨.hbm, 294, rfl⟩
abbrev main_v200 : Ref sig .tc := ⟨.hbm, 295, rfl⟩
abbrev main_v201 : Ref sig .tc := ⟨.hbm, 296, rfl⟩
abbrev main_v202 : Ref sig .tc := ⟨.hbm, 297, rfl⟩
abbrev main_v203 : Ref sig .tc := ⟨.hbm, 298, rfl⟩
abbrev main_c_53 : Ref sig .tc := ⟨.hbm, 299, rfl⟩
abbrev main_v204 : Ref sig .tc := ⟨.hbm, 300, rfl⟩
abbrev main_v205 : Ref sig .tc := ⟨.hbm, 301, rfl⟩
abbrev main_v206 : Ref sig .tc := ⟨.hbm, 302, rfl⟩
abbrev main_v207 : Ref sig .tc := ⟨.hbm, 303, rfl⟩
abbrev main_v208 : Ref sig .tc := ⟨.hbm, 304, rfl⟩
abbrev main_c_54 : Ref sig .tc := ⟨.hbm, 305, rfl⟩
abbrev main_v209 : Ref sig .tc := ⟨.hbm, 306, rfl⟩
abbrev main_v210 : Ref sig .tc := ⟨.hbm, 307, rfl⟩
abbrev main_c_55 : Ref sig .tc := ⟨.hbm, 308, rfl⟩
abbrev main_v211 : Ref sig .tc := ⟨.hbm, 309, rfl⟩
abbrev main_v212 : Ref sig .tc := ⟨.hbm, 310, rfl⟩
abbrev main_v213 : Ref sig .tc := ⟨.hbm, 311, rfl⟩
abbrev main_v214 : Ref sig .tc := ⟨.hbm, 312, rfl⟩
abbrev main_v215 : Ref sig .tc := ⟨.hbm, 313, rfl⟩
abbrev main_cst_56 : Ref sig .tc := ⟨.hbm, 314, rfl⟩
abbrev main_call10_v0 : Ref sig .tc := ⟨.hbm, 315, rfl⟩
abbrev main_call10_v1 : Ref sig .tc := ⟨.hbm, 316, rfl⟩
abbrev main_call10_v2 : Ref sig .tc := ⟨.hbm, 317, rfl⟩
abbrev main_v216 : Ref sig .tc := ⟨.hbm, 318, rfl⟩
abbrev main_c_57 : Ref sig .tc := ⟨.hbm, 319, rfl⟩
abbrev main_v217 : Ref sig .tc := ⟨.hbm, 320, rfl⟩
abbrev main_v218 : Ref sig .tc := ⟨.hbm, 321, rfl⟩
abbrev main_c_58 : Ref sig .tc := ⟨.hbm, 322, rfl⟩
abbrev main_v219 : Ref sig .tc := ⟨.hbm, 323, rfl⟩
abbrev main_v220 : Ref sig .tc := ⟨.hbm, 324, rfl⟩
abbrev main_v221 : Ref sig .tc := ⟨.hbm, 325, rfl⟩
abbrev main_v222 : Ref sig .tc := ⟨.hbm, 326, rfl⟩
abbrev main_v223 : Ref sig .tc := ⟨.hbm, 327, rfl⟩
abbrev main_v224 : Ref sig .tc := ⟨.hbm, 328, rfl⟩
abbrev main_v225 : Ref sig .tc := ⟨.hbm, 329, rfl⟩
abbrev main_c_59 : Ref sig .tc := ⟨.hbm, 330, rfl⟩
abbrev main_v226 : Ref sig .tc := ⟨.hbm, 331, rfl⟩
abbrev main_v227 : Ref sig .tc := ⟨.hbm, 332, rfl⟩
abbrev main_c_60 : Ref sig .tc := ⟨.hbm, 333, rfl⟩
abbrev main_v228 : Ref sig .tc := ⟨.hbm, 334, rfl⟩
abbrev main_v229 : Ref sig .tc := ⟨.hbm, 335, rfl⟩
abbrev main_v230 : Ref sig .tc := ⟨.hbm, 336, rfl⟩
abbrev main_v231 : Ref sig .tc := ⟨.hbm, 337, rfl⟩
abbrev main_v232 : Ref sig .tc := ⟨.hbm, 338, rfl⟩
abbrev main_cst_61 : Ref sig .tc := ⟨.hbm, 339, rfl⟩
abbrev main_call11_v0 : Ref sig .tc := ⟨.hbm, 340, rfl⟩
abbrev main_call11_v1 : Ref sig .tc := ⟨.hbm, 341, rfl⟩
abbrev main_call11_v2 : Ref sig .tc := ⟨.hbm, 342, rfl⟩
abbrev main_v233 : Ref sig .tc := ⟨.hbm, 343, rfl⟩
abbrev main_c_62 : Ref sig .tc := ⟨.hbm, 344, rfl⟩
abbrev main_v234 : Ref sig .tc := ⟨.hbm, 345, rfl⟩
abbrev main_v235 : Ref sig .tc := ⟨.hbm, 346, rfl⟩
abbrev main_c_63 : Ref sig .tc := ⟨.hbm, 347, rfl⟩
abbrev main_v236 : Ref sig .tc := ⟨.hbm, 348, rfl⟩
abbrev main_v237 : Ref sig .tc := ⟨.hbm, 349, rfl⟩
abbrev main_v238 : Ref sig .tc := ⟨.hbm, 350, rfl⟩
abbrev main_v239 : Ref sig .tc := ⟨.hbm, 351, rfl⟩
abbrev main_v240 : Ref sig .tc := ⟨.hbm, 352, rfl⟩
abbrev main_c_64 : Ref sig .tc := ⟨.hbm, 353, rfl⟩
abbrev main_v241 : Ref sig .tc := ⟨.hbm, 354, rfl⟩
abbrev main_v242 : Ref sig .tc := ⟨.hbm, 355, rfl⟩
abbrev main_v243 : Ref sig .tc := ⟨.hbm, 356, rfl⟩
abbrev main_v244 : Ref sig .tc := ⟨.hbm, 357, rfl⟩
abbrev main_v245 : Ref sig .tc := ⟨.hbm, 358, rfl⟩
abbrev main_c_65 : Ref sig .tc := ⟨.hbm, 359, rfl⟩
abbrev main_v246 : Ref sig .tc := ⟨.hbm, 360, rfl⟩
abbrev main_v247 : Ref sig .tc := ⟨.hbm, 361, rfl⟩
abbrev main_c_66 : Ref sig .tc := ⟨.hbm, 362, rfl⟩
abbrev main_v248 : Ref sig .tc := ⟨.hbm, 363, rfl⟩
abbrev main_v249 : Ref sig .tc := ⟨.hbm, 364, rfl⟩
abbrev main_v250 : Ref sig .tc := ⟨.hbm, 365, rfl⟩
abbrev main_v251 : Ref sig .tc := ⟨.hbm, 366, rfl⟩
abbrev main_v252 : Ref sig .tc := ⟨.hbm, 367, rfl⟩
abbrev main_cst_67 : Ref sig .tc := ⟨.hbm, 368, rfl⟩
abbrev main_call12_v0 : Ref sig .tc := ⟨.hbm, 369, rfl⟩
abbrev main_call12_v1 : Ref sig .tc := ⟨.hbm, 370, rfl⟩
abbrev main_call12_v2 : Ref sig .tc := ⟨.hbm, 371, rfl⟩
abbrev main_v253 : Ref sig .tc := ⟨.hbm, 372, rfl⟩
abbrev main_c_68 : Ref sig .tc := ⟨.hbm, 373, rfl⟩
abbrev main_v254 : Ref sig .tc := ⟨.hbm, 374, rfl⟩
abbrev main_v255 : Ref sig .tc := ⟨.hbm, 375, rfl⟩
abbrev main_c_69 : Ref sig .tc := ⟨.hbm, 376, rfl⟩
abbrev main_v256 : Ref sig .tc := ⟨.hbm, 377, rfl⟩
abbrev main_v257 : Ref sig .tc := ⟨.hbm, 378, rfl⟩
abbrev main_v258 : Ref sig .tc := ⟨.hbm, 379, rfl⟩
abbrev main_v259 : Ref sig .tc := ⟨.hbm, 380, rfl⟩
abbrev main_v260 : Ref sig .tc := ⟨.hbm, 381, rfl⟩
abbrev main_v261 : Ref sig .tc := ⟨.hbm, 382, rfl⟩
abbrev main_v262 : Ref sig .tc := ⟨.hbm, 383, rfl⟩
abbrev main_c_70 : Ref sig .tc := ⟨.hbm, 384, rfl⟩
abbrev main_v263 : Ref sig .tc := ⟨.hbm, 385, rfl⟩
abbrev main_v264 : Ref sig .tc := ⟨.hbm, 386, rfl⟩
abbrev main_c_71 : Ref sig .tc := ⟨.hbm, 387, rfl⟩
abbrev main_v265 : Ref sig .tc := ⟨.hbm, 388, rfl⟩
abbrev main_v266 : Ref sig .tc := ⟨.hbm, 389, rfl⟩
abbrev main_v267 : Ref sig .tc := ⟨.hbm, 390, rfl⟩
abbrev main_v268 : Ref sig .tc := ⟨.hbm, 391, rfl⟩
abbrev main_v269 : Ref sig .tc := ⟨.hbm, 392, rfl⟩
abbrev main_cst_72 : Ref sig .tc := ⟨.hbm, 393, rfl⟩
abbrev main_call13_v0 : Ref sig .tc := ⟨.hbm, 394, rfl⟩
abbrev main_call13_v1 : Ref sig .tc := ⟨.hbm, 395, rfl⟩
abbrev main_call13_v2 : Ref sig .tc := ⟨.hbm, 396, rfl⟩
abbrev main_v270 : Ref sig .tc := ⟨.hbm, 397, rfl⟩
abbrev main_c_73 : Ref sig .tc := ⟨.hbm, 398, rfl⟩
abbrev main_v271 : Ref sig .tc := ⟨.hbm, 399, rfl⟩
abbrev main_v272 : Ref sig .tc := ⟨.hbm, 400, rfl⟩
abbrev main_c_74 : Ref sig .tc := ⟨.hbm, 401, rfl⟩
abbrev main_v273 : Ref sig .tc := ⟨.hbm, 402, rfl⟩
abbrev main_v274 : Ref sig .tc := ⟨.hbm, 403, rfl⟩
abbrev main_v275 : Ref sig .tc := ⟨.hbm, 404, rfl⟩
abbrev main_v276 : Ref sig .tc := ⟨.hbm, 405, rfl⟩
abbrev main_v277 : Ref sig .tc := ⟨.hbm, 406, rfl⟩
abbrev main_c_75 : Ref sig .tc := ⟨.hbm, 407, rfl⟩
abbrev main_v278 : Ref sig .tc := ⟨.hbm, 408, rfl⟩
abbrev main_v279 : Ref sig .tc := ⟨.hbm, 409, rfl⟩
abbrev main_v280 : Ref sig .tc := ⟨.hbm, 410, rfl⟩
abbrev main_v281 : Ref sig .tc := ⟨.hbm, 411, rfl⟩
abbrev main_v282 : Ref sig .tc := ⟨.hbm, 412, rfl⟩
abbrev main_c_76 : Ref sig .tc := ⟨.hbm, 413, rfl⟩
abbrev main_v283 : Ref sig .tc := ⟨.hbm, 414, rfl⟩
abbrev main_v284 : Ref sig .tc := ⟨.hbm, 415, rfl⟩
abbrev main_c_77 : Ref sig .tc := ⟨.hbm, 416, rfl⟩
abbrev main_v285 : Ref sig .tc := ⟨.hbm, 417, rfl⟩
abbrev main_v286 : Ref sig .tc := ⟨.hbm, 418, rfl⟩
abbrev main_v287 : Ref sig .tc := ⟨.hbm, 419, rfl⟩
abbrev main_v288 : Ref sig .tc := ⟨.hbm, 420, rfl⟩
abbrev main_v289 : Ref sig .tc := ⟨.hbm, 421, rfl⟩
abbrev main_cst_78 : Ref sig .tc := ⟨.hbm, 422, rfl⟩
abbrev main_call14_v0 : Ref sig .tc := ⟨.hbm, 423, rfl⟩
abbrev main_call14_v1 : Ref sig .tc := ⟨.hbm, 424, rfl⟩
abbrev main_call14_v2 : Ref sig .tc := ⟨.hbm, 425, rfl⟩
abbrev main_v290 : Ref sig .tc := ⟨.hbm, 426, rfl⟩
abbrev main_c_79 : Ref sig .tc := ⟨.hbm, 427, rfl⟩
abbrev main_v291 : Ref sig .tc := ⟨.hbm, 428, rfl⟩
abbrev main_v292 : Ref sig .tc := ⟨.hbm, 429, rfl⟩
abbrev main_c_80 : Ref sig .tc := ⟨.hbm, 430, rfl⟩
abbrev main_v293 : Ref sig .tc := ⟨.hbm, 431, rfl⟩
abbrev main_v294 : Ref sig .tc := ⟨.hbm, 432, rfl⟩
abbrev main_v295 : Ref sig .tc := ⟨.hbm, 433, rfl⟩
abbrev main_v296 : Ref sig .tc := ⟨.hbm, 434, rfl⟩
abbrev main_v297 : Ref sig .tc := ⟨.hbm, 435, rfl⟩
abbrev main_v298 : Ref sig .tc := ⟨.hbm, 436, rfl⟩
abbrev main_v299 : Ref sig .tc := ⟨.hbm, 437, rfl⟩
abbrev main_c_81 : Ref sig .tc := ⟨.hbm, 438, rfl⟩
abbrev main_v300 : Ref sig .tc := ⟨.hbm, 439, rfl⟩
abbrev main_v301 : Ref sig .tc := ⟨.hbm, 440, rfl⟩
abbrev main_c_82 : Ref sig .tc := ⟨.hbm, 441, rfl⟩
abbrev main_v302 : Ref sig .tc := ⟨.hbm, 442, rfl⟩
abbrev main_v303 : Ref sig .tc := ⟨.hbm, 443, rfl⟩
abbrev main_v304 : Ref sig .tc := ⟨.hbm, 444, rfl⟩
abbrev main_v305 : Ref sig .tc := ⟨.hbm, 445, rfl⟩
abbrev main_v306 : Ref sig .tc := ⟨.hbm, 446, rfl⟩
abbrev main_cst_83 : Ref sig .tc := ⟨.hbm, 447, rfl⟩
abbrev main_call15_v0 : Ref sig .tc := ⟨.hbm, 448, rfl⟩
abbrev main_call15_v1 : Ref sig .tc := ⟨.hbm, 449, rfl⟩
abbrev main_call15_v2 : Ref sig .tc := ⟨.hbm, 450, rfl⟩
abbrev main_v307 : Ref sig .tc := ⟨.hbm, 451, rfl⟩
abbrev main_c_84 : Ref sig .tc := ⟨.hbm, 452, rfl⟩
abbrev main_v308 : Ref sig .tc := ⟨.hbm, 453, rfl⟩
abbrev main_v309 : Ref sig .tc := ⟨.hbm, 454, rfl⟩
abbrev main_c_85 : Ref sig .tc := ⟨.hbm, 455, rfl⟩
abbrev main_v310 : Ref sig .tc := ⟨.hbm, 456, rfl⟩
abbrev main_v311 : Ref sig .tc := ⟨.hbm, 457, rfl⟩
abbrev main_v312 : Ref sig .tc := ⟨.hbm, 458, rfl⟩
abbrev main_v313 : Ref sig .tc := ⟨.hbm, 459, rfl⟩
abbrev main_v314 : Ref sig .tc := ⟨.hbm, 460, rfl⟩
abbrev main_c_86 : Ref sig .tc := ⟨.hbm, 461, rfl⟩
abbrev main_v315 : Ref sig .tc := ⟨.hbm, 462, rfl⟩
abbrev main_v316 : Ref sig .tc := ⟨.hbm, 463, rfl⟩
abbrev main_v317 : Ref sig .tc := ⟨.hbm, 464, rfl⟩
abbrev main_v318 : Ref sig .tc := ⟨.hbm, 465, rfl⟩
abbrev main_v319 : Ref sig .tc := ⟨.hbm, 466, rfl⟩
abbrev main_c_87 : Ref sig .tc := ⟨.hbm, 467, rfl⟩
abbrev main_v320 : Ref sig .tc := ⟨.hbm, 468, rfl⟩
abbrev main_v321 : Ref sig .tc := ⟨.hbm, 469, rfl⟩
abbrev main_c_88 : Ref sig .tc := ⟨.hbm, 470, rfl⟩
abbrev main_v322 : Ref sig .tc := ⟨.hbm, 471, rfl⟩
abbrev main_v323 : Ref sig .tc := ⟨.hbm, 472, rfl⟩
abbrev main_v324 : Ref sig .tc := ⟨.hbm, 473, rfl⟩
abbrev main_v325 : Ref sig .tc := ⟨.hbm, 474, rfl⟩
abbrev main_v326 : Ref sig .tc := ⟨.hbm, 475, rfl⟩
abbrev main_cst_89 : Ref sig .tc := ⟨.hbm, 476, rfl⟩
abbrev main_call16_v0 : Ref sig .tc := ⟨.hbm, 477, rfl⟩
abbrev main_call16_v1 : Ref sig .tc := ⟨.hbm, 478, rfl⟩
abbrev main_call16_v2 : Ref sig .tc := ⟨.hbm, 479, rfl⟩
abbrev main_v327 : Ref sig .tc := ⟨.hbm, 480, rfl⟩
abbrev main_c_90 : Ref sig .tc := ⟨.hbm, 481, rfl⟩
abbrev main_v328 : Ref sig .tc := ⟨.hbm, 482, rfl⟩
abbrev main_v329 : Ref sig .tc := ⟨.hbm, 483, rfl⟩
abbrev main_c_91 : Ref sig .tc := ⟨.hbm, 484, rfl⟩
abbrev main_v330 : Ref sig .tc := ⟨.hbm, 485, rfl⟩
abbrev main_v331 : Ref sig .tc := ⟨.hbm, 486, rfl⟩
abbrev main_v332 : Ref sig .tc := ⟨.hbm, 487, rfl⟩
abbrev main_v333 : Ref sig .tc := ⟨.hbm, 488, rfl⟩
abbrev main_v334 : Ref sig .tc := ⟨.hbm, 489, rfl⟩
abbrev main_v335 : Ref sig .tc := ⟨.hbm, 490, rfl⟩
abbrev main_v336 : Ref sig .tc := ⟨.hbm, 491, rfl⟩
abbrev main_c_92 : Ref sig .tc := ⟨.hbm, 492, rfl⟩
abbrev main_v337 : Ref sig .tc := ⟨.hbm, 493, rfl⟩
abbrev main_v338 : Ref sig .tc := ⟨.hbm, 494, rfl⟩
abbrev main_c_93 : Ref sig .tc := ⟨.hbm, 495, rfl⟩
abbrev main_v339 : Ref sig .tc := ⟨.hbm, 496, rfl⟩
abbrev main_v340 : Ref sig .tc := ⟨.hbm, 497, rfl⟩
abbrev main_v341 : Ref sig .tc := ⟨.hbm, 498, rfl⟩
abbrev main_v342 : Ref sig .tc := ⟨.hbm, 499, rfl⟩
abbrev main_v343 : Ref sig .tc := ⟨.hbm, 500, rfl⟩
abbrev main_cst_94 : Ref sig .tc := ⟨.hbm, 501, rfl⟩
abbrev main_call17_v0 : Ref sig .tc := ⟨.hbm, 502, rfl⟩
abbrev main_call17_v1 : Ref sig .tc := ⟨.hbm, 503, rfl⟩
abbrev main_call17_v2 : Ref sig .tc := ⟨.hbm, 504, rfl⟩
abbrev main_v344 : Ref sig .tc := ⟨.hbm, 505, rfl⟩
abbrev main_c_95 : Ref sig .tc := ⟨.hbm, 506, rfl⟩
abbrev main_v345 : Ref sig .tc := ⟨.hbm, 507, rfl⟩
abbrev main_v346 : Ref sig .tc := ⟨.hbm, 508, rfl⟩
abbrev main_c_96 : Ref sig .tc := ⟨.hbm, 509, rfl⟩
abbrev main_v347 : Ref sig .tc := ⟨.hbm, 510, rfl⟩
abbrev main_v348 : Ref sig .tc := ⟨.hbm, 511, rfl⟩
abbrev main_v349 : Ref sig .tc := ⟨.hbm, 512, rfl⟩
abbrev main_v350 : Ref sig .tc := ⟨.hbm, 513, rfl⟩
abbrev main_v351 : Ref sig .tc := ⟨.hbm, 514, rfl⟩
abbrev main_c_97 : Ref sig .tc := ⟨.hbm, 515, rfl⟩
abbrev main_v352 : Ref sig .tc := ⟨.hbm, 516, rfl⟩
abbrev main_v353 : Ref sig .tc := ⟨.hbm, 517, rfl⟩
abbrev main_v354 : Ref sig .tc := ⟨.hbm, 518, rfl⟩
abbrev main_v355 : Ref sig .tc := ⟨.hbm, 519, rfl⟩
abbrev main_v356 : Ref sig .tc := ⟨.hbm, 520, rfl⟩
abbrev main_c_98 : Ref sig .tc := ⟨.hbm, 521, rfl⟩
abbrev main_v357 : Ref sig .tc := ⟨.hbm, 522, rfl⟩
abbrev main_v358 : Ref sig .tc := ⟨.hbm, 523, rfl⟩
abbrev main_c_99 : Ref sig .tc := ⟨.hbm, 524, rfl⟩
abbrev main_v359 : Ref sig .tc := ⟨.hbm, 525, rfl⟩
abbrev main_v360 : Ref sig .tc := ⟨.hbm, 526, rfl⟩
abbrev main_v361 : Ref sig .tc := ⟨.hbm, 527, rfl⟩
abbrev main_v362 : Ref sig .tc := ⟨.hbm, 528, rfl⟩
abbrev main_v363 : Ref sig .tc := ⟨.hbm, 529, rfl⟩
abbrev main_cst_100 : Ref sig .tc := ⟨.hbm, 530, rfl⟩
abbrev main_call18_v0 : Ref sig .tc := ⟨.hbm, 531, rfl⟩
abbrev main_call18_v1 : Ref sig .tc := ⟨.hbm, 532, rfl⟩
abbrev main_call18_v2 : Ref sig .tc := ⟨.hbm, 533, rfl⟩
abbrev main_v364 : Ref sig .tc := ⟨.hbm, 534, rfl⟩
abbrev main_c_101 : Ref sig .tc := ⟨.hbm, 535, rfl⟩
abbrev main_v365 : Ref sig .tc := ⟨.hbm, 536, rfl⟩
abbrev main_v366 : Ref sig .tc := ⟨.hbm, 537, rfl⟩
abbrev main_c_102 : Ref sig .tc := ⟨.hbm, 538, rfl⟩
abbrev main_v367 : Ref sig .tc := ⟨.hbm, 539, rfl⟩
abbrev main_v368 : Ref sig .tc := ⟨.hbm, 540, rfl⟩
abbrev main_v369 : Ref sig .tc := ⟨.hbm, 541, rfl⟩
abbrev main_v370 : Ref sig .tc := ⟨.hbm, 542, rfl⟩
abbrev main_v371 : Ref sig .tc := ⟨.hbm, 543, rfl⟩
abbrev main_v372 : Ref sig .tc := ⟨.hbm, 544, rfl⟩
abbrev main_v373 : Ref sig .tc := ⟨.hbm, 545, rfl⟩
abbrev main_c_103 : Ref sig .tc := ⟨.hbm, 546, rfl⟩
abbrev main_v374 : Ref sig .tc := ⟨.hbm, 547, rfl⟩
abbrev main_v375 : Ref sig .tc := ⟨.hbm, 548, rfl⟩
abbrev main_c_104 : Ref sig .tc := ⟨.hbm, 549, rfl⟩
abbrev main_v376 : Ref sig .tc := ⟨.hbm, 550, rfl⟩
abbrev main_v377 : Ref sig .tc := ⟨.hbm, 551, rfl⟩
abbrev main_v378 : Ref sig .tc := ⟨.hbm, 552, rfl⟩
abbrev main_v379 : Ref sig .tc := ⟨.hbm, 553, rfl⟩
abbrev main_v380 : Ref sig .tc := ⟨.hbm, 554, rfl⟩
abbrev main_cst_105 : Ref sig .tc := ⟨.hbm, 555, rfl⟩
abbrev main_call19_v0 : Ref sig .tc := ⟨.hbm, 556, rfl⟩
abbrev main_call19_v1 : Ref sig .tc := ⟨.hbm, 557, rfl⟩
abbrev main_call19_v2 : Ref sig .tc := ⟨.hbm, 558, rfl⟩
abbrev main_v381 : Ref sig .tc := ⟨.hbm, 559, rfl⟩
abbrev main_c_106 : Ref sig .tc := ⟨.hbm, 560, rfl⟩
abbrev main_v382 : Ref sig .tc := ⟨.hbm, 561, rfl⟩
abbrev main_v383 : Ref sig .tc := ⟨.hbm, 562, rfl⟩
abbrev main_c_107 : Ref sig .tc := ⟨.hbm, 563, rfl⟩
abbrev main_v384 : Ref sig .tc := ⟨.hbm, 564, rfl⟩
abbrev main_v385 : Ref sig .tc := ⟨.hbm, 565, rfl⟩
abbrev main_v386 : Ref sig .tc := ⟨.hbm, 566, rfl⟩
abbrev main_v387 : Ref sig .tc := ⟨.hbm, 567, rfl⟩
abbrev main_v388 : Ref sig .tc := ⟨.hbm, 568, rfl⟩
abbrev main_c_108 : Ref sig .tc := ⟨.hbm, 569, rfl⟩
abbrev main_v389 : Ref sig .tc := ⟨.hbm, 570, rfl⟩
abbrev main_v390 : Ref sig .tc := ⟨.hbm, 571, rfl⟩
abbrev main_v391 : Ref sig .tc := ⟨.hbm, 572, rfl⟩
abbrev main_v392 : Ref sig .tc := ⟨.hbm, 573, rfl⟩
abbrev main_v393 : Ref sig .tc := ⟨.hbm, 574, rfl⟩
abbrev main_c_109 : Ref sig .tc := ⟨.hbm, 575, rfl⟩
abbrev main_v394 : Ref sig .tc := ⟨.hbm, 576, rfl⟩
abbrev main_v395 : Ref sig .tc := ⟨.hbm, 577, rfl⟩
abbrev main_c_110 : Ref sig .tc := ⟨.hbm, 578, rfl⟩
abbrev main_v396 : Ref sig .tc := ⟨.hbm, 579, rfl⟩
abbrev main_v397 : Ref sig .tc := ⟨.hbm, 580, rfl⟩
abbrev main_v398 : Ref sig .tc := ⟨.hbm, 581, rfl⟩
abbrev main_v399 : Ref sig .tc := ⟨.hbm, 582, rfl⟩
abbrev main_v400 : Ref sig .tc := ⟨.hbm, 583, rfl⟩
abbrev main_cst_111 : Ref sig .tc := ⟨.hbm, 584, rfl⟩
abbrev main_call20_v0 : Ref sig .tc := ⟨.hbm, 585, rfl⟩
abbrev main_call20_v1 : Ref sig .tc := ⟨.hbm, 586, rfl⟩
abbrev main_call20_v2 : Ref sig .tc := ⟨.hbm, 587, rfl⟩
abbrev main_v401 : Ref sig .tc := ⟨.hbm, 588, rfl⟩
abbrev main_c_112 : Ref sig .tc := ⟨.hbm, 589, rfl⟩
abbrev main_v402 : Ref sig .tc := ⟨.hbm, 590, rfl⟩
abbrev main_v403 : Ref sig .tc := ⟨.hbm, 591, rfl⟩
abbrev main_c_113 : Ref sig .tc := ⟨.hbm, 592, rfl⟩
abbrev main_v404 : Ref sig .tc := ⟨.hbm, 593, rfl⟩
abbrev main_v405 : Ref sig .tc := ⟨.hbm, 594, rfl⟩
abbrev main_v406 : Ref sig .tc := ⟨.hbm, 595, rfl⟩
abbrev main_v407 : Ref sig .tc := ⟨.hbm, 596, rfl⟩
abbrev main_v408 : Ref sig .tc := ⟨.hbm, 597, rfl⟩
abbrev main_v409 : Ref sig .tc := ⟨.hbm, 598, rfl⟩
abbrev main_v410 : Ref sig .tc := ⟨.hbm, 599, rfl⟩
abbrev main_c_114 : Ref sig .tc := ⟨.hbm, 600, rfl⟩
abbrev main_v411 : Ref sig .tc := ⟨.hbm, 601, rfl⟩
abbrev main_v412 : Ref sig .tc := ⟨.hbm, 602, rfl⟩
abbrev main_c_115 : Ref sig .tc := ⟨.hbm, 603, rfl⟩
abbrev main_v413 : Ref sig .tc := ⟨.hbm, 604, rfl⟩
abbrev main_v414 : Ref sig .tc := ⟨.hbm, 605, rfl⟩
abbrev main_v415 : Ref sig .tc := ⟨.hbm, 606, rfl⟩
abbrev main_v416 : Ref sig .tc := ⟨.hbm, 607, rfl⟩
abbrev main_v417 : Ref sig .tc := ⟨.hbm, 608, rfl⟩
abbrev main_cst_116 : Ref sig .tc := ⟨.hbm, 609, rfl⟩
abbrev main_call21_v0 : Ref sig .tc := ⟨.hbm, 610, rfl⟩
abbrev main_call21_v1 : Ref sig .tc := ⟨.hbm, 611, rfl⟩
abbrev main_call21_v2 : Ref sig .tc := ⟨.hbm, 612, rfl⟩
abbrev main_v418 : Ref sig .tc := ⟨.hbm, 613, rfl⟩
abbrev main_c_117 : Ref sig .tc := ⟨.hbm, 614, rfl⟩
abbrev main_v419 : Ref sig .tc := ⟨.hbm, 615, rfl⟩
abbrev main_v420 : Ref sig .tc := ⟨.hbm, 616, rfl⟩
abbrev main_c_118 : Ref sig .tc := ⟨.hbm, 617, rfl⟩
abbrev main_v421 : Ref sig .tc := ⟨.hbm, 618, rfl⟩
abbrev main_v422 : Ref sig .tc := ⟨.hbm, 619, rfl⟩
abbrev main_v423 : Ref sig .tc := ⟨.hbm, 620, rfl⟩
abbrev main_v424 : Ref sig .tc := ⟨.hbm, 621, rfl⟩
abbrev main_v425 : Ref sig .tc := ⟨.hbm, 622, rfl⟩
abbrev main_c_119 : Ref sig .tc := ⟨.hbm, 623, rfl⟩
abbrev main_v426 : Ref sig .tc := ⟨.hbm, 624, rfl⟩
abbrev main_v427 : Ref sig .tc := ⟨.hbm, 625, rfl⟩
abbrev main_v428 : Ref sig .tc := ⟨.hbm, 626, rfl⟩
abbrev main_v429 : Ref sig .tc := ⟨.hbm, 627, rfl⟩
abbrev main_v430 : Ref sig .tc := ⟨.hbm, 628, rfl⟩
abbrev main_c_120 : Ref sig .tc := ⟨.hbm, 629, rfl⟩
abbrev main_v431 : Ref sig .tc := ⟨.hbm, 630, rfl⟩
abbrev main_v432 : Ref sig .tc := ⟨.hbm, 631, rfl⟩
abbrev main_c_121 : Ref sig .tc := ⟨.hbm, 632, rfl⟩
abbrev main_v433 : Ref sig .tc := ⟨.hbm, 633, rfl⟩
abbrev main_v434 : Ref sig .tc := ⟨.hbm, 634, rfl⟩
abbrev main_v435 : Ref sig .tc := ⟨.hbm, 635, rfl⟩
abbrev main_v436 : Ref sig .tc := ⟨.hbm, 636, rfl⟩
abbrev main_v437 : Ref sig .tc := ⟨.hbm, 637, rfl⟩
abbrev main_cst_122 : Ref sig .tc := ⟨.hbm, 638, rfl⟩
abbrev main_call22_v0 : Ref sig .tc := ⟨.hbm, 639, rfl⟩
abbrev main_call22_v1 : Ref sig .tc := ⟨.hbm, 640, rfl⟩
abbrev main_call22_v2 : Ref sig .tc := ⟨.hbm, 641, rfl⟩
abbrev main_v438 : Ref sig .tc := ⟨.hbm, 642, rfl⟩
abbrev main_c_123 : Ref sig .tc := ⟨.hbm, 643, rfl⟩
abbrev main_v439 : Ref sig .tc := ⟨.hbm, 644, rfl⟩
abbrev main_v440 : Ref sig .tc := ⟨.hbm, 645, rfl⟩
abbrev main_c_124 : Ref sig .tc := ⟨.hbm, 646, rfl⟩
abbrev main_v441 : Ref sig .tc := ⟨.hbm, 647, rfl⟩
abbrev main_v442 : Ref sig .tc := ⟨.hbm, 648, rfl⟩
abbrev main_v443 : Ref sig .tc := ⟨.hbm, 649, rfl⟩
abbrev main_v444 : Ref sig .tc := ⟨.hbm, 650, rfl⟩
abbrev main_v445 : Ref sig .tc := ⟨.hbm, 651, rfl⟩
abbrev main_v446 : Ref sig .tc := ⟨.hbm, 652, rfl⟩
abbrev main_v447 : Ref sig .tc := ⟨.hbm, 653, rfl⟩
abbrev main_c_125 : Ref sig .tc := ⟨.hbm, 654, rfl⟩
abbrev main_v448 : Ref sig .tc := ⟨.hbm, 655, rfl⟩
abbrev main_v449 : Ref sig .tc := ⟨.hbm, 656, rfl⟩
abbrev main_c_126 : Ref sig .tc := ⟨.hbm, 657, rfl⟩
abbrev main_v450 : Ref sig .tc := ⟨.hbm, 658, rfl⟩
abbrev main_v451 : Ref sig .tc := ⟨.hbm, 659, rfl⟩
abbrev main_v452 : Ref sig .tc := ⟨.hbm, 660, rfl⟩
abbrev main_v453 : Ref sig .tc := ⟨.hbm, 661, rfl⟩
abbrev main_v454 : Ref sig .tc := ⟨.hbm, 662, rfl⟩
abbrev main_cst_127 : Ref sig .tc := ⟨.hbm, 663, rfl⟩
abbrev main_call23_v0 : Ref sig .tc := ⟨.hbm, 664, rfl⟩
abbrev main_call23_v1 : Ref sig .tc := ⟨.hbm, 665, rfl⟩
abbrev main_call23_v2 : Ref sig .tc := ⟨.hbm, 666, rfl⟩
abbrev main_v455 : Ref sig .tc := ⟨.hbm, 667, rfl⟩
abbrev main_c_128 : Ref sig .tc := ⟨.hbm, 668, rfl⟩
abbrev main_v456 : Ref sig .tc := ⟨.hbm, 669, rfl⟩
abbrev main_v457 : Ref sig .tc := ⟨.hbm, 670, rfl⟩
abbrev main_c_129 : Ref sig .tc := ⟨.hbm, 671, rfl⟩
abbrev main_v458 : Ref sig .tc := ⟨.hbm, 672, rfl⟩
abbrev main_v459 : Ref sig .tc := ⟨.hbm, 673, rfl⟩
abbrev main_v460 : Ref sig .tc := ⟨.hbm, 674, rfl⟩
abbrev main_v461 : Ref sig .tc := ⟨.hbm, 675, rfl⟩
abbrev main_v462 : Ref sig .tc := ⟨.hbm, 676, rfl⟩
abbrev main_c_130 : Ref sig .tc := ⟨.hbm, 677, rfl⟩
abbrev main_v463 : Ref sig .tc := ⟨.hbm, 678, rfl⟩
abbrev main_v464 : Ref sig .tc := ⟨.hbm, 679, rfl⟩
abbrev main_v465 : Ref sig .tc := ⟨.hbm, 680, rfl⟩
abbrev main_v466 : Ref sig .tc := ⟨.hbm, 681, rfl⟩
abbrev main_v467 : Ref sig .tc := ⟨.hbm, 682, rfl⟩
abbrev main_c_131 : Ref sig .tc := ⟨.hbm, 683, rfl⟩
abbrev main_v468 : Ref sig .tc := ⟨.hbm, 684, rfl⟩
abbrev main_v469 : Ref sig .tc := ⟨.hbm, 685, rfl⟩
abbrev main_c_132 : Ref sig .tc := ⟨.hbm, 686, rfl⟩
abbrev main_v470 : Ref sig .tc := ⟨.hbm, 687, rfl⟩
abbrev main_v471 : Ref sig .tc := ⟨.hbm, 688, rfl⟩
abbrev main_v472 : Ref sig .tc := ⟨.hbm, 689, rfl⟩
abbrev main_v473 : Ref sig .tc := ⟨.hbm, 690, rfl⟩
abbrev main_v474 : Ref sig .tc := ⟨.hbm, 691, rfl⟩
abbrev main_cst_133 : Ref sig .tc := ⟨.hbm, 692, rfl⟩
abbrev main_call24_v0 : Ref sig .tc := ⟨.hbm, 693, rfl⟩
abbrev main_call24_v1 : Ref sig .tc := ⟨.hbm, 694, rfl⟩
abbrev main_call24_v2 : Ref sig .tc := ⟨.hbm, 695, rfl⟩
abbrev main_v475 : Ref sig .tc := ⟨.hbm, 696, rfl⟩
abbrev main_c_134 : Ref sig .tc := ⟨.hbm, 697, rfl⟩
abbrev main_v476 : Ref sig .tc := ⟨.hbm, 698, rfl⟩
abbrev main_v477 : Ref sig .tc := ⟨.hbm, 699, rfl⟩
abbrev main_c_135 : Ref sig .tc := ⟨.hbm, 700, rfl⟩
abbrev main_v478 : Ref sig .tc := ⟨.hbm, 701, rfl⟩
abbrev main_v479 : Ref sig .tc := ⟨.hbm, 702, rfl⟩
abbrev main_v480 : Ref sig .tc := ⟨.hbm, 703, rfl⟩
abbrev main_v481 : Ref sig .tc := ⟨.hbm, 704, rfl⟩
abbrev main_v482 : Ref sig .tc := ⟨.hbm, 705, rfl⟩
abbrev main_v483 : Ref sig .tc := ⟨.hbm, 706, rfl⟩
abbrev main_v484 : Ref sig .tc := ⟨.hbm, 707, rfl⟩
abbrev main_c_136 : Ref sig .tc := ⟨.hbm, 708, rfl⟩
abbrev main_v485 : Ref sig .tc := ⟨.hbm, 709, rfl⟩
abbrev main_v486 : Ref sig .tc := ⟨.hbm, 710, rfl⟩
abbrev main_c_137 : Ref sig .tc := ⟨.hbm, 711, rfl⟩
abbrev main_v487 : Ref sig .tc := ⟨.hbm, 712, rfl⟩
abbrev main_v488 : Ref sig .tc := ⟨.hbm, 713, rfl⟩
abbrev main_v489 : Ref sig .tc := ⟨.hbm, 714, rfl⟩
abbrev main_v490 : Ref sig .tc := ⟨.hbm, 715, rfl⟩
abbrev main_v491 : Ref sig .tc := ⟨.hbm, 716, rfl⟩
abbrev main_cst_138 : Ref sig .tc := ⟨.hbm, 717, rfl⟩
abbrev main_call25_v0 : Ref sig .tc := ⟨.hbm, 718, rfl⟩
abbrev main_call25_v1 : Ref sig .tc := ⟨.hbm, 719, rfl⟩
abbrev main_call25_v2 : Ref sig .tc := ⟨.hbm, 720, rfl⟩
abbrev main_v492 : Ref sig .tc := ⟨.hbm, 721, rfl⟩
abbrev main_c_139 : Ref sig .tc := ⟨.hbm, 722, rfl⟩
abbrev main_v493 : Ref sig .tc := ⟨.hbm, 723, rfl⟩
abbrev main_v494 : Ref sig .tc := ⟨.hbm, 724, rfl⟩
abbrev main_c_140 : Ref sig .tc := ⟨.hbm, 725, rfl⟩
abbrev main_v495 : Ref sig .tc := ⟨.hbm, 726, rfl⟩
abbrev main_v496 : Ref sig .tc := ⟨.hbm, 727, rfl⟩
abbrev main_v497 : Ref sig .tc := ⟨.hbm, 728, rfl⟩
abbrev main_v498 : Ref sig .tc := ⟨.hbm, 729, rfl⟩
abbrev main_v499 : Ref sig .tc := ⟨.hbm, 730, rfl⟩
abbrev main_c_141 : Ref sig .tc := ⟨.hbm, 731, rfl⟩
abbrev main_v500 : Ref sig .tc := ⟨.hbm, 732, rfl⟩
abbrev main_v501 : Ref sig .tc := ⟨.hbm, 733, rfl⟩
abbrev main_v502 : Ref sig .tc := ⟨.hbm, 734, rfl⟩
abbrev main_v503 : Ref sig .tc := ⟨.hbm, 735, rfl⟩
abbrev main_v504 : Ref sig .tc := ⟨.hbm, 736, rfl⟩
abbrev main_c_142 : Ref sig .tc := ⟨.hbm, 737, rfl⟩
abbrev main_v505 : Ref sig .tc := ⟨.hbm, 738, rfl⟩
abbrev main_v506 : Ref sig .tc := ⟨.hbm, 739, rfl⟩
abbrev main_c_143 : Ref sig .tc := ⟨.hbm, 740, rfl⟩
abbrev main_v507 : Ref sig .tc := ⟨.hbm, 741, rfl⟩
abbrev main_v508 : Ref sig .tc := ⟨.hbm, 742, rfl⟩
abbrev main_v509 : Ref sig .tc := ⟨.hbm, 743, rfl⟩
abbrev main_v510 : Ref sig .tc := ⟨.hbm, 744, rfl⟩
abbrev main_v511 : Ref sig .tc := ⟨.hbm, 745, rfl⟩
abbrev main_cst_144 : Ref sig .tc := ⟨.hbm, 746, rfl⟩
abbrev main_call26_v0 : Ref sig .tc := ⟨.hbm, 747, rfl⟩
abbrev main_call26_v1 : Ref sig .tc := ⟨.hbm, 748, rfl⟩
abbrev main_call26_v2 : Ref sig .tc := ⟨.hbm, 749, rfl⟩
abbrev main_v512 : Ref sig .tc := ⟨.hbm, 750, rfl⟩
abbrev main_c_145 : Ref sig .tc := ⟨.hbm, 751, rfl⟩
abbrev main_v513 : Ref sig .tc := ⟨.hbm, 752, rfl⟩
abbrev main_v514 : Ref sig .tc := ⟨.hbm, 753, rfl⟩
abbrev main_c_146 : Ref sig .tc := ⟨.hbm, 754, rfl⟩
abbrev main_v515 : Ref sig .tc := ⟨.hbm, 755, rfl⟩
abbrev main_v516 : Ref sig .tc := ⟨.hbm, 756, rfl⟩
abbrev main_v517 : Ref sig .tc := ⟨.hbm, 757, rfl⟩
abbrev main_v518 : Ref sig .tc := ⟨.hbm, 758, rfl⟩
abbrev main_v519 : Ref sig .tc := ⟨.hbm, 759, rfl⟩
abbrev main_v520 : Ref sig .tc := ⟨.hbm, 760, rfl⟩
abbrev main_v521 : Ref sig .tc := ⟨.hbm, 761, rfl⟩
abbrev main_c_147 : Ref sig .tc := ⟨.hbm, 762, rfl⟩
abbrev main_v522 : Ref sig .tc := ⟨.hbm, 763, rfl⟩
abbrev main_v523 : Ref sig .tc := ⟨.hbm, 764, rfl⟩
abbrev main_c_148 : Ref sig .tc := ⟨.hbm, 765, rfl⟩
abbrev main_v524 : Ref sig .tc := ⟨.hbm, 766, rfl⟩
abbrev main_v525 : Ref sig .tc := ⟨.hbm, 767, rfl⟩
abbrev main_v526 : Ref sig .tc := ⟨.hbm, 768, rfl⟩
abbrev main_v527 : Ref sig .tc := ⟨.hbm, 769, rfl⟩
abbrev main_v528 : Ref sig .tc := ⟨.hbm, 770, rfl⟩
abbrev main_cst_149 : Ref sig .tc := ⟨.hbm, 771, rfl⟩
abbrev main_call27_v0 : Ref sig .tc := ⟨.hbm, 772, rfl⟩
abbrev main_call27_v1 : Ref sig .tc := ⟨.hbm, 773, rfl⟩
abbrev main_call27_v2 : Ref sig .tc := ⟨.hbm, 774, rfl⟩
abbrev main_v529 : Ref sig .tc := ⟨.hbm, 775, rfl⟩
abbrev main_c_150 : Ref sig .tc := ⟨.hbm, 776, rfl⟩
abbrev main_v530 : Ref sig .tc := ⟨.hbm, 777, rfl⟩
abbrev main_v531 : Ref sig .tc := ⟨.hbm, 778, rfl⟩
abbrev main_c_151 : Ref sig .tc := ⟨.hbm, 779, rfl⟩
abbrev main_v532 : Ref sig .tc := ⟨.hbm, 780, rfl⟩
abbrev main_v533 : Ref sig .tc := ⟨.hbm, 781, rfl⟩
abbrev main_v534 : Ref sig .tc := ⟨.hbm, 782, rfl⟩
abbrev main_v535 : Ref sig .tc := ⟨.hbm, 783, rfl⟩
abbrev main_v536 : Ref sig .tc := ⟨.hbm, 784, rfl⟩
abbrev main_c_152 : Ref sig .tc := ⟨.hbm, 785, rfl⟩
abbrev main_v537 : Ref sig .tc := ⟨.hbm, 786, rfl⟩
abbrev main_v538 : Ref sig .tc := ⟨.hbm, 787, rfl⟩
abbrev main_v539 : Ref sig .tc := ⟨.hbm, 788, rfl⟩
abbrev main_v540 : Ref sig .tc := ⟨.hbm, 789, rfl⟩
abbrev main_v541 : Ref sig .tc := ⟨.hbm, 790, rfl⟩
abbrev main_c_153 : Ref sig .tc := ⟨.hbm, 791, rfl⟩
abbrev main_v542 : Ref sig .tc := ⟨.hbm, 792, rfl⟩
abbrev main_v543 : Ref sig .tc := ⟨.hbm, 793, rfl⟩
abbrev main_c_154 : Ref sig .tc := ⟨.hbm, 794, rfl⟩
abbrev main_v544 : Ref sig .tc := ⟨.hbm, 795, rfl⟩
abbrev main_v545 : Ref sig .tc := ⟨.hbm, 796, rfl⟩
abbrev main_v546 : Ref sig .tc := ⟨.hbm, 797, rfl⟩
abbrev main_v547 : Ref sig .tc := ⟨.hbm, 798, rfl⟩
abbrev main_v548 : Ref sig .tc := ⟨.hbm, 799, rfl⟩
abbrev main_cst_155 : Ref sig .tc := ⟨.hbm, 800, rfl⟩
abbrev main_call28_v0 : Ref sig .tc := ⟨.hbm, 801, rfl⟩
abbrev main_call28_v1 : Ref sig .tc := ⟨.hbm, 802, rfl⟩
abbrev main_call28_v2 : Ref sig .tc := ⟨.hbm, 803, rfl⟩
abbrev main_v549 : Ref sig .tc := ⟨.hbm, 804, rfl⟩
abbrev main_c_156 : Ref sig .tc := ⟨.hbm, 805, rfl⟩
abbrev main_v550 : Ref sig .tc := ⟨.hbm, 806, rfl⟩
abbrev main_v551 : Ref sig .tc := ⟨.hbm, 807, rfl⟩
abbrev main_c_157 : Ref sig .tc := ⟨.hbm, 808, rfl⟩
abbrev main_v552 : Ref sig .tc := ⟨.hbm, 809, rfl⟩
abbrev main_v553 : Ref sig .tc := ⟨.hbm, 810, rfl⟩
abbrev main_v554 : Ref sig .tc := ⟨.hbm, 811, rfl⟩
abbrev main_v555 : Ref sig .tc := ⟨.hbm, 812, rfl⟩
abbrev main_v556 : Ref sig .tc := ⟨.hbm, 813, rfl⟩
abbrev main_v557 : Ref sig .tc := ⟨.hbm, 814, rfl⟩
abbrev main_v558 : Ref sig .tc := ⟨.hbm, 815, rfl⟩
abbrev main_c_158 : Ref sig .tc := ⟨.hbm, 816, rfl⟩
abbrev main_v559 : Ref sig .tc := ⟨.hbm, 817, rfl⟩
abbrev main_v560 : Ref sig .tc := ⟨.hbm, 818, rfl⟩
abbrev main_c_159 : Ref sig .tc := ⟨.hbm, 819, rfl⟩
abbrev main_v561 : Ref sig .tc := ⟨.hbm, 820, rfl⟩
abbrev main_v562 : Ref sig .tc := ⟨.hbm, 821, rfl⟩
abbrev main_v563 : Ref sig .tc := ⟨.hbm, 822, rfl⟩
abbrev main_v564 : Ref sig .tc := ⟨.hbm, 823, rfl⟩
abbrev main_v565 : Ref sig .tc := ⟨.hbm, 824, rfl⟩
abbrev main_cst_160 : Ref sig .tc := ⟨.hbm, 825, rfl⟩
abbrev main_call29_v0 : Ref sig .tc := ⟨.hbm, 826, rfl⟩
abbrev main_call29_v1 : Ref sig .tc := ⟨.hbm, 827, rfl⟩
abbrev main_call29_v2 : Ref sig .tc := ⟨.hbm, 828, rfl⟩
abbrev main_v566 : Ref sig .tc := ⟨.hbm, 829, rfl⟩
abbrev main_c_161 : Ref sig .tc := ⟨.hbm, 830, rfl⟩
abbrev main_v567 : Ref sig .tc := ⟨.hbm, 831, rfl⟩
abbrev main_v568 : Ref sig .tc := ⟨.hbm, 832, rfl⟩
abbrev main_c_162 : Ref sig .tc := ⟨.hbm, 833, rfl⟩
abbrev main_v569 : Ref sig .tc := ⟨.hbm, 834, rfl⟩
abbrev main_v570 : Ref sig .tc := ⟨.hbm, 835, rfl⟩
abbrev main_v571 : Ref sig .tc := ⟨.hbm, 836, rfl⟩
abbrev main_v572 : Ref sig .tc := ⟨.hbm, 837, rfl⟩
abbrev main_v573 : Ref sig .tc := ⟨.hbm, 838, rfl⟩
abbrev main_c_163 : Ref sig .tc := ⟨.hbm, 839, rfl⟩
abbrev main_v574 : Ref sig .tc := ⟨.hbm, 840, rfl⟩
abbrev main_v575 : Ref sig .tc := ⟨.hbm, 841, rfl⟩
abbrev main_v576 : Ref sig .tc := ⟨.hbm, 842, rfl⟩
abbrev main_v577 : Ref sig .tc := ⟨.hbm, 843, rfl⟩
abbrev main_v578 : Ref sig .tc := ⟨.hbm, 844, rfl⟩
abbrev main_c_164 : Ref sig .tc := ⟨.hbm, 845, rfl⟩
abbrev main_v579 : Ref sig .tc := ⟨.hbm, 846, rfl⟩
abbrev main_v580 : Ref sig .tc := ⟨.hbm, 847, rfl⟩
abbrev main_c_165 : Ref sig .tc := ⟨.hbm, 848, rfl⟩
abbrev main_v581 : Ref sig .tc := ⟨.hbm, 849, rfl⟩
abbrev main_v582 : Ref sig .tc := ⟨.hbm, 850, rfl⟩
abbrev main_v583 : Ref sig .tc := ⟨.hbm, 851, rfl⟩
abbrev main_v584 : Ref sig .tc := ⟨.hbm, 852, rfl⟩
abbrev main_v585 : Ref sig .tc := ⟨.hbm, 853, rfl⟩
abbrev main_cst_166 : Ref sig .tc := ⟨.hbm, 854, rfl⟩
abbrev main_call30_v0 : Ref sig .tc := ⟨.hbm, 855, rfl⟩
abbrev main_call30_v1 : Ref sig .tc := ⟨.hbm, 856, rfl⟩
abbrev main_call30_v2 : Ref sig .tc := ⟨.hbm, 857, rfl⟩
abbrev main_v586 : Ref sig .tc := ⟨.hbm, 858, rfl⟩
abbrev main_c_167 : Ref sig .tc := ⟨.hbm, 859, rfl⟩
abbrev main_v587 : Ref sig .tc := ⟨.hbm, 860, rfl⟩
abbrev main_v588 : Ref sig .tc := ⟨.hbm, 861, rfl⟩
abbrev main_c_168 : Ref sig .tc := ⟨.hbm, 862, rfl⟩
abbrev main_v589 : Ref sig .tc := ⟨.hbm, 863, rfl⟩
abbrev main_v590 : Ref sig .tc := ⟨.hbm, 864, rfl⟩
abbrev main_v591 : Ref sig .tc := ⟨.hbm, 865, rfl⟩
abbrev main_v592 : Ref sig .tc := ⟨.hbm, 866, rfl⟩
abbrev main_v593 : Ref sig .tc := ⟨.hbm, 867, rfl⟩
abbrev main_v594 : Ref sig .tc := ⟨.hbm, 868, rfl⟩
abbrev main_v595 : Ref sig .tc := ⟨.hbm, 869, rfl⟩
abbrev main_c_169 : Ref sig .tc := ⟨.hbm, 870, rfl⟩
abbrev main_v596 : Ref sig .tc := ⟨.hbm, 871, rfl⟩
abbrev main_v597 : Ref sig .tc := ⟨.hbm, 872, rfl⟩
abbrev main_c_170 : Ref sig .tc := ⟨.hbm, 873, rfl⟩
abbrev main_v598 : Ref sig .tc := ⟨.hbm, 874, rfl⟩
abbrev main_v599 : Ref sig .tc := ⟨.hbm, 875, rfl⟩
abbrev main_v600 : Ref sig .tc := ⟨.hbm, 876, rfl⟩
abbrev main_v601 : Ref sig .tc := ⟨.hbm, 877, rfl⟩
abbrev main_v602 : Ref sig .tc := ⟨.hbm, 878, rfl⟩
abbrev main_cst_171 : Ref sig .tc := ⟨.hbm, 879, rfl⟩
abbrev main_call31_v0 : Ref sig .tc := ⟨.hbm, 880, rfl⟩
abbrev main_call31_v1 : Ref sig .tc := ⟨.hbm, 881, rfl⟩
abbrev main_call31_v2 : Ref sig .tc := ⟨.hbm, 882, rfl⟩
abbrev main_v603 : Ref sig .tc := ⟨.hbm, 883, rfl⟩
abbrev main_c_172 : Ref sig .tc := ⟨.hbm, 884, rfl⟩
abbrev main_v604 : Ref sig .tc := ⟨.hbm, 885, rfl⟩
abbrev main_v605 : Ref sig .tc := ⟨.hbm, 886, rfl⟩
abbrev main_c_173 : Ref sig .tc := ⟨.hbm, 887, rfl⟩
abbrev main_v606 : Ref sig .tc := ⟨.hbm, 888, rfl⟩
abbrev main_v607 : Ref sig .tc := ⟨.hbm, 889, rfl⟩
abbrev main_v608 : Ref sig .tc := ⟨.hbm, 890, rfl⟩
abbrev main_v609 : Ref sig .tc := ⟨.hbm, 891, rfl⟩
abbrev main_v610 : Ref sig .tc := ⟨.hbm, 892, rfl⟩
abbrev main_c_174 : Ref sig .tc := ⟨.hbm, 893, rfl⟩
abbrev main_v611 : Ref sig .tc := ⟨.hbm, 894, rfl⟩
abbrev main_v612 : Ref sig .tc := ⟨.hbm, 895, rfl⟩
abbrev main_v613 : Ref sig .tc := ⟨.hbm, 896, rfl⟩
abbrev main_v614 : Ref sig .tc := ⟨.hbm, 897, rfl⟩
abbrev main_v615 : Ref sig .tc := ⟨.hbm, 898, rfl⟩
abbrev main_c_175 : Ref sig .tc := ⟨.hbm, 899, rfl⟩
abbrev main_v616 : Ref sig .tc := ⟨.hbm, 900, rfl⟩
abbrev main_v617 : Ref sig .tc := ⟨.hbm, 901, rfl⟩
abbrev main_c_176 : Ref sig .tc := ⟨.hbm, 902, rfl⟩
abbrev main_v618 : Ref sig .tc := ⟨.hbm, 903, rfl⟩
abbrev main_v619 : Ref sig .tc := ⟨.hbm, 904, rfl⟩
abbrev main_v620 : Ref sig .tc := ⟨.hbm, 905, rfl⟩
abbrev main_v621 : Ref sig .tc := ⟨.hbm, 906, rfl⟩
abbrev main_v622 : Ref sig .tc := ⟨.hbm, 907, rfl⟩
abbrev main_cst_177 : Ref sig .tc := ⟨.hbm, 908, rfl⟩
abbrev main_call32_v0 : Ref sig .tc := ⟨.hbm, 909, rfl⟩
abbrev main_call32_v1 : Ref sig .tc := ⟨.hbm, 910, rfl⟩
abbrev main_call32_v2 : Ref sig .tc := ⟨.hbm, 911, rfl⟩
abbrev main_v623 : Ref sig .tc := ⟨.hbm, 912, rfl⟩
abbrev main_c_178 : Ref sig .tc := ⟨.hbm, 913, rfl⟩
abbrev main_v624 : Ref sig .tc := ⟨.hbm, 914, rfl⟩
abbrev main_v625 : Ref sig .tc := ⟨.hbm, 915, rfl⟩
abbrev main_c_179 : Ref sig .tc := ⟨.hbm, 916, rfl⟩
abbrev main_v626 : Ref sig .tc := ⟨.hbm, 917, rfl⟩
abbrev main_v627 : Ref sig .tc := ⟨.hbm, 918, rfl⟩
abbrev main_v628 : Ref sig .tc := ⟨.hbm, 919, rfl⟩
abbrev main_v629 : Ref sig .tc := ⟨.hbm, 920, rfl⟩
abbrev main_v630 : Ref sig .tc := ⟨.hbm, 921, rfl⟩
abbrev main_v631 : Ref sig .tc := ⟨.hbm, 922, rfl⟩
abbrev main_v632 : Ref sig .tc := ⟨.hbm, 923, rfl⟩
abbrev main_c_180 : Ref sig .tc := ⟨.hbm, 924, rfl⟩
abbrev main_v633 : Ref sig .tc := ⟨.hbm, 925, rfl⟩
abbrev main_v634 : Ref sig .tc := ⟨.hbm, 926, rfl⟩
abbrev main_c_181 : Ref sig .tc := ⟨.hbm, 927, rfl⟩
abbrev main_v635 : Ref sig .tc := ⟨.hbm, 928, rfl⟩
abbrev main_v636 : Ref sig .tc := ⟨.hbm, 929, rfl⟩
abbrev main_v637 : Ref sig .tc := ⟨.hbm, 930, rfl⟩
abbrev main_v638 : Ref sig .tc := ⟨.hbm, 931, rfl⟩
abbrev main_v639 : Ref sig .tc := ⟨.hbm, 932, rfl⟩
abbrev main_cst_182 : Ref sig .tc := ⟨.hbm, 933, rfl⟩
abbrev main_call33_v0 : Ref sig .tc := ⟨.hbm, 934, rfl⟩
abbrev main_call33_v1 : Ref sig .tc := ⟨.hbm, 935, rfl⟩
abbrev main_call33_v2 : Ref sig .tc := ⟨.hbm, 936, rfl⟩
abbrev main_v640 : Ref sig .tc := ⟨.hbm, 937, rfl⟩
abbrev main_c_183 : Ref sig .tc := ⟨.hbm, 938, rfl⟩
abbrev main_v641 : Ref sig .tc := ⟨.hbm, 939, rfl⟩
abbrev main_v642 : Ref sig .tc := ⟨.hbm, 940, rfl⟩
abbrev main_c_184 : Ref sig .tc := ⟨.hbm, 941, rfl⟩
abbrev main_v643 : Ref sig .tc := ⟨.hbm, 942, rfl⟩
abbrev main_v644 : Ref sig .tc := ⟨.hbm, 943, rfl⟩
abbrev main_v645 : Ref sig .tc := ⟨.hbm, 944, rfl⟩
abbrev main_v646 : Ref sig .tc := ⟨.hbm, 945, rfl⟩
abbrev main_v647 : Ref sig .tc := ⟨.hbm, 946, rfl⟩
abbrev main_c_185 : Ref sig .tc := ⟨.hbm, 947, rfl⟩
abbrev main_v648 : Ref sig .tc := ⟨.hbm, 948, rfl⟩
abbrev main_v649 : Ref sig .tc := ⟨.hbm, 949, rfl⟩
abbrev main_v650 : Ref sig .tc := ⟨.hbm, 950, rfl⟩
abbrev main_v651 : Ref sig .tc := ⟨.hbm, 951, rfl⟩
abbrev main_v652 : Ref sig .tc := ⟨.hbm, 952, rfl⟩
abbrev main_c_186 : Ref sig .tc := ⟨.hbm, 953, rfl⟩
abbrev main_v653 : Ref sig .tc := ⟨.hbm, 954, rfl⟩
abbrev main_v654 : Ref sig .tc := ⟨.hbm, 955, rfl⟩
abbrev main_c_187 : Ref sig .tc := ⟨.hbm, 956, rfl⟩
abbrev main_v655 : Ref sig .tc := ⟨.hbm, 957, rfl⟩
abbrev main_v656 : Ref sig .tc := ⟨.hbm, 958, rfl⟩
abbrev main_v657 : Ref sig .tc := ⟨.hbm, 959, rfl⟩
abbrev main_v658 : Ref sig .tc := ⟨.hbm, 960, rfl⟩
abbrev main_v659 : Ref sig .tc := ⟨.hbm, 961, rfl⟩
abbrev main_cst_188 : Ref sig .tc := ⟨.hbm, 962, rfl⟩
abbrev main_call34_v0 : Ref sig .tc := ⟨.hbm, 963, rfl⟩
abbrev main_call34_v1 : Ref sig .tc := ⟨.hbm, 964, rfl⟩
abbrev main_call34_v2 : Ref sig .tc := ⟨.hbm, 965, rfl⟩
abbrev main_v660 : Ref sig .tc := ⟨.hbm, 966, rfl⟩
abbrev main_c_189 : Ref sig .tc := ⟨.hbm, 967, rfl⟩
abbrev main_v661 : Ref sig .tc := ⟨.hbm, 968, rfl⟩
abbrev main_v662 : Ref sig .tc := ⟨.hbm, 969, rfl⟩
abbrev main_c_190 : Ref sig .tc := ⟨.hbm, 970, rfl⟩
abbrev main_v663 : Ref sig .tc := ⟨.hbm, 971, rfl⟩
abbrev main_v664 : Ref sig .tc := ⟨.hbm, 972, rfl⟩
abbrev main_v665 : Ref sig .tc := ⟨.hbm, 973, rfl⟩
abbrev main_v666 : Ref sig .tc := ⟨.hbm, 974, rfl⟩
abbrev main_v667 : Ref sig .tc := ⟨.hbm, 975, rfl⟩
abbrev main_v668 : Ref sig .tc := ⟨.hbm, 976, rfl⟩
abbrev main_v669 : Ref sig .tc := ⟨.hbm, 977, rfl⟩
abbrev main_c_191 : Ref sig .tc := ⟨.hbm, 978, rfl⟩
abbrev main_v670 : Ref sig .tc := ⟨.hbm, 979, rfl⟩
abbrev main_v671 : Ref sig .tc := ⟨.hbm, 980, rfl⟩
abbrev main_c_192 : Ref sig .tc := ⟨.hbm, 981, rfl⟩
abbrev main_v672 : Ref sig .tc := ⟨.hbm, 982, rfl⟩
abbrev main_v673 : Ref sig .tc := ⟨.hbm, 983, rfl⟩
abbrev main_v674 : Ref sig .tc := ⟨.hbm, 984, rfl⟩
abbrev main_v675 : Ref sig .tc := ⟨.hbm, 985, rfl⟩
abbrev main_v676 : Ref sig .tc := ⟨.hbm, 986, rfl⟩
abbrev main_cst_193 : Ref sig .tc := ⟨.hbm, 987, rfl⟩
abbrev main_call35_v0 : Ref sig .tc := ⟨.hbm, 988, rfl⟩
abbrev main_call35_v1 : Ref sig .tc := ⟨.hbm, 989, rfl⟩
abbrev main_call35_v2 : Ref sig .tc := ⟨.hbm, 990, rfl⟩
abbrev main_v677 : Ref sig .tc := ⟨.hbm, 991, rfl⟩
abbrev main_c_194 : Ref sig .tc := ⟨.hbm, 992, rfl⟩
abbrev main_v678 : Ref sig .tc := ⟨.hbm, 993, rfl⟩
abbrev main_v679 : Ref sig .tc := ⟨.hbm, 994, rfl⟩
abbrev main_c_195 : Ref sig .tc := ⟨.hbm, 995, rfl⟩
abbrev main_v680 : Ref sig .tc := ⟨.hbm, 996, rfl⟩
abbrev main_v681 : Ref sig .tc := ⟨.hbm, 997, rfl⟩
abbrev main_v682 : Ref sig .tc := ⟨.hbm, 998, rfl⟩
abbrev main_v683 : Ref sig .tc := ⟨.hbm, 999, rfl⟩
abbrev main_v684 : Ref sig .tc := ⟨.hbm, 1000, rfl⟩
abbrev main_c_196 : Ref sig .tc := ⟨.hbm, 1001, rfl⟩
abbrev main_v685 : Ref sig .tc := ⟨.hbm, 1002, rfl⟩
abbrev main_v686 : Ref sig .tc := ⟨.hbm, 1003, rfl⟩
abbrev main_v687 : Ref sig .tc := ⟨.hbm, 1004, rfl⟩
abbrev main_v688 : Ref sig .tc := ⟨.hbm, 1005, rfl⟩
abbrev main_v689 : Ref sig .tc := ⟨.hbm, 1006, rfl⟩
abbrev main_c_197 : Ref sig .tc := ⟨.hbm, 1007, rfl⟩
abbrev main_v690 : Ref sig .tc := ⟨.hbm, 1008, rfl⟩
abbrev main_v691 : Ref sig .tc := ⟨.hbm, 1009, rfl⟩
abbrev main_c_198 : Ref sig .tc := ⟨.hbm, 1010, rfl⟩
abbrev main_v692 : Ref sig .tc := ⟨.hbm, 1011, rfl⟩
abbrev main_v693 : Ref sig .tc := ⟨.hbm, 1012, rfl⟩
abbrev main_v694 : Ref sig .tc := ⟨.hbm, 1013, rfl⟩
abbrev main_v695 : Ref sig .tc := ⟨.hbm, 1014, rfl⟩
abbrev main_v696 : Ref sig .tc := ⟨.hbm, 1015, rfl⟩
abbrev main_cst_199 : Ref sig .tc := ⟨.hbm, 1016, rfl⟩
abbrev main_call36_v0 : Ref sig .tc := ⟨.hbm, 1017, rfl⟩
abbrev main_call36_v1 : Ref sig .tc := ⟨.hbm, 1018, rfl⟩
abbrev main_call36_v2 : Ref sig .tc := ⟨.hbm, 1019, rfl⟩
abbrev main_v697 : Ref sig .tc := ⟨.hbm, 1020, rfl⟩
abbrev main_c_200 : Ref sig .tc := ⟨.hbm, 1021, rfl⟩
abbrev main_v698 : Ref sig .tc := ⟨.hbm, 1022, rfl⟩
abbrev main_v699 : Ref sig .tc := ⟨.hbm, 1023, rfl⟩
abbrev main_c_201 : Ref sig .tc := ⟨.hbm, 1024, rfl⟩
abbrev main_v700 : Ref sig .tc := ⟨.hbm, 1025, rfl⟩
abbrev main_v701 : Ref sig .tc := ⟨.hbm, 1026, rfl⟩
abbrev main_v702 : Ref sig .tc := ⟨.hbm, 1027, rfl⟩
abbrev main_v703 : Ref sig .tc := ⟨.hbm, 1028, rfl⟩
abbrev main_v704 : Ref sig .tc := ⟨.hbm, 1029, rfl⟩
abbrev main_v705 : Ref sig .tc := ⟨.hbm, 1030, rfl⟩
abbrev main_v706 : Ref sig .tc := ⟨.hbm, 1031, rfl⟩
abbrev main_c_202 : Ref sig .tc := ⟨.hbm, 1032, rfl⟩
abbrev main_v707 : Ref sig .tc := ⟨.hbm, 1033, rfl⟩
abbrev main_v708 : Ref sig .tc := ⟨.hbm, 1034, rfl⟩
abbrev main_c_203 : Ref sig .tc := ⟨.hbm, 1035, rfl⟩
abbrev main_v709 : Ref sig .tc := ⟨.hbm, 1036, rfl⟩
abbrev main_v710 : Ref sig .tc := ⟨.hbm, 1037, rfl⟩
abbrev main_v711 : Ref sig .tc := ⟨.hbm, 1038, rfl⟩
abbrev main_v712 : Ref sig .tc := ⟨.hbm, 1039, rfl⟩
abbrev main_v713 : Ref sig .tc := ⟨.hbm, 1040, rfl⟩
abbrev main_cst_204 : Ref sig .tc := ⟨.hbm, 1041, rfl⟩
abbrev main_call37_v0 : Ref sig .tc := ⟨.hbm, 1042, rfl⟩
abbrev main_call37_v1 : Ref sig .tc := ⟨.hbm, 1043, rfl⟩
abbrev main_call37_v2 : Ref sig .tc := ⟨.hbm, 1044, rfl⟩
abbrev main_v714 : Ref sig .tc := ⟨.hbm, 1045, rfl⟩
abbrev main_c_205 : Ref sig .tc := ⟨.hbm, 1046, rfl⟩
abbrev main_v715 : Ref sig .tc := ⟨.hbm, 1047, rfl⟩
abbrev main_v716 : Ref sig .tc := ⟨.hbm, 1048, rfl⟩
abbrev main_c_206 : Ref sig .tc := ⟨.hbm, 1049, rfl⟩
abbrev main_v717 : Ref sig .tc := ⟨.hbm, 1050, rfl⟩
abbrev main_v718 : Ref sig .tc := ⟨.hbm, 1051, rfl⟩
abbrev main_v719 : Ref sig .tc := ⟨.hbm, 1052, rfl⟩
abbrev main_v720 : Ref sig .tc := ⟨.hbm, 1053, rfl⟩
abbrev main_v721 : Ref sig .tc := ⟨.hbm, 1054, rfl⟩
abbrev main_c_207 : Ref sig .tc := ⟨.hbm, 1055, rfl⟩
abbrev main_v722 : Ref sig .tc := ⟨.hbm, 1056, rfl⟩
abbrev main_v723 : Ref sig .tc := ⟨.hbm, 1057, rfl⟩
abbrev main_v724 : Ref sig .tc := ⟨.hbm, 1058, rfl⟩
abbrev main_v725 : Ref sig .tc := ⟨.hbm, 1059, rfl⟩
abbrev main_v726 : Ref sig .tc := ⟨.hbm, 1060, rfl⟩
abbrev main_c_208 : Ref sig .tc := ⟨.hbm, 1061, rfl⟩
abbrev main_v727 : Ref sig .tc := ⟨.hbm, 1062, rfl⟩
abbrev main_v728 : Ref sig .tc := ⟨.hbm, 1063, rfl⟩
abbrev main_c_209 : Ref sig .tc := ⟨.hbm, 1064, rfl⟩
abbrev main_v729 : Ref sig .tc := ⟨.hbm, 1065, rfl⟩
abbrev main_v730 : Ref sig .tc := ⟨.hbm, 1066, rfl⟩
abbrev main_v731 : Ref sig .tc := ⟨.hbm, 1067, rfl⟩
abbrev main_v732 : Ref sig .tc := ⟨.hbm, 1068, rfl⟩
abbrev main_v733 : Ref sig .tc := ⟨.hbm, 1069, rfl⟩
abbrev main_cst_210 : Ref sig .tc := ⟨.hbm, 1070, rfl⟩
abbrev main_call38_v0 : Ref sig .tc := ⟨.hbm, 1071, rfl⟩
abbrev main_call38_v1 : Ref sig .tc := ⟨.hbm, 1072, rfl⟩
abbrev main_call38_v2 : Ref sig .tc := ⟨.hbm, 1073, rfl⟩
abbrev main_v734 : Ref sig .tc := ⟨.hbm, 1074, rfl⟩
abbrev main_c_211 : Ref sig .tc := ⟨.hbm, 1075, rfl⟩
abbrev main_v735 : Ref sig .tc := ⟨.hbm, 1076, rfl⟩
abbrev main_v736 : Ref sig .tc := ⟨.hbm, 1077, rfl⟩
abbrev main_c_212 : Ref sig .tc := ⟨.hbm, 1078, rfl⟩
abbrev main_v737 : Ref sig .tc := ⟨.hbm, 1079, rfl⟩
abbrev main_v738 : Ref sig .tc := ⟨.hbm, 1080, rfl⟩
abbrev main_v739 : Ref sig .tc := ⟨.hbm, 1081, rfl⟩
abbrev main_v740 : Ref sig .tc := ⟨.hbm, 1082, rfl⟩
abbrev main_v741 : Ref sig .tc := ⟨.hbm, 1083, rfl⟩
abbrev main_v742 : Ref sig .tc := ⟨.hbm, 1084, rfl⟩
abbrev main_v743 : Ref sig .tc := ⟨.hbm, 1085, rfl⟩
abbrev main_c_213 : Ref sig .tc := ⟨.hbm, 1086, rfl⟩
abbrev main_v744 : Ref sig .tc := ⟨.hbm, 1087, rfl⟩
abbrev main_v745 : Ref sig .tc := ⟨.hbm, 1088, rfl⟩
abbrev main_c_214 : Ref sig .tc := ⟨.hbm, 1089, rfl⟩
abbrev main_v746 : Ref sig .tc := ⟨.hbm, 1090, rfl⟩
abbrev main_v747 : Ref sig .tc := ⟨.hbm, 1091, rfl⟩
abbrev main_v748 : Ref sig .tc := ⟨.hbm, 1092, rfl⟩
abbrev main_v749 : Ref sig .tc := ⟨.hbm, 1093, rfl⟩
abbrev main_v750 : Ref sig .tc := ⟨.hbm, 1094, rfl⟩
abbrev main_cst_215 : Ref sig .tc := ⟨.hbm, 1095, rfl⟩
abbrev main_call39_v0 : Ref sig .tc := ⟨.hbm, 1096, rfl⟩
abbrev main_call39_v1 : Ref sig .tc := ⟨.hbm, 1097, rfl⟩
abbrev main_call39_v2 : Ref sig .tc := ⟨.hbm, 1098, rfl⟩
abbrev main_v751 : Ref sig .tc := ⟨.hbm, 1099, rfl⟩
abbrev main_c_216 : Ref sig .tc := ⟨.hbm, 1100, rfl⟩
abbrev main_v752 : Ref sig .tc := ⟨.hbm, 1101, rfl⟩
abbrev main_v753 : Ref sig .tc := ⟨.hbm, 1102, rfl⟩
abbrev main_c_217 : Ref sig .tc := ⟨.hbm, 1103, rfl⟩
abbrev main_v754 : Ref sig .tc := ⟨.hbm, 1104, rfl⟩
abbrev main_v755 : Ref sig .tc := ⟨.hbm, 1105, rfl⟩
abbrev main_v756 : Ref sig .tc := ⟨.hbm, 1106, rfl⟩
abbrev main_v757 : Ref sig .tc := ⟨.hbm, 1107, rfl⟩
abbrev main_v758 : Ref sig .tc := ⟨.hbm, 1108, rfl⟩
abbrev main_call40_cst : Ref sig .tc := ⟨.hbm, 1109, rfl⟩
abbrev main_call40_v0 : Ref sig .tc := ⟨.hbm, 1110, rfl⟩
abbrev main_v759 : Ref sig .tc := ⟨.hbm, 1111, rfl⟩
abbrev main_v760 : Ref sig .tc := ⟨.hbm, 1112, rfl⟩
abbrev main_v761 : Ref sig .tc := ⟨.hbm, 1113, rfl⟩
abbrev main_v762 : Ref sig .tc := ⟨.hbm, 1114, rfl⟩
abbrev main_v763 : Ref sig .tc := ⟨.hbm, 1115, rfl⟩
abbrev main_v764 : Ref sig .tc := ⟨.hbm, 1116, rfl⟩
abbrev main_v765 : Ref sig .tc := ⟨.hbm, 1117, rfl⟩
abbrev main_v766 : Ref sig .tc := ⟨.hbm, 1118, rfl⟩
abbrev main_v767 : Ref sig .tc := ⟨.hbm, 1119, rfl⟩
abbrev main_v768 : Ref sig .tc := ⟨.hbm, 1120, rfl⟩
abbrev main_v769 : Ref sig .tc := ⟨.hbm, 1121, rfl⟩
abbrev main_v770 : Ref sig .tc := ⟨.hbm, 1122, rfl⟩
abbrev main_v771 : Ref sig .tc := ⟨.hbm, 1123, rfl⟩
abbrev main_v772 : Ref sig .tc := ⟨.hbm, 1124, rfl⟩
abbrev main_v773 : Ref sig .tc := ⟨.hbm, 1125, rfl⟩
abbrev main_v774 : Ref sig .tc := ⟨.hbm, 1126, rfl⟩
abbrev main_v775 : Ref sig .tc := ⟨.hbm, 1127, rfl⟩
abbrev main_v776 : Ref sig .tc := ⟨.hbm, 1128, rfl⟩
abbrev main_v777 : Ref sig .tc := ⟨.hbm, 1129, rfl⟩
abbrev main_v778 : Ref sig .tc := ⟨.hbm, 1130, rfl⟩
abbrev main_c_218 : Ref sig .tc := ⟨.hbm, 1131, rfl⟩
abbrev main_v779 : Ref sig .tc := ⟨.hbm, 1132, rfl⟩
abbrev main_v780 : Ref sig .tc := ⟨.hbm, 1133, rfl⟩
abbrev main_v781 : Ref sig .tc := ⟨.hbm, 1134, rfl⟩
abbrev main_v782 : Ref sig .tc := ⟨.hbm, 1135, rfl⟩
abbrev main_v783 : Ref sig .tc := ⟨.hbm, 1136, rfl⟩
abbrev main_c_219 : Ref sig .tc := ⟨.hbm, 1137, rfl⟩
abbrev main_v784 : Ref sig .tc := ⟨.hbm, 1138, rfl⟩
abbrev main_v785 : Ref sig .tc := ⟨.hbm, 1139, rfl⟩
abbrev main_c_220 : Ref sig .tc := ⟨.hbm, 1140, rfl⟩
abbrev main_v786 : Ref sig .tc := ⟨.hbm, 1141, rfl⟩
abbrev main_v787 : Ref sig .tc := ⟨.hbm, 1142, rfl⟩
abbrev main_v788 : Ref sig .tc := ⟨.hbm, 1143, rfl⟩
abbrev main_v789 : Ref sig .tc := ⟨.hbm, 1144, rfl⟩
abbrev main_v790 : Ref sig .tc := ⟨.hbm, 1145, rfl⟩
abbrev main_cst_221 : Ref sig .tc := ⟨.hbm, 1146, rfl⟩
abbrev main_call41_v0 : Ref sig .tc := ⟨.hbm, 1147, rfl⟩
abbrev main_call41_v1 : Ref sig .tc := ⟨.hbm, 1148, rfl⟩
abbrev main_call41_v2 : Ref sig .tc := ⟨.hbm, 1149, rfl⟩
abbrev main_v791 : Ref sig .tc := ⟨.hbm, 1150, rfl⟩
abbrev main_c_222 : Ref sig .tc := ⟨.hbm, 1151, rfl⟩
abbrev main_v792 : Ref sig .tc := ⟨.hbm, 1152, rfl⟩
abbrev main_v793 : Ref sig .tc := ⟨.hbm, 1153, rfl⟩
abbrev main_c_223 : Ref sig .tc := ⟨.hbm, 1154, rfl⟩
abbrev main_v794 : Ref sig .tc := ⟨.hbm, 1155, rfl⟩
abbrev main_v795 : Ref sig .tc := ⟨.hbm, 1156, rfl⟩
abbrev main_v796 : Ref sig .tc := ⟨.hbm, 1157, rfl⟩
abbrev main_v797 : Ref sig .tc := ⟨.hbm, 1158, rfl⟩
abbrev main_v798 : Ref sig .tc := ⟨.hbm, 1159, rfl⟩
abbrev main_v799 : Ref sig .tc := ⟨.hbm, 1160, rfl⟩
abbrev main_v800 : Ref sig .tc := ⟨.hbm, 1161, rfl⟩
abbrev main_c_224 : Ref sig .tc := ⟨.hbm, 1162, rfl⟩
abbrev main_v801 : Ref sig .tc := ⟨.hbm, 1163, rfl⟩
abbrev main_v802 : Ref sig .tc := ⟨.hbm, 1164, rfl⟩
abbrev main_c_225 : Ref sig .tc := ⟨.hbm, 1165, rfl⟩
abbrev main_v803 : Ref sig .tc := ⟨.hbm, 1166, rfl⟩
abbrev main_v804 : Ref sig .tc := ⟨.hbm, 1167, rfl⟩
abbrev main_v805 : Ref sig .tc := ⟨.hbm, 1168, rfl⟩
abbrev main_v806 : Ref sig .tc := ⟨.hbm, 1169, rfl⟩
abbrev main_v807 : Ref sig .tc := ⟨.hbm, 1170, rfl⟩
abbrev main_cst_226 : Ref sig .tc := ⟨.hbm, 1171, rfl⟩
abbrev main_call42_v0 : Ref sig .tc := ⟨.hbm, 1172, rfl⟩
abbrev main_call42_v1 : Ref sig .tc := ⟨.hbm, 1173, rfl⟩
abbrev main_call42_v2 : Ref sig .tc := ⟨.hbm, 1174, rfl⟩
abbrev main_v808 : Ref sig .tc := ⟨.hbm, 1175, rfl⟩
abbrev main_c_227 : Ref sig .tc := ⟨.hbm, 1176, rfl⟩
abbrev main_v809 : Ref sig .tc := ⟨.hbm, 1177, rfl⟩
abbrev main_v810 : Ref sig .tc := ⟨.hbm, 1178, rfl⟩
abbrev main_c_228 : Ref sig .tc := ⟨.hbm, 1179, rfl⟩
abbrev main_v811 : Ref sig .tc := ⟨.hbm, 1180, rfl⟩
abbrev main_v812 : Ref sig .tc := ⟨.hbm, 1181, rfl⟩
abbrev main_v813 : Ref sig .tc := ⟨.hbm, 1182, rfl⟩
abbrev main_v814 : Ref sig .tc := ⟨.hbm, 1183, rfl⟩
abbrev main_v815 : Ref sig .tc := ⟨.hbm, 1184, rfl⟩
abbrev main_c_229 : Ref sig .tc := ⟨.hbm, 1185, rfl⟩
abbrev main_v816 : Ref sig .tc := ⟨.hbm, 1186, rfl⟩
abbrev main_v817 : Ref sig .tc := ⟨.hbm, 1187, rfl⟩
abbrev main_v818 : Ref sig .tc := ⟨.hbm, 1188, rfl⟩
abbrev main_v819 : Ref sig .tc := ⟨.hbm, 1189, rfl⟩
abbrev main_v820 : Ref sig .tc := ⟨.hbm, 1190, rfl⟩
abbrev main_c_230 : Ref sig .tc := ⟨.hbm, 1191, rfl⟩
abbrev main_v821 : Ref sig .tc := ⟨.hbm, 1192, rfl⟩
abbrev main_v822 : Ref sig .tc := ⟨.hbm, 1193, rfl⟩
abbrev main_c_231 : Ref sig .tc := ⟨.hbm, 1194, rfl⟩
abbrev main_v823 : Ref sig .tc := ⟨.hbm, 1195, rfl⟩
abbrev main_v824 : Ref sig .tc := ⟨.hbm, 1196, rfl⟩
abbrev main_v825 : Ref sig .tc := ⟨.hbm, 1197, rfl⟩
abbrev main_v826 : Ref sig .tc := ⟨.hbm, 1198, rfl⟩
abbrev main_v827 : Ref sig .tc := ⟨.hbm, 1199, rfl⟩
abbrev main_cst_232 : Ref sig .tc := ⟨.hbm, 1200, rfl⟩
abbrev main_call43_v0 : Ref sig .tc := ⟨.hbm, 1201, rfl⟩
abbrev main_call43_v1 : Ref sig .tc := ⟨.hbm, 1202, rfl⟩
abbrev main_call43_v2 : Ref sig .tc := ⟨.hbm, 1203, rfl⟩
abbrev main_v828 : Ref sig .tc := ⟨.hbm, 1204, rfl⟩
abbrev main_c_233 : Ref sig .tc := ⟨.hbm, 1205, rfl⟩
abbrev main_v829 : Ref sig .tc := ⟨.hbm, 1206, rfl⟩
abbrev main_v830 : Ref sig .tc := ⟨.hbm, 1207, rfl⟩
abbrev main_c_234 : Ref sig .tc := ⟨.hbm, 1208, rfl⟩
abbrev main_v831 : Ref sig .tc := ⟨.hbm, 1209, rfl⟩
abbrev main_v832 : Ref sig .tc := ⟨.hbm, 1210, rfl⟩
abbrev main_v833 : Ref sig .tc := ⟨.hbm, 1211, rfl⟩
abbrev main_v834 : Ref sig .tc := ⟨.hbm, 1212, rfl⟩
abbrev main_v835 : Ref sig .tc := ⟨.hbm, 1213, rfl⟩
abbrev main_v836 : Ref sig .tc := ⟨.hbm, 1214, rfl⟩
abbrev main_v837 : Ref sig .tc := ⟨.hbm, 1215, rfl⟩
abbrev main_c_235 : Ref sig .tc := ⟨.hbm, 1216, rfl⟩
abbrev main_v838 : Ref sig .tc := ⟨.hbm, 1217, rfl⟩
abbrev main_v839 : Ref sig .tc := ⟨.hbm, 1218, rfl⟩
abbrev main_c_236 : Ref sig .tc := ⟨.hbm, 1219, rfl⟩
abbrev main_v840 : Ref sig .tc := ⟨.hbm, 1220, rfl⟩
abbrev main_v841 : Ref sig .tc := ⟨.hbm, 1221, rfl⟩
abbrev main_v842 : Ref sig .tc := ⟨.hbm, 1222, rfl⟩
abbrev main_v843 : Ref sig .tc := ⟨.hbm, 1223, rfl⟩
abbrev main_v844 : Ref sig .tc := ⟨.hbm, 1224, rfl⟩
abbrev main_cst_237 : Ref sig .tc := ⟨.hbm, 1225, rfl⟩
abbrev main_call44_v0 : Ref sig .tc := ⟨.hbm, 1226, rfl⟩
abbrev main_call44_v1 : Ref sig .tc := ⟨.hbm, 1227, rfl⟩
abbrev main_call44_v2 : Ref sig .tc := ⟨.hbm, 1228, rfl⟩
abbrev main_v845 : Ref sig .tc := ⟨.hbm, 1229, rfl⟩
abbrev main_c_238 : Ref sig .tc := ⟨.hbm, 1230, rfl⟩
abbrev main_v846 : Ref sig .tc := ⟨.hbm, 1231, rfl⟩
abbrev main_v847 : Ref sig .tc := ⟨.hbm, 1232, rfl⟩
abbrev main_c_239 : Ref sig .tc := ⟨.hbm, 1233, rfl⟩
abbrev main_v848 : Ref sig .tc := ⟨.hbm, 1234, rfl⟩
abbrev main_v849 : Ref sig .tc := ⟨.hbm, 1235, rfl⟩
abbrev main_v850 : Ref sig .tc := ⟨.hbm, 1236, rfl⟩
abbrev main_v851 : Ref sig .tc := ⟨.hbm, 1237, rfl⟩
abbrev main_v852 : Ref sig .tc := ⟨.hbm, 1238, rfl⟩
abbrev main_c_240 : Ref sig .tc := ⟨.hbm, 1239, rfl⟩
abbrev main_v853 : Ref sig .tc := ⟨.hbm, 1240, rfl⟩
abbrev main_v854 : Ref sig .tc := ⟨.hbm, 1241, rfl⟩
abbrev main_v855 : Ref sig .tc := ⟨.hbm, 1242, rfl⟩
abbrev main_v856 : Ref sig .tc := ⟨.hbm, 1243, rfl⟩
abbrev main_v857 : Ref sig .tc := ⟨.hbm, 1244, rfl⟩
abbrev main_c_241 : Ref sig .tc := ⟨.hbm, 1245, rfl⟩
abbrev main_v858 : Ref sig .tc := ⟨.hbm, 1246, rfl⟩
abbrev main_v859 : Ref sig .tc := ⟨.hbm, 1247, rfl⟩
abbrev main_c_242 : Ref sig .tc := ⟨.hbm, 1248, rfl⟩
abbrev main_v860 : Ref sig .tc := ⟨.hbm, 1249, rfl⟩
abbrev main_v861 : Ref sig .tc := ⟨.hbm, 1250, rfl⟩
abbrev main_v862 : Ref sig .tc := ⟨.hbm, 1251, rfl⟩
abbrev main_v863 : Ref sig .tc := ⟨.hbm, 1252, rfl⟩
abbrev main_v864 : Ref sig .tc := ⟨.hbm, 1253, rfl⟩
abbrev main_cst_243 : Ref sig .tc := ⟨.hbm, 1254, rfl⟩
abbrev main_call45_v0 : Ref sig .tc := ⟨.hbm, 1255, rfl⟩
abbrev main_call45_v1 : Ref sig .tc := ⟨.hbm, 1256, rfl⟩
abbrev main_call45_v2 : Ref sig .tc := ⟨.hbm, 1257, rfl⟩
abbrev main_v865 : Ref sig .tc := ⟨.hbm, 1258, rfl⟩
abbrev main_c_244 : Ref sig .tc := ⟨.hbm, 1259, rfl⟩
abbrev main_v866 : Ref sig .tc := ⟨.hbm, 1260, rfl⟩
abbrev main_v867 : Ref sig .tc := ⟨.hbm, 1261, rfl⟩
abbrev main_c_245 : Ref sig .tc := ⟨.hbm, 1262, rfl⟩
abbrev main_v868 : Ref sig .tc := ⟨.hbm, 1263, rfl⟩
abbrev main_v869 : Ref sig .tc := ⟨.hbm, 1264, rfl⟩
abbrev main_v870 : Ref sig .tc := ⟨.hbm, 1265, rfl⟩
abbrev main_v871 : Ref sig .tc := ⟨.hbm, 1266, rfl⟩
abbrev main_v872 : Ref sig .tc := ⟨.hbm, 1267, rfl⟩
abbrev main_v873 : Ref sig .tc := ⟨.hbm, 1268, rfl⟩
abbrev main_v874 : Ref sig .tc := ⟨.hbm, 1269, rfl⟩
abbrev main_c_246 : Ref sig .tc := ⟨.hbm, 1270, rfl⟩
abbrev main_v875 : Ref sig .tc := ⟨.hbm, 1271, rfl⟩
abbrev main_v876 : Ref sig .tc := ⟨.hbm, 1272, rfl⟩
abbrev main_c_247 : Ref sig .tc := ⟨.hbm, 1273, rfl⟩
abbrev main_v877 : Ref sig .tc := ⟨.hbm, 1274, rfl⟩
abbrev main_v878 : Ref sig .tc := ⟨.hbm, 1275, rfl⟩
abbrev main_v879 : Ref sig .tc := ⟨.hbm, 1276, rfl⟩
abbrev main_v880 : Ref sig .tc := ⟨.hbm, 1277, rfl⟩
abbrev main_v881 : Ref sig .tc := ⟨.hbm, 1278, rfl⟩
abbrev main_cst_248 : Ref sig .tc := ⟨.hbm, 1279, rfl⟩
abbrev main_call46_v0 : Ref sig .tc := ⟨.hbm, 1280, rfl⟩
abbrev main_call46_v1 : Ref sig .tc := ⟨.hbm, 1281, rfl⟩
abbrev main_call46_v2 : Ref sig .tc := ⟨.hbm, 1282, rfl⟩
abbrev main_v882 : Ref sig .tc := ⟨.hbm, 1283, rfl⟩
abbrev main_c_249 : Ref sig .tc := ⟨.hbm, 1284, rfl⟩
abbrev main_v883 : Ref sig .tc := ⟨.hbm, 1285, rfl⟩
abbrev main_v884 : Ref sig .tc := ⟨.hbm, 1286, rfl⟩
abbrev main_c_250 : Ref sig .tc := ⟨.hbm, 1287, rfl⟩
abbrev main_v885 : Ref sig .tc := ⟨.hbm, 1288, rfl⟩
abbrev main_v886 : Ref sig .tc := ⟨.hbm, 1289, rfl⟩
abbrev main_v887 : Ref sig .tc := ⟨.hbm, 1290, rfl⟩
abbrev main_v888 : Ref sig .tc := ⟨.hbm, 1291, rfl⟩
abbrev main_v889 : Ref sig .tc := ⟨.hbm, 1292, rfl⟩
abbrev main_c_251 : Ref sig .tc := ⟨.hbm, 1293, rfl⟩
abbrev main_v890 : Ref sig .tc := ⟨.hbm, 1294, rfl⟩
abbrev main_v891 : Ref sig .tc := ⟨.hbm, 1295, rfl⟩
abbrev main_v892 : Ref sig .tc := ⟨.hbm, 1296, rfl⟩
abbrev main_v893 : Ref sig .tc := ⟨.hbm, 1297, rfl⟩
abbrev main_v894 : Ref sig .tc := ⟨.hbm, 1298, rfl⟩
abbrev main_c_252 : Ref sig .tc := ⟨.hbm, 1299, rfl⟩
abbrev main_v895 : Ref sig .tc := ⟨.hbm, 1300, rfl⟩
abbrev main_v896 : Ref sig .tc := ⟨.hbm, 1301, rfl⟩
abbrev main_c_253 : Ref sig .tc := ⟨.hbm, 1302, rfl⟩
abbrev main_v897 : Ref sig .tc := ⟨.hbm, 1303, rfl⟩
abbrev main_v898 : Ref sig .tc := ⟨.hbm, 1304, rfl⟩
abbrev main_v899 : Ref sig .tc := ⟨.hbm, 1305, rfl⟩
abbrev main_v900 : Ref sig .tc := ⟨.hbm, 1306, rfl⟩
abbrev main_v901 : Ref sig .tc := ⟨.hbm, 1307, rfl⟩
abbrev main_cst_254 : Ref sig .tc := ⟨.hbm, 1308, rfl⟩
abbrev main_call47_v0 : Ref sig .tc := ⟨.hbm, 1309, rfl⟩
abbrev main_call47_v1 : Ref sig .tc := ⟨.hbm, 1310, rfl⟩
abbrev main_call47_v2 : Ref sig .tc := ⟨.hbm, 1311, rfl⟩
abbrev main_v902 : Ref sig .tc := ⟨.hbm, 1312, rfl⟩
abbrev main_c_255 : Ref sig .tc := ⟨.hbm, 1313, rfl⟩
abbrev main_v903 : Ref sig .tc := ⟨.hbm, 1314, rfl⟩
abbrev main_v904 : Ref sig .tc := ⟨.hbm, 1315, rfl⟩
abbrev main_c_256 : Ref sig .tc := ⟨.hbm, 1316, rfl⟩
abbrev main_v905 : Ref sig .tc := ⟨.hbm, 1317, rfl⟩
abbrev main_v906 : Ref sig .tc := ⟨.hbm, 1318, rfl⟩
abbrev main_v907 : Ref sig .tc := ⟨.hbm, 1319, rfl⟩
abbrev main_v908 : Ref sig .tc := ⟨.hbm, 1320, rfl⟩
abbrev main_v909 : Ref sig .tc := ⟨.hbm, 1321, rfl⟩
abbrev main_v910 : Ref sig .tc := ⟨.hbm, 1322, rfl⟩
abbrev main_v911 : Ref sig .tc := ⟨.hbm, 1323, rfl⟩
abbrev main_c_257 : Ref sig .tc := ⟨.hbm, 1324, rfl⟩
abbrev main_v912 : Ref sig .tc := ⟨.hbm, 1325, rfl⟩
abbrev main_v913 : Ref sig .tc := ⟨.hbm, 1326, rfl⟩
abbrev main_c_258 : Ref sig .tc := ⟨.hbm, 1327, rfl⟩
abbrev main_v914 : Ref sig .tc := ⟨.hbm, 1328, rfl⟩
abbrev main_v915 : Ref sig .tc := ⟨.hbm, 1329, rfl⟩
abbrev main_v916 : Ref sig .tc := ⟨.hbm, 1330, rfl⟩
abbrev main_v917 : Ref sig .tc := ⟨.hbm, 1331, rfl⟩
abbrev main_v918 : Ref sig .tc := ⟨.hbm, 1332, rfl⟩
abbrev main_cst_259 : Ref sig .tc := ⟨.hbm, 1333, rfl⟩
abbrev main_call48_v0 : Ref sig .tc := ⟨.hbm, 1334, rfl⟩
abbrev main_call48_v1 : Ref sig .tc := ⟨.hbm, 1335, rfl⟩
abbrev main_call48_v2 : Ref sig .tc := ⟨.hbm, 1336, rfl⟩
abbrev main_v919 : Ref sig .tc := ⟨.hbm, 1337, rfl⟩
abbrev main_c_260 : Ref sig .tc := ⟨.hbm, 1338, rfl⟩
abbrev main_v920 : Ref sig .tc := ⟨.hbm, 1339, rfl⟩
abbrev main_v921 : Ref sig .tc := ⟨.hbm, 1340, rfl⟩
abbrev main_c_261 : Ref sig .tc := ⟨.hbm, 1341, rfl⟩
abbrev main_v922 : Ref sig .tc := ⟨.hbm, 1342, rfl⟩
abbrev main_v923 : Ref sig .tc := ⟨.hbm, 1343, rfl⟩
abbrev main_v924 : Ref sig .tc := ⟨.hbm, 1344, rfl⟩
abbrev main_v925 : Ref sig .tc := ⟨.hbm, 1345, rfl⟩
abbrev main_v926 : Ref sig .tc := ⟨.hbm, 1346, rfl⟩
abbrev main_c_262 : Ref sig .tc := ⟨.hbm, 1347, rfl⟩
abbrev main_v927 : Ref sig .tc := ⟨.hbm, 1348, rfl⟩
abbrev main_v928 : Ref sig .tc := ⟨.hbm, 1349, rfl⟩
abbrev main_v929 : Ref sig .tc := ⟨.hbm, 1350, rfl⟩
abbrev main_v930 : Ref sig .tc := ⟨.hbm, 1351, rfl⟩
abbrev main_v931 : Ref sig .tc := ⟨.hbm, 1352, rfl⟩
abbrev main_c_263 : Ref sig .tc := ⟨.hbm, 1353, rfl⟩
abbrev main_v932 : Ref sig .tc := ⟨.hbm, 1354, rfl⟩
abbrev main_v933 : Ref sig .tc := ⟨.hbm, 1355, rfl⟩
abbrev main_c_264 : Ref sig .tc := ⟨.hbm, 1356, rfl⟩
abbrev main_v934 : Ref sig .tc := ⟨.hbm, 1357, rfl⟩
abbrev main_v935 : Ref sig .tc := ⟨.hbm, 1358, rfl⟩
abbrev main_v936 : Ref sig .tc := ⟨.hbm, 1359, rfl⟩
abbrev main_v937 : Ref sig .tc := ⟨.hbm, 1360, rfl⟩
abbrev main_v938 : Ref sig .tc := ⟨.hbm, 1361, rfl⟩
abbrev main_cst_265 : Ref sig .tc := ⟨.hbm, 1362, rfl⟩
abbrev main_call49_v0 : Ref sig .tc := ⟨.hbm, 1363, rfl⟩
abbrev main_call49_v1 : Ref sig .tc := ⟨.hbm, 1364, rfl⟩
abbrev main_call49_v2 : Ref sig .tc := ⟨.hbm, 1365, rfl⟩
abbrev main_v939 : Ref sig .tc := ⟨.hbm, 1366, rfl⟩
abbrev main_c_266 : Ref sig .tc := ⟨.hbm, 1367, rfl⟩
abbrev main_v940 : Ref sig .tc := ⟨.hbm, 1368, rfl⟩
abbrev main_v941 : Ref sig .tc := ⟨.hbm, 1369, rfl⟩
abbrev main_c_267 : Ref sig .tc := ⟨.hbm, 1370, rfl⟩
abbrev main_v942 : Ref sig .tc := ⟨.hbm, 1371, rfl⟩
abbrev main_v943 : Ref sig .tc := ⟨.hbm, 1372, rfl⟩
abbrev main_v944 : Ref sig .tc := ⟨.hbm, 1373, rfl⟩
abbrev main_v945 : Ref sig .tc := ⟨.hbm, 1374, rfl⟩
abbrev main_v946 : Ref sig .tc := ⟨.hbm, 1375, rfl⟩
abbrev main_v947 : Ref sig .tc := ⟨.hbm, 1376, rfl⟩
abbrev main_v948 : Ref sig .tc := ⟨.hbm, 1377, rfl⟩
abbrev main_c_268 : Ref sig .tc := ⟨.hbm, 1378, rfl⟩
abbrev main_v949 : Ref sig .tc := ⟨.hbm, 1379, rfl⟩
abbrev main_v950 : Ref sig .tc := ⟨.hbm, 1380, rfl⟩
abbrev main_c_269 : Ref sig .tc := ⟨.hbm, 1381, rfl⟩
abbrev main_v951 : Ref sig .tc := ⟨.hbm, 1382, rfl⟩
abbrev main_v952 : Ref sig .tc := ⟨.hbm, 1383, rfl⟩
abbrev main_v953 : Ref sig .tc := ⟨.hbm, 1384, rfl⟩
abbrev main_v954 : Ref sig .tc := ⟨.hbm, 1385, rfl⟩
abbrev main_v955 : Ref sig .tc := ⟨.hbm, 1386, rfl⟩
abbrev main_cst_270 : Ref sig .tc := ⟨.hbm, 1387, rfl⟩
abbrev main_call50_v0 : Ref sig .tc := ⟨.hbm, 1388, rfl⟩
abbrev main_call50_v1 : Ref sig .tc := ⟨.hbm, 1389, rfl⟩
abbrev main_call50_v2 : Ref sig .tc := ⟨.hbm, 1390, rfl⟩
abbrev main_v956 : Ref sig .tc := ⟨.hbm, 1391, rfl⟩
abbrev main_c_271 : Ref sig .tc := ⟨.hbm, 1392, rfl⟩
abbrev main_v957 : Ref sig .tc := ⟨.hbm, 1393, rfl⟩
abbrev main_v958 : Ref sig .tc := ⟨.hbm, 1394, rfl⟩
abbrev main_c_272 : Ref sig .tc := ⟨.hbm, 1395, rfl⟩
abbrev main_v959 : Ref sig .tc := ⟨.hbm, 1396, rfl⟩
abbrev main_v960 : Ref sig .tc := ⟨.hbm, 1397, rfl⟩
abbrev main_v961 : Ref sig .tc := ⟨.hbm, 1398, rfl⟩
abbrev main_v962 : Ref sig .tc := ⟨.hbm, 1399, rfl⟩
abbrev main_v963 : Ref sig .tc := ⟨.hbm, 1400, rfl⟩
abbrev main_c_273 : Ref sig .tc := ⟨.hbm, 1401, rfl⟩
abbrev main_v964 : Ref sig .tc := ⟨.hbm, 1402, rfl⟩
abbrev main_v965 : Ref sig .tc := ⟨.hbm, 1403, rfl⟩
abbrev main_v966 : Ref sig .tc := ⟨.hbm, 1404, rfl⟩
abbrev main_v967 : Ref sig .tc := ⟨.hbm, 1405, rfl⟩
abbrev main_v968 : Ref sig .tc := ⟨.hbm, 1406, rfl⟩
abbrev main_c_274 : Ref sig .tc := ⟨.hbm, 1407, rfl⟩
abbrev main_v969 : Ref sig .tc := ⟨.hbm, 1408, rfl⟩
abbrev main_v970 : Ref sig .tc := ⟨.hbm, 1409, rfl⟩
abbrev main_c_275 : Ref sig .tc := ⟨.hbm, 1410, rfl⟩
abbrev main_v971 : Ref sig .tc := ⟨.hbm, 1411, rfl⟩
abbrev main_v972 : Ref sig .tc := ⟨.hbm, 1412, rfl⟩
abbrev main_v973 : Ref sig .tc := ⟨.hbm, 1413, rfl⟩
abbrev main_v974 : Ref sig .tc := ⟨.hbm, 1414, rfl⟩
abbrev main_v975 : Ref sig .tc := ⟨.hbm, 1415, rfl⟩
abbrev main_cst_276 : Ref sig .tc := ⟨.hbm, 1416, rfl⟩
abbrev main_call51_v0 : Ref sig .tc := ⟨.hbm, 1417, rfl⟩
abbrev main_call51_v1 : Ref sig .tc := ⟨.hbm, 1418, rfl⟩
abbrev main_call51_v2 : Ref sig .tc := ⟨.hbm, 1419, rfl⟩
abbrev main_v976 : Ref sig .tc := ⟨.hbm, 1420, rfl⟩
abbrev main_c_277 : Ref sig .tc := ⟨.hbm, 1421, rfl⟩
abbrev main_v977 : Ref sig .tc := ⟨.hbm, 1422, rfl⟩
abbrev main_v978 : Ref sig .tc := ⟨.hbm, 1423, rfl⟩
abbrev main_c_278 : Ref sig .tc := ⟨.hbm, 1424, rfl⟩
abbrev main_v979 : Ref sig .tc := ⟨.hbm, 1425, rfl⟩
abbrev main_v980 : Ref sig .tc := ⟨.hbm, 1426, rfl⟩
abbrev main_v981 : Ref sig .tc := ⟨.hbm, 1427, rfl⟩
abbrev main_v982 : Ref sig .tc := ⟨.hbm, 1428, rfl⟩
abbrev main_v983 : Ref sig .tc := ⟨.hbm, 1429, rfl⟩
abbrev main_v984 : Ref sig .tc := ⟨.hbm, 1430, rfl⟩
abbrev main_v985 : Ref sig .tc := ⟨.hbm, 1431, rfl⟩
abbrev main_c_279 : Ref sig .tc := ⟨.hbm, 1432, rfl⟩
abbrev main_v986 : Ref sig .tc := ⟨.hbm, 1433, rfl⟩
abbrev main_v987 : Ref sig .tc := ⟨.hbm, 1434, rfl⟩
abbrev main_c_280 : Ref sig .tc := ⟨.hbm, 1435, rfl⟩
abbrev main_v988 : Ref sig .tc := ⟨.hbm, 1436, rfl⟩
abbrev main_v989 : Ref sig .tc := ⟨.hbm, 1437, rfl⟩
abbrev main_v990 : Ref sig .tc := ⟨.hbm, 1438, rfl⟩
abbrev main_v991 : Ref sig .tc := ⟨.hbm, 1439, rfl⟩
abbrev main_v992 : Ref sig .tc := ⟨.hbm, 1440, rfl⟩
abbrev main_cst_281 : Ref sig .tc := ⟨.hbm, 1441, rfl⟩
abbrev main_call52_v0 : Ref sig .tc := ⟨.hbm, 1442, rfl⟩
abbrev main_call52_v1 : Ref sig .tc := ⟨.hbm, 1443, rfl⟩
abbrev main_call52_v2 : Ref sig .tc := ⟨.hbm, 1444, rfl⟩
abbrev main_v993 : Ref sig .tc := ⟨.hbm, 1445, rfl⟩
abbrev main_c_282 : Ref sig .tc := ⟨.hbm, 1446, rfl⟩
abbrev main_v994 : Ref sig .tc := ⟨.hbm, 1447, rfl⟩
abbrev main_v995 : Ref sig .tc := ⟨.hbm, 1448, rfl⟩
abbrev main_c_283 : Ref sig .tc := ⟨.hbm, 1449, rfl⟩
abbrev main_v996 : Ref sig .tc := ⟨.hbm, 1450, rfl⟩
abbrev main_v997 : Ref sig .tc := ⟨.hbm, 1451, rfl⟩
abbrev main_v998 : Ref sig .tc := ⟨.hbm, 1452, rfl⟩
abbrev main_v999 : Ref sig .tc := ⟨.hbm, 1453, rfl⟩
abbrev main_v1000 : Ref sig .tc := ⟨.hbm, 1454, rfl⟩
abbrev main_c_284 : Ref sig .tc := ⟨.hbm, 1455, rfl⟩
abbrev main_v1001 : Ref sig .tc := ⟨.hbm, 1456, rfl⟩
abbrev main_v1002 : Ref sig .tc := ⟨.hbm, 1457, rfl⟩
abbrev main_v1003 : Ref sig .tc := ⟨.hbm, 1458, rfl⟩
abbrev main_v1004 : Ref sig .tc := ⟨.hbm, 1459, rfl⟩
abbrev main_v1005 : Ref sig .tc := ⟨.hbm, 1460, rfl⟩
abbrev main_c_285 : Ref sig .tc := ⟨.hbm, 1461, rfl⟩
abbrev main_v1006 : Ref sig .tc := ⟨.hbm, 1462, rfl⟩
abbrev main_v1007 : Ref sig .tc := ⟨.hbm, 1463, rfl⟩
abbrev main_c_286 : Ref sig .tc := ⟨.hbm, 1464, rfl⟩
abbrev main_v1008 : Ref sig .tc := ⟨.hbm, 1465, rfl⟩
abbrev main_v1009 : Ref sig .tc := ⟨.hbm, 1466, rfl⟩
abbrev main_v1010 : Ref sig .tc := ⟨.hbm, 1467, rfl⟩
abbrev main_v1011 : Ref sig .tc := ⟨.hbm, 1468, rfl⟩
abbrev main_v1012 : Ref sig .tc := ⟨.hbm, 1469, rfl⟩
abbrev main_cst_287 : Ref sig .tc := ⟨.hbm, 1470, rfl⟩
abbrev main_call53_v0 : Ref sig .tc := ⟨.hbm, 1471, rfl⟩
abbrev main_call53_v1 : Ref sig .tc := ⟨.hbm, 1472, rfl⟩
abbrev main_call53_v2 : Ref sig .tc := ⟨.hbm, 1473, rfl⟩
abbrev main_v1013 : Ref sig .tc := ⟨.hbm, 1474, rfl⟩
abbrev main_c_288 : Ref sig .tc := ⟨.hbm, 1475, rfl⟩
abbrev main_v1014 : Ref sig .tc := ⟨.hbm, 1476, rfl⟩
abbrev main_v1015 : Ref sig .tc := ⟨.hbm, 1477, rfl⟩
abbrev main_c_289 : Ref sig .tc := ⟨.hbm, 1478, rfl⟩
abbrev main_v1016 : Ref sig .tc := ⟨.hbm, 1479, rfl⟩
abbrev main_v1017 : Ref sig .tc := ⟨.hbm, 1480, rfl⟩
abbrev main_v1018 : Ref sig .tc := ⟨.hbm, 1481, rfl⟩
abbrev main_v1019 : Ref sig .tc := ⟨.hbm, 1482, rfl⟩
abbrev main_v1020 : Ref sig .tc := ⟨.hbm, 1483, rfl⟩
abbrev main_v1021 : Ref sig .tc := ⟨.hbm, 1484, rfl⟩
abbrev main_v1022 : Ref sig .tc := ⟨.hbm, 1485, rfl⟩
abbrev main_c_290 : Ref sig .tc := ⟨.hbm, 1486, rfl⟩
abbrev main_v1023 : Ref sig .tc := ⟨.hbm, 1487, rfl⟩
abbrev main_v1024 : Ref sig .tc := ⟨.hbm, 1488, rfl⟩
abbrev main_c_291 : Ref sig .tc := ⟨.hbm, 1489, rfl⟩
abbrev main_v1025 : Ref sig .tc := ⟨.hbm, 1490, rfl⟩
abbrev main_v1026 : Ref sig .tc := ⟨.hbm, 1491, rfl⟩
abbrev main_v1027 : Ref sig .tc := ⟨.hbm, 1492, rfl⟩
abbrev main_v1028 : Ref sig .tc := ⟨.hbm, 1493, rfl⟩
abbrev main_v1029 : Ref sig .tc := ⟨.hbm, 1494, rfl⟩
abbrev main_cst_292 : Ref sig .tc := ⟨.hbm, 1495, rfl⟩
abbrev main_call54_v0 : Ref sig .tc := ⟨.hbm, 1496, rfl⟩
abbrev main_call54_v1 : Ref sig .tc := ⟨.hbm, 1497, rfl⟩
abbrev main_call54_v2 : Ref sig .tc := ⟨.hbm, 1498, rfl⟩
abbrev main_v1030 : Ref sig .tc := ⟨.hbm, 1499, rfl⟩
abbrev main_c_293 : Ref sig .tc := ⟨.hbm, 1500, rfl⟩
abbrev main_v1031 : Ref sig .tc := ⟨.hbm, 1501, rfl⟩
abbrev main_v1032 : Ref sig .tc := ⟨.hbm, 1502, rfl⟩
abbrev main_c_294 : Ref sig .tc := ⟨.hbm, 1503, rfl⟩
abbrev main_v1033 : Ref sig .tc := ⟨.hbm, 1504, rfl⟩
abbrev main_v1034 : Ref sig .tc := ⟨.hbm, 1505, rfl⟩
abbrev main_v1035 : Ref sig .tc := ⟨.hbm, 1506, rfl⟩
abbrev main_v1036 : Ref sig .tc := ⟨.hbm, 1507, rfl⟩
abbrev main_v1037 : Ref sig .tc := ⟨.hbm, 1508, rfl⟩
abbrev main_c_295 : Ref sig .tc := ⟨.hbm, 1509, rfl⟩
abbrev main_v1038 : Ref sig .tc := ⟨.hbm, 1510, rfl⟩
abbrev main_v1039 : Ref sig .tc := ⟨.hbm, 1511, rfl⟩
abbrev main_v1040 : Ref sig .tc := ⟨.hbm, 1512, rfl⟩
abbrev main_v1041 : Ref sig .tc := ⟨.hbm, 1513, rfl⟩
abbrev main_v1042 : Ref sig .tc := ⟨.hbm, 1514, rfl⟩
abbrev main_c_296 : Ref sig .tc := ⟨.hbm, 1515, rfl⟩
abbrev main_v1043 : Ref sig .tc := ⟨.hbm, 1516, rfl⟩
abbrev main_v1044 : Ref sig .tc := ⟨.hbm, 1517, rfl⟩
abbrev main_c_297 : Ref sig .tc := ⟨.hbm, 1518, rfl⟩
abbrev main_v1045 : Ref sig .tc := ⟨.hbm, 1519, rfl⟩
abbrev main_v1046 : Ref sig .tc := ⟨.hbm, 1520, rfl⟩
abbrev main_v1047 : Ref sig .tc := ⟨.hbm, 1521, rfl⟩
abbrev main_v1048 : Ref sig .tc := ⟨.hbm, 1522, rfl⟩
abbrev main_v1049 : Ref sig .tc := ⟨.hbm, 1523, rfl⟩
abbrev main_cst_298 : Ref sig .tc := ⟨.hbm, 1524, rfl⟩
abbrev main_call55_v0 : Ref sig .tc := ⟨.hbm, 1525, rfl⟩
abbrev main_call55_v1 : Ref sig .tc := ⟨.hbm, 1526, rfl⟩
abbrev main_call55_v2 : Ref sig .tc := ⟨.hbm, 1527, rfl⟩
abbrev main_v1050 : Ref sig .tc := ⟨.hbm, 1528, rfl⟩
abbrev main_c_299 : Ref sig .tc := ⟨.hbm, 1529, rfl⟩
abbrev main_v1051 : Ref sig .tc := ⟨.hbm, 1530, rfl⟩
abbrev main_v1052 : Ref sig .tc := ⟨.hbm, 1531, rfl⟩
abbrev main_c_300 : Ref sig .tc := ⟨.hbm, 1532, rfl⟩
abbrev main_v1053 : Ref sig .tc := ⟨.hbm, 1533, rfl⟩
abbrev main_v1054 : Ref sig .tc := ⟨.hbm, 1534, rfl⟩
abbrev main_v1055 : Ref sig .tc := ⟨.hbm, 1535, rfl⟩
abbrev main_v1056 : Ref sig .tc := ⟨.hbm, 1536, rfl⟩
abbrev main_v1057 : Ref sig .tc := ⟨.hbm, 1537, rfl⟩
abbrev main_v1058 : Ref sig .tc := ⟨.hbm, 1538, rfl⟩
abbrev main_v1059 : Ref sig .tc := ⟨.hbm, 1539, rfl⟩
abbrev main_c_301 : Ref sig .tc := ⟨.hbm, 1540, rfl⟩
abbrev main_v1060 : Ref sig .tc := ⟨.hbm, 1541, rfl⟩
abbrev main_v1061 : Ref sig .tc := ⟨.hbm, 1542, rfl⟩
abbrev main_c_302 : Ref sig .tc := ⟨.hbm, 1543, rfl⟩
abbrev main_v1062 : Ref sig .tc := ⟨.hbm, 1544, rfl⟩
abbrev main_v1063 : Ref sig .tc := ⟨.hbm, 1545, rfl⟩
abbrev main_v1064 : Ref sig .tc := ⟨.hbm, 1546, rfl⟩
abbrev main_v1065 : Ref sig .tc := ⟨.hbm, 1547, rfl⟩
abbrev main_v1066 : Ref sig .tc := ⟨.hbm, 1548, rfl⟩
abbrev main_cst_303 : Ref sig .tc := ⟨.hbm, 1549, rfl⟩
abbrev main_call56_v0 : Ref sig .tc := ⟨.hbm, 1550, rfl⟩
abbrev main_call56_v1 : Ref sig .tc := ⟨.hbm, 1551, rfl⟩
abbrev main_call56_v2 : Ref sig .tc := ⟨.hbm, 1552, rfl⟩
abbrev main_v1067 : Ref sig .tc := ⟨.hbm, 1553, rfl⟩
abbrev main_c_304 : Ref sig .tc := ⟨.hbm, 1554, rfl⟩
abbrev main_v1068 : Ref sig .tc := ⟨.hbm, 1555, rfl⟩
abbrev main_v1069 : Ref sig .tc := ⟨.hbm, 1556, rfl⟩
abbrev main_c_305 : Ref sig .tc := ⟨.hbm, 1557, rfl⟩
abbrev main_v1070 : Ref sig .tc := ⟨.hbm, 1558, rfl⟩
abbrev main_v1071 : Ref sig .tc := ⟨.hbm, 1559, rfl⟩
abbrev main_v1072 : Ref sig .tc := ⟨.hbm, 1560, rfl⟩
abbrev main_v1073 : Ref sig .tc := ⟨.hbm, 1561, rfl⟩
abbrev main_v1074 : Ref sig .tc := ⟨.hbm, 1562, rfl⟩
abbrev main_c_306 : Ref sig .tc := ⟨.hbm, 1563, rfl⟩
abbrev main_v1075 : Ref sig .tc := ⟨.hbm, 1564, rfl⟩
abbrev main_v1076 : Ref sig .tc := ⟨.hbm, 1565, rfl⟩
abbrev main_v1077 : Ref sig .tc := ⟨.hbm, 1566, rfl⟩
abbrev main_v1078 : Ref sig .tc := ⟨.hbm, 1567, rfl⟩
abbrev main_v1079 : Ref sig .tc := ⟨.hbm, 1568, rfl⟩
abbrev main_c_307 : Ref sig .tc := ⟨.hbm, 1569, rfl⟩
abbrev main_v1080 : Ref sig .tc := ⟨.hbm, 1570, rfl⟩
abbrev main_v1081 : Ref sig .tc := ⟨.hbm, 1571, rfl⟩
abbrev main_c_308 : Ref sig .tc := ⟨.hbm, 1572, rfl⟩
abbrev main_v1082 : Ref sig .tc := ⟨.hbm, 1573, rfl⟩
abbrev main_v1083 : Ref sig .tc := ⟨.hbm, 1574, rfl⟩
abbrev main_v1084 : Ref sig .tc := ⟨.hbm, 1575, rfl⟩
abbrev main_v1085 : Ref sig .tc := ⟨.hbm, 1576, rfl⟩
abbrev main_v1086 : Ref sig .tc := ⟨.hbm, 1577, rfl⟩
abbrev main_cst_309 : Ref sig .tc := ⟨.hbm, 1578, rfl⟩
abbrev main_call57_v0 : Ref sig .tc := ⟨.hbm, 1579, rfl⟩
abbrev main_call57_v1 : Ref sig .tc := ⟨.hbm, 1580, rfl⟩
abbrev main_call57_v2 : Ref sig .tc := ⟨.hbm, 1581, rfl⟩
abbrev main_v1087 : Ref sig .tc := ⟨.hbm, 1582, rfl⟩
abbrev main_c_310 : Ref sig .tc := ⟨.hbm, 1583, rfl⟩
abbrev main_v1088 : Ref sig .tc := ⟨.hbm, 1584, rfl⟩
abbrev main_v1089 : Ref sig .tc := ⟨.hbm, 1585, rfl⟩
abbrev main_c_311 : Ref sig .tc := ⟨.hbm, 1586, rfl⟩
abbrev main_v1090 : Ref sig .tc := ⟨.hbm, 1587, rfl⟩
abbrev main_v1091 : Ref sig .tc := ⟨.hbm, 1588, rfl⟩
abbrev main_v1092 : Ref sig .tc := ⟨.hbm, 1589, rfl⟩
abbrev main_v1093 : Ref sig .tc := ⟨.hbm, 1590, rfl⟩
abbrev main_v1094 : Ref sig .tc := ⟨.hbm, 1591, rfl⟩
abbrev main_v1095 : Ref sig .tc := ⟨.hbm, 1592, rfl⟩
abbrev main_v1096 : Ref sig .tc := ⟨.hbm, 1593, rfl⟩
abbrev main_c_312 : Ref sig .tc := ⟨.hbm, 1594, rfl⟩
abbrev main_v1097 : Ref sig .tc := ⟨.hbm, 1595, rfl⟩
abbrev main_v1098 : Ref sig .tc := ⟨.hbm, 1596, rfl⟩
abbrev main_c_313 : Ref sig .tc := ⟨.hbm, 1597, rfl⟩
abbrev main_v1099 : Ref sig .tc := ⟨.hbm, 1598, rfl⟩
abbrev main_v1100 : Ref sig .tc := ⟨.hbm, 1599, rfl⟩
abbrev main_v1101 : Ref sig .tc := ⟨.hbm, 1600, rfl⟩
abbrev main_v1102 : Ref sig .tc := ⟨.hbm, 1601, rfl⟩
abbrev main_v1103 : Ref sig .tc := ⟨.hbm, 1602, rfl⟩
abbrev main_cst_314 : Ref sig .tc := ⟨.hbm, 1603, rfl⟩
abbrev main_call58_v0 : Ref sig .tc := ⟨.hbm, 1604, rfl⟩
abbrev main_call58_v1 : Ref sig .tc := ⟨.hbm, 1605, rfl⟩
abbrev main_call58_v2 : Ref sig .tc := ⟨.hbm, 1606, rfl⟩
abbrev main_v1104 : Ref sig .tc := ⟨.hbm, 1607, rfl⟩
abbrev main_c_315 : Ref sig .tc := ⟨.hbm, 1608, rfl⟩
abbrev main_v1105 : Ref sig .tc := ⟨.hbm, 1609, rfl⟩
abbrev main_v1106 : Ref sig .tc := ⟨.hbm, 1610, rfl⟩
abbrev main_c_316 : Ref sig .tc := ⟨.hbm, 1611, rfl⟩
abbrev main_v1107 : Ref sig .tc := ⟨.hbm, 1612, rfl⟩
abbrev main_v1108 : Ref sig .tc := ⟨.hbm, 1613, rfl⟩
abbrev main_v1109 : Ref sig .tc := ⟨.hbm, 1614, rfl⟩
abbrev main_v1110 : Ref sig .tc := ⟨.hbm, 1615, rfl⟩
abbrev main_v1111 : Ref sig .tc := ⟨.hbm, 1616, rfl⟩
abbrev main_c_317 : Ref sig .tc := ⟨.hbm, 1617, rfl⟩
abbrev main_v1112 : Ref sig .tc := ⟨.hbm, 1618, rfl⟩
abbrev main_v1113 : Ref sig .tc := ⟨.hbm, 1619, rfl⟩
abbrev main_v1114 : Ref sig .tc := ⟨.hbm, 1620, rfl⟩
abbrev main_v1115 : Ref sig .tc := ⟨.hbm, 1621, rfl⟩
abbrev main_v1116 : Ref sig .tc := ⟨.hbm, 1622, rfl⟩
abbrev main_c_318 : Ref sig .tc := ⟨.hbm, 1623, rfl⟩
abbrev main_v1117 : Ref sig .tc := ⟨.hbm, 1624, rfl⟩
abbrev main_v1118 : Ref sig .tc := ⟨.hbm, 1625, rfl⟩
abbrev main_c_319 : Ref sig .tc := ⟨.hbm, 1626, rfl⟩
abbrev main_v1119 : Ref sig .tc := ⟨.hbm, 1627, rfl⟩
abbrev main_v1120 : Ref sig .tc := ⟨.hbm, 1628, rfl⟩
abbrev main_v1121 : Ref sig .tc := ⟨.hbm, 1629, rfl⟩
abbrev main_v1122 : Ref sig .tc := ⟨.hbm, 1630, rfl⟩
abbrev main_v1123 : Ref sig .tc := ⟨.hbm, 1631, rfl⟩
abbrev main_cst_320 : Ref sig .tc := ⟨.hbm, 1632, rfl⟩
abbrev main_call59_v0 : Ref sig .tc := ⟨.hbm, 1633, rfl⟩
abbrev main_call59_v1 : Ref sig .tc := ⟨.hbm, 1634, rfl⟩
abbrev main_call59_v2 : Ref sig .tc := ⟨.hbm, 1635, rfl⟩
abbrev main_v1124 : Ref sig .tc := ⟨.hbm, 1636, rfl⟩
abbrev main_c_321 : Ref sig .tc := ⟨.hbm, 1637, rfl⟩
abbrev main_v1125 : Ref sig .tc := ⟨.hbm, 1638, rfl⟩
abbrev main_v1126 : Ref sig .tc := ⟨.hbm, 1639, rfl⟩
abbrev main_c_322 : Ref sig .tc := ⟨.hbm, 1640, rfl⟩
abbrev main_v1127 : Ref sig .tc := ⟨.hbm, 1641, rfl⟩
abbrev main_v1128 : Ref sig .tc := ⟨.hbm, 1642, rfl⟩
abbrev main_v1129 : Ref sig .tc := ⟨.hbm, 1643, rfl⟩
abbrev main_v1130 : Ref sig .tc := ⟨.hbm, 1644, rfl⟩
abbrev main_v1131 : Ref sig .tc := ⟨.hbm, 1645, rfl⟩
abbrev main_v1132 : Ref sig .tc := ⟨.hbm, 1646, rfl⟩
abbrev main_v1133 : Ref sig .tc := ⟨.hbm, 1647, rfl⟩
abbrev main_c_323 : Ref sig .tc := ⟨.hbm, 1648, rfl⟩
abbrev main_v1134 : Ref sig .tc := ⟨.hbm, 1649, rfl⟩
abbrev main_v1135 : Ref sig .tc := ⟨.hbm, 1650, rfl⟩
abbrev main_c_324 : Ref sig .tc := ⟨.hbm, 1651, rfl⟩
abbrev main_v1136 : Ref sig .tc := ⟨.hbm, 1652, rfl⟩
abbrev main_v1137 : Ref sig .tc := ⟨.hbm, 1653, rfl⟩
abbrev main_v1138 : Ref sig .tc := ⟨.hbm, 1654, rfl⟩
abbrev main_v1139 : Ref sig .tc := ⟨.hbm, 1655, rfl⟩
abbrev main_v1140 : Ref sig .tc := ⟨.hbm, 1656, rfl⟩
abbrev main_cst_325 : Ref sig .tc := ⟨.hbm, 1657, rfl⟩
abbrev main_call60_v0 : Ref sig .tc := ⟨.hbm, 1658, rfl⟩
abbrev main_call60_v1 : Ref sig .tc := ⟨.hbm, 1659, rfl⟩
abbrev main_call60_v2 : Ref sig .tc := ⟨.hbm, 1660, rfl⟩
abbrev main_v1141 : Ref sig .tc := ⟨.hbm, 1661, rfl⟩
abbrev main_c_326 : Ref sig .tc := ⟨.hbm, 1662, rfl⟩
abbrev main_v1142 : Ref sig .tc := ⟨.hbm, 1663, rfl⟩
abbrev main_v1143 : Ref sig .tc := ⟨.hbm, 1664, rfl⟩
abbrev main_c_327 : Ref sig .tc := ⟨.hbm, 1665, rfl⟩
abbrev main_v1144 : Ref sig .tc := ⟨.hbm, 1666, rfl⟩
abbrev main_v1145 : Ref sig .tc := ⟨.hbm, 1667, rfl⟩
abbrev main_v1146 : Ref sig .tc := ⟨.hbm, 1668, rfl⟩
abbrev main_v1147 : Ref sig .tc := ⟨.hbm, 1669, rfl⟩
abbrev main_v1148 : Ref sig .tc := ⟨.hbm, 1670, rfl⟩
abbrev main_c_328 : Ref sig .tc := ⟨.hbm, 1671, rfl⟩
abbrev main_v1149 : Ref sig .tc := ⟨.hbm, 1672, rfl⟩
abbrev main_v1150 : Ref sig .tc := ⟨.hbm, 1673, rfl⟩
abbrev main_v1151 : Ref sig .tc := ⟨.hbm, 1674, rfl⟩
abbrev main_v1152 : Ref sig .tc := ⟨.hbm, 1675, rfl⟩
abbrev main_v1153 : Ref sig .tc := ⟨.hbm, 1676, rfl⟩
abbrev main_c_329 : Ref sig .tc := ⟨.hbm, 1677, rfl⟩
abbrev main_v1154 : Ref sig .tc := ⟨.hbm, 1678, rfl⟩
abbrev main_v1155 : Ref sig .tc := ⟨.hbm, 1679, rfl⟩
abbrev main_c_330 : Ref sig .tc := ⟨.hbm, 1680, rfl⟩
abbrev main_v1156 : Ref sig .tc := ⟨.hbm, 1681, rfl⟩
abbrev main_v1157 : Ref sig .tc := ⟨.hbm, 1682, rfl⟩
abbrev main_v1158 : Ref sig .tc := ⟨.hbm, 1683, rfl⟩
abbrev main_v1159 : Ref sig .tc := ⟨.hbm, 1684, rfl⟩
abbrev main_v1160 : Ref sig .tc := ⟨.hbm, 1685, rfl⟩
abbrev main_cst_331 : Ref sig .tc := ⟨.hbm, 1686, rfl⟩
abbrev main_call61_v0 : Ref sig .tc := ⟨.hbm, 1687, rfl⟩
abbrev main_call61_v1 : Ref sig .tc := ⟨.hbm, 1688, rfl⟩
abbrev main_call61_v2 : Ref sig .tc := ⟨.hbm, 1689, rfl⟩
abbrev main_v1161 : Ref sig .tc := ⟨.hbm, 1690, rfl⟩
abbrev main_c_332 : Ref sig .tc := ⟨.hbm, 1691, rfl⟩
abbrev main_v1162 : Ref sig .tc := ⟨.hbm, 1692, rfl⟩
abbrev main_v1163 : Ref sig .tc := ⟨.hbm, 1693, rfl⟩
abbrev main_c_333 : Ref sig .tc := ⟨.hbm, 1694, rfl⟩
abbrev main_v1164 : Ref sig .tc := ⟨.hbm, 1695, rfl⟩
abbrev main_v1165 : Ref sig .tc := ⟨.hbm, 1696, rfl⟩
abbrev main_v1166 : Ref sig .tc := ⟨.hbm, 1697, rfl⟩
abbrev main_v1167 : Ref sig .tc := ⟨.hbm, 1698, rfl⟩
abbrev main_v1168 : Ref sig .tc := ⟨.hbm, 1699, rfl⟩
abbrev main_v1169 : Ref sig .tc := ⟨.hbm, 1700, rfl⟩
abbrev main_v1170 : Ref sig .tc := ⟨.hbm, 1701, rfl⟩
abbrev main_c_334 : Ref sig .tc := ⟨.hbm, 1702, rfl⟩
abbrev main_v1171 : Ref sig .tc := ⟨.hbm, 1703, rfl⟩
abbrev main_v1172 : Ref sig .tc := ⟨.hbm, 1704, rfl⟩
abbrev main_c_335 : Ref sig .tc := ⟨.hbm, 1705, rfl⟩
abbrev main_v1173 : Ref sig .tc := ⟨.hbm, 1706, rfl⟩
abbrev main_v1174 : Ref sig .tc := ⟨.hbm, 1707, rfl⟩
abbrev main_v1175 : Ref sig .tc := ⟨.hbm, 1708, rfl⟩
abbrev main_v1176 : Ref sig .tc := ⟨.hbm, 1709, rfl⟩
abbrev main_v1177 : Ref sig .tc := ⟨.hbm, 1710, rfl⟩
abbrev main_cst_336 : Ref sig .tc := ⟨.hbm, 1711, rfl⟩
abbrev main_call62_v0 : Ref sig .tc := ⟨.hbm, 1712, rfl⟩
abbrev main_call62_v1 : Ref sig .tc := ⟨.hbm, 1713, rfl⟩
abbrev main_call62_v2 : Ref sig .tc := ⟨.hbm, 1714, rfl⟩
abbrev main_v1178 : Ref sig .tc := ⟨.hbm, 1715, rfl⟩
abbrev main_c_337 : Ref sig .tc := ⟨.hbm, 1716, rfl⟩
abbrev main_v1179 : Ref sig .tc := ⟨.hbm, 1717, rfl⟩
abbrev main_v1180 : Ref sig .tc := ⟨.hbm, 1718, rfl⟩
abbrev main_c_338 : Ref sig .tc := ⟨.hbm, 1719, rfl⟩
abbrev main_v1181 : Ref sig .tc := ⟨.hbm, 1720, rfl⟩
abbrev main_v1182 : Ref sig .tc := ⟨.hbm, 1721, rfl⟩
abbrev main_v1183 : Ref sig .tc := ⟨.hbm, 1722, rfl⟩
abbrev main_v1184 : Ref sig .tc := ⟨.hbm, 1723, rfl⟩
abbrev main_v1185 : Ref sig .tc := ⟨.hbm, 1724, rfl⟩
abbrev main_c_339 : Ref sig .tc := ⟨.hbm, 1725, rfl⟩
abbrev main_v1186 : Ref sig .tc := ⟨.hbm, 1726, rfl⟩
abbrev main_v1187 : Ref sig .tc := ⟨.hbm, 1727, rfl⟩
abbrev main_v1188 : Ref sig .tc := ⟨.hbm, 1728, rfl⟩
abbrev main_v1189 : Ref sig .tc := ⟨.hbm, 1729, rfl⟩
abbrev main_v1190 : Ref sig .tc := ⟨.hbm, 1730, rfl⟩
abbrev main_c_340 : Ref sig .tc := ⟨.hbm, 1731, rfl⟩
abbrev main_v1191 : Ref sig .tc := ⟨.hbm, 1732, rfl⟩
abbrev main_v1192 : Ref sig .tc := ⟨.hbm, 1733, rfl⟩
abbrev main_c_341 : Ref sig .tc := ⟨.hbm, 1734, rfl⟩
abbrev main_v1193 : Ref sig .tc := ⟨.hbm, 1735, rfl⟩
abbrev main_v1194 : Ref sig .tc := ⟨.hbm, 1736, rfl⟩
abbrev main_v1195 : Ref sig .tc := ⟨.hbm, 1737, rfl⟩
abbrev main_v1196 : Ref sig .tc := ⟨.hbm, 1738, rfl⟩
abbrev main_v1197 : Ref sig .tc := ⟨.hbm, 1739, rfl⟩
abbrev main_cst_342 : Ref sig .tc := ⟨.hbm, 1740, rfl⟩
abbrev main_call63_v0 : Ref sig .tc := ⟨.hbm, 1741, rfl⟩
abbrev main_call63_v1 : Ref sig .tc := ⟨.hbm, 1742, rfl⟩
abbrev main_call63_v2 : Ref sig .tc := ⟨.hbm, 1743, rfl⟩
abbrev main_v1198 : Ref sig .tc := ⟨.hbm, 1744, rfl⟩
abbrev main_c_343 : Ref sig .tc := ⟨.hbm, 1745, rfl⟩
abbrev main_v1199 : Ref sig .tc := ⟨.hbm, 1746, rfl⟩
abbrev main_v1200 : Ref sig .tc := ⟨.hbm, 1747, rfl⟩
abbrev main_c_344 : Ref sig .tc := ⟨.hbm, 1748, rfl⟩
abbrev main_v1201 : Ref sig .tc := ⟨.hbm, 1749, rfl⟩
abbrev main_v1202 : Ref sig .tc := ⟨.hbm, 1750, rfl⟩
abbrev main_v1203 : Ref sig .tc := ⟨.hbm, 1751, rfl⟩
abbrev main_v1204 : Ref sig .tc := ⟨.hbm, 1752, rfl⟩
abbrev main_v1205 : Ref sig .tc := ⟨.hbm, 1753, rfl⟩
abbrev main_v1206 : Ref sig .tc := ⟨.hbm, 1754, rfl⟩
abbrev main_v1207 : Ref sig .tc := ⟨.hbm, 1755, rfl⟩
abbrev main_c_345 : Ref sig .tc := ⟨.hbm, 1756, rfl⟩
abbrev main_v1208 : Ref sig .tc := ⟨.hbm, 1757, rfl⟩
abbrev main_v1209 : Ref sig .tc := ⟨.hbm, 1758, rfl⟩
abbrev main_c_346 : Ref sig .tc := ⟨.hbm, 1759, rfl⟩
abbrev main_v1210 : Ref sig .tc := ⟨.hbm, 1760, rfl⟩
abbrev main_v1211 : Ref sig .tc := ⟨.hbm, 1761, rfl⟩
abbrev main_v1212 : Ref sig .tc := ⟨.hbm, 1762, rfl⟩
abbrev main_v1213 : Ref sig .tc := ⟨.hbm, 1763, rfl⟩
abbrev main_v1214 : Ref sig .tc := ⟨.hbm, 1764, rfl⟩
abbrev main_cst_347 : Ref sig .tc := ⟨.hbm, 1765, rfl⟩
abbrev main_call64_v0 : Ref sig .tc := ⟨.hbm, 1766, rfl⟩
abbrev main_call64_v1 : Ref sig .tc := ⟨.hbm, 1767, rfl⟩
abbrev main_call64_v2 : Ref sig .tc := ⟨.hbm, 1768, rfl⟩
abbrev main_v1215 : Ref sig .tc := ⟨.hbm, 1769, rfl⟩
abbrev main_c_348 : Ref sig .tc := ⟨.hbm, 1770, rfl⟩
abbrev main_v1216 : Ref sig .tc := ⟨.hbm, 1771, rfl⟩
abbrev main_v1217 : Ref sig .tc := ⟨.hbm, 1772, rfl⟩
abbrev main_c_349 : Ref sig .tc := ⟨.hbm, 1773, rfl⟩
abbrev main_v1218 : Ref sig .tc := ⟨.hbm, 1774, rfl⟩
abbrev main_v1219 : Ref sig .tc := ⟨.hbm, 1775, rfl⟩
abbrev main_v1220 : Ref sig .tc := ⟨.hbm, 1776, rfl⟩
abbrev main_v1221 : Ref sig .tc := ⟨.hbm, 1777, rfl⟩
abbrev main_v1222 : Ref sig .tc := ⟨.hbm, 1778, rfl⟩
abbrev main_c_350 : Ref sig .tc := ⟨.hbm, 1779, rfl⟩
abbrev main_v1223 : Ref sig .tc := ⟨.hbm, 1780, rfl⟩
abbrev main_v1224 : Ref sig .tc := ⟨.hbm, 1781, rfl⟩
abbrev main_v1225 : Ref sig .tc := ⟨.hbm, 1782, rfl⟩
abbrev main_v1226 : Ref sig .tc := ⟨.hbm, 1783, rfl⟩
abbrev main_v1227 : Ref sig .tc := ⟨.hbm, 1784, rfl⟩
abbrev main_c_351 : Ref sig .tc := ⟨.hbm, 1785, rfl⟩
abbrev main_v1228 : Ref sig .tc := ⟨.hbm, 1786, rfl⟩
abbrev main_v1229 : Ref sig .tc := ⟨.hbm, 1787, rfl⟩
abbrev main_c_352 : Ref sig .tc := ⟨.hbm, 1788, rfl⟩
abbrev main_v1230 : Ref sig .tc := ⟨.hbm, 1789, rfl⟩
abbrev main_v1231 : Ref sig .tc := ⟨.hbm, 1790, rfl⟩
abbrev main_v1232 : Ref sig .tc := ⟨.hbm, 1791, rfl⟩
abbrev main_v1233 : Ref sig .tc := ⟨.hbm, 1792, rfl⟩
abbrev main_v1234 : Ref sig .tc := ⟨.hbm, 1793, rfl⟩
abbrev main_cst_353 : Ref sig .tc := ⟨.hbm, 1794, rfl⟩
abbrev main_call65_v0 : Ref sig .tc := ⟨.hbm, 1795, rfl⟩
abbrev main_call65_v1 : Ref sig .tc := ⟨.hbm, 1796, rfl⟩
abbrev main_call65_v2 : Ref sig .tc := ⟨.hbm, 1797, rfl⟩
abbrev main_v1235 : Ref sig .tc := ⟨.hbm, 1798, rfl⟩
abbrev main_c_354 : Ref sig .tc := ⟨.hbm, 1799, rfl⟩
abbrev main_v1236 : Ref sig .tc := ⟨.hbm, 1800, rfl⟩
abbrev main_v1237 : Ref sig .tc := ⟨.hbm, 1801, rfl⟩
abbrev main_c_355 : Ref sig .tc := ⟨.hbm, 1802, rfl⟩
abbrev main_v1238 : Ref sig .tc := ⟨.hbm, 1803, rfl⟩
abbrev main_v1239 : Ref sig .tc := ⟨.hbm, 1804, rfl⟩
abbrev main_v1240 : Ref sig .tc := ⟨.hbm, 1805, rfl⟩
abbrev main_v1241 : Ref sig .tc := ⟨.hbm, 1806, rfl⟩
abbrev main_v1242 : Ref sig .tc := ⟨.hbm, 1807, rfl⟩
abbrev main_v1243 : Ref sig .tc := ⟨.hbm, 1808, rfl⟩
abbrev main_v1244 : Ref sig .tc := ⟨.hbm, 1809, rfl⟩
abbrev main_c_356 : Ref sig .tc := ⟨.hbm, 1810, rfl⟩
abbrev main_v1245 : Ref sig .tc := ⟨.hbm, 1811, rfl⟩
abbrev main_v1246 : Ref sig .tc := ⟨.hbm, 1812, rfl⟩
abbrev main_c_357 : Ref sig .tc := ⟨.hbm, 1813, rfl⟩
abbrev main_v1247 : Ref sig .tc := ⟨.hbm, 1814, rfl⟩
abbrev main_v1248 : Ref sig .tc := ⟨.hbm, 1815, rfl⟩
abbrev main_v1249 : Ref sig .tc := ⟨.hbm, 1816, rfl⟩
abbrev main_v1250 : Ref sig .tc := ⟨.hbm, 1817, rfl⟩
abbrev main_v1251 : Ref sig .tc := ⟨.hbm, 1818, rfl⟩
abbrev main_cst_358 : Ref sig .tc := ⟨.hbm, 1819, rfl⟩
abbrev main_call66_v0 : Ref sig .tc := ⟨.hbm, 1820, rfl⟩
abbrev main_call66_v1 : Ref sig .tc := ⟨.hbm, 1821, rfl⟩
abbrev main_call66_v2 : Ref sig .tc := ⟨.hbm, 1822, rfl⟩
abbrev main_v1252 : Ref sig .tc := ⟨.hbm, 1823, rfl⟩
abbrev main_c_359 : Ref sig .tc := ⟨.hbm, 1824, rfl⟩
abbrev main_v1253 : Ref sig .tc := ⟨.hbm, 1825, rfl⟩
abbrev main_v1254 : Ref sig .tc := ⟨.hbm, 1826, rfl⟩
abbrev main_c_360 : Ref sig .tc := ⟨.hbm, 1827, rfl⟩
abbrev main_v1255 : Ref sig .tc := ⟨.hbm, 1828, rfl⟩
abbrev main_v1256 : Ref sig .tc := ⟨.hbm, 1829, rfl⟩
abbrev main_v1257 : Ref sig .tc := ⟨.hbm, 1830, rfl⟩
abbrev main_v1258 : Ref sig .tc := ⟨.hbm, 1831, rfl⟩
abbrev main_v1259 : Ref sig .tc := ⟨.hbm, 1832, rfl⟩
abbrev main_c_361 : Ref sig .tc := ⟨.hbm, 1833, rfl⟩
abbrev main_v1260 : Ref sig .tc := ⟨.hbm, 1834, rfl⟩
abbrev main_v1261 : Ref sig .tc := ⟨.hbm, 1835, rfl⟩
abbrev main_v1262 : Ref sig .tc := ⟨.hbm, 1836, rfl⟩
abbrev main_v1263 : Ref sig .tc := ⟨.hbm, 1837, rfl⟩
abbrev main_v1264 : Ref sig .tc := ⟨.hbm, 1838, rfl⟩
abbrev main_c_362 : Ref sig .tc := ⟨.hbm, 1839, rfl⟩
abbrev main_v1265 : Ref sig .tc := ⟨.hbm, 1840, rfl⟩
abbrev main_v1266 : Ref sig .tc := ⟨.hbm, 1841, rfl⟩
abbrev main_c_363 : Ref sig .tc := ⟨.hbm, 1842, rfl⟩
abbrev main_v1267 : Ref sig .tc := ⟨.hbm, 1843, rfl⟩
abbrev main_v1268 : Ref sig .tc := ⟨.hbm, 1844, rfl⟩
abbrev main_v1269 : Ref sig .tc := ⟨.hbm, 1845, rfl⟩
abbrev main_v1270 : Ref sig .tc := ⟨.hbm, 1846, rfl⟩
abbrev main_v1271 : Ref sig .tc := ⟨.hbm, 1847, rfl⟩
abbrev main_cst_364 : Ref sig .tc := ⟨.hbm, 1848, rfl⟩
abbrev main_call67_v0 : Ref sig .tc := ⟨.hbm, 1849, rfl⟩
abbrev main_call67_v1 : Ref sig .tc := ⟨.hbm, 1850, rfl⟩
abbrev main_call67_v2 : Ref sig .tc := ⟨.hbm, 1851, rfl⟩
abbrev main_v1272 : Ref sig .tc := ⟨.hbm, 1852, rfl⟩
abbrev main_c_365 : Ref sig .tc := ⟨.hbm, 1853, rfl⟩
abbrev main_v1273 : Ref sig .tc := ⟨.hbm, 1854, rfl⟩
abbrev main_v1274 : Ref sig .tc := ⟨.hbm, 1855, rfl⟩
abbrev main_c_366 : Ref sig .tc := ⟨.hbm, 1856, rfl⟩
abbrev main_v1275 : Ref sig .tc := ⟨.hbm, 1857, rfl⟩
abbrev main_v1276 : Ref sig .tc := ⟨.hbm, 1858, rfl⟩
abbrev main_v1277 : Ref sig .tc := ⟨.hbm, 1859, rfl⟩
abbrev main_v1278 : Ref sig .tc := ⟨.hbm, 1860, rfl⟩
abbrev main_v1279 : Ref sig .tc := ⟨.hbm, 1861, rfl⟩
abbrev main_v1280 : Ref sig .tc := ⟨.hbm, 1862, rfl⟩
abbrev main_v1281 : Ref sig .tc := ⟨.hbm, 1863, rfl⟩
abbrev main_c_367 : Ref sig .tc := ⟨.hbm, 1864, rfl⟩
abbrev main_v1282 : Ref sig .tc := ⟨.hbm, 1865, rfl⟩
abbrev main_v1283 : Ref sig .tc := ⟨.hbm, 1866, rfl⟩
abbrev main_c_368 : Ref sig .tc := ⟨.hbm, 1867, rfl⟩
abbrev main_v1284 : Ref sig .tc := ⟨.hbm, 1868, rfl⟩
abbrev main_v1285 : Ref sig .tc := ⟨.hbm, 1869, rfl⟩
abbrev main_v1286 : Ref sig .tc := ⟨.hbm, 1870, rfl⟩
abbrev main_v1287 : Ref sig .tc := ⟨.hbm, 1871, rfl⟩
abbrev main_v1288 : Ref sig .tc := ⟨.hbm, 1872, rfl⟩
abbrev main_cst_369 : Ref sig .tc := ⟨.hbm, 1873, rfl⟩
abbrev main_call68_v0 : Ref sig .tc := ⟨.hbm, 1874, rfl⟩
abbrev main_call68_v1 : Ref sig .tc := ⟨.hbm, 1875, rfl⟩
abbrev main_call68_v2 : Ref sig .tc := ⟨.hbm, 1876, rfl⟩
abbrev main_v1289 : Ref sig .tc := ⟨.hbm, 1877, rfl⟩
abbrev main_c_370 : Ref sig .tc := ⟨.hbm, 1878, rfl⟩
abbrev main_v1290 : Ref sig .tc := ⟨.hbm, 1879, rfl⟩
abbrev main_v1291 : Ref sig .tc := ⟨.hbm, 1880, rfl⟩
abbrev main_c_371 : Ref sig .tc := ⟨.hbm, 1881, rfl⟩
abbrev main_v1292 : Ref sig .tc := ⟨.hbm, 1882, rfl⟩
abbrev main_v1293 : Ref sig .tc := ⟨.hbm, 1883, rfl⟩
abbrev main_v1294 : Ref sig .tc := ⟨.hbm, 1884, rfl⟩
abbrev main_v1295 : Ref sig .tc := ⟨.hbm, 1885, rfl⟩
abbrev main_v1296 : Ref sig .tc := ⟨.hbm, 1886, rfl⟩
abbrev main_c_372 : Ref sig .tc := ⟨.hbm, 1887, rfl⟩
abbrev main_v1297 : Ref sig .tc := ⟨.hbm, 1888, rfl⟩
abbrev main_v1298 : Ref sig .tc := ⟨.hbm, 1889, rfl⟩
abbrev main_v1299 : Ref sig .tc := ⟨.hbm, 1890, rfl⟩
abbrev main_v1300 : Ref sig .tc := ⟨.hbm, 1891, rfl⟩
abbrev main_v1301 : Ref sig .tc := ⟨.hbm, 1892, rfl⟩
abbrev main_c_373 : Ref sig .tc := ⟨.hbm, 1893, rfl⟩
abbrev main_v1302 : Ref sig .tc := ⟨.hbm, 1894, rfl⟩
abbrev main_v1303 : Ref sig .tc := ⟨.hbm, 1895, rfl⟩
abbrev main_c_374 : Ref sig .tc := ⟨.hbm, 1896, rfl⟩
abbrev main_v1304 : Ref sig .tc := ⟨.hbm, 1897, rfl⟩
abbrev main_v1305 : Ref sig .tc := ⟨.hbm, 1898, rfl⟩
abbrev main_v1306 : Ref sig .tc := ⟨.hbm, 1899, rfl⟩
abbrev main_v1307 : Ref sig .tc := ⟨.hbm, 1900, rfl⟩
abbrev main_v1308 : Ref sig .tc := ⟨.hbm, 1901, rfl⟩
abbrev main_cst_375 : Ref sig .tc := ⟨.hbm, 1902, rfl⟩
abbrev main_call69_v0 : Ref sig .tc := ⟨.hbm, 1903, rfl⟩
abbrev main_call69_v1 : Ref sig .tc := ⟨.hbm, 1904, rfl⟩
abbrev main_call69_v2 : Ref sig .tc := ⟨.hbm, 1905, rfl⟩
abbrev main_v1309 : Ref sig .tc := ⟨.hbm, 1906, rfl⟩
abbrev main_c_376 : Ref sig .tc := ⟨.hbm, 1907, rfl⟩
abbrev main_v1310 : Ref sig .tc := ⟨.hbm, 1908, rfl⟩
abbrev main_v1311 : Ref sig .tc := ⟨.hbm, 1909, rfl⟩
abbrev main_c_377 : Ref sig .tc := ⟨.hbm, 1910, rfl⟩
abbrev main_v1312 : Ref sig .tc := ⟨.hbm, 1911, rfl⟩
abbrev main_v1313 : Ref sig .tc := ⟨.hbm, 1912, rfl⟩
abbrev main_v1314 : Ref sig .tc := ⟨.hbm, 1913, rfl⟩
abbrev main_v1315 : Ref sig .tc := ⟨.hbm, 1914, rfl⟩
abbrev main_v1316 : Ref sig .tc := ⟨.hbm, 1915, rfl⟩
abbrev main_v1317 : Ref sig .tc := ⟨.hbm, 1916, rfl⟩
abbrev main_v1318 : Ref sig .tc := ⟨.hbm, 1917, rfl⟩
abbrev main_c_378 : Ref sig .tc := ⟨.hbm, 1918, rfl⟩
abbrev main_v1319 : Ref sig .tc := ⟨.hbm, 1919, rfl⟩
abbrev main_v1320 : Ref sig .tc := ⟨.hbm, 1920, rfl⟩
abbrev main_c_379 : Ref sig .tc := ⟨.hbm, 1921, rfl⟩
abbrev main_v1321 : Ref sig .tc := ⟨.hbm, 1922, rfl⟩
abbrev main_v1322 : Ref sig .tc := ⟨.hbm, 1923, rfl⟩
abbrev main_v1323 : Ref sig .tc := ⟨.hbm, 1924, rfl⟩
abbrev main_v1324 : Ref sig .tc := ⟨.hbm, 1925, rfl⟩
abbrev main_v1325 : Ref sig .tc := ⟨.hbm, 1926, rfl⟩
abbrev main_cst_380 : Ref sig .tc := ⟨.hbm, 1927, rfl⟩
abbrev main_call70_v0 : Ref sig .tc := ⟨.hbm, 1928, rfl⟩
abbrev main_call70_v1 : Ref sig .tc := ⟨.hbm, 1929, rfl⟩
abbrev main_call70_v2 : Ref sig .tc := ⟨.hbm, 1930, rfl⟩
abbrev main_v1326 : Ref sig .tc := ⟨.hbm, 1931, rfl⟩
abbrev main_c_381 : Ref sig .tc := ⟨.hbm, 1932, rfl⟩
abbrev main_v1327 : Ref sig .tc := ⟨.hbm, 1933, rfl⟩
abbrev main_v1328 : Ref sig .tc := ⟨.hbm, 1934, rfl⟩
abbrev main_c_382 : Ref sig .tc := ⟨.hbm, 1935, rfl⟩
abbrev main_v1329 : Ref sig .tc := ⟨.hbm, 1936, rfl⟩
abbrev main_v1330 : Ref sig .tc := ⟨.hbm, 1937, rfl⟩
abbrev main_v1331 : Ref sig .tc := ⟨.hbm, 1938, rfl⟩
abbrev main_v1332 : Ref sig .tc := ⟨.hbm, 1939, rfl⟩
abbrev main_v1333 : Ref sig .tc := ⟨.hbm, 1940, rfl⟩
abbrev main_c_383 : Ref sig .tc := ⟨.hbm, 1941, rfl⟩
abbrev main_v1334 : Ref sig .tc := ⟨.hbm, 1942, rfl⟩
abbrev main_v1335 : Ref sig .tc := ⟨.hbm, 1943, rfl⟩
abbrev main_v1336 : Ref sig .tc := ⟨.hbm, 1944, rfl⟩
abbrev main_v1337 : Ref sig .tc := ⟨.hbm, 1945, rfl⟩
abbrev main_v1338 : Ref sig .tc := ⟨.hbm, 1946, rfl⟩
abbrev main_c_384 : Ref sig .tc := ⟨.hbm, 1947, rfl⟩
abbrev main_v1339 : Ref sig .tc := ⟨.hbm, 1948, rfl⟩
abbrev main_v1340 : Ref sig .tc := ⟨.hbm, 1949, rfl⟩
abbrev main_c_385 : Ref sig .tc := ⟨.hbm, 1950, rfl⟩
abbrev main_v1341 : Ref sig .tc := ⟨.hbm, 1951, rfl⟩
abbrev main_v1342 : Ref sig .tc := ⟨.hbm, 1952, rfl⟩
abbrev main_v1343 : Ref sig .tc := ⟨.hbm, 1953, rfl⟩
abbrev main_v1344 : Ref sig .tc := ⟨.hbm, 1954, rfl⟩
abbrev main_v1345 : Ref sig .tc := ⟨.hbm, 1955, rfl⟩
abbrev main_cst_386 : Ref sig .tc := ⟨.hbm, 1956, rfl⟩
abbrev main_call71_v0 : Ref sig .tc := ⟨.hbm, 1957, rfl⟩
abbrev main_call71_v1 : Ref sig .tc := ⟨.hbm, 1958, rfl⟩
abbrev main_call71_v2 : Ref sig .tc := ⟨.hbm, 1959, rfl⟩
abbrev main_v1346 : Ref sig .tc := ⟨.hbm, 1960, rfl⟩
abbrev main_c_387 : Ref sig .tc := ⟨.hbm, 1961, rfl⟩
abbrev main_v1347 : Ref sig .tc := ⟨.hbm, 1962, rfl⟩
abbrev main_v1348 : Ref sig .tc := ⟨.hbm, 1963, rfl⟩
abbrev main_c_388 : Ref sig .tc := ⟨.hbm, 1964, rfl⟩
abbrev main_v1349 : Ref sig .tc := ⟨.hbm, 1965, rfl⟩
abbrev main_v1350 : Ref sig .tc := ⟨.hbm, 1966, rfl⟩
abbrev main_v1351 : Ref sig .tc := ⟨.hbm, 1967, rfl⟩
abbrev main_v1352 : Ref sig .tc := ⟨.hbm, 1968, rfl⟩
abbrev main_v1353 : Ref sig .tc := ⟨.hbm, 1969, rfl⟩
abbrev main_v1354 : Ref sig .tc := ⟨.hbm, 1970, rfl⟩
abbrev main_v1355 : Ref sig .tc := ⟨.hbm, 1971, rfl⟩
abbrev main_c_389 : Ref sig .tc := ⟨.hbm, 1972, rfl⟩
abbrev main_v1356 : Ref sig .tc := ⟨.hbm, 1973, rfl⟩
abbrev main_v1357 : Ref sig .tc := ⟨.hbm, 1974, rfl⟩
abbrev main_c_390 : Ref sig .tc := ⟨.hbm, 1975, rfl⟩
abbrev main_v1358 : Ref sig .tc := ⟨.hbm, 1976, rfl⟩
abbrev main_v1359 : Ref sig .tc := ⟨.hbm, 1977, rfl⟩
abbrev main_v1360 : Ref sig .tc := ⟨.hbm, 1978, rfl⟩
abbrev main_v1361 : Ref sig .tc := ⟨.hbm, 1979, rfl⟩
abbrev main_v1362 : Ref sig .tc := ⟨.hbm, 1980, rfl⟩
abbrev main_cst_391 : Ref sig .tc := ⟨.hbm, 1981, rfl⟩
abbrev main_call72_v0 : Ref sig .tc := ⟨.hbm, 1982, rfl⟩
abbrev main_call72_v1 : Ref sig .tc := ⟨.hbm, 1983, rfl⟩
abbrev main_call72_v2 : Ref sig .tc := ⟨.hbm, 1984, rfl⟩
abbrev main_v1363 : Ref sig .tc := ⟨.hbm, 1985, rfl⟩
abbrev main_c_392 : Ref sig .tc := ⟨.hbm, 1986, rfl⟩
abbrev main_v1364 : Ref sig .tc := ⟨.hbm, 1987, rfl⟩
abbrev main_v1365 : Ref sig .tc := ⟨.hbm, 1988, rfl⟩
abbrev main_c_393 : Ref sig .tc := ⟨.hbm, 1989, rfl⟩
abbrev main_v1366 : Ref sig .tc := ⟨.hbm, 1990, rfl⟩
abbrev main_v1367 : Ref sig .tc := ⟨.hbm, 1991, rfl⟩
abbrev main_v1368 : Ref sig .tc := ⟨.hbm, 1992, rfl⟩
abbrev main_v1369 : Ref sig .tc := ⟨.hbm, 1993, rfl⟩
abbrev main_v1370 : Ref sig .tc := ⟨.hbm, 1994, rfl⟩
abbrev main_c_394 : Ref sig .tc := ⟨.hbm, 1995, rfl⟩
abbrev main_v1371 : Ref sig .tc := ⟨.hbm, 1996, rfl⟩
abbrev main_v1372 : Ref sig .tc := ⟨.hbm, 1997, rfl⟩
abbrev main_v1373 : Ref sig .tc := ⟨.hbm, 1998, rfl⟩
abbrev main_v1374 : Ref sig .tc := ⟨.hbm, 1999, rfl⟩
abbrev main_v1375 : Ref sig .tc := ⟨.hbm, 2000, rfl⟩
abbrev main_c_395 : Ref sig .tc := ⟨.hbm, 2001, rfl⟩
abbrev main_v1376 : Ref sig .tc := ⟨.hbm, 2002, rfl⟩
abbrev main_v1377 : Ref sig .tc := ⟨.hbm, 2003, rfl⟩
abbrev main_c_396 : Ref sig .tc := ⟨.hbm, 2004, rfl⟩
abbrev main_v1378 : Ref sig .tc := ⟨.hbm, 2005, rfl⟩
abbrev main_v1379 : Ref sig .tc := ⟨.hbm, 2006, rfl⟩
abbrev main_v1380 : Ref sig .tc := ⟨.hbm, 2007, rfl⟩
abbrev main_v1381 : Ref sig .tc := ⟨.hbm, 2008, rfl⟩
abbrev main_v1382 : Ref sig .tc := ⟨.hbm, 2009, rfl⟩
abbrev main_cst_397 : Ref sig .tc := ⟨.hbm, 2010, rfl⟩
abbrev main_call73_v0 : Ref sig .tc := ⟨.hbm, 2011, rfl⟩
abbrev main_call73_v1 : Ref sig .tc := ⟨.hbm, 2012, rfl⟩
abbrev main_call73_v2 : Ref sig .tc := ⟨.hbm, 2013, rfl⟩
abbrev main_v1383 : Ref sig .tc := ⟨.hbm, 2014, rfl⟩
abbrev main_c_398 : Ref sig .tc := ⟨.hbm, 2015, rfl⟩
abbrev main_v1384 : Ref sig .tc := ⟨.hbm, 2016, rfl⟩
abbrev main_v1385 : Ref sig .tc := ⟨.hbm, 2017, rfl⟩
abbrev main_c_399 : Ref sig .tc := ⟨.hbm, 2018, rfl⟩
abbrev main_v1386 : Ref sig .tc := ⟨.hbm, 2019, rfl⟩
abbrev main_v1387 : Ref sig .tc := ⟨.hbm, 2020, rfl⟩
abbrev main_v1388 : Ref sig .tc := ⟨.hbm, 2021, rfl⟩
abbrev main_v1389 : Ref sig .tc := ⟨.hbm, 2022, rfl⟩
abbrev main_v1390 : Ref sig .tc := ⟨.hbm, 2023, rfl⟩
abbrev main_v1391 : Ref sig .tc := ⟨.hbm, 2024, rfl⟩
abbrev main_v1392 : Ref sig .tc := ⟨.hbm, 2025, rfl⟩
abbrev main_c_400 : Ref sig .tc := ⟨.hbm, 2026, rfl⟩
abbrev main_v1393 : Ref sig .tc := ⟨.hbm, 2027, rfl⟩
abbrev main_v1394 : Ref sig .tc := ⟨.hbm, 2028, rfl⟩
abbrev main_c_401 : Ref sig .tc := ⟨.hbm, 2029, rfl⟩
abbrev main_v1395 : Ref sig .tc := ⟨.hbm, 2030, rfl⟩
abbrev main_v1396 : Ref sig .tc := ⟨.hbm, 2031, rfl⟩
abbrev main_v1397 : Ref sig .tc := ⟨.hbm, 2032, rfl⟩
abbrev main_v1398 : Ref sig .tc := ⟨.hbm, 2033, rfl⟩
abbrev main_v1399 : Ref sig .tc := ⟨.hbm, 2034, rfl⟩
abbrev main_cst_402 : Ref sig .tc := ⟨.hbm, 2035, rfl⟩
abbrev main_call74_v0 : Ref sig .tc := ⟨.hbm, 2036, rfl⟩
abbrev main_call74_v1 : Ref sig .tc := ⟨.hbm, 2037, rfl⟩
abbrev main_call74_v2 : Ref sig .tc := ⟨.hbm, 2038, rfl⟩
abbrev main_v1400 : Ref sig .tc := ⟨.hbm, 2039, rfl⟩
abbrev main_c_403 : Ref sig .tc := ⟨.hbm, 2040, rfl⟩
abbrev main_v1401 : Ref sig .tc := ⟨.hbm, 2041, rfl⟩
abbrev main_v1402 : Ref sig .tc := ⟨.hbm, 2042, rfl⟩
abbrev main_c_404 : Ref sig .tc := ⟨.hbm, 2043, rfl⟩
abbrev main_v1403 : Ref sig .tc := ⟨.hbm, 2044, rfl⟩
abbrev main_v1404 : Ref sig .tc := ⟨.hbm, 2045, rfl⟩
abbrev main_v1405 : Ref sig .tc := ⟨.hbm, 2046, rfl⟩
abbrev main_v1406 : Ref sig .tc := ⟨.hbm, 2047, rfl⟩
abbrev main_v1407 : Ref sig .tc := ⟨.hbm, 2048, rfl⟩
abbrev main_c_405 : Ref sig .tc := ⟨.hbm, 2049, rfl⟩
abbrev main_v1408 : Ref sig .tc := ⟨.hbm, 2050, rfl⟩
abbrev main_v1409 : Ref sig .tc := ⟨.hbm, 2051, rfl⟩
abbrev main_v1410 : Ref sig .tc := ⟨.hbm, 2052, rfl⟩
abbrev main_v1411 : Ref sig .tc := ⟨.hbm, 2053, rfl⟩
abbrev main_v1412 : Ref sig .tc := ⟨.hbm, 2054, rfl⟩
abbrev main_c_406 : Ref sig .tc := ⟨.hbm, 2055, rfl⟩
abbrev main_v1413 : Ref sig .tc := ⟨.hbm, 2056, rfl⟩
abbrev main_v1414 : Ref sig .tc := ⟨.hbm, 2057, rfl⟩
abbrev main_c_407 : Ref sig .tc := ⟨.hbm, 2058, rfl⟩
abbrev main_v1415 : Ref sig .tc := ⟨.hbm, 2059, rfl⟩
abbrev main_v1416 : Ref sig .tc := ⟨.hbm, 2060, rfl⟩
abbrev main_v1417 : Ref sig .tc := ⟨.hbm, 2061, rfl⟩
abbrev main_v1418 : Ref sig .tc := ⟨.hbm, 2062, rfl⟩
abbrev main_v1419 : Ref sig .tc := ⟨.hbm, 2063, rfl⟩
abbrev main_cst_408 : Ref sig .tc := ⟨.hbm, 2064, rfl⟩
abbrev main_call75_v0 : Ref sig .tc := ⟨.hbm, 2065, rfl⟩
abbrev main_call75_v1 : Ref sig .tc := ⟨.hbm, 2066, rfl⟩
abbrev main_call75_v2 : Ref sig .tc := ⟨.hbm, 2067, rfl⟩
abbrev main_v1420 : Ref sig .tc := ⟨.hbm, 2068, rfl⟩
abbrev main_c_409 : Ref sig .tc := ⟨.hbm, 2069, rfl⟩
abbrev main_v1421 : Ref sig .tc := ⟨.hbm, 2070, rfl⟩
abbrev main_v1422 : Ref sig .tc := ⟨.hbm, 2071, rfl⟩
abbrev main_c_410 : Ref sig .tc := ⟨.hbm, 2072, rfl⟩
abbrev main_v1423 : Ref sig .tc := ⟨.hbm, 2073, rfl⟩
abbrev main_v1424 : Ref sig .tc := ⟨.hbm, 2074, rfl⟩
abbrev main_v1425 : Ref sig .tc := ⟨.hbm, 2075, rfl⟩
abbrev main_v1426 : Ref sig .tc := ⟨.hbm, 2076, rfl⟩
abbrev main_v1427 : Ref sig .tc := ⟨.hbm, 2077, rfl⟩
abbrev main_v1428 : Ref sig .tc := ⟨.hbm, 2078, rfl⟩
abbrev main_v1429 : Ref sig .tc := ⟨.hbm, 2079, rfl⟩
abbrev main_c_411 : Ref sig .tc := ⟨.hbm, 2080, rfl⟩
abbrev main_v1430 : Ref sig .tc := ⟨.hbm, 2081, rfl⟩
abbrev main_v1431 : Ref sig .tc := ⟨.hbm, 2082, rfl⟩
abbrev main_c_412 : Ref sig .tc := ⟨.hbm, 2083, rfl⟩
abbrev main_v1432 : Ref sig .tc := ⟨.hbm, 2084, rfl⟩
abbrev main_v1433 : Ref sig .tc := ⟨.hbm, 2085, rfl⟩
abbrev main_v1434 : Ref sig .tc := ⟨.hbm, 2086, rfl⟩
abbrev main_v1435 : Ref sig .tc := ⟨.hbm, 2087, rfl⟩
abbrev main_v1436 : Ref sig .tc := ⟨.hbm, 2088, rfl⟩
abbrev main_cst_413 : Ref sig .tc := ⟨.hbm, 2089, rfl⟩
abbrev main_call76_v0 : Ref sig .tc := ⟨.hbm, 2090, rfl⟩
abbrev main_call76_v1 : Ref sig .tc := ⟨.hbm, 2091, rfl⟩
abbrev main_call76_v2 : Ref sig .tc := ⟨.hbm, 2092, rfl⟩
abbrev main_v1437 : Ref sig .tc := ⟨.hbm, 2093, rfl⟩
abbrev main_c_414 : Ref sig .tc := ⟨.hbm, 2094, rfl⟩
abbrev main_v1438 : Ref sig .tc := ⟨.hbm, 2095, rfl⟩
abbrev main_v1439 : Ref sig .tc := ⟨.hbm, 2096, rfl⟩
abbrev main_c_415 : Ref sig .tc := ⟨.hbm, 2097, rfl⟩
abbrev main_v1440 : Ref sig .tc := ⟨.hbm, 2098, rfl⟩
abbrev main_v1441 : Ref sig .tc := ⟨.hbm, 2099, rfl⟩
abbrev main_v1442 : Ref sig .tc := ⟨.hbm, 2100, rfl⟩
abbrev main_v1443 : Ref sig .tc := ⟨.hbm, 2101, rfl⟩
abbrev main_v1444 : Ref sig .tc := ⟨.hbm, 2102, rfl⟩
abbrev main_c_416 : Ref sig .tc := ⟨.hbm, 2103, rfl⟩
abbrev main_v1445 : Ref sig .tc := ⟨.hbm, 2104, rfl⟩
abbrev main_v1446 : Ref sig .tc := ⟨.hbm, 2105, rfl⟩
abbrev main_v1447 : Ref sig .tc := ⟨.hbm, 2106, rfl⟩
abbrev main_v1448 : Ref sig .tc := ⟨.hbm, 2107, rfl⟩
abbrev main_v1449 : Ref sig .tc := ⟨.hbm, 2108, rfl⟩
abbrev main_c_417 : Ref sig .tc := ⟨.hbm, 2109, rfl⟩
abbrev main_v1450 : Ref sig .tc := ⟨.hbm, 2110, rfl⟩
abbrev main_v1451 : Ref sig .tc := ⟨.hbm, 2111, rfl⟩
abbrev main_c_418 : Ref sig .tc := ⟨.hbm, 2112, rfl⟩
abbrev main_v1452 : Ref sig .tc := ⟨.hbm, 2113, rfl⟩
abbrev main_v1453 : Ref sig .tc := ⟨.hbm, 2114, rfl⟩
abbrev main_v1454 : Ref sig .tc := ⟨.hbm, 2115, rfl⟩
abbrev main_v1455 : Ref sig .tc := ⟨.hbm, 2116, rfl⟩
abbrev main_v1456 : Ref sig .tc := ⟨.hbm, 2117, rfl⟩
abbrev main_cst_419 : Ref sig .tc := ⟨.hbm, 2118, rfl⟩
abbrev main_call77_v0 : Ref sig .tc := ⟨.hbm, 2119, rfl⟩
abbrev main_call77_v1 : Ref sig .tc := ⟨.hbm, 2120, rfl⟩
abbrev main_call77_v2 : Ref sig .tc := ⟨.hbm, 2121, rfl⟩
abbrev main_v1457 : Ref sig .tc := ⟨.hbm, 2122, rfl⟩
abbrev main_c_420 : Ref sig .tc := ⟨.hbm, 2123, rfl⟩
abbrev main_v1458 : Ref sig .tc := ⟨.hbm, 2124, rfl⟩
abbrev main_v1459 : Ref sig .tc := ⟨.hbm, 2125, rfl⟩
abbrev main_c_421 : Ref sig .tc := ⟨.hbm, 2126, rfl⟩
abbrev main_v1460 : Ref sig .tc := ⟨.hbm, 2127, rfl⟩
abbrev main_v1461 : Ref sig .tc := ⟨.hbm, 2128, rfl⟩
abbrev main_v1462 : Ref sig .tc := ⟨.hbm, 2129, rfl⟩
abbrev main_v1463 : Ref sig .tc := ⟨.hbm, 2130, rfl⟩
abbrev main_v1464 : Ref sig .tc := ⟨.hbm, 2131, rfl⟩
abbrev main_v1465 : Ref sig .tc := ⟨.hbm, 2132, rfl⟩
abbrev main_v1466 : Ref sig .tc := ⟨.hbm, 2133, rfl⟩
abbrev main_c_422 : Ref sig .tc := ⟨.hbm, 2134, rfl⟩
abbrev main_v1467 : Ref sig .tc := ⟨.hbm, 2135, rfl⟩
abbrev main_v1468 : Ref sig .tc := ⟨.hbm, 2136, rfl⟩
abbrev main_c_423 : Ref sig .tc := ⟨.hbm, 2137, rfl⟩
abbrev main_v1469 : Ref sig .tc := ⟨.hbm, 2138, rfl⟩
abbrev main_v1470 : Ref sig .tc := ⟨.hbm, 2139, rfl⟩
abbrev main_v1471 : Ref sig .tc := ⟨.hbm, 2140, rfl⟩
abbrev main_v1472 : Ref sig .tc := ⟨.hbm, 2141, rfl⟩
abbrev main_v1473 : Ref sig .tc := ⟨.hbm, 2142, rfl⟩
abbrev main_cst_424 : Ref sig .tc := ⟨.hbm, 2143, rfl⟩
abbrev main_call78_v0 : Ref sig .tc := ⟨.hbm, 2144, rfl⟩
abbrev main_call78_v1 : Ref sig .tc := ⟨.hbm, 2145, rfl⟩
abbrev main_call78_v2 : Ref sig .tc := ⟨.hbm, 2146, rfl⟩
abbrev main_v1474 : Ref sig .tc := ⟨.hbm, 2147, rfl⟩
abbrev main_c_425 : Ref sig .tc := ⟨.hbm, 2148, rfl⟩
abbrev main_v1475 : Ref sig .tc := ⟨.hbm, 2149, rfl⟩
abbrev main_v1476 : Ref sig .tc := ⟨.hbm, 2150, rfl⟩
abbrev main_c_426 : Ref sig .tc := ⟨.hbm, 2151, rfl⟩
abbrev main_v1477 : Ref sig .tc := ⟨.hbm, 2152, rfl⟩
abbrev main_v1478 : Ref sig .tc := ⟨.hbm, 2153, rfl⟩
abbrev main_v1479 : Ref sig .tc := ⟨.hbm, 2154, rfl⟩
abbrev main_v1480 : Ref sig .tc := ⟨.hbm, 2155, rfl⟩
abbrev main_v1481 : Ref sig .tc := ⟨.hbm, 2156, rfl⟩
abbrev main_c_427 : Ref sig .tc := ⟨.hbm, 2157, rfl⟩
abbrev main_v1482 : Ref sig .tc := ⟨.hbm, 2158, rfl⟩
abbrev main_v1483 : Ref sig .tc := ⟨.hbm, 2159, rfl⟩
abbrev main_v1484 : Ref sig .tc := ⟨.hbm, 2160, rfl⟩
abbrev main_v1485 : Ref sig .tc := ⟨.hbm, 2161, rfl⟩
abbrev main_v1486 : Ref sig .tc := ⟨.hbm, 2162, rfl⟩
abbrev main_c_428 : Ref sig .tc := ⟨.hbm, 2163, rfl⟩
abbrev main_v1487 : Ref sig .tc := ⟨.hbm, 2164, rfl⟩
abbrev main_v1488 : Ref sig .tc := ⟨.hbm, 2165, rfl⟩
abbrev main_c_429 : Ref sig .tc := ⟨.hbm, 2166, rfl⟩
abbrev main_v1489 : Ref sig .tc := ⟨.hbm, 2167, rfl⟩
abbrev main_v1490 : Ref sig .tc := ⟨.hbm, 2168, rfl⟩
abbrev main_v1491 : Ref sig .tc := ⟨.hbm, 2169, rfl⟩
abbrev main_v1492 : Ref sig .tc := ⟨.hbm, 2170, rfl⟩
abbrev main_v1493 : Ref sig .tc := ⟨.hbm, 2171, rfl⟩
abbrev main_cst_430 : Ref sig .tc := ⟨.hbm, 2172, rfl⟩
abbrev main_call79_v0 : Ref sig .tc := ⟨.hbm, 2173, rfl⟩
abbrev main_call79_v1 : Ref sig .tc := ⟨.hbm, 2174, rfl⟩
abbrev main_call79_v2 : Ref sig .tc := ⟨.hbm, 2175, rfl⟩
abbrev main_v1494 : Ref sig .tc := ⟨.hbm, 2176, rfl⟩
abbrev main_c_431 : Ref sig .tc := ⟨.hbm, 2177, rfl⟩
abbrev main_v1495 : Ref sig .tc := ⟨.hbm, 2178, rfl⟩
abbrev main_v1496 : Ref sig .tc := ⟨.hbm, 2179, rfl⟩
abbrev main_c_432 : Ref sig .tc := ⟨.hbm, 2180, rfl⟩
abbrev main_v1497 : Ref sig .tc := ⟨.hbm, 2181, rfl⟩
abbrev main_v1498 : Ref sig .tc := ⟨.hbm, 2182, rfl⟩
abbrev main_v1499 : Ref sig .tc := ⟨.hbm, 2183, rfl⟩
abbrev main_v1500 : Ref sig .tc := ⟨.hbm, 2184, rfl⟩
abbrev main_v1501 : Ref sig .tc := ⟨.hbm, 2185, rfl⟩
abbrev main_v1502 : Ref sig .tc := ⟨.hbm, 2186, rfl⟩
abbrev main_v1503 : Ref sig .tc := ⟨.hbm, 2187, rfl⟩
abbrev main_c_433 : Ref sig .tc := ⟨.hbm, 2188, rfl⟩
abbrev main_v1504 : Ref sig .tc := ⟨.hbm, 2189, rfl⟩
abbrev main_v1505 : Ref sig .tc := ⟨.hbm, 2190, rfl⟩
abbrev main_c_434 : Ref sig .tc := ⟨.hbm, 2191, rfl⟩
abbrev main_v1506 : Ref sig .tc := ⟨.hbm, 2192, rfl⟩
abbrev main_v1507 : Ref sig .tc := ⟨.hbm, 2193, rfl⟩
abbrev main_v1508 : Ref sig .tc := ⟨.hbm, 2194, rfl⟩
abbrev main_v1509 : Ref sig .tc := ⟨.hbm, 2195, rfl⟩
abbrev main_v1510 : Ref sig .tc := ⟨.hbm, 2196, rfl⟩
abbrev main_cst_435 : Ref sig .tc := ⟨.hbm, 2197, rfl⟩
abbrev main_call80_v0 : Ref sig .tc := ⟨.hbm, 2198, rfl⟩
abbrev main_call80_v1 : Ref sig .tc := ⟨.hbm, 2199, rfl⟩
abbrev main_call80_v2 : Ref sig .tc := ⟨.hbm, 2200, rfl⟩
abbrev main_v1511 : Ref sig .tc := ⟨.hbm, 2201, rfl⟩
abbrev main_c_436 : Ref sig .tc := ⟨.hbm, 2202, rfl⟩
abbrev main_v1512 : Ref sig .tc := ⟨.hbm, 2203, rfl⟩
abbrev main_v1513 : Ref sig .tc := ⟨.hbm, 2204, rfl⟩
abbrev main_c_437 : Ref sig .tc := ⟨.hbm, 2205, rfl⟩
abbrev main_v1514 : Ref sig .tc := ⟨.hbm, 2206, rfl⟩
abbrev main_v1515 : Ref sig .tc := ⟨.hbm, 2207, rfl⟩
abbrev main_v1516 : Ref sig .tc := ⟨.hbm, 2208, rfl⟩
abbrev main_v1517 : Ref sig .tc := ⟨.hbm, 2209, rfl⟩
abbrev main_v1518 : Ref sig .tc := ⟨.hbm, 2210, rfl⟩
abbrev main_call81_cst : Ref sig .tc := ⟨.hbm, 2211, rfl⟩
abbrev main_call81_v0 : Ref sig .tc := ⟨.hbm, 2212, rfl⟩
abbrev main_v1519 : Ref sig .tc := ⟨.hbm, 2213, rfl⟩
abbrev main_v1520 : Ref sig .tc := ⟨.hbm, 2214, rfl⟩
abbrev main_v1521 : Ref sig .tc := ⟨.hbm, 2215, rfl⟩
abbrev main_v1522 : Ref sig .tc := ⟨.hbm, 2216, rfl⟩
abbrev main_v1523 : Ref sig .tc := ⟨.hbm, 2217, rfl⟩
abbrev main_v1524 : Ref sig .tc := ⟨.hbm, 2218, rfl⟩
abbrev main_v1525 : Ref sig .tc := ⟨.hbm, 2219, rfl⟩
abbrev main_v1526 : Ref sig .tc := ⟨.hbm, 2220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨2, ![4, 41], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 41], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x2048x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1x512x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 2 → Memref sig .tc .vmem S1x2048x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  slices_S2x512x512_S1x512x512_0_0_0 : S2x512x512.Slices ![0, 0, 0] S1x512x512
  shapeCasts_S1x512x512_S512x512 : S1x512x512.ShapeCasts S512x512
  slices_S2x512_S1x512_0_0 : S2x512.Slices ![0, 0] S1x512
  shapeCasts_S1x512_S512 : S1x512.ShapeCasts S512
  slices_S2x40x512x512_S1x40x512x512_0_0_0_0 : S2x40x512x512.Slices ![0, 0, 0, 0] S1x40x512x512
  shapeCasts_S1x40x512x512_S40x512x512 : S1x40x512x512.ShapeCasts S40x512x512
  slices_S2x40x512_S1x40x512_0_0_0 : S2x40x512.Slices ![0, 0, 0] S1x40x512
  shapeCasts_S1x40x512_S40x512 : S1x40x512.ShapeCasts S40x512
  bcast_S512x512_S1x512x512_1_2 : S512x512.BroadcastsInDim S1x512x512 (![1, 2] : Fin 2 → Fin S1x512x512.rank)
  concatenates_S1x512x512_S40x512x512_S41x512x512_d0 : Shape.Concatenates [S1x512x512, S40x512x512] S41x512x512 0
  transposes_S41x512x512_S41x512x512_0_2_1 : S41x512x512.Transposes [0, 2, 1] S41x512x512
  bcast_S512_S1x512_1 : S512.BroadcastsInDim S1x512 (![1] : Fin 1 → Fin S1x512.rank)
  concatenates_S1x512_S40x512_S41x512_d0 : Shape.Concatenates [S1x512, S40x512] S41x512 0
  bcast_S41x512_S41x1x512_0_2 : S41x512.BroadcastsInDim S41x1x512 (![0, 2] : Fin 2 → Fin S41x1x512.rank)
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512x512_S1x512x512_0_0_0 : ∀ a, (![0, 0, 0] : Fin 3 → Nat) a + S1x512x512.size a ≤ S1x512x512.size a
  h_S1x512x512 : 0 < S1x512x512.numel
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S2048x512 : S1x512.Broadcasts S2048x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  slices_S41x8192x512_S1x8192x512_0_0_0 : S41x8192x512.Slices ![0, 0, 0] S1x8192x512
  shapeCasts_S1x8192x512_S8192x512 : S1x8192x512.ShapeCasts S8192x512
  bcast_S_S8192 : S_.BroadcastsInDim S8192 (![] : Fin 0 → Fin S8192.rank)
  bcast_S8192_S8192x1_0 : S8192.BroadcastsInDim S8192x1 (![0] : Fin 1 → Fin S8192x1.rank)
  slices_S41x8192x512_S1x8192x512_1_0_0 : S41x8192x512.Slices ![1, 0, 0] S1x8192x512
  bcast_S8192x1_S8192x512_0_1 : S8192x1.BroadcastsInDim S8192x512 (![0, 1] : Fin 2 → Fin S8192x512.rank)
  bcast_S_S8192x512 : S_.BroadcastsInDim S8192x512 (![] : Fin 0 → Fin S8192x512.rank)
  slices_S41x8192x512_S1x8192x512_21_0_0 : S41x8192x512.Slices ![21, 0, 0] S1x8192x512
  slices_S41x8192x512_S1x8192x512_2_0_0 : S41x8192x512.Slices ![2, 0, 0] S1x8192x512
  slices_S41x8192x512_S1x8192x512_22_0_0 : S41x8192x512.Slices ![22, 0, 0] S1x8192x512
  slices_S41x8192x512_S1x8192x512_3_0_0 : S41x8192x512.Slices ![3, 0, 0] S1x8192x512
  slices_S41x8192x512_S1x8192x512_23_0_0 : S41x8192x512.Slices ![23, 0, 0] S1x8192x512
  slices_S41x8192x512_S1x8192x512_4_0_0 : S41x8192x512.Slices ![4, 0, 0] S1x8192x512
  slices_S41x8192x512_S1x8192x512_24_0_0 : S41x8192x512.Slices ![24, 0, 0] S1x8192x512
  slices_S41x8192x512_S1x8192x512_5_0_0 : S41x8192x512.Slices ![5, 0, 0] S1x8192x512
  slices_S41x8192x512_S1x8192x512_25_0_0 : S41x8192x512.Slices ![25, 0, 0] S1x8192x512
  slices_S41x8192x512_S1x8192x512_6_0_0 : S41x8192x512.Slices ![6, 0, 0] S1x8192x512
  slices_S41x8192x512_S1x8192x512_26_0_0 : S41x8192x512.Slices ![26, 0, 0] S1x8192x512
  slices_S41x8192x512_S1x8192x512_7_0_0 : S41x8192x512.Slices ![7, 0, 0] S1x8192x512
  slices_S41x8192x512_S1x8192x512_27_0_0 : S41x8192x512.Slices ![27, 0, 0] S1x8192x512
  slices_S41x8192x512_S1x8192x512_8_0_0 : S41x8192x512.Slices ![8, 0, 0] S1x8192x512
  slices_S41x8192x512_S1x8192x512_28_0_0 : S41x8192x512.Slices ![28, 0, 0] S1x8192x512
  slices_S41x8192x512_S1x8192x512_9_0_0 : S41x8192x512.Slices ![9, 0, 0] S1x8192x512
  slices_S41x8192x512_S1x8192x512_29_0_0 : S41x8192x512.Slices ![29, 0, 0] S1x8192x512
  slices_S41x8192x512_S1x8192x512_10_0_0 : S41x8192x512.Slices ![10, 0, 0] S1x8192x512
  slices_S41x8192x512_S1x8192x512_30_0_0 : S41x8192x512.Slices ![30, 0, 0] S1x8192x512
  slices_S41x8192x512_S1x8192x512_11_0_0 : S41x8192x512.Slices ![11, 0, 0] S1x8192x512
  slices_S41x8192x512_S1x8192x512_31_0_0 : S41x8192x512.Slices ![31, 0, 0] S1x8192x512
  slices_S41x8192x512_S1x8192x512_12_0_0 : S41x8192x512.Slices ![12, 0, 0] S1x8192x512
  slices_S41x8192x512_S1x8192x512_32_0_0 : S41x8192x512.Slices ![32, 0, 0] S1x8192x512
  slices_S41x8192x512_S1x8192x512_13_0_0 : S41x8192x512.Slices ![13, 0, 0] S1x8192x512
  slices_S41x8192x512_S1x8192x512_33_0_0 : S41x8192x512.Slices ![33, 0, 0] S1x8192x512
  slices_S41x8192x512_S1x8192x512_14_0_0 : S41x8192x512.Slices ![14, 0, 0] S1x8192x512
  slices_S41x8192x512_S1x8192x512_34_0_0 : S41x8192x512.Slices ![34, 0, 0] S1x8192x512
  slices_S41x8192x512_S1x8192x512_15_0_0 : S41x8192x512.Slices ![15, 0, 0] S1x8192x512
  slices_S41x8192x512_S1x8192x512_35_0_0 : S41x8192x512.Slices ![35, 0, 0] S1x8192x512
  slices_S41x8192x512_S1x8192x512_16_0_0 : S41x8192x512.Slices ![16, 0, 0] S1x8192x512
  slices_S41x8192x512_S1x8192x512_36_0_0 : S41x8192x512.Slices ![36, 0, 0] S1x8192x512
  slices_S41x8192x512_S1x8192x512_17_0_0 : S41x8192x512.Slices ![17, 0, 0] S1x8192x512
  slices_S41x8192x512_S1x8192x512_37_0_0 : S41x8192x512.Slices ![37, 0, 0] S1x8192x512
  slices_S41x8192x512_S1x8192x512_18_0_0 : S41x8192x512.Slices ![18, 0, 0] S1x8192x512
  slices_S41x8192x512_S1x8192x512_38_0_0 : S41x8192x512.Slices ![38, 0, 0] S1x8192x512
  slices_S41x8192x512_S1x8192x512_19_0_0 : S41x8192x512.Slices ![19, 0, 0] S1x8192x512
  slices_S41x8192x512_S1x8192x512_39_0_0 : S41x8192x512.Slices ![39, 0, 0] S1x8192x512
  slices_S41x8192x512_S1x8192x512_20_0_0 : S41x8192x512.Slices ![20, 0, 0] S1x8192x512
  slices_S41x8192x512_S1x8192x512_40_0_0 : S41x8192x512.Slices ![40, 0, 0] S1x8192x512
  slices_S2x512x512_S1x512x512_1_0_0 : S2x512x512.Slices ![1, 0, 0] S1x512x512
  slices_S2x512_S1x512_1_0 : S2x512.Slices ![1, 0] S1x512
  slices_S2x40x512x512_S1x40x512x512_1_0_0_0 : S2x40x512x512.Slices ![1, 0, 0, 0] S1x40x512x512
  slices_S2x40x512_S1x40x512_1_0_0 : S2x40x512.Slices ![1, 0, 0] S1x40x512
  transposes_S256x512_S512x256_1_0 : S256x512.Transposes [1, 0] S512x256
  bcast_S512x256_S1x512x256_1_2 : S512x256.BroadcastsInDim S1x512x256 (![1, 2] : Fin 2 → Fin S1x512x256.rank)
  bcast_S256_S1x1x256_2 : S256.BroadcastsInDim S1x1x256 (![2] : Fin 1 → Fin S1x1x256.rank)
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S2048x256 : S1x256.Broadcasts S2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  shapeCasts_S1x8192x256_S8192x256 : S1x8192x256.ShapeCasts S8192x256
  dot_S2048x512_S512x512_S2048x512_1_0_0_1_n_n_wf : DotDims.WF S2048x512 S512x512 S2048x512 [1] [0] [0] [1] [] []
  gather_S8192x512_S8192x1_S8192x512_1_0_n_n_0_1_1512_wf : GatherDims.WF S8192x512 S8192x1 S8192x512 [1] [0] [] [0] [] 1 ![1, 512]
  scatter_S8192x512_S8192x1_S8192x512_1_0_0_1_wf : ScatterDims.WF S8192x512 S8192x1 S8192x512 [1] [0] [0] 1
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S41x512x512.size a
  hwx0_1 : ∀ i : grid0.Coords, EltTy.bits .bf16 = 32 ∨ (Rect.block (s := S41x512x512) S1x512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S41x1x512.size a
  hwx0_2 : ∀ i : grid0.Coords, EltTy.bits .f32 = 32 ∨ (Rect.block (s := S41x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S41x8192x512.size a
  hwx0_3 : ∀ i : grid0.Coords, EltTy.bits .f32 = 32 ∨ (Rect.block (s := S41x8192x512) S1x2048x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x512.size a
  hwx1_0 : ∀ i : grid1.Coords, EltTy.bits .bf16 = 32 ∨ (Rect.block (s := S8192x512) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S41x512x512.size a
  hwx1_1 : ∀ i : grid1.Coords, EltTy.bits .bf16 = 32 ∨ (Rect.block (s := S41x512x512) S1x512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512.size a ≤ S41x1x512.size a
  hwx1_2 : ∀ i : grid1.Coords, EltTy.bits .f32 = 32 ∨ (Rect.block (s := S41x1x512) S1x1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x512.size a ≤ S41x8192x512.size a
  hwx1_3 : ∀ i : grid1.Coords, EltTy.bits .f32 = 32 ∨ (Rect.block (s := S41x8192x512) S1x2048x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x512.size a
  hwx2_0 : ∀ i : grid2.Coords, EltTy.bits .bf16 = 32 ∨ (Rect.block (s := S8192x512) S2048x512.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1x512x256.size a ≤ S1x512x256.size a
  hwx2_1 : ∀ i : grid2.Coords, EltTy.bits .bf16 = 32 ∨ (Rect.block (s := S1x512x256) S1x512x256.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1x256.size a ≤ S1x1x256.size a
  hwx2_2 : ∀ i : grid2.Coords, EltTy.bits .f32 = 32 ∨ (Rect.block (s := S1x1x256) S1x1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x2048x256.size a ≤ S1x8192x256.size a
  hwx2_3 : ∀ i : grid2.Coords, EltTy.bits .f32 = 32 ∨ (Rect.block (s := S1x8192x256) S1x2048x256.size (cc2_transform_3 i) (hinb2_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def gather_S8192x512_S8192x1_S8192x512_1_0_n_n_0_1_1512 : GatherDims S8192x512 S8192x1 S8192x512 where
  offsetDims := [1]
  collapsedSliceDims := [0]
  operandBatchingDims := []
  startIndicesBatchingDims := []
  startIndexMap := [0]
  indexVectorDim := 1
  sliceSizes := ![1, 512]
  wf := gather_S8192x512_S8192x1_S8192x512_1_0_n_n_0_1_1512_wf
def scatter_S8192x512_S8192x1_S8192x512_1_0_0_1 : ScatterDims S8192x512 S8192x1 S8192x512 where
  updateWindowDims := [1]
  insertedWindowDims := [0]
  scatterDimsToOperandDims := [0]
  indexVectorDim := 1
  wf := scatter_S8192x512_S8192x1_S8192x512_1_0_0_1_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_v14) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v774) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v775) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v773) S1x1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v776) S1x2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1520) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1523) S1x512x256.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v1524) S1x1x256.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v1525) S1x2048x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x512 : Shape := ⟨2, ![8192, 512]⟩
abbrev S8192 : Shape := ⟨1, ![8192]⟩
abbrev S2x512x512 : Shape := ⟨3, ![2, 512, 512]⟩
abbrev S2x512 : Shape := ⟨2, ![2, 512]⟩
abbrev S2x40x512x512 : Shape := ⟨4, ![2, 40, 512, 512]⟩
abbrev S2x40x512 : Shape := ⟨3, ![2, 40, 512]⟩
abbrev S256x512 : Shape := ⟨2, ![256, 512]⟩
abbrev S256 : Shape := ⟨1, ![256]⟩
abbrev S1x512x512 : Shape := ⟨3, ![1, 512, 512]⟩
abbrev S512x512 : Shape := ⟨2, ![512, 512]⟩
abbrev S1x512 : Shape := ⟨2, ![1, 512]⟩
abbrev S512 : Shape := ⟨1, ![512]⟩
abbrev S1x40x512x512 : Shape := ⟨4, ![1, 40, 512, 512]⟩
abbrev S40x512x512 : Shape := ⟨3, ![40, 512, 512]⟩
abbrev S1x40x512 : Shape := ⟨3, ![1, 40, 512]⟩
abbrev S40x512 : Shape := ⟨2, ![40, 512]⟩
abbrev S_ : Shape := ⟨0, ![]⟩
abbrev S8192x1 : Shape := ⟨2, ![8192, 1]⟩
abbrev S512x256 : Shape := ⟨2, ![512, 256]⟩
abbrev S8192x256 : Shape := ⟨2, ![8192, 256]⟩
abbrev S1x256 : Shape := ⟨2, ![1, 256]⟩

abbrev nBuf : Space → Nat
  | .hbm => 2767
  | .vmem => 0
  | .smem => 0
  | _ => 0

abbrev hbmTy0_0 (i : Nat) : BufTy := match i % 128 with
  | 0 => ⟨S8192x512, .f32⟩
  | 1 => ⟨S8192, .i32⟩
  | 2 => ⟨S8192, .i32⟩
  | 3 => ⟨S8192, .i32⟩
  | 4 => ⟨S2x512x512, .f32⟩
  | 5 => ⟨S2x512, .f32⟩
  | 6 => ⟨S2x40x512x512, .f32⟩
  | 7 => ⟨S2x40x512, .f32⟩
  | 8 => ⟨S256x512, .f32⟩
  | 9 => ⟨S256, .f32⟩
  | 10 => ⟨S1x512x512, .f32⟩
  | 11 => ⟨S512x512, .f32⟩
  | 12 => ⟨S1x512, .f32⟩
  | 13 => ⟨S512, .f32⟩
  | 14 => ⟨S1x40x512x512, .f32⟩
  | 15 => ⟨S40x512x512, .f32⟩
  | 16 => ⟨S1x40x512, .f32⟩
  | 17 => ⟨S40x512, .f32⟩
  | 18 => ⟨S512x512, .f32⟩
  | 19 => ⟨S8192x512, .f32⟩
  | 20 => ⟨S1x512, .f32⟩
  | 21 => ⟨S8192x512, .f32⟩
  | 22 => ⟨S8192x512, .f32⟩
  | 23 => ⟨S_, .i32⟩
  | 24 => ⟨S8192, .i32⟩
  | 25 => ⟨S8192, .i1⟩
  | 26 => ⟨S8192x1, .i1⟩
  | 27 => ⟨S1x512x512, .f32⟩
  | 28 => ⟨S512x512, .f32⟩
  | 29 => ⟨S512x512, .f32⟩
  | 30 => ⟨S8192x512, .f32⟩
  | 31 => ⟨S1x512, .f32⟩
  | 32 => ⟨S512, .f32⟩
  | 33 => ⟨S1x512, .f32⟩
  | 34 => ⟨S8192x512, .f32⟩
  | 35 => ⟨S8192x512, .f32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S8192x1, .i32⟩
  | 44 => ⟨S8192x512, .f32⟩
  | 45 => ⟨S_, .f32⟩
  | 46 => ⟨S_, .f32⟩
  | 47 => ⟨S8192x512, .i1⟩
  | 48 => ⟨S8192x512, .f32⟩
  | 49 => ⟨S8192x512, .f32⟩
  | 50 => ⟨S_, .i32⟩
  | 51 => ⟨S8192, .i32⟩
  | 52 => ⟨S8192, .i1⟩
  | 53 => ⟨S_, .i32⟩
  | 54 => ⟨S8192, .i32⟩
  | 55 => ⟨S8192, .i32⟩
  | 56 => ⟨S8192, .i32⟩
  | 57 => ⟨S8192x1, .i32⟩
  | 58 => ⟨S8192x512, .f32⟩
  | 59 => ⟨S1x512x512, .f32⟩
  | 60 => ⟨S512x512, .f32⟩
  | 61 => ⟨S512x512, .f32⟩
  | 62 => ⟨S8192x512, .f32⟩
  | 63 => ⟨S1x512, .f32⟩
  | 64 => ⟨S512, .f32⟩
  | 65 => ⟨S1x512, .f32⟩
  | 66 => ⟨S8192x512, .f32⟩
  | 67 => ⟨S8192x512, .f32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192x512, .f32⟩
  | 77 => ⟨S_, .f32⟩
  | 78 => ⟨S_, .f32⟩
  | 79 => ⟨S8192x512, .i1⟩
  | 80 => ⟨S8192x512, .f32⟩
  | 81 => ⟨S8192x512, .f32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S8192x512, .f32⟩
  | 91 => ⟨S_, .i32⟩
  | 92 => ⟨S8192, .i32⟩
  | 93 => ⟨S8192, .i1⟩
  | 94 => ⟨S8192x1, .i1⟩
  | 95 => ⟨S1x512x512, .f32⟩
  | 96 => ⟨S512x512, .f32⟩
  | 97 => ⟨S512x512, .f32⟩
  | 98 => ⟨S8192x512, .f32⟩
  | 99 => ⟨S1x512, .f32⟩
  | 100 => ⟨S512, .f32⟩
  | 101 => ⟨S1x512, .f32⟩
  | 102 => ⟨S8192x512, .f32⟩
  | 103 => ⟨S8192x512, .f32⟩
  | 104 => ⟨S_, .i32⟩
  | 105 => ⟨S8192, .i32⟩
  | 106 => ⟨S8192, .i1⟩
  | 107 => ⟨S_, .i32⟩
  | 108 => ⟨S8192, .i32⟩
  | 109 => ⟨S8192, .i32⟩
  | 110 => ⟨S8192, .i32⟩
  | 111 => ⟨S8192x1, .i32⟩
  | 112 => ⟨S8192x512, .f32⟩
  | 113 => ⟨S_, .f32⟩
  | 114 => ⟨S_, .f32⟩
  | 115 => ⟨S8192x512, .i1⟩
  | 116 => ⟨S8192x512, .f32⟩
  | 117 => ⟨S8192x512, .f32⟩
  | 118 => ⟨S_, .i32⟩
  | 119 => ⟨S8192, .i32⟩
  | 120 => ⟨S8192, .i1⟩
  | 121 => ⟨S_, .i32⟩
  | 122 => ⟨S8192, .i32⟩
  | 123 => ⟨S8192, .i32⟩
  | 124 => ⟨S8192, .i32⟩
  | 125 => ⟨S8192x1, .i32⟩
  | 126 => ⟨S8192x512, .f32⟩
  | 127 => ⟨S1x512x512, .f32⟩
  | _ => ⟨S8192x512, .f32⟩

abbrev hbmTy0_1 (i : Nat) : BufTy := match i % 128 with
  | 0 => ⟨S512x512, .f32⟩
  | 1 => ⟨S512x512, .f32⟩
  | 2 => ⟨S8192x512, .f32⟩
  | 3 => ⟨S1x512, .f32⟩
  | 4 => ⟨S512, .f32⟩
  | 5 => ⟨S1x512, .f32⟩
  | 6 => ⟨S8192x512, .f32⟩
  | 7 => ⟨S8192x512, .f32⟩
  | 8 => ⟨S_, .i32⟩
  | 9 => ⟨S8192, .i32⟩
  | 10 => ⟨S8192, .i1⟩
  | 11 => ⟨S_, .i32⟩
  | 12 => ⟨S8192, .i32⟩
  | 13 => ⟨S8192, .i32⟩
  | 14 => ⟨S8192, .i32⟩
  | 15 => ⟨S8192x1, .i32⟩
  | 16 => ⟨S8192x512, .f32⟩
  | 17 => ⟨S_, .f32⟩
  | 18 => ⟨S_, .f32⟩
  | 19 => ⟨S8192x512, .i1⟩
  | 20 => ⟨S8192x512, .f32⟩
  | 21 => ⟨S8192x512, .f32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S8192x1, .i32⟩
  | 30 => ⟨S8192x512, .f32⟩
  | 31 => ⟨S_, .i32⟩
  | 32 => ⟨S8192, .i32⟩
  | 33 => ⟨S8192, .i1⟩
  | 34 => ⟨S8192x1, .i1⟩
  | 35 => ⟨S1x512x512, .f32⟩
  | 36 => ⟨S512x512, .f32⟩
  | 37 => ⟨S512x512, .f32⟩
  | 38 => ⟨S8192x512, .f32⟩
  | 39 => ⟨S1x512, .f32⟩
  | 40 => ⟨S512, .f32⟩
  | 41 => ⟨S1x512, .f32⟩
  | 42 => ⟨S8192x512, .f32⟩
  | 43 => ⟨S8192x512, .f32⟩
  | 44 => ⟨S_, .i32⟩
  | 45 => ⟨S8192, .i32⟩
  | 46 => ⟨S8192, .i1⟩
  | 47 => ⟨S_, .i32⟩
  | 48 => ⟨S8192, .i32⟩
  | 49 => ⟨S8192, .i32⟩
  | 50 => ⟨S8192, .i32⟩
  | 51 => ⟨S8192x1, .i32⟩
  | 52 => ⟨S8192x512, .f32⟩
  | 53 => ⟨S_, .f32⟩
  | 54 => ⟨S_, .f32⟩
  | 55 => ⟨S8192x512, .i1⟩
  | 56 => ⟨S8192x512, .f32⟩
  | 57 => ⟨S8192x512, .f32⟩
  | 58 => ⟨S_, .i32⟩
  | 59 => ⟨S8192, .i32⟩
  | 60 => ⟨S8192, .i1⟩
  | 61 => ⟨S_, .i32⟩
  | 62 => ⟨S8192, .i32⟩
  | 63 => ⟨S8192, .i32⟩
  | 64 => ⟨S8192, .i32⟩
  | 65 => ⟨S8192x1, .i32⟩
  | 66 => ⟨S8192x512, .f32⟩
  | 67 => ⟨S1x512x512, .f32⟩
  | 68 => ⟨S512x512, .f32⟩
  | 69 => ⟨S512x512, .f32⟩
  | 70 => ⟨S8192x512, .f32⟩
  | 71 => ⟨S1x512, .f32⟩
  | 72 => ⟨S512, .f32⟩
  | 73 => ⟨S1x512, .f32⟩
  | 74 => ⟨S8192x512, .f32⟩
  | 75 => ⟨S8192x512, .f32⟩
  | 76 => ⟨S_, .i32⟩
  | 77 => ⟨S8192, .i32⟩
  | 78 => ⟨S8192, .i1⟩
  | 79 => ⟨S_, .i32⟩
  | 80 => ⟨S8192, .i32⟩
  | 81 => ⟨S8192, .i32⟩
  | 82 => ⟨S8192, .i32⟩
  | 83 => ⟨S8192x1, .i32⟩
  | 84 => ⟨S8192x512, .f32⟩
  | 85 => ⟨S_, .f32⟩
  | 86 => ⟨S_, .f32⟩
  | 87 => ⟨S8192x512, .i1⟩
  | 88 => ⟨S8192x512, .f32⟩
  | 89 => ⟨S8192x512, .f32⟩
  | 90 => ⟨S_, .i32⟩
  | 91 => ⟨S8192, .i32⟩
  | 92 => ⟨S8192, .i1⟩
  | 93 => ⟨S_, .i32⟩
  | 94 => ⟨S8192, .i32⟩
  | 95 => ⟨S8192, .i32⟩
  | 96 => ⟨S8192, .i32⟩
  | 97 => ⟨S8192x1, .i32⟩
  | 98 => ⟨S8192x512, .f32⟩
  | 99 => ⟨S_, .i32⟩
  | 100 => ⟨S8192, .i32⟩
  | 101 => ⟨S8192, .i1⟩
  | 102 => ⟨S8192x1, .i1⟩
  | 103 => ⟨S1x512x512, .f32⟩
  | 104 => ⟨S512x512, .f32⟩
  | 105 => ⟨S512x512, .f32⟩
  | 106 => ⟨S8192x512, .f32⟩
  | 107 => ⟨S1x512, .f32⟩
  | 108 => ⟨S512, .f32⟩
  | 109 => ⟨S1x512, .f32⟩
  | 110 => ⟨S8192x512, .f32⟩
  | 111 => ⟨S8192x512, .f32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S8192x512, .f32⟩
  | 121 => ⟨S_, .f32⟩
  | 122 => ⟨S_, .f32⟩
  | 123 => ⟨S8192x512, .i1⟩
  | 124 => ⟨S8192x512, .f32⟩
  | 125 => ⟨S8192x512, .f32⟩
  | 126 => ⟨S_, .i32⟩
  | 127 => ⟨S8192, .i32⟩
  | _ => ⟨S8192x512, .f32⟩

abbrev hbmTy0_2 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S8192x512, .f32⟩
  | 7 => ⟨S1x512x512, .f32⟩
  | 8 => ⟨S512x512, .f32⟩
  | 9 => ⟨S512x512, .f32⟩
  | 10 => ⟨S8192x512, .f32⟩
  | 11 => ⟨S1x512, .f32⟩
  | 12 => ⟨S512, .f32⟩
  | 13 => ⟨S1x512, .f32⟩
  | 14 => ⟨S8192x512, .f32⟩
  | 15 => ⟨S8192x512, .f32⟩
  | 16 => ⟨S_, .i32⟩
  | 17 => ⟨S8192, .i32⟩
  | 18 => ⟨S8192, .i1⟩
  | 19 => ⟨S_, .i32⟩
  | 20 => ⟨S8192, .i32⟩
  | 21 => ⟨S8192, .i32⟩
  | 22 => ⟨S8192, .i32⟩
  | 23 => ⟨S8192x1, .i32⟩
  | 24 => ⟨S8192x512, .f32⟩
  | 25 => ⟨S_, .f32⟩
  | 26 => ⟨S_, .f32⟩
  | 27 => ⟨S8192x512, .i1⟩
  | 28 => ⟨S8192x512, .f32⟩
  | 29 => ⟨S8192x512, .f32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S8192x512, .f32⟩
  | 39 => ⟨S_, .i32⟩
  | 40 => ⟨S8192, .i32⟩
  | 41 => ⟨S8192, .i1⟩
  | 42 => ⟨S8192x1, .i1⟩
  | 43 => ⟨S1x512x512, .f32⟩
  | 44 => ⟨S512x512, .f32⟩
  | 45 => ⟨S512x512, .f32⟩
  | 46 => ⟨S8192x512, .f32⟩
  | 47 => ⟨S1x512, .f32⟩
  | 48 => ⟨S512, .f32⟩
  | 49 => ⟨S1x512, .f32⟩
  | 50 => ⟨S8192x512, .f32⟩
  | 51 => ⟨S8192x512, .f32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S8192x1, .i32⟩
  | 60 => ⟨S8192x512, .f32⟩
  | 61 => ⟨S_, .f32⟩
  | 62 => ⟨S_, .f32⟩
  | 63 => ⟨S8192x512, .i1⟩
  | 64 => ⟨S8192x512, .f32⟩
  | 65 => ⟨S8192x512, .f32⟩
  | 66 => ⟨S_, .i32⟩
  | 67 => ⟨S8192, .i32⟩
  | 68 => ⟨S8192, .i1⟩
  | 69 => ⟨S_, .i32⟩
  | 70 => ⟨S8192, .i32⟩
  | 71 => ⟨S8192, .i32⟩
  | 72 => ⟨S8192, .i32⟩
  | 73 => ⟨S8192x1, .i32⟩
  | 74 => ⟨S8192x512, .f32⟩
  | 75 => ⟨S1x512x512, .f32⟩
  | 76 => ⟨S512x512, .f32⟩
  | 77 => ⟨S512x512, .f32⟩
  | 78 => ⟨S8192x512, .f32⟩
  | 79 => ⟨S1x512, .f32⟩
  | 80 => ⟨S512, .f32⟩
  | 81 => ⟨S1x512, .f32⟩
  | 82 => ⟨S8192x512, .f32⟩
  | 83 => ⟨S8192x512, .f32⟩
  | 84 => ⟨S_, .i32⟩
  | 85 => ⟨S8192, .i32⟩
  | 86 => ⟨S8192, .i1⟩
  | 87 => ⟨S_, .i32⟩
  | 88 => ⟨S8192, .i32⟩
  | 89 => ⟨S8192, .i32⟩
  | 90 => ⟨S8192, .i32⟩
  | 91 => ⟨S8192x1, .i32⟩
  | 92 => ⟨S8192x512, .f32⟩
  | 93 => ⟨S_, .f32⟩
  | 94 => ⟨S_, .f32⟩
  | 95 => ⟨S8192x512, .i1⟩
  | 96 => ⟨S8192x512, .f32⟩
  | 97 => ⟨S8192x512, .f32⟩
  | 98 => ⟨S_, .i32⟩
  | 99 => ⟨S8192, .i32⟩
  | 100 => ⟨S8192, .i1⟩
  | 101 => ⟨S_, .i32⟩
  | 102 => ⟨S8192, .i32⟩
  | 103 => ⟨S8192, .i32⟩
  | 104 => ⟨S8192, .i32⟩
  | 105 => ⟨S8192x1, .i32⟩
  | 106 => ⟨S8192x512, .f32⟩
  | 107 => ⟨S_, .i32⟩
  | 108 => ⟨S8192, .i32⟩
  | 109 => ⟨S8192, .i1⟩
  | 110 => ⟨S8192x1, .i1⟩
  | 111 => ⟨S1x512x512, .f32⟩
  | 112 => ⟨S512x512, .f32⟩
  | 113 => ⟨S512x512, .f32⟩
  | 114 => ⟨S8192x512, .f32⟩
  | 115 => ⟨S1x512, .f32⟩
  | 116 => ⟨S512, .f32⟩
  | 117 => ⟨S1x512, .f32⟩
  | 118 => ⟨S8192x512, .f32⟩
  | 119 => ⟨S8192x512, .f32⟩
  | 120 => ⟨S_, .i32⟩
  | 121 => ⟨S8192, .i32⟩
  | 122 => ⟨S8192, .i1⟩
  | 123 => ⟨S_, .i32⟩
  | 124 => ⟨S8192, .i32⟩
  | 125 => ⟨S8192, .i32⟩
  | 126 => ⟨S8192, .i32⟩
  | 127 => ⟨S8192x1, .i32⟩
  | _ => ⟨S8192x512, .f32⟩

abbrev hbmTy0_3 (i : Nat) : BufTy := match i % 128 with
  | 0 => ⟨S8192x512, .f32⟩
  | 1 => ⟨S_, .f32⟩
  | 2 => ⟨S_, .f32⟩
  | 3 => ⟨S8192x512, .i1⟩
  | 4 => ⟨S8192x512, .f32⟩
  | 5 => ⟨S8192x512, .f32⟩
  | 6 => ⟨S_, .i32⟩
  | 7 => ⟨S8192, .i32⟩
  | 8 => ⟨S8192, .i1⟩
  | 9 => ⟨S_, .i32⟩
  | 10 => ⟨S8192, .i32⟩
  | 11 => ⟨S8192, .i32⟩
  | 12 => ⟨S8192, .i32⟩
  | 13 => ⟨S8192x1, .i32⟩
  | 14 => ⟨S8192x512, .f32⟩
  | 15 => ⟨S1x512x512, .f32⟩
  | 16 => ⟨S512x512, .f32⟩
  | 17 => ⟨S512x512, .f32⟩
  | 18 => ⟨S8192x512, .f32⟩
  | 19 => ⟨S1x512, .f32⟩
  | 20 => ⟨S512, .f32⟩
  | 21 => ⟨S1x512, .f32⟩
  | 22 => ⟨S8192x512, .f32⟩
  | 23 => ⟨S8192x512, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192x512, .f32⟩
  | 33 => ⟨S_, .f32⟩
  | 34 => ⟨S_, .f32⟩
  | 35 => ⟨S8192x512, .i1⟩
  | 36 => ⟨S8192x512, .f32⟩
  | 37 => ⟨S8192x512, .f32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S8192x1, .i32⟩
  | 46 => ⟨S8192x512, .f32⟩
  | 47 => ⟨S_, .i32⟩
  | 48 => ⟨S8192, .i32⟩
  | 49 => ⟨S8192, .i1⟩
  | 50 => ⟨S8192x1, .i1⟩
  | 51 => ⟨S1x512x512, .f32⟩
  | 52 => ⟨S512x512, .f32⟩
  | 53 => ⟨S512x512, .f32⟩
  | 54 => ⟨S8192x512, .f32⟩
  | 55 => ⟨S1x512, .f32⟩
  | 56 => ⟨S512, .f32⟩
  | 57 => ⟨S1x512, .f32⟩
  | 58 => ⟨S8192x512, .f32⟩
  | 59 => ⟨S8192x512, .f32⟩
  | 60 => ⟨S_, .i32⟩
  | 61 => ⟨S8192, .i32⟩
  | 62 => ⟨S8192, .i1⟩
  | 63 => ⟨S_, .i32⟩
  | 64 => ⟨S8192, .i32⟩
  | 65 => ⟨S8192, .i32⟩
  | 66 => ⟨S8192, .i32⟩
  | 67 => ⟨S8192x1, .i32⟩
  | 68 => ⟨S8192x512, .f32⟩
  | 69 => ⟨S_, .f32⟩
  | 70 => ⟨S_, .f32⟩
  | 71 => ⟨S8192x512, .i1⟩
  | 72 => ⟨S8192x512, .f32⟩
  | 73 => ⟨S8192x512, .f32⟩
  | 74 => ⟨S_, .i32⟩
  | 75 => ⟨S8192, .i32⟩
  | 76 => ⟨S8192, .i1⟩
  | 77 => ⟨S_, .i32⟩
  | 78 => ⟨S8192, .i32⟩
  | 79 => ⟨S8192, .i32⟩
  | 80 => ⟨S8192, .i32⟩
  | 81 => ⟨S8192x1, .i32⟩
  | 82 => ⟨S8192x512, .f32⟩
  | 83 => ⟨S1x512x512, .f32⟩
  | 84 => ⟨S512x512, .f32⟩
  | 85 => ⟨S512x512, .f32⟩
  | 86 => ⟨S8192x512, .f32⟩
  | 87 => ⟨S1x512, .f32⟩
  | 88 => ⟨S512, .f32⟩
  | 89 => ⟨S1x512, .f32⟩
  | 90 => ⟨S8192x512, .f32⟩
  | 91 => ⟨S8192x512, .f32⟩
  | 92 => ⟨S_, .i32⟩
  | 93 => ⟨S8192, .i32⟩
  | 94 => ⟨S8192, .i1⟩
  | 95 => ⟨S_, .i32⟩
  | 96 => ⟨S8192, .i32⟩
  | 97 => ⟨S8192, .i32⟩
  | 98 => ⟨S8192, .i32⟩
  | 99 => ⟨S8192x1, .i32⟩
  | 100 => ⟨S8192x512, .f32⟩
  | 101 => ⟨S_, .f32⟩
  | 102 => ⟨S_, .f32⟩
  | 103 => ⟨S8192x512, .i1⟩
  | 104 => ⟨S8192x512, .f32⟩
  | 105 => ⟨S8192x512, .f32⟩
  | 106 => ⟨S_, .i32⟩
  | 107 => ⟨S8192, .i32⟩
  | 108 => ⟨S8192, .i1⟩
  | 109 => ⟨S_, .i32⟩
  | 110 => ⟨S8192, .i32⟩
  | 111 => ⟨S8192, .i32⟩
  | 112 => ⟨S8192, .i32⟩
  | 113 => ⟨S8192x1, .i32⟩
  | 114 => ⟨S8192x512, .f32⟩
  | 115 => ⟨S_, .i32⟩
  | 116 => ⟨S8192, .i32⟩
  | 117 => ⟨S8192, .i1⟩
  | 118 => ⟨S8192x1, .i1⟩
  | 119 => ⟨S1x512x512, .f32⟩
  | 120 => ⟨S512x512, .f32⟩
  | 121 => ⟨S512x512, .f32⟩
  | 122 => ⟨S8192x512, .f32⟩
  | 123 => ⟨S1x512, .f32⟩
  | 124 => ⟨S512, .f32⟩
  | 125 => ⟨S1x512, .f32⟩
  | 126 => ⟨S8192x512, .f32⟩
  | 127 => ⟨S8192x512, .f32⟩
  | _ => ⟨S8192x512, .f32⟩

abbrev hbmTy0_4 (i : Nat) : BufTy := match i % 128 with
  | 0 => ⟨S_, .i32⟩
  | 1 => ⟨S8192, .i32⟩
  | 2 => ⟨S8192, .i1⟩
  | 3 => ⟨S_, .i32⟩
  | 4 => ⟨S8192, .i32⟩
  | 5 => ⟨S8192, .i32⟩
  | 6 => ⟨S8192, .i32⟩
  | 7 => ⟨S8192x1, .i32⟩
  | 8 => ⟨S8192x512, .f32⟩
  | 9 => ⟨S_, .f32⟩
  | 10 => ⟨S_, .f32⟩
  | 11 => ⟨S8192x512, .i1⟩
  | 12 => ⟨S8192x512, .f32⟩
  | 13 => ⟨S8192x512, .f32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192x512, .f32⟩
  | 23 => ⟨S1x512x512, .f32⟩
  | 24 => ⟨S512x512, .f32⟩
  | 25 => ⟨S512x512, .f32⟩
  | 26 => ⟨S8192x512, .f32⟩
  | 27 => ⟨S1x512, .f32⟩
  | 28 => ⟨S512, .f32⟩
  | 29 => ⟨S1x512, .f32⟩
  | 30 => ⟨S8192x512, .f32⟩
  | 31 => ⟨S8192x512, .f32⟩
  | 32 => ⟨S_, .i32⟩
  | 33 => ⟨S8192, .i32⟩
  | 34 => ⟨S8192, .i1⟩
  | 35 => ⟨S_, .i32⟩
  | 36 => ⟨S8192, .i32⟩
  | 37 => ⟨S8192, .i32⟩
  | 38 => ⟨S8192, .i32⟩
  | 39 => ⟨S8192x1, .i32⟩
  | 40 => ⟨S8192x512, .f32⟩
  | 41 => ⟨S_, .f32⟩
  | 42 => ⟨S_, .f32⟩
  | 43 => ⟨S8192x512, .i1⟩
  | 44 => ⟨S8192x512, .f32⟩
  | 45 => ⟨S8192x512, .f32⟩
  | 46 => ⟨S_, .i32⟩
  | 47 => ⟨S8192, .i32⟩
  | 48 => ⟨S8192, .i1⟩
  | 49 => ⟨S_, .i32⟩
  | 50 => ⟨S8192, .i32⟩
  | 51 => ⟨S8192, .i32⟩
  | 52 => ⟨S8192, .i32⟩
  | 53 => ⟨S8192x1, .i32⟩
  | 54 => ⟨S8192x512, .f32⟩
  | 55 => ⟨S_, .i32⟩
  | 56 => ⟨S8192, .i32⟩
  | 57 => ⟨S8192, .i1⟩
  | 58 => ⟨S8192x1, .i1⟩
  | 59 => ⟨S1x512x512, .f32⟩
  | 60 => ⟨S512x512, .f32⟩
  | 61 => ⟨S512x512, .f32⟩
  | 62 => ⟨S8192x512, .f32⟩
  | 63 => ⟨S1x512, .f32⟩
  | 64 => ⟨S512, .f32⟩
  | 65 => ⟨S1x512, .f32⟩
  | 66 => ⟨S8192x512, .f32⟩
  | 67 => ⟨S8192x512, .f32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192x512, .f32⟩
  | 77 => ⟨S_, .f32⟩
  | 78 => ⟨S_, .f32⟩
  | 79 => ⟨S8192x512, .i1⟩
  | 80 => ⟨S8192x512, .f32⟩
  | 81 => ⟨S8192x512, .f32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S8192x512, .f32⟩
  | 91 => ⟨S1x512x512, .f32⟩
  | 92 => ⟨S512x512, .f32⟩
  | 93 => ⟨S512x512, .f32⟩
  | 94 => ⟨S8192x512, .f32⟩
  | 95 => ⟨S1x512, .f32⟩
  | 96 => ⟨S512, .f32⟩
  | 97 => ⟨S1x512, .f32⟩
  | 98 => ⟨S8192x512, .f32⟩
  | 99 => ⟨S8192x512, .f32⟩
  | 100 => ⟨S_, .i32⟩
  | 101 => ⟨S8192, .i32⟩
  | 102 => ⟨S8192, .i1⟩
  | 103 => ⟨S_, .i32⟩
  | 104 => ⟨S8192, .i32⟩
  | 105 => ⟨S8192, .i32⟩
  | 106 => ⟨S8192, .i32⟩
  | 107 => ⟨S8192x1, .i32⟩
  | 108 => ⟨S8192x512, .f32⟩
  | 109 => ⟨S_, .f32⟩
  | 110 => ⟨S_, .f32⟩
  | 111 => ⟨S8192x512, .i1⟩
  | 112 => ⟨S8192x512, .f32⟩
  | 113 => ⟨S8192x512, .f32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S8192x512, .f32⟩
  | 123 => ⟨S_, .i32⟩
  | 124 => ⟨S8192, .i32⟩
  | 125 => ⟨S8192, .i1⟩
  | 126 => ⟨S8192x1, .i1⟩
  | 127 => ⟨S1x512x512, .f32⟩
  | _ => ⟨S8192x512, .f32⟩

abbrev hbmTy0_5 (i : Nat) : BufTy := match i % 128 with
  | 0 => ⟨S512x512, .f32⟩
  | 1 => ⟨S512x512, .f32⟩
  | 2 => ⟨S8192x512, .f32⟩
  | 3 => ⟨S1x512, .f32⟩
  | 4 => ⟨S512, .f32⟩
  | 5 => ⟨S1x512, .f32⟩
  | 6 => ⟨S8192x512, .f32⟩
  | 7 => ⟨S8192x512, .f32⟩
  | 8 => ⟨S_, .i32⟩
  | 9 => ⟨S8192, .i32⟩
  | 10 => ⟨S8192, .i1⟩
  | 11 => ⟨S_, .i32⟩
  | 12 => ⟨S8192, .i32⟩
  | 13 => ⟨S8192, .i32⟩
  | 14 => ⟨S8192, .i32⟩
  | 15 => ⟨S8192x1, .i32⟩
  | 16 => ⟨S8192x512, .f32⟩
  | 17 => ⟨S_, .f32⟩
  | 18 => ⟨S_, .f32⟩
  | 19 => ⟨S8192x512, .i1⟩
  | 20 => ⟨S8192x512, .f32⟩
  | 21 => ⟨S8192x512, .f32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S8192x1, .i32⟩
  | 30 => ⟨S8192x512, .f32⟩
  | 31 => ⟨S1x512x512, .f32⟩
  | 32 => ⟨S512x512, .f32⟩
  | 33 => ⟨S512x512, .f32⟩
  | 34 => ⟨S8192x512, .f32⟩
  | 35 => ⟨S1x512, .f32⟩
  | 36 => ⟨S512, .f32⟩
  | 37 => ⟨S1x512, .f32⟩
  | 38 => ⟨S8192x512, .f32⟩
  | 39 => ⟨S8192x512, .f32⟩
  | 40 => ⟨S_, .i32⟩
  | 41 => ⟨S8192, .i32⟩
  | 42 => ⟨S8192, .i1⟩
  | 43 => ⟨S_, .i32⟩
  | 44 => ⟨S8192, .i32⟩
  | 45 => ⟨S8192, .i32⟩
  | 46 => ⟨S8192, .i32⟩
  | 47 => ⟨S8192x1, .i32⟩
  | 48 => ⟨S8192x512, .f32⟩
  | 49 => ⟨S_, .f32⟩
  | 50 => ⟨S_, .f32⟩
  | 51 => ⟨S8192x512, .i1⟩
  | 52 => ⟨S8192x512, .f32⟩
  | 53 => ⟨S8192x512, .f32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S8192x1, .i32⟩
  | 62 => ⟨S8192x512, .f32⟩
  | 63 => ⟨S_, .i32⟩
  | 64 => ⟨S8192, .i32⟩
  | 65 => ⟨S8192, .i1⟩
  | 66 => ⟨S8192x1, .i1⟩
  | 67 => ⟨S1x512x512, .f32⟩
  | 68 => ⟨S512x512, .f32⟩
  | 69 => ⟨S512x512, .f32⟩
  | 70 => ⟨S8192x512, .f32⟩
  | 71 => ⟨S1x512, .f32⟩
  | 72 => ⟨S512, .f32⟩
  | 73 => ⟨S1x512, .f32⟩
  | 74 => ⟨S8192x512, .f32⟩
  | 75 => ⟨S8192x512, .f32⟩
  | 76 => ⟨S_, .i32⟩
  | 77 => ⟨S8192, .i32⟩
  | 78 => ⟨S8192, .i1⟩
  | 79 => ⟨S_, .i32⟩
  | 80 => ⟨S8192, .i32⟩
  | 81 => ⟨S8192, .i32⟩
  | 82 => ⟨S8192, .i32⟩
  | 83 => ⟨S8192x1, .i32⟩
  | 84 => ⟨S8192x512, .f32⟩
  | 85 => ⟨S_, .f32⟩
  | 86 => ⟨S_, .f32⟩
  | 87 => ⟨S8192x512, .i1⟩
  | 88 => ⟨S8192x512, .f32⟩
  | 89 => ⟨S8192x512, .f32⟩
  | 90 => ⟨S_, .i32⟩
  | 91 => ⟨S8192, .i32⟩
  | 92 => ⟨S8192, .i1⟩
  | 93 => ⟨S_, .i32⟩
  | 94 => ⟨S8192, .i32⟩
  | 95 => ⟨S8192, .i32⟩
  | 96 => ⟨S8192, .i32⟩
  | 97 => ⟨S8192x1, .i32⟩
  | 98 => ⟨S8192x512, .f32⟩
  | 99 => ⟨S1x512x512, .f32⟩
  | 100 => ⟨S512x512, .f32⟩
  | 101 => ⟨S512x512, .f32⟩
  | 102 => ⟨S8192x512, .f32⟩
  | 103 => ⟨S1x512, .f32⟩
  | 104 => ⟨S512, .f32⟩
  | 105 => ⟨S1x512, .f32⟩
  | 106 => ⟨S8192x512, .f32⟩
  | 107 => ⟨S8192x512, .f32⟩
  | 108 => ⟨S_, .i32⟩
  | 109 => ⟨S8192, .i32⟩
  | 110 => ⟨S8192, .i1⟩
  | 111 => ⟨S_, .i32⟩
  | 112 => ⟨S8192, .i32⟩
  | 113 => ⟨S8192, .i32⟩
  | 114 => ⟨S8192, .i32⟩
  | 115 => ⟨S8192x1, .i32⟩
  | 116 => ⟨S8192x512, .f32⟩
  | 117 => ⟨S_, .f32⟩
  | 118 => ⟨S_, .f32⟩
  | 119 => ⟨S8192x512, .i1⟩
  | 120 => ⟨S8192x512, .f32⟩
  | 121 => ⟨S8192x512, .f32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S8192x512, .f32⟩

abbrev hbmTy0_6 (i : Nat) : BufTy := match i % 128 with
  | 0 => ⟨S8192, .i32⟩
  | 1 => ⟨S8192x1, .i32⟩
  | 2 => ⟨S8192x512, .f32⟩
  | 3 => ⟨S_, .i32⟩
  | 4 => ⟨S8192, .i32⟩
  | 5 => ⟨S8192, .i1⟩
  | 6 => ⟨S8192x1, .i1⟩
  | 7 => ⟨S1x512x512, .f32⟩
  | 8 => ⟨S512x512, .f32⟩
  | 9 => ⟨S512x512, .f32⟩
  | 10 => ⟨S8192x512, .f32⟩
  | 11 => ⟨S1x512, .f32⟩
  | 12 => ⟨S512, .f32⟩
  | 13 => ⟨S1x512, .f32⟩
  | 14 => ⟨S8192x512, .f32⟩
  | 15 => ⟨S8192x512, .f32⟩
  | 16 => ⟨S_, .i32⟩
  | 17 => ⟨S8192, .i32⟩
  | 18 => ⟨S8192, .i1⟩
  | 19 => ⟨S_, .i32⟩
  | 20 => ⟨S8192, .i32⟩
  | 21 => ⟨S8192, .i32⟩
  | 22 => ⟨S8192, .i32⟩
  | 23 => ⟨S8192x1, .i32⟩
  | 24 => ⟨S8192x512, .f32⟩
  | 25 => ⟨S_, .f32⟩
  | 26 => ⟨S_, .f32⟩
  | 27 => ⟨S8192x512, .i1⟩
  | 28 => ⟨S8192x512, .f32⟩
  | 29 => ⟨S8192x512, .f32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S8192x512, .f32⟩
  | 39 => ⟨S1x512x512, .f32⟩
  | 40 => ⟨S512x512, .f32⟩
  | 41 => ⟨S512x512, .f32⟩
  | 42 => ⟨S8192x512, .f32⟩
  | 43 => ⟨S1x512, .f32⟩
  | 44 => ⟨S512, .f32⟩
  | 45 => ⟨S1x512, .f32⟩
  | 46 => ⟨S8192x512, .f32⟩
  | 47 => ⟨S8192x512, .f32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S8192x512, .f32⟩
  | 57 => ⟨S_, .f32⟩
  | 58 => ⟨S_, .f32⟩
  | 59 => ⟨S8192x512, .i1⟩
  | 60 => ⟨S8192x512, .f32⟩
  | 61 => ⟨S8192x512, .f32⟩
  | 62 => ⟨S_, .i32⟩
  | 63 => ⟨S8192, .i32⟩
  | 64 => ⟨S8192, .i1⟩
  | 65 => ⟨S_, .i32⟩
  | 66 => ⟨S8192, .i32⟩
  | 67 => ⟨S8192, .i32⟩
  | 68 => ⟨S8192, .i32⟩
  | 69 => ⟨S8192x1, .i32⟩
  | 70 => ⟨S8192x512, .f32⟩
  | 71 => ⟨S_, .i32⟩
  | 72 => ⟨S8192, .i32⟩
  | 73 => ⟨S8192, .i1⟩
  | 74 => ⟨S8192x1, .i1⟩
  | 75 => ⟨S1x512x512, .f32⟩
  | 76 => ⟨S512x512, .f32⟩
  | 77 => ⟨S512x512, .f32⟩
  | 78 => ⟨S8192x512, .f32⟩
  | 79 => ⟨S1x512, .f32⟩
  | 80 => ⟨S512, .f32⟩
  | 81 => ⟨S1x512, .f32⟩
  | 82 => ⟨S8192x512, .f32⟩
  | 83 => ⟨S8192x512, .f32⟩
  | 84 => ⟨S_, .i32⟩
  | 85 => ⟨S8192, .i32⟩
  | 86 => ⟨S8192, .i1⟩
  | 87 => ⟨S_, .i32⟩
  | 88 => ⟨S8192, .i32⟩
  | 89 => ⟨S8192, .i32⟩
  | 90 => ⟨S8192, .i32⟩
  | 91 => ⟨S8192x1, .i32⟩
  | 92 => ⟨S8192x512, .f32⟩
  | 93 => ⟨S_, .f32⟩
  | 94 => ⟨S_, .f32⟩
  | 95 => ⟨S8192x512, .i1⟩
  | 96 => ⟨S8192x512, .f32⟩
  | 97 => ⟨S8192x512, .f32⟩
  | 98 => ⟨S_, .i32⟩
  | 99 => ⟨S8192, .i32⟩
  | 100 => ⟨S8192, .i1⟩
  | 101 => ⟨S_, .i32⟩
  | 102 => ⟨S8192, .i32⟩
  | 103 => ⟨S8192, .i32⟩
  | 104 => ⟨S8192, .i32⟩
  | 105 => ⟨S8192x1, .i32⟩
  | 106 => ⟨S8192x512, .f32⟩
  | 107 => ⟨S1x512x512, .f32⟩
  | 108 => ⟨S512x512, .f32⟩
  | 109 => ⟨S512x512, .f32⟩
  | 110 => ⟨S8192x512, .f32⟩
  | 111 => ⟨S1x512, .f32⟩
  | 112 => ⟨S512, .f32⟩
  | 113 => ⟨S1x512, .f32⟩
  | 114 => ⟨S8192x512, .f32⟩
  | 115 => ⟨S8192x512, .f32⟩
  | 116 => ⟨S_, .i32⟩
  | 117 => ⟨S8192, .i32⟩
  | 118 => ⟨S8192, .i1⟩
  | 119 => ⟨S_, .i32⟩
  | 120 => ⟨S8192, .i32⟩
  | 121 => ⟨S8192, .i32⟩
  | 122 => ⟨S8192, .i32⟩
  | 123 => ⟨S8192x1, .i32⟩
  | 124 => ⟨S8192x512, .f32⟩
  | 125 => ⟨S_, .f32⟩
  | 126 => ⟨S_, .f32⟩
  | 127 => ⟨S8192x512, .i1⟩
  | _ => ⟨S8192x512, .f32⟩

abbrev hbmTy0_7 (i : Nat) : BufTy := match i % 128 with
  | 0 => ⟨S8192x512, .f32⟩
  | 1 => ⟨S8192x512, .f32⟩
  | 2 => ⟨S_, .i32⟩
  | 3 => ⟨S8192, .i32⟩
  | 4 => ⟨S8192, .i1⟩
  | 5 => ⟨S_, .i32⟩
  | 6 => ⟨S8192, .i32⟩
  | 7 => ⟨S8192, .i32⟩
  | 8 => ⟨S8192, .i32⟩
  | 9 => ⟨S8192x1, .i32⟩
  | 10 => ⟨S8192x512, .f32⟩
  | 11 => ⟨S_, .i32⟩
  | 12 => ⟨S8192, .i32⟩
  | 13 => ⟨S8192, .i1⟩
  | 14 => ⟨S8192x1, .i1⟩
  | 15 => ⟨S1x512x512, .f32⟩
  | 16 => ⟨S512x512, .f32⟩
  | 17 => ⟨S512x512, .f32⟩
  | 18 => ⟨S8192x512, .f32⟩
  | 19 => ⟨S1x512, .f32⟩
  | 20 => ⟨S512, .f32⟩
  | 21 => ⟨S1x512, .f32⟩
  | 22 => ⟨S8192x512, .f32⟩
  | 23 => ⟨S8192x512, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192x512, .f32⟩
  | 33 => ⟨S_, .f32⟩
  | 34 => ⟨S_, .f32⟩
  | 35 => ⟨S8192x512, .i1⟩
  | 36 => ⟨S8192x512, .f32⟩
  | 37 => ⟨S8192x512, .f32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S8192x1, .i32⟩
  | 46 => ⟨S8192x512, .f32⟩
  | 47 => ⟨S1x512x512, .f32⟩
  | 48 => ⟨S512x512, .f32⟩
  | 49 => ⟨S512x512, .f32⟩
  | 50 => ⟨S8192x512, .f32⟩
  | 51 => ⟨S1x512, .f32⟩
  | 52 => ⟨S512, .f32⟩
  | 53 => ⟨S1x512, .f32⟩
  | 54 => ⟨S8192x512, .f32⟩
  | 55 => ⟨S8192x512, .f32⟩
  | 56 => ⟨S_, .i32⟩
  | 57 => ⟨S8192, .i32⟩
  | 58 => ⟨S8192, .i1⟩
  | 59 => ⟨S_, .i32⟩
  | 60 => ⟨S8192, .i32⟩
  | 61 => ⟨S8192, .i32⟩
  | 62 => ⟨S8192, .i32⟩
  | 63 => ⟨S8192x1, .i32⟩
  | 64 => ⟨S8192x512, .f32⟩
  | 65 => ⟨S_, .f32⟩
  | 66 => ⟨S_, .f32⟩
  | 67 => ⟨S8192x512, .i1⟩
  | 68 => ⟨S8192x512, .f32⟩
  | 69 => ⟨S8192x512, .f32⟩
  | 70 => ⟨S_, .i32⟩
  | 71 => ⟨S8192, .i32⟩
  | 72 => ⟨S8192, .i1⟩
  | 73 => ⟨S_, .i32⟩
  | 74 => ⟨S8192, .i32⟩
  | 75 => ⟨S8192, .i32⟩
  | 76 => ⟨S8192, .i32⟩
  | 77 => ⟨S8192x1, .i32⟩
  | 78 => ⟨S8192x512, .f32⟩
  | 79 => ⟨S_, .i32⟩
  | 80 => ⟨S8192, .i32⟩
  | 81 => ⟨S8192, .i1⟩
  | 82 => ⟨S8192x1, .i1⟩
  | 83 => ⟨S1x512x512, .f32⟩
  | 84 => ⟨S512x512, .f32⟩
  | 85 => ⟨S512x512, .f32⟩
  | 86 => ⟨S8192x512, .f32⟩
  | 87 => ⟨S1x512, .f32⟩
  | 88 => ⟨S512, .f32⟩
  | 89 => ⟨S1x512, .f32⟩
  | 90 => ⟨S8192x512, .f32⟩
  | 91 => ⟨S8192x512, .f32⟩
  | 92 => ⟨S_, .i32⟩
  | 93 => ⟨S8192, .i32⟩
  | 94 => ⟨S8192, .i1⟩
  | 95 => ⟨S_, .i32⟩
  | 96 => ⟨S8192, .i32⟩
  | 97 => ⟨S8192, .i32⟩
  | 98 => ⟨S8192, .i32⟩
  | 99 => ⟨S8192x1, .i32⟩
  | 100 => ⟨S8192x512, .f32⟩
  | 101 => ⟨S_, .f32⟩
  | 102 => ⟨S_, .f32⟩
  | 103 => ⟨S8192x512, .i1⟩
  | 104 => ⟨S8192x512, .f32⟩
  | 105 => ⟨S8192x512, .f32⟩
  | 106 => ⟨S_, .i32⟩
  | 107 => ⟨S8192, .i32⟩
  | 108 => ⟨S8192, .i1⟩
  | 109 => ⟨S_, .i32⟩
  | 110 => ⟨S8192, .i32⟩
  | 111 => ⟨S8192, .i32⟩
  | 112 => ⟨S8192, .i32⟩
  | 113 => ⟨S8192x1, .i32⟩
  | 114 => ⟨S8192x512, .f32⟩
  | 115 => ⟨S1x512x512, .f32⟩
  | 116 => ⟨S512x512, .f32⟩
  | 117 => ⟨S512x512, .f32⟩
  | 118 => ⟨S8192x512, .f32⟩
  | 119 => ⟨S1x512, .f32⟩
  | 120 => ⟨S512, .f32⟩
  | 121 => ⟨S1x512, .f32⟩
  | 122 => ⟨S8192x512, .f32⟩
  | 123 => ⟨S8192x512, .f32⟩
  | 124 => ⟨S_, .i32⟩
  | 125 => ⟨S8192, .i32⟩
  | 126 => ⟨S8192, .i1⟩
  | 127 => ⟨S_, .i32⟩
  | _ => ⟨S8192x512, .f32⟩

abbrev hbmTy0_8 (i : Nat) : BufTy := match i % 128 with
  | 0 => ⟨S8192, .i32⟩
  | 1 => ⟨S8192, .i32⟩
  | 2 => ⟨S8192, .i32⟩
  | 3 => ⟨S8192x1, .i32⟩
  | 4 => ⟨S8192x512, .f32⟩
  | 5 => ⟨S_, .f32⟩
  | 6 => ⟨S_, .f32⟩
  | 7 => ⟨S8192x512, .i1⟩
  | 8 => ⟨S8192x512, .f32⟩
  | 9 => ⟨S8192x512, .f32⟩
  | 10 => ⟨S_, .i32⟩
  | 11 => ⟨S8192, .i32⟩
  | 12 => ⟨S8192, .i1⟩
  | 13 => ⟨S_, .i32⟩
  | 14 => ⟨S8192, .i32⟩
  | 15 => ⟨S8192, .i32⟩
  | 16 => ⟨S8192, .i32⟩
  | 17 => ⟨S8192x1, .i32⟩
  | 18 => ⟨S8192x512, .f32⟩
  | 19 => ⟨S_, .i32⟩
  | 20 => ⟨S8192, .i32⟩
  | 21 => ⟨S8192, .i1⟩
  | 22 => ⟨S8192x1, .i1⟩
  | 23 => ⟨S1x512x512, .f32⟩
  | 24 => ⟨S512x512, .f32⟩
  | 25 => ⟨S512x512, .f32⟩
  | 26 => ⟨S8192x512, .f32⟩
  | 27 => ⟨S1x512, .f32⟩
  | 28 => ⟨S512, .f32⟩
  | 29 => ⟨S1x512, .f32⟩
  | 30 => ⟨S8192x512, .f32⟩
  | 31 => ⟨S8192x512, .f32⟩
  | 32 => ⟨S_, .i32⟩
  | 33 => ⟨S8192, .i32⟩
  | 34 => ⟨S8192, .i1⟩
  | 35 => ⟨S_, .i32⟩
  | 36 => ⟨S8192, .i32⟩
  | 37 => ⟨S8192, .i32⟩
  | 38 => ⟨S8192, .i32⟩
  | 39 => ⟨S8192x1, .i32⟩
  | 40 => ⟨S8192x512, .f32⟩
  | 41 => ⟨S_, .f32⟩
  | 42 => ⟨S_, .f32⟩
  | 43 => ⟨S8192x512, .i1⟩
  | 44 => ⟨S8192x512, .f32⟩
  | 45 => ⟨S8192x512, .f32⟩
  | 46 => ⟨S_, .i32⟩
  | 47 => ⟨S8192, .i32⟩
  | 48 => ⟨S8192, .i1⟩
  | 49 => ⟨S_, .i32⟩
  | 50 => ⟨S8192, .i32⟩
  | 51 => ⟨S8192, .i32⟩
  | 52 => ⟨S8192, .i32⟩
  | 53 => ⟨S8192x1, .i32⟩
  | 54 => ⟨S8192x512, .f32⟩
  | 55 => ⟨S1x512x512, .f32⟩
  | 56 => ⟨S512x512, .f32⟩
  | 57 => ⟨S512x512, .f32⟩
  | 58 => ⟨S8192x512, .f32⟩
  | 59 => ⟨S1x512, .f32⟩
  | 60 => ⟨S512, .f32⟩
  | 61 => ⟨S1x512, .f32⟩
  | 62 => ⟨S8192x512, .f32⟩
  | 63 => ⟨S8192x512, .f32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S8192x512, .f32⟩
  | 73 => ⟨S_, .f32⟩
  | 74 => ⟨S_, .f32⟩
  | 75 => ⟨S8192x512, .i1⟩
  | 76 => ⟨S8192x512, .f32⟩
  | 77 => ⟨S8192x512, .f32⟩
  | 78 => ⟨S_, .i32⟩
  | 79 => ⟨S8192, .i32⟩
  | 80 => ⟨S8192, .i1⟩
  | 81 => ⟨S_, .i32⟩
  | 82 => ⟨S8192, .i32⟩
  | 83 => ⟨S8192, .i32⟩
  | 84 => ⟨S8192, .i32⟩
  | 85 => ⟨S8192x1, .i32⟩
  | 86 => ⟨S8192x512, .f32⟩
  | 87 => ⟨S_, .i32⟩
  | 88 => ⟨S8192, .i32⟩
  | 89 => ⟨S8192, .i1⟩
  | 90 => ⟨S8192x1, .i1⟩
  | 91 => ⟨S1x512x512, .f32⟩
  | 92 => ⟨S512x512, .f32⟩
  | 93 => ⟨S512x512, .f32⟩
  | 94 => ⟨S8192x512, .f32⟩
  | 95 => ⟨S1x512, .f32⟩
  | 96 => ⟨S512, .f32⟩
  | 97 => ⟨S1x512, .f32⟩
  | 98 => ⟨S8192x512, .f32⟩
  | 99 => ⟨S8192x512, .f32⟩
  | 100 => ⟨S_, .i32⟩
  | 101 => ⟨S8192, .i32⟩
  | 102 => ⟨S8192, .i1⟩
  | 103 => ⟨S_, .i32⟩
  | 104 => ⟨S8192, .i32⟩
  | 105 => ⟨S8192, .i32⟩
  | 106 => ⟨S8192, .i32⟩
  | 107 => ⟨S8192x1, .i32⟩
  | 108 => ⟨S8192x512, .f32⟩
  | 109 => ⟨S_, .f32⟩
  | 110 => ⟨S_, .f32⟩
  | 111 => ⟨S8192x512, .i1⟩
  | 112 => ⟨S8192x512, .f32⟩
  | 113 => ⟨S8192x512, .f32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S8192x512, .f32⟩
  | 123 => ⟨S1x512x512, .f32⟩
  | 124 => ⟨S512x512, .f32⟩
  | 125 => ⟨S512x512, .f32⟩
  | 126 => ⟨S8192x512, .f32⟩
  | 127 => ⟨S1x512, .f32⟩
  | _ => ⟨S8192x512, .f32⟩

abbrev hbmTy0_9 (i : Nat) : BufTy := match i % 128 with
  | 0 => ⟨S512, .f32⟩
  | 1 => ⟨S1x512, .f32⟩
  | 2 => ⟨S8192x512, .f32⟩
  | 3 => ⟨S8192x512, .f32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S8192x512, .f32⟩
  | 13 => ⟨S_, .f32⟩
  | 14 => ⟨S_, .f32⟩
  | 15 => ⟨S8192x512, .i1⟩
  | 16 => ⟨S8192x512, .f32⟩
  | 17 => ⟨S8192x512, .f32⟩
  | 18 => ⟨S_, .i32⟩
  | 19 => ⟨S8192, .i32⟩
  | 20 => ⟨S8192, .i1⟩
  | 21 => ⟨S_, .i32⟩
  | 22 => ⟨S8192, .i32⟩
  | 23 => ⟨S8192, .i32⟩
  | 24 => ⟨S8192, .i32⟩
  | 25 => ⟨S8192x1, .i32⟩
  | 26 => ⟨S8192x512, .f32⟩
  | 27 => ⟨S_, .i32⟩
  | 28 => ⟨S8192, .i32⟩
  | 29 => ⟨S8192, .i1⟩
  | 30 => ⟨S8192x1, .i1⟩
  | 31 => ⟨S1x512x512, .f32⟩
  | 32 => ⟨S512x512, .f32⟩
  | 33 => ⟨S512x512, .f32⟩
  | 34 => ⟨S8192x512, .f32⟩
  | 35 => ⟨S1x512, .f32⟩
  | 36 => ⟨S512, .f32⟩
  | 37 => ⟨S1x512, .f32⟩
  | 38 => ⟨S8192x512, .f32⟩
  | 39 => ⟨S8192x512, .f32⟩
  | 40 => ⟨S_, .i32⟩
  | 41 => ⟨S8192, .i32⟩
  | 42 => ⟨S8192, .i1⟩
  | 43 => ⟨S_, .i32⟩
  | 44 => ⟨S8192, .i32⟩
  | 45 => ⟨S8192, .i32⟩
  | 46 => ⟨S8192, .i32⟩
  | 47 => ⟨S8192x1, .i32⟩
  | 48 => ⟨S8192x512, .f32⟩
  | 49 => ⟨S_, .f32⟩
  | 50 => ⟨S_, .f32⟩
  | 51 => ⟨S8192x512, .i1⟩
  | 52 => ⟨S8192x512, .f32⟩
  | 53 => ⟨S8192x512, .f32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S8192x1, .i32⟩
  | 62 => ⟨S8192x512, .f32⟩
  | 63 => ⟨S1x512x512, .f32⟩
  | 64 => ⟨S512x512, .f32⟩
  | 65 => ⟨S512x512, .f32⟩
  | 66 => ⟨S8192x512, .f32⟩
  | 67 => ⟨S1x512, .f32⟩
  | 68 => ⟨S512, .f32⟩
  | 69 => ⟨S1x512, .f32⟩
  | 70 => ⟨S8192x512, .f32⟩
  | 71 => ⟨S8192x512, .f32⟩
  | 72 => ⟨S_, .i32⟩
  | 73 => ⟨S8192, .i32⟩
  | 74 => ⟨S8192, .i1⟩
  | 75 => ⟨S_, .i32⟩
  | 76 => ⟨S8192, .i32⟩
  | 77 => ⟨S8192, .i32⟩
  | 78 => ⟨S8192, .i32⟩
  | 79 => ⟨S8192x1, .i32⟩
  | 80 => ⟨S8192x512, .f32⟩
  | 81 => ⟨S_, .f32⟩
  | 82 => ⟨S_, .f32⟩
  | 83 => ⟨S8192x512, .i1⟩
  | 84 => ⟨S8192x512, .f32⟩
  | 85 => ⟨S8192x512, .f32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S8192x512, .f32⟩
  | 95 => ⟨S_, .i32⟩
  | 96 => ⟨S8192, .i32⟩
  | 97 => ⟨S8192, .i1⟩
  | 98 => ⟨S8192x1, .i1⟩
  | 99 => ⟨S1x512x512, .f32⟩
  | 100 => ⟨S512x512, .f32⟩
  | 101 => ⟨S512x512, .f32⟩
  | 102 => ⟨S8192x512, .f32⟩
  | 103 => ⟨S1x512, .f32⟩
  | 104 => ⟨S512, .f32⟩
  | 105 => ⟨S1x512, .f32⟩
  | 106 => ⟨S8192x512, .f32⟩
  | 107 => ⟨S8192x512, .f32⟩
  | 108 => ⟨S_, .i32⟩
  | 109 => ⟨S8192, .i32⟩
  | 110 => ⟨S8192, .i1⟩
  | 111 => ⟨S_, .i32⟩
  | 112 => ⟨S8192, .i32⟩
  | 113 => ⟨S8192, .i32⟩
  | 114 => ⟨S8192, .i32⟩
  | 115 => ⟨S8192x1, .i32⟩
  | 116 => ⟨S8192x512, .f32⟩
  | 117 => ⟨S_, .f32⟩
  | 118 => ⟨S_, .f32⟩
  | 119 => ⟨S8192x512, .i1⟩
  | 120 => ⟨S8192x512, .f32⟩
  | 121 => ⟨S8192x512, .f32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S8192x512, .f32⟩

abbrev hbmTy0_10 (i : Nat) : BufTy := match i % 128 with
  | 0 => ⟨S8192, .i32⟩
  | 1 => ⟨S8192x1, .i32⟩
  | 2 => ⟨S8192x512, .f32⟩
  | 3 => ⟨S1x512x512, .f32⟩
  | 4 => ⟨S512x512, .f32⟩
  | 5 => ⟨S512x512, .f32⟩
  | 6 => ⟨S8192x512, .f32⟩
  | 7 => ⟨S1x512, .f32⟩
  | 8 => ⟨S512, .f32⟩
  | 9 => ⟨S1x512, .f32⟩
  | 10 => ⟨S8192x512, .f32⟩
  | 11 => ⟨S8192x512, .f32⟩
  | 12 => ⟨S_, .i32⟩
  | 13 => ⟨S8192, .i32⟩
  | 14 => ⟨S8192, .i1⟩
  | 15 => ⟨S_, .i32⟩
  | 16 => ⟨S8192, .i32⟩
  | 17 => ⟨S8192, .i32⟩
  | 18 => ⟨S8192, .i32⟩
  | 19 => ⟨S8192x1, .i32⟩
  | 20 => ⟨S8192x512, .f32⟩
  | 21 => ⟨S_, .f32⟩
  | 22 => ⟨S_, .f32⟩
  | 23 => ⟨S8192x512, .i1⟩
  | 24 => ⟨S8192x512, .f32⟩
  | 25 => ⟨S8192x512, .f32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S8192x1, .i32⟩
  | 34 => ⟨S8192x512, .f32⟩
  | 35 => ⟨S_, .i32⟩
  | 36 => ⟨S8192, .i32⟩
  | 37 => ⟨S8192, .i1⟩
  | 38 => ⟨S8192x1, .i1⟩
  | 39 => ⟨S1x512x512, .f32⟩
  | 40 => ⟨S512x512, .f32⟩
  | 41 => ⟨S512x512, .f32⟩
  | 42 => ⟨S8192x512, .f32⟩
  | 43 => ⟨S1x512, .f32⟩
  | 44 => ⟨S512, .f32⟩
  | 45 => ⟨S1x512, .f32⟩
  | 46 => ⟨S8192x512, .f32⟩
  | 47 => ⟨S8192x512, .f32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S8192x512, .f32⟩
  | 57 => ⟨S_, .f32⟩
  | 58 => ⟨S_, .f32⟩
  | 59 => ⟨S8192x512, .i1⟩
  | 60 => ⟨S8192x512, .f32⟩
  | 61 => ⟨S8192x512, .f32⟩
  | 62 => ⟨S_, .i32⟩
  | 63 => ⟨S8192, .i32⟩
  | 64 => ⟨S8192, .i1⟩
  | 65 => ⟨S_, .i32⟩
  | 66 => ⟨S8192, .i32⟩
  | 67 => ⟨S8192, .i32⟩
  | 68 => ⟨S8192, .i32⟩
  | 69 => ⟨S8192x1, .i32⟩
  | 70 => ⟨S8192x512, .f32⟩
  | 71 => ⟨S1x512x512, .f32⟩
  | 72 => ⟨S512x512, .f32⟩
  | 73 => ⟨S512x512, .f32⟩
  | 74 => ⟨S8192x512, .f32⟩
  | 75 => ⟨S1x512, .f32⟩
  | 76 => ⟨S512, .f32⟩
  | 77 => ⟨S1x512, .f32⟩
  | 78 => ⟨S8192x512, .f32⟩
  | 79 => ⟨S8192x512, .f32⟩
  | 80 => ⟨S_, .i32⟩
  | 81 => ⟨S8192, .i32⟩
  | 82 => ⟨S8192, .i1⟩
  | 83 => ⟨S_, .i32⟩
  | 84 => ⟨S8192, .i32⟩
  | 85 => ⟨S8192, .i32⟩
  | 86 => ⟨S8192, .i32⟩
  | 87 => ⟨S8192x1, .i32⟩
  | 88 => ⟨S8192x512, .f32⟩
  | 89 => ⟨S_, .f32⟩
  | 90 => ⟨S_, .f32⟩
  | 91 => ⟨S8192x512, .i1⟩
  | 92 => ⟨S8192x512, .f32⟩
  | 93 => ⟨S8192x512, .f32⟩
  | 94 => ⟨S_, .i32⟩
  | 95 => ⟨S8192, .i32⟩
  | 96 => ⟨S8192, .i1⟩
  | 97 => ⟨S_, .i32⟩
  | 98 => ⟨S8192, .i32⟩
  | 99 => ⟨S8192, .i32⟩
  | 100 => ⟨S8192, .i32⟩
  | 101 => ⟨S8192x1, .i32⟩
  | 102 => ⟨S8192x512, .f32⟩
  | 103 => ⟨S_, .f32⟩
  | 104 => ⟨S8192x512, .f32⟩
  | 105 => ⟨S8192x512, .f32⟩
  | 106 => ⟨S1x512x512, .f32⟩
  | 107 => ⟨S512x512, .f32⟩
  | 108 => ⟨S1x512, .f32⟩
  | 109 => ⟨S512, .f32⟩
  | 110 => ⟨S1x40x512x512, .f32⟩
  | 111 => ⟨S40x512x512, .f32⟩
  | 112 => ⟨S1x40x512, .f32⟩
  | 113 => ⟨S40x512, .f32⟩
  | 114 => ⟨S512x512, .f32⟩
  | 115 => ⟨S8192x512, .f32⟩
  | 116 => ⟨S1x512, .f32⟩
  | 117 => ⟨S8192x512, .f32⟩
  | 118 => ⟨S8192x512, .f32⟩
  | 119 => ⟨S_, .i32⟩
  | 120 => ⟨S8192, .i32⟩
  | 121 => ⟨S8192, .i1⟩
  | 122 => ⟨S8192x1, .i1⟩
  | 123 => ⟨S1x512x512, .f32⟩
  | 124 => ⟨S512x512, .f32⟩
  | 125 => ⟨S512x512, .f32⟩
  | 126 => ⟨S8192x512, .f32⟩
  | 127 => ⟨S1x512, .f32⟩
  | _ => ⟨S8192x512, .f32⟩

abbrev hbmTy0_11 (i : Nat) : BufTy := match i % 128 with
  | 0 => ⟨S512, .f32⟩
  | 1 => ⟨S1x512, .f32⟩
  | 2 => ⟨S8192x512, .f32⟩
  | 3 => ⟨S8192x512, .f32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S8192x512, .f32⟩
  | 13 => ⟨S_, .f32⟩
  | 14 => ⟨S_, .f32⟩
  | 15 => ⟨S8192x512, .i1⟩
  | 16 => ⟨S8192x512, .f32⟩
  | 17 => ⟨S8192x512, .f32⟩
  | 18 => ⟨S_, .i32⟩
  | 19 => ⟨S8192, .i32⟩
  | 20 => ⟨S8192, .i1⟩
  | 21 => ⟨S_, .i32⟩
  | 22 => ⟨S8192, .i32⟩
  | 23 => ⟨S8192, .i32⟩
  | 24 => ⟨S8192, .i32⟩
  | 25 => ⟨S8192x1, .i32⟩
  | 26 => ⟨S8192x512, .f32⟩
  | 27 => ⟨S1x512x512, .f32⟩
  | 28 => ⟨S512x512, .f32⟩
  | 29 => ⟨S512x512, .f32⟩
  | 30 => ⟨S8192x512, .f32⟩
  | 31 => ⟨S1x512, .f32⟩
  | 32 => ⟨S512, .f32⟩
  | 33 => ⟨S1x512, .f32⟩
  | 34 => ⟨S8192x512, .f32⟩
  | 35 => ⟨S8192x512, .f32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S8192x1, .i32⟩
  | 44 => ⟨S8192x512, .f32⟩
  | 45 => ⟨S_, .f32⟩
  | 46 => ⟨S_, .f32⟩
  | 47 => ⟨S8192x512, .i1⟩
  | 48 => ⟨S8192x512, .f32⟩
  | 49 => ⟨S8192x512, .f32⟩
  | 50 => ⟨S_, .i32⟩
  | 51 => ⟨S8192, .i32⟩
  | 52 => ⟨S8192, .i1⟩
  | 53 => ⟨S_, .i32⟩
  | 54 => ⟨S8192, .i32⟩
  | 55 => ⟨S8192, .i32⟩
  | 56 => ⟨S8192, .i32⟩
  | 57 => ⟨S8192x1, .i32⟩
  | 58 => ⟨S8192x512, .f32⟩
  | 59 => ⟨S_, .i32⟩
  | 60 => ⟨S8192, .i32⟩
  | 61 => ⟨S8192, .i1⟩
  | 62 => ⟨S8192x1, .i1⟩
  | 63 => ⟨S1x512x512, .f32⟩
  | 64 => ⟨S512x512, .f32⟩
  | 65 => ⟨S512x512, .f32⟩
  | 66 => ⟨S8192x512, .f32⟩
  | 67 => ⟨S1x512, .f32⟩
  | 68 => ⟨S512, .f32⟩
  | 69 => ⟨S1x512, .f32⟩
  | 70 => ⟨S8192x512, .f32⟩
  | 71 => ⟨S8192x512, .f32⟩
  | 72 => ⟨S_, .i32⟩
  | 73 => ⟨S8192, .i32⟩
  | 74 => ⟨S8192, .i1⟩
  | 75 => ⟨S_, .i32⟩
  | 76 => ⟨S8192, .i32⟩
  | 77 => ⟨S8192, .i32⟩
  | 78 => ⟨S8192, .i32⟩
  | 79 => ⟨S8192x1, .i32⟩
  | 80 => ⟨S8192x512, .f32⟩
  | 81 => ⟨S_, .f32⟩
  | 82 => ⟨S_, .f32⟩
  | 83 => ⟨S8192x512, .i1⟩
  | 84 => ⟨S8192x512, .f32⟩
  | 85 => ⟨S8192x512, .f32⟩
  | 86 => ⟨S_, .i32⟩
  | 87 => ⟨S8192, .i32⟩
  | 88 => ⟨S8192, .i1⟩
  | 89 => ⟨S_, .i32⟩
  | 90 => ⟨S8192, .i32⟩
  | 91 => ⟨S8192, .i32⟩
  | 92 => ⟨S8192, .i32⟩
  | 93 => ⟨S8192x1, .i32⟩
  | 94 => ⟨S8192x512, .f32⟩
  | 95 => ⟨S1x512x512, .f32⟩
  | 96 => ⟨S512x512, .f32⟩
  | 97 => ⟨S512x512, .f32⟩
  | 98 => ⟨S8192x512, .f32⟩
  | 99 => ⟨S1x512, .f32⟩
  | 100 => ⟨S512, .f32⟩
  | 101 => ⟨S1x512, .f32⟩
  | 102 => ⟨S8192x512, .f32⟩
  | 103 => ⟨S8192x512, .f32⟩
  | 104 => ⟨S_, .i32⟩
  | 105 => ⟨S8192, .i32⟩
  | 106 => ⟨S8192, .i1⟩
  | 107 => ⟨S_, .i32⟩
  | 108 => ⟨S8192, .i32⟩
  | 109 => ⟨S8192, .i32⟩
  | 110 => ⟨S8192, .i32⟩
  | 111 => ⟨S8192x1, .i32⟩
  | 112 => ⟨S8192x512, .f32⟩
  | 113 => ⟨S_, .f32⟩
  | 114 => ⟨S_, .f32⟩
  | 115 => ⟨S8192x512, .i1⟩
  | 116 => ⟨S8192x512, .f32⟩
  | 117 => ⟨S8192x512, .f32⟩
  | 118 => ⟨S_, .i32⟩
  | 119 => ⟨S8192, .i32⟩
  | 120 => ⟨S8192, .i1⟩
  | 121 => ⟨S_, .i32⟩
  | 122 => ⟨S8192, .i32⟩
  | 123 => ⟨S8192, .i32⟩
  | 124 => ⟨S8192, .i32⟩
  | 125 => ⟨S8192x1, .i32⟩
  | 126 => ⟨S8192x512, .f32⟩
  | 127 => ⟨S_, .i32⟩
  | _ => ⟨S8192x512, .f32⟩

abbrev hbmTy0_12 (i : Nat) : BufTy := match i % 128 with
  | 0 => ⟨S8192, .i32⟩
  | 1 => ⟨S8192, .i1⟩
  | 2 => ⟨S8192x1, .i1⟩
  | 3 => ⟨S1x512x512, .f32⟩
  | 4 => ⟨S512x512, .f32⟩
  | 5 => ⟨S512x512, .f32⟩
  | 6 => ⟨S8192x512, .f32⟩
  | 7 => ⟨S1x512, .f32⟩
  | 8 => ⟨S512, .f32⟩
  | 9 => ⟨S1x512, .f32⟩
  | 10 => ⟨S8192x512, .f32⟩
  | 11 => ⟨S8192x512, .f32⟩
  | 12 => ⟨S_, .i32⟩
  | 13 => ⟨S8192, .i32⟩
  | 14 => ⟨S8192, .i1⟩
  | 15 => ⟨S_, .i32⟩
  | 16 => ⟨S8192, .i32⟩
  | 17 => ⟨S8192, .i32⟩
  | 18 => ⟨S8192, .i32⟩
  | 19 => ⟨S8192x1, .i32⟩
  | 20 => ⟨S8192x512, .f32⟩
  | 21 => ⟨S_, .f32⟩
  | 22 => ⟨S_, .f32⟩
  | 23 => ⟨S8192x512, .i1⟩
  | 24 => ⟨S8192x512, .f32⟩
  | 25 => ⟨S8192x512, .f32⟩
  | 26 => ⟨S_, .i32⟩
  | 27 => ⟨S8192, .i32⟩
  | 28 => ⟨S8192, .i1⟩
  | 29 => ⟨S_, .i32⟩
  | 30 => ⟨S8192, .i32⟩
  | 31 => ⟨S8192, .i32⟩
  | 32 => ⟨S8192, .i32⟩
  | 33 => ⟨S8192x1, .i32⟩
  | 34 => ⟨S8192x512, .f32⟩
  | 35 => ⟨S1x512x512, .f32⟩
  | 36 => ⟨S512x512, .f32⟩
  | 37 => ⟨S512x512, .f32⟩
  | 38 => ⟨S8192x512, .f32⟩
  | 39 => ⟨S1x512, .f32⟩
  | 40 => ⟨S512, .f32⟩
  | 41 => ⟨S1x512, .f32⟩
  | 42 => ⟨S8192x512, .f32⟩
  | 43 => ⟨S8192x512, .f32⟩
  | 44 => ⟨S_, .i32⟩
  | 45 => ⟨S8192, .i32⟩
  | 46 => ⟨S8192, .i1⟩
  | 47 => ⟨S_, .i32⟩
  | 48 => ⟨S8192, .i32⟩
  | 49 => ⟨S8192, .i32⟩
  | 50 => ⟨S8192, .i32⟩
  | 51 => ⟨S8192x1, .i32⟩
  | 52 => ⟨S8192x512, .f32⟩
  | 53 => ⟨S_, .f32⟩
  | 54 => ⟨S_, .f32⟩
  | 55 => ⟨S8192x512, .i1⟩
  | 56 => ⟨S8192x512, .f32⟩
  | 57 => ⟨S8192x512, .f32⟩
  | 58 => ⟨S_, .i32⟩
  | 59 => ⟨S8192, .i32⟩
  | 60 => ⟨S8192, .i1⟩
  | 61 => ⟨S_, .i32⟩
  | 62 => ⟨S8192, .i32⟩
  | 63 => ⟨S8192, .i32⟩
  | 64 => ⟨S8192, .i32⟩
  | 65 => ⟨S8192x1, .i32⟩
  | 66 => ⟨S8192x512, .f32⟩
  | 67 => ⟨S_, .i32⟩
  | 68 => ⟨S8192, .i32⟩
  | 69 => ⟨S8192, .i1⟩
  | 70 => ⟨S8192x1, .i1⟩
  | 71 => ⟨S1x512x512, .f32⟩
  | 72 => ⟨S512x512, .f32⟩
  | 73 => ⟨S512x512, .f32⟩
  | 74 => ⟨S8192x512, .f32⟩
  | 75 => ⟨S1x512, .f32⟩
  | 76 => ⟨S512, .f32⟩
  | 77 => ⟨S1x512, .f32⟩
  | 78 => ⟨S8192x512, .f32⟩
  | 79 => ⟨S8192x512, .f32⟩
  | 80 => ⟨S_, .i32⟩
  | 81 => ⟨S8192, .i32⟩
  | 82 => ⟨S8192, .i1⟩
  | 83 => ⟨S_, .i32⟩
  | 84 => ⟨S8192, .i32⟩
  | 85 => ⟨S8192, .i32⟩
  | 86 => ⟨S8192, .i32⟩
  | 87 => ⟨S8192x1, .i32⟩
  | 88 => ⟨S8192x512, .f32⟩
  | 89 => ⟨S_, .f32⟩
  | 90 => ⟨S_, .f32⟩
  | 91 => ⟨S8192x512, .i1⟩
  | 92 => ⟨S8192x512, .f32⟩
  | 93 => ⟨S8192x512, .f32⟩
  | 94 => ⟨S_, .i32⟩
  | 95 => ⟨S8192, .i32⟩
  | 96 => ⟨S8192, .i1⟩
  | 97 => ⟨S_, .i32⟩
  | 98 => ⟨S8192, .i32⟩
  | 99 => ⟨S8192, .i32⟩
  | 100 => ⟨S8192, .i32⟩
  | 101 => ⟨S8192x1, .i32⟩
  | 102 => ⟨S8192x512, .f32⟩
  | 103 => ⟨S1x512x512, .f32⟩
  | 104 => ⟨S512x512, .f32⟩
  | 105 => ⟨S512x512, .f32⟩
  | 106 => ⟨S8192x512, .f32⟩
  | 107 => ⟨S1x512, .f32⟩
  | 108 => ⟨S512, .f32⟩
  | 109 => ⟨S1x512, .f32⟩
  | 110 => ⟨S8192x512, .f32⟩
  | 111 => ⟨S8192x512, .f32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S8192x512, .f32⟩
  | 121 => ⟨S_, .f32⟩
  | 122 => ⟨S_, .f32⟩
  | 123 => ⟨S8192x512, .i1⟩
  | 124 => ⟨S8192x512, .f32⟩
  | 125 => ⟨S8192x512, .f32⟩
  | 126 => ⟨S_, .i32⟩
  | 127 => ⟨S8192, .i32⟩
  | _ => ⟨S8192x512, .f32⟩

abbrev hbmTy0_13 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S8192x512, .f32⟩
  | 7 => ⟨S_, .i32⟩
  | 8 => ⟨S8192, .i32⟩
  | 9 => ⟨S8192, .i1⟩
  | 10 => ⟨S8192x1, .i1⟩
  | 11 => ⟨S1x512x512, .f32⟩
  | 12 => ⟨S512x512, .f32⟩
  | 13 => ⟨S512x512, .f32⟩
  | 14 => ⟨S8192x512, .f32⟩
  | 15 => ⟨S1x512, .f32⟩
  | 16 => ⟨S512, .f32⟩
  | 17 => ⟨S1x512, .f32⟩
  | 18 => ⟨S8192x512, .f32⟩
  | 19 => ⟨S8192x512, .f32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192x512, .f32⟩
  | 29 => ⟨S_, .f32⟩
  | 30 => ⟨S_, .f32⟩
  | 31 => ⟨S8192x512, .i1⟩
  | 32 => ⟨S8192x512, .f32⟩
  | 33 => ⟨S8192x512, .f32⟩
  | 34 => ⟨S_, .i32⟩
  | 35 => ⟨S8192, .i32⟩
  | 36 => ⟨S8192, .i1⟩
  | 37 => ⟨S_, .i32⟩
  | 38 => ⟨S8192, .i32⟩
  | 39 => ⟨S8192, .i32⟩
  | 40 => ⟨S8192, .i32⟩
  | 41 => ⟨S8192x1, .i32⟩
  | 42 => ⟨S8192x512, .f32⟩
  | 43 => ⟨S1x512x512, .f32⟩
  | 44 => ⟨S512x512, .f32⟩
  | 45 => ⟨S512x512, .f32⟩
  | 46 => ⟨S8192x512, .f32⟩
  | 47 => ⟨S1x512, .f32⟩
  | 48 => ⟨S512, .f32⟩
  | 49 => ⟨S1x512, .f32⟩
  | 50 => ⟨S8192x512, .f32⟩
  | 51 => ⟨S8192x512, .f32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S8192x1, .i32⟩
  | 60 => ⟨S8192x512, .f32⟩
  | 61 => ⟨S_, .f32⟩
  | 62 => ⟨S_, .f32⟩
  | 63 => ⟨S8192x512, .i1⟩
  | 64 => ⟨S8192x512, .f32⟩
  | 65 => ⟨S8192x512, .f32⟩
  | 66 => ⟨S_, .i32⟩
  | 67 => ⟨S8192, .i32⟩
  | 68 => ⟨S8192, .i1⟩
  | 69 => ⟨S_, .i32⟩
  | 70 => ⟨S8192, .i32⟩
  | 71 => ⟨S8192, .i32⟩
  | 72 => ⟨S8192, .i32⟩
  | 73 => ⟨S8192x1, .i32⟩
  | 74 => ⟨S8192x512, .f32⟩
  | 75 => ⟨S_, .i32⟩
  | 76 => ⟨S8192, .i32⟩
  | 77 => ⟨S8192, .i1⟩
  | 78 => ⟨S8192x1, .i1⟩
  | 79 => ⟨S1x512x512, .f32⟩
  | 80 => ⟨S512x512, .f32⟩
  | 81 => ⟨S512x512, .f32⟩
  | 82 => ⟨S8192x512, .f32⟩
  | 83 => ⟨S1x512, .f32⟩
  | 84 => ⟨S512, .f32⟩
  | 85 => ⟨S1x512, .f32⟩
  | 86 => ⟨S8192x512, .f32⟩
  | 87 => ⟨S8192x512, .f32⟩
  | 88 => ⟨S_, .i32⟩
  | 89 => ⟨S8192, .i32⟩
  | 90 => ⟨S8192, .i1⟩
  | 91 => ⟨S_, .i32⟩
  | 92 => ⟨S8192, .i32⟩
  | 93 => ⟨S8192, .i32⟩
  | 94 => ⟨S8192, .i32⟩
  | 95 => ⟨S8192x1, .i32⟩
  | 96 => ⟨S8192x512, .f32⟩
  | 97 => ⟨S_, .f32⟩
  | 98 => ⟨S_, .f32⟩
  | 99 => ⟨S8192x512, .i1⟩
  | 100 => ⟨S8192x512, .f32⟩
  | 101 => ⟨S8192x512, .f32⟩
  | 102 => ⟨S_, .i32⟩
  | 103 => ⟨S8192, .i32⟩
  | 104 => ⟨S8192, .i1⟩
  | 105 => ⟨S_, .i32⟩
  | 106 => ⟨S8192, .i32⟩
  | 107 => ⟨S8192, .i32⟩
  | 108 => ⟨S8192, .i32⟩
  | 109 => ⟨S8192x1, .i32⟩
  | 110 => ⟨S8192x512, .f32⟩
  | 111 => ⟨S1x512x512, .f32⟩
  | 112 => ⟨S512x512, .f32⟩
  | 113 => ⟨S512x512, .f32⟩
  | 114 => ⟨S8192x512, .f32⟩
  | 115 => ⟨S1x512, .f32⟩
  | 116 => ⟨S512, .f32⟩
  | 117 => ⟨S1x512, .f32⟩
  | 118 => ⟨S8192x512, .f32⟩
  | 119 => ⟨S8192x512, .f32⟩
  | 120 => ⟨S_, .i32⟩
  | 121 => ⟨S8192, .i32⟩
  | 122 => ⟨S8192, .i1⟩
  | 123 => ⟨S_, .i32⟩
  | 124 => ⟨S8192, .i32⟩
  | 125 => ⟨S8192, .i32⟩
  | 126 => ⟨S8192, .i32⟩
  | 127 => ⟨S8192x1, .i32⟩
  | _ => ⟨S8192x512, .f32⟩

abbrev hbmTy0_14 (i : Nat) : BufTy := match i % 128 with
  | 0 => ⟨S8192x512, .f32⟩
  | 1 => ⟨S_, .f32⟩
  | 2 => ⟨S_, .f32⟩
  | 3 => ⟨S8192x512, .i1⟩
  | 4 => ⟨S8192x512, .f32⟩
  | 5 => ⟨S8192x512, .f32⟩
  | 6 => ⟨S_, .i32⟩
  | 7 => ⟨S8192, .i32⟩
  | 8 => ⟨S8192, .i1⟩
  | 9 => ⟨S_, .i32⟩
  | 10 => ⟨S8192, .i32⟩
  | 11 => ⟨S8192, .i32⟩
  | 12 => ⟨S8192, .i32⟩
  | 13 => ⟨S8192x1, .i32⟩
  | 14 => ⟨S8192x512, .f32⟩
  | 15 => ⟨S_, .i32⟩
  | 16 => ⟨S8192, .i32⟩
  | 17 => ⟨S8192, .i1⟩
  | 18 => ⟨S8192x1, .i1⟩
  | 19 => ⟨S1x512x512, .f32⟩
  | 20 => ⟨S512x512, .f32⟩
  | 21 => ⟨S512x512, .f32⟩
  | 22 => ⟨S8192x512, .f32⟩
  | 23 => ⟨S1x512, .f32⟩
  | 24 => ⟨S512, .f32⟩
  | 25 => ⟨S1x512, .f32⟩
  | 26 => ⟨S8192x512, .f32⟩
  | 27 => ⟨S8192x512, .f32⟩
  | 28 => ⟨S_, .i32⟩
  | 29 => ⟨S8192, .i32⟩
  | 30 => ⟨S8192, .i1⟩
  | 31 => ⟨S_, .i32⟩
  | 32 => ⟨S8192, .i32⟩
  | 33 => ⟨S8192, .i32⟩
  | 34 => ⟨S8192, .i32⟩
  | 35 => ⟨S8192x1, .i32⟩
  | 36 => ⟨S8192x512, .f32⟩
  | 37 => ⟨S_, .f32⟩
  | 38 => ⟨S_, .f32⟩
  | 39 => ⟨S8192x512, .i1⟩
  | 40 => ⟨S8192x512, .f32⟩
  | 41 => ⟨S8192x512, .f32⟩
  | 42 => ⟨S_, .i32⟩
  | 43 => ⟨S8192, .i32⟩
  | 44 => ⟨S8192, .i1⟩
  | 45 => ⟨S_, .i32⟩
  | 46 => ⟨S8192, .i32⟩
  | 47 => ⟨S8192, .i32⟩
  | 48 => ⟨S8192, .i32⟩
  | 49 => ⟨S8192x1, .i32⟩
  | 50 => ⟨S8192x512, .f32⟩
  | 51 => ⟨S1x512x512, .f32⟩
  | 52 => ⟨S512x512, .f32⟩
  | 53 => ⟨S512x512, .f32⟩
  | 54 => ⟨S8192x512, .f32⟩
  | 55 => ⟨S1x512, .f32⟩
  | 56 => ⟨S512, .f32⟩
  | 57 => ⟨S1x512, .f32⟩
  | 58 => ⟨S8192x512, .f32⟩
  | 59 => ⟨S8192x512, .f32⟩
  | 60 => ⟨S_, .i32⟩
  | 61 => ⟨S8192, .i32⟩
  | 62 => ⟨S8192, .i1⟩
  | 63 => ⟨S_, .i32⟩
  | 64 => ⟨S8192, .i32⟩
  | 65 => ⟨S8192, .i32⟩
  | 66 => ⟨S8192, .i32⟩
  | 67 => ⟨S8192x1, .i32⟩
  | 68 => ⟨S8192x512, .f32⟩
  | 69 => ⟨S_, .f32⟩
  | 70 => ⟨S_, .f32⟩
  | 71 => ⟨S8192x512, .i1⟩
  | 72 => ⟨S8192x512, .f32⟩
  | 73 => ⟨S8192x512, .f32⟩
  | 74 => ⟨S_, .i32⟩
  | 75 => ⟨S8192, .i32⟩
  | 76 => ⟨S8192, .i1⟩
  | 77 => ⟨S_, .i32⟩
  | 78 => ⟨S8192, .i32⟩
  | 79 => ⟨S8192, .i32⟩
  | 80 => ⟨S8192, .i32⟩
  | 81 => ⟨S8192x1, .i32⟩
  | 82 => ⟨S8192x512, .f32⟩
  | 83 => ⟨S_, .i32⟩
  | 84 => ⟨S8192, .i32⟩
  | 85 => ⟨S8192, .i1⟩
  | 86 => ⟨S8192x1, .i1⟩
  | 87 => ⟨S1x512x512, .f32⟩
  | 88 => ⟨S512x512, .f32⟩
  | 89 => ⟨S512x512, .f32⟩
  | 90 => ⟨S8192x512, .f32⟩
  | 91 => ⟨S1x512, .f32⟩
  | 92 => ⟨S512, .f32⟩
  | 93 => ⟨S1x512, .f32⟩
  | 94 => ⟨S8192x512, .f32⟩
  | 95 => ⟨S8192x512, .f32⟩
  | 96 => ⟨S_, .i32⟩
  | 97 => ⟨S8192, .i32⟩
  | 98 => ⟨S8192, .i1⟩
  | 99 => ⟨S_, .i32⟩
  | 100 => ⟨S8192, .i32⟩
  | 101 => ⟨S8192, .i32⟩
  | 102 => ⟨S8192, .i32⟩
  | 103 => ⟨S8192x1, .i32⟩
  | 104 => ⟨S8192x512, .f32⟩
  | 105 => ⟨S_, .f32⟩
  | 106 => ⟨S_, .f32⟩
  | 107 => ⟨S8192x512, .i1⟩
  | 108 => ⟨S8192x512, .f32⟩
  | 109 => ⟨S8192x512, .f32⟩
  | 110 => ⟨S_, .i32⟩
  | 111 => ⟨S8192, .i32⟩
  | 112 => ⟨S8192, .i1⟩
  | 113 => ⟨S_, .i32⟩
  | 114 => ⟨S8192, .i32⟩
  | 115 => ⟨S8192, .i32⟩
  | 116 => ⟨S8192, .i32⟩
  | 117 => ⟨S8192x1, .i32⟩
  | 118 => ⟨S8192x512, .f32⟩
  | 119 => ⟨S1x512x512, .f32⟩
  | 120 => ⟨S512x512, .f32⟩
  | 121 => ⟨S512x512, .f32⟩
  | 122 => ⟨S8192x512, .f32⟩
  | 123 => ⟨S1x512, .f32⟩
  | 124 => ⟨S512, .f32⟩
  | 125 => ⟨S1x512, .f32⟩
  | 126 => ⟨S8192x512, .f32⟩
  | 127 => ⟨S8192x512, .f32⟩
  | _ => ⟨S8192x512, .f32⟩

abbrev hbmTy0_15 (i : Nat) : BufTy := match i % 128 with
  | 0 => ⟨S_, .i32⟩
  | 1 => ⟨S8192, .i32⟩
  | 2 => ⟨S8192, .i1⟩
  | 3 => ⟨S_, .i32⟩
  | 4 => ⟨S8192, .i32⟩
  | 5 => ⟨S8192, .i32⟩
  | 6 => ⟨S8192, .i32⟩
  | 7 => ⟨S8192x1, .i32⟩
  | 8 => ⟨S8192x512, .f32⟩
  | 9 => ⟨S_, .f32⟩
  | 10 => ⟨S_, .f32⟩
  | 11 => ⟨S8192x512, .i1⟩
  | 12 => ⟨S8192x512, .f32⟩
  | 13 => ⟨S8192x512, .f32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192x512, .f32⟩
  | 23 => ⟨S_, .i32⟩
  | 24 => ⟨S8192, .i32⟩
  | 25 => ⟨S8192, .i1⟩
  | 26 => ⟨S8192x1, .i1⟩
  | 27 => ⟨S1x512x512, .f32⟩
  | 28 => ⟨S512x512, .f32⟩
  | 29 => ⟨S512x512, .f32⟩
  | 30 => ⟨S8192x512, .f32⟩
  | 31 => ⟨S1x512, .f32⟩
  | 32 => ⟨S512, .f32⟩
  | 33 => ⟨S1x512, .f32⟩
  | 34 => ⟨S8192x512, .f32⟩
  | 35 => ⟨S8192x512, .f32⟩
  | 36 => ⟨S_, .i32⟩
  | 37 => ⟨S8192, .i32⟩
  | 38 => ⟨S8192, .i1⟩
  | 39 => ⟨S_, .i32⟩
  | 40 => ⟨S8192, .i32⟩
  | 41 => ⟨S8192, .i32⟩
  | 42 => ⟨S8192, .i32⟩
  | 43 => ⟨S8192x1, .i32⟩
  | 44 => ⟨S8192x512, .f32⟩
  | 45 => ⟨S_, .f32⟩
  | 46 => ⟨S_, .f32⟩
  | 47 => ⟨S8192x512, .i1⟩
  | 48 => ⟨S8192x512, .f32⟩
  | 49 => ⟨S8192x512, .f32⟩
  | 50 => ⟨S_, .i32⟩
  | 51 => ⟨S8192, .i32⟩
  | 52 => ⟨S8192, .i1⟩
  | 53 => ⟨S_, .i32⟩
  | 54 => ⟨S8192, .i32⟩
  | 55 => ⟨S8192, .i32⟩
  | 56 => ⟨S8192, .i32⟩
  | 57 => ⟨S8192x1, .i32⟩
  | 58 => ⟨S8192x512, .f32⟩
  | 59 => ⟨S1x512x512, .f32⟩
  | 60 => ⟨S512x512, .f32⟩
  | 61 => ⟨S512x512, .f32⟩
  | 62 => ⟨S8192x512, .f32⟩
  | 63 => ⟨S1x512, .f32⟩
  | 64 => ⟨S512, .f32⟩
  | 65 => ⟨S1x512, .f32⟩
  | 66 => ⟨S8192x512, .f32⟩
  | 67 => ⟨S8192x512, .f32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192x512, .f32⟩
  | 77 => ⟨S_, .f32⟩
  | 78 => ⟨S_, .f32⟩
  | 79 => ⟨S8192x512, .i1⟩
  | 80 => ⟨S8192x512, .f32⟩
  | 81 => ⟨S8192x512, .f32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S8192x512, .f32⟩
  | 91 => ⟨S_, .i32⟩
  | 92 => ⟨S8192, .i32⟩
  | 93 => ⟨S8192, .i1⟩
  | 94 => ⟨S8192x1, .i1⟩
  | 95 => ⟨S1x512x512, .f32⟩
  | 96 => ⟨S512x512, .f32⟩
  | 97 => ⟨S512x512, .f32⟩
  | 98 => ⟨S8192x512, .f32⟩
  | 99 => ⟨S1x512, .f32⟩
  | 100 => ⟨S512, .f32⟩
  | 101 => ⟨S1x512, .f32⟩
  | 102 => ⟨S8192x512, .f32⟩
  | 103 => ⟨S8192x512, .f32⟩
  | 104 => ⟨S_, .i32⟩
  | 105 => ⟨S8192, .i32⟩
  | 106 => ⟨S8192, .i1⟩
  | 107 => ⟨S_, .i32⟩
  | 108 => ⟨S8192, .i32⟩
  | 109 => ⟨S8192, .i32⟩
  | 110 => ⟨S8192, .i32⟩
  | 111 => ⟨S8192x1, .i32⟩
  | 112 => ⟨S8192x512, .f32⟩
  | 113 => ⟨S_, .f32⟩
  | 114 => ⟨S_, .f32⟩
  | 115 => ⟨S8192x512, .i1⟩
  | 116 => ⟨S8192x512, .f32⟩
  | 117 => ⟨S8192x512, .f32⟩
  | 118 => ⟨S_, .i32⟩
  | 119 => ⟨S8192, .i32⟩
  | 120 => ⟨S8192, .i1⟩
  | 121 => ⟨S_, .i32⟩
  | 122 => ⟨S8192, .i32⟩
  | 123 => ⟨S8192, .i32⟩
  | 124 => ⟨S8192, .i32⟩
  | 125 => ⟨S8192x1, .i32⟩
  | 126 => ⟨S8192x512, .f32⟩
  | 127 => ⟨S1x512x512, .f32⟩
  | _ => ⟨S8192x512, .f32⟩

abbrev hbmTy0_16 (i : Nat) : BufTy := match i % 128 with
  | 0 => ⟨S512x512, .f32⟩
  | 1 => ⟨S512x512, .f32⟩
  | 2 => ⟨S8192x512, .f32⟩
  | 3 => ⟨S1x512, .f32⟩
  | 4 => ⟨S512, .f32⟩
  | 5 => ⟨S1x512, .f32⟩
  | 6 => ⟨S8192x512, .f32⟩
  | 7 => ⟨S8192x512, .f32⟩
  | 8 => ⟨S_, .i32⟩
  | 9 => ⟨S8192, .i32⟩
  | 10 => ⟨S8192, .i1⟩
  | 11 => ⟨S_, .i32⟩
  | 12 => ⟨S8192, .i32⟩
  | 13 => ⟨S8192, .i32⟩
  | 14 => ⟨S8192, .i32⟩
  | 15 => ⟨S8192x1, .i32⟩
  | 16 => ⟨S8192x512, .f32⟩
  | 17 => ⟨S_, .f32⟩
  | 18 => ⟨S_, .f32⟩
  | 19 => ⟨S8192x512, .i1⟩
  | 20 => ⟨S8192x512, .f32⟩
  | 21 => ⟨S8192x512, .f32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S8192x1, .i32⟩
  | 30 => ⟨S8192x512, .f32⟩
  | 31 => ⟨S_, .i32⟩
  | 32 => ⟨S8192, .i32⟩
  | 33 => ⟨S8192, .i1⟩
  | 34 => ⟨S8192x1, .i1⟩
  | 35 => ⟨S1x512x512, .f32⟩
  | 36 => ⟨S512x512, .f32⟩
  | 37 => ⟨S512x512, .f32⟩
  | 38 => ⟨S8192x512, .f32⟩
  | 39 => ⟨S1x512, .f32⟩
  | 40 => ⟨S512, .f32⟩
  | 41 => ⟨S1x512, .f32⟩
  | 42 => ⟨S8192x512, .f32⟩
  | 43 => ⟨S8192x512, .f32⟩
  | 44 => ⟨S_, .i32⟩
  | 45 => ⟨S8192, .i32⟩
  | 46 => ⟨S8192, .i1⟩
  | 47 => ⟨S_, .i32⟩
  | 48 => ⟨S8192, .i32⟩
  | 49 => ⟨S8192, .i32⟩
  | 50 => ⟨S8192, .i32⟩
  | 51 => ⟨S8192x1, .i32⟩
  | 52 => ⟨S8192x512, .f32⟩
  | 53 => ⟨S_, .f32⟩
  | 54 => ⟨S_, .f32⟩
  | 55 => ⟨S8192x512, .i1⟩
  | 56 => ⟨S8192x512, .f32⟩
  | 57 => ⟨S8192x512, .f32⟩
  | 58 => ⟨S_, .i32⟩
  | 59 => ⟨S8192, .i32⟩
  | 60 => ⟨S8192, .i1⟩
  | 61 => ⟨S_, .i32⟩
  | 62 => ⟨S8192, .i32⟩
  | 63 => ⟨S8192, .i32⟩
  | 64 => ⟨S8192, .i32⟩
  | 65 => ⟨S8192x1, .i32⟩
  | 66 => ⟨S8192x512, .f32⟩
  | 67 => ⟨S1x512x512, .f32⟩
  | 68 => ⟨S512x512, .f32⟩
  | 69 => ⟨S512x512, .f32⟩
  | 70 => ⟨S8192x512, .f32⟩
  | 71 => ⟨S1x512, .f32⟩
  | 72 => ⟨S512, .f32⟩
  | 73 => ⟨S1x512, .f32⟩
  | 74 => ⟨S8192x512, .f32⟩
  | 75 => ⟨S8192x512, .f32⟩
  | 76 => ⟨S_, .i32⟩
  | 77 => ⟨S8192, .i32⟩
  | 78 => ⟨S8192, .i1⟩
  | 79 => ⟨S_, .i32⟩
  | 80 => ⟨S8192, .i32⟩
  | 81 => ⟨S8192, .i32⟩
  | 82 => ⟨S8192, .i32⟩
  | 83 => ⟨S8192x1, .i32⟩
  | 84 => ⟨S8192x512, .f32⟩
  | 85 => ⟨S_, .f32⟩
  | 86 => ⟨S_, .f32⟩
  | 87 => ⟨S8192x512, .i1⟩
  | 88 => ⟨S8192x512, .f32⟩
  | 89 => ⟨S8192x512, .f32⟩
  | 90 => ⟨S_, .i32⟩
  | 91 => ⟨S8192, .i32⟩
  | 92 => ⟨S8192, .i1⟩
  | 93 => ⟨S_, .i32⟩
  | 94 => ⟨S8192, .i32⟩
  | 95 => ⟨S8192, .i32⟩
  | 96 => ⟨S8192, .i32⟩
  | 97 => ⟨S8192x1, .i32⟩
  | 98 => ⟨S8192x512, .f32⟩
  | 99 => ⟨S_, .i32⟩
  | 100 => ⟨S8192, .i32⟩
  | 101 => ⟨S8192, .i1⟩
  | 102 => ⟨S8192x1, .i1⟩
  | 103 => ⟨S1x512x512, .f32⟩
  | 104 => ⟨S512x512, .f32⟩
  | 105 => ⟨S512x512, .f32⟩
  | 106 => ⟨S8192x512, .f32⟩
  | 107 => ⟨S1x512, .f32⟩
  | 108 => ⟨S512, .f32⟩
  | 109 => ⟨S1x512, .f32⟩
  | 110 => ⟨S8192x512, .f32⟩
  | 111 => ⟨S8192x512, .f32⟩
  | 112 => ⟨S_, .i32⟩
  | 113 => ⟨S8192, .i32⟩
  | 114 => ⟨S8192, .i1⟩
  | 115 => ⟨S_, .i32⟩
  | 116 => ⟨S8192, .i32⟩
  | 117 => ⟨S8192, .i32⟩
  | 118 => ⟨S8192, .i32⟩
  | 119 => ⟨S8192x1, .i32⟩
  | 120 => ⟨S8192x512, .f32⟩
  | 121 => ⟨S_, .f32⟩
  | 122 => ⟨S_, .f32⟩
  | 123 => ⟨S8192x512, .i1⟩
  | 124 => ⟨S8192x512, .f32⟩
  | 125 => ⟨S8192x512, .f32⟩
  | 126 => ⟨S_, .i32⟩
  | 127 => ⟨S8192, .i32⟩
  | _ => ⟨S8192x512, .f32⟩

abbrev hbmTy0_17 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S8192x512, .f32⟩
  | 7 => ⟨S1x512x512, .f32⟩
  | 8 => ⟨S512x512, .f32⟩
  | 9 => ⟨S512x512, .f32⟩
  | 10 => ⟨S8192x512, .f32⟩
  | 11 => ⟨S1x512, .f32⟩
  | 12 => ⟨S512, .f32⟩
  | 13 => ⟨S1x512, .f32⟩
  | 14 => ⟨S8192x512, .f32⟩
  | 15 => ⟨S8192x512, .f32⟩
  | 16 => ⟨S_, .i32⟩
  | 17 => ⟨S8192, .i32⟩
  | 18 => ⟨S8192, .i1⟩
  | 19 => ⟨S_, .i32⟩
  | 20 => ⟨S8192, .i32⟩
  | 21 => ⟨S8192, .i32⟩
  | 22 => ⟨S8192, .i32⟩
  | 23 => ⟨S8192x1, .i32⟩
  | 24 => ⟨S8192x512, .f32⟩
  | 25 => ⟨S_, .f32⟩
  | 26 => ⟨S_, .f32⟩
  | 27 => ⟨S8192x512, .i1⟩
  | 28 => ⟨S8192x512, .f32⟩
  | 29 => ⟨S8192x512, .f32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S8192x512, .f32⟩
  | 39 => ⟨S_, .i32⟩
  | 40 => ⟨S8192, .i32⟩
  | 41 => ⟨S8192, .i1⟩
  | 42 => ⟨S8192x1, .i1⟩
  | 43 => ⟨S1x512x512, .f32⟩
  | 44 => ⟨S512x512, .f32⟩
  | 45 => ⟨S512x512, .f32⟩
  | 46 => ⟨S8192x512, .f32⟩
  | 47 => ⟨S1x512, .f32⟩
  | 48 => ⟨S512, .f32⟩
  | 49 => ⟨S1x512, .f32⟩
  | 50 => ⟨S8192x512, .f32⟩
  | 51 => ⟨S8192x512, .f32⟩
  | 52 => ⟨S_, .i32⟩
  | 53 => ⟨S8192, .i32⟩
  | 54 => ⟨S8192, .i1⟩
  | 55 => ⟨S_, .i32⟩
  | 56 => ⟨S8192, .i32⟩
  | 57 => ⟨S8192, .i32⟩
  | 58 => ⟨S8192, .i32⟩
  | 59 => ⟨S8192x1, .i32⟩
  | 60 => ⟨S8192x512, .f32⟩
  | 61 => ⟨S_, .f32⟩
  | 62 => ⟨S_, .f32⟩
  | 63 => ⟨S8192x512, .i1⟩
  | 64 => ⟨S8192x512, .f32⟩
  | 65 => ⟨S8192x512, .f32⟩
  | 66 => ⟨S_, .i32⟩
  | 67 => ⟨S8192, .i32⟩
  | 68 => ⟨S8192, .i1⟩
  | 69 => ⟨S_, .i32⟩
  | 70 => ⟨S8192, .i32⟩
  | 71 => ⟨S8192, .i32⟩
  | 72 => ⟨S8192, .i32⟩
  | 73 => ⟨S8192x1, .i32⟩
  | 74 => ⟨S8192x512, .f32⟩
  | 75 => ⟨S1x512x512, .f32⟩
  | 76 => ⟨S512x512, .f32⟩
  | 77 => ⟨S512x512, .f32⟩
  | 78 => ⟨S8192x512, .f32⟩
  | 79 => ⟨S1x512, .f32⟩
  | 80 => ⟨S512, .f32⟩
  | 81 => ⟨S1x512, .f32⟩
  | 82 => ⟨S8192x512, .f32⟩
  | 83 => ⟨S8192x512, .f32⟩
  | 84 => ⟨S_, .i32⟩
  | 85 => ⟨S8192, .i32⟩
  | 86 => ⟨S8192, .i1⟩
  | 87 => ⟨S_, .i32⟩
  | 88 => ⟨S8192, .i32⟩
  | 89 => ⟨S8192, .i32⟩
  | 90 => ⟨S8192, .i32⟩
  | 91 => ⟨S8192x1, .i32⟩
  | 92 => ⟨S8192x512, .f32⟩
  | 93 => ⟨S_, .f32⟩
  | 94 => ⟨S_, .f32⟩
  | 95 => ⟨S8192x512, .i1⟩
  | 96 => ⟨S8192x512, .f32⟩
  | 97 => ⟨S8192x512, .f32⟩
  | 98 => ⟨S_, .i32⟩
  | 99 => ⟨S8192, .i32⟩
  | 100 => ⟨S8192, .i1⟩
  | 101 => ⟨S_, .i32⟩
  | 102 => ⟨S8192, .i32⟩
  | 103 => ⟨S8192, .i32⟩
  | 104 => ⟨S8192, .i32⟩
  | 105 => ⟨S8192x1, .i32⟩
  | 106 => ⟨S8192x512, .f32⟩
  | 107 => ⟨S_, .i32⟩
  | 108 => ⟨S8192, .i32⟩
  | 109 => ⟨S8192, .i1⟩
  | 110 => ⟨S8192x1, .i1⟩
  | 111 => ⟨S1x512x512, .f32⟩
  | 112 => ⟨S512x512, .f32⟩
  | 113 => ⟨S512x512, .f32⟩
  | 114 => ⟨S8192x512, .f32⟩
  | 115 => ⟨S1x512, .f32⟩
  | 116 => ⟨S512, .f32⟩
  | 117 => ⟨S1x512, .f32⟩
  | 118 => ⟨S8192x512, .f32⟩
  | 119 => ⟨S8192x512, .f32⟩
  | 120 => ⟨S_, .i32⟩
  | 121 => ⟨S8192, .i32⟩
  | 122 => ⟨S8192, .i1⟩
  | 123 => ⟨S_, .i32⟩
  | 124 => ⟨S8192, .i32⟩
  | 125 => ⟨S8192, .i32⟩
  | 126 => ⟨S8192, .i32⟩
  | 127 => ⟨S8192x1, .i32⟩
  | _ => ⟨S8192x512, .f32⟩

abbrev hbmTy0_18 (i : Nat) : BufTy := match i % 128 with
  | 0 => ⟨S8192x512, .f32⟩
  | 1 => ⟨S_, .f32⟩
  | 2 => ⟨S_, .f32⟩
  | 3 => ⟨S8192x512, .i1⟩
  | 4 => ⟨S8192x512, .f32⟩
  | 5 => ⟨S8192x512, .f32⟩
  | 6 => ⟨S_, .i32⟩
  | 7 => ⟨S8192, .i32⟩
  | 8 => ⟨S8192, .i1⟩
  | 9 => ⟨S_, .i32⟩
  | 10 => ⟨S8192, .i32⟩
  | 11 => ⟨S8192, .i32⟩
  | 12 => ⟨S8192, .i32⟩
  | 13 => ⟨S8192x1, .i32⟩
  | 14 => ⟨S8192x512, .f32⟩
  | 15 => ⟨S1x512x512, .f32⟩
  | 16 => ⟨S512x512, .f32⟩
  | 17 => ⟨S512x512, .f32⟩
  | 18 => ⟨S8192x512, .f32⟩
  | 19 => ⟨S1x512, .f32⟩
  | 20 => ⟨S512, .f32⟩
  | 21 => ⟨S1x512, .f32⟩
  | 22 => ⟨S8192x512, .f32⟩
  | 23 => ⟨S8192x512, .f32⟩
  | 24 => ⟨S_, .i32⟩
  | 25 => ⟨S8192, .i32⟩
  | 26 => ⟨S8192, .i1⟩
  | 27 => ⟨S_, .i32⟩
  | 28 => ⟨S8192, .i32⟩
  | 29 => ⟨S8192, .i32⟩
  | 30 => ⟨S8192, .i32⟩
  | 31 => ⟨S8192x1, .i32⟩
  | 32 => ⟨S8192x512, .f32⟩
  | 33 => ⟨S_, .f32⟩
  | 34 => ⟨S_, .f32⟩
  | 35 => ⟨S8192x512, .i1⟩
  | 36 => ⟨S8192x512, .f32⟩
  | 37 => ⟨S8192x512, .f32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S8192x1, .i32⟩
  | 46 => ⟨S8192x512, .f32⟩
  | 47 => ⟨S_, .i32⟩
  | 48 => ⟨S8192, .i32⟩
  | 49 => ⟨S8192, .i1⟩
  | 50 => ⟨S8192x1, .i1⟩
  | 51 => ⟨S1x512x512, .f32⟩
  | 52 => ⟨S512x512, .f32⟩
  | 53 => ⟨S512x512, .f32⟩
  | 54 => ⟨S8192x512, .f32⟩
  | 55 => ⟨S1x512, .f32⟩
  | 56 => ⟨S512, .f32⟩
  | 57 => ⟨S1x512, .f32⟩
  | 58 => ⟨S8192x512, .f32⟩
  | 59 => ⟨S8192x512, .f32⟩
  | 60 => ⟨S_, .i32⟩
  | 61 => ⟨S8192, .i32⟩
  | 62 => ⟨S8192, .i1⟩
  | 63 => ⟨S_, .i32⟩
  | 64 => ⟨S8192, .i32⟩
  | 65 => ⟨S8192, .i32⟩
  | 66 => ⟨S8192, .i32⟩
  | 67 => ⟨S8192x1, .i32⟩
  | 68 => ⟨S8192x512, .f32⟩
  | 69 => ⟨S_, .f32⟩
  | 70 => ⟨S_, .f32⟩
  | 71 => ⟨S8192x512, .i1⟩
  | 72 => ⟨S8192x512, .f32⟩
  | 73 => ⟨S8192x512, .f32⟩
  | 74 => ⟨S_, .i32⟩
  | 75 => ⟨S8192, .i32⟩
  | 76 => ⟨S8192, .i1⟩
  | 77 => ⟨S_, .i32⟩
  | 78 => ⟨S8192, .i32⟩
  | 79 => ⟨S8192, .i32⟩
  | 80 => ⟨S8192, .i32⟩
  | 81 => ⟨S8192x1, .i32⟩
  | 82 => ⟨S8192x512, .f32⟩
  | 83 => ⟨S1x512x512, .f32⟩
  | 84 => ⟨S512x512, .f32⟩
  | 85 => ⟨S512x512, .f32⟩
  | 86 => ⟨S8192x512, .f32⟩
  | 87 => ⟨S1x512, .f32⟩
  | 88 => ⟨S512, .f32⟩
  | 89 => ⟨S1x512, .f32⟩
  | 90 => ⟨S8192x512, .f32⟩
  | 91 => ⟨S8192x512, .f32⟩
  | 92 => ⟨S_, .i32⟩
  | 93 => ⟨S8192, .i32⟩
  | 94 => ⟨S8192, .i1⟩
  | 95 => ⟨S_, .i32⟩
  | 96 => ⟨S8192, .i32⟩
  | 97 => ⟨S8192, .i32⟩
  | 98 => ⟨S8192, .i32⟩
  | 99 => ⟨S8192x1, .i32⟩
  | 100 => ⟨S8192x512, .f32⟩
  | 101 => ⟨S_, .f32⟩
  | 102 => ⟨S_, .f32⟩
  | 103 => ⟨S8192x512, .i1⟩
  | 104 => ⟨S8192x512, .f32⟩
  | 105 => ⟨S8192x512, .f32⟩
  | 106 => ⟨S_, .i32⟩
  | 107 => ⟨S8192, .i32⟩
  | 108 => ⟨S8192, .i1⟩
  | 109 => ⟨S_, .i32⟩
  | 110 => ⟨S8192, .i32⟩
  | 111 => ⟨S8192, .i32⟩
  | 112 => ⟨S8192, .i32⟩
  | 113 => ⟨S8192x1, .i32⟩
  | 114 => ⟨S8192x512, .f32⟩
  | 115 => ⟨S_, .i32⟩
  | 116 => ⟨S8192, .i32⟩
  | 117 => ⟨S8192, .i1⟩
  | 118 => ⟨S8192x1, .i1⟩
  | 119 => ⟨S1x512x512, .f32⟩
  | 120 => ⟨S512x512, .f32⟩
  | 121 => ⟨S512x512, .f32⟩
  | 122 => ⟨S8192x512, .f32⟩
  | 123 => ⟨S1x512, .f32⟩
  | 124 => ⟨S512, .f32⟩
  | 125 => ⟨S1x512, .f32⟩
  | 126 => ⟨S8192x512, .f32⟩
  | 127 => ⟨S8192x512, .f32⟩
  | _ => ⟨S8192x512, .f32⟩

abbrev hbmTy0_19 (i : Nat) : BufTy := match i % 128 with
  | 0 => ⟨S_, .i32⟩
  | 1 => ⟨S8192, .i32⟩
  | 2 => ⟨S8192, .i1⟩
  | 3 => ⟨S_, .i32⟩
  | 4 => ⟨S8192, .i32⟩
  | 5 => ⟨S8192, .i32⟩
  | 6 => ⟨S8192, .i32⟩
  | 7 => ⟨S8192x1, .i32⟩
  | 8 => ⟨S8192x512, .f32⟩
  | 9 => ⟨S_, .f32⟩
  | 10 => ⟨S_, .f32⟩
  | 11 => ⟨S8192x512, .i1⟩
  | 12 => ⟨S8192x512, .f32⟩
  | 13 => ⟨S8192x512, .f32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S8192x1, .i32⟩
  | 22 => ⟨S8192x512, .f32⟩
  | 23 => ⟨S1x512x512, .f32⟩
  | 24 => ⟨S512x512, .f32⟩
  | 25 => ⟨S512x512, .f32⟩
  | 26 => ⟨S8192x512, .f32⟩
  | 27 => ⟨S1x512, .f32⟩
  | 28 => ⟨S512, .f32⟩
  | 29 => ⟨S1x512, .f32⟩
  | 30 => ⟨S8192x512, .f32⟩
  | 31 => ⟨S8192x512, .f32⟩
  | 32 => ⟨S_, .i32⟩
  | 33 => ⟨S8192, .i32⟩
  | 34 => ⟨S8192, .i1⟩
  | 35 => ⟨S_, .i32⟩
  | 36 => ⟨S8192, .i32⟩
  | 37 => ⟨S8192, .i32⟩
  | 38 => ⟨S8192, .i32⟩
  | 39 => ⟨S8192x1, .i32⟩
  | 40 => ⟨S8192x512, .f32⟩
  | 41 => ⟨S_, .f32⟩
  | 42 => ⟨S_, .f32⟩
  | 43 => ⟨S8192x512, .i1⟩
  | 44 => ⟨S8192x512, .f32⟩
  | 45 => ⟨S8192x512, .f32⟩
  | 46 => ⟨S_, .i32⟩
  | 47 => ⟨S8192, .i32⟩
  | 48 => ⟨S8192, .i1⟩
  | 49 => ⟨S_, .i32⟩
  | 50 => ⟨S8192, .i32⟩
  | 51 => ⟨S8192, .i32⟩
  | 52 => ⟨S8192, .i32⟩
  | 53 => ⟨S8192x1, .i32⟩
  | 54 => ⟨S8192x512, .f32⟩
  | 55 => ⟨S_, .i32⟩
  | 56 => ⟨S8192, .i32⟩
  | 57 => ⟨S8192, .i1⟩
  | 58 => ⟨S8192x1, .i1⟩
  | 59 => ⟨S1x512x512, .f32⟩
  | 60 => ⟨S512x512, .f32⟩
  | 61 => ⟨S512x512, .f32⟩
  | 62 => ⟨S8192x512, .f32⟩
  | 63 => ⟨S1x512, .f32⟩
  | 64 => ⟨S512, .f32⟩
  | 65 => ⟨S1x512, .f32⟩
  | 66 => ⟨S8192x512, .f32⟩
  | 67 => ⟨S8192x512, .f32⟩
  | 68 => ⟨S_, .i32⟩
  | 69 => ⟨S8192, .i32⟩
  | 70 => ⟨S8192, .i1⟩
  | 71 => ⟨S_, .i32⟩
  | 72 => ⟨S8192, .i32⟩
  | 73 => ⟨S8192, .i32⟩
  | 74 => ⟨S8192, .i32⟩
  | 75 => ⟨S8192x1, .i32⟩
  | 76 => ⟨S8192x512, .f32⟩
  | 77 => ⟨S_, .f32⟩
  | 78 => ⟨S_, .f32⟩
  | 79 => ⟨S8192x512, .i1⟩
  | 80 => ⟨S8192x512, .f32⟩
  | 81 => ⟨S8192x512, .f32⟩
  | 82 => ⟨S_, .i32⟩
  | 83 => ⟨S8192, .i32⟩
  | 84 => ⟨S8192, .i1⟩
  | 85 => ⟨S_, .i32⟩
  | 86 => ⟨S8192, .i32⟩
  | 87 => ⟨S8192, .i32⟩
  | 88 => ⟨S8192, .i32⟩
  | 89 => ⟨S8192x1, .i32⟩
  | 90 => ⟨S8192x512, .f32⟩
  | 91 => ⟨S1x512x512, .f32⟩
  | 92 => ⟨S512x512, .f32⟩
  | 93 => ⟨S512x512, .f32⟩
  | 94 => ⟨S8192x512, .f32⟩
  | 95 => ⟨S1x512, .f32⟩
  | 96 => ⟨S512, .f32⟩
  | 97 => ⟨S1x512, .f32⟩
  | 98 => ⟨S8192x512, .f32⟩
  | 99 => ⟨S8192x512, .f32⟩
  | 100 => ⟨S_, .i32⟩
  | 101 => ⟨S8192, .i32⟩
  | 102 => ⟨S8192, .i1⟩
  | 103 => ⟨S_, .i32⟩
  | 104 => ⟨S8192, .i32⟩
  | 105 => ⟨S8192, .i32⟩
  | 106 => ⟨S8192, .i32⟩
  | 107 => ⟨S8192x1, .i32⟩
  | 108 => ⟨S8192x512, .f32⟩
  | 109 => ⟨S_, .f32⟩
  | 110 => ⟨S_, .f32⟩
  | 111 => ⟨S8192x512, .i1⟩
  | 112 => ⟨S8192x512, .f32⟩
  | 113 => ⟨S8192x512, .f32⟩
  | 114 => ⟨S_, .i32⟩
  | 115 => ⟨S8192, .i32⟩
  | 116 => ⟨S8192, .i1⟩
  | 117 => ⟨S_, .i32⟩
  | 118 => ⟨S8192, .i32⟩
  | 119 => ⟨S8192, .i32⟩
  | 120 => ⟨S8192, .i32⟩
  | 121 => ⟨S8192x1, .i32⟩
  | 122 => ⟨S8192x512, .f32⟩
  | 123 => ⟨S_, .i32⟩
  | 124 => ⟨S8192, .i32⟩
  | 125 => ⟨S8192, .i1⟩
  | 126 => ⟨S8192x1, .i1⟩
  | 127 => ⟨S1x512x512, .f32⟩
  | _ => ⟨S8192x512, .f32⟩

abbrev hbmTy0_20 (i : Nat) : BufTy := match i % 128 with
  | 0 => ⟨S512x512, .f32⟩
  | 1 => ⟨S512x512, .f32⟩
  | 2 => ⟨S8192x512, .f32⟩
  | 3 => ⟨S1x512, .f32⟩
  | 4 => ⟨S512, .f32⟩
  | 5 => ⟨S1x512, .f32⟩
  | 6 => ⟨S8192x512, .f32⟩
  | 7 => ⟨S8192x512, .f32⟩
  | 8 => ⟨S_, .i32⟩
  | 9 => ⟨S8192, .i32⟩
  | 10 => ⟨S8192, .i1⟩
  | 11 => ⟨S_, .i32⟩
  | 12 => ⟨S8192, .i32⟩
  | 13 => ⟨S8192, .i32⟩
  | 14 => ⟨S8192, .i32⟩
  | 15 => ⟨S8192x1, .i32⟩
  | 16 => ⟨S8192x512, .f32⟩
  | 17 => ⟨S_, .f32⟩
  | 18 => ⟨S_, .f32⟩
  | 19 => ⟨S8192x512, .i1⟩
  | 20 => ⟨S8192x512, .f32⟩
  | 21 => ⟨S8192x512, .f32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S8192x1, .i32⟩
  | 30 => ⟨S8192x512, .f32⟩
  | 31 => ⟨S1x512x512, .f32⟩
  | 32 => ⟨S512x512, .f32⟩
  | 33 => ⟨S512x512, .f32⟩
  | 34 => ⟨S8192x512, .f32⟩
  | 35 => ⟨S1x512, .f32⟩
  | 36 => ⟨S512, .f32⟩
  | 37 => ⟨S1x512, .f32⟩
  | 38 => ⟨S8192x512, .f32⟩
  | 39 => ⟨S8192x512, .f32⟩
  | 40 => ⟨S_, .i32⟩
  | 41 => ⟨S8192, .i32⟩
  | 42 => ⟨S8192, .i1⟩
  | 43 => ⟨S_, .i32⟩
  | 44 => ⟨S8192, .i32⟩
  | 45 => ⟨S8192, .i32⟩
  | 46 => ⟨S8192, .i32⟩
  | 47 => ⟨S8192x1, .i32⟩
  | 48 => ⟨S8192x512, .f32⟩
  | 49 => ⟨S_, .f32⟩
  | 50 => ⟨S_, .f32⟩
  | 51 => ⟨S8192x512, .i1⟩
  | 52 => ⟨S8192x512, .f32⟩
  | 53 => ⟨S8192x512, .f32⟩
  | 54 => ⟨S_, .i32⟩
  | 55 => ⟨S8192, .i32⟩
  | 56 => ⟨S8192, .i1⟩
  | 57 => ⟨S_, .i32⟩
  | 58 => ⟨S8192, .i32⟩
  | 59 => ⟨S8192, .i32⟩
  | 60 => ⟨S8192, .i32⟩
  | 61 => ⟨S8192x1, .i32⟩
  | 62 => ⟨S8192x512, .f32⟩
  | 63 => ⟨S_, .i32⟩
  | 64 => ⟨S8192, .i32⟩
  | 65 => ⟨S8192, .i1⟩
  | 66 => ⟨S8192x1, .i1⟩
  | 67 => ⟨S1x512x512, .f32⟩
  | 68 => ⟨S512x512, .f32⟩
  | 69 => ⟨S512x512, .f32⟩
  | 70 => ⟨S8192x512, .f32⟩
  | 71 => ⟨S1x512, .f32⟩
  | 72 => ⟨S512, .f32⟩
  | 73 => ⟨S1x512, .f32⟩
  | 74 => ⟨S8192x512, .f32⟩
  | 75 => ⟨S8192x512, .f32⟩
  | 76 => ⟨S_, .i32⟩
  | 77 => ⟨S8192, .i32⟩
  | 78 => ⟨S8192, .i1⟩
  | 79 => ⟨S_, .i32⟩
  | 80 => ⟨S8192, .i32⟩
  | 81 => ⟨S8192, .i32⟩
  | 82 => ⟨S8192, .i32⟩
  | 83 => ⟨S8192x1, .i32⟩
  | 84 => ⟨S8192x512, .f32⟩
  | 85 => ⟨S_, .f32⟩
  | 86 => ⟨S_, .f32⟩
  | 87 => ⟨S8192x512, .i1⟩
  | 88 => ⟨S8192x512, .f32⟩
  | 89 => ⟨S8192x512, .f32⟩
  | 90 => ⟨S_, .i32⟩
  | 91 => ⟨S8192, .i32⟩
  | 92 => ⟨S8192, .i1⟩
  | 93 => ⟨S_, .i32⟩
  | 94 => ⟨S8192, .i32⟩
  | 95 => ⟨S8192, .i32⟩
  | 96 => ⟨S8192, .i32⟩
  | 97 => ⟨S8192x1, .i32⟩
  | 98 => ⟨S8192x512, .f32⟩
  | 99 => ⟨S1x512x512, .f32⟩
  | 100 => ⟨S512x512, .f32⟩
  | 101 => ⟨S512x512, .f32⟩
  | 102 => ⟨S8192x512, .f32⟩
  | 103 => ⟨S1x512, .f32⟩
  | 104 => ⟨S512, .f32⟩
  | 105 => ⟨S1x512, .f32⟩
  | 106 => ⟨S8192x512, .f32⟩
  | 107 => ⟨S8192x512, .f32⟩
  | 108 => ⟨S_, .i32⟩
  | 109 => ⟨S8192, .i32⟩
  | 110 => ⟨S8192, .i1⟩
  | 111 => ⟨S_, .i32⟩
  | 112 => ⟨S8192, .i32⟩
  | 113 => ⟨S8192, .i32⟩
  | 114 => ⟨S8192, .i32⟩
  | 115 => ⟨S8192x1, .i32⟩
  | 116 => ⟨S8192x512, .f32⟩
  | 117 => ⟨S_, .f32⟩
  | 118 => ⟨S_, .f32⟩
  | 119 => ⟨S8192x512, .i1⟩
  | 120 => ⟨S8192x512, .f32⟩
  | 121 => ⟨S8192x512, .f32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S8192x512, .f32⟩

abbrev hbmTy0_21 (i : Nat) : BufTy := match i % 128 with
  | 0 => ⟨S8192, .i32⟩
  | 1 => ⟨S8192x1, .i32⟩
  | 2 => ⟨S8192x512, .f32⟩
  | 3 => ⟨S_, .i32⟩
  | 4 => ⟨S8192, .i32⟩
  | 5 => ⟨S8192, .i1⟩
  | 6 => ⟨S8192x1, .i1⟩
  | 7 => ⟨S1x512x512, .f32⟩
  | 8 => ⟨S512x512, .f32⟩
  | 9 => ⟨S512x512, .f32⟩
  | 10 => ⟨S8192x512, .f32⟩
  | 11 => ⟨S1x512, .f32⟩
  | 12 => ⟨S512, .f32⟩
  | 13 => ⟨S1x512, .f32⟩
  | 14 => ⟨S8192x512, .f32⟩
  | 15 => ⟨S8192x512, .f32⟩
  | 16 => ⟨S_, .i32⟩
  | 17 => ⟨S8192, .i32⟩
  | 18 => ⟨S8192, .i1⟩
  | 19 => ⟨S_, .i32⟩
  | 20 => ⟨S8192, .i32⟩
  | 21 => ⟨S8192, .i32⟩
  | 22 => ⟨S8192, .i32⟩
  | 23 => ⟨S8192x1, .i32⟩
  | 24 => ⟨S8192x512, .f32⟩
  | 25 => ⟨S_, .f32⟩
  | 26 => ⟨S_, .f32⟩
  | 27 => ⟨S8192x512, .i1⟩
  | 28 => ⟨S8192x512, .f32⟩
  | 29 => ⟨S8192x512, .f32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S8192x512, .f32⟩
  | 39 => ⟨S1x512x512, .f32⟩
  | 40 => ⟨S512x512, .f32⟩
  | 41 => ⟨S512x512, .f32⟩
  | 42 => ⟨S8192x512, .f32⟩
  | 43 => ⟨S1x512, .f32⟩
  | 44 => ⟨S512, .f32⟩
  | 45 => ⟨S1x512, .f32⟩
  | 46 => ⟨S8192x512, .f32⟩
  | 47 => ⟨S8192x512, .f32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S8192x512, .f32⟩
  | 57 => ⟨S_, .f32⟩
  | 58 => ⟨S_, .f32⟩
  | 59 => ⟨S8192x512, .i1⟩
  | 60 => ⟨S8192x512, .f32⟩
  | 61 => ⟨S8192x512, .f32⟩
  | 62 => ⟨S_, .i32⟩
  | 63 => ⟨S8192, .i32⟩
  | 64 => ⟨S8192, .i1⟩
  | 65 => ⟨S_, .i32⟩
  | 66 => ⟨S8192, .i32⟩
  | 67 => ⟨S8192, .i32⟩
  | 68 => ⟨S8192, .i32⟩
  | 69 => ⟨S8192x1, .i32⟩
  | 70 => ⟨S8192x512, .f32⟩
  | 71 => ⟨S_, .f32⟩
  | 72 => ⟨S8192x512, .f32⟩
  | 73 => ⟨S8192x512, .f32⟩
  | 74 => ⟨S512x256, .f32⟩
  | 75 => ⟨S8192x256, .f32⟩
  | 76 => ⟨S1x256, .f32⟩
  | 77 => ⟨S8192x256, .f32⟩
  | 78 => ⟨S8192x256, .f32⟩
  | _ => ⟨S8192x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_0 : Ref sig .tc := ⟨.hbm, 36, rfl⟩
abbrev main_v25 : Ref sig .tc := ⟨.hbm, 37, rfl⟩
abbrev main_v26 : Ref sig .tc := ⟨.hbm, 38, rfl⟩
abbrev main_c_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_v32 : Ref sig .tc := ⟨.hbm, 49, rfl⟩
abbrev main_c_2 : Ref sig .tc := ⟨.hbm, 50, rfl⟩
abbrev main_v33 : Ref sig .tc := ⟨.hbm, 51, rfl⟩
abbrev main_v34 : Ref sig .tc := ⟨.hbm, 52, rfl⟩
abbrev main_c_3 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_4 : Ref sig .tc := ⟨.hbm, 68, rfl⟩
abbrev main_v49 : Ref sig .tc := ⟨.hbm, 69, rfl⟩
abbrev main_v50 : Ref sig .tc := ⟨.hbm, 70, rfl⟩
abbrev main_c_5 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_6 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v56 : Ref sig .tc := ⟨.hbm, 81, rfl⟩
abbrev main_c_7 : Ref sig .tc := ⟨.hbm, 82, rfl⟩
abbrev main_v57 : Ref sig .tc := ⟨.hbm, 83, rfl⟩
abbrev main_v58 : Ref sig .tc := ⟨.hbm, 84, rfl⟩
abbrev main_c_8 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_9 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_10 : Ref sig .tc := ⟨.hbm, 104, rfl⟩
abbrev main_v76 : Ref sig .tc := ⟨.hbm, 105, rfl⟩
abbrev main_v77 : Ref sig .tc := ⟨.hbm, 106, rfl⟩
abbrev main_c_11 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_12 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_v83 : Ref sig .tc := ⟨.hbm, 117, rfl⟩
abbrev main_c_13 : Ref sig .tc := ⟨.hbm, 118, rfl⟩
abbrev main_v84 : Ref sig .tc := ⟨.hbm, 119, rfl⟩
abbrev main_v85 : Ref sig .tc := ⟨.hbm, 120, rfl⟩
abbrev main_c_14 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_c_15 : Ref sig .tc := ⟨.hbm, 136, rfl⟩
abbrev main_v100 : Ref sig .tc := ⟨.hbm, 137, rfl⟩
abbrev main_v101 : Ref sig .tc := ⟨.hbm, 138, rfl⟩
abbrev main_c_16 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_17 : Ref sig .tc := ⟨.hbm, 145, rfl⟩
abbrev main_call3_v0 : Ref sig .tc := ⟨.hbm, 146, rfl⟩
abbrev main_call3_v1 : Ref sig .tc := ⟨.hbm, 147, rfl⟩
abbrev main_call3_v2 : Ref sig .tc := ⟨.hbm, 148, rfl⟩
abbrev main_v107 : Ref sig .tc := ⟨.hbm, 149, rfl⟩
abbrev main_c_18 : Ref sig .tc := ⟨.hbm, 150, rfl⟩
abbrev main_v108 : Ref sig .tc := ⟨.hbm, 151, rfl⟩
abbrev main_v109 : Ref sig .tc := ⟨.hbm, 152, rfl⟩
abbrev main_c_19 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_c_20 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_c_21 : Ref sig .tc := ⟨.hbm, 172, rfl⟩
abbrev main_v127 : Ref sig .tc := ⟨.hbm, 173, rfl⟩
abbrev main_v128 : Ref sig .tc := ⟨.hbm, 174, rfl⟩
abbrev main_c_22 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_cst_23 : Ref sig .tc := ⟨.hbm, 181, rfl⟩
abbrev main_call4_v0 : Ref sig .tc := ⟨.hbm, 182, rfl⟩
abbrev main_call4_v1 : Ref sig .tc := ⟨.hbm, 183, rfl⟩
abbrev main_call4_v2 : Ref sig .tc := ⟨.hbm, 184, rfl⟩
abbrev main_v134 : Ref sig .tc := ⟨.hbm, 185, rfl⟩
abbrev main_c_24 : Ref sig .tc := ⟨.hbm, 186, rfl⟩
abbrev main_v135 : Ref sig .tc := ⟨.hbm, 187, rfl⟩
abbrev main_v136 : Ref sig .tc := ⟨.hbm, 188, rfl⟩
abbrev main_c_25 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_c_26 : Ref sig .tc := ⟨.hbm, 204, rfl⟩
abbrev main_v151 : Ref sig .tc := ⟨.hbm, 205, rfl⟩
abbrev main_v152 : Ref sig .tc := ⟨.hbm, 206, rfl⟩
abbrev main_c_27 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_cst_28 : Ref sig .tc := ⟨.hbm, 213, rfl⟩
abbrev main_call5_v0 : Ref sig .tc := ⟨.hbm, 214, rfl⟩
abbrev main_call5_v1 : Ref sig .tc := ⟨.hbm, 215, rfl⟩
abbrev main_call5_v2 : Ref sig .tc := ⟨.hbm, 216, rfl⟩
abbrev main_v158 : Ref sig .tc := ⟨.hbm, 217, rfl⟩
abbrev main_c_29 : Ref sig .tc := ⟨.hbm, 218, rfl⟩
abbrev main_v159 : Ref sig .tc := ⟨.hbm, 219, rfl⟩
abbrev main_v160 : Ref sig .tc := ⟨.hbm, 220, rfl⟩
abbrev main_c_30 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_c_31 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_c_32 : Ref sig .tc := ⟨.hbm, 240, rfl⟩
abbrev main_v178 : Ref sig .tc := ⟨.hbm, 241, rfl⟩
abbrev main_v179 : Ref sig .tc := ⟨.hbm, 242, rfl⟩
abbrev main_c_33 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_cst_34 : Ref sig .tc := ⟨.hbm, 249, rfl⟩
abbrev main_call6_v0 : Ref sig .tc := ⟨.hbm, 250, rfl⟩
abbrev main_call6_v1 : Ref sig .tc := ⟨.hbm, 251, rfl⟩
abbrev main_call6_v2 : Ref sig .tc := ⟨.hbm, 252, rfl⟩
abbrev main_v185 : Ref sig .tc := ⟨.hbm, 253, rfl⟩
abbrev main_c_35 : Ref sig .tc := ⟨.hbm, 254, rfl⟩
abbrev main_v186 : Ref sig .tc := ⟨.hbm, 255, rfl⟩
abbrev main_v187 : Ref sig .tc := ⟨.hbm, 256, rfl⟩
abbrev main_c_36 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_c_37 : Ref sig .tc := ⟨.hbm, 272, rfl⟩
abbrev main_v202 : Ref sig .tc := ⟨.hbm, 273, rfl⟩
abbrev main_v203 : Ref sig .tc := ⟨.hbm, 274, rfl⟩
abbrev main_c_38 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_cst_39 : Ref sig .tc := ⟨.hbm, 281, rfl⟩
abbrev main_call7_v0 : Ref sig .tc := ⟨.hbm, 282, rfl⟩
abbrev main_call7_v1 : Ref sig .tc := ⟨.hbm, 283, rfl⟩
abbrev main_call7_v2 : Ref sig .tc := ⟨.hbm, 284, rfl⟩
abbrev main_v209 : Ref sig .tc := ⟨.hbm, 285, rfl⟩
abbrev main_c_40 : Ref sig .tc := ⟨.hbm, 286, rfl⟩
abbrev main_v210 : Ref sig .tc := ⟨.hbm, 287, rfl⟩
abbrev main_v211 : Ref sig .tc := ⟨.hbm, 288, rfl⟩
abbrev main_c_41 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_c_42 : Ref sig .tc := ⟨.hbm, 295, rfl⟩
abbrev main_v217 : Ref sig .tc := ⟨.hbm, 296, rfl⟩
abbrev main_v218 : Ref sig .tc := ⟨.hbm, 297, rfl⟩
abbrev main_v219 : Ref sig .tc := ⟨.hbm, 298, rfl⟩
abbrev main_v220 : Ref sig .tc := ⟨.hbm, 299, rfl⟩
abbrev main_v221 : Ref sig .tc := ⟨.hbm, 300, rfl⟩
abbrev main_v222 : Ref sig .tc := ⟨.hbm, 301, rfl⟩
abbrev main_v223 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_c_43 : Ref sig .tc := ⟨.hbm, 308, rfl⟩
abbrev main_v229 : Ref sig .tc := ⟨.hbm, 309, rfl⟩
abbrev main_v230 : Ref sig .tc := ⟨.hbm, 310, rfl⟩
abbrev main_c_44 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_cst_45 : Ref sig .tc := ⟨.hbm, 317, rfl⟩
abbrev main_call8_v0 : Ref sig .tc := ⟨.hbm, 318, rfl⟩
abbrev main_call8_v1 : Ref sig .tc := ⟨.hbm, 319, rfl⟩
abbrev main_call8_v2 : Ref sig .tc := ⟨.hbm, 320, rfl⟩
abbrev main_v236 : Ref sig .tc := ⟨.hbm, 321, rfl⟩
abbrev main_c_46 : Ref sig .tc := ⟨.hbm, 322, rfl⟩
abbrev main_v237 : Ref sig .tc := ⟨.hbm, 323, rfl⟩
abbrev main_v238 : Ref sig .tc := ⟨.hbm, 324, rfl⟩
abbrev main_c_47 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_v249 : Ref sig .tc := ⟨.hbm, 336, rfl⟩
abbrev main_v250 : Ref sig .tc := ⟨.hbm, 337, rfl⟩
abbrev main_v251 : Ref sig .tc := ⟨.hbm, 338, rfl⟩
abbrev main_v252 : Ref sig .tc := ⟨.hbm, 339, rfl⟩
abbrev main_c_48 : Ref sig .tc := ⟨.hbm, 340, rfl⟩
abbrev main_v253 : Ref sig .tc := ⟨.hbm, 341, rfl⟩
abbrev main_v254 : Ref sig .tc := ⟨.hbm, 342, rfl⟩
abbrev main_c_49 : Ref sig .tc := ⟨.hbm, 343, rfl⟩
abbrev main_v255 : Ref sig .tc := ⟨.hbm, 344, rfl⟩
abbrev main_v256 : Ref sig .tc := ⟨.hbm, 345, rfl⟩
abbrev main_v257 : Ref sig .tc := ⟨.hbm, 346, rfl⟩
abbrev main_v258 : Ref sig .tc := ⟨.hbm, 347, rfl⟩
abbrev main_v259 : Ref sig .tc := ⟨.hbm, 348, rfl⟩
abbrev main_cst_50 : Ref sig .tc := ⟨.hbm, 349, rfl⟩
abbrev main_call9_v0 : Ref sig .tc := ⟨.hbm, 350, rfl⟩
abbrev main_call9_v1 : Ref sig .tc := ⟨.hbm, 351, rfl⟩
abbrev main_call9_v2 : Ref sig .tc := ⟨.hbm, 352, rfl⟩
abbrev main_v260 : Ref sig .tc := ⟨.hbm, 353, rfl⟩
abbrev main_c_51 : Ref sig .tc := ⟨.hbm, 354, rfl⟩
abbrev main_v261 : Ref sig .tc := ⟨.hbm, 355, rfl⟩
abbrev main_v262 : Ref sig .tc := ⟨.hbm, 356, rfl⟩
abbrev main_c_52 : Ref sig .tc := ⟨.hbm, 357, rfl⟩
abbrev main_v263 : Ref sig .tc := ⟨.hbm, 358, rfl⟩
abbrev main_v264 : Ref sig .tc := ⟨.hbm, 359, rfl⟩
abbrev main_v265 : Ref sig .tc := ⟨.hbm, 360, rfl⟩
abbrev main_v266 : Ref sig .tc := ⟨.hbm, 361, rfl⟩
abbrev main_v267 : Ref sig .tc := ⟨.hbm, 362, rfl⟩
abbrev main_c_53 : Ref sig .tc := ⟨.hbm, 363, rfl⟩
abbrev main_v268 : Ref sig .tc := ⟨.hbm, 364, rfl⟩
abbrev main_v269 : Ref sig .tc := ⟨.hbm, 365, rfl⟩
abbrev main_v270 : Ref sig .tc := ⟨.hbm, 366, rfl⟩
abbrev main_v271 : Ref sig .tc := ⟨.hbm, 367, rfl⟩
abbrev main_v272 : Ref sig .tc := ⟨.hbm, 368, rfl⟩
abbrev main_v273 : Ref sig .tc := ⟨.hbm, 369, rfl⟩
abbrev main_v274 : Ref sig .tc := ⟨.hbm, 370, rfl⟩
abbrev main_v275 : Ref sig .tc := ⟨.hbm, 371, rfl⟩
abbrev main_v276 : Ref sig .tc := ⟨.hbm, 372, rfl⟩
abbrev main_v277 : Ref sig .tc := ⟨.hbm, 373, rfl⟩
abbrev main_v278 : Ref sig .tc := ⟨.hbm, 374, rfl⟩
abbrev main_v279 : Ref sig .tc := ⟨.hbm, 375, rfl⟩
abbrev main_c_54 : Ref sig .tc := ⟨.hbm, 376, rfl⟩
abbrev main_v280 : Ref sig .tc := ⟨.hbm, 377, rfl⟩
abbrev main_v281 : Ref sig .tc := ⟨.hbm, 378, rfl⟩
abbrev main_c_55 : Ref sig .tc := ⟨.hbm, 379, rfl⟩
abbrev main_v282 : Ref sig .tc := ⟨.hbm, 380, rfl⟩
abbrev main_v283 : Ref sig .tc := ⟨.hbm, 381, rfl⟩
abbrev main_v284 : Ref sig .tc := ⟨.hbm, 382, rfl⟩
abbrev main_v285 : Ref sig .tc := ⟨.hbm, 383, rfl⟩
abbrev main_v286 : Ref sig .tc := ⟨.hbm, 384, rfl⟩
abbrev main_cst_56 : Ref sig .tc := ⟨.hbm, 385, rfl⟩
abbrev main_call10_v0 : Ref sig .tc := ⟨.hbm, 386, rfl⟩
abbrev main_call10_v1 : Ref sig .tc := ⟨.hbm, 387, rfl⟩
abbrev main_call10_v2 : Ref sig .tc := ⟨.hbm, 388, rfl⟩
abbrev main_v287 : Ref sig .tc := ⟨.hbm, 389, rfl⟩
abbrev main_c_57 : Ref sig .tc := ⟨.hbm, 390, rfl⟩
abbrev main_v288 : Ref sig .tc := ⟨.hbm, 391, rfl⟩
abbrev main_v289 : Ref sig .tc := ⟨.hbm, 392, rfl⟩
abbrev main_c_58 : Ref sig .tc := ⟨.hbm, 393, rfl⟩
abbrev main_v290 : Ref sig .tc := ⟨.hbm, 394, rfl⟩
abbrev main_v291 : Ref sig .tc := ⟨.hbm, 395, rfl⟩
abbrev main_v292 : Ref sig .tc := ⟨.hbm, 396, rfl⟩
abbrev main_v293 : Ref sig .tc := ⟨.hbm, 397, rfl⟩
abbrev main_v294 : Ref sig .tc := ⟨.hbm, 398, rfl⟩
abbrev main_v295 : Ref sig .tc := ⟨.hbm, 399, rfl⟩
abbrev main_v296 : Ref sig .tc := ⟨.hbm, 400, rfl⟩
abbrev main_v297 : Ref sig .tc := ⟨.hbm, 401, rfl⟩
abbrev main_v298 : Ref sig .tc := ⟨.hbm, 402, rfl⟩
abbrev main_v299 : Ref sig .tc := ⟨.hbm, 403, rfl⟩
abbrev main_v300 : Ref sig .tc := ⟨.hbm, 404, rfl⟩
abbrev main_v301 : Ref sig .tc := ⟨.hbm, 405, rfl⟩
abbrev main_v302 : Ref sig .tc := ⟨.hbm, 406, rfl⟩
abbrev main_v303 : Ref sig .tc := ⟨.hbm, 407, rfl⟩
abbrev main_c_59 : Ref sig .tc := ⟨.hbm, 408, rfl⟩
abbrev main_v304 : Ref sig .tc := ⟨.hbm, 409, rfl⟩
abbrev main_v305 : Ref sig .tc := ⟨.hbm, 410, rfl⟩
abbrev main_c_60 : Ref sig .tc := ⟨.hbm, 411, rfl⟩
abbrev main_v306 : Ref sig .tc := ⟨.hbm, 412, rfl⟩
abbrev main_v307 : Ref sig .tc := ⟨.hbm, 413, rfl⟩
abbrev main_v308 : Ref sig .tc := ⟨.hbm, 414, rfl⟩
abbrev main_v309 : Ref sig .tc := ⟨.hbm, 415, rfl⟩
abbrev main_v310 : Ref sig .tc := ⟨.hbm, 416, rfl⟩
abbrev main_cst_61 : Ref sig .tc := ⟨.hbm, 417, rfl⟩
abbrev main_call11_v0 : Ref sig .tc := ⟨.hbm, 418, rfl⟩
abbrev main_call11_v1 : Ref sig .tc := ⟨.hbm, 419, rfl⟩
abbrev main_call11_v2 : Ref sig .tc := ⟨.hbm, 420, rfl⟩
abbrev main_v311 : Ref sig .tc := ⟨.hbm, 421, rfl⟩
abbrev main_c_62 : Ref sig .tc := ⟨.hbm, 422, rfl⟩
abbrev main_v312 : Ref sig .tc := ⟨.hbm, 423, rfl⟩
abbrev main_v313 : Ref sig .tc := ⟨.hbm, 424, rfl⟩
abbrev main_c_63 : Ref sig .tc := ⟨.hbm, 425, rfl⟩
abbrev main_v314 : Ref sig .tc := ⟨.hbm, 426, rfl⟩
abbrev main_v315 : Ref sig .tc := ⟨.hbm, 427, rfl⟩
abbrev main_v316 : Ref sig .tc := ⟨.hbm, 428, rfl⟩
abbrev main_v317 : Ref sig .tc := ⟨.hbm, 429, rfl⟩
abbrev main_v318 : Ref sig .tc := ⟨.hbm, 430, rfl⟩
abbrev main_c_64 : Ref sig .tc := ⟨.hbm, 431, rfl⟩
abbrev main_v319 : Ref sig .tc := ⟨.hbm, 432, rfl⟩
abbrev main_v320 : Ref sig .tc := ⟨.hbm, 433, rfl⟩
abbrev main_v321 : Ref sig .tc := ⟨.hbm, 434, rfl⟩
abbrev main_v322 : Ref sig .tc := ⟨.hbm, 435, rfl⟩
abbrev main_v323 : Ref sig .tc := ⟨.hbm, 436, rfl⟩
abbrev main_v324 : Ref sig .tc := ⟨.hbm, 437, rfl⟩
abbrev main_v325 : Ref sig .tc := ⟨.hbm, 438, rfl⟩
abbrev main_v326 : Ref sig .tc := ⟨.hbm, 439, rfl⟩
abbrev main_v327 : Ref sig .tc := ⟨.hbm, 440, rfl⟩
abbrev main_v328 : Ref sig .tc := ⟨.hbm, 441, rfl⟩
abbrev main_v329 : Ref sig .tc := ⟨.hbm, 442, rfl⟩
abbrev main_v330 : Ref sig .tc := ⟨.hbm, 443, rfl⟩
abbrev main_c_65 : Ref sig .tc := ⟨.hbm, 444, rfl⟩
abbrev main_v331 : Ref sig .tc := ⟨.hbm, 445, rfl⟩
abbrev main_v332 : Ref sig .tc := ⟨.hbm, 446, rfl⟩
abbrev main_c_66 : Ref sig .tc := ⟨.hbm, 447, rfl⟩
abbrev main_v333 : Ref sig .tc := ⟨.hbm, 448, rfl⟩
abbrev main_v334 : Ref sig .tc := ⟨.hbm, 449, rfl⟩
abbrev main_v335 : Ref sig .tc := ⟨.hbm, 450, rfl⟩
abbrev main_v336 : Ref sig .tc := ⟨.hbm, 451, rfl⟩
abbrev main_v337 : Ref sig .tc := ⟨.hbm, 452, rfl⟩
abbrev main_cst_67 : Ref sig .tc := ⟨.hbm, 453, rfl⟩
abbrev main_call12_v0 : Ref sig .tc := ⟨.hbm, 454, rfl⟩
abbrev main_call12_v1 : Ref sig .tc := ⟨.hbm, 455, rfl⟩
abbrev main_call12_v2 : Ref sig .tc := ⟨.hbm, 456, rfl⟩
abbrev main_v338 : Ref sig .tc := ⟨.hbm, 457, rfl⟩
abbrev main_c_68 : Ref sig .tc := ⟨.hbm, 458, rfl⟩
abbrev main_v339 : Ref sig .tc := ⟨.hbm, 459, rfl⟩
abbrev main_v340 : Ref sig .tc := ⟨.hbm, 460, rfl⟩
abbrev main_c_69 : Ref sig .tc := ⟨.hbm, 461, rfl⟩
abbrev main_v341 : Ref sig .tc := ⟨.hbm, 462, rfl⟩
abbrev main_v342 : Ref sig .tc := ⟨.hbm, 463, rfl⟩
abbrev main_v343 : Ref sig .tc := ⟨.hbm, 464, rfl⟩
abbrev main_v344 : Ref sig .tc := ⟨.hbm, 465, rfl⟩
abbrev main_v345 : Ref sig .tc := ⟨.hbm, 466, rfl⟩
abbrev main_v346 : Ref sig .tc := ⟨.hbm, 467, rfl⟩
abbrev main_v347 : Ref sig .tc := ⟨.hbm, 468, rfl⟩
abbrev main_v348 : Ref sig .tc := ⟨.hbm, 469, rfl⟩
abbrev main_v349 : Ref sig .tc := ⟨.hbm, 470, rfl⟩
abbrev main_v350 : Ref sig .tc := ⟨.hbm, 471, rfl⟩
abbrev main_v351 : Ref sig .tc := ⟨.hbm, 472, rfl⟩
abbrev main_v352 : Ref sig .tc := ⟨.hbm, 473, rfl⟩
abbrev main_v353 : Ref sig .tc := ⟨.hbm, 474, rfl⟩
abbrev main_v354 : Ref sig .tc := ⟨.hbm, 475, rfl⟩
abbrev main_c_70 : Ref sig .tc := ⟨.hbm, 476, rfl⟩
abbrev main_v355 : Ref sig .tc := ⟨.hbm, 477, rfl⟩
abbrev main_v356 : Ref sig .tc := ⟨.hbm, 478, rfl⟩
abbrev main_c_71 : Ref sig .tc := ⟨.hbm, 479, rfl⟩
abbrev main_v357 : Ref sig .tc := ⟨.hbm, 480, rfl⟩
abbrev main_v358 : Ref sig .tc := ⟨.hbm, 481, rfl⟩
abbrev main_v359 : Ref sig .tc := ⟨.hbm, 482, rfl⟩
abbrev main_v360 : Ref sig .tc := ⟨.hbm, 483, rfl⟩
abbrev main_v361 : Ref sig .tc := ⟨.hbm, 484, rfl⟩
abbrev main_cst_72 : Ref sig .tc := ⟨.hbm, 485, rfl⟩
abbrev main_call13_v0 : Ref sig .tc := ⟨.hbm, 486, rfl⟩
abbrev main_call13_v1 : Ref sig .tc := ⟨.hbm, 487, rfl⟩
abbrev main_call13_v2 : Ref sig .tc := ⟨.hbm, 488, rfl⟩
abbrev main_v362 : Ref sig .tc := ⟨.hbm, 489, rfl⟩
abbrev main_c_73 : Ref sig .tc := ⟨.hbm, 490, rfl⟩
abbrev main_v363 : Ref sig .tc := ⟨.hbm, 491, rfl⟩
abbrev main_v364 : Ref sig .tc := ⟨.hbm, 492, rfl⟩
abbrev main_c_74 : Ref sig .tc := ⟨.hbm, 493, rfl⟩
abbrev main_v365 : Ref sig .tc := ⟨.hbm, 494, rfl⟩
abbrev main_v366 : Ref sig .tc := ⟨.hbm, 495, rfl⟩
abbrev main_v367 : Ref sig .tc := ⟨.hbm, 496, rfl⟩
abbrev main_v368 : Ref sig .tc := ⟨.hbm, 497, rfl⟩
abbrev main_v369 : Ref sig .tc := ⟨.hbm, 498, rfl⟩
abbrev main_c_75 : Ref sig .tc := ⟨.hbm, 499, rfl⟩
abbrev main_v370 : Ref sig .tc := ⟨.hbm, 500, rfl⟩
abbrev main_v371 : Ref sig .tc := ⟨.hbm, 501, rfl⟩
abbrev main_v372 : Ref sig .tc := ⟨.hbm, 502, rfl⟩
abbrev main_v373 : Ref sig .tc := ⟨.hbm, 503, rfl⟩
abbrev main_v374 : Ref sig .tc := ⟨.hbm, 504, rfl⟩
abbrev main_v375 : Ref sig .tc := ⟨.hbm, 505, rfl⟩
abbrev main_v376 : Ref sig .tc := ⟨.hbm, 506, rfl⟩
abbrev main_v377 : Ref sig .tc := ⟨.hbm, 507, rfl⟩
abbrev main_v378 : Ref sig .tc := ⟨.hbm, 508, rfl⟩
abbrev main_v379 : Ref sig .tc := ⟨.hbm, 509, rfl⟩
abbrev main_v380 : Ref sig .tc := ⟨.hbm, 510, rfl⟩
abbrev main_v381 : Ref sig .tc := ⟨.hbm, 511, rfl⟩
abbrev main_c_76 : Ref sig .tc := ⟨.hbm, 512, rfl⟩
abbrev main_v382 : Ref sig .tc := ⟨.hbm, 513, rfl⟩
abbrev main_v383 : Ref sig .tc := ⟨.hbm, 514, rfl⟩
abbrev main_c_77 : Ref sig .tc := ⟨.hbm, 515, rfl⟩
abbrev main_v384 : Ref sig .tc := ⟨.hbm, 516, rfl⟩
abbrev main_v385 : Ref sig .tc := ⟨.hbm, 517, rfl⟩
abbrev main_v386 : Ref sig .tc := ⟨.hbm, 518, rfl⟩
abbrev main_v387 : Ref sig .tc := ⟨.hbm, 519, rfl⟩
abbrev main_v388 : Ref sig .tc := ⟨.hbm, 520, rfl⟩
abbrev main_cst_78 : Ref sig .tc := ⟨.hbm, 521, rfl⟩
abbrev main_call14_v0 : Ref sig .tc := ⟨.hbm, 522, rfl⟩
abbrev main_call14_v1 : Ref sig .tc := ⟨.hbm, 523, rfl⟩
abbrev main_call14_v2 : Ref sig .tc := ⟨.hbm, 524, rfl⟩
abbrev main_v389 : Ref sig .tc := ⟨.hbm, 525, rfl⟩
abbrev main_c_79 : Ref sig .tc := ⟨.hbm, 526, rfl⟩
abbrev main_v390 : Ref sig .tc := ⟨.hbm, 527, rfl⟩
abbrev main_v391 : Ref sig .tc := ⟨.hbm, 528, rfl⟩
abbrev main_c_80 : Ref sig .tc := ⟨.hbm, 529, rfl⟩
abbrev main_v392 : Ref sig .tc := ⟨.hbm, 530, rfl⟩
abbrev main_v393 : Ref sig .tc := ⟨.hbm, 531, rfl⟩
abbrev main_v394 : Ref sig .tc := ⟨.hbm, 532, rfl⟩
abbrev main_v395 : Ref sig .tc := ⟨.hbm, 533, rfl⟩
abbrev main_v396 : Ref sig .tc := ⟨.hbm, 534, rfl⟩
abbrev main_v397 : Ref sig .tc := ⟨.hbm, 535, rfl⟩
abbrev main_v398 : Ref sig .tc := ⟨.hbm, 536, rfl⟩
abbrev main_v399 : Ref sig .tc := ⟨.hbm, 537, rfl⟩
abbrev main_v400 : Ref sig .tc := ⟨.hbm, 538, rfl⟩
abbrev main_v401 : Ref sig .tc := ⟨.hbm, 539, rfl⟩
abbrev main_v402 : Ref sig .tc := ⟨.hbm, 540, rfl⟩
abbrev main_v403 : Ref sig .tc := ⟨.hbm, 541, rfl⟩
abbrev main_v404 : Ref sig .tc := ⟨.hbm, 542, rfl⟩
abbrev main_v405 : Ref sig .tc := ⟨.hbm, 543, rfl⟩
abbrev main_c_81 : Ref sig .tc := ⟨.hbm, 544, rfl⟩
abbrev main_v406 : Ref sig .tc := ⟨.hbm, 545, rfl⟩
abbrev main_v407 : Ref sig .tc := ⟨.hbm, 546, rfl⟩
abbrev main_c_82 : Ref sig .tc := ⟨.hbm, 547, rfl⟩
abbrev main_v408 : Ref sig .tc := ⟨.hbm, 548, rfl⟩
abbrev main_v409 : Ref sig .tc := ⟨.hbm, 549, rfl⟩
abbrev main_v410 : Ref sig .tc := ⟨.hbm, 550, rfl⟩
abbrev main_v411 : Ref sig .tc := ⟨.hbm, 551, rfl⟩
abbrev main_v412 : Ref sig .tc := ⟨.hbm, 552, rfl⟩
abbrev main_cst_83 : Ref sig .tc := ⟨.hbm, 553, rfl⟩
abbrev main_call15_v0 : Ref sig .tc := ⟨.hbm, 554, rfl⟩
abbrev main_call15_v1 : Ref sig .tc := ⟨.hbm, 555, rfl⟩
abbrev main_call15_v2 : Ref sig .tc := ⟨.hbm, 556, rfl⟩
abbrev main_v413 : Ref sig .tc := ⟨.hbm, 557, rfl⟩
abbrev main_c_84 : Ref sig .tc := ⟨.hbm, 558, rfl⟩
abbrev main_v414 : Ref sig .tc := ⟨.hbm, 559, rfl⟩
abbrev main_v415 : Ref sig .tc := ⟨.hbm, 560, rfl⟩
abbrev main_c_85 : Ref sig .tc := ⟨.hbm, 561, rfl⟩
abbrev main_v416 : Ref sig .tc := ⟨.hbm, 562, rfl⟩
abbrev main_v417 : Ref sig .tc := ⟨.hbm, 563, rfl⟩
abbrev main_v418 : Ref sig .tc := ⟨.hbm, 564, rfl⟩
abbrev main_v419 : Ref sig .tc := ⟨.hbm, 565, rfl⟩
abbrev main_v420 : Ref sig .tc := ⟨.hbm, 566, rfl⟩
abbrev main_c_86 : Ref sig .tc := ⟨.hbm, 567, rfl⟩
abbrev main_v421 : Ref sig .tc := ⟨.hbm, 568, rfl⟩
abbrev main_v422 : Ref sig .tc := ⟨.hbm, 569, rfl⟩
abbrev main_v423 : Ref sig .tc := ⟨.hbm, 570, rfl⟩
abbrev main_v424 : Ref sig .tc := ⟨.hbm, 571, rfl⟩
abbrev main_v425 : Ref sig .tc := ⟨.hbm, 572, rfl⟩
abbrev main_v426 : Ref sig .tc := ⟨.hbm, 573, rfl⟩
abbrev main_v427 : Ref sig .tc := ⟨.hbm, 574, rfl⟩
abbrev main_v428 : Ref sig .tc := ⟨.hbm, 575, rfl⟩
abbrev main_v429 : Ref sig .tc := ⟨.hbm, 576, rfl⟩
abbrev main_v430 : Ref sig .tc := ⟨.hbm, 577, rfl⟩
abbrev main_v431 : Ref sig .tc := ⟨.hbm, 578, rfl⟩
abbrev main_v432 : Ref sig .tc := ⟨.hbm, 579, rfl⟩
abbrev main_c_87 : Ref sig .tc := ⟨.hbm, 580, rfl⟩
abbrev main_v433 : Ref sig .tc := ⟨.hbm, 581, rfl⟩
abbrev main_v434 : Ref sig .tc := ⟨.hbm, 582, rfl⟩
abbrev main_c_88 : Ref sig .tc := ⟨.hbm, 583, rfl⟩
abbrev main_v435 : Ref sig .tc := ⟨.hbm, 584, rfl⟩
abbrev main_v436 : Ref sig .tc := ⟨.hbm, 585, rfl⟩
abbrev main_v437 : Ref sig .tc := ⟨.hbm, 586, rfl⟩
abbrev main_v438 : Ref sig .tc := ⟨.hbm, 587, rfl⟩
abbrev main_v439 : Ref sig .tc := ⟨.hbm, 588, rfl⟩
abbrev main_cst_89 : Ref sig .tc := ⟨.hbm, 589, rfl⟩
abbrev main_call16_v0 : Ref sig .tc := ⟨.hbm, 590, rfl⟩
abbrev main_call16_v1 : Ref sig .tc := ⟨.hbm, 591, rfl⟩
abbrev main_call16_v2 : Ref sig .tc := ⟨.hbm, 592, rfl⟩
abbrev main_v440 : Ref sig .tc := ⟨.hbm, 593, rfl⟩
abbrev main_c_90 : Ref sig .tc := ⟨.hbm, 594, rfl⟩
abbrev main_v441 : Ref sig .tc := ⟨.hbm, 595, rfl⟩
abbrev main_v442 : Ref sig .tc := ⟨.hbm, 596, rfl⟩
abbrev main_c_91 : Ref sig .tc := ⟨.hbm, 597, rfl⟩
abbrev main_v443 : Ref sig .tc := ⟨.hbm, 598, rfl⟩
abbrev main_v444 : Ref sig .tc := ⟨.hbm, 599, rfl⟩
abbrev main_v445 : Ref sig .tc := ⟨.hbm, 600, rfl⟩
abbrev main_v446 : Ref sig .tc := ⟨.hbm, 601, rfl⟩
abbrev main_v447 : Ref sig .tc := ⟨.hbm, 602, rfl⟩
abbrev main_v448 : Ref sig .tc := ⟨.hbm, 603, rfl⟩
abbrev main_v449 : Ref sig .tc := ⟨.hbm, 604, rfl⟩
abbrev main_v450 : Ref sig .tc := ⟨.hbm, 605, rfl⟩
abbrev main_v451 : Ref sig .tc := ⟨.hbm, 606, rfl⟩
abbrev main_v452 : Ref sig .tc := ⟨.hbm, 607, rfl⟩
abbrev main_v453 : Ref sig .tc := ⟨.hbm, 608, rfl⟩
abbrev main_v454 : Ref sig .tc := ⟨.hbm, 609, rfl⟩
abbrev main_v455 : Ref sig .tc := ⟨.hbm, 610, rfl⟩
abbrev main_v456 : Ref sig .tc := ⟨.hbm, 611, rfl⟩
abbrev main_c_92 : Ref sig .tc := ⟨.hbm, 612, rfl⟩
abbrev main_v457 : Ref sig .tc := ⟨.hbm, 613, rfl⟩
abbrev main_v458 : Ref sig .tc := ⟨.hbm, 614, rfl⟩
abbrev main_c_93 : Ref sig .tc := ⟨.hbm, 615, rfl⟩
abbrev main_v459 : Ref sig .tc := ⟨.hbm, 616, rfl⟩
abbrev main_v460 : Ref sig .tc := ⟨.hbm, 617, rfl⟩
abbrev main_v461 : Ref sig .tc := ⟨.hbm, 618, rfl⟩
abbrev main_v462 : Ref sig .tc := ⟨.hbm, 619, rfl⟩
abbrev main_v463 : Ref sig .tc := ⟨.hbm, 620, rfl⟩
abbrev main_cst_94 : Ref sig .tc := ⟨.hbm, 621, rfl⟩
abbrev main_call17_v0 : Ref sig .tc := ⟨.hbm, 622, rfl⟩
abbrev main_call17_v1 : Ref sig .tc := ⟨.hbm, 623, rfl⟩
abbrev main_call17_v2 : Ref sig .tc := ⟨.hbm, 624, rfl⟩
abbrev main_v464 : Ref sig .tc := ⟨.hbm, 625, rfl⟩
abbrev main_c_95 : Ref sig .tc := ⟨.hbm, 626, rfl⟩
abbrev main_v465 : Ref sig .tc := ⟨.hbm, 627, rfl⟩
abbrev main_v466 : Ref sig .tc := ⟨.hbm, 628, rfl⟩
abbrev main_c_96 : Ref sig .tc := ⟨.hbm, 629, rfl⟩
abbrev main_v467 : Ref sig .tc := ⟨.hbm, 630, rfl⟩
abbrev main_v468 : Ref sig .tc := ⟨.hbm, 631, rfl⟩
abbrev main_v469 : Ref sig .tc := ⟨.hbm, 632, rfl⟩
abbrev main_v470 : Ref sig .tc := ⟨.hbm, 633, rfl⟩
abbrev main_v471 : Ref sig .tc := ⟨.hbm, 634, rfl⟩
abbrev main_c_97 : Ref sig .tc := ⟨.hbm, 635, rfl⟩
abbrev main_v472 : Ref sig .tc := ⟨.hbm, 636, rfl⟩
abbrev main_v473 : Ref sig .tc := ⟨.hbm, 637, rfl⟩
abbrev main_v474 : Ref sig .tc := ⟨.hbm, 638, rfl⟩
abbrev main_v475 : Ref sig .tc := ⟨.hbm, 639, rfl⟩
abbrev main_v476 : Ref sig .tc := ⟨.hbm, 640, rfl⟩
abbrev main_v477 : Ref sig .tc := ⟨.hbm, 641, rfl⟩
abbrev main_v478 : Ref sig .tc := ⟨.hbm, 642, rfl⟩
abbrev main_v479 : Ref sig .tc := ⟨.hbm, 643, rfl⟩
abbrev main_v480 : Ref sig .tc := ⟨.hbm, 644, rfl⟩
abbrev main_v481 : Ref sig .tc := ⟨.hbm, 645, rfl⟩
abbrev main_v482 : Ref sig .tc := ⟨.hbm, 646, rfl⟩
abbrev main_v483 : Ref sig .tc := ⟨.hbm, 647, rfl⟩
abbrev main_c_98 : Ref sig .tc := ⟨.hbm, 648, rfl⟩
abbrev main_v484 : Ref sig .tc := ⟨.hbm, 649, rfl⟩
abbrev main_v485 : Ref sig .tc := ⟨.hbm, 650, rfl⟩
abbrev main_c_99 : Ref sig .tc := ⟨.hbm, 651, rfl⟩
abbrev main_v486 : Ref sig .tc := ⟨.hbm, 652, rfl⟩
abbrev main_v487 : Ref sig .tc := ⟨.hbm, 653, rfl⟩
abbrev main_v488 : Ref sig .tc := ⟨.hbm, 654, rfl⟩
abbrev main_v489 : Ref sig .tc := ⟨.hbm, 655, rfl⟩
abbrev main_v490 : Ref sig .tc := ⟨.hbm, 656, rfl⟩
abbrev main_cst_100 : Ref sig .tc := ⟨.hbm, 657, rfl⟩
abbrev main_call18_v0 : Ref sig .tc := ⟨.hbm, 658, rfl⟩
abbrev main_call18_v1 : Ref sig .tc := ⟨.hbm, 659, rfl⟩
abbrev main_call18_v2 : Ref sig .tc := ⟨.hbm, 660, rfl⟩
abbrev main_v491 : Ref sig .tc := ⟨.hbm, 661, rfl⟩
abbrev main_c_101 : Ref sig .tc := ⟨.hbm, 662, rfl⟩
abbrev main_v492 : Ref sig .tc := ⟨.hbm, 663, rfl⟩
abbrev main_v493 : Ref sig .tc := ⟨.hbm, 664, rfl⟩
abbrev main_c_102 : Ref sig .tc := ⟨.hbm, 665, rfl⟩
abbrev main_v494 : Ref sig .tc := ⟨.hbm, 666, rfl⟩
abbrev main_v495 : Ref sig .tc := ⟨.hbm, 667, rfl⟩
abbrev main_v496 : Ref sig .tc := ⟨.hbm, 668, rfl⟩
abbrev main_v497 : Ref sig .tc := ⟨.hbm, 669, rfl⟩
abbrev main_v498 : Ref sig .tc := ⟨.hbm, 670, rfl⟩
abbrev main_v499 : Ref sig .tc := ⟨.hbm, 671, rfl⟩
abbrev main_v500 : Ref sig .tc := ⟨.hbm, 672, rfl⟩
abbrev main_v501 : Ref sig .tc := ⟨.hbm, 673, rfl⟩
abbrev main_v502 : Ref sig .tc := ⟨.hbm, 674, rfl⟩
abbrev main_v503 : Ref sig .tc := ⟨.hbm, 675, rfl⟩
abbrev main_v504 : Ref sig .tc := ⟨.hbm, 676, rfl⟩
abbrev main_v505 : Ref sig .tc := ⟨.hbm, 677, rfl⟩
abbrev main_v506 : Ref sig .tc := ⟨.hbm, 678, rfl⟩
abbrev main_v507 : Ref sig .tc := ⟨.hbm, 679, rfl⟩
abbrev main_c_103 : Ref sig .tc := ⟨.hbm, 680, rfl⟩
abbrev main_v508 : Ref sig .tc := ⟨.hbm, 681, rfl⟩
abbrev main_v509 : Ref sig .tc := ⟨.hbm, 682, rfl⟩
abbrev main_c_104 : Ref sig .tc := ⟨.hbm, 683, rfl⟩
abbrev main_v510 : Ref sig .tc := ⟨.hbm, 684, rfl⟩
abbrev main_v511 : Ref sig .tc := ⟨.hbm, 685, rfl⟩
abbrev main_v512 : Ref sig .tc := ⟨.hbm, 686, rfl⟩
abbrev main_v513 : Ref sig .tc := ⟨.hbm, 687, rfl⟩
abbrev main_v514 : Ref sig .tc := ⟨.hbm, 688, rfl⟩
abbrev main_cst_105 : Ref sig .tc := ⟨.hbm, 689, rfl⟩
abbrev main_call19_v0 : Ref sig .tc := ⟨.hbm, 690, rfl⟩
abbrev main_call19_v1 : Ref sig .tc := ⟨.hbm, 691, rfl⟩
abbrev main_call19_v2 : Ref sig .tc := ⟨.hbm, 692, rfl⟩
abbrev main_v515 : Ref sig .tc := ⟨.hbm, 693, rfl⟩
abbrev main_c_106 : Ref sig .tc := ⟨.hbm, 694, rfl⟩
abbrev main_v516 : Ref sig .tc := ⟨.hbm, 695, rfl⟩
abbrev main_v517 : Ref sig .tc := ⟨.hbm, 696, rfl⟩
abbrev main_c_107 : Ref sig .tc := ⟨.hbm, 697, rfl⟩
abbrev main_v518 : Ref sig .tc := ⟨.hbm, 698, rfl⟩
abbrev main_v519 : Ref sig .tc := ⟨.hbm, 699, rfl⟩
abbrev main_v520 : Ref sig .tc := ⟨.hbm, 700, rfl⟩
abbrev main_v521 : Ref sig .tc := ⟨.hbm, 701, rfl⟩
abbrev main_v522 : Ref sig .tc := ⟨.hbm, 702, rfl⟩
abbrev main_c_108 : Ref sig .tc := ⟨.hbm, 703, rfl⟩
abbrev main_v523 : Ref sig .tc := ⟨.hbm, 704, rfl⟩
abbrev main_v524 : Ref sig .tc := ⟨.hbm, 705, rfl⟩
abbrev main_v525 : Ref sig .tc := ⟨.hbm, 706, rfl⟩
abbrev main_v526 : Ref sig .tc := ⟨.hbm, 707, rfl⟩
abbrev main_v527 : Ref sig .tc := ⟨.hbm, 708, rfl⟩
abbrev main_v528 : Ref sig .tc := ⟨.hbm, 709, rfl⟩
abbrev main_v529 : Ref sig .tc := ⟨.hbm, 710, rfl⟩
abbrev main_v530 : Ref sig .tc := ⟨.hbm, 711, rfl⟩
abbrev main_v531 : Ref sig .tc := ⟨.hbm, 712, rfl⟩
abbrev main_v532 : Ref sig .tc := ⟨.hbm, 713, rfl⟩
abbrev main_v533 : Ref sig .tc := ⟨.hbm, 714, rfl⟩
abbrev main_v534 : Ref sig .tc := ⟨.hbm, 715, rfl⟩
abbrev main_c_109 : Ref sig .tc := ⟨.hbm, 716, rfl⟩
abbrev main_v535 : Ref sig .tc := ⟨.hbm, 717, rfl⟩
abbrev main_v536 : Ref sig .tc := ⟨.hbm, 718, rfl⟩
abbrev main_c_110 : Ref sig .tc := ⟨.hbm, 719, rfl⟩
abbrev main_v537 : Ref sig .tc := ⟨.hbm, 720, rfl⟩
abbrev main_v538 : Ref sig .tc := ⟨.hbm, 721, rfl⟩
abbrev main_v539 : Ref sig .tc := ⟨.hbm, 722, rfl⟩
abbrev main_v540 : Ref sig .tc := ⟨.hbm, 723, rfl⟩
abbrev main_v541 : Ref sig .tc := ⟨.hbm, 724, rfl⟩
abbrev main_cst_111 : Ref sig .tc := ⟨.hbm, 725, rfl⟩
abbrev main_call20_v0 : Ref sig .tc := ⟨.hbm, 726, rfl⟩
abbrev main_call20_v1 : Ref sig .tc := ⟨.hbm, 727, rfl⟩
abbrev main_call20_v2 : Ref sig .tc := ⟨.hbm, 728, rfl⟩
abbrev main_v542 : Ref sig .tc := ⟨.hbm, 729, rfl⟩
abbrev main_c_112 : Ref sig .tc := ⟨.hbm, 730, rfl⟩
abbrev main_v543 : Ref sig .tc := ⟨.hbm, 731, rfl⟩
abbrev main_v544 : Ref sig .tc := ⟨.hbm, 732, rfl⟩
abbrev main_c_113 : Ref sig .tc := ⟨.hbm, 733, rfl⟩
abbrev main_v545 : Ref sig .tc := ⟨.hbm, 734, rfl⟩
abbrev main_v546 : Ref sig .tc := ⟨.hbm, 735, rfl⟩
abbrev main_v547 : Ref sig .tc := ⟨.hbm, 736, rfl⟩
abbrev main_v548 : Ref sig .tc := ⟨.hbm, 737, rfl⟩
abbrev main_v549 : Ref sig .tc := ⟨.hbm, 738, rfl⟩
abbrev main_v550 : Ref sig .tc := ⟨.hbm, 739, rfl⟩
abbrev main_v551 : Ref sig .tc := ⟨.hbm, 740, rfl⟩
abbrev main_v552 : Ref sig .tc := ⟨.hbm, 741, rfl⟩
abbrev main_v553 : Ref sig .tc := ⟨.hbm, 742, rfl⟩
abbrev main_v554 : Ref sig .tc := ⟨.hbm, 743, rfl⟩
abbrev main_v555 : Ref sig .tc := ⟨.hbm, 744, rfl⟩
abbrev main_v556 : Ref sig .tc := ⟨.hbm, 745, rfl⟩
abbrev main_v557 : Ref sig .tc := ⟨.hbm, 746, rfl⟩
abbrev main_v558 : Ref sig .tc := ⟨.hbm, 747, rfl⟩
abbrev main_c_114 : Ref sig .tc := ⟨.hbm, 748, rfl⟩
abbrev main_v559 : Ref sig .tc := ⟨.hbm, 749, rfl⟩
abbrev main_v560 : Ref sig .tc := ⟨.hbm, 750, rfl⟩
abbrev main_c_115 : Ref sig .tc := ⟨.hbm, 751, rfl⟩
abbrev main_v561 : Ref sig .tc := ⟨.hbm, 752, rfl⟩
abbrev main_v562 : Ref sig .tc := ⟨.hbm, 753, rfl⟩
abbrev main_v563 : Ref sig .tc := ⟨.hbm, 754, rfl⟩
abbrev main_v564 : Ref sig .tc := ⟨.hbm, 755, rfl⟩
abbrev main_v565 : Ref sig .tc := ⟨.hbm, 756, rfl⟩
abbrev main_cst_116 : Ref sig .tc := ⟨.hbm, 757, rfl⟩
abbrev main_call21_v0 : Ref sig .tc := ⟨.hbm, 758, rfl⟩
abbrev main_call21_v1 : Ref sig .tc := ⟨.hbm, 759, rfl⟩
abbrev main_call21_v2 : Ref sig .tc := ⟨.hbm, 760, rfl⟩
abbrev main_v566 : Ref sig .tc := ⟨.hbm, 761, rfl⟩
abbrev main_c_117 : Ref sig .tc := ⟨.hbm, 762, rfl⟩
abbrev main_v567 : Ref sig .tc := ⟨.hbm, 763, rfl⟩
abbrev main_v568 : Ref sig .tc := ⟨.hbm, 764, rfl⟩
abbrev main_c_118 : Ref sig .tc := ⟨.hbm, 765, rfl⟩
abbrev main_v569 : Ref sig .tc := ⟨.hbm, 766, rfl⟩
abbrev main_v570 : Ref sig .tc := ⟨.hbm, 767, rfl⟩
abbrev main_v571 : Ref sig .tc := ⟨.hbm, 768, rfl⟩
abbrev main_v572 : Ref sig .tc := ⟨.hbm, 769, rfl⟩
abbrev main_v573 : Ref sig .tc := ⟨.hbm, 770, rfl⟩
abbrev main_c_119 : Ref sig .tc := ⟨.hbm, 771, rfl⟩
abbrev main_v574 : Ref sig .tc := ⟨.hbm, 772, rfl⟩
abbrev main_v575 : Ref sig .tc := ⟨.hbm, 773, rfl⟩
abbrev main_v576 : Ref sig .tc := ⟨.hbm, 774, rfl⟩
abbrev main_v577 : Ref sig .tc := ⟨.hbm, 775, rfl⟩
abbrev main_v578 : Ref sig .tc := ⟨.hbm, 776, rfl⟩
abbrev main_v579 : Ref sig .tc := ⟨.hbm, 777, rfl⟩
abbrev main_v580 : Ref sig .tc := ⟨.hbm, 778, rfl⟩
abbrev main_v581 : Ref sig .tc := ⟨.hbm, 779, rfl⟩
abbrev main_v582 : Ref sig .tc := ⟨.hbm, 780, rfl⟩
abbrev main_v583 : Ref sig .tc := ⟨.hbm, 781, rfl⟩
abbrev main_v584 : Ref sig .tc := ⟨.hbm, 782, rfl⟩
abbrev main_v585 : Ref sig .tc := ⟨.hbm, 783, rfl⟩
abbrev main_c_120 : Ref sig .tc := ⟨.hbm, 784, rfl⟩
abbrev main_v586 : Ref sig .tc := ⟨.hbm, 785, rfl⟩
abbrev main_v587 : Ref sig .tc := ⟨.hbm, 786, rfl⟩
abbrev main_c_121 : Ref sig .tc := ⟨.hbm, 787, rfl⟩
abbrev main_v588 : Ref sig .tc := ⟨.hbm, 788, rfl⟩
abbrev main_v589 : Ref sig .tc := ⟨.hbm, 789, rfl⟩
abbrev main_v590 : Ref sig .tc := ⟨.hbm, 790, rfl⟩
abbrev main_v591 : Ref sig .tc := ⟨.hbm, 791, rfl⟩
abbrev main_v592 : Ref sig .tc := ⟨.hbm, 792, rfl⟩
abbrev main_cst_122 : Ref sig .tc := ⟨.hbm, 793, rfl⟩
abbrev main_call22_v0 : Ref sig .tc := ⟨.hbm, 794, rfl⟩
abbrev main_call22_v1 : Ref sig .tc := ⟨.hbm, 795, rfl⟩
abbrev main_call22_v2 : Ref sig .tc := ⟨.hbm, 796, rfl⟩
abbrev main_v593 : Ref sig .tc := ⟨.hbm, 797, rfl⟩
abbrev main_c_123 : Ref sig .tc := ⟨.hbm, 798, rfl⟩
abbrev main_v594 : Ref sig .tc := ⟨.hbm, 799, rfl⟩
abbrev main_v595 : Ref sig .tc := ⟨.hbm, 800, rfl⟩
abbrev main_c_124 : Ref sig .tc := ⟨.hbm, 801, rfl⟩
abbrev main_v596 : Ref sig .tc := ⟨.hbm, 802, rfl⟩
abbrev main_v597 : Ref sig .tc := ⟨.hbm, 803, rfl⟩
abbrev main_v598 : Ref sig .tc := ⟨.hbm, 804, rfl⟩
abbrev main_v599 : Ref sig .tc := ⟨.hbm, 805, rfl⟩
abbrev main_v600 : Ref sig .tc := ⟨.hbm, 806, rfl⟩
abbrev main_v601 : Ref sig .tc := ⟨.hbm, 807, rfl⟩
abbrev main_v602 : Ref sig .tc := ⟨.hbm, 808, rfl⟩
abbrev main_v603 : Ref sig .tc := ⟨.hbm, 809, rfl⟩
abbrev main_v604 : Ref sig .tc := ⟨.hbm, 810, rfl⟩
abbrev main_v605 : Ref sig .tc := ⟨.hbm, 811, rfl⟩
abbrev main_v606 : Ref sig .tc := ⟨.hbm, 812, rfl⟩
abbrev main_v607 : Ref sig .tc := ⟨.hbm, 813, rfl⟩
abbrev main_v608 : Ref sig .tc := ⟨.hbm, 814, rfl⟩
abbrev main_v609 : Ref sig .tc := ⟨.hbm, 815, rfl⟩
abbrev main_c_125 : Ref sig .tc := ⟨.hbm, 816, rfl⟩
abbrev main_v610 : Ref sig .tc := ⟨.hbm, 817, rfl⟩
abbrev main_v611 : Ref sig .tc := ⟨.hbm, 818, rfl⟩
abbrev main_c_126 : Ref sig .tc := ⟨.hbm, 819, rfl⟩
abbrev main_v612 : Ref sig .tc := ⟨.hbm, 820, rfl⟩
abbrev main_v613 : Ref sig .tc := ⟨.hbm, 821, rfl⟩
abbrev main_v614 : Ref sig .tc := ⟨.hbm, 822, rfl⟩
abbrev main_v615 : Ref sig .tc := ⟨.hbm, 823, rfl⟩
abbrev main_v616 : Ref sig .tc := ⟨.hbm, 824, rfl⟩
abbrev main_cst_127 : Ref sig .tc := ⟨.hbm, 825, rfl⟩
abbrev main_call23_v0 : Ref sig .tc := ⟨.hbm, 826, rfl⟩
abbrev main_call23_v1 : Ref sig .tc := ⟨.hbm, 827, rfl⟩
abbrev main_call23_v2 : Ref sig .tc := ⟨.hbm, 828, rfl⟩
abbrev main_v617 : Ref sig .tc := ⟨.hbm, 829, rfl⟩
abbrev main_c_128 : Ref sig .tc := ⟨.hbm, 830, rfl⟩
abbrev main_v618 : Ref sig .tc := ⟨.hbm, 831, rfl⟩
abbrev main_v619 : Ref sig .tc := ⟨.hbm, 832, rfl⟩
abbrev main_c_129 : Ref sig .tc := ⟨.hbm, 833, rfl⟩
abbrev main_v620 : Ref sig .tc := ⟨.hbm, 834, rfl⟩
abbrev main_v621 : Ref sig .tc := ⟨.hbm, 835, rfl⟩
abbrev main_v622 : Ref sig .tc := ⟨.hbm, 836, rfl⟩
abbrev main_v623 : Ref sig .tc := ⟨.hbm, 837, rfl⟩
abbrev main_v624 : Ref sig .tc := ⟨.hbm, 838, rfl⟩
abbrev main_c_130 : Ref sig .tc := ⟨.hbm, 839, rfl⟩
abbrev main_v625 : Ref sig .tc := ⟨.hbm, 840, rfl⟩
abbrev main_v626 : Ref sig .tc := ⟨.hbm, 841, rfl⟩
abbrev main_v627 : Ref sig .tc := ⟨.hbm, 842, rfl⟩
abbrev main_v628 : Ref sig .tc := ⟨.hbm, 843, rfl⟩
abbrev main_v629 : Ref sig .tc := ⟨.hbm, 844, rfl⟩
abbrev main_v630 : Ref sig .tc := ⟨.hbm, 845, rfl⟩
abbrev main_v631 : Ref sig .tc := ⟨.hbm, 846, rfl⟩
abbrev main_v632 : Ref sig .tc := ⟨.hbm, 847, rfl⟩
abbrev main_v633 : Ref sig .tc := ⟨.hbm, 848, rfl⟩
abbrev main_v634 : Ref sig .tc := ⟨.hbm, 849, rfl⟩
abbrev main_v635 : Ref sig .tc := ⟨.hbm, 850, rfl⟩
abbrev main_v636 : Ref sig .tc := ⟨.hbm, 851, rfl⟩
abbrev main_c_131 : Ref sig .tc := ⟨.hbm, 852, rfl⟩
abbrev main_v637 : Ref sig .tc := ⟨.hbm, 853, rfl⟩
abbrev main_v638 : Ref sig .tc := ⟨.hbm, 854, rfl⟩
abbrev main_c_132 : Ref sig .tc := ⟨.hbm, 855, rfl⟩
abbrev main_v639 : Ref sig .tc := ⟨.hbm, 856, rfl⟩
abbrev main_v640 : Ref sig .tc := ⟨.hbm, 857, rfl⟩
abbrev main_v641 : Ref sig .tc := ⟨.hbm, 858, rfl⟩
abbrev main_v642 : Ref sig .tc := ⟨.hbm, 859, rfl⟩
abbrev main_v643 : Ref sig .tc := ⟨.hbm, 860, rfl⟩
abbrev main_cst_133 : Ref sig .tc := ⟨.hbm, 861, rfl⟩
abbrev main_call24_v0 : Ref sig .tc := ⟨.hbm, 862, rfl⟩
abbrev main_call24_v1 : Ref sig .tc := ⟨.hbm, 863, rfl⟩
abbrev main_call24_v2 : Ref sig .tc := ⟨.hbm, 864, rfl⟩
abbrev main_v644 : Ref sig .tc := ⟨.hbm, 865, rfl⟩
abbrev main_c_134 : Ref sig .tc := ⟨.hbm, 866, rfl⟩
abbrev main_v645 : Ref sig .tc := ⟨.hbm, 867, rfl⟩
abbrev main_v646 : Ref sig .tc := ⟨.hbm, 868, rfl⟩
abbrev main_c_135 : Ref sig .tc := ⟨.hbm, 869, rfl⟩
abbrev main_v647 : Ref sig .tc := ⟨.hbm, 870, rfl⟩
abbrev main_v648 : Ref sig .tc := ⟨.hbm, 871, rfl⟩
abbrev main_v649 : Ref sig .tc := ⟨.hbm, 872, rfl⟩
abbrev main_v650 : Ref sig .tc := ⟨.hbm, 873, rfl⟩
abbrev main_v651 : Ref sig .tc := ⟨.hbm, 874, rfl⟩
abbrev main_v652 : Ref sig .tc := ⟨.hbm, 875, rfl⟩
abbrev main_v653 : Ref sig .tc := ⟨.hbm, 876, rfl⟩
abbrev main_v654 : Ref sig .tc := ⟨.hbm, 877, rfl⟩
abbrev main_v655 : Ref sig .tc := ⟨.hbm, 878, rfl⟩
abbrev main_v656 : Ref sig .tc := ⟨.hbm, 879, rfl⟩
abbrev main_v657 : Ref sig .tc := ⟨.hbm, 880, rfl⟩
abbrev main_v658 : Ref sig .tc := ⟨.hbm, 881, rfl⟩
abbrev main_v659 : Ref sig .tc := ⟨.hbm, 882, rfl⟩
abbrev main_v660 : Ref sig .tc := ⟨.hbm, 883, rfl⟩
abbrev main_c_136 : Ref sig .tc := ⟨.hbm, 884, rfl⟩
abbrev main_v661 : Ref sig .tc := ⟨.hbm, 885, rfl⟩
abbrev main_v662 : Ref sig .tc := ⟨.hbm, 886, rfl⟩
abbrev main_c_137 : Ref sig .tc := ⟨.hbm, 887, rfl⟩
abbrev main_v663 : Ref sig .tc := ⟨.hbm, 888, rfl⟩
abbrev main_v664 : Ref sig .tc := ⟨.hbm, 889, rfl⟩
abbrev main_v665 : Ref sig .tc := ⟨.hbm, 890, rfl⟩
abbrev main_v666 : Ref sig .tc := ⟨.hbm, 891, rfl⟩
abbrev main_v667 : Ref sig .tc := ⟨.hbm, 892, rfl⟩
abbrev main_cst_138 : Ref sig .tc := ⟨.hbm, 893, rfl⟩
abbrev main_call25_v0 : Ref sig .tc := ⟨.hbm, 894, rfl⟩
abbrev main_call25_v1 : Ref sig .tc := ⟨.hbm, 895, rfl⟩
abbrev main_call25_v2 : Ref sig .tc := ⟨.hbm, 896, rfl⟩
abbrev main_v668 : Ref sig .tc := ⟨.hbm, 897, rfl⟩
abbrev main_c_139 : Ref sig .tc := ⟨.hbm, 898, rfl⟩
abbrev main_v669 : Ref sig .tc := ⟨.hbm, 899, rfl⟩
abbrev main_v670 : Ref sig .tc := ⟨.hbm, 900, rfl⟩
abbrev main_c_140 : Ref sig .tc := ⟨.hbm, 901, rfl⟩
abbrev main_v671 : Ref sig .tc := ⟨.hbm, 902, rfl⟩
abbrev main_v672 : Ref sig .tc := ⟨.hbm, 903, rfl⟩
abbrev main_v673 : Ref sig .tc := ⟨.hbm, 904, rfl⟩
abbrev main_v674 : Ref sig .tc := ⟨.hbm, 905, rfl⟩
abbrev main_v675 : Ref sig .tc := ⟨.hbm, 906, rfl⟩
abbrev main_c_141 : Ref sig .tc := ⟨.hbm, 907, rfl⟩
abbrev main_v676 : Ref sig .tc := ⟨.hbm, 908, rfl⟩
abbrev main_v677 : Ref sig .tc := ⟨.hbm, 909, rfl⟩
abbrev main_v678 : Ref sig .tc := ⟨.hbm, 910, rfl⟩
abbrev main_v679 : Ref sig .tc := ⟨.hbm, 911, rfl⟩
abbrev main_v680 : Ref sig .tc := ⟨.hbm, 912, rfl⟩
abbrev main_v681 : Ref sig .tc := ⟨.hbm, 913, rfl⟩
abbrev main_v682 : Ref sig .tc := ⟨.hbm, 914, rfl⟩
abbrev main_v683 : Ref sig .tc := ⟨.hbm, 915, rfl⟩
abbrev main_v684 : Ref sig .tc := ⟨.hbm, 916, rfl⟩
abbrev main_v685 : Ref sig .tc := ⟨.hbm, 917, rfl⟩
abbrev main_v686 : Ref sig .tc := ⟨.hbm, 918, rfl⟩
abbrev main_v687 : Ref sig .tc := ⟨.hbm, 919, rfl⟩
abbrev main_c_142 : Ref sig .tc := ⟨.hbm, 920, rfl⟩
abbrev main_v688 : Ref sig .tc := ⟨.hbm, 921, rfl⟩
abbrev main_v689 : Ref sig .tc := ⟨.hbm, 922, rfl⟩
abbrev main_c_143 : Ref sig .tc := ⟨.hbm, 923, rfl⟩
abbrev main_v690 : Ref sig .tc := ⟨.hbm, 924, rfl⟩
abbrev main_v691 : Ref sig .tc := ⟨.hbm, 925, rfl⟩
abbrev main_v692 : Ref sig .tc := ⟨.hbm, 926, rfl⟩
abbrev main_v693 : Ref sig .tc := ⟨.hbm, 927, rfl⟩
abbrev main_v694 : Ref sig .tc := ⟨.hbm, 928, rfl⟩
abbrev main_cst_144 : Ref sig .tc := ⟨.hbm, 929, rfl⟩
abbrev main_call26_v0 : Ref sig .tc := ⟨.hbm, 930, rfl⟩
abbrev main_call26_v1 : Ref sig .tc := ⟨.hbm, 931, rfl⟩
abbrev main_call26_v2 : Ref sig .tc := ⟨.hbm, 932, rfl⟩
abbrev main_v695 : Ref sig .tc := ⟨.hbm, 933, rfl⟩
abbrev main_c_145 : Ref sig .tc := ⟨.hbm, 934, rfl⟩
abbrev main_v696 : Ref sig .tc := ⟨.hbm, 935, rfl⟩
abbrev main_v697 : Ref sig .tc := ⟨.hbm, 936, rfl⟩
abbrev main_c_146 : Ref sig .tc := ⟨.hbm, 937, rfl⟩
abbrev main_v698 : Ref sig .tc := ⟨.hbm, 938, rfl⟩
abbrev main_v699 : Ref sig .tc := ⟨.hbm, 939, rfl⟩
abbrev main_v700 : Ref sig .tc := ⟨.hbm, 940, rfl⟩
abbrev main_v701 : Ref sig .tc := ⟨.hbm, 941, rfl⟩
abbrev main_v702 : Ref sig .tc := ⟨.hbm, 942, rfl⟩
abbrev main_v703 : Ref sig .tc := ⟨.hbm, 943, rfl⟩
abbrev main_v704 : Ref sig .tc := ⟨.hbm, 944, rfl⟩
abbrev main_v705 : Ref sig .tc := ⟨.hbm, 945, rfl⟩
abbrev main_v706 : Ref sig .tc := ⟨.hbm, 946, rfl⟩
abbrev main_v707 : Ref sig .tc := ⟨.hbm, 947, rfl⟩
abbrev main_v708 : Ref sig .tc := ⟨.hbm, 948, rfl⟩
abbrev main_v709 : Ref sig .tc := ⟨.hbm, 949, rfl⟩
abbrev main_v710 : Ref sig .tc := ⟨.hbm, 950, rfl⟩
abbrev main_v711 : Ref sig .tc := ⟨.hbm, 951, rfl⟩
abbrev main_c_147 : Ref sig .tc := ⟨.hbm, 952, rfl⟩
abbrev main_v712 : Ref sig .tc := ⟨.hbm, 953, rfl⟩
abbrev main_v713 : Ref sig .tc := ⟨.hbm, 954, rfl⟩
abbrev main_c_148 : Ref sig .tc := ⟨.hbm, 955, rfl⟩
abbrev main_v714 : Ref sig .tc := ⟨.hbm, 956, rfl⟩
abbrev main_v715 : Ref sig .tc := ⟨.hbm, 957, rfl⟩
abbrev main_v716 : Ref sig .tc := ⟨.hbm, 958, rfl⟩
abbrev main_v717 : Ref sig .tc := ⟨.hbm, 959, rfl⟩
abbrev main_v718 : Ref sig .tc := ⟨.hbm, 960, rfl⟩
abbrev main_cst_149 : Ref sig .tc := ⟨.hbm, 961, rfl⟩
abbrev main_call27_v0 : Ref sig .tc := ⟨.hbm, 962, rfl⟩
abbrev main_call27_v1 : Ref sig .tc := ⟨.hbm, 963, rfl⟩
abbrev main_call27_v2 : Ref sig .tc := ⟨.hbm, 964, rfl⟩
abbrev main_v719 : Ref sig .tc := ⟨.hbm, 965, rfl⟩
abbrev main_c_150 : Ref sig .tc := ⟨.hbm, 966, rfl⟩
abbrev main_v720 : Ref sig .tc := ⟨.hbm, 967, rfl⟩
abbrev main_v721 : Ref sig .tc := ⟨.hbm, 968, rfl⟩
abbrev main_c_151 : Ref sig .tc := ⟨.hbm, 969, rfl⟩
abbrev main_v722 : Ref sig .tc := ⟨.hbm, 970, rfl⟩
abbrev main_v723 : Ref sig .tc := ⟨.hbm, 971, rfl⟩
abbrev main_v724 : Ref sig .tc := ⟨.hbm, 972, rfl⟩
abbrev main_v725 : Ref sig .tc := ⟨.hbm, 973, rfl⟩
abbrev main_v726 : Ref sig .tc := ⟨.hbm, 974, rfl⟩
abbrev main_c_152 : Ref sig .tc := ⟨.hbm, 975, rfl⟩
abbrev main_v727 : Ref sig .tc := ⟨.hbm, 976, rfl⟩
abbrev main_v728 : Ref sig .tc := ⟨.hbm, 977, rfl⟩
abbrev main_v729 : Ref sig .tc := ⟨.hbm, 978, rfl⟩
abbrev main_v730 : Ref sig .tc := ⟨.hbm, 979, rfl⟩
abbrev main_v731 : Ref sig .tc := ⟨.hbm, 980, rfl⟩
abbrev main_v732 : Ref sig .tc := ⟨.hbm, 981, rfl⟩
abbrev main_v733 : Ref sig .tc := ⟨.hbm, 982, rfl⟩
abbrev main_v734 : Ref sig .tc := ⟨.hbm, 983, rfl⟩
abbrev main_v735 : Ref sig .tc := ⟨.hbm, 984, rfl⟩
abbrev main_v736 : Ref sig .tc := ⟨.hbm, 985, rfl⟩
abbrev main_v737 : Ref sig .tc := ⟨.hbm, 986, rfl⟩
abbrev main_v738 : Ref sig .tc := ⟨.hbm, 987, rfl⟩
abbrev main_c_153 : Ref sig .tc := ⟨.hbm, 988, rfl⟩
abbrev main_v739 : Ref sig .tc := ⟨.hbm, 989, rfl⟩
abbrev main_v740 : Ref sig .tc := ⟨.hbm, 990, rfl⟩
abbrev main_c_154 : Ref sig .tc := ⟨.hbm, 991, rfl⟩
abbrev main_v741 : Ref sig .tc := ⟨.hbm, 992, rfl⟩
abbrev main_v742 : Ref sig .tc := ⟨.hbm, 993, rfl⟩
abbrev main_v743 : Ref sig .tc := ⟨.hbm, 994, rfl⟩
abbrev main_v744 : Ref sig .tc := ⟨.hbm, 995, rfl⟩
abbrev main_v745 : Ref sig .tc := ⟨.hbm, 996, rfl⟩
abbrev main_cst_155 : Ref sig .tc := ⟨.hbm, 997, rfl⟩
abbrev main_call28_v0 : Ref sig .tc := ⟨.hbm, 998, rfl⟩
abbrev main_call28_v1 : Ref sig .tc := ⟨.hbm, 999, rfl⟩
abbrev main_call28_v2 : Ref sig .tc := ⟨.hbm, 1000, rfl⟩
abbrev main_v746 : Ref sig .tc := ⟨.hbm, 1001, rfl⟩
abbrev main_c_156 : Ref sig .tc := ⟨.hbm, 1002, rfl⟩
abbrev main_v747 : Ref sig .tc := ⟨.hbm, 1003, rfl⟩
abbrev main_v748 : Ref sig .tc := ⟨.hbm, 1004, rfl⟩
abbrev main_c_157 : Ref sig .tc := ⟨.hbm, 1005, rfl⟩
abbrev main_v749 : Ref sig .tc := ⟨.hbm, 1006, rfl⟩
abbrev main_v750 : Ref sig .tc := ⟨.hbm, 1007, rfl⟩
abbrev main_v751 : Ref sig .tc := ⟨.hbm, 1008, rfl⟩
abbrev main_v752 : Ref sig .tc := ⟨.hbm, 1009, rfl⟩
abbrev main_v753 : Ref sig .tc := ⟨.hbm, 1010, rfl⟩
abbrev main_v754 : Ref sig .tc := ⟨.hbm, 1011, rfl⟩
abbrev main_v755 : Ref sig .tc := ⟨.hbm, 1012, rfl⟩
abbrev main_v756 : Ref sig .tc := ⟨.hbm, 1013, rfl⟩
abbrev main_v757 : Ref sig .tc := ⟨.hbm, 1014, rfl⟩
abbrev main_v758 : Ref sig .tc := ⟨.hbm, 1015, rfl⟩
abbrev main_v759 : Ref sig .tc := ⟨.hbm, 1016, rfl⟩
abbrev main_v760 : Ref sig .tc := ⟨.hbm, 1017, rfl⟩
abbrev main_v761 : Ref sig .tc := ⟨.hbm, 1018, rfl⟩
abbrev main_v762 : Ref sig .tc := ⟨.hbm, 1019, rfl⟩
abbrev main_c_158 : Ref sig .tc := ⟨.hbm, 1020, rfl⟩
abbrev main_v763 : Ref sig .tc := ⟨.hbm, 1021, rfl⟩
abbrev main_v764 : Ref sig .tc := ⟨.hbm, 1022, rfl⟩
abbrev main_c_159 : Ref sig .tc := ⟨.hbm, 1023, rfl⟩
abbrev main_v765 : Ref sig .tc := ⟨.hbm, 1024, rfl⟩
abbrev main_v766 : Ref sig .tc := ⟨.hbm, 1025, rfl⟩
abbrev main_v767 : Ref sig .tc := ⟨.hbm, 1026, rfl⟩
abbrev main_v768 : Ref sig .tc := ⟨.hbm, 1027, rfl⟩
abbrev main_v769 : Ref sig .tc := ⟨.hbm, 1028, rfl⟩
abbrev main_cst_160 : Ref sig .tc := ⟨.hbm, 1029, rfl⟩
abbrev main_call29_v0 : Ref sig .tc := ⟨.hbm, 1030, rfl⟩
abbrev main_call29_v1 : Ref sig .tc := ⟨.hbm, 1031, rfl⟩
abbrev main_call29_v2 : Ref sig .tc := ⟨.hbm, 1032, rfl⟩
abbrev main_v770 : Ref sig .tc := ⟨.hbm, 1033, rfl⟩
abbrev main_c_161 : Ref sig .tc := ⟨.hbm, 1034, rfl⟩
abbrev main_v771 : Ref sig .tc := ⟨.hbm, 1035, rfl⟩
abbrev main_v772 : Ref sig .tc := ⟨.hbm, 1036, rfl⟩
abbrev main_c_162 : Ref sig .tc := ⟨.hbm, 1037, rfl⟩
abbrev main_v773 : Ref sig .tc := ⟨.hbm, 1038, rfl⟩
abbrev main_v774 : Ref sig .tc := ⟨.hbm, 1039, rfl⟩
abbrev main_v775 : Ref sig .tc := ⟨.hbm, 1040, rfl⟩
abbrev main_v776 : Ref sig .tc := ⟨.hbm, 1041, rfl⟩
abbrev main_v777 : Ref sig .tc := ⟨.hbm, 1042, rfl⟩
abbrev main_c_163 : Ref sig .tc := ⟨.hbm, 1043, rfl⟩
abbrev main_v778 : Ref sig .tc := ⟨.hbm, 1044, rfl⟩
abbrev main_v779 : Ref sig .tc := ⟨.hbm, 1045, rfl⟩
abbrev main_v780 : Ref sig .tc := ⟨.hbm, 1046, rfl⟩
abbrev main_v781 : Ref sig .tc := ⟨.hbm, 1047, rfl⟩
abbrev main_v782 : Ref sig .tc := ⟨.hbm, 1048, rfl⟩
abbrev main_v783 : Ref sig .tc := ⟨.hbm, 1049, rfl⟩
abbrev main_v784 : Ref sig .tc := ⟨.hbm, 1050, rfl⟩
abbrev main_v785 : Ref sig .tc := ⟨.hbm, 1051, rfl⟩
abbrev main_v786 : Ref sig .tc := ⟨.hbm, 1052, rfl⟩
abbrev main_v787 : Ref sig .tc := ⟨.hbm, 1053, rfl⟩
abbrev main_v788 : Ref sig .tc := ⟨.hbm, 1054, rfl⟩
abbrev main_v789 : Ref sig .tc := ⟨.hbm, 1055, rfl⟩
abbrev main_c_164 : Ref sig .tc := ⟨.hbm, 1056, rfl⟩
abbrev main_v790 : Ref sig .tc := ⟨.hbm, 1057, rfl⟩
abbrev main_v791 : Ref sig .tc := ⟨.hbm, 1058, rfl⟩
abbrev main_c_165 : Ref sig .tc := ⟨.hbm, 1059, rfl⟩
abbrev main_v792 : Ref sig .tc := ⟨.hbm, 1060, rfl⟩
abbrev main_v793 : Ref sig .tc := ⟨.hbm, 1061, rfl⟩
abbrev main_v794 : Ref sig .tc := ⟨.hbm, 1062, rfl⟩
abbrev main_v795 : Ref sig .tc := ⟨.hbm, 1063, rfl⟩
abbrev main_v796 : Ref sig .tc := ⟨.hbm, 1064, rfl⟩
abbrev main_cst_166 : Ref sig .tc := ⟨.hbm, 1065, rfl⟩
abbrev main_call30_v0 : Ref sig .tc := ⟨.hbm, 1066, rfl⟩
abbrev main_call30_v1 : Ref sig .tc := ⟨.hbm, 1067, rfl⟩
abbrev main_call30_v2 : Ref sig .tc := ⟨.hbm, 1068, rfl⟩
abbrev main_v797 : Ref sig .tc := ⟨.hbm, 1069, rfl⟩
abbrev main_c_167 : Ref sig .tc := ⟨.hbm, 1070, rfl⟩
abbrev main_v798 : Ref sig .tc := ⟨.hbm, 1071, rfl⟩
abbrev main_v799 : Ref sig .tc := ⟨.hbm, 1072, rfl⟩
abbrev main_c_168 : Ref sig .tc := ⟨.hbm, 1073, rfl⟩
abbrev main_v800 : Ref sig .tc := ⟨.hbm, 1074, rfl⟩
abbrev main_v801 : Ref sig .tc := ⟨.hbm, 1075, rfl⟩
abbrev main_v802 : Ref sig .tc := ⟨.hbm, 1076, rfl⟩
abbrev main_v803 : Ref sig .tc := ⟨.hbm, 1077, rfl⟩
abbrev main_v804 : Ref sig .tc := ⟨.hbm, 1078, rfl⟩
abbrev main_v805 : Ref sig .tc := ⟨.hbm, 1079, rfl⟩
abbrev main_v806 : Ref sig .tc := ⟨.hbm, 1080, rfl⟩
abbrev main_v807 : Ref sig .tc := ⟨.hbm, 1081, rfl⟩
abbrev main_v808 : Ref sig .tc := ⟨.hbm, 1082, rfl⟩
abbrev main_v809 : Ref sig .tc := ⟨.hbm, 1083, rfl⟩
abbrev main_v810 : Ref sig .tc := ⟨.hbm, 1084, rfl⟩
abbrev main_v811 : Ref sig .tc := ⟨.hbm, 1085, rfl⟩
abbrev main_v812 : Ref sig .tc := ⟨.hbm, 1086, rfl⟩
abbrev main_v813 : Ref sig .tc := ⟨.hbm, 1087, rfl⟩
abbrev main_c_169 : Ref sig .tc := ⟨.hbm, 1088, rfl⟩
abbrev main_v814 : Ref sig .tc := ⟨.hbm, 1089, rfl⟩
abbrev main_v815 : Ref sig .tc := ⟨.hbm, 1090, rfl⟩
abbrev main_c_170 : Ref sig .tc := ⟨.hbm, 1091, rfl⟩
abbrev main_v816 : Ref sig .tc := ⟨.hbm, 1092, rfl⟩
abbrev main_v817 : Ref sig .tc := ⟨.hbm, 1093, rfl⟩
abbrev main_v818 : Ref sig .tc := ⟨.hbm, 1094, rfl⟩
abbrev main_v819 : Ref sig .tc := ⟨.hbm, 1095, rfl⟩
abbrev main_v820 : Ref sig .tc := ⟨.hbm, 1096, rfl⟩
abbrev main_cst_171 : Ref sig .tc := ⟨.hbm, 1097, rfl⟩
abbrev main_call31_v0 : Ref sig .tc := ⟨.hbm, 1098, rfl⟩
abbrev main_call31_v1 : Ref sig .tc := ⟨.hbm, 1099, rfl⟩
abbrev main_call31_v2 : Ref sig .tc := ⟨.hbm, 1100, rfl⟩
abbrev main_v821 : Ref sig .tc := ⟨.hbm, 1101, rfl⟩
abbrev main_c_172 : Ref sig .tc := ⟨.hbm, 1102, rfl⟩
abbrev main_v822 : Ref sig .tc := ⟨.hbm, 1103, rfl⟩
abbrev main_v823 : Ref sig .tc := ⟨.hbm, 1104, rfl⟩
abbrev main_c_173 : Ref sig .tc := ⟨.hbm, 1105, rfl⟩
abbrev main_v824 : Ref sig .tc := ⟨.hbm, 1106, rfl⟩
abbrev main_v825 : Ref sig .tc := ⟨.hbm, 1107, rfl⟩
abbrev main_v826 : Ref sig .tc := ⟨.hbm, 1108, rfl⟩
abbrev main_v827 : Ref sig .tc := ⟨.hbm, 1109, rfl⟩
abbrev main_v828 : Ref sig .tc := ⟨.hbm, 1110, rfl⟩
abbrev main_c_174 : Ref sig .tc := ⟨.hbm, 1111, rfl⟩
abbrev main_v829 : Ref sig .tc := ⟨.hbm, 1112, rfl⟩
abbrev main_v830 : Ref sig .tc := ⟨.hbm, 1113, rfl⟩
abbrev main_v831 : Ref sig .tc := ⟨.hbm, 1114, rfl⟩
abbrev main_v832 : Ref sig .tc := ⟨.hbm, 1115, rfl⟩
abbrev main_v833 : Ref sig .tc := ⟨.hbm, 1116, rfl⟩
abbrev main_v834 : Ref sig .tc := ⟨.hbm, 1117, rfl⟩
abbrev main_v835 : Ref sig .tc := ⟨.hbm, 1118, rfl⟩
abbrev main_v836 : Ref sig .tc := ⟨.hbm, 1119, rfl⟩
abbrev main_v837 : Ref sig .tc := ⟨.hbm, 1120, rfl⟩
abbrev main_v838 : Ref sig .tc := ⟨.hbm, 1121, rfl⟩
abbrev main_v839 : Ref sig .tc := ⟨.hbm, 1122, rfl⟩
abbrev main_v840 : Ref sig .tc := ⟨.hbm, 1123, rfl⟩
abbrev main_c_175 : Ref sig .tc := ⟨.hbm, 1124, rfl⟩
abbrev main_v841 : Ref sig .tc := ⟨.hbm, 1125, rfl⟩
abbrev main_v842 : Ref sig .tc := ⟨.hbm, 1126, rfl⟩
abbrev main_c_176 : Ref sig .tc := ⟨.hbm, 1127, rfl⟩
abbrev main_v843 : Ref sig .tc := ⟨.hbm, 1128, rfl⟩
abbrev main_v844 : Ref sig .tc := ⟨.hbm, 1129, rfl⟩
abbrev main_v845 : Ref sig .tc := ⟨.hbm, 1130, rfl⟩
abbrev main_v846 : Ref sig .tc := ⟨.hbm, 1131, rfl⟩
abbrev main_v847 : Ref sig .tc := ⟨.hbm, 1132, rfl⟩
abbrev main_cst_177 : Ref sig .tc := ⟨.hbm, 1133, rfl⟩
abbrev main_call32_v0 : Ref sig .tc := ⟨.hbm, 1134, rfl⟩
abbrev main_call32_v1 : Ref sig .tc := ⟨.hbm, 1135, rfl⟩
abbrev main_call32_v2 : Ref sig .tc := ⟨.hbm, 1136, rfl⟩
abbrev main_v848 : Ref sig .tc := ⟨.hbm, 1137, rfl⟩
abbrev main_c_178 : Ref sig .tc := ⟨.hbm, 1138, rfl⟩
abbrev main_v849 : Ref sig .tc := ⟨.hbm, 1139, rfl⟩
abbrev main_v850 : Ref sig .tc := ⟨.hbm, 1140, rfl⟩
abbrev main_c_179 : Ref sig .tc := ⟨.hbm, 1141, rfl⟩
abbrev main_v851 : Ref sig .tc := ⟨.hbm, 1142, rfl⟩
abbrev main_v852 : Ref sig .tc := ⟨.hbm, 1143, rfl⟩
abbrev main_v853 : Ref sig .tc := ⟨.hbm, 1144, rfl⟩
abbrev main_v854 : Ref sig .tc := ⟨.hbm, 1145, rfl⟩
abbrev main_v855 : Ref sig .tc := ⟨.hbm, 1146, rfl⟩
abbrev main_v856 : Ref sig .tc := ⟨.hbm, 1147, rfl⟩
abbrev main_v857 : Ref sig .tc := ⟨.hbm, 1148, rfl⟩
abbrev main_v858 : Ref sig .tc := ⟨.hbm, 1149, rfl⟩
abbrev main_v859 : Ref sig .tc := ⟨.hbm, 1150, rfl⟩
abbrev main_v860 : Ref sig .tc := ⟨.hbm, 1151, rfl⟩
abbrev main_v861 : Ref sig .tc := ⟨.hbm, 1152, rfl⟩
abbrev main_v862 : Ref sig .tc := ⟨.hbm, 1153, rfl⟩
abbrev main_v863 : Ref sig .tc := ⟨.hbm, 1154, rfl⟩
abbrev main_v864 : Ref sig .tc := ⟨.hbm, 1155, rfl⟩
abbrev main_c_180 : Ref sig .tc := ⟨.hbm, 1156, rfl⟩
abbrev main_v865 : Ref sig .tc := ⟨.hbm, 1157, rfl⟩
abbrev main_v866 : Ref sig .tc := ⟨.hbm, 1158, rfl⟩
abbrev main_c_181 : Ref sig .tc := ⟨.hbm, 1159, rfl⟩
abbrev main_v867 : Ref sig .tc := ⟨.hbm, 1160, rfl⟩
abbrev main_v868 : Ref sig .tc := ⟨.hbm, 1161, rfl⟩
abbrev main_v869 : Ref sig .tc := ⟨.hbm, 1162, rfl⟩
abbrev main_v870 : Ref sig .tc := ⟨.hbm, 1163, rfl⟩
abbrev main_v871 : Ref sig .tc := ⟨.hbm, 1164, rfl⟩
abbrev main_cst_182 : Ref sig .tc := ⟨.hbm, 1165, rfl⟩
abbrev main_call33_v0 : Ref sig .tc := ⟨.hbm, 1166, rfl⟩
abbrev main_call33_v1 : Ref sig .tc := ⟨.hbm, 1167, rfl⟩
abbrev main_call33_v2 : Ref sig .tc := ⟨.hbm, 1168, rfl⟩
abbrev main_v872 : Ref sig .tc := ⟨.hbm, 1169, rfl⟩
abbrev main_c_183 : Ref sig .tc := ⟨.hbm, 1170, rfl⟩
abbrev main_v873 : Ref sig .tc := ⟨.hbm, 1171, rfl⟩
abbrev main_v874 : Ref sig .tc := ⟨.hbm, 1172, rfl⟩
abbrev main_c_184 : Ref sig .tc := ⟨.hbm, 1173, rfl⟩
abbrev main_v875 : Ref sig .tc := ⟨.hbm, 1174, rfl⟩
abbrev main_v876 : Ref sig .tc := ⟨.hbm, 1175, rfl⟩
abbrev main_v877 : Ref sig .tc := ⟨.hbm, 1176, rfl⟩
abbrev main_v878 : Ref sig .tc := ⟨.hbm, 1177, rfl⟩
abbrev main_v879 : Ref sig .tc := ⟨.hbm, 1178, rfl⟩
abbrev main_c_185 : Ref sig .tc := ⟨.hbm, 1179, rfl⟩
abbrev main_v880 : Ref sig .tc := ⟨.hbm, 1180, rfl⟩
abbrev main_v881 : Ref sig .tc := ⟨.hbm, 1181, rfl⟩
abbrev main_v882 : Ref sig .tc := ⟨.hbm, 1182, rfl⟩
abbrev main_v883 : Ref sig .tc := ⟨.hbm, 1183, rfl⟩
abbrev main_v884 : Ref sig .tc := ⟨.hbm, 1184, rfl⟩
abbrev main_v885 : Ref sig .tc := ⟨.hbm, 1185, rfl⟩
abbrev main_v886 : Ref sig .tc := ⟨.hbm, 1186, rfl⟩
abbrev main_v887 : Ref sig .tc := ⟨.hbm, 1187, rfl⟩
abbrev main_v888 : Ref sig .tc := ⟨.hbm, 1188, rfl⟩
abbrev main_v889 : Ref sig .tc := ⟨.hbm, 1189, rfl⟩
abbrev main_v890 : Ref sig .tc := ⟨.hbm, 1190, rfl⟩
abbrev main_v891 : Ref sig .tc := ⟨.hbm, 1191, rfl⟩
abbrev main_c_186 : Ref sig .tc := ⟨.hbm, 1192, rfl⟩
abbrev main_v892 : Ref sig .tc := ⟨.hbm, 1193, rfl⟩
abbrev main_v893 : Ref sig .tc := ⟨.hbm, 1194, rfl⟩
abbrev main_c_187 : Ref sig .tc := ⟨.hbm, 1195, rfl⟩
abbrev main_v894 : Ref sig .tc := ⟨.hbm, 1196, rfl⟩
abbrev main_v895 : Ref sig .tc := ⟨.hbm, 1197, rfl⟩
abbrev main_v896 : Ref sig .tc := ⟨.hbm, 1198, rfl⟩
abbrev main_v897 : Ref sig .tc := ⟨.hbm, 1199, rfl⟩
abbrev main_v898 : Ref sig .tc := ⟨.hbm, 1200, rfl⟩
abbrev main_cst_188 : Ref sig .tc := ⟨.hbm, 1201, rfl⟩
abbrev main_call34_v0 : Ref sig .tc := ⟨.hbm, 1202, rfl⟩
abbrev main_call34_v1 : Ref sig .tc := ⟨.hbm, 1203, rfl⟩
abbrev main_call34_v2 : Ref sig .tc := ⟨.hbm, 1204, rfl⟩
abbrev main_v899 : Ref sig .tc := ⟨.hbm, 1205, rfl⟩
abbrev main_c_189 : Ref sig .tc := ⟨.hbm, 1206, rfl⟩
abbrev main_v900 : Ref sig .tc := ⟨.hbm, 1207, rfl⟩
abbrev main_v901 : Ref sig .tc := ⟨.hbm, 1208, rfl⟩
abbrev main_c_190 : Ref sig .tc := ⟨.hbm, 1209, rfl⟩
abbrev main_v902 : Ref sig .tc := ⟨.hbm, 1210, rfl⟩
abbrev main_v903 : Ref sig .tc := ⟨.hbm, 1211, rfl⟩
abbrev main_v904 : Ref sig .tc := ⟨.hbm, 1212, rfl⟩
abbrev main_v905 : Ref sig .tc := ⟨.hbm, 1213, rfl⟩
abbrev main_v906 : Ref sig .tc := ⟨.hbm, 1214, rfl⟩
abbrev main_v907 : Ref sig .tc := ⟨.hbm, 1215, rfl⟩
abbrev main_v908 : Ref sig .tc := ⟨.hbm, 1216, rfl⟩
abbrev main_v909 : Ref sig .tc := ⟨.hbm, 1217, rfl⟩
abbrev main_v910 : Ref sig .tc := ⟨.hbm, 1218, rfl⟩
abbrev main_v911 : Ref sig .tc := ⟨.hbm, 1219, rfl⟩
abbrev main_v912 : Ref sig .tc := ⟨.hbm, 1220, rfl⟩
abbrev main_v913 : Ref sig .tc := ⟨.hbm, 1221, rfl⟩
abbrev main_v914 : Ref sig .tc := ⟨.hbm, 1222, rfl⟩
abbrev main_v915 : Ref sig .tc := ⟨.hbm, 1223, rfl⟩
abbrev main_c_191 : Ref sig .tc := ⟨.hbm, 1224, rfl⟩
abbrev main_v916 : Ref sig .tc := ⟨.hbm, 1225, rfl⟩
abbrev main_v917 : Ref sig .tc := ⟨.hbm, 1226, rfl⟩
abbrev main_c_192 : Ref sig .tc := ⟨.hbm, 1227, rfl⟩
abbrev main_v918 : Ref sig .tc := ⟨.hbm, 1228, rfl⟩
abbrev main_v919 : Ref sig .tc := ⟨.hbm, 1229, rfl⟩
abbrev main_v920 : Ref sig .tc := ⟨.hbm, 1230, rfl⟩
abbrev main_v921 : Ref sig .tc := ⟨.hbm, 1231, rfl⟩
abbrev main_v922 : Ref sig .tc := ⟨.hbm, 1232, rfl⟩
abbrev main_cst_193 : Ref sig .tc := ⟨.hbm, 1233, rfl⟩
abbrev main_call35_v0 : Ref sig .tc := ⟨.hbm, 1234, rfl⟩
abbrev main_call35_v1 : Ref sig .tc := ⟨.hbm, 1235, rfl⟩
abbrev main_call35_v2 : Ref sig .tc := ⟨.hbm, 1236, rfl⟩
abbrev main_v923 : Ref sig .tc := ⟨.hbm, 1237, rfl⟩
abbrev main_c_194 : Ref sig .tc := ⟨.hbm, 1238, rfl⟩
abbrev main_v924 : Ref sig .tc := ⟨.hbm, 1239, rfl⟩
abbrev main_v925 : Ref sig .tc := ⟨.hbm, 1240, rfl⟩
abbrev main_c_195 : Ref sig .tc := ⟨.hbm, 1241, rfl⟩
abbrev main_v926 : Ref sig .tc := ⟨.hbm, 1242, rfl⟩
abbrev main_v927 : Ref sig .tc := ⟨.hbm, 1243, rfl⟩
abbrev main_v928 : Ref sig .tc := ⟨.hbm, 1244, rfl⟩
abbrev main_v929 : Ref sig .tc := ⟨.hbm, 1245, rfl⟩
abbrev main_v930 : Ref sig .tc := ⟨.hbm, 1246, rfl⟩
abbrev main_c_196 : Ref sig .tc := ⟨.hbm, 1247, rfl⟩
abbrev main_v931 : Ref sig .tc := ⟨.hbm, 1248, rfl⟩
abbrev main_v932 : Ref sig .tc := ⟨.hbm, 1249, rfl⟩
abbrev main_v933 : Ref sig .tc := ⟨.hbm, 1250, rfl⟩
abbrev main_v934 : Ref sig .tc := ⟨.hbm, 1251, rfl⟩
abbrev main_v935 : Ref sig .tc := ⟨.hbm, 1252, rfl⟩
abbrev main_v936 : Ref sig .tc := ⟨.hbm, 1253, rfl⟩
abbrev main_v937 : Ref sig .tc := ⟨.hbm, 1254, rfl⟩
abbrev main_v938 : Ref sig .tc := ⟨.hbm, 1255, rfl⟩
abbrev main_v939 : Ref sig .tc := ⟨.hbm, 1256, rfl⟩
abbrev main_v940 : Ref sig .tc := ⟨.hbm, 1257, rfl⟩
abbrev main_v941 : Ref sig .tc := ⟨.hbm, 1258, rfl⟩
abbrev main_v942 : Ref sig .tc := ⟨.hbm, 1259, rfl⟩
abbrev main_c_197 : Ref sig .tc := ⟨.hbm, 1260, rfl⟩
abbrev main_v943 : Ref sig .tc := ⟨.hbm, 1261, rfl⟩
abbrev main_v944 : Ref sig .tc := ⟨.hbm, 1262, rfl⟩
abbrev main_c_198 : Ref sig .tc := ⟨.hbm, 1263, rfl⟩
abbrev main_v945 : Ref sig .tc := ⟨.hbm, 1264, rfl⟩
abbrev main_v946 : Ref sig .tc := ⟨.hbm, 1265, rfl⟩
abbrev main_v947 : Ref sig .tc := ⟨.hbm, 1266, rfl⟩
abbrev main_v948 : Ref sig .tc := ⟨.hbm, 1267, rfl⟩
abbrev main_v949 : Ref sig .tc := ⟨.hbm, 1268, rfl⟩
abbrev main_cst_199 : Ref sig .tc := ⟨.hbm, 1269, rfl⟩
abbrev main_call36_v0 : Ref sig .tc := ⟨.hbm, 1270, rfl⟩
abbrev main_call36_v1 : Ref sig .tc := ⟨.hbm, 1271, rfl⟩
abbrev main_call36_v2 : Ref sig .tc := ⟨.hbm, 1272, rfl⟩
abbrev main_v950 : Ref sig .tc := ⟨.hbm, 1273, rfl⟩
abbrev main_c_200 : Ref sig .tc := ⟨.hbm, 1274, rfl⟩
abbrev main_v951 : Ref sig .tc := ⟨.hbm, 1275, rfl⟩
abbrev main_v952 : Ref sig .tc := ⟨.hbm, 1276, rfl⟩
abbrev main_c_201 : Ref sig .tc := ⟨.hbm, 1277, rfl⟩
abbrev main_v953 : Ref sig .tc := ⟨.hbm, 1278, rfl⟩
abbrev main_v954 : Ref sig .tc := ⟨.hbm, 1279, rfl⟩
abbrev main_v955 : Ref sig .tc := ⟨.hbm, 1280, rfl⟩
abbrev main_v956 : Ref sig .tc := ⟨.hbm, 1281, rfl⟩
abbrev main_v957 : Ref sig .tc := ⟨.hbm, 1282, rfl⟩
abbrev main_v958 : Ref sig .tc := ⟨.hbm, 1283, rfl⟩
abbrev main_v959 : Ref sig .tc := ⟨.hbm, 1284, rfl⟩
abbrev main_v960 : Ref sig .tc := ⟨.hbm, 1285, rfl⟩
abbrev main_v961 : Ref sig .tc := ⟨.hbm, 1286, rfl⟩
abbrev main_v962 : Ref sig .tc := ⟨.hbm, 1287, rfl⟩
abbrev main_v963 : Ref sig .tc := ⟨.hbm, 1288, rfl⟩
abbrev main_v964 : Ref sig .tc := ⟨.hbm, 1289, rfl⟩
abbrev main_v965 : Ref sig .tc := ⟨.hbm, 1290, rfl⟩
abbrev main_v966 : Ref sig .tc := ⟨.hbm, 1291, rfl⟩
abbrev main_c_202 : Ref sig .tc := ⟨.hbm, 1292, rfl⟩
abbrev main_v967 : Ref sig .tc := ⟨.hbm, 1293, rfl⟩
abbrev main_v968 : Ref sig .tc := ⟨.hbm, 1294, rfl⟩
abbrev main_c_203 : Ref sig .tc := ⟨.hbm, 1295, rfl⟩
abbrev main_v969 : Ref sig .tc := ⟨.hbm, 1296, rfl⟩
abbrev main_v970 : Ref sig .tc := ⟨.hbm, 1297, rfl⟩
abbrev main_v971 : Ref sig .tc := ⟨.hbm, 1298, rfl⟩
abbrev main_v972 : Ref sig .tc := ⟨.hbm, 1299, rfl⟩
abbrev main_v973 : Ref sig .tc := ⟨.hbm, 1300, rfl⟩
abbrev main_cst_204 : Ref sig .tc := ⟨.hbm, 1301, rfl⟩
abbrev main_call37_v0 : Ref sig .tc := ⟨.hbm, 1302, rfl⟩
abbrev main_call37_v1 : Ref sig .tc := ⟨.hbm, 1303, rfl⟩
abbrev main_call37_v2 : Ref sig .tc := ⟨.hbm, 1304, rfl⟩
abbrev main_v974 : Ref sig .tc := ⟨.hbm, 1305, rfl⟩
abbrev main_c_205 : Ref sig .tc := ⟨.hbm, 1306, rfl⟩
abbrev main_v975 : Ref sig .tc := ⟨.hbm, 1307, rfl⟩
abbrev main_v976 : Ref sig .tc := ⟨.hbm, 1308, rfl⟩
abbrev main_c_206 : Ref sig .tc := ⟨.hbm, 1309, rfl⟩
abbrev main_v977 : Ref sig .tc := ⟨.hbm, 1310, rfl⟩
abbrev main_v978 : Ref sig .tc := ⟨.hbm, 1311, rfl⟩
abbrev main_v979 : Ref sig .tc := ⟨.hbm, 1312, rfl⟩
abbrev main_v980 : Ref sig .tc := ⟨.hbm, 1313, rfl⟩
abbrev main_v981 : Ref sig .tc := ⟨.hbm, 1314, rfl⟩
abbrev main_c_207 : Ref sig .tc := ⟨.hbm, 1315, rfl⟩
abbrev main_v982 : Ref sig .tc := ⟨.hbm, 1316, rfl⟩
abbrev main_v983 : Ref sig .tc := ⟨.hbm, 1317, rfl⟩
abbrev main_v984 : Ref sig .tc := ⟨.hbm, 1318, rfl⟩
abbrev main_v985 : Ref sig .tc := ⟨.hbm, 1319, rfl⟩
abbrev main_v986 : Ref sig .tc := ⟨.hbm, 1320, rfl⟩
abbrev main_v987 : Ref sig .tc := ⟨.hbm, 1321, rfl⟩
abbrev main_v988 : Ref sig .tc := ⟨.hbm, 1322, rfl⟩
abbrev main_v989 : Ref sig .tc := ⟨.hbm, 1323, rfl⟩
abbrev main_v990 : Ref sig .tc := ⟨.hbm, 1324, rfl⟩
abbrev main_v991 : Ref sig .tc := ⟨.hbm, 1325, rfl⟩
abbrev main_v992 : Ref sig .tc := ⟨.hbm, 1326, rfl⟩
abbrev main_v993 : Ref sig .tc := ⟨.hbm, 1327, rfl⟩
abbrev main_c_208 : Ref sig .tc := ⟨.hbm, 1328, rfl⟩
abbrev main_v994 : Ref sig .tc := ⟨.hbm, 1329, rfl⟩
abbrev main_v995 : Ref sig .tc := ⟨.hbm, 1330, rfl⟩
abbrev main_c_209 : Ref sig .tc := ⟨.hbm, 1331, rfl⟩
abbrev main_v996 : Ref sig .tc := ⟨.hbm, 1332, rfl⟩
abbrev main_v997 : Ref sig .tc := ⟨.hbm, 1333, rfl⟩
abbrev main_v998 : Ref sig .tc := ⟨.hbm, 1334, rfl⟩
abbrev main_v999 : Ref sig .tc := ⟨.hbm, 1335, rfl⟩
abbrev main_v1000 : Ref sig .tc := ⟨.hbm, 1336, rfl⟩
abbrev main_cst_210 : Ref sig .tc := ⟨.hbm, 1337, rfl⟩
abbrev main_call38_v0 : Ref sig .tc := ⟨.hbm, 1338, rfl⟩
abbrev main_call38_v1 : Ref sig .tc := ⟨.hbm, 1339, rfl⟩
abbrev main_call38_v2 : Ref sig .tc := ⟨.hbm, 1340, rfl⟩
abbrev main_v1001 : Ref sig .tc := ⟨.hbm, 1341, rfl⟩
abbrev main_c_211 : Ref sig .tc := ⟨.hbm, 1342, rfl⟩
abbrev main_v1002 : Ref sig .tc := ⟨.hbm, 1343, rfl⟩
abbrev main_v1003 : Ref sig .tc := ⟨.hbm, 1344, rfl⟩
abbrev main_c_212 : Ref sig .tc := ⟨.hbm, 1345, rfl⟩
abbrev main_v1004 : Ref sig .tc := ⟨.hbm, 1346, rfl⟩
abbrev main_v1005 : Ref sig .tc := ⟨.hbm, 1347, rfl⟩
abbrev main_v1006 : Ref sig .tc := ⟨.hbm, 1348, rfl⟩
abbrev main_v1007 : Ref sig .tc := ⟨.hbm, 1349, rfl⟩
abbrev main_v1008 : Ref sig .tc := ⟨.hbm, 1350, rfl⟩
abbrev main_v1009 : Ref sig .tc := ⟨.hbm, 1351, rfl⟩
abbrev main_v1010 : Ref sig .tc := ⟨.hbm, 1352, rfl⟩
abbrev main_v1011 : Ref sig .tc := ⟨.hbm, 1353, rfl⟩
abbrev main_v1012 : Ref sig .tc := ⟨.hbm, 1354, rfl⟩
abbrev main_v1013 : Ref sig .tc := ⟨.hbm, 1355, rfl⟩
abbrev main_v1014 : Ref sig .tc := ⟨.hbm, 1356, rfl⟩
abbrev main_v1015 : Ref sig .tc := ⟨.hbm, 1357, rfl⟩
abbrev main_v1016 : Ref sig .tc := ⟨.hbm, 1358, rfl⟩
abbrev main_v1017 : Ref sig .tc := ⟨.hbm, 1359, rfl⟩
abbrev main_c_213 : Ref sig .tc := ⟨.hbm, 1360, rfl⟩
abbrev main_v1018 : Ref sig .tc := ⟨.hbm, 1361, rfl⟩
abbrev main_v1019 : Ref sig .tc := ⟨.hbm, 1362, rfl⟩
abbrev main_c_214 : Ref sig .tc := ⟨.hbm, 1363, rfl⟩
abbrev main_v1020 : Ref sig .tc := ⟨.hbm, 1364, rfl⟩
abbrev main_v1021 : Ref sig .tc := ⟨.hbm, 1365, rfl⟩
abbrev main_v1022 : Ref sig .tc := ⟨.hbm, 1366, rfl⟩
abbrev main_v1023 : Ref sig .tc := ⟨.hbm, 1367, rfl⟩
abbrev main_v1024 : Ref sig .tc := ⟨.hbm, 1368, rfl⟩
abbrev main_cst_215 : Ref sig .tc := ⟨.hbm, 1369, rfl⟩
abbrev main_call39_v0 : Ref sig .tc := ⟨.hbm, 1370, rfl⟩
abbrev main_call39_v1 : Ref sig .tc := ⟨.hbm, 1371, rfl⟩
abbrev main_call39_v2 : Ref sig .tc := ⟨.hbm, 1372, rfl⟩
abbrev main_v1025 : Ref sig .tc := ⟨.hbm, 1373, rfl⟩
abbrev main_c_216 : Ref sig .tc := ⟨.hbm, 1374, rfl⟩
abbrev main_v1026 : Ref sig .tc := ⟨.hbm, 1375, rfl⟩
abbrev main_v1027 : Ref sig .tc := ⟨.hbm, 1376, rfl⟩
abbrev main_c_217 : Ref sig .tc := ⟨.hbm, 1377, rfl⟩
abbrev main_v1028 : Ref sig .tc := ⟨.hbm, 1378, rfl⟩
abbrev main_v1029 : Ref sig .tc := ⟨.hbm, 1379, rfl⟩
abbrev main_v1030 : Ref sig .tc := ⟨.hbm, 1380, rfl⟩
abbrev main_v1031 : Ref sig .tc := ⟨.hbm, 1381, rfl⟩
abbrev main_v1032 : Ref sig .tc := ⟨.hbm, 1382, rfl⟩
abbrev main_call40_cst : Ref sig .tc := ⟨.hbm, 1383, rfl⟩
abbrev main_call40_v0 : Ref sig .tc := ⟨.hbm, 1384, rfl⟩
abbrev main_v1033 : Ref sig .tc := ⟨.hbm, 1385, rfl⟩
abbrev main_v1034 : Ref sig .tc := ⟨.hbm, 1386, rfl⟩
abbrev main_v1035 : Ref sig .tc := ⟨.hbm, 1387, rfl⟩
abbrev main_v1036 : Ref sig .tc := ⟨.hbm, 1388, rfl⟩
abbrev main_v1037 : Ref sig .tc := ⟨.hbm, 1389, rfl⟩
abbrev main_v1038 : Ref sig .tc := ⟨.hbm, 1390, rfl⟩
abbrev main_v1039 : Ref sig .tc := ⟨.hbm, 1391, rfl⟩
abbrev main_v1040 : Ref sig .tc := ⟨.hbm, 1392, rfl⟩
abbrev main_v1041 : Ref sig .tc := ⟨.hbm, 1393, rfl⟩
abbrev main_v1042 : Ref sig .tc := ⟨.hbm, 1394, rfl⟩
abbrev main_v1043 : Ref sig .tc := ⟨.hbm, 1395, rfl⟩
abbrev main_v1044 : Ref sig .tc := ⟨.hbm, 1396, rfl⟩
abbrev main_v1045 : Ref sig .tc := ⟨.hbm, 1397, rfl⟩
abbrev main_v1046 : Ref sig .tc := ⟨.hbm, 1398, rfl⟩
abbrev main_c_218 : Ref sig .tc := ⟨.hbm, 1399, rfl⟩
abbrev main_v1047 : Ref sig .tc := ⟨.hbm, 1400, rfl⟩
abbrev main_v1048 : Ref sig .tc := ⟨.hbm, 1401, rfl⟩
abbrev main_v1049 : Ref sig .tc := ⟨.hbm, 1402, rfl⟩
abbrev main_v1050 : Ref sig .tc := ⟨.hbm, 1403, rfl⟩
abbrev main_v1051 : Ref sig .tc := ⟨.hbm, 1404, rfl⟩
abbrev main_v1052 : Ref sig .tc := ⟨.hbm, 1405, rfl⟩
abbrev main_v1053 : Ref sig .tc := ⟨.hbm, 1406, rfl⟩
abbrev main_v1054 : Ref sig .tc := ⟨.hbm, 1407, rfl⟩
abbrev main_v1055 : Ref sig .tc := ⟨.hbm, 1408, rfl⟩
abbrev main_v1056 : Ref sig .tc := ⟨.hbm, 1409, rfl⟩
abbrev main_v1057 : Ref sig .tc := ⟨.hbm, 1410, rfl⟩
abbrev main_v1058 : Ref sig .tc := ⟨.hbm, 1411, rfl⟩
abbrev main_c_219 : Ref sig .tc := ⟨.hbm, 1412, rfl⟩
abbrev main_v1059 : Ref sig .tc := ⟨.hbm, 1413, rfl⟩
abbrev main_v1060 : Ref sig .tc := ⟨.hbm, 1414, rfl⟩
abbrev main_c_220 : Ref sig .tc := ⟨.hbm, 1415, rfl⟩
abbrev main_v1061 : Ref sig .tc := ⟨.hbm, 1416, rfl⟩
abbrev main_v1062 : Ref sig .tc := ⟨.hbm, 1417, rfl⟩
abbrev main_v1063 : Ref sig .tc := ⟨.hbm, 1418, rfl⟩
abbrev main_v1064 : Ref sig .tc := ⟨.hbm, 1419, rfl⟩
abbrev main_v1065 : Ref sig .tc := ⟨.hbm, 1420, rfl⟩
abbrev main_cst_221 : Ref sig .tc := ⟨.hbm, 1421, rfl⟩
abbrev main_call41_v0 : Ref sig .tc := ⟨.hbm, 1422, rfl⟩
abbrev main_call41_v1 : Ref sig .tc := ⟨.hbm, 1423, rfl⟩
abbrev main_call41_v2 : Ref sig .tc := ⟨.hbm, 1424, rfl⟩
abbrev main_v1066 : Ref sig .tc := ⟨.hbm, 1425, rfl⟩
abbrev main_c_222 : Ref sig .tc := ⟨.hbm, 1426, rfl⟩
abbrev main_v1067 : Ref sig .tc := ⟨.hbm, 1427, rfl⟩
abbrev main_v1068 : Ref sig .tc := ⟨.hbm, 1428, rfl⟩
abbrev main_c_223 : Ref sig .tc := ⟨.hbm, 1429, rfl⟩
abbrev main_v1069 : Ref sig .tc := ⟨.hbm, 1430, rfl⟩
abbrev main_v1070 : Ref sig .tc := ⟨.hbm, 1431, rfl⟩
abbrev main_v1071 : Ref sig .tc := ⟨.hbm, 1432, rfl⟩
abbrev main_v1072 : Ref sig .tc := ⟨.hbm, 1433, rfl⟩
abbrev main_v1073 : Ref sig .tc := ⟨.hbm, 1434, rfl⟩
abbrev main_v1074 : Ref sig .tc := ⟨.hbm, 1435, rfl⟩
abbrev main_v1075 : Ref sig .tc := ⟨.hbm, 1436, rfl⟩
abbrev main_v1076 : Ref sig .tc := ⟨.hbm, 1437, rfl⟩
abbrev main_v1077 : Ref sig .tc := ⟨.hbm, 1438, rfl⟩
abbrev main_v1078 : Ref sig .tc := ⟨.hbm, 1439, rfl⟩
abbrev main_v1079 : Ref sig .tc := ⟨.hbm, 1440, rfl⟩
abbrev main_v1080 : Ref sig .tc := ⟨.hbm, 1441, rfl⟩
abbrev main_v1081 : Ref sig .tc := ⟨.hbm, 1442, rfl⟩
abbrev main_v1082 : Ref sig .tc := ⟨.hbm, 1443, rfl⟩
abbrev main_c_224 : Ref sig .tc := ⟨.hbm, 1444, rfl⟩
abbrev main_v1083 : Ref sig .tc := ⟨.hbm, 1445, rfl⟩
abbrev main_v1084 : Ref sig .tc := ⟨.hbm, 1446, rfl⟩
abbrev main_c_225 : Ref sig .tc := ⟨.hbm, 1447, rfl⟩
abbrev main_v1085 : Ref sig .tc := ⟨.hbm, 1448, rfl⟩
abbrev main_v1086 : Ref sig .tc := ⟨.hbm, 1449, rfl⟩
abbrev main_v1087 : Ref sig .tc := ⟨.hbm, 1450, rfl⟩
abbrev main_v1088 : Ref sig .tc := ⟨.hbm, 1451, rfl⟩
abbrev main_v1089 : Ref sig .tc := ⟨.hbm, 1452, rfl⟩
abbrev main_cst_226 : Ref sig .tc := ⟨.hbm, 1453, rfl⟩
abbrev main_call42_v0 : Ref sig .tc := ⟨.hbm, 1454, rfl⟩
abbrev main_call42_v1 : Ref sig .tc := ⟨.hbm, 1455, rfl⟩
abbrev main_call42_v2 : Ref sig .tc := ⟨.hbm, 1456, rfl⟩
abbrev main_v1090 : Ref sig .tc := ⟨.hbm, 1457, rfl⟩
abbrev main_c_227 : Ref sig .tc := ⟨.hbm, 1458, rfl⟩
abbrev main_v1091 : Ref sig .tc := ⟨.hbm, 1459, rfl⟩
abbrev main_v1092 : Ref sig .tc := ⟨.hbm, 1460, rfl⟩
abbrev main_c_228 : Ref sig .tc := ⟨.hbm, 1461, rfl⟩
abbrev main_v1093 : Ref sig .tc := ⟨.hbm, 1462, rfl⟩
abbrev main_v1094 : Ref sig .tc := ⟨.hbm, 1463, rfl⟩
abbrev main_v1095 : Ref sig .tc := ⟨.hbm, 1464, rfl⟩
abbrev main_v1096 : Ref sig .tc := ⟨.hbm, 1465, rfl⟩
abbrev main_v1097 : Ref sig .tc := ⟨.hbm, 1466, rfl⟩
abbrev main_c_229 : Ref sig .tc := ⟨.hbm, 1467, rfl⟩
abbrev main_v1098 : Ref sig .tc := ⟨.hbm, 1468, rfl⟩
abbrev main_v1099 : Ref sig .tc := ⟨.hbm, 1469, rfl⟩
abbrev main_v1100 : Ref sig .tc := ⟨.hbm, 1470, rfl⟩
abbrev main_v1101 : Ref sig .tc := ⟨.hbm, 1471, rfl⟩
abbrev main_v1102 : Ref sig .tc := ⟨.hbm, 1472, rfl⟩
abbrev main_v1103 : Ref sig .tc := ⟨.hbm, 1473, rfl⟩
abbrev main_v1104 : Ref sig .tc := ⟨.hbm, 1474, rfl⟩
abbrev main_v1105 : Ref sig .tc := ⟨.hbm, 1475, rfl⟩
abbrev main_v1106 : Ref sig .tc := ⟨.hbm, 1476, rfl⟩
abbrev main_v1107 : Ref sig .tc := ⟨.hbm, 1477, rfl⟩
abbrev main_v1108 : Ref sig .tc := ⟨.hbm, 1478, rfl⟩
abbrev main_v1109 : Ref sig .tc := ⟨.hbm, 1479, rfl⟩
abbrev main_c_230 : Ref sig .tc := ⟨.hbm, 1480, rfl⟩
abbrev main_v1110 : Ref sig .tc := ⟨.hbm, 1481, rfl⟩
abbrev main_v1111 : Ref sig .tc := ⟨.hbm, 1482, rfl⟩
abbrev main_c_231 : Ref sig .tc := ⟨.hbm, 1483, rfl⟩
abbrev main_v1112 : Ref sig .tc := ⟨.hbm, 1484, rfl⟩
abbrev main_v1113 : Ref sig .tc := ⟨.hbm, 1485, rfl⟩
abbrev main_v1114 : Ref sig .tc := ⟨.hbm, 1486, rfl⟩
abbrev main_v1115 : Ref sig .tc := ⟨.hbm, 1487, rfl⟩
abbrev main_v1116 : Ref sig .tc := ⟨.hbm, 1488, rfl⟩
abbrev main_cst_232 : Ref sig .tc := ⟨.hbm, 1489, rfl⟩
abbrev main_call43_v0 : Ref sig .tc := ⟨.hbm, 1490, rfl⟩
abbrev main_call43_v1 : Ref sig .tc := ⟨.hbm, 1491, rfl⟩
abbrev main_call43_v2 : Ref sig .tc := ⟨.hbm, 1492, rfl⟩
abbrev main_v1117 : Ref sig .tc := ⟨.hbm, 1493, rfl⟩
abbrev main_c_233 : Ref sig .tc := ⟨.hbm, 1494, rfl⟩
abbrev main_v1118 : Ref sig .tc := ⟨.hbm, 1495, rfl⟩
abbrev main_v1119 : Ref sig .tc := ⟨.hbm, 1496, rfl⟩
abbrev main_c_234 : Ref sig .tc := ⟨.hbm, 1497, rfl⟩
abbrev main_v1120 : Ref sig .tc := ⟨.hbm, 1498, rfl⟩
abbrev main_v1121 : Ref sig .tc := ⟨.hbm, 1499, rfl⟩
abbrev main_v1122 : Ref sig .tc := ⟨.hbm, 1500, rfl⟩
abbrev main_v1123 : Ref sig .tc := ⟨.hbm, 1501, rfl⟩
abbrev main_v1124 : Ref sig .tc := ⟨.hbm, 1502, rfl⟩
abbrev main_v1125 : Ref sig .tc := ⟨.hbm, 1503, rfl⟩
abbrev main_v1126 : Ref sig .tc := ⟨.hbm, 1504, rfl⟩
abbrev main_v1127 : Ref sig .tc := ⟨.hbm, 1505, rfl⟩
abbrev main_v1128 : Ref sig .tc := ⟨.hbm, 1506, rfl⟩
abbrev main_v1129 : Ref sig .tc := ⟨.hbm, 1507, rfl⟩
abbrev main_v1130 : Ref sig .tc := ⟨.hbm, 1508, rfl⟩
abbrev main_v1131 : Ref sig .tc := ⟨.hbm, 1509, rfl⟩
abbrev main_v1132 : Ref sig .tc := ⟨.hbm, 1510, rfl⟩
abbrev main_v1133 : Ref sig .tc := ⟨.hbm, 1511, rfl⟩
abbrev main_c_235 : Ref sig .tc := ⟨.hbm, 1512, rfl⟩
abbrev main_v1134 : Ref sig .tc := ⟨.hbm, 1513, rfl⟩
abbrev main_v1135 : Ref sig .tc := ⟨.hbm, 1514, rfl⟩
abbrev main_c_236 : Ref sig .tc := ⟨.hbm, 1515, rfl⟩
abbrev main_v1136 : Ref sig .tc := ⟨.hbm, 1516, rfl⟩
abbrev main_v1137 : Ref sig .tc := ⟨.hbm, 1517, rfl⟩
abbrev main_v1138 : Ref sig .tc := ⟨.hbm, 1518, rfl⟩
abbrev main_v1139 : Ref sig .tc := ⟨.hbm, 1519, rfl⟩
abbrev main_v1140 : Ref sig .tc := ⟨.hbm, 1520, rfl⟩
abbrev main_cst_237 : Ref sig .tc := ⟨.hbm, 1521, rfl⟩
abbrev main_call44_v0 : Ref sig .tc := ⟨.hbm, 1522, rfl⟩
abbrev main_call44_v1 : Ref sig .tc := ⟨.hbm, 1523, rfl⟩
abbrev main_call44_v2 : Ref sig .tc := ⟨.hbm, 1524, rfl⟩
abbrev main_v1141 : Ref sig .tc := ⟨.hbm, 1525, rfl⟩
abbrev main_c_238 : Ref sig .tc := ⟨.hbm, 1526, rfl⟩
abbrev main_v1142 : Ref sig .tc := ⟨.hbm, 1527, rfl⟩
abbrev main_v1143 : Ref sig .tc := ⟨.hbm, 1528, rfl⟩
abbrev main_c_239 : Ref sig .tc := ⟨.hbm, 1529, rfl⟩
abbrev main_v1144 : Ref sig .tc := ⟨.hbm, 1530, rfl⟩
abbrev main_v1145 : Ref sig .tc := ⟨.hbm, 1531, rfl⟩
abbrev main_v1146 : Ref sig .tc := ⟨.hbm, 1532, rfl⟩
abbrev main_v1147 : Ref sig .tc := ⟨.hbm, 1533, rfl⟩
abbrev main_v1148 : Ref sig .tc := ⟨.hbm, 1534, rfl⟩
abbrev main_c_240 : Ref sig .tc := ⟨.hbm, 1535, rfl⟩
abbrev main_v1149 : Ref sig .tc := ⟨.hbm, 1536, rfl⟩
abbrev main_v1150 : Ref sig .tc := ⟨.hbm, 1537, rfl⟩
abbrev main_v1151 : Ref sig .tc := ⟨.hbm, 1538, rfl⟩
abbrev main_v1152 : Ref sig .tc := ⟨.hbm, 1539, rfl⟩
abbrev main_v1153 : Ref sig .tc := ⟨.hbm, 1540, rfl⟩
abbrev main_v1154 : Ref sig .tc := ⟨.hbm, 1541, rfl⟩
abbrev main_v1155 : Ref sig .tc := ⟨.hbm, 1542, rfl⟩
abbrev main_v1156 : Ref sig .tc := ⟨.hbm, 1543, rfl⟩
abbrev main_v1157 : Ref sig .tc := ⟨.hbm, 1544, rfl⟩
abbrev main_v1158 : Ref sig .tc := ⟨.hbm, 1545, rfl⟩
abbrev main_v1159 : Ref sig .tc := ⟨.hbm, 1546, rfl⟩
abbrev main_v1160 : Ref sig .tc := ⟨.hbm, 1547, rfl⟩
abbrev main_c_241 : Ref sig .tc := ⟨.hbm, 1548, rfl⟩
abbrev main_v1161 : Ref sig .tc := ⟨.hbm, 1549, rfl⟩
abbrev main_v1162 : Ref sig .tc := ⟨.hbm, 1550, rfl⟩
abbrev main_c_242 : Ref sig .tc := ⟨.hbm, 1551, rfl⟩
abbrev main_v1163 : Ref sig .tc := ⟨.hbm, 1552, rfl⟩
abbrev main_v1164 : Ref sig .tc := ⟨.hbm, 1553, rfl⟩
abbrev main_v1165 : Ref sig .tc := ⟨.hbm, 1554, rfl⟩
abbrev main_v1166 : Ref sig .tc := ⟨.hbm, 1555, rfl⟩
abbrev main_v1167 : Ref sig .tc := ⟨.hbm, 1556, rfl⟩
abbrev main_cst_243 : Ref sig .tc := ⟨.hbm, 1557, rfl⟩
abbrev main_call45_v0 : Ref sig .tc := ⟨.hbm, 1558, rfl⟩
abbrev main_call45_v1 : Ref sig .tc := ⟨.hbm, 1559, rfl⟩
abbrev main_call45_v2 : Ref sig .tc := ⟨.hbm, 1560, rfl⟩
abbrev main_v1168 : Ref sig .tc := ⟨.hbm, 1561, rfl⟩
abbrev main_c_244 : Ref sig .tc := ⟨.hbm, 1562, rfl⟩
abbrev main_v1169 : Ref sig .tc := ⟨.hbm, 1563, rfl⟩
abbrev main_v1170 : Ref sig .tc := ⟨.hbm, 1564, rfl⟩
abbrev main_c_245 : Ref sig .tc := ⟨.hbm, 1565, rfl⟩
abbrev main_v1171 : Ref sig .tc := ⟨.hbm, 1566, rfl⟩
abbrev main_v1172 : Ref sig .tc := ⟨.hbm, 1567, rfl⟩
abbrev main_v1173 : Ref sig .tc := ⟨.hbm, 1568, rfl⟩
abbrev main_v1174 : Ref sig .tc := ⟨.hbm, 1569, rfl⟩
abbrev main_v1175 : Ref sig .tc := ⟨.hbm, 1570, rfl⟩
abbrev main_v1176 : Ref sig .tc := ⟨.hbm, 1571, rfl⟩
abbrev main_v1177 : Ref sig .tc := ⟨.hbm, 1572, rfl⟩
abbrev main_v1178 : Ref sig .tc := ⟨.hbm, 1573, rfl⟩
abbrev main_v1179 : Ref sig .tc := ⟨.hbm, 1574, rfl⟩
abbrev main_v1180 : Ref sig .tc := ⟨.hbm, 1575, rfl⟩
abbrev main_v1181 : Ref sig .tc := ⟨.hbm, 1576, rfl⟩
abbrev main_v1182 : Ref sig .tc := ⟨.hbm, 1577, rfl⟩
abbrev main_v1183 : Ref sig .tc := ⟨.hbm, 1578, rfl⟩
abbrev main_v1184 : Ref sig .tc := ⟨.hbm, 1579, rfl⟩
abbrev main_c_246 : Ref sig .tc := ⟨.hbm, 1580, rfl⟩
abbrev main_v1185 : Ref sig .tc := ⟨.hbm, 1581, rfl⟩
abbrev main_v1186 : Ref sig .tc := ⟨.hbm, 1582, rfl⟩
abbrev main_c_247 : Ref sig .tc := ⟨.hbm, 1583, rfl⟩
abbrev main_v1187 : Ref sig .tc := ⟨.hbm, 1584, rfl⟩
abbrev main_v1188 : Ref sig .tc := ⟨.hbm, 1585, rfl⟩
abbrev main_v1189 : Ref sig .tc := ⟨.hbm, 1586, rfl⟩
abbrev main_v1190 : Ref sig .tc := ⟨.hbm, 1587, rfl⟩
abbrev main_v1191 : Ref sig .tc := ⟨.hbm, 1588, rfl⟩
abbrev main_cst_248 : Ref sig .tc := ⟨.hbm, 1589, rfl⟩
abbrev main_call46_v0 : Ref sig .tc := ⟨.hbm, 1590, rfl⟩
abbrev main_call46_v1 : Ref sig .tc := ⟨.hbm, 1591, rfl⟩
abbrev main_call46_v2 : Ref sig .tc := ⟨.hbm, 1592, rfl⟩
abbrev main_v1192 : Ref sig .tc := ⟨.hbm, 1593, rfl⟩
abbrev main_c_249 : Ref sig .tc := ⟨.hbm, 1594, rfl⟩
abbrev main_v1193 : Ref sig .tc := ⟨.hbm, 1595, rfl⟩
abbrev main_v1194 : Ref sig .tc := ⟨.hbm, 1596, rfl⟩
abbrev main_c_250 : Ref sig .tc := ⟨.hbm, 1597, rfl⟩
abbrev main_v1195 : Ref sig .tc := ⟨.hbm, 1598, rfl⟩
abbrev main_v1196 : Ref sig .tc := ⟨.hbm, 1599, rfl⟩
abbrev main_v1197 : Ref sig .tc := ⟨.hbm, 1600, rfl⟩
abbrev main_v1198 : Ref sig .tc := ⟨.hbm, 1601, rfl⟩
abbrev main_v1199 : Ref sig .tc := ⟨.hbm, 1602, rfl⟩
abbrev main_c_251 : Ref sig .tc := ⟨.hbm, 1603, rfl⟩
abbrev main_v1200 : Ref sig .tc := ⟨.hbm, 1604, rfl⟩
abbrev main_v1201 : Ref sig .tc := ⟨.hbm, 1605, rfl⟩
abbrev main_v1202 : Ref sig .tc := ⟨.hbm, 1606, rfl⟩
abbrev main_v1203 : Ref sig .tc := ⟨.hbm, 1607, rfl⟩
abbrev main_v1204 : Ref sig .tc := ⟨.hbm, 1608, rfl⟩
abbrev main_v1205 : Ref sig .tc := ⟨.hbm, 1609, rfl⟩
abbrev main_v1206 : Ref sig .tc := ⟨.hbm, 1610, rfl⟩
abbrev main_v1207 : Ref sig .tc := ⟨.hbm, 1611, rfl⟩
abbrev main_v1208 : Ref sig .tc := ⟨.hbm, 1612, rfl⟩
abbrev main_v1209 : Ref sig .tc := ⟨.hbm, 1613, rfl⟩
abbrev main_v1210 : Ref sig .tc := ⟨.hbm, 1614, rfl⟩
abbrev main_v1211 : Ref sig .tc := ⟨.hbm, 1615, rfl⟩
abbrev main_c_252 : Ref sig .tc := ⟨.hbm, 1616, rfl⟩
abbrev main_v1212 : Ref sig .tc := ⟨.hbm, 1617, rfl⟩
abbrev main_v1213 : Ref sig .tc := ⟨.hbm, 1618, rfl⟩
abbrev main_c_253 : Ref sig .tc := ⟨.hbm, 1619, rfl⟩
abbrev main_v1214 : Ref sig .tc := ⟨.hbm, 1620, rfl⟩
abbrev main_v1215 : Ref sig .tc := ⟨.hbm, 1621, rfl⟩
abbrev main_v1216 : Ref sig .tc := ⟨.hbm, 1622, rfl⟩
abbrev main_v1217 : Ref sig .tc := ⟨.hbm, 1623, rfl⟩
abbrev main_v1218 : Ref sig .tc := ⟨.hbm, 1624, rfl⟩
abbrev main_cst_254 : Ref sig .tc := ⟨.hbm, 1625, rfl⟩
abbrev main_call47_v0 : Ref sig .tc := ⟨.hbm, 1626, rfl⟩
abbrev main_call47_v1 : Ref sig .tc := ⟨.hbm, 1627, rfl⟩
abbrev main_call47_v2 : Ref sig .tc := ⟨.hbm, 1628, rfl⟩
abbrev main_v1219 : Ref sig .tc := ⟨.hbm, 1629, rfl⟩
abbrev main_c_255 : Ref sig .tc := ⟨.hbm, 1630, rfl⟩
abbrev main_v1220 : Ref sig .tc := ⟨.hbm, 1631, rfl⟩
abbrev main_v1221 : Ref sig .tc := ⟨.hbm, 1632, rfl⟩
abbrev main_c_256 : Ref sig .tc := ⟨.hbm, 1633, rfl⟩
abbrev main_v1222 : Ref sig .tc := ⟨.hbm, 1634, rfl⟩
abbrev main_v1223 : Ref sig .tc := ⟨.hbm, 1635, rfl⟩
abbrev main_v1224 : Ref sig .tc := ⟨.hbm, 1636, rfl⟩
abbrev main_v1225 : Ref sig .tc := ⟨.hbm, 1637, rfl⟩
abbrev main_v1226 : Ref sig .tc := ⟨.hbm, 1638, rfl⟩
abbrev main_v1227 : Ref sig .tc := ⟨.hbm, 1639, rfl⟩
abbrev main_v1228 : Ref sig .tc := ⟨.hbm, 1640, rfl⟩
abbrev main_v1229 : Ref sig .tc := ⟨.hbm, 1641, rfl⟩
abbrev main_v1230 : Ref sig .tc := ⟨.hbm, 1642, rfl⟩
abbrev main_v1231 : Ref sig .tc := ⟨.hbm, 1643, rfl⟩
abbrev main_v1232 : Ref sig .tc := ⟨.hbm, 1644, rfl⟩
abbrev main_v1233 : Ref sig .tc := ⟨.hbm, 1645, rfl⟩
abbrev main_v1234 : Ref sig .tc := ⟨.hbm, 1646, rfl⟩
abbrev main_v1235 : Ref sig .tc := ⟨.hbm, 1647, rfl⟩
abbrev main_c_257 : Ref sig .tc := ⟨.hbm, 1648, rfl⟩
abbrev main_v1236 : Ref sig .tc := ⟨.hbm, 1649, rfl⟩
abbrev main_v1237 : Ref sig .tc := ⟨.hbm, 1650, rfl⟩
abbrev main_c_258 : Ref sig .tc := ⟨.hbm, 1651, rfl⟩
abbrev main_v1238 : Ref sig .tc := ⟨.hbm, 1652, rfl⟩
abbrev main_v1239 : Ref sig .tc := ⟨.hbm, 1653, rfl⟩
abbrev main_v1240 : Ref sig .tc := ⟨.hbm, 1654, rfl⟩
abbrev main_v1241 : Ref sig .tc := ⟨.hbm, 1655, rfl⟩
abbrev main_v1242 : Ref sig .tc := ⟨.hbm, 1656, rfl⟩
abbrev main_cst_259 : Ref sig .tc := ⟨.hbm, 1657, rfl⟩
abbrev main_call48_v0 : Ref sig .tc := ⟨.hbm, 1658, rfl⟩
abbrev main_call48_v1 : Ref sig .tc := ⟨.hbm, 1659, rfl⟩
abbrev main_call48_v2 : Ref sig .tc := ⟨.hbm, 1660, rfl⟩
abbrev main_v1243 : Ref sig .tc := ⟨.hbm, 1661, rfl⟩
abbrev main_c_260 : Ref sig .tc := ⟨.hbm, 1662, rfl⟩
abbrev main_v1244 : Ref sig .tc := ⟨.hbm, 1663, rfl⟩
abbrev main_v1245 : Ref sig .tc := ⟨.hbm, 1664, rfl⟩
abbrev main_c_261 : Ref sig .tc := ⟨.hbm, 1665, rfl⟩
abbrev main_v1246 : Ref sig .tc := ⟨.hbm, 1666, rfl⟩
abbrev main_v1247 : Ref sig .tc := ⟨.hbm, 1667, rfl⟩
abbrev main_v1248 : Ref sig .tc := ⟨.hbm, 1668, rfl⟩
abbrev main_v1249 : Ref sig .tc := ⟨.hbm, 1669, rfl⟩
abbrev main_v1250 : Ref sig .tc := ⟨.hbm, 1670, rfl⟩
abbrev main_c_262 : Ref sig .tc := ⟨.hbm, 1671, rfl⟩
abbrev main_v1251 : Ref sig .tc := ⟨.hbm, 1672, rfl⟩
abbrev main_v1252 : Ref sig .tc := ⟨.hbm, 1673, rfl⟩
abbrev main_v1253 : Ref sig .tc := ⟨.hbm, 1674, rfl⟩
abbrev main_v1254 : Ref sig .tc := ⟨.hbm, 1675, rfl⟩
abbrev main_v1255 : Ref sig .tc := ⟨.hbm, 1676, rfl⟩
abbrev main_v1256 : Ref sig .tc := ⟨.hbm, 1677, rfl⟩
abbrev main_v1257 : Ref sig .tc := ⟨.hbm, 1678, rfl⟩
abbrev main_v1258 : Ref sig .tc := ⟨.hbm, 1679, rfl⟩
abbrev main_v1259 : Ref sig .tc := ⟨.hbm, 1680, rfl⟩
abbrev main_v1260 : Ref sig .tc := ⟨.hbm, 1681, rfl⟩
abbrev main_v1261 : Ref sig .tc := ⟨.hbm, 1682, rfl⟩
abbrev main_v1262 : Ref sig .tc := ⟨.hbm, 1683, rfl⟩
abbrev main_c_263 : Ref sig .tc := ⟨.hbm, 1684, rfl⟩
abbrev main_v1263 : Ref sig .tc := ⟨.hbm, 1685, rfl⟩
abbrev main_v1264 : Ref sig .tc := ⟨.hbm, 1686, rfl⟩
abbrev main_c_264 : Ref sig .tc := ⟨.hbm, 1687, rfl⟩
abbrev main_v1265 : Ref sig .tc := ⟨.hbm, 1688, rfl⟩
abbrev main_v1266 : Ref sig .tc := ⟨.hbm, 1689, rfl⟩
abbrev main_v1267 : Ref sig .tc := ⟨.hbm, 1690, rfl⟩
abbrev main_v1268 : Ref sig .tc := ⟨.hbm, 1691, rfl⟩
abbrev main_v1269 : Ref sig .tc := ⟨.hbm, 1692, rfl⟩
abbrev main_cst_265 : Ref sig .tc := ⟨.hbm, 1693, rfl⟩
abbrev main_call49_v0 : Ref sig .tc := ⟨.hbm, 1694, rfl⟩
abbrev main_call49_v1 : Ref sig .tc := ⟨.hbm, 1695, rfl⟩
abbrev main_call49_v2 : Ref sig .tc := ⟨.hbm, 1696, rfl⟩
abbrev main_v1270 : Ref sig .tc := ⟨.hbm, 1697, rfl⟩
abbrev main_c_266 : Ref sig .tc := ⟨.hbm, 1698, rfl⟩
abbrev main_v1271 : Ref sig .tc := ⟨.hbm, 1699, rfl⟩
abbrev main_v1272 : Ref sig .tc := ⟨.hbm, 1700, rfl⟩
abbrev main_c_267 : Ref sig .tc := ⟨.hbm, 1701, rfl⟩
abbrev main_v1273 : Ref sig .tc := ⟨.hbm, 1702, rfl⟩
abbrev main_v1274 : Ref sig .tc := ⟨.hbm, 1703, rfl⟩
abbrev main_v1275 : Ref sig .tc := ⟨.hbm, 1704, rfl⟩
abbrev main_v1276 : Ref sig .tc := ⟨.hbm, 1705, rfl⟩
abbrev main_v1277 : Ref sig .tc := ⟨.hbm, 1706, rfl⟩
abbrev main_v1278 : Ref sig .tc := ⟨.hbm, 1707, rfl⟩
abbrev main_v1279 : Ref sig .tc := ⟨.hbm, 1708, rfl⟩
abbrev main_v1280 : Ref sig .tc := ⟨.hbm, 1709, rfl⟩
abbrev main_v1281 : Ref sig .tc := ⟨.hbm, 1710, rfl⟩
abbrev main_v1282 : Ref sig .tc := ⟨.hbm, 1711, rfl⟩
abbrev main_v1283 : Ref sig .tc := ⟨.hbm, 1712, rfl⟩
abbrev main_v1284 : Ref sig .tc := ⟨.hbm, 1713, rfl⟩
abbrev main_v1285 : Ref sig .tc := ⟨.hbm, 1714, rfl⟩
abbrev main_v1286 : Ref sig .tc := ⟨.hbm, 1715, rfl⟩
abbrev main_c_268 : Ref sig .tc := ⟨.hbm, 1716, rfl⟩
abbrev main_v1287 : Ref sig .tc := ⟨.hbm, 1717, rfl⟩
abbrev main_v1288 : Ref sig .tc := ⟨.hbm, 1718, rfl⟩
abbrev main_c_269 : Ref sig .tc := ⟨.hbm, 1719, rfl⟩
abbrev main_v1289 : Ref sig .tc := ⟨.hbm, 1720, rfl⟩
abbrev main_v1290 : Ref sig .tc := ⟨.hbm, 1721, rfl⟩
abbrev main_v1291 : Ref sig .tc := ⟨.hbm, 1722, rfl⟩
abbrev main_v1292 : Ref sig .tc := ⟨.hbm, 1723, rfl⟩
abbrev main_v1293 : Ref sig .tc := ⟨.hbm, 1724, rfl⟩
abbrev main_cst_270 : Ref sig .tc := ⟨.hbm, 1725, rfl⟩
abbrev main_call50_v0 : Ref sig .tc := ⟨.hbm, 1726, rfl⟩
abbrev main_call50_v1 : Ref sig .tc := ⟨.hbm, 1727, rfl⟩
abbrev main_call50_v2 : Ref sig .tc := ⟨.hbm, 1728, rfl⟩
abbrev main_v1294 : Ref sig .tc := ⟨.hbm, 1729, rfl⟩
abbrev main_c_271 : Ref sig .tc := ⟨.hbm, 1730, rfl⟩
abbrev main_v1295 : Ref sig .tc := ⟨.hbm, 1731, rfl⟩
abbrev main_v1296 : Ref sig .tc := ⟨.hbm, 1732, rfl⟩
abbrev main_c_272 : Ref sig .tc := ⟨.hbm, 1733, rfl⟩
abbrev main_v1297 : Ref sig .tc := ⟨.hbm, 1734, rfl⟩
abbrev main_v1298 : Ref sig .tc := ⟨.hbm, 1735, rfl⟩
abbrev main_v1299 : Ref sig .tc := ⟨.hbm, 1736, rfl⟩
abbrev main_v1300 : Ref sig .tc := ⟨.hbm, 1737, rfl⟩
abbrev main_v1301 : Ref sig .tc := ⟨.hbm, 1738, rfl⟩
abbrev main_c_273 : Ref sig .tc := ⟨.hbm, 1739, rfl⟩
abbrev main_v1302 : Ref sig .tc := ⟨.hbm, 1740, rfl⟩
abbrev main_v1303 : Ref sig .tc := ⟨.hbm, 1741, rfl⟩
abbrev main_v1304 : Ref sig .tc := ⟨.hbm, 1742, rfl⟩
abbrev main_v1305 : Ref sig .tc := ⟨.hbm, 1743, rfl⟩
abbrev main_v1306 : Ref sig .tc := ⟨.hbm, 1744, rfl⟩
abbrev main_v1307 : Ref sig .tc := ⟨.hbm, 1745, rfl⟩
abbrev main_v1308 : Ref sig .tc := ⟨.hbm, 1746, rfl⟩
abbrev main_v1309 : Ref sig .tc := ⟨.hbm, 1747, rfl⟩
abbrev main_v1310 : Ref sig .tc := ⟨.hbm, 1748, rfl⟩
abbrev main_v1311 : Ref sig .tc := ⟨.hbm, 1749, rfl⟩
abbrev main_v1312 : Ref sig .tc := ⟨.hbm, 1750, rfl⟩
abbrev main_v1313 : Ref sig .tc := ⟨.hbm, 1751, rfl⟩
abbrev main_c_274 : Ref sig .tc := ⟨.hbm, 1752, rfl⟩
abbrev main_v1314 : Ref sig .tc := ⟨.hbm, 1753, rfl⟩
abbrev main_v1315 : Ref sig .tc := ⟨.hbm, 1754, rfl⟩
abbrev main_c_275 : Ref sig .tc := ⟨.hbm, 1755, rfl⟩
abbrev main_v1316 : Ref sig .tc := ⟨.hbm, 1756, rfl⟩
abbrev main_v1317 : Ref sig .tc := ⟨.hbm, 1757, rfl⟩
abbrev main_v1318 : Ref sig .tc := ⟨.hbm, 1758, rfl⟩
abbrev main_v1319 : Ref sig .tc := ⟨.hbm, 1759, rfl⟩
abbrev main_v1320 : Ref sig .tc := ⟨.hbm, 1760, rfl⟩
abbrev main_cst_276 : Ref sig .tc := ⟨.hbm, 1761, rfl⟩
abbrev main_call51_v0 : Ref sig .tc := ⟨.hbm, 1762, rfl⟩
abbrev main_call51_v1 : Ref sig .tc := ⟨.hbm, 1763, rfl⟩
abbrev main_call51_v2 : Ref sig .tc := ⟨.hbm, 1764, rfl⟩
abbrev main_v1321 : Ref sig .tc := ⟨.hbm, 1765, rfl⟩
abbrev main_c_277 : Ref sig .tc := ⟨.hbm, 1766, rfl⟩
abbrev main_v1322 : Ref sig .tc := ⟨.hbm, 1767, rfl⟩
abbrev main_v1323 : Ref sig .tc := ⟨.hbm, 1768, rfl⟩
abbrev main_c_278 : Ref sig .tc := ⟨.hbm, 1769, rfl⟩
abbrev main_v1324 : Ref sig .tc := ⟨.hbm, 1770, rfl⟩
abbrev main_v1325 : Ref sig .tc := ⟨.hbm, 1771, rfl⟩
abbrev main_v1326 : Ref sig .tc := ⟨.hbm, 1772, rfl⟩
abbrev main_v1327 : Ref sig .tc := ⟨.hbm, 1773, rfl⟩
abbrev main_v1328 : Ref sig .tc := ⟨.hbm, 1774, rfl⟩
abbrev main_v1329 : Ref sig .tc := ⟨.hbm, 1775, rfl⟩
abbrev main_v1330 : Ref sig .tc := ⟨.hbm, 1776, rfl⟩
abbrev main_v1331 : Ref sig .tc := ⟨.hbm, 1777, rfl⟩
abbrev main_v1332 : Ref sig .tc := ⟨.hbm, 1778, rfl⟩
abbrev main_v1333 : Ref sig .tc := ⟨.hbm, 1779, rfl⟩
abbrev main_v1334 : Ref sig .tc := ⟨.hbm, 1780, rfl⟩
abbrev main_v1335 : Ref sig .tc := ⟨.hbm, 1781, rfl⟩
abbrev main_v1336 : Ref sig .tc := ⟨.hbm, 1782, rfl⟩
abbrev main_v1337 : Ref sig .tc := ⟨.hbm, 1783, rfl⟩
abbrev main_c_279 : Ref sig .tc := ⟨.hbm, 1784, rfl⟩
abbrev main_v1338 : Ref sig .tc := ⟨.hbm, 1785, rfl⟩
abbrev main_v1339 : Ref sig .tc := ⟨.hbm, 1786, rfl⟩
abbrev main_c_280 : Ref sig .tc := ⟨.hbm, 1787, rfl⟩
abbrev main_v1340 : Ref sig .tc := ⟨.hbm, 1788, rfl⟩
abbrev main_v1341 : Ref sig .tc := ⟨.hbm, 1789, rfl⟩
abbrev main_v1342 : Ref sig .tc := ⟨.hbm, 1790, rfl⟩
abbrev main_v1343 : Ref sig .tc := ⟨.hbm, 1791, rfl⟩
abbrev main_v1344 : Ref sig .tc := ⟨.hbm, 1792, rfl⟩
abbrev main_cst_281 : Ref sig .tc := ⟨.hbm, 1793, rfl⟩
abbrev main_call52_v0 : Ref sig .tc := ⟨.hbm, 1794, rfl⟩
abbrev main_call52_v1 : Ref sig .tc := ⟨.hbm, 1795, rfl⟩
abbrev main_call52_v2 : Ref sig .tc := ⟨.hbm, 1796, rfl⟩
abbrev main_v1345 : Ref sig .tc := ⟨.hbm, 1797, rfl⟩
abbrev main_c_282 : Ref sig .tc := ⟨.hbm, 1798, rfl⟩
abbrev main_v1346 : Ref sig .tc := ⟨.hbm, 1799, rfl⟩
abbrev main_v1347 : Ref sig .tc := ⟨.hbm, 1800, rfl⟩
abbrev main_c_283 : Ref sig .tc := ⟨.hbm, 1801, rfl⟩
abbrev main_v1348 : Ref sig .tc := ⟨.hbm, 1802, rfl⟩
abbrev main_v1349 : Ref sig .tc := ⟨.hbm, 1803, rfl⟩
abbrev main_v1350 : Ref sig .tc := ⟨.hbm, 1804, rfl⟩
abbrev main_v1351 : Ref sig .tc := ⟨.hbm, 1805, rfl⟩
abbrev main_v1352 : Ref sig .tc := ⟨.hbm, 1806, rfl⟩
abbrev main_c_284 : Ref sig .tc := ⟨.hbm, 1807, rfl⟩
abbrev main_v1353 : Ref sig .tc := ⟨.hbm, 1808, rfl⟩
abbrev main_v1354 : Ref sig .tc := ⟨.hbm, 1809, rfl⟩
abbrev main_v1355 : Ref sig .tc := ⟨.hbm, 1810, rfl⟩
abbrev main_v1356 : Ref sig .tc := ⟨.hbm, 1811, rfl⟩
abbrev main_v1357 : Ref sig .tc := ⟨.hbm, 1812, rfl⟩
abbrev main_v1358 : Ref sig .tc := ⟨.hbm, 1813, rfl⟩
abbrev main_v1359 : Ref sig .tc := ⟨.hbm, 1814, rfl⟩
abbrev main_v1360 : Ref sig .tc := ⟨.hbm, 1815, rfl⟩
abbrev main_v1361 : Ref sig .tc := ⟨.hbm, 1816, rfl⟩
abbrev main_v1362 : Ref sig .tc := ⟨.hbm, 1817, rfl⟩
abbrev main_v1363 : Ref sig .tc := ⟨.hbm, 1818, rfl⟩
abbrev main_v1364 : Ref sig .tc := ⟨.hbm, 1819, rfl⟩
abbrev main_c_285 : Ref sig .tc := ⟨.hbm, 1820, rfl⟩
abbrev main_v1365 : Ref sig .tc := ⟨.hbm, 1821, rfl⟩
abbrev main_v1366 : Ref sig .tc := ⟨.hbm, 1822, rfl⟩
abbrev main_c_286 : Ref sig .tc := ⟨.hbm, 1823, rfl⟩
abbrev main_v1367 : Ref sig .tc := ⟨.hbm, 1824, rfl⟩
abbrev main_v1368 : Ref sig .tc := ⟨.hbm, 1825, rfl⟩
abbrev main_v1369 : Ref sig .tc := ⟨.hbm, 1826, rfl⟩
abbrev main_v1370 : Ref sig .tc := ⟨.hbm, 1827, rfl⟩
abbrev main_v1371 : Ref sig .tc := ⟨.hbm, 1828, rfl⟩
abbrev main_cst_287 : Ref sig .tc := ⟨.hbm, 1829, rfl⟩
abbrev main_call53_v0 : Ref sig .tc := ⟨.hbm, 1830, rfl⟩
abbrev main_call53_v1 : Ref sig .tc := ⟨.hbm, 1831, rfl⟩
abbrev main_call53_v2 : Ref sig .tc := ⟨.hbm, 1832, rfl⟩
abbrev main_v1372 : Ref sig .tc := ⟨.hbm, 1833, rfl⟩
abbrev main_c_288 : Ref sig .tc := ⟨.hbm, 1834, rfl⟩
abbrev main_v1373 : Ref sig .tc := ⟨.hbm, 1835, rfl⟩
abbrev main_v1374 : Ref sig .tc := ⟨.hbm, 1836, rfl⟩
abbrev main_c_289 : Ref sig .tc := ⟨.hbm, 1837, rfl⟩
abbrev main_v1375 : Ref sig .tc := ⟨.hbm, 1838, rfl⟩
abbrev main_v1376 : Ref sig .tc := ⟨.hbm, 1839, rfl⟩
abbrev main_v1377 : Ref sig .tc := ⟨.hbm, 1840, rfl⟩
abbrev main_v1378 : Ref sig .tc := ⟨.hbm, 1841, rfl⟩
abbrev main_v1379 : Ref sig .tc := ⟨.hbm, 1842, rfl⟩
abbrev main_v1380 : Ref sig .tc := ⟨.hbm, 1843, rfl⟩
abbrev main_v1381 : Ref sig .tc := ⟨.hbm, 1844, rfl⟩
abbrev main_v1382 : Ref sig .tc := ⟨.hbm, 1845, rfl⟩
abbrev main_v1383 : Ref sig .tc := ⟨.hbm, 1846, rfl⟩
abbrev main_v1384 : Ref sig .tc := ⟨.hbm, 1847, rfl⟩
abbrev main_v1385 : Ref sig .tc := ⟨.hbm, 1848, rfl⟩
abbrev main_v1386 : Ref sig .tc := ⟨.hbm, 1849, rfl⟩
abbrev main_v1387 : Ref sig .tc := ⟨.hbm, 1850, rfl⟩
abbrev main_v1388 : Ref sig .tc := ⟨.hbm, 1851, rfl⟩
abbrev main_c_290 : Ref sig .tc := ⟨.hbm, 1852, rfl⟩
abbrev main_v1389 : Ref sig .tc := ⟨.hbm, 1853, rfl⟩
abbrev main_v1390 : Ref sig .tc := ⟨.hbm, 1854, rfl⟩
abbrev main_c_291 : Ref sig .tc := ⟨.hbm, 1855, rfl⟩
abbrev main_v1391 : Ref sig .tc := ⟨.hbm, 1856, rfl⟩
abbrev main_v1392 : Ref sig .tc := ⟨.hbm, 1857, rfl⟩
abbrev main_v1393 : Ref sig .tc := ⟨.hbm, 1858, rfl⟩
abbrev main_v1394 : Ref sig .tc := ⟨.hbm, 1859, rfl⟩
abbrev main_v1395 : Ref sig .tc := ⟨.hbm, 1860, rfl⟩
abbrev main_cst_292 : Ref sig .tc := ⟨.hbm, 1861, rfl⟩
abbrev main_call54_v0 : Ref sig .tc := ⟨.hbm, 1862, rfl⟩
abbrev main_call54_v1 : Ref sig .tc := ⟨.hbm, 1863, rfl⟩
abbrev main_call54_v2 : Ref sig .tc := ⟨.hbm, 1864, rfl⟩
abbrev main_v1396 : Ref sig .tc := ⟨.hbm, 1865, rfl⟩
abbrev main_c_293 : Ref sig .tc := ⟨.hbm, 1866, rfl⟩
abbrev main_v1397 : Ref sig .tc := ⟨.hbm, 1867, rfl⟩
abbrev main_v1398 : Ref sig .tc := ⟨.hbm, 1868, rfl⟩
abbrev main_c_294 : Ref sig .tc := ⟨.hbm, 1869, rfl⟩
abbrev main_v1399 : Ref sig .tc := ⟨.hbm, 1870, rfl⟩
abbrev main_v1400 : Ref sig .tc := ⟨.hbm, 1871, rfl⟩
abbrev main_v1401 : Ref sig .tc := ⟨.hbm, 1872, rfl⟩
abbrev main_v1402 : Ref sig .tc := ⟨.hbm, 1873, rfl⟩
abbrev main_v1403 : Ref sig .tc := ⟨.hbm, 1874, rfl⟩
abbrev main_c_295 : Ref sig .tc := ⟨.hbm, 1875, rfl⟩
abbrev main_v1404 : Ref sig .tc := ⟨.hbm, 1876, rfl⟩
abbrev main_v1405 : Ref sig .tc := ⟨.hbm, 1877, rfl⟩
abbrev main_v1406 : Ref sig .tc := ⟨.hbm, 1878, rfl⟩
abbrev main_v1407 : Ref sig .tc := ⟨.hbm, 1879, rfl⟩
abbrev main_v1408 : Ref sig .tc := ⟨.hbm, 1880, rfl⟩
abbrev main_v1409 : Ref sig .tc := ⟨.hbm, 1881, rfl⟩
abbrev main_v1410 : Ref sig .tc := ⟨.hbm, 1882, rfl⟩
abbrev main_v1411 : Ref sig .tc := ⟨.hbm, 1883, rfl⟩
abbrev main_v1412 : Ref sig .tc := ⟨.hbm, 1884, rfl⟩
abbrev main_v1413 : Ref sig .tc := ⟨.hbm, 1885, rfl⟩
abbrev main_v1414 : Ref sig .tc := ⟨.hbm, 1886, rfl⟩
abbrev main_v1415 : Ref sig .tc := ⟨.hbm, 1887, rfl⟩
abbrev main_c_296 : Ref sig .tc := ⟨.hbm, 1888, rfl⟩
abbrev main_v1416 : Ref sig .tc := ⟨.hbm, 1889, rfl⟩
abbrev main_v1417 : Ref sig .tc := ⟨.hbm, 1890, rfl⟩
abbrev main_c_297 : Ref sig .tc := ⟨.hbm, 1891, rfl⟩
abbrev main_v1418 : Ref sig .tc := ⟨.hbm, 1892, rfl⟩
abbrev main_v1419 : Ref sig .tc := ⟨.hbm, 1893, rfl⟩
abbrev main_v1420 : Ref sig .tc := ⟨.hbm, 1894, rfl⟩
abbrev main_v1421 : Ref sig .tc := ⟨.hbm, 1895, rfl⟩
abbrev main_v1422 : Ref sig .tc := ⟨.hbm, 1896, rfl⟩
abbrev main_cst_298 : Ref sig .tc := ⟨.hbm, 1897, rfl⟩
abbrev main_call55_v0 : Ref sig .tc := ⟨.hbm, 1898, rfl⟩
abbrev main_call55_v1 : Ref sig .tc := ⟨.hbm, 1899, rfl⟩
abbrev main_call55_v2 : Ref sig .tc := ⟨.hbm, 1900, rfl⟩
abbrev main_v1423 : Ref sig .tc := ⟨.hbm, 1901, rfl⟩
abbrev main_c_299 : Ref sig .tc := ⟨.hbm, 1902, rfl⟩
abbrev main_v1424 : Ref sig .tc := ⟨.hbm, 1903, rfl⟩
abbrev main_v1425 : Ref sig .tc := ⟨.hbm, 1904, rfl⟩
abbrev main_c_300 : Ref sig .tc := ⟨.hbm, 1905, rfl⟩
abbrev main_v1426 : Ref sig .tc := ⟨.hbm, 1906, rfl⟩
abbrev main_v1427 : Ref sig .tc := ⟨.hbm, 1907, rfl⟩
abbrev main_v1428 : Ref sig .tc := ⟨.hbm, 1908, rfl⟩
abbrev main_v1429 : Ref sig .tc := ⟨.hbm, 1909, rfl⟩
abbrev main_v1430 : Ref sig .tc := ⟨.hbm, 1910, rfl⟩
abbrev main_v1431 : Ref sig .tc := ⟨.hbm, 1911, rfl⟩
abbrev main_v1432 : Ref sig .tc := ⟨.hbm, 1912, rfl⟩
abbrev main_v1433 : Ref sig .tc := ⟨.hbm, 1913, rfl⟩
abbrev main_v1434 : Ref sig .tc := ⟨.hbm, 1914, rfl⟩
abbrev main_v1435 : Ref sig .tc := ⟨.hbm, 1915, rfl⟩
abbrev main_v1436 : Ref sig .tc := ⟨.hbm, 1916, rfl⟩
abbrev main_v1437 : Ref sig .tc := ⟨.hbm, 1917, rfl⟩
abbrev main_v1438 : Ref sig .tc := ⟨.hbm, 1918, rfl⟩
abbrev main_v1439 : Ref sig .tc := ⟨.hbm, 1919, rfl⟩
abbrev main_c_301 : Ref sig .tc := ⟨.hbm, 1920, rfl⟩
abbrev main_v1440 : Ref sig .tc := ⟨.hbm, 1921, rfl⟩
abbrev main_v1441 : Ref sig .tc := ⟨.hbm, 1922, rfl⟩
abbrev main_c_302 : Ref sig .tc := ⟨.hbm, 1923, rfl⟩
abbrev main_v1442 : Ref sig .tc := ⟨.hbm, 1924, rfl⟩
abbrev main_v1443 : Ref sig .tc := ⟨.hbm, 1925, rfl⟩
abbrev main_v1444 : Ref sig .tc := ⟨.hbm, 1926, rfl⟩
abbrev main_v1445 : Ref sig .tc := ⟨.hbm, 1927, rfl⟩
abbrev main_v1446 : Ref sig .tc := ⟨.hbm, 1928, rfl⟩
abbrev main_cst_303 : Ref sig .tc := ⟨.hbm, 1929, rfl⟩
abbrev main_call56_v0 : Ref sig .tc := ⟨.hbm, 1930, rfl⟩
abbrev main_call56_v1 : Ref sig .tc := ⟨.hbm, 1931, rfl⟩
abbrev main_call56_v2 : Ref sig .tc := ⟨.hbm, 1932, rfl⟩
abbrev main_v1447 : Ref sig .tc := ⟨.hbm, 1933, rfl⟩
abbrev main_c_304 : Ref sig .tc := ⟨.hbm, 1934, rfl⟩
abbrev main_v1448 : Ref sig .tc := ⟨.hbm, 1935, rfl⟩
abbrev main_v1449 : Ref sig .tc := ⟨.hbm, 1936, rfl⟩
abbrev main_c_305 : Ref sig .tc := ⟨.hbm, 1937, rfl⟩
abbrev main_v1450 : Ref sig .tc := ⟨.hbm, 1938, rfl⟩
abbrev main_v1451 : Ref sig .tc := ⟨.hbm, 1939, rfl⟩
abbrev main_v1452 : Ref sig .tc := ⟨.hbm, 1940, rfl⟩
abbrev main_v1453 : Ref sig .tc := ⟨.hbm, 1941, rfl⟩
abbrev main_v1454 : Ref sig .tc := ⟨.hbm, 1942, rfl⟩
abbrev main_c_306 : Ref sig .tc := ⟨.hbm, 1943, rfl⟩
abbrev main_v1455 : Ref sig .tc := ⟨.hbm, 1944, rfl⟩
abbrev main_v1456 : Ref sig .tc := ⟨.hbm, 1945, rfl⟩
abbrev main_v1457 : Ref sig .tc := ⟨.hbm, 1946, rfl⟩
abbrev main_v1458 : Ref sig .tc := ⟨.hbm, 1947, rfl⟩
abbrev main_v1459 : Ref sig .tc := ⟨.hbm, 1948, rfl⟩
abbrev main_v1460 : Ref sig .tc := ⟨.hbm, 1949, rfl⟩
abbrev main_v1461 : Ref sig .tc := ⟨.hbm, 1950, rfl⟩
abbrev main_v1462 : Ref sig .tc := ⟨.hbm, 1951, rfl⟩
abbrev main_v1463 : Ref sig .tc := ⟨.hbm, 1952, rfl⟩
abbrev main_v1464 : Ref sig .tc := ⟨.hbm, 1953, rfl⟩
abbrev main_v1465 : Ref sig .tc := ⟨.hbm, 1954, rfl⟩
abbrev main_v1466 : Ref sig .tc := ⟨.hbm, 1955, rfl⟩
abbrev main_c_307 : Ref sig .tc := ⟨.hbm, 1956, rfl⟩
abbrev main_v1467 : Ref sig .tc := ⟨.hbm, 1957, rfl⟩
abbrev main_v1468 : Ref sig .tc := ⟨.hbm, 1958, rfl⟩
abbrev main_c_308 : Ref sig .tc := ⟨.hbm, 1959, rfl⟩
abbrev main_v1469 : Ref sig .tc := ⟨.hbm, 1960, rfl⟩
abbrev main_v1470 : Ref sig .tc := ⟨.hbm, 1961, rfl⟩
abbrev main_v1471 : Ref sig .tc := ⟨.hbm, 1962, rfl⟩
abbrev main_v1472 : Ref sig .tc := ⟨.hbm, 1963, rfl⟩
abbrev main_v1473 : Ref sig .tc := ⟨.hbm, 1964, rfl⟩
abbrev main_cst_309 : Ref sig .tc := ⟨.hbm, 1965, rfl⟩
abbrev main_call57_v0 : Ref sig .tc := ⟨.hbm, 1966, rfl⟩
abbrev main_call57_v1 : Ref sig .tc := ⟨.hbm, 1967, rfl⟩
abbrev main_call57_v2 : Ref sig .tc := ⟨.hbm, 1968, rfl⟩
abbrev main_v1474 : Ref sig .tc := ⟨.hbm, 1969, rfl⟩
abbrev main_c_310 : Ref sig .tc := ⟨.hbm, 1970, rfl⟩
abbrev main_v1475 : Ref sig .tc := ⟨.hbm, 1971, rfl⟩
abbrev main_v1476 : Ref sig .tc := ⟨.hbm, 1972, rfl⟩
abbrev main_c_311 : Ref sig .tc := ⟨.hbm, 1973, rfl⟩
abbrev main_v1477 : Ref sig .tc := ⟨.hbm, 1974, rfl⟩
abbrev main_v1478 : Ref sig .tc := ⟨.hbm, 1975, rfl⟩
abbrev main_v1479 : Ref sig .tc := ⟨.hbm, 1976, rfl⟩
abbrev main_v1480 : Ref sig .tc := ⟨.hbm, 1977, rfl⟩
abbrev main_v1481 : Ref sig .tc := ⟨.hbm, 1978, rfl⟩
abbrev main_v1482 : Ref sig .tc := ⟨.hbm, 1979, rfl⟩
abbrev main_v1483 : Ref sig .tc := ⟨.hbm, 1980, rfl⟩
abbrev main_v1484 : Ref sig .tc := ⟨.hbm, 1981, rfl⟩
abbrev main_v1485 : Ref sig .tc := ⟨.hbm, 1982, rfl⟩
abbrev main_v1486 : Ref sig .tc := ⟨.hbm, 1983, rfl⟩
abbrev main_v1487 : Ref sig .tc := ⟨.hbm, 1984, rfl⟩
abbrev main_v1488 : Ref sig .tc := ⟨.hbm, 1985, rfl⟩
abbrev main_v1489 : Ref sig .tc := ⟨.hbm, 1986, rfl⟩
abbrev main_v1490 : Ref sig .tc := ⟨.hbm, 1987, rfl⟩
abbrev main_c_312 : Ref sig .tc := ⟨.hbm, 1988, rfl⟩
abbrev main_v1491 : Ref sig .tc := ⟨.hbm, 1989, rfl⟩
abbrev main_v1492 : Ref sig .tc := ⟨.hbm, 1990, rfl⟩
abbrev main_c_313 : Ref sig .tc := ⟨.hbm, 1991, rfl⟩
abbrev main_v1493 : Ref sig .tc := ⟨.hbm, 1992, rfl⟩
abbrev main_v1494 : Ref sig .tc := ⟨.hbm, 1993, rfl⟩
abbrev main_v1495 : Ref sig .tc := ⟨.hbm, 1994, rfl⟩
abbrev main_v1496 : Ref sig .tc := ⟨.hbm, 1995, rfl⟩
abbrev main_v1497 : Ref sig .tc := ⟨.hbm, 1996, rfl⟩
abbrev main_cst_314 : Ref sig .tc := ⟨.hbm, 1997, rfl⟩
abbrev main_call58_v0 : Ref sig .tc := ⟨.hbm, 1998, rfl⟩
abbrev main_call58_v1 : Ref sig .tc := ⟨.hbm, 1999, rfl⟩
abbrev main_call58_v2 : Ref sig .tc := ⟨.hbm, 2000, rfl⟩
abbrev main_v1498 : Ref sig .tc := ⟨.hbm, 2001, rfl⟩
abbrev main_c_315 : Ref sig .tc := ⟨.hbm, 2002, rfl⟩
abbrev main_v1499 : Ref sig .tc := ⟨.hbm, 2003, rfl⟩
abbrev main_v1500 : Ref sig .tc := ⟨.hbm, 2004, rfl⟩
abbrev main_c_316 : Ref sig .tc := ⟨.hbm, 2005, rfl⟩
abbrev main_v1501 : Ref sig .tc := ⟨.hbm, 2006, rfl⟩
abbrev main_v1502 : Ref sig .tc := ⟨.hbm, 2007, rfl⟩
abbrev main_v1503 : Ref sig .tc := ⟨.hbm, 2008, rfl⟩
abbrev main_v1504 : Ref sig .tc := ⟨.hbm, 2009, rfl⟩
abbrev main_v1505 : Ref sig .tc := ⟨.hbm, 2010, rfl⟩
abbrev main_c_317 : Ref sig .tc := ⟨.hbm, 2011, rfl⟩
abbrev main_v1506 : Ref sig .tc := ⟨.hbm, 2012, rfl⟩
abbrev main_v1507 : Ref sig .tc := ⟨.hbm, 2013, rfl⟩
abbrev main_v1508 : Ref sig .tc := ⟨.hbm, 2014, rfl⟩
abbrev main_v1509 : Ref sig .tc := ⟨.hbm, 2015, rfl⟩
abbrev main_v1510 : Ref sig .tc := ⟨.hbm, 2016, rfl⟩
abbrev main_v1511 : Ref sig .tc := ⟨.hbm, 2017, rfl⟩
abbrev main_v1512 : Ref sig .tc := ⟨.hbm, 2018, rfl⟩
abbrev main_v1513 : Ref sig .tc := ⟨.hbm, 2019, rfl⟩
abbrev main_v1514 : Ref sig .tc := ⟨.hbm, 2020, rfl⟩
abbrev main_v1515 : Ref sig .tc := ⟨.hbm, 2021, rfl⟩
abbrev main_v1516 : Ref sig .tc := ⟨.hbm, 2022, rfl⟩
abbrev main_v1517 : Ref sig .tc := ⟨.hbm, 2023, rfl⟩
abbrev main_c_318 : Ref sig .tc := ⟨.hbm, 2024, rfl⟩
abbrev main_v1518 : Ref sig .tc := ⟨.hbm, 2025, rfl⟩
abbrev main_v1519 : Ref sig .tc := ⟨.hbm, 2026, rfl⟩
abbrev main_c_319 : Ref sig .tc := ⟨.hbm, 2027, rfl⟩
abbrev main_v1520 : Ref sig .tc := ⟨.hbm, 2028, rfl⟩
abbrev main_v1521 : Ref sig .tc := ⟨.hbm, 2029, rfl⟩
abbrev main_v1522 : Ref sig .tc := ⟨.hbm, 2030, rfl⟩
abbrev main_v1523 : Ref sig .tc := ⟨.hbm, 2031, rfl⟩
abbrev main_v1524 : Ref sig .tc := ⟨.hbm, 2032, rfl⟩
abbrev main_cst_320 : Ref sig .tc := ⟨.hbm, 2033, rfl⟩
abbrev main_call59_v0 : Ref sig .tc := ⟨.hbm, 2034, rfl⟩
abbrev main_call59_v1 : Ref sig .tc := ⟨.hbm, 2035, rfl⟩
abbrev main_call59_v2 : Ref sig .tc := ⟨.hbm, 2036, rfl⟩
abbrev main_v1525 : Ref sig .tc := ⟨.hbm, 2037, rfl⟩
abbrev main_c_321 : Ref sig .tc := ⟨.hbm, 2038, rfl⟩
abbrev main_v1526 : Ref sig .tc := ⟨.hbm, 2039, rfl⟩
abbrev main_v1527 : Ref sig .tc := ⟨.hbm, 2040, rfl⟩
abbrev main_c_322 : Ref sig .tc := ⟨.hbm, 2041, rfl⟩
abbrev main_v1528 : Ref sig .tc := ⟨.hbm, 2042, rfl⟩
abbrev main_v1529 : Ref sig .tc := ⟨.hbm, 2043, rfl⟩
abbrev main_v1530 : Ref sig .tc := ⟨.hbm, 2044, rfl⟩
abbrev main_v1531 : Ref sig .tc := ⟨.hbm, 2045, rfl⟩
abbrev main_v1532 : Ref sig .tc := ⟨.hbm, 2046, rfl⟩
abbrev main_v1533 : Ref sig .tc := ⟨.hbm, 2047, rfl⟩
abbrev main_v1534 : Ref sig .tc := ⟨.hbm, 2048, rfl⟩
abbrev main_v1535 : Ref sig .tc := ⟨.hbm, 2049, rfl⟩
abbrev main_v1536 : Ref sig .tc := ⟨.hbm, 2050, rfl⟩
abbrev main_v1537 : Ref sig .tc := ⟨.hbm, 2051, rfl⟩
abbrev main_v1538 : Ref sig .tc := ⟨.hbm, 2052, rfl⟩
abbrev main_v1539 : Ref sig .tc := ⟨.hbm, 2053, rfl⟩
abbrev main_v1540 : Ref sig .tc := ⟨.hbm, 2054, rfl⟩
abbrev main_v1541 : Ref sig .tc := ⟨.hbm, 2055, rfl⟩
abbrev main_c_323 : Ref sig .tc := ⟨.hbm, 2056, rfl⟩
abbrev main_v1542 : Ref sig .tc := ⟨.hbm, 2057, rfl⟩
abbrev main_v1543 : Ref sig .tc := ⟨.hbm, 2058, rfl⟩
abbrev main_c_324 : Ref sig .tc := ⟨.hbm, 2059, rfl⟩
abbrev main_v1544 : Ref sig .tc := ⟨.hbm, 2060, rfl⟩
abbrev main_v1545 : Ref sig .tc := ⟨.hbm, 2061, rfl⟩
abbrev main_v1546 : Ref sig .tc := ⟨.hbm, 2062, rfl⟩
abbrev main_v1547 : Ref sig .tc := ⟨.hbm, 2063, rfl⟩
abbrev main_v1548 : Ref sig .tc := ⟨.hbm, 2064, rfl⟩
abbrev main_cst_325 : Ref sig .tc := ⟨.hbm, 2065, rfl⟩
abbrev main_call60_v0 : Ref sig .tc := ⟨.hbm, 2066, rfl⟩
abbrev main_call60_v1 : Ref sig .tc := ⟨.hbm, 2067, rfl⟩
abbrev main_call60_v2 : Ref sig .tc := ⟨.hbm, 2068, rfl⟩
abbrev main_v1549 : Ref sig .tc := ⟨.hbm, 2069, rfl⟩
abbrev main_c_326 : Ref sig .tc := ⟨.hbm, 2070, rfl⟩
abbrev main_v1550 : Ref sig .tc := ⟨.hbm, 2071, rfl⟩
abbrev main_v1551 : Ref sig .tc := ⟨.hbm, 2072, rfl⟩
abbrev main_c_327 : Ref sig .tc := ⟨.hbm, 2073, rfl⟩
abbrev main_v1552 : Ref sig .tc := ⟨.hbm, 2074, rfl⟩
abbrev main_v1553 : Ref sig .tc := ⟨.hbm, 2075, rfl⟩
abbrev main_v1554 : Ref sig .tc := ⟨.hbm, 2076, rfl⟩
abbrev main_v1555 : Ref sig .tc := ⟨.hbm, 2077, rfl⟩
abbrev main_v1556 : Ref sig .tc := ⟨.hbm, 2078, rfl⟩
abbrev main_c_328 : Ref sig .tc := ⟨.hbm, 2079, rfl⟩
abbrev main_v1557 : Ref sig .tc := ⟨.hbm, 2080, rfl⟩
abbrev main_v1558 : Ref sig .tc := ⟨.hbm, 2081, rfl⟩
abbrev main_v1559 : Ref sig .tc := ⟨.hbm, 2082, rfl⟩
abbrev main_v1560 : Ref sig .tc := ⟨.hbm, 2083, rfl⟩
abbrev main_v1561 : Ref sig .tc := ⟨.hbm, 2084, rfl⟩
abbrev main_v1562 : Ref sig .tc := ⟨.hbm, 2085, rfl⟩
abbrev main_v1563 : Ref sig .tc := ⟨.hbm, 2086, rfl⟩
abbrev main_v1564 : Ref sig .tc := ⟨.hbm, 2087, rfl⟩
abbrev main_v1565 : Ref sig .tc := ⟨.hbm, 2088, rfl⟩
abbrev main_v1566 : Ref sig .tc := ⟨.hbm, 2089, rfl⟩
abbrev main_v1567 : Ref sig .tc := ⟨.hbm, 2090, rfl⟩
abbrev main_v1568 : Ref sig .tc := ⟨.hbm, 2091, rfl⟩
abbrev main_c_329 : Ref sig .tc := ⟨.hbm, 2092, rfl⟩
abbrev main_v1569 : Ref sig .tc := ⟨.hbm, 2093, rfl⟩
abbrev main_v1570 : Ref sig .tc := ⟨.hbm, 2094, rfl⟩
abbrev main_c_330 : Ref sig .tc := ⟨.hbm, 2095, rfl⟩
abbrev main_v1571 : Ref sig .tc := ⟨.hbm, 2096, rfl⟩
abbrev main_v1572 : Ref sig .tc := ⟨.hbm, 2097, rfl⟩
abbrev main_v1573 : Ref sig .tc := ⟨.hbm, 2098, rfl⟩
abbrev main_v1574 : Ref sig .tc := ⟨.hbm, 2099, rfl⟩
abbrev main_v1575 : Ref sig .tc := ⟨.hbm, 2100, rfl⟩
abbrev main_cst_331 : Ref sig .tc := ⟨.hbm, 2101, rfl⟩
abbrev main_call61_v0 : Ref sig .tc := ⟨.hbm, 2102, rfl⟩
abbrev main_call61_v1 : Ref sig .tc := ⟨.hbm, 2103, rfl⟩
abbrev main_call61_v2 : Ref sig .tc := ⟨.hbm, 2104, rfl⟩
abbrev main_v1576 : Ref sig .tc := ⟨.hbm, 2105, rfl⟩
abbrev main_c_332 : Ref sig .tc := ⟨.hbm, 2106, rfl⟩
abbrev main_v1577 : Ref sig .tc := ⟨.hbm, 2107, rfl⟩
abbrev main_v1578 : Ref sig .tc := ⟨.hbm, 2108, rfl⟩
abbrev main_c_333 : Ref sig .tc := ⟨.hbm, 2109, rfl⟩
abbrev main_v1579 : Ref sig .tc := ⟨.hbm, 2110, rfl⟩
abbrev main_v1580 : Ref sig .tc := ⟨.hbm, 2111, rfl⟩
abbrev main_v1581 : Ref sig .tc := ⟨.hbm, 2112, rfl⟩
abbrev main_v1582 : Ref sig .tc := ⟨.hbm, 2113, rfl⟩
abbrev main_v1583 : Ref sig .tc := ⟨.hbm, 2114, rfl⟩
abbrev main_v1584 : Ref sig .tc := ⟨.hbm, 2115, rfl⟩
abbrev main_v1585 : Ref sig .tc := ⟨.hbm, 2116, rfl⟩
abbrev main_v1586 : Ref sig .tc := ⟨.hbm, 2117, rfl⟩
abbrev main_v1587 : Ref sig .tc := ⟨.hbm, 2118, rfl⟩
abbrev main_v1588 : Ref sig .tc := ⟨.hbm, 2119, rfl⟩
abbrev main_v1589 : Ref sig .tc := ⟨.hbm, 2120, rfl⟩
abbrev main_v1590 : Ref sig .tc := ⟨.hbm, 2121, rfl⟩
abbrev main_v1591 : Ref sig .tc := ⟨.hbm, 2122, rfl⟩
abbrev main_v1592 : Ref sig .tc := ⟨.hbm, 2123, rfl⟩
abbrev main_c_334 : Ref sig .tc := ⟨.hbm, 2124, rfl⟩
abbrev main_v1593 : Ref sig .tc := ⟨.hbm, 2125, rfl⟩
abbrev main_v1594 : Ref sig .tc := ⟨.hbm, 2126, rfl⟩
abbrev main_c_335 : Ref sig .tc := ⟨.hbm, 2127, rfl⟩
abbrev main_v1595 : Ref sig .tc := ⟨.hbm, 2128, rfl⟩
abbrev main_v1596 : Ref sig .tc := ⟨.hbm, 2129, rfl⟩
abbrev main_v1597 : Ref sig .tc := ⟨.hbm, 2130, rfl⟩
abbrev main_v1598 : Ref sig .tc := ⟨.hbm, 2131, rfl⟩
abbrev main_v1599 : Ref sig .tc := ⟨.hbm, 2132, rfl⟩
abbrev main_cst_336 : Ref sig .tc := ⟨.hbm, 2133, rfl⟩
abbrev main_call62_v0 : Ref sig .tc := ⟨.hbm, 2134, rfl⟩
abbrev main_call62_v1 : Ref sig .tc := ⟨.hbm, 2135, rfl⟩
abbrev main_call62_v2 : Ref sig .tc := ⟨.hbm, 2136, rfl⟩
abbrev main_v1600 : Ref sig .tc := ⟨.hbm, 2137, rfl⟩
abbrev main_c_337 : Ref sig .tc := ⟨.hbm, 2138, rfl⟩
abbrev main_v1601 : Ref sig .tc := ⟨.hbm, 2139, rfl⟩
abbrev main_v1602 : Ref sig .tc := ⟨.hbm, 2140, rfl⟩
abbrev main_c_338 : Ref sig .tc := ⟨.hbm, 2141, rfl⟩
abbrev main_v1603 : Ref sig .tc := ⟨.hbm, 2142, rfl⟩
abbrev main_v1604 : Ref sig .tc := ⟨.hbm, 2143, rfl⟩
abbrev main_v1605 : Ref sig .tc := ⟨.hbm, 2144, rfl⟩
abbrev main_v1606 : Ref sig .tc := ⟨.hbm, 2145, rfl⟩
abbrev main_v1607 : Ref sig .tc := ⟨.hbm, 2146, rfl⟩
abbrev main_c_339 : Ref sig .tc := ⟨.hbm, 2147, rfl⟩
abbrev main_v1608 : Ref sig .tc := ⟨.hbm, 2148, rfl⟩
abbrev main_v1609 : Ref sig .tc := ⟨.hbm, 2149, rfl⟩
abbrev main_v1610 : Ref sig .tc := ⟨.hbm, 2150, rfl⟩
abbrev main_v1611 : Ref sig .tc := ⟨.hbm, 2151, rfl⟩
abbrev main_v1612 : Ref sig .tc := ⟨.hbm, 2152, rfl⟩
abbrev main_v1613 : Ref sig .tc := ⟨.hbm, 2153, rfl⟩
abbrev main_v1614 : Ref sig .tc := ⟨.hbm, 2154, rfl⟩
abbrev main_v1615 : Ref sig .tc := ⟨.hbm, 2155, rfl⟩
abbrev main_v1616 : Ref sig .tc := ⟨.hbm, 2156, rfl⟩
abbrev main_v1617 : Ref sig .tc := ⟨.hbm, 2157, rfl⟩
abbrev main_v1618 : Ref sig .tc := ⟨.hbm, 2158, rfl⟩
abbrev main_v1619 : Ref sig .tc := ⟨.hbm, 2159, rfl⟩
abbrev main_c_340 : Ref sig .tc := ⟨.hbm, 2160, rfl⟩
abbrev main_v1620 : Ref sig .tc := ⟨.hbm, 2161, rfl⟩
abbrev main_v1621 : Ref sig .tc := ⟨.hbm, 2162, rfl⟩
abbrev main_c_341 : Ref sig .tc := ⟨.hbm, 2163, rfl⟩
abbrev main_v1622 : Ref sig .tc := ⟨.hbm, 2164, rfl⟩
abbrev main_v1623 : Ref sig .tc := ⟨.hbm, 2165, rfl⟩
abbrev main_v1624 : Ref sig .tc := ⟨.hbm, 2166, rfl⟩
abbrev main_v1625 : Ref sig .tc := ⟨.hbm, 2167, rfl⟩
abbrev main_v1626 : Ref sig .tc := ⟨.hbm, 2168, rfl⟩
abbrev main_cst_342 : Ref sig .tc := ⟨.hbm, 2169, rfl⟩
abbrev main_call63_v0 : Ref sig .tc := ⟨.hbm, 2170, rfl⟩
abbrev main_call63_v1 : Ref sig .tc := ⟨.hbm, 2171, rfl⟩
abbrev main_call63_v2 : Ref sig .tc := ⟨.hbm, 2172, rfl⟩
abbrev main_v1627 : Ref sig .tc := ⟨.hbm, 2173, rfl⟩
abbrev main_c_343 : Ref sig .tc := ⟨.hbm, 2174, rfl⟩
abbrev main_v1628 : Ref sig .tc := ⟨.hbm, 2175, rfl⟩
abbrev main_v1629 : Ref sig .tc := ⟨.hbm, 2176, rfl⟩
abbrev main_c_344 : Ref sig .tc := ⟨.hbm, 2177, rfl⟩
abbrev main_v1630 : Ref sig .tc := ⟨.hbm, 2178, rfl⟩
abbrev main_v1631 : Ref sig .tc := ⟨.hbm, 2179, rfl⟩
abbrev main_v1632 : Ref sig .tc := ⟨.hbm, 2180, rfl⟩
abbrev main_v1633 : Ref sig .tc := ⟨.hbm, 2181, rfl⟩
abbrev main_v1634 : Ref sig .tc := ⟨.hbm, 2182, rfl⟩
abbrev main_v1635 : Ref sig .tc := ⟨.hbm, 2183, rfl⟩
abbrev main_v1636 : Ref sig .tc := ⟨.hbm, 2184, rfl⟩
abbrev main_v1637 : Ref sig .tc := ⟨.hbm, 2185, rfl⟩
abbrev main_v1638 : Ref sig .tc := ⟨.hbm, 2186, rfl⟩
abbrev main_v1639 : Ref sig .tc := ⟨.hbm, 2187, rfl⟩
abbrev main_v1640 : Ref sig .tc := ⟨.hbm, 2188, rfl⟩
abbrev main_v1641 : Ref sig .tc := ⟨.hbm, 2189, rfl⟩
abbrev main_v1642 : Ref sig .tc := ⟨.hbm, 2190, rfl⟩
abbrev main_v1643 : Ref sig .tc := ⟨.hbm, 2191, rfl⟩
abbrev main_c_345 : Ref sig .tc := ⟨.hbm, 2192, rfl⟩
abbrev main_v1644 : Ref sig .tc := ⟨.hbm, 2193, rfl⟩
abbrev main_v1645 : Ref sig .tc := ⟨.hbm, 2194, rfl⟩
abbrev main_c_346 : Ref sig .tc := ⟨.hbm, 2195, rfl⟩
abbrev main_v1646 : Ref sig .tc := ⟨.hbm, 2196, rfl⟩
abbrev main_v1647 : Ref sig .tc := ⟨.hbm, 2197, rfl⟩
abbrev main_v1648 : Ref sig .tc := ⟨.hbm, 2198, rfl⟩
abbrev main_v1649 : Ref sig .tc := ⟨.hbm, 2199, rfl⟩
abbrev main_v1650 : Ref sig .tc := ⟨.hbm, 2200, rfl⟩
abbrev main_cst_347 : Ref sig .tc := ⟨.hbm, 2201, rfl⟩
abbrev main_call64_v0 : Ref sig .tc := ⟨.hbm, 2202, rfl⟩
abbrev main_call64_v1 : Ref sig .tc := ⟨.hbm, 2203, rfl⟩
abbrev main_call64_v2 : Ref sig .tc := ⟨.hbm, 2204, rfl⟩
abbrev main_v1651 : Ref sig .tc := ⟨.hbm, 2205, rfl⟩
abbrev main_c_348 : Ref sig .tc := ⟨.hbm, 2206, rfl⟩
abbrev main_v1652 : Ref sig .tc := ⟨.hbm, 2207, rfl⟩
abbrev main_v1653 : Ref sig .tc := ⟨.hbm, 2208, rfl⟩
abbrev main_c_349 : Ref sig .tc := ⟨.hbm, 2209, rfl⟩
abbrev main_v1654 : Ref sig .tc := ⟨.hbm, 2210, rfl⟩
abbrev main_v1655 : Ref sig .tc := ⟨.hbm, 2211, rfl⟩
abbrev main_v1656 : Ref sig .tc := ⟨.hbm, 2212, rfl⟩
abbrev main_v1657 : Ref sig .tc := ⟨.hbm, 2213, rfl⟩
abbrev main_v1658 : Ref sig .tc := ⟨.hbm, 2214, rfl⟩
abbrev main_c_350 : Ref sig .tc := ⟨.hbm, 2215, rfl⟩
abbrev main_v1659 : Ref sig .tc := ⟨.hbm, 2216, rfl⟩
abbrev main_v1660 : Ref sig .tc := ⟨.hbm, 2217, rfl⟩
abbrev main_v1661 : Ref sig .tc := ⟨.hbm, 2218, rfl⟩
abbrev main_v1662 : Ref sig .tc := ⟨.hbm, 2219, rfl⟩
abbrev main_v1663 : Ref sig .tc := ⟨.hbm, 2220, rfl⟩
abbrev main_v1664 : Ref sig .tc := ⟨.hbm, 2221, rfl⟩
abbrev main_v1665 : Ref sig .tc := ⟨.hbm, 2222, rfl⟩
abbrev main_v1666 : Ref sig .tc := ⟨.hbm, 2223, rfl⟩
abbrev main_v1667 : Ref sig .tc := ⟨.hbm, 2224, rfl⟩
abbrev main_v1668 : Ref sig .tc := ⟨.hbm, 2225, rfl⟩
abbrev main_v1669 : Ref sig .tc := ⟨.hbm, 2226, rfl⟩
abbrev main_v1670 : Ref sig .tc := ⟨.hbm, 2227, rfl⟩
abbrev main_c_351 : Ref sig .tc := ⟨.hbm, 2228, rfl⟩
abbrev main_v1671 : Ref sig .tc := ⟨.hbm, 2229, rfl⟩
abbrev main_v1672 : Ref sig .tc := ⟨.hbm, 2230, rfl⟩
abbrev main_c_352 : Ref sig .tc := ⟨.hbm, 2231, rfl⟩
abbrev main_v1673 : Ref sig .tc := ⟨.hbm, 2232, rfl⟩
abbrev main_v1674 : Ref sig .tc := ⟨.hbm, 2233, rfl⟩
abbrev main_v1675 : Ref sig .tc := ⟨.hbm, 2234, rfl⟩
abbrev main_v1676 : Ref sig .tc := ⟨.hbm, 2235, rfl⟩
abbrev main_v1677 : Ref sig .tc := ⟨.hbm, 2236, rfl⟩
abbrev main_cst_353 : Ref sig .tc := ⟨.hbm, 2237, rfl⟩
abbrev main_call65_v0 : Ref sig .tc := ⟨.hbm, 2238, rfl⟩
abbrev main_call65_v1 : Ref sig .tc := ⟨.hbm, 2239, rfl⟩
abbrev main_call65_v2 : Ref sig .tc := ⟨.hbm, 2240, rfl⟩
abbrev main_v1678 : Ref sig .tc := ⟨.hbm, 2241, rfl⟩
abbrev main_c_354 : Ref sig .tc := ⟨.hbm, 2242, rfl⟩
abbrev main_v1679 : Ref sig .tc := ⟨.hbm, 2243, rfl⟩
abbrev main_v1680 : Ref sig .tc := ⟨.hbm, 2244, rfl⟩
abbrev main_c_355 : Ref sig .tc := ⟨.hbm, 2245, rfl⟩
abbrev main_v1681 : Ref sig .tc := ⟨.hbm, 2246, rfl⟩
abbrev main_v1682 : Ref sig .tc := ⟨.hbm, 2247, rfl⟩
abbrev main_v1683 : Ref sig .tc := ⟨.hbm, 2248, rfl⟩
abbrev main_v1684 : Ref sig .tc := ⟨.hbm, 2249, rfl⟩
abbrev main_v1685 : Ref sig .tc := ⟨.hbm, 2250, rfl⟩
abbrev main_v1686 : Ref sig .tc := ⟨.hbm, 2251, rfl⟩
abbrev main_v1687 : Ref sig .tc := ⟨.hbm, 2252, rfl⟩
abbrev main_v1688 : Ref sig .tc := ⟨.hbm, 2253, rfl⟩
abbrev main_v1689 : Ref sig .tc := ⟨.hbm, 2254, rfl⟩
abbrev main_v1690 : Ref sig .tc := ⟨.hbm, 2255, rfl⟩
abbrev main_v1691 : Ref sig .tc := ⟨.hbm, 2256, rfl⟩
abbrev main_v1692 : Ref sig .tc := ⟨.hbm, 2257, rfl⟩
abbrev main_v1693 : Ref sig .tc := ⟨.hbm, 2258, rfl⟩
abbrev main_v1694 : Ref sig .tc := ⟨.hbm, 2259, rfl⟩
abbrev main_c_356 : Ref sig .tc := ⟨.hbm, 2260, rfl⟩
abbrev main_v1695 : Ref sig .tc := ⟨.hbm, 2261, rfl⟩
abbrev main_v1696 : Ref sig .tc := ⟨.hbm, 2262, rfl⟩
abbrev main_c_357 : Ref sig .tc := ⟨.hbm, 2263, rfl⟩
abbrev main_v1697 : Ref sig .tc := ⟨.hbm, 2264, rfl⟩
abbrev main_v1698 : Ref sig .tc := ⟨.hbm, 2265, rfl⟩
abbrev main_v1699 : Ref sig .tc := ⟨.hbm, 2266, rfl⟩
abbrev main_v1700 : Ref sig .tc := ⟨.hbm, 2267, rfl⟩
abbrev main_v1701 : Ref sig .tc := ⟨.hbm, 2268, rfl⟩
abbrev main_cst_358 : Ref sig .tc := ⟨.hbm, 2269, rfl⟩
abbrev main_call66_v0 : Ref sig .tc := ⟨.hbm, 2270, rfl⟩
abbrev main_call66_v1 : Ref sig .tc := ⟨.hbm, 2271, rfl⟩
abbrev main_call66_v2 : Ref sig .tc := ⟨.hbm, 2272, rfl⟩
abbrev main_v1702 : Ref sig .tc := ⟨.hbm, 2273, rfl⟩
abbrev main_c_359 : Ref sig .tc := ⟨.hbm, 2274, rfl⟩
abbrev main_v1703 : Ref sig .tc := ⟨.hbm, 2275, rfl⟩
abbrev main_v1704 : Ref sig .tc := ⟨.hbm, 2276, rfl⟩
abbrev main_c_360 : Ref sig .tc := ⟨.hbm, 2277, rfl⟩
abbrev main_v1705 : Ref sig .tc := ⟨.hbm, 2278, rfl⟩
abbrev main_v1706 : Ref sig .tc := ⟨.hbm, 2279, rfl⟩
abbrev main_v1707 : Ref sig .tc := ⟨.hbm, 2280, rfl⟩
abbrev main_v1708 : Ref sig .tc := ⟨.hbm, 2281, rfl⟩
abbrev main_v1709 : Ref sig .tc := ⟨.hbm, 2282, rfl⟩
abbrev main_c_361 : Ref sig .tc := ⟨.hbm, 2283, rfl⟩
abbrev main_v1710 : Ref sig .tc := ⟨.hbm, 2284, rfl⟩
abbrev main_v1711 : Ref sig .tc := ⟨.hbm, 2285, rfl⟩
abbrev main_v1712 : Ref sig .tc := ⟨.hbm, 2286, rfl⟩
abbrev main_v1713 : Ref sig .tc := ⟨.hbm, 2287, rfl⟩
abbrev main_v1714 : Ref sig .tc := ⟨.hbm, 2288, rfl⟩
abbrev main_v1715 : Ref sig .tc := ⟨.hbm, 2289, rfl⟩
abbrev main_v1716 : Ref sig .tc := ⟨.hbm, 2290, rfl⟩
abbrev main_v1717 : Ref sig .tc := ⟨.hbm, 2291, rfl⟩
abbrev main_v1718 : Ref sig .tc := ⟨.hbm, 2292, rfl⟩
abbrev main_v1719 : Ref sig .tc := ⟨.hbm, 2293, rfl⟩
abbrev main_v1720 : Ref sig .tc := ⟨.hbm, 2294, rfl⟩
abbrev main_v1721 : Ref sig .tc := ⟨.hbm, 2295, rfl⟩
abbrev main_c_362 : Ref sig .tc := ⟨.hbm, 2296, rfl⟩
abbrev main_v1722 : Ref sig .tc := ⟨.hbm, 2297, rfl⟩
abbrev main_v1723 : Ref sig .tc := ⟨.hbm, 2298, rfl⟩
abbrev main_c_363 : Ref sig .tc := ⟨.hbm, 2299, rfl⟩
abbrev main_v1724 : Ref sig .tc := ⟨.hbm, 2300, rfl⟩
abbrev main_v1725 : Ref sig .tc := ⟨.hbm, 2301, rfl⟩
abbrev main_v1726 : Ref sig .tc := ⟨.hbm, 2302, rfl⟩
abbrev main_v1727 : Ref sig .tc := ⟨.hbm, 2303, rfl⟩
abbrev main_v1728 : Ref sig .tc := ⟨.hbm, 2304, rfl⟩
abbrev main_cst_364 : Ref sig .tc := ⟨.hbm, 2305, rfl⟩
abbrev main_call67_v0 : Ref sig .tc := ⟨.hbm, 2306, rfl⟩
abbrev main_call67_v1 : Ref sig .tc := ⟨.hbm, 2307, rfl⟩
abbrev main_call67_v2 : Ref sig .tc := ⟨.hbm, 2308, rfl⟩
abbrev main_v1729 : Ref sig .tc := ⟨.hbm, 2309, rfl⟩
abbrev main_c_365 : Ref sig .tc := ⟨.hbm, 2310, rfl⟩
abbrev main_v1730 : Ref sig .tc := ⟨.hbm, 2311, rfl⟩
abbrev main_v1731 : Ref sig .tc := ⟨.hbm, 2312, rfl⟩
abbrev main_c_366 : Ref sig .tc := ⟨.hbm, 2313, rfl⟩
abbrev main_v1732 : Ref sig .tc := ⟨.hbm, 2314, rfl⟩
abbrev main_v1733 : Ref sig .tc := ⟨.hbm, 2315, rfl⟩
abbrev main_v1734 : Ref sig .tc := ⟨.hbm, 2316, rfl⟩
abbrev main_v1735 : Ref sig .tc := ⟨.hbm, 2317, rfl⟩
abbrev main_v1736 : Ref sig .tc := ⟨.hbm, 2318, rfl⟩
abbrev main_v1737 : Ref sig .tc := ⟨.hbm, 2319, rfl⟩
abbrev main_v1738 : Ref sig .tc := ⟨.hbm, 2320, rfl⟩
abbrev main_v1739 : Ref sig .tc := ⟨.hbm, 2321, rfl⟩
abbrev main_v1740 : Ref sig .tc := ⟨.hbm, 2322, rfl⟩
abbrev main_v1741 : Ref sig .tc := ⟨.hbm, 2323, rfl⟩
abbrev main_v1742 : Ref sig .tc := ⟨.hbm, 2324, rfl⟩
abbrev main_v1743 : Ref sig .tc := ⟨.hbm, 2325, rfl⟩
abbrev main_v1744 : Ref sig .tc := ⟨.hbm, 2326, rfl⟩
abbrev main_v1745 : Ref sig .tc := ⟨.hbm, 2327, rfl⟩
abbrev main_c_367 : Ref sig .tc := ⟨.hbm, 2328, rfl⟩
abbrev main_v1746 : Ref sig .tc := ⟨.hbm, 2329, rfl⟩
abbrev main_v1747 : Ref sig .tc := ⟨.hbm, 2330, rfl⟩
abbrev main_c_368 : Ref sig .tc := ⟨.hbm, 2331, rfl⟩
abbrev main_v1748 : Ref sig .tc := ⟨.hbm, 2332, rfl⟩
abbrev main_v1749 : Ref sig .tc := ⟨.hbm, 2333, rfl⟩
abbrev main_v1750 : Ref sig .tc := ⟨.hbm, 2334, rfl⟩
abbrev main_v1751 : Ref sig .tc := ⟨.hbm, 2335, rfl⟩
abbrev main_v1752 : Ref sig .tc := ⟨.hbm, 2336, rfl⟩
abbrev main_cst_369 : Ref sig .tc := ⟨.hbm, 2337, rfl⟩
abbrev main_call68_v0 : Ref sig .tc := ⟨.hbm, 2338, rfl⟩
abbrev main_call68_v1 : Ref sig .tc := ⟨.hbm, 2339, rfl⟩
abbrev main_call68_v2 : Ref sig .tc := ⟨.hbm, 2340, rfl⟩
abbrev main_v1753 : Ref sig .tc := ⟨.hbm, 2341, rfl⟩
abbrev main_c_370 : Ref sig .tc := ⟨.hbm, 2342, rfl⟩
abbrev main_v1754 : Ref sig .tc := ⟨.hbm, 2343, rfl⟩
abbrev main_v1755 : Ref sig .tc := ⟨.hbm, 2344, rfl⟩
abbrev main_c_371 : Ref sig .tc := ⟨.hbm, 2345, rfl⟩
abbrev main_v1756 : Ref sig .tc := ⟨.hbm, 2346, rfl⟩
abbrev main_v1757 : Ref sig .tc := ⟨.hbm, 2347, rfl⟩
abbrev main_v1758 : Ref sig .tc := ⟨.hbm, 2348, rfl⟩
abbrev main_v1759 : Ref sig .tc := ⟨.hbm, 2349, rfl⟩
abbrev main_v1760 : Ref sig .tc := ⟨.hbm, 2350, rfl⟩
abbrev main_c_372 : Ref sig .tc := ⟨.hbm, 2351, rfl⟩
abbrev main_v1761 : Ref sig .tc := ⟨.hbm, 2352, rfl⟩
abbrev main_v1762 : Ref sig .tc := ⟨.hbm, 2353, rfl⟩
abbrev main_v1763 : Ref sig .tc := ⟨.hbm, 2354, rfl⟩
abbrev main_v1764 : Ref sig .tc := ⟨.hbm, 2355, rfl⟩
abbrev main_v1765 : Ref sig .tc := ⟨.hbm, 2356, rfl⟩
abbrev main_v1766 : Ref sig .tc := ⟨.hbm, 2357, rfl⟩
abbrev main_v1767 : Ref sig .tc := ⟨.hbm, 2358, rfl⟩
abbrev main_v1768 : Ref sig .tc := ⟨.hbm, 2359, rfl⟩
abbrev main_v1769 : Ref sig .tc := ⟨.hbm, 2360, rfl⟩
abbrev main_v1770 : Ref sig .tc := ⟨.hbm, 2361, rfl⟩
abbrev main_v1771 : Ref sig .tc := ⟨.hbm, 2362, rfl⟩
abbrev main_v1772 : Ref sig .tc := ⟨.hbm, 2363, rfl⟩
abbrev main_c_373 : Ref sig .tc := ⟨.hbm, 2364, rfl⟩
abbrev main_v1773 : Ref sig .tc := ⟨.hbm, 2365, rfl⟩
abbrev main_v1774 : Ref sig .tc := ⟨.hbm, 2366, rfl⟩
abbrev main_c_374 : Ref sig .tc := ⟨.hbm, 2367, rfl⟩
abbrev main_v1775 : Ref sig .tc := ⟨.hbm, 2368, rfl⟩
abbrev main_v1776 : Ref sig .tc := ⟨.hbm, 2369, rfl⟩
abbrev main_v1777 : Ref sig .tc := ⟨.hbm, 2370, rfl⟩
abbrev main_v1778 : Ref sig .tc := ⟨.hbm, 2371, rfl⟩
abbrev main_v1779 : Ref sig .tc := ⟨.hbm, 2372, rfl⟩
abbrev main_cst_375 : Ref sig .tc := ⟨.hbm, 2373, rfl⟩
abbrev main_call69_v0 : Ref sig .tc := ⟨.hbm, 2374, rfl⟩
abbrev main_call69_v1 : Ref sig .tc := ⟨.hbm, 2375, rfl⟩
abbrev main_call69_v2 : Ref sig .tc := ⟨.hbm, 2376, rfl⟩
abbrev main_v1780 : Ref sig .tc := ⟨.hbm, 2377, rfl⟩
abbrev main_c_376 : Ref sig .tc := ⟨.hbm, 2378, rfl⟩
abbrev main_v1781 : Ref sig .tc := ⟨.hbm, 2379, rfl⟩
abbrev main_v1782 : Ref sig .tc := ⟨.hbm, 2380, rfl⟩
abbrev main_c_377 : Ref sig .tc := ⟨.hbm, 2381, rfl⟩
abbrev main_v1783 : Ref sig .tc := ⟨.hbm, 2382, rfl⟩
abbrev main_v1784 : Ref sig .tc := ⟨.hbm, 2383, rfl⟩
abbrev main_v1785 : Ref sig .tc := ⟨.hbm, 2384, rfl⟩
abbrev main_v1786 : Ref sig .tc := ⟨.hbm, 2385, rfl⟩
abbrev main_v1787 : Ref sig .tc := ⟨.hbm, 2386, rfl⟩
abbrev main_v1788 : Ref sig .tc := ⟨.hbm, 2387, rfl⟩
abbrev main_v1789 : Ref sig .tc := ⟨.hbm, 2388, rfl⟩
abbrev main_v1790 : Ref sig .tc := ⟨.hbm, 2389, rfl⟩
abbrev main_v1791 : Ref sig .tc := ⟨.hbm, 2390, rfl⟩
abbrev main_v1792 : Ref sig .tc := ⟨.hbm, 2391, rfl⟩
abbrev main_v1793 : Ref sig .tc := ⟨.hbm, 2392, rfl⟩
abbrev main_v1794 : Ref sig .tc := ⟨.hbm, 2393, rfl⟩
abbrev main_v1795 : Ref sig .tc := ⟨.hbm, 2394, rfl⟩
abbrev main_v1796 : Ref sig .tc := ⟨.hbm, 2395, rfl⟩
abbrev main_c_378 : Ref sig .tc := ⟨.hbm, 2396, rfl⟩
abbrev main_v1797 : Ref sig .tc := ⟨.hbm, 2397, rfl⟩
abbrev main_v1798 : Ref sig .tc := ⟨.hbm, 2398, rfl⟩
abbrev main_c_379 : Ref sig .tc := ⟨.hbm, 2399, rfl⟩
abbrev main_v1799 : Ref sig .tc := ⟨.hbm, 2400, rfl⟩
abbrev main_v1800 : Ref sig .tc := ⟨.hbm, 2401, rfl⟩
abbrev main_v1801 : Ref sig .tc := ⟨.hbm, 2402, rfl⟩
abbrev main_v1802 : Ref sig .tc := ⟨.hbm, 2403, rfl⟩
abbrev main_v1803 : Ref sig .tc := ⟨.hbm, 2404, rfl⟩
abbrev main_cst_380 : Ref sig .tc := ⟨.hbm, 2405, rfl⟩
abbrev main_call70_v0 : Ref sig .tc := ⟨.hbm, 2406, rfl⟩
abbrev main_call70_v1 : Ref sig .tc := ⟨.hbm, 2407, rfl⟩
abbrev main_call70_v2 : Ref sig .tc := ⟨.hbm, 2408, rfl⟩
abbrev main_v1804 : Ref sig .tc := ⟨.hbm, 2409, rfl⟩
abbrev main_c_381 : Ref sig .tc := ⟨.hbm, 2410, rfl⟩
abbrev main_v1805 : Ref sig .tc := ⟨.hbm, 2411, rfl⟩
abbrev main_v1806 : Ref sig .tc := ⟨.hbm, 2412, rfl⟩
abbrev main_c_382 : Ref sig .tc := ⟨.hbm, 2413, rfl⟩
abbrev main_v1807 : Ref sig .tc := ⟨.hbm, 2414, rfl⟩
abbrev main_v1808 : Ref sig .tc := ⟨.hbm, 2415, rfl⟩
abbrev main_v1809 : Ref sig .tc := ⟨.hbm, 2416, rfl⟩
abbrev main_v1810 : Ref sig .tc := ⟨.hbm, 2417, rfl⟩
abbrev main_v1811 : Ref sig .tc := ⟨.hbm, 2418, rfl⟩
abbrev main_c_383 : Ref sig .tc := ⟨.hbm, 2419, rfl⟩
abbrev main_v1812 : Ref sig .tc := ⟨.hbm, 2420, rfl⟩
abbrev main_v1813 : Ref sig .tc := ⟨.hbm, 2421, rfl⟩
abbrev main_v1814 : Ref sig .tc := ⟨.hbm, 2422, rfl⟩
abbrev main_v1815 : Ref sig .tc := ⟨.hbm, 2423, rfl⟩
abbrev main_v1816 : Ref sig .tc := ⟨.hbm, 2424, rfl⟩
abbrev main_v1817 : Ref sig .tc := ⟨.hbm, 2425, rfl⟩
abbrev main_v1818 : Ref sig .tc := ⟨.hbm, 2426, rfl⟩
abbrev main_v1819 : Ref sig .tc := ⟨.hbm, 2427, rfl⟩
abbrev main_v1820 : Ref sig .tc := ⟨.hbm, 2428, rfl⟩
abbrev main_v1821 : Ref sig .tc := ⟨.hbm, 2429, rfl⟩
abbrev main_v1822 : Ref sig .tc := ⟨.hbm, 2430, rfl⟩
abbrev main_v1823 : Ref sig .tc := ⟨.hbm, 2431, rfl⟩
abbrev main_c_384 : Ref sig .tc := ⟨.hbm, 2432, rfl⟩
abbrev main_v1824 : Ref sig .tc := ⟨.hbm, 2433, rfl⟩
abbrev main_v1825 : Ref sig .tc := ⟨.hbm, 2434, rfl⟩
abbrev main_c_385 : Ref sig .tc := ⟨.hbm, 2435, rfl⟩
abbrev main_v1826 : Ref sig .tc := ⟨.hbm, 2436, rfl⟩
abbrev main_v1827 : Ref sig .tc := ⟨.hbm, 2437, rfl⟩
abbrev main_v1828 : Ref sig .tc := ⟨.hbm, 2438, rfl⟩
abbrev main_v1829 : Ref sig .tc := ⟨.hbm, 2439, rfl⟩
abbrev main_v1830 : Ref sig .tc := ⟨.hbm, 2440, rfl⟩
abbrev main_cst_386 : Ref sig .tc := ⟨.hbm, 2441, rfl⟩
abbrev main_call71_v0 : Ref sig .tc := ⟨.hbm, 2442, rfl⟩
abbrev main_call71_v1 : Ref sig .tc := ⟨.hbm, 2443, rfl⟩
abbrev main_call71_v2 : Ref sig .tc := ⟨.hbm, 2444, rfl⟩
abbrev main_v1831 : Ref sig .tc := ⟨.hbm, 2445, rfl⟩
abbrev main_c_387 : Ref sig .tc := ⟨.hbm, 2446, rfl⟩
abbrev main_v1832 : Ref sig .tc := ⟨.hbm, 2447, rfl⟩
abbrev main_v1833 : Ref sig .tc := ⟨.hbm, 2448, rfl⟩
abbrev main_c_388 : Ref sig .tc := ⟨.hbm, 2449, rfl⟩
abbrev main_v1834 : Ref sig .tc := ⟨.hbm, 2450, rfl⟩
abbrev main_v1835 : Ref sig .tc := ⟨.hbm, 2451, rfl⟩
abbrev main_v1836 : Ref sig .tc := ⟨.hbm, 2452, rfl⟩
abbrev main_v1837 : Ref sig .tc := ⟨.hbm, 2453, rfl⟩
abbrev main_v1838 : Ref sig .tc := ⟨.hbm, 2454, rfl⟩
abbrev main_v1839 : Ref sig .tc := ⟨.hbm, 2455, rfl⟩
abbrev main_v1840 : Ref sig .tc := ⟨.hbm, 2456, rfl⟩
abbrev main_v1841 : Ref sig .tc := ⟨.hbm, 2457, rfl⟩
abbrev main_v1842 : Ref sig .tc := ⟨.hbm, 2458, rfl⟩
abbrev main_v1843 : Ref sig .tc := ⟨.hbm, 2459, rfl⟩
abbrev main_v1844 : Ref sig .tc := ⟨.hbm, 2460, rfl⟩
abbrev main_v1845 : Ref sig .tc := ⟨.hbm, 2461, rfl⟩
abbrev main_v1846 : Ref sig .tc := ⟨.hbm, 2462, rfl⟩
abbrev main_v1847 : Ref sig .tc := ⟨.hbm, 2463, rfl⟩
abbrev main_c_389 : Ref sig .tc := ⟨.hbm, 2464, rfl⟩
abbrev main_v1848 : Ref sig .tc := ⟨.hbm, 2465, rfl⟩
abbrev main_v1849 : Ref sig .tc := ⟨.hbm, 2466, rfl⟩
abbrev main_c_390 : Ref sig .tc := ⟨.hbm, 2467, rfl⟩
abbrev main_v1850 : Ref sig .tc := ⟨.hbm, 2468, rfl⟩
abbrev main_v1851 : Ref sig .tc := ⟨.hbm, 2469, rfl⟩
abbrev main_v1852 : Ref sig .tc := ⟨.hbm, 2470, rfl⟩
abbrev main_v1853 : Ref sig .tc := ⟨.hbm, 2471, rfl⟩
abbrev main_v1854 : Ref sig .tc := ⟨.hbm, 2472, rfl⟩
abbrev main_cst_391 : Ref sig .tc := ⟨.hbm, 2473, rfl⟩
abbrev main_call72_v0 : Ref sig .tc := ⟨.hbm, 2474, rfl⟩
abbrev main_call72_v1 : Ref sig .tc := ⟨.hbm, 2475, rfl⟩
abbrev main_call72_v2 : Ref sig .tc := ⟨.hbm, 2476, rfl⟩
abbrev main_v1855 : Ref sig .tc := ⟨.hbm, 2477, rfl⟩
abbrev main_c_392 : Ref sig .tc := ⟨.hbm, 2478, rfl⟩
abbrev main_v1856 : Ref sig .tc := ⟨.hbm, 2479, rfl⟩
abbrev main_v1857 : Ref sig .tc := ⟨.hbm, 2480, rfl⟩
abbrev main_c_393 : Ref sig .tc := ⟨.hbm, 2481, rfl⟩
abbrev main_v1858 : Ref sig .tc := ⟨.hbm, 2482, rfl⟩
abbrev main_v1859 : Ref sig .tc := ⟨.hbm, 2483, rfl⟩
abbrev main_v1860 : Ref sig .tc := ⟨.hbm, 2484, rfl⟩
abbrev main_v1861 : Ref sig .tc := ⟨.hbm, 2485, rfl⟩
abbrev main_v1862 : Ref sig .tc := ⟨.hbm, 2486, rfl⟩
abbrev main_c_394 : Ref sig .tc := ⟨.hbm, 2487, rfl⟩
abbrev main_v1863 : Ref sig .tc := ⟨.hbm, 2488, rfl⟩
abbrev main_v1864 : Ref sig .tc := ⟨.hbm, 2489, rfl⟩
abbrev main_v1865 : Ref sig .tc := ⟨.hbm, 2490, rfl⟩
abbrev main_v1866 : Ref sig .tc := ⟨.hbm, 2491, rfl⟩
abbrev main_v1867 : Ref sig .tc := ⟨.hbm, 2492, rfl⟩
abbrev main_v1868 : Ref sig .tc := ⟨.hbm, 2493, rfl⟩
abbrev main_v1869 : Ref sig .tc := ⟨.hbm, 2494, rfl⟩
abbrev main_v1870 : Ref sig .tc := ⟨.hbm, 2495, rfl⟩
abbrev main_v1871 : Ref sig .tc := ⟨.hbm, 2496, rfl⟩
abbrev main_v1872 : Ref sig .tc := ⟨.hbm, 2497, rfl⟩
abbrev main_v1873 : Ref sig .tc := ⟨.hbm, 2498, rfl⟩
abbrev main_v1874 : Ref sig .tc := ⟨.hbm, 2499, rfl⟩
abbrev main_c_395 : Ref sig .tc := ⟨.hbm, 2500, rfl⟩
abbrev main_v1875 : Ref sig .tc := ⟨.hbm, 2501, rfl⟩
abbrev main_v1876 : Ref sig .tc := ⟨.hbm, 2502, rfl⟩
abbrev main_c_396 : Ref sig .tc := ⟨.hbm, 2503, rfl⟩
abbrev main_v1877 : Ref sig .tc := ⟨.hbm, 2504, rfl⟩
abbrev main_v1878 : Ref sig .tc := ⟨.hbm, 2505, rfl⟩
abbrev main_v1879 : Ref sig .tc := ⟨.hbm, 2506, rfl⟩
abbrev main_v1880 : Ref sig .tc := ⟨.hbm, 2507, rfl⟩
abbrev main_v1881 : Ref sig .tc := ⟨.hbm, 2508, rfl⟩
abbrev main_cst_397 : Ref sig .tc := ⟨.hbm, 2509, rfl⟩
abbrev main_call73_v0 : Ref sig .tc := ⟨.hbm, 2510, rfl⟩
abbrev main_call73_v1 : Ref sig .tc := ⟨.hbm, 2511, rfl⟩
abbrev main_call73_v2 : Ref sig .tc := ⟨.hbm, 2512, rfl⟩
abbrev main_v1882 : Ref sig .tc := ⟨.hbm, 2513, rfl⟩
abbrev main_c_398 : Ref sig .tc := ⟨.hbm, 2514, rfl⟩
abbrev main_v1883 : Ref sig .tc := ⟨.hbm, 2515, rfl⟩
abbrev main_v1884 : Ref sig .tc := ⟨.hbm, 2516, rfl⟩
abbrev main_c_399 : Ref sig .tc := ⟨.hbm, 2517, rfl⟩
abbrev main_v1885 : Ref sig .tc := ⟨.hbm, 2518, rfl⟩
abbrev main_v1886 : Ref sig .tc := ⟨.hbm, 2519, rfl⟩
abbrev main_v1887 : Ref sig .tc := ⟨.hbm, 2520, rfl⟩
abbrev main_v1888 : Ref sig .tc := ⟨.hbm, 2521, rfl⟩
abbrev main_v1889 : Ref sig .tc := ⟨.hbm, 2522, rfl⟩
abbrev main_v1890 : Ref sig .tc := ⟨.hbm, 2523, rfl⟩
abbrev main_v1891 : Ref sig .tc := ⟨.hbm, 2524, rfl⟩
abbrev main_v1892 : Ref sig .tc := ⟨.hbm, 2525, rfl⟩
abbrev main_v1893 : Ref sig .tc := ⟨.hbm, 2526, rfl⟩
abbrev main_v1894 : Ref sig .tc := ⟨.hbm, 2527, rfl⟩
abbrev main_v1895 : Ref sig .tc := ⟨.hbm, 2528, rfl⟩
abbrev main_v1896 : Ref sig .tc := ⟨.hbm, 2529, rfl⟩
abbrev main_v1897 : Ref sig .tc := ⟨.hbm, 2530, rfl⟩
abbrev main_v1898 : Ref sig .tc := ⟨.hbm, 2531, rfl⟩
abbrev main_c_400 : Ref sig .tc := ⟨.hbm, 2532, rfl⟩
abbrev main_v1899 : Ref sig .tc := ⟨.hbm, 2533, rfl⟩
abbrev main_v1900 : Ref sig .tc := ⟨.hbm, 2534, rfl⟩
abbrev main_c_401 : Ref sig .tc := ⟨.hbm, 2535, rfl⟩
abbrev main_v1901 : Ref sig .tc := ⟨.hbm, 2536, rfl⟩
abbrev main_v1902 : Ref sig .tc := ⟨.hbm, 2537, rfl⟩
abbrev main_v1903 : Ref sig .tc := ⟨.hbm, 2538, rfl⟩
abbrev main_v1904 : Ref sig .tc := ⟨.hbm, 2539, rfl⟩
abbrev main_v1905 : Ref sig .tc := ⟨.hbm, 2540, rfl⟩
abbrev main_cst_402 : Ref sig .tc := ⟨.hbm, 2541, rfl⟩
abbrev main_call74_v0 : Ref sig .tc := ⟨.hbm, 2542, rfl⟩
abbrev main_call74_v1 : Ref sig .tc := ⟨.hbm, 2543, rfl⟩
abbrev main_call74_v2 : Ref sig .tc := ⟨.hbm, 2544, rfl⟩
abbrev main_v1906 : Ref sig .tc := ⟨.hbm, 2545, rfl⟩
abbrev main_c_403 : Ref sig .tc := ⟨.hbm, 2546, rfl⟩
abbrev main_v1907 : Ref sig .tc := ⟨.hbm, 2547, rfl⟩
abbrev main_v1908 : Ref sig .tc := ⟨.hbm, 2548, rfl⟩
abbrev main_c_404 : Ref sig .tc := ⟨.hbm, 2549, rfl⟩
abbrev main_v1909 : Ref sig .tc := ⟨.hbm, 2550, rfl⟩
abbrev main_v1910 : Ref sig .tc := ⟨.hbm, 2551, rfl⟩
abbrev main_v1911 : Ref sig .tc := ⟨.hbm, 2552, rfl⟩
abbrev main_v1912 : Ref sig .tc := ⟨.hbm, 2553, rfl⟩
abbrev main_v1913 : Ref sig .tc := ⟨.hbm, 2554, rfl⟩
abbrev main_c_405 : Ref sig .tc := ⟨.hbm, 2555, rfl⟩
abbrev main_v1914 : Ref sig .tc := ⟨.hbm, 2556, rfl⟩
abbrev main_v1915 : Ref sig .tc := ⟨.hbm, 2557, rfl⟩
abbrev main_v1916 : Ref sig .tc := ⟨.hbm, 2558, rfl⟩
abbrev main_v1917 : Ref sig .tc := ⟨.hbm, 2559, rfl⟩
abbrev main_v1918 : Ref sig .tc := ⟨.hbm, 2560, rfl⟩
abbrev main_v1919 : Ref sig .tc := ⟨.hbm, 2561, rfl⟩
abbrev main_v1920 : Ref sig .tc := ⟨.hbm, 2562, rfl⟩
abbrev main_v1921 : Ref sig .tc := ⟨.hbm, 2563, rfl⟩
abbrev main_v1922 : Ref sig .tc := ⟨.hbm, 2564, rfl⟩
abbrev main_v1923 : Ref sig .tc := ⟨.hbm, 2565, rfl⟩
abbrev main_v1924 : Ref sig .tc := ⟨.hbm, 2566, rfl⟩
abbrev main_v1925 : Ref sig .tc := ⟨.hbm, 2567, rfl⟩
abbrev main_c_406 : Ref sig .tc := ⟨.hbm, 2568, rfl⟩
abbrev main_v1926 : Ref sig .tc := ⟨.hbm, 2569, rfl⟩
abbrev main_v1927 : Ref sig .tc := ⟨.hbm, 2570, rfl⟩
abbrev main_c_407 : Ref sig .tc := ⟨.hbm, 2571, rfl⟩
abbrev main_v1928 : Ref sig .tc := ⟨.hbm, 2572, rfl⟩
abbrev main_v1929 : Ref sig .tc := ⟨.hbm, 2573, rfl⟩
abbrev main_v1930 : Ref sig .tc := ⟨.hbm, 2574, rfl⟩
abbrev main_v1931 : Ref sig .tc := ⟨.hbm, 2575, rfl⟩
abbrev main_v1932 : Ref sig .tc := ⟨.hbm, 2576, rfl⟩
abbrev main_cst_408 : Ref sig .tc := ⟨.hbm, 2577, rfl⟩
abbrev main_call75_v0 : Ref sig .tc := ⟨.hbm, 2578, rfl⟩
abbrev main_call75_v1 : Ref sig .tc := ⟨.hbm, 2579, rfl⟩
abbrev main_call75_v2 : Ref sig .tc := ⟨.hbm, 2580, rfl⟩
abbrev main_v1933 : Ref sig .tc := ⟨.hbm, 2581, rfl⟩
abbrev main_c_409 : Ref sig .tc := ⟨.hbm, 2582, rfl⟩
abbrev main_v1934 : Ref sig .tc := ⟨.hbm, 2583, rfl⟩
abbrev main_v1935 : Ref sig .tc := ⟨.hbm, 2584, rfl⟩
abbrev main_c_410 : Ref sig .tc := ⟨.hbm, 2585, rfl⟩
abbrev main_v1936 : Ref sig .tc := ⟨.hbm, 2586, rfl⟩
abbrev main_v1937 : Ref sig .tc := ⟨.hbm, 2587, rfl⟩
abbrev main_v1938 : Ref sig .tc := ⟨.hbm, 2588, rfl⟩
abbrev main_v1939 : Ref sig .tc := ⟨.hbm, 2589, rfl⟩
abbrev main_v1940 : Ref sig .tc := ⟨.hbm, 2590, rfl⟩
abbrev main_v1941 : Ref sig .tc := ⟨.hbm, 2591, rfl⟩
abbrev main_v1942 : Ref sig .tc := ⟨.hbm, 2592, rfl⟩
abbrev main_v1943 : Ref sig .tc := ⟨.hbm, 2593, rfl⟩
abbrev main_v1944 : Ref sig .tc := ⟨.hbm, 2594, rfl⟩
abbrev main_v1945 : Ref sig .tc := ⟨.hbm, 2595, rfl⟩
abbrev main_v1946 : Ref sig .tc := ⟨.hbm, 2596, rfl⟩
abbrev main_v1947 : Ref sig .tc := ⟨.hbm, 2597, rfl⟩
abbrev main_v1948 : Ref sig .tc := ⟨.hbm, 2598, rfl⟩
abbrev main_v1949 : Ref sig .tc := ⟨.hbm, 2599, rfl⟩
abbrev main_c_411 : Ref sig .tc := ⟨.hbm, 2600, rfl⟩
abbrev main_v1950 : Ref sig .tc := ⟨.hbm, 2601, rfl⟩
abbrev main_v1951 : Ref sig .tc := ⟨.hbm, 2602, rfl⟩
abbrev main_c_412 : Ref sig .tc := ⟨.hbm, 2603, rfl⟩
abbrev main_v1952 : Ref sig .tc := ⟨.hbm, 2604, rfl⟩
abbrev main_v1953 : Ref sig .tc := ⟨.hbm, 2605, rfl⟩
abbrev main_v1954 : Ref sig .tc := ⟨.hbm, 2606, rfl⟩
abbrev main_v1955 : Ref sig .tc := ⟨.hbm, 2607, rfl⟩
abbrev main_v1956 : Ref sig .tc := ⟨.hbm, 2608, rfl⟩
abbrev main_cst_413 : Ref sig .tc := ⟨.hbm, 2609, rfl⟩
abbrev main_call76_v0 : Ref sig .tc := ⟨.hbm, 2610, rfl⟩
abbrev main_call76_v1 : Ref sig .tc := ⟨.hbm, 2611, rfl⟩
abbrev main_call76_v2 : Ref sig .tc := ⟨.hbm, 2612, rfl⟩
abbrev main_v1957 : Ref sig .tc := ⟨.hbm, 2613, rfl⟩
abbrev main_c_414 : Ref sig .tc := ⟨.hbm, 2614, rfl⟩
abbrev main_v1958 : Ref sig .tc := ⟨.hbm, 2615, rfl⟩
abbrev main_v1959 : Ref sig .tc := ⟨.hbm, 2616, rfl⟩
abbrev main_c_415 : Ref sig .tc := ⟨.hbm, 2617, rfl⟩
abbrev main_v1960 : Ref sig .tc := ⟨.hbm, 2618, rfl⟩
abbrev main_v1961 : Ref sig .tc := ⟨.hbm, 2619, rfl⟩
abbrev main_v1962 : Ref sig .tc := ⟨.hbm, 2620, rfl⟩
abbrev main_v1963 : Ref sig .tc := ⟨.hbm, 2621, rfl⟩
abbrev main_v1964 : Ref sig .tc := ⟨.hbm, 2622, rfl⟩
abbrev main_c_416 : Ref sig .tc := ⟨.hbm, 2623, rfl⟩
abbrev main_v1965 : Ref sig .tc := ⟨.hbm, 2624, rfl⟩
abbrev main_v1966 : Ref sig .tc := ⟨.hbm, 2625, rfl⟩
abbrev main_v1967 : Ref sig .tc := ⟨.hbm, 2626, rfl⟩
abbrev main_v1968 : Ref sig .tc := ⟨.hbm, 2627, rfl⟩
abbrev main_v1969 : Ref sig .tc := ⟨.hbm, 2628, rfl⟩
abbrev main_v1970 : Ref sig .tc := ⟨.hbm, 2629, rfl⟩
abbrev main_v1971 : Ref sig .tc := ⟨.hbm, 2630, rfl⟩
abbrev main_v1972 : Ref sig .tc := ⟨.hbm, 2631, rfl⟩
abbrev main_v1973 : Ref sig .tc := ⟨.hbm, 2632, rfl⟩
abbrev main_v1974 : Ref sig .tc := ⟨.hbm, 2633, rfl⟩
abbrev main_v1975 : Ref sig .tc := ⟨.hbm, 2634, rfl⟩
abbrev main_v1976 : Ref sig .tc := ⟨.hbm, 2635, rfl⟩
abbrev main_c_417 : Ref sig .tc := ⟨.hbm, 2636, rfl⟩
abbrev main_v1977 : Ref sig .tc := ⟨.hbm, 2637, rfl⟩
abbrev main_v1978 : Ref sig .tc := ⟨.hbm, 2638, rfl⟩
abbrev main_c_418 : Ref sig .tc := ⟨.hbm, 2639, rfl⟩
abbrev main_v1979 : Ref sig .tc := ⟨.hbm, 2640, rfl⟩
abbrev main_v1980 : Ref sig .tc := ⟨.hbm, 2641, rfl⟩
abbrev main_v1981 : Ref sig .tc := ⟨.hbm, 2642, rfl⟩
abbrev main_v1982 : Ref sig .tc := ⟨.hbm, 2643, rfl⟩
abbrev main_v1983 : Ref sig .tc := ⟨.hbm, 2644, rfl⟩
abbrev main_cst_419 : Ref sig .tc := ⟨.hbm, 2645, rfl⟩
abbrev main_call77_v0 : Ref sig .tc := ⟨.hbm, 2646, rfl⟩
abbrev main_call77_v1 : Ref sig .tc := ⟨.hbm, 2647, rfl⟩
abbrev main_call77_v2 : Ref sig .tc := ⟨.hbm, 2648, rfl⟩
abbrev main_v1984 : Ref sig .tc := ⟨.hbm, 2649, rfl⟩
abbrev main_c_420 : Ref sig .tc := ⟨.hbm, 2650, rfl⟩
abbrev main_v1985 : Ref sig .tc := ⟨.hbm, 2651, rfl⟩
abbrev main_v1986 : Ref sig .tc := ⟨.hbm, 2652, rfl⟩
abbrev main_c_421 : Ref sig .tc := ⟨.hbm, 2653, rfl⟩
abbrev main_v1987 : Ref sig .tc := ⟨.hbm, 2654, rfl⟩
abbrev main_v1988 : Ref sig .tc := ⟨.hbm, 2655, rfl⟩
abbrev main_v1989 : Ref sig .tc := ⟨.hbm, 2656, rfl⟩
abbrev main_v1990 : Ref sig .tc := ⟨.hbm, 2657, rfl⟩
abbrev main_v1991 : Ref sig .tc := ⟨.hbm, 2658, rfl⟩
abbrev main_v1992 : Ref sig .tc := ⟨.hbm, 2659, rfl⟩
abbrev main_v1993 : Ref sig .tc := ⟨.hbm, 2660, rfl⟩
abbrev main_v1994 : Ref sig .tc := ⟨.hbm, 2661, rfl⟩
abbrev main_v1995 : Ref sig .tc := ⟨.hbm, 2662, rfl⟩
abbrev main_v1996 : Ref sig .tc := ⟨.hbm, 2663, rfl⟩
abbrev main_v1997 : Ref sig .tc := ⟨.hbm, 2664, rfl⟩
abbrev main_v1998 : Ref sig .tc := ⟨.hbm, 2665, rfl⟩
abbrev main_v1999 : Ref sig .tc := ⟨.hbm, 2666, rfl⟩
abbrev main_v2000 : Ref sig .tc := ⟨.hbm, 2667, rfl⟩
abbrev main_c_422 : Ref sig .tc := ⟨.hbm, 2668, rfl⟩
abbrev main_v2001 : Ref sig .tc := ⟨.hbm, 2669, rfl⟩
abbrev main_v2002 : Ref sig .tc := ⟨.hbm, 2670, rfl⟩
abbrev main_c_423 : Ref sig .tc := ⟨.hbm, 2671, rfl⟩
abbrev main_v2003 : Ref sig .tc := ⟨.hbm, 2672, rfl⟩
abbrev main_v2004 : Ref sig .tc := ⟨.hbm, 2673, rfl⟩
abbrev main_v2005 : Ref sig .tc := ⟨.hbm, 2674, rfl⟩
abbrev main_v2006 : Ref sig .tc := ⟨.hbm, 2675, rfl⟩
abbrev main_v2007 : Ref sig .tc := ⟨.hbm, 2676, rfl⟩
abbrev main_cst_424 : Ref sig .tc := ⟨.hbm, 2677, rfl⟩
abbrev main_call78_v0 : Ref sig .tc := ⟨.hbm, 2678, rfl⟩
abbrev main_call78_v1 : Ref sig .tc := ⟨.hbm, 2679, rfl⟩
abbrev main_call78_v2 : Ref sig .tc := ⟨.hbm, 2680, rfl⟩
abbrev main_v2008 : Ref sig .tc := ⟨.hbm, 2681, rfl⟩
abbrev main_c_425 : Ref sig .tc := ⟨.hbm, 2682, rfl⟩
abbrev main_v2009 : Ref sig .tc := ⟨.hbm, 2683, rfl⟩
abbrev main_v2010 : Ref sig .tc := ⟨.hbm, 2684, rfl⟩
abbrev main_c_426 : Ref sig .tc := ⟨.hbm, 2685, rfl⟩
abbrev main_v2011 : Ref sig .tc := ⟨.hbm, 2686, rfl⟩
abbrev main_v2012 : Ref sig .tc := ⟨.hbm, 2687, rfl⟩
abbrev main_v2013 : Ref sig .tc := ⟨.hbm, 2688, rfl⟩
abbrev main_v2014 : Ref sig .tc := ⟨.hbm, 2689, rfl⟩
abbrev main_v2015 : Ref sig .tc := ⟨.hbm, 2690, rfl⟩
abbrev main_c_427 : Ref sig .tc := ⟨.hbm, 2691, rfl⟩
abbrev main_v2016 : Ref sig .tc := ⟨.hbm, 2692, rfl⟩
abbrev main_v2017 : Ref sig .tc := ⟨.hbm, 2693, rfl⟩
abbrev main_v2018 : Ref sig .tc := ⟨.hbm, 2694, rfl⟩
abbrev main_v2019 : Ref sig .tc := ⟨.hbm, 2695, rfl⟩
abbrev main_v2020 : Ref sig .tc := ⟨.hbm, 2696, rfl⟩
abbrev main_v2021 : Ref sig .tc := ⟨.hbm, 2697, rfl⟩
abbrev main_v2022 : Ref sig .tc := ⟨.hbm, 2698, rfl⟩
abbrev main_v2023 : Ref sig .tc := ⟨.hbm, 2699, rfl⟩
abbrev main_v2024 : Ref sig .tc := ⟨.hbm, 2700, rfl⟩
abbrev main_v2025 : Ref sig .tc := ⟨.hbm, 2701, rfl⟩
abbrev main_v2026 : Ref sig .tc := ⟨.hbm, 2702, rfl⟩
abbrev main_v2027 : Ref sig .tc := ⟨.hbm, 2703, rfl⟩
abbrev main_c_428 : Ref sig .tc := ⟨.hbm, 2704, rfl⟩
abbrev main_v2028 : Ref sig .tc := ⟨.hbm, 2705, rfl⟩
abbrev main_v2029 : Ref sig .tc := ⟨.hbm, 2706, rfl⟩
abbrev main_c_429 : Ref sig .tc := ⟨.hbm, 2707, rfl⟩
abbrev main_v2030 : Ref sig .tc := ⟨.hbm, 2708, rfl⟩
abbrev main_v2031 : Ref sig .tc := ⟨.hbm, 2709, rfl⟩
abbrev main_v2032 : Ref sig .tc := ⟨.hbm, 2710, rfl⟩
abbrev main_v2033 : Ref sig .tc := ⟨.hbm, 2711, rfl⟩
abbrev main_v2034 : Ref sig .tc := ⟨.hbm, 2712, rfl⟩
abbrev main_cst_430 : Ref sig .tc := ⟨.hbm, 2713, rfl⟩
abbrev main_call79_v0 : Ref sig .tc := ⟨.hbm, 2714, rfl⟩
abbrev main_call79_v1 : Ref sig .tc := ⟨.hbm, 2715, rfl⟩
abbrev main_call79_v2 : Ref sig .tc := ⟨.hbm, 2716, rfl⟩
abbrev main_v2035 : Ref sig .tc := ⟨.hbm, 2717, rfl⟩
abbrev main_c_431 : Ref sig .tc := ⟨.hbm, 2718, rfl⟩
abbrev main_v2036 : Ref sig .tc := ⟨.hbm, 2719, rfl⟩
abbrev main_v2037 : Ref sig .tc := ⟨.hbm, 2720, rfl⟩
abbrev main_c_432 : Ref sig .tc := ⟨.hbm, 2721, rfl⟩
abbrev main_v2038 : Ref sig .tc := ⟨.hbm, 2722, rfl⟩
abbrev main_v2039 : Ref sig .tc := ⟨.hbm, 2723, rfl⟩
abbrev main_v2040 : Ref sig .tc := ⟨.hbm, 2724, rfl⟩
abbrev main_v2041 : Ref sig .tc := ⟨.hbm, 2725, rfl⟩
abbrev main_v2042 : Ref sig .tc := ⟨.hbm, 2726, rfl⟩
abbrev main_v2043 : Ref sig .tc := ⟨.hbm, 2727, rfl⟩
abbrev main_v2044 : Ref sig .tc := ⟨.hbm, 2728, rfl⟩
abbrev main_v2045 : Ref sig .tc := ⟨.hbm, 2729, rfl⟩
abbrev main_v2046 : Ref sig .tc := ⟨.hbm, 2730, rfl⟩
abbrev main_v2047 : Ref sig .tc := ⟨.hbm, 2731, rfl⟩
abbrev main_v2048 : Ref sig .tc := ⟨.hbm, 2732, rfl⟩
abbrev main_v2049 : Ref sig .tc := ⟨.hbm, 2733, rfl⟩
abbrev main_v2050 : Ref sig .tc := ⟨.hbm, 2734, rfl⟩
abbrev main_v2051 : Ref sig .tc := ⟨.hbm, 2735, rfl⟩
abbrev main_c_433 : Ref sig .tc := ⟨.hbm, 2736, rfl⟩
abbrev main_v2052 : Ref sig .tc := ⟨.hbm, 2737, rfl⟩
abbrev main_v2053 : Ref sig .tc := ⟨.hbm, 2738, rfl⟩
abbrev main_c_434 : Ref sig .tc := ⟨.hbm, 2739, rfl⟩
abbrev main_v2054 : Ref sig .tc := ⟨.hbm, 2740, rfl⟩
abbrev main_v2055 : Ref sig .tc := ⟨.hbm, 2741, rfl⟩
abbrev main_v2056 : Ref sig .tc := ⟨.hbm, 2742, rfl⟩
abbrev main_v2057 : Ref sig .tc := ⟨.hbm, 2743, rfl⟩
abbrev main_v2058 : Ref sig .tc := ⟨.hbm, 2744, rfl⟩
abbrev main_cst_435 : Ref sig .tc := ⟨.hbm, 2745, rfl⟩
abbrev main_call80_v0 : Ref sig .tc := ⟨.hbm, 2746, rfl⟩
abbrev main_call80_v1 : Ref sig .tc := ⟨.hbm, 2747, rfl⟩
abbrev main_call80_v2 : Ref sig .tc := ⟨.hbm, 2748, rfl⟩
abbrev main_v2059 : Ref sig .tc := ⟨.hbm, 2749, rfl⟩
abbrev main_c_436 : Ref sig .tc := ⟨.hbm, 2750, rfl⟩
abbrev main_v2060 : Ref sig .tc := ⟨.hbm, 2751, rfl⟩
abbrev main_v2061 : Ref sig .tc := ⟨.hbm, 2752, rfl⟩
abbrev main_c_437 : Ref sig .tc := ⟨.hbm, 2753, rfl⟩
abbrev main_v2062 : Ref sig .tc := ⟨.hbm, 2754, rfl⟩
abbrev main_v2063 : Ref sig .tc := ⟨.hbm, 2755, rfl⟩
abbrev main_v2064 : Ref sig .tc := ⟨.hbm, 2756, rfl⟩
abbrev main_v2065 : Ref sig .tc := ⟨.hbm, 2757, rfl⟩
abbrev main_v2066 : Ref sig .tc := ⟨.hbm, 2758, rfl⟩
abbrev main_call81_cst : Ref sig .tc := ⟨.hbm, 2759, rfl⟩
abbrev main_call81_v0 : Ref sig .tc := ⟨.hbm, 2760, rfl⟩
abbrev main_v2067 : Ref sig .tc := ⟨.hbm, 2761, rfl⟩
abbrev main_v2068 : Ref sig .tc := ⟨.hbm, 2762, rfl⟩
abbrev main_v2069 : Ref sig .tc := ⟨.hbm, 2763, rfl⟩
abbrev main_v2070 : Ref sig .tc := ⟨.hbm, 2764, rfl⟩
abbrev main_v2071 : Ref sig .tc := ⟨.hbm, 2765, rfl⟩
abbrev main_v2072 : Ref sig .tc := ⟨.hbm, 2766, rfl⟩

abbrev nD : Nat := 1
abbrev τ : Topo := Topo.v7x

variable {F : FTy → Type} [FloatOps F]

class Facts₀ : Prop where
  slices_S2x512x512_S1x512x512_0_0_0 : S2x512x512.Slices ![0, 0, 0] S1x512x512
  shapeCasts_S1x512x512_S512x512 : S1x512x512.ShapeCasts S512x512
  slices_S2x512_S1x512_0_0 : S2x512.Slices ![0, 0] S1x512
  shapeCasts_S1x512_S512 : S1x512.ShapeCasts S512
  slices_S2x40x512x512_S1x40x512x512_0_0_0_0 : S2x40x512x512.Slices ![0, 0, 0, 0] S1x40x512x512
  shapeCasts_S1x40x512x512_S40x512x512 : S1x40x512x512.ShapeCasts S40x512x512
  slices_S2x40x512_S1x40x512_0_0_0 : S2x40x512.Slices ![0, 0, 0] S1x40x512
  shapeCasts_S1x40x512_S40x512 : S1x40x512.ShapeCasts S40x512
  transposes_S512x512_S512x512_1_0 : S512x512.Transposes [1, 0] S512x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192 : S_.BroadcastsInDim S8192 (![] : Fin 0 → Fin S8192.rank)
  bcast_S8192_S8192x1_0 : S8192.BroadcastsInDim S8192x1 (![0] : Fin 1 → Fin S8192x1.rank)
  slices_S40x512x512_S1x512x512_0_0_0 : S40x512x512.Slices ![0, 0, 0] S1x512x512
  slices_S40x512_S1x512_0_0 : S40x512.Slices ![0, 0] S1x512
  bcast_S8192x1_S8192x512_0_1 : S8192x1.BroadcastsInDim S8192x512 (![0, 1] : Fin 2 → Fin S8192x512.rank)
  bcast_S_S8192x512 : S_.BroadcastsInDim S8192x512 (![] : Fin 0 → Fin S8192x512.rank)
  slices_S40x512x512_S1x512x512_20_0_0 : S40x512x512.Slices ![20, 0, 0] S1x512x512
  slices_S40x512_S1x512_20_0 : S40x512.Slices ![20, 0] S1x512
  slices_S40x512x512_S1x512x512_1_0_0 : S40x512x512.Slices ![1, 0, 0] S1x512x512
  slices_S40x512_S1x512_1_0 : S40x512.Slices ![1, 0] S1x512
  slices_S40x512x512_S1x512x512_21_0_0 : S40x512x512.Slices ![21, 0, 0] S1x512x512
  slices_S40x512_S1x512_21_0 : S40x512.Slices ![21, 0] S1x512
  slices_S40x512x512_S1x512x512_2_0_0 : S40x512x512.Slices ![2, 0, 0] S1x512x512
  slices_S40x512_S1x512_2_0 : S40x512.Slices ![2, 0] S1x512
  slices_S40x512x512_S1x512x512_22_0_0 : S40x512x512.Slices ![22, 0, 0] S1x512x512
  slices_S40x512_S1x512_22_0 : S40x512.Slices ![22, 0] S1x512
  slices_S40x512x512_S1x512x512_3_0_0 : S40x512x512.Slices ![3, 0, 0] S1x512x512
  slices_S40x512_S1x512_3_0 : S40x512.Slices ![3, 0] S1x512
  slices_S40x512x512_S1x512x512_23_0_0 : S40x512x512.Slices ![23, 0, 0] S1x512x512
  slices_S40x512_S1x512_23_0 : S40x512.Slices ![23, 0] S1x512
  slices_S40x512x512_S1x512x512_4_0_0 : S40x512x512.Slices ![4, 0, 0] S1x512x512
  slices_S40x512_S1x512_4_0 : S40x512.Slices ![4, 0] S1x512
  slices_S40x512x512_S1x512x512_24_0_0 : S40x512x512.Slices ![24, 0, 0] S1x512x512
  slices_S40x512_S1x512_24_0 : S40x512.Slices ![24, 0] S1x512
  slices_S40x512x512_S1x512x512_5_0_0 : S40x512x512.Slices ![5, 0, 0] S1x512x512
  slices_S40x512_S1x512_5_0 : S40x512.Slices ![5, 0] S1x512
  slices_S40x512x512_S1x512x512_25_0_0 : S40x512x512.Slices ![25, 0, 0] S1x512x512
  slices_S40x512_S1x512_25_0 : S40x512.Slices ![25, 0] S1x512
  slices_S40x512x512_S1x512x512_6_0_0 : S40x512x512.Slices ![6, 0, 0] S1x512x512
  slices_S40x512_S1x512_6_0 : S40x512.Slices ![6, 0] S1x512
  slices_S40x512x512_S1x512x512_26_0_0 : S40x512x512.Slices ![26, 0, 0] S1x512x512
  slices_S40x512_S1x512_26_0 : S40x512.Slices ![26, 0] S1x512
  slices_S40x512x512_S1x512x512_7_0_0 : S40x512x512.Slices ![7, 0, 0] S1x512x512
  slices_S40x512_S1x512_7_0 : S40x512.Slices ![7, 0] S1x512
  slices_S40x512x512_S1x512x512_27_0_0 : S40x512x512.Slices ![27, 0, 0] S1x512x512
  slices_S40x512_S1x512_27_0 : S40x512.Slices ![27, 0] S1x512
  slices_S40x512x512_S1x512x512_8_0_0 : S40x512x512.Slices ![8, 0, 0] S1x512x512
  slices_S40x512_S1x512_8_0 : S40x512.Slices ![8, 0] S1x512
  slices_S40x512x512_S1x512x512_28_0_0 : S40x512x512.Slices ![28, 0, 0] S1x512x512
  slices_S40x512_S1x512_28_0 : S40x512.Slices ![28, 0] S1x512
  slices_S40x512x512_S1x512x512_9_0_0 : S40x512x512.Slices ![9, 0, 0] S1x512x512
  slices_S40x512_S1x512_9_0 : S40x512.Slices ![9, 0] S1x512
  slices_S40x512x512_S1x512x512_29_0_0 : S40x512x512.Slices ![29, 0, 0] S1x512x512
  slices_S40x512_S1x512_29_0 : S40x512.Slices ![29, 0] S1x512
  slices_S40x512x512_S1x512x512_10_0_0 : S40x512x512.Slices ![10, 0, 0] S1x512x512
  slices_S40x512_S1x512_10_0 : S40x512.Slices ![10, 0] S1x512
  slices_S40x512x512_S1x512x512_30_0_0 : S40x512x512.Slices ![30, 0, 0] S1x512x512
  slices_S40x512_S1x512_30_0 : S40x512.Slices ![30, 0] S1x512
  slices_S40x512x512_S1x512x512_11_0_0 : S40x512x512.Slices ![11, 0, 0] S1x512x512
  slices_S40x512_S1x512_11_0 : S40x512.Slices ![11, 0] S1x512
  slices_S40x512x512_S1x512x512_31_0_0 : S40x512x512.Slices ![31, 0, 0] S1x512x512
  slices_S40x512_S1x512_31_0 : S40x512.Slices ![31, 0] S1x512
  slices_S40x512x512_S1x512x512_12_0_0 : S40x512x512.Slices ![12, 0, 0] S1x512x512
  slices_S40x512_S1x512_12_0 : S40x512.Slices ![12, 0] S1x512
  slices_S40x512x512_S1x512x512_32_0_0 : S40x512x512.Slices ![32, 0, 0] S1x512x512
  slices_S40x512_S1x512_32_0 : S40x512.Slices ![32, 0] S1x512
  slices_S40x512x512_S1x512x512_13_0_0 : S40x512x512.Slices ![13, 0, 0] S1x512x512
  slices_S40x512_S1x512_13_0 : S40x512.Slices ![13, 0] S1x512
  slices_S40x512x512_S1x512x512_33_0_0 : S40x512x512.Slices ![33, 0, 0] S1x512x512
  slices_S40x512_S1x512_33_0 : S40x512.Slices ![33, 0] S1x512
  slices_S40x512x512_S1x512x512_14_0_0 : S40x512x512.Slices ![14, 0, 0] S1x512x512
  slices_S40x512_S1x512_14_0 : S40x512.Slices ![14, 0] S1x512
  slices_S40x512x512_S1x512x512_34_0_0 : S40x512x512.Slices ![34, 0, 0] S1x512x512
  slices_S40x512_S1x512_34_0 : S40x512.Slices ![34, 0] S1x512
  slices_S40x512x512_S1x512x512_15_0_0 : S40x512x512.Slices ![15, 0, 0] S1x512x512
  slices_S40x512_S1x512_15_0 : S40x512.Slices ![15, 0] S1x512
  slices_S40x512x512_S1x512x512_35_0_0 : S40x512x512.Slices ![35, 0, 0] S1x512x512
  slices_S40x512_S1x512_35_0 : S40x512.Slices ![35, 0] S1x512
  slices_S40x512x512_S1x512x512_16_0_0 : S40x512x512.Slices ![16, 0, 0] S1x512x512
  slices_S40x512_S1x512_16_0 : S40x512.Slices ![16, 0] S1x512
  slices_S40x512x512_S1x512x512_36_0_0 : S40x512x512.Slices ![36, 0, 0] S1x512x512
  slices_S40x512_S1x512_36_0 : S40x512.Slices ![36, 0] S1x512
  slices_S40x512x512_S1x512x512_17_0_0 : S40x512x512.Slices ![17, 0, 0] S1x512x512
  slices_S40x512_S1x512_17_0 : S40x512.Slices ![17, 0] S1x512
  slices_S40x512x512_S1x512x512_37_0_0 : S40x512x512.Slices ![37, 0, 0] S1x512x512
  slices_S40x512_S1x512_37_0 : S40x512.Slices ![37, 0] S1x512
  slices_S40x512x512_S1x512x512_18_0_0 : S40x512x512.Slices ![18, 0, 0] S1x512x512
  slices_S40x512_S1x512_18_0 : S40x512.Slices ![18, 0] S1x512
  slices_S40x512x512_S1x512x512_38_0_0 : S40x512x512.Slices ![38, 0, 0] S1x512x512
  slices_S40x512_S1x512_38_0 : S40x512.Slices ![38, 0] S1x512
  slices_S40x512x512_S1x512x512_19_0_0 : S40x512x512.Slices ![19, 0, 0] S1x512x512
  slices_S40x512_S1x512_19_0 : S40x512.Slices ![19, 0] S1x512
  slices_S40x512x512_S1x512x512_39_0_0 : S40x512x512.Slices ![39, 0, 0] S1x512x512
  slices_S40x512_S1x512_39_0 : S40x512.Slices ![39, 0] S1x512
  slices_S2x512x512_S1x512x512_1_0_0 : S2x512x512.Slices ![1, 0, 0] S1x512x512
  slices_S2x512_S1x512_1_0 : S2x512.Slices ![1, 0] S1x512
  slices_S2x40x512x512_S1x40x512x512_1_0_0_0 : S2x40x512x512.Slices ![1, 0, 0, 0] S1x40x512x512
  slices_S2x40x512_S1x40x512_1_0_0 : S2x40x512.Slices ![1, 0, 0] S1x40x512
  transposes_S256x512_S512x256_1_0 : S256x512.Transposes [1, 0] S512x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S8192x512_S512x512_S8192x512_1_0_0_1_n_n_wf : DotDims.WF S8192x512 S512x512 S8192x512 [1] [0] [0] [1] [] []
  gather_S8192x512_S8192x1_S8192x512_1_0_n_n_0_1_1512_wf : GatherDims.WF S8192x512 S8192x1 S8192x512 [1] [0] [] [0] [] 1 ![1, 512]
  scatter_S8192x512_S8192x1_S8192x512_1_0_0_1_wf : ScatterDims.WF S8192x512 S8192x1 S8192x512 [1] [0] [0] 1
  dot_S8192x512_S512x256_S8192x256_1_0_0_1_n_n_wf : DotDims.WF S8192x512 S512x256 S8192x256 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf
def gather_S8192x512_S8192x1_S8192x512_1_0_n_n_0_1_1512 : GatherDims S8192x512 S8192x1 S8192x512 where
  offsetDims := [1]
  collapsedSliceDims := [0]
  operandBatchingDims := []
  startIndicesBatchingDims := []
  startIndexMap := [0]
  indexVectorDim := 1
  sliceSizes := ![1, 512]
  wf := gather_S8192x512_S8192x1_S8192x512_1_0_n_n_0_1_1512_wf
def scatter_S8192x512_S8192x1_S8192x512_1_0_0_1 : ScatterDims S8192x512 S8192x1 S8192x512 where
  updateWindowDims := [1]
  insertedWindowDims := [0]
  scatterDimsToOperandDims := [0]
  indexVectorDim := 1
  wf := scatter_S8192x512_S8192x1_S8192x512_1_0_0_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf

class Facts : Prop extends Facts₀ where

variable [Facts]
-- ==== Proof.Spec.lean ====
/-
  The batched linear map the three kernel calls compute, as one function of whole arrays, at the ideal values
  (extended reals, exact operations).

  For a row matrix `x : [N, K]`, a stack of `M` weight matrices `w : [M, K, J]` and a stack of bias rows
  `b : [M, 1, J]`, the entry `(m, n, j)` of the result is the sum over `k` of `x (n, k) * w (m, k, j)`, plus
  `b (m, 0, j)`: matrix `m` of the stack applied to every row of `x`, with its own bias row.
-/
import Idealize.ShloMosaic.Lib.ValueIdx
import Idealize.ShloMosaic.PureOps.Ideal

noncomputable section

namespace Cert.Spec

open Idealize.ShloMosaic Idealize.ShloMosaic.ValueIdx

/-- `tiled x w b (m, n, j) = (∑ k, x (n, k) * w (m, k, j)) + b (m, 0, j)`. -/
def tiled {M N K J : ℕ} {φx φw : FTy} (x : FVec Ideal ⟨2, ![N, K]⟩ φx) (w : FVec Ideal ⟨3, ![M, K, J]⟩ φw)
    (b : FVec Ideal ⟨3, ![M, 1, J]⟩ .f32) : FVec Ideal ⟨3, ![M, N, J]⟩ .f32 :=
  fun i => (∑ k : Fin K, x (ix2 (i 1) k) * w (ix3 (i 0) k (i 2))) + b (ix3 (i 0) (0 : Fin 1) (i 2))

theorem tiled_apply {M N K J : ℕ} {φx φw : FTy} (x : FVec Ideal ⟨2, ![N, K]⟩ φx) (w : FVec Ideal ⟨3, ![M, K, J]⟩ φw)
    (b : FVec Ideal ⟨3, ![M, 1, J]⟩ .f32) (m : Fin M) (n : Fin N) (j : Fin J) :
    tiled x w b (ix3 m n j) = (∑ k : Fin K, x (ix2 n k) * w (ix3 m k j)) + b (ix3 m (0 : Fin 1) j) := rfl

end Cert.Spec

end
-- ==== Proof.Net.lean ====
/-
  The network both programs compute, written once as a function of the argument arrays, at the ideal values
  (extended reals, exact operations), in the two arrangements the programs use.

  One layer of the graph network starts from a base array (the self transform of every node) and adds, for each of
  the twenty relation labels `r` in turn, two masked messages: the rows of `hf r` gathered at the governors and
  added at the dependents, and the rows of `hb r` gathered at the dependents and added at the governors, each kept
  only on the edges that carry label `r`; the layer's result is the positive part of the sum.  Out-of-range and
  negative node numbers are treated exactly as the host operations treat them (a negative number is shifted by the
  number of nodes first), the same way in both arrangements, so nothing is assumed about them.

  The REFERENCE arrangement computes every `hf r`, `hb r` and the base as its own product `x · Wᵀ + b` (`lin`);
  the KERNEL arrangement computes all forty-one products of a layer at once as one stacked product (`Cert.Spec.tiled`
  over the stacked, transposed weights) and reads `hf r`, `hb r` and the base off it as slices.
-/
import proofs.«143303_j18098992185957_1_alg».proof.Proof.Spec
import Idealize.ShloMosaic.PureOps.Ideal
import Idealize.ShloMosaic.Lib.ValueIdx

noncomputable section

namespace Cert.Net

open Idealize.ShloMosaic

abbrev X : Shape := ⟨2, ![8192, 512]⟩
abbrev Y : Shape := ⟨2, ![8192, 256]⟩
abbrev V1 : Shape := ⟨1, ![8192]⟩
abbrev C1 : Shape := ⟨2, ![8192, 1]⟩
abbrev S0 : Shape := ⟨0, ![]⟩
abbrev A := FVec Ideal X .f32
abbrev Ix := IVec V1 32

/-! ## The slices' side conditions, for a symbolic position -/

theorem sl_a4 (l : ℕ) (h : l < 2) : (⟨3, ![2, 512, 512]⟩ : Shape).Slices ![l, 0, 0] ⟨3, ![1, 512, 512]⟩ :=
  ⟨rfl, fun a => by
    match a with
    | ⟨0, _⟩ => show l + 1 ≤ 2; omega
    | ⟨1, _⟩ => show 0 + 512 ≤ 512; omega
    | ⟨2, _⟩ => show 0 + 512 ≤ 512; omega⟩
theorem sl_a5 (l : ℕ) (h : l < 2) : (⟨2, ![2, 512]⟩ : Shape).Slices ![l, 0] ⟨2, ![1, 512]⟩ :=
  ⟨rfl, fun a => by
    match a with
    | ⟨0, _⟩ => show l + 1 ≤ 2; omega
    | ⟨1, _⟩ => show 0 + 512 ≤ 512; omega⟩
theorem sl_a6 (l : ℕ) (h : l < 2) : (⟨4, ![2, 40, 512, 512]⟩ : Shape).Slices ![l, 0, 0, 0] ⟨4, ![1, 40, 512, 512]⟩ :=
  ⟨rfl, fun a => by
    match a with
    | ⟨0, _⟩ => show l + 1 ≤ 2; omega
    | ⟨1, _⟩ => show 0 + 40 ≤ 40; omega
    | ⟨2, _⟩ => show 0 + 512 ≤ 512; omega
    | ⟨3, _⟩ => show 0 + 512 ≤ 512; omega⟩
theorem sl_a7 (l : ℕ) (h : l < 2) : (⟨3, ![2, 40, 512]⟩ : Shape).Slices ![l, 0, 0] ⟨3, ![1, 40, 512]⟩ :=
  ⟨rfl, fun a => by
    match a with
    | ⟨0, _⟩ => show l + 1 ≤ 2; omega
    | ⟨1, _⟩ => show 0 + 40 ≤ 40; omega
    | ⟨2, _⟩ => show 0 + 512 ≤ 512; omega⟩
theorem sl_w (n : ℕ) (h : n < 40) : (⟨3, ![40, 512, 512]⟩ : Shape).Slices ![n, 0, 0] ⟨3, ![1, 512, 512]⟩ :=
  ⟨rfl, fun a => by
    match a with
    | ⟨0, _⟩ => show n + 1 ≤ 40; omega
    | ⟨1, _⟩ => show 0 + 512 ≤ 512; omega
    | ⟨2, _⟩ => show 0 + 512 ≤ 512; omega⟩
theorem sl_b (n : ℕ) (h : n < 40) : (⟨2, ![40, 512]⟩ : Shape).Slices ![n, 0] ⟨2, ![1, 512]⟩ :=
  ⟨rfl, fun a => by
    match a with
    | ⟨0, _⟩ => show n + 1 ≤ 40; omega
    | ⟨1, _⟩ => show 0 + 512 ≤ 512; omega⟩
theorem sl_y (m : ℕ) (h : m < 41) : (⟨3, ![41, 8192, 512]⟩ : Shape).Slices ![m, 0, 0] ⟨3, ![1, 8192, 512]⟩ :=
  ⟨rfl, fun a => by
    match a with
    | ⟨0, _⟩ => show m + 1 ≤ 41; omega
    | ⟨1, _⟩ => show 0 + 8192 ≤ 8192; omega
    | ⟨2, _⟩ => show 0 + 512 ≤ 512; omega⟩

/-! ## One layer, over any forty message arrays and a base -/

section Layer
variable (g : GatherDims X C1 X) (sc : ScatterDims X C1 X)

/-- The edges that carry label `r`, as a column. -/
def mask (rel : Ix) (r : BitVec 32) : IVec C1 1 :=
  broadcastInDim C1 ![0] (by decide) (cmpi .eq rel (broadcastInDim V1 ![] (by decide) (constantI S0 32 r)))
/-- A list of node numbers as the host reads it: a negative number shifted by the number of nodes, as a column. -/
def norm (idx : Ix) : IVec C1 32 :=
  broadcastInDim C1 ![0] (by decide) (select (cmpi .slt idx (broadcastInDim V1 ![] (by decide) (constantI S0 32 0#32)))
    (addi idx (broadcastInDim V1 ![] (by decide) (constantI S0 32 8192#32))) idx)
/-- The rows of `a` on the masked edges, zero elsewhere. -/
def whereZ (mk : IVec C1 1) (a : A) : A :=
  select (broadcastInDim X ![0, 1] (by decide) mk) a (broadcastInDim X ![] (by decide) (constant (F := Ideal) S0 .f32 0x00000000#32))
/-- Label `r`'s two messages added to `out`. -/
def step (dep rel gov : Ix) (r : BitVec 32) (hf hb out : A) : A :=
  Host.scatterAdd sc (Host.scatterAdd sc out (norm dep) (whereZ (mask rel r) (Host.gather g hf (norm gov)))) (norm gov)
    (whereZ (mask rel r) (Host.gather g hb (norm dep)))
/-- The positive part. -/
def relu (a : A) : A := maximumf a (broadcastInDim X ![] (by decide) (constant (F := Ideal) S0 .f32 0x00000000#32))
/-- The labels `0 … n - 1` added to the base, in order. -/
def chain (dep rel gov : Ix) (hf hb : (n : ℕ) → n < 20 → A) (base : A) : (n : ℕ) → n ≤ 20 → A
  | 0, _ => base
  | n + 1, h => step g sc dep rel gov (BitVec.ofNat 32 n) (hf n (by omega)) (hb n (by omega)) (chain dep rel gov hf hb base n (by omega))
/-- One layer. -/
def layer (dep rel gov : Ix) (hf hb : (n : ℕ) → n < 20 → A) (base : A) : A :=
  relu (chain g sc dep rel gov hf hb base 20 (le_refl _))

theorem chain_congr (dep rel gov : Ix) {hf hf' hb hb' : (n : ℕ) → n < 20 → A} {base base' : A} (h0 : base = base')
    (h1 : ∀ n h, hf n h = hf' n h) (h2 : ∀ n h, hb n h = hb' n h) :
    ∀ (n : ℕ) (h : n ≤ 20), chain g sc dep rel gov hf hb base n h = chain g sc dep rel gov hf' hb' base' n h
  | 0, _ => h0
  | n + 1, h => by
    show step g sc dep rel gov _ (hf n _) (hb n _) (chain g sc dep rel gov hf hb base n _) = step g sc dep rel gov _ (hf' n _) (hb' n _) (chain g sc dep rel gov hf' hb' base' n _)
    rw [h1, h2, chain_congr dep rel gov h0 h1 h2 n]

/-- A layer depends on its message arrays and its base only through their values. -/
theorem layer_congr (dep rel gov : Ix) {hf hf' hb hb' : (n : ℕ) → n < 20 → A} {base base' : A} (h0 : base = base')
    (h1 : ∀ n h, hf n h = hf' n h) (h2 : ∀ n h, hb n h = hb' n h) :
    layer g sc dep rel gov hf hb base = layer g sc dep rel gov hf' hb' base' :=
  congrArg relu (chain_congr g sc dep rel gov h0 h1 h2 20 (le_refl _))
end Layer

/-! ## A layer's parameters, read off the argument arrays -/

def Wself (a4 : FVec Ideal ⟨3, ![2, 512, 512]⟩ .f32) (l : ℕ) (hl : l < 2) : FVec Ideal ⟨2, ![512, 512]⟩ .f32 :=
  shapeCast ⟨2, ![512, 512]⟩ (extractStridedSlice ⟨3, ![1, 512, 512]⟩ ![l, 0, 0] a4 (sl_a4 l hl)) (by decide)
def bself (a5 : FVec Ideal ⟨2, ![2, 512]⟩ .f32) (l : ℕ) (hl : l < 2) : FVec Ideal ⟨1, ![512]⟩ .f32 :=
  shapeCast ⟨1, ![512]⟩ (extractStridedSlice ⟨2, ![1, 512]⟩ ![l, 0] a5 (sl_a5 l hl)) (by decide)
def W40 (a6 : FVec Ideal ⟨4, ![2, 40, 512, 512]⟩ .f32) (l : ℕ) (hl : l < 2) : FVec Ideal ⟨3, ![40, 512, 512]⟩ .f32 :=
  shapeCast ⟨3, ![40, 512, 512]⟩ (extractStridedSlice ⟨4, ![1, 40, 512, 512]⟩ ![l, 0, 0, 0] a6 (sl_a6 l hl)) (by decide)
def b40 (a7 : FVec Ideal ⟨3, ![2, 40, 512]⟩ .f32) (l : ℕ) (hl : l < 2) : FVec Ideal ⟨2, ![40, 512]⟩ .f32 :=
  shapeCast ⟨2, ![40, 512]⟩ (extractStridedSlice ⟨3, ![1, 40, 512]⟩ ![l, 0, 0] a7 (sl_a7 l hl)) (by decide)
def Wsel (w : FVec Ideal ⟨3, ![40, 512, 512]⟩ .f32) (n : ℕ) (hn : n < 40) : FVec Ideal ⟨2, ![512, 512]⟩ .f32 :=
  shapeCast ⟨2, ![512, 512]⟩ (extractStridedSlice ⟨3, ![1, 512, 512]⟩ ![n, 0, 0] w (sl_w n hn)) (by decide)
def bsel (b : FVec Ideal ⟨2, ![40, 512]⟩ .f32) (n : ℕ) (hn : n < 40) : FVec Ideal ⟨1, ![512]⟩ .f32 :=
  shapeCast ⟨1, ![512]⟩ (extractStridedSlice ⟨2, ![1, 512]⟩ ![n, 0] b (sl_b n hn)) (by decide)

/-! ## The reference arrangement -/

section Ref
variable (g : GatherDims X C1 X) (sc : ScatterDims X C1 X) (d : DotDims X ⟨2, ![512, 512]⟩ X) (dF : DotDims X ⟨2, ![512, 256]⟩ Y)

/-- `x · Wᵀ + b`, the bias row added to every row. -/
def lin (x : A) (W : FVec Ideal ⟨2, ![512, 512]⟩ .f32) (b : FVec Ideal ⟨1, ![512]⟩ .f32) : A :=
  addf (Host.dotGeneral d none x (transpose ⟨2, ![512, 512]⟩ [1, 0] W (by decide)))
    (broadcastInDim X ![0, 1] (by decide) (broadcastInDim ⟨2, ![1, 512]⟩ ![1] (by decide) b))
/-- The output projection `h · W_ffᵀ + b_ff`. -/
def linF (h : A) (a8 : FVec Ideal ⟨2, ![256, 512]⟩ .f32) (a9 : FVec Ideal ⟨1, ![256]⟩ .f32) : FVec Ideal Y .f32 :=
  addf (Host.dotGeneral dF none h (transpose ⟨2, ![512, 256]⟩ [1, 0] a8 (by decide)))
    (broadcastInDim Y ![0, 1] (by decide) (broadcastInDim ⟨2, ![1, 256]⟩ ![1] (by decide) a9))

variable (dep rel gov : Ix) (a4 : FVec Ideal ⟨3, ![2, 512, 512]⟩ .f32) (a5 : FVec Ideal ⟨2, ![2, 512]⟩ .f32)
  (a6 : FVec Ideal ⟨4, ![2, 40, 512, 512]⟩ .f32) (a7 : FVec Ideal ⟨3, ![2, 40, 512]⟩ .f32)

/-- Layer `l` of the reference: forty-one separate products. -/
def refLayer (h : A) (l : ℕ) (hl : l < 2) : A :=
  layer g sc dep rel gov
    (fun n hn => lin d h (Wsel (W40 a6 l hl) n (by omega)) (bsel (b40 a7 l hl) n (by omega)))
    (fun n hn => lin d h (Wsel (W40 a6 l hl) (20 + n) (by omega)) (bsel (b40 a7 l hl) (20 + n) (by omega)))
    (lin d h (Wself a4 l hl) (bself a5 l hl))

/-- The reference's result. -/
def refNet (x : A) (a8 : FVec Ideal ⟨2, ![256, 512]⟩ .f32) (a9 : FVec Ideal ⟨1, ![256]⟩ .f32) : FVec Ideal Y .f32 :=
  linF dF (refLayer g sc d dep rel gov a4 a5 a6 a7 (refLayer g sc d dep rel gov a4 a5 a6 a7 x 0 (by omega)) 1 (by omega)) a8 a9
end Ref

/-! ## The kernel arrangement -/

section Ker
variable (g : GatherDims X C1 X) (sc : ScatterDims X C1 X)

/-- The forty-one weight matrices of a layer, transposed and stacked: matrix `0` is `W0ᵀ`, matrix `n + 1` is `w n ᵀ`. -/
def wstack (W0 : FVec Ideal ⟨2, ![512, 512]⟩ .f32) (w : FVec Ideal ⟨3, ![40, 512, 512]⟩ .f32) : FVec Ideal ⟨3, ![41, 512, 512]⟩ .bf16 :=
  truncf .bf16 (transpose ⟨3, ![41, 512, 512]⟩ [0, 2, 1]
    (concatenate ⟨3, ![41, 512, 512]⟩ 0 [⟨⟨3, ![1, 512, 512]⟩, broadcastInDim ⟨3, ![1, 512, 512]⟩ ![1, 2] (by decide) W0⟩, ⟨⟨3, ![40, 512, 512]⟩, w⟩]
      (show Shape.Concatenates [(⟨3, ![1, 512, 512]⟩ : Shape), ⟨3, ![40, 512, 512]⟩] ⟨3, ![41, 512, 512]⟩ 0 from by decide))
    (by decide)) (by decide)
/-- The forty-one bias rows of a layer, stacked. -/
def bstack (b0 : FVec Ideal ⟨1, ![512]⟩ .f32) (b : FVec Ideal ⟨2, ![40, 512]⟩ .f32) : FVec Ideal ⟨3, ![41, 1, 512]⟩ .f32 :=
  broadcastInDim ⟨3, ![41, 1, 512]⟩ ![0, 2] (by decide)
    (concatenate ⟨2, ![41, 512]⟩ 0 [⟨⟨2, ![1, 512]⟩, broadcastInDim ⟨2, ![1, 512]⟩ ![1] (by decide) b0⟩, ⟨⟨2, ![40, 512]⟩, b⟩]
      (show Shape.Concatenates [(⟨2, ![1, 512]⟩ : Shape), ⟨2, ![40, 512]⟩] ⟨2, ![41, 512]⟩ 0 from by decide))
/-- Product `m` of the stacked result. -/
def ysl (y : FVec Ideal ⟨3, ![41, 8192, 512]⟩ .f32) (m : ℕ) (hm : m < 41) : A :=
  shapeCast X (extractStridedSlice ⟨3, ![1, 8192, 512]⟩ ![m, 0, 0] y (sl_y m hm)) (by decide)

variable (dep rel gov : Ix) (a4 : FVec Ideal ⟨3, ![2, 512, 512]⟩ .f32) (a5 : FVec Ideal ⟨2, ![2, 512]⟩ .f32)
  (a6 : FVec Ideal ⟨4, ![2, 40, 512, 512]⟩ .f32) (a7 : FVec Ideal ⟨3, ![2, 40, 512]⟩ .f32)

/-- The stacked product of layer `l`. -/
def kerY (h : A) (l : ℕ) (hl : l < 2) : FVec Ideal ⟨3, ![41, 8192, 512]⟩ .f32 :=
  Cert.Spec.tiled (truncf .bf16 h (by decide)) (wstack (Wself a4 l hl) (W40 a6 l hl)) (bstack (bself a5 l hl) (b40 a7 l hl))

/-- The layer over a stacked product. -/
def kerLayerOf (y : FVec Ideal ⟨3, ![41, 8192, 512]⟩ .f32) : A :=
  layer g sc dep rel gov (fun n hn => ysl y (n + 1) (by omega)) (fun n hn => ysl y (n + 21) (by omega)) (ysl y 0 (by omega))

/-- Layer `l` of the kernel's program. -/
def kerLayer (h : A) (l : ℕ) (hl : l < 2) : A := kerLayerOf g sc dep rel gov (kerY a4 a5 a6 a7 h l hl)

/-- The stacked (one-matrix) product of the output projection. -/
def kerYF (h : A) (a8 : FVec Ideal ⟨2, ![256, 512]⟩ .f32) (a9 : FVec Ideal ⟨1, ![256]⟩ .f32) : FVec Ideal ⟨3, ![1, 8192, 256]⟩ .f32 :=
  Cert.Spec.tiled (truncf .bf16 h (by decide))
    (truncf .bf16 (broadcastInDim ⟨3, ![1, 512, 256]⟩ ![1, 2] (by decide) (transpose ⟨2, ![512, 256]⟩ [1, 0] a8 (by decide))) (by decide))
    (broadcastInDim ⟨3, ![1, 1, 256]⟩ ![2] (by decide) a9)

/-- The kernel program's result. -/
def kerNet (x : A) (a8 : FVec Ideal ⟨2, ![256, 512]⟩ .f32) (a9 : FVec Ideal ⟨1, ![256]⟩ .f32) : FVec Ideal Y .f32 :=
  shapeCast Y (kerYF (kerLayer g sc dep rel gov a4 a5 a6 a7 (kerLayer g sc dep rel gov a4 a5 a6 a7 x 0 (by omega)) 1 (by omega)) a8 a9) (by decide)
end Ker

end Cert.Net

end
-- ==== Proof.NetOps.lean ====
/-
  Three operand arrays of the stacked products, named: the rows in the narrower format (the same extended reals), and
  the output projection's one-matrix weight stack and bias stack.  They only give the arrays' types to statements about
  buffer contents.
-/
import proofs.«143303_j18098992185957_1_alg».proof.Proof.Net

noncomputable section

namespace Cert.Net

open Idealize.ShloMosaic

/-- The rows of `h` in the narrower format. -/
abbrev xbf (h : A) : FVec Ideal X .bf16 := truncf .bf16 h (by decide)
/-- The output projection's weight matrix, transposed, as a stack of one matrix, in the narrower format. -/
abbrev wF (a8 : FVec Ideal ⟨2, ![256, 512]⟩ .f32) : FVec Ideal ⟨3, ![1, 512, 256]⟩ .bf16 :=
  truncf .bf16 (broadcastInDim ⟨3, ![1, 512, 256]⟩ ![1, 2] (by decide) (transpose ⟨2, ![512, 256]⟩ [1, 0] a8 (by decide))) (by decide)
/-- The output projection's bias row as a stack of one row. -/
abbrev bF (a9 : FVec Ideal ⟨1, ![256]⟩ .f32) : FVec Ideal ⟨3, ![1, 1, 256]⟩ .f32 :=
  broadcastInDim ⟨3, ![1, 1, 256]⟩ ![2] (by decide) a9

end Cert.Net

end
-- ==== Proof.KWalk0.lean ====
/-
  The host operations before the first stacked product: from any buffer contents, the three operand arrays of the
  product are the rows `x` (in the narrower format, the same extended reals), the stacked transposed weights and the
  stacked bias rows of layer 0, and the argument arrays are untouched.
-/
import proofs.«143303_j18098992185957_1_alg».proof.Proof.Gen.KernelIdeal.Launch
import proofs.«143303_j18098992185957_1_alg».proof.Proof.NetOps
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo

variable (Vv : Valuation τ sig (Elt Ideal))

theorem pre0_x : after (hostOps0 (F := Ideal)) Vv (Proc.devRef .tc main_v14)
    = Cert.Net.xbf (Vv (Proc.devRef .tc main_arg0)) := by
  after_results_simp <;> rfl

theorem pre0_w : after (hostOps0 (F := Ideal)) Vv (Proc.devRef .tc main_v15)
    = Cert.Net.wstack (Cert.Net.Wself (Vv (Proc.devRef .tc main_arg4)) 0 (by omega)) (Cert.Net.W40 (Vv (Proc.devRef .tc main_arg6)) 0 (by omega)) := by
  after_results_simp <;> rfl

theorem pre0_b : after (hostOps0 (F := Ideal)) Vv (Proc.devRef .tc main_v13)
    = Cert.Net.bstack (Cert.Net.bself (Vv (Proc.devRef .tc main_arg5)) 0 (by omega)) (Cert.Net.b40 (Vv (Proc.devRef .tc main_arg7)) 0 (by omega)) := by
  after_results_simp <;> rfl

end Cert.KernelIdeal.Walk

end
-- ==== Proof.KWalk1.lean ====
/-
  The host operations between the first and the second stacked product, from any buffer contents `Vv` that hold the
  first product in its result array: they read the forty-one slices of the product, add the forty masked messages to
  slice 0 in the order of the labels, take the positive part, and prepare the second product's operands — the layer's
  result (in the narrower format, the same extended reals) and layer 1's stacked weights and bias rows.

  The stretch is read label by label.  Entering label `r` the buffers hold the sum so far, the label's mask column,
  the first message's gathered rows and a zero scalar; the label's operations add the two masked messages and leave the
  same four things for label `r + 1`, touching neither the product nor the three index arrays.  Twenty such steps are
  the layer's sum in the order of the labels.
-/
import proofs.«143303_j18098992185957_1_alg».proof.Proof.Gen.KernelIdeal.Launch
import proofs.«143303_j18098992185957_1_alg».proof.Proof.NetOps
import Idealize.ShloMosaic.Lib.StableHlo.Run

set_option maxRecDepth 65536

noncomputable section

namespace Cert.KernelIdeal.Walk

open Cert.KernelIdeal Cert.KernelIdeal.Gen Idealize.ShloMosaic Idealize.ShloMosaic.TcCoe Idealize.SL.Sem Idealize.ShloMosaic.StableHlo

local notation "gK" => gather_S8192x512_S8192x1_S8192x512_1_0_n_n_0_1_1512
local notation "scK" => scatter_S8192x512_S8192x1_S8192x512_1_0_0_1

/-- One label's two masked messages added to `acc`, from what the buffers hold when the label is entered: the label's
    mask column `mk`, the first message's gathered rows `gath`, and the zero scalar `z`; the second message gathers the
    rows of `hb` at the dependents. -/
def stepRaw1 (mk : IVec Cert.Net.C1 1) (gath : Cert.Net.A) (z : FVec Ideal Cert.Net.S0 .f32) (dep gov : Cert.Net.Ix)
    (hb acc : Cert.Net.A) : Cert.Net.A :=
  Host.scatterAdd scK
    (Host.scatterAdd scK acc (Cert.Net.norm dep)
      (select (broadcastInDim Cert.Net.X ![0, 1] (by decide) mk) gath (broadcastInDim Cert.Net.X ![] (by decide) z)))
    (Cert.Net.norm gov) (Cert.Net.whereZ mk (Host.gather gK hb (Cert.Net.norm dep)))

/-! ## The stretches, from any buffer contents `W` -/

section Stretches
variable (W : Valuation τ sig (Elt Ideal))

/-- The first stretch leaves slice 0 of the product as the sum's start, label 0's mask column, label 0's first
    gathered rows and a zero scalar, and touches neither the product nor the index arrays. -/
theorem h1_a1 : after (hostOps1 (F := Ideal)) W (Proc.devRef .tc main_arg1) = W (Proc.devRef .tc main_arg1) := by after_results_simp
theorem h1_a2 : after (hostOps1 (F := Ideal)) W (Proc.devRef .tc main_arg2) = W (Proc.devRef .tc main_arg2) := by after_results_simp
theorem h1_a3 : after (hostOps1 (F := Ideal)) W (Proc.devRef .tc main_arg3) = W (Proc.devRef .tc main_arg3) := by after_results_simp
theorem h1_y : after (hostOps1 (F := Ideal)) W (Proc.devRef .tc main_v16) = W (Proc.devRef .tc main_v16) := by after_results_simp
theorem h1_acc : after (hostOps1 (F := Ideal)) W (Proc.devRef .tc main_v18) = Cert.Net.ysl (W (Proc.devRef .tc main_v16)) 0 (by omega) := by
  after_results_simp <;> rfl
theorem h1_mask : after (hostOps1 (F := Ideal)) W (Proc.devRef .tc main_v21) = Cert.Net.mask (W (Proc.devRef .tc main_arg2)) 0#32 := by
  after_results_simp <;> rfl
theorem h1_gath : after (hostOps1 (F := Ideal)) W (Proc.devRef .tc main_v30)
    = Host.gather gK (Cert.Net.ysl (W (Proc.devRef .tc main_v16)) 1 (by omega)) (Cert.Net.norm (W (Proc.devRef .tc main_arg3))) := by
  after_results_simp <;> rfl
theorem h1_cst : after (hostOps1 (F := Ideal)) W (Proc.devRef .tc main_cst) = constant (F := Ideal) Cert.Net.S0 .f32 0x00000000#32 := by
  after_results_simp <;> rfl

/-- Label 0's four stretches. -/
theorem c1_0_a1 : after (hostOps1_4 (F := Ideal)) (after (hostOps1_3 (F := Ideal)) (after (hostOps1_2 (F := Ideal)) (after (hostOps1_1 (F := Ideal)) (W)))) (Proc.devRef .tc main_arg1) = W (Proc.devRef .tc main_arg1) := by after_results_simp
theorem c1_0_a2 : after (hostOps1_4 (F := Ideal)) (after (hostOps1_3 (F := Ideal)) (after (hostOps1_2 (F := Ideal)) (after (hostOps1_1 (F := Ideal)) (W)))) (Proc.devRef .tc main_arg2) = W (Proc.devRef .tc main_arg2) := by after_results_simp
theorem c1_0_a3 : after (hostOps1_4 (F := Ideal)) (after (hostOps1_3 (F := Ideal)) (after (hostOps1_2 (F := Ideal)) (after (hostOps1_1 (F := Ideal)) (W)))) (Proc.devRef .tc main_arg3) = W (Proc.devRef .tc main_arg3) := by after_results_simp
theorem c1_0_y : after (hostOps1_4 (F := Ideal)) (after (hostOps1_3 (F := Ideal)) (after (hostOps1_2 (F := Ideal)) (after (hostOps1_1 (F := Ideal)) (W)))) (Proc.devRef .tc main_v16) = W (Proc.devRef .tc main_v16) := by after_results_simp
theorem c1_0_acc : after (hostOps1_4 (F := Ideal)) (after (hostOps1_3 (F := Ideal)) (after (hostOps1_2 (F := Ideal)) (after (hostOps1_1 (F := Ideal)) (W)))) (Proc.devRef .tc main_v55)
    = stepRaw1 (W (Proc.devRef .tc main_v21)) (W (Proc.devRef .tc main_v30)) (W (Proc.devRef .tc main_cst)) (W (Proc.devRef .tc main_arg1)) (W (Proc.devRef .tc main_arg3))
        (Cert.Net.ysl (W (Proc.devRef .tc main_v16)) 21 (by omega)) (W (Proc.devRef .tc main_v18)) := by
  after_results_simp <;> rfl
theorem c1_0_mask : after (hostOps1_4 (F := Ideal)) (after (hostOps1_3 (F := Ideal)) (after (hostOps1_2 (F := Ideal)) (after (hostOps1_1 (F := Ideal)) (W)))) (Proc.devRef .tc main_v58) = Cert.Net.mask (W (Proc.devRef .tc main_arg2)) 1#32 := by
  after_results_simp <;> rfl
theorem c1_0_gath : after (hostOps1_4 (F := Ideal)) (after (hostOps1_3 (F := Ideal)) (after (hostOps1_2 (F := Ideal)) (after (hostOps1_1 (F := Ideal)) (W)))) (Proc.devRef .tc main_v67)
    = Host.gather gK (Cert.Net.ysl (W (Proc.devRef .tc main_v16)) 2 (by omega)) (Cert.Net.norm (W (Proc.devRef .tc main_arg3))) := by
  after_results_simp <;> rfl
theorem c1_0_cst : after (hostOps1_4 (F := Ideal)) (after (hostOps1_3 (F := Ideal)) (after (hostOps1_2 (F := Ideal)) (after (hostOps1_1 (F := Ideal)) (W)))) (Proc.devRef .tc main_cst_12) = constant (F := Ideal) Cert.Net.S0 .f32 0x00000000#32 := by
  after_results_simp <;> rfl

/-- Label 1's four stretches. -/
theorem c1_1_a1 : after (hostOps1_8 (F := Ideal)) (after (hostOps1_7 (F := Ideal)) (after (hostOps1_6 (F := Ideal)) (after (hostOps1_5 (F := Ideal)) (W)))) (Proc.devRef .tc main_arg1) = W (Proc.devRef .tc main_arg1) := by after_results_simp
theorem c1_1_a2 : after (hostOps1_8 (F := Ideal)) (after (hostOps1_7 (F := Ideal)) (after (hostOps1_6 (F := Ideal)) (after (hostOps1_5 (F := Ideal)) (W)))) (Proc.devRef .tc main_arg2) = W (Proc.devRef .tc main_arg2) := by after_results_simp
theorem c1_1_a3 : after (hostOps1_8 (F := Ideal)) (after (hostOps1_7 (F := Ideal)) (after (hostOps1_6 (F := Ideal)) (after (hostOps1_5 (F := Ideal)) (W)))) (Proc.devRef .tc main_arg3) = W (Proc.devRef .tc main_arg3) := by after_results_simp
theorem c1_1_y : after (hostOps1_8 (F := Ideal)) (after (hostOps1_7 (F := Ideal)) (after (hostOps1_6 (F := Ideal)) (after (hostOps1_5 (F := Ideal)) (W)))) (Proc.devRef .tc main_v16) = W (Proc.devRef .tc main_v16) := by after_results_simp
theorem c1_1_acc : after (hostOps1_8 (F := Ideal)) (after (hostOps1_7 (F := Ideal)) (after (hostOps1_6 (F := Ideal)) (after (hostOps1_5 (F := Ideal)) (W)))) (Proc.devRef .tc main_v92)
    = stepRaw1 (W (Proc.devRef .tc main_v58)) (W (Proc.devRef .tc main_v67)) (W (Proc.devRef .tc main_cst_12)) (W (Proc.devRef .tc main_arg1)) (W (Proc.devRef .tc main_arg3))
        (Cert.Net.ysl (W (Proc.devRef .tc main_v16)) 22 (by omega)) (W (Proc.devRef .tc main_v55)) := by
  after_results_simp <;> rfl
theorem c1_1_mask : after (hostOps1_8 (F := Ideal)) (after (hostOps1_7 (F := Ideal)) (after (hostOps1_6 (F := Ideal)) (after (hostOps1_5 (F := Ideal)) (W)))) (Proc.devRef .tc main_v95) = Cert.Net.mask (W (Proc.devRef .tc main_arg2)) 2#32 := by
  after_results_simp <;> rfl
theorem c1_1_gath : after (hostOps1_8 (F := Ideal)) (after (hostOps1_7 (F := Ideal)) (after (hostOps1_6 (F := Ideal)) (after (hostOps1_5 (F := Ideal)) (W)))) (Proc.devRef .tc main_v104)
    = Host.gather gK (Cert.Net.ysl (W (Proc.devRef .tc main_v16)) 3 (by omega)) (Cert.Net.norm (W (Proc.devRef .tc main_arg3))) := by
  after_results_simp <;> rfl
theorem c1_1_cst : after (hostOps1_8 (F := Ideal)) (after (hostOps1_7 (F := Ideal)) (after (hostOps1_6 (F := Ideal)) (after (hostOps1_5 (F := Ideal)) (W)))) (Proc.devRef .tc main_cst_23) = constant (F := Ideal) Cert.Net.S0 .f32 0x00000000#32 := by
  after_results_simp <;> rfl

/-- Label 2's four stretches. -/
theorem c1_2_a1 : after (hostOps1_12 (F := Ideal)) (after (hostOps1_11 (F := Ideal)) (after (hostOps1_10 (F := Ideal)) (after (hostOps1_9 (F := Ideal)) (W)))) (Proc.devRef .tc main_arg1) = W (Proc.devRef .tc main_arg1) := by after_results_simp
theorem c1_2_a2 : after (hostOps1_12 (F := Ideal)) (after (hostOps1_11 (F := Ideal)) (after (hostOps1_10 (F := Ideal)) (after (hostOps1_9 (F := Ideal)) (W)))) (Proc.devRef .tc main_arg2) = W (Proc.devRef .tc main_arg2) := by after_results_simp
theorem c1_2_a3 : after (hostOps1_12 (F := Ideal)) (after (hostOps1_11 (F := Ideal)) (after (hostOps1_10 (F := Ideal)) (after (hostOps1_9 (F := Ideal)) (W)))) (Proc.devRef .tc main_arg3) = W (Proc.devRef .tc main_arg3) := by after_results_simp
theorem c1_2_y : after (hostOps1_12 (F := Ideal)) (after (hostOps1_11 (F := Ideal)) (after (hostOps1_10 (F := Ideal)) (after (hostOps1_9 (F := Ideal)) (W)))) (Proc.devRef .tc main_v16) = W (Proc.devRef .tc main_v16) := by after_results_simp
theorem c1_2_acc : after (hostOps1_12 (F := Ideal)) (after (hostOps1_11 (F := Ideal)) (after (hostOps1_10 (F := Ideal)) (after (hostOps1_9 (F := Ideal)) (W)))) (Proc.devRef .tc main_v129)
    = stepRaw1 (W (Proc.devRef .tc main_v95)) (W (Proc.devRef .tc main_v104)) (W (Proc.devRef .tc main_cst_23)) (W (Proc.devRef .tc main_arg1)) (W (Proc.devRef .tc main_arg3))
        (Cert.Net.ysl (W (Proc.devRef .tc main_v16)) 23 (by omega)) (W (Proc.devRef .tc main_v92)) := by
  after_results_simp <;> rfl
theorem c1_2_mask : after (hostOps1_12 (F := Ideal)) (after (hostOps1_11 (F := Ideal)) (after (hostOps1_10 (F := Ideal)) (after (hostOps1_9 (F := Ideal)) (W)))) (Proc.devRef .tc main_v132) = Cert.Net.mask (W (Proc.devRef .tc main_arg2)) 3#32 := by
  after_results_simp <;> rfl
theorem c1_2_gath : after (hostOps1_12 (F := Ideal)) (after (hostOps1_11 (F := Ideal)) (after (hostOps1_10 (F := Ideal)) (after (hostOps1_9 (F := Ideal)) (W)))) (Proc.devRef .tc main_v141)
    = Host.gather gK (Cert.Net.ysl (W (Proc.devRef .tc main_v16)) 4 (by omega)) (Cert.Net.norm (W (Proc.devRef .tc main_arg3))) := by
  after_results_simp <;> rfl
theorem c1_2_cst : after (hostOps1_12 (F := Ideal)) (after (hostOps1_11 (F := Ideal)) (after (hostOps1_10 (F := Ideal)) (after (hostOps1_9 (F := Ideal)) (W)))) (Proc.devRef .tc main_cst_34) = constant (F := Ideal) Cert.Net.S0 .f32 0x00000000#32 := by
  after_results_simp <;> rfl

/-- Label 3's four stretches. -/
theorem c1_3_a1 : after (hostOps1_16 (F := Ideal)) (after (hostOps1_15 (F := Ideal)) (after (hostOps1_14 (F := Ideal)) (after (hostOps1_13 (F := Ideal)) (W)))) (Proc.devRef .tc main_arg1) = W (Proc.devRef .tc main_arg1) := by after_results_simp
theorem c1_3_a2 : after (hostOps1_16 (F := Ideal)) (after (hostOps1_15 (F := Ideal)) (after (hostOps1_14 (F := Ideal)) (after (hostOps1_13 (F := Ideal)) (W)))) (Proc.devRef .tc main_arg2) = W (Proc.devRef .tc main_arg2) := by after_results_simp
theorem c1_3_a3 : after (hostOps1_16 (F := Ideal)) (after (hostOps1_15 (F := Ideal)) (after (hostOps1_14 (F := Ideal)) (after (hostOps1_13 (F := Ideal)) (W)))) (Proc.devRef .tc main_arg3) = W (Proc.devRef .tc main_arg3) := by after_results_simp
theorem c1_3_y : after (hostOps1_16 (F := Ideal)) (after (hostOps1_15 (F := Ideal)) (after (hostOps1_14 (F := Ideal)) (after (hostOps1_13 (F := Ideal)) (W)))) (Proc.devRef .tc main_v16) = W (Proc.devRef .tc main_v16) := by after_results_simp
theorem c1_3_acc : after (hostOps1_16 (F := Ideal)) (after (hostOps1_15 (F := Ideal)) (after (hostOps1_14 (F := Ideal)) (after (hostOps1_13 (F := Ideal)) (W)))) (Proc.devRef .tc main_v166)
    = stepRaw1 (W (Proc.devRef .tc main_v132)) (W (Proc.devRef .tc main_v141)) (W (Proc.devRef .tc main_cst_34)) (W (Proc.devRef .tc main_arg1)) (W (Proc.devRef .tc main_arg3))
        (Cert.Net.ysl (W (Proc.devRef .tc main_v16)) 24 (by omega)) (W (Proc.devRef .tc main_v129)) := by
  after_results_simp <;> rfl
theorem c1_3_mask : after (hostOps1_16 (F := Ideal)) (after (hostOps1_15 (F := Ideal)) (after (hostOps1_14 (F := Ideal)) (after (hostOps1_13 (F := Ideal)) (W)))) (Proc.devRef .tc main_v169) = Cert.Net.mask (W (Proc.devRef .tc main_arg2)) 4#32 := by
  after_results_simp <;> rfl
theorem c1_3_gath : after (hostOps1_16 (F := Ideal)) (after (hostOps1_15 (F := Ideal)) (after (hostOps1_14 (F := Ideal)) (after (hostOps1_13 (F := Ideal)) (W)))) (Proc.devRef .tc main_v178)
    = Host.gather gK (Cert.Net.ysl (W (Proc.devRef .tc main_v16)) 5 (by omega)) (Cert.Net.norm (W (Proc.devRef .tc main_arg3))) := by
  after_results_simp <;> rfl
theorem c1_3_cst : after (hostOps1_16 (F := Ideal)) (after (hostOps1_15 (F := Ideal)) (after (hostOps1_14 (F := Ideal)) (after (hostOps1_13 (F := Ideal)) (W)))) (Proc.devRef .tc main_cst_45) = constant (F := Ideal) Cert.Net.S0 .f32 0x00000000#32 := by
  after_results_simp <;> rfl

/-- Label 4's four stretches. -/
theorem c1_4_a1 : after (hostOps1_20 (F := Ideal)) (after (hostOps1_19 (F := Ideal)) (after (hostOps1_18 (F := Ideal)) (after (hostOps1_17 (F := Ideal)) (W)))) (Proc.devRef .tc main_arg1) = W (Proc.devRef .tc main_arg1) := by after_results_simp
theorem c1_4_a2 : after (hostOps1_20 (F := Ideal)) (after (hostOps1_19 (F := Ideal)) (after (hostOps1_18 (F := Ideal)) (after (hostOps1_17 (F := Ideal)) (W)))) (Proc.devRef .tc main_arg2) = W (Proc.devRef .tc main_arg2) := by after_results_simp
theorem c1_4_a3 : after (hostOps1_20 (F := Ideal)) (after (hostOps1_19 (F := Ideal)) (after (hostOps1_18 (F := Ideal)) (after (hostOps1_17 (F := Ideal)) (W)))) (Proc.devRef .tc main_arg3) = W (Proc.devRef .tc main_arg3) := by after_results_simp
theorem c1_4_y : after (hostOps1_20 (F := Ideal)) (after (hostOps1_19 (F := Ideal)) (after (hostOps1_18 (F := Ideal)) (after (hostOps1_17 (F := Ideal)) (W)))) (Proc.devRef .tc main_v16) = W (Proc.devRef .tc main_v16) := by after_results_simp
theorem c1_4_acc : after (hostOps1_20 (F := Ideal)) (after (hostOps1_19 (F := Ideal)) (after (hostOps1_18 (F := Ideal)) (after (hostOps1_17 (F := Ideal)) (W)))) (Proc.devRef .tc main_v203)
    = stepRaw1 (W (Proc.devRef .tc main_v169)) (W (Proc.devRef .tc main_v178)) (W (Proc.devRef .tc main_cst_45)) (W (Proc.devRef .tc main_arg1)) (W (Proc.devRef .tc main_arg3))
        (Cert.Net.ysl (W (Proc.devRef .tc main_v16)) 25 (by omega)) (W (Proc.devRef .tc main_v166)) := by
  after_results_simp <;> rfl
theorem c1_4_mask : after (hostOps1_20 (F := Ideal)) (after (hostOps1_19 (F := Ideal)) (after (hostOps1_18 (F := Ideal)) (after (hostOps1_17 (F := Ideal)) (W)))) (Proc.devRef .tc main_v206) = Cert.Net.mask (W (Proc.devRef .tc main_arg2)) 5#32 := by
  after_results_simp <;> rfl
theorem c1_4_gath : after (hostOps1_20 (F := Ideal)) (after (hostOps1_19 (F := Ideal)) (after (hostOps1_18 (F := Ideal)) (after (hostOps1_17 (F := Ideal)) (W)))) (Proc.devRef .tc main_v215)
    = Host.gather gK (Cert.Net.ysl (W (Proc.devRef .tc main_v16)) 6 (by omega)) (Cert.Net.norm (W (Proc.devRef .tc main_arg3))) := by
  after_results_simp <;> rfl
theorem c1_4_cst : after (hostOps1_20 (F := Ideal)) (after (hostOps1_19 (F := Ideal)) (after (hostOps1_18 (F := Ideal)) (after (hostOps1_17 (F := Ideal)) (W)))) (Proc.devRef .tc main_cst_56) = constant (F := Ideal) Cert.Net.S0 .f32 0x00000000#32 := by
  after_results_simp <;> rfl

/-- Label 5's four stretches. -/
theorem c1_5_a1 : after (hostOps1_24 (F := Ideal)) (after (hostOps1_23 (F := Ideal)) (after (hostOps1_22 (F := Ideal)) (after (hostOps1_21 (F := Ideal)) (W)))) (Proc.devRef .tc main_arg1) = W (Proc.devRef .tc main_arg1) := by after_results_simp
theorem c1_5_a2 : after (hostOps1_24 (F := Ideal)) (after (hostOps1_23 (F := Ideal)) (after (hostOps1_22 (F := Ideal)) (after (hostOps1_21 (F := Ideal)) (W)))) (Proc.devRef .tc main_arg2) = W (Proc.devRef .tc main_arg2) := by after_results_simp
theorem c1_5_a3 : after (hostOps1_24 (F := Ideal)) (after (hostOps1_23 (F := Ideal)) (after (hostOps1_22 (F := Ideal)) (after (hostOps1_21 (F := Ideal)) (W)))) (Proc.devRef .tc main_arg3) = W (Proc.devRef .tc main_arg3) := by after_results_simp
theorem c1_5_y : after (hostOps1_24 (F := Ideal)) (after (hostOps1_23 (F := Ideal)) (after (hostOps1_22 (F := Ideal)) (after (hostOps1_21 (F := Ideal)) (W)))) (Proc.devRef .tc main_v16) = W (Proc.devRef .tc main_v16) := by after_results_simp
theorem c1_5_acc : after (hostOps1_24 (F := Ideal)) (after (hostOps1_23 (F := Ideal)) (after (hostOps1_22 (F := Ideal)) (after (hostOps1_21 (F := Ideal)) (W)))) (Proc.devRef .tc main_v240)
    = stepRaw1 (W (Proc.devRef .tc main_v206)) (W (Proc.devRef .tc main_v215)) (W (Proc.devRef .tc main_cst_56)) (W (Proc.devRef .tc main_arg1)) (W (Proc.devRef .tc main_arg3))
        (Cert.Net.ysl (W (Proc.devRef .tc main_v16)) 26 (by omega)) (W (Proc.devRef .tc main_v203)) := by
  after_results_simp <;> rfl
theorem c1_5_mask : after (hostOps1_24 (F := Ideal)) (after (hostOps1_23 (F := Ideal)) (after (hostOps1_22 (F := Ideal)) (after (hostOps1_21 (F := Ideal)) (W)))) (Proc.devRef .tc main_v243) = Cert.Net.mask (W (Proc.devRef .tc main_arg2)) 6#32 := by
  after_results_simp <;> rfl
theorem c1_5_gath : after (hostOps1_24 (F := Ideal)) (after (hostOps1_23 (F := Ideal)) (after (hostOps1_22 (F := Ideal)) (after (hostOps1_21 (F := Ideal)) (W)))) (Proc.devRef .tc main_v252)
    = Host.gather gK (Cert.Net.ysl (W (Proc.devRef .tc main_v16)) 7 (by omega)) (Cert.Net.norm (W (Proc.devRef .tc main_arg3))) := by
  after_results_simp <;> rfl
theorem c1_5_cst : after (hostOps1_24 (F := Ideal)) (after (hostOps1_23 (F := Ideal)) (after (hostOps1_22 (F := Ideal)) (after (hostOps1_21 (F := Ideal)) (W)))) (Proc.devRef .tc main_cst_67) = constant (F := Ideal) Cert.Net.S0 .f32 0x00000000#32 := by
  after_results_simp <;> rfl

/-- Label 6's four stretches. -/
theorem c1_6_a1 : after (hostOps1_28 (F := Ideal)) (after (hostOps1_27 (F := Ideal)) (after (hostOps1_26 (F := Ideal)) (after (hostOps1_25 (F := Ideal)) (W)))) (Proc.devRef .tc main_arg1) = W (Proc.devRef .tc main_arg1) := by after_results_simp
theorem c1_6_a2 : after (hostOps1_28 (F := Ideal)) (after (hostOps1_27 (F := Ideal)) (after (hostOps1_26 (F := Ideal)) (after (hostOps1_25 (F := Ideal)) (W)))) (Proc.devRef .tc main_arg2) = W (Proc.devRef .tc main_arg2) := by after_results_simp
theorem c1_6_a3 : after (hostOps1_28 (F := Ideal)) (after (hostOps1_27 (F := Ideal)) (after (hostOps1_26 (F := Ideal)) (after (hostOps1_25 (F := Ideal)) (W)))) (Proc.devRef .tc main_arg3) = W (Proc.devRef .tc main_arg3) := by after_results_simp
theorem c1_6_y : after (hostOps1_28 (F := Ideal)) (after (hostOps1_27 (F := Ideal)) (after (hostOps1_26 (F := Ideal)) (after (hostOps1_25 (F := Ideal)) (W)))) (Proc.devRef .tc main_v16) = W (Proc.devRef .tc main_v16) := by after_results_simp
theorem c1_6_acc : after (hostOps1_28 (F := Ideal)) (after (hostOps1_27 (F := Ideal)) (after (hostOps1_26 (F := Ideal)) (after (hostOps1_25 (F := Ideal)) (W)))) (Proc.devRef .tc main_v277)
    = stepRaw1 (W (Proc.devRef .tc main_v243)) (W (Proc.devRef .tc main_v252)) (W (Proc.devRef .tc main_cst_67)) (W (Proc.devRef .tc main_arg1)) (W (Proc.devRef .tc main_arg3))
        (Cert.Net.ysl (W (Proc.devRef .tc main_v16)) 27 (by omega)) (W (Proc.devRef .tc main_v240)) := by
  after_results_simp <;> rfl
theorem c1_6_mask : after (hostOps1_28 (F := Ideal)) (after (hostOps1_27 (F := Ideal)) (after (hostOps1_26 (F := Ideal)) (after (hostOps1_25 (F := Ideal)) (W)))) (Proc.devRef .tc main_v280) = Cert.Net.mask (W (Proc.devRef .tc main_arg2)) 7#32 := by
  after_results_simp <;> rfl
theorem c1_6_gath : after (hostOps1_28 (F := Ideal)) (after (hostOps1_27 (F := Ideal)) (after (hostOps1_26 (F := Ideal)) (after (hostOps1_25 (F := Ideal)) (W)))) (Proc.devRef .tc main_v289)
    = Host.gather gK (Cert.Net.ysl (W (Proc.devRef .tc main_v16)) 8 (by omega)) (Cert.Net.norm (W (Proc.devRef .tc main_arg3))) := by
  after_results_simp <;> rfl
theorem c1_6_cst : after (hostOps1_28 (F := Ideal)) (after (hostOps1_27 (F := Ideal)) (after (hostOps1_26 (F := Ideal)) (after (hostOps1_25 (F := Ideal)) (W)))) (Proc.devRef .tc main_cst_78) = constant (F := Ideal) Cert.Net.S0 .f32 0x00000000#32 := by
  after_results_simp <;> rfl

/-- Label 7's four stretches. -/
theorem c1_7_a1 : after (hostOps1_32 (F := Ideal)) (after (hostOps1_31 (F := Ideal)) (after (hostOps1_30 (F := Ideal)) (after (hostOps1_29 (F := Ideal)) (W)))) (Proc.devRef .tc main_arg1) = W (Proc.devRef .tc main_arg1) := by after_results_simp
theorem c1_7_a2 : after (hostOps1_32 (F := Ideal)) (after (hostOps1_31 (F := Ideal)) (after (hostOps1_30 (F := Ideal)) (after (hostOps1_29 (F := Ideal)) (W)))) (Proc.devRef .tc main_arg2) = W (Proc.devRef .tc main_arg2) := by after_results_simp
theorem c1_7_a3 : after (hostOps1_32 (F := Ideal)) (after (hostOps1_31 (F := Ideal)) (after (hostOps1_30 (F := Ideal)) (after (hostOps1_29 (F := Ideal)) (W)))) (Proc.devRef .tc main_arg3) = W (Proc.devRef .tc main_arg3) := by after_results_simp
theorem c1_7_y : after (hostOps1_32 (F := Ideal)) (after (hostOps1_31 (F := Ideal)) (after (hostOps1_30 (F := Ideal)) (after (hostOps1_29 (F := Ideal)) (W)))) (Proc.devRef .tc main_v16) = W (Proc.devRef .tc main_v16) := by after_results_simp
theorem c1_7_acc : after (hostOps1_32 (F := Ideal)) (after (hostOps1_31 (F := Ideal)) (after (hostOps1_30 (F := Ideal)) (after (hostOps1_29 (F := Ideal)) (W)))) (Proc.devRef .tc main_v314)
    = stepRaw1 (W (Proc.devRef .tc main_v280)) (W (Proc.devRef .tc main_v289)) (W (Proc.devRef .tc main_cst_78)) (W (Proc.devRef .tc main_arg1)) (W (Proc.devRef .tc main_arg3))
        (Cert.Net.ysl (W (Proc.devRef .tc main_v16)) 28 (by omega)) (W (Proc.devRef .tc main_v277)) := by
  after_results_simp <;> rfl
theorem c1_7_mask : after (hostOps1_32 (F := Ideal)) (after (hostOps1_31 (F := Ideal)) (after (hostOps1_30 (F := Ideal)) (after (hostOps1_29 (F := Ideal)) (W)))) (Proc.devRef .tc main_v317) = Cert.Net.mask (W (Proc.devRef .tc main_arg2)) 8#32 := by
  after_results_simp <;> rfl
theorem c1_7_gath : after (hostOps1_32 (F := Ideal)) (after (hostOps1_31 (F := Ideal)) (after (hostOps1_30 (F := Ideal)) (after (hostOps1_29 (F := Ideal)) (W)))) (Proc.devRef .tc main_v326)
    = Host.gather gK (Cert.Net.ysl (W (Proc.devRef .tc main_v16)) 9 (by omega)) (Cert.Net.norm (W (Proc.devRef .tc main_arg3))) := by
  after_results_simp <;> rfl
theorem c1_7_cst : after (hostOps1_32 (F := Ideal)) (after (hostOps1_31 (F := Ideal)) (after (hostOps1_30 (F := Ideal)) (after (hostOps1_29 (F := Ideal)) (W)))) (Proc.devRef .tc main_cst_89) = constant (F := Ideal) Cert.Net.S0 .f32 0x00000000#32 := by
  after_results_simp <;> rfl

/-- Label 8's four stretches. -/
theorem c1_8_a1 : after (hostOps1_36 (F := Ideal)) (after (hostOps1_35 (F := Ideal)) (after (hostOps1_34 (F := Ideal)) (after (hostOps1_33 (F := Ideal)) (W)))) (Proc.devRef .tc main_arg1) = W (Proc.devRef .tc main_arg1) := by after_results_simp
theorem c1_8_a2 : after (hostOps1_36 (F := Ideal)) (after (hostOps1_35 (F := Ideal)) (after (hostOps1_34 (F := Ideal)) (after (hostOps1_33 (F := Ideal)) (W)))) (Proc.devRef .tc main_arg2) = W (Proc.devRef .tc main_arg2) := by after_results_simp
theorem c1_8_a3 : after (hostOps1_36 (F := Ideal)) (after (hostOps1_35 (F := Ideal)) (after (hostOps1_34 (F := Ideal)) (after (hostOps1_33 (F := Ideal)) (W)))) (Proc.devRef .tc main_arg3) = W (Proc.devRef .tc main_arg3) := by after_results_simp
theorem c1_8_y : after (hostOps1_36 (F := Ideal)) (after (hostOps1_35 (F := Ideal)) (after (hostOps1_34 (F := Ideal)) (after (hostOps1_33 (F := Ideal)) (W)))) (Proc.devRef .tc main_v16) = W (Proc.devRef .tc main_v16) := by after_results_simp
theorem c1_8_acc : after (hostOps1_36 (F := Ideal)) (after (hostOps1_35 (F := Ideal)) (after (hostOps1_34 (F := Ideal)) (after (hostOps1_33 (F := Ideal)) (W)))) (Proc.devRef .tc main_v351)
    = stepRaw1 (W (Proc.devRef .tc main_v317)) (W (Proc.devRef .tc main_v326)) (W (Proc.devRef .tc main_cst_89)) (W (Proc.devRef .tc main_arg1)) (W (Proc.devRef .tc main_arg3))
        (Cert.Net.ysl (W (Proc.devRef .tc main_v16)) 29 (by omega)) (W (Proc.devRef .tc main_v314)) := by
  after_results_simp <;> rfl
theorem c1_8_mask : after (hostOps1_36 (F := Ideal)) (after (hostOps1_35 (F := Ideal)) (after (hostOps1_34 (F := Ideal)) (after (hostOps1_33 (F := Ideal)) (W)))) (Proc.devRef .tc main_v354) = Cert.Net.mask (W (Proc.devRef .tc main_arg2)) 9#32 := by
  after_results_simp <;> rfl
theorem c1_8_gath : after (hostOps1_36 (F := Ideal)) (after (hostOps1_35 (F := Ideal)) (after (hostOps1_34 (F := Ideal)) (after (hostOps1_33 (F := Ideal)) (W)))) (Proc.devRef .tc main_v363)
    = Host.gather gK (Cert.Net.ysl (W (Proc.devRef .tc main_v16)) 10 (by omega)) (Cert.Net.norm (W (Proc.devRef .tc main_arg3))) := by
  after_results_simp <;> rfl
theorem c1_8_cst : after (hostOps1_36 (F := Ideal)) (after (hostOps1_35 (F := Ideal)) (after (hostOps1_34 (F := Ideal)) (after (hostOps1_33 (F := Ideal)) (W)))) (Proc.devRef .tc main_cst_100) = constant (F := Ideal) Cert.Net.S0 .f32 0x00000000#32 := by
  after_results_simp <;> rfl

/-- Label 9's four stretches. -/
theorem c1_9_a1 : after (hostOps1_40 (F := Ideal)) (after (hostOps1_39 (F := Ideal)) (after (hostOps1_38 (F := Ideal)) (after (hostOps1_37 (F := Ideal)) (W)))) (Proc.devRef .tc main_arg1) = W (Proc.devRef .tc main_arg1) := by after_results_simp
theorem c1_9_a2 : after (hostOps1_40 (F := Ideal)) (after (hostOps1_39 (F := Ideal)) (after (hostOps1_38 (F := Ideal)) (after (hostOps1_37 (F := Ideal)) (W)))) (Proc.devRef .tc main_arg2) = W (Proc.devRef .tc main_arg2) := by after_results_simp
theorem c1_9_a3 : after (hostOps1_40 (F := Ideal)) (after (hostOps1_39 (F := Ideal)) (after (hostOps1_38 (F := Ideal)) (after (hostOps1_37 (F := Ideal)) (W)))) (Proc.devRef .tc main_arg3) = W (Proc.devRef .tc main_arg3) := by after_results_simp
theorem c1_9_y : after (hostOps1_40 (F := Ideal)) (after (hostOps1_39 (F := Ideal)) (after (hostOps1_38 (F := Ideal)) (after (hostOps1_37 (F := Ideal)) (W)))) (Proc.devRef .tc main_v16) = W (Proc.devRef .tc main_v16) := by after_results_simp
theorem c1_9_acc : after (hostOps1_40 (F := Ideal)) (after (hostOps1_39 (F := Ideal)) (after (hostOps1_38 (F := Ideal)) (after (hostOps1_37 (F := Ideal)) (W)))) (Proc.devRef .tc main_v388)
    = stepRaw1 (W (Proc.devRef .tc main_v354)) (W (Proc.devRef .tc main_v363)) (W (Proc.devRef .tc main_cst_100)) (W (Proc.devRef .tc main_arg1)) (W (Proc.devRef .tc main_arg3))
        (Cert.Net.ysl (W (Proc.devRef .tc main_v16)) 30 (by omega)) (W (Proc.devRef .tc main_v351)) := by
  after_results_simp <;> rfl
theorem c1_9_mask : after (hostOps1_40 (F := Ideal)) (after (hostOps1_39 (F := Ideal)) (after (hostOps1_38 (F := Ideal)) (after (hostOps1_37 (F := Ideal)) (W)))) (Proc.devRef .tc main_v391) = Cert.Net.mask (W (Proc.devRef .tc main_arg2)) 10#32 := by
  after_results_simp <;> rfl
theorem c1_9_gath : after (hostOps1_40 (F := Ideal)) (after (hostOps1_39 (F := Ideal)) (after (hostOps1_38 (F := Ideal)) (after (hostOps1_37 (F := Ideal)) (W)))) (Proc.devRef .tc main_v400)
    = Host.gather gK (Cert.Net.ysl (W (Proc.devRef .tc main_v16)) 11 (by omega)) (Cert.Net.norm (W (Proc.devRef .tc main_arg3))) := by
  after_results_simp <;> rfl
theorem c1_9_cst : after (hostOps1_40 (F := Ideal)) (after (hostOps1_39 (F := Ideal)) (after (hostOps1_38 (F := Ideal)) (after (hostOps1_37 (F := Ideal)) (W)))) (Proc.devRef .tc main_cst_111) = constant (F := Ideal) Cert.Net.S0 .f32 0x00000000#32 := by
  after_results_simp <;> rfl

/-- Label 10's four stretches. -/
theorem c1_10_a1 : after (hostOps1_44 (F := Ideal)) (after (hostOps1_43 (F := Ideal)) (after (hostOps1_42 (F := Ideal)) (after (hostOps1_41 (F := Ideal)) (W)))) (Proc.devRef .tc main_arg1) = W (Proc.devRef .tc main_arg1) := by after_results_simp
theorem c1_10_a2 : after (hostOps1_44 (F := Ideal)) (after (hostOps1_43 (F := Ideal)) (after (hostOps1_42 (F := Ideal)) (after (hostOps1_41 (F := Ideal)) (W)))) (Proc.devRef .tc main_arg2) = W (Proc.devRef .tc main_arg2) := by after_results_simp
theorem c1_10_a3 : after (hostOps1_44 (F := Ideal)) (after (hostOps1_43 (F := Ideal)) (after (hostOps1_42 (F := Ideal)) (after (hostOps1_41 (F := Ideal)) (W)))) (Proc.devRef .tc main_arg3) = W (Proc.devRef .tc main_arg3) := by after_results_simp
theorem c1_10_y : after (hostOps1_44 (F := Ideal)) (after (hostOps1_43 (F := Ideal)) (after (hostOps1_42 (F := Ideal)) (after (hostOps1_41 (F := Ideal)) (W)))) (Proc.devRef .tc main_v16) = W (Proc.devRef .tc main_v16) := by after_results_simp
theorem c1_10_acc : after (hostOps1_44 (F := Ideal)) (after (hostOps1_43 (F := Ideal)) (after (hostOps1_42 (F := Ideal)) (after (hostOps1_41 (F := Ideal)) (W)))) (Proc.devRef .tc main_v425)
    = stepRaw1 (W (Proc.devRef .tc main_v391)) (W (Proc.devRef .tc main_v400)) (W (Proc.devRef .tc main_cst_111)) (W (Proc.devRef .tc main_arg1)) (W (Proc.devRef .tc main_arg3))
        (Cert.Net.ysl (W (Proc.devRef .tc main_v16)) 31 (by omega)) (W (Proc.devRef .tc main_v388)) := by
  after_results_simp <;> rfl
theorem c1_10_mask : after (hostOps1_44 (F := Ideal)) (after (hostOps1_43 (F := Ideal)) (after (hostOps1_42 (F := Ideal)) (after (hostOps1_41 (F := Ideal)) (W)))) (Proc.devRef .tc main_v428) = Cert.Net.mask (W (Proc.devRef .tc main_arg2)) 11#32 := by
  after_results_simp <;> rfl
theorem c1_10_gath : after (hostOps1_44 (F := Ideal)) (after (hostOps1_43 (F := Ideal)) (after (hostOps1_42 (F := Ideal)) (after (hostOps1_41 (F := Ideal)) (W)))) (Proc.devRef .tc main_v437)
    = Host.gather gK (Cert.Net.ysl (W (Proc.devRef .tc main_v16)) 12 (by omega)) (Cert.Net.norm (W (Proc.devRef .tc main_arg3))) := by
  after_results_simp <;> rfl
theorem c1_10_cst : after (hostOps1_44 (F := Ideal)) (after (hostOps1_43 (F := Ideal)) (after (hostOps1_42 (F := Ideal)) (after (hostOps1_41 (F := Ideal)) (W)))) (Proc.devRef .tc main_cst_122) = constant (F := Ideal) Cert.Net.S0 .f32 0x00000000#32 := by
  after_results_simp <;> rfl

/-- Label 11's four stretches. -/
theorem c1_11_a1 : after (hostOps1_48 (F := Ideal)) (after (hostOps1_47 (F := Ideal)) (after (hostOps1_46 (F := Ideal)) (after (hostOps1_45 (F := Ideal)) (W)))) (Proc.devRef .tc main_arg1) = W (Proc.devRef .tc main_arg1) := by after_results_simp
theorem c1_11_a2 : after (hostOps1_48 (F := Ideal)) (after (hostOps1_47 (F := Ideal)) (after (hostOps1_46 (F := Ideal)) (after (hostOps1_45 (F := Ideal)) (W)))) (Proc.devRef .tc main_arg2) = W (Proc.devRef .tc main_arg2) := by after_results_simp
theorem c1_11_a3 : after (hostOps1_48 (F := Ideal)) (after (hostOps1_47 (F := Ideal)) (after (hostOps1_46 (F := Ideal)) (after (hostOps1_45 (F := Ideal)) (W)))) (Proc.devRef .tc main_arg3) = W (Proc.devRef .tc main_arg3) := by after_results_simp
theorem c1_11_y : after (hostOps1_48 (F := Ideal)) (after (hostOps1_47 (F := Ideal)) (after (hostOps1_46 (F := Ideal)) (after (hostOps1_45 (F := Ideal)) (W)))) (Proc.devRef .tc main_v16) = W (Proc.devRef .tc main_v16) := by after_results_simp
theorem c1_11_acc : after (hostOps1_48 (F := Ideal)) (after (hostOps1_47 (F := Ideal)) (after (hostOps1_46 (F := Ideal)) (after (hostOps1_45 (F := Ideal)) (W)))) (Proc.devRef .tc main_v462)
    = stepRaw1 (W (Proc.devRef .tc main_v428)) (W (Proc.devRef .tc main_v437)) (W (Proc.devRef .tc main_cst_122)) (W (Proc.devRef .tc main_arg1)) (W (Proc.devRef .tc main_arg3))
        (Cert.Net.ysl (W (Proc.devRef .tc main_v16)) 32 (by omega)) (W (Proc.devRef .tc main_v425)) := by
  after_results_simp <;> rfl
theorem c1_11_mask : after (hostOps1_48 (F := Ideal)) (after (hostOps1_47 (F := Ideal)) (after (hostOps1_46 (F := Ideal)) (after (hostOps1_45 (F := Ideal)) (W)))) (Proc.devRef .tc main_v465) = Cert.Net.mask (W (Proc.devRef .tc main_arg2)) 12#32 := by
  after_results_simp <;> rfl
theorem c1_11_gath : after (hostOps1_48 (F := Ideal)) (after (hostOps1_47 (F := Ideal)) (after (hostOps1_46 (F := Ideal)) (after (hostOps1_45 (F := Ideal)) (W)))) (Proc.devRef .tc main_v474)
    = Host.gather gK (Cert.Net.ysl (W (Proc.devRef .tc main_v16)) 13 (by omega)) (Cert.Net.norm (W (Proc.devRef .tc main_arg3))) := by
  after_results_simp <;> rfl
theorem c1_11_cst : after (hostOps1_48 (F := Ideal)) (after (hostOps1_47 (F := Ideal)) (after (hostOps1_46 (F := Ideal)) (after (hostOps1_45 (F := Ideal)) (W)))) (Proc.devRef .tc main_cst_133) = constant (F := Ideal) Cert.Net.S0 .f32 0x00000000#32 := by
  after_results_simp <;> rfl

/-- Label 12's four stretches. -/
theorem c1_12_a1 : after (hostOps1_52 (F := Ideal)) (after (hostOps1_51 (F := Ideal)) (after (hostOps1_50 (F := Ideal)) (after (hostOps1_49 (F := Ideal)) (W)))) (Proc.devRef .tc main_arg1) = W (Proc.devRef .tc main_arg1) := by after_results_simp
theorem c1_12_a2 : after (hostOps1_52 (F := Ideal)) (after (hostOps1_51 (F := Ideal)) (after (hostOps1_50 (F := Ideal)) (after (hostOps1_49 (F := Ideal)) (W)))) (Proc.devRef .tc main_arg2) = W (Proc.devRef .tc main_arg2) := by after_results_simp
theorem c1_12_a3 : after (hostOps1_52 (F := Ideal)) (after (hostOps1_51 (F := Ideal)) (after (hostOps1_50 (F := Ideal)) (after (hostOps1_49 (F := Ideal)) (W)))) (Proc.devRef .tc main_arg3) = W (Proc.devRef .tc main_arg3) := by after_results_simp
theorem c1_12_y : after (hostOps1_52 (F := Ideal)) (after (hostOps1_51 (F := Ideal)) (after (hostOps1_50 (F := Ideal)) (after (hostOps1_49 (F := Ideal)) (W)))) (Proc.devRef .tc main_v16) = W (Proc.devRef .tc main_v16) := by after_results_simp
theorem c1_12_acc : after (hostOps1_52 (F := Ideal)) (after (hostOps1_51 (F := Ideal)) (after (hostOps1_50 (F := Ideal)) (after (hostOps1_49 (F := Ideal)) (W)))) (Proc.devRef .tc main_v499)
    = stepRaw1 (W (Proc.devRef .tc main_v465)) (W (Proc.devRef .tc main_v474)) (W (Proc.devRef .tc main_cst_133)) (W (Proc.devRef .tc main_arg1)) (W (Proc.devRef .tc main_arg3))
        (Cert.Net.ysl (W (Proc.devRef .tc main_v16)) 33 (by omega)) (W (Proc.devRef .tc main_v462)) := by
  after_results_simp <;> rfl
theorem c1_12_mask : after (hostOps1_52 (F := Ideal)) (after (hostOps1_51 (F := Ideal)) (after (hostOps1_50 (F := Ideal)) (after (hostOps1_49 (F := Ideal)) (W)))) (Proc.devRef .tc main_v502) = Cert.Net.mask (W (Proc.devRef .tc main_arg2)) 13#32 := by
  after_results_simp <;> rfl
theorem c1_12_gath : after (hostOps1_52 (F := Ideal)) (after (hostOps1_51 (F := Ideal)) (after (hostOps1_50 (F := Ideal)) (after (hostOps1_49 (F := Ideal)) (W)))) (Proc.devRef .tc main_v511)
    = Host.gather gK (Cert.Net.ysl (W (Proc.devRef .tc main_v16)) 14 (by omega)) (Cert.Net.norm (W (Proc.devRef .tc main_arg3))) := by
  after_results_simp <;> rfl
theorem c1_12_cst : after (hostOps1_52 (F := Ideal)) (after (hostOps1_51 (F := Ideal)) (after (hostOps1_50 (F := Ideal)) (after (hostOps1_49 (F := Ideal)) (W)))) (Proc.devRef .tc main_cst_144) = constant (F := Ideal) Cert.Net.S0 .f32 0x00000000#32 := by
  after_results_simp <;> rfl

/-- Label 13's four stretches. -/
theorem c1_13_a1 : after (hostOps1_56 (F := Ideal)) (after (hostOps1_55 (F := Ideal)) (after (hostOps1_54 (F := Ideal)) (after (hostOps1_53 (F := Ideal)) (W)))) (Proc.devRef .tc main_arg1) = W (Proc.devRef .tc main_arg1) := by after_results_simp
theorem c1_13_a2 : after (hostOps1_56 (F := Ideal)) (after (hostOps1_55 (F := Ideal)) (after (hostOps1_54 (F := Ideal)) (after (hostOps1_53 (F := Ideal)) (W)))) (Proc.devRef .tc main_arg2) = W (Proc.devRef .tc main_arg2) := by after_results_simp
theorem c1_13_a3 : after (hostOps1_56 (F := Ideal)) (after (hostOps1_55 (F := Ideal)) (after (hostOps1_54 (F := Ideal)) (after (hostOps1_53 (F := Ideal)) (W)))) (Proc.devRef .tc main_arg3) = W (Proc.devRef .tc main_arg3) := by after_results_simp
theorem c1_13_y : after (hostOps1_56 (F := Ideal)) (after (hostOps1_55 (F := Ideal)) (after (hostOps1_54 (F := Ideal)) (after (hostOps1_53 (F := Ideal)) (W)))) (Proc.devRef .tc main_v16) = W (Proc.devRef .tc main_v16) := by after_results_simp
theorem c1_13_acc : after (hostOps1_56 (F := Ideal)) (after (hostOps1_55 (F := Ideal)) (after (hostOps1_54 (F := Ideal)) (after (hostOps1_53 (F := Ideal)) (W)))) (Proc.devRef .tc main_v536)
    = stepRaw1 (W (Proc.devRef .tc main_v502)) (W (Proc.devRef .tc main_v511)) (W (Proc.devRef .tc main_cst_144)) (W (Proc.devRef .tc main_arg1)) (W (Proc.devRef .tc main_arg3))
        (Cert.Net.ysl (W (Proc.devRef .tc main_v16)) 34 (by omega)) (W (Proc.devRef .tc main_v499)) := by
  after_results_simp <;> rfl
theorem c1_13_mask : after (hostOps1_56 (F := Ideal)) (after (hostOps1_55 (F := Ideal)) (after (hostOps1_54 (F := Ideal)) (after (hostOps1_53 (F := Ideal)) (W)))) (Proc.devRef .tc main_v539) = Cert.Net.mask (W (Proc.devRef .tc main_arg2)) 14#32 := by
  after_results_simp <;> rfl
theorem c1_13_gath : after (hostOps1_56 (F := Ideal)) (after (hostOps1_55 (F := Ideal)) (after (hostOps1_54 (F := Ideal)) (after (hostOps1_53 (F := Ideal)) (W)))) (Proc.devRef .tc main_v548)
    = Host.gather gK (Cert.Net.ysl (W (Proc.devRef .tc main_v16)) 15 (by omega)) (Cert.Net.norm (W (Proc.devRef .tc main_arg3))) := by
  after_results_simp <;> rfl
theorem c1_13_cst : after (hostOps1_56 (F := Ideal)) (after (hostOps1_55 (F := Ideal)) (after (hostOps1_54 (F := Ideal)) (after (hostOps1_53 (F := Ideal)) (W)))) (Proc.devRef .tc main_cst_155) = constant (F := Ideal) Cert.Net.S0 .f32 0x00000000#32 := by
  after_results_simp <;> rfl

/-- Label 14's four stretches. -/
theorem c1_14_a1 : after (hostOps1_60 (F := Ideal)) (after (hostOps1_59 (F := Ideal)) (after (hostOps1_58 (F := Ideal)) (after (hostOps1_57 (F := Ideal)) (W)))) (Proc.devRef .tc main_arg1) = W (Proc.devRef .tc main_arg1) := by after_results_simp
theorem c1_14_a2 : after (hostOps1_60 (F := Ideal)) (after (hostOps1_59 (F := Ideal)) (after (hostOps1_58 (F := Ideal)) (after (hostOps1_57 (F := Ideal)) (W)))) (Proc.devRef .tc main_arg2) = W (Proc.devRef .tc main_arg2) := by after_results_simp
theorem c1_14_a3 : after (hostOps1_60 (F := Ideal)) (after (hostOps1_59 (F := Ideal)) (after (hostOps1_58 (F := Ideal)) (after (hostOps1_57 (F := Ideal)) (W)))) (Proc.devRef .tc main_arg3) = W (Proc.devRef .tc main_arg3) := by after_results_simp
theorem c1_14_y : after (hostOps1_60 (F := Ideal)) (after (hostOps1_59 (F := Ideal)) (after (hostOps1_58 (F := Ideal)) (after (hostOps1_57 (F := Ideal)) (W)))) (Proc.devRef .tc main_v16) = W (Proc.devRef .tc main_v16) := by after_results_simp
theorem c1_14_acc : after (hostOps1_60 (F := Ideal)) (after (hostOps1_59 (F := Ideal)) (after (hostOps1_58 (F := Ideal)) (after (hostOps1_57 (F := Ideal)) (W)))) (Proc.devRef .tc main_v573)
    = stepRaw1 (W (Proc.devRef .tc main_v539)) (W (Proc.devRef .tc main_v548)) (W (Proc.devRef .tc main_cst_155)) (W (Proc.devRef .tc main_arg1)) (W (Proc.devRef .tc main_arg3))
        (Cert.Net.ysl (W (Proc.devRef .tc main_v16)) 35 (by omega)) (W (Proc.devRef .tc main_v536)) := by
  after_results_simp <;> rfl
theorem c1_14_mask : after (hostOps1_60 (F := Ideal)) (after (hostOps1_59 (F := Ideal)) (after (hostOps1_58 (F := Ideal)) (after (hostOps1_57 (F := Ideal)) (W)))) (Proc.devRef .tc main_v576) = Cert.Net.mask (W (Proc.devRef .tc main_arg2)) 15#32 := by
  after_results_simp <;> rfl
theorem c1_14_gath : after (hostOps1_60 (F := Ideal)) (after (hostOps1_59 (F := Ideal)) (after (hostOps1_58 (F := Ideal)) (after (hostOps1_57 (F := Ideal)) (W)))) (Proc.devRef .tc main_v585)
    = Host.gather gK (Cert.Net.ysl (W (Proc.devRef .tc main_v16)) 16 (by omega)) (Cert.Net.norm (W (Proc.devRef .tc main_arg3))) := by
  after_results_simp <;> rfl
theorem c1_14_cst : after (hostOps1_60 (F := Ideal)) (after (hostOps1_59 (F := Ideal)) (after (hostOps1_58 (F := Ideal)) (after (hostOps1_57 (F := Ideal)) (W)))) (Proc.devRef .tc main_cst_166) = constant (F := Ideal) Cert.Net.S0 .f32 0x00000000#32 := by
  after_results_simp <;> rfl

/-- Label 15's four stretches. -/
theorem c1_15_a1 : after (hostOps1_64 (F := Ideal)) (after (hostOps1_63 (F := Ideal)) (after (hostOps1_62 (F := Ideal)) (after (hostOps1_61 (F := Ideal)) (W)))) (Proc.devRef .tc main_arg1) = W (Proc.devRef .tc main_arg1) := by after_results_simp
theorem c1_15_a2 : after (hostOps1_64 (F := Ideal)) (after (hostOps1_63 (F := Ideal)) (after (hostOps1_62 (F := Ideal)) (after (hostOps1_61 (F := Ideal)) (W)))) (Proc.devRef .tc main_arg2) = W (Proc.devRef .tc main_arg2) := by after_results_simp
theorem c1_15_a3 : after (hostOps1_64 (F := Ideal)) (after (hostOps1_63 (F := Ideal)) (after (hostOps1_62 (F := Ideal)) (after (hostOps1_61 (F := Ideal)) (W)))) (Proc.devRef .tc main_arg3) = W (Proc.devRef .tc main_arg3) := by after_results_simp
theorem c1_15_y : after (hostOps1_64 (F := Ideal)) (after (hostOps1_63 (F := Ideal)) (after (hostOps1_62 (F := Ideal)) (after (hostOps1_61 (F := Ideal)) (W)))) (Proc.devRef .tc main_v16) = W (Proc.devRef .tc main_v16) := by after_results_simp
theorem c1_15_acc : after (hostOps1_64 (F := Ideal)) (after (hostOps1_63 (F := Ideal)) (after (hostOps1_62 (F := Ideal)) (after (hostOps1_61 (F := Ideal)) (W)))) (Proc.devRef .tc main_v610)
    = stepRaw1 (W (Proc.devRef .tc main_v576)) (W (Proc.devRef .tc main_v585)) (W (Proc.devRef .tc main_cst_166)) (W (Proc.devRef .tc main_arg1)) (W (Proc.devRef .tc main_arg3))
        (Cert.Net.ysl (W (Proc.devRef .tc main_v16)) 36 (by omega)) (W (Proc.devRef .tc main_v573)) := by
  after_results_simp <;> rfl
theorem c1_15_mask : after (hostOps1_64 (F := Ideal)) (after (hostOps1_63 (F := Ideal)) (after (hostOps1_62 (F := Ideal)) (after (hostOps1_61 (F := Ideal)) (W)))) (Proc.devRef .tc main_v613) = Cert.Net.mask (W (Proc.devRef .tc main_arg2)) 16#32 := by
  after_results_simp <;> rfl
theorem c1_15_gath : after (hostOps1_64 (F := Ideal)) (after (hostOps1_63 (F := Ideal)) (after (hostOps1_62 (F := Ideal)) (after (hostOps1_61 (F := Ideal)) (W)))) (Proc.devRef .tc main_v622)
    = Host.gather gK (Cert.Net.ysl (W (Proc.devRef .tc main_v16)) 17 (by omega)) (Cert.Net.norm (W (Proc.devRef .tc main_arg3))) := by
  after_results_simp <;> rfl
theorem c1_15_cst : after (hostOps1_64 (F := Ideal)) (after (hostOps1_63 (F := Ideal)) (after (hostOps1_62 (F := Ideal)) (after (hostOps1_61 (F := Ideal)) (W)))) (Proc.devRef .tc main_cst_177) = constant (F := Ideal) Cert.Net.S0 .f32 0x00000000#32 := by
  after_results_simp <;> rfl

/-- Label 16's four stretches. -/
theorem c1_16_a1 : after (hostOps1_68 (F := Ideal)) (after (hostOps1_67 (F := Ideal)) (after (hostOps1_66 (F := Ideal)) (after (hostOps1_65 (F := Ideal)) (W)))) (Proc.devRef .tc main_arg1) = W (Proc.devRef .tc main_arg1) := by after_results_simp
theorem c1_16_a2 : after (hostOps1_68 (F := Ideal)) (after (hostOps1_67 (F := Ideal)) (after (hostOps1_66 (F := Ideal)) (after (hostOps1_65 (F := Ideal)) (W)))) (Proc.devRef .tc main_arg2) = W (Proc.devRef .tc main_arg2) := by after_results_simp
theorem c1_16_a3 : after (hostOps1_68 (F := Ideal)) (after (hostOps1_67 (F := Ideal)) (after (hostOps1_66 (F := Ideal)) (after (hostOps1_65 (F := Ideal)) (W)))) (Proc.devRef .tc main_arg3) = W (Proc.devRef .tc main_arg3) := by after_results_simp
theorem c1_16_y : after (hostOps1_68 (F := Ideal)) (after (hostOps1_67 (F := Ideal)) (after (hostOps1_66 (F := Ideal)) (after (hostOps1_65 (F := Ideal)) (W)))) (Proc.devRef .tc main_v16) = W (Proc.devRef .tc main_v16) := by after_results_simp
theorem c1_16_acc : after (hostOps1_68 (F := Ideal)) (after (hostOps1_67 (F := Ideal)) (after (hostOps1_66 (F := Ideal)) (after (hostOps1_65 (F := Ideal)) (W)))) (Proc.devRef .tc main_v647)
    = stepRaw1 (W (Proc.devRef .tc main_v613)) (W (Proc.devRef .tc main_v622)) (W (Proc.devRef .tc main_cst_177)) (W (Proc.devRef .tc main_arg1)) (W (Proc.devRef .tc main_arg3))
        (Cert.Net.ysl (W (Proc.devRef .tc main_v16)) 37 (by omega)) (W (Proc.devRef .tc main_v610)) := by
  after_results_simp <;> rfl
theorem c1_16_mask : after (hostOps1_68 (F := Ideal)) (after (hostOps1_67 (F := Ideal)) (after (hostOps1_66 (F := Ideal)) (after (hostOps1_65 (F := Ideal)) (W)))) (Proc.devRef .tc main_v650) = Cert.Net.mask (W (Proc.devRef .tc main_arg2)) 17#32 := by
  after_results_simp <;> rfl
theorem c1_16_gath : after (hostOps1_68 (F := Ideal)) (after (hostOps1_67 (F := Ideal)) (after (hostOps1_66 (F := Ideal)) (after (hostOps1_65 (F := Ideal)) (W)))) (Proc.devRef .tc main_v659)
    = Host.gather gK (Cert.Net.ysl (W (Proc.devRef .tc main_v16)) 18 (by omega)) (Cert.Net.norm (W (Proc.devRef .tc main_arg3))) := by
  after_results_simp <;> rfl
theorem c1_16_cst : after (hostOps1_68 (F := Ideal)) (after (hostOps1_67 (F := Ideal)) (after (hostOps1_66 (F := Ideal)) (after (hostOps1_65 (F := Ideal)) (W)))) (Proc.devRef .tc main_cst_188) = constant (F := Ideal) Cert.Net.S0 .f32 0x00000000#32 := by
  after_results_simp <;> rfl

/-- Label 17's four stretches. -/
theorem c1_17_a1 : after (hostOps1_72 (F := Ideal)) (after (hostOps1_71 (F := Ideal)) (after (hostOps1_70 (F := Ideal)) (after (hostOps1_69 (F := Ideal)) (W)))) (Proc.devRef .tc main_arg1) = W (Proc.devRef .tc main_arg1) := by after_results_simp
theorem c1_17_a2 : after (hostOps1_72 (F := Ideal)) (after (hostOps1_71 (F := Ideal)) (after (hostOps1_70 (F := Ideal)) (after (hostOps1_69 (F := Ideal)) (W)))) (Proc.devRef .tc main_arg2) = W (Proc.devRef .tc main_arg2) := by after_results_simp
theorem c1_17_a3 : after (hostOps1_72 (F := Ideal)) (after (hostOps1_71 (F := Ideal)) (after (hostOps1_70 (F := Ideal)) (after (hostOps1_69 (F := Ideal)) (W)))) (Proc.devRef .tc main_arg3) = W (Proc.devRef .tc main_arg3) := by after_results_simp
theorem c1_17_y : after (hostOps1_72 (F := Ideal)) (after (hostOps1_71 (F := Ideal)) (after (hostOps1_70 (F := Ideal)) (after (hostOps1_69 (F := Ideal)) (W)))) (Proc.devRef .tc main_v16) = W (Proc.devRef .tc main_v16) := by after_results_simp
theorem c1_17_acc : after (hostOps1_72 (F := Ideal)) (after (hostOps1_71 (F := Ideal)) (after (hostOps1_70 (F := Ideal)) (after (hostOps1_69 (F := Ideal)) (W)))) (Proc.devRef .tc main_v684)
    = stepRaw1 (W (Proc.devRef .tc main_v650)) (W (Proc.devRef .tc main_v659)) (W (Proc.devRef .tc main_cst_188)) (W (Proc.devRef .tc main_arg1)) (W (Proc.devRef .tc main_arg3))
        (Cert.Net.ysl (W (Proc.devRef .tc main_v16)) 38 (by omega)) (W (Proc.devRef .tc main_v647)) := by
  after_results_simp <;> rfl
theorem c1_17_mask : after (hostOps1_72 (F := Ideal)) (after (hostOps1_71 (F := Ideal)) (after (hostOps1_70 (F := Ideal)) (after (hostOps1_69 (F := Ideal)) (W)))) (Proc.devRef .tc main_v687) = Cert.Net.mask (W (Proc.devRef .tc main_arg2)) 18#32 := by
  after_results_simp <;> rfl
theorem c1_17_gath : after (hostOps1_72 (F := Ideal)) (after (hostOps1_71 (F := Ideal)) (after (hostOps1_70 (F := Ideal)) (after (hostOps1_69 (F := Ideal)) (W)))) (Proc.devRef .tc main_v696)
    = Host.gather gK (Cert.Net.ysl (W (Proc.devRef .tc main_v16)) 19 (by omega)) (Cert.Net.norm (W (Proc.devRef .tc main_arg3))) := by
  after_results_simp <;> rfl
theorem c1_17_cst : after (hostOps1_72 (F := Ideal)) (after (hostOps1_71 (F := Ideal)) (after (hostOps1_70 (F := Ideal)) (after (hostOps1_69 (F := Ideal)) (W)))) (Proc.devRef .tc main_cst_199) = constant (F := Ideal) Cert.Net.S0 .f32 0x00000000#32 := by
  after_results_simp <;> rfl

/-- Label 18's four stretches. -/
theorem c1_18_a1 : after (hostOps1_76 (F := Ideal)) (after (hostOps1_75 (F := Ideal)) (after (hostOps1_74 (F := Ideal)) (after (hostOps1_73 (F := Ideal)) (W)))) (Proc.devRef .tc main_arg1) = W (Proc.devRef .tc main_arg1) := by after_results_simp
theorem c1_18_a2 : after (hostOps1_76 (F := Ideal)) (after (hostOps1_75 (F := Ideal)) (after (hostOps1_74 (F := Ideal)) (after (hostOps1_73 (F := Ideal)) (W)))) (Proc.devRef .tc main_arg2) = W (Proc.devRef .tc main_arg2) := by after_results_simp
theorem c1_18_a3 : after (hostOps1_76 (F := Ideal)) (after (hostOps1_75 (F := Ideal)) (after (hostOps1_74 (F := Ideal)) (after (hostOps1_73 (F := Ideal)) (W)))) (Proc.devRef .tc main_arg3) = W (Proc.devRef .tc main_arg3) := by after_results_simp
theorem c1_18_y : after (hostOps1_76 (F := Ideal)) (after (hostOps1_75 (F := Ideal)) (after (hostOps1_74 (F := Ideal)) (after (hostOps1_73 (F := Ideal)) (W)))) (Proc.devRef .tc main_v16) = W (Proc.devRef .tc main_v16) := by after_results_simp
theorem c1_18_acc : after (hostOps1_76 (F := Ideal)) (after (hostOps1_75 (F := Ideal)) (after (hostOps1_74 (F := Ideal)) (after (hostOps1_73 (F := Ideal)) (W)))) (Proc.devRef .tc main_v721)
    = stepRaw1 (W (Proc.devRef .tc main_v687)) (W (Proc.devRef .tc main_v696)) (W (Proc.devRef .tc main_cst_199)) (W (Proc.devRef .tc main_arg1)) (W (Proc.devRef .tc main_arg3))
        (Cert.Net.ysl (W (Proc.devRef .tc main_v16)) 39 (by omega)) (W (Proc.devRef .tc main_v684)) := by
  after_results_simp <;> rfl
theorem c1_18_mask : after (hostOps1_76 (F := Ideal)) (after (hostOps1_75 (F := Ideal)) (after (hostOps1_74 (F := Ideal)) (after (hostOps1_73 (F := Ideal)) (W)))) (Proc.devRef .tc main_v724) = Cert.Net.mask (W (Proc.devRef .tc main_arg2)) 19#32 := by
  after_results_simp <;> rfl
theorem c1_18_gath : after (hostOps1_76 (F := Ideal)) (after (hostOps1_75 (F := Ideal)) (after (hostOps1_74 (F := Ideal)) (after (hostOps1_73 (F := Ideal)) (W)))) (Proc.devRef .tc main_v733)
    = Host.gather gK (Cert.Net.ysl (W (Proc.devRef .tc main_v16)) 20 (by omega)) (Cert.Net.norm (W (Proc.devRef .tc main_arg3))) := by
  after_results_simp <;> rfl
theorem c1_18_cst : after (hostOps1_76 (F := Ideal)) (after (hostOps1_75 (F := Ideal)) (after (hostOps1_74 (F := Ideal)) (after (hostOps1_73 (F := Ideal)) (W)))) (Proc.devRef .tc main_cst_210) = constant (F := Ideal) Cert.Net.S0 .f32 0x00000000#32 := by
  after_results_simp <;> rfl

/-- Label 19's four stretches. -/
theorem c1_19_a1 : after (hostOps1_80 (F := Ideal)) (after (hostOps1_79 (F := Ideal)) (after (hostOps1_78 (F := Ideal)) (after (hostOps1_77 (F := Ideal)) (W)))) (Proc.devRef .tc main_arg1) = W (Proc.devRef .tc main_arg1) := by after_results_simp
theorem c1_19_a2 : after (hostOps1_80 (F := Ideal)) (after (hostOps1_79 (F := Ideal)) (after (hostOps1_78 (F := Ideal)) (after (hostOps1_77 (F := Ideal)) (W)))) (Proc.devRef .tc main_arg2) = W (Proc.devRef .tc main_arg2) := by after_results_simp
theorem c1_19_a3 : after (hostOps1_80 (F := Ideal)) (after (hostOps1_79 (F := Ideal)) (after (hostOps1_78 (F := Ideal)) (after (hostOps1_77 (F := Ideal)) (W)))) (Proc.devRef .tc main_arg3) = W (Proc.devRef .tc main_arg3) := by after_results_simp
theorem c1_19_y : after (hostOps1_80 (F := Ideal)) (after (hostOps1_79 (F := Ideal)) (after (hostOps1_78 (F := Ideal)) (after (hostOps1_77 (F := Ideal)) (W)))) (Proc.devRef .tc main_v16) = W (Proc.devRef .tc main_v16) := by after_results_simp
theorem c1_19_acc : after (hostOps1_80 (F := Ideal)) (after (hostOps1_79 (F := Ideal)) (after (hostOps1_78 (F := Ideal)) (after (hostOps1_77 (F := Ideal)) (W)))) (Proc.devRef .tc main_v758)
    = stepRaw1 (W (Proc.devRef .tc main_v724)) (W (Proc.devRef .tc main_v733)) (W (Proc.devRef .tc main_cst_210)) (W (Proc.devRef .tc main_arg1)) (W (Proc.devRef .tc main_arg3))
        (Cert.Net.ysl (W (Proc.devRef .tc main_v16)) 40 (by omega)) (W (Proc.devRef .tc main_v721)) := by
  after_results_simp <;> rfl

/-- The last two stretches take the positive part of the sum and narrow it: the next product's rows. -/
theorem t1_x : after (hostOps1_82 (F := Ideal)) (after (hostOps1_81 (F := Ideal)) (W)) (Proc.devRef .tc main_v774)
    = truncf .bf16 (Cert.Net.relu (W (Proc.devRef .tc main_v758))) (by decide) := by
  after_results_simp <;> rfl

end Stretches

/-! ## The labels in order, from buffer contents `Vv` that hold the product -/

variable (Vv : Valuation τ sig (Elt Ideal))

/-- The sum after the labels `0 … n - 1`. -/
abbrev sum1 (n : ℕ) (hn : n ≤ 20) : Cert.Net.A :=
  Cert.Net.chain gK scK (Vv (Proc.devRef .tc main_arg1)) (Vv (Proc.devRef .tc main_arg2)) (Vv (Proc.devRef .tc main_arg3)) (fun n hn => Cert.Net.ysl (Vv (Proc.devRef .tc main_v16)) (n + 1) (by omega)) (fun n hn => Cert.Net.ysl (Vv (Proc.devRef .tc main_v16)) (n + 21) (by omega))
    (Cert.Net.ysl (Vv (Proc.devRef .tc main_v16)) 0 (by omega)) n hn

/-- The buffer contents when label `r` is entered. -/
abbrev W1_0 : Valuation τ sig (Elt Ideal) := after (hostOps1 (F := Ideal)) Vv
abbrev W1_1 : Valuation τ sig (Elt Ideal) := after (hostOps1_4 (F := Ideal)) (after (hostOps1_3 (F := Ideal)) (after (hostOps1_2 (F := Ideal)) (after (hostOps1_1 (F := Ideal)) (W1_0 Vv))))
abbrev W1_2 : Valuation τ sig (Elt Ideal) := after (hostOps1_8 (F := Ideal)) (after (hostOps1_7 (F := Ideal)) (after (hostOps1_6 (F := Ideal)) (after (hostOps1_5 (F := Ideal)) (W1_1 Vv))))
abbrev W1_3 : Valuation τ sig (Elt Ideal) := after (hostOps1_12 (F := Ideal)) (after (hostOps1_11 (F := Ideal)) (after (hostOps1_10 (F := Ideal)) (after (hostOps1_9 (F := Ideal)) (W1_2 Vv))))
abbrev W1_4 : Valuation τ sig (Elt Ideal) := after (hostOps1_16 (F := Ideal)) (after (hostOps1_15 (F := Ideal)) (after (hostOps1_14 (F := Ideal)) (after (hostOps1_13 (F := Ideal)) (W1_3 Vv))))
abbrev W1_5 : Valuation τ sig (Elt Ideal) := after (hostOps1_20 (F := Ideal)) (after (hostOps1_19 (F := Ideal)) (after (hostOps1_18 (F := Ideal)) (after (hostOps1_17 (F := Ideal)) (W1_4 Vv))))
abbrev W1_6 : Valuation τ sig (Elt Ideal) := after (hostOps1_24 (F := Ideal)) (after (hostOps1_23 (F := Ideal)) (after (hostOps1_22 (F := Ideal)) (after (hostOps1_21 (F := Ideal)) (W1_5 Vv))))
abbrev W1_7 : Valuation τ sig (Elt Ideal) := after (hostOps1_28 (F := Ideal)) (after (hostOps1_27 (F := Ideal)) (after (hostOps1_26 (F := Ideal)) (after (hostOps1_25 (F := Ideal)) (W1_6 Vv))))
abbrev W1_8 : Valuation τ sig (Elt Ideal) := after (hostOps1_32 (F := Ideal)) (after (hostOps1_31 (F := Ideal)) (after (hostOps1_30 (F := Ideal)) (after (hostOps1_29 (F := Ideal)) (W1_7 Vv))))
abbrev W1_9 : Valuation τ sig (Elt Ideal) := after (hostOps1_36 (F := Ideal)) (after (hostOps1_35 (F := Ideal)) (after (hostOps1_34 (F := Ideal)) (after (hostOps1_33 (F := Ideal)) (W1_8 Vv))))
abbrev W1_10 : Valuation τ sig (Elt Ideal) := after (hostOps1_40 (F := Ideal)) (after (hostOps1_39 (F := Ideal)) (after (hostOps1_38 (F := Ideal)) (after (hostOps1_37 (F := Ideal)) (W1_9 Vv))))
abbrev W1_11 : Valuation τ sig (Elt Ideal) := after (hostOps1_44 (F := Ideal)) (after (hostOps1_43 (F := Ideal)) (after (hostOps1_42 (F := Ideal)) (after (hostOps1_41 (F := Ideal)) (W1_10 Vv))))
abbrev W1_12 : Valuation τ sig (Elt Ideal) := after (hostOps1_48 (F := Ideal)) (after (hostOps1_47 (F := Ideal)) (after (hostOps1_46 (F := Ideal)) (after (hostOps1_45 (F := Ideal)) (W1_11 Vv))))
abbrev W1_13 : Valuation τ sig (Elt Ideal) := after (hostOps1_52 (F := Ideal)) (after (hostOps1_51 (F := Ideal)) (after (hostOps1_50 (F := Ideal)) (after (hostOps1_49 (F := Ideal)) (W1_12 Vv))))
abbrev W1_14 : Valuation τ sig (Elt Ideal) := after (hostOps1_56 (F := Ideal)) (after (hostOps1_55 (F := Ideal)) (after (hostOps1_54 (F := Ideal)) (after (hostOps1_53 (F := Ideal)) (W1_13 Vv))))
abbrev W1_15 : Valuation τ sig (Elt Ideal) := after (hostOps1_60 (F := Ideal)) (after (hostOps1_59 (F := Ideal)) (after (hostOps1_58 (F := Ideal)) (after (hostOps1_57 (F := Ideal)) (W1_14 Vv))))
abbrev W1_16 : Valuation τ sig (Elt Ideal) := after (hostOps1_64 (F := Ideal)) (after (hostOps1_63 (F := Ideal)) (after (hostOps1_62 (F := Ideal)) (after (hostOps1_61 (F := Ideal)) (W1_15 Vv))))
abbrev W1_17 : Valuation τ sig (Elt Ideal) := after (hostOps1_68 (F := Ideal)) (after (hostOps1_67 (F := Ideal)) (after (hostOps1_66 (F := Ideal)) (after (hostOps1_65 (F := Ideal)) (W1_16 Vv))))
abbrev W1_18 : Valuation τ sig (Elt Ideal) := after (hostOps1_72 (F := Ideal)) (after (hostOps1_71 (F := Ideal)) (after (hostOps1_70 (F := Ideal)) (after (hostOps1_69 (F := Ideal)) (W1_17 Vv))))
abbrev W1_19 : Valuation τ sig (Elt Ideal) := after (hostOps1_76 (F := Ideal)) (after (hostOps1_75 (F := Ideal)) (after (hostOps1_74 (F := Ideal)) (after (hostOps1_73 (F := Ideal)) (W1_18 Vv))))
abbrev W1_20 : Valuation τ sig (Elt Ideal) := after (hostOps1_80 (F := Ideal)) (after (hostOps1_79 (F := Ideal)) (after (hostOps1_78 (F := Ideal)) (after (hostOps1_77 (F := Ideal)) (W1_19 Vv))))

/-- Entering label 0. -/
theorem inv1_0 : W1_0 Vv (Proc.devRef .tc main_arg1) = (Vv (Proc.devRef .tc main_arg1)) ∧ W1_0 Vv (Proc.devRef .tc main_arg2) = (Vv (Proc.devRef .tc main_arg2)) ∧ W1_0 Vv (Proc.devRef .tc main_arg3) = (Vv (Proc.devRef .tc main_arg3))
    ∧ W1_0 Vv (Proc.devRef .tc main_v16) = (Vv (Proc.devRef .tc main_v16)) ∧ W1_0 Vv (Proc.devRef .tc main_v18) = sum1 Vv 0 (by omega)
    ∧ W1_0 Vv (Proc.devRef .tc main_v21) = Cert.Net.mask (Vv (Proc.devRef .tc main_arg2)) 0#32
    ∧ W1_0 Vv (Proc.devRef .tc main_v30) = Host.gather gK (Cert.Net.ysl (Vv (Proc.devRef .tc main_v16)) 1 (by omega)) (Cert.Net.norm (Vv (Proc.devRef .tc main_arg3)))
    ∧ W1_0 Vv (Proc.devRef .tc main_cst) = constant (F := Ideal) Cert.Net.S0 .f32 0x00000000#32 :=
  ⟨h1_a1 Vv, h1_a2 Vv, h1_a3 Vv, h1_y Vv, h1_acc Vv, h1_mask Vv, h1_gath Vv, h1_cst Vv⟩

/-- Entering label 1. -/
theorem inv1_1 : W1_1 Vv (Proc.devRef .tc main_arg1) = (Vv (Proc.devRef .tc main_arg1)) ∧ W1_1 Vv (Proc.devRef .tc main_arg2) = (Vv (Proc.devRef .tc main_arg2)) ∧ W1_1 Vv (Proc.devRef .tc main_arg3) = (Vv (Proc.devRef .tc main_arg3))
    ∧ W1_1 Vv (Proc.devRef .tc main_v16) = (Vv (Proc.devRef .tc main_v16)) ∧ W1_1 Vv (Proc.devRef .tc main_v55) = sum1 Vv 1 (by omega)
    ∧ W1_1 Vv (Proc.devRef .tc main_v58) = Cert.Net.mask (Vv (Proc.devRef .tc main_arg2)) 1#32
    ∧ W1_1 Vv (Proc.devRef .tc main_v67) = Host.gather gK (Cert.Net.ysl (Vv (Proc.devRef .tc main_v16)) 2 (by omega)) (Cert.Net.norm (Vv (Proc.devRef .tc main_arg3)))
    ∧ W1_1 Vv (Proc.devRef .tc main_cst_12) = constant (F := Ideal) Cert.Net.S0 .f32 0x00000000#32 := by
  obtain ⟨h1, h2, h3, hy, ha, hm, hg, hc⟩ := inv1_0 Vv
  refine ⟨?_, ?_, ?_, ?_, ?_, ?_, ?_, ?_⟩
  · exact (c1_0_a1 (W1_0 Vv)).trans h1
  · exact (c1_0_a2 (W1_0 Vv)).trans h2
  · exact (c1_0_a3 (W1_0 Vv)).trans h3
  · exact (c1_0_y (W1_0 Vv)).trans hy
  · refine (c1_0_acc (W1_0 Vv)).trans ?_
    rw [hm, hg, hc, h1, h3, hy, ha]
    rfl
  · refine (c1_0_mask (W1_0 Vv)).trans ?_
    rw [h2]
  · refine (c1_0_gath (W1_0 Vv)).trans ?_
    rw [hy, h3]
  · exact c1_0_cst (W1_0 Vv)

/-- Entering label 2. -/
theorem inv1_2 : W1_2 Vv (Proc.devRef .tc main_arg1) = (Vv (Proc.devRef .tc main_arg1)) ∧ W1_2 Vv (Proc.devRef .tc main_arg2) = (Vv (Proc.devRef .tc main_arg2)) ∧ W1_2 Vv (Proc.devRef .tc main_arg3) = (Vv (Proc.devRef .tc main_arg3))
    ∧ W1_2 Vv (Proc.devRef .tc main_v16) = (Vv (Proc.devRef .tc main_v16)) ∧ W1_2 Vv (Proc.devRef .tc main_v92) = sum1 Vv 2 (by omega)
    ∧ W1_2 Vv (Proc.devRef .tc main_v95) = Cert.Net.mask (Vv (Proc.devRef .tc main_arg2)) 2#32
    ∧ W1_2 Vv (Proc.devRef .tc main_v104) = Host.gather gK (Cert.Net.ysl (Vv (Proc.devRef .tc main_v16)) 3 (by omega)) (Cert.Net.norm (Vv (Proc.devRef .tc main_arg3)))
    ∧ W1_2 Vv (Proc.devRef .tc main_cst_23) = constant (F := Ideal) Cert.Net.S0 .f32 0x00000000#32 := by
  obtain ⟨h1, h2, h3, hy, ha, hm, hg, hc⟩ := inv1_1 Vv
  refine ⟨?_, ?_, ?_, ?_, ?_, ?_, ?_, ?_⟩
  · exact (c1_1_a1 (W1_1 Vv)).trans h1
  · exact (c1_1_a2 (W1_1 Vv)).trans h2
  · exact (c1_1_a3 (W1_1 Vv)).trans h3
  · exact (c1_1_y (W1_1 Vv)).trans hy
  · refine (c1_1_acc (W1_1 Vv)).trans ?_
    rw [hm, hg, hc, h1, h3, hy, ha]
    rfl
  · refine (c1_1_mask (W1_1 Vv)).trans ?_
    rw [h2]
  · refine (c1_1_gath (W1_1 Vv)).trans ?_
    rw [hy, h3]
  · exact c1_1_cst (W1_1 Vv)

/-- Entering label 3. -/
theorem inv1_3 : W1_3 Vv (Proc.devRef .tc main_arg1) = (Vv (Proc.devRef .tc main_arg1)) ∧ W1_3 Vv (Proc.devRef .tc main_arg2) = (Vv (Proc.devRef .tc main_arg2)) ∧ W1_3 Vv (Proc.devRef .tc main_arg3) = (Vv (Proc.devRef .tc main_arg3))
    ∧ W1_3 Vv (Proc.devRef .tc main_v16) = (Vv (Proc.devRef .tc main_v16)) ∧ W1_3 Vv (Proc.devRef .tc main_v129) = sum1 Vv 3 (by omega)
    ∧ W1_3 Vv (Proc.devRef .tc main_v132) = Cert.Net.mask (Vv (Proc.devRef .tc main_arg2)) 3#32
    ∧ W1_3 Vv (Proc.devRef .tc main_v141) = Host.gather gK (Cert.Net.ysl (Vv (Proc.devRef .tc main_v16)) 4 (by omega)) (Cert.Net.norm (Vv (Proc.devRef .tc main_arg3)))
    ∧ W1_3 Vv (Proc.devRef .tc main_cst_34) = constant (F := Ideal) Cert.Net.S0 .f32 0x00000000#32 := by
  obtain ⟨h1, h2, h3, hy, ha, hm, hg, hc⟩ := inv1_2 Vv
  refine ⟨?_, ?_, ?_, ?_, ?_, ?_, ?_, ?_⟩
  · exact (c1_2_a1 (W1_2 Vv)).trans h1
  · exact (c1_2_a2 (W1_2 Vv)).trans h2
  · exact (c1_2_a3 (W1_2 Vv)).trans h3
  · exact (c1_2_y (W1_2 Vv)).trans hy
  · refine (c1_2_acc (W1_2 Vv)).trans ?_
    rw [hm, hg, hc, h1, h3, hy, ha]
    rfl
  · refine (c1_2_mask (W1_2 Vv)).trans ?_
    rw [h2]
  · refine (c1_2_gath (W1_2 Vv)).trans ?_
    rw [hy, h3]
  · exact c1_2_cst (W1_2 Vv)

/-- Entering label 4. -/
theorem inv1_4 : W1_4 Vv (Proc.devRef .tc main_arg1) = (Vv (Proc.devRef .tc main_arg1)) ∧ W1_4 Vv (Proc.devRef .tc main_arg2) = (Vv (Proc.devRef .tc main_arg2)) ∧ W1_4 Vv (Proc.devRef .tc main_arg3) = (Vv (Proc.devRef .tc main_arg3))
    ∧ W1_4 Vv (Proc.devRef .tc main_v16) = (Vv (Proc.devRef .tc main_v16)) ∧ W1_4 Vv (Proc.devRef .tc main_v166) = sum1 Vv 4 (by omega)
    ∧ W1_4 Vv (Proc.devRef .tc main_v169) = Cert.Net.mask (Vv (Proc.devRef .tc main_arg2)) 4#32
    ∧ W1_4 Vv (Proc.devRef .tc main_v178) = Host.gather gK (Cert.Net.ysl (Vv (Proc.devRef .tc main_v16)) 5 (by omega)) (Cert.Net.norm (Vv (Proc.devRef .tc main_arg3)))
    ∧ W1_4 Vv (Proc.devRef .tc main_cst_45) = constant (F := Ideal) Cert.Net.S0 .f32 0x00000000#32 := by
  obtain ⟨h1, h2, h3, hy, ha, hm, hg, hc⟩ := inv1_3 Vv
  refine ⟨?_, ?_, ?_, ?_, ?_, ?_, ?_, ?_⟩
  · exact (c1_3_a1 (W1_3 Vv)).trans h1
  · exact (c1_3_a2 (W1_3 Vv)).trans h2
  · exact (c1_3_a3 (W1_3 Vv)).trans h3
  · exact (c1_3_y (W1_3 Vv)).trans hy
  · refine (c1_3_acc (W1_3 Vv)).trans ?_
    rw [hm, hg, hc, h1, h3, hy, ha]
    rfl
  · refine (c1_3_mask (W1_3 Vv)).trans ?_
    rw [h2]
  · refine (c1_3_gath (W1_3 Vv)).trans ?_
    rw [hy, h3]
  · exact c1_3_cst (W1_3 Vv)

/-- Entering label 5. -/
theorem inv1_5 : W1_5 Vv (Proc.devRef .tc main_arg1) = (Vv (Proc.devRef .tc main_arg1)) ∧ W1_5 Vv (Proc.devRef .tc main_arg2) = (Vv (Proc.devRef .tc main_arg2)) ∧ W1_5 Vv (Proc.devRef .tc main_arg3) = (Vv (Proc.devRef .tc main_arg3))
    ∧ W1_5 Vv (Proc.devRef .tc main_v16) = (Vv (Proc.devRef .tc main_v16)) ∧ W1_5 Vv (Proc.devRef .tc main_v203) = sum1 Vv 5 (by omega)
    ∧ W1_5 Vv (Proc.devRef .tc main_v206) = Cert.Net.mask (Vv (Proc.devRef .tc main_arg2)) 5#32
    ∧ W1_5 Vv (Proc.devRef .tc main_v215) = Host.gather gK (Cert.Net.ysl (Vv (Proc.devRef .tc main_v16)) 6 (by omega)) (Cert.Net.norm (Vv (Proc.devRef .tc main_arg3)))
    ∧ W1_5 Vv (Proc.devRef .tc main_cst_56) = constant (F := Ideal) Cert.Net.S0 .f32 0x00000000#32 := by
  obtain ⟨h1, h2, h3, hy, ha, hm, hg, hc⟩ := inv1_4 Vv
  refine ⟨?_, ?_, ?_, ?_, ?_, ?_, ?_, ?_⟩
  · exact (c1_4_a1 (W1_4 Vv)).trans h1
  · exact (c1_4_a2 (W1_4 Vv)).trans h2
  · exact (c1_4_a3 (W1_4 Vv)).trans h3
  · exact (c1_4_y (W1_4 Vv)).trans hy
  · refine (c1_4_acc (W1_4 Vv)).trans ?_
    rw [hm, hg, hc, h1, h3, hy, ha]
    rfl
  · refine (c1_4_mask (W1_4 Vv)).trans ?_
    rw [h2]
  · refine (c1_4_gath (W1_4 Vv)).trans ?_
    rw [hy, h3]
  · exact c1_4_cst (W1_4 Vv)

/-- Entering label 6. -/
theorem inv1_6 : W1_6 Vv (Proc.devRef .tc main_arg1) = (Vv (Proc.devRef .tc main_arg1)) ∧ W1_6 Vv (Proc.devRef .tc main_arg2) = (Vv (Proc.devRef .tc main_arg2)) ∧ W1_6 Vv (Proc.devRef .tc main_arg3) = (Vv (Proc.devRef .tc main_arg3))
    ∧ W1_6 Vv (Proc.devRef .tc main_v16) = (Vv (Proc.devRef .tc main_v16)) ∧ W1_6 Vv (Proc.devRef .tc main_v240) = sum1 Vv 6 (by omega)
    ∧ W1_6 Vv (Proc.devRef .tc main_v243) = Cert.Net.mask (Vv (Proc.devRef .tc main_arg2)) 6#32
    ∧ W1_6 Vv (Proc.devRef .tc main_v252) = Host.gather gK (Cert.Net.ysl (Vv (Proc.devRef .tc main_v16)) 7 (by omega)) (Cert.Net.norm (Vv (Proc.devRef .tc main_arg3)))
    ∧ W1_6 Vv (Proc.devRef .tc main_cst_67) = constant (F := Ideal) Cert.Net.S0 .f32 0x00000000#32 := by
  obtain ⟨h1, h2, h3, hy, ha, hm, hg, hc⟩ := inv1_5 Vv
  refine ⟨?_, ?_, ?_, ?_, ?_, ?_, ?_, ?_⟩
  · exact (c1_5_a1 (W1_5 Vv)).trans h1
  · exact (c1_5_a2 (W1_5 Vv)).trans h2
  · exact (c1_5_a3 (W1_5 Vv)).trans h3
  · exact (c1_5_y (W1_5 Vv)).trans hy
  · refine (c1_5_acc (W1_5 Vv)).trans ?_
    rw [hm, hg, hc, h1, h3, hy, ha]
    rfl
  · refine (c1_5_mask (W1_5 Vv)).trans ?_
    rw [h2]
  · refine (c1_5_gath (W1_5 Vv)).trans ?_
    rw [hy, h3]
  · exact c1_5_cst (W1_5 Vv)

/-- Entering label 7. -/
theorem inv1_7 : W1_7 Vv (Proc.devRef .tc main_arg1) = (Vv (Proc.devRef .tc main_arg1)) ∧ W1_7 Vv (Proc.devRef .tc main_arg2) = (Vv (Proc.devRef .tc main_arg2)) ∧ W1_7 Vv (Proc.devRef .tc main_arg3) = (Vv (Proc.devRef .tc main_arg3))
    ∧ W1_7 Vv (Proc.devRef .tc main_v16) = (Vv (Proc.devRef .tc main_v16)) ∧ W1_7 Vv (Proc.devRef .tc main_v277) = sum1 Vv 7 (by omega)
    ∧ W1_7 Vv (Proc.devRef .tc main_v280) = Cert.Net.mask (Vv (Proc.devRef .tc main_arg2)) 7#32
    ∧ W1_7 Vv (Proc.devRef .tc main_v289) = Host.gather gK (Cert.Net.ysl (Vv (Proc.devRef .tc main_v16)) 8 (by omega)) (Cert.Net.norm (Vv (Proc.devRef .tc main_arg3)))
    ∧ W1_7 Vv (Proc.devRef .tc main_cst_78) = constant (F := Ideal) Cert.Net.S0 .f32 0x00000000#32 := by
  obtain ⟨h1, h2, h3, hy, ha, hm, hg, hc⟩ := inv1_6 Vv
  refine ⟨?_, ?_, ?_, ?_, ?_, ?_, ?_, ?_⟩
  · exact (c1_6_a1 (W1_6 Vv)).trans h1
  · exact (c1_6_a2 (W1_6 Vv)).trans h2
  · exact (c1_6_a3 (W1_6 Vv)).trans h3
  · exact (c1_6_y (W1_6 Vv)).trans hy
  · refine (c1_6_acc (W1_6 Vv)).trans ?_
    rw [hm, hg, hc, h1, h3, hy, ha]
    rfl
  · refine (c1_6_mask (W1_6 Vv)).trans ?_
    rw [h2]
  · refine (c1_6_gath (W1_6 Vv)).trans ?_
    rw [hy, h3]
  · exact c1_6_cst (W1_6 Vv)

/-- Entering label 8. -/
theorem inv1_8 : W1_8 Vv (Proc.devRef .tc main_arg1) = (Vv (Proc.devRef .tc main_arg1)) ∧ W1_8 Vv (Proc.devRef .tc main_arg2) = (Vv (Proc.devRef .tc main_arg2)) ∧ W1_8 Vv (Proc.devRef .tc main_arg3) = (Vv (Proc.devRef .tc main_arg3))
    ∧ W1_8 Vv (Proc.devRef .tc main_v16) = (Vv (Proc.devRef .tc main_v16)) ∧ W1_8 Vv (Proc.devRef .tc main_v314) = sum1 Vv 8 (by omega)
    ∧ W1_8 Vv (Proc.devRef .tc main_v317) = Cert.Net.mask (Vv (Proc.devRef .tc main_arg2)) 8#32
    ∧ W1_8 Vv (Proc.devRef .tc main_v326) = Host.gather gK (Cert.Net.ysl (Vv (Proc.devRef .tc main_v16)) 9 (by omega)) (Cert.Net.norm (Vv (Proc.devRef .tc main_arg3)))
    ∧ W1_8 Vv (Proc.devRef .tc main_cst_89) = constant (F := Ideal) Cert.Net.S0 .f32 0x00000000#32 := by
  obtain ⟨h1, h2, h3, hy, ha, hm, hg, hc⟩ := inv1_7 Vv
  refine ⟨?_, ?_, ?_, ?_, ?_, ?_, ?_, ?_⟩
  · exact (c1_7_a1 (W1_7 Vv)).trans h1
  · exact (c1_7_a2 (W1_7 Vv)).trans h2
  · exact (c1_7_a3 (W1_7 Vv)).trans h3
  · exact (c1_7_y (W1_7 Vv)).trans hy
  · refine (c1_7_acc (W1_7 Vv)).trans ?_
    rw [hm, hg, hc, h1, h3, hy, ha]
    rfl
  · refine (c1_7_mask (W1_7 Vv)).trans ?_
    rw [h2]
  · refine (c1_7_gath (W1_7 Vv)).trans ?_
    rw [hy, h3]
  · exact c1_7_cst (W1_7 Vv)

/-- Entering label 9. -/
theorem inv1_9 : W1_9 Vv (Proc.devRef .tc main_arg1) = (Vv (Proc.devRef .tc main_arg1)) ∧ W1_9 Vv (Proc.devRef .tc main_arg2) = (Vv (Proc.devRef .tc main_arg2)) ∧ W1_9 Vv (Proc.devRef .tc main_arg3) = (Vv (Proc.devRef .tc main_arg3))
    ∧ W1_9 Vv (Proc.devRef .tc main_v16) = (Vv (Proc.devRef .tc main_v16)) ∧ W1_9 Vv (Proc.devRef .tc main_v351) = sum1 Vv 9 (by omega)
    ∧ W1_9 Vv (Proc.devRef .tc main_v354) = Cert.Net.mask (Vv (Proc.devRef .tc main_arg2)) 9#32
    ∧ W1_9 Vv (Proc.devRef .tc main_v363) = Host.gather gK (Cert.Net.ysl (Vv (Proc.devRef .tc main_v16)) 10 (by omega)) (Cert.Net.norm (Vv (Proc.devRef .tc main_arg3)))
    ∧ W1_9 Vv (Proc.devRef .tc main_cst_100) = constant (F := Ideal) Cert.Net.S0 .f32 0x00000000#32 := by
  obtain ⟨h1, h2, h3, hy, ha, hm, hg, hc⟩ := inv1_8 Vv
  refine ⟨?_, ?_, ?_, ?_, ?_, ?_, ?_, ?_⟩
  · exact (c1_8_a1 (W1_8 Vv)).trans h1
  · exact (c1_8_a2 (W1_8 Vv)).trans h2
  · exact (c1_8_a3 (W1_8 Vv)).trans h3
  · exact (c1_8_y (W1_8 Vv)).trans hy
  · refine (c1_8_acc (W1_8 Vv)).trans ?_
    rw [hm, hg, hc, h1, h3, hy, ha]
    rfl
  · refine (c1_8_mask (W1_8 Vv)).trans ?_
    rw [h2]
  · refine (c1_8_gath (W1_8 Vv)).trans ?_
    rw [hy, h3]
  · exact c1_8_cst (W1_8 Vv)

/-- Entering label 10. -/
theorem inv1_10 : W1_10 Vv (Proc.devRef .tc main_arg1) = (Vv (Proc.devRef .tc main_arg1)) ∧ W1_10 Vv (Proc.devRef .tc main_arg2) = (Vv (Proc.devRef .tc main_arg2)) ∧ W1_10 Vv (Proc.devRef .tc main_arg3) = (Vv (Proc.devRef .tc main_arg3))
    ∧ W1_10 Vv (Proc.devRef .tc main_v16) = (Vv (Proc.devRef .tc main_v16)) ∧ W1_10 Vv (Proc.devRef .tc main_v388) = sum1 Vv 10 (by omega)
    ∧ W1_10 Vv (Proc.devRef .tc main_v391) = Cert.Net.mask (Vv (Proc.devRef .tc main_arg2)) 10#32
    ∧ W1_10 Vv (Proc.devRef .tc main_v400) = Host.gather gK (Cert.Net.ysl (Vv (Proc.devRef .tc main_v16)) 11 (by omega)) (Cert.Net.norm (Vv (Proc.devRef .tc main_arg3)))
    ∧ W1_10 Vv (Proc.devRef .tc main_cst_111) = constant (F := Ideal) Cert.Net.S0 .f32 0x00000000#32 := by
  obtain ⟨h1, h2, h3, hy, ha, hm, hg, hc⟩ := inv1_9 Vv
  refine ⟨?_, ?_, ?_, ?_, ?_, ?_, ?_, ?_⟩
  · exact (c1_9_a1 (W1_9 Vv)).trans h1
  · exact (c1_9_a2 (W1_9 Vv)).trans h2
  · exact (c1_9_a3 (W1_9 Vv)).trans h3
  · exact (c1_9_y (W1_9 Vv)).trans hy
  · refine (c1_9_acc (W1_9 Vv)).trans ?_
    rw [hm, hg, hc, h1, h3, hy, ha]
    rfl
  · refine (c1_9_mask (W1_9 Vv)).trans ?_
    rw [h2]
  · refine (c1_9_gath (W1_9 Vv)).trans ?_
    rw [hy, h3]
  · exact c1_9_cst (W1_9 Vv)

/-- Entering label 11. -/
theorem inv1_11 : W1_11 Vv (Proc.devRef .tc main_arg1) = (Vv (Proc.devRef .tc main_arg1)) ∧ W1_11 Vv (Proc.devRef .tc main_arg2) = (Vv (Proc.devRef .tc main_arg2)) ∧ W1_11 Vv (Proc.devRef .tc main_arg3) = (Vv (Proc.devRef .tc main_arg3))
    ∧ W1_11 Vv (Proc.devRef .tc main_v16) = (Vv (Proc.devRef .tc main_v16)) ∧ W1_11 Vv (Proc.devRef .tc main_v425) = sum1 Vv 11 (by omega)
    ∧ W1_11 Vv (Proc.devRef .tc main_v428) = Cert.Net.mask (Vv (Proc.devRef .tc main_arg2)) 11#32
    ∧ W1_11 Vv (Proc.devRef .tc main_v437) = Host.gather gK (Cert.Net.ysl (Vv (Proc.devRef .tc main_v16)) 12 (by omega)) (Cert.Net.norm (Vv (Proc.devRef .tc main_arg3)))
    ∧ W1_11 Vv (Proc.devRef .tc main_cst_122) = constant (F := Ideal) Cert.Net.S0 .f32 0x00000000#32 := by
  obtain ⟨h1, h2, h3, hy, ha, hm, hg, hc⟩ := inv1_10 Vv
  refine ⟨?_, ?_, ?_, ?_, ?_, ?_, ?_, ?_⟩
  · exact (c1_10_a1 (W1_10 Vv)).trans h1
  · exact (c1_10_a2 (W1_10 Vv)).trans h2
  · exact (c1_10_a3 (W1_10 Vv)).trans h3
  · exact (c1_10_y (W1_10 Vv)).trans hy
  · refine (c1_10_acc (W1_10 Vv)).trans ?_
    rw [hm, hg, hc, h1, h3, hy, ha]
    rfl
  · refine (c1_10_mask (W1_10 Vv)).trans ?_
    rw [h2]
  · refine (c1_10_gath (W1_10 Vv)).trans ?_
    rw [hy, h3]
  · exact c1_10_cst (W1_10 Vv)

/-- Entering label 12. -/
theorem inv1_12 : W1_12 Vv (Proc.devRef .tc main_arg1) = (Vv (Proc.devRef .tc main_arg1)) ∧ W1_12 Vv (Proc.devRef .tc main_arg2) = (Vv (Proc.devRef .tc main_arg2)) ∧ W1_12 Vv (Proc.devRef .tc main_arg3) = (Vv (Proc.devRef .tc main_arg3))
    ∧ W1_12 Vv (Proc.devRef .tc main_v16) = (Vv (Proc.devRef .tc main_v16)) ∧ W1_12 Vv (Proc.devRef .tc main_v462) = sum1 Vv 12 (by omega)
    ∧ W1_12 Vv (Proc.devRef .tc main_v465) = Cert.Net.mask (Vv (Proc.devRef .tc main_arg2)) 12#32
    ∧ W1_12 Vv (Proc.devRef .tc main_v474) = Host.gather gK (Cert.Net.ysl (Vv (Proc.devRef .tc main_v16)) 13 (by omega)) (Cert.Net.norm (Vv (Proc.devRef .tc main_arg3)))
    ∧ W1_12 Vv (Proc.devRef .tc main_cst_133) = constant (F := Ideal) Cert.Net.S0 .f32 0x00000000#32 := by
  obtain ⟨h1, h2, h3, hy, ha, hm, hg, hc⟩ := inv1_11 Vv
  refine ⟨?_, ?_, ?_, ?_, ?_, ?_, ?_, ?_⟩
  · exact (c1_11_a1 (W1_11 Vv)).trans h1
  · exact (c1_11_a2 (W1_11 Vv)).trans h2
  · exact (c1_11_a3 (W1_11 Vv)).trans h3
  · exact (c1_11_y (W1_11 Vv)).trans hy
  · refine (c1_11_acc (W1_11 Vv)).trans ?_
    rw [hm, hg, hc, h1, h3, hy, ha]
    rfl
  · refine (c1_11_mask (W1_11 Vv)).trans ?_
    rw [h2]
  · refine (c1_11_gath (W1_11 Vv)).trans ?_
    rw [hy, h3]
  · exact c1_11_cst (W1_11 Vv)

/-- Entering label 13. -/
theorem inv1_13 : W1_13 Vv (Proc.devRef .tc main_arg1) = (Vv (Proc.devRef .tc main_arg1)) ∧ W1_13 Vv (Proc.devRef .tc main_arg2) = (Vv (Proc.devRef .tc main_arg2)) ∧ W1_13 Vv (Proc.devRef .tc main_arg3) = (Vv (Proc.devRef .tc main_arg3))
    ∧ W1_13 Vv (Proc.devRef .tc main_v16) = (Vv (Proc.devRef .tc main_v16)) ∧ W1_13 Vv (Proc.devRef .tc main_v499) = sum1 Vv 13 (by omega)
    ∧ W1_13 Vv (Proc.devRef .tc main_v502) = Cert.Net.mask (Vv (Proc.devRef .tc main_arg2)) 13#32
    ∧ W1_13 Vv (Proc.devRef .tc main_v511) = Host.gather gK (Cert.Net.ysl (Vv (Proc.devRef .tc main_v16)) 14 (by omega)) (Cert.Net.norm (Vv (Proc.devRef .tc main_arg3)))
    ∧ W1_13 Vv (Proc.devRef .tc main_cst_144) = constant (F := Ideal) Cert.Net.S0 .f32 0x00000000#32 := by
  obtain ⟨h1, h2, h3, hy, ha, hm, hg, hc⟩ := inv1_12 Vv
  refine ⟨?_, ?_, ?_, ?_, ?_, ?_, ?_, ?_⟩
  · exact (c1_12_a1 (W1_12 Vv)).trans h1
  · exact (c1_12_a2 (W1_12 Vv)).trans h2
  · exact (c1_12_a3 (W1_12 Vv)).trans h3
  · exact (c1_12_y (W1_12 Vv)).trans hy
  · refine (c1_12_acc (W1_12 Vv)).trans ?_
    rw [hm, hg, hc, h1, h3, hy, ha]
    rfl
  · refine (c1_12_mask (W1_12 Vv)).trans ?_
    rw [h2]
  · refine (c1_12_gath (W1_12 Vv)).trans ?_
    rw [hy, h3]
  · exact c1_12_cst (W1_12 Vv)

/-- Entering label 14. -/
theorem inv1_14 : W1_14 Vv (Proc.devRef .tc main_arg1) = (Vv (Proc.devRef .tc main_arg1)) ∧ W1_14 Vv (Proc.devRef .tc main_arg2) = (Vv (Proc.devRef .tc main_arg2)) ∧ W1_14 Vv (Proc.devRef .tc main_arg3) = (Vv (Proc.devRef .tc main_arg3))
    ∧ W1_14 Vv (Proc.devRef .tc main_v16) = (Vv (Proc.devRef .tc main_v16)) ∧ W1_14 Vv (Proc.devRef .tc main_v536) = sum1 Vv 14 (by omega)
    ∧ W1_14 Vv (Proc.devRef .tc main_v539) = Cert.Net.mask (Vv (Proc.devRef .tc main_arg2)) 14#32
    ∧ W1_14 Vv (Proc.devRef .tc main_v548) = Host.gather gK (Cert.Net.ysl (Vv (Proc.devRef .tc main_v16)) 15 (by omega)) (Cert.Net.norm (Vv (Proc.devRef .tc main_arg3)))
    ∧ W1_14 Vv (Proc.devRef .tc main_cst_155) = constant (F := Ideal) Cert.Net.S0 .f32 0x00000000#32 := by
  obtain ⟨h1, h2, h3, hy, ha, hm, hg, hc⟩ := inv1_13 Vv
  refine ⟨?_, ?_, ?_, ?_, ?_, ?_, ?_, ?_⟩
  · exact (c1_13_a1 (W1_13 Vv)).trans h1
  · exact (c1_13_a2 (W1_13 Vv)).trans h2
  · exact (c1_13_a3 (W1_13 Vv)).trans h3
  · exact (c1_13_y (W1_13 Vv)).trans hy
  · refine (c1_13_acc (W1_13 Vv)).trans ?_
    rw [hm, hg, hc, h1, h3, hy, ha]
    rfl
  · refine (c1_13_mask (W1_13 Vv)).trans ?_
    rw [h2]
  · refine (c1_13_gath (W1_13 Vv)).trans ?_
    rw [hy, h3]
  · exact c1_13_cst (W1_13 Vv)

/-- Entering label 15. -/
theorem inv1_15 : W1_15 Vv (Proc.devRef .tc main_arg1) = (Vv (Proc.devRef .tc main_arg1)) ∧ W1_15 Vv (Proc.devRef .tc main_arg2) = (Vv (Proc.devRef .tc main_arg2)) ∧ W1_15 Vv (Proc.devRef .tc main_arg3) = (Vv (Proc.devRef .tc main_arg3))
    ∧ W1_15 Vv (Proc.devRef .tc main_v16) = (Vv (Proc.devRef .tc main_v16)) ∧ W1_15 Vv (Proc.devRef .tc main_v573) = sum1 Vv 15 (by omega)
    ∧ W1_15 Vv (Proc.devRef .tc main_v576) = Cert.Net.mask (Vv (Proc.devRef .tc main_arg2)) 15#32
    ∧ W1_15 Vv (Proc.devRef .tc main_v585) = Host.gather gK (Cert.Net.ysl (Vv (Proc.devRef .tc main_v16)) 16 (by omega)) (Cert.Net.norm (Vv (Proc.devRef .tc main_arg3)))
    ∧ W1_15 Vv (Proc.devRef .tc main_cst_166) = constant (F := Ideal) Cert.Net.S0 .f32 0x00000000#32 := by
  obtain ⟨h1, h2, h3, hy, ha, hm, hg, hc⟩ := inv1_14 Vv
  refine ⟨?_, ?_, ?_, ?_, ?_, ?_, ?_, ?_⟩
  · exact (c1_14_a1 (W1_14 Vv)).trans h1
  · exact (c1_14_a2 (W1_14 Vv)).trans h2
  · exact (c1_14_a3 (W1_14 Vv)).trans h3
  · exact (c1_14_y (W1_14 Vv)).trans hy
  · refine (c1_14_acc (W1_14 Vv)).trans ?_
    rw [hm, hg, hc, h1, h3, hy, ha]
    rfl
  · refine (c1_14_mask (W1_14 Vv)).trans ?_
    rw [h2]
  · refine (c1_14_gath (W1_14 Vv)).trans ?_
    rw [hy, h3]
  · exact c1_14_cst (W1_14 Vv)

/-- Entering label 16. -/
theorem inv1_16 : W1_16 Vv (Proc.devRef .tc main_arg1) = (Vv (Proc.devRef .tc main_arg1)) ∧ W1_16 Vv (Proc.devRef .tc main_arg2) = (Vv (Proc.devRef .tc main_arg2)) ∧ W1_16 Vv (Proc.devRef .tc main_arg3) = (Vv (Proc.devRef .tc main_arg3))
    ∧ W1_16 Vv (Proc.devRef .tc main_v16) = (Vv (Proc.devRef .tc main_v16)) ∧ W1_16 Vv (Proc.devRef .tc main_v610) = sum1 Vv 16 (by omega)
    ∧ W1_16 Vv (Proc.devRef .tc main_v613) = Cert.Net.mask (Vv (Proc.devRef .tc main_arg2)) 16#32
    ∧ W1_16 Vv (Proc.devRef .tc main_v622) = Host.gather gK (Cert.Net.ysl (Vv (Proc.devRef .tc main_v16)) 17 (by omega)) (Cert.Net.norm (Vv (Proc.devRef .tc main_arg3)))
    ∧ W1_16 Vv (Proc.devRef .tc main_cst_177) = constant (F := Ideal) Cert.Net.S0 .f32 0x00000000#32 := by
  obtain ⟨h1, h2, h3, hy, ha, hm, hg, hc⟩ := inv1_15 Vv
  refine ⟨?_, ?_, ?_, ?_, ?_, ?_, ?_, ?_⟩
  · exact (c1_15_a1 (W1_15 Vv)).trans h1
  · exact (c1_15_a2 (W1_15 Vv)).trans h2
  · exact (c1_15_a3 (W1_15 Vv)).trans h3
  · exact (c1_15_y (W1_15 Vv)).trans hy
  · refine (c1_15_acc (W1_15 Vv)).trans ?_
    rw [hm, hg, hc, h1, h3, hy, ha]
    rfl
  · refine (c1_15_mask (W1_15 Vv)).trans ?_
    rw [h2]
  · refine (c1_15_gath (W1_15 Vv)).trans ?_
    rw [hy, h3]
  · exact c1_15_cst (W1_15 Vv)

/-- Entering label 17. -/
theorem inv1_17 : W1_17 Vv (Proc.devRef .tc main_arg1) = (Vv (Proc.devRef .tc main_arg1)) ∧ W1_17 Vv (Proc.devRef .tc main_arg2) = (Vv (Proc.devRef .tc main_arg2)) ∧ W1_17 Vv (Proc.devRef .tc main_arg3) = (Vv (Proc.devRef .tc main_arg3))
    ∧ W1_17 Vv (Proc.devRef .tc main_v16) = (Vv (Proc.devRef .tc main_v16)) ∧ W1_17 Vv (Proc.devRef .tc main_v647) = sum1 Vv 17 (by omega)
    ∧ W1_17 Vv (Proc.devRef .tc main_v650) = Cert.Net.mask (Vv (Proc.devRef .tc main_arg2)) 17#32
    ∧ W1_17 Vv (Proc.devRef .tc main_v659) = Host.gather gK (Cert.Net.ysl (Vv (Proc.devRef .tc main_v16)) 18 (by omega)) (Cert.Net.norm (Vv (Proc.devRef .tc main_arg3)))
    ∧ W1_17 Vv (Proc.devRef .tc main_cst_188) = constant (F := Ideal) Cert.Net.S0 .f32 0x00000000#32 := by
  obtain ⟨h1, h2, h3, hy, ha, hm, hg, hc⟩ := inv1_16 Vv
  refine ⟨?_, ?_, ?_, ?_, ?_, ?_, ?_, ?_⟩
  · exact (c1_16_a1 (W1_16 Vv)).trans h1
  · exact (c1_16_a2 (W1_16 Vv)).trans h2
  · exact (c1_16_a3 (W1_16 Vv)).trans h3
  · exact (c1_16_y (W1_16 Vv)).trans hy
  · refine (c1_16_acc (W1_16 Vv)).trans ?_
    rw [hm, hg, hc, h1, h3, hy, ha]
    rfl
  · refine (c1_16_mask (W1_16 Vv)).trans ?_
    rw [h2]
  · refine (c1_16_gath (W1_16 Vv)).trans ?_
    rw [hy, h3]
  · exact c1_16_cst (W1_16 Vv)

/-- Entering label 18. -/
theorem inv1_18 : W1_18 Vv (Proc.devRef .tc main_arg1) = (Vv (Proc.devRef .tc main_arg1)) ∧ W1_18 Vv (Proc.devRef .tc main_arg2) = (Vv (Proc.devRef .tc main_arg2)) ∧ W1_18 Vv (Proc.devRef .tc main_arg3) = (Vv (Proc.devRef .tc main_arg3))
    ∧ W1_18 Vv (Proc.devRef .tc main_v16) = (Vv (Proc.devRef .tc main_v16)) ∧ W1_18 Vv (Proc.devRef .tc main_v684) = sum1 Vv 18 (by omega)
    ∧ W1_18 Vv (Proc.devRef .tc main_v687) = Cert.Net.mask (Vv (Proc.devRef .tc main_arg2)) 18#32
    ∧ W1_18 Vv (Proc.devRef .tc main_v696) = Host.gather gK (Cert.Net.ysl (Vv (Proc.devRef .tc main_v16)) 19 (by omega)) (Cert.Net.norm (Vv (Proc.devRef .tc main_arg3)))
    ∧ W1_18 Vv (Proc.devRef .tc main_cst_199) = constant (F := Ideal) Cert.Net.S0 .f32 0x00000000#32 := by
  obtain ⟨h1, h2, h3, hy, ha, hm, hg, hc⟩ := inv1_17 Vv
  refine ⟨?_, ?_, ?_, ?_, ?_, ?_, ?_, ?_⟩
  · exact (c1_17_a1 (W1_17 Vv)).trans h1
  · exact (c1_17_a2 (W1_17 Vv)).trans h2
  · exact (c1_17_a3 (W1_17 Vv)).trans h3
  · exact (c1_17_y (W1_17 Vv)).trans hy
  · refine (c1_17_acc (W1_17 Vv)).trans ?_
    rw [hm, hg, hc, h1, h3, hy, ha]
    rfl
  · refine (c1_17_mask (W1_17 Vv)).trans ?_
    rw [h2]
  · refine (c1_17_gath (W1_17 Vv)).trans ?_
    rw [hy, h3]
  · exact c1_17_cst (W1_17 Vv)

/-- Entering label 19. -/
theorem inv1_19 : W1_19 Vv (Proc.devRef .tc main_arg1) = (Vv (Proc.devRef .tc main_arg1)) ∧ W1_19 Vv (Proc.devRef .tc main_arg2) = (Vv (Proc.devRef .tc main_arg2)) ∧ W1_19 Vv (Proc.devRef .tc main_arg3) = (Vv (Proc.devRef .tc main_arg3))
    ∧ W1_19 Vv (Proc.devRef .tc main_v16) = (Vv (Proc.devRef .tc main_v16)) ∧ W1_19 Vv (Proc.devRef .tc main_v721) = sum1 Vv 19 (by omega)
    ∧ W1_19 Vv (Proc.devRef .tc main_v724) = Cert.Net.mask (Vv (Proc.devRef .tc main_arg2)) 19#32
    ∧ W1_19 Vv (Proc.devRef .tc main_v733) = Host.gather gK (Cert.Net.ysl (Vv (Proc.devRef .tc main_v16)) 20 (by omega)) (Cert.Net.norm (Vv (Proc.devRef .tc main_arg3)))
    ∧ W1_19 Vv (Proc.devRef .tc main_cst_210) = constant (F := Ideal) Cert.Net.S0 .f32 0x00000000#32 := by
  obtain ⟨h1, h2, h3, hy, ha, hm, hg, hc⟩ := inv1_18 Vv
  refine ⟨?_, ?_, ?_, ?_, ?_, ?_, ?_, ?_⟩
  · exact (c1_18_a1 (W1_18 Vv)).trans h1
  · exact (c1_18_a2 (W1_18 Vv)).trans h2
  · exact (c1_18_a3 (W1_18 Vv)).trans h3
  · exact (c1_18_y (W1_18 Vv)).trans hy
  · refine (c1_18_acc (W1_18 Vv)).trans ?_
    rw [hm, hg, hc, h1, h3, hy, ha]
    rfl
  · refine (c1_18_mask (W1_18 Vv)).trans ?_
    rw [h2]
  · refine (c1_18_gath (W1_18 Vv)).trans ?_
    rw [hy, h3]
  · exact c1_18_cst (W1_18 Vv)

/-- After the twenty labels the sum's buffer holds the layer's sum. -/
theorem inv1_20 : W1_20 Vv (Proc.devRef .tc main_v758) = sum1 Vv 20 (le_refl _) := by
  obtain ⟨h1, h2, h3, hy, ha, hm, hg, hc⟩ := inv1_19 Vv
  refine (c1_19_acc (W1_19 Vv)).trans ?_
  rw [hm, hg, hc, h1, h3, hy, ha]
  rfl

/-! ## The whole stretch -/

/-- The buffer contents after the whole stretch. -/
abbrev after1 : Valuation τ sig (Elt Ideal) := after (hostOps1_82 (F := Ideal)) (after (hostOps1_81 (F := Ideal)) (after (hostOps1_80 (F := Ideal)) (after (hostOps1_79 (F := Ideal)) (after (hostOps1_78 (F := Ideal)) (after (hostOps1_77 (F := Ideal)) (after (hostOps1_76 (F := Ideal)) (after (hostOps1_75 (F := Ideal)) (after (hostOps1_74 (F := Ideal)) (after (hostOps1_73 (F := Ideal)) (after (hostOps1_72 (F := Ideal)) (after (hostOps1_71 (F := Ideal)) (after (hostOps1_70 (F := Ideal)) (after (hostOps1_69 (F := Ideal)) (after (hostOps1_68 (F := Ideal)) (after (hostOps1_67 (F := Ideal)) (after (hostOps1_66 (F := Ideal)) (after (hostOps1_65 (F := Ideal)) (after (hostOps1_64 (F := Ideal)) (after (hostOps1_63 (F := Ideal)) (after (hostOps1_62 (F := Ideal)) (after (hostOps1_61 (F := Ideal)) (after (hostOps1_60 (F := Ideal)) (after (hostOps1_59 (F := Ideal)) (after (hostOps1_58 (F := Ideal)) (after (hostOps1_57 (F := Ideal)) (after (hostOps1_56 (F := Ideal)) (after (hostOps1_55 (F := Ideal)) (after (hostOps1_54 (F := Ideal)) (after (hostOps1_53 (F := Ideal)) (after (hostOps1_52 (F := Ideal)) (after (hostOps1_51 (F := Ideal)) (after (hostOps1_50 (F := Ideal)) (after (hostOps1_49 (F := Ideal)) (after (hostOps1_48 (F := Ideal)) (after (hostOps1_47 (F := Ideal)) (after (hostOps1_46 (F := Ideal)) (after (hostOps1_45 (F := Ideal)) (after (hostOps1_44 (F := Ideal)) (after (hostOps1_43 (F := Ideal)) (after (hostOps1_42 (F := Ideal)) (after (hostOps1_41 (F := Ideal)) (after (hostOps1_40 (F := Ideal)) (after (hostOps1_39 (F := Ideal)) (after (hostOps1_38 (F := Ideal)) (after (hostOps1_37 (F := Ideal)) (after (hostOps1_36 (F := Ideal)) (after (hostOps1_35 (F := Ideal)) (after (hostOps1_34 (F := Ideal)) (after (hostOps1_33 (F := Ideal)) (after (hostOps1_32 (F := Ideal)) (after (hostOps1_31 (F := Ideal)) (after (hostOps1_30 (F := Ideal)) (after (hostOps1_29 (F := Ideal)) (after (hostOps1_28 (F := Ideal)) (after (hostOps1_27 (F := Ideal)) (after (hostOps1_26 (F := Ideal)) (after (hostOps1_25 (F := Ideal)) (after (hostOps1_24 (F := Ideal)) (after (hostOps1_23 (F := Ideal)) (after (hostOps1_22 (F := Ideal)) (after (hostOps1_21 (F := Ideal)) (after (hostOps1_20 (F := Ideal)) (after (hostOps1_19 (F := Ideal)) (after (hostOps1_18 (F := Ideal)) (after (hostOps1_17 (F := Ideal)) (after (hostOps1_16 (F := Ideal)) (after (hostOps1_15 (F := Ideal)) (after (hostOps1_14 (F := Ideal)) (after (hostOps1_13 (F := Ideal)) (after (hostOps1_12 (F := Ideal)) (after (hostOps1_11 (F := Ideal)) (after (hostOps1_10 (F := Ideal)) (after (hostOps1_9 (F := Ideal)) (after (hostOps1_8 (F := Ideal)) (after (hostOps1_7 (F := Ideal)) (after (hostOps1_6 (F := Ideal)) (after (hostOps1_5 (F := Ideal)) (after (hostOps1_4 (F := Ideal)) (after (hostOps1_3 (F := Ideal)) (after (hostOps1_2 (F := Ideal)) (after (hostOps1_1 (F := Ideal)) (after (hostOps1 (F := Ideal)) (Vv)))))))))))))))))))))))))))))))))))))))))))))))))))))))))))))))))))))))))))))))))))

/-- The next product's rows are the layer over the product `Vv` holds, narrowed. -/
theorem mid1_x : after1 Vv (Proc.devRef .tc main_v774)
    = truncf .bf16 (Cert.Net.kerLayerOf gK scK (Vv (Proc.devRef .tc main_arg1)) (Vv (Proc.devRef .tc main_arg2)) (Vv (Proc.devRef .tc main_arg3)) (Vv (Proc.devRef .tc main_v16))) (by decide) := by
  show after (hostOps1_82 (F := Ideal)) (after (hostOps1_81 (F := Ideal)) (W1_20 Vv)) (Proc.devRef .tc main_v774) = _
  refine (t1_x (W1_20 Vv)).trans ?_
  rw [inv1_20 Vv]
  rfl

/-- The last of these stretches alone, from any contents: the second product's stacked weights. -/
theorem last1_w : after (hostOps1_82 (F := Ideal)) Vv (Proc.devRef .tc main_v775)
    = Cert.Net.wstack (Cert.Net.Wself (Vv (Proc.devRef .tc main_arg4)) 1 (by omega)) (Cert.Net.W40 (Vv (Proc.devRef .tc main_arg6)) 1 (by omega)) := by
  after_results_simp <;> rfl

/-- The last of these stretches alone, from any contents: the second product's stacked bias rows. -/
theorem last1_b : after (hostOps1_82 (F := Ideal)) Vv (Proc.devRef .tc main_v773)
    = Cert.Net.bstack (Cert.Net.bself (Vv (Proc.devRef .tc main_arg5)) 1 (by omega)) (Cert.Net.b40 (Vv (Proc.devRef .tc main_arg7)) 1 (by omega)) := by
  after_results_simp <;> rfl

end Cert.KernelIdeal.Walk

end
-- ==== Proof.KWalk2.lean ====
/-
  The host operations between the second and the third stacked product, from any buffer contents `Vv` that hold the
  second product in its result array: the second layer's forty masked messages added to slice 0, the positive part, and
  the third product's operands — the layer's result and the output projection's transposed weights and bias row.

  The stretch is read label by label.  Entering label `r` the buffers hold the sum so far, the label's mask column,
  the first message's gathered rows and a zero scalar; the label's operations add the two masked messages and leave the
  same four things for label `r + 1`, touching neither the product nor the three index arrays.  Twenty such steps are
  the layer's sum in the order of the labels.
-/
import proofs.«143303_j18098992185957_1_alg».proof.Proof.Gen.KernelIdeal.Launch
import proofs.«143303_j18098992185957_1_alg».proof.Proof.NetOps
import Idealize.ShloMosaic.Lib.StableHlo.Run

set_option maxRecDepth 65536

noncomputable section

namespace Cert.KernelIdeal.Walk

open Cert.KernelIdeal Cert.KernelIdeal.Gen Idealize.ShloMosaic Idealize.ShloMosaic.TcCoe Idealize.SL.Sem Idealize.ShloMosaic.StableHlo

local notation "gK" => gather_S8192x512_S8192x1_S8192x512_1_0_n_n_0_1_1512
local notation "scK" => scatter_S8192x512_S8192x1_S8192x512_1_0_0_1

/-- One label's two masked messages added to `acc`, from what the buffers hold when the label is entered: the label's
    mask column `mk`, the first message's gathered rows `gath`, and the zero scalar `z`; the second message gathers the
    rows of `hb` at the dependents. -/
def stepRaw2 (mk : IVec Cert.Net.C1 1) (gath : Cert.Net.A) (z : FVec Ideal Cert.Net.S0 .f32) (dep gov : Cert.Net.Ix)
    (hb acc : Cert.Net.A) : Cert.Net.A :=
  Host.scatterAdd scK
    (Host.scatterAdd scK acc (Cert.Net.norm dep)
      (select (broadcastInDim Cert.Net.X ![0, 1] (by decide) mk) gath (broadcastInDim Cert.Net.X ![] (by decide) z)))
    (Cert.Net.norm gov) (Cert.Net.whereZ mk (Host.gather gK hb (Cert.Net.norm dep)))

/-! ## The stretches, from any buffer contents `W` -/

section Stretches
variable (W : Valuation τ sig (Elt Ideal))

/-- The first stretch leaves slice 0 of the product as the sum's start, label 0's mask column, label 0's first
    gathered rows and a zero scalar, and touches neither the product nor the index arrays. -/
theorem h2_a1 : after (hostOps2 (F := Ideal)) W (Proc.devRef .tc main_arg1) = W (Proc.devRef .tc main_arg1) := by after_results_simp
theorem h2_a2 : after (hostOps2 (F := Ideal)) W (Proc.devRef .tc main_arg2) = W (Proc.devRef .tc main_arg2) := by after_results_simp
theorem h2_a3 : after (hostOps2 (F := Ideal)) W (Proc.devRef .tc main_arg3) = W (Proc.devRef .tc main_arg3) := by after_results_simp
theorem h2_y : after (hostOps2 (F := Ideal)) W (Proc.devRef .tc main_v776) = W (Proc.devRef .tc main_v776) := by after_results_simp
theorem h2_acc : after (hostOps2 (F := Ideal)) W (Proc.devRef .tc main_v778) = Cert.Net.ysl (W (Proc.devRef .tc main_v776)) 0 (by omega) := by
  after_results_simp <;> rfl
theorem h2_mask : after (hostOps2 (F := Ideal)) W (Proc.devRef .tc main_v781) = Cert.Net.mask (W (Proc.devRef .tc main_arg2)) 0#32 := by
  after_results_simp <;> rfl
theorem h2_gath : after (hostOps2 (F := Ideal)) W (Proc.devRef .tc main_v790)
    = Host.gather gK (Cert.Net.ysl (W (Proc.devRef .tc main_v776)) 1 (by omega)) (Cert.Net.norm (W (Proc.devRef .tc main_arg3))) := by
  after_results_simp <;> rfl
theorem h2_cst : after (hostOps2 (F := Ideal)) W (Proc.devRef .tc main_cst_221) = constant (F := Ideal) Cert.Net.S0 .f32 0x00000000#32 := by
  after_results_simp <;> rfl

/-- Label 0's four stretches. -/
theorem c2_0_a1 : after (hostOps2_4 (F := Ideal)) (after (hostOps2_3 (F := Ideal)) (after (hostOps2_2 (F := Ideal)) (after (hostOps2_1 (F := Ideal)) (W)))) (Proc.devRef .tc main_arg1) = W (Proc.devRef .tc main_arg1) := by after_results_simp
theorem c2_0_a2 : after (hostOps2_4 (F := Ideal)) (after (hostOps2_3 (F := Ideal)) (after (hostOps2_2 (F := Ideal)) (after (hostOps2_1 (F := Ideal)) (W)))) (Proc.devRef .tc main_arg2) = W (Proc.devRef .tc main_arg2) := by after_results_simp
theorem c2_0_a3 : after (hostOps2_4 (F := Ideal)) (after (hostOps2_3 (F := Ideal)) (after (hostOps2_2 (F := Ideal)) (after (hostOps2_1 (F := Ideal)) (W)))) (Proc.devRef .tc main_arg3) = W (Proc.devRef .tc main_arg3) := by after_results_simp
theorem c2_0_y : after (hostOps2_4 (F := Ideal)) (after (hostOps2_3 (F := Ideal)) (after (hostOps2_2 (F := Ideal)) (after (hostOps2_1 (F := Ideal)) (W)))) (Proc.devRef .tc main_v776) = W (Proc.devRef .tc main_v776) := by after_results_simp
theorem c2_0_acc : after (hostOps2_4 (F := Ideal)) (after (hostOps2_3 (F := Ideal)) (after (hostOps2_2 (F := Ideal)) (after (hostOps2_1 (F := Ideal)) (W)))) (Proc.devRef .tc main_v815)
    = stepRaw2 (W (Proc.devRef .tc main_v781)) (W (Proc.devRef .tc main_v790)) (W (Proc.devRef .tc main_cst_221)) (W (Proc.devRef .tc main_arg1)) (W (Proc.devRef .tc main_arg3))
        (Cert.Net.ysl (W (Proc.devRef .tc main_v776)) 21 (by omega)) (W (Proc.devRef .tc main_v778)) := by
  after_results_simp <;> rfl
theorem c2_0_mask : after (hostOps2_4 (F := Ideal)) (after (hostOps2_3 (F := Ideal)) (after (hostOps2_2 (F := Ideal)) (after (hostOps2_1 (F := Ideal)) (W)))) (Proc.devRef .tc main_v818) = Cert.Net.mask (W (Proc.devRef .tc main_arg2)) 1#32 := by
  after_results_simp <;> rfl
theorem c2_0_gath : after (hostOps2_4 (F := Ideal)) (after (hostOps2_3 (F := Ideal)) (after (hostOps2_2 (F := Ideal)) (after (hostOps2_1 (F := Ideal)) (W)))) (Proc.devRef .tc main_v827)
    = Host.gather gK (Cert.Net.ysl (W (Proc.devRef .tc main_v776)) 2 (by omega)) (Cert.Net.norm (W (Proc.devRef .tc main_arg3))) := by
  after_results_simp <;> rfl
theorem c2_0_cst : after (hostOps2_4 (F := Ideal)) (after (hostOps2_3 (F := Ideal)) (after (hostOps2_2 (F := Ideal)) (after (hostOps2_1 (F := Ideal)) (W)))) (Proc.devRef .tc main_cst_232) = constant (F := Ideal) Cert.Net.S0 .f32 0x00000000#32 := by
  after_results_simp <;> rfl

/-- Label 1's four stretches. -/
theorem c2_1_a1 : after (hostOps2_8 (F := Ideal)) (after (hostOps2_7 (F := Ideal)) (after (hostOps2_6 (F := Ideal)) (after (hostOps2_5 (F := Ideal)) (W)))) (Proc.devRef .tc main_arg1) = W (Proc.devRef .tc main_arg1) := by after_results_simp
theorem c2_1_a2 : after (hostOps2_8 (F := Ideal)) (after (hostOps2_7 (F := Ideal)) (after (hostOps2_6 (F := Ideal)) (after (hostOps2_5 (F := Ideal)) (W)))) (Proc.devRef .tc main_arg2) = W (Proc.devRef .tc main_arg2) := by after_results_simp
theorem c2_1_a3 : after (hostOps2_8 (F := Ideal)) (after (hostOps2_7 (F := Ideal)) (after (hostOps2_6 (F := Ideal)) (after (hostOps2_5 (F := Ideal)) (W)))) (Proc.devRef .tc main_arg3) = W (Proc.devRef .tc main_arg3) := by after_results_simp
theorem c2_1_y : after (hostOps2_8 (F := Ideal)) (after (hostOps2_7 (F := Ideal)) (after (hostOps2_6 (F := Ideal)) (after (hostOps2_5 (F := Ideal)) (W)))) (Proc.devRef .tc main_v776) = W (Proc.devRef .tc main_v776) := by after_results_simp
theorem c2_1_acc : after (hostOps2_8 (F := Ideal)) (after (hostOps2_7 (F := Ideal)) (after (hostOps2_6 (F := Ideal)) (after (hostOps2_5 (F := Ideal)) (W)))) (Proc.devRef .tc main_v852)
    = stepRaw2 (W (Proc.devRef .tc main_v818)) (W (Proc.devRef .tc main_v827)) (W (Proc.devRef .tc main_cst_232)) (W (Proc.devRef .tc main_arg1)) (W (Proc.devRef .tc main_arg3))
        (Cert.Net.ysl (W (Proc.devRef .tc main_v776)) 22 (by omega)) (W (Proc.devRef .tc main_v815)) := by
  after_results_simp <;> rfl
theorem c2_1_mask : after (hostOps2_8 (F := Ideal)) (after (hostOps2_7 (F := Ideal)) (after (hostOps2_6 (F := Ideal)) (after (hostOps2_5 (F := Ideal)) (W)))) (Proc.devRef .tc main_v855) = Cert.Net.mask (W (Proc.devRef .tc main_arg2)) 2#32 := by
  after_results_simp <;> rfl
theorem c2_1_gath : after (hostOps2_8 (F := Ideal)) (after (hostOps2_7 (F := Ideal)) (after (hostOps2_6 (F := Ideal)) (after (hostOps2_5 (F := Ideal)) (W)))) (Proc.devRef .tc main_v864)
    = Host.gather gK (Cert.Net.ysl (W (Proc.devRef .tc main_v776)) 3 (by omega)) (Cert.Net.norm (W (Proc.devRef .tc main_arg3))) := by
  after_results_simp <;> rfl
theorem c2_1_cst : after (hostOps2_8 (F := Ideal)) (after (hostOps2_7 (F := Ideal)) (after (hostOps2_6 (F := Ideal)) (after (hostOps2_5 (F := Ideal)) (W)))) (Proc.devRef .tc main_cst_243) = constant (F := Ideal) Cert.Net.S0 .f32 0x00000000#32 := by
  after_results_simp <;> rfl

/-- Label 2's four stretches. -/
theorem c2_2_a1 : after (hostOps2_12 (F := Ideal)) (after (hostOps2_11 (F := Ideal)) (after (hostOps2_10 (F := Ideal)) (after (hostOps2_9 (F := Ideal)) (W)))) (Proc.devRef .tc main_arg1) = W (Proc.devRef .tc main_arg1) := by after_results_simp
theorem c2_2_a2 : after (hostOps2_12 (F := Ideal)) (after (hostOps2_11 (F := Ideal)) (after (hostOps2_10 (F := Ideal)) (after (hostOps2_9 (F := Ideal)) (W)))) (Proc.devRef .tc main_arg2) = W (Proc.devRef .tc main_arg2) := by after_results_simp
theorem c2_2_a3 : after (hostOps2_12 (F := Ideal)) (after (hostOps2_11 (F := Ideal)) (after (hostOps2_10 (F := Ideal)) (after (hostOps2_9 (F := Ideal)) (W)))) (Proc.devRef .tc main_arg3) = W (Proc.devRef .tc main_arg3) := by after_results_simp
theorem c2_2_y : after (hostOps2_12 (F := Ideal)) (after (hostOps2_11 (F := Ideal)) (after (hostOps2_10 (F := Ideal)) (after (hostOps2_9 (F := Ideal)) (W)))) (Proc.devRef .tc main_v776) = W (Proc.devRef .tc main_v776) := by after_results_simp
theorem c2_2_acc : after (hostOps2_12 (F := Ideal)) (after (hostOps2_11 (F := Ideal)) (after (hostOps2_10 (F := Ideal)) (after (hostOps2_9 (F := Ideal)) (W)))) (Proc.devRef .tc main_v889)
    = stepRaw2 (W (Proc.devRef .tc main_v855)) (W (Proc.devRef .tc main_v864)) (W (Proc.devRef .tc main_cst_243)) (W (Proc.devRef .tc main_arg1)) (W (Proc.devRef .tc main_arg3))
        (Cert.Net.ysl (W (Proc.devRef .tc main_v776)) 23 (by omega)) (W (Proc.devRef .tc main_v852)) := by
  after_results_simp <;> rfl
theorem c2_2_mask : after (hostOps2_12 (F := Ideal)) (after (hostOps2_11 (F := Ideal)) (after (hostOps2_10 (F := Ideal)) (after (hostOps2_9 (F := Ideal)) (W)))) (Proc.devRef .tc main_v892) = Cert.Net.mask (W (Proc.devRef .tc main_arg2)) 3#32 := by
  after_results_simp <;> rfl
theorem c2_2_gath : after (hostOps2_12 (F := Ideal)) (after (hostOps2_11 (F := Ideal)) (after (hostOps2_10 (F := Ideal)) (after (hostOps2_9 (F := Ideal)) (W)))) (Proc.devRef .tc main_v901)
    = Host.gather gK (Cert.Net.ysl (W (Proc.devRef .tc main_v776)) 4 (by omega)) (Cert.Net.norm (W (Proc.devRef .tc main_arg3))) := by
  after_results_simp <;> rfl
theorem c2_2_cst : after (hostOps2_12 (F := Ideal)) (after (hostOps2_11 (F := Ideal)) (after (hostOps2_10 (F := Ideal)) (after (hostOps2_9 (F := Ideal)) (W)))) (Proc.devRef .tc main_cst_254) = constant (F := Ideal) Cert.Net.S0 .f32 0x00000000#32 := by
  after_results_simp <;> rfl

/-- Label 3's four stretches. -/
theorem c2_3_a1 : after (hostOps2_16 (F := Ideal)) (after (hostOps2_15 (F := Ideal)) (after (hostOps2_14 (F := Ideal)) (after (hostOps2_13 (F := Ideal)) (W)))) (Proc.devRef .tc main_arg1) = W (Proc.devRef .tc main_arg1) := by after_results_simp
theorem c2_3_a2 : after (hostOps2_16 (F := Ideal)) (after (hostOps2_15 (F := Ideal)) (after (hostOps2_14 (F := Ideal)) (after (hostOps2_13 (F := Ideal)) (W)))) (Proc.devRef .tc main_arg2) = W (Proc.devRef .tc main_arg2) := by after_results_simp
theorem c2_3_a3 : after (hostOps2_16 (F := Ideal)) (after (hostOps2_15 (F := Ideal)) (after (hostOps2_14 (F := Ideal)) (after (hostOps2_13 (F := Ideal)) (W)))) (Proc.devRef .tc main_arg3) = W (Proc.devRef .tc main_arg3) := by after_results_simp
theorem c2_3_y : after (hostOps2_16 (F := Ideal)) (after (hostOps2_15 (F := Ideal)) (after (hostOps2_14 (F := Ideal)) (after (hostOps2_13 (F := Ideal)) (W)))) (Proc.devRef .tc main_v776) = W (Proc.devRef .tc main_v776) := by after_results_simp
theorem c2_3_acc : after (hostOps2_16 (F := Ideal)) (after (hostOps2_15 (F := Ideal)) (after (hostOps2_14 (F := Ideal)) (after (hostOps2_13 (F := Ideal)) (W)))) (Proc.devRef .tc main_v926)
    = stepRaw2 (W (Proc.devRef .tc main_v892)) (W (Proc.devRef .tc main_v901)) (W (Proc.devRef .tc main_cst_254)) (W (Proc.devRef .tc main_arg1)) (W (Proc.devRef .tc main_arg3))
        (Cert.Net.ysl (W (Proc.devRef .tc main_v776)) 24 (by omega)) (W (Proc.devRef .tc main_v889)) := by
  after_results_simp <;> rfl
theorem c2_3_mask : after (hostOps2_16 (F := Ideal)) (after (hostOps2_15 (F := Ideal)) (after (hostOps2_14 (F := Ideal)) (after (hostOps2_13 (F := Ideal)) (W)))) (Proc.devRef .tc main_v929) = Cert.Net.mask (W (Proc.devRef .tc main_arg2)) 4#32 := by
  after_results_simp <;> rfl
theorem c2_3_gath : after (hostOps2_16 (F := Ideal)) (after (hostOps2_15 (F := Ideal)) (after (hostOps2_14 (F := Ideal)) (after (hostOps2_13 (F := Ideal)) (W)))) (Proc.devRef .tc main_v938)
    = Host.gather gK (Cert.Net.ysl (W (Proc.devRef .tc main_v776)) 5 (by omega)) (Cert.Net.norm (W (Proc.devRef .tc main_arg3))) := by
  after_results_simp <;> rfl
theorem c2_3_cst : after (hostOps2_16 (F := Ideal)) (after (hostOps2_15 (F := Ideal)) (after (hostOps2_14 (F := Ideal)) (after (hostOps2_13 (F := Ideal)) (W)))) (Proc.devRef .tc main_cst_265) = constant (F := Ideal) Cert.Net.S0 .f32 0x00000000#32 := by
  after_results_simp <;> rfl

/-- Label 4's four stretches. -/
theorem c2_4_a1 : after (hostOps2_20 (F := Ideal)) (after (hostOps2_19 (F := Ideal)) (after (hostOps2_18 (F := Ideal)) (after (hostOps2_17 (F := Ideal)) (W)))) (Proc.devRef .tc main_arg1) = W (Proc.devRef .tc main_arg1) := by after_results_simp
theorem c2_4_a2 : after (hostOps2_20 (F := Ideal)) (after (hostOps2_19 (F := Ideal)) (after (hostOps2_18 (F := Ideal)) (after (hostOps2_17 (F := Ideal)) (W)))) (Proc.devRef .tc main_arg2) = W (Proc.devRef .tc main_arg2) := by after_results_simp
theorem c2_4_a3 : after (hostOps2_20 (F := Ideal)) (after (hostOps2_19 (F := Ideal)) (after (hostOps2_18 (F := Ideal)) (after (hostOps2_17 (F := Ideal)) (W)))) (Proc.devRef .tc main_arg3) = W (Proc.devRef .tc main_arg3) := by after_results_simp
theorem c2_4_y : after (hostOps2_20 (F := Ideal)) (after (hostOps2_19 (F := Ideal)) (after (hostOps2_18 (F := Ideal)) (after (hostOps2_17 (F := Ideal)) (W)))) (Proc.devRef .tc main_v776) = W (Proc.devRef .tc main_v776) := by after_results_simp
theorem c2_4_acc : after (hostOps2_20 (F := Ideal)) (after (hostOps2_19 (F := Ideal)) (after (hostOps2_18 (F := Ideal)) (after (hostOps2_17 (F := Ideal)) (W)))) (Proc.devRef .tc main_v963)
    = stepRaw2 (W (Proc.devRef .tc main_v929)) (W (Proc.devRef .tc main_v938)) (W (Proc.devRef .tc main_cst_265)) (W (Proc.devRef .tc main_arg1)) (W (Proc.devRef .tc main_arg3))
        (Cert.Net.ysl (W (Proc.devRef .tc main_v776)) 25 (by omega)) (W (Proc.devRef .tc main_v926)) := by
  after_results_simp <;> rfl
theorem c2_4_mask : after (hostOps2_20 (F := Ideal)) (after (hostOps2_19 (F := Ideal)) (after (hostOps2_18 (F := Ideal)) (after (hostOps2_17 (F := Ideal)) (W)))) (Proc.devRef .tc main_v966) = Cert.Net.mask (W (Proc.devRef .tc main_arg2)) 5#32 := by
  after_results_simp <;> rfl
theorem c2_4_gath : after (hostOps2_20 (F := Ideal)) (after (hostOps2_19 (F := Ideal)) (after (hostOps2_18 (F := Ideal)) (after (hostOps2_17 (F := Ideal)) (W)))) (Proc.devRef .tc main_v975)
    = Host.gather gK (Cert.Net.ysl (W (Proc.devRef .tc main_v776)) 6 (by omega)) (Cert.Net.norm (W (Proc.devRef .tc main_arg3))) := by
  after_results_simp <;> rfl
theorem c2_4_cst : after (hostOps2_20 (F := Ideal)) (after (hostOps2_19 (F := Ideal)) (after (hostOps2_18 (F := Ideal)) (after (hostOps2_17 (F := Ideal)) (W)))) (Proc.devRef .tc main_cst_276) = constant (F := Ideal) Cert.Net.S0 .f32 0x00000000#32 := by
  after_results_simp <;> rfl

/-- Label 5's four stretches. -/
theorem c2_5_a1 : after (hostOps2_24 (F := Ideal)) (after (hostOps2_23 (F := Ideal)) (after (hostOps2_22 (F := Ideal)) (after (hostOps2_21 (F := Ideal)) (W)))) (Proc.devRef .tc main_arg1) = W (Proc.devRef .tc main_arg1) := by after_results_simp
theorem c2_5_a2 : after (hostOps2_24 (F := Ideal)) (after (hostOps2_23 (F := Ideal)) (after (hostOps2_22 (F := Ideal)) (after (hostOps2_21 (F := Ideal)) (W)))) (Proc.devRef .tc main_arg2) = W (Proc.devRef .tc main_arg2) := by after_results_simp
theorem c2_5_a3 : after (hostOps2_24 (F := Ideal)) (after (hostOps2_23 (F := Ideal)) (after (hostOps2_22 (F := Ideal)) (after (hostOps2_21 (F := Ideal)) (W)))) (Proc.devRef .tc main_arg3) = W (Proc.devRef .tc main_arg3) := by after_results_simp
theorem c2_5_y : after (hostOps2_24 (F := Ideal)) (after (hostOps2_23 (F := Ideal)) (after (hostOps2_22 (F := Ideal)) (after (hostOps2_21 (F := Ideal)) (W)))) (Proc.devRef .tc main_v776) = W (Proc.devRef .tc main_v776) := by after_results_simp
theorem c2_5_acc : after (hostOps2_24 (F := Ideal)) (after (hostOps2_23 (F := Ideal)) (after (hostOps2_22 (F := Ideal)) (after (hostOps2_21 (F := Ideal)) (W)))) (Proc.devRef .tc main_v1000)
    = stepRaw2 (W (Proc.devRef .tc main_v966)) (W (Proc.devRef .tc main_v975)) (W (Proc.devRef .tc main_cst_276)) (W (Proc.devRef .tc main_arg1)) (W (Proc.devRef .tc main_arg3))
        (Cert.Net.ysl (W (Proc.devRef .tc main_v776)) 26 (by omega)) (W (Proc.devRef .tc main_v963)) := by
  after_results_simp <;> rfl
theorem c2_5_mask : after (hostOps2_24 (F := Ideal)) (after (hostOps2_23 (F := Ideal)) (after (hostOps2_22 (F := Ideal)) (after (hostOps2_21 (F := Ideal)) (W)))) (Proc.devRef .tc main_v1003) = Cert.Net.mask (W (Proc.devRef .tc main_arg2)) 6#32 := by
  after_results_simp <;> rfl
theorem c2_5_gath : after (hostOps2_24 (F := Ideal)) (after (hostOps2_23 (F := Ideal)) (after (hostOps2_22 (F := Ideal)) (after (hostOps2_21 (F := Ideal)) (W)))) (Proc.devRef .tc main_v1012)
    = Host.gather gK (Cert.Net.ysl (W (Proc.devRef .tc main_v776)) 7 (by omega)) (Cert.Net.norm (W (Proc.devRef .tc main_arg3))) := by
  after_results_simp <;> rfl
theorem c2_5_cst : after (hostOps2_24 (F := Ideal)) (after (hostOps2_23 (F := Ideal)) (after (hostOps2_22 (F := Ideal)) (after (hostOps2_21 (F := Ideal)) (W)))) (Proc.devRef .tc main_cst_287) = constant (F := Ideal) Cert.Net.S0 .f32 0x00000000#32 := by
  after_results_simp <;> rfl

/-- Label 6's four stretches. -/
theorem c2_6_a1 : after (hostOps2_28 (F := Ideal)) (after (hostOps2_27 (F := Ideal)) (after (hostOps2_26 (F := Ideal)) (after (hostOps2_25 (F := Ideal)) (W)))) (Proc.devRef .tc main_arg1) = W (Proc.devRef .tc main_arg1) := by after_results_simp
theorem c2_6_a2 : after (hostOps2_28 (F := Ideal)) (after (hostOps2_27 (F := Ideal)) (after (hostOps2_26 (F := Ideal)) (after (hostOps2_25 (F := Ideal)) (W)))) (Proc.devRef .tc main_arg2) = W (Proc.devRef .tc main_arg2) := by after_results_simp
theorem c2_6_a3 : after (hostOps2_28 (F := Ideal)) (after (hostOps2_27 (F := Ideal)) (after (hostOps2_26 (F := Ideal)) (after (hostOps2_25 (F := Ideal)) (W)))) (Proc.devRef .tc main_arg3) = W (Proc.devRef .tc main_arg3) := by after_results_simp
theorem c2_6_y : after (hostOps2_28 (F := Ideal)) (after (hostOps2_27 (F := Ideal)) (after (hostOps2_26 (F := Ideal)) (after (hostOps2_25 (F := Ideal)) (W)))) (Proc.devRef .tc main_v776) = W (Proc.devRef .tc main_v776) := by after_results_simp
theorem c2_6_acc : after (hostOps2_28 (F := Ideal)) (after (hostOps2_27 (F := Ideal)) (after (hostOps2_26 (F := Ideal)) (after (hostOps2_25 (F := Ideal)) (W)))) (Proc.devRef .tc main_v1037)
    = stepRaw2 (W (Proc.devRef .tc main_v1003)) (W (Proc.devRef .tc main_v1012)) (W (Proc.devRef .tc main_cst_287)) (W (Proc.devRef .tc main_arg1)) (W (Proc.devRef .tc main_arg3))
        (Cert.Net.ysl (W (Proc.devRef .tc main_v776)) 27 (by omega)) (W (Proc.devRef .tc main_v1000)) := by
  after_results_simp <;> rfl
theorem c2_6_mask : after (hostOps2_28 (F := Ideal)) (after (hostOps2_27 (F := Ideal)) (after (hostOps2_26 (F := Ideal)) (after (hostOps2_25 (F := Ideal)) (W)))) (Proc.devRef .tc main_v1040) = Cert.Net.mask (W (Proc.devRef .tc main_arg2)) 7#32 := by
  after_results_simp <;> rfl
theorem c2_6_gath : after (hostOps2_28 (F := Ideal)) (after (hostOps2_27 (F := Ideal)) (after (hostOps2_26 (F := Ideal)) (after (hostOps2_25 (F := Ideal)) (W)))) (Proc.devRef .tc main_v1049)
    = Host.gather gK (Cert.Net.ysl (W (Proc.devRef .tc main_v776)) 8 (by omega)) (Cert.Net.norm (W (Proc.devRef .tc main_arg3))) := by
  after_results_simp <;> rfl
theorem c2_6_cst : after (hostOps2_28 (F := Ideal)) (after (hostOps2_27 (F := Ideal)) (after (hostOps2_26 (F := Ideal)) (after (hostOps2_25 (F := Ideal)) (W)))) (Proc.devRef .tc main_cst_298) = constant (F := Ideal) Cert.Net.S0 .f32 0x00000000#32 := by
  after_results_simp <;> rfl

/-- Label 7's four stretches. -/
theorem c2_7_a1 : after (hostOps2_32 (F := Ideal)) (after (hostOps2_31 (F := Ideal)) (after (hostOps2_30 (F := Ideal)) (after (hostOps2_29 (F := Ideal)) (W)))) (Proc.devRef .tc main_arg1) = W (Proc.devRef .tc main_arg1) := by after_results_simp
theorem c2_7_a2 : after (hostOps2_32 (F := Ideal)) (after (hostOps2_31 (F := Ideal)) (after (hostOps2_30 (F := Ideal)) (after (hostOps2_29 (F := Ideal)) (W)))) (Proc.devRef .tc main_arg2) = W (Proc.devRef .tc main_arg2) := by after_results_simp
theorem c2_7_a3 : after (hostOps2_32 (F := Ideal)) (after (hostOps2_31 (F := Ideal)) (after (hostOps2_30 (F := Ideal)) (after (hostOps2_29 (F := Ideal)) (W)))) (Proc.devRef .tc main_arg3) = W (Proc.devRef .tc main_arg3) := by after_results_simp
theorem c2_7_y : after (hostOps2_32 (F := Ideal)) (after (hostOps2_31 (F := Ideal)) (after (hostOps2_30 (F := Ideal)) (after (hostOps2_29 (F := Ideal)) (W)))) (Proc.devRef .tc main_v776) = W (Proc.devRef .tc main_v776) := by after_results_simp
theorem c2_7_acc : after (hostOps2_32 (F := Ideal)) (after (hostOps2_31 (F := Ideal)) (after (hostOps2_30 (F := Ideal)) (after (hostOps2_29 (F := Ideal)) (W)))) (Proc.devRef .tc main_v1074)
    = stepRaw2 (W (Proc.devRef .tc main_v1040)) (W (Proc.devRef .tc main_v1049)) (W (Proc.devRef .tc main_cst_298)) (W (Proc.devRef .tc main_arg1)) (W (Proc.devRef .tc main_arg3))
        (Cert.Net.ysl (W (Proc.devRef .tc main_v776)) 28 (by omega)) (W (Proc.devRef .tc main_v1037)) := by
  after_results_simp <;> rfl
theorem c2_7_mask : after (hostOps2_32 (F := Ideal)) (after (hostOps2_31 (F := Ideal)) (after (hostOps2_30 (F := Ideal)) (after (hostOps2_29 (F := Ideal)) (W)))) (Proc.devRef .tc main_v1077) = Cert.Net.mask (W (Proc.devRef .tc main_arg2)) 8#32 := by
  after_results_simp <;> rfl
theorem c2_7_gath : after (hostOps2_32 (F := Ideal)) (after (hostOps2_31 (F := Ideal)) (after (hostOps2_30 (F := Ideal)) (after (hostOps2_29 (F := Ideal)) (W)))) (Proc.devRef .tc main_v1086)
    = Host.gather gK (Cert.Net.ysl (W (Proc.devRef .tc main_v776)) 9 (by omega)) (Cert.Net.norm (W (Proc.devRef .tc main_arg3))) := by
  after_results_simp <;> rfl
theorem c2_7_cst : after (hostOps2_32 (F := Ideal)) (after (hostOps2_31 (F := Ideal)) (after (hostOps2_30 (F := Ideal)) (after (hostOps2_29 (F := Ideal)) (W)))) (Proc.devRef .tc main_cst_309) = constant (F := Ideal) Cert.Net.S0 .f32 0x00000000#32 := by
  after_results_simp <;> rfl

/-- Label 8's four stretches. -/
theorem c2_8_a1 : after (hostOps2_36 (F := Ideal)) (after (hostOps2_35 (F := Ideal)) (after (hostOps2_34 (F := Ideal)) (after (hostOps2_33 (F := Ideal)) (W)))) (Proc.devRef .tc main_arg1) = W (Proc.devRef .tc main_arg1) := by after_results_simp
theorem c2_8_a2 : after (hostOps2_36 (F := Ideal)) (after (hostOps2_35 (F := Ideal)) (after (hostOps2_34 (F := Ideal)) (after (hostOps2_33 (F := Ideal)) (W)))) (Proc.devRef .tc main_arg2) = W (Proc.devRef .tc main_arg2) := by after_results_simp
theorem c2_8_a3 : after (hostOps2_36 (F := Ideal)) (after (hostOps2_35 (F := Ideal)) (after (hostOps2_34 (F := Ideal)) (after (hostOps2_33 (F := Ideal)) (W)))) (Proc.devRef .tc main_arg3) = W (Proc.devRef .tc main_arg3) := by after_results_simp
theorem c2_8_y : after (hostOps2_36 (F := Ideal)) (after (hostOps2_35 (F := Ideal)) (after (hostOps2_34 (F := Ideal)) (after (hostOps2_33 (F := Ideal)) (W)))) (Proc.devRef .tc main_v776) = W (Proc.devRef .tc main_v776) := by after_results_simp
theorem c2_8_acc : after (hostOps2_36 (F := Ideal)) (after (hostOps2_35 (F := Ideal)) (after (hostOps2_34 (F := Ideal)) (after (hostOps2_33 (F := Ideal)) (W)))) (Proc.devRef .tc main_v1111)
    = stepRaw2 (W (Proc.devRef .tc main_v1077)) (W (Proc.devRef .tc main_v1086)) (W (Proc.devRef .tc main_cst_309)) (W (Proc.devRef .tc main_arg1)) (W (Proc.devRef .tc main_arg3))
        (Cert.Net.ysl (W (Proc.devRef .tc main_v776)) 29 (by omega)) (W (Proc.devRef .tc main_v1074)) := by
  after_results_simp <;> rfl
theorem c2_8_mask : after (hostOps2_36 (F := Ideal)) (after (hostOps2_35 (F := Ideal)) (after (hostOps2_34 (F := Ideal)) (after (hostOps2_33 (F := Ideal)) (W)))) (Proc.devRef .tc main_v1114) = Cert.Net.mask (W (Proc.devRef .tc main_arg2)) 9#32 := by
  after_results_simp <;> rfl
theorem c2_8_gath : after (hostOps2_36 (F := Ideal)) (after (hostOps2_35 (F := Ideal)) (after (hostOps2_34 (F := Ideal)) (after (hostOps2_33 (F := Ideal)) (W)))) (Proc.devRef .tc main_v1123)
    = Host.gather gK (Cert.Net.ysl (W (Proc.devRef .tc main_v776)) 10 (by omega)) (Cert.Net.norm (W (Proc.devRef .tc main_arg3))) := by
  after_results_simp <;> rfl
theorem c2_8_cst : after (hostOps2_36 (F := Ideal)) (after (hostOps2_35 (F := Ideal)) (after (hostOps2_34 (F := Ideal)) (after (hostOps2_33 (F := Ideal)) (W)))) (Proc.devRef .tc main_cst_320) = constant (F := Ideal) Cert.Net.S0 .f32 0x00000000#32 := by
  after_results_simp <;> rfl

/-- Label 9's four stretches. -/
theorem c2_9_a1 : after (hostOps2_40 (F := Ideal)) (after (hostOps2_39 (F := Ideal)) (after (hostOps2_38 (F := Ideal)) (after (hostOps2_37 (F := Ideal)) (W)))) (Proc.devRef .tc main_arg1) = W (Proc.devRef .tc main_arg1) := by after_results_simp
theorem c2_9_a2 : after (hostOps2_40 (F := Ideal)) (after (hostOps2_39 (F := Ideal)) (after (hostOps2_38 (F := Ideal)) (after (hostOps2_37 (F := Ideal)) (W)))) (Proc.devRef .tc main_arg2) = W (Proc.devRef .tc main_arg2) := by after_results_simp
theorem c2_9_a3 : after (hostOps2_40 (F := Ideal)) (after (hostOps2_39 (F := Ideal)) (after (hostOps2_38 (F := Ideal)) (after (hostOps2_37 (F := Ideal)) (W)))) (Proc.devRef .tc main_arg3) = W (Proc.devRef .tc main_arg3) := by after_results_simp
theorem c2_9_y : after (hostOps2_40 (F := Ideal)) (after (hostOps2_39 (F := Ideal)) (after (hostOps2_38 (F := Ideal)) (after (hostOps2_37 (F := Ideal)) (W)))) (Proc.devRef .tc main_v776) = W (Proc.devRef .tc main_v776) := by after_results_simp
theorem c2_9_acc : after (hostOps2_40 (F := Ideal)) (after (hostOps2_39 (F := Ideal)) (after (hostOps2_38 (F := Ideal)) (after (hostOps2_37 (F := Ideal)) (W)))) (Proc.devRef .tc main_v1148)
    = stepRaw2 (W (Proc.devRef .tc main_v1114)) (W (Proc.devRef .tc main_v1123)) (W (Proc.devRef .tc main_cst_320)) (W (Proc.devRef .tc main_arg1)) (W (Proc.devRef .tc main_arg3))
        (Cert.Net.ysl (W (Proc.devRef .tc main_v776)) 30 (by omega)) (W (Proc.devRef .tc main_v1111)) := by
  after_results_simp <;> rfl
theorem c2_9_mask : after (hostOps2_40 (F := Ideal)) (after (hostOps2_39 (F := Ideal)) (after (hostOps2_38 (F := Ideal)) (after (hostOps2_37 (F := Ideal)) (W)))) (Proc.devRef .tc main_v1151) = Cert.Net.mask (W (Proc.devRef .tc main_arg2)) 10#32 := by
  after_results_simp <;> rfl
theorem c2_9_gath : after (hostOps2_40 (F := Ideal)) (after (hostOps2_39 (F := Ideal)) (after (hostOps2_38 (F := Ideal)) (after (hostOps2_37 (F := Ideal)) (W)))) (Proc.devRef .tc main_v1160)
    = Host.gather gK (Cert.Net.ysl (W (Proc.devRef .tc main_v776)) 11 (by omega)) (Cert.Net.norm (W (Proc.devRef .tc main_arg3))) := by
  after_results_simp <;> rfl
theorem c2_9_cst : after (hostOps2_40 (F := Ideal)) (after (hostOps2_39 (F := Ideal)) (after (hostOps2_38 (F := Ideal)) (after (hostOps2_37 (F := Ideal)) (W)))) (Proc.devRef .tc main_cst_331) = constant (F := Ideal) Cert.Net.S0 .f32 0x00000000#32 := by
  after_results_simp <;> rfl

/-- Label 10's four stretches. -/
theorem c2_10_a1 : after (hostOps2_44 (F := Ideal)) (after (hostOps2_43 (F := Ideal)) (after (hostOps2_42 (F := Ideal)) (after (hostOps2_41 (F := Ideal)) (W)))) (Proc.devRef .tc main_arg1) = W (Proc.devRef .tc main_arg1) := by after_results_simp
theorem c2_10_a2 : after (hostOps2_44 (F := Ideal)) (after (hostOps2_43 (F := Ideal)) (after (hostOps2_42 (F := Ideal)) (after (hostOps2_41 (F := Ideal)) (W)))) (Proc.devRef .tc main_arg2) = W (Proc.devRef .tc main_arg2) := by after_results_simp
theorem c2_10_a3 : after (hostOps2_44 (F := Ideal)) (after (hostOps2_43 (F := Ideal)) (after (hostOps2_42 (F := Ideal)) (after (hostOps2_41 (F := Ideal)) (W)))) (Proc.devRef .tc main_arg3) = W (Proc.devRef .tc main_arg3) := by after_results_simp
theorem c2_10_y : after (hostOps2_44 (F := Ideal)) (after (hostOps2_43 (F := Ideal)) (after (hostOps2_42 (F := Ideal)) (after (hostOps2_41 (F := Ideal)) (W)))) (Proc.devRef .tc main_v776) = W (Proc.devRef .tc main_v776) := by after_results_simp
theorem c2_10_acc : after (hostOps2_44 (F := Ideal)) (after (hostOps2_43 (F := Ideal)) (after (hostOps2_42 (F := Ideal)) (after (hostOps2_41 (F := Ideal)) (W)))) (Proc.devRef .tc main_v1185)
    = stepRaw2 (W (Proc.devRef .tc main_v1151)) (W (Proc.devRef .tc main_v1160)) (W (Proc.devRef .tc main_cst_331)) (W (Proc.devRef .tc main_arg1)) (W (Proc.devRef .tc main_arg3))
        (Cert.Net.ysl (W (Proc.devRef .tc main_v776)) 31 (by omega)) (W (Proc.devRef .tc main_v1148)) := by
  after_results_simp <;> rfl
theorem c2_10_mask : after (hostOps2_44 (F := Ideal)) (after (hostOps2_43 (F := Ideal)) (after (hostOps2_42 (F := Ideal)) (after (hostOps2_41 (F := Ideal)) (W)))) (Proc.devRef .tc main_v1188) = Cert.Net.mask (W (Proc.devRef .tc main_arg2)) 11#32 := by
  after_results_simp <;> rfl
theorem c2_10_gath : after (hostOps2_44 (F := Ideal)) (after (hostOps2_43 (F := Ideal)) (after (hostOps2_42 (F := Ideal)) (after (hostOps2_41 (F := Ideal)) (W)))) (Proc.devRef .tc main_v1197)
    = Host.gather gK (Cert.Net.ysl (W (Proc.devRef .tc main_v776)) 12 (by omega)) (Cert.Net.norm (W (Proc.devRef .tc main_arg3))) := by
  after_results_simp <;> rfl
theorem c2_10_cst : after (hostOps2_44 (F := Ideal)) (after (hostOps2_43 (F := Ideal)) (after (hostOps2_42 (F := Ideal)) (after (hostOps2_41 (F := Ideal)) (W)))) (Proc.devRef .tc main_cst_342) = constant (F := Ideal) Cert.Net.S0 .f32 0x00000000#32 := by
  after_results_simp <;> rfl

/-- Label 11's four stretches. -/
theorem c2_11_a1 : after (hostOps2_48 (F := Ideal)) (after (hostOps2_47 (F := Ideal)) (after (hostOps2_46 (F := Ideal)) (after (hostOps2_45 (F := Ideal)) (W)))) (Proc.devRef .tc main_arg1) = W (Proc.devRef .tc main_arg1) := by after_results_simp
theorem c2_11_a2 : after (hostOps2_48 (F := Ideal)) (after (hostOps2_47 (F := Ideal)) (after (hostOps2_46 (F := Ideal)) (after (hostOps2_45 (F := Ideal)) (W)))) (Proc.devRef .tc main_arg2) = W (Proc.devRef .tc main_arg2) := by after_results_simp
theorem c2_11_a3 : after (hostOps2_48 (F := Ideal)) (after (hostOps2_47 (F := Ideal)) (after (hostOps2_46 (F := Ideal)) (after (hostOps2_45 (F := Ideal)) (W)))) (Proc.devRef .tc main_arg3) = W (Proc.devRef .tc main_arg3) := by after_results_simp
theorem c2_11_y : after (hostOps2_48 (F := Ideal)) (after (hostOps2_47 (F := Ideal)) (after (hostOps2_46 (F := Ideal)) (after (hostOps2_45 (F := Ideal)) (W)))) (Proc.devRef .tc main_v776) = W (Proc.devRef .tc main_v776) := by after_results_simp
theorem c2_11_acc : after (hostOps2_48 (F := Ideal)) (after (hostOps2_47 (F := Ideal)) (after (hostOps2_46 (F := Ideal)) (after (hostOps2_45 (F := Ideal)) (W)))) (Proc.devRef .tc main_v1222)
    = stepRaw2 (W (Proc.devRef .tc main_v1188)) (W (Proc.devRef .tc main_v1197)) (W (Proc.devRef .tc main_cst_342)) (W (Proc.devRef .tc main_arg1)) (W (Proc.devRef .tc main_arg3))
        (Cert.Net.ysl (W (Proc.devRef .tc main_v776)) 32 (by omega)) (W (Proc.devRef .tc main_v1185)) := by
  after_results_simp <;> rfl
theorem c2_11_mask : after (hostOps2_48 (F := Ideal)) (after (hostOps2_47 (F := Ideal)) (after (hostOps2_46 (F := Ideal)) (after (hostOps2_45 (F := Ideal)) (W)))) (Proc.devRef .tc main_v1225) = Cert.Net.mask (W (Proc.devRef .tc main_arg2)) 12#32 := by
  after_results_simp <;> rfl
theorem c2_11_gath : after (hostOps2_48 (F := Ideal)) (after (hostOps2_47 (F := Ideal)) (after (hostOps2_46 (F := Ideal)) (after (hostOps2_45 (F := Ideal)) (W)))) (Proc.devRef .tc main_v1234)
    = Host.gather gK (Cert.Net.ysl (W (Proc.devRef .tc main_v776)) 13 (by omega)) (Cert.Net.norm (W (Proc.devRef .tc main_arg3))) := by
  after_results_simp <;> rfl
theorem c2_11_cst : after (hostOps2_48 (F := Ideal)) (after (hostOps2_47 (F := Ideal)) (after (hostOps2_46 (F := Ideal)) (after (hostOps2_45 (F := Ideal)) (W)))) (Proc.devRef .tc main_cst_353) = constant (F := Ideal) Cert.Net.S0 .f32 0x00000000#32 := by
  after_results_simp <;> rfl

/-- Label 12's four stretches. -/
theorem c2_12_a1 : after (hostOps2_52 (F := Ideal)) (after (hostOps2_51 (F := Ideal)) (after (hostOps2_50 (F := Ideal)) (after (hostOps2_49 (F := Ideal)) (W)))) (Proc.devRef .tc main_arg1) = W (Proc.devRef .tc main_arg1) := by after_results_simp
theorem c2_12_a2 : after (hostOps2_52 (F := Ideal)) (after (hostOps2_51 (F := Ideal)) (after (hostOps2_50 (F := Ideal)) (after (hostOps2_49 (F := Ideal)) (W)))) (Proc.devRef .tc main_arg2) = W (Proc.devRef .tc main_arg2) := by after_results_simp
theorem c2_12_a3 : after (hostOps2_52 (F := Ideal)) (after (hostOps2_51 (F := Ideal)) (after (hostOps2_50 (F := Ideal)) (after (hostOps2_49 (F := Ideal)) (W)))) (Proc.devRef .tc main_arg3) = W (Proc.devRef .tc main_arg3) := by after_results_simp
theorem c2_12_y : after (hostOps2_52 (F := Ideal)) (after (hostOps2_51 (F := Ideal)) (after (hostOps2_50 (F := Ideal)) (after (hostOps2_49 (F := Ideal)) (W)))) (Proc.devRef .tc main_v776) = W (Proc.devRef .tc main_v776) := by after_results_simp
theorem c2_12_acc : after (hostOps2_52 (F := Ideal)) (after (hostOps2_51 (F := Ideal)) (after (hostOps2_50 (F := Ideal)) (after (hostOps2_49 (F := Ideal)) (W)))) (Proc.devRef .tc main_v1259)
    = stepRaw2 (W (Proc.devRef .tc main_v1225)) (W (Proc.devRef .tc main_v1234)) (W (Proc.devRef .tc main_cst_353)) (W (Proc.devRef .tc main_arg1)) (W (Proc.devRef .tc main_arg3))
        (Cert.Net.ysl (W (Proc.devRef .tc main_v776)) 33 (by omega)) (W (Proc.devRef .tc main_v1222)) := by
  after_results_simp <;> rfl
theorem c2_12_mask : after (hostOps2_52 (F := Ideal)) (after (hostOps2_51 (F := Ideal)) (after (hostOps2_50 (F := Ideal)) (after (hostOps2_49 (F := Ideal)) (W)))) (Proc.devRef .tc main_v1262) = Cert.Net.mask (W (Proc.devRef .tc main_arg2)) 13#32 := by
  after_results_simp <;> rfl
theorem c2_12_gath : after (hostOps2_52 (F := Ideal)) (after (hostOps2_51 (F := Ideal)) (after (hostOps2_50 (F := Ideal)) (after (hostOps2_49 (F := Ideal)) (W)))) (Proc.devRef .tc main_v1271)
    = Host.gather gK (Cert.Net.ysl (W (Proc.devRef .tc main_v776)) 14 (by omega)) (Cert.Net.norm (W (Proc.devRef .tc main_arg3))) := by
  after_results_simp <;> rfl
theorem c2_12_cst : after (hostOps2_52 (F := Ideal)) (after (hostOps2_51 (F := Ideal)) (after (hostOps2_50 (F := Ideal)) (after (hostOps2_49 (F := Ideal)) (W)))) (Proc.devRef .tc main_cst_364) = constant (F := Ideal) Cert.Net.S0 .f32 0x00000000#32 := by
  after_results_simp <;> rfl

/-- Label 13's four stretches. -/
theorem c2_13_a1 : after (hostOps2_56 (F := Ideal)) (after (hostOps2_55 (F := Ideal)) (after (hostOps2_54 (F := Ideal)) (after (hostOps2_53 (F := Ideal)) (W)))) (Proc.devRef .tc main_arg1) = W (Proc.devRef .tc main_arg1) := by after_results_simp
theorem c2_13_a2 : after (hostOps2_56 (F := Ideal)) (after (hostOps2_55 (F := Ideal)) (after (hostOps2_54 (F := Ideal)) (after (hostOps2_53 (F := Ideal)) (W)))) (Proc.devRef .tc main_arg2) = W (Proc.devRef .tc main_arg2) := by after_results_simp
theorem c2_13_a3 : after (hostOps2_56 (F := Ideal)) (after (hostOps2_55 (F := Ideal)) (after (hostOps2_54 (F := Ideal)) (after (hostOps2_53 (F := Ideal)) (W)))) (Proc.devRef .tc main_arg3) = W (Proc.devRef .tc main_arg3) := by after_results_simp
theorem c2_13_y : after (hostOps2_56 (F := Ideal)) (after (hostOps2_55 (F := Ideal)) (after (hostOps2_54 (F := Ideal)) (after (hostOps2_53 (F := Ideal)) (W)))) (Proc.devRef .tc main_v776) = W (Proc.devRef .tc main_v776) := by after_results_simp
theorem c2_13_acc : after (hostOps2_56 (F := Ideal)) (after (hostOps2_55 (F := Ideal)) (after (hostOps2_54 (F := Ideal)) (after (hostOps2_53 (F := Ideal)) (W)))) (Proc.devRef .tc main_v1296)
    = stepRaw2 (W (Proc.devRef .tc main_v1262)) (W (Proc.devRef .tc main_v1271)) (W (Proc.devRef .tc main_cst_364)) (W (Proc.devRef .tc main_arg1)) (W (Proc.devRef .tc main_arg3))
        (Cert.Net.ysl (W (Proc.devRef .tc main_v776)) 34 (by omega)) (W (Proc.devRef .tc main_v1259)) := by
  after_results_simp <;> rfl
theorem c2_13_mask : after (hostOps2_56 (F := Ideal)) (after (hostOps2_55 (F := Ideal)) (after (hostOps2_54 (F := Ideal)) (after (hostOps2_53 (F := Ideal)) (W)))) (Proc.devRef .tc main_v1299) = Cert.Net.mask (W (Proc.devRef .tc main_arg2)) 14#32 := by
  after_results_simp <;> rfl
theorem c2_13_gath : after (hostOps2_56 (F := Ideal)) (after (hostOps2_55 (F := Ideal)) (after (hostOps2_54 (F := Ideal)) (after (hostOps2_53 (F := Ideal)) (W)))) (Proc.devRef .tc main_v1308)
    = Host.gather gK (Cert.Net.ysl (W (Proc.devRef .tc main_v776)) 15 (by omega)) (Cert.Net.norm (W (Proc.devRef .tc main_arg3))) := by
  after_results_simp <;> rfl
theorem c2_13_cst : after (hostOps2_56 (F := Ideal)) (after (hostOps2_55 (F := Ideal)) (after (hostOps2_54 (F := Ideal)) (after (hostOps2_53 (F := Ideal)) (W)))) (Proc.devRef .tc main_cst_375) = constant (F := Ideal) Cert.Net.S0 .f32 0x00000000#32 := by
  after_results_simp <;> rfl

/-- Label 14's four stretches. -/
theorem c2_14_a1 : after (hostOps2_60 (F := Ideal)) (after (hostOps2_59 (F := Ideal)) (after (hostOps2_58 (F := Ideal)) (after (hostOps2_57 (F := Ideal)) (W)))) (Proc.devRef .tc main_arg1) = W (Proc.devRef .tc main_arg1) := by after_results_simp
theorem c2_14_a2 : after (hostOps2_60 (F := Ideal)) (after (hostOps2_59 (F := Ideal)) (after (hostOps2_58 (F := Ideal)) (after (hostOps2_57 (F := Ideal)) (W)))) (Proc.devRef .tc main_arg2) = W (Proc.devRef .tc main_arg2) := by after_results_simp
theorem c2_14_a3 : after (hostOps2_60 (F := Ideal)) (after (hostOps2_59 (F := Ideal)) (after (hostOps2_58 (F := Ideal)) (after (hostOps2_57 (F := Ideal)) (W)))) (Proc.devRef .tc main_arg3) = W (Proc.devRef .tc main_arg3) := by after_results_simp
theorem c2_14_y : after (hostOps2_60 (F := Ideal)) (after (hostOps2_59 (F := Ideal)) (after (hostOps2_58 (F := Ideal)) (after (hostOps2_57 (F := Ideal)) (W)))) (Proc.devRef .tc main_v776) = W (Proc.devRef .tc main_v776) := by after_results_simp
theorem c2_14_acc : after (hostOps2_60 (F := Ideal)) (after (hostOps2_59 (F := Ideal)) (after (hostOps2_58 (F := Ideal)) (after (hostOps2_57 (F := Ideal)) (W)))) (Proc.devRef .tc main_v1333)
    = stepRaw2 (W (Proc.devRef .tc main_v1299)) (W (Proc.devRef .tc main_v1308)) (W (Proc.devRef .tc main_cst_375)) (W (Proc.devRef .tc main_arg1)) (W (Proc.devRef .tc main_arg3))
        (Cert.Net.ysl (W (Proc.devRef .tc main_v776)) 35 (by omega)) (W (Proc.devRef .tc main_v1296)) := by
  after_results_simp <;> rfl
theorem c2_14_mask : after (hostOps2_60 (F := Ideal)) (after (hostOps2_59 (F := Ideal)) (after (hostOps2_58 (F := Ideal)) (after (hostOps2_57 (F := Ideal)) (W)))) (Proc.devRef .tc main_v1336) = Cert.Net.mask (W (Proc.devRef .tc main_arg2)) 15#32 := by
  after_results_simp <;> rfl
theorem c2_14_gath : after (hostOps2_60 (F := Ideal)) (after (hostOps2_59 (F := Ideal)) (after (hostOps2_58 (F := Ideal)) (after (hostOps2_57 (F := Ideal)) (W)))) (Proc.devRef .tc main_v1345)
    = Host.gather gK (Cert.Net.ysl (W (Proc.devRef .tc main_v776)) 16 (by omega)) (Cert.Net.norm (W (Proc.devRef .tc main_arg3))) := by
  after_results_simp <;> rfl
theorem c2_14_cst : after (hostOps2_60 (F := Ideal)) (after (hostOps2_59 (F := Ideal)) (after (hostOps2_58 (F := Ideal)) (after (hostOps2_57 (F := Ideal)) (W)))) (Proc.devRef .tc main_cst_386) = constant (F := Ideal) Cert.Net.S0 .f32 0x00000000#32 := by
  after_results_simp <;> rfl

/-- Label 15's four stretches. -/
theorem c2_15_a1 : after (hostOps2_64 (F := Ideal)) (after (hostOps2_63 (F := Ideal)) (after (hostOps2_62 (F := Ideal)) (after (hostOps2_61 (F := Ideal)) (W)))) (Proc.devRef .tc main_arg1) = W (Proc.devRef .tc main_arg1) := by after_results_simp
theorem c2_15_a2 : after (hostOps2_64 (F := Ideal)) (after (hostOps2_63 (F := Ideal)) (after (hostOps2_62 (F := Ideal)) (after (hostOps2_61 (F := Ideal)) (W)))) (Proc.devRef .tc main_arg2) = W (Proc.devRef .tc main_arg2) := by after_results_simp
theorem c2_15_a3 : after (hostOps2_64 (F := Ideal)) (after (hostOps2_63 (F := Ideal)) (after (hostOps2_62 (F := Ideal)) (after (hostOps2_61 (F := Ideal)) (W)))) (Proc.devRef .tc main_arg3) = W (Proc.devRef .tc main_arg3) := by after_results_simp
theorem c2_15_y : after (hostOps2_64 (F := Ideal)) (after (hostOps2_63 (F := Ideal)) (after (hostOps2_62 (F := Ideal)) (after (hostOps2_61 (F := Ideal)) (W)))) (Proc.devRef .tc main_v776) = W (Proc.devRef .tc main_v776) := by after_results_simp
theorem c2_15_acc : after (hostOps2_64 (F := Ideal)) (after (hostOps2_63 (F := Ideal)) (after (hostOps2_62 (F := Ideal)) (after (hostOps2_61 (F := Ideal)) (W)))) (Proc.devRef .tc main_v1370)
    = stepRaw2 (W (Proc.devRef .tc main_v1336)) (W (Proc.devRef .tc main_v1345)) (W (Proc.devRef .tc main_cst_386)) (W (Proc.devRef .tc main_arg1)) (W (Proc.devRef .tc main_arg3))
        (Cert.Net.ysl (W (Proc.devRef .tc main_v776)) 36 (by omega)) (W (Proc.devRef .tc main_v1333)) := by
  after_results_simp <;> rfl
theorem c2_15_mask : after (hostOps2_64 (F := Ideal)) (after (hostOps2_63 (F := Ideal)) (after (hostOps2_62 (F := Ideal)) (after (hostOps2_61 (F := Ideal)) (W)))) (Proc.devRef .tc main_v1373) = Cert.Net.mask (W (Proc.devRef .tc main_arg2)) 16#32 := by
  after_results_simp <;> rfl
theorem c2_15_gath : after (hostOps2_64 (F := Ideal)) (after (hostOps2_63 (F := Ideal)) (after (hostOps2_62 (F := Ideal)) (after (hostOps2_61 (F := Ideal)) (W)))) (Proc.devRef .tc main_v1382)
    = Host.gather gK (Cert.Net.ysl (W (Proc.devRef .tc main_v776)) 17 (by omega)) (Cert.Net.norm (W (Proc.devRef .tc main_arg3))) := by
  after_results_simp <;> rfl
theorem c2_15_cst : after (hostOps2_64 (F := Ideal)) (after (hostOps2_63 (F := Ideal)) (after (hostOps2_62 (F := Ideal)) (after (hostOps2_61 (F := Ideal)) (W)))) (Proc.devRef .tc main_cst_397) = constant (F := Ideal) Cert.Net.S0 .f32 0x00000000#32 := by
  after_results_simp <;> rfl

/-- Label 16's four stretches. -/
theorem c2_16_a1 : after (hostOps2_68 (F := Ideal)) (after (hostOps2_67 (F := Ideal)) (after (hostOps2_66 (F := Ideal)) (after (hostOps2_65 (F := Ideal)) (W)))) (Proc.devRef .tc main_arg1) = W (Proc.devRef .tc main_arg1) := by after_results_simp
theorem c2_16_a2 : after (hostOps2_68 (F := Ideal)) (after (hostOps2_67 (F := Ideal)) (after (hostOps2_66 (F := Ideal)) (after (hostOps2_65 (F := Ideal)) (W)))) (Proc.devRef .tc main_arg2) = W (Proc.devRef .tc main_arg2) := by after_results_simp
theorem c2_16_a3 : after (hostOps2_68 (F := Ideal)) (after (hostOps2_67 (F := Ideal)) (after (hostOps2_66 (F := Ideal)) (after (hostOps2_65 (F := Ideal)) (W)))) (Proc.devRef .tc main_arg3) = W (Proc.devRef .tc main_arg3) := by after_results_simp
theorem c2_16_y : after (hostOps2_68 (F := Ideal)) (after (hostOps2_67 (F := Ideal)) (after (hostOps2_66 (F := Ideal)) (after (hostOps2_65 (F := Ideal)) (W)))) (Proc.devRef .tc main_v776) = W (Proc.devRef .tc main_v776) := by after_results_simp
theorem c2_16_acc : after (hostOps2_68 (F := Ideal)) (after (hostOps2_67 (F := Ideal)) (after (hostOps2_66 (F := Ideal)) (after (hostOps2_65 (F := Ideal)) (W)))) (Proc.devRef .tc main_v1407)
    = stepRaw2 (W (Proc.devRef .tc main_v1373)) (W (Proc.devRef .tc main_v1382)) (W (Proc.devRef .tc main_cst_397)) (W (Proc.devRef .tc main_arg1)) (W (Proc.devRef .tc main_arg3))
        (Cert.Net.ysl (W (Proc.devRef .tc main_v776)) 37 (by omega)) (W (Proc.devRef .tc main_v1370)) := by
  after_results_simp <;> rfl
theorem c2_16_mask : after (hostOps2_68 (F := Ideal)) (after (hostOps2_67 (F := Ideal)) (after (hostOps2_66 (F := Ideal)) (after (hostOps2_65 (F := Ideal)) (W)))) (Proc.devRef .tc main_v1410) = Cert.Net.mask (W (Proc.devRef .tc main_arg2)) 17#32 := by
  after_results_simp <;> rfl
theorem c2_16_gath : after (hostOps2_68 (F := Ideal)) (after (hostOps2_67 (F := Ideal)) (after (hostOps2_66 (F := Ideal)) (after (hostOps2_65 (F := Ideal)) (W)))) (Proc.devRef .tc main_v1419)
    = Host.gather gK (Cert.Net.ysl (W (Proc.devRef .tc main_v776)) 18 (by omega)) (Cert.Net.norm (W (Proc.devRef .tc main_arg3))) := by
  after_results_simp <;> rfl
theorem c2_16_cst : after (hostOps2_68 (F := Ideal)) (after (hostOps2_67 (F := Ideal)) (after (hostOps2_66 (F := Ideal)) (after (hostOps2_65 (F := Ideal)) (W)))) (Proc.devRef .tc main_cst_408) = constant (F := Ideal) Cert.Net.S0 .f32 0x00000000#32 := by
  after_results_simp <;> rfl

/-- Label 17's four stretches. -/
theorem c2_17_a1 : after (hostOps2_72 (F := Ideal)) (after (hostOps2_71 (F := Ideal)) (after (hostOps2_70 (F := Ideal)) (after (hostOps2_69 (F := Ideal)) (W)))) (Proc.devRef .tc main_arg1) = W (Proc.devRef .tc main_arg1) := by after_results_simp
theorem c2_17_a2 : after (hostOps2_72 (F := Ideal)) (after (hostOps2_71 (F := Ideal)) (after (hostOps2_70 (F := Ideal)) (after (hostOps2_69 (F := Ideal)) (W)))) (Proc.devRef .tc main_arg2) = W (Proc.devRef .tc main_arg2) := by after_results_simp
theorem c2_17_a3 : after (hostOps2_72 (F := Ideal)) (after (hostOps2_71 (F := Ideal)) (after (hostOps2_70 (F := Ideal)) (after (hostOps2_69 (F := Ideal)) (W)))) (Proc.devRef .tc main_arg3) = W (Proc.devRef .tc main_arg3) := by after_results_simp
theorem c2_17_y : after (hostOps2_72 (F := Ideal)) (after (hostOps2_71 (F := Ideal)) (after (hostOps2_70 (F := Ideal)) (after (hostOps2_69 (F := Ideal)) (W)))) (Proc.devRef .tc main_v776) = W (Proc.devRef .tc main_v776) := by after_results_simp
theorem c2_17_acc : after (hostOps2_72 (F := Ideal)) (after (hostOps2_71 (F := Ideal)) (after (hostOps2_70 (F := Ideal)) (after (hostOps2_69 (F := Ideal)) (W)))) (Proc.devRef .tc main_v1444)
    = stepRaw2 (W (Proc.devRef .tc main_v1410)) (W (Proc.devRef .tc main_v1419)) (W (Proc.devRef .tc main_cst_408)) (W (Proc.devRef .tc main_arg1)) (W (Proc.devRef .tc main_arg3))
        (Cert.Net.ysl (W (Proc.devRef .tc main_v776)) 38 (by omega)) (W (Proc.devRef .tc main_v1407)) := by
  after_results_simp <;> rfl
theorem c2_17_mask : after (hostOps2_72 (F := Ideal)) (after (hostOps2_71 (F := Ideal)) (after (hostOps2_70 (F := Ideal)) (after (hostOps2_69 (F := Ideal)) (W)))) (Proc.devRef .tc main_v1447) = Cert.Net.mask (W (Proc.devRef .tc main_arg2)) 18#32 := by
  after_results_simp <;> rfl
theorem c2_17_gath : after (hostOps2_72 (F := Ideal)) (after (hostOps2_71 (F := Ideal)) (after (hostOps2_70 (F := Ideal)) (after (hostOps2_69 (F := Ideal)) (W)))) (Proc.devRef .tc main_v1456)
    = Host.gather gK (Cert.Net.ysl (W (Proc.devRef .tc main_v776)) 19 (by omega)) (Cert.Net.norm (W (Proc.devRef .tc main_arg3))) := by
  after_results_simp <;> rfl
theorem c2_17_cst : after (hostOps2_72 (F := Ideal)) (after (hostOps2_71 (F := Ideal)) (after (hostOps2_70 (F := Ideal)) (after (hostOps2_69 (F := Ideal)) (W)))) (Proc.devRef .tc main_cst_419) = constant (F := Ideal) Cert.Net.S0 .f32 0x00000000#32 := by
  after_results_simp <;> rfl

/-- Label 18's four stretches. -/
theorem c2_18_a1 : after (hostOps2_76 (F := Ideal)) (after (hostOps2_75 (F := Ideal)) (after (hostOps2_74 (F := Ideal)) (after (hostOps2_73 (F := Ideal)) (W)))) (Proc.devRef .tc main_arg1) = W (Proc.devRef .tc main_arg1) := by after_results_simp
theorem c2_18_a2 : after (hostOps2_76 (F := Ideal)) (after (hostOps2_75 (F := Ideal)) (after (hostOps2_74 (F := Ideal)) (after (hostOps2_73 (F := Ideal)) (W)))) (Proc.devRef .tc main_arg2) = W (Proc.devRef .tc main_arg2) := by after_results_simp
theorem c2_18_a3 : after (hostOps2_76 (F := Ideal)) (after (hostOps2_75 (F := Ideal)) (after (hostOps2_74 (F := Ideal)) (after (hostOps2_73 (F := Ideal)) (W)))) (Proc.devRef .tc main_arg3) = W (Proc.devRef .tc main_arg3) := by after_results_simp
theorem c2_18_y : after (hostOps2_76 (F := Ideal)) (after (hostOps2_75 (F := Ideal)) (after (hostOps2_74 (F := Ideal)) (after (hostOps2_73 (F := Ideal)) (W)))) (Proc.devRef .tc main_v776) = W (Proc.devRef .tc main_v776) := by after_results_simp
theorem c2_18_acc : after (hostOps2_76 (F := Ideal)) (after (hostOps2_75 (F := Ideal)) (after (hostOps2_74 (F := Ideal)) (after (hostOps2_73 (F := Ideal)) (W)))) (Proc.devRef .tc main_v1481)
    = stepRaw2 (W (Proc.devRef .tc main_v1447)) (W (Proc.devRef .tc main_v1456)) (W (Proc.devRef .tc main_cst_419)) (W (Proc.devRef .tc main_arg1)) (W (Proc.devRef .tc main_arg3))
        (Cert.Net.ysl (W (Proc.devRef .tc main_v776)) 39 (by omega)) (W (Proc.devRef .tc main_v1444)) := by
  after_results_simp <;> rfl
theorem c2_18_mask : after (hostOps2_76 (F := Ideal)) (after (hostOps2_75 (F := Ideal)) (after (hostOps2_74 (F := Ideal)) (after (hostOps2_73 (F := Ideal)) (W)))) (Proc.devRef .tc main_v1484) = Cert.Net.mask (W (Proc.devRef .tc main_arg2)) 19#32 := by
  after_results_simp <;> rfl
theorem c2_18_gath : after (hostOps2_76 (F := Ideal)) (after (hostOps2_75 (F := Ideal)) (after (hostOps2_74 (F := Ideal)) (after (hostOps2_73 (F := Ideal)) (W)))) (Proc.devRef .tc main_v1493)
    = Host.gather gK (Cert.Net.ysl (W (Proc.devRef .tc main_v776)) 20 (by omega)) (Cert.Net.norm (W (Proc.devRef .tc main_arg3))) := by
  after_results_simp <;> rfl
theorem c2_18_cst : after (hostOps2_76 (F := Ideal)) (after (hostOps2_75 (F := Ideal)) (after (hostOps2_74 (F := Ideal)) (after (hostOps2_73 (F := Ideal)) (W)))) (Proc.devRef .tc main_cst_430) = constant (F := Ideal) Cert.Net.S0 .f32 0x00000000#32 := by
  after_results_simp <;> rfl

/-- Label 19's four stretches. -/
theorem c2_19_a1 : after (hostOps2_80 (F := Ideal)) (after (hostOps2_79 (F := Ideal)) (after (hostOps2_78 (F := Ideal)) (after (hostOps2_77 (F := Ideal)) (W)))) (Proc.devRef .tc main_arg1) = W (Proc.devRef .tc main_arg1) := by after_results_simp
theorem c2_19_a2 : after (hostOps2_80 (F := Ideal)) (after (hostOps2_79 (F := Ideal)) (after (hostOps2_78 (F := Ideal)) (after (hostOps2_77 (F := Ideal)) (W)))) (Proc.devRef .tc main_arg2) = W (Proc.devRef .tc main_arg2) := by after_results_simp
theorem c2_19_a3 : after (hostOps2_80 (F := Ideal)) (after (hostOps2_79 (F := Ideal)) (after (hostOps2_78 (F := Ideal)) (after (hostOps2_77 (F := Ideal)) (W)))) (Proc.devRef .tc main_arg3) = W (Proc.devRef .tc main_arg3) := by after_results_simp
theorem c2_19_y : after (hostOps2_80 (F := Ideal)) (after (hostOps2_79 (F := Ideal)) (after (hostOps2_78 (F := Ideal)) (after (hostOps2_77 (F := Ideal)) (W)))) (Proc.devRef .tc main_v776) = W (Proc.devRef .tc main_v776) := by after_results_simp
theorem c2_19_acc : after (hostOps2_80 (F := Ideal)) (after (hostOps2_79 (F := Ideal)) (after (hostOps2_78 (F := Ideal)) (after (hostOps2_77 (F := Ideal)) (W)))) (Proc.devRef .tc main_v1518)
    = stepRaw2 (W (Proc.devRef .tc main_v1484)) (W (Proc.devRef .tc main_v1493)) (W (Proc.devRef .tc main_cst_430)) (W (Proc.devRef .tc main_arg1)) (W (Proc.devRef .tc main_arg3))
        (Cert.Net.ysl (W (Proc.devRef .tc main_v776)) 40 (by omega)) (W (Proc.devRef .tc main_v1481)) := by
  after_results_simp <;> rfl

/-- The last two stretches take the positive part of the sum and narrow it: the next product's rows. -/
theorem t2_x : after (hostOps2_82 (F := Ideal)) (after (hostOps2_81 (F := Ideal)) (W)) (Proc.devRef .tc main_v1520)
    = truncf .bf16 (Cert.Net.relu (W (Proc.devRef .tc main_v1518))) (by decide) := by
  after_results_simp <;> rfl

end Stretches

/-! ## The labels in order, from buffer contents `Vv` that hold the product -/

variable (Vv : Valuation τ sig (Elt Ideal))

/-- The sum after the labels `0 … n - 1`. -/
abbrev sum2 (n : ℕ) (hn : n ≤ 20) : Cert.Net.A :=
  Cert.Net.chain gK scK (Vv (Proc.devRef .tc main_arg1)) (Vv (Proc.devRef .tc main_arg2)) (Vv (Proc.devRef .tc main_arg3)) (fun n hn => Cert.Net.ysl (Vv (Proc.devRef .tc main_v776)) (n + 1) (by omega)) (fun n hn => Cert.Net.ysl (Vv (Proc.devRef .tc main_v776)) (n + 21) (by omega))
    (Cert.Net.ysl (Vv (Proc.devRef .tc main_v776)) 0 (by omega)) n hn

/-- The buffer contents when label `r` is entered. -/
abbrev W2_0 : Valuation τ sig (Elt Ideal) := after (hostOps2 (F := Ideal)) Vv
abbrev W2_1 : Valuation τ sig (Elt Ideal) := after (hostOps2_4 (F := Ideal)) (after (hostOps2_3 (F := Ideal)) (after (hostOps2_2 (F := Ideal)) (after (hostOps2_1 (F := Ideal)) (W2_0 Vv))))
abbrev W2_2 : Valuation τ sig (Elt Ideal) := after (hostOps2_8 (F := Ideal)) (after (hostOps2_7 (F := Ideal)) (after (hostOps2_6 (F := Ideal)) (after (hostOps2_5 (F := Ideal)) (W2_1 Vv))))
abbrev W2_3 : Valuation τ sig (Elt Ideal) := after (hostOps2_12 (F := Ideal)) (after (hostOps2_11 (F := Ideal)) (after (hostOps2_10 (F := Ideal)) (after (hostOps2_9 (F := Ideal)) (W2_2 Vv))))
abbrev W2_4 : Valuation τ sig (Elt Ideal) := after (hostOps2_16 (F := Ideal)) (after (hostOps2_15 (F := Ideal)) (after (hostOps2_14 (F := Ideal)) (after (hostOps2_13 (F := Ideal)) (W2_3 Vv))))
abbrev W2_5 : Valuation τ sig (Elt Ideal) := after (hostOps2_20 (F := Ideal)) (after (hostOps2_19 (F := Ideal)) (after (hostOps2_18 (F := Ideal)) (after (hostOps2_17 (F := Ideal)) (W2_4 Vv))))
abbrev W2_6 : Valuation τ sig (Elt Ideal) := after (hostOps2_24 (F := Ideal)) (after (hostOps2_23 (F := Ideal)) (after (hostOps2_22 (F := Ideal)) (after (hostOps2_21 (F := Ideal)) (W2_5 Vv))))
abbrev W2_7 : Valuation τ sig (Elt Ideal) := after (hostOps2_28 (F := Ideal)) (after (hostOps2_27 (F := Ideal)) (after (hostOps2_26 (F := Ideal)) (after (hostOps2_25 (F := Ideal)) (W2_6 Vv))))
abbrev W2_8 : Valuation τ sig (Elt Ideal) := after (hostOps2_32 (F := Ideal)) (after (hostOps2_31 (F := Ideal)) (after (hostOps2_30 (F := Ideal)) (after (hostOps2_29 (F := Ideal)) (W2_7 Vv))))
abbrev W2_9 : Valuation τ sig (Elt Ideal) := after (hostOps2_36 (F := Ideal)) (after (hostOps2_35 (F := Ideal)) (after (hostOps2_34 (F := Ideal)) (after (hostOps2_33 (F := Ideal)) (W2_8 Vv))))
abbrev W2_10 : Valuation τ sig (Elt Ideal) := after (hostOps2_40 (F := Ideal)) (after (hostOps2_39 (F := Ideal)) (after (hostOps2_38 (F := Ideal)) (after (hostOps2_37 (F := Ideal)) (W2_9 Vv))))
abbrev W2_11 : Valuation τ sig (Elt Ideal) := after (hostOps2_44 (F := Ideal)) (after (hostOps2_43 (F := Ideal)) (after (hostOps2_42 (F := Ideal)) (after (hostOps2_41 (F := Ideal)) (W2_10 Vv))))
abbrev W2_12 : Valuation τ sig (Elt Ideal) := after (hostOps2_48 (F := Ideal)) (after (hostOps2_47 (F := Ideal)) (after (hostOps2_46 (F := Ideal)) (after (hostOps2_45 (F := Ideal)) (W2_11 Vv))))
abbrev W2_13 : Valuation τ sig (Elt Ideal) := after (hostOps2_52 (F := Ideal)) (after (hostOps2_51 (F := Ideal)) (after (hostOps2_50 (F := Ideal)) (after (hostOps2_49 (F := Ideal)) (W2_12 Vv))))
abbrev W2_14 : Valuation τ sig (Elt Ideal) := after (hostOps2_56 (F := Ideal)) (after (hostOps2_55 (F := Ideal)) (after (hostOps2_54 (F := Ideal)) (after (hostOps2_53 (F := Ideal)) (W2_13 Vv))))
abbrev W2_15 : Valuation τ sig (Elt Ideal) := after (hostOps2_60 (F := Ideal)) (after (hostOps2_59 (F := Ideal)) (after (hostOps2_58 (F := Ideal)) (after (hostOps2_57 (F := Ideal)) (W2_14 Vv))))
abbrev W2_16 : Valuation τ sig (Elt Ideal) := after (hostOps2_64 (F := Ideal)) (after (hostOps2_63 (F := Ideal)) (after (hostOps2_62 (F := Ideal)) (after (hostOps2_61 (F := Ideal)) (W2_15 Vv))))
abbrev W2_17 : Valuation τ sig (Elt Ideal) := after (hostOps2_68 (F := Ideal)) (after (hostOps2_67 (F := Ideal)) (after (hostOps2_66 (F := Ideal)) (after (hostOps2_65 (F := Ideal)) (W2_16 Vv))))
abbrev W2_18 : Valuation τ sig (Elt Ideal) := after (hostOps2_72 (F := Ideal)) (after (hostOps2_71 (F := Ideal)) (after (hostOps2_70 (F := Ideal)) (after (hostOps2_69 (F := Ideal)) (W2_17 Vv))))
abbrev W2_19 : Valuation τ sig (Elt Ideal) := after (hostOps2_76 (F := Ideal)) (after (hostOps2_75 (F := Ideal)) (after (hostOps2_74 (F := Ideal)) (after (hostOps2_73 (F := Ideal)) (W2_18 Vv))))
abbrev W2_20 : Valuation τ sig (Elt Ideal) := after (hostOps2_80 (F := Ideal)) (after (hostOps2_79 (F := Ideal)) (after (hostOps2_78 (F := Ideal)) (after (hostOps2_77 (F := Ideal)) (W2_19 Vv))))

/-- Entering label 0. -/
theorem inv2_0 : W2_0 Vv (Proc.devRef .tc main_arg1) = (Vv (Proc.devRef .tc main_arg1)) ∧ W2_0 Vv (Proc.devRef .tc main_arg2) = (Vv (Proc.devRef .tc main_arg2)) ∧ W2_0 Vv (Proc.devRef .tc main_arg3) = (Vv (Proc.devRef .tc main_arg3))
    ∧ W2_0 Vv (Proc.devRef .tc main_v776) = (Vv (Proc.devRef .tc main_v776)) ∧ W2_0 Vv (Proc.devRef .tc main_v778) = sum2 Vv 0 (by omega)
    ∧ W2_0 Vv (Proc.devRef .tc main_v781) = Cert.Net.mask (Vv (Proc.devRef .tc main_arg2)) 0#32
    ∧ W2_0 Vv (Proc.devRef .tc main_v790) = Host.gather gK (Cert.Net.ysl (Vv (Proc.devRef .tc main_v776)) 1 (by omega)) (Cert.Net.norm (Vv (Proc.devRef .tc main_arg3)))
    ∧ W2_0 Vv (Proc.devRef .tc main_cst_221) = constant (F := Ideal) Cert.Net.S0 .f32 0x00000000#32 :=
  ⟨h2_a1 Vv, h2_a2 Vv, h2_a3 Vv, h2_y Vv, h2_acc Vv, h2_mask Vv, h2_gath Vv, h2_cst Vv⟩

/-- Entering label 1. -/
theorem inv2_1 : W2_1 Vv (Proc.devRef .tc main_arg1) = (Vv (Proc.devRef .tc main_arg1)) ∧ W2_1 Vv (Proc.devRef .tc main_arg2) = (Vv (Proc.devRef .tc main_arg2)) ∧ W2_1 Vv (Proc.devRef .tc main_arg3) = (Vv (Proc.devRef .tc main_arg3))
    ∧ W2_1 Vv (Proc.devRef .tc main_v776) = (Vv (Proc.devRef .tc main_v776)) ∧ W2_1 Vv (Proc.devRef .tc main_v815) = sum2 Vv 1 (by omega)
    ∧ W2_1 Vv (Proc.devRef .tc main_v818) = Cert.Net.mask (Vv (Proc.devRef .tc main_arg2)) 1#32
    ∧ W2_1 Vv (Proc.devRef .tc main_v827) = Host.gather gK (Cert.Net.ysl (Vv (Proc.devRef .tc main_v776)) 2 (by omega)) (Cert.Net.norm (Vv (Proc.devRef .tc main_arg3)))
    ∧ W2_1 Vv (Proc.devRef .tc main_cst_232) = constant (F := Ideal) Cert.Net.S0 .f32 0x00000000#32 := by
  obtain ⟨h1, h2, h3, hy, ha, hm, hg, hc⟩ := inv2_0 Vv
  refine ⟨?_, ?_, ?_, ?_, ?_, ?_, ?_, ?_⟩
  · exact (c2_0_a1 (W2_0 Vv)).trans h1
  · exact (c2_0_a2 (W2_0 Vv)).trans h2
  · exact (c2_0_a3 (W2_0 Vv)).trans h3
  · exact (c2_0_y (W2_0 Vv)).trans hy
  · refine (c2_0_acc (W2_0 Vv)).trans ?_
    rw [hm, hg, hc, h1, h3, hy, ha]
    rfl
  · refine (c2_0_mask (W2_0 Vv)).trans ?_
    rw [h2]
  · refine (c2_0_gath (W2_0 Vv)).trans ?_
    rw [hy, h3]
  · exact c2_0_cst (W2_0 Vv)

/-- Entering label 2. -/
theorem inv2_2 : W2_2 Vv (Proc.devRef .tc main_arg1) = (Vv (Proc.devRef .tc main_arg1)) ∧ W2_2 Vv (Proc.devRef .tc main_arg2) = (Vv (Proc.devRef .tc main_arg2)) ∧ W2_2 Vv (Proc.devRef .tc main_arg3) = (Vv (Proc.devRef .tc main_arg3))
    ∧ W2_2 Vv (Proc.devRef .tc main_v776) = (Vv (Proc.devRef .tc main_v776)) ∧ W2_2 Vv (Proc.devRef .tc main_v852) = sum2 Vv 2 (by omega)
    ∧ W2_2 Vv (Proc.devRef .tc main_v855) = Cert.Net.mask (Vv (Proc.devRef .tc main_arg2)) 2#32
    ∧ W2_2 Vv (Proc.devRef .tc main_v864) = Host.gather gK (Cert.Net.ysl (Vv (Proc.devRef .tc main_v776)) 3 (by omega)) (Cert.Net.norm (Vv (Proc.devRef .tc main_arg3)))
    ∧ W2_2 Vv (Proc.devRef .tc main_cst_243) = constant (F := Ideal) Cert.Net.S0 .f32 0x00000000#32 := by
  obtain ⟨h1, h2, h3, hy, ha, hm, hg, hc⟩ := inv2_1 Vv
  refine ⟨?_, ?_, ?_, ?_, ?_, ?_, ?_, ?_⟩
  · exact (c2_1_a1 (W2_1 Vv)).trans h1
  · exact (c2_1_a2 (W2_1 Vv)).trans h2
  · exact (c2_1_a3 (W2_1 Vv)).trans h3
  · exact (c2_1_y (W2_1 Vv)).trans hy
  · refine (c2_1_acc (W2_1 Vv)).trans ?_
    rw [hm, hg, hc, h1, h3, hy, ha]
    rfl
  · refine (c2_1_mask (W2_1 Vv)).trans ?_
    rw [h2]
  · refine (c2_1_gath (W2_1 Vv)).trans ?_
    rw [hy, h3]
  · exact c2_1_cst (W2_1 Vv)

/-- Entering label 3. -/
theorem inv2_3 : W2_3 Vv (Proc.devRef .tc main_arg1) = (Vv (Proc.devRef .tc main_arg1)) ∧ W2_3 Vv (Proc.devRef .tc main_arg2) = (Vv (Proc.devRef .tc main_arg2)) ∧ W2_3 Vv (Proc.devRef .tc main_arg3) = (Vv (Proc.devRef .tc main_arg3))
    ∧ W2_3 Vv (Proc.devRef .tc main_v776) = (Vv (Proc.devRef .tc main_v776)) ∧ W2_3 Vv (Proc.devRef .tc main_v889) = sum2 Vv 3 (by omega)
    ∧ W2_3 Vv (Proc.devRef .tc main_v892) = Cert.Net.mask (Vv (Proc.devRef .tc main_arg2)) 3#32
    ∧ W2_3 Vv (Proc.devRef .tc main_v901) = Host.gather gK (Cert.Net.ysl (Vv (Proc.devRef .tc main_v776)) 4 (by omega)) (Cert.Net.norm (Vv (Proc.devRef .tc main_arg3)))
    ∧ W2_3 Vv (Proc.devRef .tc main_cst_254) = constant (F := Ideal) Cert.Net.S0 .f32 0x00000000#32 := by
  obtain ⟨h1, h2, h3, hy, ha, hm, hg, hc⟩ := inv2_2 Vv
  refine ⟨?_, ?_, ?_, ?_, ?_, ?_, ?_, ?_⟩
  · exact (c2_2_a1 (W2_2 Vv)).trans h1
  · exact (c2_2_a2 (W2_2 Vv)).trans h2
  · exact (c2_2_a3 (W2_2 Vv)).trans h3
  · exact (c2_2_y (W2_2 Vv)).trans hy
  · refine (c2_2_acc (W2_2 Vv)).trans ?_
    rw [hm, hg, hc, h1, h3, hy, ha]
    rfl
  · refine (c2_2_mask (W2_2 Vv)).trans ?_
    rw [h2]
  · refine (c2_2_gath (W2_2 Vv)).trans ?_
    rw [hy, h3]
  · exact c2_2_cst (W2_2 Vv)

/-- Entering label 4. -/
theorem inv2_4 : W2_4 Vv (Proc.devRef .tc main_arg1) = (Vv (Proc.devRef .tc main_arg1)) ∧ W2_4 Vv (Proc.devRef .tc main_arg2) = (Vv (Proc.devRef .tc main_arg2)) ∧ W2_4 Vv (Proc.devRef .tc main_arg3) = (Vv (Proc.devRef .tc main_arg3))
    ∧ W2_4 Vv (Proc.devRef .tc main_v776) = (Vv (Proc.devRef .tc main_v776)) ∧ W2_4 Vv (Proc.devRef .tc main_v926) = sum2 Vv 4 (by omega)
    ∧ W2_4 Vv (Proc.devRef .tc main_v929) = Cert.Net.mask (Vv (Proc.devRef .tc main_arg2)) 4#32
    ∧ W2_4 Vv (Proc.devRef .tc main_v938) = Host.gather gK (Cert.Net.ysl (Vv (Proc.devRef .tc main_v776)) 5 (by omega)) (Cert.Net.norm (Vv (Proc.devRef .tc main_arg3)))
    ∧ W2_4 Vv (Proc.devRef .tc main_cst_265) = constant (F := Ideal) Cert.Net.S0 .f32 0x00000000#32 := by
  obtain ⟨h1, h2, h3, hy, ha, hm, hg, hc⟩ := inv2_3 Vv
  refine ⟨?_, ?_, ?_, ?_, ?_, ?_, ?_, ?_⟩
  · exact (c2_3_a1 (W2_3 Vv)).trans h1
  · exact (c2_3_a2 (W2_3 Vv)).trans h2
  · exact (c2_3_a3 (W2_3 Vv)).trans h3
  · exact (c2_3_y (W2_3 Vv)).trans hy
  · refine (c2_3_acc (W2_3 Vv)).trans ?_
    rw [hm, hg, hc, h1, h3, hy, ha]
    rfl
  · refine (c2_3_mask (W2_3 Vv)).trans ?_
    rw [h2]
  · refine (c2_3_gath (W2_3 Vv)).trans ?_
    rw [hy, h3]
  · exact c2_3_cst (W2_3 Vv)

/-- Entering label 5. -/
theorem inv2_5 : W2_5 Vv (Proc.devRef .tc main_arg1) = (Vv (Proc.devRef .tc main_arg1)) ∧ W2_5 Vv (Proc.devRef .tc main_arg2) = (Vv (Proc.devRef .tc main_arg2)) ∧ W2_5 Vv (Proc.devRef .tc main_arg3) = (Vv (Proc.devRef .tc main_arg3))
    ∧ W2_5 Vv (Proc.devRef .tc main_v776) = (Vv (Proc.devRef .tc main_v776)) ∧ W2_5 Vv (Proc.devRef .tc main_v963) = sum2 Vv 5 (by omega)
    ∧ W2_5 Vv (Proc.devRef .tc main_v966) = Cert.Net.mask (Vv (Proc.devRef .tc main_arg2)) 5#32
    ∧ W2_5 Vv (Proc.devRef .tc main_v975) = Host.gather gK (Cert.Net.ysl (Vv (Proc.devRef .tc main_v776)) 6 (by omega)) (Cert.Net.norm (Vv (Proc.devRef .tc main_arg3)))
    ∧ W2_5 Vv (Proc.devRef .tc main_cst_276) = constant (F := Ideal) Cert.Net.S0 .f32 0x00000000#32 := by
  obtain ⟨h1, h2, h3, hy, ha, hm, hg, hc⟩ := inv2_4 Vv
  refine ⟨?_, ?_, ?_, ?_, ?_, ?_, ?_, ?_⟩
  · exact (c2_4_a1 (W2_4 Vv)).trans h1
  · exact (c2_4_a2 (W2_4 Vv)).trans h2
  · exact (c2_4_a3 (W2_4 Vv)).trans h3
  · exact (c2_4_y (W2_4 Vv)).trans hy
  · refine (c2_4_acc (W2_4 Vv)).trans ?_
    rw [hm, hg, hc, h1, h3, hy, ha]
    rfl
  · refine (c2_4_mask (W2_4 Vv)).trans ?_
    rw [h2]
  · refine (c2_4_gath (W2_4 Vv)).trans ?_
    rw [hy, h3]
  · exact c2_4_cst (W2_4 Vv)

/-- Entering label 6. -/
theorem inv2_6 : W2_6 Vv (Proc.devRef .tc main_arg1) = (Vv (Proc.devRef .tc main_arg1)) ∧ W2_6 Vv (Proc.devRef .tc main_arg2) = (Vv (Proc.devRef .tc main_arg2)) ∧ W2_6 Vv (Proc.devRef .tc main_arg3) = (Vv (Proc.devRef .tc main_arg3))
    ∧ W2_6 Vv (Proc.devRef .tc main_v776) = (Vv (Proc.devRef .tc main_v776)) ∧ W2_6 Vv (Proc.devRef .tc main_v1000) = sum2 Vv 6 (by omega)
    ∧ W2_6 Vv (Proc.devRef .tc main_v1003) = Cert.Net.mask (Vv (Proc.devRef .tc main_arg2)) 6#32
    ∧ W2_6 Vv (Proc.devRef .tc main_v1012) = Host.gather gK (Cert.Net.ysl (Vv (Proc.devRef .tc main_v776)) 7 (by omega)) (Cert.Net.norm (Vv (Proc.devRef .tc main_arg3)))
    ∧ W2_6 Vv (Proc.devRef .tc main_cst_287) = constant (F := Ideal) Cert.Net.S0 .f32 0x00000000#32 := by
  obtain ⟨h1, h2, h3, hy, ha, hm, hg, hc⟩ := inv2_5 Vv
  refine ⟨?_, ?_, ?_, ?_, ?_, ?_, ?_, ?_⟩
  · exact (c2_5_a1 (W2_5 Vv)).trans h1
  · exact (c2_5_a2 (W2_5 Vv)).trans h2
  · exact (c2_5_a3 (W2_5 Vv)).trans h3
  · exact (c2_5_y (W2_5 Vv)).trans hy
  · refine (c2_5_acc (W2_5 Vv)).trans ?_
    rw [hm, hg, hc, h1, h3, hy, ha]
    rfl
  · refine (c2_5_mask (W2_5 Vv)).trans ?_
    rw [h2]
  · refine (c2_5_gath (W2_5 Vv)).trans ?_
    rw [hy, h3]
  · exact c2_5_cst (W2_5 Vv)

/-- Entering label 7. -/
theorem inv2_7 : W2_7 Vv (Proc.devRef .tc main_arg1) = (Vv (Proc.devRef .tc main_arg1)) ∧ W2_7 Vv (Proc.devRef .tc main_arg2) = (Vv (Proc.devRef .tc main_arg2)) ∧ W2_7 Vv (Proc.devRef .tc main_arg3) = (Vv (Proc.devRef .tc main_arg3))
    ∧ W2_7 Vv (Proc.devRef .tc main_v776) = (Vv (Proc.devRef .tc main_v776)) ∧ W2_7 Vv (Proc.devRef .tc main_v1037) = sum2 Vv 7 (by omega)
    ∧ W2_7 Vv (Proc.devRef .tc main_v1040) = Cert.Net.mask (Vv (Proc.devRef .tc main_arg2)) 7#32
    ∧ W2_7 Vv (Proc.devRef .tc main_v1049) = Host.gather gK (Cert.Net.ysl (Vv (Proc.devRef .tc main_v776)) 8 (by omega)) (Cert.Net.norm (Vv (Proc.devRef .tc main_arg3)))
    ∧ W2_7 Vv (Proc.devRef .tc main_cst_298) = constant (F := Ideal) Cert.Net.S0 .f32 0x00000000#32 := by
  obtain ⟨h1, h2, h3, hy, ha, hm, hg, hc⟩ := inv2_6 Vv
  refine ⟨?_, ?_, ?_, ?_, ?_, ?_, ?_, ?_⟩
  · exact (c2_6_a1 (W2_6 Vv)).trans h1
  · exact (c2_6_a2 (W2_6 Vv)).trans h2
  · exact (c2_6_a3 (W2_6 Vv)).trans h3
  · exact (c2_6_y (W2_6 Vv)).trans hy
  · refine (c2_6_acc (W2_6 Vv)).trans ?_
    rw [hm, hg, hc, h1, h3, hy, ha]
    rfl
  · refine (c2_6_mask (W2_6 Vv)).trans ?_
    rw [h2]
  · refine (c2_6_gath (W2_6 Vv)).trans ?_
    rw [hy, h3]
  · exact c2_6_cst (W2_6 Vv)

/-- Entering label 8. -/
theorem inv2_8 : W2_8 Vv (Proc.devRef .tc main_arg1) = (Vv (Proc.devRef .tc main_arg1)) ∧ W2_8 Vv (Proc.devRef .tc main_arg2) = (Vv (Proc.devRef .tc main_arg2)) ∧ W2_8 Vv (Proc.devRef .tc main_arg3) = (Vv (Proc.devRef .tc main_arg3))
    ∧ W2_8 Vv (Proc.devRef .tc main_v776) = (Vv (Proc.devRef .tc main_v776)) ∧ W2_8 Vv (Proc.devRef .tc main_v1074) = sum2 Vv 8 (by omega)
    ∧ W2_8 Vv (Proc.devRef .tc main_v1077) = Cert.Net.mask (Vv (Proc.devRef .tc main_arg2)) 8#32
    ∧ W2_8 Vv (Proc.devRef .tc main_v1086) = Host.gather gK (Cert.Net.ysl (Vv (Proc.devRef .tc main_v776)) 9 (by omega)) (Cert.Net.norm (Vv (Proc.devRef .tc main_arg3)))
    ∧ W2_8 Vv (Proc.devRef .tc main_cst_309) = constant (F := Ideal) Cert.Net.S0 .f32 0x00000000#32 := by
  obtain ⟨h1, h2, h3, hy, ha, hm, hg, hc⟩ := inv2_7 Vv
  refine ⟨?_, ?_, ?_, ?_, ?_, ?_, ?_, ?_⟩
  · exact (c2_7_a1 (W2_7 Vv)).trans h1
  · exact (c2_7_a2 (W2_7 Vv)).trans h2
  · exact (c2_7_a3 (W2_7 Vv)).trans h3
  · exact (c2_7_y (W2_7 Vv)).trans hy
  · refine (c2_7_acc (W2_7 Vv)).trans ?_
    rw [hm, hg, hc, h1, h3, hy, ha]
    rfl
  · refine (c2_7_mask (W2_7 Vv)).trans ?_
    rw [h2]
  · refine (c2_7_gath (W2_7 Vv)).trans ?_
    rw [hy, h3]
  · exact c2_7_cst (W2_7 Vv)

/-- Entering label 9. -/
theorem inv2_9 : W2_9 Vv (Proc.devRef .tc main_arg1) = (Vv (Proc.devRef .tc main_arg1)) ∧ W2_9 Vv (Proc.devRef .tc main_arg2) = (Vv (Proc.devRef .tc main_arg2)) ∧ W2_9 Vv (Proc.devRef .tc main_arg3) = (Vv (Proc.devRef .tc main_arg3))
    ∧ W2_9 Vv (Proc.devRef .tc main_v776) = (Vv (Proc.devRef .tc main_v776)) ∧ W2_9 Vv (Proc.devRef .tc main_v1111) = sum2 Vv 9 (by omega)
    ∧ W2_9 Vv (Proc.devRef .tc main_v1114) = Cert.Net.mask (Vv (Proc.devRef .tc main_arg2)) 9#32
    ∧ W2_9 Vv (Proc.devRef .tc main_v1123) = Host.gather gK (Cert.Net.ysl (Vv (Proc.devRef .tc main_v776)) 10 (by omega)) (Cert.Net.norm (Vv (Proc.devRef .tc main_arg3)))
    ∧ W2_9 Vv (Proc.devRef .tc main_cst_320) = constant (F := Ideal) Cert.Net.S0 .f32 0x00000000#32 := by
  obtain ⟨h1, h2, h3, hy, ha, hm, hg, hc⟩ := inv2_8 Vv
  refine ⟨?_, ?_, ?_, ?_, ?_, ?_, ?_, ?_⟩
  · exact (c2_8_a1 (W2_8 Vv)).trans h1
  · exact (c2_8_a2 (W2_8 Vv)).trans h2
  · exact (c2_8_a3 (W2_8 Vv)).trans h3
  · exact (c2_8_y (W2_8 Vv)).trans hy
  · refine (c2_8_acc (W2_8 Vv)).trans ?_
    rw [hm, hg, hc, h1, h3, hy, ha]
    rfl
  · refine (c2_8_mask (W2_8 Vv)).trans ?_
    rw [h2]
  · refine (c2_8_gath (W2_8 Vv)).trans ?_
    rw [hy, h3]
  · exact c2_8_cst (W2_8 Vv)

/-- Entering label 10. -/
theorem inv2_10 : W2_10 Vv (Proc.devRef .tc main_arg1) = (Vv (Proc.devRef .tc main_arg1)) ∧ W2_10 Vv (Proc.devRef .tc main_arg2) = (Vv (Proc.devRef .tc main_arg2)) ∧ W2_10 Vv (Proc.devRef .tc main_arg3) = (Vv (Proc.devRef .tc main_arg3))
    ∧ W2_10 Vv (Proc.devRef .tc main_v776) = (Vv (Proc.devRef .tc main_v776)) ∧ W2_10 Vv (Proc.devRef .tc main_v1148) = sum2 Vv 10 (by omega)
    ∧ W2_10 Vv (Proc.devRef .tc main_v1151) = Cert.Net.mask (Vv (Proc.devRef .tc main_arg2)) 10#32
    ∧ W2_10 Vv (Proc.devRef .tc main_v1160) = Host.gather gK (Cert.Net.ysl (Vv (Proc.devRef .tc main_v776)) 11 (by omega)) (Cert.Net.norm (Vv (Proc.devRef .tc main_arg3)))
    ∧ W2_10 Vv (Proc.devRef .tc main_cst_331) = constant (F := Ideal) Cert.Net.S0 .f32 0x00000000#32 := by
  obtain ⟨h1, h2, h3, hy, ha, hm, hg, hc⟩ := inv2_9 Vv
  refine ⟨?_, ?_, ?_, ?_, ?_, ?_, ?_, ?_⟩
  · exact (c2_9_a1 (W2_9 Vv)).trans h1
  · exact (c2_9_a2 (W2_9 Vv)).trans h2
  · exact (c2_9_a3 (W2_9 Vv)).trans h3
  · exact (c2_9_y (W2_9 Vv)).trans hy
  · refine (c2_9_acc (W2_9 Vv)).trans ?_
    rw [hm, hg, hc, h1, h3, hy, ha]
    rfl
  · refine (c2_9_mask (W2_9 Vv)).trans ?_
    rw [h2]
  · refine (c2_9_gath (W2_9 Vv)).trans ?_
    rw [hy, h3]
  · exact c2_9_cst (W2_9 Vv)

/-- Entering label 11. -/
theorem inv2_11 : W2_11 Vv (Proc.devRef .tc main_arg1) = (Vv (Proc.devRef .tc main_arg1)) ∧ W2_11 Vv (Proc.devRef .tc main_arg2) = (Vv (Proc.devRef .tc main_arg2)) ∧ W2_11 Vv (Proc.devRef .tc main_arg3) = (Vv (Proc.devRef .tc main_arg3))
    ∧ W2_11 Vv (Proc.devRef .tc main_v776) = (Vv (Proc.devRef .tc main_v776)) ∧ W2_11 Vv (Proc.devRef .tc main_v1185) = sum2 Vv 11 (by omega)
    ∧ W2_11 Vv (Proc.devRef .tc main_v1188) = Cert.Net.mask (Vv (Proc.devRef .tc main_arg2)) 11#32
    ∧ W2_11 Vv (Proc.devRef .tc main_v1197) = Host.gather gK (Cert.Net.ysl (Vv (Proc.devRef .tc main_v776)) 12 (by omega)) (Cert.Net.norm (Vv (Proc.devRef .tc main_arg3)))
    ∧ W2_11 Vv (Proc.devRef .tc main_cst_342) = constant (F := Ideal) Cert.Net.S0 .f32 0x00000000#32 := by
  obtain ⟨h1, h2, h3, hy, ha, hm, hg, hc⟩ := inv2_10 Vv
  refine ⟨?_, ?_, ?_, ?_, ?_, ?_, ?_, ?_⟩
  · exact (c2_10_a1 (W2_10 Vv)).trans h1
  · exact (c2_10_a2 (W2_10 Vv)).trans h2
  · exact (c2_10_a3 (W2_10 Vv)).trans h3
  · exact (c2_10_y (W2_10 Vv)).trans hy
  · refine (c2_10_acc (W2_10 Vv)).trans ?_
    rw [hm, hg, hc, h1, h3, hy, ha]
    rfl
  · refine (c2_10_mask (W2_10 Vv)).trans ?_
    rw [h2]
  · refine (c2_10_gath (W2_10 Vv)).trans ?_
    rw [hy, h3]
  · exact c2_10_cst (W2_10 Vv)

/-- Entering label 12. -/
theorem inv2_12 : W2_12 Vv (Proc.devRef .tc main_arg1) = (Vv (Proc.devRef .tc main_arg1)) ∧ W2_12 Vv (Proc.devRef .tc main_arg2) = (Vv (Proc.devRef .tc main_arg2)) ∧ W2_12 Vv (Proc.devRef .tc main_arg3) = (Vv (Proc.devRef .tc main_arg3))
    ∧ W2_12 Vv (Proc.devRef .tc main_v776) = (Vv (Proc.devRef .tc main_v776)) ∧ W2_12 Vv (Proc.devRef .tc main_v1222) = sum2 Vv 12 (by omega)
    ∧ W2_12 Vv (Proc.devRef .tc main_v1225) = Cert.Net.mask (Vv (Proc.devRef .tc main_arg2)) 12#32
    ∧ W2_12 Vv (Proc.devRef .tc main_v1234) = Host.gather gK (Cert.Net.ysl (Vv (Proc.devRef .tc main_v776)) 13 (by omega)) (Cert.Net.norm (Vv (Proc.devRef .tc main_arg3)))
    ∧ W2_12 Vv (Proc.devRef .tc main_cst_353) = constant (F := Ideal) Cert.Net.S0 .f32 0x00000000#32 := by
  obtain ⟨h1, h2, h3, hy, ha, hm, hg, hc⟩ := inv2_11 Vv
  refine ⟨?_, ?_, ?_, ?_, ?_, ?_, ?_, ?_⟩
  · exact (c2_11_a1 (W2_11 Vv)).trans h1
  · exact (c2_11_a2 (W2_11 Vv)).trans h2
  · exact (c2_11_a3 (W2_11 Vv)).trans h3
  · exact (c2_11_y (W2_11 Vv)).trans hy
  · refine (c2_11_acc (W2_11 Vv)).trans ?_
    rw [hm, hg, hc, h1, h3, hy, ha]
    rfl
  · refine (c2_11_mask (W2_11 Vv)).trans ?_
    rw [h2]
  · refine (c2_11_gath (W2_11 Vv)).trans ?_
    rw [hy, h3]
  · exact c2_11_cst (W2_11 Vv)

/-- Entering label 13. -/
theorem inv2_13 : W2_13 Vv (Proc.devRef .tc main_arg1) = (Vv (Proc.devRef .tc main_arg1)) ∧ W2_13 Vv (Proc.devRef .tc main_arg2) = (Vv (Proc.devRef .tc main_arg2)) ∧ W2_13 Vv (Proc.devRef .tc main_arg3) = (Vv (Proc.devRef .tc main_arg3))
    ∧ W2_13 Vv (Proc.devRef .tc main_v776) = (Vv (Proc.devRef .tc main_v776)) ∧ W2_13 Vv (Proc.devRef .tc main_v1259) = sum2 Vv 13 (by omega)
    ∧ W2_13 Vv (Proc.devRef .tc main_v1262) = Cert.Net.mask (Vv (Proc.devRef .tc main_arg2)) 13#32
    ∧ W2_13 Vv (Proc.devRef .tc main_v1271) = Host.gather gK (Cert.Net.ysl (Vv (Proc.devRef .tc main_v776)) 14 (by omega)) (Cert.Net.norm (Vv (Proc.devRef .tc main_arg3)))
    ∧ W2_13 Vv (Proc.devRef .tc main_cst_364) = constant (F := Ideal) Cert.Net.S0 .f32 0x00000000#32 := by
  obtain ⟨h1, h2, h3, hy, ha, hm, hg, hc⟩ := inv2_12 Vv
  refine ⟨?_, ?_, ?_, ?_, ?_, ?_, ?_, ?_⟩
  · exact (c2_12_a1 (W2_12 Vv)).trans h1
  · exact (c2_12_a2 (W2_12 Vv)).trans h2
  · exact (c2_12_a3 (W2_12 Vv)).trans h3
  · exact (c2_12_y (W2_12 Vv)).trans hy
  · refine (c2_12_acc (W2_12 Vv)).trans ?_
    rw [hm, hg, hc, h1, h3, hy, ha]
    rfl
  · refine (c2_12_mask (W2_12 Vv)).trans ?_
    rw [h2]
  · refine (c2_12_gath (W2_12 Vv)).trans ?_
    rw [hy, h3]
  · exact c2_12_cst (W2_12 Vv)

/-- Entering label 14. -/
theorem inv2_14 : W2_14 Vv (Proc.devRef .tc main_arg1) = (Vv (Proc.devRef .tc main_arg1)) ∧ W2_14 Vv (Proc.devRef .tc main_arg2) = (Vv (Proc.devRef .tc main_arg2)) ∧ W2_14 Vv (Proc.devRef .tc main_arg3) = (Vv (Proc.devRef .tc main_arg3))
    ∧ W2_14 Vv (Proc.devRef .tc main_v776) = (Vv (Proc.devRef .tc main_v776)) ∧ W2_14 Vv (Proc.devRef .tc main_v1296) = sum2 Vv 14 (by omega)
    ∧ W2_14 Vv (Proc.devRef .tc main_v1299) = Cert.Net.mask (Vv (Proc.devRef .tc main_arg2)) 14#32
    ∧ W2_14 Vv (Proc.devRef .tc main_v1308) = Host.gather gK (Cert.Net.ysl (Vv (Proc.devRef .tc main_v776)) 15 (by omega)) (Cert.Net.norm (Vv (Proc.devRef .tc main_arg3)))
    ∧ W2_14 Vv (Proc.devRef .tc main_cst_375) = constant (F := Ideal) Cert.Net.S0 .f32 0x00000000#32 := by
  obtain ⟨h1, h2, h3, hy, ha, hm, hg, hc⟩ := inv2_13 Vv
  refine ⟨?_, ?_, ?_, ?_, ?_, ?_, ?_, ?_⟩
  · exact (c2_13_a1 (W2_13 Vv)).trans h1
  · exact (c2_13_a2 (W2_13 Vv)).trans h2
  · exact (c2_13_a3 (W2_13 Vv)).trans h3
  · exact (c2_13_y (W2_13 Vv)).trans hy
  · refine (c2_13_acc (W2_13 Vv)).trans ?_
    rw [hm, hg, hc, h1, h3, hy, ha]
    rfl
  · refine (c2_13_mask (W2_13 Vv)).trans ?_
    rw [h2]
  · refine (c2_13_gath (W2_13 Vv)).trans ?_
    rw [hy, h3]
  · exact c2_13_cst (W2_13 Vv)

/-- Entering label 15. -/
theorem inv2_15 : W2_15 Vv (Proc.devRef .tc main_arg1) = (Vv (Proc.devRef .tc main_arg1)) ∧ W2_15 Vv (Proc.devRef .tc main_arg2) = (Vv (Proc.devRef .tc main_arg2)) ∧ W2_15 Vv (Proc.devRef .tc main_arg3) = (Vv (Proc.devRef .tc main_arg3))
    ∧ W2_15 Vv (Proc.devRef .tc main_v776) = (Vv (Proc.devRef .tc main_v776)) ∧ W2_15 Vv (Proc.devRef .tc main_v1333) = sum2 Vv 15 (by omega)
    ∧ W2_15 Vv (Proc.devRef .tc main_v1336) = Cert.Net.mask (Vv (Proc.devRef .tc main_arg2)) 15#32
    ∧ W2_15 Vv (Proc.devRef .tc main_v1345) = Host.gather gK (Cert.Net.ysl (Vv (Proc.devRef .tc main_v776)) 16 (by omega)) (Cert.Net.norm (Vv (Proc.devRef .tc main_arg3)))
    ∧ W2_15 Vv (Proc.devRef .tc main_cst_386) = constant (F := Ideal) Cert.Net.S0 .f32 0x00000000#32 := by
  obtain ⟨h1, h2, h3, hy, ha, hm, hg, hc⟩ := inv2_14 Vv
  refine ⟨?_, ?_, ?_, ?_, ?_, ?_, ?_, ?_⟩
  · exact (c2_14_a1 (W2_14 Vv)).trans h1
  · exact (c2_14_a2 (W2_14 Vv)).trans h2
  · exact (c2_14_a3 (W2_14 Vv)).trans h3
  · exact (c2_14_y (W2_14 Vv)).trans hy
  · refine (c2_14_acc (W2_14 Vv)).trans ?_
    rw [hm, hg, hc, h1, h3, hy, ha]
    rfl
  · refine (c2_14_mask (W2_14 Vv)).trans ?_
    rw [h2]
  · refine (c2_14_gath (W2_14 Vv)).trans ?_
    rw [hy, h3]
  · exact c2_14_cst (W2_14 Vv)

/-- Entering label 16. -/
theorem inv2_16 : W2_16 Vv (Proc.devRef .tc main_arg1) = (Vv (Proc.devRef .tc main_arg1)) ∧ W2_16 Vv (Proc.devRef .tc main_arg2) = (Vv (Proc.devRef .tc main_arg2)) ∧ W2_16 Vv (Proc.devRef .tc main_arg3) = (Vv (Proc.devRef .tc main_arg3))
    ∧ W2_16 Vv (Proc.devRef .tc main_v776) = (Vv (Proc.devRef .tc main_v776)) ∧ W2_16 Vv (Proc.devRef .tc main_v1370) = sum2 Vv 16 (by omega)
    ∧ W2_16 Vv (Proc.devRef .tc main_v1373) = Cert.Net.mask (Vv (Proc.devRef .tc main_arg2)) 16#32
    ∧ W2_16 Vv (Proc.devRef .tc main_v1382) = Host.gather gK (Cert.Net.ysl (Vv (Proc.devRef .tc main_v776)) 17 (by omega)) (Cert.Net.norm (Vv (Proc.devRef .tc main_arg3)))
    ∧ W2_16 Vv (Proc.devRef .tc main_cst_397) = constant (F := Ideal) Cert.Net.S0 .f32 0x00000000#32 := by
  obtain ⟨h1, h2, h3, hy, ha, hm, hg, hc⟩ := inv2_15 Vv
  refine ⟨?_, ?_, ?_, ?_, ?_, ?_, ?_, ?_⟩
  · exact (c2_15_a1 (W2_15 Vv)).trans h1
  · exact (c2_15_a2 (W2_15 Vv)).trans h2
  · exact (c2_15_a3 (W2_15 Vv)).trans h3
  · exact (c2_15_y (W2_15 Vv)).trans hy
  · refine (c2_15_acc (W2_15 Vv)).trans ?_
    rw [hm, hg, hc, h1, h3, hy, ha]
    rfl
  · refine (c2_15_mask (W2_15 Vv)).trans ?_
    rw [h2]
  · refine (c2_15_gath (W2_15 Vv)).trans ?_
    rw [hy, h3]
  · exact c2_15_cst (W2_15 Vv)

/-- Entering label 17. -/
theorem inv2_17 : W2_17 Vv (Proc.devRef .tc main_arg1) = (Vv (Proc.devRef .tc main_arg1)) ∧ W2_17 Vv (Proc.devRef .tc main_arg2) = (Vv (Proc.devRef .tc main_arg2)) ∧ W2_17 Vv (Proc.devRef .tc main_arg3) = (Vv (Proc.devRef .tc main_arg3))
    ∧ W2_17 Vv (Proc.devRef .tc main_v776) = (Vv (Proc.devRef .tc main_v776)) ∧ W2_17 Vv (Proc.devRef .tc main_v1407) = sum2 Vv 17 (by omega)
    ∧ W2_17 Vv (Proc.devRef .tc main_v1410) = Cert.Net.mask (Vv (Proc.devRef .tc main_arg2)) 17#32
    ∧ W2_17 Vv (Proc.devRef .tc main_v1419) = Host.gather gK (Cert.Net.ysl (Vv (Proc.devRef .tc main_v776)) 18 (by omega)) (Cert.Net.norm (Vv (Proc.devRef .tc main_arg3)))
    ∧ W2_17 Vv (Proc.devRef .tc main_cst_408) = constant (F := Ideal) Cert.Net.S0 .f32 0x00000000#32 := by
  obtain ⟨h1, h2, h3, hy, ha, hm, hg, hc⟩ := inv2_16 Vv
  refine ⟨?_, ?_, ?_, ?_, ?_, ?_, ?_, ?_⟩
  · exact (c2_16_a1 (W2_16 Vv)).trans h1
  · exact (c2_16_a2 (W2_16 Vv)).trans h2
  · exact (c2_16_a3 (W2_16 Vv)).trans h3
  · exact (c2_16_y (W2_16 Vv)).trans hy
  · refine (c2_16_acc (W2_16 Vv)).trans ?_
    rw [hm, hg, hc, h1, h3, hy, ha]
    rfl
  · refine (c2_16_mask (W2_16 Vv)).trans ?_
    rw [h2]
  · refine (c2_16_gath (W2_16 Vv)).trans ?_
    rw [hy, h3]
  · exact c2_16_cst (W2_16 Vv)

/-- Entering label 18. -/
theorem inv2_18 : W2_18 Vv (Proc.devRef .tc main_arg1) = (Vv (Proc.devRef .tc main_arg1)) ∧ W2_18 Vv (Proc.devRef .tc main_arg2) = (Vv (Proc.devRef .tc main_arg2)) ∧ W2_18 Vv (Proc.devRef .tc main_arg3) = (Vv (Proc.devRef .tc main_arg3))
    ∧ W2_18 Vv (Proc.devRef .tc main_v776) = (Vv (Proc.devRef .tc main_v776)) ∧ W2_18 Vv (Proc.devRef .tc main_v1444) = sum2 Vv 18 (by omega)
    ∧ W2_18 Vv (Proc.devRef .tc main_v1447) = Cert.Net.mask (Vv (Proc.devRef .tc main_arg2)) 18#32
    ∧ W2_18 Vv (Proc.devRef .tc main_v1456) = Host.gather gK (Cert.Net.ysl (Vv (Proc.devRef .tc main_v776)) 19 (by omega)) (Cert.Net.norm (Vv (Proc.devRef .tc main_arg3)))
    ∧ W2_18 Vv (Proc.devRef .tc main_cst_419) = constant (F := Ideal) Cert.Net.S0 .f32 0x00000000#32 := by
  obtain ⟨h1, h2, h3, hy, ha, hm, hg, hc⟩ := inv2_17 Vv
  refine ⟨?_, ?_, ?_, ?_, ?_, ?_, ?_, ?_⟩
  · exact (c2_17_a1 (W2_17 Vv)).trans h1
  · exact (c2_17_a2 (W2_17 Vv)).trans h2
  · exact (c2_17_a3 (W2_17 Vv)).trans h3
  · exact (c2_17_y (W2_17 Vv)).trans hy
  · refine (c2_17_acc (W2_17 Vv)).trans ?_
    rw [hm, hg, hc, h1, h3, hy, ha]
    rfl
  · refine (c2_17_mask (W2_17 Vv)).trans ?_
    rw [h2]
  · refine (c2_17_gath (W2_17 Vv)).trans ?_
    rw [hy, h3]
  · exact c2_17_cst (W2_17 Vv)

/-- Entering label 19. -/
theorem inv2_19 : W2_19 Vv (Proc.devRef .tc main_arg1) = (Vv (Proc.devRef .tc main_arg1)) ∧ W2_19 Vv (Proc.devRef .tc main_arg2) = (Vv (Proc.devRef .tc main_arg2)) ∧ W2_19 Vv (Proc.devRef .tc main_arg3) = (Vv (Proc.devRef .tc main_arg3))
    ∧ W2_19 Vv (Proc.devRef .tc main_v776) = (Vv (Proc.devRef .tc main_v776)) ∧ W2_19 Vv (Proc.devRef .tc main_v1481) = sum2 Vv 19 (by omega)
    ∧ W2_19 Vv (Proc.devRef .tc main_v1484) = Cert.Net.mask (Vv (Proc.devRef .tc main_arg2)) 19#32
    ∧ W2_19 Vv (Proc.devRef .tc main_v1493) = Host.gather gK (Cert.Net.ysl (Vv (Proc.devRef .tc main_v776)) 20 (by omega)) (Cert.Net.norm (Vv (Proc.devRef .tc main_arg3)))
    ∧ W2_19 Vv (Proc.devRef .tc main_cst_430) = constant (F := Ideal) Cert.Net.S0 .f32 0x00000000#32 := by
  obtain ⟨h1, h2, h3, hy, ha, hm, hg, hc⟩ := inv2_18 Vv
  refine ⟨?_, ?_, ?_, ?_, ?_, ?_, ?_, ?_⟩
  · exact (c2_18_a1 (W2_18 Vv)).trans h1
  · exact (c2_18_a2 (W2_18 Vv)).trans h2
  · exact (c2_18_a3 (W2_18 Vv)).trans h3
  · exact (c2_18_y (W2_18 Vv)).trans hy
  · refine (c2_18_acc (W2_18 Vv)).trans ?_
    rw [hm, hg, hc, h1, h3, hy, ha]
    rfl
  · refine (c2_18_mask (W2_18 Vv)).trans ?_
    rw [h2]
  · refine (c2_18_gath (W2_18 Vv)).trans ?_
    rw [hy, h3]
  · exact c2_18_cst (W2_18 Vv)

/-- After the twenty labels the sum's buffer holds the layer's sum. -/
theorem inv2_20 : W2_20 Vv (Proc.devRef .tc main_v1518) = sum2 Vv 20 (le_refl _) := by
  obtain ⟨h1, h2, h3, hy, ha, hm, hg, hc⟩ := inv2_19 Vv
  refine (c2_19_acc (W2_19 Vv)).trans ?_
  rw [hm, hg, hc, h1, h3, hy, ha]
  rfl

/-! ## The whole stretch -/

/-- The buffer contents after the whole stretch. -/
abbrev after2 : Valuation τ sig (Elt Ideal) := after (hostOps2_82 (F := Ideal)) (after (hostOps2_81 (F := Ideal)) (after (hostOps2_80 (F := Ideal)) (after (hostOps2_79 (F := Ideal)) (after (hostOps2_78 (F := Ideal)) (after (hostOps2_77 (F := Ideal)) (after (hostOps2_76 (F := Ideal)) (after (hostOps2_75 (F := Ideal)) (after (hostOps2_74 (F := Ideal)) (after (hostOps2_73 (F := Ideal)) (after (hostOps2_72 (F := Ideal)) (after (hostOps2_71 (F := Ideal)) (after (hostOps2_70 (F := Ideal)) (after (hostOps2_69 (F := Ideal)) (after (hostOps2_68 (F := Ideal)) (after (hostOps2_67 (F := Ideal)) (after (hostOps2_66 (F := Ideal)) (after (hostOps2_65 (F := Ideal)) (after (hostOps2_64 (F := Ideal)) (after (hostOps2_63 (F := Ideal)) (after (hostOps2_62 (F := Ideal)) (after (hostOps2_61 (F := Ideal)) (after (hostOps2_60 (F := Ideal)) (after (hostOps2_59 (F := Ideal)) (after (hostOps2_58 (F := Ideal)) (after (hostOps2_57 (F := Ideal)) (after (hostOps2_56 (F := Ideal)) (after (hostOps2_55 (F := Ideal)) (after (hostOps2_54 (F := Ideal)) (after (hostOps2_53 (F := Ideal)) (after (hostOps2_52 (F := Ideal)) (after (hostOps2_51 (F := Ideal)) (after (hostOps2_50 (F := Ideal)) (after (hostOps2_49 (F := Ideal)) (after (hostOps2_48 (F := Ideal)) (after (hostOps2_47 (F := Ideal)) (after (hostOps2_46 (F := Ideal)) (after (hostOps2_45 (F := Ideal)) (after (hostOps2_44 (F := Ideal)) (after (hostOps2_43 (F := Ideal)) (after (hostOps2_42 (F := Ideal)) (after (hostOps2_41 (F := Ideal)) (after (hostOps2_40 (F := Ideal)) (after (hostOps2_39 (F := Ideal)) (after (hostOps2_38 (F := Ideal)) (after (hostOps2_37 (F := Ideal)) (after (hostOps2_36 (F := Ideal)) (after (hostOps2_35 (F := Ideal)) (after (hostOps2_34 (F := Ideal)) (after (hostOps2_33 (F := Ideal)) (after (hostOps2_32 (F := Ideal)) (after (hostOps2_31 (F := Ideal)) (after (hostOps2_30 (F := Ideal)) (after (hostOps2_29 (F := Ideal)) (after (hostOps2_28 (F := Ideal)) (after (hostOps2_27 (F := Ideal)) (after (hostOps2_26 (F := Ideal)) (after (hostOps2_25 (F := Ideal)) (after (hostOps2_24 (F := Ideal)) (after (hostOps2_23 (F := Ideal)) (after (hostOps2_22 (F := Ideal)) (after (hostOps2_21 (F := Ideal)) (after (hostOps2_20 (F := Ideal)) (after (hostOps2_19 (F := Ideal)) (after (hostOps2_18 (F := Ideal)) (after (hostOps2_17 (F := Ideal)) (after (hostOps2_16 (F := Ideal)) (after (hostOps2_15 (F := Ideal)) (after (hostOps2_14 (F := Ideal)) (after (hostOps2_13 (F := Ideal)) (after (hostOps2_12 (F := Ideal)) (after (hostOps2_11 (F := Ideal)) (after (hostOps2_10 (F := Ideal)) (after (hostOps2_9 (F := Ideal)) (after (hostOps2_8 (F := Ideal)) (after (hostOps2_7 (F := Ideal)) (after (hostOps2_6 (F := Ideal)) (after (hostOps2_5 (F := Ideal)) (after (hostOps2_4 (F := Ideal)) (after (hostOps2_3 (F := Ideal)) (after (hostOps2_2 (F := Ideal)) (after (hostOps2_1 (F := Ideal)) (after (hostOps2 (F := Ideal)) (Vv)))))))))))))))))))))))))))))))))))))))))))))))))))))))))))))))))))))))))))))))))))

/-- The next product's rows are the layer over the product `Vv` holds, narrowed. -/
theorem mid2_x : after2 Vv (Proc.devRef .tc main_v1520)
    = truncf .bf16 (Cert.Net.kerLayerOf gK scK (Vv (Proc.devRef .tc main_arg1)) (Vv (Proc.devRef .tc main_arg2)) (Vv (Proc.devRef .tc main_arg3)) (Vv (Proc.devRef .tc main_v776))) (by decide) := by
  show after (hostOps2_82 (F := Ideal)) (after (hostOps2_81 (F := Ideal)) (W2_20 Vv)) (Proc.devRef .tc main_v1520) = _
  refine (t2_x (W2_20 Vv)).trans ?_
  rw [inv2_20 Vv]
  rfl

/-- The last of these stretches alone, from any contents: the output projection's weight stack. -/
theorem last2_w : after (hostOps2_82 (F := Ideal)) Vv (Proc.devRef .tc main_v1523) = Cert.Net.wF (Vv (Proc.devRef .tc main_arg8)) := by
  after_results_simp <;> rfl

/-- The last of these stretches alone, from any contents: the output projection's bias stack. -/
theorem last2_b : after (hostOps2_82 (F := Ideal)) Vv (Proc.devRef .tc main_v1524) = Cert.Net.bF (Vv (Proc.devRef .tc main_arg9)) := by
  after_results_simp <;> rfl

end Cert.KernelIdeal.Walk

end
-- ==== Proof.LibRowOps.lean ====
/-
  Rows and columns of rank-2 vectors read at an index, at the ideal values (extended reals, exact operations).

  * the keep-dimensions column forms: a length-`a` vector cast to `[a, 1]`, and an `[a, 1]` column broadcast over
    `b` lanes, read at `(p, c)`;
  * a bias row: a length-`b` vector cast to `[1, b]` and broadcast over `a` rows reads, at `(p, c)`, its entry `c`;
  * the sum over the lanes of a row (`vector.multi_reduction <add>` over axis 1 of an `[a, b]` vector into the zero
    accumulator) is the `Fin b`-indexed sum of the row's entries;
  * a plain `M×K` by `K×N` matrix product into the zero accumulator is, at `(r, j)`, the sum over `k : Fin K` of
    `lhs (r, k) * rhs (k, j)`, whatever the operands' float formats;
  * a sum over `Fin (m + n)` splits into the sums over its first `m` and its last `n` indices.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowOps

open Idealize.ShloMosaic Idealize.ShloMosaic.ValueIdx

variable {α : Type}

/-- A length-`a` vector cast to an `[a, 1]` column reads, at `(p, u)`, its entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast over `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias row: a length-`b` vector cast to `[1, b]` and broadcast over `a` rows reads, at `(p, c)`, its entry `c`. -/
theorem biasRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A keep-dimensions column: a length-`a` vector `s` cast to `[a, 1]`, mapped entry by entry by `f`, and broadcast over
    `b` lanes reads, at `(p, c)`, `f` of the entry `p`. -/
theorem keepCol_apply {β : Type} {a b : ℕ} (x : (⟨1, ![a]⟩ : Shape).Idx → α) (h : (⟨1, ![a]⟩ : Shape).ShapeCasts ⟨2, ![a, 1]⟩)
    (f : α → β) (h' : (⟨2, ![a, 1]⟩ : Shape).Broadcasts ⟨2, ![a, b]⟩) (p : Fin a) (c : Fin b) :
    broadcastTo ⟨2, ![a, b]⟩ (fun i => f (shapeCast ⟨2, ![a, 1]⟩ x h i)) h' (ix2 p c) = f (x (ix1 p)) :=
  (broadcastTo_a1_ab_apply _ h' p c).trans (congrArg f (shapeCast_a_a1_apply x h p 0))

/-- The sum over the lanes of row `p` of an `[a, b]` vector, into the zero accumulator, at the ideal values. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- A plain `M×K` by `K×N` product into the zero accumulator, at `(r, j)`: the sum over `k` of `lhs (r, k) * rhs (k, j)`. -/
theorem matmul_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    FloatOps.matmul d prec lhs rhs (constant ⟨2, ![M, N]⟩ .f32 0x00000000#32) (ix2 r j)
      = ∑ k : Fin K, lhs (ix2 r k) * rhs (ix2 k j) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

/-- A sum over `Fin (m + n)` is the sum over its first `m` indices plus the sum over its last `n`. -/
theorem sum_fin_split {M : Type} [AddCommMonoid M] (m n : ℕ) (f : Fin (m + n) → M) :
    ∑ k, f k = (∑ a : Fin m, f ⟨a.val, by omega⟩) + ∑ a : Fin n, f ⟨m + a.val, by omega⟩ :=
  Fin.sum_univ_add f

end Cert.LibRowOps

end
-- ==== Proof.Region0.lean ====
/-
  The value the first kernel call leaves in its output array, as one function of the whole arrays it reads.

  The call runs a 4 × 41 grid: point `t` is row tile `t / 41` and matrix `t % 41`. At each point the body loads a
  `[2048, 512]` block of the row matrix `x`, one `[512, 512]` matrix of the stack `w` and its `[1, 512]` bias row, and
  stores the block times the matrix plus the bias row. The output's blocks tile its `[41, 8192, 512]` array, so the
  array ends holding, at `(m, n, j)`, the sum over `k` of `x (n, k) * w (m, k, j)`, plus `b (m, 0, j)`.
-/
import proofs.«143303_j18098992185957_1_alg».proof.Proof.KernelIdealFrameA
import proofs.«143303_j18098992185957_1_alg».proof.Proof.Spec
import proofs.«143303_j18098992185957_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.RegionVal

open Cert.KernelIdeal Cert.KernelIdeal.Gen

variable (V : (c : Dev nD) → (b : Ref sig .tc) → Buf (Elt Ideal) ((c : Thread nD τ).loc b))

/-- The zero offsets of a rank-2 and of a rank-3 rectangle, as constant functions. -/
theorem hzA0 : (![0, 0] : Fin 2 → Nat) = fun _ => 0 := funext fun a => by fin_cases a <;> rfl
theorem hzB0 : (![0, 0, 0] : Fin 3 → Nat) = fun _ => 0 := funext fun a => by fin_cases a <;> rfl

/-! ## The value the body stores, entry by entry -/

/-- At row `p` and lane `q` of its one matrix the body stores the row `p` of the `x` block against the column `q`
    of the `w` block, summed over the 512 shared positions, plus the bias row's entry `q`. -/
theorem pay0_apply (x0 : FVec Ideal S2048x512 .bf16) (x1 : FVec Ideal S1x512x512 .bf16) (x2 : FVec Ideal S1x1x512 .f32)
    (p : Fin 2048) (q : Fin 512) :
    Gen.k0_pay1 (F := Ideal) x0 x1 x2 (ix3 (0 : Fin 1) p q)
      = (∑ k : Fin 512, x0 (ix2 p k) * x1 (ix3 (0 : Fin 1) k q)) + x2 (ix3 (0 : Fin 1) (0 : Fin 1) q) := by
  unfold Gen.k0_pay1
  refine (shapeCast_ab_1ab_apply _ _ (0 : Fin 1) p q).trans ?_
  rw [addf_apply]
  congr 1
  · refine (Cert.LibRowOps.matmul_plain_apply _ rfl none _ _ p q).trans ?_
    refine Finset.sum_congr rfl fun k _ => ?_
    rw [shapeCast_self, shapeCast_1ab_ab_apply]
  · refine (broadcastTo_1b_ab_apply _ _ p q).trans ?_
    exact shapeCast_1ab_ab_apply _ _ (0 : Fin 1) q

/-! ## The index maps over the grid -/

/-- Point `t` of the 4 × 41 grid is row tile `t / 41` and matrix `t % 41`: the output's block index there is
    `(t % 41, t / 41, 0)`, the `x` window's `(t / 41, 0)`, the `w` and the bias windows' `(t % 41, 0, 0)`. Decided over
    the grid's 164 points. -/
theorem idx_facts0 : ∀ t : Fin cfg0.N,
    win0_3.index t (0 : Fin 3) = t.val % 41 ∧ win0_3.index t (1 : Fin 3) = t.val / 41 ∧ win0_3.index t (2 : Fin 3) = 0
    ∧ win0_0.index t (0 : Fin 2) = t.val / 41 ∧ win0_0.index t (1 : Fin 2) = 0
    ∧ win0_1.index t (0 : Fin 3) = t.val % 41 ∧ win0_1.index t (1 : Fin 3) = 0 ∧ win0_1.index t (2 : Fin 3) = 0
    ∧ win0_2.index t (0 : Fin 3) = t.val % 41 ∧ win0_2.index t (1 : Fin 3) = 0 ∧ win0_2.index t (2 : Fin 3) = 0 :=
  (by decide +kernel : ∀ t : Fin grid0.N, _)

/-! ## Each input block read off its array -/

/-- Entry `y` of the `x` window's block at point `t` is the array's entry at row `(t / 41) * 2048 + y 0`, lane `y 1`. -/
theorem blk0_0 (c : Dev nD) (t : Fin cfg0.N) (y : S2048x512.Idx) (i : S8192x512.Idx)
    (h0 : (i 0).val = t.val / 41 * 2048 + (y 0).val) (h1 : (i 1).val = (y 1).val) :
    (GenP.iblk0 (F := Ideal) V c 0 t : Vec Ideal S2048x512 .bf16) y = (V c main_v14 : Vec Ideal S8192x512 .bf16) i := by
  obtain ⟨-, -, -, e0, e1, -⟩ := idx_facts0 t
  unfold GenP.iblk0
  show (V c main_v14 : Vec Ideal S8192x512 .bf16) (((cfg0.win 0).blk t).view.emb y) = _
  congr 1
  funext a
  apply Fin.ext
  match a with
  | ⟨0, _⟩ => show win0_0.index t (0 : Fin 2) * 2048 + 1 * (y 0).val = (i 0).val; rw [e0, h0]; omega
  | ⟨1, _⟩ => show win0_0.index t (1 : Fin 2) * 512 + 1 * (y 1).val = (i 1).val; rw [e1, h1]; omega

/-- Entry `y` of the `w` window's block at point `t` is matrix `t % 41` of the stack at `(y 1, y 2)`. -/
theorem blk0_1 (c : Dev nD) (t : Fin cfg0.N) (y : S1x512x512.Idx) (i : S41x512x512.Idx)
    (h0 : (i 0).val = t.val % 41) (h1 : (i 1).val = (y 1).val) (h2 : (i 2).val = (y 2).val) :
    (GenP.iblk0 (F := Ideal) V c 1 t : Vec Ideal S1x512x512 .bf16) y = (V c main_v15 : Vec Ideal S41x512x512 .bf16) i := by
  obtain ⟨-, -, -, -, -, e0, e1, e2, -⟩ := idx_facts0 t
  have hy : (y 0).val < 1 := (y 0).isLt
  unfold GenP.iblk0
  show (V c main_v15 : Vec Ideal S41x512x512 .bf16) (((cfg0.win 1).blk t).view.emb y) = _
  congr 1
  funext a
  apply Fin.ext
  match a with
  | ⟨0, _⟩ => show win0_1.index t (0 : Fin 3) * 1 + 1 * (y 0).val = (i 0).val; rw [e0, h0]; omega
  | ⟨1, _⟩ => show win0_1.index t (1 : Fin 3) * 512 + 1 * (y 1).val = (i 1).val; rw [e1, h1]; omega
  | ⟨2, _⟩ => show win0_1.index t (2 : Fin 3) * 512 + 1 * (y 2).val = (i 2).val; rw [e2, h2]; omega

/-- Entry `y` of the bias window's block at point `t` is bias row `t % 41` of the stack at lane `y 2`. -/
theorem blk0_2 (c : Dev nD) (t : Fin cfg0.N) (y : S1x1x512.Idx) (i : S41x1x512.Idx)
    (h0 : (i 0).val = t.val % 41) (h2 : (i 2).val = (y 2).val) :
    (GenP.iblk0 (F := Ideal) V c 2 t : Vec Ideal S1x1x512 .f32) y = (V c main_v13 : Vec Ideal S41x1x512 .f32) i := by
  obtain ⟨-, -, -, -, -, -, -, -, e0, e1, e2⟩ := idx_facts0 t
  have hy0 : (y 0).val < 1 := (y 0).isLt
  have hy1 : (y 1).val < 1 := (y 1).isLt
  have hi1 : (i 1).val < 1 := (i 1).isLt
  unfold GenP.iblk0
  show (V c main_v13 : Vec Ideal S41x1x512 .f32) (((cfg0.win 2).blk t).view.emb y) = _
  congr 1
  funext a
  apply Fin.ext
  match a with
  | ⟨0, _⟩ => show win0_2.index t (0 : Fin 3) * 1 + 1 * (y 0).val = (i 0).val; rw [e0, h0]; omega
  | ⟨1, _⟩ => show win0_2.index t (1 : Fin 3) * 1 + 1 * (y 1).val = (i 1).val; rw [e1]; omega
  | ⟨2, _⟩ => show win0_2.index t (2 : Fin 3) * 512 + 1 * (y 2).val = (i 2).val; rw [e2, h2]; omega

/-! ## What point `t` stores is its block of the batched linear map -/

/-- At point `t` the body's value at `(0, p, q)` is the batched linear map of the arrays at matrix `m = t % 41`, row
    `n = (t / 41) * 2048 + p`, lane `q`. -/
theorem point0 (c : Dev nD) (t : Fin cfg0.N) (p : Fin 2048) (q : Fin 512) (m : Fin 41) (n : Fin 8192)
    (hm : m.val = t.val % 41) (hn : n.val = t.val / 41 * 2048 + p.val) :
    Gen.k0_pay1 (F := Ideal) (GenP.iblk0 V c 0 t) (GenP.iblk0 V c 1 t) (GenP.iblk0 V c 2 t) (ix3 (0 : Fin 1) p q)
      = Cert.Spec.tiled (φx := .bf16) (φw := .bf16) (V c main_v14) (V c main_v15) (V c main_v13) (ix3 m n q) := by
  refine (pay0_apply (GenP.iblk0 V c 0 t) (GenP.iblk0 V c 1 t) (GenP.iblk0 V c 2 t) p q).trans ?_
  refine Eq.trans ?_ (Cert.Spec.tiled_apply (φx := .bf16) (φw := .bf16) (V c main_v14) (V c main_v15) (V c main_v13) m n q).symm
  refine congrArg₂ (· + ·) (Finset.sum_congr rfl fun k _ => congrArg₂ (· * ·) ?_ ?_) ?_
  · exact blk0_0 V c t (ix2 p k) (ix2 n k) hn rfl
  · exact blk0_1 V c t (ix3 (0 : Fin 1) k q) (ix3 m k q) hm rfl rfl
  · exact blk0_2 V c t (ix3 (0 : Fin 1) (0 : Fin 1) q) (ix3 m (0 : Fin 1) q) hm rfl

/-! ## What point `t` writes back -/

/-- Point `t` writes back block `t` of the batched linear map of the arrays as the region finds them. -/
theorem flushed0_eq (c : Dev nD) (t : Fin cfg0.N) :
    (GenP.dat0 (F := Ideal) V c).flushed 3 t
      = ((cfg0.win 3).blk t).view.read (Elt Ideal) (Cert.Spec.tiled (φx := .bf16) (φw := .bf16) (V c main_v14) (V c main_v15) (V c main_v13)) := by
  show (cfg0.win 3).cut (grid0.coords t) ((GenP.dat0 (F := Ideal) V c).after 3 t) = _
  rw [GenP.after0_3]
  unfold GenP.out0_3
  rw [View.canon_unit_zero hzB0]
  simp only [View.ld_unit_zero (S := S2048x512) hzA0, View.ld_unit_zero (S := S1x512x512) hzB0,
    View.ld_unit_zero (S := S1x1x512) hzB0]
  obtain ⟨e0, e1, e2, -⟩ := idx_facts0 t
  have hN : t.val < 164 := lt_of_lt_of_eq t.isLt Gen.N_0
  funext j
  have hj0 : ((j 0 : Fin 1) : Nat) < 1 := (j 0).isLt
  have hj1 : ((j 1 : Fin 2048) : Nat) < 2048 := (j 1).isLt
  have key := point0 V c t (j 1) (j 2) ⟨t.val % 41, by omega⟩ ⟨t.val / 41 * 2048 + ((j 1 : Fin 2048) : Nat), by omega⟩ rfl rfl
  refine Eq.trans ?_ (key.trans ?_)
  · show Gen.k0_pay1 (F := Ideal) (GenP.iblk0 V c 0 t) (GenP.iblk0 V c 1 t) (GenP.iblk0 V c 2 t) (j : S1x2048x512.Idx) = _
    refine congrArg (Gen.k0_pay1 (F := Ideal) (GenP.iblk0 V c 0 t) (GenP.iblk0 V c 1 t) (GenP.iblk0 V c 2 t)) (funext fun a => ?_)
    match a with
    | ⟨0, _⟩ => exact Fin.ext (by show ((j 0 : Fin 1) : Nat) = 0; omega)
    | ⟨1, _⟩ => rfl
    | ⟨2, _⟩ => rfl
  · show _ = Cert.Spec.tiled (φx := .bf16) (φw := .bf16) (V c main_v14) (V c main_v15) (V c main_v13) (((cfg0.win 3).blk t).view.emb j)
    refine congrArg (Cert.Spec.tiled (φx := .bf16) (φw := .bf16) (V c main_v14) (V c main_v15) (V c main_v13)) (funext fun a => Fin.ext ?_)
    match a with
    | ⟨0, _⟩ => show t.val % 41 = win0_3.index t (0 : Fin 3) * 1 + 1 * ((j 0 : Fin 1) : Nat); rw [e0]; omega
    | ⟨1, _⟩ => show t.val / 41 * 2048 + ((j 1 : Fin 2048) : Nat) = win0_3.index t (1 : Fin 3) * 2048 + 1 * ((j 1 : Fin 2048) : Nat); rw [e1]; omega
    | ⟨2, _⟩ => show ((j 2 : Fin 512) : Nat) = win0_3.index t (2 : Fin 3) * 512 + 1 * ((j 2 : Fin 512) : Nat); rw [e2]; omega

/-! ## The blocks tile the array -/

/-- An index of the output array is in point `t`'s block iff each coordinate is in the block's range on its axis. -/
theorem mem_blk0 (t : Fin cfg0.N) (i : S41x8192x512.Idx) :
    i ∈ ((cfg0.win 3).blk t).view.set ↔ ∀ a : Fin 3, win0_3.index t a * S1x2048x512.size a ≤ (i a).val
      ∧ (i a).val < win0_3.index t a * S1x2048x512.size a + S1x2048x512.size a := by
  show i ∈ ((View.whole main_v16).slice (win0_3.rect t)).set ↔ _
  rw [View.set_slice_whole, Rect.mem_set_unit]
  exact Iff.rfl

/-- Entry `(m, n, j)` of the output array is in the block of the point `(n / 2048) * 41 + m`, which writes back. -/
theorem covered0 (i : S41x8192x512.Idx) :
    ∃ t : Fin cfg0.N, (cfg0.win 3).flush t = true ∧ i ∈ ((cfg0.win 3).blk t).view.set := by
  have h0 : (i 0).val < 41 := (i 0).isLt
  have h1 : (i 1).val < 8192 := (i 1).isLt
  have h2 : (i 2).val < 512 := (i 2).isLt
  have hlt : (i 1).val / 2048 * 41 + (i 0).val < cfg0.N := by rw [show cfg0.N = 164 from Gen.N_0]; omega
  obtain ⟨e0, e1, e2, -⟩ := idx_facts0 ⟨(i 1).val / 2048 * 41 + (i 0).val, hlt⟩
  refine ⟨⟨(i 1).val / 2048 * 41 + (i 0).val, hlt⟩, Gen.flush0_3 _, ?_⟩
  rw [mem_blk0]
  intro a
  match a with
  | ⟨0, _⟩ =>
    show win0_3.index ⟨(i 1).val / 2048 * 41 + (i 0).val, hlt⟩ (0 : Fin 3) * 1 ≤ (i 0).val
      ∧ (i 0).val < win0_3.index ⟨(i 1).val / 2048 * 41 + (i 0).val, hlt⟩ (0 : Fin 3) * 1 + 1
    rw [e0]; show ((i 1).val / 2048 * 41 + (i 0).val) % 41 * 1 ≤ (i 0).val ∧ (i 0).val < ((i 1).val / 2048 * 41 + (i 0).val) % 41 * 1 + 1; omega
  | ⟨1, _⟩ =>
    show win0_3.index ⟨(i 1).val / 2048 * 41 + (i 0).val, hlt⟩ (1 : Fin 3) * 2048 ≤ (i 1).val
      ∧ (i 1).val < win0_3.index ⟨(i 1).val / 2048 * 41 + (i 0).val, hlt⟩ (1 : Fin 3) * 2048 + 2048
    rw [e1]; show ((i 1).val / 2048 * 41 + (i 0).val) / 41 * 2048 ≤ (i 1).val ∧ (i 1).val < ((i 1).val / 2048 * 41 + (i 0).val) / 41 * 2048 + 2048; omega
  | ⟨2, _⟩ =>
    show win0_3.index ⟨(i 1).val / 2048 * 41 + (i 0).val, hlt⟩ (2 : Fin 3) * 512 ≤ (i 2).val
      ∧ (i 2).val < win0_3.index ⟨(i 1).val / 2048 * 41 + (i 0).val, hlt⟩ (2 : Fin 3) * 512 + 512
    rw [e2]; omega

/-! ## The array after the region -/

/-- After the region's 164 points the output array holds the batched linear map of the `x`, `w` and bias arrays as the
    region finds them: every entry is in some point's block, and each point writes its block of that map. -/
theorem final0 (c : Dev nD) :
    (GenP.dat0 (F := Ideal) V c).arrAt 3 cfg0.N = Cert.Spec.tiled (φx := .bf16) (φw := .bf16) (V c main_v14) (V c main_v15) (V c main_v13) :=
  (GenP.dat0 (F := Ideal) V c).arrAt_eq_of_cover 3 _ (fun t _ => flushed0_eq V c t) covered0

end Cert.KernelIdeal.RegionVal

end
-- ==== Proof.Region1.lean ====
/-
  The value the second kernel call leaves in its output array, as one function of the whole arrays it reads.

  The call runs a 4 × 41 grid: point `t` is row tile `t / 41` and matrix `t % 41`. At each point the body loads a
  `[2048, 512]` block of the row matrix `x`, one `[512, 512]` matrix of the stack `w` and its `[1, 512]` bias row, and
  stores the block times the matrix plus the bias row. The output's blocks tile its `[41, 8192, 512]` array, so the
  array ends holding, at `(m, n, j)`, the sum over `k` of `x (n, k) * w (m, k, j)`, plus `b (m, 0, j)`.
-/
import proofs.«143303_j18098992185957_1_alg».proof.Proof.KernelIdealFrameA
import proofs.«143303_j18098992185957_1_alg».proof.Proof.Spec
import proofs.«143303_j18098992185957_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.RegionVal

open Cert.KernelIdeal Cert.KernelIdeal.Gen

variable (V : (c : Dev nD) → (b : Ref sig .tc) → Buf (Elt Ideal) ((c : Thread nD τ).loc b))

/-- The zero offsets of a rank-2 and of a rank-3 rectangle, as constant functions. -/
theorem hzA1 : (![0, 0] : Fin 2 → Nat) = fun _ => 0 := funext fun a => by fin_cases a <;> rfl
theorem hzB1 : (![0, 0, 0] : Fin 3 → Nat) = fun _ => 0 := funext fun a => by fin_cases a <;> rfl

/-! ## The value the body stores, entry by entry -/

/-- At row `p` and lane `q` of its one matrix the body stores the row `p` of the `x` block against the column `q`
    of the `w` block, summed over the 512 shared positions, plus the bias row's entry `q`. -/
theorem pay1_apply (x0 : FVec Ideal S2048x512 .bf16) (x1 : FVec Ideal S1x512x512 .bf16) (x2 : FVec Ideal S1x1x512 .f32)
    (p : Fin 2048) (q : Fin 512) :
    Gen.k1_pay1 (F := Ideal) x0 x1 x2 (ix3 (0 : Fin 1) p q)
      = (∑ k : Fin 512, x0 (ix2 p k) * x1 (ix3 (0 : Fin 1) k q)) + x2 (ix3 (0 : Fin 1) (0 : Fin 1) q) := by
  unfold Gen.k1_pay1
  refine (shapeCast_ab_1ab_apply _ _ (0 : Fin 1) p q).trans ?_
  rw [addf_apply]
  congr 1
  · refine (Cert.LibRowOps.matmul_plain_apply _ rfl none _ _ p q).trans ?_
    refine Finset.sum_congr rfl fun k _ => ?_
    rw [shapeCast_self, shapeCast_1ab_ab_apply]
  · refine (broadcastTo_1b_ab_apply _ _ p q).trans ?_
    exact shapeCast_1ab_ab_apply _ _ (0 : Fin 1) q

/-! ## The index maps over the grid -/

/-- Point `t` of the 4 × 41 grid is row tile `t / 41` and matrix `t % 41`: the output's block index there is
    `(t % 41, t / 41, 0)`, the `x` window's `(t / 41, 0)`, the `w` and the bias windows' `(t % 41, 0, 0)`. Decided over
    the grid's 164 points. -/
theorem idx_facts1 : ∀ t : Fin cfg1.N,
    win1_3.index t (0 : Fin 3) = t.val % 41 ∧ win1_3.index t (1 : Fin 3) = t.val / 41 ∧ win1_3.index t (2 : Fin 3) = 0
    ∧ win1_0.index t (0 : Fin 2) = t.val / 41 ∧ win1_0.index t (1 : Fin 2) = 0
    ∧ win1_1.index t (0 : Fin 3) = t.val % 41 ∧ win1_1.index t (1 : Fin 3) = 0 ∧ win1_1.index t (2 : Fin 3) = 0
    ∧ win1_2.index t (0 : Fin 3) = t.val % 41 ∧ win1_2.index t (1 : Fin 3) = 0 ∧ win1_2.index t (2 : Fin 3) = 0 :=
  (by decide +kernel : ∀ t : Fin grid1.N, _)

/-! ## Each input block read off its array -/

/-- Entry `y` of the `x` window's block at point `t` is the array's entry at row `(t / 41) * 2048 + y 0`, lane `y 1`. -/
theorem blk1_0 (c : Dev nD) (t : Fin cfg1.N) (y : S2048x512.Idx) (i : S8192x512.Idx)
    (h0 : (i 0).val = t.val / 41 * 2048 + (y 0).val) (h1 : (i 1).val = (y 1).val) :
    (GenP.iblk1 (F := Ideal) V c 0 t : Vec Ideal S2048x512 .bf16) y = (V c main_v774 : Vec Ideal S8192x512 .bf16) i := by
  obtain ⟨-, -, -, e0, e1, -⟩ := idx_facts1 t
  unfold GenP.iblk1
  show (V c main_v774 : Vec Ideal S8192x512 .bf16) (((cfg1.win 0).blk t).view.emb y) = _
  congr 1
  funext a
  apply Fin.ext
  match a with
  | ⟨0, _⟩ => show win1_0.index t (0 : Fin 2) * 2048 + 1 * (y 0).val = (i 0).val; rw [e0, h0]; omega
  | ⟨1, _⟩ => show win1_0.index t (1 : Fin 2) * 512 + 1 * (y 1).val = (i 1).val; rw [e1, h1]; omega

/-- Entry `y` of the `w` window's block at point `t` is matrix `t % 41` of the stack at `(y 1, y 2)`. -/
theorem blk1_1 (c : Dev nD) (t : Fin cfg1.N) (y : S1x512x512.Idx) (i : S41x512x512.Idx)
    (h0 : (i 0).val = t.val % 41) (h1 : (i 1).val = (y 1).val) (h2 : (i 2).val = (y 2).val) :
    (GenP.iblk1 (F := Ideal) V c 1 t : Vec Ideal S1x512x512 .bf16) y = (V c main_v775 : Vec Ideal S41x512x512 .bf16) i := by
  obtain ⟨-, -, -, -, -, e0, e1, e2, -⟩ := idx_facts1 t
  have hy : (y 0).val < 1 := (y 0).isLt
  unfold GenP.iblk1
  show (V c main_v775 : Vec Ideal S41x512x512 .bf16) (((cfg1.win 1).blk t).view.emb y) = _
  congr 1
  funext a
  apply Fin.ext
  match a with
  | ⟨0, _⟩ => show win1_1.index t (0 : Fin 3) * 1 + 1 * (y 0).val = (i 0).val; rw [e0, h0]; omega
  | ⟨1, _⟩ => show win1_1.index t (1 : Fin 3) * 512 + 1 * (y 1).val = (i 1).val; rw [e1, h1]; omega
  | ⟨2, _⟩ => show win1_1.index t (2 : Fin 3) * 512 + 1 * (y 2).val = (i 2).val; rw [e2, h2]; omega

/-- Entry `y` of the bias window's block at point `t` is bias row `t % 41` of the stack at lane `y 2`. -/
theorem blk1_2 (c : Dev nD) (t : Fin cfg1.N) (y : S1x1x512.Idx) (i : S41x1x512.Idx)
    (h0 : (i 0).val = t.val % 41) (h2 : (i 2).val = (y 2).val) :
    (GenP.iblk1 (F := Ideal) V c 2 t : Vec Ideal S1x1x512 .f32) y = (V c main_v773 : Vec Ideal S41x1x512 .f32) i := by
  obtain ⟨-, -, -, -, -, -, -, -, e0, e1, e2⟩ := idx_facts1 t
  have hy0 : (y 0).val < 1 := (y 0).isLt
  have hy1 : (y 1).val < 1 := (y 1).isLt
  have hi1 : (i 1).val < 1 := (i 1).isLt
  unfold GenP.iblk1
  show (V c main_v773 : Vec Ideal S41x1x512 .f32) (((cfg1.win 2).blk t).view.emb y) = _
  congr 1
  funext a
  apply Fin.ext
  match a with
  | ⟨0, _⟩ => show win1_2.index t (0 : Fin 3) * 1 + 1 * (y 0).val = (i 0).val; rw [e0, h0]; omega
  | ⟨1, _⟩ => show win1_2.index t (1 : Fin 3) * 1 + 1 * (y 1).val = (i 1).val; rw [e1]; omega
  | ⟨2, _⟩ => show win1_2.index t (2 : Fin 3) * 512 + 1 * (y 2).val = (i 2).val; rw [e2, h2]; omega

/-! ## What point `t` stores is its block of the batched linear map -/

/-- At point `t` the body's value at `(0, p, q)` is the batched linear map of the arrays at matrix `m = t % 41`, row
    `n = (t / 41) * 2048 + p`, lane `q`. -/
theorem point1 (c : Dev nD) (t : Fin cfg1.N) (p : Fin 2048) (q : Fin 512) (m : Fin 41) (n : Fin 8192)
    (hm : m.val = t.val % 41) (hn : n.val = t.val / 41 * 2048 + p.val) :
    Gen.k1_pay1 (F := Ideal) (GenP.iblk1 V c 0 t) (GenP.iblk1 V c 1 t) (GenP.iblk1 V c 2 t) (ix3 (0 : Fin 1) p q)
      = Cert.Spec.tiled (φx := .bf16) (φw := .bf16) (V c main_v774) (V c main_v775) (V c main_v773) (ix3 m n q) := by
  refine (pay1_apply (GenP.iblk1 V c 0 t) (GenP.iblk1 V c 1 t) (GenP.iblk1 V c 2 t) p q).trans ?_
  refine Eq.trans ?_ (Cert.Spec.tiled_apply (φx := .bf16) (φw := .bf16) (V c main_v774) (V c main_v775) (V c main_v773) m n q).symm
  refine congrArg₂ (· + ·) (Finset.sum_congr rfl fun k _ => congrArg₂ (· * ·) ?_ ?_) ?_
  · exact blk1_0 V c t (ix2 p k) (ix2 n k) hn rfl
  · exact blk1_1 V c t (ix3 (0 : Fin 1) k q) (ix3 m k q) hm rfl rfl
  · exact blk1_2 V c t (ix3 (0 : Fin 1) (0 : Fin 1) q) (ix3 m (0 : Fin 1) q) hm rfl

/-! ## What point `t` writes back -/

/-- Point `t` writes back block `t` of the batched linear map of the arrays as the region finds them. -/
theorem flushed1_eq (c : Dev nD) (t : Fin cfg1.N) :
    (GenP.dat1 (F := Ideal) V c).flushed 3 t
      = ((cfg1.win 3).blk t).view.read (Elt Ideal) (Cert.Spec.tiled (φx := .bf16) (φw := .bf16) (V c main_v774) (V c main_v775) (V c main_v773)) := by
  show (cfg1.win 3).cut (grid1.coords t) ((GenP.dat1 (F := Ideal) V c).after 3 t) = _
  rw [GenP.after1_3]
  unfold GenP.out1_3
  rw [View.canon_unit_zero hzB1]
  simp only [View.ld_unit_zero (S := S2048x512) hzA1, View.ld_unit_zero (S := S1x512x512) hzB1,
    View.ld_unit_zero (S := S1x1x512) hzB1]
  obtain ⟨e0, e1, e2, -⟩ := idx_facts1 t
  have hN : t.val < 164 := lt_of_lt_of_eq t.isLt Gen.N_1
  funext j
  have hj0 : ((j 0 : Fin 1) : Nat) < 1 := (j 0).isLt
  have hj1 : ((j 1 : Fin 2048) : Nat) < 2048 := (j 1).isLt
  have key := point1 V c t (j 1) (j 2) ⟨t.val % 41, by omega⟩ ⟨t.val / 41 * 2048 + ((j 1 : Fin 2048) : Nat), by omega⟩ rfl rfl
  refine Eq.trans ?_ (key.trans ?_)
  · show Gen.k1_pay1 (F := Ideal) (GenP.iblk1 V c 0 t) (GenP.iblk1 V c 1 t) (GenP.iblk1 V c 2 t) (j : S1x2048x512.Idx) = _
    refine congrArg (Gen.k1_pay1 (F := Ideal) (GenP.iblk1 V c 0 t) (GenP.iblk1 V c 1 t) (GenP.iblk1 V c 2 t)) (funext fun a => ?_)
    match a with
    | ⟨0, _⟩ => exact Fin.ext (by show ((j 0 : Fin 1) : Nat) = 0; omega)
    | ⟨1, _⟩ => rfl
    | ⟨2, _⟩ => rfl
  · show _ = Cert.Spec.tiled (φx := .bf16) (φw := .bf16) (V c main_v774) (V c main_v775) (V c main_v773) (((cfg1.win 3).blk t).view.emb j)
    refine congrArg (Cert.Spec.tiled (φx := .bf16) (φw := .bf16) (V c main_v774) (V c main_v775) (V c main_v773)) (funext fun a => Fin.ext ?_)
    match a with
    | ⟨0, _⟩ => show t.val % 41 = win1_3.index t (0 : Fin 3) * 1 + 1 * ((j 0 : Fin 1) : Nat); rw [e0]; omega
    | ⟨1, _⟩ => show t.val / 41 * 2048 + ((j 1 : Fin 2048) : Nat) = win1_3.index t (1 : Fin 3) * 2048 + 1 * ((j 1 : Fin 2048) : Nat); rw [e1]; omega
    | ⟨2, _⟩ => show ((j 2 : Fin 512) : Nat) = win1_3.index t (2 : Fin 3) * 512 + 1 * ((j 2 : Fin 512) : Nat); rw [e2]; omega

/-! ## The blocks tile the array -/

/-- An index of the output array is in point `t`'s block iff each coordinate is in the block's range on its axis. -/
theorem mem_blk1 (t : Fin cfg1.N) (i : S41x8192x512.Idx) :
    i ∈ ((cfg1.win 3).blk t).view.set ↔ ∀ a : Fin 3, win1_3.index t a * S1x2048x512.size a ≤ (i a).val
      ∧ (i a).val < win1_3.index t a * S1x2048x512.size a + S1x2048x512.size a := by
  show i ∈ ((View.whole main_v776).slice (win1_3.rect t)).set ↔ _
  rw [View.set_slice_whole, Rect.mem_set_unit]
  exact Iff.rfl

/-- Entry `(m, n, j)` of the output array is in the block of the point `(n / 2048) * 41 + m`, which writes back. -/
theorem covered1 (i : S41x8192x512.Idx) :
    ∃ t : Fin cfg1.N, (cfg1.win 3).flush t = true ∧ i ∈ ((cfg1.win 3).blk t).view.set := by
  have h0 : (i 0).val < 41 := (i 0).isLt
  have h1 : (i 1).val < 8192 := (i 1).isLt
  have h2 : (i 2).val < 512 := (i 2).isLt
  have hlt : (i 1).val / 2048 * 41 + (i 0).val < cfg1.N := by rw [show cfg1.N = 164 from Gen.N_1]; omega
  obtain ⟨e0, e1, e2, -⟩ := idx_facts1 ⟨(i 1).val / 2048 * 41 + (i 0).val, hlt⟩
  refine ⟨⟨(i 1).val / 2048 * 41 + (i 0).val, hlt⟩, Gen.flush1_3 _, ?_⟩
  rw [mem_blk1]
  intro a
  match a with
  | ⟨0, _⟩ =>
    show win1_3.index ⟨(i 1).val / 2048 * 41 + (i 0).val, hlt⟩ (0 : Fin 3) * 1 ≤ (i 0).val
      ∧ (i 0).val < win1_3.index ⟨(i 1).val / 2048 * 41 + (i 0).val, hlt⟩ (0 : Fin 3) * 1 + 1
    rw [e0]; show ((i 1).val / 2048 * 41 + (i 0).val) % 41 * 1 ≤ (i 0).val ∧ (i 0).val < ((i 1).val / 2048 * 41 + (i 0).val) % 41 * 1 + 1; omega
  | ⟨1, _⟩ =>
    show win1_3.index ⟨(i 1).val / 2048 * 41 + (i 0).val, hlt⟩ (1 : Fin 3) * 2048 ≤ (i 1).val
      ∧ (i 1).val < win1_3.index ⟨(i 1).val / 2048 * 41 + (i 0).val, hlt⟩ (1 : Fin 3) * 2048 + 2048
    rw [e1]; show ((i 1).val / 2048 * 41 + (i 0).val) / 41 * 2048 ≤ (i 1).val ∧ (i 1).val < ((i 1).val / 2048 * 41 + (i 0).val) / 41 * 2048 + 2048; omega
  | ⟨2, _⟩ =>
    show win1_3.index ⟨(i 1).val / 2048 * 41 + (i 0).val, hlt⟩ (2 : Fin 3) * 512 ≤ (i 2).val
      ∧ (i 2).val < win1_3.index ⟨(i 1).val / 2048 * 41 + (i 0).val, hlt⟩ (2 : Fin 3) * 512 + 512
    rw [e2]; omega

/-! ## The array after the region -/

/-- After the region's 164 points the output array holds the batched linear map of the `x`, `w` and bias arrays as the
    region finds them: every entry is in some point's block, and each point writes its block of that map. -/
theorem final1 (c : Dev nD) :
    (GenP.dat1 (F := Ideal) V c).arrAt 3 cfg1.N = Cert.Spec.tiled (φx := .bf16) (φw := .bf16) (V c main_v774) (V c main_v775) (V c main_v773) :=
  (GenP.dat1 (F := Ideal) V c).arrAt_eq_of_cover 3 _ (fun t _ => flushed1_eq V c t) covered1

end Cert.KernelIdeal.RegionVal

end
-- ==== Proof.Region2.lean ====
/-
  The value the output-projection kernel call leaves in its output array, as one function of the whole arrays it reads.

  The call runs a 4 × 1 grid: point `t` is row tile `t`. At each point the body loads a `[2048, 512]` block of the row
  matrix `x`, the one `[512, 256]` matrix `w` and its `[1, 256]` bias row, and stores the block times the matrix plus the
  bias row. The output's blocks tile its `[1, 8192, 256]` array, so the array ends holding, at `(0, n, j)`, the sum over
  `k` of `x (n, k) * w (0, k, j)`, plus `b (0, 0, j)`.
-/
import proofs.«143303_j18098992185957_1_alg».proof.Proof.KernelIdealFrameA
import proofs.«143303_j18098992185957_1_alg».proof.Proof.Spec
import proofs.«143303_j18098992185957_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.RegionVal

open Cert.KernelIdeal Cert.KernelIdeal.Gen

variable (V : (c : Dev nD) → (b : Ref sig .tc) → Buf (Elt Ideal) ((c : Thread nD τ).loc b))

/-- The zero offsets of a rank-2 and of a rank-3 rectangle, as constant functions. -/
theorem hzA2 : (![0, 0] : Fin 2 → Nat) = fun _ => 0 := funext fun a => by fin_cases a <;> rfl
theorem hzB2 : (![0, 0, 0] : Fin 3 → Nat) = fun _ => 0 := funext fun a => by fin_cases a <;> rfl

/-! ## The value the body stores, entry by entry -/

/-- At row `p` and lane `q` of its one matrix the body stores the row `p` of the `x` block against the column `q`
    of the `w` block, summed over the 512 shared positions, plus the bias row's entry `q`. -/
theorem pay2_apply (x0 : FVec Ideal S2048x512 .bf16) (x1 : FVec Ideal S1x512x256 .bf16) (x2 : FVec Ideal S1x1x256 .f32)
    (p : Fin 2048) (q : Fin 256) :
    Gen.k2_pay1 (F := Ideal) x0 x1 x2 (ix3 (0 : Fin 1) p q)
      = (∑ k : Fin 512, x0 (ix2 p k) * x1 (ix3 (0 : Fin 1) k q)) + x2 (ix3 (0 : Fin 1) (0 : Fin 1) q) := by
  unfold Gen.k2_pay1
  refine (shapeCast_ab_1ab_apply _ _ (0 : Fin 1) p q).trans ?_
  rw [addf_apply]
  congr 1
  · refine (Cert.LibRowOps.matmul_plain_apply _ rfl none _ _ p q).trans ?_
    refine Finset.sum_congr rfl fun k _ => ?_
    rw [shapeCast_self, shapeCast_1ab_ab_apply]
  · refine (broadcastTo_1b_ab_apply _ _ p q).trans ?_
    exact shapeCast_1ab_ab_apply _ _ (0 : Fin 1) q

/-! ## The index maps over the grid -/

/-- Point `t` of the 4 × 1 grid is row tile `t`: the output's block index there is `(0, t, 0)`, the `x` window's
    `(t, 0)`, the `w` and the bias windows' `(0, 0, 0)`. Decided over the grid's 4 points. -/
theorem idx_facts2 : ∀ t : Fin cfg2.N,
    win2_3.index t (0 : Fin 3) = 0 ∧ win2_3.index t (1 : Fin 3) = t.val ∧ win2_3.index t (2 : Fin 3) = 0
    ∧ win2_0.index t (0 : Fin 2) = t.val ∧ win2_0.index t (1 : Fin 2) = 0
    ∧ win2_1.index t (0 : Fin 3) = 0 ∧ win2_1.index t (1 : Fin 3) = 0 ∧ win2_1.index t (2 : Fin 3) = 0
    ∧ win2_2.index t (0 : Fin 3) = 0 ∧ win2_2.index t (1 : Fin 3) = 0 ∧ win2_2.index t (2 : Fin 3) = 0 :=
  (by decide +kernel : ∀ t : Fin grid2.N, _)

/-! ## Each input block read off its array -/

/-- Entry `y` of the `x` window's block at point `t` is the array's entry at row `t * 2048 + y 0`, lane `y 1`. -/
theorem blk2_0 (c : Dev nD) (t : Fin cfg2.N) (y : S2048x512.Idx) (i : S8192x512.Idx)
    (h0 : (i 0).val = t.val * 2048 + (y 0).val) (h1 : (i 1).val = (y 1).val) :
    (GenP.iblk2 (F := Ideal) V c 0 t : Vec Ideal S2048x512 .bf16) y = (V c main_v1520 : Vec Ideal S8192x512 .bf16) i := by
  obtain ⟨-, -, -, e0, e1, -⟩ := idx_facts2 t
  unfold GenP.iblk2
  show (V c main_v1520 : Vec Ideal S8192x512 .bf16) (((cfg2.win 0).blk t).view.emb y) = _
  congr 1
  funext a
  apply Fin.ext
  match a with
  | ⟨0, _⟩ => show win2_0.index t (0 : Fin 2) * 2048 + 1 * (y 0).val = (i 0).val; rw [e0, h0]; omega
  | ⟨1, _⟩ => show win2_0.index t (1 : Fin 2) * 512 + 1 * (y 1).val = (i 1).val; rw [e1, h1]; omega

/-- Entry `y` of the `w` window's block at point `t` is the one matrix at `(y 1, y 2)`. -/
theorem blk2_1 (c : Dev nD) (t : Fin cfg2.N) (y : S1x512x256.Idx) (i : S1x512x256.Idx)
    (h1 : (i 1).val = (y 1).val) (h2 : (i 2).val = (y 2).val) :
    (GenP.iblk2 (F := Ideal) V c 1 t : Vec Ideal S1x512x256 .bf16) y = (V c main_v1523 : Vec Ideal S1x512x256 .bf16) i := by
  obtain ⟨-, -, -, -, -, e0, e1, e2, -⟩ := idx_facts2 t
  have hy : (y 0).val < 1 := (y 0).isLt
  have hi0 : (i 0).val < 1 := (i 0).isLt
  unfold GenP.iblk2
  show (V c main_v1523 : Vec Ideal S1x512x256 .bf16) (((cfg2.win 1).blk t).view.emb y) = _
  congr 1
  funext a
  apply Fin.ext
  match a with
  | ⟨0, _⟩ => show win2_1.index t (0 : Fin 3) * 1 + 1 * (y 0).val = (i 0).val; rw [e0]; omega
  | ⟨1, _⟩ => show win2_1.index t (1 : Fin 3) * 512 + 1 * (y 1).val = (i 1).val; rw [e1, h1]; omega
  | ⟨2, _⟩ => show win2_1.index t (2 : Fin 3) * 256 + 1 * (y 2).val = (i 2).val; rw [e2, h2]; omega

/-- Entry `y` of the bias window's block at point `t` is the one bias row at lane `y 2`. -/
theorem blk2_2 (c : Dev nD) (t : Fin cfg2.N) (y : S1x1x256.Idx) (i : S1x1x256.Idx)
    (h2 : (i 2).val = (y 2).val) :
    (GenP.iblk2 (F := Ideal) V c 2 t : Vec Ideal S1x1x256 .f32) y = (V c main_v1524 : Vec Ideal S1x1x256 .f32) i := by
  obtain ⟨-, -, -, -, -, -, -, -, e0, e1, e2⟩ := idx_facts2 t
  have hy0 : (y 0).val < 1 := (y 0).isLt
  have hy1 : (y 1).val < 1 := (y 1).isLt
  have hi1 : (i 1).val < 1 := (i 1).isLt
  have hi0 : (i 0).val < 1 := (i 0).isLt
  unfold GenP.iblk2
  show (V c main_v1524 : Vec Ideal S1x1x256 .f32) (((cfg2.win 2).blk t).view.emb y) = _
  congr 1
  funext a
  apply Fin.ext
  match a with
  | ⟨0, _⟩ => show win2_2.index t (0 : Fin 3) * 1 + 1 * (y 0).val = (i 0).val; rw [e0]; omega
  | ⟨1, _⟩ => show win2_2.index t (1 : Fin 3) * 1 + 1 * (y 1).val = (i 1).val; rw [e1]; omega
  | ⟨2, _⟩ => show win2_2.index t (2 : Fin 3) * 256 + 1 * (y 2).val = (i 2).val; rw [e2, h2]; omega

/-! ## What point `t` stores is its block of the batched linear map -/

/-- At point `t` the body's value at `(0, p, q)` is the batched linear map of the arrays at matrix `0`, row
    `n = t * 2048 + p`, lane `q`. -/
theorem point2 (c : Dev nD) (t : Fin cfg2.N) (p : Fin 2048) (q : Fin 256) (n : Fin 8192)
    (hn : n.val = t.val * 2048 + p.val) :
    Gen.k2_pay1 (F := Ideal) (GenP.iblk2 V c 0 t) (GenP.iblk2 V c 1 t) (GenP.iblk2 V c 2 t) (ix3 (0 : Fin 1) p q)
      = Cert.Spec.tiled (φx := .bf16) (φw := .bf16) (V c main_v1520) (V c main_v1523) (V c main_v1524) (ix3 (0 : Fin 1) n q) := by
  refine (pay2_apply (GenP.iblk2 V c 0 t) (GenP.iblk2 V c 1 t) (GenP.iblk2 V c 2 t) p q).trans ?_
  refine Eq.trans ?_ (Cert.Spec.tiled_apply (φx := .bf16) (φw := .bf16) (V c main_v1520) (V c main_v1523) (V c main_v1524) (0 : Fin 1) n q).symm
  refine congrArg₂ (· + ·) (Finset.sum_congr rfl fun k _ => congrArg₂ (· * ·) ?_ ?_) ?_
  · exact blk2_0 V c t (ix2 p k) (ix2 n k) hn rfl
  · exact blk2_1 V c t (ix3 (0 : Fin 1) k q) (ix3 (0 : Fin 1) k q) rfl rfl
  · exact blk2_2 V c t (ix3 (0 : Fin 1) (0 : Fin 1) q) (ix3 (0 : Fin 1) (0 : Fin 1) q) rfl

/-! ## What point `t` writes back -/

/-- Point `t` writes back block `t` of the batched linear map of the arrays as the region finds them. -/
theorem flushed2_eq (c : Dev nD) (t : Fin cfg2.N) :
    (GenP.dat2 (F := Ideal) V c).flushed 3 t
      = ((cfg2.win 3).blk t).view.read (Elt Ideal) (Cert.Spec.tiled (φx := .bf16) (φw := .bf16) (V c main_v1520) (V c main_v1523) (V c main_v1524)) := by
  show (cfg2.win 3).cut (grid2.coords t) ((GenP.dat2 (F := Ideal) V c).after 3 t) = _
  rw [GenP.after2_3]
  unfold GenP.out2_3
  rw [View.canon_unit_zero hzB2]
  simp only [View.ld_unit_zero (S := S2048x512) hzA2, View.ld_unit_zero (S := S1x512x256) hzB2,
    View.ld_unit_zero (S := S1x1x256) hzB2]
  obtain ⟨e0, e1, e2, -⟩ := idx_facts2 t
  have hN : t.val < 4 := lt_of_lt_of_eq t.isLt Gen.N_2
  funext j
  have hj0 : ((j 0 : Fin 1) : Nat) < 1 := (j 0).isLt
  have hj1 : ((j 1 : Fin 2048) : Nat) < 2048 := (j 1).isLt
  have key := point2 V c t (j 1) (j 2) ⟨t.val * 2048 + ((j 1 : Fin 2048) : Nat), by omega⟩ rfl
  refine Eq.trans ?_ (key.trans ?_)
  · show Gen.k2_pay1 (F := Ideal) (GenP.iblk2 V c 0 t) (GenP.iblk2 V c 1 t) (GenP.iblk2 V c 2 t) (j : S1x2048x256.Idx) = _
    refine congrArg (Gen.k2_pay1 (F := Ideal) (GenP.iblk2 V c 0 t) (GenP.iblk2 V c 1 t) (GenP.iblk2 V c 2 t)) (funext fun a => ?_)
    match a with
    | ⟨0, _⟩ => exact Fin.ext (by show ((j 0 : Fin 1) : Nat) = 0; omega)
    | ⟨1, _⟩ => rfl
    | ⟨2, _⟩ => rfl
  · show _ = Cert.Spec.tiled (φx := .bf16) (φw := .bf16) (V c main_v1520) (V c main_v1523) (V c main_v1524) (((cfg2.win 3).blk t).view.emb j)
    refine congrArg (Cert.Spec.tiled (φx := .bf16) (φw := .bf16) (V c main_v1520) (V c main_v1523) (V c main_v1524)) (funext fun a => Fin.ext ?_)
    match a with
    | ⟨0, _⟩ => show 0 = win2_3.index t (0 : Fin 3) * 1 + 1 * ((j 0 : Fin 1) : Nat); rw [e0]; omega
    | ⟨1, _⟩ => show t.val * 2048 + ((j 1 : Fin 2048) : Nat) = win2_3.index t (1 : Fin 3) * 2048 + 1 * ((j 1 : Fin 2048) : Nat); rw [e1]; omega
    | ⟨2, _⟩ => show ((j 2 : Fin 256) : Nat) = win2_3.index t (2 : Fin 3) * 256 + 1 * ((j 2 : Fin 256) : Nat); rw [e2]; omega

/-! ## The blocks tile the array -/

/-- An index of the output array is in point `t`'s block iff each coordinate is in the block's range on its axis. -/
theorem mem_blk2 (t : Fin cfg2.N) (i : S1x8192x256.Idx) :
    i ∈ ((cfg2.win 3).blk t).view.set ↔ ∀ a : Fin 3, win2_3.index t a * S1x2048x256.size a ≤ (i a).val
      ∧ (i a).val < win2_3.index t a * S1x2048x256.size a + S1x2048x256.size a := by
  show i ∈ ((View.whole main_v1525).slice (win2_3.rect t)).set ↔ _
  rw [View.set_slice_whole, Rect.mem_set_unit]
  exact Iff.rfl

/-- Entry `(m, n, j)` of the output array is in the block of the point `n / 2048`, which writes back. -/
theorem covered2 (i : S1x8192x256.Idx) :
    ∃ t : Fin cfg2.N, (cfg2.win 3).flush t = true ∧ i ∈ ((cfg2.win 3).blk t).view.set := by
  have h0 : (i 0).val < 1 := (i 0).isLt
  have h1 : (i 1).val < 8192 := (i 1).isLt
  have h2 : (i 2).val < 256 := (i 2).isLt
  have hlt : (i 1).val / 2048 < cfg2.N := by rw [show cfg2.N = 4 from Gen.N_2]; omega
  obtain ⟨e0, e1, e2, -⟩ := idx_facts2 ⟨(i 1).val / 2048, hlt⟩
  refine ⟨⟨(i 1).val / 2048, hlt⟩, Gen.flush2_3 _, ?_⟩
  rw [mem_blk2]
  intro a
  match a with
  | ⟨0, _⟩ =>
    show win2_3.index ⟨(i 1).val / 2048, hlt⟩ (0 : Fin 3) * 1 ≤ (i 0).val
      ∧ (i 0).val < win2_3.index ⟨(i 1).val / 2048, hlt⟩ (0 : Fin 3) * 1 + 1
    rw [e0]; omega
  | ⟨1, _⟩ =>
    show win2_3.index ⟨(i 1).val / 2048, hlt⟩ (1 : Fin 3) * 2048 ≤ (i 1).val
      ∧ (i 1).val < win2_3.index ⟨(i 1).val / 2048, hlt⟩ (1 : Fin 3) * 2048 + 2048
    rw [e1]; show ((i 1).val / 2048) * 2048 ≤ (i 1).val ∧ (i 1).val < ((i 1).val / 2048) * 2048 + 2048; omega
  | ⟨2, _⟩ =>
    show win2_3.index ⟨(i 1).val / 2048, hlt⟩ (2 : Fin 3) * 256 ≤ (i 2).val
      ∧ (i 2).val < win2_3.index ⟨(i 1).val / 2048, hlt⟩ (2 : Fin 3) * 256 + 256
    rw [e2]; omega

/-! ## The array after the region -/

/-- After the region's 4 points the output array holds the batched linear map of the `x`, `w` and bias arrays as the
    region finds them: every entry is in some point's block, and each point writes its block of that map. -/
theorem final2 (c : Dev nD) :
    (GenP.dat2 (F := Ideal) V c).arrAt 3 cfg2.N = Cert.Spec.tiled (φx := .bf16) (φw := .bf16) (V c main_v1520) (V c main_v1523) (V c main_v1524) :=
  (GenP.dat2 (F := Ideal) V c).arrAt_eq_of_cover 3 _ (fun t _ => flushed2_eq V c t) covered2

end Cert.KernelIdeal.RegionVal

end
-- ==== Proof.KAssemble.lean ====
/-
  The kernel program's result array, as one function of the argument arrays: the boundary contents of the run are
  walked from the launch to the return — the operands of each stacked product from the host operations before it,
  each product's result array from its blocks, the next layer's input from the forty masked messages — and the result
  is the output projection of the second layer of the network over the first (`Cert.Net.kerNet`).
-/
import proofs.«143303_j18098992185957_1_alg».proof.Proof.KernelIdealFrameArgs
import proofs.«143303_j18098992185957_1_alg».proof.Proof.KWalk0
import proofs.«143303_j18098992185957_1_alg».proof.Proof.KWalk1
import proofs.«143303_j18098992185957_1_alg».proof.Proof.KWalk2
import proofs.«143303_j18098992185957_1_alg».proof.Proof.Region0
import proofs.«143303_j18098992185957_1_alg».proof.Proof.Region1
import proofs.«143303_j18098992185957_1_alg».proof.Proof.Region2
import proofs.«143303_j18098992185957_1_alg».proof.Proof.Net

set_option maxRecDepth 16384

noncomputable section

namespace Cert.KernelIdeal.Walk

open Cert.KernelIdeal Cert.KernelIdeal.Gen Cert.KernelIdeal.GenP Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

local notation "gK" => gather_S8192x512_S8192x1_S8192x512_1_0_n_n_0_1_1512
local notation "scK" => scatter_S8192x512_S8192x1_S8192x512_1_0_0_1

/-! ## The argument arrays at each boundary -/

theorem W1_arg1 : W1 m ρ c (Proc.devRef .tc main_arg1) = m ((c : Thread nD τ).loc main_arg1) :=
  W1_arg m ρ c main_arg1 (by decide)
theorem W2_arg1 : W2 m ρ c (Proc.devRef .tc main_arg1) = m ((c : Thread nD τ).loc main_arg1) :=
  W2_arg m ρ c main_arg1 (by decide)
theorem W1_arg2 : W1 m ρ c (Proc.devRef .tc main_arg2) = m ((c : Thread nD τ).loc main_arg2) :=
  W1_arg m ρ c main_arg2 (by decide)
theorem W2_arg2 : W2 m ρ c (Proc.devRef .tc main_arg2) = m ((c : Thread nD τ).loc main_arg2) :=
  W2_arg m ρ c main_arg2 (by decide)
theorem W1_arg3 : W1 m ρ c (Proc.devRef .tc main_arg3) = m ((c : Thread nD τ).loc main_arg3) :=
  W1_arg m ρ c main_arg3 (by decide)
theorem W2_arg3 : W2 m ρ c (Proc.devRef .tc main_arg3) = m ((c : Thread nD τ).loc main_arg3) :=
  W2_arg m ρ c main_arg3 (by decide)
theorem W1_arg4 : W1 m ρ c (Proc.devRef .tc main_arg4) = m ((c : Thread nD τ).loc main_arg4) :=
  W1_arg m ρ c main_arg4 (by decide)
theorem W2_arg4 : W2 m ρ c (Proc.devRef .tc main_arg4) = m ((c : Thread nD τ).loc main_arg4) :=
  W2_arg m ρ c main_arg4 (by decide)
theorem W1_arg5 : W1 m ρ c (Proc.devRef .tc main_arg5) = m ((c : Thread nD τ).loc main_arg5) :=
  W1_arg m ρ c main_arg5 (by decide)
theorem W2_arg5 : W2 m ρ c (Proc.devRef .tc main_arg5) = m ((c : Thread nD τ).loc main_arg5) :=
  W2_arg m ρ c main_arg5 (by decide)
theorem W1_arg6 : W1 m ρ c (Proc.devRef .tc main_arg6) = m ((c : Thread nD τ).loc main_arg6) :=
  W1_arg m ρ c main_arg6 (by decide)
theorem W2_arg6 : W2 m ρ c (Proc.devRef .tc main_arg6) = m ((c : Thread nD τ).loc main_arg6) :=
  W2_arg m ρ c main_arg6 (by decide)
theorem W1_arg7 : W1 m ρ c (Proc.devRef .tc main_arg7) = m ((c : Thread nD τ).loc main_arg7) :=
  W1_arg m ρ c main_arg7 (by decide)
theorem W2_arg7 : W2 m ρ c (Proc.devRef .tc main_arg7) = m ((c : Thread nD τ).loc main_arg7) :=
  W2_arg m ρ c main_arg7 (by decide)
theorem W1_arg8 : W1 m ρ c (Proc.devRef .tc main_arg8) = m ((c : Thread nD τ).loc main_arg8) :=
  W1_arg m ρ c main_arg8 (by decide)
theorem W2_arg8 : W2 m ρ c (Proc.devRef .tc main_arg8) = m ((c : Thread nD τ).loc main_arg8) :=
  W2_arg m ρ c main_arg8 (by decide)
theorem W1_arg9 : W1 m ρ c (Proc.devRef .tc main_arg9) = m ((c : Thread nD τ).loc main_arg9) :=
  W1_arg m ρ c main_arg9 (by decide)
theorem W2_arg9 : W2 m ρ c (Proc.devRef .tc main_arg9) = m ((c : Thread nD τ).loc main_arg9) :=
  W2_arg m ρ c main_arg9 (by decide)

theorem W85_arg1 : W85 m ρ c (Proc.devRef .tc main_arg1) = m ((c : Thread nD τ).loc main_arg1) :=
  W85_arg m ρ c main_arg1 (by decide)
theorem W86_arg1 : W86 m ρ c (Proc.devRef .tc main_arg1) = m ((c : Thread nD τ).loc main_arg1) :=
  W86_arg m ρ c main_arg1 (by decide)
theorem W85_arg2 : W85 m ρ c (Proc.devRef .tc main_arg2) = m ((c : Thread nD τ).loc main_arg2) :=
  W85_arg m ρ c main_arg2 (by decide)
theorem W86_arg2 : W86 m ρ c (Proc.devRef .tc main_arg2) = m ((c : Thread nD τ).loc main_arg2) :=
  W86_arg m ρ c main_arg2 (by decide)
theorem W85_arg3 : W85 m ρ c (Proc.devRef .tc main_arg3) = m ((c : Thread nD τ).loc main_arg3) :=
  W85_arg m ρ c main_arg3 (by decide)
theorem W86_arg3 : W86 m ρ c (Proc.devRef .tc main_arg3) = m ((c : Thread nD τ).loc main_arg3) :=
  W86_arg m ρ c main_arg3 (by decide)
theorem W85_arg8 : W85 m ρ c (Proc.devRef .tc main_arg8) = m ((c : Thread nD τ).loc main_arg8) :=
  W85_arg m ρ c main_arg8 (by decide)
theorem W86_arg8 : W86 m ρ c (Proc.devRef .tc main_arg8) = m ((c : Thread nD τ).loc main_arg8) :=
  W86_arg m ρ c main_arg8 (by decide)
theorem W85_arg9 : W85 m ρ c (Proc.devRef .tc main_arg9) = m ((c : Thread nD τ).loc main_arg9) :=
  W85_arg m ρ c main_arg9 (by decide)
theorem W86_arg9 : W86 m ρ c (Proc.devRef .tc main_arg9) = m ((c : Thread nD τ).loc main_arg9) :=
  W86_arg m ρ c main_arg9 (by decide)

/-! ## The first stacked product -/

theorem y0 : W2 m ρ c (Proc.devRef .tc main_v16)
    = Cert.Net.kerY (m ((c : Thread nD τ).loc main_arg4)) (m ((c : Thread nD τ).loc main_arg5)) (m ((c : Thread nD τ).loc main_arg6)) (m ((c : Thread nD τ).loc main_arg7)) (m ((c : Thread nD τ).loc main_arg0)) 0 (by omega) := by
  refine (W2_arr m ρ c 3).trans ((Cert.KernelIdeal.RegionVal.final0 (V1 m ρ) c).trans ?_)
  show Cert.Spec.tiled (φx := .bf16) (φw := .bf16) (W1 m ρ c (Proc.devRef .tc main_v14)) (W1 m ρ c (Proc.devRef .tc main_v15)) (W1 m ρ c (Proc.devRef .tc main_v13)) = _
  rw [show W1 m ρ c (Proc.devRef .tc main_v14) = _ from pre0_x (W0 m ρ c),
    show W1 m ρ c (Proc.devRef .tc main_v15) = _ from pre0_w (W0 m ρ c),
    show W1 m ρ c (Proc.devRef .tc main_v13) = _ from pre0_b (W0 m ρ c)]
  rfl

/-! ## The first layer and the second stacked product -/

theorem h1 : W85 m ρ c (Proc.devRef .tc main_v774)
    = truncf .bf16 (Cert.Net.kerLayer gK scK (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg0)) 0 (by omega)) (by decide) := by
  refine (mid1_x (W2 m ρ c)).trans ?_
  rw [W2_arg1 m ρ c, W2_arg2 m ρ c, W2_arg3 m ρ c, y0 m ρ c]
  rfl

theorem w1 : W85 m ρ c (Proc.devRef .tc main_v775)
    = Cert.Net.wstack (Cert.Net.Wself (m ((c : Thread nD τ).loc main_arg4)) 1 (by omega)) (Cert.Net.W40 (m ((c : Thread nD τ).loc main_arg6)) 1 (by omega)) := by
  refine (last1_w (W84 m ρ c)).trans ?_
  rw [W84_arg m ρ c main_arg4 (by decide), W84_arg m ρ c main_arg6 (by decide)]

theorem b1 : W85 m ρ c (Proc.devRef .tc main_v773)
    = Cert.Net.bstack (Cert.Net.bself (m ((c : Thread nD τ).loc main_arg5)) 1 (by omega)) (Cert.Net.b40 (m ((c : Thread nD τ).loc main_arg7)) 1 (by omega)) := by
  refine (last1_b (W84 m ρ c)).trans ?_
  rw [W84_arg m ρ c main_arg5 (by decide), W84_arg m ρ c main_arg7 (by decide)]

theorem y1 : W86 m ρ c (Proc.devRef .tc main_v776)
    = Cert.Net.kerY (m ((c : Thread nD τ).loc main_arg4)) (m ((c : Thread nD τ).loc main_arg5)) (m ((c : Thread nD τ).loc main_arg6)) (m ((c : Thread nD τ).loc main_arg7))
        (Cert.Net.kerLayer gK scK (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg0)) 0 (by omega)) 1 (by omega) := by
  refine (W86_arr m ρ c 3).trans ((Cert.KernelIdeal.RegionVal.final1 (V85 m ρ) c).trans ?_)
  show Cert.Spec.tiled (φx := .bf16) (φw := .bf16) (W85 m ρ c (Proc.devRef .tc main_v774)) (W85 m ρ c (Proc.devRef .tc main_v775)) (W85 m ρ c (Proc.devRef .tc main_v773)) = _
  rw [h1 m ρ c, w1 m ρ c, b1 m ρ c]
  rfl

/-! ## The second layer and the output projection -/

theorem h2 : W169 m ρ c (Proc.devRef .tc main_v1520)
    = truncf .bf16 (Cert.Net.kerLayer gK scK (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (Cert.Net.kerLayer gK scK (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg0)) 0 (by omega)) 1 (by omega)) (by decide) := by
  refine (mid2_x (W86 m ρ c)).trans ?_
  rw [W86_arg1 m ρ c, W86_arg2 m ρ c, W86_arg3 m ρ c, y1 m ρ c]
  rfl

theorem w2 : W169 m ρ c (Proc.devRef .tc main_v1523)
    = Cert.Net.wF (m ((c : Thread nD τ).loc main_arg8)) := by
  refine (last2_w (W168 m ρ c)).trans ?_
  rw [W168_arg m ρ c main_arg8 (by decide)]

theorem b2 : W169 m ρ c (Proc.devRef .tc main_v1524)
    = Cert.Net.bF (m ((c : Thread nD τ).loc main_arg9)) := by
  refine (last2_b (W168 m ρ c)).trans ?_
  rw [W168_arg m ρ c main_arg9 (by decide)]

theorem y2 : W170 m ρ c (Proc.devRef .tc main_v1525)
    = Cert.Net.kerYF (Cert.Net.kerLayer gK scK (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
        (Cert.Net.kerLayer gK scK (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg0)) 0 (by omega)) 1 (by omega)) (m ((c : Thread nD τ).loc main_arg8)) (m ((c : Thread nD τ).loc main_arg9)) := by
  refine (W170_arr m ρ c 3).trans ((Cert.KernelIdeal.RegionVal.final2 (V169 m ρ) c).trans ?_)
  show Cert.Spec.tiled (φx := .bf16) (φw := .bf16) (W169 m ρ c (Proc.devRef .tc main_v1520)) (W169 m ρ c (Proc.devRef .tc main_v1523)) (W169 m ρ c (Proc.devRef .tc main_v1524)) = _
  rw [h2 m ρ c, w2 m ρ c, b2 m ρ c]
  rfl

/-- The result array after the run. -/
theorem result : W171 m ρ c (Proc.devRef .tc main_v1526)
    = Cert.Net.kerNet gK scK (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg0)) (m ((c : Thread nD τ).loc main_arg8)) (m ((c : Thread nD τ).loc main_arg9)) := by
  show after (hostOps3 (F := Ideal)) (W170 m ρ c) (Proc.devRef .tc main_v1526) = _
  after_results
  rw [y2 m ρ c]
  rfl

end Cert.KernelIdeal.Walk

end
-- ==== Proof.LibAfter.lean ====
/-
  Two facts about a straight line of host operations, for running a long line in segments.

  The contents of the buffers after a line of operations is a fold over the line (each operation rewrites the buffers
  it writes and leaves the rest), so the contents after a concatenation of two lines are the contents after the second
  line, started from the contents after the first (`after_append`). And the side condition "no operation of the line
  allocates a buffer", which a run of the line asks for every member of the list, follows from the same condition
  stated as one conjunction over the list (`fresh_of_forall`), which splits along a concatenation (`forall_append`)
  and which, for a list written out operation by operation, holds by computation (`all_fresh`).
-/
import Idealize.ShloMosaic.Lib.StableHlo.Run

namespace Cert.LibAfter

open Idealize.ShloMosaic Idealize.ShloMosaic.StableHlo

variable {τ : Topo} {sig : RefSig} {Val : EltTy → Type}

/-- The buffer contents after a concatenation of two lines of operations are the contents after the second line,
    started from the contents after the first. -/
theorem after_append (a b : List (HloOp τ sig Val)) (V : Valuation τ sig Val) :
    after (a ++ b) V = after b (after a V) := by
  induction a generalizing V with
  | nil => rfl
  | cons op a ih => rw [List.cons_append, after_cons, after_cons, ih]

/-- A property of every operation of a concatenation is the property of every operation of each part. -/
theorem forall_append {α : Type} (p : α → Prop) (a b : List α) :
    (a ++ b).Forall p ↔ a.Forall p ∧ b.Forall p :=
  List.forall_append

/-- The property of each part gives the property of the concatenation. -/
theorem Forall.append {α : Type} {p : α → Prop} {a b : List α} (ha : a.Forall p) (hb : b.Forall p) :
    (a ++ b).Forall p :=
  (forall_append p a b).mpr ⟨ha, hb⟩

/-- "No operation allocates a buffer", stated as one conjunction over the list, gives it for every member. -/
theorem fresh_of_forall {ops : List (HloOp τ sig Val)} (h : ops.Forall fun op => op.fresh = ∅) :
    ∀ op ∈ ops, op.fresh = ∅ :=
  List.forall_iff_forall_mem.mp h

/-- The same for a family of lines, one per device: the form a run of the line asks for. -/
theorem fresh_of_forall_dev {ι : Type} {ops : ι → List (HloOp τ sig Val)}
    (h : ∀ d, (ops d).Forall fun op => op.fresh = ∅) : ∀ d, ∀ op ∈ ops d, op.fresh = ∅ :=
  fun d => fresh_of_forall (h d)

/-- `all_fresh ops` proves `ops.Forall fun op => op.fresh = ∅` for a list `ops` written out operation by operation
    (under a name, which is unfolded first): the conjunction over the list is split, and each operation built by a
    non-allocating builder has the empty set of fresh buffers by computation. -/
macro "all_fresh " ops:ident : tactic =>
  `(tactic| (first | simp only [$ops:ident, List.Forall] | simp only [List.Forall]
             repeat' constructor))

end Cert.LibAfter
-- ==== Proof.RefLib.lean ====
/-
  A line of host operations leaves alone every buffer it does not write.

  Each operation of a line rewrites exactly the buffers it writes.  When the buffers written by the operations of a
  line, taken in order, are the single buffers of a list `W` of references, a reference that is not in `W` holds after
  the line what it held before it (`after_frame`).  The hypothesis is an equation between two lists of sets of buffers,
  which for a line written out operation by operation holds by computation, and which passes to a concatenation of two
  lines (`writes_append`).
-/
import Idealize.ShloMosaic.Lib.StableHlo.Run

namespace Cert.RefLib

open Idealize.ShloMosaic Idealize.ShloMosaic.StableHlo

variable {τ : Topo} {sig : RefSig} {Val : EltTy → Type}

/-- A reference outside the list of references a line writes keeps its contents through the line. -/
theorem after_frame {ops : List (HloOp τ sig Val)} {W : List (Ref sig .tc)}
    (h : ops.map (fun op => op.writes) = W.map fun y => ({Proc.devRef (τ := τ) .tc y} : Finset (DevRef τ sig)))
    (V : Valuation τ sig Val) {r : Ref sig .tc} (hr : r ∉ W) :
    after ops V (no_index (Proc.devRef .tc r)) = V (Proc.devRef .tc r) :=
  after_of_forall_not_mem ops V fun op hop hb => by
    have hm : op.writes ∈ ops.map (fun op => op.writes) := List.mem_map.mpr ⟨op, hop, rfl⟩
    rw [h] at hm
    obtain ⟨y, hy, he⟩ := List.mem_map.mp hm
    rw [← he, Finset.mem_singleton] at hb
    exact hr (Proc.devRef_injective _ hb ▸ hy)

/-- The references two lines write, one after the other, are the references their concatenation writes. -/
theorem writes_append {a b : List (HloOp τ sig Val)} {Wa Wb : List (Ref sig .tc)}
    (ha : a.map (fun op => op.writes) = Wa.map fun y => ({Proc.devRef (τ := τ) .tc y} : Finset (DevRef τ sig)))
    (hb : b.map (fun op => op.writes) = Wb.map fun y => ({Proc.devRef (τ := τ) .tc y} : Finset (DevRef τ sig))) :
    (a ++ b).map (fun op => op.writes) = (Wa ++ Wb).map fun y => ({Proc.devRef (τ := τ) .tc y} : Finset (DevRef τ sig)) := by
  rw [List.map_append, List.map_append, ha, hb]

end Cert.RefLib
-- ==== Proof.RefOps1.lean ====
/-
  The reference program's operations of layer 1, as lists.

  The layer is cut where its mathematics cuts it: the operations that slice the layer's parameters out of the argument
  arrays and compute the self transform; then, for each of the twenty relation labels in turn, the operations that
  compute the label's edge mask, its two products `h · Wᵀ + b` and the two masked messages, and add them to the running
  sum; then the positive part.  For each list: every operation touches TensorCore references only, none allocates a
  buffer, and a reference the list does not write keeps its contents through it.  The layer's list is the
  concatenation of the pieces, and inherits the three facts.
-/
import proofs.«143303_j18098992185957_1_alg».proof.Proof.Gen.ReferenceIdeal
import proofs.«143303_j18098992185957_1_alg».proof.Proof.LibAfter
import proofs.«143303_j18098992185957_1_alg».proof.Proof.RefLib
import Idealize.ShloMosaic.Lib.StableHlo.Run

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The first operations of layer 1: the layer's parameters sliced out of the argument arrays, and the self transform of every node. -/
def pre1 : List (HloOp τ sig (Elt F)) :=
  [
    unary main_arg4 main_v0 ((extractStridedSlice S1x512x512 ![0, 0, 0] · slices_S2x512x512_S1x512x512_0_0_0) : (⟨S2x512x512, .f32⟩ : BufTy).Contents (Elt F) → (⟨S1x512x512, .f32⟩ : BufTy).Contents (Elt F)),
    reshape main_v0 main_v1 rfl shapeCasts_S1x512x512_S512x512,
    unary main_arg5 main_v2 ((extractStridedSlice S1x512 ![0, 0] · slices_S2x512_S1x512_0_0) : (⟨S2x512, .f32⟩ : BufTy).Contents (Elt F) → (⟨S1x512, .f32⟩ : BufTy).Contents (Elt F)),
    reshape main_v2 main_v3 rfl shapeCasts_S1x512_S512,
    unary main_arg6 main_v4 ((extractStridedSlice S1x40x512x512 ![0, 0, 0, 0] · slices_S2x40x512x512_S1x40x512x512_0_0_0_0) : (⟨S2x40x512x512, .f32⟩ : BufTy).Contents (Elt F) → (⟨S1x40x512x512, .f32⟩ : BufTy).Contents (Elt F)),
    reshape main_v4 main_v5 rfl shapeCasts_S1x40x512x512_S40x512x512,
    unary main_arg7 main_v6 ((extractStridedSlice S1x40x512 ![0, 0, 0] · slices_S2x40x512_S1x40x512_0_0_0) : (⟨S2x40x512, .f32⟩ : BufTy).Contents (Elt F) → (⟨S1x40x512, .f32⟩ : BufTy).Contents (Elt F)),
    reshape main_v6 main_v7 rfl shapeCasts_S1x40x512_S40x512,
    unary main_v1 main_v8 ((transpose S512x512 [1, 0] · transposes_S512x512_S512x512_1_0) : (⟨S512x512, .f32⟩ : BufTy).Contents (Elt F) → (⟨S512x512, .f32⟩ : BufTy).Contents (Elt F)),
    binary main_arg0 main_v8 main_v9 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v3 main_v10 (broadcastInDim S1x512 ![1] bcast_S512_S1x512_1 : (⟨S512, .f32⟩ : BufTy).Contents (Elt F) → (⟨S1x512, .f32⟩ : BufTy).Contents (Elt F)),
    unary main_v10 main_v11 (broadcastInDim S8192x512 ![0, 1] bcast_S1x512_S8192x512_0_1 : (⟨S1x512, .f32⟩ : BufTy).Contents (Elt F) → (⟨S8192x512, .f32⟩ : BufTy).Contents (Elt F)),
    binary main_v9 main_v11 main_v12 (addf : (⟨S8192x512, .f32⟩ : BufTy).Contents (Elt F) → (⟨S8192x512, .f32⟩ : BufTy).Contents (Elt F) → (⟨S8192x512, .f32⟩ : BufTy).Contents (Elt F)) ]

/-- Every operation of the line touches TensorCore references only. -/
theorem pre1_sub : (pre1 (F := F)).Forall fun op => op.bufs ⊆ tcRefs τ sig := by
  unfold pre1
  exact ⟨unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub ..⟩

/-- No operation of the line allocates a buffer. -/
theorem pre1_fresh : (pre1 (F := F)).Forall fun op => op.fresh = ∅ := by
  all_fresh pre1

/-- The references the line writes, in order. -/
abbrev pre1_W : List (Ref sig .tc) := [main_v0, main_v1, main_v2, main_v3, main_v4, main_v5, main_v6, main_v7, main_v8, main_v9, main_v10, main_v11, main_v12]

theorem pre1_writes : (pre1 (F := F)).map (fun op => op.writes)
    = (pre1_W).map fun y => ({Proc.devRef (τ := τ) .tc y} : Finset (DevRef τ sig)) := rfl

/-- A reference the line does not write keeps its contents. -/
theorem pre1_frame (V : Valuation τ sig (Elt F)) {r : Ref sig .tc} (hr : r ∉ pre1_W) :
    after (pre1 (F := F)) V (no_index (Proc.devRef .tc r)) = V (Proc.devRef .tc r) :=
  Cert.RefLib.after_frame pre1_writes V hr

/-- The operations of relation label 0 in layer 1: the label's edge mask, the two products, and the two masked messages added to the running sum. -/
def lab1_0 : List (HloOp τ sig (Elt F)) :=
  [
    nullary main_c (constantI S_ 32 0#32),
    unary main_c main_v13 (broadcastInDim S8192 ![] bcast_S_S8192 : (⟨S_, .i32⟩ : BufTy).Contents (Elt F) → (⟨S8192, .i32⟩ : BufTy).Contents (Elt F)),
    binary main_arg2 main_v13 main_v14 (cmpi .eq : (⟨S8192, .i32⟩ : BufTy).Contents (Elt F) → (⟨S8192, .i32⟩ : BufTy).Contents (Elt F) → (⟨S8192, .i1⟩ : BufTy).Contents (Elt F)),
    unary main_v14 main_v15 (broadcastInDim S8192x1 ![0] bcast_S8192_S8192x1_0 : (⟨S8192, .i1⟩ : BufTy).Contents (Elt F) → (⟨S8192x1, .i1⟩ : BufTy).Contents (Elt F)),
    unary main_v5 main_v16 ((extractStridedSlice S1x512x512 ![0, 0, 0] · slices_S40x512x512_S1x512x512_0_0_0) : (⟨S40x512x512, .f32⟩ : BufTy).Contents (Elt F) → (⟨S1x512x512, .f32⟩ : BufTy).Contents (Elt F)),
    reshape main_v16 main_v17 rfl shapeCasts_S1x512x512_S512x512,
    unary main_v17 main_v18 ((transpose S512x512 [1, 0] · transposes_S512x512_S512x512_1_0) : (⟨S512x512, .f32⟩ : BufTy).Contents (Elt F) → (⟨S512x512, .f32⟩ : BufTy).Contents (Elt F)),
    binary main_arg0 main_v18 main_v19 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v20 ((extractStridedSlice S1x512 ![0, 0] · slices_S40x512_S1x512_0_0) : (⟨S40x512, .f32⟩ : BufTy).Contents (Elt F) → (⟨S1x512, .f32⟩ : BufTy).Contents (Elt F)),
    reshape main_v20 main_v21 rfl shapeCasts_S1x512_S512,
    unary main_v21 main_v22 (broadcastInDim S1x512 ![1] bcast_S512_S1x512_1 : (⟨S512, .f32⟩ : BufTy).Contents (Elt F) → (⟨S1x512, .f32⟩ : BufTy).Contents (Elt F)),
    unary main_v22 main_v23 (broadcastInDim S8192x512 ![0, 1] bcast_S1x512_S8192x512_0_1 : (⟨S1x512, .f32⟩ : BufTy).Contents (Elt F) → (⟨S8192x512, .f32⟩ : BufTy).Contents (Elt F)),
    binary main_v19 main_v23 main_v24 (addf : (⟨S8192x512, .f32⟩ : BufTy).Contents (Elt F) → (⟨S8192x512, .f32⟩ : BufTy).Contents (Elt F) → (⟨S8192x512, .f32⟩ : BufTy).Contents (Elt F)),
    nullary main_c_0 (constantI S_ 32 0#32),
    unary main_c_0 main_v25 (broadcastInDim S8192 ![] bcast_S_S8192 : (⟨S_, .i32⟩ : BufTy).Contents (Elt F) → (⟨S8192, .i32⟩ : BufTy).Contents (Elt F)),
    binary main_arg3 main_v25 main_v26 (cmpi .slt : (⟨S8192, .i32⟩ : BufTy).Contents (Elt F) → (⟨S8192, .i32⟩ : BufTy).Contents (Elt F) → (⟨S8192, .i1⟩ : BufTy).Contents (Elt F)),
    nullary main_c_1 (constantI S_ 32 8192#32),
    unary main_c_1 main_v27 (broadcastInDim S8192 ![] bcast_S_S8192 : (⟨S_, .i32⟩ : BufTy).Contents (Elt F) → (⟨S8192, .i32⟩ : BufTy).Contents (Elt F)),
    binary main_arg3 main_v27 main_v28 (addi : (⟨S8192, .i32⟩ : BufTy).Contents (Elt F) → (⟨S8192, .i32⟩ : BufTy).Contents (Elt F) → (⟨S8192, .i32⟩ : BufTy).Contents (Elt F)),
    ternary main_v26 main_v28 main_arg3 main_v29 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v29 main_v30 (broadcastInDim S8192x1 ![0] bcast_S8192_S8192x1_0 : (⟨S8192, .i32⟩ : BufTy).Contents (Elt F) → (⟨S8192x1, .i32⟩ : BufTy).Contents (Elt F)),
    binary main_v24 main_v30 main_v31 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst (constant S_ .f32 0x00000000#32),
    TRef.unary (TRef.of (T := ⟨S_, .f32⟩) main_cst) (TRef.of (T := ⟨S_, .f32⟩) main_call0_v0) id,
    TRef.unary (TRef.of (T := ⟨S8192x1, .i1⟩) main_v15) (TRef.of (T := ⟨S8192x512, .i1⟩) main_call0_v1) (broadcastInDim S8192x512 ![0, 1] bcast_S8192x1_S8192x512_0_1),
    TRef.unary (TRef.of (T := ⟨S_, .f32⟩) main_call0_v0) (TRef.of (T := ⟨S8192x512, .f32⟩) main_call0_v2) (broadcastInDim S8192x512 ![] bcast_S_S8192x512),
    TRef.ternary (TRef.of (T := ⟨S8192x512, .i1⟩) main_call0_v1) (TRef.of (T := ⟨S8192x512, .f32⟩) main_v31) (TRef.of (T := ⟨S8192x512, .f32⟩) main_call0_v2) (TRef.of (T := ⟨S8192x512, .f32⟩) main_v32) select,
    nullary main_c_2 (constantI S_ 32 0#32),
    unary main_c_2 main_v33 (broadcastInDim S8192 ![] bcast_S_S8192 : (⟨S_, .i32⟩ : BufTy).Contents (Elt F) → (⟨S8192, .i32⟩ : BufTy).Contents (Elt F)),
    binary main_arg1 main_v33 main_v34 (cmpi .slt : (⟨S8192, .i32⟩ : BufTy).Contents (Elt F) → (⟨S8192, .i32⟩ : BufTy).Contents (Elt F) → (⟨S8192, .i1⟩ : BufTy).Contents (Elt F)),
    nullary main_c_3 (constantI S_ 32 8192#32),
    unary main_c_3 main_v35 (broadcastInDim S8192 ![] bcast_S_S8192 : (⟨S_, .i32⟩ : BufTy).Contents (Elt F) → (⟨S8192, .i32⟩ : BufTy).Contents (Elt F)),
    binary main_arg1 main_v35 main_v36 (addi : (⟨S8192, .i32⟩ : BufTy).Contents (Elt F) → (⟨S8192, .i32⟩ : BufTy).Contents (Elt F) → (⟨S8192, .i32⟩ : BufTy).Contents (Elt F)),
    ternary main_v34 main_v36 main_arg1 main_v37 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v37 main_v38 (broadcastInDim S8192x1 ![0] bcast_S8192_S8192x1_0 : (⟨S8192, .i32⟩ : BufTy).Contents (Elt F) → (⟨S8192x1, .i32⟩ : BufTy).Contents (Elt F)),
    ternary main_v12 main_v38 main_v32 main_v39 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v40 ((extractStridedSlice S1x512x512 ![20, 0, 0] · slices_S40x512x512_S1x512x512_20_0_0) : (⟨S40x512x512, .f32⟩ : BufTy).Contents (Elt F) → (⟨S1x512x512, .f32⟩ : BufTy).Contents (Elt F)),
    reshape main_v40 main_v41 rfl shapeCasts_S1x512x512_S512x512,
    unary main_v41 main_v42 ((transpose S512x512 [1, 0] · transposes_S512x512_S512x512_1_0) : (⟨S512x512, .f32⟩ : BufTy).Contents (Elt F) → (⟨S512x512, .f32⟩ : BufTy).Contents (Elt F)),
    binary main_arg0 main_v42 main_v43 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v44 ((extractStridedSlice S1x512 ![20, 0] · slices_S40x512_S1x512_20_0) : (⟨S40x512, .f32⟩ : BufTy).Contents (Elt F) → (⟨S1x512, .f32⟩ : BufTy).Contents (Elt F)),
    reshape main_v44 main_v45 rfl shapeCasts_S1x512_S512,
    unary main_v45 main_v46 (broadcastInDim S1x512 ![1] bcast_S512_S1x512_1 : (⟨S512, .f32⟩ : BufTy).Contents (Elt F) → (⟨S1x512, .f32⟩ : BufTy).Contents (Elt F)),
    unary main_v46 main_v47 (broadcastInDim S8192x512 ![0, 1] bcast_S1x512_S8192x512_0_1 : (⟨S1x512, .f32⟩ : BufTy).Contents (Elt F) → (⟨S8192x512, .f32⟩ : BufTy).Contents (Elt F)),
    binary main_v43 main_v47 main_v48 (addf : (⟨S8192x512, .f32⟩ : BufTy).Contents (Elt F) → (⟨S8192x512, .f32⟩ : BufTy).Contents (Elt F) → (⟨S8192x512, .f32⟩ : BufTy).Contents (Elt F)),
    nullary main_c_4 (constantI S_ 32 0#32),
    unary main_c_4 main_v49 (broadcastInDim S8192 ![] bcast_S_S8192 : (⟨S_, .i32⟩ : BufTy).Contents (Elt F) → (⟨S8192, .i32⟩ : BufTy).Contents (Elt F)),
    binary main_arg1 main_v49 main_v50 (cmpi .slt : (⟨S8192, .i32⟩ : BufTy).Contents (Elt F) → (⟨S8192, .i32⟩ : BufTy).Contents (Elt F) → (⟨S8192, .i1⟩ : BufTy).Contents (Elt F)),
    nullary main_c_5 (constantI S_ 32 8192#32),
    unary main_c_5 main_v51 (broadcastInDim S8192 ![] bcast_S_S8192 : (⟨S_, .i32⟩ : BufTy).Contents (Elt F) → (⟨S8192, .i32⟩ : BufTy).Contents (Elt F)),
    binary main_arg1 main_v51 main_v52 (addi : (⟨S8192, .i32⟩ : BufTy).Contents (Elt F) → (⟨S8192, .i32⟩ : BufTy).Contents (Elt F) → (⟨S8192, .i32⟩ : BufTy).Contents (Elt F)),
    ternary main_v50 main_v52 main_arg1 main_v53 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v53 main_v54 (broadcastInDim S8192x1 ![0] bcast_S8192_S8192x1_0 : (⟨S8192, .i32⟩ : BufTy).Contents (Elt F) → (⟨S8192x1, .i32⟩ : BufTy).Contents (Elt F)),
    binary main_v48 main_v54 main_v55 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_6 (constant S_ .f32 0x00000000#32),
    TRef.unary (TRef.of (T := ⟨S_, .f32⟩) main_cst_6) (TRef.of (T := ⟨S_, .f32⟩) main_call1_v0) id,
    TRef.unary (TRef.of (T := ⟨S8192x1, .i1⟩) main_v15) (TRef.of (T := ⟨S8192x512, .i1⟩) main_call1_v1) (broadcastInDim S8192x512 ![0, 1] bcast_S8192x1_S8192x512_0_1),
    TRef.unary (TRef.of (T := ⟨S_, .f32⟩) main_call1_v0) (TRef.of (T := ⟨S8192x512, .f32⟩) main_call1_v2) (broadcastInDim S8192x512 ![] bcast_S_S8192x512),
    TRef.ternary (TRef.of (T := ⟨S8192x512, .i1⟩) main_call1_v1) (TRef.of (T := ⟨S8192x512, .f32⟩) main_v55) (TRef.of (T := ⟨S8192x512, .f32⟩) main_call1_v2) (TRef.of (T := ⟨S8192x512, .f32⟩) main_v56) select,
    nullary main_c_7 (constantI S_ 32 0#32),
    unary main_c_7 main_v57 (broadcastInDim S8192 ![] bcast_S_S8192 : (⟨S_, .i32⟩ : BufTy).Contents (Elt F) → (⟨S8192, .i32⟩ : BufTy).Contents (Elt F)),
    binary main_arg3 main_v57 main_v58 (cmpi .slt : (⟨S8192, .i32⟩ : BufTy).Contents (Elt F) → (⟨S8192, .i32⟩ : BufTy).Contents (Elt F) → (⟨S8192, .i1⟩ : BufTy).Contents (Elt F)),
    nullary main_c_8 (constantI S_ 32 8192#32),
    unary main_c_8 main_v59 (broadcastInDim S8192 ![] bcast_S_S8192 : (⟨S_, .i32⟩ : BufTy).Contents (Elt F) → (⟨S8192, .i32⟩ : BufTy).Contents (Elt F)),
    binary main_arg3 main_v59 main_v60 (addi : (⟨S8192, .i32⟩ : BufTy).Contents (Elt F) → (⟨S8192, .i32⟩ : BufTy).Contents (Elt F) → (⟨S8192, .i32⟩ : BufTy).Contents (Elt F)),
    ternary main_v58 main_v60 main_arg3 main_v61 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v61 main_v62 (broadcastInDim S8192x1 ![0] bcast_S8192_S8192x1_0 : (⟨S8192, .i32⟩ : BufTy).Contents (Elt F) → (⟨S8192x1, .i32⟩ : BufTy).Contents (Elt F)),
    ternary main_v39 main_v62 main_v56 main_v63 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_0_sub : (lab1_0 (F := F)).Forall fun op => op.bufs ⊆ tcRefs τ sig := by
  unfold lab1_0
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_0_fresh : (lab1_0 (F := F)).Forall fun op => op.fresh = ∅ := by
  all_fresh lab1_0

/-- The references the line writes, in order. -/
abbrev lab1_0_W : List (Ref sig .tc) := [main_c, main_v13, main_v14, main_v15, main_v16, main_v17, main_v18, main_v19, main_v20, main_v21, main_v22, main_v23, main_v24, main_c_0, main_v25, main_v26, main_c_1, main_v27, main_v28, main_v29, main_v30, main_v31, main_cst, main_call0_v0, main_call0_v1, main_call0_v2, main_v32, main_c_2, main_v33, main_v34, main_c_3, main_v35, main_v36, main_v37, main_v38, main_v39, main_v40, main_v41, main_v42, main_v43, main_v44, main_v45, main_v46, main_v47, main_v48, main_c_4, main_v49, main_v50, main_c_5, main_v51, main_v52, main_v53, main_v54, main_v55, main_cst_6, main_call1_v0, main_call1_v1, main_call1_v2, main_v56, main_c_7, main_v57, main_v58, main_c_8, main_v59, main_v60, main_v61, main_v62, main_v63]

theorem lab1_0_writes : (lab1_0 (F := F)).map (fun op => op.writes)
    = (lab1_0_W).map fun y => ({Proc.devRef (τ := τ) .tc y} : Finset (DevRef τ sig)) := rfl

/-- A reference the line does not write keeps its contents. -/
theorem lab1_0_frame (V : Valuation τ sig (Elt F)) {r : Ref sig .tc} (hr : r ∉ lab1_0_W) :
    after (lab1_0 (F := F)) V (no_index (Proc.devRef .tc r)) = V (Proc.devRef .tc r) :=
  Cert.RefLib.after_frame lab1_0_writes V hr

/-- The operations of relation label 1 in layer 1: the label's edge mask, the two products, and the two masked messages added to the running sum. -/
def lab1_1 : List (HloOp τ sig (Elt F)) :=
  [
    nullary main_c_9 (constantI S_ 32 1#32),
    unary main_c_9 main_v64 (broadcastInDim S8192 ![] bcast_S_S8192 : (⟨S_, .i32⟩ : BufTy).Contents (Elt F) → (⟨S8192, .i32⟩ : BufTy).Contents (Elt F)),
    binary main_arg2 main_v64 main_v65 (cmpi .eq : (⟨S8192, .i32⟩ : BufTy).Contents (Elt F) → (⟨S8192, .i32⟩ : BufTy).Contents (Elt F) → (⟨S8192, .i1⟩ : BufTy).Contents (Elt F)),
    unary main_v65 main_v66 (broadcastInDim S8192x1 ![0] bcast_S8192_S8192x1_0 : (⟨S8192, .i1⟩ : BufTy).Contents (Elt F) → (⟨S8192x1, .i1⟩ : BufTy).Contents (Elt F)),
    unary main_v5 main_v67 ((extractStridedSlice S1x512x512 ![1, 0, 0] · slices_S40x512x512_S1x512x512_1_0_0) : (⟨S40x512x512, .f32⟩ : BufTy).Contents (Elt F) → (⟨S1x512x512, .f32⟩ : BufTy).Contents (Elt F)),
    reshape main_v67 main_v68 rfl shapeCasts_S1x512x512_S512x512,
    unary main_v68 main_v69 ((transpose S512x512 [1, 0] · transposes_S512x512_S512x512_1_0) : (⟨S512x512, .f32⟩ : BufTy).Contents (Elt F) → (⟨S512x512, .f32⟩ : BufTy).Contents (Elt F)),
    binary main_arg0 main_v69 main_v70 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v71 ((extractStridedSlice S1x512 ![1, 0] · slices_S40x512_S1x512_1_0) : (⟨S40x512, .f32⟩ : BufTy).Contents (Elt F) → (⟨S1x512, .f32⟩ : BufTy).Contents (Elt F)),
    reshape main_v71 main_v72 rfl shapeCasts_S1x512_S512,
    unary main_v72 main_v73 (broadcastInDim S1x512 ![1] bcast_S512_S1x512_1 : (⟨S512, .f32⟩ : BufTy).Contents (Elt F) → (⟨S1x512, .f32⟩ : BufTy).Contents (Elt F)),
    unary main_v73 main_v74 (broadcastInDim S8192x512 ![0, 1] bcast_S1x512_S8192x512_0_1 : (⟨S1x512, .f32⟩ : BufTy).Contents (Elt F) → (⟨S8192x512, .f32⟩ : BufTy).Contents (Elt F)),
    binary main_v70 main_v74 main_v75 (addf : (⟨S8192x512, .f32⟩ : BufTy).Contents (Elt F) → (⟨S8192x512, .f32⟩ : BufTy).Contents (Elt F) → (⟨S8192x512, .f32⟩ : BufTy).Contents (Elt F)),
    nullary main_c_10 (constantI S_ 32 0#32),
    unary main_c_10 main_v76 (broadcastInDim S8192 ![] bcast_S_S8192 : (⟨S_, .i32⟩ : BufTy).Contents (Elt F) → (⟨S8192, .i32⟩ : BufTy).Contents (Elt F)),
    binary main_arg3 main_v76 main_v77 (cmpi .slt : (⟨S8192, .i32⟩ : BufTy).Contents (Elt F) → (⟨S8192, .i32⟩ : BufTy).Contents (Elt F) → (⟨S8192, .i1⟩ : BufTy).Contents (Elt F)),
    nullary main_c_11 (constantI S_ 32 8192#32),
    unary main_c_11 main_v78 (broadcastInDim S8192 ![] bcast_S_S8192 : (⟨S_, .i32⟩ : BufTy).Contents (Elt F) → (⟨S8192, .i32⟩ : BufTy).Contents (Elt F)),
    binary main_arg3 main_v78 main_v79 (addi : (⟨S8192, .i32⟩ : BufTy).Contents (Elt F) → (⟨S8192, .i32⟩ : BufTy).Contents (Elt F) → (⟨S8192, .i32⟩ : BufTy).Contents (Elt F)),
    ternary main_v77 main_v79 main_arg3 main_v80 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v80 main_v81 (broadcastInDim S8192x1 ![0] bcast_S8192_S8192x1_0 : (⟨S8192, .i32⟩ : BufTy).Contents (Elt F) → (⟨S8192x1, .i32⟩ : BufTy).Contents (Elt F)),
    binary main_v75 main_v81 main_v82 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S8192x1, .i1⟩) main_v66) (TRef.of (T := ⟨S8192x512, .i1⟩) main_call2_v1) (broadcastInDim S8192x512 ![0, 1] bcast_S8192x1_S8192x512_0_1),
    TRef.unary (TRef.of (T := ⟨S_, .f32⟩) main_call2_v0) (TRef.of (T := ⟨S8192x512, .f32⟩) main_call2_v2) (broadcastInDim S8192x512 ![] bcast_S_S8192x512),
    TRef.ternary (TRef.of (T := ⟨S8192x512, .i1⟩) main_call2_v1) (TRef.of (T := ⟨S8192x512, .f32⟩) main_v82) (TRef.of (T := ⟨S8192x512, .f32⟩) main_call2_v2) (TRef.of (T := ⟨S8192x512, .f32⟩) main_v83) select,
    nullary main_c_13 (constantI S_ 32 0#32),
    unary main_c_13 main_v84 (broadcastInDim S8192 ![] bcast_S_S8192 : (⟨S_, .i32⟩ : BufTy).Contents (Elt F) → (⟨S8192, .i32⟩ : BufTy).Contents (Elt F)),
    binary main_arg1 main_v84 main_v85 (cmpi .slt : (⟨S8192, .i32⟩ : BufTy).Contents (Elt F) → (⟨S8192, .i32⟩ : BufTy).Contents (Elt F) → (⟨S8192, .i1⟩ : BufTy).Contents (Elt F)),
    nullary main_c_14 (constantI S_ 32 8192#32),
    unary main_c_14 main_v86 (broadcastInDim S8192 ![] bcast_S_S8192 : (⟨S_, .i32⟩ : BufTy).Contents (Elt F) → (⟨S8192, .i32⟩ : BufTy).Contents (Elt F)),
    binary main_arg1 main_v86 main_v87 (addi : (⟨S8192, .i32⟩ : BufTy).Contents (Elt F) → (⟨S8192, .i32⟩ : BufTy).Contents (Elt F) → (⟨S8192, .i32⟩ : BufTy).Contents (Elt F)),
    ternary main_v85 main_v87 main_arg1 main_v88 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v88 main_v89 (broadcastInDim S8192x1 ![0] bcast_S8192_S8192x1_0 : (⟨S8192, .i32⟩ : BufTy).Contents (Elt F) → (⟨S8192x1, .i32⟩ : BufTy).Contents (Elt F)),
    ternary main_v63 main_v89 main_v83 main_v90 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v91 ((extractStridedSlice S1x512x512 ![21, 0, 0] · slices_S40x512x512_S1x512x512_21_0_0) : (⟨S40x512x512, .f32⟩ : BufTy).Contents (Elt F) → (⟨S1x512x512, .f32⟩ : BufTy).Contents (Elt F)),
    reshape main_v91 main_v92 rfl shapeCasts_S1x512x512_S512x512,
    unary main_v92 main_v93 ((transpose S512x512 [1, 0] · transposes_S512x512_S512x512_1_0) : (⟨S512x512, .f32⟩ : BufTy).Contents (Elt F) → (⟨S512x512, .f32⟩ : BufTy).Contents (Elt F)),
    binary main_arg0 main_v93 main_v94 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v95 ((extractStridedSlice S1x512 ![21, 0] · slices_S40x512_S1x512_21_0) : (⟨S40x512, .f32⟩ : BufTy).Contents (Elt F) → (⟨S1x512, .f32⟩ : BufTy).Contents (Elt F)),
    reshape main_v95 main_v96 rfl shapeCasts_S1x512_S512,
    unary main_v96 main_v97 (broadcastInDim S1x512 ![1] bcast_S512_S1x512_1 : (⟨S512, .f32⟩ : BufTy).Contents (Elt F) → (⟨S1x512, .f32⟩ : BufTy).Contents (Elt F)),
    unary main_v97 main_v98 (broadcastInDim S8192x512 ![0, 1] bcast_S1x512_S8192x512_0_1 : (⟨S1x512, .f32⟩ : BufTy).Contents (Elt F) → (⟨S8192x512, .f32⟩ : BufTy).Contents (Elt F)),
    binary main_v94 main_v98 main_v99 (addf : (⟨S8192x512, .f32⟩ : BufTy).Contents (Elt F) → (⟨S8192x512, .f32⟩ : BufTy).Contents (Elt F) → (⟨S8192x512, .f32⟩ : BufTy).Contents (Elt F)),
    nullary main_c_15 (constantI S_ 32 0#32),
    unary main_c_15 main_v100 (broadcastInDim S8192 ![] bcast_S_S8192 : (⟨S_, .i32⟩ : BufTy).Contents (Elt F) → (⟨S8192, .i32⟩ : BufTy).Contents (Elt F)),
    binary main_arg1 main_v100 main_v101 (cmpi .slt : (⟨S8192, .i32⟩ : BufTy).Contents (Elt F) → (⟨S8192, .i32⟩ : BufTy).Contents (Elt F) → (⟨S8192, .i1⟩ : BufTy).Contents (Elt F)),
    nullary main_c_16 (constantI S_ 32 8192#32),
    unary main_c_16 main_v102 (broadcastInDim S8192 ![] bcast_S_S8192 : (⟨S_, .i32⟩ : BufTy).Contents (Elt F) → (⟨S8192, .i32⟩ : BufTy).Contents (Elt F)),
    binary main_arg1 main_v102 main_v103 (addi : (⟨S8192, .i32⟩ : BufTy).Contents (Elt F) → (⟨S8192, .i32⟩ : BufTy).Contents (Elt F) → (⟨S8192, .i32⟩ : BufTy).Contents (Elt F)),
    ternary main_v101 main_v103 main_arg1 main_v104 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v104 main_v105 (broadcastInDim S8192x1 ![0] bcast_S8192_S8192x1_0 : (⟨S8192, .i32⟩ : BufTy).Contents (Elt F) → (⟨S8192x1, .i32⟩ : BufTy).Contents (Elt F)),
    binary main_v99 main_v105 main_v106 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_17 (constant S_ .f32 0x00000000#32),
    TRef.unary (TRef.of (T := ⟨S_, .f32⟩) main_cst_17) (TRef.of (T := ⟨S_, .f32⟩) main_call3_v0) id,
    TRef.unary (TRef.of (T := ⟨S8192x1, .i1⟩) main_v66) (TRef.of (T := ⟨S8192x512, .i1⟩) main_call3_v1) (broadcastInDim S8192x512 ![0, 1] bcast_S8192x1_S8192x512_0_1),
    TRef.unary (TRef.of (T := ⟨S_, .f32⟩) main_call3_v0) (TRef.of (T := ⟨S8192x512, .f32⟩) main_call3_v2) (broadcastInDim S8192x512 ![] bcast_S_S8192x512),
    TRef.ternary (TRef.of (T := ⟨S8192x512, .i1⟩) main_call3_v1) (TRef.of (T := ⟨S8192x512, .f32⟩) main_v106) (TRef.of (T := ⟨S8192x512, .f32⟩) main_call3_v2) (TRef.of (T := ⟨S8192x512, .f32⟩) main_v107) select,
    nullary main_c_18 (constantI S_ 32 0#32),
    unary main_c_18 main_v108 (broadcastInDim S8192 ![] bcast_S_S8192 : (⟨S_, .i32⟩ : BufTy).Contents (Elt F) → (⟨S8192, .i32⟩ : BufTy).Contents (Elt F)),
    binary main_arg3 main_v108 main_v109 (cmpi .slt : (⟨S8192, .i32⟩ : BufTy).Contents (Elt F) → (⟨S8192, .i32⟩ : BufTy).Contents (Elt F) → (⟨S8192, .i1⟩ : BufTy).Contents (Elt F)),
    nullary main_c_19 (constantI S_ 32 8192#32),
    unary main_c_19 main_v110 (broadcastInDim S8192 ![] bcast_S_S8192 : (⟨S_, .i32⟩ : BufTy).Contents (Elt F) → (⟨S8192, .i32⟩ : BufTy).Contents (Elt F)),
    binary main_arg3 main_v110 main_v111 (addi : (⟨S8192, .i32⟩ : BufTy).Contents (Elt F) → (⟨S8192, .i32⟩ : BufTy).Contents (Elt F) → (⟨S8192, .i32⟩ : BufTy).Contents (Elt F)),
    ternary main_v109 main_v111 main_arg3 main_v112 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v112 main_v113 (broadcastInDim S8192x1 ![0] bcast_S8192_S8192x1_0 : (⟨S8192, .i32⟩ : BufTy).Contents (Elt F) → (⟨S8192x1, .i32⟩ : BufTy).Contents (Elt F)),
    ternary main_v90 main_v113 main_v107 main_v114 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_1_sub : (lab1_1 (F := F)).Forall fun op => op.bufs ⊆ tcRefs τ sig := by
  unfold lab1_1
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_1_fresh : (lab1_1 (F := F)).Forall fun op => op.fresh = ∅ := by
  all_fresh lab1_1

/-- The references the line writes, in order. -/
abbrev lab1_1_W : List (Ref sig .tc) := [main_c_9, main_v64, main_v65, main_v66, main_v67, main_v68, main_v69, main_v70, main_v71, main_v72, main_v73, main_v74, main_v75, main_c_10, main_v76, main_v77, main_c_11, main_v78, main_v79, main_v80, main_v81, main_v82, main_cst_12, main_call2_v0, main_call2_v1, main_call2_v2, main_v83, main_c_13, main_v84, main_v85, main_c_14, main_v86, main_v87, main_v88, main_v89, main_v90, main_v91, main_v92, main_v93, main_v94, main_v95, main_v96, main_v97, main_v98, main_v99, main_c_15, main_v100, main_v101, main_c_16, main_v102, main_v103, main_v104, main_v105, main_v106, main_cst_17, main_call3_v0, main_call3_v1, main_call3_v2, main_v107, main_c_18, main_v108, main_v109, main_c_19, main_v110, main_v111, main_v112, main_v113, main_v114]

theorem lab1_1_writes : (lab1_1 (F := F)).map (fun op => op.writes)
    = (lab1_1_W).map fun y => ({Proc.devRef (τ := τ) .tc y} : Finset (DevRef τ sig)) := rfl

/-- A reference the line does not write keeps its contents. -/
theorem lab1_1_frame (V : Valuation τ sig (Elt F)) {r : Ref sig .tc} (hr : r ∉ lab1_1_W) :
    after (lab1_1 (F := F)) V (no_index (Proc.devRef .tc r)) = V (Proc.devRef .tc r) :=
  Cert.RefLib.after_frame lab1_1_writes V hr

/-- The operations of relation label 2 in layer 1: the label's edge mask, the two products, and the two masked messages added to the running sum. -/
def lab1_2 : List (HloOp τ sig (Elt F)) :=
  [
    nullary main_c_20 (constantI S_ 32 2#32),
    unary main_c_20 main_v115 (broadcastInDim S8192 ![] bcast_S_S8192 : (⟨S_, .i32⟩ : BufTy).Contents (Elt F) → (⟨S8192, .i32⟩ : BufTy).Contents (Elt F)),
    binary main_arg2 main_v115 main_v116 (cmpi .eq : (⟨S8192, .i32⟩ : BufTy).Contents (Elt F) → (⟨S8192, .i32⟩ : BufTy).Contents (Elt F) → (⟨S8192, .i1⟩ : BufTy).Contents (Elt F)),
    unary main_v116 main_v117 (broadcastInDim S8192x1 ![0] bcast_S8192_S8192x1_0 : (⟨S8192, .i1⟩ : BufTy).Contents (Elt F) → (⟨S8192x1, .i1⟩ : BufTy).Contents (Elt F)),
    unary main_v5 main_v118 ((extractStridedSlice S1x512x512 ![2, 0, 0] · slices_S40x512x512_S1x512x512_2_0_0) : (⟨S40x512x512, .f32⟩ : BufTy).Contents (Elt F) → (⟨S1x512x512, .f32⟩ : BufTy).Contents (Elt F)),
    reshape main_v118 main_v119 rfl shapeCasts_S1x512x512_S512x512,
    unary main_v119 main_v120 ((transpose S512x512 [1, 0] · transposes_S512x512_S512x512_1_0) : (⟨S512x512, .f32⟩ : BufTy).Contents (Elt F) → (⟨S512x512, .f32⟩ : BufTy).Contents (Elt F)),
    binary main_arg0 main_v120 main_v121 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v122 ((extractStridedSlice S1x512 ![2, 0] · slices_S40x512_S1x512_2_0) : (⟨S40x512, .f32⟩ : BufTy).Contents (Elt F) → (⟨S1x512, .f32⟩ : BufTy).Contents (Elt F)),
    reshape main_v122 main_v123 rfl shapeCasts_S1x512_S512,
    unary main_v123 main_v124 (broadcastInDim S1x512 ![1] bcast_S512_S1x512_1 : (⟨S512, .f32⟩ : BufTy).Contents (Elt F) → (⟨S1x512, .f32⟩ : BufTy).Contents (Elt F)),
    unary main_v124 main_v125 (broadcastInDim S8192x512 ![0, 1] bcast_S1x512_S8192x512_0_1 : (⟨S1x512, .f32⟩ : BufTy).Contents (Elt F) → (⟨S8192x512, .f32⟩ : BufTy).Contents (Elt F)),
    binary main_v121 main_v125 main_v126 (addf : (⟨S8192x512, .f32⟩ : BufTy).Contents (Elt F) → (⟨S8192x512, .f32⟩ : BufTy).Contents (Elt F) → (⟨S8192x512, .f32⟩ : BufTy).Contents (Elt F)),
    nullary main_c_21 (constantI S_ 32 0#32),
    unary main_c_21 main_v127 (broadcastInDim S8192 ![] bcast_S_S8192 : (⟨S_, .i32⟩ : BufTy).Contents (Elt F) → (⟨S8192, .i32⟩ : BufTy).Contents (Elt F)),
    binary main_arg3 main_v127 main_v128 (cmpi .slt : (⟨S8192, .i32⟩ : BufTy).Contents (Elt F) → (⟨S8192, .i32⟩ : BufTy).Contents (Elt F) → (⟨S8192, .i1⟩ : BufTy).Contents (Elt F)),
    nullary main_c_22 (constantI S_ 32 8192#32),
    unary main_c_22 main_v129 (broadcastInDim S8192 ![] bcast_S_S8192 : (⟨S_, .i32⟩ : BufTy).Contents (Elt F) → (⟨S8192, .i32⟩ : BufTy).Contents (Elt F)),
    binary main_arg3 main_v129 main_v130 (addi : (⟨S8192, .i32⟩ : BufTy).Contents (Elt F) → (⟨S8192, .i32⟩ : BufTy).Contents (Elt F) → (⟨S8192, .i32⟩ : BufTy).Contents (Elt F)),
    ternary main_v128 main_v130 main_arg3 main_v131 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v131 main_v132 (broadcastInDim S8192x1 ![0] bcast_S8192_S8192x1_0 : (⟨S8192, .i32⟩ : BufTy).Contents (Elt F) → (⟨S8192x1, .i32⟩ : BufTy).Contents (Elt F)),
    binary main_v126 main_v132 main_v133 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_23 (constant S_ .f32 0x00000000#32),
    TRef.unary (TRef.of (T := ⟨S_, .f32⟩) main_cst_23) (TRef.of (T := ⟨S_, .f32⟩) main_call4_v0) id,
    TRef.unary (TRef.of (T := ⟨S8192x1, .i1⟩) main_v117) (TRef.of (T := ⟨S8192x512, .i1⟩) main_call4_v1) (broadcastInDim S8192x512 ![0, 1] bcast_S8192x1_S8192x512_0_1),
    TRef.unary (TRef.of (T := ⟨S_, .f32⟩) main_call4_v0) (TRef.of (T := ⟨S8192x512, .f32⟩) main_call4_v2) (broadcastInDim S8192x512 ![] bcast_S_S8192x512),
    TRef.ternary (TRef.of (T := ⟨S8192x512, .i1⟩) main_call4_v1) (TRef.of (T := ⟨S8192x512, .f32⟩) main_v133) (TRef.of (T := ⟨S8192x512, .f32⟩) main_call4_v2) (TRef.of (T := ⟨S8192x512, .f32⟩) main_v134) select,
    nullary main_c_24 (constantI S_ 32 0#32),
    unary main_c_24 main_v135 (broadcastInDim S8192 ![] bcast_S_S8192 : (⟨S_, .i32⟩ : BufTy).Contents (Elt F) → (⟨S8192, .i32⟩ : BufTy).Contents (Elt F)),
    binary main_arg1 main_v135 main_v136 (cmpi .slt : (⟨S8192, .i32⟩ : BufTy).Contents (Elt F) → (⟨S8192, .i32⟩ : BufTy).Contents (Elt F) → (⟨S8192, .i1⟩ : BufTy).Contents (Elt F)),
    nullary main_c_25 (constantI S_ 32 8192#32),
    unary main_c_25 main_v137 (broadcastInDim S8192 ![] bcast_S_S8192 : (⟨S_, .i32⟩ : BufTy).Contents (Elt F) → (⟨S8192, .i32⟩ : BufTy).Contents (Elt F)),
    binary main_arg1 main_v137 main_v138 (addi : (⟨S8192, .i32⟩ : BufTy).Contents (Elt F) → (⟨S8192, .i32⟩ : BufTy).Contents (Elt F) → (⟨S8192, .i32⟩ : BufTy).Contents (Elt F)),
    ternary main_v136 main_v138 main_arg1 main_v139 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v139 main_v140 (broadcastInDim S8192x1 ![0] bcast_S8192_S8192x1_0 : (⟨S8192, .i32⟩ : BufTy).Contents (Elt F) → (⟨S8192x1, .i32⟩ : BufTy).Contents (Elt F)),
    ternary main_v114 main_v140 main_v134 main_v141 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v142 ((extractStridedSlice S1x512x512 ![22, 0, 0] · slices_S40x512x512_S1x512x512_22_0_0) : (⟨S40x512x512, .f32⟩ : BufTy).Contents (Elt F) → (⟨S1x512x512, .f32⟩ : BufTy).Contents (Elt F)),
    reshape main_v142 main_v143 rfl shapeCasts_S1x512x512_S512x512,
    unary main_v143 main_v144 ((transpose S512x512 [1, 0] · transposes_S512x512_S512x512_1_0) : (⟨S512x512, .f32⟩ : BufTy).Contents (Elt F) → (⟨S512x512, .f32⟩ : BufTy).Contents (Elt F)),
    binary main_arg0 main_v144 main_v145 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v146 ((extractStridedSlice S1x512 ![22, 0] · slices_S40x512_S1x512_22_0) : (⟨S40x512, .f32⟩ : BufTy).Contents (Elt F) → (⟨S1x512, .f32⟩ : BufTy).Contents (Elt F)),
    reshape main_v146 main_v147 rfl shapeCasts_S1x512_S512,
    unary main_v147 main_v148 (broadcastInDim S1x512 ![1] bcast_S512_S1x512_1 : (⟨S512, .f32⟩ : BufTy).Contents (Elt F) → (⟨S1x512, .f32⟩ : BufTy).Contents (Elt F)),
    unary main_v148 main_v149 (broadcastInDim S8192x512 ![0, 1] bcast_S1x512_S8192x512_0_1 : (⟨S1x512, .f32⟩ : BufTy).Contents (Elt F) → (⟨S8192x512, .f32⟩ : BufTy).Contents (Elt F)),
    binary main_v145 main_v149 main_v150 (addf : (⟨S8192x512, .f32⟩ : BufTy).Contents (Elt F) → (⟨S8192x512, .f32⟩ : BufTy).Contents (Elt F) → (⟨S8192x512, .f32⟩ : BufTy).Contents (Elt F)),
    nullary main_c_26 (constantI S_ 32 0#32),
    unary main_c_26 main_v151 (broadcastInDim S8192 ![] bcast_S_S8192 : (⟨S_, .i32⟩ : BufTy).Contents (Elt F) → (⟨S8192, .i32⟩ : BufTy).Contents (Elt F)),
    binary main_arg1 main_v151 main_v152 (cmpi .slt : (⟨S8192, .i32⟩ : BufTy).Contents (Elt F) → (⟨S8192, .i32⟩ : BufTy).Contents (Elt F) → (⟨S8192, .i1⟩ : BufTy).Contents (Elt F)),
    nullary main_c_27 (constantI S_ 32 8192#32),
    unary main_c_27 main_v153 (broadcastInDim S8192 ![] bcast_S_S8192 : (⟨S_, .i32⟩ : BufTy).Contents (Elt F) → (⟨S8192, .i32⟩ : BufTy).Contents (Elt F)),
    binary main_arg1 main_v153 main_v154 (addi : (⟨S8192, .i32⟩ : BufTy).Contents (Elt F) → (⟨S8192, .i32⟩ : BufTy).Contents (Elt F) → (⟨S8192, .i32⟩ : BufTy).Contents (Elt F)),
    ternary main_v152 main_v154 main_arg1 main_v155 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v155 main_v156 (broadcastInDim S8192x1 ![0] bcast_S8192_S8192x1_0 : (⟨S8192, .i32⟩ : BufTy).Contents (Elt F) → (⟨S8192x1, .i32⟩ : BufTy).Contents (Elt F)),
    binary main_v150 main_v156 main_v157 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_28 (constant S_ .f32 0x00000000#32),
    TRef.unary (TRef.of (T := ⟨S_, .f32⟩) main_cst_28) (TRef.of (T := ⟨S_, .f32⟩) main_call5_v0) id,
    TRef.unary (TRef.of (T := ⟨S8192x1, .i1⟩) main_v117) (TRef.of (T := ⟨S8192x512, .i1⟩) main_call5_v1) (broadcastInDim S8192x512 ![0, 1] bcast_S8192x1_S8192x512_0_1),
    TRef.unary (TRef.of (T := ⟨S_, .f32⟩) main_call5_v0) (TRef.of (T := ⟨S8192x512, .f32⟩) main_call5_v2) (broadcastInDim S8192x512 ![] bcast_S_S8192x512),
    TRef.ternary (TRef.of (T := ⟨S8192x512, .i1⟩) main_call5_v1) (TRef.of (T := ⟨S8192x512, .f32⟩) main_v157) (TRef.of (T := ⟨S8192x512, .f32⟩) main_call5_v2) (TRef.of (T := ⟨S8192x512, .f32⟩) main_v158) select,
    nullary main_c_29 (constantI S_ 32 0#32),
    unary main_c_29 main_v159 (broadcastInDim S8192 ![] bcast_S_S8192 : (⟨S_, .i32⟩ : BufTy).Contents (Elt F) → (⟨S8192, .i32⟩ : BufTy).Contents (Elt F)),
    binary main_arg3 main_v159 main_v160 (cmpi .slt : (⟨S8192, .i32⟩ : BufTy).Contents (Elt F) → (⟨S8192, .i32⟩ : BufTy).Contents (Elt F) → (⟨S8192, .i1⟩ : BufTy).Contents (Elt F)),
    nullary main_c_30 (constantI S_ 32 8192#32),
    unary main_c_30 main_v161 (broadcastInDim S8192 ![] bcast_S_S8192 : (⟨S_, .i32⟩ : BufTy).Contents (Elt F) → (⟨S8192, .i32⟩ : BufTy).Contents (Elt F)),
    binary main_arg3 main_v161 main_v162 (addi : (⟨S8192, .i32⟩ : BufTy).Contents (Elt F) → (⟨S8192, .i32⟩ : BufTy).Contents (Elt F) → (⟨S8192, .i32⟩ : BufTy).Contents (Elt F)),
    ternary main_v160 main_v162 main_arg3 main_v163 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v163 main_v164 (broadcastInDim S8192x1 ![0] bcast_S8192_S8192x1_0 : (⟨S8192, .i32⟩ : BufTy).Contents (Elt F) → (⟨S8192x1, .i32⟩ : BufTy).Contents (Elt F)),
    ternary main_v141 main_v164 main_v158 main_v165 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_2_sub : (lab1_2 (F := F)).Forall fun op => op.bufs ⊆ tcRefs τ sig := by
  unfold lab1_2
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_2_fresh : (lab1_2 (F := F)).Forall fun op => op.fresh = ∅ := by
  all_fresh lab1_2

/-- The references the line writes, in order. -/
abbrev lab1_2_W : List (Ref sig .tc) := [main_c_20, main_v115, main_v116, main_v117, main_v118, main_v119, main_v120, main_v121, main_v122, main_v123, main_v124, main_v125, main_v126, main_c_21, main_v127, main_v128, main_c_22, main_v129, main_v130, main_v131, main_v132, main_v133, main_cst_23, main_call4_v0, main_call4_v1, main_call4_v2, main_v134, main_c_24, main_v135, main_v136, main_c_25, main_v137, main_v138, main_v139, main_v140, main_v141, main_v142, main_v143, main_v144, main_v145, main_v146, main_v147, main_v148, main_v149, main_v150, main_c_26, main_v151, main_v152, main_c_27, main_v153, main_v154, main_v155, main_v156, main_v157, main_cst_28, main_call5_v0, main_call5_v1, main_call5_v2, main_v158, main_c_29, main_v159, main_v160, main_c_30, main_v161, main_v162, main_v163, main_v164, main_v165]

theorem lab1_2_writes : (lab1_2 (F := F)).map (fun op => op.writes)
    = (lab1_2_W).map fun y => ({Proc.devRef (τ := τ) .tc y} : Finset (DevRef τ sig)) := rfl

/-- A reference the line does not write keeps its contents. -/
theorem lab1_2_frame (V : Valuation τ sig (Elt F)) {r : Ref sig .tc} (hr : r ∉ lab1_2_W) :
    after (lab1_2 (F := F)) V (no_index (Proc.devRef .tc r)) = V (Proc.devRef .tc r) :=
  Cert.RefLib.after_frame lab1_2_writes V hr

/-- The operations of relation label 3 in layer 1: the label's edge mask, the two products, and the two masked messages added to the running sum. -/
def lab1_3 : List (HloOp τ sig (Elt F)) :=
  [
    nullary main_c_31 (constantI S_ 32 3#32),
    unary main_c_31 main_v166 (broadcastInDim S8192 ![] bcast_S_S8192 : (⟨S_, .i32⟩ : BufTy).Contents (Elt F) → (⟨S8192, .i32⟩ : BufTy).Contents (Elt F)),
    binary main_arg2 main_v166 main_v167 (cmpi .eq : (⟨S8192, .i32⟩ : BufTy).Contents (Elt F) → (⟨S8192, .i32⟩ : BufTy).Contents (Elt F) → (⟨S8192, .i1⟩ : BufTy).Contents (Elt F)),
    unary main_v167 main_v168 (broadcastInDim S8192x1 ![0] bcast_S8192_S8192x1_0 : (⟨S8192, .i1⟩ : BufTy).Contents (Elt F) → (⟨S8192x1, .i1⟩ : BufTy).Contents (Elt F)),
    unary main_v5 main_v169 ((extractStridedSlice S1x512x512 ![3, 0, 0] · slices_S40x512x512_S1x512x512_3_0_0) : (⟨S40x512x512, .f32⟩ : BufTy).Contents (Elt F) → (⟨S1x512x512, .f32⟩ : BufTy).Contents (Elt F)),
    reshape main_v169 main_v170 rfl shapeCasts_S1x512x512_S512x512,
    unary main_v170 main_v171 ((transpose S512x512 [1, 0] · transposes_S512x512_S512x512_1_0) : (⟨S512x512, .f32⟩ : BufTy).Contents (Elt F) → (⟨S512x512, .f32⟩ : BufTy).Contents (Elt F)),
    binary main_arg0 main_v171 main_v172 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v173 ((extractStridedSlice S1x512 ![3, 0] · slices_S40x512_S1x512_3_0) : (⟨S40x512, .f32⟩ : BufTy).Contents (Elt F) → (⟨S1x512, .f32⟩ : BufTy).Contents (Elt F)),
    reshape main_v173 main_v174 rfl shapeCasts_S1x512_S512,
    unary main_v174 main_v175 (broadcastInDim S1x512 ![1] bcast_S512_S1x512_1 : (⟨S512, .f32⟩ : BufTy).Contents (Elt F) → (⟨S1x512, .f32⟩ : BufTy).Contents (Elt F)),
    unary main_v175 main_v176 (broadcastInDim S8192x512 ![0, 1] bcast_S1x512_S8192x512_0_1 : (⟨S1x512, .f32⟩ : BufTy).Contents (Elt F) → (⟨S8192x512, .f32⟩ : BufTy).Contents (Elt F)),
    binary main_v172 main_v176 main_v177 (addf : (⟨S8192x512, .f32⟩ : BufTy).Contents (Elt F) → (⟨S8192x512, .f32⟩ : BufTy).Contents (Elt F) → (⟨S8192x512, .f32⟩ : BufTy).Contents (Elt F)),
    nullary main_c_32 (constantI S_ 32 0#32),
    unary main_c_32 main_v178 (broadcastInDim S8192 ![] bcast_S_S8192 : (⟨S_, .i32⟩ : BufTy).Contents (Elt F) → (⟨S8192, .i32⟩ : BufTy).Contents (Elt F)),
    binary main_arg3 main_v178 main_v179 (cmpi .slt : (⟨S8192, .i32⟩ : BufTy).Contents (Elt F) → (⟨S8192, .i32⟩ : BufTy).Contents (Elt F) → (⟨S8192, .i1⟩ : BufTy).Contents (Elt F)),
    nullary main_c_33 (constantI S_ 32 8192#32),
    unary main_c_33 main_v180 (broadcastInDim S8192 ![] bcast_S_S8192 : (⟨S_, .i32⟩ : BufTy).Contents (Elt F) → (⟨S8192, .i32⟩ : BufTy).Contents (Elt F)),
    binary main_arg3 main_v180 main_v181 (addi : (⟨S8192, .i32⟩ : BufTy).Contents (Elt F) → (⟨S8192, .i32⟩ : BufTy).Contents (Elt F) → (⟨S8192, .i32⟩ : BufTy).Contents (Elt F)),
    ternary main_v179 main_v181 main_arg3 main_v182 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v182 main_v183 (broadcastInDim S8192x1 ![0] bcast_S8192_S8192x1_0 : (⟨S8192, .i32⟩ : BufTy).Contents (Elt F) → (⟨S8192x1, .i32⟩ : BufTy).Contents (Elt F)),
    binary main_v177 main_v183 main_v184 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_34 (constant S_ .f32 0x00000000#32),
    TRef.unary (TRef.of (T := ⟨S_, .f32⟩) main_cst_34) (TRef.of (T := ⟨S_, .f32⟩) main_call6_v0) id,
    TRef.unary (TRef.of (T := ⟨S8192x1, .i1⟩) main_v168) (TRef.of (T := ⟨S8192x512, .i1⟩) main_call6_v1) (broadcastInDim S8192x512 ![0, 1] bcast_S8192x1_S8192x512_0_1),
    TRef.unary (TRef.of (T := ⟨S_, .f32⟩) main_call6_v0) (TRef.of (T := ⟨S8192x512, .f32⟩) main_call6_v2) (broadcastInDim S8192x512 ![] bcast_S_S8192x512),
    TRef.ternary (TRef.of (T := ⟨S8192x512, .i1⟩) main_call6_v1) (TRef.of (T := ⟨S8192x512, .f32⟩) main_v184) (TRef.of (T := ⟨S8192x512, .f32⟩) main_call6_v2) (TRef.of (T := ⟨S8192x512, .f32⟩) main_v185) select,
    nullary main_c_35 (constantI S_ 32 0#32),
    unary main_c_35 main_v186 (broadcastInDim S8192 ![] bcast_S_S8192 : (⟨S_, .i32⟩ : BufTy).Contents (Elt F) → (⟨S8192, .i32⟩ : BufTy).Contents (Elt F)),
    binary main_arg1 main_v186 main_v187 (cmpi .slt : (⟨S8192, .i32⟩ : BufTy).Contents (Elt F) → (⟨S8192, .i32⟩ : BufTy).Contents (Elt F) → (⟨S8192, .i1⟩ : BufTy).Contents (Elt F)),
    nullary main_c_36 (constantI S_ 32 8192#32),
    unary main_c_36 main_v188 (broadcastInDim S8192 ![] bcast_S_S8192 : (⟨S_, .i32⟩ : BufTy).Contents (Elt F) → (⟨S8192, .i32⟩ : BufTy).Contents (Elt F)),
    binary main_arg1 main_v188 main_v189 (addi : (⟨S8192, .i32⟩ : BufTy).Contents (Elt F) → (⟨S8192, .i32⟩ : BufTy).Contents (Elt F) → (⟨S8192, .i32⟩ : BufTy).Contents (Elt F)),
    ternary main_v187 main_v189 main_arg1 main_v190 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v190 main_v191 (broadcastInDim S8192x1 ![0] bcast_S8192_S8192x1_0 : (⟨S8192, .i32⟩ : BufTy).Contents (Elt F) → (⟨S8192x1, .i32⟩ : BufTy).Contents (Elt F)),
    ternary main_v165 main_v191 main_v185 main_v192 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v193 ((extractStridedSlice S1x512x512 ![23, 0, 0] · slices_S40x512x512_S1x512x512_23_0_0) : (⟨S40x512x512, .f32⟩ : BufTy).Contents (Elt F) → (⟨S1x512x512, .f32⟩ : BufTy).Contents (Elt F)),
    reshape main_v193 main_v194 rfl shapeCasts_S1x512x512_S512x512,
    unary main_v194 main_v195 ((transpose S512x512 [1, 0] · transposes_S512x512_S512x512_1_0) : (⟨S512x512, .f32⟩ : BufTy).Contents (Elt F) → (⟨S512x512, .f32⟩ : BufTy).Contents (Elt F)),
    binary main_arg0 main_v195 main_v196 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v197 ((extractStridedSlice S1x512 ![23, 0] · slices_S40x512_S1x512_23_0) : (⟨S40x512, .f32⟩ : BufTy).Contents (Elt F) → (⟨S1x512, .f32⟩ : BufTy).Contents (Elt F)),
    reshape main_v197 main_v198 rfl shapeCasts_S1x512_S512,
    unary main_v198 main_v199 (broadcastInDim S1x512 ![1] bcast_S512_S1x512_1 : (⟨S512, .f32⟩ : BufTy).Contents (Elt F) → (⟨S1x512, .f32⟩ : BufTy).Contents (Elt F)),
    unary main_v199 main_v200 (broadcastInDim S8192x512 ![0, 1] bcast_S1x512_S8192x512_0_1 : (⟨S1x512, .f32⟩ : BufTy).Contents (Elt F) → (⟨S8192x512, .f32⟩ : BufTy).Contents (Elt F)),
    binary main_v196 main_v200 main_v201 (addf : (⟨S8192x512, .f32⟩ : BufTy).Contents (Elt F) → (⟨S8192x512, .f32⟩ : BufTy).Contents (Elt F) → (⟨S8192x512, .f32⟩ : BufTy).Contents (Elt F)),
    nullary main_c_37 (constantI S_ 32 0#32),
    unary main_c_37 main_v202 (broadcastInDim S8192 ![] bcast_S_S8192 : (⟨S_, .i32⟩ : BufTy).Contents (Elt F) → (⟨S8192, .i32⟩ : BufTy).Contents (Elt F)),
    binary main_arg1 main_v202 main_v203 (cmpi .slt : (⟨S8192, .i32⟩ : BufTy).Contents (Elt F) → (⟨S8192, .i32⟩ : BufTy).Contents (Elt F) → (⟨S8192, .i1⟩ : BufTy).Contents (Elt F)),
    nullary main_c_38 (constantI S_ 32 8192#32),
    unary main_c_38 main_v204 (broadcastInDim S8192 ![] bcast_S_S8192 : (⟨S_, .i32⟩ : BufTy).Contents (Elt F) → (⟨S8192, .i32⟩ : BufTy).Contents (Elt F)),
    binary main_arg1 main_v204 main_v205 (addi : (⟨S8192, .i32⟩ : BufTy).Contents (Elt F) → (⟨S8192, .i32⟩ : BufTy).Contents (Elt F) → (⟨S8192, .i32⟩ : BufTy).Contents (Elt F)),
    ternary main_v203 main_v205 main_arg1 main_v206 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v206 main_v207 (broadcastInDim S8192x1 ![0] bcast_S8192_S8192x1_0 : (⟨S8192, .i32⟩ : BufTy).Contents (Elt F) → (⟨S8192x1, .i32⟩ : BufTy).Contents (Elt F)),
    binary main_v201 main_v207 main_v208 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_39 (constant S_ .f32 0x00000000#32),
    TRef.unary (TRef.of (T := ⟨S_, .f32⟩) main_cst_39) (TRef.of (T := ⟨S_, .f32⟩) main_call7_v0) id,
    TRef.unary (TRef.of (T := ⟨S8192x1, .i1⟩) main_v168) (TRef.of (T := ⟨S8192x512, .i1⟩) main_call7_v1) (broadcastInDim S8192x512 ![0, 1] bcast_S8192x1_S8192x512_0_1),
    TRef.unary (TRef.of (T := ⟨S_, .f32⟩) main_call7_v0) (TRef.of (T := ⟨S8192x512, .f32⟩) main_call7_v2) (broadcastInDim S8192x512 ![] bcast_S_S8192x512),
    TRef.ternary (TRef.of (T := ⟨S8192x512, .i1⟩) main_call7_v1) (TRef.of (T := ⟨S8192x512, .f32⟩) main_v208) (TRef.of (T := ⟨S8192x512, .f32⟩) main_call7_v2) (TRef.of (T := ⟨S8192x512, .f32⟩) main_v209) select,
    nullary main_c_40 (constantI S_ 32 0#32),
    unary main_c_40 main_v210 (broadcastInDim S8192 ![] bcast_S_S8192 : (⟨S_, .i32⟩ : BufTy).Contents (Elt F) → (⟨S8192, .i32⟩ : BufTy).Contents (Elt F)),
    binary main_arg3 main_v210 main_v211 (cmpi .slt : (⟨S8192, .i32⟩ : BufTy).Contents (Elt F) → (⟨S8192, .i32⟩ : BufTy).Contents (Elt F) → (⟨S8192, .i1⟩ : BufTy).Contents (Elt F)),
    nullary main_c_41 (constantI S_ 32 8192#32),
    unary main_c_41 main_v212 (broadcastInDim S8192 ![] bcast_S_S8192 : (⟨S_, .i32⟩ : BufTy).Contents (Elt F) → (⟨S8192, .i32⟩ : BufTy).Contents (Elt F)),
    binary main_arg3 main_v212 main_v213 (addi : (⟨S8192, .i32⟩ : BufTy).Contents (Elt F) → (⟨S8192, .i32⟩ : BufTy).Contents (Elt F) → (⟨S8192, .i32⟩ : BufTy).Contents (Elt F)),
    ternary main_v211 main_v213 main_arg3 main_v214 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v214 main_v215 (broadcastInDim S8192x1 ![0] bcast_S8192_S8192x1_0 : (⟨S8192, .i32⟩ : BufTy).Contents (Elt F) → (⟨S8192x1, .i32⟩ : BufTy).Contents (Elt F)),
    ternary main_v192 main_v215 main_v209 main_v216 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_3_sub : (lab1_3 (F := F)).Forall fun op => op.bufs ⊆ tcRefs τ sig := by
  unfold lab1_3
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_3_fresh : (lab1_3 (F := F)).Forall fun op => op.fresh = ∅ := by
  all_fresh lab1_3

/-- The references the line writes, in order. -/
abbrev lab1_3_W : List (Ref sig .tc) := [main_c_31, main_v166, main_v167, main_v168, main_v169, main_v170, main_v171, main_v172, main_v173, main_v174, main_v175, main_v176, main_v177, main_c_32, main_v178, main_v179, main_c_33, main_v180, main_v181, main_v182, main_v183, main_v184, main_cst_34, main_call6_v0, main_call6_v1, main_call6_v2, main_v185, main_c_35, main_v186, main_v187, main_c_36, main_v188, main_v189, main_v190, main_v191, main_v192, main_v193, main_v194, main_v195, main_v196, main_v197, main_v198, main_v199, main_v200, main_v201, main_c_37, main_v202, main_v203, main_c_38, main_v204, main_v205, main_v206, main_v207, main_v208, main_cst_39, main_call7_v0, main_call7_v1, main_call7_v2, main_v209, main_c_40, main_v210, main_v211, main_c_41, main_v212, main_v213, main_v214, main_v215, main_v216]

theorem lab1_3_writes : (lab1_3 (F := F)).map (fun op => op.writes)
    = (lab1_3_W).map fun y => ({Proc.devRef (τ := τ) .tc y} : Finset (DevRef τ sig)) := rfl

/-- A reference the line does not write keeps its contents. -/
theorem lab1_3_frame (V : Valuation τ sig (Elt F)) {r : Ref sig .tc} (hr : r ∉ lab1_3_W) :
    after (lab1_3 (F := F)) V (no_index (Proc.devRef .tc r)) = V (Proc.devRef .tc r) :=
  Cert.RefLib.after_frame lab1_3_writes V hr

/-- The operations of relation label 4 in layer 1: the label's edge mask, the two products, and the two masked messages added to the running sum. -/
def lab1_4 : List (HloOp τ sig (Elt F)) :=
  [
    nullary main_c_42 (constantI S_ 32 4#32),
    unary main_c_42 main_v217 (broadcastInDim S8192 ![] bcast_S_S8192 : (⟨S_, .i32⟩ : BufTy).Contents (Elt F) → (⟨S8192, .i32⟩ : BufTy).Contents (Elt F)),
    binary main_arg2 main_v217 main_v218 (cmpi .eq : (⟨S8192, .i32⟩ : BufTy).Contents (Elt F) → (⟨S8192, .i32⟩ : BufTy).Contents (Elt F) → (⟨S8192, .i1⟩ : BufTy).Contents (Elt F)),
    unary main_v218 main_v219 (broadcastInDim S8192x1 ![0] bcast_S8192_S8192x1_0 : (⟨S8192, .i1⟩ : BufTy).Contents (Elt F) → (⟨S8192x1, .i1⟩ : BufTy).Contents (Elt F)),
    unary main_v5 main_v220 ((extractStridedSlice S1x512x512 ![4, 0, 0] · slices_S40x512x512_S1x512x512_4_0_0) : (⟨S40x512x512, .f32⟩ : BufTy).Contents (Elt F) → (⟨S1x512x512, .f32⟩ : BufTy).Contents (Elt F)),
    reshape main_v220 main_v221 rfl shapeCasts_S1x512x512_S512x512,
    unary main_v221 main_v222 ((transpose S512x512 [1, 0] · transposes_S512x512_S512x512_1_0) : (⟨S512x512, .f32⟩ : BufTy).Contents (Elt F) → (⟨S512x512, .f32⟩ : BufTy).Contents (Elt F)),
    binary main_arg0 main_v222 main_v223 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v224 ((extractStridedSlice S1x512 ![4, 0] · slices_S40x512_S1x512_4_0) : (⟨S40x512, .f32⟩ : BufTy).Contents (Elt F) → (⟨S1x512, .f32⟩ : BufTy).Contents (Elt F)),
    reshape main_v224 main_v225 rfl shapeCasts_S1x512_S512,
    unary main_v225 main_v226 (broadcastInDim S1x512 ![1] bcast_S512_S1x512_1 : (⟨S512, .f32⟩ : BufTy).Contents (Elt F) → (⟨S1x512, .f32⟩ : BufTy).Contents (Elt F)),
    unary main_v226 main_v227 (broadcastInDim S8192x512 ![0, 1] bcast_S1x512_S8192x512_0_1 : (⟨S1x512, .f32⟩ : BufTy).Contents (Elt F) → (⟨S8192x512, .f32⟩ : BufTy).Contents (Elt F)),
    binary main_v223 main_v227 main_v228 (addf : (⟨S8192x512, .f32⟩ : BufTy).Contents (Elt F) → (⟨S8192x512, .f32⟩ : BufTy).Contents (Elt F) → (⟨S8192x512, .f32⟩ : BufTy).Contents (Elt F)),
    nullary main_c_43 (constantI S_ 32 0#32),
    unary main_c_43 main_v229 (broadcastInDim S8192 ![] bcast_S_S8192 : (⟨S_, .i32⟩ : BufTy).Contents (Elt F) → (⟨S8192, .i32⟩ : BufTy).Contents (Elt F)),
    binary main_arg3 main_v229 main_v230 (cmpi .slt : (⟨S8192, .i32⟩ : BufTy).Contents (Elt F) → (⟨S8192, .i32⟩ : BufTy).Contents (Elt F) → (⟨S8192, .i1⟩ : BufTy).Contents (Elt F)),
    nullary main_c_44 (constantI S_ 32 8192#32),
    unary main_c_44 main_v231 (broadcastInDim S8192 ![] bcast_S_S8192 : (⟨S_, .i32⟩ : BufTy).Contents (Elt F) → (⟨S8192, .i32⟩ : BufTy).Contents (Elt F)),
    binary main_arg3 main_v231 main_v232 (addi : (⟨S8192, .i32⟩ : BufTy).Contents (Elt F) → (⟨S8192, .i32⟩ : BufTy).Contents (Elt F) → (⟨S8192, .i32⟩ : BufTy).Contents (Elt F)),
    ternary main_v230 main_v232 main_arg3 main_v233 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v233 main_v234 (broadcastInDim S8192x1 ![0] bcast_S8192_S8192x1_0 : (⟨S8192, .i32⟩ : BufTy).Contents (Elt F) → (⟨S8192x1, .i32⟩ : BufTy).Contents (Elt F)),
    binary main_v228 main_v234 main_v235 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_45 (constant S_ .f32 0x00000000#32),
    TRef.unary (TRef.of (T := ⟨S_, .f32⟩) main_cst_45) (TRef.of (T := ⟨S_, .f32⟩) main_call8_v0) id,
    TRef.unary (TRef.of (T := ⟨S8192x1, .i1⟩) main_v219) (TRef.of (T := ⟨S8192x512, .i1⟩) main_call8_v1) (broadcastInDim S8192x512 ![0, 1] bcast_S8192x1_S8192x512_0_1),
    TRef.unary (TRef.of (T := ⟨S_, .f32⟩) main_call8_v0) (TRef.of (T := ⟨S8192x512, .f32⟩) main_call8_v2) (broadcastInDim S8192x512 ![] bcast_S_S8192x512),
    TRef.ternary (TRef.of (T := ⟨S8192x512, .i1⟩) main_call8_v1) (TRef.of (T := ⟨S8192x512, .f32⟩) main_v235) (TRef.of (T := ⟨S8192x512, .f32⟩) main_call8_v2) (TRef.of (T := ⟨S8192x512, .f32⟩) main_v236) select,
    nullary main_c_46 (constantI S_ 32 0#32),
    unary main_c_46 main_v237 (broadcastInDim S8192 ![] bcast_S_S8192 : (⟨S_, .i32⟩ : BufTy).Contents (Elt F) → (⟨S8192, .i32⟩ : BufTy).Contents (Elt F)),
    binary main_arg1 main_v237 main_v238 (cmpi .slt : (⟨S8192, .i32⟩ : BufTy).Contents (Elt F) → (⟨S8192, .i32⟩ : BufTy).Contents (Elt F) → (⟨S8192, .i1⟩ : BufTy).Contents (Elt F)),
    nullary main_c_47 (constantI S_ 32 8192#32),
    unary main_c_47 main_v239 (broadcastInDim S8192 ![] bcast_S_S8192 : (⟨S_, .i32⟩ : BufTy).Contents (Elt F) → (⟨S8192, .i32⟩ : BufTy).Contents (Elt F)),
    binary main_arg1 main_v239 main_v240 (addi : (⟨S8192, .i32⟩ : BufTy).Contents (Elt F) → (⟨S8192, .i32⟩ : BufTy).Contents (Elt F) → (⟨S8192, .i32⟩ : BufTy).Contents (Elt F)),
    ternary main_v238 main_v240 main_arg1 main_v241 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v241 main_v242 (broadcastInDim S8192x1 ![0] bcast_S8192_S8192x1_0 : (⟨S8192, .i32⟩ : BufTy).Contents (Elt F) → (⟨S8192x1, .i32⟩ : BufTy).Contents (Elt F)),
    ternary main_v216 main_v242 main_v236 main_v243 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v244 ((extractStridedSlice S1x512x512 ![24, 0, 0] · slices_S40x512x512_S1x512x512_24_0_0) : (⟨S40x512x512, .f32⟩ : BufTy).Contents (Elt F) → (⟨S1x512x512, .f32⟩ : BufTy).Contents (Elt F)),
    reshape main_v244 main_v245 rfl shapeCasts_S1x512x512_S512x512,
    unary main_v245 main_v246 ((transpose S512x512 [1, 0] · transposes_S512x512_S512x512_1_0) : (⟨S512x512, .f32⟩ : BufTy).Contents (Elt F) → (⟨S512x512, .f32⟩ : BufTy).Contents (Elt F)),
    binary main_arg0 main_v246 main_v247 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v248 ((extractStridedSlice S1x512 ![24, 0] · slices_S40x512_S1x512_24_0) : (⟨S40x512, .f32⟩ : BufTy).Contents (Elt F) → (⟨S1x512, .f32⟩ : BufTy).Contents (Elt F)),
    reshape main_v248 main_v249 rfl shapeCasts_S1x512_S512,
    unary main_v249 main_v250 (broadcastInDim S1x512 ![1] bcast_S512_S1x512_1 : (⟨S512, .f32⟩ : BufTy).Contents (Elt F) → (⟨S1x512, .f32⟩ : BufTy).Contents (Elt F)),
    unary main_v250 main_v251 (broadcastInDim S8192x512 ![0, 1] bcast_S1x512_S8192x512_0_1 : (⟨S1x512, .f32⟩ : BufTy).Contents (Elt F) → (⟨S8192x512, .f32⟩ : BufTy).Contents (Elt F)),
    binary main_v247 main_v251 main_v252 (addf : (⟨S8192x512, .f32⟩ : BufTy).Contents (Elt F) → (⟨S8192x512, .f32⟩ : BufTy).Contents (Elt F) → (⟨S8192x512, .f32⟩ : BufTy).Contents (Elt F)),
    nullary main_c_48 (constantI S_ 32 0#32),
    unary main_c_48 main_v253 (broadcastInDim S8192 ![] bcast_S_S8192 : (⟨S_, .i32⟩ : BufTy).Contents (Elt F) → (⟨S8192, .i32⟩ : BufTy).Contents (Elt F)),
    binary main_arg1 main_v253 main_v254 (cmpi .slt : (⟨S8192, .i32⟩ : BufTy).Contents (Elt F) → (⟨S8192, .i32⟩ : BufTy).Contents (Elt F) → (⟨S8192, .i1⟩ : BufTy).Contents (Elt F)),
    nullary main_c_49 (constantI S_ 32 8192#32),
    unary main_c_49 main_v255 (broadcastInDim S8192 ![] bcast_S_S8192 : (⟨S_, .i32⟩ : BufTy).Contents (Elt F) → (⟨S8192, .i32⟩ : BufTy).Contents (Elt F)),
    binary main_arg1 main_v255 main_v256 (addi : (⟨S8192, .i32⟩ : BufTy).Contents (Elt F) → (⟨S8192, .i32⟩ : BufTy).Contents (Elt F) → (⟨S8192, .i32⟩ : BufTy).Contents (Elt F)),
    ternary main_v254 main_v256 main_arg1 main_v257 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v257 main_v258 (broadcastInDim S8192x1 ![0] bcast_S8192_S8192x1_0 : (⟨S8192, .i32⟩ : BufTy).Contents (Elt F) → (⟨S8192x1, .i32⟩ : BufTy).Contents (Elt F)),
    binary main_v252 main_v258 main_v259 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_50 (constant S_ .f32 0x00000000#32),
    TRef.unary (TRef.of (T := ⟨S_, .f32⟩) main_cst_50) (TRef.of (T := ⟨S_, .f32⟩) main_call9_v0) id,
    TRef.unary (TRef.of (T := ⟨S8192x1, .i1⟩) main_v219) (TRef.of (T := ⟨S8192x512, .i1⟩) main_call9_v1) (broadcastInDim S8192x512 ![0, 1] bcast_S8192x1_S8192x512_0_1),
    TRef.unary (TRef.of (T := ⟨S_, .f32⟩) main_call9_v0) (TRef.of (T := ⟨S8192x512, .f32⟩) main_call9_v2) (broadcastInDim S8192x512 ![] bcast_S_S8192x512),
    TRef.ternary (TRef.of (T := ⟨S8192x512, .i1⟩) main_call9_v1) (TRef.of (T := ⟨S8192x512, .f32⟩) main_v259) (TRef.of (T := ⟨S8192x512, .f32⟩) main_call9_v2) (TRef.of (T := ⟨S8192x512, .f32⟩) main_v260) select,
    nullary main_c_51 (constantI S_ 32 0#32),
    unary main_c_51 main_v261 (broadcastInDim S8192 ![] bcast_S_S8192 : (⟨S_, .i32⟩ : BufTy).Contents (Elt F) → (⟨S8192, .i32⟩ : BufTy).Contents (Elt F)),
    binary main_arg3 main_v261 main_v262 (cmpi .slt : (⟨S8192, .i32⟩ : BufTy).Contents (Elt F) → (⟨S8192, .i32⟩ : BufTy).Contents (Elt F) → (⟨S8192, .i1⟩ : BufTy).Contents (Elt F)),
    nullary main_c_52 (constantI S_ 32 8192#32),
    unary main_c_52 main_v263 (broadcastInDim S8192 ![] bcast_S_S8192 : (⟨S_, .i32⟩ : BufTy).Contents (Elt F) → (⟨S8192, .i32⟩ : BufTy).Contents (Elt F)),
    binary main_arg3 main_v263 main_v264 (addi : (⟨S8192, .i32⟩ : BufTy).Contents (Elt F) → (⟨S8192, .i32⟩ : BufTy).Contents (Elt F) → (⟨S8192, .i32⟩ : BufTy).Contents (Elt F)),
    ternary main_v262 main_v264 main_arg3 main_v265 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v265 main_v266 (broadcastInDim S8192x1 ![0] bcast_S8192_S8192x1_0 : (⟨S8192, .i32⟩ : BufTy).Contents (Elt F) → (⟨S8192x1, .i32⟩ : BufTy).Contents (Elt F)),
    ternary main_v243 main_v266 main_v260 main_v267 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_4_sub : (lab1_4 (F := F)).Forall fun op => op.bufs ⊆ tcRefs τ sig := by
  unfold lab1_4
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_4_fresh : (lab1_4 (F := F)).Forall fun op => op.fresh = ∅ := by
  all_fresh lab1_4

/-- The references the line writes, in order. -/
abbrev lab1_4_W : List (Ref sig .tc) := [main_c_42, main_v217, main_v218, main_v219, main_v220, main_v221, main_v222, main_v223, main_v224, main_v225, main_v226, main_v227, main_v228, main_c_43, main_v229, main_v230, main_c_44, main_v231, main_v232, main_v233, main_v234, main_v235, main_cst_45, main_call8_v0, main_call8_v1, main_call8_v2, main_v236, main_c_46, main_v237, main_v238, main_c_47, main_v239, main_v240, main_v241, main_v242, main_v243, main_v244, main_v245, main_v246, main_v247, main_v248, main_v249, main_v250, main_v251, main_v252, main_c_48, main_v253, main_v254, main_c_49, main_v255, main_v256, main_v257, main_v258, main_v259, main_cst_50, main_call9_v0, main_call9_v1, main_call9_v2, main_v260, main_c_51, main_v261, main_v262, main_c_52, main_v263, main_v264, main_v265, main_v266, main_v267]

theorem lab1_4_writes : (lab1_4 (F := F)).map (fun op => op.writes)
    = (lab1_4_W).map fun y => ({Proc.devRef (τ := τ) .tc y} : Finset (DevRef τ sig)) := rfl

/-- A reference the line does not write keeps its contents. -/
theorem lab1_4_frame (V : Valuation τ sig (Elt F)) {r : Ref sig .tc} (hr : r ∉ lab1_4_W) :
    after (lab1_4 (F := F)) V (no_index (Proc.devRef .tc r)) = V (Proc.devRef .tc r) :=
  Cert.RefLib.after_frame lab1_4_writes V hr

/-- The operations of relation label 5 in layer 1: the label's edge mask, the two products, and the two masked messages added to the running sum. -/
def lab1_5 : List (HloOp τ sig (Elt F)) :=
  [
    nullary main_c_53 (constantI S_ 32 5#32),
    unary main_c_53 main_v268 (broadcastInDim S8192 ![] bcast_S_S8192 : (⟨S_, .i32⟩ : BufTy).Contents (Elt F) → (⟨S8192, .i32⟩ : BufTy).Contents (Elt F)),
    binary main_arg2 main_v268 main_v269 (cmpi .eq : (⟨S8192, .i32⟩ : BufTy).Contents (Elt F) → (⟨S8192, .i32⟩ : BufTy).Contents (Elt F) → (⟨S8192, .i1⟩ : BufTy).Contents (Elt F)),
    unary main_v269 main_v270 (broadcastInDim S8192x1 ![0] bcast_S8192_S8192x1_0 : (⟨S8192, .i1⟩ : BufTy).Contents (Elt F) → (⟨S8192x1, .i1⟩ : BufTy).Contents (Elt F)),
    unary main_v5 main_v271 ((extractStridedSlice S1x512x512 ![5, 0, 0] · slices_S40x512x512_S1x512x512_5_0_0) : (⟨S40x512x512, .f32⟩ : BufTy).Contents (Elt F) → (⟨S1x512x512, .f32⟩ : BufTy).Contents (Elt F)),
    reshape main_v271 main_v272 rfl shapeCasts_S1x512x512_S512x512,
    unary main_v272 main_v273 ((transpose S512x512 [1, 0] · transposes_S512x512_S512x512_1_0) : (⟨S512x512, .f32⟩ : BufTy).Contents (Elt F) → (⟨S512x512, .f32⟩ : BufTy).Contents (Elt F)),
    binary main_arg0 main_v273 main_v274 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v275 ((extractStridedSlice S1x512 ![5, 0] · slices_S40x512_S1x512_5_0) : (⟨S40x512, .f32⟩ : BufTy).Contents (Elt F) → (⟨S1x512, .f32⟩ : BufTy).Contents (Elt F)),
    reshape main_v275 main_v276 rfl shapeCasts_S1x512_S512,
    unary main_v276 main_v277 (broadcastInDim S1x512 ![1] bcast_S512_S1x512_1 : (⟨S512, .f32⟩ : BufTy).Contents (Elt F) → (⟨S1x512, .f32⟩ : BufTy).Contents (Elt F)),
    unary main_v277 main_v278 (broadcastInDim S8192x512 ![0, 1] bcast_S1x512_S8192x512_0_1 : (⟨S1x512, .f32⟩ : BufTy).Contents (Elt F) → (⟨S8192x512, .f32⟩ : BufTy).Contents (Elt F)),
    binary main_v274 main_v278 main_v279 (addf : (⟨S8192x512, .f32⟩ : BufTy).Contents (Elt F) → (⟨S8192x512, .f32⟩ : BufTy).Contents (Elt F) → (⟨S8192x512, .f32⟩ : BufTy).Contents (Elt F)),
    nullary main_c_54 (constantI S_ 32 0#32),
    unary main_c_54 main_v280 (broadcastInDim S8192 ![] bcast_S_S8192 : (⟨S_, .i32⟩ : BufTy).Contents (Elt F) → (⟨S8192, .i32⟩ : BufTy).Contents (Elt F)),
    binary main_arg3 main_v280 main_v281 (cmpi .slt : (⟨S8192, .i32⟩ : BufTy).Contents (Elt F) → (⟨S8192, .i32⟩ : BufTy).Contents (Elt F) → (⟨S8192, .i1⟩ : BufTy).Contents (Elt F)),
    nullary main_c_55 (constantI S_ 32 8192#32),
    unary main_c_55 main_v282 (broadcastInDim S8192 ![] bcast_S_S8192 : (⟨S_, .i32⟩ : BufTy).Contents (Elt F) → (⟨S8192, .i32⟩ : BufTy).Contents (Elt F)),
    binary main_arg3 main_v282 main_v283 (addi : (⟨S8192, .i32⟩ : BufTy).Contents (Elt F) → (⟨S8192, .i32⟩ : BufTy).Contents (Elt F) → (⟨S8192, .i32⟩ : BufTy).Contents (Elt F)),
    ternary main_v281 main_v283 main_arg3 main_v284 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v284 main_v285 (broadcastInDim S8192x1 ![0] bcast_S8192_S8192x1_0 : (⟨S8192, .i32⟩ : BufTy).Contents (Elt F) → (⟨S8192x1, .i32⟩ : BufTy).Contents (Elt F)),
    binary main_v279 main_v285 main_v286 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_56 (constant S_ .f32 0x00000000#32),
    TRef.unary (TRef.of (T := ⟨S_, .f32⟩) main_cst_56) (TRef.of (T := ⟨S_, .f32⟩) main_call10_v0) id,
    TRef.unary (TRef.of (T := ⟨S8192x1, .i1⟩) main_v270) (TRef.of (T := ⟨S8192x512, .i1⟩) main_call10_v1) (broadcastInDim S8192x512 ![0, 1] bcast_S8192x1_S8192x512_0_1),
    TRef.unary (TRef.of (T := ⟨S_, .f32⟩) main_call10_v0) (TRef.of (T := ⟨S8192x512, .f32⟩) main_call10_v2) (broadcastInDim S8192x512 ![] bcast_S_S8192x512),
    TRef.ternary (TRef.of (T := ⟨S8192x512, .i1⟩) main_call10_v1) (TRef.of (T := ⟨S8192x512, .f32⟩) main_v286) (TRef.of (T := ⟨S8192x512, .f32⟩) main_call10_v2) (TRef.of (T := ⟨S8192x512, .f32⟩) main_v287) select,
    nullary main_c_57 (constantI S_ 32 0#32),
    unary main_c_57 main_v288 (broadcastInDim S8192 ![] bcast_S_S8192 : (⟨S_, .i32⟩ : BufTy).Contents (Elt F) → (⟨S8192, .i32⟩ : BufTy).Contents (Elt F)),
    binary main_arg1 main_v288 main_v289 (cmpi .slt : (⟨S8192, .i32⟩ : BufTy).Contents (Elt F) → (⟨S8192, .i32⟩ : BufTy).Contents (Elt F) → (⟨S8192, .i1⟩ : BufTy).Contents (Elt F)),
    nullary main_c_58 (constantI S_ 32 8192#32),
    unary main_c_58 main_v290 (broadcastInDim S8192 ![] bcast_S_S8192 : (⟨S_, .i32⟩ : BufTy).Contents (Elt F) → (⟨S8192, .i32⟩ : BufTy).Contents (Elt F)),
    binary main_arg1 main_v290 main_v291 (addi : (⟨S8192, .i32⟩ : BufTy).Contents (Elt F) → (⟨S8192, .i32⟩ : BufTy).Contents (Elt F) → (⟨S8192, .i32⟩ : BufTy).Contents (Elt F)),
    ternary main_v289 main_v291 main_arg1 main_v292 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v292 main_v293 (broadcastInDim S8192x1 ![0] bcast_S8192_S8192x1_0 : (⟨S8192, .i32⟩ : BufTy).Contents (Elt F) → (⟨S8192x1, .i32⟩ : BufTy).Contents (Elt F)),
    ternary main_v267 main_v293 main_v287 main_v294 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v295 ((extractStridedSlice S1x512x512 ![25, 0, 0] · slices_S40x512x512_S1x512x512_25_0_0) : (⟨S40x512x512, .f32⟩ : BufTy).Contents (Elt F) → (⟨S1x512x512, .f32⟩ : BufTy).Contents (Elt F)),
    reshape main_v295 main_v296 rfl shapeCasts_S1x512x512_S512x512,
    unary main_v296 main_v297 ((transpose S512x512 [1, 0] · transposes_S512x512_S512x512_1_0) : (⟨S512x512, .f32⟩ : BufTy).Contents (Elt F) → (⟨S512x512, .f32⟩ : BufTy).Contents (Elt F)),
    binary main_arg0 main_v297 main_v298 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v299 ((extractStridedSlice S1x512 ![25, 0] · slices_S40x512_S1x512_25_0) : (⟨S40x512, .f32⟩ : BufTy).Contents (Elt F) → (⟨S1x512, .f32⟩ : BufTy).Contents (Elt F)),
    reshape main_v299 main_v300 rfl shapeCasts_S1x512_S512,
    unary main_v300 main_v301 (broadcastInDim S1x512 ![1] bcast_S512_S1x512_1 : (⟨S512, .f32⟩ : BufTy).Contents (Elt F) → (⟨S1x512, .f32⟩ : BufTy).Contents (Elt F)),
    unary main_v301 main_v302 (broadcastInDim S8192x512 ![0, 1] bcast_S1x512_S8192x512_0_1 : (⟨S1x512, .f32⟩ : BufTy).Contents (Elt F) → (⟨S8192x512, .f32⟩ : BufTy).Contents (Elt F)),
    binary main_v298 main_v302 main_v303 (addf : (⟨S8192x512, .f32⟩ : BufTy).Contents (Elt F) → (⟨S8192x512, .f32⟩ : BufTy).Contents (Elt F) → (⟨S8192x512, .f32⟩ : BufTy).Contents (Elt F)),
    nullary main_c_59 (constantI S_ 32 0#32),
    unary main_c_59 main_v304 (broadcastInDim S8192 ![] bcast_S_S8192 : (⟨S_, .i32⟩ : BufTy).Contents (Elt F) → (⟨S8192, .i32⟩ : BufTy).Contents (Elt F)),
    binary main_arg1 main_v304 main_v305 (cmpi .slt : (⟨S8192, .i32⟩ : BufTy).Contents (Elt F) → (⟨S8192, .i32⟩ : BufTy).Contents (Elt F) → (⟨S8192, .i1⟩ : BufTy).Contents (Elt F)),
    nullary main_c_60 (constantI S_ 32 8192#32),
    unary main_c_60 main_v306 (broadcastInDim S8192 ![] bcast_S_S8192 : (⟨S_, .i32⟩ : BufTy).Contents (Elt F) → (⟨S8192, .i32⟩ : BufTy).Contents (Elt F)),
    binary main_arg1 main_v306 main_v307 (addi : (⟨S8192, .i32⟩ : BufTy).Contents (Elt F) → (⟨S8192, .i32⟩ : BufTy).Contents (Elt F) → (⟨S8192, .i32⟩ : BufTy).Contents (Elt F)),
    ternary main_v305 main_v307 main_arg1 main_v308 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v308 main_v309 (broadcastInDim S8192x1 ![0] bcast_S8192_S8192x1_0 : (⟨S8192, .i32⟩ : BufTy).Contents (Elt F) → (⟨S8192x1, .i32⟩ : BufTy).Contents (Elt F)),
    binary main_v303 main_v309 main_v310 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_61 (constant S_ .f32 0x00000000#32),
    TRef.unary (TRef.of (T := ⟨S_, .f32⟩) main_cst_61) (TRef.of (T := ⟨S_, .f32⟩) main_call11_v0) id,
    TRef.unary (TRef.of (T := ⟨S8192x1, .i1⟩) main_v270) (TRef.of (T := ⟨S8192x512, .i1⟩) main_call11_v1) (broadcastInDim S8192x512 ![0, 1] bcast_S8192x1_S8192x512_0_1),
    TRef.unary (TRef.of (T := ⟨S_, .f32⟩) main_call11_v0) (TRef.of (T := ⟨S8192x512, .f32⟩) main_call11_v2) (broadcastInDim S8192x512 ![] bcast_S_S8192x512),
    TRef.ternary (TRef.of (T := ⟨S8192x512, .i1⟩) main_call11_v1) (TRef.of (T := ⟨S8192x512, .f32⟩) main_v310) (TRef.of (T := ⟨S8192x512, .f32⟩) main_call11_v2) (TRef.of (T := ⟨S8192x512, .f32⟩) main_v311) select,
    nullary main_c_62 (constantI S_ 32 0#32),
    unary main_c_62 main_v312 (broadcastInDim S8192 ![] bcast_S_S8192 : (⟨S_, .i32⟩ : BufTy).Contents (Elt F) → (⟨S8192, .i32⟩ : BufTy).Contents (Elt F)),
    binary main_arg3 main_v312 main_v313 (cmpi .slt : (⟨S8192, .i32⟩ : BufTy).Contents (Elt F) → (⟨S8192, .i32⟩ : BufTy).Contents (Elt F) → (⟨S8192, .i1⟩ : BufTy).Contents (Elt F)),
    nullary main_c_63 (constantI S_ 32 8192#32),
    unary main_c_63 main_v314 (broadcastInDim S8192 ![] bcast_S_S8192 : (⟨S_, .i32⟩ : BufTy).Contents (Elt F) → (⟨S8192, .i32⟩ : BufTy).Contents (Elt F)),
    binary main_arg3 main_v314 main_v315 (addi : (⟨S8192, .i32⟩ : BufTy).Contents (Elt F) → (⟨S8192, .i32⟩ : BufTy).Contents (Elt F) → (⟨S8192, .i32⟩ : BufTy).Contents (Elt F)),
    ternary main_v313 main_v315 main_arg3 main_v316 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v316 main_v317 (broadcastInDim S8192x1 ![0] bcast_S8192_S8192x1_0 : (⟨S8192, .i32⟩ : BufTy).Contents (Elt F) → (⟨S8192x1, .i32⟩ : BufTy).Contents (Elt F)),
    ternary main_v294 main_v317 main_v311 main_v318 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_5_sub : (lab1_5 (F := F)).Forall fun op => op.bufs ⊆ tcRefs τ sig := by
  unfold lab1_5
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_5_fresh : (lab1_5 (F := F)).Forall fun op => op.fresh = ∅ := by
  all_fresh lab1_5

/-- The references the line writes, in order. -/
abbrev lab1_5_W : List (Ref sig .tc) := [main_c_53, main_v268, main_v269, main_v270, main_v271, main_v272, main_v273, main_v274, main_v275, main_v276, main_v277, main_v278, main_v279, main_c_54, main_v280, main_v281, main_c_55, main_v282, main_v283, main_v284, main_v285, main_v286, main_cst_56, main_call10_v0, main_call10_v1, main_call10_v2, main_v287, main_c_57, main_v288, main_v289, main_c_58, main_v290, main_v291, main_v292, main_v293, main_v294, main_v295, main_v296, main_v297, main_v298, main_v299, main_v300, main_v301, main_v302, main_v303, main_c_59, main_v304, main_v305, main_c_60, main_v306, main_v307, main_v308, main_v309, main_v310, main_cst_61, main_call11_v0, main_call11_v1, main_call11_v2, main_v311, main_c_62, main_v312, main_v313, main_c_63, main_v314, main_v315, main_v316, main_v317, main_v318]

theorem lab1_5_writes : (lab1_5 (F := F)).map (fun op => op.writes)
    = (lab1_5_W).map fun y => ({Proc.devRef (τ := τ) .tc y} : Finset (DevRef τ sig)) := rfl

/-- A reference the line does not write keeps its contents. -/
theorem lab1_5_frame (V : Valuation τ sig (Elt F)) {r : Ref sig .tc} (hr : r ∉ lab1_5_W) :
    after (lab1_5 (F := F)) V (no_index (Proc.devRef .tc r)) = V (Proc.devRef .tc r) :=
  Cert.RefLib.after_frame lab1_5_writes V hr

/-- The operations of relation label 6 in layer 1: the label's edge mask, the two products, and the two masked messages added to the running sum. -/
def lab1_6 : List (HloOp τ sig (Elt F)) :=
  [
    nullary main_c_64 (constantI S_ 32 6#32),
    unary main_c_64 main_v319 (broadcastInDim S8192 ![] bcast_S_S8192 : (⟨S_, .i32⟩ : BufTy).Contents (Elt F) → (⟨S8192, .i32⟩ : BufTy).Contents (Elt F)),
    binary main_arg2 main_v319 main_v320 (cmpi .eq : (⟨S8192, .i32⟩ : BufTy).Contents (Elt F) → (⟨S8192, .i32⟩ : BufTy).Contents (Elt F) → (⟨S8192, .i1⟩ : BufTy).Contents (Elt F)),
    unary main_v320 main_v321 (broadcastInDim S8192x1 ![0] bcast_S8192_S8192x1_0 : (⟨S8192, .i1⟩ : BufTy).Contents (Elt F) → (⟨S8192x1, .i1⟩ : BufTy).Contents (Elt F)),
    unary main_v5 main_v322 ((extractStridedSlice S1x512x512 ![6, 0, 0] · slices_S40x512x512_S1x512x512_6_0_0) : (⟨S40x512x512, .f32⟩ : BufTy).Contents (Elt F) → (⟨S1x512x512, .f32⟩ : BufTy).Contents (Elt F)),
    reshape main_v322 main_v323 rfl shapeCasts_S1x512x512_S512x512,
    unary main_v323 main_v324 ((transpose S512x512 [1, 0] · transposes_S512x512_S512x512_1_0) : (⟨S512x512, .f32⟩ : BufTy).Contents (Elt F) → (⟨S512x512, .f32⟩ : BufTy).Contents (Elt F)),
    binary main_arg0 main_v324 main_v325 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v326 ((extractStridedSlice S1x512 ![6, 0] · slices_S40x512_S1x512_6_0) : (⟨S40x512, .f32⟩ : BufTy).Contents (Elt F) → (⟨S1x512, .f32⟩ : BufTy).Contents (Elt F)),
    reshape main_v326 main_v327 rfl shapeCasts_S1x512_S512,
    unary main_v327 main_v328 (broadcastInDim S1x512 ![1] bcast_S512_S1x512_1 : (⟨S512, .f32⟩ : BufTy).Contents (Elt F) → (⟨S1x512, .f32⟩ : BufTy).Contents (Elt F)),
    unary main_v328 main_v329 (broadcastInDim S8192x512 ![0, 1] bcast_S1x512_S8192x512_0_1 : (⟨S1x512, .f32⟩ : BufTy).Contents (Elt F) → (⟨S8192x512, .f32⟩ : BufTy).Contents (Elt F)),
    binary main_v325 main_v329 main_v330 (addf : (⟨S8192x512, .f32⟩ : BufTy).Contents (Elt F) → (⟨S8192x512, .f32⟩ : BufTy).Contents (Elt F) → (⟨S8192x512, .f32⟩ : BufTy).Contents (Elt F)),
    nullary main_c_65 (constantI S_ 32 0#32),
    unary main_c_65 main_v331 (broadcastInDim S8192 ![] bcast_S_S8192 : (⟨S_, .i32⟩ : BufTy).Contents (Elt F) → (⟨S8192, .i32⟩ : BufTy).Contents (Elt F)),
    binary main_arg3 main_v331 main_v332 (cmpi .slt : (⟨S8192, .i32⟩ : BufTy).Contents (Elt F) → (⟨S8192, .i32⟩ : BufTy).Contents (Elt F) → (⟨S8192, .i1⟩ : BufTy).Contents (Elt F)),
    nullary main_c_66 (constantI S_ 32 8192#32),
    unary main_c_66 main_v333 (broadcastInDim S8192 ![] bcast_S_S8192 : (⟨S_, .i32⟩ : BufTy).Contents (Elt F) → (⟨S8192, .i32⟩ : BufTy).Contents (Elt F)),
    binary main_arg3 main_v333 main_v334 (addi : (⟨S8192, .i32⟩ : BufTy).Contents (Elt F) → (⟨S8192, .i32⟩ : BufTy).Contents (Elt F) → (⟨S8192, .i32⟩ : BufTy).Contents (Elt F)),
    ternary main_v332 main_v334 main_arg3 main_v335 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v335 main_v336 (broadcastInDim S8192x1 ![0] bcast_S8192_S8192x1_0 : (⟨S8192, .i32⟩ : BufTy).Contents (Elt F) → (⟨S8192x1, .i32⟩ : BufTy).Contents (Elt F)),
    binary main_v330 main_v336 main_v337 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_67 (constant S_ .f32 0x00000000#32),
    TRef.unary (TRef.of (T := ⟨S_, .f32⟩) main_cst_67) (TRef.of (T := ⟨S_, .f32⟩) main_call12_v0) id,
    TRef.unary (TRef.of (T := ⟨S8192x1, .i1⟩) main_v321) (TRef.of (T := ⟨S8192x512, .i1⟩) main_call12_v1) (broadcastInDim S8192x512 ![0, 1] bcast_S8192x1_S8192x512_0_1),
    TRef.unary (TRef.of (T := ⟨S_, .f32⟩) main_call12_v0) (TRef.of (T := ⟨S8192x512, .f32⟩) main_call12_v2) (broadcastInDim S8192x512 ![] bcast_S_S8192x512),
    TRef.ternary (TRef.of (T := ⟨S8192x512, .i1⟩) main_call12_v1) (TRef.of (T := ⟨S8192x512, .f32⟩) main_v337) (TRef.of (T := ⟨S8192x512, .f32⟩) main_call12_v2) (TRef.of (T := ⟨S8192x512, .f32⟩) main_v338) select,
    nullary main_c_68 (constantI S_ 32 0#32),
    unary main_c_68 main_v339 (broadcastInDim S8192 ![] bcast_S_S8192 : (⟨S_, .i32⟩ : BufTy).Contents (Elt F) → (⟨S8192, .i32⟩ : BufTy).Contents (Elt F)),
    binary main_arg1 main_v339 main_v340 (cmpi .slt : (⟨S8192, .i32⟩ : BufTy).Contents (Elt F) → (⟨S8192, .i32⟩ : BufTy).Contents (Elt F) → (⟨S8192, .i1⟩ : BufTy).Contents (Elt F)),
    nullary main_c_69 (constantI S_ 32 8192#32),
    unary main_c_69 main_v341 (broadcastInDim S8192 ![] bcast_S_S8192 : (⟨S_, .i32⟩ : BufTy).Contents (Elt F) → (⟨S8192, .i32⟩ : BufTy).Contents (Elt F)),
    binary main_arg1 main_v341 main_v342 (addi : (⟨S8192, .i32⟩ : BufTy).Contents (Elt F) → (⟨S8192, .i32⟩ : BufTy).Contents (Elt F) → (⟨S8192, .i32⟩ : BufTy).Contents (Elt F)),
    ternary main_v340 main_v342 main_arg1 main_v343 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v343 main_v344 (broadcastInDim S8192x1 ![0] bcast_S8192_S8192x1_0 : (⟨S8192, .i32⟩ : BufTy).Contents (Elt F) → (⟨S8192x1, .i32⟩ : BufTy).Contents (Elt F)),
    ternary main_v318 main_v344 main_v338 main_v345 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v346 ((extractStridedSlice S1x512x512 ![26, 0, 0] · slices_S40x512x512_S1x512x512_26_0_0) : (⟨S40x512x512, .f32⟩ : BufTy).Contents (Elt F) → (⟨S1x512x512, .f32⟩ : BufTy).Contents (Elt F)),
    reshape main_v346 main_v347 rfl shapeCasts_S1x512x512_S512x512,
    unary main_v347 main_v348 ((transpose S512x512 [1, 0] · transposes_S512x512_S512x512_1_0) : (⟨S512x512, .f32⟩ : BufTy).Contents (Elt F) → (⟨S512x512, .f32⟩ : BufTy).Contents (Elt F)),
    binary main_arg0 main_v348 main_v349 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v350 ((extractStridedSlice S1x512 ![26, 0] · slices_S40x512_S1x512_26_0) : (⟨S40x512, .f32⟩ : BufTy).Contents (Elt F) → (⟨S1x512, .f32⟩ : BufTy).Contents (Elt F)),
    reshape main_v350 main_v351 rfl shapeCasts_S1x512_S512,
    unary main_v351 main_v352 (broadcastInDim S1x512 ![1] bcast_S512_S1x512_1 : (⟨S512, .f32⟩ : BufTy).Contents (Elt F) → (⟨S1x512, .f32⟩ : BufTy).Contents (Elt F)),
    unary main_v352 main_v353 (broadcastInDim S8192x512 ![0, 1] bcast_S1x512_S8192x512_0_1 : (⟨S1x512, .f32⟩ : BufTy).Contents (Elt F) → (⟨S8192x512, .f32⟩ : BufTy).Contents (Elt F)),
    binary main_v349 main_v353 main_v354 (addf : (⟨S8192x512, .f32⟩ : BufTy).Contents (Elt F) → (⟨S8192x512, .f32⟩ : BufTy).Contents (Elt F) → (⟨S8192x512, .f32⟩ : BufTy).Contents (Elt F)),
    nullary main_c_70 (constantI S_ 32 0#32),
    unary main_c_70 main_v355 (broadcastInDim S8192 ![] bcast_S_S8192 : (⟨S_, .i32⟩ : BufTy).Contents (Elt F) → (⟨S8192, .i32⟩ : BufTy).Contents (Elt F)),
    binary main_arg1 main_v355 main_v356 (cmpi .slt : (⟨S8192, .i32⟩ : BufTy).Contents (Elt F) → (⟨S8192, .i32⟩ : BufTy).Contents (Elt F) → (⟨S8192, .i1⟩ : BufTy).Contents (Elt F)),
    nullary main_c_71 (constantI S_ 32 8192#32),
    unary main_c_71 main_v357 (broadcastInDim S8192 ![] bcast_S_S8192 : (⟨S_, .i32⟩ : BufTy).Contents (Elt F) → (⟨S8192, .i32⟩ : BufTy).Contents (Elt F)),
    binary main_arg1 main_v357 main_v358 (addi : (⟨S8192, .i32⟩ : BufTy).Contents (Elt F) → (⟨S8192, .i32⟩ : BufTy).Contents (Elt F) → (⟨S8192, .i32⟩ : BufTy).Contents (Elt F)),
    ternary main_v356 main_v358 main_arg1 main_v359 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v359 main_v360 (broadcastInDim S8192x1 ![0] bcast_S8192_S8192x1_0 : (⟨S8192, .i32⟩ : BufTy).Contents (Elt F) → (⟨S8192x1, .i32⟩ : BufTy).Contents (Elt F)),
    binary main_v354 main_v360 main_v361 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_72 (constant S_ .f32 0x00000000#32),
    TRef.unary (TRef.of (T := ⟨S_, .f32⟩) main_cst_72) (TRef.of (T := ⟨S_, .f32⟩) main_call13_v0) id,
    TRef.unary (TRef.of (T := ⟨S8192x1, .i1⟩) main_v321) (TRef.of (T := ⟨S8192x512, .i1⟩) main_call13_v1) (broadcastInDim S8192x512 ![0, 1] bcast_S8192x1_S8192x512_0_1),
    TRef.unary (TRef.of (T := ⟨S_, .f32⟩) main_call13_v0) (TRef.of (T := ⟨S8192x512, .f32⟩) main_call13_v2) (broadcastInDim S8192x512 ![] bcast_S_S8192x512),
    TRef.ternary (TRef.of (T := ⟨S8192x512, .i1⟩) main_call13_v1) (TRef.of (T := ⟨S8192x512, .f32⟩) main_v361) (TRef.of (T := ⟨S8192x512, .f32⟩) main_call13_v2) (TRef.of (T := ⟨S8192x512, .f32⟩) main_v362) select,
    nullary main_c_73 (constantI S_ 32 0#32),
    unary main_c_73 main_v363 (broadcastInDim S8192 ![] bcast_S_S8192 : (⟨S_, .i32⟩ : BufTy).Contents (Elt F) → (⟨S8192, .i32⟩ : BufTy).Contents (Elt F)),
    binary main_arg3 main_v363 main_v364 (cmpi .slt : (⟨S8192, .i32⟩ : BufTy).Contents (Elt F) → (⟨S8192, .i32⟩ : BufTy).Contents (Elt F) → (⟨S8192, .i1⟩ : BufTy).Contents (Elt F)),
    nullary main_c_74 (constantI S_ 32 8192#32),
    unary main_c_74 main_v365 (broadcastInDim S8192 ![] bcast_S_S8192 : (⟨S_, .i32⟩ : BufTy).Contents (Elt F) → (⟨S8192, .i32⟩ : BufTy).Contents (Elt F)),
    binary main_arg3 main_v365 main_v366 (addi : (⟨S8192, .i32⟩ : BufTy).Contents (Elt F) → (⟨S8192, .i32⟩ : BufTy).Contents (Elt F) → (⟨S8192, .i32⟩ : BufTy).Contents (Elt F)),
    ternary main_v364 main_v366 main_arg3 main_v367 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v367 main_v368 (broadcastInDim S8192x1 ![0] bcast_S8192_S8192x1_0 : (⟨S8192, .i32⟩ : BufTy).Contents (Elt F) → (⟨S8192x1, .i32⟩ : BufTy).Contents (Elt F)),
    ternary main_v345 main_v368 main_v362 main_v369 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_6_sub : (lab1_6 (F := F)).Forall fun op => op.bufs ⊆ tcRefs τ sig := by
  unfold lab1_6
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_6_fresh : (lab1_6 (F := F)).Forall fun op => op.fresh = ∅ := by
  all_fresh lab1_6

/-- The references the line writes, in order. -/
abbrev lab1_6_W : List (Ref sig .tc) := [main_c_64, main_v319, main_v320, main_v321, main_v322, main_v323, main_v324, main_v325, main_v326, main_v327, main_v328, main_v329, main_v330, main_c_65, main_v331, main_v332, main_c_66, main_v333, main_v334, main_v335, main_v336, main_v337, main_cst_67, main_call12_v0, main_call12_v1, main_call12_v2, main_v338, main_c_68, main_v339, main_v340, main_c_69, main_v341, main_v342, main_v343, main_v344, main_v345, main_v346, main_v347, main_v348, main_v349, main_v350, main_v351, main_v352, main_v353, main_v354, main_c_70, main_v355, main_v356, main_c_71, main_v357, main_v358, main_v359, main_v360, main_v361, main_cst_72, main_call13_v0, main_call13_v1, main_call13_v2, main_v362, main_c_73, main_v363, main_v364, main_c_74, main_v365, main_v366, main_v367, main_v368, main_v369]

theorem lab1_6_writes : (lab1_6 (F := F)).map (fun op => op.writes)
    = (lab1_6_W).map fun y => ({Proc.devRef (τ := τ) .tc y} : Finset (DevRef τ sig)) := rfl

/-- A reference the line does not write keeps its contents. -/
theorem lab1_6_frame (V : Valuation τ sig (Elt F)) {r : Ref sig .tc} (hr : r ∉ lab1_6_W) :
    after (lab1_6 (F := F)) V (no_index (Proc.devRef .tc r)) = V (Proc.devRef .tc r) :=
  Cert.RefLib.after_frame lab1_6_writes V hr

/-- The operations of relation label 7 in layer 1: the label's edge mask, the two products, and the two masked messages added to the running sum. -/
def lab1_7 : List (HloOp τ sig (Elt F)) :=
  [
    nullary main_c_75 (constantI S_ 32 7#32),
    unary main_c_75 main_v370 (broadcastInDim S8192 ![] bcast_S_S8192 : (⟨S_, .i32⟩ : BufTy).Contents (Elt F) → (⟨S8192, .i32⟩ : BufTy).Contents (Elt F)),
    binary main_arg2 main_v370 main_v371 (cmpi .eq : (⟨S8192, .i32⟩ : BufTy).Contents (Elt F) → (⟨S8192, .i32⟩ : BufTy).Contents (Elt F) → (⟨S8192, .i1⟩ : BufTy).Contents (Elt F)),
    unary main_v371 main_v372 (broadcastInDim S8192x1 ![0] bcast_S8192_S8192x1_0 : (⟨S8192, .i1⟩ : BufTy).Contents (Elt F) → (⟨S8192x1, .i1⟩ : BufTy).Contents (Elt F)),
    unary main_v5 main_v373 ((extractStridedSlice S1x512x512 ![7, 0, 0] · slices_S40x512x512_S1x512x512_7_0_0) : (⟨S40x512x512, .f32⟩ : BufTy).Contents (Elt F) → (⟨S1x512x512, .f32⟩ : BufTy).Contents (Elt F)),
    reshape main_v373 main_v374 rfl shapeCasts_S1x512x512_S512x512,
    unary main_v374 main_v375 ((transpose S512x512 [1, 0] · transposes_S512x512_S512x512_1_0) : (⟨S512x512, .f32⟩ : BufTy).Contents (Elt F) → (⟨S512x512, .f32⟩ : BufTy).Contents (Elt F)),
    binary main_arg0 main_v375 main_v376 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v377 ((extractStridedSlice S1x512 ![7, 0] · slices_S40x512_S1x512_7_0) : (⟨S40x512, .f32⟩ : BufTy).Contents (Elt F) → (⟨S1x512, .f32⟩ : BufTy).Contents (Elt F)),
    reshape main_v377 main_v378 rfl shapeCasts_S1x512_S512,
    unary main_v378 main_v379 (broadcastInDim S1x512 ![1] bcast_S512_S1x512_1 : (⟨S512, .f32⟩ : BufTy).Contents (Elt F) → (⟨S1x512, .f32⟩ : BufTy).Contents (Elt F)),
    unary main_v379 main_v380 (broadcastInDim S8192x512 ![0, 1] bcast_S1x512_S8192x512_0_1 : (⟨S1x512, .f32⟩ : BufTy).Contents (Elt F) → (⟨S8192x512, .f32⟩ : BufTy).Contents (Elt F)),
    binary main_v376 main_v380 main_v381 (addf : (⟨S8192x512, .f32⟩ : BufTy).Contents (Elt F) → (⟨S8192x512, .f32⟩ : BufTy).Contents (Elt F) → (⟨S8192x512, .f32⟩ : BufTy).Contents (Elt F)),
    nullary main_c_76 (constantI S_ 32 0#32),
    unary main_c_76 main_v382 (broadcastInDim S8192 ![] bcast_S_S8192 : (⟨S_, .i32⟩ : BufTy).Contents (Elt F) → (⟨S8192, .i32⟩ : BufTy).Contents (Elt F)),
    binary main_arg3 main_v382 main_v383 (cmpi .slt : (⟨S8192, .i32⟩ : BufTy).Contents (Elt F) → (⟨S8192, .i32⟩ : BufTy).Contents (Elt F) → (⟨S8192, .i1⟩ : BufTy).Contents (Elt F)),
    nullary main_c_77 (constantI S_ 32 8192#32),
    unary main_c_77 main_v384 (broadcastInDim S8192 ![] bcast_S_S8192 : (⟨S_, .i32⟩ : BufTy).Contents (Elt F) → (⟨S8192, .i32⟩ : BufTy).Contents (Elt F)),
    binary main_arg3 main_v384 main_v385 (addi : (⟨S8192, .i32⟩ : BufTy).Contents (Elt F) → (⟨S8192, .i32⟩ : BufTy).Contents (Elt F) → (⟨S8192, .i32⟩ : BufTy).Contents (Elt F)),
    ternary main_v383 main_v385 main_arg3 main_v386 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v386 main_v387 (broadcastInDim S8192x1 ![0] bcast_S8192_S8192x1_0 : (⟨S8192, .i32⟩ : BufTy).Contents (Elt F) → (⟨S8192x1, .i32⟩ : BufTy).Contents (Elt F)),
    binary main_v381 main_v387 main_v388 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_78 (constant S_ .f32 0x00000000#32),
    TRef.unary (TRef.of (T := ⟨S_, .f32⟩) main_cst_78) (TRef.of (T := ⟨S_, .f32⟩) main_call14_v0) id,
    TRef.unary (TRef.of (T := ⟨S8192x1, .i1⟩) main_v372) (TRef.of (T := ⟨S8192x512, .i1⟩) main_call14_v1) (broadcastInDim S8192x512 ![0, 1] bcast_S8192x1_S8192x512_0_1),
    TRef.unary (TRef.of (T := ⟨S_, .f32⟩) main_call14_v0) (TRef.of (T := ⟨S8192x512, .f32⟩) main_call14_v2) (broadcastInDim S8192x512 ![] bcast_S_S8192x512),
    TRef.ternary (TRef.of (T := ⟨S8192x512, .i1⟩) main_call14_v1) (TRef.of (T := ⟨S8192x512, .f32⟩) main_v388) (TRef.of (T := ⟨S8192x512, .f32⟩) main_call14_v2) (TRef.of (T := ⟨S8192x512, .f32⟩) main_v389) select,
    nullary main_c_79 (constantI S_ 32 0#32),
    unary main_c_79 main_v390 (broadcastInDim S8192 ![] bcast_S_S8192 : (⟨S_, .i32⟩ : BufTy).Contents (Elt F) → (⟨S8192, .i32⟩ : BufTy).Contents (Elt F)),
    binary main_arg1 main_v390 main_v391 (cmpi .slt : (⟨S8192, .i32⟩ : BufTy).Contents (Elt F) → (⟨S8192, .i32⟩ : BufTy).Contents (Elt F) → (⟨S8192, .i1⟩ : BufTy).Contents (Elt F)),
    nullary main_c_80 (constantI S_ 32 8192#32),
    unary main_c_80 main_v392 (broadcastInDim S8192 ![] bcast_S_S8192 : (⟨S_, .i32⟩ : BufTy).Contents (Elt F) → (⟨S8192, .i32⟩ : BufTy).Contents (Elt F)),
    binary main_arg1 main_v392 main_v393 (addi : (⟨S8192, .i32⟩ : BufTy).Contents (Elt F) → (⟨S8192, .i32⟩ : BufTy).Contents (Elt F) → (⟨S8192, .i32⟩ : BufTy).Contents (Elt F)),
    ternary main_v391 main_v393 main_arg1 main_v394 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v394 main_v395 (broadcastInDim S8192x1 ![0] bcast_S8192_S8192x1_0 : (⟨S8192, .i32⟩ : BufTy).Contents (Elt F) → (⟨S8192x1, .i32⟩ : BufTy).Contents (Elt F)),
    ternary main_v369 main_v395 main_v389 main_v396 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v397 ((extractStridedSlice S1x512x512 ![27, 0, 0] · slices_S40x512x512_S1x512x512_27_0_0) : (⟨S40x512x512, .f32⟩ : BufTy).Contents (Elt F) → (⟨S1x512x512, .f32⟩ : BufTy).Contents (Elt F)),
    reshape main_v397 main_v398 rfl shapeCasts_S1x512x512_S512x512,
    unary main_v398 main_v399 ((transpose S512x512 [1, 0] · transposes_S512x512_S512x512_1_0) : (⟨S512x512, .f32⟩ : BufTy).Contents (Elt F) → (⟨S512x512, .f32⟩ : BufTy).Contents (Elt F)),
    binary main_arg0 main_v399 main_v400 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v401 ((extractStridedSlice S1x512 ![27, 0] · slices_S40x512_S1x512_27_0) : (⟨S40x512, .f32⟩ : BufTy).Contents (Elt F) → (⟨S1x512, .f32⟩ : BufTy).Contents (Elt F)),
    reshape main_v401 main_v402 rfl shapeCasts_S1x512_S512,
    unary main_v402 main_v403 (broadcastInDim S1x512 ![1] bcast_S512_S1x512_1 : (⟨S512, .f32⟩ : BufTy).Contents (Elt F) → (⟨S1x512, .f32⟩ : BufTy).Contents (Elt F)),
    unary main_v403 main_v404 (broadcastInDim S8192x512 ![0, 1] bcast_S1x512_S8192x512_0_1 : (⟨S1x512, .f32⟩ : BufTy).Contents (Elt F) → (⟨S8192x512, .f32⟩ : BufTy).Contents (Elt F)),
    binary main_v400 main_v404 main_v405 (addf : (⟨S8192x512, .f32⟩ : BufTy).Contents (Elt F) → (⟨S8192x512, .f32⟩ : BufTy).Contents (Elt F) → (⟨S8192x512, .f32⟩ : BufTy).Contents (Elt F)),
    nullary main_c_81 (constantI S_ 32 0#32),
    unary main_c_81 main_v406 (broadcastInDim S8192 ![] bcast_S_S8192 : (⟨S_, .i32⟩ : BufTy).Contents (Elt F) → (⟨S8192, .i32⟩ : BufTy).Contents (Elt F)),
    binary main_arg1 main_v406 main_v407 (cmpi .slt : (⟨S8192, .i32⟩ : BufTy).Contents (Elt F) → (⟨S8192, .i32⟩ : BufTy).Contents (Elt F) → (⟨S8192, .i1⟩ : BufTy).Contents (Elt F)),
    nullary main_c_82 (constantI S_ 32 8192#32),
    unary main_c_82 main_v408 (broadcastInDim S8192 ![] bcast_S_S8192 : (⟨S_, .i32⟩ : BufTy).Contents (Elt F) → (⟨S8192, .i32⟩ : BufTy).Contents (Elt F)),
    binary main_arg1 main_v408 main_v409 (addi : (⟨S8192, .i32⟩ : BufTy).Contents (Elt F) → (⟨S8192, .i32⟩ : BufTy).Contents (Elt F) → (⟨S8192, .i32⟩ : BufTy).Contents (Elt F)),
    ternary main_v407 main_v409 main_arg1 main_v410 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v410 main_v411 (broadcastInDim S8192x1 ![0] bcast_S8192_S8192x1_0 : (⟨S8192, .i32⟩ : BufTy).Contents (Elt F) → (⟨S8192x1, .i32⟩ : BufTy).Contents (Elt F)),
    binary main_v405 main_v411 main_v412 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_83 (constant S_ .f32 0x00000000#32),
    TRef.unary (TRef.of (T := ⟨S_, .f32⟩) main_cst_83) (TRef.of (T := ⟨S_, .f32⟩) main_call15_v0) id,
    TRef.unary (TRef.of (T := ⟨S8192x1, .i1⟩) main_v372) (TRef.of (T := ⟨S8192x512, .i1⟩) main_call15_v1) (broadcastInDim S8192x512 ![0, 1] bcast_S8192x1_S8192x512_0_1),
    TRef.unary (TRef.of (T := ⟨S_, .f32⟩) main_call15_v0) (TRef.of (T := ⟨S8192x512, .f32⟩) main_call15_v2) (broadcastInDim S8192x512 ![] bcast_S_S8192x512),
    TRef.ternary (TRef.of (T := ⟨S8192x512, .i1⟩) main_call15_v1) (TRef.of (T := ⟨S8192x512, .f32⟩) main_v412) (TRef.of (T := ⟨S8192x512, .f32⟩) main_call15_v2) (TRef.of (T := ⟨S8192x512, .f32⟩) main_v413) select,
    nullary main_c_84 (constantI S_ 32 0#32),
    unary main_c_84 main_v414 (broadcastInDim S8192 ![] bcast_S_S8192 : (⟨S_, .i32⟩ : BufTy).Contents (Elt F) → (⟨S8192, .i32⟩ : BufTy).Contents (Elt F)),
    binary main_arg3 main_v414 main_v415 (cmpi .slt : (⟨S8192, .i32⟩ : BufTy).Contents (Elt F) → (⟨S8192, .i32⟩ : BufTy).Contents (Elt F) → (⟨S8192, .i1⟩ : BufTy).Contents (Elt F)),
    nullary main_c_85 (constantI S_ 32 8192#32),
    unary main_c_85 main_v416 (broadcastInDim S8192 ![] bcast_S_S8192 : (⟨S_, .i32⟩ : BufTy).Contents (Elt F) → (⟨S8192, .i32⟩ : BufTy).Contents (Elt F)),
    binary main_arg3 main_v416 main_v417 (addi : (⟨S8192, .i32⟩ : BufTy).Contents (Elt F) → (⟨S8192, .i32⟩ : BufTy).Contents (Elt F) → (⟨S8192, .i32⟩ : BufTy).Contents (Elt F)),
    ternary main_v415 main_v417 main_arg3 main_v418 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v418 main_v419 (broadcastInDim S8192x1 ![0] bcast_S8192_S8192x1_0 : (⟨S8192, .i32⟩ : BufTy).Contents (Elt F) → (⟨S8192x1, .i32⟩ : BufTy).Contents (Elt F)),
    ternary main_v396 main_v419 main_v413 main_v420 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_7_sub : (lab1_7 (F := F)).Forall fun op => op.bufs ⊆ tcRefs τ sig := by
  unfold lab1_7
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_7_fresh : (lab1_7 (F := F)).Forall fun op => op.fresh = ∅ := by
  all_fresh lab1_7

/-- The references the line writes, in order. -/
abbrev lab1_7_W : List (Ref sig .tc) := [main_c_75, main_v370, main_v371, main_v372, main_v373, main_v374, main_v375, main_v376, main_v377, main_v378, main_v379, main_v380, main_v381, main_c_76, main_v382, main_v383, main_c_77, main_v384, main_v385, main_v386, main_v387, main_v388, main_cst_78, main_call14_v0, main_call14_v1, main_call14_v2, main_v389, main_c_79, main_v390, main_v391, main_c_80, main_v392, main_v393, main_v394, main_v395, main_v396, main_v397, main_v398, main_v399, main_v400, main_v401, main_v402, main_v403, main_v404, main_v405, main_c_81, main_v406, main_v407, main_c_82, main_v408, main_v409, main_v410, main_v411, main_v412, main_cst_83, main_call15_v0, main_call15_v1, main_call15_v2, main_v413, main_c_84, main_v414, main_v415, main_c_85, main_v416, main_v417, main_v418, main_v419, main_v420]

theorem lab1_7_writes : (lab1_7 (F := F)).map (fun op => op.writes)
    = (lab1_7_W).map fun y => ({Proc.devRef (τ := τ) .tc y} : Finset (DevRef τ sig)) := rfl

/-- A reference the line does not write keeps its contents. -/
theorem lab1_7_frame (V : Valuation τ sig (Elt F)) {r : Ref sig .tc} (hr : r ∉ lab1_7_W) :
    after (lab1_7 (F := F)) V (no_index (Proc.devRef .tc r)) = V (Proc.devRef .tc r) :=
  Cert.RefLib.after_frame lab1_7_writes V hr

/-- The operations of relation label 8 in layer 1: the label's edge mask, the two products, and the two masked messages added to the running sum. -/
def lab1_8 : List (HloOp τ sig (Elt F)) :=
  [
    nullary main_c_86 (constantI S_ 32 8#32),
    unary main_c_86 main_v421 (broadcastInDim S8192 ![] bcast_S_S8192 : (⟨S_, .i32⟩ : BufTy).Contents (Elt F) → (⟨S8192, .i32⟩ : BufTy).Contents (Elt F)),
    binary main_arg2 main_v421 main_v422 (cmpi .eq : (⟨S8192, .i32⟩ : BufTy).Contents (Elt F) → (⟨S8192, .i32⟩ : BufTy).Contents (Elt F) → (⟨S8192, .i1⟩ : BufTy).Contents (Elt F)),
    unary main_v422 main_v423 (broadcastInDim S8192x1 ![0] bcast_S8192_S8192x1_0 : (⟨S8192, .i1⟩ : BufTy).Contents (Elt F) → (⟨S8192x1, .i1⟩ : BufTy).Contents (Elt F)),
    unary main_v5 main_v424 ((extractStridedSlice S1x512x512 ![8, 0, 0] · slices_S40x512x512_S1x512x512_8_0_0) : (⟨S40x512x512, .f32⟩ : BufTy).Contents (Elt F) → (⟨S1x512x512, .f32⟩ : BufTy).Contents (Elt F)),
    reshape main_v424 main_v425 rfl shapeCasts_S1x512x512_S512x512,
    unary main_v425 main_v426 ((transpose S512x512 [1, 0] · transposes_S512x512_S512x512_1_0) : (⟨S512x512, .f32⟩ : BufTy).Contents (Elt F) → (⟨S512x512, .f32⟩ : BufTy).Contents (Elt F)),
    binary main_arg0 main_v426 main_v427 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v428 ((extractStridedSlice S1x512 ![8, 0] · slices_S40x512_S1x512_8_0) : (⟨S40x512, .f32⟩ : BufTy).Contents (Elt F) → (⟨S1x512, .f32⟩ : BufTy).Contents (Elt F)),
    reshape main_v428 main_v429 rfl shapeCasts_S1x512_S512,
    unary main_v429 main_v430 (broadcastInDim S1x512 ![1] bcast_S512_S1x512_1 : (⟨S512, .f32⟩ : BufTy).Contents (Elt F) → (⟨S1x512, .f32⟩ : BufTy).Contents (Elt F)),
    unary main_v430 main_v431 (broadcastInDim S8192x512 ![0, 1] bcast_S1x512_S8192x512_0_1 : (⟨S1x512, .f32⟩ : BufTy).Contents (Elt F) → (⟨S8192x512, .f32⟩ : BufTy).Contents (Elt F)),
    binary main_v427 main_v431 main_v432 (addf : (⟨S8192x512, .f32⟩ : BufTy).Contents (Elt F) → (⟨S8192x512, .f32⟩ : BufTy).Contents (Elt F) → (⟨S8192x512, .f32⟩ : BufTy).Contents (Elt F)),
    nullary main_c_87 (constantI S_ 32 0#32),
    unary main_c_87 main_v433 (broadcastInDim S8192 ![] bcast_S_S8192 : (⟨S_, .i32⟩ : BufTy).Contents (Elt F) → (⟨S8192, .i32⟩ : BufTy).Contents (Elt F)),
    binary main_arg3 main_v433 main_v434 (cmpi .slt : (⟨S8192, .i32⟩ : BufTy).Contents (Elt F) → (⟨S8192, .i32⟩ : BufTy).Contents (Elt F) → (⟨S8192, .i1⟩ : BufTy).Contents (Elt F)),
    nullary main_c_88 (constantI S_ 32 8192#32),
    unary main_c_88 main_v435 (broadcastInDim S8192 ![] bcast_S_S8192 : (⟨S_, .i32⟩ : BufTy).Contents (Elt F) → (⟨S8192, .i32⟩ : BufTy).Contents (Elt F)),
    binary main_arg3 main_v435 main_v436 (addi : (⟨S8192, .i32⟩ : BufTy).Contents (Elt F) → (⟨S8192, .i32⟩ : BufTy).Contents (Elt F) → (⟨S8192, .i32⟩ : BufTy).Contents (Elt F)),
    ternary main_v434 main_v436 main_arg3 main_v437 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v437 main_v438 (broadcastInDim S8192x1 ![0] bcast_S8192_S8192x1_0 : (⟨S8192, .i32⟩ : BufTy).Contents (Elt F) → (⟨S8192x1, .i32⟩ : BufTy).Contents (Elt F)),
    binary main_v432 main_v438 main_v439 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_89 (constant S_ .f32 0x00000000#32),
    TRef.unary (TRef.of (T := ⟨S_, .f32⟩) main_cst_89) (TRef.of (T := ⟨S_, .f32⟩) main_call16_v0) id,
    TRef.unary (TRef.of (T := ⟨S8192x1, .i1⟩) main_v423) (TRef.of (T := ⟨S8192x512, .i1⟩) main_call16_v1) (broadcastInDim S8192x512 ![0, 1] bcast_S8192x1_S8192x512_0_1),
    TRef.unary (TRef.of (T := ⟨S_, .f32⟩) main_call16_v0) (TRef.of (T := ⟨S8192x512, .f32⟩) main_call16_v2) (broadcastInDim S8192x512 ![] bcast_S_S8192x512),
    TRef.ternary (TRef.of (T := ⟨S8192x512, .i1⟩) main_call16_v1) (TRef.of (T := ⟨S8192x512, .f32⟩) main_v439) (TRef.of (T := ⟨S8192x512, .f32⟩) main_call16_v2) (TRef.of (T := ⟨S8192x512, .f32⟩) main_v440) select,
    nullary main_c_90 (constantI S_ 32 0#32),
    unary main_c_90 main_v441 (broadcastInDim S8192 ![] bcast_S_S8192 : (⟨S_, .i32⟩ : BufTy).Contents (Elt F) → (⟨S8192, .i32⟩ : BufTy).Contents (Elt F)),
    binary main_arg1 main_v441 main_v442 (cmpi .slt : (⟨S8192, .i32⟩ : BufTy).Contents (Elt F) → (⟨S8192, .i32⟩ : BufTy).Contents (Elt F) → (⟨S8192, .i1⟩ : BufTy).Contents (Elt F)),
    nullary main_c_91 (constantI S_ 32 8192#32),
    unary main_c_91 main_v443 (broadcastInDim S8192 ![] bcast_S_S8192 : (⟨S_, .i32⟩ : BufTy).Contents (Elt F) → (⟨S8192, .i32⟩ : BufTy).Contents (Elt F)),
    binary main_arg1 main_v443 main_v444 (addi : (⟨S8192, .i32⟩ : BufTy).Contents (Elt F) → (⟨S8192, .i32⟩ : BufTy).Contents (Elt F) → (⟨S8192, .i32⟩ : BufTy).Contents (Elt F)),
    ternary main_v442 main_v444 main_arg1 main_v445 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v445 main_v446 (broadcastInDim S8192x1 ![0] bcast_S8192_S8192x1_0 : (⟨S8192, .i32⟩ : BufTy).Contents (Elt F) → (⟨S8192x1, .i32⟩ : BufTy).Contents (Elt F)),
    ternary main_v420 main_v446 main_v440 main_v447 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v448 ((extractStridedSlice S1x512x512 ![28, 0, 0] · slices_S40x512x512_S1x512x512_28_0_0) : (⟨S40x512x512, .f32⟩ : BufTy).Contents (Elt F) → (⟨S1x512x512, .f32⟩ : BufTy).Contents (Elt F)),
    reshape main_v448 main_v449 rfl shapeCasts_S1x512x512_S512x512,
    unary main_v449 main_v450 ((transpose S512x512 [1, 0] · transposes_S512x512_S512x512_1_0) : (⟨S512x512, .f32⟩ : BufTy).Contents (Elt F) → (⟨S512x512, .f32⟩ : BufTy).Contents (Elt F)),
    binary main_arg0 main_v450 main_v451 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v452 ((extractStridedSlice S1x512 ![28, 0] · slices_S40x512_S1x512_28_0) : (⟨S40x512, .f32⟩ : BufTy).Contents (Elt F) → (⟨S1x512, .f32⟩ : BufTy).Contents (Elt F)),
    reshape main_v452 main_v453 rfl shapeCasts_S1x512_S512,
    unary main_v453 main_v454 (broadcastInDim S1x512 ![1] bcast_S512_S1x512_1 : (⟨S512, .f32⟩ : BufTy).Contents (Elt F) → (⟨S1x512, .f32⟩ : BufTy).Contents (Elt F)),
    unary main_v454 main_v455 (broadcastInDim S8192x512 ![0, 1] bcast_S1x512_S8192x512_0_1 : (⟨S1x512, .f32⟩ : BufTy).Contents (Elt F) → (⟨S8192x512, .f32⟩ : BufTy).Contents (Elt F)),
    binary main_v451 main_v455 main_v456 (addf : (⟨S8192x512, .f32⟩ : BufTy).Contents (Elt F) → (⟨S8192x512, .f32⟩ : BufTy).Contents (Elt F) → (⟨S8192x512, .f32⟩ : BufTy).Contents (Elt F)),
    nullary main_c_92 (constantI S_ 32 0#32),
    unary main_c_92 main_v457 (broadcastInDim S8192 ![] bcast_S_S8192 : (⟨S_, .i32⟩ : BufTy).Contents (Elt F) → (⟨S8192, .i32⟩ : BufTy).Contents (Elt F)),
    binary main_arg1 main_v457 main_v458 (cmpi .slt : (⟨S8192, .i32⟩ : BufTy).Contents (Elt F) → (⟨S8192, .i32⟩ : BufTy).Contents (Elt F) → (⟨S8192, .i1⟩ : BufTy).Contents (Elt F)),
    nullary main_c_93 (constantI S_ 32 8192#32),
    unary main_c_93 main_v459 (broadcastInDim S8192 ![] bcast_S_S8192 : (⟨S_, .i32⟩ : BufTy).Contents (Elt F) → (⟨S8192, .i32⟩ : BufTy).Contents (Elt F)),
    binary main_arg1 main_v459 main_v460 (addi : (⟨S8192, .i32⟩ : BufTy).Contents (Elt F) → (⟨S8192, .i32⟩ : BufTy).Contents (Elt F) → (⟨S8192, .i32⟩ : BufTy).Contents (Elt F)),
    ternary main_v458 main_v460 main_arg1 main_v461 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v461 main_v462 (broadcastInDim S8192x1 ![0] bcast_S8192_S8192x1_0 : (⟨S8192, .i32⟩ : BufTy).Contents (Elt F) → (⟨S8192x1, .i32⟩ : BufTy).Contents (Elt F)),
    binary main_v456 main_v462 main_v463 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_94 (constant S_ .f32 0x00000000#32),
    TRef.unary (TRef.of (T := ⟨S_, .f32⟩) main_cst_94) (TRef.of (T := ⟨S_, .f32⟩) main_call17_v0) id,
    TRef.unary (TRef.of (T := ⟨S8192x1, .i1⟩) main_v423) (TRef.of (T := ⟨S8192x512, .i1⟩) main_call17_v1) (broadcastInDim S8192x512 ![0, 1] bcast_S8192x1_S8192x512_0_1),
    TRef.unary (TRef.of (T := ⟨S_, .f32⟩) main_call17_v0) (TRef.of (T := ⟨S8192x512, .f32⟩) main_call17_v2) (broadcastInDim S8192x512 ![] bcast_S_S8192x512),
    TRef.ternary (TRef.of (T := ⟨S8192x512, .i1⟩) main_call17_v1) (TRef.of (T := ⟨S8192x512, .f32⟩) main_v463) (TRef.of (T := ⟨S8192x512, .f32⟩) main_call17_v2) (TRef.of (T := ⟨S8192x512, .f32⟩) main_v464) select,
    nullary main_c_95 (constantI S_ 32 0#32),
    unary main_c_95 main_v465 (broadcastInDim S8192 ![] bcast_S_S8192 : (⟨S_, .i32⟩ : BufTy).Contents (Elt F) → (⟨S8192, .i32⟩ : BufTy).Contents (Elt F)),
    binary main_arg3 main_v465 main_v466 (cmpi .slt : (⟨S8192, .i32⟩ : BufTy).Contents (Elt F) → (⟨S8192, .i32⟩ : BufTy).Contents (Elt F) → (⟨S8192, .i1⟩ : BufTy).Contents (Elt F)),
    nullary main_c_96 (constantI S_ 32 8192#32),
    unary main_c_96 main_v467 (broadcastInDim S8192 ![] bcast_S_S8192 : (⟨S_, .i32⟩ : BufTy).Contents (Elt F) → (⟨S8192, .i32⟩ : BufTy).Contents (Elt F)),
    binary main_arg3 main_v467 main_v468 (addi : (⟨S8192, .i32⟩ : BufTy).Contents (Elt F) → (⟨S8192, .i32⟩ : BufTy).Contents (Elt F) → (⟨S8192, .i32⟩ : BufTy).Contents (Elt F)),
    ternary main_v466 main_v468 main_arg3 main_v469 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v469 main_v470 (broadcastInDim S8192x1 ![0] bcast_S8192_S8192x1_0 : (⟨S8192, .i32⟩ : BufTy).Contents (Elt F) → (⟨S8192x1, .i32⟩ : BufTy).Contents (Elt F)),
    ternary main_v447 main_v470 main_v464 main_v471 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_8_sub : (lab1_8 (F := F)).Forall fun op => op.bufs ⊆ tcRefs τ sig := by
  unfold lab1_8
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_8_fresh : (lab1_8 (F := F)).Forall fun op => op.fresh = ∅ := by
  all_fresh lab1_8

/-- The references the line writes, in order. -/
abbrev lab1_8_W : List (Ref sig .tc) := [main_c_86, main_v421, main_v422, main_v423, main_v424, main_v425, main_v426, main_v427, main_v428, main_v429, main_v430, main_v431, main_v432, main_c_87, main_v433, main_v434, main_c_88, main_v435, main_v436, main_v437, main_v438, main_v439, main_cst_89, main_call16_v0, main_call16_v1, main_call16_v2, main_v440, main_c_90, main_v441, main_v442, main_c_91, main_v443, main_v444, main_v445, main_v446, main_v447, main_v448, main_v449, main_v450, main_v451, main_v452, main_v453, main_v454, main_v455, main_v456, main_c_92, main_v457, main_v458, main_c_93, main_v459, main_v460, main_v461, main_v462, main_v463, main_cst_94, main_call17_v0, main_call17_v1, main_call17_v2, main_v464, main_c_95, main_v465, main_v466, main_c_96, main_v467, main_v468, main_v469, main_v470, main_v471]

theorem lab1_8_writes : (lab1_8 (F := F)).map (fun op => op.writes)
    = (lab1_8_W).map fun y => ({Proc.devRef (τ := τ) .tc y} : Finset (DevRef τ sig)) := rfl

/-- A reference the line does not write keeps its contents. -/
theorem lab1_8_frame (V : Valuation τ sig (Elt F)) {r : Ref sig .tc} (hr : r ∉ lab1_8_W) :
    after (lab1_8 (F := F)) V (no_index (Proc.devRef .tc r)) = V (Proc.devRef .tc r) :=
  Cert.RefLib.after_frame lab1_8_writes V hr

/-- The operations of relation label 9 in layer 1: the label's edge mask, the two products, and the two masked messages added to the running sum. -/
def lab1_9 : List (HloOp τ sig (Elt F)) :=
  [
    nullary main_c_97 (constantI S_ 32 9#32),
    unary main_c_97 main_v472 (broadcastInDim S8192 ![] bcast_S_S8192 : (⟨S_, .i32⟩ : BufTy).Contents (Elt F) → (⟨S8192, .i32⟩ : BufTy).Contents (Elt F)),
    binary main_arg2 main_v472 main_v473 (cmpi .eq : (⟨S8192, .i32⟩ : BufTy).Contents (Elt F) → (⟨S8192, .i32⟩ : BufTy).Contents (Elt F) → (⟨S8192, .i1⟩ : BufTy).Contents (Elt F)),
    unary main_v473 main_v474 (broadcastInDim S8192x1 ![0] bcast_S8192_S8192x1_0 : (⟨S8192, .i1⟩ : BufTy).Contents (Elt F) → (⟨S8192x1, .i1⟩ : BufTy).Contents (Elt F)),
    unary main_v5 main_v475 ((extractStridedSlice S1x512x512 ![9, 0, 0] · slices_S40x512x512_S1x512x512_9_0_0) : (⟨S40x512x512, .f32⟩ : BufTy).Contents (Elt F) → (⟨S1x512x512, .f32⟩ : BufTy).Contents (Elt F)),
    reshape main_v475 main_v476 rfl shapeCasts_S1x512x512_S512x512,
    unary main_v476 main_v477 ((transpose S512x512 [1, 0] · transposes_S512x512_S512x512_1_0) : (⟨S512x512, .f32⟩ : BufTy).Contents (Elt F) → (⟨S512x512, .f32⟩ : BufTy).Contents (Elt F)),
    binary main_arg0 main_v477 main_v478 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v479 ((extractStridedSlice S1x512 ![9, 0] · slices_S40x512_S1x512_9_0) : (⟨S40x512, .f32⟩ : BufTy).Contents (Elt F) → (⟨S1x512, .f32⟩ : BufTy).Contents (Elt F)),
    reshape main_v479 main_v480 rfl shapeCasts_S1x512_S512,
    unary main_v480 main_v481 (broadcastInDim S1x512 ![1] bcast_S512_S1x512_1 : (⟨S512, .f32⟩ : BufTy).Contents (Elt F) → (⟨S1x512, .f32⟩ : BufTy).Contents (Elt F)),
    unary main_v481 main_v482 (broadcastInDim S8192x512 ![0, 1] bcast_S1x512_S8192x512_0_1 : (⟨S1x512, .f32⟩ : BufTy).Contents (Elt F) → (⟨S8192x512, .f32⟩ : BufTy).Contents (Elt F)),
    binary main_v478 main_v482 main_v483 (addf : (⟨S8192x512, .f32⟩ : BufTy).Contents (Elt F) → (⟨S8192x512, .f32⟩ : BufTy).Contents (Elt F) → (⟨S8192x512, .f32⟩ : BufTy).Contents (Elt F)),
    nullary main_c_98 (constantI S_ 32 0#32),
    unary main_c_98 main_v484 (broadcastInDim S8192 ![] bcast_S_S8192 : (⟨S_, .i32⟩ : BufTy).Contents (Elt F) → (⟨S8192, .i32⟩ : BufTy).Contents (Elt F)),
    binary main_arg3 main_v484 main_v485 (cmpi .slt : (⟨S8192, .i32⟩ : BufTy).Contents (Elt F) → (⟨S8192, .i32⟩ : BufTy).Contents (Elt F) → (⟨S8192, .i1⟩ : BufTy).Contents (Elt F)),
    nullary main_c_99 (constantI S_ 32 8192#32),
    unary main_c_99 main_v486 (broadcastInDim S8192 ![] bcast_S_S8192 : (⟨S_, .i32⟩ : BufTy).Contents (Elt F) → (⟨S8192, .i32⟩ : BufTy).Contents (Elt F)),
    binary main_arg3 main_v486 main_v487 (addi : (⟨S8192, .i32⟩ : BufTy).Contents (Elt F) → (⟨S8192, .i32⟩ : BufTy).Contents (Elt F) → (⟨S8192, .i32⟩ : BufTy).Contents (Elt F)),
    ternary main_v485 main_v487 main_arg3 main_v488 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v488 main_v489 (broadcastInDim S8192x1 ![0] bcast_S8192_S8192x1_0 : (⟨S8192, .i32⟩ : BufTy).Contents (Elt F) → (⟨S8192x1, .i32⟩ : BufTy).Contents (Elt F)),
    binary main_v483 main_v489 main_v490 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_100 (constant S_ .f32 0x00000000#32),
    TRef.unary (TRef.of (T := ⟨S_, .f32⟩) main_cst_100) (TRef.of (T := ⟨S_, .f32⟩) main_call18_v0) id,
    TRef.unary (TRef.of (T := ⟨S8192x1, .i1⟩) main_v474) (TRef.of (T := ⟨S8192x512, .i1⟩) main_call18_v1) (broadcastInDim S8192x512 ![0, 1] bcast_S8192x1_S8192x512_0_1),
    TRef.unary (TRef.of (T := ⟨S_, .f32⟩) main_call18_v0) (TRef.of (T := ⟨S8192x512, .f32⟩) main_call18_v2) (broadcastInDim S8192x512 ![] bcast_S_S8192x512),
    TRef.ternary (TRef.of (T := ⟨S8192x512, .i1⟩) main_call18_v1) (TRef.of (T := ⟨S8192x512, .f32⟩) main_v490) (TRef.of (T := ⟨S8192x512, .f32⟩) main_call18_v2) (TRef.of (T := ⟨S8192x512, .f32⟩) main_v491) select,
    nullary main_c_101 (constantI S_ 32 0#32),
    unary main_c_101 main_v492 (broadcastInDim S8192 ![] bcast_S_S8192 : (⟨S_, .i32⟩ : BufTy).Contents (Elt F) → (⟨S8192, .i32⟩ : BufTy).Contents (Elt F)),
    binary main_arg1 main_v492 main_v493 (cmpi .slt : (⟨S8192, .i32⟩ : BufTy).Contents (Elt F) → (⟨S8192, .i32⟩ : BufTy).Contents (Elt F) → (⟨S8192, .i1⟩ : BufTy).Contents (Elt F)),
    nullary main_c_102 (constantI S_ 32 8192#32),
    unary main_c_102 main_v494 (broadcastInDim S8192 ![] bcast_S_S8192 : (⟨S_, .i32⟩ : BufTy).Contents (Elt F) → (⟨S8192, .i32⟩ : BufTy).Contents (Elt F)),
    binary main_arg1 main_v494 main_v495 (addi : (⟨S8192, .i32⟩ : BufTy).Contents (Elt F) → (⟨S8192, .i32⟩ : BufTy).Contents (Elt F) → (⟨S8192, .i32⟩ : BufTy).Contents (Elt F)),
    ternary main_v493 main_v495 main_arg1 main_v496 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v496 main_v497 (broadcastInDim S8192x1 ![0] bcast_S8192_S8192x1_0 : (⟨S8192, .i32⟩ : BufTy).Contents (Elt F) → (⟨S8192x1, .i32⟩ : BufTy).Contents (Elt F)),
    ternary main_v471 main_v497 main_v491 main_v498 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v499 ((extractStridedSlice S1x512x512 ![29, 0, 0] · slices_S40x512x512_S1x512x512_29_0_0) : (⟨S40x512x512, .f32⟩ : BufTy).Contents (Elt F) → (⟨S1x512x512, .f32⟩ : BufTy).Contents (Elt F)),
    reshape main_v499 main_v500 rfl shapeCasts_S1x512x512_S512x512,
    unary main_v500 main_v501 ((transpose S512x512 [1, 0] · transposes_S512x512_S512x512_1_0) : (⟨S512x512, .f32⟩ : BufTy).Contents (Elt F) → (⟨S512x512, .f32⟩ : BufTy).Contents (Elt F)),
    binary main_arg0 main_v501 main_v502 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v503 ((extractStridedSlice S1x512 ![29, 0] · slices_S40x512_S1x512_29_0) : (⟨S40x512, .f32⟩ : BufTy).Contents (Elt F) → (⟨S1x512, .f32⟩ : BufTy).Contents (Elt F)),
    reshape main_v503 main_v504 rfl shapeCasts_S1x512_S512,
    unary main_v504 main_v505 (broadcastInDim S1x512 ![1] bcast_S512_S1x512_1 : (⟨S512, .f32⟩ : BufTy).Contents (Elt F) → (⟨S1x512, .f32⟩ : BufTy).Contents (Elt F)),
    unary main_v505 main_v506 (broadcastInDim S8192x512 ![0, 1] bcast_S1x512_S8192x512_0_1 : (⟨S1x512, .f32⟩ : BufTy).Contents (Elt F) → (⟨S8192x512, .f32⟩ : BufTy).Contents (Elt F)),
    binary main_v502 main_v506 main_v507 (addf : (⟨S8192x512, .f32⟩ : BufTy).Contents (Elt F) → (⟨S8192x512, .f32⟩ : BufTy).Contents (Elt F) → (⟨S8192x512, .f32⟩ : BufTy).Contents (Elt F)),
    nullary main_c_103 (constantI S_ 32 0#32),
    unary main_c_103 main_v508 (broadcastInDim S8192 ![] bcast_S_S8192 : (⟨S_, .i32⟩ : BufTy).Contents (Elt F) → (⟨S8192, .i32⟩ : BufTy).Contents (Elt F)),
    binary main_arg1 main_v508 main_v509 (cmpi .slt : (⟨S8192, .i32⟩ : BufTy).Contents (Elt F) → (⟨S8192, .i32⟩ : BufTy).Contents (Elt F) → (⟨S8192, .i1⟩ : BufTy).Contents (Elt F)),
    nullary main_c_104 (constantI S_ 32 8192#32),
    unary main_c_104 main_v510 (broadcastInDim S8192 ![] bcast_S_S8192 : (⟨S_, .i32⟩ : BufTy).Contents (Elt F) → (⟨S8192, .i32⟩ : BufTy).Contents (Elt F)),
    binary main_arg1 main_v510 main_v511 (addi : (⟨S8192, .i32⟩ : BufTy).Contents (Elt F) → (⟨S8192, .i32⟩ : BufTy).Contents (Elt F) → (⟨S8192, .i32⟩ : BufTy).Contents (Elt F)),
    ternary main_v509 main_v511 main_arg1 main_v512 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v512 main_v513 (broadcastInDim S8192x1 ![0] bcast_S8192_S8192x1_0 : (⟨S8192, .i32⟩ : BufTy).Contents (Elt F) → (⟨S8192x1, .i32⟩ : BufTy).Contents (Elt F)),
    binary main_v507 main_v513 main_v514 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_105 (constant S_ .f32 0x00000000#32),
    TRef.unary (TRef.of (T := ⟨S_, .f32⟩) main_cst_105) (TRef.of (T := ⟨S_, .f32⟩) main_call19_v0) id,
    TRef.unary (TRef.of (T := ⟨S8192x1, .i1⟩) main_v474) (TRef.of (T := ⟨S8192x512, .i1⟩) main_call19_v1) (broadcastInDim S8192x512 ![0, 1] bcast_S8192x1_S8192x512_0_1),
    TRef.unary (TRef.of (T := ⟨S_, .f32⟩) main_call19_v0) (TRef.of (T := ⟨S8192x512, .f32⟩) main_call19_v2) (broadcastInDim S8192x512 ![] bcast_S_S8192x512),
    TRef.ternary (TRef.of (T := ⟨S8192x512, .i1⟩) main_call19_v1) (TRef.of (T := ⟨S8192x512, .f32⟩) main_v514) (TRef.of (T := ⟨S8192x512, .f32⟩) main_call19_v2) (TRef.of (T := ⟨S8192x512, .f32⟩) main_v515) select,
    nullary main_c_106 (constantI S_ 32 0#32),
    unary main_c_106 main_v516 (broadcastInDim S8192 ![] bcast_S_S8192 : (⟨S_, .i32⟩ : BufTy).Contents (Elt F) → (⟨S8192, .i32⟩ : BufTy).Contents (Elt F)),
    binary main_arg3 main_v516 main_v517 (cmpi .slt : (⟨S8192, .i32⟩ : BufTy).Contents (Elt F) → (⟨S8192, .i32⟩ : BufTy).Contents (Elt F) → (⟨S8192, .i1⟩ : BufTy).Contents (Elt F)),
    nullary main_c_107 (constantI S_ 32 8192#32),
    unary main_c_107 main_v518 (broadcastInDim S8192 ![] bcast_S_S8192 : (⟨S_, .i32⟩ : BufTy).Contents (Elt F) → (⟨S8192, .i32⟩ : BufTy).Contents (Elt F)),
    binary main_arg3 main_v518 main_v519 (addi : (⟨S8192, .i32⟩ : BufTy).Contents (Elt F) → (⟨S8192, .i32⟩ : BufTy).Contents (Elt F) → (⟨S8192, .i32⟩ : BufTy).Contents (Elt F)),
    ternary main_v517 main_v519 main_arg3 main_v520 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v520 main_v521 (broadcastInDim S8192x1 ![0] bcast_S8192_S8192x1_0 : (⟨S8192, .i32⟩ : BufTy).Contents (Elt F) → (⟨S8192x1, .i32⟩ : BufTy).Contents (Elt F)),
    ternary main_v498 main_v521 main_v515 main_v522 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_9_sub : (lab1_9 (F := F)).Forall fun op => op.bufs ⊆ tcRefs τ sig := by
  unfold lab1_9
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_9_fresh : (lab1_9 (F := F)).Forall fun op => op.fresh = ∅ := by
  all_fresh lab1_9

/-- The references the line writes, in order. -/
abbrev lab1_9_W : List (Ref sig .tc) := [main_c_97, main_v472, main_v473, main_v474, main_v475, main_v476, main_v477, main_v478, main_v479, main_v480, main_v481, main_v482, main_v483, main_c_98, main_v484, main_v485, main_c_99, main_v486, main_v487, main_v488, main_v489, main_v490, main_cst_100, main_call18_v0, main_call18_v1, main_call18_v2, main_v491, main_c_101, main_v492, main_v493, main_c_102, main_v494, main_v495, main_v496, main_v497, main_v498, main_v499, main_v500, main_v501, main_v502, main_v503, main_v504, main_v505, main_v506, main_v507, main_c_103, main_v508, main_v509, main_c_104, main_v510, main_v511, main_v512, main_v513, main_v514, main_cst_105, main_call19_v0, main_call19_v1, main_call19_v2, main_v515, main_c_106, main_v516, main_v517, main_c_107, main_v518, main_v519, main_v520, main_v521, main_v522]

theorem lab1_9_writes : (lab1_9 (F := F)).map (fun op => op.writes)
    = (lab1_9_W).map fun y => ({Proc.devRef (τ := τ) .tc y} : Finset (DevRef τ sig)) := rfl

/-- A reference the line does not write keeps its contents. -/
theorem lab1_9_frame (V : Valuation τ sig (Elt F)) {r : Ref sig .tc} (hr : r ∉ lab1_9_W) :
    after (lab1_9 (F := F)) V (no_index (Proc.devRef .tc r)) = V (Proc.devRef .tc r) :=
  Cert.RefLib.after_frame lab1_9_writes V hr

/-- The operations of relation label 10 in layer 1: the label's edge mask, the two products, and the two masked messages added to the running sum. -/
def lab1_10 : List (HloOp τ sig (Elt F)) :=
  [
    nullary main_c_108 (constantI S_ 32 10#32),
    unary main_c_108 main_v523 (broadcastInDim S8192 ![] bcast_S_S8192 : (⟨S_, .i32⟩ : BufTy).Contents (Elt F) → (⟨S8192, .i32⟩ : BufTy).Contents (Elt F)),
    binary main_arg2 main_v523 main_v524 (cmpi .eq : (⟨S8192, .i32⟩ : BufTy).Contents (Elt F) → (⟨S8192, .i32⟩ : BufTy).Contents (Elt F) → (⟨S8192, .i1⟩ : BufTy).Contents (Elt F)),
    unary main_v524 main_v525 (broadcastInDim S8192x1 ![0] bcast_S8192_S8192x1_0 : (⟨S8192, .i1⟩ : BufTy).Contents (Elt F) → (⟨S8192x1, .i1⟩ : BufTy).Contents (Elt F)),
    unary main_v5 main_v526 ((extractStridedSlice S1x512x512 ![10, 0, 0] · slices_S40x512x512_S1x512x512_10_0_0) : (⟨S40x512x512, .f32⟩ : BufTy).Contents (Elt F) → (⟨S1x512x512, .f32⟩ : BufTy).Contents (Elt F)),
    reshape main_v526 main_v527 rfl shapeCasts_S1x512x512_S512x512,
    unary main_v527 main_v528 ((transpose S512x512 [1, 0] · transposes_S512x512_S512x512_1_0) : (⟨S512x512, .f32⟩ : BufTy).Contents (Elt F) → (⟨S512x512, .f32⟩ : BufTy).Contents (Elt F)),
    binary main_arg0 main_v528 main_v529 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v530 ((extractStridedSlice S1x512 ![10, 0] · slices_S40x512_S1x512_10_0) : (⟨S40x512, .f32⟩ : BufTy).Contents (Elt F) → (⟨S1x512, .f32⟩ : BufTy).Contents (Elt F)),
    reshape main_v530 main_v531 rfl shapeCasts_S1x512_S512,
    unary main_v531 main_v532 (broadcastInDim S1x512 ![1] bcast_S512_S1x512_1 : (⟨S512, .f32⟩ : BufTy).Contents (Elt F) → (⟨S1x512, .f32⟩ : BufTy).Contents (Elt F)),
    unary main_v532 main_v533 (broadcastInDim S8192x512 ![0, 1] bcast_S1x512_S8192x512_0_1 : (⟨S1x512, .f32⟩ : BufTy).Contents (Elt F) → (⟨S8192x512, .f32⟩ : BufTy).Contents (Elt F)),
    binary main_v529 main_v533 main_v534 (addf : (⟨S8192x512, .f32⟩ : BufTy).Contents (Elt F) → (⟨S8192x512, .f32⟩ : BufTy).Contents (Elt F) → (⟨S8192x512, .f32⟩ : BufTy).Contents (Elt F)),
    nullary main_c_109 (constantI S_ 32 0#32),
    unary main_c_109 main_v535 (broadcastInDim S8192 ![] bcast_S_S8192 : (⟨S_, .i32⟩ : BufTy).Contents (Elt F) → (⟨S8192, .i32⟩ : BufTy).Contents (Elt F)),
    binary main_arg3 main_v535 main_v536 (cmpi .slt : (⟨S8192, .i32⟩ : BufTy).Contents (Elt F) → (⟨S8192, .i32⟩ : BufTy).Contents (Elt F) → (⟨S8192, .i1⟩ : BufTy).Contents (Elt F)),
    nullary main_c_110 (constantI S_ 32 8192#32),
    unary main_c_110 main_v537 (broadcastInDim S8192 ![] bcast_S_S8192 : (⟨S_, .i32⟩ : BufTy).Contents (Elt F) → (⟨S8192, .i32⟩ : BufTy).Contents (Elt F)),
    binary main_arg3 main_v537 main_v538 (addi : (⟨S8192, .i32⟩ : BufTy).Contents (Elt F) → (⟨S8192, .i32⟩ : BufTy).Contents (Elt F) → (⟨S8192, .i32⟩ : BufTy).Contents (Elt F)),
    ternary main_v536 main_v538 main_arg3 main_v539 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v539 main_v540 (broadcastInDim S8192x1 ![0] bcast_S8192_S8192x1_0 : (⟨S8192, .i32⟩ : BufTy).Contents (Elt F) → (⟨S8192x1, .i32⟩ : BufTy).Contents (Elt F)),
    binary main_v534 main_v540 main_v541 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_111 (constant S_ .f32 0x00000000#32),
    TRef.unary (TRef.of (T := ⟨S_, .f32⟩) main_cst_111) (TRef.of (T := ⟨S_, .f32⟩) main_call20_v0) id,
    TRef.unary (TRef.of (T := ⟨S8192x1, .i1⟩) main_v525) (TRef.of (T := ⟨S8192x512, .i1⟩) main_call20_v1) (broadcastInDim S8192x512 ![0, 1] bcast_S8192x1_S8192x512_0_1),
    TRef.unary (TRef.of (T := ⟨S_, .f32⟩) main_call20_v0) (TRef.of (T := ⟨S8192x512, .f32⟩) main_call20_v2) (broadcastInDim S8192x512 ![] bcast_S_S8192x512),
    TRef.ternary (TRef.of (T := ⟨S8192x512, .i1⟩) main_call20_v1) (TRef.of (T := ⟨S8192x512, .f32⟩) main_v541) (TRef.of (T := ⟨S8192x512, .f32⟩) main_call20_v2) (TRef.of (T := ⟨S8192x512, .f32⟩) main_v542) select,
    nullary main_c_112 (constantI S_ 32 0#32),
    unary main_c_112 main_v543 (broadcastInDim S8192 ![] bcast_S_S8192 : (⟨S_, .i32⟩ : BufTy).Contents (Elt F) → (⟨S8192, .i32⟩ : BufTy).Contents (Elt F)),
    binary main_arg1 main_v543 main_v544 (cmpi .slt : (⟨S8192, .i32⟩ : BufTy).Contents (Elt F) → (⟨S8192, .i32⟩ : BufTy).Contents (Elt F) → (⟨S8192, .i1⟩ : BufTy).Contents (Elt F)),
    nullary main_c_113 (constantI S_ 32 8192#32),
    unary main_c_113 main_v545 (broadcastInDim S8192 ![] bcast_S_S8192 : (⟨S_, .i32⟩ : BufTy).Contents (Elt F) → (⟨S8192, .i32⟩ : BufTy).Contents (Elt F)),
    binary main_arg1 main_v545 main_v546 (addi : (⟨S8192, .i32⟩ : BufTy).Contents (Elt F) → (⟨S8192, .i32⟩ : BufTy).Contents (Elt F) → (⟨S8192, .i32⟩ : BufTy).Contents (Elt F)),
    ternary main_v544 main_v546 main_arg1 main_v547 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v547 main_v548 (broadcastInDim S8192x1 ![0] bcast_S8192_S8192x1_0 : (⟨S8192, .i32⟩ : BufTy).Contents (Elt F) → (⟨S8192x1, .i32⟩ : BufTy).Contents (Elt F)),
    ternary main_v522 main_v548 main_v542 main_v549 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v550 ((extractStridedSlice S1x512x512 ![30, 0, 0] · slices_S40x512x512_S1x512x512_30_0_0) : (⟨S40x512x512, .f32⟩ : BufTy).Contents (Elt F) → (⟨S1x512x512, .f32⟩ : BufTy).Contents (Elt F)),
    reshape main_v550 main_v551 rfl shapeCasts_S1x512x512_S512x512,
    unary main_v551 main_v552 ((transpose S512x512 [1, 0] · transposes_S512x512_S512x512_1_0) : (⟨S512x512, .f32⟩ : BufTy).Contents (Elt F) → (⟨S512x512, .f32⟩ : BufTy).Contents (Elt F)),
    binary main_arg0 main_v552 main_v553 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v554 ((extractStridedSlice S1x512 ![30, 0] · slices_S40x512_S1x512_30_0) : (⟨S40x512, .f32⟩ : BufTy).Contents (Elt F) → (⟨S1x512, .f32⟩ : BufTy).Contents (Elt F)),
    reshape main_v554 main_v555 rfl shapeCasts_S1x512_S512,
    unary main_v555 main_v556 (broadcastInDim S1x512 ![1] bcast_S512_S1x512_1 : (⟨S512, .f32⟩ : BufTy).Contents (Elt F) → (⟨S1x512, .f32⟩ : BufTy).Contents (Elt F)),
    unary main_v556 main_v557 (broadcastInDim S8192x512 ![0, 1] bcast_S1x512_S8192x512_0_1 : (⟨S1x512, .f32⟩ : BufTy).Contents (Elt F) → (⟨S8192x512, .f32⟩ : BufTy).Contents (Elt F)),
    binary main_v553 main_v557 main_v558 (addf : (⟨S8192x512, .f32⟩ : BufTy).Contents (Elt F) → (⟨S8192x512, .f32⟩ : BufTy).Contents (Elt F) → (⟨S8192x512, .f32⟩ : BufTy).Contents (Elt F)),
    nullary main_c_114 (constantI S_ 32 0#32),
    unary main_c_114 main_v559 (broadcastInDim S8192 ![] bcast_S_S8192 : (⟨S_, .i32⟩ : BufTy).Contents (Elt F) → (⟨S8192, .i32⟩ : BufTy).Contents (Elt F)),
    binary main_arg1 main_v559 main_v560 (cmpi .slt : (⟨S8192, .i32⟩ : BufTy).Contents (Elt F) → (⟨S8192, .i32⟩ : BufTy).Contents (Elt F) → (⟨S8192, .i1⟩ : BufTy).Contents (Elt F)),
    nullary main_c_115 (constantI S_ 32 8192#32),
    unary main_c_115 main_v561 (broadcastInDim S8192 ![] bcast_S_S8192 : (⟨S_, .i32⟩ : BufTy).Contents (Elt F) → (⟨S8192, .i32⟩ : BufTy).Contents (Elt F)),
    binary main_arg1 main_v561 main_v562 (addi : (⟨S8192, .i32⟩ : BufTy).Contents (Elt F) → (⟨S8192, .i32⟩ : BufTy).Contents (Elt F) → (⟨S8192, .i32⟩ : BufTy).Contents (Elt F)),
    ternary main_v560 main_v562 main_arg1 main_v563 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v563 main_v564 (broadcastInDim S8192x1 ![0] bcast_S8192_S8192x1_0 : (⟨S8192, .i32⟩ : BufTy).Contents (Elt F) → (⟨S8192x1, .i32⟩ : BufTy).Contents (Elt F)),
    binary main_v558 main_v564 main_v565 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_116 (constant S_ .f32 0x00000000#32),
    TRef.unary (TRef.of (T := ⟨S_, .f32⟩) main_cst_116) (TRef.of (T := ⟨S_, .f32⟩) main_call21_v0) id,
    TRef.unary (TRef.of (T := ⟨S8192x1, .i1⟩) main_v525) (TRef.of (T := ⟨S8192x512, .i1⟩) main_call21_v1) (broadcastInDim S8192x512 ![0, 1] bcast_S8192x1_S8192x512_0_1),
    TRef.unary (TRef.of (T := ⟨S_, .f32⟩) main_call21_v0) (TRef.of (T := ⟨S8192x512, .f32⟩) main_call21_v2) (broadcastInDim S8192x512 ![] bcast_S_S8192x512),
    TRef.ternary (TRef.of (T := ⟨S8192x512, .i1⟩) main_call21_v1) (TRef.of (T := ⟨S8192x512, .f32⟩) main_v565) (TRef.of (T := ⟨S8192x512, .f32⟩) main_call21_v2) (TRef.of (T := ⟨S8192x512, .f32⟩) main_v566) select,
    nullary main_c_117 (constantI S_ 32 0#32),
    unary main_c_117 main_v567 (broadcastInDim S8192 ![] bcast_S_S8192 : (⟨S_, .i32⟩ : BufTy).Contents (Elt F) → (⟨S8192, .i32⟩ : BufTy).Contents (Elt F)),
    binary main_arg3 main_v567 main_v568 (cmpi .slt : (⟨S8192, .i32⟩ : BufTy).Contents (Elt F) → (⟨S8192, .i32⟩ : BufTy).Contents (Elt F) → (⟨S8192, .i1⟩ : BufTy).Contents (Elt F)),
    nullary main_c_118 (constantI S_ 32 8192#32),
    unary main_c_118 main_v569 (broadcastInDim S8192 ![] bcast_S_S8192 : (⟨S_, .i32⟩ : BufTy).Contents (Elt F) → (⟨S8192, .i32⟩ : BufTy).Contents (Elt F)),
    binary main_arg3 main_v569 main_v570 (addi : (⟨S8192, .i32⟩ : BufTy).Contents (Elt F) → (⟨S8192, .i32⟩ : BufTy).Contents (Elt F) → (⟨S8192, .i32⟩ : BufTy).Contents (Elt F)),
    ternary main_v568 main_v570 main_arg3 main_v571 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v571 main_v572 (broadcastInDim S8192x1 ![0] bcast_S8192_S8192x1_0 : (⟨S8192, .i32⟩ : BufTy).Contents (Elt F) → (⟨S8192x1, .i32⟩ : BufTy).Contents (Elt F)),
    ternary main_v549 main_v572 main_v566 main_v573 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_10_sub : (lab1_10 (F := F)).Forall fun op => op.bufs ⊆ tcRefs τ sig := by
  unfold lab1_10
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_10_fresh : (lab1_10 (F := F)).Forall fun op => op.fresh = ∅ := by
  all_fresh lab1_10

/-- The references the line writes, in order. -/
abbrev lab1_10_W : List (Ref sig .tc) := [main_c_108, main_v523, main_v524, main_v525, main_v526, main_v527, main_v528, main_v529, main_v530, main_v531, main_v532, main_v533, main_v534, main_c_109, main_v535, main_v536, main_c_110, main_v537, main_v538, main_v539, main_v540, main_v541, main_cst_111, main_call20_v0, main_call20_v1, main_call20_v2, main_v542, main_c_112, main_v543, main_v544, main_c_113, main_v545, main_v546, main_v547, main_v548, main_v549, main_v550, main_v551, main_v552, main_v553, main_v554, main_v555, main_v556, main_v557, main_v558, main_c_114, main_v559, main_v560, main_c_115, main_v561, main_v562, main_v563, main_v564, main_v565, main_cst_116, main_call21_v0, main_call21_v1, main_call21_v2, main_v566, main_c_117, main_v567, main_v568, main_c_118, main_v569, main_v570, main_v571, main_v572, main_v573]

theorem lab1_10_writes : (lab1_10 (F := F)).map (fun op => op.writes)
    = (lab1_10_W).map fun y => ({Proc.devRef (τ := τ) .tc y} : Finset (DevRef τ sig)) := rfl

/-- A reference the line does not write keeps its contents. -/
theorem lab1_10_frame (V : Valuation τ sig (Elt F)) {r : Ref sig .tc} (hr : r ∉ lab1_10_W) :
    after (lab1_10 (F := F)) V (no_index (Proc.devRef .tc r)) = V (Proc.devRef .tc r) :=
  Cert.RefLib.after_frame lab1_10_writes V hr

/-- The operations of relation label 11 in layer 1: the label's edge mask, the two products, and the two masked messages added to the running sum. -/
def lab1_11 : List (HloOp τ sig (Elt F)) :=
  [
    nullary main_c_119 (constantI S_ 32 11#32),
    unary main_c_119 main_v574 (broadcastInDim S8192 ![] bcast_S_S8192 : (⟨S_, .i32⟩ : BufTy).Contents (Elt F) → (⟨S8192, .i32⟩ : BufTy).Contents (Elt F)),
    binary main_arg2 main_v574 main_v575 (cmpi .eq : (⟨S8192, .i32⟩ : BufTy).Contents (Elt F) → (⟨S8192, .i32⟩ : BufTy).Contents (Elt F) → (⟨S8192, .i1⟩ : BufTy).Contents (Elt F)),
    unary main_v575 main_v576 (broadcastInDim S8192x1 ![0] bcast_S8192_S8192x1_0 : (⟨S8192, .i1⟩ : BufTy).Contents (Elt F) → (⟨S8192x1, .i1⟩ : BufTy).Contents (Elt F)),
    unary main_v5 main_v577 ((extractStridedSlice S1x512x512 ![11, 0, 0] · slices_S40x512x512_S1x512x512_11_0_0) : (⟨S40x512x512, .f32⟩ : BufTy).Contents (Elt F) → (⟨S1x512x512, .f32⟩ : BufTy).Contents (Elt F)),
    reshape main_v577 main_v578 rfl shapeCasts_S1x512x512_S512x512,
    unary main_v578 main_v579 ((transpose S512x512 [1, 0] · transposes_S512x512_S512x512_1_0) : (⟨S512x512, .f32⟩ : BufTy).Contents (Elt F) → (⟨S512x512, .f32⟩ : BufTy).Contents (Elt F)),
    binary main_arg0 main_v579 main_v580 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v581 ((extractStridedSlice S1x512 ![11, 0] · slices_S40x512_S1x512_11_0) : (⟨S40x512, .f32⟩ : BufTy).Contents (Elt F) → (⟨S1x512, .f32⟩ : BufTy).Contents (Elt F)),
    reshape main_v581 main_v582 rfl shapeCasts_S1x512_S512,
    unary main_v582 main_v583 (broadcastInDim S1x512 ![1] bcast_S512_S1x512_1 : (⟨S512, .f32⟩ : BufTy).Contents (Elt F) → (⟨S1x512, .f32⟩ : BufTy).Contents (Elt F)),
    unary main_v583 main_v584 (broadcastInDim S8192x512 ![0, 1] bcast_S1x512_S8192x512_0_1 : (⟨S1x512, .f32⟩ : BufTy).Contents (Elt F) → (⟨S8192x512, .f32⟩ : BufTy).Contents (Elt F)),
    binary main_v580 main_v584 main_v585 (addf : (⟨S8192x512, .f32⟩ : BufTy).Contents (Elt F) → (⟨S8192x512, .f32⟩ : BufTy).Contents (Elt F) → (⟨S8192x512, .f32⟩ : BufTy).Contents (Elt F)),
    nullary main_c_120 (constantI S_ 32 0#32),
    unary main_c_120 main_v586 (broadcastInDim S8192 ![] bcast_S_S8192 : (⟨S_, .i32⟩ : BufTy).Contents (Elt F) → (⟨S8192, .i32⟩ : BufTy).Contents (Elt F)),
    binary main_arg3 main_v586 main_v587 (cmpi .slt : (⟨S8192, .i32⟩ : BufTy).Contents (Elt F) → (⟨S8192, .i32⟩ : BufTy).Contents (Elt F) → (⟨S8192, .i1⟩ : BufTy).Contents (Elt F)),
    nullary main_c_121 (constantI S_ 32 8192#32),
    unary main_c_121 main_v588 (broadcastInDim S8192 ![] bcast_S_S8192 : (⟨S_, .i32⟩ : BufTy).Contents (Elt F) → (⟨S8192, .i32⟩ : BufTy).Contents (Elt F)),
    binary main_arg3 main_v588 main_v589 (addi : (⟨S8192, .i32⟩ : BufTy).Contents (Elt F) → (⟨S8192, .i32⟩ : BufTy).Contents (Elt F) → (⟨S8192, .i32⟩ : BufTy).Contents (Elt F)),
    ternary main_v587 main_v589 main_arg3 main_v590 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v590 main_v591 (broadcastInDim S8192x1 ![0] bcast_S8192_S8192x1_0 : (⟨S8192, .i32⟩ : BufTy).Contents (Elt F) → (⟨S8192x1, .i32⟩ : BufTy).Contents (Elt F)),
    binary main_v585 main_v591 main_v592 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_122 (constant S_ .f32 0x00000000#32),
    TRef.unary (TRef.of (T := ⟨S_, .f32⟩) main_cst_122) (TRef.of (T := ⟨S_, .f32⟩) main_call22_v0) id,
    TRef.unary (TRef.of (T := ⟨S8192x1, .i1⟩) main_v576) (TRef.of (T := ⟨S8192x512, .i1⟩) main_call22_v1) (broadcastInDim S8192x512 ![0, 1] bcast_S8192x1_S8192x512_0_1),
    TRef.unary (TRef.of (T := ⟨S_, .f32⟩) main_call22_v0) (TRef.of (T := ⟨S8192x512, .f32⟩) main_call22_v2) (broadcastInDim S8192x512 ![] bcast_S_S8192x512),
    TRef.ternary (TRef.of (T := ⟨S8192x512, .i1⟩) main_call22_v1) (TRef.of (T := ⟨S8192x512, .f32⟩) main_v592) (TRef.of (T := ⟨S8192x512, .f32⟩) main_call22_v2) (TRef.of (T := ⟨S8192x512, .f32⟩) main_v593) select,
    nullary main_c_123 (constantI S_ 32 0#32),
    unary main_c_123 main_v594 (broadcastInDim S8192 ![] bcast_S_S8192 : (⟨S_, .i32⟩ : BufTy).Contents (Elt F) → (⟨S8192, .i32⟩ : BufTy).Contents (Elt F)),
    binary main_arg1 main_v594 main_v595 (cmpi .slt : (⟨S8192, .i32⟩ : BufTy).Contents (Elt F) → (⟨S8192, .i32⟩ : BufTy).Contents (Elt F) → (⟨S8192, .i1⟩ : BufTy).Contents (Elt F)),
    nullary main_c_124 (constantI S_ 32 8192#32),
    unary main_c_124 main_v596 (broadcastInDim S8192 ![] bcast_S_S8192 : (⟨S_, .i32⟩ : BufTy).Contents (Elt F) → (⟨S8192, .i32⟩ : BufTy).Contents (Elt F)),
    binary main_arg1 main_v596 main_v597 (addi : (⟨S8192, .i32⟩ : BufTy).Contents (Elt F) → (⟨S8192, .i32⟩ : BufTy).Contents (Elt F) → (⟨S8192, .i32⟩ : BufTy).Contents (Elt F)),
    ternary main_v595 main_v597 main_arg1 main_v598 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v598 main_v599 (broadcastInDim S8192x1 ![0] bcast_S8192_S8192x1_0 : (⟨S8192, .i32⟩ : BufTy).Contents (Elt F) → (⟨S8192x1, .i32⟩ : BufTy).Contents (Elt F)),
    ternary main_v573 main_v599 main_v593 main_v600 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v601 ((extractStridedSlice S1x512x512 ![31, 0, 0] · slices_S40x512x512_S1x512x512_31_0_0) : (⟨S40x512x512, .f32⟩ : BufTy).Contents (Elt F) → (⟨S1x512x512, .f32⟩ : BufTy).Contents (Elt F)),
    reshape main_v601 main_v602 rfl shapeCasts_S1x512x512_S512x512,
    unary main_v602 main_v603 ((transpose S512x512 [1, 0] · transposes_S512x512_S512x512_1_0) : (⟨S512x512, .f32⟩ : BufTy).Contents (Elt F) → (⟨S512x512, .f32⟩ : BufTy).Contents (Elt F)),
    binary main_arg0 main_v603 main_v604 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v605 ((extractStridedSlice S1x512 ![31, 0] · slices_S40x512_S1x512_31_0) : (⟨S40x512, .f32⟩ : BufTy).Contents (Elt F) → (⟨S1x512, .f32⟩ : BufTy).Contents (Elt F)),
    reshape main_v605 main_v606 rfl shapeCasts_S1x512_S512,
    unary main_v606 main_v607 (broadcastInDim S1x512 ![1] bcast_S512_S1x512_1 : (⟨S512, .f32⟩ : BufTy).Contents (Elt F) → (⟨S1x512, .f32⟩ : BufTy).Contents (Elt F)),
    unary main_v607 main_v608 (broadcastInDim S8192x512 ![0, 1] bcast_S1x512_S8192x512_0_1 : (⟨S1x512, .f32⟩ : BufTy).Contents (Elt F) → (⟨S8192x512, .f32⟩ : BufTy).Contents (Elt F)),
    binary main_v604 main_v608 main_v609 (addf : (⟨S8192x512, .f32⟩ : BufTy).Contents (Elt F) → (⟨S8192x512, .f32⟩ : BufTy).Contents (Elt F) → (⟨S8192x512, .f32⟩ : BufTy).Contents (Elt F)),
    nullary main_c_125 (constantI S_ 32 0#32),
    unary main_c_125 main_v610 (broadcastInDim S8192 ![] bcast_S_S8192 : (⟨S_, .i32⟩ : BufTy).Contents (Elt F) → (⟨S8192, .i32⟩ : BufTy).Contents (Elt F)),
    binary main_arg1 main_v610 main_v611 (cmpi .slt : (⟨S8192, .i32⟩ : BufTy).Contents (Elt F) → (⟨S8192, .i32⟩ : BufTy).Contents (Elt F) → (⟨S8192, .i1⟩ : BufTy).Contents (Elt F)),
    nullary main_c_126 (constantI S_ 32 8192#32),
    unary main_c_126 main_v612 (broadcastInDim S8192 ![] bcast_S_S8192 : (⟨S_, .i32⟩ : BufTy).Contents (Elt F) → (⟨S8192, .i32⟩ : BufTy).Contents (Elt F)),
    binary main_arg1 main_v612 main_v613 (addi : (⟨S8192, .i32⟩ : BufTy).Contents (Elt F) → (⟨S8192, .i32⟩ : BufTy).Contents (Elt F) → (⟨S8192, .i32⟩ : BufTy).Contents (Elt F)),
    ternary main_v611 main_v613 main_arg1 main_v614 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v614 main_v615 (broadcastInDim S8192x1 ![0] bcast_S8192_S8192x1_0 : (⟨S8192, .i32⟩ : BufTy).Contents (Elt F) → (⟨S8192x1, .i32⟩ : BufTy).Contents (Elt F)),
    binary main_v609 main_v615 main_v616 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_127 (constant S_ .f32 0x00000000#32),
    TRef.unary (TRef.of (T := ⟨S_, .f32⟩) main_cst_127) (TRef.of (T := ⟨S_, .f32⟩) main_call23_v0) id,
    TRef.unary (TRef.of (T := ⟨S8192x1, .i1⟩) main_v576) (TRef.of (T := ⟨S8192x512, .i1⟩) main_call23_v1) (broadcastInDim S8192x512 ![0, 1] bcast_S8192x1_S8192x512_0_1),
    TRef.unary (TRef.of (T := ⟨S_, .f32⟩) main_call23_v0) (TRef.of (T := ⟨S8192x512, .f32⟩) main_call23_v2) (broadcastInDim S8192x512 ![] bcast_S_S8192x512),
    TRef.ternary (TRef.of (T := ⟨S8192x512, .i1⟩) main_call23_v1) (TRef.of (T := ⟨S8192x512, .f32⟩) main_v616) (TRef.of (T := ⟨S8192x512, .f32⟩) main_call23_v2) (TRef.of (T := ⟨S8192x512, .f32⟩) main_v617) select,
    nullary main_c_128 (constantI S_ 32 0#32),
    unary main_c_128 main_v618 (broadcastInDim S8192 ![] bcast_S_S8192 : (⟨S_, .i32⟩ : BufTy).Contents (Elt F) → (⟨S8192, .i32⟩ : BufTy).Contents (Elt F)),
    binary main_arg3 main_v618 main_v619 (cmpi .slt : (⟨S8192, .i32⟩ : BufTy).Contents (Elt F) → (⟨S8192, .i32⟩ : BufTy).Contents (Elt F) → (⟨S8192, .i1⟩ : BufTy).Contents (Elt F)),
    nullary main_c_129 (constantI S_ 32 8192#32),
    unary main_c_129 main_v620 (broadcastInDim S8192 ![] bcast_S_S8192 : (⟨S_, .i32⟩ : BufTy).Contents (Elt F) → (⟨S8192, .i32⟩ : BufTy).Contents (Elt F)),
    binary main_arg3 main_v620 main_v621 (addi : (⟨S8192, .i32⟩ : BufTy).Contents (Elt F) → (⟨S8192, .i32⟩ : BufTy).Contents (Elt F) → (⟨S8192, .i32⟩ : BufTy).Contents (Elt F)),
    ternary main_v619 main_v621 main_arg3 main_v622 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v622 main_v623 (broadcastInDim S8192x1 ![0] bcast_S8192_S8192x1_0 : (⟨S8192, .i32⟩ : BufTy).Contents (Elt F) → (⟨S8192x1, .i32⟩ : BufTy).Contents (Elt F)),
    ternary main_v600 main_v623 main_v617 main_v624 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_11_sub : (lab1_11 (F := F)).Forall fun op => op.bufs ⊆ tcRefs τ sig := by
  unfold lab1_11
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_11_fresh : (lab1_11 (F := F)).Forall fun op => op.fresh = ∅ := by
  all_fresh lab1_11

/-- The references the line writes, in order. -/
abbrev lab1_11_W : List (Ref sig .tc) := [main_c_119, main_v574, main_v575, main_v576, main_v577, main_v578, main_v579, main_v580, main_v581, main_v582, main_v583, main_v584, main_v585, main_c_120, main_v586, main_v587, main_c_121, main_v588, main_v589, main_v590, main_v591, main_v592, main_cst_122, main_call22_v0, main_call22_v1, main_call22_v2, main_v593, main_c_123, main_v594, main_v595, main_c_124, main_v596, main_v597, main_v598, main_v599, main_v600, main_v601, main_v602, main_v603, main_v604, main_v605, main_v606, main_v607, main_v608, main_v609, main_c_125, main_v610, main_v611, main_c_126, main_v612, main_v613, main_v614, main_v615, main_v616, main_cst_127, main_call23_v0, main_call23_v1, main_call23_v2, main_v617, main_c_128, main_v618, main_v619, main_c_129, main_v620, main_v621, main_v622, main_v623, main_v624]

theorem lab1_11_writes : (lab1_11 (F := F)).map (fun op => op.writes)
    = (lab1_11_W).map fun y => ({Proc.devRef (τ := τ) .tc y} : Finset (DevRef τ sig)) := rfl

/-- A reference the line does not write keeps its contents. -/
theorem lab1_11_frame (V : Valuation τ sig (Elt F)) {r : Ref sig .tc} (hr : r ∉ lab1_11_W) :
    after (lab1_11 (F := F)) V (no_index (Proc.devRef .tc r)) = V (Proc.devRef .tc r) :=
  Cert.RefLib.after_frame lab1_11_writes V hr

/-- The operations of relation label 12 in layer 1: the label's edge mask, the two products, and the two masked messages added to the running sum. -/
def lab1_12 : List (HloOp τ sig (Elt F)) :=
  [
    nullary main_c_130 (constantI S_ 32 12#32),
    unary main_c_130 main_v625 (broadcastInDim S8192 ![] bcast_S_S8192 : (⟨S_, .i32⟩ : BufTy).Contents (Elt F) → (⟨S8192, .i32⟩ : BufTy).Contents (Elt F)),
    binary main_arg2 main_v625 main_v626 (cmpi .eq : (⟨S8192, .i32⟩ : BufTy).Contents (Elt F) → (⟨S8192, .i32⟩ : BufTy).Contents (Elt F) → (⟨S8192, .i1⟩ : BufTy).Contents (Elt F)),
    unary main_v626 main_v627 (broadcastInDim S8192x1 ![0] bcast_S8192_S8192x1_0 : (⟨S8192, .i1⟩ : BufTy).Contents (Elt F) → (⟨S8192x1, .i1⟩ : BufTy).Contents (Elt F)),
    unary main_v5 main_v628 ((extractStridedSlice S1x512x512 ![12, 0, 0] · slices_S40x512x512_S1x512x512_12_0_0) : (⟨S40x512x512, .f32⟩ : BufTy).Contents (Elt F) → (⟨S1x512x512, .f32⟩ : BufTy).Contents (Elt F)),
    reshape main_v628 main_v629 rfl shapeCasts_S1x512x512_S512x512,
    unary main_v629 main_v630 ((transpose S512x512 [1, 0] · transposes_S512x512_S512x512_1_0) : (⟨S512x512, .f32⟩ : BufTy).Contents (Elt F) → (⟨S512x512, .f32⟩ : BufTy).Contents (Elt F)),
    binary main_arg0 main_v630 main_v631 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v632 ((extractStridedSlice S1x512 ![12, 0] · slices_S40x512_S1x512_12_0) : (⟨S40x512, .f32⟩ : BufTy).Contents (Elt F) → (⟨S1x512, .f32⟩ : BufTy).Contents (Elt F)),
    reshape main_v632 main_v633 rfl shapeCasts_S1x512_S512,
    unary main_v633 main_v634 (broadcastInDim S1x512 ![1] bcast_S512_S1x512_1 : (⟨S512, .f32⟩ : BufTy).Contents (Elt F) → (⟨S1x512, .f32⟩ : BufTy).Contents (Elt F)),
    unary main_v634 main_v635 (broadcastInDim S8192x512 ![0, 1] bcast_S1x512_S8192x512_0_1 : (⟨S1x512, .f32⟩ : BufTy).Contents (Elt F) → (⟨S8192x512, .f32⟩ : BufTy).Contents (Elt F)),
    binary main_v631 main_v635 main_v636 (addf : (⟨S8192x512, .f32⟩ : BufTy).Contents (Elt F) → (⟨S8192x512, .f32⟩ : BufTy).Contents (Elt F) → (⟨S8192x512, .f32⟩ : BufTy).Contents (Elt F)),
    nullary main_c_131 (constantI S_ 32 0#32),
    unary main_c_131 main_v637 (broadcastInDim S8192 ![] bcast_S_S8192 : (⟨S_, .i32⟩ : BufTy).Contents (Elt F) → (⟨S8192, .i32⟩ : BufTy).Contents (Elt F)),
    binary main_arg3 main_v637 main_v638 (cmpi .slt : (⟨S8192, .i32⟩ : BufTy).Contents (Elt F) → (⟨S8192, .i32⟩ : BufTy).Contents (Elt F) → (⟨S8192, .i1⟩ : BufTy).Contents (Elt F)),
    nullary main_c_132 (constantI S_ 32 8192#32),
    unary main_c_132 main_v639 (broadcastInDim S8192 ![] bcast_S_S8192 : (⟨S_, .i32⟩ : BufTy).Contents (Elt F) → (⟨S8192, .i32⟩ : BufTy).Contents (Elt F)),
    binary main_arg3 main_v639 main_v640 (addi : (⟨S8192, .i32⟩ : BufTy).Contents (Elt F) → (⟨S8192, .i32⟩ : BufTy).Contents (Elt F) → (⟨S8192, .i32⟩ : BufTy).Contents (Elt F)),
    ternary main_v638 main_v640 main_arg3 main_v641 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v641 main_v642 (broadcastInDim S8192x1 ![0] bcast_S8192_S8192x1_0 : (⟨S8192, .i32⟩ : BufTy).Contents (Elt F) → (⟨S8192x1, .i32⟩ : BufTy).Contents (Elt F)),
    binary main_v636 main_v642 main_v643 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_133 (constant S_ .f32 0x00000000#32),
    TRef.unary (TRef.of (T := ⟨S_, .f32⟩) main_cst_133) (TRef.of (T := ⟨S_, .f32⟩) main_call24_v0) id,
    TRef.unary (TRef.of (T := ⟨S8192x1, .i1⟩) main_v627) (TRef.of (T := ⟨S8192x512, .i1⟩) main_call24_v1) (broadcastInDim S8192x512 ![0, 1] bcast_S8192x1_S8192x512_0_1),
    TRef.unary (TRef.of (T := ⟨S_, .f32⟩) main_call24_v0) (TRef.of (T := ⟨S8192x512, .f32⟩) main_call24_v2) (broadcastInDim S8192x512 ![] bcast_S_S8192x512),
    TRef.ternary (TRef.of (T := ⟨S8192x512, .i1⟩) main_call24_v1) (TRef.of (T := ⟨S8192x512, .f32⟩) main_v643) (TRef.of (T := ⟨S8192x512, .f32⟩) main_call24_v2) (TRef.of (T := ⟨S8192x512, .f32⟩) main_v644) select,
    nullary main_c_134 (constantI S_ 32 0#32),
    unary main_c_134 main_v645 (broadcastInDim S8192 ![] bcast_S_S8192 : (⟨S_, .i32⟩ : BufTy).Contents (Elt F) → (⟨S8192, .i32⟩ : BufTy).Contents (Elt F)),
    binary main_arg1 main_v645 main_v646 (cmpi .slt : (⟨S8192, .i32⟩ : BufTy).Contents (Elt F) → (⟨S8192, .i32⟩ : BufTy).Contents (Elt F) → (⟨S8192, .i1⟩ : BufTy).Contents (Elt F)),
    nullary main_c_135 (constantI S_ 32 8192#32),
    unary main_c_135 main_v647 (broadcastInDim S8192 ![] bcast_S_S8192 : (⟨S_, .i32⟩ : BufTy).Contents (Elt F) → (⟨S8192, .i32⟩ : BufTy).Contents (Elt F)),
    binary main_arg1 main_v647 main_v648 (addi : (⟨S8192, .i32⟩ : BufTy).Contents (Elt F) → (⟨S8192, .i32⟩ : BufTy).Contents (Elt F) → (⟨S8192, .i32⟩ : BufTy).Contents (Elt F)),
    ternary main_v646 main_v648 main_arg1 main_v649 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v649 main_v650 (broadcastInDim S8192x1 ![0] bcast_S8192_S8192x1_0 : (⟨S8192, .i32⟩ : BufTy).Contents (Elt F) → (⟨S8192x1, .i32⟩ : BufTy).Contents (Elt F)),
    ternary main_v624 main_v650 main_v644 main_v651 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v652 ((extractStridedSlice S1x512x512 ![32, 0, 0] · slices_S40x512x512_S1x512x512_32_0_0) : (⟨S40x512x512, .f32⟩ : BufTy).Contents (Elt F) → (⟨S1x512x512, .f32⟩ : BufTy).Contents (Elt F)),
    reshape main_v652 main_v653 rfl shapeCasts_S1x512x512_S512x512,
    unary main_v653 main_v654 ((transpose S512x512 [1, 0] · transposes_S512x512_S512x512_1_0) : (⟨S512x512, .f32⟩ : BufTy).Contents (Elt F) → (⟨S512x512, .f32⟩ : BufTy).Contents (Elt F)),
    binary main_arg0 main_v654 main_v655 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v656 ((extractStridedSlice S1x512 ![32, 0] · slices_S40x512_S1x512_32_0) : (⟨S40x512, .f32⟩ : BufTy).Contents (Elt F) → (⟨S1x512, .f32⟩ : BufTy).Contents (Elt F)),
    reshape main_v656 main_v657 rfl shapeCasts_S1x512_S512,
    unary main_v657 main_v658 (broadcastInDim S1x512 ![1] bcast_S512_S1x512_1 : (⟨S512, .f32⟩ : BufTy).Contents (Elt F) → (⟨S1x512, .f32⟩ : BufTy).Contents (Elt F)),
    unary main_v658 main_v659 (broadcastInDim S8192x512 ![0, 1] bcast_S1x512_S8192x512_0_1 : (⟨S1x512, .f32⟩ : BufTy).Contents (Elt F) → (⟨S8192x512, .f32⟩ : BufTy).Contents (Elt F)),
    binary main_v655 main_v659 main_v660 (addf : (⟨S8192x512, .f32⟩ : BufTy).Contents (Elt F) → (⟨S8192x512, .f32⟩ : BufTy).Contents (Elt F) → (⟨S8192x512, .f32⟩ : BufTy).Contents (Elt F)),
    nullary main_c_136 (constantI S_ 32 0#32),
    unary main_c_136 main_v661 (broadcastInDim S8192 ![] bcast_S_S8192 : (⟨S_, .i32⟩ : BufTy).Contents (Elt F) → (⟨S8192, .i32⟩ : BufTy).Contents (Elt F)),
    binary main_arg1 main_v661 main_v662 (cmpi .slt : (⟨S8192, .i32⟩ : BufTy).Contents (Elt F) → (⟨S8192, .i32⟩ : BufTy).Contents (Elt F) → (⟨S8192, .i1⟩ : BufTy).Contents (Elt F)),
    nullary main_c_137 (constantI S_ 32 8192#32),
    unary main_c_137 main_v663 (broadcastInDim S8192 ![] bcast_S_S8192 : (⟨S_, .i32⟩ : BufTy).Contents (Elt F) → (⟨S8192, .i32⟩ : BufTy).Contents (Elt F)),
    binary main_arg1 main_v663 main_v664 (addi : (⟨S8192, .i32⟩ : BufTy).Contents (Elt F) → (⟨S8192, .i32⟩ : BufTy).Contents (Elt F) → (⟨S8192, .i32⟩ : BufTy).Contents (Elt F)),
    ternary main_v662 main_v664 main_arg1 main_v665 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v665 main_v666 (broadcastInDim S8192x1 ![0] bcast_S8192_S8192x1_0 : (⟨S8192, .i32⟩ : BufTy).Contents (Elt F) → (⟨S8192x1, .i32⟩ : BufTy).Contents (Elt F)),
    binary main_v660 main_v666 main_v667 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_138 (constant S_ .f32 0x00000000#32),
    TRef.unary (TRef.of (T := ⟨S_, .f32⟩) main_cst_138) (TRef.of (T := ⟨S_, .f32⟩) main_call25_v0) id,
    TRef.unary (TRef.of (T := ⟨S8192x1, .i1⟩) main_v627) (TRef.of (T := ⟨S8192x512, .i1⟩) main_call25_v1) (broadcastInDim S8192x512 ![0, 1] bcast_S8192x1_S8192x512_0_1),
    TRef.unary (TRef.of (T := ⟨S_, .f32⟩) main_call25_v0) (TRef.of (T := ⟨S8192x512, .f32⟩) main_call25_v2) (broadcastInDim S8192x512 ![] bcast_S_S8192x512),
    TRef.ternary (TRef.of (T := ⟨S8192x512, .i1⟩) main_call25_v1) (TRef.of (T := ⟨S8192x512, .f32⟩) main_v667) (TRef.of (T := ⟨S8192x512, .f32⟩) main_call25_v2) (TRef.of (T := ⟨S8192x512, .f32⟩) main_v668) select,
    nullary main_c_139 (constantI S_ 32 0#32),
    unary main_c_139 main_v669 (broadcastInDim S8192 ![] bcast_S_S8192 : (⟨S_, .i32⟩ : BufTy).Contents (Elt F) → (⟨S8192, .i32⟩ : BufTy).Contents (Elt F)),
    binary main_arg3 main_v669 main_v670 (cmpi .slt : (⟨S8192, .i32⟩ : BufTy).Contents (Elt F) → (⟨S8192, .i32⟩ : BufTy).Contents (Elt F) → (⟨S8192, .i1⟩ : BufTy).Contents (Elt F)),
    nullary main_c_140 (constantI S_ 32 8192#32),
    unary main_c_140 main_v671 (broadcastInDim S8192 ![] bcast_S_S8192 : (⟨S_, .i32⟩ : BufTy).Contents (Elt F) → (⟨S8192, .i32⟩ : BufTy).Contents (Elt F)),
    binary main_arg3 main_v671 main_v672 (addi : (⟨S8192, .i32⟩ : BufTy).Contents (Elt F) → (⟨S8192, .i32⟩ : BufTy).Contents (Elt F) → (⟨S8192, .i32⟩ : BufTy).Contents (Elt F)),
    ternary main_v670 main_v672 main_arg3 main_v673 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v673 main_v674 (broadcastInDim S8192x1 ![0] bcast_S8192_S8192x1_0 : (⟨S8192, .i32⟩ : BufTy).Contents (Elt F) → (⟨S8192x1, .i32⟩ : BufTy).Contents (Elt F)),
    ternary main_v651 main_v674 main_v668 main_v675 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_12_sub : (lab1_12 (F := F)).Forall fun op => op.bufs ⊆ tcRefs τ sig := by
  unfold lab1_12
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_12_fresh : (lab1_12 (F := F)).Forall fun op => op.fresh = ∅ := by
  all_fresh lab1_12

/-- The references the line writes, in order. -/
abbrev lab1_12_W : List (Ref sig .tc) := [main_c_130, main_v625, main_v626, main_v627, main_v628, main_v629, main_v630, main_v631, main_v632, main_v633, main_v634, main_v635, main_v636, main_c_131, main_v637, main_v638, main_c_132, main_v639, main_v640, main_v641, main_v642, main_v643, main_cst_133, main_call24_v0, main_call24_v1, main_call24_v2, main_v644, main_c_134, main_v645, main_v646, main_c_135, main_v647, main_v648, main_v649, main_v650, main_v651, main_v652, main_v653, main_v654, main_v655, main_v656, main_v657, main_v658, main_v659, main_v660, main_c_136, main_v661, main_v662, main_c_137, main_v663, main_v664, main_v665, main_v666, main_v667, main_cst_138, main_call25_v0, main_call25_v1, main_call25_v2, main_v668, main_c_139, main_v669, main_v670, main_c_140, main_v671, main_v672, main_v673, main_v674, main_v675]

theorem lab1_12_writes : (lab1_12 (F := F)).map (fun op => op.writes)
    = (lab1_12_W).map fun y => ({Proc.devRef (τ := τ) .tc y} : Finset (DevRef τ sig)) := rfl

/-- A reference the line does not write keeps its contents. -/
theorem lab1_12_frame (V : Valuation τ sig (Elt F)) {r : Ref sig .tc} (hr : r ∉ lab1_12_W) :
    after (lab1_12 (F := F)) V (no_index (Proc.devRef .tc r)) = V (Proc.devRef .tc r) :=
  Cert.RefLib.after_frame lab1_12_writes V hr

/-- The operations of relation label 13 in layer 1: the label's edge mask, the two products, and the two masked messages added to the running sum. -/
def lab1_13 : List (HloOp τ sig (Elt F)) :=
  [
    nullary main_c_141 (constantI S_ 32 13#32),
    unary main_c_141 main_v676 (broadcastInDim S8192 ![] bcast_S_S8192 : (⟨S_, .i32⟩ : BufTy).Contents (Elt F) → (⟨S8192, .i32⟩ : BufTy).Contents (Elt F)),
    binary main_arg2 main_v676 main_v677 (cmpi .eq : (⟨S8192, .i32⟩ : BufTy).Contents (Elt F) → (⟨S8192, .i32⟩ : BufTy).Contents (Elt F) → (⟨S8192, .i1⟩ : BufTy).Contents (Elt F)),
    unary main_v677 main_v678 (broadcastInDim S8192x1 ![0] bcast_S8192_S8192x1_0 : (⟨S8192, .i1⟩ : BufTy).Contents (Elt F) → (⟨S8192x1, .i1⟩ : BufTy).Contents (Elt F)),
    unary main_v5 main_v679 ((extractStridedSlice S1x512x512 ![13, 0, 0] · slices_S40x512x512_S1x512x512_13_0_0) : (⟨S40x512x512, .f32⟩ : BufTy).Contents (Elt F) → (⟨S1x512x512, .f32⟩ : BufTy).Contents (Elt F)),
    reshape main_v679 main_v680 rfl shapeCasts_S1x512x512_S512x512,
    unary main_v680 main_v681 ((transpose S512x512 [1, 0] · transposes_S512x512_S512x512_1_0) : (⟨S512x512, .f32⟩ : BufTy).Contents (Elt F) → (⟨S512x512, .f32⟩ : BufTy).Contents (Elt F)),
    binary main_arg0 main_v681 main_v682 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v683 ((extractStridedSlice S1x512 ![13, 0] · slices_S40x512_S1x512_13_0) : (⟨S40x512, .f32⟩ : BufTy).Contents (Elt F) → (⟨S1x512, .f32⟩ : BufTy).Contents (Elt F)),
    reshape main_v683 main_v684 rfl shapeCasts_S1x512_S512,
    unary main_v684 main_v685 (broadcastInDim S1x512 ![1] bcast_S512_S1x512_1 : (⟨S512, .f32⟩ : BufTy).Contents (Elt F) → (⟨S1x512, .f32⟩ : BufTy).Contents (Elt F)),
    unary main_v685 main_v686 (broadcastInDim S8192x512 ![0, 1] bcast_S1x512_S8192x512_0_1 : (⟨S1x512, .f32⟩ : BufTy).Contents (Elt F) → (⟨S8192x512, .f32⟩ : BufTy).Contents (Elt F)),
    binary main_v682 main_v686 main_v687 (addf : (⟨S8192x512, .f32⟩ : BufTy).Contents (Elt F) → (⟨S8192x512, .f32⟩ : BufTy).Contents (Elt F) → (⟨S8192x512, .f32⟩ : BufTy).Contents (Elt F)),
    nullary main_c_142 (constantI S_ 32 0#32),
    unary main_c_142 main_v688 (broadcastInDim S8192 ![] bcast_S_S8192 : (⟨S_, .i32⟩ : BufTy).Contents (Elt F) → (⟨S8192, .i32⟩ : BufTy).Contents (Elt F)),
    binary main_arg3 main_v688 main_v689 (cmpi .slt : (⟨S8192, .i32⟩ : BufTy).Contents (Elt F) → (⟨S8192, .i32⟩ : BufTy).Contents (Elt F) → (⟨S8192, .i1⟩ : BufTy).Contents (Elt F)),
    nullary main_c_143 (constantI S_ 32 8192#32),
    unary main_c_143 main_v690 (broadcastInDim S8192 ![] bcast_S_S8192 : (⟨S_, .i32⟩ : BufTy).Contents (Elt F) → (⟨S8192, .i32⟩ : BufTy).Contents (Elt F)),
    binary main_arg3 main_v690 main_v691 (addi : (⟨S8192, .i32⟩ : BufTy).Contents (Elt F) → (⟨S8192, .i32⟩ : BufTy).Contents (Elt F) → (⟨S8192, .i32⟩ : BufTy).Contents (Elt F)),
    ternary main_v689 main_v691 main_arg3 main_v692 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v692 main_v693 (broadcastInDim S8192x1 ![0] bcast_S8192_S8192x1_0 : (⟨S8192, .i32⟩ : BufTy).Contents (Elt F) → (⟨S8192x1, .i32⟩ : BufTy).Contents (Elt F)),
    binary main_v687 main_v693 main_v694 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_144 (constant S_ .f32 0x00000000#32),
    TRef.unary (TRef.of (T := ⟨S_, .f32⟩) main_cst_144) (TRef.of (T := ⟨S_, .f32⟩) main_call26_v0) id,
    TRef.unary (TRef.of (T := ⟨S8192x1, .i1⟩) main_v678) (TRef.of (T := ⟨S8192x512, .i1⟩) main_call26_v1) (broadcastInDim S8192x512 ![0, 1] bcast_S8192x1_S8192x512_0_1),
    TRef.unary (TRef.of (T := ⟨S_, .f32⟩) main_call26_v0) (TRef.of (T := ⟨S8192x512, .f32⟩) main_call26_v2) (broadcastInDim S8192x512 ![] bcast_S_S8192x512),
    TRef.ternary (TRef.of (T := ⟨S8192x512, .i1⟩) main_call26_v1) (TRef.of (T := ⟨S8192x512, .f32⟩) main_v694) (TRef.of (T := ⟨S8192x512, .f32⟩) main_call26_v2) (TRef.of (T := ⟨S8192x512, .f32⟩) main_v695) select,
    nullary main_c_145 (constantI S_ 32 0#32),
    unary main_c_145 main_v696 (broadcastInDim S8192 ![] bcast_S_S8192 : (⟨S_, .i32⟩ : BufTy).Contents (Elt F) → (⟨S8192, .i32⟩ : BufTy).Contents (Elt F)),
    binary main_arg1 main_v696 main_v697 (cmpi .slt : (⟨S8192, .i32⟩ : BufTy).Contents (Elt F) → (⟨S8192, .i32⟩ : BufTy).Contents (Elt F) → (⟨S8192, .i1⟩ : BufTy).Contents (Elt F)),
    nullary main_c_146 (constantI S_ 32 8192#32),
    unary main_c_146 main_v698 (broadcastInDim S8192 ![] bcast_S_S8192 : (⟨S_, .i32⟩ : BufTy).Contents (Elt F) → (⟨S8192, .i32⟩ : BufTy).Contents (Elt F)),
    binary main_arg1 main_v698 main_v699 (addi : (⟨S8192, .i32⟩ : BufTy).Contents (Elt F) → (⟨S8192, .i32⟩ : BufTy).Contents (Elt F) → (⟨S8192, .i32⟩ : BufTy).Contents (Elt F)),
    ternary main_v697 main_v699 main_arg1 main_v700 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v700 main_v701 (broadcastInDim S8192x1 ![0] bcast_S8192_S8192x1_0 : (⟨S8192, .i32⟩ : BufTy).Contents (Elt F) → (⟨S8192x1, .i32⟩ : BufTy).Contents (Elt F)),
    ternary main_v675 main_v701 main_v695 main_v702 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v703 ((extractStridedSlice S1x512x512 ![33, 0, 0] · slices_S40x512x512_S1x512x512_33_0_0) : (⟨S40x512x512, .f32⟩ : BufTy).Contents (Elt F) → (⟨S1x512x512, .f32⟩ : BufTy).Contents (Elt F)),
    reshape main_v703 main_v704 rfl shapeCasts_S1x512x512_S512x512,
    unary main_v704 main_v705 ((transpose S512x512 [1, 0] · transposes_S512x512_S512x512_1_0) : (⟨S512x512, .f32⟩ : BufTy).Contents (Elt F) → (⟨S512x512, .f32⟩ : BufTy).Contents (Elt F)),
    binary main_arg0 main_v705 main_v706 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v707 ((extractStridedSlice S1x512 ![33, 0] · slices_S40x512_S1x512_33_0) : (⟨S40x512, .f32⟩ : BufTy).Contents (Elt F) → (⟨S1x512, .f32⟩ : BufTy).Contents (Elt F)),
    reshape main_v707 main_v708 rfl shapeCasts_S1x512_S512,
    unary main_v708 main_v709 (broadcastInDim S1x512 ![1] bcast_S512_S1x512_1 : (⟨S512, .f32⟩ : BufTy).Contents (Elt F) → (⟨S1x512, .f32⟩ : BufTy).Contents (Elt F)),
    unary main_v709 main_v710 (broadcastInDim S8192x512 ![0, 1] bcast_S1x512_S8192x512_0_1 : (⟨S1x512, .f32⟩ : BufTy).Contents (Elt F) → (⟨S8192x512, .f32⟩ : BufTy).Contents (Elt F)),
    binary main_v706 main_v710 main_v711 (addf : (⟨S8192x512, .f32⟩ : BufTy).Contents (Elt F) → (⟨S8192x512, .f32⟩ : BufTy).Contents (Elt F) → (⟨S8192x512, .f32⟩ : BufTy).Contents (Elt F)),
    nullary main_c_147 (constantI S_ 32 0#32),
    unary main_c_147 main_v712 (broadcastInDim S8192 ![] bcast_S_S8192 : (⟨S_, .i32⟩ : BufTy).Contents (Elt F) → (⟨S8192, .i32⟩ : BufTy).Contents (Elt F)),
    binary main_arg1 main_v712 main_v713 (cmpi .slt : (⟨S8192, .i32⟩ : BufTy).Contents (Elt F) → (⟨S8192, .i32⟩ : BufTy).Contents (Elt F) → (⟨S8192, .i1⟩ : BufTy).Contents (Elt F)),
    nullary main_c_148 (constantI S_ 32 8192#32),
    unary main_c_148 main_v714 (broadcastInDim S8192 ![] bcast_S_S8192 : (⟨S_, .i32⟩ : BufTy).Contents (Elt F) → (⟨S8192, .i32⟩ : BufTy).Contents (Elt F)),
    binary main_arg1 main_v714 main_v715 (addi : (⟨S8192, .i32⟩ : BufTy).Contents (Elt F) → (⟨S8192, .i32⟩ : BufTy).Contents (Elt F) → (⟨S8192, .i32⟩ : BufTy).Contents (Elt F)),
    ternary main_v713 main_v715 main_arg1 main_v716 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v716 main_v717 (broadcastInDim S8192x1 ![0] bcast_S8192_S8192x1_0 : (⟨S8192, .i32⟩ : BufTy).Contents (Elt F) → (⟨S8192x1, .i32⟩ : BufTy).Contents (Elt F)),
    binary main_v711 main_v717 main_v718 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_149 (constant S_ .f32 0x00000000#32),
    TRef.unary (TRef.of (T := ⟨S_, .f32⟩) main_cst_149) (TRef.of (T := ⟨S_, .f32⟩) main_call27_v0) id,
    TRef.unary (TRef.of (T := ⟨S8192x1, .i1⟩) main_v678) (TRef.of (T := ⟨S8192x512, .i1⟩) main_call27_v1) (broadcastInDim S8192x512 ![0, 1] bcast_S8192x1_S8192x512_0_1),
    TRef.unary (TRef.of (T := ⟨S_, .f32⟩) main_call27_v0) (TRef.of (T := ⟨S8192x512, .f32⟩) main_call27_v2) (broadcastInDim S8192x512 ![] bcast_S_S8192x512),
    TRef.ternary (TRef.of (T := ⟨S8192x512, .i1⟩) main_call27_v1) (TRef.of (T := ⟨S8192x512, .f32⟩) main_v718) (TRef.of (T := ⟨S8192x512, .f32⟩) main_call27_v2) (TRef.of (T := ⟨S8192x512, .f32⟩) main_v719) select,
    nullary main_c_150 (constantI S_ 32 0#32),
    unary main_c_150 main_v720 (broadcastInDim S8192 ![] bcast_S_S8192 : (⟨S_, .i32⟩ : BufTy).Contents (Elt F) → (⟨S8192, .i32⟩ : BufTy).Contents (Elt F)),
    binary main_arg3 main_v720 main_v721 (cmpi .slt : (⟨S8192, .i32⟩ : BufTy).Contents (Elt F) → (⟨S8192, .i32⟩ : BufTy).Contents (Elt F) → (⟨S8192, .i1⟩ : BufTy).Contents (Elt F)),
    nullary main_c_151 (constantI S_ 32 8192#32),
    unary main_c_151 main_v722 (broadcastInDim S8192 ![] bcast_S_S8192 : (⟨S_, .i32⟩ : BufTy).Contents (Elt F) → (⟨S8192, .i32⟩ : BufTy).Contents (Elt F)),
    binary main_arg3 main_v722 main_v723 (addi : (⟨S8192, .i32⟩ : BufTy).Contents (Elt F) → (⟨S8192, .i32⟩ : BufTy).Contents (Elt F) → (⟨S8192, .i32⟩ : BufTy).Contents (Elt F)),
    ternary main_v721 main_v723 main_arg3 main_v724 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v724 main_v725 (broadcastInDim S8192x1 ![0] bcast_S8192_S8192x1_0 : (⟨S8192, .i32⟩ : BufTy).Contents (Elt F) → (⟨S8192x1, .i32⟩ : BufTy).Contents (Elt F)),
    ternary main_v702 main_v725 main_v719 main_v726 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_13_sub : (lab1_13 (F := F)).Forall fun op => op.bufs ⊆ tcRefs τ sig := by
  unfold lab1_13
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_13_fresh : (lab1_13 (F := F)).Forall fun op => op.fresh = ∅ := by
  all_fresh lab1_13

/-- The references the line writes, in order. -/
abbrev lab1_13_W : List (Ref sig .tc) := [main_c_141, main_v676, main_v677, main_v678, main_v679, main_v680, main_v681, main_v682, main_v683, main_v684, main_v685, main_v686, main_v687, main_c_142, main_v688, main_v689, main_c_143, main_v690, main_v691, main_v692, main_v693, main_v694, main_cst_144, main_call26_v0, main_call26_v1, main_call26_v2, main_v695, main_c_145, main_v696, main_v697, main_c_146, main_v698, main_v699, main_v700, main_v701, main_v702, main_v703, main_v704, main_v705, main_v706, main_v707, main_v708, main_v709, main_v710, main_v711, main_c_147, main_v712, main_v713, main_c_148, main_v714, main_v715, main_v716, main_v717, main_v718, main_cst_149, main_call27_v0, main_call27_v1, main_call27_v2, main_v719, main_c_150, main_v720, main_v721, main_c_151, main_v722, main_v723, main_v724, main_v725, main_v726]

theorem lab1_13_writes : (lab1_13 (F := F)).map (fun op => op.writes)
    = (lab1_13_W).map fun y => ({Proc.devRef (τ := τ) .tc y} : Finset (DevRef τ sig)) := rfl

/-- A reference the line does not write keeps its contents. -/
theorem lab1_13_frame (V : Valuation τ sig (Elt F)) {r : Ref sig .tc} (hr : r ∉ lab1_13_W) :
    after (lab1_13 (F := F)) V (no_index (Proc.devRef .tc r)) = V (Proc.devRef .tc r) :=
  Cert.RefLib.after_frame lab1_13_writes V hr

/-- The operations of relation label 14 in layer 1: the label's edge mask, the two products, and the two masked messages added to the running sum. -/
def lab1_14 : List (HloOp τ sig (Elt F)) :=
  [
    nullary main_c_152 (constantI S_ 32 14#32),
    unary main_c_152 main_v727 (broadcastInDim S8192 ![] bcast_S_S8192 : (⟨S_, .i32⟩ : BufTy).Contents (Elt F) → (⟨S8192, .i32⟩ : BufTy).Contents (Elt F)),
    binary main_arg2 main_v727 main_v728 (cmpi .eq : (⟨S8192, .i32⟩ : BufTy).Contents (Elt F) → (⟨S8192, .i32⟩ : BufTy).Contents (Elt F) → (⟨S8192, .i1⟩ : BufTy).Contents (Elt F)),
    unary main_v728 main_v729 (broadcastInDim S8192x1 ![0] bcast_S8192_S8192x1_0 : (⟨S8192, .i1⟩ : BufTy).Contents (Elt F) → (⟨S8192x1, .i1⟩ : BufTy).Contents (Elt F)),
    unary main_v5 main_v730 ((extractStridedSlice S1x512x512 ![14, 0, 0] · slices_S40x512x512_S1x512x512_14_0_0) : (⟨S40x512x512, .f32⟩ : BufTy).Contents (Elt F) → (⟨S1x512x512, .f32⟩ : BufTy).Contents (Elt F)),
    reshape main_v730 main_v731 rfl shapeCasts_S1x512x512_S512x512,
    unary main_v731 main_v732 ((transpose S512x512 [1, 0] · transposes_S512x512_S512x512_1_0) : (⟨S512x512, .f32⟩ : BufTy).Contents (Elt F) → (⟨S512x512, .f32⟩ : BufTy).Contents (Elt F)),
    binary main_arg0 main_v732 main_v733 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v734 ((extractStridedSlice S1x512 ![14, 0] · slices_S40x512_S1x512_14_0) : (⟨S40x512, .f32⟩ : BufTy).Contents (Elt F) → (⟨S1x512, .f32⟩ : BufTy).Contents (Elt F)),
    reshape main_v734 main_v735 rfl shapeCasts_S1x512_S512,
    unary main_v735 main_v736 (broadcastInDim S1x512 ![1] bcast_S512_S1x512_1 : (⟨S512, .f32⟩ : BufTy).Contents (Elt F) → (⟨S1x512, .f32⟩ : BufTy).Contents (Elt F)),
    unary main_v736 main_v737 (broadcastInDim S8192x512 ![0, 1] bcast_S1x512_S8192x512_0_1 : (⟨S1x512, .f32⟩ : BufTy).Contents (Elt F) → (⟨S8192x512, .f32⟩ : BufTy).Contents (Elt F)),
    binary main_v733 main_v737 main_v738 (addf : (⟨S8192x512, .f32⟩ : BufTy).Contents (Elt F) → (⟨S8192x512, .f32⟩ : BufTy).Contents (Elt F) → (⟨S8192x512, .f32⟩ : BufTy).Contents (Elt F)),
    nullary main_c_153 (constantI S_ 32 0#32),
    unary main_c_153 main_v739 (broadcastInDim S8192 ![] bcast_S_S8192 : (⟨S_, .i32⟩ : BufTy).Contents (Elt F) → (⟨S8192, .i32⟩ : BufTy).Contents (Elt F)),
    binary main_arg3 main_v739 main_v740 (cmpi .slt : (⟨S8192, .i32⟩ : BufTy).Contents (Elt F) → (⟨S8192, .i32⟩ : BufTy).Contents (Elt F) → (⟨S8192, .i1⟩ : BufTy).Contents (Elt F)),
    nullary main_c_154 (constantI S_ 32 8192#32),
    unary main_c_154 main_v741 (broadcastInDim S8192 ![] bcast_S_S8192 : (⟨S_, .i32⟩ : BufTy).Contents (Elt F) → (⟨S8192, .i32⟩ : BufTy).Contents (Elt F)),
    binary main_arg3 main_v741 main_v742 (addi : (⟨S8192, .i32⟩ : BufTy).Contents (Elt F) → (⟨S8192, .i32⟩ : BufTy).Contents (Elt F) → (⟨S8192, .i32⟩ : BufTy).Contents (Elt F)),
    ternary main_v740 main_v742 main_arg3 main_v743 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v743 main_v744 (broadcastInDim S8192x1 ![0] bcast_S8192_S8192x1_0 : (⟨S8192, .i32⟩ : BufTy).Contents (Elt F) → (⟨S8192x1, .i32⟩ : BufTy).Contents (Elt F)),
    binary main_v738 main_v744 main_v745 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_155 (constant S_ .f32 0x00000000#32),
    TRef.unary (TRef.of (T := ⟨S_, .f32⟩) main_cst_155) (TRef.of (T := ⟨S_, .f32⟩) main_call28_v0) id,
    TRef.unary (TRef.of (T := ⟨S8192x1, .i1⟩) main_v729) (TRef.of (T := ⟨S8192x512, .i1⟩) main_call28_v1) (broadcastInDim S8192x512 ![0, 1] bcast_S8192x1_S8192x512_0_1),
    TRef.unary (TRef.of (T := ⟨S_, .f32⟩) main_call28_v0) (TRef.of (T := ⟨S8192x512, .f32⟩) main_call28_v2) (broadcastInDim S8192x512 ![] bcast_S_S8192x512),
    TRef.ternary (TRef.of (T := ⟨S8192x512, .i1⟩) main_call28_v1) (TRef.of (T := ⟨S8192x512, .f32⟩) main_v745) (TRef.of (T := ⟨S8192x512, .f32⟩) main_call28_v2) (TRef.of (T := ⟨S8192x512, .f32⟩) main_v746) select,
    nullary main_c_156 (constantI S_ 32 0#32),
    unary main_c_156 main_v747 (broadcastInDim S8192 ![] bcast_S_S8192 : (⟨S_, .i32⟩ : BufTy).Contents (Elt F) → (⟨S8192, .i32⟩ : BufTy).Contents (Elt F)),
    binary main_arg1 main_v747 main_v748 (cmpi .slt : (⟨S8192, .i32⟩ : BufTy).Contents (Elt F) → (⟨S8192, .i32⟩ : BufTy).Contents (Elt F) → (⟨S8192, .i1⟩ : BufTy).Contents (Elt F)),
    nullary main_c_157 (constantI S_ 32 8192#32),
    unary main_c_157 main_v749 (broadcastInDim S8192 ![] bcast_S_S8192 : (⟨S_, .i32⟩ : BufTy).Contents (Elt F) → (⟨S8192, .i32⟩ : BufTy).Contents (Elt F)),
    binary main_arg1 main_v749 main_v750 (addi : (⟨S8192, .i32⟩ : BufTy).Contents (Elt F) → (⟨S8192, .i32⟩ : BufTy).Contents (Elt F) → (⟨S8192, .i32⟩ : BufTy).Contents (Elt F)),
    ternary main_v748 main_v750 main_arg1 main_v751 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v751 main_v752 (broadcastInDim S8192x1 ![0] bcast_S8192_S8192x1_0 : (⟨S8192, .i32⟩ : BufTy).Contents (Elt F) → (⟨S8192x1, .i32⟩ : BufTy).Contents (Elt F)),
    ternary main_v726 main_v752 main_v746 main_v753 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v754 ((extractStridedSlice S1x512x512 ![34, 0, 0] · slices_S40x512x512_S1x512x512_34_0_0) : (⟨S40x512x512, .f32⟩ : BufTy).Contents (Elt F) → (⟨S1x512x512, .f32⟩ : BufTy).Contents (Elt F)),
    reshape main_v754 main_v755 rfl shapeCasts_S1x512x512_S512x512,
    unary main_v755 main_v756 ((transpose S512x512 [1, 0] · transposes_S512x512_S512x512_1_0) : (⟨S512x512, .f32⟩ : BufTy).Contents (Elt F) → (⟨S512x512, .f32⟩ : BufTy).Contents (Elt F)),
    binary main_arg0 main_v756 main_v757 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v758 ((extractStridedSlice S1x512 ![34, 0] · slices_S40x512_S1x512_34_0) : (⟨S40x512, .f32⟩ : BufTy).Contents (Elt F) → (⟨S1x512, .f32⟩ : BufTy).Contents (Elt F)),
    reshape main_v758 main_v759 rfl shapeCasts_S1x512_S512,
    unary main_v759 main_v760 (broadcastInDim S1x512 ![1] bcast_S512_S1x512_1 : (⟨S512, .f32⟩ : BufTy).Contents (Elt F) → (⟨S1x512, .f32⟩ : BufTy).Contents (Elt F)),
    unary main_v760 main_v761 (broadcastInDim S8192x512 ![0, 1] bcast_S1x512_S8192x512_0_1 : (⟨S1x512, .f32⟩ : BufTy).Contents (Elt F) → (⟨S8192x512, .f32⟩ : BufTy).Contents (Elt F)),
    binary main_v757 main_v761 main_v762 (addf : (⟨S8192x512, .f32⟩ : BufTy).Contents (Elt F) → (⟨S8192x512, .f32⟩ : BufTy).Contents (Elt F) → (⟨S8192x512, .f32⟩ : BufTy).Contents (Elt F)),
    nullary main_c_158 (constantI S_ 32 0#32),
    unary main_c_158 main_v763 (broadcastInDim S8192 ![] bcast_S_S8192 : (⟨S_, .i32⟩ : BufTy).Contents (Elt F) → (⟨S8192, .i32⟩ : BufTy).Contents (Elt F)),
    binary main_arg1 main_v763 main_v764 (cmpi .slt : (⟨S8192, .i32⟩ : BufTy).Contents (Elt F) → (⟨S8192, .i32⟩ : BufTy).Contents (Elt F) → (⟨S8192, .i1⟩ : BufTy).Contents (Elt F)),
    nullary main_c_159 (constantI S_ 32 8192#32),
    unary main_c_159 main_v765 (broadcastInDim S8192 ![] bcast_S_S8192 : (⟨S_, .i32⟩ : BufTy).Contents (Elt F) → (⟨S8192, .i32⟩ : BufTy).Contents (Elt F)),
    binary main_arg1 main_v765 main_v766 (addi : (⟨S8192, .i32⟩ : BufTy).Contents (Elt F) → (⟨S8192, .i32⟩ : BufTy).Contents (Elt F) → (⟨S8192, .i32⟩ : BufTy).Contents (Elt F)),
    ternary main_v764 main_v766 main_arg1 main_v767 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v767 main_v768 (broadcastInDim S8192x1 ![0] bcast_S8192_S8192x1_0 : (⟨S8192, .i32⟩ : BufTy).Contents (Elt F) → (⟨S8192x1, .i32⟩ : BufTy).Contents (Elt F)),
    binary main_v762 main_v768 main_v769 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_160 (constant S_ .f32 0x00000000#32),
    TRef.unary (TRef.of (T := ⟨S_, .f32⟩) main_cst_160) (TRef.of (T := ⟨S_, .f32⟩) main_call29_v0) id,
    TRef.unary (TRef.of (T := ⟨S8192x1, .i1⟩) main_v729) (TRef.of (T := ⟨S8192x512, .i1⟩) main_call29_v1) (broadcastInDim S8192x512 ![0, 1] bcast_S8192x1_S8192x512_0_1),
    TRef.unary (TRef.of (T := ⟨S_, .f32⟩) main_call29_v0) (TRef.of (T := ⟨S8192x512, .f32⟩) main_call29_v2) (broadcastInDim S8192x512 ![] bcast_S_S8192x512),
    TRef.ternary (TRef.of (T := ⟨S8192x512, .i1⟩) main_call29_v1) (TRef.of (T := ⟨S8192x512, .f32⟩) main_v769) (TRef.of (T := ⟨S8192x512, .f32⟩) main_call29_v2) (TRef.of (T := ⟨S8192x512, .f32⟩) main_v770) select,
    nullary main_c_161 (constantI S_ 32 0#32),
    unary main_c_161 main_v771 (broadcastInDim S8192 ![] bcast_S_S8192 : (⟨S_, .i32⟩ : BufTy).Contents (Elt F) → (⟨S8192, .i32⟩ : BufTy).Contents (Elt F)),
    binary main_arg3 main_v771 main_v772 (cmpi .slt : (⟨S8192, .i32⟩ : BufTy).Contents (Elt F) → (⟨S8192, .i32⟩ : BufTy).Contents (Elt F) → (⟨S8192, .i1⟩ : BufTy).Contents (Elt F)),
    nullary main_c_162 (constantI S_ 32 8192#32),
    unary main_c_162 main_v773 (broadcastInDim S8192 ![] bcast_S_S8192 : (⟨S_, .i32⟩ : BufTy).Contents (Elt F) → (⟨S8192, .i32⟩ : BufTy).Contents (Elt F)),
    binary main_arg3 main_v773 main_v774 (addi : (⟨S8192, .i32⟩ : BufTy).Contents (Elt F) → (⟨S8192, .i32⟩ : BufTy).Contents (Elt F) → (⟨S8192, .i32⟩ : BufTy).Contents (Elt F)),
    ternary main_v772 main_v774 main_arg3 main_v775 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v775 main_v776 (broadcastInDim S8192x1 ![0] bcast_S8192_S8192x1_0 : (⟨S8192, .i32⟩ : BufTy).Contents (Elt F) → (⟨S8192x1, .i32⟩ : BufTy).Contents (Elt F)),
    ternary main_v753 main_v776 main_v770 main_v777 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_14_sub : (lab1_14 (F := F)).Forall fun op => op.bufs ⊆ tcRefs τ sig := by
  unfold lab1_14
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_14_fresh : (lab1_14 (F := F)).Forall fun op => op.fresh = ∅ := by
  all_fresh lab1_14

/-- The references the line writes, in order. -/
abbrev lab1_14_W : List (Ref sig .tc) := [main_c_152, main_v727, main_v728, main_v729, main_v730, main_v731, main_v732, main_v733, main_v734, main_v735, main_v736, main_v737, main_v738, main_c_153, main_v739, main_v740, main_c_154, main_v741, main_v742, main_v743, main_v744, main_v745, main_cst_155, main_call28_v0, main_call28_v1, main_call28_v2, main_v746, main_c_156, main_v747, main_v748, main_c_157, main_v749, main_v750, main_v751, main_v752, main_v753, main_v754, main_v755, main_v756, main_v757, main_v758, main_v759, main_v760, main_v761, main_v762, main_c_158, main_v763, main_v764, main_c_159, main_v765, main_v766, main_v767, main_v768, main_v769, main_cst_160, main_call29_v0, main_call29_v1, main_call29_v2, main_v770, main_c_161, main_v771, main_v772, main_c_162, main_v773, main_v774, main_v775, main_v776, main_v777]

theorem lab1_14_writes : (lab1_14 (F := F)).map (fun op => op.writes)
    = (lab1_14_W).map fun y => ({Proc.devRef (τ := τ) .tc y} : Finset (DevRef τ sig)) := rfl

/-- A reference the line does not write keeps its contents. -/
theorem lab1_14_frame (V : Valuation τ sig (Elt F)) {r : Ref sig .tc} (hr : r ∉ lab1_14_W) :
    after (lab1_14 (F := F)) V (no_index (Proc.devRef .tc r)) = V (Proc.devRef .tc r) :=
  Cert.RefLib.after_frame lab1_14_writes V hr

/-- The operations of relation label 15 in layer 1: the label's edge mask, the two products, and the two masked messages added to the running sum. -/
def lab1_15 : List (HloOp τ sig (Elt F)) :=
  [
    nullary main_c_163 (constantI S_ 32 15#32),
    unary main_c_163 main_v778 (broadcastInDim S8192 ![] bcast_S_S8192 : (⟨S_, .i32⟩ : BufTy).Contents (Elt F) → (⟨S8192, .i32⟩ : BufTy).Contents (Elt F)),
    binary main_arg2 main_v778 main_v779 (cmpi .eq : (⟨S8192, .i32⟩ : BufTy).Contents (Elt F) → (⟨S8192, .i32⟩ : BufTy).Contents (Elt F) → (⟨S8192, .i1⟩ : BufTy).Contents (Elt F)),
    unary main_v779 main_v780 (broadcastInDim S8192x1 ![0] bcast_S8192_S8192x1_0 : (⟨S8192, .i1⟩ : BufTy).Contents (Elt F) → (⟨S8192x1, .i1⟩ : BufTy).Contents (Elt F)),
    unary main_v5 main_v781 ((extractStridedSlice S1x512x512 ![15, 0, 0] · slices_S40x512x512_S1x512x512_15_0_0) : (⟨S40x512x512, .f32⟩ : BufTy).Contents (Elt F) → (⟨S1x512x512, .f32⟩ : BufTy).Contents (Elt F)),
    reshape main_v781 main_v782 rfl shapeCasts_S1x512x512_S512x512,
    unary main_v782 main_v783 ((transpose S512x512 [1, 0] · transposes_S512x512_S512x512_1_0) : (⟨S512x512, .f32⟩ : BufTy).Contents (Elt F) → (⟨S512x512, .f32⟩ : BufTy).Contents (Elt F)),
    binary main_arg0 main_v783 main_v784 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v785 ((extractStridedSlice S1x512 ![15, 0] · slices_S40x512_S1x512_15_0) : (⟨S40x512, .f32⟩ : BufTy).Contents (Elt F) → (⟨S1x512, .f32⟩ : BufTy).Contents (Elt F)),
    reshape main_v785 main_v786 rfl shapeCasts_S1x512_S512,
    unary main_v786 main_v787 (broadcastInDim S1x512 ![1] bcast_S512_S1x512_1 : (⟨S512, .f32⟩ : BufTy).Contents (Elt F) → (⟨S1x512, .f32⟩ : BufTy).Contents (Elt F)),
    unary main_v787 main_v788 (broadcastInDim S8192x512 ![0, 1] bcast_S1x512_S8192x512_0_1 : (⟨S1x512, .f32⟩ : BufTy).Contents (Elt F) → (⟨S8192x512, .f32⟩ : BufTy).Contents (Elt F)),
    binary main_v784 main_v788 main_v789 (addf : (⟨S8192x512, .f32⟩ : BufTy).Contents (Elt F) → (⟨S8192x512, .f32⟩ : BufTy).Contents (Elt F) → (⟨S8192x512, .f32⟩ : BufTy).Contents (Elt F)),
    nullary main_c_164 (constantI S_ 32 0#32),
    unary main_c_164 main_v790 (broadcastInDim S8192 ![] bcast_S_S8192 : (⟨S_, .i32⟩ : BufTy).Contents (Elt F) → (⟨S8192, .i32⟩ : BufTy).Contents (Elt F)),
    binary main_arg3 main_v790 main_v791 (cmpi .slt : (⟨S8192, .i32⟩ : BufTy).Contents (Elt F) → (⟨S8192, .i32⟩ : BufTy).Contents (Elt F) → (⟨S8192, .i1⟩ : BufTy).Contents (Elt F)),
    nullary main_c_165 (constantI S_ 32 8192#32),
    unary main_c_165 main_v792 (broadcastInDim S8192 ![] bcast_S_S8192 : (⟨S_, .i32⟩ : BufTy).Contents (Elt F) → (⟨S8192, .i32⟩ : BufTy).Contents (Elt F)),
    binary main_arg3 main_v792 main_v793 (addi : (⟨S8192, .i32⟩ : BufTy).Contents (Elt F) → (⟨S8192, .i32⟩ : BufTy).Contents (Elt F) → (⟨S8192, .i32⟩ : BufTy).Contents (Elt F)),
    ternary main_v791 main_v793 main_arg3 main_v794 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v794 main_v795 (broadcastInDim S8192x1 ![0] bcast_S8192_S8192x1_0 : (⟨S8192, .i32⟩ : BufTy).Contents (Elt F) → (⟨S8192x1, .i32⟩ : BufTy).Contents (Elt F)),
    binary main_v789 main_v795 main_v796 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_166 (constant S_ .f32 0x00000000#32),
    TRef.unary (TRef.of (T := ⟨S_, .f32⟩) main_cst_166) (TRef.of (T := ⟨S_, .f32⟩) main_call30_v0) id,
    TRef.unary (TRef.of (T := ⟨S8192x1, .i1⟩) main_v780) (TRef.of (T := ⟨S8192x512, .i1⟩) main_call30_v1) (broadcastInDim S8192x512 ![0, 1] bcast_S8192x1_S8192x512_0_1),
    TRef.unary (TRef.of (T := ⟨S_, .f32⟩) main_call30_v0) (TRef.of (T := ⟨S8192x512, .f32⟩) main_call30_v2) (broadcastInDim S8192x512 ![] bcast_S_S8192x512),
    TRef.ternary (TRef.of (T := ⟨S8192x512, .i1⟩) main_call30_v1) (TRef.of (T := ⟨S8192x512, .f32⟩) main_v796) (TRef.of (T := ⟨S8192x512, .f32⟩) main_call30_v2) (TRef.of (T := ⟨S8192x512, .f32⟩) main_v797) select,
    nullary main_c_167 (constantI S_ 32 0#32),
    unary main_c_167 main_v798 (broadcastInDim S8192 ![] bcast_S_S8192 : (⟨S_, .i32⟩ : BufTy).Contents (Elt F) → (⟨S8192, .i32⟩ : BufTy).Contents (Elt F)),
    binary main_arg1 main_v798 main_v799 (cmpi .slt : (⟨S8192, .i32⟩ : BufTy).Contents (Elt F) → (⟨S8192, .i32⟩ : BufTy).Contents (Elt F) → (⟨S8192, .i1⟩ : BufTy).Contents (Elt F)),
    nullary main_c_168 (constantI S_ 32 8192#32),
    unary main_c_168 main_v800 (broadcastInDim S8192 ![] bcast_S_S8192 : (⟨S_, .i32⟩ : BufTy).Contents (Elt F) → (⟨S8192, .i32⟩ : BufTy).Contents (Elt F)),
    binary main_arg1 main_v800 main_v801 (addi : (⟨S8192, .i32⟩ : BufTy).Contents (Elt F) → (⟨S8192, .i32⟩ : BufTy).Contents (Elt F) → (⟨S8192, .i32⟩ : BufTy).Contents (Elt F)),
    ternary main_v799 main_v801 main_arg1 main_v802 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v802 main_v803 (broadcastInDim S8192x1 ![0] bcast_S8192_S8192x1_0 : (⟨S8192, .i32⟩ : BufTy).Contents (Elt F) → (⟨S8192x1, .i32⟩ : BufTy).Contents (Elt F)),
    ternary main_v777 main_v803 main_v797 main_v804 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v805 ((extractStridedSlice S1x512x512 ![35, 0, 0] · slices_S40x512x512_S1x512x512_35_0_0) : (⟨S40x512x512, .f32⟩ : BufTy).Contents (Elt F) → (⟨S1x512x512, .f32⟩ : BufTy).Contents (Elt F)),
    reshape main_v805 main_v806 rfl shapeCasts_S1x512x512_S512x512,
    unary main_v806 main_v807 ((transpose S512x512 [1, 0] · transposes_S512x512_S512x512_1_0) : (⟨S512x512, .f32⟩ : BufTy).Contents (Elt F) → (⟨S512x512, .f32⟩ : BufTy).Contents (Elt F)),
    binary main_arg0 main_v807 main_v808 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v809 ((extractStridedSlice S1x512 ![35, 0] · slices_S40x512_S1x512_35_0) : (⟨S40x512, .f32⟩ : BufTy).Contents (Elt F) → (⟨S1x512, .f32⟩ : BufTy).Contents (Elt F)),
    reshape main_v809 main_v810 rfl shapeCasts_S1x512_S512,
    unary main_v810 main_v811 (broadcastInDim S1x512 ![1] bcast_S512_S1x512_1 : (⟨S512, .f32⟩ : BufTy).Contents (Elt F) → (⟨S1x512, .f32⟩ : BufTy).Contents (Elt F)),
    unary main_v811 main_v812 (broadcastInDim S8192x512 ![0, 1] bcast_S1x512_S8192x512_0_1 : (⟨S1x512, .f32⟩ : BufTy).Contents (Elt F) → (⟨S8192x512, .f32⟩ : BufTy).Contents (Elt F)),
    binary main_v808 main_v812 main_v813 (addf : (⟨S8192x512, .f32⟩ : BufTy).Contents (Elt F) → (⟨S8192x512, .f32⟩ : BufTy).Contents (Elt F) → (⟨S8192x512, .f32⟩ : BufTy).Contents (Elt F)),
    nullary main_c_169 (constantI S_ 32 0#32),
    unary main_c_169 main_v814 (broadcastInDim S8192 ![] bcast_S_S8192 : (⟨S_, .i32⟩ : BufTy).Contents (Elt F) → (⟨S8192, .i32⟩ : BufTy).Contents (Elt F)),
    binary main_arg1 main_v814 main_v815 (cmpi .slt : (⟨S8192, .i32⟩ : BufTy).Contents (Elt F) → (⟨S8192, .i32⟩ : BufTy).Contents (Elt F) → (⟨S8192, .i1⟩ : BufTy).Contents (Elt F)),
    nullary main_c_170 (constantI S_ 32 8192#32),
    unary main_c_170 main_v816 (broadcastInDim S8192 ![] bcast_S_S8192 : (⟨S_, .i32⟩ : BufTy).Contents (Elt F) → (⟨S8192, .i32⟩ : BufTy).Contents (Elt F)),
    binary main_arg1 main_v816 main_v817 (addi : (⟨S8192, .i32⟩ : BufTy).Contents (Elt F) → (⟨S8192, .i32⟩ : BufTy).Contents (Elt F) → (⟨S8192, .i32⟩ : BufTy).Contents (Elt F)),
    ternary main_v815 main_v817 main_arg1 main_v818 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v818 main_v819 (broadcastInDim S8192x1 ![0] bcast_S8192_S8192x1_0 : (⟨S8192, .i32⟩ : BufTy).Contents (Elt F) → (⟨S8192x1, .i32⟩ : BufTy).Contents (Elt F)),
    binary main_v813 main_v819 main_v820 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_171 (constant S_ .f32 0x00000000#32),
    TRef.unary (TRef.of (T := ⟨S_, .f32⟩) main_cst_171) (TRef.of (T := ⟨S_, .f32⟩) main_call31_v0) id,
    TRef.unary (TRef.of (T := ⟨S8192x1, .i1⟩) main_v780) (TRef.of (T := ⟨S8192x512, .i1⟩) main_call31_v1) (broadcastInDim S8192x512 ![0, 1] bcast_S8192x1_S8192x512_0_1),
    TRef.unary (TRef.of (T := ⟨S_, .f32⟩) main_call31_v0) (TRef.of (T := ⟨S8192x512, .f32⟩) main_call31_v2) (broadcastInDim S8192x512 ![] bcast_S_S8192x512),
    TRef.ternary (TRef.of (T := ⟨S8192x512, .i1⟩) main_call31_v1) (TRef.of (T := ⟨S8192x512, .f32⟩) main_v820) (TRef.of (T := ⟨S8192x512, .f32⟩) main_call31_v2) (TRef.of (T := ⟨S8192x512, .f32⟩) main_v821) select,
    nullary main_c_172 (constantI S_ 32 0#32),
    unary main_c_172 main_v822 (broadcastInDim S8192 ![] bcast_S_S8192 : (⟨S_, .i32⟩ : BufTy).Contents (Elt F) → (⟨S8192, .i32⟩ : BufTy).Contents (Elt F)),
    binary main_arg3 main_v822 main_v823 (cmpi .slt : (⟨S8192, .i32⟩ : BufTy).Contents (Elt F) → (⟨S8192, .i32⟩ : BufTy).Contents (Elt F) → (⟨S8192, .i1⟩ : BufTy).Contents (Elt F)),
    nullary main_c_173 (constantI S_ 32 8192#32),
    unary main_c_173 main_v824 (broadcastInDim S8192 ![] bcast_S_S8192 : (⟨S_, .i32⟩ : BufTy).Contents (Elt F) → (⟨S8192, .i32⟩ : BufTy).Contents (Elt F)),
    binary main_arg3 main_v824 main_v825 (addi : (⟨S8192, .i32⟩ : BufTy).Contents (Elt F) → (⟨S8192, .i32⟩ : BufTy).Contents (Elt F) → (⟨S8192, .i32⟩ : BufTy).Contents (Elt F)),
    ternary main_v823 main_v825 main_arg3 main_v826 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v826 main_v827 (broadcastInDim S8192x1 ![0] bcast_S8192_S8192x1_0 : (⟨S8192, .i32⟩ : BufTy).Contents (Elt F) → (⟨S8192x1, .i32⟩ : BufTy).Contents (Elt F)),
    ternary main_v804 main_v827 main_v821 main_v828 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_15_sub : (lab1_15 (F := F)).Forall fun op => op.bufs ⊆ tcRefs τ sig := by
  unfold lab1_15
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_15_fresh : (lab1_15 (F := F)).Forall fun op => op.fresh = ∅ := by
  all_fresh lab1_15

/-- The references the line writes, in order. -/
abbrev lab1_15_W : List (Ref sig .tc) := [main_c_163, main_v778, main_v779, main_v780, main_v781, main_v782, main_v783, main_v784, main_v785, main_v786, main_v787, main_v788, main_v789, main_c_164, main_v790, main_v791, main_c_165, main_v792, main_v793, main_v794, main_v795, main_v796, main_cst_166, main_call30_v0, main_call30_v1, main_call30_v2, main_v797, main_c_167, main_v798, main_v799, main_c_168, main_v800, main_v801, main_v802, main_v803, main_v804, main_v805, main_v806, main_v807, main_v808, main_v809, main_v810, main_v811, main_v812, main_v813, main_c_169, main_v814, main_v815, main_c_170, main_v816, main_v817, main_v818, main_v819, main_v820, main_cst_171, main_call31_v0, main_call31_v1, main_call31_v2, main_v821, main_c_172, main_v822, main_v823, main_c_173, main_v824, main_v825, main_v826, main_v827, main_v828]

theorem lab1_15_writes : (lab1_15 (F := F)).map (fun op => op.writes)
    = (lab1_15_W).map fun y => ({Proc.devRef (τ := τ) .tc y} : Finset (DevRef τ sig)) := rfl

/-- A reference the line does not write keeps its contents. -/
theorem lab1_15_frame (V : Valuation τ sig (Elt F)) {r : Ref sig .tc} (hr : r ∉ lab1_15_W) :
    after (lab1_15 (F := F)) V (no_index (Proc.devRef .tc r)) = V (Proc.devRef .tc r) :=
  Cert.RefLib.after_frame lab1_15_writes V hr

/-- The operations of relation label 16 in layer 1: the label's edge mask, the two products, and the two masked messages added to the running sum. -/
def lab1_16 : List (HloOp τ sig (Elt F)) :=
  [
    nullary main_c_174 (constantI S_ 32 16#32),
    unary main_c_174 main_v829 (broadcastInDim S8192 ![] bcast_S_S8192 : (⟨S_, .i32⟩ : BufTy).Contents (Elt F) → (⟨S8192, .i32⟩ : BufTy).Contents (Elt F)),
    binary main_arg2 main_v829 main_v830 (cmpi .eq : (⟨S8192, .i32⟩ : BufTy).Contents (Elt F) → (⟨S8192, .i32⟩ : BufTy).Contents (Elt F) → (⟨S8192, .i1⟩ : BufTy).Contents (Elt F)),
    unary main_v830 main_v831 (broadcastInDim S8192x1 ![0] bcast_S8192_S8192x1_0 : (⟨S8192, .i1⟩ : BufTy).Contents (Elt F) → (⟨S8192x1, .i1⟩ : BufTy).Contents (Elt F)),
    unary main_v5 main_v832 ((extractStridedSlice S1x512x512 ![16, 0, 0] · slices_S40x512x512_S1x512x512_16_0_0) : (⟨S40x512x512, .f32⟩ : BufTy).Contents (Elt F) → (⟨S1x512x512, .f32⟩ : BufTy).Contents (Elt F)),
    reshape main_v832 main_v833 rfl shapeCasts_S1x512x512_S512x512,
    unary main_v833 main_v834 ((transpose S512x512 [1, 0] · transposes_S512x512_S512x512_1_0) : (⟨S512x512, .f32⟩ : BufTy).Contents (Elt F) → (⟨S512x512, .f32⟩ : BufTy).Contents (Elt F)),
    binary main_arg0 main_v834 main_v835 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v836 ((extractStridedSlice S1x512 ![16, 0] · slices_S40x512_S1x512_16_0) : (⟨S40x512, .f32⟩ : BufTy).Contents (Elt F) → (⟨S1x512, .f32⟩ : BufTy).Contents (Elt F)),
    reshape main_v836 main_v837 rfl shapeCasts_S1x512_S512,
    unary main_v837 main_v838 (broadcastInDim S1x512 ![1] bcast_S512_S1x512_1 : (⟨S512, .f32⟩ : BufTy).Contents (Elt F) → (⟨S1x512, .f32⟩ : BufTy).Contents (Elt F)),
    unary main_v838 main_v839 (broadcastInDim S8192x512 ![0, 1] bcast_S1x512_S8192x512_0_1 : (⟨S1x512, .f32⟩ : BufTy).Contents (Elt F) → (⟨S8192x512, .f32⟩ : BufTy).Contents (Elt F)),
    binary main_v835 main_v839 main_v840 (addf : (⟨S8192x512, .f32⟩ : BufTy).Contents (Elt F) → (⟨S8192x512, .f32⟩ : BufTy).Contents (Elt F) → (⟨S8192x512, .f32⟩ : BufTy).Contents (Elt F)),
    nullary main_c_175 (constantI S_ 32 0#32),
    unary main_c_175 main_v841 (broadcastInDim S8192 ![] bcast_S_S8192 : (⟨S_, .i32⟩ : BufTy).Contents (Elt F) → (⟨S8192, .i32⟩ : BufTy).Contents (Elt F)),
    binary main_arg3 main_v841 main_v842 (cmpi .slt : (⟨S8192, .i32⟩ : BufTy).Contents (Elt F) → (⟨S8192, .i32⟩ : BufTy).Contents (Elt F) → (⟨S8192, .i1⟩ : BufTy).Contents (Elt F)),
    nullary main_c_176 (constantI S_ 32 8192#32),
    unary main_c_176 main_v843 (broadcastInDim S8192 ![] bcast_S_S8192 : (⟨S_, .i32⟩ : BufTy).Contents (Elt F) → (⟨S8192, .i32⟩ : BufTy).Contents (Elt F)),
    binary main_arg3 main_v843 main_v844 (addi : (⟨S8192, .i32⟩ : BufTy).Contents (Elt F) → (⟨S8192, .i32⟩ : BufTy).Contents (Elt F) → (⟨S8192, .i32⟩ : BufTy).Contents (Elt F)),
    ternary main_v842 main_v844 main_arg3 main_v845 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v845 main_v846 (broadcastInDim S8192x1 ![0] bcast_S8192_S8192x1_0 : (⟨S8192, .i32⟩ : BufTy).Contents (Elt F) → (⟨S8192x1, .i32⟩ : BufTy).Contents (Elt F)),
    binary main_v840 main_v846 main_v847 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_177 (constant S_ .f32 0x00000000#32),
    TRef.unary (TRef.of (T := ⟨S_, .f32⟩) main_cst_177) (TRef.of (T := ⟨S_, .f32⟩) main_call32_v0) id,
    TRef.unary (TRef.of (T := ⟨S8192x1, .i1⟩) main_v831) (TRef.of (T := ⟨S8192x512, .i1⟩) main_call32_v1) (broadcastInDim S8192x512 ![0, 1] bcast_S8192x1_S8192x512_0_1),
    TRef.unary (TRef.of (T := ⟨S_, .f32⟩) main_call32_v0) (TRef.of (T := ⟨S8192x512, .f32⟩) main_call32_v2) (broadcastInDim S8192x512 ![] bcast_S_S8192x512),
    TRef.ternary (TRef.of (T := ⟨S8192x512, .i1⟩) main_call32_v1) (TRef.of (T := ⟨S8192x512, .f32⟩) main_v847) (TRef.of (T := ⟨S8192x512, .f32⟩) main_call32_v2) (TRef.of (T := ⟨S8192x512, .f32⟩) main_v848) select,
    nullary main_c_178 (constantI S_ 32 0#32),
    unary main_c_178 main_v849 (broadcastInDim S8192 ![] bcast_S_S8192 : (⟨S_, .i32⟩ : BufTy).Contents (Elt F) → (⟨S8192, .i32⟩ : BufTy).Contents (Elt F)),
    binary main_arg1 main_v849 main_v850 (cmpi .slt : (⟨S8192, .i32⟩ : BufTy).Contents (Elt F) → (⟨S8192, .i32⟩ : BufTy).Contents (Elt F) → (⟨S8192, .i1⟩ : BufTy).Contents (Elt F)),
    nullary main_c_179 (constantI S_ 32 8192#32),
    unary main_c_179 main_v851 (broadcastInDim S8192 ![] bcast_S_S8192 : (⟨S_, .i32⟩ : BufTy).Contents (Elt F) → (⟨S8192, .i32⟩ : BufTy).Contents (Elt F)),
    binary main_arg1 main_v851 main_v852 (addi : (⟨S8192, .i32⟩ : BufTy).Contents (Elt F) → (⟨S8192, .i32⟩ : BufTy).Contents (Elt F) → (⟨S8192, .i32⟩ : BufTy).Contents (Elt F)),
    ternary main_v850 main_v852 main_arg1 main_v853 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v853 main_v854 (broadcastInDim S8192x1 ![0] bcast_S8192_S8192x1_0 : (⟨S8192, .i32⟩ : BufTy).Contents (Elt F) → (⟨S8192x1, .i32⟩ : BufTy).Contents (Elt F)),
    ternary main_v828 main_v854 main_v848 main_v855 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v856 ((extractStridedSlice S1x512x512 ![36, 0, 0] · slices_S40x512x512_S1x512x512_36_0_0) : (⟨S40x512x512, .f32⟩ : BufTy).Contents (Elt F) → (⟨S1x512x512, .f32⟩ : BufTy).Contents (Elt F)),
    reshape main_v856 main_v857 rfl shapeCasts_S1x512x512_S512x512,
    unary main_v857 main_v858 ((transpose S512x512 [1, 0] · transposes_S512x512_S512x512_1_0) : (⟨S512x512, .f32⟩ : BufTy).Contents (Elt F) → (⟨S512x512, .f32⟩ : BufTy).Contents (Elt F)),
    binary main_arg0 main_v858 main_v859 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v860 ((extractStridedSlice S1x512 ![36, 0] · slices_S40x512_S1x512_36_0) : (⟨S40x512, .f32⟩ : BufTy).Contents (Elt F) → (⟨S1x512, .f32⟩ : BufTy).Contents (Elt F)),
    reshape main_v860 main_v861 rfl shapeCasts_S1x512_S512,
    unary main_v861 main_v862 (broadcastInDim S1x512 ![1] bcast_S512_S1x512_1 : (⟨S512, .f32⟩ : BufTy).Contents (Elt F) → (⟨S1x512, .f32⟩ : BufTy).Contents (Elt F)),
    unary main_v862 main_v863 (broadcastInDim S8192x512 ![0, 1] bcast_S1x512_S8192x512_0_1 : (⟨S1x512, .f32⟩ : BufTy).Contents (Elt F) → (⟨S8192x512, .f32⟩ : BufTy).Contents (Elt F)),
    binary main_v859 main_v863 main_v864 (addf : (⟨S8192x512, .f32⟩ : BufTy).Contents (Elt F) → (⟨S8192x512, .f32⟩ : BufTy).Contents (Elt F) → (⟨S8192x512, .f32⟩ : BufTy).Contents (Elt F)),
    nullary main_c_180 (constantI S_ 32 0#32),
    unary main_c_180 main_v865 (broadcastInDim S8192 ![] bcast_S_S8192 : (⟨S_, .i32⟩ : BufTy).Contents (Elt F) → (⟨S8192, .i32⟩ : BufTy).Contents (Elt F)),
    binary main_arg1 main_v865 main_v866 (cmpi .slt : (⟨S8192, .i32⟩ : BufTy).Contents (Elt F) → (⟨S8192, .i32⟩ : BufTy).Contents (Elt F) → (⟨S8192, .i1⟩ : BufTy).Contents (Elt F)),
    nullary main_c_181 (constantI S_ 32 8192#32),
    unary main_c_181 main_v867 (broadcastInDim S8192 ![] bcast_S_S8192 : (⟨S_, .i32⟩ : BufTy).Contents (Elt F) → (⟨S8192, .i32⟩ : BufTy).Contents (Elt F)),
    binary main_arg1 main_v867 main_v868 (addi : (⟨S8192, .i32⟩ : BufTy).Contents (Elt F) → (⟨S8192, .i32⟩ : BufTy).Contents (Elt F) → (⟨S8192, .i32⟩ : BufTy).Contents (Elt F)),
    ternary main_v866 main_v868 main_arg1 main_v869 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v869 main_v870 (broadcastInDim S8192x1 ![0] bcast_S8192_S8192x1_0 : (⟨S8192, .i32⟩ : BufTy).Contents (Elt F) → (⟨S8192x1, .i32⟩ : BufTy).Contents (Elt F)),
    binary main_v864 main_v870 main_v871 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_182 (constant S_ .f32 0x00000000#32),
    TRef.unary (TRef.of (T := ⟨S_, .f32⟩) main_cst_182) (TRef.of (T := ⟨S_, .f32⟩) main_call33_v0) id,
    TRef.unary (TRef.of (T := ⟨S8192x1, .i1⟩) main_v831) (TRef.of (T := ⟨S8192x512, .i1⟩) main_call33_v1) (broadcastInDim S8192x512 ![0, 1] bcast_S8192x1_S8192x512_0_1),
    TRef.unary (TRef.of (T := ⟨S_, .f32⟩) main_call33_v0) (TRef.of (T := ⟨S8192x512, .f32⟩) main_call33_v2) (broadcastInDim S8192x512 ![] bcast_S_S8192x512),
    TRef.ternary (TRef.of (T := ⟨S8192x512, .i1⟩) main_call33_v1) (TRef.of (T := ⟨S8192x512, .f32⟩) main_v871) (TRef.of (T := ⟨S8192x512, .f32⟩) main_call33_v2) (TRef.of (T := ⟨S8192x512, .f32⟩) main_v872) select,
    nullary main_c_183 (constantI S_ 32 0#32),
    unary main_c_183 main_v873 (broadcastInDim S8192 ![] bcast_S_S8192 : (⟨S_, .i32⟩ : BufTy).Contents (Elt F) → (⟨S8192, .i32⟩ : BufTy).Contents (Elt F)),
    binary main_arg3 main_v873 main_v874 (cmpi .slt : (⟨S8192, .i32⟩ : BufTy).Contents (Elt F) → (⟨S8192, .i32⟩ : BufTy).Contents (Elt F) → (⟨S8192, .i1⟩ : BufTy).Contents (Elt F)),
    nullary main_c_184 (constantI S_ 32 8192#32),
    unary main_c_184 main_v875 (broadcastInDim S8192 ![] bcast_S_S8192 : (⟨S_, .i32⟩ : BufTy).Contents (Elt F) → (⟨S8192, .i32⟩ : BufTy).Contents (Elt F)),
    binary main_arg3 main_v875 main_v876 (addi : (⟨S8192, .i32⟩ : BufTy).Contents (Elt F) → (⟨S8192, .i32⟩ : BufTy).Contents (Elt F) → (⟨S8192, .i32⟩ : BufTy).Contents (Elt F)),
    ternary main_v874 main_v876 main_arg3 main_v877 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v877 main_v878 (broadcastInDim S8192x1 ![0] bcast_S8192_S8192x1_0 : (⟨S8192, .i32⟩ : BufTy).Contents (Elt F) → (⟨S8192x1, .i32⟩ : BufTy).Contents (Elt F)),
    ternary main_v855 main_v878 main_v872 main_v879 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_16_sub : (lab1_16 (F := F)).Forall fun op => op.bufs ⊆ tcRefs τ sig := by
  unfold lab1_16
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_16_fresh : (lab1_16 (F := F)).Forall fun op => op.fresh = ∅ := by
  all_fresh lab1_16

/-- The references the line writes, in order. -/
abbrev lab1_16_W : List (Ref sig .tc) := [main_c_174, main_v829, main_v830, main_v831, main_v832, main_v833, main_v834, main_v835, main_v836, main_v837, main_v838, main_v839, main_v840, main_c_175, main_v841, main_v842, main_c_176, main_v843, main_v844, main_v845, main_v846, main_v847, main_cst_177, main_call32_v0, main_call32_v1, main_call32_v2, main_v848, main_c_178, main_v849, main_v850, main_c_179, main_v851, main_v852, main_v853, main_v854, main_v855, main_v856, main_v857, main_v858, main_v859, main_v860, main_v861, main_v862, main_v863, main_v864, main_c_180, main_v865, main_v866, main_c_181, main_v867, main_v868, main_v869, main_v870, main_v871, main_cst_182, main_call33_v0, main_call33_v1, main_call33_v2, main_v872, main_c_183, main_v873, main_v874, main_c_184, main_v875, main_v876, main_v877, main_v878, main_v879]

theorem lab1_16_writes : (lab1_16 (F := F)).map (fun op => op.writes)
    = (lab1_16_W).map fun y => ({Proc.devRef (τ := τ) .tc y} : Finset (DevRef τ sig)) := rfl

/-- A reference the line does not write keeps its contents. -/
theorem lab1_16_frame (V : Valuation τ sig (Elt F)) {r : Ref sig .tc} (hr : r ∉ lab1_16_W) :
    after (lab1_16 (F := F)) V (no_index (Proc.devRef .tc r)) = V (Proc.devRef .tc r) :=
  Cert.RefLib.after_frame lab1_16_writes V hr

/-- The operations of relation label 17 in layer 1: the label's edge mask, the two products, and the two masked messages added to the running sum. -/
def lab1_17 : List (HloOp τ sig (Elt F)) :=
  [
    nullary main_c_185 (constantI S_ 32 17#32),
    unary main_c_185 main_v880 (broadcastInDim S8192 ![] bcast_S_S8192 : (⟨S_, .i32⟩ : BufTy).Contents (Elt F) → (⟨S8192, .i32⟩ : BufTy).Contents (Elt F)),
    binary main_arg2 main_v880 main_v881 (cmpi .eq : (⟨S8192, .i32⟩ : BufTy).Contents (Elt F) → (⟨S8192, .i32⟩ : BufTy).Contents (Elt F) → (⟨S8192, .i1⟩ : BufTy).Contents (Elt F)),
    unary main_v881 main_v882 (broadcastInDim S8192x1 ![0] bcast_S8192_S8192x1_0 : (⟨S8192, .i1⟩ : BufTy).Contents (Elt F) → (⟨S8192x1, .i1⟩ : BufTy).Contents (Elt F)),
    unary main_v5 main_v883 ((extractStridedSlice S1x512x512 ![17, 0, 0] · slices_S40x512x512_S1x512x512_17_0_0) : (⟨S40x512x512, .f32⟩ : BufTy).Contents (Elt F) → (⟨S1x512x512, .f32⟩ : BufTy).Contents (Elt F)),
    reshape main_v883 main_v884 rfl shapeCasts_S1x512x512_S512x512,
    unary main_v884 main_v885 ((transpose S512x512 [1, 0] · transposes_S512x512_S512x512_1_0) : (⟨S512x512, .f32⟩ : BufTy).Contents (Elt F) → (⟨S512x512, .f32⟩ : BufTy).Contents (Elt F)),
    binary main_arg0 main_v885 main_v886 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v887 ((extractStridedSlice S1x512 ![17, 0] · slices_S40x512_S1x512_17_0) : (⟨S40x512, .f32⟩ : BufTy).Contents (Elt F) → (⟨S1x512, .f32⟩ : BufTy).Contents (Elt F)),
    reshape main_v887 main_v888 rfl shapeCasts_S1x512_S512,
    unary main_v888 main_v889 (broadcastInDim S1x512 ![1] bcast_S512_S1x512_1 : (⟨S512, .f32⟩ : BufTy).Contents (Elt F) → (⟨S1x512, .f32⟩ : BufTy).Contents (Elt F)),
    unary main_v889 main_v890 (broadcastInDim S8192x512 ![0, 1] bcast_S1x512_S8192x512_0_1 : (⟨S1x512, .f32⟩ : BufTy).Contents (Elt F) → (⟨S8192x512, .f32⟩ : BufTy).Contents (Elt F)),
    binary main_v886 main_v890 main_v891 (addf : (⟨S8192x512, .f32⟩ : BufTy).Contents (Elt F) → (⟨S8192x512, .f32⟩ : BufTy).Contents (Elt F) → (⟨S8192x512, .f32⟩ : BufTy).Contents (Elt F)),
    nullary main_c_186 (constantI S_ 32 0#32),
    unary main_c_186 main_v892 (broadcastInDim S8192 ![] bcast_S_S8192 : (⟨S_, .i32⟩ : BufTy).Contents (Elt F) → (⟨S8192, .i32⟩ : BufTy).Contents (Elt F)),
    binary main_arg3 main_v892 main_v893 (cmpi .slt : (⟨S8192, .i32⟩ : BufTy).Contents (Elt F) → (⟨S8192, .i32⟩ : BufTy).Contents (Elt F) → (⟨S8192, .i1⟩ : BufTy).Contents (Elt F)),
    nullary main_c_187 (constantI S_ 32 8192#32),
    unary main_c_187 main_v894 (broadcastInDim S8192 ![] bcast_S_S8192 : (⟨S_, .i32⟩ : BufTy).Contents (Elt F) → (⟨S8192, .i32⟩ : BufTy).Contents (Elt F)),
    binary main_arg3 main_v894 main_v895 (addi : (⟨S8192, .i32⟩ : BufTy).Contents (Elt F) → (⟨S8192, .i32⟩ : BufTy).Contents (Elt F) → (⟨S8192, .i32⟩ : BufTy).Contents (Elt F)),
    ternary main_v893 main_v895 main_arg3 main_v896 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v896 main_v897 (broadcastInDim S8192x1 ![0] bcast_S8192_S8192x1_0 : (⟨S8192, .i32⟩ : BufTy).Contents (Elt F) → (⟨S8192x1, .i32⟩ : BufTy).Contents (Elt F)),
    binary main_v891 main_v897 main_v898 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_188 (constant S_ .f32 0x00000000#32),
    TRef.unary (TRef.of (T := ⟨S_, .f32⟩) main_cst_188) (TRef.of (T := ⟨S_, .f32⟩) main_call34_v0) id,
    TRef.unary (TRef.of (T := ⟨S8192x1, .i1⟩) main_v882) (TRef.of (T := ⟨S8192x512, .i1⟩) main_call34_v1) (broadcastInDim S8192x512 ![0, 1] bcast_S8192x1_S8192x512_0_1),
    TRef.unary (TRef.of (T := ⟨S_, .f32⟩) main_call34_v0) (TRef.of (T := ⟨S8192x512, .f32⟩) main_call34_v2) (broadcastInDim S8192x512 ![] bcast_S_S8192x512),
    TRef.ternary (TRef.of (T := ⟨S8192x512, .i1⟩) main_call34_v1) (TRef.of (T := ⟨S8192x512, .f32⟩) main_v898) (TRef.of (T := ⟨S8192x512, .f32⟩) main_call34_v2) (TRef.of (T := ⟨S8192x512, .f32⟩) main_v899) select,
    nullary main_c_189 (constantI S_ 32 0#32),
    unary main_c_189 main_v900 (broadcastInDim S8192 ![] bcast_S_S8192 : (⟨S_, .i32⟩ : BufTy).Contents (Elt F) → (⟨S8192, .i32⟩ : BufTy).Contents (Elt F)),
    binary main_arg1 main_v900 main_v901 (cmpi .slt : (⟨S8192, .i32⟩ : BufTy).Contents (Elt F) → (⟨S8192, .i32⟩ : BufTy).Contents (Elt F) → (⟨S8192, .i1⟩ : BufTy).Contents (Elt F)),
    nullary main_c_190 (constantI S_ 32 8192#32),
    unary main_c_190 main_v902 (broadcastInDim S8192 ![] bcast_S_S8192 : (⟨S_, .i32⟩ : BufTy).Contents (Elt F) → (⟨S8192, .i32⟩ : BufTy).Contents (Elt F)),
    binary main_arg1 main_v902 main_v903 (addi : (⟨S8192, .i32⟩ : BufTy).Contents (Elt F) → (⟨S8192, .i32⟩ : BufTy).Contents (Elt F) → (⟨S8192, .i32⟩ : BufTy).Contents (Elt F)),
    ternary main_v901 main_v903 main_arg1 main_v904 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v904 main_v905 (broadcastInDim S8192x1 ![0] bcast_S8192_S8192x1_0 : (⟨S8192, .i32⟩ : BufTy).Contents (Elt F) → (⟨S8192x1, .i32⟩ : BufTy).Contents (Elt F)),
    ternary main_v879 main_v905 main_v899 main_v906 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v907 ((extractStridedSlice S1x512x512 ![37, 0, 0] · slices_S40x512x512_S1x512x512_37_0_0) : (⟨S40x512x512, .f32⟩ : BufTy).Contents (Elt F) → (⟨S1x512x512, .f32⟩ : BufTy).Contents (Elt F)),
    reshape main_v907 main_v908 rfl shapeCasts_S1x512x512_S512x512,
    unary main_v908 main_v909 ((transpose S512x512 [1, 0] · transposes_S512x512_S512x512_1_0) : (⟨S512x512, .f32⟩ : BufTy).Contents (Elt F) → (⟨S512x512, .f32⟩ : BufTy).Contents (Elt F)),
    binary main_arg0 main_v909 main_v910 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v911 ((extractStridedSlice S1x512 ![37, 0] · slices_S40x512_S1x512_37_0) : (⟨S40x512, .f32⟩ : BufTy).Contents (Elt F) → (⟨S1x512, .f32⟩ : BufTy).Contents (Elt F)),
    reshape main_v911 main_v912 rfl shapeCasts_S1x512_S512,
    unary main_v912 main_v913 (broadcastInDim S1x512 ![1] bcast_S512_S1x512_1 : (⟨S512, .f32⟩ : BufTy).Contents (Elt F) → (⟨S1x512, .f32⟩ : BufTy).Contents (Elt F)),
    unary main_v913 main_v914 (broadcastInDim S8192x512 ![0, 1] bcast_S1x512_S8192x512_0_1 : (⟨S1x512, .f32⟩ : BufTy).Contents (Elt F) → (⟨S8192x512, .f32⟩ : BufTy).Contents (Elt F)),
    binary main_v910 main_v914 main_v915 (addf : (⟨S8192x512, .f32⟩ : BufTy).Contents (Elt F) → (⟨S8192x512, .f32⟩ : BufTy).Contents (Elt F) → (⟨S8192x512, .f32⟩ : BufTy).Contents (Elt F)),
    nullary main_c_191 (constantI S_ 32 0#32),
    unary main_c_191 main_v916 (broadcastInDim S8192 ![] bcast_S_S8192 : (⟨S_, .i32⟩ : BufTy).Contents (Elt F) → (⟨S8192, .i32⟩ : BufTy).Contents (Elt F)),
    binary main_arg1 main_v916 main_v917 (cmpi .slt : (⟨S8192, .i32⟩ : BufTy).Contents (Elt F) → (⟨S8192, .i32⟩ : BufTy).Contents (Elt F) → (⟨S8192, .i1⟩ : BufTy).Contents (Elt F)),
    nullary main_c_192 (constantI S_ 32 8192#32),
    unary main_c_192 main_v918 (broadcastInDim S8192 ![] bcast_S_S8192 : (⟨S_, .i32⟩ : BufTy).Contents (Elt F) → (⟨S8192, .i32⟩ : BufTy).Contents (Elt F)),
    binary main_arg1 main_v918 main_v919 (addi : (⟨S8192, .i32⟩ : BufTy).Contents (Elt F) → (⟨S8192, .i32⟩ : BufTy).Contents (Elt F) → (⟨S8192, .i32⟩ : BufTy).Contents (Elt F)),
    ternary main_v917 main_v919 main_arg1 main_v920 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v920 main_v921 (broadcastInDim S8192x1 ![0] bcast_S8192_S8192x1_0 : (⟨S8192, .i32⟩ : BufTy).Contents (Elt F) → (⟨S8192x1, .i32⟩ : BufTy).Contents (Elt F)),
    binary main_v915 main_v921 main_v922 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_193 (constant S_ .f32 0x00000000#32),
    TRef.unary (TRef.of (T := ⟨S_, .f32⟩) main_cst_193) (TRef.of (T := ⟨S_, .f32⟩) main_call35_v0) id,
    TRef.unary (TRef.of (T := ⟨S8192x1, .i1⟩) main_v882) (TRef.of (T := ⟨S8192x512, .i1⟩) main_call35_v1) (broadcastInDim S8192x512 ![0, 1] bcast_S8192x1_S8192x512_0_1),
    TRef.unary (TRef.of (T := ⟨S_, .f32⟩) main_call35_v0) (TRef.of (T := ⟨S8192x512, .f32⟩) main_call35_v2) (broadcastInDim S8192x512 ![] bcast_S_S8192x512),
    TRef.ternary (TRef.of (T := ⟨S8192x512, .i1⟩) main_call35_v1) (TRef.of (T := ⟨S8192x512, .f32⟩) main_v922) (TRef.of (T := ⟨S8192x512, .f32⟩) main_call35_v2) (TRef.of (T := ⟨S8192x512, .f32⟩) main_v923) select,
    nullary main_c_194 (constantI S_ 32 0#32),
    unary main_c_194 main_v924 (broadcastInDim S8192 ![] bcast_S_S8192 : (⟨S_, .i32⟩ : BufTy).Contents (Elt F) → (⟨S8192, .i32⟩ : BufTy).Contents (Elt F)),
    binary main_arg3 main_v924 main_v925 (cmpi .slt : (⟨S8192, .i32⟩ : BufTy).Contents (Elt F) → (⟨S8192, .i32⟩ : BufTy).Contents (Elt F) → (⟨S8192, .i1⟩ : BufTy).Contents (Elt F)),
    nullary main_c_195 (constantI S_ 32 8192#32),
    unary main_c_195 main_v926 (broadcastInDim S8192 ![] bcast_S_S8192 : (⟨S_, .i32⟩ : BufTy).Contents (Elt F) → (⟨S8192, .i32⟩ : BufTy).Contents (Elt F)),
    binary main_arg3 main_v926 main_v927 (addi : (⟨S8192, .i32⟩ : BufTy).Contents (Elt F) → (⟨S8192, .i32⟩ : BufTy).Contents (Elt F) → (⟨S8192, .i32⟩ : BufTy).Contents (Elt F)),
    ternary main_v925 main_v927 main_arg3 main_v928 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v928 main_v929 (broadcastInDim S8192x1 ![0] bcast_S8192_S8192x1_0 : (⟨S8192, .i32⟩ : BufTy).Contents (Elt F) → (⟨S8192x1, .i32⟩ : BufTy).Contents (Elt F)),
    ternary main_v906 main_v929 main_v923 main_v930 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_17_sub : (lab1_17 (F := F)).Forall fun op => op.bufs ⊆ tcRefs τ sig := by
  unfold lab1_17
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_17_fresh : (lab1_17 (F := F)).Forall fun op => op.fresh = ∅ := by
  all_fresh lab1_17

/-- The references the line writes, in order. -/
abbrev lab1_17_W : List (Ref sig .tc) := [main_c_185, main_v880, main_v881, main_v882, main_v883, main_v884, main_v885, main_v886, main_v887, main_v888, main_v889, main_v890, main_v891, main_c_186, main_v892, main_v893, main_c_187, main_v894, main_v895, main_v896, main_v897, main_v898, main_cst_188, main_call34_v0, main_call34_v1, main_call34_v2, main_v899, main_c_189, main_v900, main_v901, main_c_190, main_v902, main_v903, main_v904, main_v905, main_v906, main_v907, main_v908, main_v909, main_v910, main_v911, main_v912, main_v913, main_v914, main_v915, main_c_191, main_v916, main_v917, main_c_192, main_v918, main_v919, main_v920, main_v921, main_v922, main_cst_193, main_call35_v0, main_call35_v1, main_call35_v2, main_v923, main_c_194, main_v924, main_v925, main_c_195, main_v926, main_v927, main_v928, main_v929, main_v930]

theorem lab1_17_writes : (lab1_17 (F := F)).map (fun op => op.writes)
    = (lab1_17_W).map fun y => ({Proc.devRef (τ := τ) .tc y} : Finset (DevRef τ sig)) := rfl

/-- A reference the line does not write keeps its contents. -/
theorem lab1_17_frame (V : Valuation τ sig (Elt F)) {r : Ref sig .tc} (hr : r ∉ lab1_17_W) :
    after (lab1_17 (F := F)) V (no_index (Proc.devRef .tc r)) = V (Proc.devRef .tc r) :=
  Cert.RefLib.after_frame lab1_17_writes V hr

/-- The operations of relation label 18 in layer 1: the label's edge mask, the two products, and the two masked messages added to the running sum. -/
def lab1_18 : List (HloOp τ sig (Elt F)) :=
  [
    nullary main_c_196 (constantI S_ 32 18#32),
    unary main_c_196 main_v931 (broadcastInDim S8192 ![] bcast_S_S8192 : (⟨S_, .i32⟩ : BufTy).Contents (Elt F) → (⟨S8192, .i32⟩ : BufTy).Contents (Elt F)),
    binary main_arg2 main_v931 main_v932 (cmpi .eq : (⟨S8192, .i32⟩ : BufTy).Contents (Elt F) → (⟨S8192, .i32⟩ : BufTy).Contents (Elt F) → (⟨S8192, .i1⟩ : BufTy).Contents (Elt F)),
    unary main_v932 main_v933 (broadcastInDim S8192x1 ![0] bcast_S8192_S8192x1_0 : (⟨S8192, .i1⟩ : BufTy).Contents (Elt F) → (⟨S8192x1, .i1⟩ : BufTy).Contents (Elt F)),
    unary main_v5 main_v934 ((extractStridedSlice S1x512x512 ![18, 0, 0] · slices_S40x512x512_S1x512x512_18_0_0) : (⟨S40x512x512, .f32⟩ : BufTy).Contents (Elt F) → (⟨S1x512x512, .f32⟩ : BufTy).Contents (Elt F)),
    reshape main_v934 main_v935 rfl shapeCasts_S1x512x512_S512x512,
    unary main_v935 main_v936 ((transpose S512x512 [1, 0] · transposes_S512x512_S512x512_1_0) : (⟨S512x512, .f32⟩ : BufTy).Contents (Elt F) → (⟨S512x512, .f32⟩ : BufTy).Contents (Elt F)),
    binary main_arg0 main_v936 main_v937 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v938 ((extractStridedSlice S1x512 ![18, 0] · slices_S40x512_S1x512_18_0) : (⟨S40x512, .f32⟩ : BufTy).Contents (Elt F) → (⟨S1x512, .f32⟩ : BufTy).Contents (Elt F)),
    reshape main_v938 main_v939 rfl shapeCasts_S1x512_S512,
    unary main_v939 main_v940 (broadcastInDim S1x512 ![1] bcast_S512_S1x512_1 : (⟨S512, .f32⟩ : BufTy).Contents (Elt F) → (⟨S1x512, .f32⟩ : BufTy).Contents (Elt F)),
    unary main_v940 main_v941 (broadcastInDim S8192x512 ![0, 1] bcast_S1x512_S8192x512_0_1 : (⟨S1x512, .f32⟩ : BufTy).Contents (Elt F) → (⟨S8192x512, .f32⟩ : BufTy).Contents (Elt F)),
    binary main_v937 main_v941 main_v942 (addf : (⟨S8192x512, .f32⟩ : BufTy).Contents (Elt F) → (⟨S8192x512, .f32⟩ : BufTy).Contents (Elt F) → (⟨S8192x512, .f32⟩ : BufTy).Contents (Elt F)),
    nullary main_c_197 (constantI S_ 32 0#32),
    unary main_c_197 main_v943 (broadcastInDim S8192 ![] bcast_S_S8192 : (⟨S_, .i32⟩ : BufTy).Contents (Elt F) → (⟨S8192, .i32⟩ : BufTy).Contents (Elt F)),
    binary main_arg3 main_v943 main_v944 (cmpi .slt : (⟨S8192, .i32⟩ : BufTy).Contents (Elt F) → (⟨S8192, .i32⟩ : BufTy).Contents (Elt F) → (⟨S8192, .i1⟩ : BufTy).Contents (Elt F)),
    nullary main_c_198 (constantI S_ 32 8192#32),
    unary main_c_198 main_v945 (broadcastInDim S8192 ![] bcast_S_S8192 : (⟨S_, .i32⟩ : BufTy).Contents (Elt F) → (⟨S8192, .i32⟩ : BufTy).Contents (Elt F)),
    binary main_arg3 main_v945 main_v946 (addi : (⟨S8192, .i32⟩ : BufTy).Contents (Elt F) → (⟨S8192, .i32⟩ : BufTy).Contents (Elt F) → (⟨S8192, .i32⟩ : BufTy).Contents (Elt F)),
    ternary main_v944 main_v946 main_arg3 main_v947 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v947 main_v948 (broadcastInDim S8192x1 ![0] bcast_S8192_S8192x1_0 : (⟨S8192, .i32⟩ : BufTy).Contents (Elt F) → (⟨S8192x1, .i32⟩ : BufTy).Contents (Elt F)),
    binary main_v942 main_v948 main_v949 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_199 (constant S_ .f32 0x00000000#32),
    TRef.unary (TRef.of (T := ⟨S_, .f32⟩) main_cst_199) (TRef.of (T := ⟨S_, .f32⟩) main_call36_v0) id,
    TRef.unary (TRef.of (T := ⟨S8192x1, .i1⟩) main_v933) (TRef.of (T := ⟨S8192x512, .i1⟩) main_call36_v1) (broadcastInDim S8192x512 ![0, 1] bcast_S8192x1_S8192x512_0_1),
    TRef.unary (TRef.of (T := ⟨S_, .f32⟩) main_call36_v0) (TRef.of (T := ⟨S8192x512, .f32⟩) main_call36_v2) (broadcastInDim S8192x512 ![] bcast_S_S8192x512),
    TRef.ternary (TRef.of (T := ⟨S8192x512, .i1⟩) main_call36_v1) (TRef.of (T := ⟨S8192x512, .f32⟩) main_v949) (TRef.of (T := ⟨S8192x512, .f32⟩) main_call36_v2) (TRef.of (T := ⟨S8192x512, .f32⟩) main_v950) select,
    nullary main_c_200 (constantI S_ 32 0#32),
    unary main_c_200 main_v951 (broadcastInDim S8192 ![] bcast_S_S8192 : (⟨S_, .i32⟩ : BufTy).Contents (Elt F) → (⟨S8192, .i32⟩ : BufTy).Contents (Elt F)),
    binary main_arg1 main_v951 main_v952 (cmpi .slt : (⟨S8192, .i32⟩ : BufTy).Contents (Elt F) → (⟨S8192, .i32⟩ : BufTy).Contents (Elt F) → (⟨S8192, .i1⟩ : BufTy).Contents (Elt F)),
    nullary main_c_201 (constantI S_ 32 8192#32),
    unary main_c_201 main_v953 (broadcastInDim S8192 ![] bcast_S_S8192 : (⟨S_, .i32⟩ : BufTy).Contents (Elt F) → (⟨S8192, .i32⟩ : BufTy).Contents (Elt F)),
    binary main_arg1 main_v953 main_v954 (addi : (⟨S8192, .i32⟩ : BufTy).Contents (Elt F) → (⟨S8192, .i32⟩ : BufTy).Contents (Elt F) → (⟨S8192, .i32⟩ : BufTy).Contents (Elt F)),
    ternary main_v952 main_v954 main_arg1 main_v955 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v955 main_v956 (broadcastInDim S8192x1 ![0] bcast_S8192_S8192x1_0 : (⟨S8192, .i32⟩ : BufTy).Contents (Elt F) → (⟨S8192x1, .i32⟩ : BufTy).Contents (Elt F)),
    ternary main_v930 main_v956 main_v950 main_v957 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v958 ((extractStridedSlice S1x512x512 ![38, 0, 0] · slices_S40x512x512_S1x512x512_38_0_0) : (⟨S40x512x512, .f32⟩ : BufTy).Contents (Elt F) → (⟨S1x512x512, .f32⟩ : BufTy).Contents (Elt F)),
    reshape main_v958 main_v959 rfl shapeCasts_S1x512x512_S512x512,
    unary main_v959 main_v960 ((transpose S512x512 [1, 0] · transposes_S512x512_S512x512_1_0) : (⟨S512x512, .f32⟩ : BufTy).Contents (Elt F) → (⟨S512x512, .f32⟩ : BufTy).Contents (Elt F)),
    binary main_arg0 main_v960 main_v961 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v962 ((extractStridedSlice S1x512 ![38, 0] · slices_S40x512_S1x512_38_0) : (⟨S40x512, .f32⟩ : BufTy).Contents (Elt F) → (⟨S1x512, .f32⟩ : BufTy).Contents (Elt F)),
    reshape main_v962 main_v963 rfl shapeCasts_S1x512_S512,
    unary main_v963 main_v964 (broadcastInDim S1x512 ![1] bcast_S512_S1x512_1 : (⟨S512, .f32⟩ : BufTy).Contents (Elt F) → (⟨S1x512, .f32⟩ : BufTy).Contents (Elt F)),
    unary main_v964 main_v965 (broadcastInDim S8192x512 ![0, 1] bcast_S1x512_S8192x512_0_1 : (⟨S1x512, .f32⟩ : BufTy).Contents (Elt F) → (⟨S8192x512, .f32⟩ : BufTy).Contents (Elt F)),
    binary main_v961 main_v965 main_v966 (addf : (⟨S8192x512, .f32⟩ : BufTy).Contents (Elt F) → (⟨S8192x512, .f32⟩ : BufTy).Contents (Elt F) → (⟨S8192x512, .f32⟩ : BufTy).Contents (Elt F)),
    nullary main_c_202 (constantI S_ 32 0#32),
    unary main_c_202 main_v967 (broadcastInDim S8192 ![] bcast_S_S8192 : (⟨S_, .i32⟩ : BufTy).Contents (Elt F) → (⟨S8192, .i32⟩ : BufTy).Contents (Elt F)),
    binary main_arg1 main_v967 main_v968 (cmpi .slt : (⟨S8192, .i32⟩ : BufTy).Contents (Elt F) → (⟨S8192, .i32⟩ : BufTy).Contents (Elt F) → (⟨S8192, .i1⟩ : BufTy).Contents (Elt F)),
    nullary main_c_203 (constantI S_ 32 8192#32),
    unary main_c_203 main_v969 (broadcastInDim S8192 ![] bcast_S_S8192 : (⟨S_, .i32⟩ : BufTy).Contents (Elt F) → (⟨S8192, .i32⟩ : BufTy).Contents (Elt F)),
    binary main_arg1 main_v969 main_v970 (addi : (⟨S8192, .i32⟩ : BufTy).Contents (Elt F) → (⟨S8192, .i32⟩ : BufTy).Contents (Elt F) → (⟨S8192, .i32⟩ : BufTy).Contents (Elt F)),
    ternary main_v968 main_v970 main_arg1 main_v971 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v971 main_v972 (broadcastInDim S8192x1 ![0] bcast_S8192_S8192x1_0 : (⟨S8192, .i32⟩ : BufTy).Contents (Elt F) → (⟨S8192x1, .i32⟩ : BufTy).Contents (Elt F)),
    binary main_v966 main_v972 main_v973 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_204 (constant S_ .f32 0x00000000#32),
    TRef.unary (TRef.of (T := ⟨S_, .f32⟩) main_cst_204) (TRef.of (T := ⟨S_, .f32⟩) main_call37_v0) id,
    TRef.unary (TRef.of (T := ⟨S8192x1, .i1⟩) main_v933) (TRef.of (T := ⟨S8192x512, .i1⟩) main_call37_v1) (broadcastInDim S8192x512 ![0, 1] bcast_S8192x1_S8192x512_0_1),
    TRef.unary (TRef.of (T := ⟨S_, .f32⟩) main_call37_v0) (TRef.of (T := ⟨S8192x512, .f32⟩) main_call37_v2) (broadcastInDim S8192x512 ![] bcast_S_S8192x512),
    TRef.ternary (TRef.of (T := ⟨S8192x512, .i1⟩) main_call37_v1) (TRef.of (T := ⟨S8192x512, .f32⟩) main_v973) (TRef.of (T := ⟨S8192x512, .f32⟩) main_call37_v2) (TRef.of (T := ⟨S8192x512, .f32⟩) main_v974) select,
    nullary main_c_205 (constantI S_ 32 0#32),
    unary main_c_205 main_v975 (broadcastInDim S8192 ![] bcast_S_S8192 : (⟨S_, .i32⟩ : BufTy).Contents (Elt F) → (⟨S8192, .i32⟩ : BufTy).Contents (Elt F)),
    binary main_arg3 main_v975 main_v976 (cmpi .slt : (⟨S8192, .i32⟩ : BufTy).Contents (Elt F) → (⟨S8192, .i32⟩ : BufTy).Contents (Elt F) → (⟨S8192, .i1⟩ : BufTy).Contents (Elt F)),
    nullary main_c_206 (constantI S_ 32 8192#32),
    unary main_c_206 main_v977 (broadcastInDim S8192 ![] bcast_S_S8192 : (⟨S_, .i32⟩ : BufTy).Contents (Elt F) → (⟨S8192, .i32⟩ : BufTy).Contents (Elt F)),
    binary main_arg3 main_v977 main_v978 (addi : (⟨S8192, .i32⟩ : BufTy).Contents (Elt F) → (⟨S8192, .i32⟩ : BufTy).Contents (Elt F) → (⟨S8192, .i32⟩ : BufTy).Contents (Elt F)),
    ternary main_v976 main_v978 main_arg3 main_v979 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v979 main_v980 (broadcastInDim S8192x1 ![0] bcast_S8192_S8192x1_0 : (⟨S8192, .i32⟩ : BufTy).Contents (Elt F) → (⟨S8192x1, .i32⟩ : BufTy).Contents (Elt F)),
    ternary main_v957 main_v980 main_v974 main_v981 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_18_sub : (lab1_18 (F := F)).Forall fun op => op.bufs ⊆ tcRefs τ sig := by
  unfold lab1_18
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_18_fresh : (lab1_18 (F := F)).Forall fun op => op.fresh = ∅ := by
  all_fresh lab1_18

/-- The references the line writes, in order. -/
abbrev lab1_18_W : List (Ref sig .tc) := [main_c_196, main_v931, main_v932, main_v933, main_v934, main_v935, main_v936, main_v937, main_v938, main_v939, main_v940, main_v941, main_v942, main_c_197, main_v943, main_v944, main_c_198, main_v945, main_v946, main_v947, main_v948, main_v949, main_cst_199, main_call36_v0, main_call36_v1, main_call36_v2, main_v950, main_c_200, main_v951, main_v952, main_c_201, main_v953, main_v954, main_v955, main_v956, main_v957, main_v958, main_v959, main_v960, main_v961, main_v962, main_v963, main_v964, main_v965, main_v966, main_c_202, main_v967, main_v968, main_c_203, main_v969, main_v970, main_v971, main_v972, main_v973, main_cst_204, main_call37_v0, main_call37_v1, main_call37_v2, main_v974, main_c_205, main_v975, main_v976, main_c_206, main_v977, main_v978, main_v979, main_v980, main_v981]

theorem lab1_18_writes : (lab1_18 (F := F)).map (fun op => op.writes)
    = (lab1_18_W).map fun y => ({Proc.devRef (τ := τ) .tc y} : Finset (DevRef τ sig)) := rfl

/-- A reference the line does not write keeps its contents. -/
theorem lab1_18_frame (V : Valuation τ sig (Elt F)) {r : Ref sig .tc} (hr : r ∉ lab1_18_W) :
    after (lab1_18 (F := F)) V (no_index (Proc.devRef .tc r)) = V (Proc.devRef .tc r) :=
  Cert.RefLib.after_frame lab1_18_writes V hr

/-- The operations of relation label 19 in layer 1: the label's edge mask, the two products, and the two masked messages added to the running sum. -/
def lab1_19 : List (HloOp τ sig (Elt F)) :=
  [
    nullary main_c_207 (constantI S_ 32 19#32),
    unary main_c_207 main_v982 (broadcastInDim S8192 ![] bcast_S_S8192 : (⟨S_, .i32⟩ : BufTy).Contents (Elt F) → (⟨S8192, .i32⟩ : BufTy).Contents (Elt F)),
    binary main_arg2 main_v982 main_v983 (cmpi .eq : (⟨S8192, .i32⟩ : BufTy).Contents (Elt F) → (⟨S8192, .i32⟩ : BufTy).Contents (Elt F) → (⟨S8192, .i1⟩ : BufTy).Contents (Elt F)),
    unary main_v983 main_v984 (broadcastInDim S8192x1 ![0] bcast_S8192_S8192x1_0 : (⟨S8192, .i1⟩ : BufTy).Contents (Elt F) → (⟨S8192x1, .i1⟩ : BufTy).Contents (Elt F)),
    unary main_v5 main_v985 ((extractStridedSlice S1x512x512 ![19, 0, 0] · slices_S40x512x512_S1x512x512_19_0_0) : (⟨S40x512x512, .f32⟩ : BufTy).Contents (Elt F) → (⟨S1x512x512, .f32⟩ : BufTy).Contents (Elt F)),
    reshape main_v985 main_v986 rfl shapeCasts_S1x512x512_S512x512,
    unary main_v986 main_v987 ((transpose S512x512 [1, 0] · transposes_S512x512_S512x512_1_0) : (⟨S512x512, .f32⟩ : BufTy).Contents (Elt F) → (⟨S512x512, .f32⟩ : BufTy).Contents (Elt F)),
    binary main_arg0 main_v987 main_v988 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v989 ((extractStridedSlice S1x512 ![19, 0] · slices_S40x512_S1x512_19_0) : (⟨S40x512, .f32⟩ : BufTy).Contents (Elt F) → (⟨S1x512, .f32⟩ : BufTy).Contents (Elt F)),
    reshape main_v989 main_v990 rfl shapeCasts_S1x512_S512,
    unary main_v990 main_v991 (broadcastInDim S1x512 ![1] bcast_S512_S1x512_1 : (⟨S512, .f32⟩ : BufTy).Contents (Elt F) → (⟨S1x512, .f32⟩ : BufTy).Contents (Elt F)),
    unary main_v991 main_v992 (broadcastInDim S8192x512 ![0, 1] bcast_S1x512_S8192x512_0_1 : (⟨S1x512, .f32⟩ : BufTy).Contents (Elt F) → (⟨S8192x512, .f32⟩ : BufTy).Contents (Elt F)),
    binary main_v988 main_v992 main_v993 (addf : (⟨S8192x512, .f32⟩ : BufTy).Contents (Elt F) → (⟨S8192x512, .f32⟩ : BufTy).Contents (Elt F) → (⟨S8192x512, .f32⟩ : BufTy).Contents (Elt F)),
    nullary main_c_208 (constantI S_ 32 0#32),
    unary main_c_208 main_v994 (broadcastInDim S8192 ![] bcast_S_S8192 : (⟨S_, .i32⟩ : BufTy).Contents (Elt F) → (⟨S8192, .i32⟩ : BufTy).Contents (Elt F)),
    binary main_arg3 main_v994 main_v995 (cmpi .slt : (⟨S8192, .i32⟩ : BufTy).Contents (Elt F) → (⟨S8192, .i32⟩ : BufTy).Contents (Elt F) → (⟨S8192, .i1⟩ : BufTy).Contents (Elt F)),
    nullary main_c_209 (constantI S_ 32 8192#32),
    unary main_c_209 main_v996 (broadcastInDim S8192 ![] bcast_S_S8192 : (⟨S_, .i32⟩ : BufTy).Contents (Elt F) → (⟨S8192, .i32⟩ : BufTy).Contents (Elt F)),
    binary main_arg3 main_v996 main_v997 (addi : (⟨S8192, .i32⟩ : BufTy).Contents (Elt F) → (⟨S8192, .i32⟩ : BufTy).Contents (Elt F) → (⟨S8192, .i32⟩ : BufTy).Contents (Elt F)),
    ternary main_v995 main_v997 main_arg3 main_v998 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v998 main_v999 (broadcastInDim S8192x1 ![0] bcast_S8192_S8192x1_0 : (⟨S8192, .i32⟩ : BufTy).Contents (Elt F) → (⟨S8192x1, .i32⟩ : BufTy).Contents (Elt F)),
    binary main_v993 main_v999 main_v1000 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_210 (constant S_ .f32 0x00000000#32),
    TRef.unary (TRef.of (T := ⟨S_, .f32⟩) main_cst_210) (TRef.of (T := ⟨S_, .f32⟩) main_call38_v0) id,
    TRef.unary (TRef.of (T := ⟨S8192x1, .i1⟩) main_v984) (TRef.of (T := ⟨S8192x512, .i1⟩) main_call38_v1) (broadcastInDim S8192x512 ![0, 1] bcast_S8192x1_S8192x512_0_1),
    TRef.unary (TRef.of (T := ⟨S_, .f32⟩) main_call38_v0) (TRef.of (T := ⟨S8192x512, .f32⟩) main_call38_v2) (broadcastInDim S8192x512 ![] bcast_S_S8192x512),
    TRef.ternary (TRef.of (T := ⟨S8192x512, .i1⟩) main_call38_v1) (TRef.of (T := ⟨S8192x512, .f32⟩) main_v1000) (TRef.of (T := ⟨S8192x512, .f32⟩) main_call38_v2) (TRef.of (T := ⟨S8192x512, .f32⟩) main_v1001) select,
    nullary main_c_211 (constantI S_ 32 0#32),
    unary main_c_211 main_v1002 (broadcastInDim S8192 ![] bcast_S_S8192 : (⟨S_, .i32⟩ : BufTy).Contents (Elt F) → (⟨S8192, .i32⟩ : BufTy).Contents (Elt F)),
    binary main_arg1 main_v1002 main_v1003 (cmpi .slt : (⟨S8192, .i32⟩ : BufTy).Contents (Elt F) → (⟨S8192, .i32⟩ : BufTy).Contents (Elt F) → (⟨S8192, .i1⟩ : BufTy).Contents (Elt F)),
    nullary main_c_212 (constantI S_ 32 8192#32),
    unary main_c_212 main_v1004 (broadcastInDim S8192 ![] bcast_S_S8192 : (⟨S_, .i32⟩ : BufTy).Contents (Elt F) → (⟨S8192, .i32⟩ : BufTy).Contents (Elt F)),
    binary main_arg1 main_v1004 main_v1005 (addi : (⟨S8192, .i32⟩ : BufTy).Contents (Elt F) → (⟨S8192, .i32⟩ : BufTy).Contents (Elt F) → (⟨S8192, .i32⟩ : BufTy).Contents (Elt F)),
    ternary main_v1003 main_v1005 main_arg1 main_v1006 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1006 main_v1007 (broadcastInDim S8192x1 ![0] bcast_S8192_S8192x1_0 : (⟨S8192, .i32⟩ : BufTy).Contents (Elt F) → (⟨S8192x1, .i32⟩ : BufTy).Contents (Elt F)),
    ternary main_v981 main_v1007 main_v1001 main_v1008 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v5 main_v1009 ((extractStridedSlice S1x512x512 ![39, 0, 0] · slices_S40x512x512_S1x512x512_39_0_0) : (⟨S40x512x512, .f32⟩ : BufTy).Contents (Elt F) → (⟨S1x512x512, .f32⟩ : BufTy).Contents (Elt F)),
    reshape main_v1009 main_v1010 rfl shapeCasts_S1x512x512_S512x512,
    unary main_v1010 main_v1011 ((transpose S512x512 [1, 0] · transposes_S512x512_S512x512_1_0) : (⟨S512x512, .f32⟩ : BufTy).Contents (Elt F) → (⟨S512x512, .f32⟩ : BufTy).Contents (Elt F)),
    binary main_arg0 main_v1011 main_v1012 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v7 main_v1013 ((extractStridedSlice S1x512 ![39, 0] · slices_S40x512_S1x512_39_0) : (⟨S40x512, .f32⟩ : BufTy).Contents (Elt F) → (⟨S1x512, .f32⟩ : BufTy).Contents (Elt F)),
    reshape main_v1013 main_v1014 rfl shapeCasts_S1x512_S512,
    unary main_v1014 main_v1015 (broadcastInDim S1x512 ![1] bcast_S512_S1x512_1 : (⟨S512, .f32⟩ : BufTy).Contents (Elt F) → (⟨S1x512, .f32⟩ : BufTy).Contents (Elt F)),
    unary main_v1015 main_v1016 (broadcastInDim S8192x512 ![0, 1] bcast_S1x512_S8192x512_0_1 : (⟨S1x512, .f32⟩ : BufTy).Contents (Elt F) → (⟨S8192x512, .f32⟩ : BufTy).Contents (Elt F)),
    binary main_v1012 main_v1016 main_v1017 (addf : (⟨S8192x512, .f32⟩ : BufTy).Contents (Elt F) → (⟨S8192x512, .f32⟩ : BufTy).Contents (Elt F) → (⟨S8192x512, .f32⟩ : BufTy).Contents (Elt F)),
    nullary main_c_213 (constantI S_ 32 0#32),
    unary main_c_213 main_v1018 (broadcastInDim S8192 ![] bcast_S_S8192 : (⟨S_, .i32⟩ : BufTy).Contents (Elt F) → (⟨S8192, .i32⟩ : BufTy).Contents (Elt F)),
    binary main_arg1 main_v1018 main_v1019 (cmpi .slt : (⟨S8192, .i32⟩ : BufTy).Contents (Elt F) → (⟨S8192, .i32⟩ : BufTy).Contents (Elt F) → (⟨S8192, .i1⟩ : BufTy).Contents (Elt F)),
    nullary main_c_214 (constantI S_ 32 8192#32),
    unary main_c_214 main_v1020 (broadcastInDim S8192 ![] bcast_S_S8192 : (⟨S_, .i32⟩ : BufTy).Contents (Elt F) → (⟨S8192, .i32⟩ : BufTy).Contents (Elt F)),
    binary main_arg1 main_v1020 main_v1021 (addi : (⟨S8192, .i32⟩ : BufTy).Contents (Elt F) → (⟨S8192, .i32⟩ : BufTy).Contents (Elt F) → (⟨S8192, .i32⟩ : BufTy).Contents (Elt F)),
    ternary main_v1019 main_v1021 main_arg1 main_v1022 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1022 main_v1023 (broadcastInDim S8192x1 ![0] bcast_S8192_S8192x1_0 : (⟨S8192, .i32⟩ : BufTy).Contents (Elt F) → (⟨S8192x1, .i32⟩ : BufTy).Contents (Elt F)),
    binary main_v1017 main_v1023 main_v1024 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_215 (constant S_ .f32 0x00000000#32),
    TRef.unary (TRef.of (T := ⟨S_, .f32⟩) main_cst_215) (TRef.of (T := ⟨S_, .f32⟩) main_call39_v0) id,
    TRef.unary (TRef.of (T := ⟨S8192x1, .i1⟩) main_v984) (TRef.of (T := ⟨S8192x512, .i1⟩) main_call39_v1) (broadcastInDim S8192x512 ![0, 1] bcast_S8192x1_S8192x512_0_1),
    TRef.unary (TRef.of (T := ⟨S_, .f32⟩) main_call39_v0) (TRef.of (T := ⟨S8192x512, .f32⟩) main_call39_v2) (broadcastInDim S8192x512 ![] bcast_S_S8192x512),
    TRef.ternary (TRef.of (T := ⟨S8192x512, .i1⟩) main_call39_v1) (TRef.of (T := ⟨S8192x512, .f32⟩) main_v1024) (TRef.of (T := ⟨S8192x512, .f32⟩) main_call39_v2) (TRef.of (T := ⟨S8192x512, .f32⟩) main_v1025) select,
    nullary main_c_216 (constantI S_ 32 0#32),
    unary main_c_216 main_v1026 (broadcastInDim S8192 ![] bcast_S_S8192 : (⟨S_, .i32⟩ : BufTy).Contents (Elt F) → (⟨S8192, .i32⟩ : BufTy).Contents (Elt F)),
    binary main_arg3 main_v1026 main_v1027 (cmpi .slt : (⟨S8192, .i32⟩ : BufTy).Contents (Elt F) → (⟨S8192, .i32⟩ : BufTy).Contents (Elt F) → (⟨S8192, .i1⟩ : BufTy).Contents (Elt F)),
    nullary main_c_217 (constantI S_ 32 8192#32),
    unary main_c_217 main_v1028 (broadcastInDim S8192 ![] bcast_S_S8192 : (⟨S_, .i32⟩ : BufTy).Contents (Elt F) → (⟨S8192, .i32⟩ : BufTy).Contents (Elt F)),
    binary main_arg3 main_v1028 main_v1029 (addi : (⟨S8192, .i32⟩ : BufTy).Contents (Elt F) → (⟨S8192, .i32⟩ : BufTy).Contents (Elt F) → (⟨S8192, .i32⟩ : BufTy).Contents (Elt F)),
    ternary main_v1027 main_v1029 main_arg3 main_v1030 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1030 main_v1031 (broadcastInDim S8192x1 ![0] bcast_S8192_S8192x1_0 : (⟨S8192, .i32⟩ : BufTy).Contents (Elt F) → (⟨S8192x1, .i32⟩ : BufTy).Contents (Elt F)),
    ternary main_v1008 main_v1031 main_v1025 main_v1032 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab1_19_sub : (lab1_19 (F := F)).Forall fun op => op.bufs ⊆ tcRefs τ sig := by
  unfold lab1_19
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab1_19_fresh : (lab1_19 (F := F)).Forall fun op => op.fresh = ∅ := by
  all_fresh lab1_19

/-- The references the line writes, in order. -/
abbrev lab1_19_W : List (Ref sig .tc) := [main_c_207, main_v982, main_v983, main_v984, main_v985, main_v986, main_v987, main_v988, main_v989, main_v990, main_v991, main_v992, main_v993, main_c_208, main_v994, main_v995, main_c_209, main_v996, main_v997, main_v998, main_v999, main_v1000, main_cst_210, main_call38_v0, main_call38_v1, main_call38_v2, main_v1001, main_c_211, main_v1002, main_v1003, main_c_212, main_v1004, main_v1005, main_v1006, main_v1007, main_v1008, main_v1009, main_v1010, main_v1011, main_v1012, main_v1013, main_v1014, main_v1015, main_v1016, main_v1017, main_c_213, main_v1018, main_v1019, main_c_214, main_v1020, main_v1021, main_v1022, main_v1023, main_v1024, main_cst_215, main_call39_v0, main_call39_v1, main_call39_v2, main_v1025, main_c_216, main_v1026, main_v1027, main_c_217, main_v1028, main_v1029, main_v1030, main_v1031, main_v1032]

theorem lab1_19_writes : (lab1_19 (F := F)).map (fun op => op.writes)
    = (lab1_19_W).map fun y => ({Proc.devRef (τ := τ) .tc y} : Finset (DevRef τ sig)) := rfl

/-- A reference the line does not write keeps its contents. -/
theorem lab1_19_frame (V : Valuation τ sig (Elt F)) {r : Ref sig .tc} (hr : r ∉ lab1_19_W) :
    after (lab1_19 (F := F)) V (no_index (Proc.devRef .tc r)) = V (Proc.devRef .tc r) :=
  Cert.RefLib.after_frame lab1_19_writes V hr

/-- The last operations of layer 1: the positive part of the sum. -/
def fin1 : List (HloOp τ sig (Elt F)) :=
  [
    TRef.nullary (TRef.of (T := ⟨S_, .f32⟩) main_call40_cst) (constant S_ .f32 0x00000000#32),
    TRef.unary (TRef.of (T := ⟨S_, .f32⟩) main_call40_cst) (TRef.of (T := ⟨S8192x512, .f32⟩) main_call40_v0) (broadcastInDim S8192x512 ![] bcast_S_S8192x512),
    TRef.binary (TRef.of (T := ⟨S8192x512, .f32⟩) main_v1032) (TRef.of (T := ⟨S8192x512, .f32⟩) main_call40_v0) (TRef.of (T := ⟨S8192x512, .f32⟩) main_v1033) maximumf ]

/-- Every operation of the line touches TensorCore references only. -/
theorem fin1_sub : (fin1 (F := F)).Forall fun op => op.bufs ⊆ tcRefs τ sig := by
  unfold fin1
  exact ⟨nullary_bufs_sub .., unary_bufs_sub .., binary_bufs_sub ..⟩

/-- No operation of the line allocates a buffer. -/
theorem fin1_fresh : (fin1 (F := F)).Forall fun op => op.fresh = ∅ := by
  all_fresh fin1

/-- The references the line writes, in order. -/
abbrev fin1_W : List (Ref sig .tc) := [main_call40_cst, main_call40_v0, main_v1033]

theorem fin1_writes : (fin1 (F := F)).map (fun op => op.writes)
    = (fin1_W).map fun y => ({Proc.devRef (τ := τ) .tc y} : Finset (DevRef τ sig)) := rfl

/-- A reference the line does not write keeps its contents. -/
theorem fin1_frame (V : Valuation τ sig (Elt F)) {r : Ref sig .tc} (hr : r ∉ fin1_W) :
    after (fin1 (F := F)) V (no_index (Proc.devRef .tc r)) = V (Proc.devRef .tc r) :=
  Cert.RefLib.after_frame fin1_writes V hr

/-- Layer 1's operations, in order. -/
def opsL1 : List (HloOp τ sig (Elt F)) :=
  pre1 ++ (lab1_0 ++ (lab1_1 ++ (lab1_2 ++ (lab1_3 ++ (lab1_4 ++ (lab1_5 ++ (lab1_6 ++ (lab1_7 ++ (lab1_8 ++ (lab1_9 ++ (lab1_10 ++ (lab1_11 ++ (lab1_12 ++ (lab1_13 ++ (lab1_14 ++ (lab1_15 ++ (lab1_16 ++ (lab1_17 ++ (lab1_18 ++ (lab1_19 ++ (fin1)))))))))))))))))))))

theorem opsL1_sub : (opsL1 (F := F)).Forall fun op => op.bufs ⊆ tcRefs τ sig := by
  unfold opsL1
  exact Cert.LibAfter.Forall.append pre1_sub (Cert.LibAfter.Forall.append lab1_0_sub (Cert.LibAfter.Forall.append lab1_1_sub (Cert.LibAfter.Forall.append lab1_2_sub (Cert.LibAfter.Forall.append lab1_3_sub (Cert.LibAfter.Forall.append lab1_4_sub (Cert.LibAfter.Forall.append lab1_5_sub (Cert.LibAfter.Forall.append lab1_6_sub (Cert.LibAfter.Forall.append lab1_7_sub (Cert.LibAfter.Forall.append lab1_8_sub (Cert.LibAfter.Forall.append lab1_9_sub (Cert.LibAfter.Forall.append lab1_10_sub (Cert.LibAfter.Forall.append lab1_11_sub (Cert.LibAfter.Forall.append lab1_12_sub (Cert.LibAfter.Forall.append lab1_13_sub (Cert.LibAfter.Forall.append lab1_14_sub (Cert.LibAfter.Forall.append lab1_15_sub (Cert.LibAfter.Forall.append lab1_16_sub (Cert.LibAfter.Forall.append lab1_17_sub (Cert.LibAfter.Forall.append lab1_18_sub (Cert.LibAfter.Forall.append lab1_19_sub (fin1_sub)))))))))))))))))))))

theorem opsL1_fresh : (opsL1 (F := F)).Forall fun op => op.fresh = ∅ := by
  unfold opsL1
  exact Cert.LibAfter.Forall.append pre1_fresh (Cert.LibAfter.Forall.append lab1_0_fresh (Cert.LibAfter.Forall.append lab1_1_fresh (Cert.LibAfter.Forall.append lab1_2_fresh (Cert.LibAfter.Forall.append lab1_3_fresh (Cert.LibAfter.Forall.append lab1_4_fresh (Cert.LibAfter.Forall.append lab1_5_fresh (Cert.LibAfter.Forall.append lab1_6_fresh (Cert.LibAfter.Forall.append lab1_7_fresh (Cert.LibAfter.Forall.append lab1_8_fresh (Cert.LibAfter.Forall.append lab1_9_fresh (Cert.LibAfter.Forall.append lab1_10_fresh (Cert.LibAfter.Forall.append lab1_11_fresh (Cert.LibAfter.Forall.append lab1_12_fresh (Cert.LibAfter.Forall.append lab1_13_fresh (Cert.LibAfter.Forall.append lab1_14_fresh (Cert.LibAfter.Forall.append lab1_15_fresh (Cert.LibAfter.Forall.append lab1_16_fresh (Cert.LibAfter.Forall.append lab1_17_fresh (Cert.LibAfter.Forall.append lab1_18_fresh (Cert.LibAfter.Forall.append lab1_19_fresh (fin1_fresh)))))))))))))))))))))

/-- The references the line writes, in order. -/
abbrev opsL1_W : List (Ref sig .tc) :=
  pre1_W ++ (lab1_0_W ++ (lab1_1_W ++ (lab1_2_W ++ (lab1_3_W ++ (lab1_4_W ++ (lab1_5_W ++ (lab1_6_W ++ (lab1_7_W ++ (lab1_8_W ++ (lab1_9_W ++ (lab1_10_W ++ (lab1_11_W ++ (lab1_12_W ++ (lab1_13_W ++ (lab1_14_W ++ (lab1_15_W ++ (lab1_16_W ++ (lab1_17_W ++ (lab1_18_W ++ (lab1_19_W ++ (fin1_W)))))))))))))))))))))

theorem opsL1_writes : (opsL1 (F := F)).map (fun op => op.writes)
    = (opsL1_W).map fun y => ({Proc.devRef (τ := τ) .tc y} : Finset (DevRef τ sig)) := by
  unfold opsL1
  exact Cert.RefLib.writes_append pre1_writes (Cert.RefLib.writes_append lab1_0_writes (Cert.RefLib.writes_append lab1_1_writes (Cert.RefLib.writes_append lab1_2_writes (Cert.RefLib.writes_append lab1_3_writes (Cert.RefLib.writes_append lab1_4_writes (Cert.RefLib.writes_append lab1_5_writes (Cert.RefLib.writes_append lab1_6_writes (Cert.RefLib.writes_append lab1_7_writes (Cert.RefLib.writes_append lab1_8_writes (Cert.RefLib.writes_append lab1_9_writes (Cert.RefLib.writes_append lab1_10_writes (Cert.RefLib.writes_append lab1_11_writes (Cert.RefLib.writes_append lab1_12_writes (Cert.RefLib.writes_append lab1_13_writes (Cert.RefLib.writes_append lab1_14_writes (Cert.RefLib.writes_append lab1_15_writes (Cert.RefLib.writes_append lab1_16_writes (Cert.RefLib.writes_append lab1_17_writes (Cert.RefLib.writes_append lab1_18_writes (Cert.RefLib.writes_append lab1_19_writes (fin1_writes)))))))))))))))))))))

/-- A reference the line does not write keeps its contents. -/
theorem opsL1_frame (V : Valuation τ sig (Elt F)) {r : Ref sig .tc} (hr : r ∉ opsL1_W) :
    after (opsL1 (F := F)) V (no_index (Proc.devRef .tc r)) = V (Proc.devRef .tc r) :=
  Cert.RefLib.after_frame opsL1_writes V hr

end Cert.ReferenceIdeal.RefSide

end
-- ==== Proof.RefOps2.lean ====
/-
  The reference program's operations of layer 2, as lists.

  The layer is cut where its mathematics cuts it: the operations that slice the layer's parameters out of the argument
  arrays and compute the self transform; then, for each of the twenty relation labels in turn, the operations that
  compute the label's edge mask, its two products `h · Wᵀ + b` and the two masked messages, and add them to the running
  sum; then the positive part.  For each list: every operation touches TensorCore references only, none allocates a
  buffer, and a reference the list does not write keeps its contents through it.  The layer's list is the
  concatenation of the pieces, and inherits the three facts.
  The five operations of the output projection follow the second layer.
-/
import proofs.«143303_j18098992185957_1_alg».proof.Proof.Gen.ReferenceIdeal
import proofs.«143303_j18098992185957_1_alg».proof.Proof.LibAfter
import proofs.«143303_j18098992185957_1_alg».proof.Proof.RefLib
import Idealize.ShloMosaic.Lib.StableHlo.Run

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The first operations of layer 2: the layer's parameters sliced out of the argument arrays, and the self transform of every node. -/
def pre2 : List (HloOp τ sig (Elt F)) :=
  [
    unary main_arg4 main_v1034 ((extractStridedSlice S1x512x512 ![1, 0, 0] · slices_S2x512x512_S1x512x512_1_0_0) : (⟨S2x512x512, .f32⟩ : BufTy).Contents (Elt F) → (⟨S1x512x512, .f32⟩ : BufTy).Contents (Elt F)),
    reshape main_v1034 main_v1035 rfl shapeCasts_S1x512x512_S512x512,
    unary main_arg5 main_v1036 ((extractStridedSlice S1x512 ![1, 0] · slices_S2x512_S1x512_1_0) : (⟨S2x512, .f32⟩ : BufTy).Contents (Elt F) → (⟨S1x512, .f32⟩ : BufTy).Contents (Elt F)),
    reshape main_v1036 main_v1037 rfl shapeCasts_S1x512_S512,
    unary main_arg6 main_v1038 ((extractStridedSlice S1x40x512x512 ![1, 0, 0, 0] · slices_S2x40x512x512_S1x40x512x512_1_0_0_0) : (⟨S2x40x512x512, .f32⟩ : BufTy).Contents (Elt F) → (⟨S1x40x512x512, .f32⟩ : BufTy).Contents (Elt F)),
    reshape main_v1038 main_v1039 rfl shapeCasts_S1x40x512x512_S40x512x512,
    unary main_arg7 main_v1040 ((extractStridedSlice S1x40x512 ![1, 0, 0] · slices_S2x40x512_S1x40x512_1_0_0) : (⟨S2x40x512, .f32⟩ : BufTy).Contents (Elt F) → (⟨S1x40x512, .f32⟩ : BufTy).Contents (Elt F)),
    reshape main_v1040 main_v1041 rfl shapeCasts_S1x40x512_S40x512,
    unary main_v1035 main_v1042 ((transpose S512x512 [1, 0] · transposes_S512x512_S512x512_1_0) : (⟨S512x512, .f32⟩ : BufTy).Contents (Elt F) → (⟨S512x512, .f32⟩ : BufTy).Contents (Elt F)),
    binary main_v1033 main_v1042 main_v1043 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1037 main_v1044 (broadcastInDim S1x512 ![1] bcast_S512_S1x512_1 : (⟨S512, .f32⟩ : BufTy).Contents (Elt F) → (⟨S1x512, .f32⟩ : BufTy).Contents (Elt F)),
    unary main_v1044 main_v1045 (broadcastInDim S8192x512 ![0, 1] bcast_S1x512_S8192x512_0_1 : (⟨S1x512, .f32⟩ : BufTy).Contents (Elt F) → (⟨S8192x512, .f32⟩ : BufTy).Contents (Elt F)),
    binary main_v1043 main_v1045 main_v1046 (addf : (⟨S8192x512, .f32⟩ : BufTy).Contents (Elt F) → (⟨S8192x512, .f32⟩ : BufTy).Contents (Elt F) → (⟨S8192x512, .f32⟩ : BufTy).Contents (Elt F)) ]

/-- Every operation of the line touches TensorCore references only. -/
theorem pre2_sub : (pre2 (F := F)).Forall fun op => op.bufs ⊆ tcRefs τ sig := by
  unfold pre2
  exact ⟨unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub ..⟩

/-- No operation of the line allocates a buffer. -/
theorem pre2_fresh : (pre2 (F := F)).Forall fun op => op.fresh = ∅ := by
  all_fresh pre2

/-- The references the line writes, in order. -/
abbrev pre2_W : List (Ref sig .tc) := [main_v1034, main_v1035, main_v1036, main_v1037, main_v1038, main_v1039, main_v1040, main_v1041, main_v1042, main_v1043, main_v1044, main_v1045, main_v1046]

theorem pre2_writes : (pre2 (F := F)).map (fun op => op.writes)
    = (pre2_W).map fun y => ({Proc.devRef (τ := τ) .tc y} : Finset (DevRef τ sig)) := rfl

/-- A reference the line does not write keeps its contents. -/
theorem pre2_frame (V : Valuation τ sig (Elt F)) {r : Ref sig .tc} (hr : r ∉ pre2_W) :
    after (pre2 (F := F)) V (no_index (Proc.devRef .tc r)) = V (Proc.devRef .tc r) :=
  Cert.RefLib.after_frame pre2_writes V hr

/-- The operations of relation label 0 in layer 2: the label's edge mask, the two products, and the two masked messages added to the running sum. -/
def lab2_0 : List (HloOp τ sig (Elt F)) :=
  [
    nullary main_c_218 (constantI S_ 32 0#32),
    unary main_c_218 main_v1047 (broadcastInDim S8192 ![] bcast_S_S8192 : (⟨S_, .i32⟩ : BufTy).Contents (Elt F) → (⟨S8192, .i32⟩ : BufTy).Contents (Elt F)),
    binary main_arg2 main_v1047 main_v1048 (cmpi .eq : (⟨S8192, .i32⟩ : BufTy).Contents (Elt F) → (⟨S8192, .i32⟩ : BufTy).Contents (Elt F) → (⟨S8192, .i1⟩ : BufTy).Contents (Elt F)),
    unary main_v1048 main_v1049 (broadcastInDim S8192x1 ![0] bcast_S8192_S8192x1_0 : (⟨S8192, .i1⟩ : BufTy).Contents (Elt F) → (⟨S8192x1, .i1⟩ : BufTy).Contents (Elt F)),
    unary main_v1039 main_v1050 ((extractStridedSlice S1x512x512 ![0, 0, 0] · slices_S40x512x512_S1x512x512_0_0_0) : (⟨S40x512x512, .f32⟩ : BufTy).Contents (Elt F) → (⟨S1x512x512, .f32⟩ : BufTy).Contents (Elt F)),
    reshape main_v1050 main_v1051 rfl shapeCasts_S1x512x512_S512x512,
    unary main_v1051 main_v1052 ((transpose S512x512 [1, 0] · transposes_S512x512_S512x512_1_0) : (⟨S512x512, .f32⟩ : BufTy).Contents (Elt F) → (⟨S512x512, .f32⟩ : BufTy).Contents (Elt F)),
    binary main_v1033 main_v1052 main_v1053 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1054 ((extractStridedSlice S1x512 ![0, 0] · slices_S40x512_S1x512_0_0) : (⟨S40x512, .f32⟩ : BufTy).Contents (Elt F) → (⟨S1x512, .f32⟩ : BufTy).Contents (Elt F)),
    reshape main_v1054 main_v1055 rfl shapeCasts_S1x512_S512,
    unary main_v1055 main_v1056 (broadcastInDim S1x512 ![1] bcast_S512_S1x512_1 : (⟨S512, .f32⟩ : BufTy).Contents (Elt F) → (⟨S1x512, .f32⟩ : BufTy).Contents (Elt F)),
    unary main_v1056 main_v1057 (broadcastInDim S8192x512 ![0, 1] bcast_S1x512_S8192x512_0_1 : (⟨S1x512, .f32⟩ : BufTy).Contents (Elt F) → (⟨S8192x512, .f32⟩ : BufTy).Contents (Elt F)),
    binary main_v1053 main_v1057 main_v1058 (addf : (⟨S8192x512, .f32⟩ : BufTy).Contents (Elt F) → (⟨S8192x512, .f32⟩ : BufTy).Contents (Elt F) → (⟨S8192x512, .f32⟩ : BufTy).Contents (Elt F)),
    nullary main_c_219 (constantI S_ 32 0#32),
    unary main_c_219 main_v1059 (broadcastInDim S8192 ![] bcast_S_S8192 : (⟨S_, .i32⟩ : BufTy).Contents (Elt F) → (⟨S8192, .i32⟩ : BufTy).Contents (Elt F)),
    binary main_arg3 main_v1059 main_v1060 (cmpi .slt : (⟨S8192, .i32⟩ : BufTy).Contents (Elt F) → (⟨S8192, .i32⟩ : BufTy).Contents (Elt F) → (⟨S8192, .i1⟩ : BufTy).Contents (Elt F)),
    nullary main_c_220 (constantI S_ 32 8192#32),
    unary main_c_220 main_v1061 (broadcastInDim S8192 ![] bcast_S_S8192 : (⟨S_, .i32⟩ : BufTy).Contents (Elt F) → (⟨S8192, .i32⟩ : BufTy).Contents (Elt F)),
    binary main_arg3 main_v1061 main_v1062 (addi : (⟨S8192, .i32⟩ : BufTy).Contents (Elt F) → (⟨S8192, .i32⟩ : BufTy).Contents (Elt F) → (⟨S8192, .i32⟩ : BufTy).Contents (Elt F)),
    ternary main_v1060 main_v1062 main_arg3 main_v1063 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1063 main_v1064 (broadcastInDim S8192x1 ![0] bcast_S8192_S8192x1_0 : (⟨S8192, .i32⟩ : BufTy).Contents (Elt F) → (⟨S8192x1, .i32⟩ : BufTy).Contents (Elt F)),
    binary main_v1058 main_v1064 main_v1065 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_221 (constant S_ .f32 0x00000000#32),
    TRef.unary (TRef.of (T := ⟨S_, .f32⟩) main_cst_221) (TRef.of (T := ⟨S_, .f32⟩) main_call41_v0) id,
    TRef.unary (TRef.of (T := ⟨S8192x1, .i1⟩) main_v1049) (TRef.of (T := ⟨S8192x512, .i1⟩) main_call41_v1) (broadcastInDim S8192x512 ![0, 1] bcast_S8192x1_S8192x512_0_1),
    TRef.unary (TRef.of (T := ⟨S_, .f32⟩) main_call41_v0) (TRef.of (T := ⟨S8192x512, .f32⟩) main_call41_v2) (broadcastInDim S8192x512 ![] bcast_S_S8192x512),
    TRef.ternary (TRef.of (T := ⟨S8192x512, .i1⟩) main_call41_v1) (TRef.of (T := ⟨S8192x512, .f32⟩) main_v1065) (TRef.of (T := ⟨S8192x512, .f32⟩) main_call41_v2) (TRef.of (T := ⟨S8192x512, .f32⟩) main_v1066) select,
    nullary main_c_222 (constantI S_ 32 0#32),
    unary main_c_222 main_v1067 (broadcastInDim S8192 ![] bcast_S_S8192 : (⟨S_, .i32⟩ : BufTy).Contents (Elt F) → (⟨S8192, .i32⟩ : BufTy).Contents (Elt F)),
    binary main_arg1 main_v1067 main_v1068 (cmpi .slt : (⟨S8192, .i32⟩ : BufTy).Contents (Elt F) → (⟨S8192, .i32⟩ : BufTy).Contents (Elt F) → (⟨S8192, .i1⟩ : BufTy).Contents (Elt F)),
    nullary main_c_223 (constantI S_ 32 8192#32),
    unary main_c_223 main_v1069 (broadcastInDim S8192 ![] bcast_S_S8192 : (⟨S_, .i32⟩ : BufTy).Contents (Elt F) → (⟨S8192, .i32⟩ : BufTy).Contents (Elt F)),
    binary main_arg1 main_v1069 main_v1070 (addi : (⟨S8192, .i32⟩ : BufTy).Contents (Elt F) → (⟨S8192, .i32⟩ : BufTy).Contents (Elt F) → (⟨S8192, .i32⟩ : BufTy).Contents (Elt F)),
    ternary main_v1068 main_v1070 main_arg1 main_v1071 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1071 main_v1072 (broadcastInDim S8192x1 ![0] bcast_S8192_S8192x1_0 : (⟨S8192, .i32⟩ : BufTy).Contents (Elt F) → (⟨S8192x1, .i32⟩ : BufTy).Contents (Elt F)),
    ternary main_v1046 main_v1072 main_v1066 main_v1073 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1074 ((extractStridedSlice S1x512x512 ![20, 0, 0] · slices_S40x512x512_S1x512x512_20_0_0) : (⟨S40x512x512, .f32⟩ : BufTy).Contents (Elt F) → (⟨S1x512x512, .f32⟩ : BufTy).Contents (Elt F)),
    reshape main_v1074 main_v1075 rfl shapeCasts_S1x512x512_S512x512,
    unary main_v1075 main_v1076 ((transpose S512x512 [1, 0] · transposes_S512x512_S512x512_1_0) : (⟨S512x512, .f32⟩ : BufTy).Contents (Elt F) → (⟨S512x512, .f32⟩ : BufTy).Contents (Elt F)),
    binary main_v1033 main_v1076 main_v1077 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1078 ((extractStridedSlice S1x512 ![20, 0] · slices_S40x512_S1x512_20_0) : (⟨S40x512, .f32⟩ : BufTy).Contents (Elt F) → (⟨S1x512, .f32⟩ : BufTy).Contents (Elt F)),
    reshape main_v1078 main_v1079 rfl shapeCasts_S1x512_S512,
    unary main_v1079 main_v1080 (broadcastInDim S1x512 ![1] bcast_S512_S1x512_1 : (⟨S512, .f32⟩ : BufTy).Contents (Elt F) → (⟨S1x512, .f32⟩ : BufTy).Contents (Elt F)),
    unary main_v1080 main_v1081 (broadcastInDim S8192x512 ![0, 1] bcast_S1x512_S8192x512_0_1 : (⟨S1x512, .f32⟩ : BufTy).Contents (Elt F) → (⟨S8192x512, .f32⟩ : BufTy).Contents (Elt F)),
    binary main_v1077 main_v1081 main_v1082 (addf : (⟨S8192x512, .f32⟩ : BufTy).Contents (Elt F) → (⟨S8192x512, .f32⟩ : BufTy).Contents (Elt F) → (⟨S8192x512, .f32⟩ : BufTy).Contents (Elt F)),
    nullary main_c_224 (constantI S_ 32 0#32),
    unary main_c_224 main_v1083 (broadcastInDim S8192 ![] bcast_S_S8192 : (⟨S_, .i32⟩ : BufTy).Contents (Elt F) → (⟨S8192, .i32⟩ : BufTy).Contents (Elt F)),
    binary main_arg1 main_v1083 main_v1084 (cmpi .slt : (⟨S8192, .i32⟩ : BufTy).Contents (Elt F) → (⟨S8192, .i32⟩ : BufTy).Contents (Elt F) → (⟨S8192, .i1⟩ : BufTy).Contents (Elt F)),
    nullary main_c_225 (constantI S_ 32 8192#32),
    unary main_c_225 main_v1085 (broadcastInDim S8192 ![] bcast_S_S8192 : (⟨S_, .i32⟩ : BufTy).Contents (Elt F) → (⟨S8192, .i32⟩ : BufTy).Contents (Elt F)),
    binary main_arg1 main_v1085 main_v1086 (addi : (⟨S8192, .i32⟩ : BufTy).Contents (Elt F) → (⟨S8192, .i32⟩ : BufTy).Contents (Elt F) → (⟨S8192, .i32⟩ : BufTy).Contents (Elt F)),
    ternary main_v1084 main_v1086 main_arg1 main_v1087 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1087 main_v1088 (broadcastInDim S8192x1 ![0] bcast_S8192_S8192x1_0 : (⟨S8192, .i32⟩ : BufTy).Contents (Elt F) → (⟨S8192x1, .i32⟩ : BufTy).Contents (Elt F)),
    binary main_v1082 main_v1088 main_v1089 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_226 (constant S_ .f32 0x00000000#32),
    TRef.unary (TRef.of (T := ⟨S_, .f32⟩) main_cst_226) (TRef.of (T := ⟨S_, .f32⟩) main_call42_v0) id,
    TRef.unary (TRef.of (T := ⟨S8192x1, .i1⟩) main_v1049) (TRef.of (T := ⟨S8192x512, .i1⟩) main_call42_v1) (broadcastInDim S8192x512 ![0, 1] bcast_S8192x1_S8192x512_0_1),
    TRef.unary (TRef.of (T := ⟨S_, .f32⟩) main_call42_v0) (TRef.of (T := ⟨S8192x512, .f32⟩) main_call42_v2) (broadcastInDim S8192x512 ![] bcast_S_S8192x512),
    TRef.ternary (TRef.of (T := ⟨S8192x512, .i1⟩) main_call42_v1) (TRef.of (T := ⟨S8192x512, .f32⟩) main_v1089) (TRef.of (T := ⟨S8192x512, .f32⟩) main_call42_v2) (TRef.of (T := ⟨S8192x512, .f32⟩) main_v1090) select,
    nullary main_c_227 (constantI S_ 32 0#32),
    unary main_c_227 main_v1091 (broadcastInDim S8192 ![] bcast_S_S8192 : (⟨S_, .i32⟩ : BufTy).Contents (Elt F) → (⟨S8192, .i32⟩ : BufTy).Contents (Elt F)),
    binary main_arg3 main_v1091 main_v1092 (cmpi .slt : (⟨S8192, .i32⟩ : BufTy).Contents (Elt F) → (⟨S8192, .i32⟩ : BufTy).Contents (Elt F) → (⟨S8192, .i1⟩ : BufTy).Contents (Elt F)),
    nullary main_c_228 (constantI S_ 32 8192#32),
    unary main_c_228 main_v1093 (broadcastInDim S8192 ![] bcast_S_S8192 : (⟨S_, .i32⟩ : BufTy).Contents (Elt F) → (⟨S8192, .i32⟩ : BufTy).Contents (Elt F)),
    binary main_arg3 main_v1093 main_v1094 (addi : (⟨S8192, .i32⟩ : BufTy).Contents (Elt F) → (⟨S8192, .i32⟩ : BufTy).Contents (Elt F) → (⟨S8192, .i32⟩ : BufTy).Contents (Elt F)),
    ternary main_v1092 main_v1094 main_arg3 main_v1095 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1095 main_v1096 (broadcastInDim S8192x1 ![0] bcast_S8192_S8192x1_0 : (⟨S8192, .i32⟩ : BufTy).Contents (Elt F) → (⟨S8192x1, .i32⟩ : BufTy).Contents (Elt F)),
    ternary main_v1073 main_v1096 main_v1090 main_v1097 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_0_sub : (lab2_0 (F := F)).Forall fun op => op.bufs ⊆ tcRefs τ sig := by
  unfold lab2_0
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_0_fresh : (lab2_0 (F := F)).Forall fun op => op.fresh = ∅ := by
  all_fresh lab2_0

/-- The references the line writes, in order. -/
abbrev lab2_0_W : List (Ref sig .tc) := [main_c_218, main_v1047, main_v1048, main_v1049, main_v1050, main_v1051, main_v1052, main_v1053, main_v1054, main_v1055, main_v1056, main_v1057, main_v1058, main_c_219, main_v1059, main_v1060, main_c_220, main_v1061, main_v1062, main_v1063, main_v1064, main_v1065, main_cst_221, main_call41_v0, main_call41_v1, main_call41_v2, main_v1066, main_c_222, main_v1067, main_v1068, main_c_223, main_v1069, main_v1070, main_v1071, main_v1072, main_v1073, main_v1074, main_v1075, main_v1076, main_v1077, main_v1078, main_v1079, main_v1080, main_v1081, main_v1082, main_c_224, main_v1083, main_v1084, main_c_225, main_v1085, main_v1086, main_v1087, main_v1088, main_v1089, main_cst_226, main_call42_v0, main_call42_v1, main_call42_v2, main_v1090, main_c_227, main_v1091, main_v1092, main_c_228, main_v1093, main_v1094, main_v1095, main_v1096, main_v1097]

theorem lab2_0_writes : (lab2_0 (F := F)).map (fun op => op.writes)
    = (lab2_0_W).map fun y => ({Proc.devRef (τ := τ) .tc y} : Finset (DevRef τ sig)) := rfl

/-- A reference the line does not write keeps its contents. -/
theorem lab2_0_frame (V : Valuation τ sig (Elt F)) {r : Ref sig .tc} (hr : r ∉ lab2_0_W) :
    after (lab2_0 (F := F)) V (no_index (Proc.devRef .tc r)) = V (Proc.devRef .tc r) :=
  Cert.RefLib.after_frame lab2_0_writes V hr

/-- The operations of relation label 1 in layer 2: the label's edge mask, the two products, and the two masked messages added to the running sum. -/
def lab2_1 : List (HloOp τ sig (Elt F)) :=
  [
    nullary main_c_229 (constantI S_ 32 1#32),
    unary main_c_229 main_v1098 (broadcastInDim S8192 ![] bcast_S_S8192 : (⟨S_, .i32⟩ : BufTy).Contents (Elt F) → (⟨S8192, .i32⟩ : BufTy).Contents (Elt F)),
    binary main_arg2 main_v1098 main_v1099 (cmpi .eq : (⟨S8192, .i32⟩ : BufTy).Contents (Elt F) → (⟨S8192, .i32⟩ : BufTy).Contents (Elt F) → (⟨S8192, .i1⟩ : BufTy).Contents (Elt F)),
    unary main_v1099 main_v1100 (broadcastInDim S8192x1 ![0] bcast_S8192_S8192x1_0 : (⟨S8192, .i1⟩ : BufTy).Contents (Elt F) → (⟨S8192x1, .i1⟩ : BufTy).Contents (Elt F)),
    unary main_v1039 main_v1101 ((extractStridedSlice S1x512x512 ![1, 0, 0] · slices_S40x512x512_S1x512x512_1_0_0) : (⟨S40x512x512, .f32⟩ : BufTy).Contents (Elt F) → (⟨S1x512x512, .f32⟩ : BufTy).Contents (Elt F)),
    reshape main_v1101 main_v1102 rfl shapeCasts_S1x512x512_S512x512,
    unary main_v1102 main_v1103 ((transpose S512x512 [1, 0] · transposes_S512x512_S512x512_1_0) : (⟨S512x512, .f32⟩ : BufTy).Contents (Elt F) → (⟨S512x512, .f32⟩ : BufTy).Contents (Elt F)),
    binary main_v1033 main_v1103 main_v1104 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1105 ((extractStridedSlice S1x512 ![1, 0] · slices_S40x512_S1x512_1_0) : (⟨S40x512, .f32⟩ : BufTy).Contents (Elt F) → (⟨S1x512, .f32⟩ : BufTy).Contents (Elt F)),
    reshape main_v1105 main_v1106 rfl shapeCasts_S1x512_S512,
    unary main_v1106 main_v1107 (broadcastInDim S1x512 ![1] bcast_S512_S1x512_1 : (⟨S512, .f32⟩ : BufTy).Contents (Elt F) → (⟨S1x512, .f32⟩ : BufTy).Contents (Elt F)),
    unary main_v1107 main_v1108 (broadcastInDim S8192x512 ![0, 1] bcast_S1x512_S8192x512_0_1 : (⟨S1x512, .f32⟩ : BufTy).Contents (Elt F) → (⟨S8192x512, .f32⟩ : BufTy).Contents (Elt F)),
    binary main_v1104 main_v1108 main_v1109 (addf : (⟨S8192x512, .f32⟩ : BufTy).Contents (Elt F) → (⟨S8192x512, .f32⟩ : BufTy).Contents (Elt F) → (⟨S8192x512, .f32⟩ : BufTy).Contents (Elt F)),
    nullary main_c_230 (constantI S_ 32 0#32),
    unary main_c_230 main_v1110 (broadcastInDim S8192 ![] bcast_S_S8192 : (⟨S_, .i32⟩ : BufTy).Contents (Elt F) → (⟨S8192, .i32⟩ : BufTy).Contents (Elt F)),
    binary main_arg3 main_v1110 main_v1111 (cmpi .slt : (⟨S8192, .i32⟩ : BufTy).Contents (Elt F) → (⟨S8192, .i32⟩ : BufTy).Contents (Elt F) → (⟨S8192, .i1⟩ : BufTy).Contents (Elt F)),
    nullary main_c_231 (constantI S_ 32 8192#32),
    unary main_c_231 main_v1112 (broadcastInDim S8192 ![] bcast_S_S8192 : (⟨S_, .i32⟩ : BufTy).Contents (Elt F) → (⟨S8192, .i32⟩ : BufTy).Contents (Elt F)),
    binary main_arg3 main_v1112 main_v1113 (addi : (⟨S8192, .i32⟩ : BufTy).Contents (Elt F) → (⟨S8192, .i32⟩ : BufTy).Contents (Elt F) → (⟨S8192, .i32⟩ : BufTy).Contents (Elt F)),
    ternary main_v1111 main_v1113 main_arg3 main_v1114 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1114 main_v1115 (broadcastInDim S8192x1 ![0] bcast_S8192_S8192x1_0 : (⟨S8192, .i32⟩ : BufTy).Contents (Elt F) → (⟨S8192x1, .i32⟩ : BufTy).Contents (Elt F)),
    binary main_v1109 main_v1115 main_v1116 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_232 (constant S_ .f32 0x00000000#32),
    TRef.unary (TRef.of (T := ⟨S_, .f32⟩) main_cst_232) (TRef.of (T := ⟨S_, .f32⟩) main_call43_v0) id,
    TRef.unary (TRef.of (T := ⟨S8192x1, .i1⟩) main_v1100) (TRef.of (T := ⟨S8192x512, .i1⟩) main_call43_v1) (broadcastInDim S8192x512 ![0, 1] bcast_S8192x1_S8192x512_0_1),
    TRef.unary (TRef.of (T := ⟨S_, .f32⟩) main_call43_v0) (TRef.of (T := ⟨S8192x512, .f32⟩) main_call43_v2) (broadcastInDim S8192x512 ![] bcast_S_S8192x512),
    TRef.ternary (TRef.of (T := ⟨S8192x512, .i1⟩) main_call43_v1) (TRef.of (T := ⟨S8192x512, .f32⟩) main_v1116) (TRef.of (T := ⟨S8192x512, .f32⟩) main_call43_v2) (TRef.of (T := ⟨S8192x512, .f32⟩) main_v1117) select,
    nullary main_c_233 (constantI S_ 32 0#32),
    unary main_c_233 main_v1118 (broadcastInDim S8192 ![] bcast_S_S8192 : (⟨S_, .i32⟩ : BufTy).Contents (Elt F) → (⟨S8192, .i32⟩ : BufTy).Contents (Elt F)),
    binary main_arg1 main_v1118 main_v1119 (cmpi .slt : (⟨S8192, .i32⟩ : BufTy).Contents (Elt F) → (⟨S8192, .i32⟩ : BufTy).Contents (Elt F) → (⟨S8192, .i1⟩ : BufTy).Contents (Elt F)),
    nullary main_c_234 (constantI S_ 32 8192#32),
    unary main_c_234 main_v1120 (broadcastInDim S8192 ![] bcast_S_S8192 : (⟨S_, .i32⟩ : BufTy).Contents (Elt F) → (⟨S8192, .i32⟩ : BufTy).Contents (Elt F)),
    binary main_arg1 main_v1120 main_v1121 (addi : (⟨S8192, .i32⟩ : BufTy).Contents (Elt F) → (⟨S8192, .i32⟩ : BufTy).Contents (Elt F) → (⟨S8192, .i32⟩ : BufTy).Contents (Elt F)),
    ternary main_v1119 main_v1121 main_arg1 main_v1122 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1122 main_v1123 (broadcastInDim S8192x1 ![0] bcast_S8192_S8192x1_0 : (⟨S8192, .i32⟩ : BufTy).Contents (Elt F) → (⟨S8192x1, .i32⟩ : BufTy).Contents (Elt F)),
    ternary main_v1097 main_v1123 main_v1117 main_v1124 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1125 ((extractStridedSlice S1x512x512 ![21, 0, 0] · slices_S40x512x512_S1x512x512_21_0_0) : (⟨S40x512x512, .f32⟩ : BufTy).Contents (Elt F) → (⟨S1x512x512, .f32⟩ : BufTy).Contents (Elt F)),
    reshape main_v1125 main_v1126 rfl shapeCasts_S1x512x512_S512x512,
    unary main_v1126 main_v1127 ((transpose S512x512 [1, 0] · transposes_S512x512_S512x512_1_0) : (⟨S512x512, .f32⟩ : BufTy).Contents (Elt F) → (⟨S512x512, .f32⟩ : BufTy).Contents (Elt F)),
    binary main_v1033 main_v1127 main_v1128 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1129 ((extractStridedSlice S1x512 ![21, 0] · slices_S40x512_S1x512_21_0) : (⟨S40x512, .f32⟩ : BufTy).Contents (Elt F) → (⟨S1x512, .f32⟩ : BufTy).Contents (Elt F)),
    reshape main_v1129 main_v1130 rfl shapeCasts_S1x512_S512,
    unary main_v1130 main_v1131 (broadcastInDim S1x512 ![1] bcast_S512_S1x512_1 : (⟨S512, .f32⟩ : BufTy).Contents (Elt F) → (⟨S1x512, .f32⟩ : BufTy).Contents (Elt F)),
    unary main_v1131 main_v1132 (broadcastInDim S8192x512 ![0, 1] bcast_S1x512_S8192x512_0_1 : (⟨S1x512, .f32⟩ : BufTy).Contents (Elt F) → (⟨S8192x512, .f32⟩ : BufTy).Contents (Elt F)),
    binary main_v1128 main_v1132 main_v1133 (addf : (⟨S8192x512, .f32⟩ : BufTy).Contents (Elt F) → (⟨S8192x512, .f32⟩ : BufTy).Contents (Elt F) → (⟨S8192x512, .f32⟩ : BufTy).Contents (Elt F)),
    nullary main_c_235 (constantI S_ 32 0#32),
    unary main_c_235 main_v1134 (broadcastInDim S8192 ![] bcast_S_S8192 : (⟨S_, .i32⟩ : BufTy).Contents (Elt F) → (⟨S8192, .i32⟩ : BufTy).Contents (Elt F)),
    binary main_arg1 main_v1134 main_v1135 (cmpi .slt : (⟨S8192, .i32⟩ : BufTy).Contents (Elt F) → (⟨S8192, .i32⟩ : BufTy).Contents (Elt F) → (⟨S8192, .i1⟩ : BufTy).Contents (Elt F)),
    nullary main_c_236 (constantI S_ 32 8192#32),
    unary main_c_236 main_v1136 (broadcastInDim S8192 ![] bcast_S_S8192 : (⟨S_, .i32⟩ : BufTy).Contents (Elt F) → (⟨S8192, .i32⟩ : BufTy).Contents (Elt F)),
    binary main_arg1 main_v1136 main_v1137 (addi : (⟨S8192, .i32⟩ : BufTy).Contents (Elt F) → (⟨S8192, .i32⟩ : BufTy).Contents (Elt F) → (⟨S8192, .i32⟩ : BufTy).Contents (Elt F)),
    ternary main_v1135 main_v1137 main_arg1 main_v1138 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1138 main_v1139 (broadcastInDim S8192x1 ![0] bcast_S8192_S8192x1_0 : (⟨S8192, .i32⟩ : BufTy).Contents (Elt F) → (⟨S8192x1, .i32⟩ : BufTy).Contents (Elt F)),
    binary main_v1133 main_v1139 main_v1140 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_237 (constant S_ .f32 0x00000000#32),
    TRef.unary (TRef.of (T := ⟨S_, .f32⟩) main_cst_237) (TRef.of (T := ⟨S_, .f32⟩) main_call44_v0) id,
    TRef.unary (TRef.of (T := ⟨S8192x1, .i1⟩) main_v1100) (TRef.of (T := ⟨S8192x512, .i1⟩) main_call44_v1) (broadcastInDim S8192x512 ![0, 1] bcast_S8192x1_S8192x512_0_1),
    TRef.unary (TRef.of (T := ⟨S_, .f32⟩) main_call44_v0) (TRef.of (T := ⟨S8192x512, .f32⟩) main_call44_v2) (broadcastInDim S8192x512 ![] bcast_S_S8192x512),
    TRef.ternary (TRef.of (T := ⟨S8192x512, .i1⟩) main_call44_v1) (TRef.of (T := ⟨S8192x512, .f32⟩) main_v1140) (TRef.of (T := ⟨S8192x512, .f32⟩) main_call44_v2) (TRef.of (T := ⟨S8192x512, .f32⟩) main_v1141) select,
    nullary main_c_238 (constantI S_ 32 0#32),
    unary main_c_238 main_v1142 (broadcastInDim S8192 ![] bcast_S_S8192 : (⟨S_, .i32⟩ : BufTy).Contents (Elt F) → (⟨S8192, .i32⟩ : BufTy).Contents (Elt F)),
    binary main_arg3 main_v1142 main_v1143 (cmpi .slt : (⟨S8192, .i32⟩ : BufTy).Contents (Elt F) → (⟨S8192, .i32⟩ : BufTy).Contents (Elt F) → (⟨S8192, .i1⟩ : BufTy).Contents (Elt F)),
    nullary main_c_239 (constantI S_ 32 8192#32),
    unary main_c_239 main_v1144 (broadcastInDim S8192 ![] bcast_S_S8192 : (⟨S_, .i32⟩ : BufTy).Contents (Elt F) → (⟨S8192, .i32⟩ : BufTy).Contents (Elt F)),
    binary main_arg3 main_v1144 main_v1145 (addi : (⟨S8192, .i32⟩ : BufTy).Contents (Elt F) → (⟨S8192, .i32⟩ : BufTy).Contents (Elt F) → (⟨S8192, .i32⟩ : BufTy).Contents (Elt F)),
    ternary main_v1143 main_v1145 main_arg3 main_v1146 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1146 main_v1147 (broadcastInDim S8192x1 ![0] bcast_S8192_S8192x1_0 : (⟨S8192, .i32⟩ : BufTy).Contents (Elt F) → (⟨S8192x1, .i32⟩ : BufTy).Contents (Elt F)),
    ternary main_v1124 main_v1147 main_v1141 main_v1148 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_1_sub : (lab2_1 (F := F)).Forall fun op => op.bufs ⊆ tcRefs τ sig := by
  unfold lab2_1
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_1_fresh : (lab2_1 (F := F)).Forall fun op => op.fresh = ∅ := by
  all_fresh lab2_1

/-- The references the line writes, in order. -/
abbrev lab2_1_W : List (Ref sig .tc) := [main_c_229, main_v1098, main_v1099, main_v1100, main_v1101, main_v1102, main_v1103, main_v1104, main_v1105, main_v1106, main_v1107, main_v1108, main_v1109, main_c_230, main_v1110, main_v1111, main_c_231, main_v1112, main_v1113, main_v1114, main_v1115, main_v1116, main_cst_232, main_call43_v0, main_call43_v1, main_call43_v2, main_v1117, main_c_233, main_v1118, main_v1119, main_c_234, main_v1120, main_v1121, main_v1122, main_v1123, main_v1124, main_v1125, main_v1126, main_v1127, main_v1128, main_v1129, main_v1130, main_v1131, main_v1132, main_v1133, main_c_235, main_v1134, main_v1135, main_c_236, main_v1136, main_v1137, main_v1138, main_v1139, main_v1140, main_cst_237, main_call44_v0, main_call44_v1, main_call44_v2, main_v1141, main_c_238, main_v1142, main_v1143, main_c_239, main_v1144, main_v1145, main_v1146, main_v1147, main_v1148]

theorem lab2_1_writes : (lab2_1 (F := F)).map (fun op => op.writes)
    = (lab2_1_W).map fun y => ({Proc.devRef (τ := τ) .tc y} : Finset (DevRef τ sig)) := rfl

/-- A reference the line does not write keeps its contents. -/
theorem lab2_1_frame (V : Valuation τ sig (Elt F)) {r : Ref sig .tc} (hr : r ∉ lab2_1_W) :
    after (lab2_1 (F := F)) V (no_index (Proc.devRef .tc r)) = V (Proc.devRef .tc r) :=
  Cert.RefLib.after_frame lab2_1_writes V hr

/-- The operations of relation label 2 in layer 2: the label's edge mask, the two products, and the two masked messages added to the running sum. -/
def lab2_2 : List (HloOp τ sig (Elt F)) :=
  [
    nullary main_c_240 (constantI S_ 32 2#32),
    unary main_c_240 main_v1149 (broadcastInDim S8192 ![] bcast_S_S8192 : (⟨S_, .i32⟩ : BufTy).Contents (Elt F) → (⟨S8192, .i32⟩ : BufTy).Contents (Elt F)),
    binary main_arg2 main_v1149 main_v1150 (cmpi .eq : (⟨S8192, .i32⟩ : BufTy).Contents (Elt F) → (⟨S8192, .i32⟩ : BufTy).Contents (Elt F) → (⟨S8192, .i1⟩ : BufTy).Contents (Elt F)),
    unary main_v1150 main_v1151 (broadcastInDim S8192x1 ![0] bcast_S8192_S8192x1_0 : (⟨S8192, .i1⟩ : BufTy).Contents (Elt F) → (⟨S8192x1, .i1⟩ : BufTy).Contents (Elt F)),
    unary main_v1039 main_v1152 ((extractStridedSlice S1x512x512 ![2, 0, 0] · slices_S40x512x512_S1x512x512_2_0_0) : (⟨S40x512x512, .f32⟩ : BufTy).Contents (Elt F) → (⟨S1x512x512, .f32⟩ : BufTy).Contents (Elt F)),
    reshape main_v1152 main_v1153 rfl shapeCasts_S1x512x512_S512x512,
    unary main_v1153 main_v1154 ((transpose S512x512 [1, 0] · transposes_S512x512_S512x512_1_0) : (⟨S512x512, .f32⟩ : BufTy).Contents (Elt F) → (⟨S512x512, .f32⟩ : BufTy).Contents (Elt F)),
    binary main_v1033 main_v1154 main_v1155 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1156 ((extractStridedSlice S1x512 ![2, 0] · slices_S40x512_S1x512_2_0) : (⟨S40x512, .f32⟩ : BufTy).Contents (Elt F) → (⟨S1x512, .f32⟩ : BufTy).Contents (Elt F)),
    reshape main_v1156 main_v1157 rfl shapeCasts_S1x512_S512,
    unary main_v1157 main_v1158 (broadcastInDim S1x512 ![1] bcast_S512_S1x512_1 : (⟨S512, .f32⟩ : BufTy).Contents (Elt F) → (⟨S1x512, .f32⟩ : BufTy).Contents (Elt F)),
    unary main_v1158 main_v1159 (broadcastInDim S8192x512 ![0, 1] bcast_S1x512_S8192x512_0_1 : (⟨S1x512, .f32⟩ : BufTy).Contents (Elt F) → (⟨S8192x512, .f32⟩ : BufTy).Contents (Elt F)),
    binary main_v1155 main_v1159 main_v1160 (addf : (⟨S8192x512, .f32⟩ : BufTy).Contents (Elt F) → (⟨S8192x512, .f32⟩ : BufTy).Contents (Elt F) → (⟨S8192x512, .f32⟩ : BufTy).Contents (Elt F)),
    nullary main_c_241 (constantI S_ 32 0#32),
    unary main_c_241 main_v1161 (broadcastInDim S8192 ![] bcast_S_S8192 : (⟨S_, .i32⟩ : BufTy).Contents (Elt F) → (⟨S8192, .i32⟩ : BufTy).Contents (Elt F)),
    binary main_arg3 main_v1161 main_v1162 (cmpi .slt : (⟨S8192, .i32⟩ : BufTy).Contents (Elt F) → (⟨S8192, .i32⟩ : BufTy).Contents (Elt F) → (⟨S8192, .i1⟩ : BufTy).Contents (Elt F)),
    nullary main_c_242 (constantI S_ 32 8192#32),
    unary main_c_242 main_v1163 (broadcastInDim S8192 ![] bcast_S_S8192 : (⟨S_, .i32⟩ : BufTy).Contents (Elt F) → (⟨S8192, .i32⟩ : BufTy).Contents (Elt F)),
    binary main_arg3 main_v1163 main_v1164 (addi : (⟨S8192, .i32⟩ : BufTy).Contents (Elt F) → (⟨S8192, .i32⟩ : BufTy).Contents (Elt F) → (⟨S8192, .i32⟩ : BufTy).Contents (Elt F)),
    ternary main_v1162 main_v1164 main_arg3 main_v1165 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1165 main_v1166 (broadcastInDim S8192x1 ![0] bcast_S8192_S8192x1_0 : (⟨S8192, .i32⟩ : BufTy).Contents (Elt F) → (⟨S8192x1, .i32⟩ : BufTy).Contents (Elt F)),
    binary main_v1160 main_v1166 main_v1167 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_243 (constant S_ .f32 0x00000000#32),
    TRef.unary (TRef.of (T := ⟨S_, .f32⟩) main_cst_243) (TRef.of (T := ⟨S_, .f32⟩) main_call45_v0) id,
    TRef.unary (TRef.of (T := ⟨S8192x1, .i1⟩) main_v1151) (TRef.of (T := ⟨S8192x512, .i1⟩) main_call45_v1) (broadcastInDim S8192x512 ![0, 1] bcast_S8192x1_S8192x512_0_1),
    TRef.unary (TRef.of (T := ⟨S_, .f32⟩) main_call45_v0) (TRef.of (T := ⟨S8192x512, .f32⟩) main_call45_v2) (broadcastInDim S8192x512 ![] bcast_S_S8192x512),
    TRef.ternary (TRef.of (T := ⟨S8192x512, .i1⟩) main_call45_v1) (TRef.of (T := ⟨S8192x512, .f32⟩) main_v1167) (TRef.of (T := ⟨S8192x512, .f32⟩) main_call45_v2) (TRef.of (T := ⟨S8192x512, .f32⟩) main_v1168) select,
    nullary main_c_244 (constantI S_ 32 0#32),
    unary main_c_244 main_v1169 (broadcastInDim S8192 ![] bcast_S_S8192 : (⟨S_, .i32⟩ : BufTy).Contents (Elt F) → (⟨S8192, .i32⟩ : BufTy).Contents (Elt F)),
    binary main_arg1 main_v1169 main_v1170 (cmpi .slt : (⟨S8192, .i32⟩ : BufTy).Contents (Elt F) → (⟨S8192, .i32⟩ : BufTy).Contents (Elt F) → (⟨S8192, .i1⟩ : BufTy).Contents (Elt F)),
    nullary main_c_245 (constantI S_ 32 8192#32),
    unary main_c_245 main_v1171 (broadcastInDim S8192 ![] bcast_S_S8192 : (⟨S_, .i32⟩ : BufTy).Contents (Elt F) → (⟨S8192, .i32⟩ : BufTy).Contents (Elt F)),
    binary main_arg1 main_v1171 main_v1172 (addi : (⟨S8192, .i32⟩ : BufTy).Contents (Elt F) → (⟨S8192, .i32⟩ : BufTy).Contents (Elt F) → (⟨S8192, .i32⟩ : BufTy).Contents (Elt F)),
    ternary main_v1170 main_v1172 main_arg1 main_v1173 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1173 main_v1174 (broadcastInDim S8192x1 ![0] bcast_S8192_S8192x1_0 : (⟨S8192, .i32⟩ : BufTy).Contents (Elt F) → (⟨S8192x1, .i32⟩ : BufTy).Contents (Elt F)),
    ternary main_v1148 main_v1174 main_v1168 main_v1175 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1176 ((extractStridedSlice S1x512x512 ![22, 0, 0] · slices_S40x512x512_S1x512x512_22_0_0) : (⟨S40x512x512, .f32⟩ : BufTy).Contents (Elt F) → (⟨S1x512x512, .f32⟩ : BufTy).Contents (Elt F)),
    reshape main_v1176 main_v1177 rfl shapeCasts_S1x512x512_S512x512,
    unary main_v1177 main_v1178 ((transpose S512x512 [1, 0] · transposes_S512x512_S512x512_1_0) : (⟨S512x512, .f32⟩ : BufTy).Contents (Elt F) → (⟨S512x512, .f32⟩ : BufTy).Contents (Elt F)),
    binary main_v1033 main_v1178 main_v1179 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1180 ((extractStridedSlice S1x512 ![22, 0] · slices_S40x512_S1x512_22_0) : (⟨S40x512, .f32⟩ : BufTy).Contents (Elt F) → (⟨S1x512, .f32⟩ : BufTy).Contents (Elt F)),
    reshape main_v1180 main_v1181 rfl shapeCasts_S1x512_S512,
    unary main_v1181 main_v1182 (broadcastInDim S1x512 ![1] bcast_S512_S1x512_1 : (⟨S512, .f32⟩ : BufTy).Contents (Elt F) → (⟨S1x512, .f32⟩ : BufTy).Contents (Elt F)),
    unary main_v1182 main_v1183 (broadcastInDim S8192x512 ![0, 1] bcast_S1x512_S8192x512_0_1 : (⟨S1x512, .f32⟩ : BufTy).Contents (Elt F) → (⟨S8192x512, .f32⟩ : BufTy).Contents (Elt F)),
    binary main_v1179 main_v1183 main_v1184 (addf : (⟨S8192x512, .f32⟩ : BufTy).Contents (Elt F) → (⟨S8192x512, .f32⟩ : BufTy).Contents (Elt F) → (⟨S8192x512, .f32⟩ : BufTy).Contents (Elt F)),
    nullary main_c_246 (constantI S_ 32 0#32),
    unary main_c_246 main_v1185 (broadcastInDim S8192 ![] bcast_S_S8192 : (⟨S_, .i32⟩ : BufTy).Contents (Elt F) → (⟨S8192, .i32⟩ : BufTy).Contents (Elt F)),
    binary main_arg1 main_v1185 main_v1186 (cmpi .slt : (⟨S8192, .i32⟩ : BufTy).Contents (Elt F) → (⟨S8192, .i32⟩ : BufTy).Contents (Elt F) → (⟨S8192, .i1⟩ : BufTy).Contents (Elt F)),
    nullary main_c_247 (constantI S_ 32 8192#32),
    unary main_c_247 main_v1187 (broadcastInDim S8192 ![] bcast_S_S8192 : (⟨S_, .i32⟩ : BufTy).Contents (Elt F) → (⟨S8192, .i32⟩ : BufTy).Contents (Elt F)),
    binary main_arg1 main_v1187 main_v1188 (addi : (⟨S8192, .i32⟩ : BufTy).Contents (Elt F) → (⟨S8192, .i32⟩ : BufTy).Contents (Elt F) → (⟨S8192, .i32⟩ : BufTy).Contents (Elt F)),
    ternary main_v1186 main_v1188 main_arg1 main_v1189 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1189 main_v1190 (broadcastInDim S8192x1 ![0] bcast_S8192_S8192x1_0 : (⟨S8192, .i32⟩ : BufTy).Contents (Elt F) → (⟨S8192x1, .i32⟩ : BufTy).Contents (Elt F)),
    binary main_v1184 main_v1190 main_v1191 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_248 (constant S_ .f32 0x00000000#32),
    TRef.unary (TRef.of (T := ⟨S_, .f32⟩) main_cst_248) (TRef.of (T := ⟨S_, .f32⟩) main_call46_v0) id,
    TRef.unary (TRef.of (T := ⟨S8192x1, .i1⟩) main_v1151) (TRef.of (T := ⟨S8192x512, .i1⟩) main_call46_v1) (broadcastInDim S8192x512 ![0, 1] bcast_S8192x1_S8192x512_0_1),
    TRef.unary (TRef.of (T := ⟨S_, .f32⟩) main_call46_v0) (TRef.of (T := ⟨S8192x512, .f32⟩) main_call46_v2) (broadcastInDim S8192x512 ![] bcast_S_S8192x512),
    TRef.ternary (TRef.of (T := ⟨S8192x512, .i1⟩) main_call46_v1) (TRef.of (T := ⟨S8192x512, .f32⟩) main_v1191) (TRef.of (T := ⟨S8192x512, .f32⟩) main_call46_v2) (TRef.of (T := ⟨S8192x512, .f32⟩) main_v1192) select,
    nullary main_c_249 (constantI S_ 32 0#32),
    unary main_c_249 main_v1193 (broadcastInDim S8192 ![] bcast_S_S8192 : (⟨S_, .i32⟩ : BufTy).Contents (Elt F) → (⟨S8192, .i32⟩ : BufTy).Contents (Elt F)),
    binary main_arg3 main_v1193 main_v1194 (cmpi .slt : (⟨S8192, .i32⟩ : BufTy).Contents (Elt F) → (⟨S8192, .i32⟩ : BufTy).Contents (Elt F) → (⟨S8192, .i1⟩ : BufTy).Contents (Elt F)),
    nullary main_c_250 (constantI S_ 32 8192#32),
    unary main_c_250 main_v1195 (broadcastInDim S8192 ![] bcast_S_S8192 : (⟨S_, .i32⟩ : BufTy).Contents (Elt F) → (⟨S8192, .i32⟩ : BufTy).Contents (Elt F)),
    binary main_arg3 main_v1195 main_v1196 (addi : (⟨S8192, .i32⟩ : BufTy).Contents (Elt F) → (⟨S8192, .i32⟩ : BufTy).Contents (Elt F) → (⟨S8192, .i32⟩ : BufTy).Contents (Elt F)),
    ternary main_v1194 main_v1196 main_arg3 main_v1197 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1197 main_v1198 (broadcastInDim S8192x1 ![0] bcast_S8192_S8192x1_0 : (⟨S8192, .i32⟩ : BufTy).Contents (Elt F) → (⟨S8192x1, .i32⟩ : BufTy).Contents (Elt F)),
    ternary main_v1175 main_v1198 main_v1192 main_v1199 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_2_sub : (lab2_2 (F := F)).Forall fun op => op.bufs ⊆ tcRefs τ sig := by
  unfold lab2_2
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_2_fresh : (lab2_2 (F := F)).Forall fun op => op.fresh = ∅ := by
  all_fresh lab2_2

/-- The references the line writes, in order. -/
abbrev lab2_2_W : List (Ref sig .tc) := [main_c_240, main_v1149, main_v1150, main_v1151, main_v1152, main_v1153, main_v1154, main_v1155, main_v1156, main_v1157, main_v1158, main_v1159, main_v1160, main_c_241, main_v1161, main_v1162, main_c_242, main_v1163, main_v1164, main_v1165, main_v1166, main_v1167, main_cst_243, main_call45_v0, main_call45_v1, main_call45_v2, main_v1168, main_c_244, main_v1169, main_v1170, main_c_245, main_v1171, main_v1172, main_v1173, main_v1174, main_v1175, main_v1176, main_v1177, main_v1178, main_v1179, main_v1180, main_v1181, main_v1182, main_v1183, main_v1184, main_c_246, main_v1185, main_v1186, main_c_247, main_v1187, main_v1188, main_v1189, main_v1190, main_v1191, main_cst_248, main_call46_v0, main_call46_v1, main_call46_v2, main_v1192, main_c_249, main_v1193, main_v1194, main_c_250, main_v1195, main_v1196, main_v1197, main_v1198, main_v1199]

theorem lab2_2_writes : (lab2_2 (F := F)).map (fun op => op.writes)
    = (lab2_2_W).map fun y => ({Proc.devRef (τ := τ) .tc y} : Finset (DevRef τ sig)) := rfl

/-- A reference the line does not write keeps its contents. -/
theorem lab2_2_frame (V : Valuation τ sig (Elt F)) {r : Ref sig .tc} (hr : r ∉ lab2_2_W) :
    after (lab2_2 (F := F)) V (no_index (Proc.devRef .tc r)) = V (Proc.devRef .tc r) :=
  Cert.RefLib.after_frame lab2_2_writes V hr

/-- The operations of relation label 3 in layer 2: the label's edge mask, the two products, and the two masked messages added to the running sum. -/
def lab2_3 : List (HloOp τ sig (Elt F)) :=
  [
    nullary main_c_251 (constantI S_ 32 3#32),
    unary main_c_251 main_v1200 (broadcastInDim S8192 ![] bcast_S_S8192 : (⟨S_, .i32⟩ : BufTy).Contents (Elt F) → (⟨S8192, .i32⟩ : BufTy).Contents (Elt F)),
    binary main_arg2 main_v1200 main_v1201 (cmpi .eq : (⟨S8192, .i32⟩ : BufTy).Contents (Elt F) → (⟨S8192, .i32⟩ : BufTy).Contents (Elt F) → (⟨S8192, .i1⟩ : BufTy).Contents (Elt F)),
    unary main_v1201 main_v1202 (broadcastInDim S8192x1 ![0] bcast_S8192_S8192x1_0 : (⟨S8192, .i1⟩ : BufTy).Contents (Elt F) → (⟨S8192x1, .i1⟩ : BufTy).Contents (Elt F)),
    unary main_v1039 main_v1203 ((extractStridedSlice S1x512x512 ![3, 0, 0] · slices_S40x512x512_S1x512x512_3_0_0) : (⟨S40x512x512, .f32⟩ : BufTy).Contents (Elt F) → (⟨S1x512x512, .f32⟩ : BufTy).Contents (Elt F)),
    reshape main_v1203 main_v1204 rfl shapeCasts_S1x512x512_S512x512,
    unary main_v1204 main_v1205 ((transpose S512x512 [1, 0] · transposes_S512x512_S512x512_1_0) : (⟨S512x512, .f32⟩ : BufTy).Contents (Elt F) → (⟨S512x512, .f32⟩ : BufTy).Contents (Elt F)),
    binary main_v1033 main_v1205 main_v1206 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1207 ((extractStridedSlice S1x512 ![3, 0] · slices_S40x512_S1x512_3_0) : (⟨S40x512, .f32⟩ : BufTy).Contents (Elt F) → (⟨S1x512, .f32⟩ : BufTy).Contents (Elt F)),
    reshape main_v1207 main_v1208 rfl shapeCasts_S1x512_S512,
    unary main_v1208 main_v1209 (broadcastInDim S1x512 ![1] bcast_S512_S1x512_1 : (⟨S512, .f32⟩ : BufTy).Contents (Elt F) → (⟨S1x512, .f32⟩ : BufTy).Contents (Elt F)),
    unary main_v1209 main_v1210 (broadcastInDim S8192x512 ![0, 1] bcast_S1x512_S8192x512_0_1 : (⟨S1x512, .f32⟩ : BufTy).Contents (Elt F) → (⟨S8192x512, .f32⟩ : BufTy).Contents (Elt F)),
    binary main_v1206 main_v1210 main_v1211 (addf : (⟨S8192x512, .f32⟩ : BufTy).Contents (Elt F) → (⟨S8192x512, .f32⟩ : BufTy).Contents (Elt F) → (⟨S8192x512, .f32⟩ : BufTy).Contents (Elt F)),
    nullary main_c_252 (constantI S_ 32 0#32),
    unary main_c_252 main_v1212 (broadcastInDim S8192 ![] bcast_S_S8192 : (⟨S_, .i32⟩ : BufTy).Contents (Elt F) → (⟨S8192, .i32⟩ : BufTy).Contents (Elt F)),
    binary main_arg3 main_v1212 main_v1213 (cmpi .slt : (⟨S8192, .i32⟩ : BufTy).Contents (Elt F) → (⟨S8192, .i32⟩ : BufTy).Contents (Elt F) → (⟨S8192, .i1⟩ : BufTy).Contents (Elt F)),
    nullary main_c_253 (constantI S_ 32 8192#32),
    unary main_c_253 main_v1214 (broadcastInDim S8192 ![] bcast_S_S8192 : (⟨S_, .i32⟩ : BufTy).Contents (Elt F) → (⟨S8192, .i32⟩ : BufTy).Contents (Elt F)),
    binary main_arg3 main_v1214 main_v1215 (addi : (⟨S8192, .i32⟩ : BufTy).Contents (Elt F) → (⟨S8192, .i32⟩ : BufTy).Contents (Elt F) → (⟨S8192, .i32⟩ : BufTy).Contents (Elt F)),
    ternary main_v1213 main_v1215 main_arg3 main_v1216 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1216 main_v1217 (broadcastInDim S8192x1 ![0] bcast_S8192_S8192x1_0 : (⟨S8192, .i32⟩ : BufTy).Contents (Elt F) → (⟨S8192x1, .i32⟩ : BufTy).Contents (Elt F)),
    binary main_v1211 main_v1217 main_v1218 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_254 (constant S_ .f32 0x00000000#32),
    TRef.unary (TRef.of (T := ⟨S_, .f32⟩) main_cst_254) (TRef.of (T := ⟨S_, .f32⟩) main_call47_v0) id,
    TRef.unary (TRef.of (T := ⟨S8192x1, .i1⟩) main_v1202) (TRef.of (T := ⟨S8192x512, .i1⟩) main_call47_v1) (broadcastInDim S8192x512 ![0, 1] bcast_S8192x1_S8192x512_0_1),
    TRef.unary (TRef.of (T := ⟨S_, .f32⟩) main_call47_v0) (TRef.of (T := ⟨S8192x512, .f32⟩) main_call47_v2) (broadcastInDim S8192x512 ![] bcast_S_S8192x512),
    TRef.ternary (TRef.of (T := ⟨S8192x512, .i1⟩) main_call47_v1) (TRef.of (T := ⟨S8192x512, .f32⟩) main_v1218) (TRef.of (T := ⟨S8192x512, .f32⟩) main_call47_v2) (TRef.of (T := ⟨S8192x512, .f32⟩) main_v1219) select,
    nullary main_c_255 (constantI S_ 32 0#32),
    unary main_c_255 main_v1220 (broadcastInDim S8192 ![] bcast_S_S8192 : (⟨S_, .i32⟩ : BufTy).Contents (Elt F) → (⟨S8192, .i32⟩ : BufTy).Contents (Elt F)),
    binary main_arg1 main_v1220 main_v1221 (cmpi .slt : (⟨S8192, .i32⟩ : BufTy).Contents (Elt F) → (⟨S8192, .i32⟩ : BufTy).Contents (Elt F) → (⟨S8192, .i1⟩ : BufTy).Contents (Elt F)),
    nullary main_c_256 (constantI S_ 32 8192#32),
    unary main_c_256 main_v1222 (broadcastInDim S8192 ![] bcast_S_S8192 : (⟨S_, .i32⟩ : BufTy).Contents (Elt F) → (⟨S8192, .i32⟩ : BufTy).Contents (Elt F)),
    binary main_arg1 main_v1222 main_v1223 (addi : (⟨S8192, .i32⟩ : BufTy).Contents (Elt F) → (⟨S8192, .i32⟩ : BufTy).Contents (Elt F) → (⟨S8192, .i32⟩ : BufTy).Contents (Elt F)),
    ternary main_v1221 main_v1223 main_arg1 main_v1224 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1224 main_v1225 (broadcastInDim S8192x1 ![0] bcast_S8192_S8192x1_0 : (⟨S8192, .i32⟩ : BufTy).Contents (Elt F) → (⟨S8192x1, .i32⟩ : BufTy).Contents (Elt F)),
    ternary main_v1199 main_v1225 main_v1219 main_v1226 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1227 ((extractStridedSlice S1x512x512 ![23, 0, 0] · slices_S40x512x512_S1x512x512_23_0_0) : (⟨S40x512x512, .f32⟩ : BufTy).Contents (Elt F) → (⟨S1x512x512, .f32⟩ : BufTy).Contents (Elt F)),
    reshape main_v1227 main_v1228 rfl shapeCasts_S1x512x512_S512x512,
    unary main_v1228 main_v1229 ((transpose S512x512 [1, 0] · transposes_S512x512_S512x512_1_0) : (⟨S512x512, .f32⟩ : BufTy).Contents (Elt F) → (⟨S512x512, .f32⟩ : BufTy).Contents (Elt F)),
    binary main_v1033 main_v1229 main_v1230 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1231 ((extractStridedSlice S1x512 ![23, 0] · slices_S40x512_S1x512_23_0) : (⟨S40x512, .f32⟩ : BufTy).Contents (Elt F) → (⟨S1x512, .f32⟩ : BufTy).Contents (Elt F)),
    reshape main_v1231 main_v1232 rfl shapeCasts_S1x512_S512,
    unary main_v1232 main_v1233 (broadcastInDim S1x512 ![1] bcast_S512_S1x512_1 : (⟨S512, .f32⟩ : BufTy).Contents (Elt F) → (⟨S1x512, .f32⟩ : BufTy).Contents (Elt F)),
    unary main_v1233 main_v1234 (broadcastInDim S8192x512 ![0, 1] bcast_S1x512_S8192x512_0_1 : (⟨S1x512, .f32⟩ : BufTy).Contents (Elt F) → (⟨S8192x512, .f32⟩ : BufTy).Contents (Elt F)),
    binary main_v1230 main_v1234 main_v1235 (addf : (⟨S8192x512, .f32⟩ : BufTy).Contents (Elt F) → (⟨S8192x512, .f32⟩ : BufTy).Contents (Elt F) → (⟨S8192x512, .f32⟩ : BufTy).Contents (Elt F)),
    nullary main_c_257 (constantI S_ 32 0#32),
    unary main_c_257 main_v1236 (broadcastInDim S8192 ![] bcast_S_S8192 : (⟨S_, .i32⟩ : BufTy).Contents (Elt F) → (⟨S8192, .i32⟩ : BufTy).Contents (Elt F)),
    binary main_arg1 main_v1236 main_v1237 (cmpi .slt : (⟨S8192, .i32⟩ : BufTy).Contents (Elt F) → (⟨S8192, .i32⟩ : BufTy).Contents (Elt F) → (⟨S8192, .i1⟩ : BufTy).Contents (Elt F)),
    nullary main_c_258 (constantI S_ 32 8192#32),
    unary main_c_258 main_v1238 (broadcastInDim S8192 ![] bcast_S_S8192 : (⟨S_, .i32⟩ : BufTy).Contents (Elt F) → (⟨S8192, .i32⟩ : BufTy).Contents (Elt F)),
    binary main_arg1 main_v1238 main_v1239 (addi : (⟨S8192, .i32⟩ : BufTy).Contents (Elt F) → (⟨S8192, .i32⟩ : BufTy).Contents (Elt F) → (⟨S8192, .i32⟩ : BufTy).Contents (Elt F)),
    ternary main_v1237 main_v1239 main_arg1 main_v1240 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1240 main_v1241 (broadcastInDim S8192x1 ![0] bcast_S8192_S8192x1_0 : (⟨S8192, .i32⟩ : BufTy).Contents (Elt F) → (⟨S8192x1, .i32⟩ : BufTy).Contents (Elt F)),
    binary main_v1235 main_v1241 main_v1242 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_259 (constant S_ .f32 0x00000000#32),
    TRef.unary (TRef.of (T := ⟨S_, .f32⟩) main_cst_259) (TRef.of (T := ⟨S_, .f32⟩) main_call48_v0) id,
    TRef.unary (TRef.of (T := ⟨S8192x1, .i1⟩) main_v1202) (TRef.of (T := ⟨S8192x512, .i1⟩) main_call48_v1) (broadcastInDim S8192x512 ![0, 1] bcast_S8192x1_S8192x512_0_1),
    TRef.unary (TRef.of (T := ⟨S_, .f32⟩) main_call48_v0) (TRef.of (T := ⟨S8192x512, .f32⟩) main_call48_v2) (broadcastInDim S8192x512 ![] bcast_S_S8192x512),
    TRef.ternary (TRef.of (T := ⟨S8192x512, .i1⟩) main_call48_v1) (TRef.of (T := ⟨S8192x512, .f32⟩) main_v1242) (TRef.of (T := ⟨S8192x512, .f32⟩) main_call48_v2) (TRef.of (T := ⟨S8192x512, .f32⟩) main_v1243) select,
    nullary main_c_260 (constantI S_ 32 0#32),
    unary main_c_260 main_v1244 (broadcastInDim S8192 ![] bcast_S_S8192 : (⟨S_, .i32⟩ : BufTy).Contents (Elt F) → (⟨S8192, .i32⟩ : BufTy).Contents (Elt F)),
    binary main_arg3 main_v1244 main_v1245 (cmpi .slt : (⟨S8192, .i32⟩ : BufTy).Contents (Elt F) → (⟨S8192, .i32⟩ : BufTy).Contents (Elt F) → (⟨S8192, .i1⟩ : BufTy).Contents (Elt F)),
    nullary main_c_261 (constantI S_ 32 8192#32),
    unary main_c_261 main_v1246 (broadcastInDim S8192 ![] bcast_S_S8192 : (⟨S_, .i32⟩ : BufTy).Contents (Elt F) → (⟨S8192, .i32⟩ : BufTy).Contents (Elt F)),
    binary main_arg3 main_v1246 main_v1247 (addi : (⟨S8192, .i32⟩ : BufTy).Contents (Elt F) → (⟨S8192, .i32⟩ : BufTy).Contents (Elt F) → (⟨S8192, .i32⟩ : BufTy).Contents (Elt F)),
    ternary main_v1245 main_v1247 main_arg3 main_v1248 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1248 main_v1249 (broadcastInDim S8192x1 ![0] bcast_S8192_S8192x1_0 : (⟨S8192, .i32⟩ : BufTy).Contents (Elt F) → (⟨S8192x1, .i32⟩ : BufTy).Contents (Elt F)),
    ternary main_v1226 main_v1249 main_v1243 main_v1250 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_3_sub : (lab2_3 (F := F)).Forall fun op => op.bufs ⊆ tcRefs τ sig := by
  unfold lab2_3
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_3_fresh : (lab2_3 (F := F)).Forall fun op => op.fresh = ∅ := by
  all_fresh lab2_3

/-- The references the line writes, in order. -/
abbrev lab2_3_W : List (Ref sig .tc) := [main_c_251, main_v1200, main_v1201, main_v1202, main_v1203, main_v1204, main_v1205, main_v1206, main_v1207, main_v1208, main_v1209, main_v1210, main_v1211, main_c_252, main_v1212, main_v1213, main_c_253, main_v1214, main_v1215, main_v1216, main_v1217, main_v1218, main_cst_254, main_call47_v0, main_call47_v1, main_call47_v2, main_v1219, main_c_255, main_v1220, main_v1221, main_c_256, main_v1222, main_v1223, main_v1224, main_v1225, main_v1226, main_v1227, main_v1228, main_v1229, main_v1230, main_v1231, main_v1232, main_v1233, main_v1234, main_v1235, main_c_257, main_v1236, main_v1237, main_c_258, main_v1238, main_v1239, main_v1240, main_v1241, main_v1242, main_cst_259, main_call48_v0, main_call48_v1, main_call48_v2, main_v1243, main_c_260, main_v1244, main_v1245, main_c_261, main_v1246, main_v1247, main_v1248, main_v1249, main_v1250]

theorem lab2_3_writes : (lab2_3 (F := F)).map (fun op => op.writes)
    = (lab2_3_W).map fun y => ({Proc.devRef (τ := τ) .tc y} : Finset (DevRef τ sig)) := rfl

/-- A reference the line does not write keeps its contents. -/
theorem lab2_3_frame (V : Valuation τ sig (Elt F)) {r : Ref sig .tc} (hr : r ∉ lab2_3_W) :
    after (lab2_3 (F := F)) V (no_index (Proc.devRef .tc r)) = V (Proc.devRef .tc r) :=
  Cert.RefLib.after_frame lab2_3_writes V hr

/-- The operations of relation label 4 in layer 2: the label's edge mask, the two products, and the two masked messages added to the running sum. -/
def lab2_4 : List (HloOp τ sig (Elt F)) :=
  [
    nullary main_c_262 (constantI S_ 32 4#32),
    unary main_c_262 main_v1251 (broadcastInDim S8192 ![] bcast_S_S8192 : (⟨S_, .i32⟩ : BufTy).Contents (Elt F) → (⟨S8192, .i32⟩ : BufTy).Contents (Elt F)),
    binary main_arg2 main_v1251 main_v1252 (cmpi .eq : (⟨S8192, .i32⟩ : BufTy).Contents (Elt F) → (⟨S8192, .i32⟩ : BufTy).Contents (Elt F) → (⟨S8192, .i1⟩ : BufTy).Contents (Elt F)),
    unary main_v1252 main_v1253 (broadcastInDim S8192x1 ![0] bcast_S8192_S8192x1_0 : (⟨S8192, .i1⟩ : BufTy).Contents (Elt F) → (⟨S8192x1, .i1⟩ : BufTy).Contents (Elt F)),
    unary main_v1039 main_v1254 ((extractStridedSlice S1x512x512 ![4, 0, 0] · slices_S40x512x512_S1x512x512_4_0_0) : (⟨S40x512x512, .f32⟩ : BufTy).Contents (Elt F) → (⟨S1x512x512, .f32⟩ : BufTy).Contents (Elt F)),
    reshape main_v1254 main_v1255 rfl shapeCasts_S1x512x512_S512x512,
    unary main_v1255 main_v1256 ((transpose S512x512 [1, 0] · transposes_S512x512_S512x512_1_0) : (⟨S512x512, .f32⟩ : BufTy).Contents (Elt F) → (⟨S512x512, .f32⟩ : BufTy).Contents (Elt F)),
    binary main_v1033 main_v1256 main_v1257 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1258 ((extractStridedSlice S1x512 ![4, 0] · slices_S40x512_S1x512_4_0) : (⟨S40x512, .f32⟩ : BufTy).Contents (Elt F) → (⟨S1x512, .f32⟩ : BufTy).Contents (Elt F)),
    reshape main_v1258 main_v1259 rfl shapeCasts_S1x512_S512,
    unary main_v1259 main_v1260 (broadcastInDim S1x512 ![1] bcast_S512_S1x512_1 : (⟨S512, .f32⟩ : BufTy).Contents (Elt F) → (⟨S1x512, .f32⟩ : BufTy).Contents (Elt F)),
    unary main_v1260 main_v1261 (broadcastInDim S8192x512 ![0, 1] bcast_S1x512_S8192x512_0_1 : (⟨S1x512, .f32⟩ : BufTy).Contents (Elt F) → (⟨S8192x512, .f32⟩ : BufTy).Contents (Elt F)),
    binary main_v1257 main_v1261 main_v1262 (addf : (⟨S8192x512, .f32⟩ : BufTy).Contents (Elt F) → (⟨S8192x512, .f32⟩ : BufTy).Contents (Elt F) → (⟨S8192x512, .f32⟩ : BufTy).Contents (Elt F)),
    nullary main_c_263 (constantI S_ 32 0#32),
    unary main_c_263 main_v1263 (broadcastInDim S8192 ![] bcast_S_S8192 : (⟨S_, .i32⟩ : BufTy).Contents (Elt F) → (⟨S8192, .i32⟩ : BufTy).Contents (Elt F)),
    binary main_arg3 main_v1263 main_v1264 (cmpi .slt : (⟨S8192, .i32⟩ : BufTy).Contents (Elt F) → (⟨S8192, .i32⟩ : BufTy).Contents (Elt F) → (⟨S8192, .i1⟩ : BufTy).Contents (Elt F)),
    nullary main_c_264 (constantI S_ 32 8192#32),
    unary main_c_264 main_v1265 (broadcastInDim S8192 ![] bcast_S_S8192 : (⟨S_, .i32⟩ : BufTy).Contents (Elt F) → (⟨S8192, .i32⟩ : BufTy).Contents (Elt F)),
    binary main_arg3 main_v1265 main_v1266 (addi : (⟨S8192, .i32⟩ : BufTy).Contents (Elt F) → (⟨S8192, .i32⟩ : BufTy).Contents (Elt F) → (⟨S8192, .i32⟩ : BufTy).Contents (Elt F)),
    ternary main_v1264 main_v1266 main_arg3 main_v1267 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1267 main_v1268 (broadcastInDim S8192x1 ![0] bcast_S8192_S8192x1_0 : (⟨S8192, .i32⟩ : BufTy).Contents (Elt F) → (⟨S8192x1, .i32⟩ : BufTy).Contents (Elt F)),
    binary main_v1262 main_v1268 main_v1269 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_265 (constant S_ .f32 0x00000000#32),
    TRef.unary (TRef.of (T := ⟨S_, .f32⟩) main_cst_265) (TRef.of (T := ⟨S_, .f32⟩) main_call49_v0) id,
    TRef.unary (TRef.of (T := ⟨S8192x1, .i1⟩) main_v1253) (TRef.of (T := ⟨S8192x512, .i1⟩) main_call49_v1) (broadcastInDim S8192x512 ![0, 1] bcast_S8192x1_S8192x512_0_1),
    TRef.unary (TRef.of (T := ⟨S_, .f32⟩) main_call49_v0) (TRef.of (T := ⟨S8192x512, .f32⟩) main_call49_v2) (broadcastInDim S8192x512 ![] bcast_S_S8192x512),
    TRef.ternary (TRef.of (T := ⟨S8192x512, .i1⟩) main_call49_v1) (TRef.of (T := ⟨S8192x512, .f32⟩) main_v1269) (TRef.of (T := ⟨S8192x512, .f32⟩) main_call49_v2) (TRef.of (T := ⟨S8192x512, .f32⟩) main_v1270) select,
    nullary main_c_266 (constantI S_ 32 0#32),
    unary main_c_266 main_v1271 (broadcastInDim S8192 ![] bcast_S_S8192 : (⟨S_, .i32⟩ : BufTy).Contents (Elt F) → (⟨S8192, .i32⟩ : BufTy).Contents (Elt F)),
    binary main_arg1 main_v1271 main_v1272 (cmpi .slt : (⟨S8192, .i32⟩ : BufTy).Contents (Elt F) → (⟨S8192, .i32⟩ : BufTy).Contents (Elt F) → (⟨S8192, .i1⟩ : BufTy).Contents (Elt F)),
    nullary main_c_267 (constantI S_ 32 8192#32),
    unary main_c_267 main_v1273 (broadcastInDim S8192 ![] bcast_S_S8192 : (⟨S_, .i32⟩ : BufTy).Contents (Elt F) → (⟨S8192, .i32⟩ : BufTy).Contents (Elt F)),
    binary main_arg1 main_v1273 main_v1274 (addi : (⟨S8192, .i32⟩ : BufTy).Contents (Elt F) → (⟨S8192, .i32⟩ : BufTy).Contents (Elt F) → (⟨S8192, .i32⟩ : BufTy).Contents (Elt F)),
    ternary main_v1272 main_v1274 main_arg1 main_v1275 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1275 main_v1276 (broadcastInDim S8192x1 ![0] bcast_S8192_S8192x1_0 : (⟨S8192, .i32⟩ : BufTy).Contents (Elt F) → (⟨S8192x1, .i32⟩ : BufTy).Contents (Elt F)),
    ternary main_v1250 main_v1276 main_v1270 main_v1277 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1278 ((extractStridedSlice S1x512x512 ![24, 0, 0] · slices_S40x512x512_S1x512x512_24_0_0) : (⟨S40x512x512, .f32⟩ : BufTy).Contents (Elt F) → (⟨S1x512x512, .f32⟩ : BufTy).Contents (Elt F)),
    reshape main_v1278 main_v1279 rfl shapeCasts_S1x512x512_S512x512,
    unary main_v1279 main_v1280 ((transpose S512x512 [1, 0] · transposes_S512x512_S512x512_1_0) : (⟨S512x512, .f32⟩ : BufTy).Contents (Elt F) → (⟨S512x512, .f32⟩ : BufTy).Contents (Elt F)),
    binary main_v1033 main_v1280 main_v1281 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1282 ((extractStridedSlice S1x512 ![24, 0] · slices_S40x512_S1x512_24_0) : (⟨S40x512, .f32⟩ : BufTy).Contents (Elt F) → (⟨S1x512, .f32⟩ : BufTy).Contents (Elt F)),
    reshape main_v1282 main_v1283 rfl shapeCasts_S1x512_S512,
    unary main_v1283 main_v1284 (broadcastInDim S1x512 ![1] bcast_S512_S1x512_1 : (⟨S512, .f32⟩ : BufTy).Contents (Elt F) → (⟨S1x512, .f32⟩ : BufTy).Contents (Elt F)),
    unary main_v1284 main_v1285 (broadcastInDim S8192x512 ![0, 1] bcast_S1x512_S8192x512_0_1 : (⟨S1x512, .f32⟩ : BufTy).Contents (Elt F) → (⟨S8192x512, .f32⟩ : BufTy).Contents (Elt F)),
    binary main_v1281 main_v1285 main_v1286 (addf : (⟨S8192x512, .f32⟩ : BufTy).Contents (Elt F) → (⟨S8192x512, .f32⟩ : BufTy).Contents (Elt F) → (⟨S8192x512, .f32⟩ : BufTy).Contents (Elt F)),
    nullary main_c_268 (constantI S_ 32 0#32),
    unary main_c_268 main_v1287 (broadcastInDim S8192 ![] bcast_S_S8192 : (⟨S_, .i32⟩ : BufTy).Contents (Elt F) → (⟨S8192, .i32⟩ : BufTy).Contents (Elt F)),
    binary main_arg1 main_v1287 main_v1288 (cmpi .slt : (⟨S8192, .i32⟩ : BufTy).Contents (Elt F) → (⟨S8192, .i32⟩ : BufTy).Contents (Elt F) → (⟨S8192, .i1⟩ : BufTy).Contents (Elt F)),
    nullary main_c_269 (constantI S_ 32 8192#32),
    unary main_c_269 main_v1289 (broadcastInDim S8192 ![] bcast_S_S8192 : (⟨S_, .i32⟩ : BufTy).Contents (Elt F) → (⟨S8192, .i32⟩ : BufTy).Contents (Elt F)),
    binary main_arg1 main_v1289 main_v1290 (addi : (⟨S8192, .i32⟩ : BufTy).Contents (Elt F) → (⟨S8192, .i32⟩ : BufTy).Contents (Elt F) → (⟨S8192, .i32⟩ : BufTy).Contents (Elt F)),
    ternary main_v1288 main_v1290 main_arg1 main_v1291 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1291 main_v1292 (broadcastInDim S8192x1 ![0] bcast_S8192_S8192x1_0 : (⟨S8192, .i32⟩ : BufTy).Contents (Elt F) → (⟨S8192x1, .i32⟩ : BufTy).Contents (Elt F)),
    binary main_v1286 main_v1292 main_v1293 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_270 (constant S_ .f32 0x00000000#32),
    TRef.unary (TRef.of (T := ⟨S_, .f32⟩) main_cst_270) (TRef.of (T := ⟨S_, .f32⟩) main_call50_v0) id,
    TRef.unary (TRef.of (T := ⟨S8192x1, .i1⟩) main_v1253) (TRef.of (T := ⟨S8192x512, .i1⟩) main_call50_v1) (broadcastInDim S8192x512 ![0, 1] bcast_S8192x1_S8192x512_0_1),
    TRef.unary (TRef.of (T := ⟨S_, .f32⟩) main_call50_v0) (TRef.of (T := ⟨S8192x512, .f32⟩) main_call50_v2) (broadcastInDim S8192x512 ![] bcast_S_S8192x512),
    TRef.ternary (TRef.of (T := ⟨S8192x512, .i1⟩) main_call50_v1) (TRef.of (T := ⟨S8192x512, .f32⟩) main_v1293) (TRef.of (T := ⟨S8192x512, .f32⟩) main_call50_v2) (TRef.of (T := ⟨S8192x512, .f32⟩) main_v1294) select,
    nullary main_c_271 (constantI S_ 32 0#32),
    unary main_c_271 main_v1295 (broadcastInDim S8192 ![] bcast_S_S8192 : (⟨S_, .i32⟩ : BufTy).Contents (Elt F) → (⟨S8192, .i32⟩ : BufTy).Contents (Elt F)),
    binary main_arg3 main_v1295 main_v1296 (cmpi .slt : (⟨S8192, .i32⟩ : BufTy).Contents (Elt F) → (⟨S8192, .i32⟩ : BufTy).Contents (Elt F) → (⟨S8192, .i1⟩ : BufTy).Contents (Elt F)),
    nullary main_c_272 (constantI S_ 32 8192#32),
    unary main_c_272 main_v1297 (broadcastInDim S8192 ![] bcast_S_S8192 : (⟨S_, .i32⟩ : BufTy).Contents (Elt F) → (⟨S8192, .i32⟩ : BufTy).Contents (Elt F)),
    binary main_arg3 main_v1297 main_v1298 (addi : (⟨S8192, .i32⟩ : BufTy).Contents (Elt F) → (⟨S8192, .i32⟩ : BufTy).Contents (Elt F) → (⟨S8192, .i32⟩ : BufTy).Contents (Elt F)),
    ternary main_v1296 main_v1298 main_arg3 main_v1299 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1299 main_v1300 (broadcastInDim S8192x1 ![0] bcast_S8192_S8192x1_0 : (⟨S8192, .i32⟩ : BufTy).Contents (Elt F) → (⟨S8192x1, .i32⟩ : BufTy).Contents (Elt F)),
    ternary main_v1277 main_v1300 main_v1294 main_v1301 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_4_sub : (lab2_4 (F := F)).Forall fun op => op.bufs ⊆ tcRefs τ sig := by
  unfold lab2_4
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_4_fresh : (lab2_4 (F := F)).Forall fun op => op.fresh = ∅ := by
  all_fresh lab2_4

/-- The references the line writes, in order. -/
abbrev lab2_4_W : List (Ref sig .tc) := [main_c_262, main_v1251, main_v1252, main_v1253, main_v1254, main_v1255, main_v1256, main_v1257, main_v1258, main_v1259, main_v1260, main_v1261, main_v1262, main_c_263, main_v1263, main_v1264, main_c_264, main_v1265, main_v1266, main_v1267, main_v1268, main_v1269, main_cst_265, main_call49_v0, main_call49_v1, main_call49_v2, main_v1270, main_c_266, main_v1271, main_v1272, main_c_267, main_v1273, main_v1274, main_v1275, main_v1276, main_v1277, main_v1278, main_v1279, main_v1280, main_v1281, main_v1282, main_v1283, main_v1284, main_v1285, main_v1286, main_c_268, main_v1287, main_v1288, main_c_269, main_v1289, main_v1290, main_v1291, main_v1292, main_v1293, main_cst_270, main_call50_v0, main_call50_v1, main_call50_v2, main_v1294, main_c_271, main_v1295, main_v1296, main_c_272, main_v1297, main_v1298, main_v1299, main_v1300, main_v1301]

theorem lab2_4_writes : (lab2_4 (F := F)).map (fun op => op.writes)
    = (lab2_4_W).map fun y => ({Proc.devRef (τ := τ) .tc y} : Finset (DevRef τ sig)) := rfl

/-- A reference the line does not write keeps its contents. -/
theorem lab2_4_frame (V : Valuation τ sig (Elt F)) {r : Ref sig .tc} (hr : r ∉ lab2_4_W) :
    after (lab2_4 (F := F)) V (no_index (Proc.devRef .tc r)) = V (Proc.devRef .tc r) :=
  Cert.RefLib.after_frame lab2_4_writes V hr

/-- The operations of relation label 5 in layer 2: the label's edge mask, the two products, and the two masked messages added to the running sum. -/
def lab2_5 : List (HloOp τ sig (Elt F)) :=
  [
    nullary main_c_273 (constantI S_ 32 5#32),
    unary main_c_273 main_v1302 (broadcastInDim S8192 ![] bcast_S_S8192 : (⟨S_, .i32⟩ : BufTy).Contents (Elt F) → (⟨S8192, .i32⟩ : BufTy).Contents (Elt F)),
    binary main_arg2 main_v1302 main_v1303 (cmpi .eq : (⟨S8192, .i32⟩ : BufTy).Contents (Elt F) → (⟨S8192, .i32⟩ : BufTy).Contents (Elt F) → (⟨S8192, .i1⟩ : BufTy).Contents (Elt F)),
    unary main_v1303 main_v1304 (broadcastInDim S8192x1 ![0] bcast_S8192_S8192x1_0 : (⟨S8192, .i1⟩ : BufTy).Contents (Elt F) → (⟨S8192x1, .i1⟩ : BufTy).Contents (Elt F)),
    unary main_v1039 main_v1305 ((extractStridedSlice S1x512x512 ![5, 0, 0] · slices_S40x512x512_S1x512x512_5_0_0) : (⟨S40x512x512, .f32⟩ : BufTy).Contents (Elt F) → (⟨S1x512x512, .f32⟩ : BufTy).Contents (Elt F)),
    reshape main_v1305 main_v1306 rfl shapeCasts_S1x512x512_S512x512,
    unary main_v1306 main_v1307 ((transpose S512x512 [1, 0] · transposes_S512x512_S512x512_1_0) : (⟨S512x512, .f32⟩ : BufTy).Contents (Elt F) → (⟨S512x512, .f32⟩ : BufTy).Contents (Elt F)),
    binary main_v1033 main_v1307 main_v1308 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1309 ((extractStridedSlice S1x512 ![5, 0] · slices_S40x512_S1x512_5_0) : (⟨S40x512, .f32⟩ : BufTy).Contents (Elt F) → (⟨S1x512, .f32⟩ : BufTy).Contents (Elt F)),
    reshape main_v1309 main_v1310 rfl shapeCasts_S1x512_S512,
    unary main_v1310 main_v1311 (broadcastInDim S1x512 ![1] bcast_S512_S1x512_1 : (⟨S512, .f32⟩ : BufTy).Contents (Elt F) → (⟨S1x512, .f32⟩ : BufTy).Contents (Elt F)),
    unary main_v1311 main_v1312 (broadcastInDim S8192x512 ![0, 1] bcast_S1x512_S8192x512_0_1 : (⟨S1x512, .f32⟩ : BufTy).Contents (Elt F) → (⟨S8192x512, .f32⟩ : BufTy).Contents (Elt F)),
    binary main_v1308 main_v1312 main_v1313 (addf : (⟨S8192x512, .f32⟩ : BufTy).Contents (Elt F) → (⟨S8192x512, .f32⟩ : BufTy).Contents (Elt F) → (⟨S8192x512, .f32⟩ : BufTy).Contents (Elt F)),
    nullary main_c_274 (constantI S_ 32 0#32),
    unary main_c_274 main_v1314 (broadcastInDim S8192 ![] bcast_S_S8192 : (⟨S_, .i32⟩ : BufTy).Contents (Elt F) → (⟨S8192, .i32⟩ : BufTy).Contents (Elt F)),
    binary main_arg3 main_v1314 main_v1315 (cmpi .slt : (⟨S8192, .i32⟩ : BufTy).Contents (Elt F) → (⟨S8192, .i32⟩ : BufTy).Contents (Elt F) → (⟨S8192, .i1⟩ : BufTy).Contents (Elt F)),
    nullary main_c_275 (constantI S_ 32 8192#32),
    unary main_c_275 main_v1316 (broadcastInDim S8192 ![] bcast_S_S8192 : (⟨S_, .i32⟩ : BufTy).Contents (Elt F) → (⟨S8192, .i32⟩ : BufTy).Contents (Elt F)),
    binary main_arg3 main_v1316 main_v1317 (addi : (⟨S8192, .i32⟩ : BufTy).Contents (Elt F) → (⟨S8192, .i32⟩ : BufTy).Contents (Elt F) → (⟨S8192, .i32⟩ : BufTy).Contents (Elt F)),
    ternary main_v1315 main_v1317 main_arg3 main_v1318 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1318 main_v1319 (broadcastInDim S8192x1 ![0] bcast_S8192_S8192x1_0 : (⟨S8192, .i32⟩ : BufTy).Contents (Elt F) → (⟨S8192x1, .i32⟩ : BufTy).Contents (Elt F)),
    binary main_v1313 main_v1319 main_v1320 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_276 (constant S_ .f32 0x00000000#32),
    TRef.unary (TRef.of (T := ⟨S_, .f32⟩) main_cst_276) (TRef.of (T := ⟨S_, .f32⟩) main_call51_v0) id,
    TRef.unary (TRef.of (T := ⟨S8192x1, .i1⟩) main_v1304) (TRef.of (T := ⟨S8192x512, .i1⟩) main_call51_v1) (broadcastInDim S8192x512 ![0, 1] bcast_S8192x1_S8192x512_0_1),
    TRef.unary (TRef.of (T := ⟨S_, .f32⟩) main_call51_v0) (TRef.of (T := ⟨S8192x512, .f32⟩) main_call51_v2) (broadcastInDim S8192x512 ![] bcast_S_S8192x512),
    TRef.ternary (TRef.of (T := ⟨S8192x512, .i1⟩) main_call51_v1) (TRef.of (T := ⟨S8192x512, .f32⟩) main_v1320) (TRef.of (T := ⟨S8192x512, .f32⟩) main_call51_v2) (TRef.of (T := ⟨S8192x512, .f32⟩) main_v1321) select,
    nullary main_c_277 (constantI S_ 32 0#32),
    unary main_c_277 main_v1322 (broadcastInDim S8192 ![] bcast_S_S8192 : (⟨S_, .i32⟩ : BufTy).Contents (Elt F) → (⟨S8192, .i32⟩ : BufTy).Contents (Elt F)),
    binary main_arg1 main_v1322 main_v1323 (cmpi .slt : (⟨S8192, .i32⟩ : BufTy).Contents (Elt F) → (⟨S8192, .i32⟩ : BufTy).Contents (Elt F) → (⟨S8192, .i1⟩ : BufTy).Contents (Elt F)),
    nullary main_c_278 (constantI S_ 32 8192#32),
    unary main_c_278 main_v1324 (broadcastInDim S8192 ![] bcast_S_S8192 : (⟨S_, .i32⟩ : BufTy).Contents (Elt F) → (⟨S8192, .i32⟩ : BufTy).Contents (Elt F)),
    binary main_arg1 main_v1324 main_v1325 (addi : (⟨S8192, .i32⟩ : BufTy).Contents (Elt F) → (⟨S8192, .i32⟩ : BufTy).Contents (Elt F) → (⟨S8192, .i32⟩ : BufTy).Contents (Elt F)),
    ternary main_v1323 main_v1325 main_arg1 main_v1326 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1326 main_v1327 (broadcastInDim S8192x1 ![0] bcast_S8192_S8192x1_0 : (⟨S8192, .i32⟩ : BufTy).Contents (Elt F) → (⟨S8192x1, .i32⟩ : BufTy).Contents (Elt F)),
    ternary main_v1301 main_v1327 main_v1321 main_v1328 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1329 ((extractStridedSlice S1x512x512 ![25, 0, 0] · slices_S40x512x512_S1x512x512_25_0_0) : (⟨S40x512x512, .f32⟩ : BufTy).Contents (Elt F) → (⟨S1x512x512, .f32⟩ : BufTy).Contents (Elt F)),
    reshape main_v1329 main_v1330 rfl shapeCasts_S1x512x512_S512x512,
    unary main_v1330 main_v1331 ((transpose S512x512 [1, 0] · transposes_S512x512_S512x512_1_0) : (⟨S512x512, .f32⟩ : BufTy).Contents (Elt F) → (⟨S512x512, .f32⟩ : BufTy).Contents (Elt F)),
    binary main_v1033 main_v1331 main_v1332 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1333 ((extractStridedSlice S1x512 ![25, 0] · slices_S40x512_S1x512_25_0) : (⟨S40x512, .f32⟩ : BufTy).Contents (Elt F) → (⟨S1x512, .f32⟩ : BufTy).Contents (Elt F)),
    reshape main_v1333 main_v1334 rfl shapeCasts_S1x512_S512,
    unary main_v1334 main_v1335 (broadcastInDim S1x512 ![1] bcast_S512_S1x512_1 : (⟨S512, .f32⟩ : BufTy).Contents (Elt F) → (⟨S1x512, .f32⟩ : BufTy).Contents (Elt F)),
    unary main_v1335 main_v1336 (broadcastInDim S8192x512 ![0, 1] bcast_S1x512_S8192x512_0_1 : (⟨S1x512, .f32⟩ : BufTy).Contents (Elt F) → (⟨S8192x512, .f32⟩ : BufTy).Contents (Elt F)),
    binary main_v1332 main_v1336 main_v1337 (addf : (⟨S8192x512, .f32⟩ : BufTy).Contents (Elt F) → (⟨S8192x512, .f32⟩ : BufTy).Contents (Elt F) → (⟨S8192x512, .f32⟩ : BufTy).Contents (Elt F)),
    nullary main_c_279 (constantI S_ 32 0#32),
    unary main_c_279 main_v1338 (broadcastInDim S8192 ![] bcast_S_S8192 : (⟨S_, .i32⟩ : BufTy).Contents (Elt F) → (⟨S8192, .i32⟩ : BufTy).Contents (Elt F)),
    binary main_arg1 main_v1338 main_v1339 (cmpi .slt : (⟨S8192, .i32⟩ : BufTy).Contents (Elt F) → (⟨S8192, .i32⟩ : BufTy).Contents (Elt F) → (⟨S8192, .i1⟩ : BufTy).Contents (Elt F)),
    nullary main_c_280 (constantI S_ 32 8192#32),
    unary main_c_280 main_v1340 (broadcastInDim S8192 ![] bcast_S_S8192 : (⟨S_, .i32⟩ : BufTy).Contents (Elt F) → (⟨S8192, .i32⟩ : BufTy).Contents (Elt F)),
    binary main_arg1 main_v1340 main_v1341 (addi : (⟨S8192, .i32⟩ : BufTy).Contents (Elt F) → (⟨S8192, .i32⟩ : BufTy).Contents (Elt F) → (⟨S8192, .i32⟩ : BufTy).Contents (Elt F)),
    ternary main_v1339 main_v1341 main_arg1 main_v1342 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1342 main_v1343 (broadcastInDim S8192x1 ![0] bcast_S8192_S8192x1_0 : (⟨S8192, .i32⟩ : BufTy).Contents (Elt F) → (⟨S8192x1, .i32⟩ : BufTy).Contents (Elt F)),
    binary main_v1337 main_v1343 main_v1344 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_281 (constant S_ .f32 0x00000000#32),
    TRef.unary (TRef.of (T := ⟨S_, .f32⟩) main_cst_281) (TRef.of (T := ⟨S_, .f32⟩) main_call52_v0) id,
    TRef.unary (TRef.of (T := ⟨S8192x1, .i1⟩) main_v1304) (TRef.of (T := ⟨S8192x512, .i1⟩) main_call52_v1) (broadcastInDim S8192x512 ![0, 1] bcast_S8192x1_S8192x512_0_1),
    TRef.unary (TRef.of (T := ⟨S_, .f32⟩) main_call52_v0) (TRef.of (T := ⟨S8192x512, .f32⟩) main_call52_v2) (broadcastInDim S8192x512 ![] bcast_S_S8192x512),
    TRef.ternary (TRef.of (T := ⟨S8192x512, .i1⟩) main_call52_v1) (TRef.of (T := ⟨S8192x512, .f32⟩) main_v1344) (TRef.of (T := ⟨S8192x512, .f32⟩) main_call52_v2) (TRef.of (T := ⟨S8192x512, .f32⟩) main_v1345) select,
    nullary main_c_282 (constantI S_ 32 0#32),
    unary main_c_282 main_v1346 (broadcastInDim S8192 ![] bcast_S_S8192 : (⟨S_, .i32⟩ : BufTy).Contents (Elt F) → (⟨S8192, .i32⟩ : BufTy).Contents (Elt F)),
    binary main_arg3 main_v1346 main_v1347 (cmpi .slt : (⟨S8192, .i32⟩ : BufTy).Contents (Elt F) → (⟨S8192, .i32⟩ : BufTy).Contents (Elt F) → (⟨S8192, .i1⟩ : BufTy).Contents (Elt F)),
    nullary main_c_283 (constantI S_ 32 8192#32),
    unary main_c_283 main_v1348 (broadcastInDim S8192 ![] bcast_S_S8192 : (⟨S_, .i32⟩ : BufTy).Contents (Elt F) → (⟨S8192, .i32⟩ : BufTy).Contents (Elt F)),
    binary main_arg3 main_v1348 main_v1349 (addi : (⟨S8192, .i32⟩ : BufTy).Contents (Elt F) → (⟨S8192, .i32⟩ : BufTy).Contents (Elt F) → (⟨S8192, .i32⟩ : BufTy).Contents (Elt F)),
    ternary main_v1347 main_v1349 main_arg3 main_v1350 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1350 main_v1351 (broadcastInDim S8192x1 ![0] bcast_S8192_S8192x1_0 : (⟨S8192, .i32⟩ : BufTy).Contents (Elt F) → (⟨S8192x1, .i32⟩ : BufTy).Contents (Elt F)),
    ternary main_v1328 main_v1351 main_v1345 main_v1352 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_5_sub : (lab2_5 (F := F)).Forall fun op => op.bufs ⊆ tcRefs τ sig := by
  unfold lab2_5
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_5_fresh : (lab2_5 (F := F)).Forall fun op => op.fresh = ∅ := by
  all_fresh lab2_5

/-- The references the line writes, in order. -/
abbrev lab2_5_W : List (Ref sig .tc) := [main_c_273, main_v1302, main_v1303, main_v1304, main_v1305, main_v1306, main_v1307, main_v1308, main_v1309, main_v1310, main_v1311, main_v1312, main_v1313, main_c_274, main_v1314, main_v1315, main_c_275, main_v1316, main_v1317, main_v1318, main_v1319, main_v1320, main_cst_276, main_call51_v0, main_call51_v1, main_call51_v2, main_v1321, main_c_277, main_v1322, main_v1323, main_c_278, main_v1324, main_v1325, main_v1326, main_v1327, main_v1328, main_v1329, main_v1330, main_v1331, main_v1332, main_v1333, main_v1334, main_v1335, main_v1336, main_v1337, main_c_279, main_v1338, main_v1339, main_c_280, main_v1340, main_v1341, main_v1342, main_v1343, main_v1344, main_cst_281, main_call52_v0, main_call52_v1, main_call52_v2, main_v1345, main_c_282, main_v1346, main_v1347, main_c_283, main_v1348, main_v1349, main_v1350, main_v1351, main_v1352]

theorem lab2_5_writes : (lab2_5 (F := F)).map (fun op => op.writes)
    = (lab2_5_W).map fun y => ({Proc.devRef (τ := τ) .tc y} : Finset (DevRef τ sig)) := rfl

/-- A reference the line does not write keeps its contents. -/
theorem lab2_5_frame (V : Valuation τ sig (Elt F)) {r : Ref sig .tc} (hr : r ∉ lab2_5_W) :
    after (lab2_5 (F := F)) V (no_index (Proc.devRef .tc r)) = V (Proc.devRef .tc r) :=
  Cert.RefLib.after_frame lab2_5_writes V hr

/-- The operations of relation label 6 in layer 2: the label's edge mask, the two products, and the two masked messages added to the running sum. -/
def lab2_6 : List (HloOp τ sig (Elt F)) :=
  [
    nullary main_c_284 (constantI S_ 32 6#32),
    unary main_c_284 main_v1353 (broadcastInDim S8192 ![] bcast_S_S8192 : (⟨S_, .i32⟩ : BufTy).Contents (Elt F) → (⟨S8192, .i32⟩ : BufTy).Contents (Elt F)),
    binary main_arg2 main_v1353 main_v1354 (cmpi .eq : (⟨S8192, .i32⟩ : BufTy).Contents (Elt F) → (⟨S8192, .i32⟩ : BufTy).Contents (Elt F) → (⟨S8192, .i1⟩ : BufTy).Contents (Elt F)),
    unary main_v1354 main_v1355 (broadcastInDim S8192x1 ![0] bcast_S8192_S8192x1_0 : (⟨S8192, .i1⟩ : BufTy).Contents (Elt F) → (⟨S8192x1, .i1⟩ : BufTy).Contents (Elt F)),
    unary main_v1039 main_v1356 ((extractStridedSlice S1x512x512 ![6, 0, 0] · slices_S40x512x512_S1x512x512_6_0_0) : (⟨S40x512x512, .f32⟩ : BufTy).Contents (Elt F) → (⟨S1x512x512, .f32⟩ : BufTy).Contents (Elt F)),
    reshape main_v1356 main_v1357 rfl shapeCasts_S1x512x512_S512x512,
    unary main_v1357 main_v1358 ((transpose S512x512 [1, 0] · transposes_S512x512_S512x512_1_0) : (⟨S512x512, .f32⟩ : BufTy).Contents (Elt F) → (⟨S512x512, .f32⟩ : BufTy).Contents (Elt F)),
    binary main_v1033 main_v1358 main_v1359 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1360 ((extractStridedSlice S1x512 ![6, 0] · slices_S40x512_S1x512_6_0) : (⟨S40x512, .f32⟩ : BufTy).Contents (Elt F) → (⟨S1x512, .f32⟩ : BufTy).Contents (Elt F)),
    reshape main_v1360 main_v1361 rfl shapeCasts_S1x512_S512,
    unary main_v1361 main_v1362 (broadcastInDim S1x512 ![1] bcast_S512_S1x512_1 : (⟨S512, .f32⟩ : BufTy).Contents (Elt F) → (⟨S1x512, .f32⟩ : BufTy).Contents (Elt F)),
    unary main_v1362 main_v1363 (broadcastInDim S8192x512 ![0, 1] bcast_S1x512_S8192x512_0_1 : (⟨S1x512, .f32⟩ : BufTy).Contents (Elt F) → (⟨S8192x512, .f32⟩ : BufTy).Contents (Elt F)),
    binary main_v1359 main_v1363 main_v1364 (addf : (⟨S8192x512, .f32⟩ : BufTy).Contents (Elt F) → (⟨S8192x512, .f32⟩ : BufTy).Contents (Elt F) → (⟨S8192x512, .f32⟩ : BufTy).Contents (Elt F)),
    nullary main_c_285 (constantI S_ 32 0#32),
    unary main_c_285 main_v1365 (broadcastInDim S8192 ![] bcast_S_S8192 : (⟨S_, .i32⟩ : BufTy).Contents (Elt F) → (⟨S8192, .i32⟩ : BufTy).Contents (Elt F)),
    binary main_arg3 main_v1365 main_v1366 (cmpi .slt : (⟨S8192, .i32⟩ : BufTy).Contents (Elt F) → (⟨S8192, .i32⟩ : BufTy).Contents (Elt F) → (⟨S8192, .i1⟩ : BufTy).Contents (Elt F)),
    nullary main_c_286 (constantI S_ 32 8192#32),
    unary main_c_286 main_v1367 (broadcastInDim S8192 ![] bcast_S_S8192 : (⟨S_, .i32⟩ : BufTy).Contents (Elt F) → (⟨S8192, .i32⟩ : BufTy).Contents (Elt F)),
    binary main_arg3 main_v1367 main_v1368 (addi : (⟨S8192, .i32⟩ : BufTy).Contents (Elt F) → (⟨S8192, .i32⟩ : BufTy).Contents (Elt F) → (⟨S8192, .i32⟩ : BufTy).Contents (Elt F)),
    ternary main_v1366 main_v1368 main_arg3 main_v1369 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1369 main_v1370 (broadcastInDim S8192x1 ![0] bcast_S8192_S8192x1_0 : (⟨S8192, .i32⟩ : BufTy).Contents (Elt F) → (⟨S8192x1, .i32⟩ : BufTy).Contents (Elt F)),
    binary main_v1364 main_v1370 main_v1371 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_287 (constant S_ .f32 0x00000000#32),
    TRef.unary (TRef.of (T := ⟨S_, .f32⟩) main_cst_287) (TRef.of (T := ⟨S_, .f32⟩) main_call53_v0) id,
    TRef.unary (TRef.of (T := ⟨S8192x1, .i1⟩) main_v1355) (TRef.of (T := ⟨S8192x512, .i1⟩) main_call53_v1) (broadcastInDim S8192x512 ![0, 1] bcast_S8192x1_S8192x512_0_1),
    TRef.unary (TRef.of (T := ⟨S_, .f32⟩) main_call53_v0) (TRef.of (T := ⟨S8192x512, .f32⟩) main_call53_v2) (broadcastInDim S8192x512 ![] bcast_S_S8192x512),
    TRef.ternary (TRef.of (T := ⟨S8192x512, .i1⟩) main_call53_v1) (TRef.of (T := ⟨S8192x512, .f32⟩) main_v1371) (TRef.of (T := ⟨S8192x512, .f32⟩) main_call53_v2) (TRef.of (T := ⟨S8192x512, .f32⟩) main_v1372) select,
    nullary main_c_288 (constantI S_ 32 0#32),
    unary main_c_288 main_v1373 (broadcastInDim S8192 ![] bcast_S_S8192 : (⟨S_, .i32⟩ : BufTy).Contents (Elt F) → (⟨S8192, .i32⟩ : BufTy).Contents (Elt F)),
    binary main_arg1 main_v1373 main_v1374 (cmpi .slt : (⟨S8192, .i32⟩ : BufTy).Contents (Elt F) → (⟨S8192, .i32⟩ : BufTy).Contents (Elt F) → (⟨S8192, .i1⟩ : BufTy).Contents (Elt F)),
    nullary main_c_289 (constantI S_ 32 8192#32),
    unary main_c_289 main_v1375 (broadcastInDim S8192 ![] bcast_S_S8192 : (⟨S_, .i32⟩ : BufTy).Contents (Elt F) → (⟨S8192, .i32⟩ : BufTy).Contents (Elt F)),
    binary main_arg1 main_v1375 main_v1376 (addi : (⟨S8192, .i32⟩ : BufTy).Contents (Elt F) → (⟨S8192, .i32⟩ : BufTy).Contents (Elt F) → (⟨S8192, .i32⟩ : BufTy).Contents (Elt F)),
    ternary main_v1374 main_v1376 main_arg1 main_v1377 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1377 main_v1378 (broadcastInDim S8192x1 ![0] bcast_S8192_S8192x1_0 : (⟨S8192, .i32⟩ : BufTy).Contents (Elt F) → (⟨S8192x1, .i32⟩ : BufTy).Contents (Elt F)),
    ternary main_v1352 main_v1378 main_v1372 main_v1379 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1380 ((extractStridedSlice S1x512x512 ![26, 0, 0] · slices_S40x512x512_S1x512x512_26_0_0) : (⟨S40x512x512, .f32⟩ : BufTy).Contents (Elt F) → (⟨S1x512x512, .f32⟩ : BufTy).Contents (Elt F)),
    reshape main_v1380 main_v1381 rfl shapeCasts_S1x512x512_S512x512,
    unary main_v1381 main_v1382 ((transpose S512x512 [1, 0] · transposes_S512x512_S512x512_1_0) : (⟨S512x512, .f32⟩ : BufTy).Contents (Elt F) → (⟨S512x512, .f32⟩ : BufTy).Contents (Elt F)),
    binary main_v1033 main_v1382 main_v1383 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1384 ((extractStridedSlice S1x512 ![26, 0] · slices_S40x512_S1x512_26_0) : (⟨S40x512, .f32⟩ : BufTy).Contents (Elt F) → (⟨S1x512, .f32⟩ : BufTy).Contents (Elt F)),
    reshape main_v1384 main_v1385 rfl shapeCasts_S1x512_S512,
    unary main_v1385 main_v1386 (broadcastInDim S1x512 ![1] bcast_S512_S1x512_1 : (⟨S512, .f32⟩ : BufTy).Contents (Elt F) → (⟨S1x512, .f32⟩ : BufTy).Contents (Elt F)),
    unary main_v1386 main_v1387 (broadcastInDim S8192x512 ![0, 1] bcast_S1x512_S8192x512_0_1 : (⟨S1x512, .f32⟩ : BufTy).Contents (Elt F) → (⟨S8192x512, .f32⟩ : BufTy).Contents (Elt F)),
    binary main_v1383 main_v1387 main_v1388 (addf : (⟨S8192x512, .f32⟩ : BufTy).Contents (Elt F) → (⟨S8192x512, .f32⟩ : BufTy).Contents (Elt F) → (⟨S8192x512, .f32⟩ : BufTy).Contents (Elt F)),
    nullary main_c_290 (constantI S_ 32 0#32),
    unary main_c_290 main_v1389 (broadcastInDim S8192 ![] bcast_S_S8192 : (⟨S_, .i32⟩ : BufTy).Contents (Elt F) → (⟨S8192, .i32⟩ : BufTy).Contents (Elt F)),
    binary main_arg1 main_v1389 main_v1390 (cmpi .slt : (⟨S8192, .i32⟩ : BufTy).Contents (Elt F) → (⟨S8192, .i32⟩ : BufTy).Contents (Elt F) → (⟨S8192, .i1⟩ : BufTy).Contents (Elt F)),
    nullary main_c_291 (constantI S_ 32 8192#32),
    unary main_c_291 main_v1391 (broadcastInDim S8192 ![] bcast_S_S8192 : (⟨S_, .i32⟩ : BufTy).Contents (Elt F) → (⟨S8192, .i32⟩ : BufTy).Contents (Elt F)),
    binary main_arg1 main_v1391 main_v1392 (addi : (⟨S8192, .i32⟩ : BufTy).Contents (Elt F) → (⟨S8192, .i32⟩ : BufTy).Contents (Elt F) → (⟨S8192, .i32⟩ : BufTy).Contents (Elt F)),
    ternary main_v1390 main_v1392 main_arg1 main_v1393 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1393 main_v1394 (broadcastInDim S8192x1 ![0] bcast_S8192_S8192x1_0 : (⟨S8192, .i32⟩ : BufTy).Contents (Elt F) → (⟨S8192x1, .i32⟩ : BufTy).Contents (Elt F)),
    binary main_v1388 main_v1394 main_v1395 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_292 (constant S_ .f32 0x00000000#32),
    TRef.unary (TRef.of (T := ⟨S_, .f32⟩) main_cst_292) (TRef.of (T := ⟨S_, .f32⟩) main_call54_v0) id,
    TRef.unary (TRef.of (T := ⟨S8192x1, .i1⟩) main_v1355) (TRef.of (T := ⟨S8192x512, .i1⟩) main_call54_v1) (broadcastInDim S8192x512 ![0, 1] bcast_S8192x1_S8192x512_0_1),
    TRef.unary (TRef.of (T := ⟨S_, .f32⟩) main_call54_v0) (TRef.of (T := ⟨S8192x512, .f32⟩) main_call54_v2) (broadcastInDim S8192x512 ![] bcast_S_S8192x512),
    TRef.ternary (TRef.of (T := ⟨S8192x512, .i1⟩) main_call54_v1) (TRef.of (T := ⟨S8192x512, .f32⟩) main_v1395) (TRef.of (T := ⟨S8192x512, .f32⟩) main_call54_v2) (TRef.of (T := ⟨S8192x512, .f32⟩) main_v1396) select,
    nullary main_c_293 (constantI S_ 32 0#32),
    unary main_c_293 main_v1397 (broadcastInDim S8192 ![] bcast_S_S8192 : (⟨S_, .i32⟩ : BufTy).Contents (Elt F) → (⟨S8192, .i32⟩ : BufTy).Contents (Elt F)),
    binary main_arg3 main_v1397 main_v1398 (cmpi .slt : (⟨S8192, .i32⟩ : BufTy).Contents (Elt F) → (⟨S8192, .i32⟩ : BufTy).Contents (Elt F) → (⟨S8192, .i1⟩ : BufTy).Contents (Elt F)),
    nullary main_c_294 (constantI S_ 32 8192#32),
    unary main_c_294 main_v1399 (broadcastInDim S8192 ![] bcast_S_S8192 : (⟨S_, .i32⟩ : BufTy).Contents (Elt F) → (⟨S8192, .i32⟩ : BufTy).Contents (Elt F)),
    binary main_arg3 main_v1399 main_v1400 (addi : (⟨S8192, .i32⟩ : BufTy).Contents (Elt F) → (⟨S8192, .i32⟩ : BufTy).Contents (Elt F) → (⟨S8192, .i32⟩ : BufTy).Contents (Elt F)),
    ternary main_v1398 main_v1400 main_arg3 main_v1401 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1401 main_v1402 (broadcastInDim S8192x1 ![0] bcast_S8192_S8192x1_0 : (⟨S8192, .i32⟩ : BufTy).Contents (Elt F) → (⟨S8192x1, .i32⟩ : BufTy).Contents (Elt F)),
    ternary main_v1379 main_v1402 main_v1396 main_v1403 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_6_sub : (lab2_6 (F := F)).Forall fun op => op.bufs ⊆ tcRefs τ sig := by
  unfold lab2_6
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_6_fresh : (lab2_6 (F := F)).Forall fun op => op.fresh = ∅ := by
  all_fresh lab2_6

/-- The references the line writes, in order. -/
abbrev lab2_6_W : List (Ref sig .tc) := [main_c_284, main_v1353, main_v1354, main_v1355, main_v1356, main_v1357, main_v1358, main_v1359, main_v1360, main_v1361, main_v1362, main_v1363, main_v1364, main_c_285, main_v1365, main_v1366, main_c_286, main_v1367, main_v1368, main_v1369, main_v1370, main_v1371, main_cst_287, main_call53_v0, main_call53_v1, main_call53_v2, main_v1372, main_c_288, main_v1373, main_v1374, main_c_289, main_v1375, main_v1376, main_v1377, main_v1378, main_v1379, main_v1380, main_v1381, main_v1382, main_v1383, main_v1384, main_v1385, main_v1386, main_v1387, main_v1388, main_c_290, main_v1389, main_v1390, main_c_291, main_v1391, main_v1392, main_v1393, main_v1394, main_v1395, main_cst_292, main_call54_v0, main_call54_v1, main_call54_v2, main_v1396, main_c_293, main_v1397, main_v1398, main_c_294, main_v1399, main_v1400, main_v1401, main_v1402, main_v1403]

theorem lab2_6_writes : (lab2_6 (F := F)).map (fun op => op.writes)
    = (lab2_6_W).map fun y => ({Proc.devRef (τ := τ) .tc y} : Finset (DevRef τ sig)) := rfl

/-- A reference the line does not write keeps its contents. -/
theorem lab2_6_frame (V : Valuation τ sig (Elt F)) {r : Ref sig .tc} (hr : r ∉ lab2_6_W) :
    after (lab2_6 (F := F)) V (no_index (Proc.devRef .tc r)) = V (Proc.devRef .tc r) :=
  Cert.RefLib.after_frame lab2_6_writes V hr

/-- The operations of relation label 7 in layer 2: the label's edge mask, the two products, and the two masked messages added to the running sum. -/
def lab2_7 : List (HloOp τ sig (Elt F)) :=
  [
    nullary main_c_295 (constantI S_ 32 7#32),
    unary main_c_295 main_v1404 (broadcastInDim S8192 ![] bcast_S_S8192 : (⟨S_, .i32⟩ : BufTy).Contents (Elt F) → (⟨S8192, .i32⟩ : BufTy).Contents (Elt F)),
    binary main_arg2 main_v1404 main_v1405 (cmpi .eq : (⟨S8192, .i32⟩ : BufTy).Contents (Elt F) → (⟨S8192, .i32⟩ : BufTy).Contents (Elt F) → (⟨S8192, .i1⟩ : BufTy).Contents (Elt F)),
    unary main_v1405 main_v1406 (broadcastInDim S8192x1 ![0] bcast_S8192_S8192x1_0 : (⟨S8192, .i1⟩ : BufTy).Contents (Elt F) → (⟨S8192x1, .i1⟩ : BufTy).Contents (Elt F)),
    unary main_v1039 main_v1407 ((extractStridedSlice S1x512x512 ![7, 0, 0] · slices_S40x512x512_S1x512x512_7_0_0) : (⟨S40x512x512, .f32⟩ : BufTy).Contents (Elt F) → (⟨S1x512x512, .f32⟩ : BufTy).Contents (Elt F)),
    reshape main_v1407 main_v1408 rfl shapeCasts_S1x512x512_S512x512,
    unary main_v1408 main_v1409 ((transpose S512x512 [1, 0] · transposes_S512x512_S512x512_1_0) : (⟨S512x512, .f32⟩ : BufTy).Contents (Elt F) → (⟨S512x512, .f32⟩ : BufTy).Contents (Elt F)),
    binary main_v1033 main_v1409 main_v1410 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1411 ((extractStridedSlice S1x512 ![7, 0] · slices_S40x512_S1x512_7_0) : (⟨S40x512, .f32⟩ : BufTy).Contents (Elt F) → (⟨S1x512, .f32⟩ : BufTy).Contents (Elt F)),
    reshape main_v1411 main_v1412 rfl shapeCasts_S1x512_S512,
    unary main_v1412 main_v1413 (broadcastInDim S1x512 ![1] bcast_S512_S1x512_1 : (⟨S512, .f32⟩ : BufTy).Contents (Elt F) → (⟨S1x512, .f32⟩ : BufTy).Contents (Elt F)),
    unary main_v1413 main_v1414 (broadcastInDim S8192x512 ![0, 1] bcast_S1x512_S8192x512_0_1 : (⟨S1x512, .f32⟩ : BufTy).Contents (Elt F) → (⟨S8192x512, .f32⟩ : BufTy).Contents (Elt F)),
    binary main_v1410 main_v1414 main_v1415 (addf : (⟨S8192x512, .f32⟩ : BufTy).Contents (Elt F) → (⟨S8192x512, .f32⟩ : BufTy).Contents (Elt F) → (⟨S8192x512, .f32⟩ : BufTy).Contents (Elt F)),
    nullary main_c_296 (constantI S_ 32 0#32),
    unary main_c_296 main_v1416 (broadcastInDim S8192 ![] bcast_S_S8192 : (⟨S_, .i32⟩ : BufTy).Contents (Elt F) → (⟨S8192, .i32⟩ : BufTy).Contents (Elt F)),
    binary main_arg3 main_v1416 main_v1417 (cmpi .slt : (⟨S8192, .i32⟩ : BufTy).Contents (Elt F) → (⟨S8192, .i32⟩ : BufTy).Contents (Elt F) → (⟨S8192, .i1⟩ : BufTy).Contents (Elt F)),
    nullary main_c_297 (constantI S_ 32 8192#32),
    unary main_c_297 main_v1418 (broadcastInDim S8192 ![] bcast_S_S8192 : (⟨S_, .i32⟩ : BufTy).Contents (Elt F) → (⟨S8192, .i32⟩ : BufTy).Contents (Elt F)),
    binary main_arg3 main_v1418 main_v1419 (addi : (⟨S8192, .i32⟩ : BufTy).Contents (Elt F) → (⟨S8192, .i32⟩ : BufTy).Contents (Elt F) → (⟨S8192, .i32⟩ : BufTy).Contents (Elt F)),
    ternary main_v1417 main_v1419 main_arg3 main_v1420 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1420 main_v1421 (broadcastInDim S8192x1 ![0] bcast_S8192_S8192x1_0 : (⟨S8192, .i32⟩ : BufTy).Contents (Elt F) → (⟨S8192x1, .i32⟩ : BufTy).Contents (Elt F)),
    binary main_v1415 main_v1421 main_v1422 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_298 (constant S_ .f32 0x00000000#32),
    TRef.unary (TRef.of (T := ⟨S_, .f32⟩) main_cst_298) (TRef.of (T := ⟨S_, .f32⟩) main_call55_v0) id,
    TRef.unary (TRef.of (T := ⟨S8192x1, .i1⟩) main_v1406) (TRef.of (T := ⟨S8192x512, .i1⟩) main_call55_v1) (broadcastInDim S8192x512 ![0, 1] bcast_S8192x1_S8192x512_0_1),
    TRef.unary (TRef.of (T := ⟨S_, .f32⟩) main_call55_v0) (TRef.of (T := ⟨S8192x512, .f32⟩) main_call55_v2) (broadcastInDim S8192x512 ![] bcast_S_S8192x512),
    TRef.ternary (TRef.of (T := ⟨S8192x512, .i1⟩) main_call55_v1) (TRef.of (T := ⟨S8192x512, .f32⟩) main_v1422) (TRef.of (T := ⟨S8192x512, .f32⟩) main_call55_v2) (TRef.of (T := ⟨S8192x512, .f32⟩) main_v1423) select,
    nullary main_c_299 (constantI S_ 32 0#32),
    unary main_c_299 main_v1424 (broadcastInDim S8192 ![] bcast_S_S8192 : (⟨S_, .i32⟩ : BufTy).Contents (Elt F) → (⟨S8192, .i32⟩ : BufTy).Contents (Elt F)),
    binary main_arg1 main_v1424 main_v1425 (cmpi .slt : (⟨S8192, .i32⟩ : BufTy).Contents (Elt F) → (⟨S8192, .i32⟩ : BufTy).Contents (Elt F) → (⟨S8192, .i1⟩ : BufTy).Contents (Elt F)),
    nullary main_c_300 (constantI S_ 32 8192#32),
    unary main_c_300 main_v1426 (broadcastInDim S8192 ![] bcast_S_S8192 : (⟨S_, .i32⟩ : BufTy).Contents (Elt F) → (⟨S8192, .i32⟩ : BufTy).Contents (Elt F)),
    binary main_arg1 main_v1426 main_v1427 (addi : (⟨S8192, .i32⟩ : BufTy).Contents (Elt F) → (⟨S8192, .i32⟩ : BufTy).Contents (Elt F) → (⟨S8192, .i32⟩ : BufTy).Contents (Elt F)),
    ternary main_v1425 main_v1427 main_arg1 main_v1428 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1428 main_v1429 (broadcastInDim S8192x1 ![0] bcast_S8192_S8192x1_0 : (⟨S8192, .i32⟩ : BufTy).Contents (Elt F) → (⟨S8192x1, .i32⟩ : BufTy).Contents (Elt F)),
    ternary main_v1403 main_v1429 main_v1423 main_v1430 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1431 ((extractStridedSlice S1x512x512 ![27, 0, 0] · slices_S40x512x512_S1x512x512_27_0_0) : (⟨S40x512x512, .f32⟩ : BufTy).Contents (Elt F) → (⟨S1x512x512, .f32⟩ : BufTy).Contents (Elt F)),
    reshape main_v1431 main_v1432 rfl shapeCasts_S1x512x512_S512x512,
    unary main_v1432 main_v1433 ((transpose S512x512 [1, 0] · transposes_S512x512_S512x512_1_0) : (⟨S512x512, .f32⟩ : BufTy).Contents (Elt F) → (⟨S512x512, .f32⟩ : BufTy).Contents (Elt F)),
    binary main_v1033 main_v1433 main_v1434 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1435 ((extractStridedSlice S1x512 ![27, 0] · slices_S40x512_S1x512_27_0) : (⟨S40x512, .f32⟩ : BufTy).Contents (Elt F) → (⟨S1x512, .f32⟩ : BufTy).Contents (Elt F)),
    reshape main_v1435 main_v1436 rfl shapeCasts_S1x512_S512,
    unary main_v1436 main_v1437 (broadcastInDim S1x512 ![1] bcast_S512_S1x512_1 : (⟨S512, .f32⟩ : BufTy).Contents (Elt F) → (⟨S1x512, .f32⟩ : BufTy).Contents (Elt F)),
    unary main_v1437 main_v1438 (broadcastInDim S8192x512 ![0, 1] bcast_S1x512_S8192x512_0_1 : (⟨S1x512, .f32⟩ : BufTy).Contents (Elt F) → (⟨S8192x512, .f32⟩ : BufTy).Contents (Elt F)),
    binary main_v1434 main_v1438 main_v1439 (addf : (⟨S8192x512, .f32⟩ : BufTy).Contents (Elt F) → (⟨S8192x512, .f32⟩ : BufTy).Contents (Elt F) → (⟨S8192x512, .f32⟩ : BufTy).Contents (Elt F)),
    nullary main_c_301 (constantI S_ 32 0#32),
    unary main_c_301 main_v1440 (broadcastInDim S8192 ![] bcast_S_S8192 : (⟨S_, .i32⟩ : BufTy).Contents (Elt F) → (⟨S8192, .i32⟩ : BufTy).Contents (Elt F)),
    binary main_arg1 main_v1440 main_v1441 (cmpi .slt : (⟨S8192, .i32⟩ : BufTy).Contents (Elt F) → (⟨S8192, .i32⟩ : BufTy).Contents (Elt F) → (⟨S8192, .i1⟩ : BufTy).Contents (Elt F)),
    nullary main_c_302 (constantI S_ 32 8192#32),
    unary main_c_302 main_v1442 (broadcastInDim S8192 ![] bcast_S_S8192 : (⟨S_, .i32⟩ : BufTy).Contents (Elt F) → (⟨S8192, .i32⟩ : BufTy).Contents (Elt F)),
    binary main_arg1 main_v1442 main_v1443 (addi : (⟨S8192, .i32⟩ : BufTy).Contents (Elt F) → (⟨S8192, .i32⟩ : BufTy).Contents (Elt F) → (⟨S8192, .i32⟩ : BufTy).Contents (Elt F)),
    ternary main_v1441 main_v1443 main_arg1 main_v1444 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1444 main_v1445 (broadcastInDim S8192x1 ![0] bcast_S8192_S8192x1_0 : (⟨S8192, .i32⟩ : BufTy).Contents (Elt F) → (⟨S8192x1, .i32⟩ : BufTy).Contents (Elt F)),
    binary main_v1439 main_v1445 main_v1446 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_303 (constant S_ .f32 0x00000000#32),
    TRef.unary (TRef.of (T := ⟨S_, .f32⟩) main_cst_303) (TRef.of (T := ⟨S_, .f32⟩) main_call56_v0) id,
    TRef.unary (TRef.of (T := ⟨S8192x1, .i1⟩) main_v1406) (TRef.of (T := ⟨S8192x512, .i1⟩) main_call56_v1) (broadcastInDim S8192x512 ![0, 1] bcast_S8192x1_S8192x512_0_1),
    TRef.unary (TRef.of (T := ⟨S_, .f32⟩) main_call56_v0) (TRef.of (T := ⟨S8192x512, .f32⟩) main_call56_v2) (broadcastInDim S8192x512 ![] bcast_S_S8192x512),
    TRef.ternary (TRef.of (T := ⟨S8192x512, .i1⟩) main_call56_v1) (TRef.of (T := ⟨S8192x512, .f32⟩) main_v1446) (TRef.of (T := ⟨S8192x512, .f32⟩) main_call56_v2) (TRef.of (T := ⟨S8192x512, .f32⟩) main_v1447) select,
    nullary main_c_304 (constantI S_ 32 0#32),
    unary main_c_304 main_v1448 (broadcastInDim S8192 ![] bcast_S_S8192 : (⟨S_, .i32⟩ : BufTy).Contents (Elt F) → (⟨S8192, .i32⟩ : BufTy).Contents (Elt F)),
    binary main_arg3 main_v1448 main_v1449 (cmpi .slt : (⟨S8192, .i32⟩ : BufTy).Contents (Elt F) → (⟨S8192, .i32⟩ : BufTy).Contents (Elt F) → (⟨S8192, .i1⟩ : BufTy).Contents (Elt F)),
    nullary main_c_305 (constantI S_ 32 8192#32),
    unary main_c_305 main_v1450 (broadcastInDim S8192 ![] bcast_S_S8192 : (⟨S_, .i32⟩ : BufTy).Contents (Elt F) → (⟨S8192, .i32⟩ : BufTy).Contents (Elt F)),
    binary main_arg3 main_v1450 main_v1451 (addi : (⟨S8192, .i32⟩ : BufTy).Contents (Elt F) → (⟨S8192, .i32⟩ : BufTy).Contents (Elt F) → (⟨S8192, .i32⟩ : BufTy).Contents (Elt F)),
    ternary main_v1449 main_v1451 main_arg3 main_v1452 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1452 main_v1453 (broadcastInDim S8192x1 ![0] bcast_S8192_S8192x1_0 : (⟨S8192, .i32⟩ : BufTy).Contents (Elt F) → (⟨S8192x1, .i32⟩ : BufTy).Contents (Elt F)),
    ternary main_v1430 main_v1453 main_v1447 main_v1454 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_7_sub : (lab2_7 (F := F)).Forall fun op => op.bufs ⊆ tcRefs τ sig := by
  unfold lab2_7
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_7_fresh : (lab2_7 (F := F)).Forall fun op => op.fresh = ∅ := by
  all_fresh lab2_7

/-- The references the line writes, in order. -/
abbrev lab2_7_W : List (Ref sig .tc) := [main_c_295, main_v1404, main_v1405, main_v1406, main_v1407, main_v1408, main_v1409, main_v1410, main_v1411, main_v1412, main_v1413, main_v1414, main_v1415, main_c_296, main_v1416, main_v1417, main_c_297, main_v1418, main_v1419, main_v1420, main_v1421, main_v1422, main_cst_298, main_call55_v0, main_call55_v1, main_call55_v2, main_v1423, main_c_299, main_v1424, main_v1425, main_c_300, main_v1426, main_v1427, main_v1428, main_v1429, main_v1430, main_v1431, main_v1432, main_v1433, main_v1434, main_v1435, main_v1436, main_v1437, main_v1438, main_v1439, main_c_301, main_v1440, main_v1441, main_c_302, main_v1442, main_v1443, main_v1444, main_v1445, main_v1446, main_cst_303, main_call56_v0, main_call56_v1, main_call56_v2, main_v1447, main_c_304, main_v1448, main_v1449, main_c_305, main_v1450, main_v1451, main_v1452, main_v1453, main_v1454]

theorem lab2_7_writes : (lab2_7 (F := F)).map (fun op => op.writes)
    = (lab2_7_W).map fun y => ({Proc.devRef (τ := τ) .tc y} : Finset (DevRef τ sig)) := rfl

/-- A reference the line does not write keeps its contents. -/
theorem lab2_7_frame (V : Valuation τ sig (Elt F)) {r : Ref sig .tc} (hr : r ∉ lab2_7_W) :
    after (lab2_7 (F := F)) V (no_index (Proc.devRef .tc r)) = V (Proc.devRef .tc r) :=
  Cert.RefLib.after_frame lab2_7_writes V hr

/-- The operations of relation label 8 in layer 2: the label's edge mask, the two products, and the two masked messages added to the running sum. -/
def lab2_8 : List (HloOp τ sig (Elt F)) :=
  [
    nullary main_c_306 (constantI S_ 32 8#32),
    unary main_c_306 main_v1455 (broadcastInDim S8192 ![] bcast_S_S8192 : (⟨S_, .i32⟩ : BufTy).Contents (Elt F) → (⟨S8192, .i32⟩ : BufTy).Contents (Elt F)),
    binary main_arg2 main_v1455 main_v1456 (cmpi .eq : (⟨S8192, .i32⟩ : BufTy).Contents (Elt F) → (⟨S8192, .i32⟩ : BufTy).Contents (Elt F) → (⟨S8192, .i1⟩ : BufTy).Contents (Elt F)),
    unary main_v1456 main_v1457 (broadcastInDim S8192x1 ![0] bcast_S8192_S8192x1_0 : (⟨S8192, .i1⟩ : BufTy).Contents (Elt F) → (⟨S8192x1, .i1⟩ : BufTy).Contents (Elt F)),
    unary main_v1039 main_v1458 ((extractStridedSlice S1x512x512 ![8, 0, 0] · slices_S40x512x512_S1x512x512_8_0_0) : (⟨S40x512x512, .f32⟩ : BufTy).Contents (Elt F) → (⟨S1x512x512, .f32⟩ : BufTy).Contents (Elt F)),
    reshape main_v1458 main_v1459 rfl shapeCasts_S1x512x512_S512x512,
    unary main_v1459 main_v1460 ((transpose S512x512 [1, 0] · transposes_S512x512_S512x512_1_0) : (⟨S512x512, .f32⟩ : BufTy).Contents (Elt F) → (⟨S512x512, .f32⟩ : BufTy).Contents (Elt F)),
    binary main_v1033 main_v1460 main_v1461 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1462 ((extractStridedSlice S1x512 ![8, 0] · slices_S40x512_S1x512_8_0) : (⟨S40x512, .f32⟩ : BufTy).Contents (Elt F) → (⟨S1x512, .f32⟩ : BufTy).Contents (Elt F)),
    reshape main_v1462 main_v1463 rfl shapeCasts_S1x512_S512,
    unary main_v1463 main_v1464 (broadcastInDim S1x512 ![1] bcast_S512_S1x512_1 : (⟨S512, .f32⟩ : BufTy).Contents (Elt F) → (⟨S1x512, .f32⟩ : BufTy).Contents (Elt F)),
    unary main_v1464 main_v1465 (broadcastInDim S8192x512 ![0, 1] bcast_S1x512_S8192x512_0_1 : (⟨S1x512, .f32⟩ : BufTy).Contents (Elt F) → (⟨S8192x512, .f32⟩ : BufTy).Contents (Elt F)),
    binary main_v1461 main_v1465 main_v1466 (addf : (⟨S8192x512, .f32⟩ : BufTy).Contents (Elt F) → (⟨S8192x512, .f32⟩ : BufTy).Contents (Elt F) → (⟨S8192x512, .f32⟩ : BufTy).Contents (Elt F)),
    nullary main_c_307 (constantI S_ 32 0#32),
    unary main_c_307 main_v1467 (broadcastInDim S8192 ![] bcast_S_S8192 : (⟨S_, .i32⟩ : BufTy).Contents (Elt F) → (⟨S8192, .i32⟩ : BufTy).Contents (Elt F)),
    binary main_arg3 main_v1467 main_v1468 (cmpi .slt : (⟨S8192, .i32⟩ : BufTy).Contents (Elt F) → (⟨S8192, .i32⟩ : BufTy).Contents (Elt F) → (⟨S8192, .i1⟩ : BufTy).Contents (Elt F)),
    nullary main_c_308 (constantI S_ 32 8192#32),
    unary main_c_308 main_v1469 (broadcastInDim S8192 ![] bcast_S_S8192 : (⟨S_, .i32⟩ : BufTy).Contents (Elt F) → (⟨S8192, .i32⟩ : BufTy).Contents (Elt F)),
    binary main_arg3 main_v1469 main_v1470 (addi : (⟨S8192, .i32⟩ : BufTy).Contents (Elt F) → (⟨S8192, .i32⟩ : BufTy).Contents (Elt F) → (⟨S8192, .i32⟩ : BufTy).Contents (Elt F)),
    ternary main_v1468 main_v1470 main_arg3 main_v1471 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1471 main_v1472 (broadcastInDim S8192x1 ![0] bcast_S8192_S8192x1_0 : (⟨S8192, .i32⟩ : BufTy).Contents (Elt F) → (⟨S8192x1, .i32⟩ : BufTy).Contents (Elt F)),
    binary main_v1466 main_v1472 main_v1473 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_309 (constant S_ .f32 0x00000000#32),
    TRef.unary (TRef.of (T := ⟨S_, .f32⟩) main_cst_309) (TRef.of (T := ⟨S_, .f32⟩) main_call57_v0) id,
    TRef.unary (TRef.of (T := ⟨S8192x1, .i1⟩) main_v1457) (TRef.of (T := ⟨S8192x512, .i1⟩) main_call57_v1) (broadcastInDim S8192x512 ![0, 1] bcast_S8192x1_S8192x512_0_1),
    TRef.unary (TRef.of (T := ⟨S_, .f32⟩) main_call57_v0) (TRef.of (T := ⟨S8192x512, .f32⟩) main_call57_v2) (broadcastInDim S8192x512 ![] bcast_S_S8192x512),
    TRef.ternary (TRef.of (T := ⟨S8192x512, .i1⟩) main_call57_v1) (TRef.of (T := ⟨S8192x512, .f32⟩) main_v1473) (TRef.of (T := ⟨S8192x512, .f32⟩) main_call57_v2) (TRef.of (T := ⟨S8192x512, .f32⟩) main_v1474) select,
    nullary main_c_310 (constantI S_ 32 0#32),
    unary main_c_310 main_v1475 (broadcastInDim S8192 ![] bcast_S_S8192 : (⟨S_, .i32⟩ : BufTy).Contents (Elt F) → (⟨S8192, .i32⟩ : BufTy).Contents (Elt F)),
    binary main_arg1 main_v1475 main_v1476 (cmpi .slt : (⟨S8192, .i32⟩ : BufTy).Contents (Elt F) → (⟨S8192, .i32⟩ : BufTy).Contents (Elt F) → (⟨S8192, .i1⟩ : BufTy).Contents (Elt F)),
    nullary main_c_311 (constantI S_ 32 8192#32),
    unary main_c_311 main_v1477 (broadcastInDim S8192 ![] bcast_S_S8192 : (⟨S_, .i32⟩ : BufTy).Contents (Elt F) → (⟨S8192, .i32⟩ : BufTy).Contents (Elt F)),
    binary main_arg1 main_v1477 main_v1478 (addi : (⟨S8192, .i32⟩ : BufTy).Contents (Elt F) → (⟨S8192, .i32⟩ : BufTy).Contents (Elt F) → (⟨S8192, .i32⟩ : BufTy).Contents (Elt F)),
    ternary main_v1476 main_v1478 main_arg1 main_v1479 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1479 main_v1480 (broadcastInDim S8192x1 ![0] bcast_S8192_S8192x1_0 : (⟨S8192, .i32⟩ : BufTy).Contents (Elt F) → (⟨S8192x1, .i32⟩ : BufTy).Contents (Elt F)),
    ternary main_v1454 main_v1480 main_v1474 main_v1481 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1482 ((extractStridedSlice S1x512x512 ![28, 0, 0] · slices_S40x512x512_S1x512x512_28_0_0) : (⟨S40x512x512, .f32⟩ : BufTy).Contents (Elt F) → (⟨S1x512x512, .f32⟩ : BufTy).Contents (Elt F)),
    reshape main_v1482 main_v1483 rfl shapeCasts_S1x512x512_S512x512,
    unary main_v1483 main_v1484 ((transpose S512x512 [1, 0] · transposes_S512x512_S512x512_1_0) : (⟨S512x512, .f32⟩ : BufTy).Contents (Elt F) → (⟨S512x512, .f32⟩ : BufTy).Contents (Elt F)),
    binary main_v1033 main_v1484 main_v1485 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1486 ((extractStridedSlice S1x512 ![28, 0] · slices_S40x512_S1x512_28_0) : (⟨S40x512, .f32⟩ : BufTy).Contents (Elt F) → (⟨S1x512, .f32⟩ : BufTy).Contents (Elt F)),
    reshape main_v1486 main_v1487 rfl shapeCasts_S1x512_S512,
    unary main_v1487 main_v1488 (broadcastInDim S1x512 ![1] bcast_S512_S1x512_1 : (⟨S512, .f32⟩ : BufTy).Contents (Elt F) → (⟨S1x512, .f32⟩ : BufTy).Contents (Elt F)),
    unary main_v1488 main_v1489 (broadcastInDim S8192x512 ![0, 1] bcast_S1x512_S8192x512_0_1 : (⟨S1x512, .f32⟩ : BufTy).Contents (Elt F) → (⟨S8192x512, .f32⟩ : BufTy).Contents (Elt F)),
    binary main_v1485 main_v1489 main_v1490 (addf : (⟨S8192x512, .f32⟩ : BufTy).Contents (Elt F) → (⟨S8192x512, .f32⟩ : BufTy).Contents (Elt F) → (⟨S8192x512, .f32⟩ : BufTy).Contents (Elt F)),
    nullary main_c_312 (constantI S_ 32 0#32),
    unary main_c_312 main_v1491 (broadcastInDim S8192 ![] bcast_S_S8192 : (⟨S_, .i32⟩ : BufTy).Contents (Elt F) → (⟨S8192, .i32⟩ : BufTy).Contents (Elt F)),
    binary main_arg1 main_v1491 main_v1492 (cmpi .slt : (⟨S8192, .i32⟩ : BufTy).Contents (Elt F) → (⟨S8192, .i32⟩ : BufTy).Contents (Elt F) → (⟨S8192, .i1⟩ : BufTy).Contents (Elt F)),
    nullary main_c_313 (constantI S_ 32 8192#32),
    unary main_c_313 main_v1493 (broadcastInDim S8192 ![] bcast_S_S8192 : (⟨S_, .i32⟩ : BufTy).Contents (Elt F) → (⟨S8192, .i32⟩ : BufTy).Contents (Elt F)),
    binary main_arg1 main_v1493 main_v1494 (addi : (⟨S8192, .i32⟩ : BufTy).Contents (Elt F) → (⟨S8192, .i32⟩ : BufTy).Contents (Elt F) → (⟨S8192, .i32⟩ : BufTy).Contents (Elt F)),
    ternary main_v1492 main_v1494 main_arg1 main_v1495 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1495 main_v1496 (broadcastInDim S8192x1 ![0] bcast_S8192_S8192x1_0 : (⟨S8192, .i32⟩ : BufTy).Contents (Elt F) → (⟨S8192x1, .i32⟩ : BufTy).Contents (Elt F)),
    binary main_v1490 main_v1496 main_v1497 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_314 (constant S_ .f32 0x00000000#32),
    TRef.unary (TRef.of (T := ⟨S_, .f32⟩) main_cst_314) (TRef.of (T := ⟨S_, .f32⟩) main_call58_v0) id,
    TRef.unary (TRef.of (T := ⟨S8192x1, .i1⟩) main_v1457) (TRef.of (T := ⟨S8192x512, .i1⟩) main_call58_v1) (broadcastInDim S8192x512 ![0, 1] bcast_S8192x1_S8192x512_0_1),
    TRef.unary (TRef.of (T := ⟨S_, .f32⟩) main_call58_v0) (TRef.of (T := ⟨S8192x512, .f32⟩) main_call58_v2) (broadcastInDim S8192x512 ![] bcast_S_S8192x512),
    TRef.ternary (TRef.of (T := ⟨S8192x512, .i1⟩) main_call58_v1) (TRef.of (T := ⟨S8192x512, .f32⟩) main_v1497) (TRef.of (T := ⟨S8192x512, .f32⟩) main_call58_v2) (TRef.of (T := ⟨S8192x512, .f32⟩) main_v1498) select,
    nullary main_c_315 (constantI S_ 32 0#32),
    unary main_c_315 main_v1499 (broadcastInDim S8192 ![] bcast_S_S8192 : (⟨S_, .i32⟩ : BufTy).Contents (Elt F) → (⟨S8192, .i32⟩ : BufTy).Contents (Elt F)),
    binary main_arg3 main_v1499 main_v1500 (cmpi .slt : (⟨S8192, .i32⟩ : BufTy).Contents (Elt F) → (⟨S8192, .i32⟩ : BufTy).Contents (Elt F) → (⟨S8192, .i1⟩ : BufTy).Contents (Elt F)),
    nullary main_c_316 (constantI S_ 32 8192#32),
    unary main_c_316 main_v1501 (broadcastInDim S8192 ![] bcast_S_S8192 : (⟨S_, .i32⟩ : BufTy).Contents (Elt F) → (⟨S8192, .i32⟩ : BufTy).Contents (Elt F)),
    binary main_arg3 main_v1501 main_v1502 (addi : (⟨S8192, .i32⟩ : BufTy).Contents (Elt F) → (⟨S8192, .i32⟩ : BufTy).Contents (Elt F) → (⟨S8192, .i32⟩ : BufTy).Contents (Elt F)),
    ternary main_v1500 main_v1502 main_arg3 main_v1503 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1503 main_v1504 (broadcastInDim S8192x1 ![0] bcast_S8192_S8192x1_0 : (⟨S8192, .i32⟩ : BufTy).Contents (Elt F) → (⟨S8192x1, .i32⟩ : BufTy).Contents (Elt F)),
    ternary main_v1481 main_v1504 main_v1498 main_v1505 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_8_sub : (lab2_8 (F := F)).Forall fun op => op.bufs ⊆ tcRefs τ sig := by
  unfold lab2_8
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_8_fresh : (lab2_8 (F := F)).Forall fun op => op.fresh = ∅ := by
  all_fresh lab2_8

/-- The references the line writes, in order. -/
abbrev lab2_8_W : List (Ref sig .tc) := [main_c_306, main_v1455, main_v1456, main_v1457, main_v1458, main_v1459, main_v1460, main_v1461, main_v1462, main_v1463, main_v1464, main_v1465, main_v1466, main_c_307, main_v1467, main_v1468, main_c_308, main_v1469, main_v1470, main_v1471, main_v1472, main_v1473, main_cst_309, main_call57_v0, main_call57_v1, main_call57_v2, main_v1474, main_c_310, main_v1475, main_v1476, main_c_311, main_v1477, main_v1478, main_v1479, main_v1480, main_v1481, main_v1482, main_v1483, main_v1484, main_v1485, main_v1486, main_v1487, main_v1488, main_v1489, main_v1490, main_c_312, main_v1491, main_v1492, main_c_313, main_v1493, main_v1494, main_v1495, main_v1496, main_v1497, main_cst_314, main_call58_v0, main_call58_v1, main_call58_v2, main_v1498, main_c_315, main_v1499, main_v1500, main_c_316, main_v1501, main_v1502, main_v1503, main_v1504, main_v1505]

theorem lab2_8_writes : (lab2_8 (F := F)).map (fun op => op.writes)
    = (lab2_8_W).map fun y => ({Proc.devRef (τ := τ) .tc y} : Finset (DevRef τ sig)) := rfl

/-- A reference the line does not write keeps its contents. -/
theorem lab2_8_frame (V : Valuation τ sig (Elt F)) {r : Ref sig .tc} (hr : r ∉ lab2_8_W) :
    after (lab2_8 (F := F)) V (no_index (Proc.devRef .tc r)) = V (Proc.devRef .tc r) :=
  Cert.RefLib.after_frame lab2_8_writes V hr

/-- The operations of relation label 9 in layer 2: the label's edge mask, the two products, and the two masked messages added to the running sum. -/
def lab2_9 : List (HloOp τ sig (Elt F)) :=
  [
    nullary main_c_317 (constantI S_ 32 9#32),
    unary main_c_317 main_v1506 (broadcastInDim S8192 ![] bcast_S_S8192 : (⟨S_, .i32⟩ : BufTy).Contents (Elt F) → (⟨S8192, .i32⟩ : BufTy).Contents (Elt F)),
    binary main_arg2 main_v1506 main_v1507 (cmpi .eq : (⟨S8192, .i32⟩ : BufTy).Contents (Elt F) → (⟨S8192, .i32⟩ : BufTy).Contents (Elt F) → (⟨S8192, .i1⟩ : BufTy).Contents (Elt F)),
    unary main_v1507 main_v1508 (broadcastInDim S8192x1 ![0] bcast_S8192_S8192x1_0 : (⟨S8192, .i1⟩ : BufTy).Contents (Elt F) → (⟨S8192x1, .i1⟩ : BufTy).Contents (Elt F)),
    unary main_v1039 main_v1509 ((extractStridedSlice S1x512x512 ![9, 0, 0] · slices_S40x512x512_S1x512x512_9_0_0) : (⟨S40x512x512, .f32⟩ : BufTy).Contents (Elt F) → (⟨S1x512x512, .f32⟩ : BufTy).Contents (Elt F)),
    reshape main_v1509 main_v1510 rfl shapeCasts_S1x512x512_S512x512,
    unary main_v1510 main_v1511 ((transpose S512x512 [1, 0] · transposes_S512x512_S512x512_1_0) : (⟨S512x512, .f32⟩ : BufTy).Contents (Elt F) → (⟨S512x512, .f32⟩ : BufTy).Contents (Elt F)),
    binary main_v1033 main_v1511 main_v1512 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1513 ((extractStridedSlice S1x512 ![9, 0] · slices_S40x512_S1x512_9_0) : (⟨S40x512, .f32⟩ : BufTy).Contents (Elt F) → (⟨S1x512, .f32⟩ : BufTy).Contents (Elt F)),
    reshape main_v1513 main_v1514 rfl shapeCasts_S1x512_S512,
    unary main_v1514 main_v1515 (broadcastInDim S1x512 ![1] bcast_S512_S1x512_1 : (⟨S512, .f32⟩ : BufTy).Contents (Elt F) → (⟨S1x512, .f32⟩ : BufTy).Contents (Elt F)),
    unary main_v1515 main_v1516 (broadcastInDim S8192x512 ![0, 1] bcast_S1x512_S8192x512_0_1 : (⟨S1x512, .f32⟩ : BufTy).Contents (Elt F) → (⟨S8192x512, .f32⟩ : BufTy).Contents (Elt F)),
    binary main_v1512 main_v1516 main_v1517 (addf : (⟨S8192x512, .f32⟩ : BufTy).Contents (Elt F) → (⟨S8192x512, .f32⟩ : BufTy).Contents (Elt F) → (⟨S8192x512, .f32⟩ : BufTy).Contents (Elt F)),
    nullary main_c_318 (constantI S_ 32 0#32),
    unary main_c_318 main_v1518 (broadcastInDim S8192 ![] bcast_S_S8192 : (⟨S_, .i32⟩ : BufTy).Contents (Elt F) → (⟨S8192, .i32⟩ : BufTy).Contents (Elt F)),
    binary main_arg3 main_v1518 main_v1519 (cmpi .slt : (⟨S8192, .i32⟩ : BufTy).Contents (Elt F) → (⟨S8192, .i32⟩ : BufTy).Contents (Elt F) → (⟨S8192, .i1⟩ : BufTy).Contents (Elt F)),
    nullary main_c_319 (constantI S_ 32 8192#32),
    unary main_c_319 main_v1520 (broadcastInDim S8192 ![] bcast_S_S8192 : (⟨S_, .i32⟩ : BufTy).Contents (Elt F) → (⟨S8192, .i32⟩ : BufTy).Contents (Elt F)),
    binary main_arg3 main_v1520 main_v1521 (addi : (⟨S8192, .i32⟩ : BufTy).Contents (Elt F) → (⟨S8192, .i32⟩ : BufTy).Contents (Elt F) → (⟨S8192, .i32⟩ : BufTy).Contents (Elt F)),
    ternary main_v1519 main_v1521 main_arg3 main_v1522 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1522 main_v1523 (broadcastInDim S8192x1 ![0] bcast_S8192_S8192x1_0 : (⟨S8192, .i32⟩ : BufTy).Contents (Elt F) → (⟨S8192x1, .i32⟩ : BufTy).Contents (Elt F)),
    binary main_v1517 main_v1523 main_v1524 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_320 (constant S_ .f32 0x00000000#32),
    TRef.unary (TRef.of (T := ⟨S_, .f32⟩) main_cst_320) (TRef.of (T := ⟨S_, .f32⟩) main_call59_v0) id,
    TRef.unary (TRef.of (T := ⟨S8192x1, .i1⟩) main_v1508) (TRef.of (T := ⟨S8192x512, .i1⟩) main_call59_v1) (broadcastInDim S8192x512 ![0, 1] bcast_S8192x1_S8192x512_0_1),
    TRef.unary (TRef.of (T := ⟨S_, .f32⟩) main_call59_v0) (TRef.of (T := ⟨S8192x512, .f32⟩) main_call59_v2) (broadcastInDim S8192x512 ![] bcast_S_S8192x512),
    TRef.ternary (TRef.of (T := ⟨S8192x512, .i1⟩) main_call59_v1) (TRef.of (T := ⟨S8192x512, .f32⟩) main_v1524) (TRef.of (T := ⟨S8192x512, .f32⟩) main_call59_v2) (TRef.of (T := ⟨S8192x512, .f32⟩) main_v1525) select,
    nullary main_c_321 (constantI S_ 32 0#32),
    unary main_c_321 main_v1526 (broadcastInDim S8192 ![] bcast_S_S8192 : (⟨S_, .i32⟩ : BufTy).Contents (Elt F) → (⟨S8192, .i32⟩ : BufTy).Contents (Elt F)),
    binary main_arg1 main_v1526 main_v1527 (cmpi .slt : (⟨S8192, .i32⟩ : BufTy).Contents (Elt F) → (⟨S8192, .i32⟩ : BufTy).Contents (Elt F) → (⟨S8192, .i1⟩ : BufTy).Contents (Elt F)),
    nullary main_c_322 (constantI S_ 32 8192#32),
    unary main_c_322 main_v1528 (broadcastInDim S8192 ![] bcast_S_S8192 : (⟨S_, .i32⟩ : BufTy).Contents (Elt F) → (⟨S8192, .i32⟩ : BufTy).Contents (Elt F)),
    binary main_arg1 main_v1528 main_v1529 (addi : (⟨S8192, .i32⟩ : BufTy).Contents (Elt F) → (⟨S8192, .i32⟩ : BufTy).Contents (Elt F) → (⟨S8192, .i32⟩ : BufTy).Contents (Elt F)),
    ternary main_v1527 main_v1529 main_arg1 main_v1530 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1530 main_v1531 (broadcastInDim S8192x1 ![0] bcast_S8192_S8192x1_0 : (⟨S8192, .i32⟩ : BufTy).Contents (Elt F) → (⟨S8192x1, .i32⟩ : BufTy).Contents (Elt F)),
    ternary main_v1505 main_v1531 main_v1525 main_v1532 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1533 ((extractStridedSlice S1x512x512 ![29, 0, 0] · slices_S40x512x512_S1x512x512_29_0_0) : (⟨S40x512x512, .f32⟩ : BufTy).Contents (Elt F) → (⟨S1x512x512, .f32⟩ : BufTy).Contents (Elt F)),
    reshape main_v1533 main_v1534 rfl shapeCasts_S1x512x512_S512x512,
    unary main_v1534 main_v1535 ((transpose S512x512 [1, 0] · transposes_S512x512_S512x512_1_0) : (⟨S512x512, .f32⟩ : BufTy).Contents (Elt F) → (⟨S512x512, .f32⟩ : BufTy).Contents (Elt F)),
    binary main_v1033 main_v1535 main_v1536 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1537 ((extractStridedSlice S1x512 ![29, 0] · slices_S40x512_S1x512_29_0) : (⟨S40x512, .f32⟩ : BufTy).Contents (Elt F) → (⟨S1x512, .f32⟩ : BufTy).Contents (Elt F)),
    reshape main_v1537 main_v1538 rfl shapeCasts_S1x512_S512,
    unary main_v1538 main_v1539 (broadcastInDim S1x512 ![1] bcast_S512_S1x512_1 : (⟨S512, .f32⟩ : BufTy).Contents (Elt F) → (⟨S1x512, .f32⟩ : BufTy).Contents (Elt F)),
    unary main_v1539 main_v1540 (broadcastInDim S8192x512 ![0, 1] bcast_S1x512_S8192x512_0_1 : (⟨S1x512, .f32⟩ : BufTy).Contents (Elt F) → (⟨S8192x512, .f32⟩ : BufTy).Contents (Elt F)),
    binary main_v1536 main_v1540 main_v1541 (addf : (⟨S8192x512, .f32⟩ : BufTy).Contents (Elt F) → (⟨S8192x512, .f32⟩ : BufTy).Contents (Elt F) → (⟨S8192x512, .f32⟩ : BufTy).Contents (Elt F)),
    nullary main_c_323 (constantI S_ 32 0#32),
    unary main_c_323 main_v1542 (broadcastInDim S8192 ![] bcast_S_S8192 : (⟨S_, .i32⟩ : BufTy).Contents (Elt F) → (⟨S8192, .i32⟩ : BufTy).Contents (Elt F)),
    binary main_arg1 main_v1542 main_v1543 (cmpi .slt : (⟨S8192, .i32⟩ : BufTy).Contents (Elt F) → (⟨S8192, .i32⟩ : BufTy).Contents (Elt F) → (⟨S8192, .i1⟩ : BufTy).Contents (Elt F)),
    nullary main_c_324 (constantI S_ 32 8192#32),
    unary main_c_324 main_v1544 (broadcastInDim S8192 ![] bcast_S_S8192 : (⟨S_, .i32⟩ : BufTy).Contents (Elt F) → (⟨S8192, .i32⟩ : BufTy).Contents (Elt F)),
    binary main_arg1 main_v1544 main_v1545 (addi : (⟨S8192, .i32⟩ : BufTy).Contents (Elt F) → (⟨S8192, .i32⟩ : BufTy).Contents (Elt F) → (⟨S8192, .i32⟩ : BufTy).Contents (Elt F)),
    ternary main_v1543 main_v1545 main_arg1 main_v1546 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1546 main_v1547 (broadcastInDim S8192x1 ![0] bcast_S8192_S8192x1_0 : (⟨S8192, .i32⟩ : BufTy).Contents (Elt F) → (⟨S8192x1, .i32⟩ : BufTy).Contents (Elt F)),
    binary main_v1541 main_v1547 main_v1548 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_325 (constant S_ .f32 0x00000000#32),
    TRef.unary (TRef.of (T := ⟨S_, .f32⟩) main_cst_325) (TRef.of (T := ⟨S_, .f32⟩) main_call60_v0) id,
    TRef.unary (TRef.of (T := ⟨S8192x1, .i1⟩) main_v1508) (TRef.of (T := ⟨S8192x512, .i1⟩) main_call60_v1) (broadcastInDim S8192x512 ![0, 1] bcast_S8192x1_S8192x512_0_1),
    TRef.unary (TRef.of (T := ⟨S_, .f32⟩) main_call60_v0) (TRef.of (T := ⟨S8192x512, .f32⟩) main_call60_v2) (broadcastInDim S8192x512 ![] bcast_S_S8192x512),
    TRef.ternary (TRef.of (T := ⟨S8192x512, .i1⟩) main_call60_v1) (TRef.of (T := ⟨S8192x512, .f32⟩) main_v1548) (TRef.of (T := ⟨S8192x512, .f32⟩) main_call60_v2) (TRef.of (T := ⟨S8192x512, .f32⟩) main_v1549) select,
    nullary main_c_326 (constantI S_ 32 0#32),
    unary main_c_326 main_v1550 (broadcastInDim S8192 ![] bcast_S_S8192 : (⟨S_, .i32⟩ : BufTy).Contents (Elt F) → (⟨S8192, .i32⟩ : BufTy).Contents (Elt F)),
    binary main_arg3 main_v1550 main_v1551 (cmpi .slt : (⟨S8192, .i32⟩ : BufTy).Contents (Elt F) → (⟨S8192, .i32⟩ : BufTy).Contents (Elt F) → (⟨S8192, .i1⟩ : BufTy).Contents (Elt F)),
    nullary main_c_327 (constantI S_ 32 8192#32),
    unary main_c_327 main_v1552 (broadcastInDim S8192 ![] bcast_S_S8192 : (⟨S_, .i32⟩ : BufTy).Contents (Elt F) → (⟨S8192, .i32⟩ : BufTy).Contents (Elt F)),
    binary main_arg3 main_v1552 main_v1553 (addi : (⟨S8192, .i32⟩ : BufTy).Contents (Elt F) → (⟨S8192, .i32⟩ : BufTy).Contents (Elt F) → (⟨S8192, .i32⟩ : BufTy).Contents (Elt F)),
    ternary main_v1551 main_v1553 main_arg3 main_v1554 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1554 main_v1555 (broadcastInDim S8192x1 ![0] bcast_S8192_S8192x1_0 : (⟨S8192, .i32⟩ : BufTy).Contents (Elt F) → (⟨S8192x1, .i32⟩ : BufTy).Contents (Elt F)),
    ternary main_v1532 main_v1555 main_v1549 main_v1556 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_9_sub : (lab2_9 (F := F)).Forall fun op => op.bufs ⊆ tcRefs τ sig := by
  unfold lab2_9
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_9_fresh : (lab2_9 (F := F)).Forall fun op => op.fresh = ∅ := by
  all_fresh lab2_9

/-- The references the line writes, in order. -/
abbrev lab2_9_W : List (Ref sig .tc) := [main_c_317, main_v1506, main_v1507, main_v1508, main_v1509, main_v1510, main_v1511, main_v1512, main_v1513, main_v1514, main_v1515, main_v1516, main_v1517, main_c_318, main_v1518, main_v1519, main_c_319, main_v1520, main_v1521, main_v1522, main_v1523, main_v1524, main_cst_320, main_call59_v0, main_call59_v1, main_call59_v2, main_v1525, main_c_321, main_v1526, main_v1527, main_c_322, main_v1528, main_v1529, main_v1530, main_v1531, main_v1532, main_v1533, main_v1534, main_v1535, main_v1536, main_v1537, main_v1538, main_v1539, main_v1540, main_v1541, main_c_323, main_v1542, main_v1543, main_c_324, main_v1544, main_v1545, main_v1546, main_v1547, main_v1548, main_cst_325, main_call60_v0, main_call60_v1, main_call60_v2, main_v1549, main_c_326, main_v1550, main_v1551, main_c_327, main_v1552, main_v1553, main_v1554, main_v1555, main_v1556]

theorem lab2_9_writes : (lab2_9 (F := F)).map (fun op => op.writes)
    = (lab2_9_W).map fun y => ({Proc.devRef (τ := τ) .tc y} : Finset (DevRef τ sig)) := rfl

/-- A reference the line does not write keeps its contents. -/
theorem lab2_9_frame (V : Valuation τ sig (Elt F)) {r : Ref sig .tc} (hr : r ∉ lab2_9_W) :
    after (lab2_9 (F := F)) V (no_index (Proc.devRef .tc r)) = V (Proc.devRef .tc r) :=
  Cert.RefLib.after_frame lab2_9_writes V hr

/-- The operations of relation label 10 in layer 2: the label's edge mask, the two products, and the two masked messages added to the running sum. -/
def lab2_10 : List (HloOp τ sig (Elt F)) :=
  [
    nullary main_c_328 (constantI S_ 32 10#32),
    unary main_c_328 main_v1557 (broadcastInDim S8192 ![] bcast_S_S8192 : (⟨S_, .i32⟩ : BufTy).Contents (Elt F) → (⟨S8192, .i32⟩ : BufTy).Contents (Elt F)),
    binary main_arg2 main_v1557 main_v1558 (cmpi .eq : (⟨S8192, .i32⟩ : BufTy).Contents (Elt F) → (⟨S8192, .i32⟩ : BufTy).Contents (Elt F) → (⟨S8192, .i1⟩ : BufTy).Contents (Elt F)),
    unary main_v1558 main_v1559 (broadcastInDim S8192x1 ![0] bcast_S8192_S8192x1_0 : (⟨S8192, .i1⟩ : BufTy).Contents (Elt F) → (⟨S8192x1, .i1⟩ : BufTy).Contents (Elt F)),
    unary main_v1039 main_v1560 ((extractStridedSlice S1x512x512 ![10, 0, 0] · slices_S40x512x512_S1x512x512_10_0_0) : (⟨S40x512x512, .f32⟩ : BufTy).Contents (Elt F) → (⟨S1x512x512, .f32⟩ : BufTy).Contents (Elt F)),
    reshape main_v1560 main_v1561 rfl shapeCasts_S1x512x512_S512x512,
    unary main_v1561 main_v1562 ((transpose S512x512 [1, 0] · transposes_S512x512_S512x512_1_0) : (⟨S512x512, .f32⟩ : BufTy).Contents (Elt F) → (⟨S512x512, .f32⟩ : BufTy).Contents (Elt F)),
    binary main_v1033 main_v1562 main_v1563 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1564 ((extractStridedSlice S1x512 ![10, 0] · slices_S40x512_S1x512_10_0) : (⟨S40x512, .f32⟩ : BufTy).Contents (Elt F) → (⟨S1x512, .f32⟩ : BufTy).Contents (Elt F)),
    reshape main_v1564 main_v1565 rfl shapeCasts_S1x512_S512,
    unary main_v1565 main_v1566 (broadcastInDim S1x512 ![1] bcast_S512_S1x512_1 : (⟨S512, .f32⟩ : BufTy).Contents (Elt F) → (⟨S1x512, .f32⟩ : BufTy).Contents (Elt F)),
    unary main_v1566 main_v1567 (broadcastInDim S8192x512 ![0, 1] bcast_S1x512_S8192x512_0_1 : (⟨S1x512, .f32⟩ : BufTy).Contents (Elt F) → (⟨S8192x512, .f32⟩ : BufTy).Contents (Elt F)),
    binary main_v1563 main_v1567 main_v1568 (addf : (⟨S8192x512, .f32⟩ : BufTy).Contents (Elt F) → (⟨S8192x512, .f32⟩ : BufTy).Contents (Elt F) → (⟨S8192x512, .f32⟩ : BufTy).Contents (Elt F)),
    nullary main_c_329 (constantI S_ 32 0#32),
    unary main_c_329 main_v1569 (broadcastInDim S8192 ![] bcast_S_S8192 : (⟨S_, .i32⟩ : BufTy).Contents (Elt F) → (⟨S8192, .i32⟩ : BufTy).Contents (Elt F)),
    binary main_arg3 main_v1569 main_v1570 (cmpi .slt : (⟨S8192, .i32⟩ : BufTy).Contents (Elt F) → (⟨S8192, .i32⟩ : BufTy).Contents (Elt F) → (⟨S8192, .i1⟩ : BufTy).Contents (Elt F)),
    nullary main_c_330 (constantI S_ 32 8192#32),
    unary main_c_330 main_v1571 (broadcastInDim S8192 ![] bcast_S_S8192 : (⟨S_, .i32⟩ : BufTy).Contents (Elt F) → (⟨S8192, .i32⟩ : BufTy).Contents (Elt F)),
    binary main_arg3 main_v1571 main_v1572 (addi : (⟨S8192, .i32⟩ : BufTy).Contents (Elt F) → (⟨S8192, .i32⟩ : BufTy).Contents (Elt F) → (⟨S8192, .i32⟩ : BufTy).Contents (Elt F)),
    ternary main_v1570 main_v1572 main_arg3 main_v1573 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1573 main_v1574 (broadcastInDim S8192x1 ![0] bcast_S8192_S8192x1_0 : (⟨S8192, .i32⟩ : BufTy).Contents (Elt F) → (⟨S8192x1, .i32⟩ : BufTy).Contents (Elt F)),
    binary main_v1568 main_v1574 main_v1575 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_331 (constant S_ .f32 0x00000000#32),
    TRef.unary (TRef.of (T := ⟨S_, .f32⟩) main_cst_331) (TRef.of (T := ⟨S_, .f32⟩) main_call61_v0) id,
    TRef.unary (TRef.of (T := ⟨S8192x1, .i1⟩) main_v1559) (TRef.of (T := ⟨S8192x512, .i1⟩) main_call61_v1) (broadcastInDim S8192x512 ![0, 1] bcast_S8192x1_S8192x512_0_1),
    TRef.unary (TRef.of (T := ⟨S_, .f32⟩) main_call61_v0) (TRef.of (T := ⟨S8192x512, .f32⟩) main_call61_v2) (broadcastInDim S8192x512 ![] bcast_S_S8192x512),
    TRef.ternary (TRef.of (T := ⟨S8192x512, .i1⟩) main_call61_v1) (TRef.of (T := ⟨S8192x512, .f32⟩) main_v1575) (TRef.of (T := ⟨S8192x512, .f32⟩) main_call61_v2) (TRef.of (T := ⟨S8192x512, .f32⟩) main_v1576) select,
    nullary main_c_332 (constantI S_ 32 0#32),
    unary main_c_332 main_v1577 (broadcastInDim S8192 ![] bcast_S_S8192 : (⟨S_, .i32⟩ : BufTy).Contents (Elt F) → (⟨S8192, .i32⟩ : BufTy).Contents (Elt F)),
    binary main_arg1 main_v1577 main_v1578 (cmpi .slt : (⟨S8192, .i32⟩ : BufTy).Contents (Elt F) → (⟨S8192, .i32⟩ : BufTy).Contents (Elt F) → (⟨S8192, .i1⟩ : BufTy).Contents (Elt F)),
    nullary main_c_333 (constantI S_ 32 8192#32),
    unary main_c_333 main_v1579 (broadcastInDim S8192 ![] bcast_S_S8192 : (⟨S_, .i32⟩ : BufTy).Contents (Elt F) → (⟨S8192, .i32⟩ : BufTy).Contents (Elt F)),
    binary main_arg1 main_v1579 main_v1580 (addi : (⟨S8192, .i32⟩ : BufTy).Contents (Elt F) → (⟨S8192, .i32⟩ : BufTy).Contents (Elt F) → (⟨S8192, .i32⟩ : BufTy).Contents (Elt F)),
    ternary main_v1578 main_v1580 main_arg1 main_v1581 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1581 main_v1582 (broadcastInDim S8192x1 ![0] bcast_S8192_S8192x1_0 : (⟨S8192, .i32⟩ : BufTy).Contents (Elt F) → (⟨S8192x1, .i32⟩ : BufTy).Contents (Elt F)),
    ternary main_v1556 main_v1582 main_v1576 main_v1583 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1584 ((extractStridedSlice S1x512x512 ![30, 0, 0] · slices_S40x512x512_S1x512x512_30_0_0) : (⟨S40x512x512, .f32⟩ : BufTy).Contents (Elt F) → (⟨S1x512x512, .f32⟩ : BufTy).Contents (Elt F)),
    reshape main_v1584 main_v1585 rfl shapeCasts_S1x512x512_S512x512,
    unary main_v1585 main_v1586 ((transpose S512x512 [1, 0] · transposes_S512x512_S512x512_1_0) : (⟨S512x512, .f32⟩ : BufTy).Contents (Elt F) → (⟨S512x512, .f32⟩ : BufTy).Contents (Elt F)),
    binary main_v1033 main_v1586 main_v1587 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1588 ((extractStridedSlice S1x512 ![30, 0] · slices_S40x512_S1x512_30_0) : (⟨S40x512, .f32⟩ : BufTy).Contents (Elt F) → (⟨S1x512, .f32⟩ : BufTy).Contents (Elt F)),
    reshape main_v1588 main_v1589 rfl shapeCasts_S1x512_S512,
    unary main_v1589 main_v1590 (broadcastInDim S1x512 ![1] bcast_S512_S1x512_1 : (⟨S512, .f32⟩ : BufTy).Contents (Elt F) → (⟨S1x512, .f32⟩ : BufTy).Contents (Elt F)),
    unary main_v1590 main_v1591 (broadcastInDim S8192x512 ![0, 1] bcast_S1x512_S8192x512_0_1 : (⟨S1x512, .f32⟩ : BufTy).Contents (Elt F) → (⟨S8192x512, .f32⟩ : BufTy).Contents (Elt F)),
    binary main_v1587 main_v1591 main_v1592 (addf : (⟨S8192x512, .f32⟩ : BufTy).Contents (Elt F) → (⟨S8192x512, .f32⟩ : BufTy).Contents (Elt F) → (⟨S8192x512, .f32⟩ : BufTy).Contents (Elt F)),
    nullary main_c_334 (constantI S_ 32 0#32),
    unary main_c_334 main_v1593 (broadcastInDim S8192 ![] bcast_S_S8192 : (⟨S_, .i32⟩ : BufTy).Contents (Elt F) → (⟨S8192, .i32⟩ : BufTy).Contents (Elt F)),
    binary main_arg1 main_v1593 main_v1594 (cmpi .slt : (⟨S8192, .i32⟩ : BufTy).Contents (Elt F) → (⟨S8192, .i32⟩ : BufTy).Contents (Elt F) → (⟨S8192, .i1⟩ : BufTy).Contents (Elt F)),
    nullary main_c_335 (constantI S_ 32 8192#32),
    unary main_c_335 main_v1595 (broadcastInDim S8192 ![] bcast_S_S8192 : (⟨S_, .i32⟩ : BufTy).Contents (Elt F) → (⟨S8192, .i32⟩ : BufTy).Contents (Elt F)),
    binary main_arg1 main_v1595 main_v1596 (addi : (⟨S8192, .i32⟩ : BufTy).Contents (Elt F) → (⟨S8192, .i32⟩ : BufTy).Contents (Elt F) → (⟨S8192, .i32⟩ : BufTy).Contents (Elt F)),
    ternary main_v1594 main_v1596 main_arg1 main_v1597 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1597 main_v1598 (broadcastInDim S8192x1 ![0] bcast_S8192_S8192x1_0 : (⟨S8192, .i32⟩ : BufTy).Contents (Elt F) → (⟨S8192x1, .i32⟩ : BufTy).Contents (Elt F)),
    binary main_v1592 main_v1598 main_v1599 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_336 (constant S_ .f32 0x00000000#32),
    TRef.unary (TRef.of (T := ⟨S_, .f32⟩) main_cst_336) (TRef.of (T := ⟨S_, .f32⟩) main_call62_v0) id,
    TRef.unary (TRef.of (T := ⟨S8192x1, .i1⟩) main_v1559) (TRef.of (T := ⟨S8192x512, .i1⟩) main_call62_v1) (broadcastInDim S8192x512 ![0, 1] bcast_S8192x1_S8192x512_0_1),
    TRef.unary (TRef.of (T := ⟨S_, .f32⟩) main_call62_v0) (TRef.of (T := ⟨S8192x512, .f32⟩) main_call62_v2) (broadcastInDim S8192x512 ![] bcast_S_S8192x512),
    TRef.ternary (TRef.of (T := ⟨S8192x512, .i1⟩) main_call62_v1) (TRef.of (T := ⟨S8192x512, .f32⟩) main_v1599) (TRef.of (T := ⟨S8192x512, .f32⟩) main_call62_v2) (TRef.of (T := ⟨S8192x512, .f32⟩) main_v1600) select,
    nullary main_c_337 (constantI S_ 32 0#32),
    unary main_c_337 main_v1601 (broadcastInDim S8192 ![] bcast_S_S8192 : (⟨S_, .i32⟩ : BufTy).Contents (Elt F) → (⟨S8192, .i32⟩ : BufTy).Contents (Elt F)),
    binary main_arg3 main_v1601 main_v1602 (cmpi .slt : (⟨S8192, .i32⟩ : BufTy).Contents (Elt F) → (⟨S8192, .i32⟩ : BufTy).Contents (Elt F) → (⟨S8192, .i1⟩ : BufTy).Contents (Elt F)),
    nullary main_c_338 (constantI S_ 32 8192#32),
    unary main_c_338 main_v1603 (broadcastInDim S8192 ![] bcast_S_S8192 : (⟨S_, .i32⟩ : BufTy).Contents (Elt F) → (⟨S8192, .i32⟩ : BufTy).Contents (Elt F)),
    binary main_arg3 main_v1603 main_v1604 (addi : (⟨S8192, .i32⟩ : BufTy).Contents (Elt F) → (⟨S8192, .i32⟩ : BufTy).Contents (Elt F) → (⟨S8192, .i32⟩ : BufTy).Contents (Elt F)),
    ternary main_v1602 main_v1604 main_arg3 main_v1605 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1605 main_v1606 (broadcastInDim S8192x1 ![0] bcast_S8192_S8192x1_0 : (⟨S8192, .i32⟩ : BufTy).Contents (Elt F) → (⟨S8192x1, .i32⟩ : BufTy).Contents (Elt F)),
    ternary main_v1583 main_v1606 main_v1600 main_v1607 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_10_sub : (lab2_10 (F := F)).Forall fun op => op.bufs ⊆ tcRefs τ sig := by
  unfold lab2_10
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_10_fresh : (lab2_10 (F := F)).Forall fun op => op.fresh = ∅ := by
  all_fresh lab2_10

/-- The references the line writes, in order. -/
abbrev lab2_10_W : List (Ref sig .tc) := [main_c_328, main_v1557, main_v1558, main_v1559, main_v1560, main_v1561, main_v1562, main_v1563, main_v1564, main_v1565, main_v1566, main_v1567, main_v1568, main_c_329, main_v1569, main_v1570, main_c_330, main_v1571, main_v1572, main_v1573, main_v1574, main_v1575, main_cst_331, main_call61_v0, main_call61_v1, main_call61_v2, main_v1576, main_c_332, main_v1577, main_v1578, main_c_333, main_v1579, main_v1580, main_v1581, main_v1582, main_v1583, main_v1584, main_v1585, main_v1586, main_v1587, main_v1588, main_v1589, main_v1590, main_v1591, main_v1592, main_c_334, main_v1593, main_v1594, main_c_335, main_v1595, main_v1596, main_v1597, main_v1598, main_v1599, main_cst_336, main_call62_v0, main_call62_v1, main_call62_v2, main_v1600, main_c_337, main_v1601, main_v1602, main_c_338, main_v1603, main_v1604, main_v1605, main_v1606, main_v1607]

theorem lab2_10_writes : (lab2_10 (F := F)).map (fun op => op.writes)
    = (lab2_10_W).map fun y => ({Proc.devRef (τ := τ) .tc y} : Finset (DevRef τ sig)) := rfl

/-- A reference the line does not write keeps its contents. -/
theorem lab2_10_frame (V : Valuation τ sig (Elt F)) {r : Ref sig .tc} (hr : r ∉ lab2_10_W) :
    after (lab2_10 (F := F)) V (no_index (Proc.devRef .tc r)) = V (Proc.devRef .tc r) :=
  Cert.RefLib.after_frame lab2_10_writes V hr

/-- The operations of relation label 11 in layer 2: the label's edge mask, the two products, and the two masked messages added to the running sum. -/
def lab2_11 : List (HloOp τ sig (Elt F)) :=
  [
    nullary main_c_339 (constantI S_ 32 11#32),
    unary main_c_339 main_v1608 (broadcastInDim S8192 ![] bcast_S_S8192 : (⟨S_, .i32⟩ : BufTy).Contents (Elt F) → (⟨S8192, .i32⟩ : BufTy).Contents (Elt F)),
    binary main_arg2 main_v1608 main_v1609 (cmpi .eq : (⟨S8192, .i32⟩ : BufTy).Contents (Elt F) → (⟨S8192, .i32⟩ : BufTy).Contents (Elt F) → (⟨S8192, .i1⟩ : BufTy).Contents (Elt F)),
    unary main_v1609 main_v1610 (broadcastInDim S8192x1 ![0] bcast_S8192_S8192x1_0 : (⟨S8192, .i1⟩ : BufTy).Contents (Elt F) → (⟨S8192x1, .i1⟩ : BufTy).Contents (Elt F)),
    unary main_v1039 main_v1611 ((extractStridedSlice S1x512x512 ![11, 0, 0] · slices_S40x512x512_S1x512x512_11_0_0) : (⟨S40x512x512, .f32⟩ : BufTy).Contents (Elt F) → (⟨S1x512x512, .f32⟩ : BufTy).Contents (Elt F)),
    reshape main_v1611 main_v1612 rfl shapeCasts_S1x512x512_S512x512,
    unary main_v1612 main_v1613 ((transpose S512x512 [1, 0] · transposes_S512x512_S512x512_1_0) : (⟨S512x512, .f32⟩ : BufTy).Contents (Elt F) → (⟨S512x512, .f32⟩ : BufTy).Contents (Elt F)),
    binary main_v1033 main_v1613 main_v1614 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1615 ((extractStridedSlice S1x512 ![11, 0] · slices_S40x512_S1x512_11_0) : (⟨S40x512, .f32⟩ : BufTy).Contents (Elt F) → (⟨S1x512, .f32⟩ : BufTy).Contents (Elt F)),
    reshape main_v1615 main_v1616 rfl shapeCasts_S1x512_S512,
    unary main_v1616 main_v1617 (broadcastInDim S1x512 ![1] bcast_S512_S1x512_1 : (⟨S512, .f32⟩ : BufTy).Contents (Elt F) → (⟨S1x512, .f32⟩ : BufTy).Contents (Elt F)),
    unary main_v1617 main_v1618 (broadcastInDim S8192x512 ![0, 1] bcast_S1x512_S8192x512_0_1 : (⟨S1x512, .f32⟩ : BufTy).Contents (Elt F) → (⟨S8192x512, .f32⟩ : BufTy).Contents (Elt F)),
    binary main_v1614 main_v1618 main_v1619 (addf : (⟨S8192x512, .f32⟩ : BufTy).Contents (Elt F) → (⟨S8192x512, .f32⟩ : BufTy).Contents (Elt F) → (⟨S8192x512, .f32⟩ : BufTy).Contents (Elt F)),
    nullary main_c_340 (constantI S_ 32 0#32),
    unary main_c_340 main_v1620 (broadcastInDim S8192 ![] bcast_S_S8192 : (⟨S_, .i32⟩ : BufTy).Contents (Elt F) → (⟨S8192, .i32⟩ : BufTy).Contents (Elt F)),
    binary main_arg3 main_v1620 main_v1621 (cmpi .slt : (⟨S8192, .i32⟩ : BufTy).Contents (Elt F) → (⟨S8192, .i32⟩ : BufTy).Contents (Elt F) → (⟨S8192, .i1⟩ : BufTy).Contents (Elt F)),
    nullary main_c_341 (constantI S_ 32 8192#32),
    unary main_c_341 main_v1622 (broadcastInDim S8192 ![] bcast_S_S8192 : (⟨S_, .i32⟩ : BufTy).Contents (Elt F) → (⟨S8192, .i32⟩ : BufTy).Contents (Elt F)),
    binary main_arg3 main_v1622 main_v1623 (addi : (⟨S8192, .i32⟩ : BufTy).Contents (Elt F) → (⟨S8192, .i32⟩ : BufTy).Contents (Elt F) → (⟨S8192, .i32⟩ : BufTy).Contents (Elt F)),
    ternary main_v1621 main_v1623 main_arg3 main_v1624 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1624 main_v1625 (broadcastInDim S8192x1 ![0] bcast_S8192_S8192x1_0 : (⟨S8192, .i32⟩ : BufTy).Contents (Elt F) → (⟨S8192x1, .i32⟩ : BufTy).Contents (Elt F)),
    binary main_v1619 main_v1625 main_v1626 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_342 (constant S_ .f32 0x00000000#32),
    TRef.unary (TRef.of (T := ⟨S_, .f32⟩) main_cst_342) (TRef.of (T := ⟨S_, .f32⟩) main_call63_v0) id,
    TRef.unary (TRef.of (T := ⟨S8192x1, .i1⟩) main_v1610) (TRef.of (T := ⟨S8192x512, .i1⟩) main_call63_v1) (broadcastInDim S8192x512 ![0, 1] bcast_S8192x1_S8192x512_0_1),
    TRef.unary (TRef.of (T := ⟨S_, .f32⟩) main_call63_v0) (TRef.of (T := ⟨S8192x512, .f32⟩) main_call63_v2) (broadcastInDim S8192x512 ![] bcast_S_S8192x512),
    TRef.ternary (TRef.of (T := ⟨S8192x512, .i1⟩) main_call63_v1) (TRef.of (T := ⟨S8192x512, .f32⟩) main_v1626) (TRef.of (T := ⟨S8192x512, .f32⟩) main_call63_v2) (TRef.of (T := ⟨S8192x512, .f32⟩) main_v1627) select,
    nullary main_c_343 (constantI S_ 32 0#32),
    unary main_c_343 main_v1628 (broadcastInDim S8192 ![] bcast_S_S8192 : (⟨S_, .i32⟩ : BufTy).Contents (Elt F) → (⟨S8192, .i32⟩ : BufTy).Contents (Elt F)),
    binary main_arg1 main_v1628 main_v1629 (cmpi .slt : (⟨S8192, .i32⟩ : BufTy).Contents (Elt F) → (⟨S8192, .i32⟩ : BufTy).Contents (Elt F) → (⟨S8192, .i1⟩ : BufTy).Contents (Elt F)),
    nullary main_c_344 (constantI S_ 32 8192#32),
    unary main_c_344 main_v1630 (broadcastInDim S8192 ![] bcast_S_S8192 : (⟨S_, .i32⟩ : BufTy).Contents (Elt F) → (⟨S8192, .i32⟩ : BufTy).Contents (Elt F)),
    binary main_arg1 main_v1630 main_v1631 (addi : (⟨S8192, .i32⟩ : BufTy).Contents (Elt F) → (⟨S8192, .i32⟩ : BufTy).Contents (Elt F) → (⟨S8192, .i32⟩ : BufTy).Contents (Elt F)),
    ternary main_v1629 main_v1631 main_arg1 main_v1632 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1632 main_v1633 (broadcastInDim S8192x1 ![0] bcast_S8192_S8192x1_0 : (⟨S8192, .i32⟩ : BufTy).Contents (Elt F) → (⟨S8192x1, .i32⟩ : BufTy).Contents (Elt F)),
    ternary main_v1607 main_v1633 main_v1627 main_v1634 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1635 ((extractStridedSlice S1x512x512 ![31, 0, 0] · slices_S40x512x512_S1x512x512_31_0_0) : (⟨S40x512x512, .f32⟩ : BufTy).Contents (Elt F) → (⟨S1x512x512, .f32⟩ : BufTy).Contents (Elt F)),
    reshape main_v1635 main_v1636 rfl shapeCasts_S1x512x512_S512x512,
    unary main_v1636 main_v1637 ((transpose S512x512 [1, 0] · transposes_S512x512_S512x512_1_0) : (⟨S512x512, .f32⟩ : BufTy).Contents (Elt F) → (⟨S512x512, .f32⟩ : BufTy).Contents (Elt F)),
    binary main_v1033 main_v1637 main_v1638 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1639 ((extractStridedSlice S1x512 ![31, 0] · slices_S40x512_S1x512_31_0) : (⟨S40x512, .f32⟩ : BufTy).Contents (Elt F) → (⟨S1x512, .f32⟩ : BufTy).Contents (Elt F)),
    reshape main_v1639 main_v1640 rfl shapeCasts_S1x512_S512,
    unary main_v1640 main_v1641 (broadcastInDim S1x512 ![1] bcast_S512_S1x512_1 : (⟨S512, .f32⟩ : BufTy).Contents (Elt F) → (⟨S1x512, .f32⟩ : BufTy).Contents (Elt F)),
    unary main_v1641 main_v1642 (broadcastInDim S8192x512 ![0, 1] bcast_S1x512_S8192x512_0_1 : (⟨S1x512, .f32⟩ : BufTy).Contents (Elt F) → (⟨S8192x512, .f32⟩ : BufTy).Contents (Elt F)),
    binary main_v1638 main_v1642 main_v1643 (addf : (⟨S8192x512, .f32⟩ : BufTy).Contents (Elt F) → (⟨S8192x512, .f32⟩ : BufTy).Contents (Elt F) → (⟨S8192x512, .f32⟩ : BufTy).Contents (Elt F)),
    nullary main_c_345 (constantI S_ 32 0#32),
    unary main_c_345 main_v1644 (broadcastInDim S8192 ![] bcast_S_S8192 : (⟨S_, .i32⟩ : BufTy).Contents (Elt F) → (⟨S8192, .i32⟩ : BufTy).Contents (Elt F)),
    binary main_arg1 main_v1644 main_v1645 (cmpi .slt : (⟨S8192, .i32⟩ : BufTy).Contents (Elt F) → (⟨S8192, .i32⟩ : BufTy).Contents (Elt F) → (⟨S8192, .i1⟩ : BufTy).Contents (Elt F)),
    nullary main_c_346 (constantI S_ 32 8192#32),
    unary main_c_346 main_v1646 (broadcastInDim S8192 ![] bcast_S_S8192 : (⟨S_, .i32⟩ : BufTy).Contents (Elt F) → (⟨S8192, .i32⟩ : BufTy).Contents (Elt F)),
    binary main_arg1 main_v1646 main_v1647 (addi : (⟨S8192, .i32⟩ : BufTy).Contents (Elt F) → (⟨S8192, .i32⟩ : BufTy).Contents (Elt F) → (⟨S8192, .i32⟩ : BufTy).Contents (Elt F)),
    ternary main_v1645 main_v1647 main_arg1 main_v1648 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1648 main_v1649 (broadcastInDim S8192x1 ![0] bcast_S8192_S8192x1_0 : (⟨S8192, .i32⟩ : BufTy).Contents (Elt F) → (⟨S8192x1, .i32⟩ : BufTy).Contents (Elt F)),
    binary main_v1643 main_v1649 main_v1650 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_347 (constant S_ .f32 0x00000000#32),
    TRef.unary (TRef.of (T := ⟨S_, .f32⟩) main_cst_347) (TRef.of (T := ⟨S_, .f32⟩) main_call64_v0) id,
    TRef.unary (TRef.of (T := ⟨S8192x1, .i1⟩) main_v1610) (TRef.of (T := ⟨S8192x512, .i1⟩) main_call64_v1) (broadcastInDim S8192x512 ![0, 1] bcast_S8192x1_S8192x512_0_1),
    TRef.unary (TRef.of (T := ⟨S_, .f32⟩) main_call64_v0) (TRef.of (T := ⟨S8192x512, .f32⟩) main_call64_v2) (broadcastInDim S8192x512 ![] bcast_S_S8192x512),
    TRef.ternary (TRef.of (T := ⟨S8192x512, .i1⟩) main_call64_v1) (TRef.of (T := ⟨S8192x512, .f32⟩) main_v1650) (TRef.of (T := ⟨S8192x512, .f32⟩) main_call64_v2) (TRef.of (T := ⟨S8192x512, .f32⟩) main_v1651) select,
    nullary main_c_348 (constantI S_ 32 0#32),
    unary main_c_348 main_v1652 (broadcastInDim S8192 ![] bcast_S_S8192 : (⟨S_, .i32⟩ : BufTy).Contents (Elt F) → (⟨S8192, .i32⟩ : BufTy).Contents (Elt F)),
    binary main_arg3 main_v1652 main_v1653 (cmpi .slt : (⟨S8192, .i32⟩ : BufTy).Contents (Elt F) → (⟨S8192, .i32⟩ : BufTy).Contents (Elt F) → (⟨S8192, .i1⟩ : BufTy).Contents (Elt F)),
    nullary main_c_349 (constantI S_ 32 8192#32),
    unary main_c_349 main_v1654 (broadcastInDim S8192 ![] bcast_S_S8192 : (⟨S_, .i32⟩ : BufTy).Contents (Elt F) → (⟨S8192, .i32⟩ : BufTy).Contents (Elt F)),
    binary main_arg3 main_v1654 main_v1655 (addi : (⟨S8192, .i32⟩ : BufTy).Contents (Elt F) → (⟨S8192, .i32⟩ : BufTy).Contents (Elt F) → (⟨S8192, .i32⟩ : BufTy).Contents (Elt F)),
    ternary main_v1653 main_v1655 main_arg3 main_v1656 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1656 main_v1657 (broadcastInDim S8192x1 ![0] bcast_S8192_S8192x1_0 : (⟨S8192, .i32⟩ : BufTy).Contents (Elt F) → (⟨S8192x1, .i32⟩ : BufTy).Contents (Elt F)),
    ternary main_v1634 main_v1657 main_v1651 main_v1658 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_11_sub : (lab2_11 (F := F)).Forall fun op => op.bufs ⊆ tcRefs τ sig := by
  unfold lab2_11
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_11_fresh : (lab2_11 (F := F)).Forall fun op => op.fresh = ∅ := by
  all_fresh lab2_11

/-- The references the line writes, in order. -/
abbrev lab2_11_W : List (Ref sig .tc) := [main_c_339, main_v1608, main_v1609, main_v1610, main_v1611, main_v1612, main_v1613, main_v1614, main_v1615, main_v1616, main_v1617, main_v1618, main_v1619, main_c_340, main_v1620, main_v1621, main_c_341, main_v1622, main_v1623, main_v1624, main_v1625, main_v1626, main_cst_342, main_call63_v0, main_call63_v1, main_call63_v2, main_v1627, main_c_343, main_v1628, main_v1629, main_c_344, main_v1630, main_v1631, main_v1632, main_v1633, main_v1634, main_v1635, main_v1636, main_v1637, main_v1638, main_v1639, main_v1640, main_v1641, main_v1642, main_v1643, main_c_345, main_v1644, main_v1645, main_c_346, main_v1646, main_v1647, main_v1648, main_v1649, main_v1650, main_cst_347, main_call64_v0, main_call64_v1, main_call64_v2, main_v1651, main_c_348, main_v1652, main_v1653, main_c_349, main_v1654, main_v1655, main_v1656, main_v1657, main_v1658]

theorem lab2_11_writes : (lab2_11 (F := F)).map (fun op => op.writes)
    = (lab2_11_W).map fun y => ({Proc.devRef (τ := τ) .tc y} : Finset (DevRef τ sig)) := rfl

/-- A reference the line does not write keeps its contents. -/
theorem lab2_11_frame (V : Valuation τ sig (Elt F)) {r : Ref sig .tc} (hr : r ∉ lab2_11_W) :
    after (lab2_11 (F := F)) V (no_index (Proc.devRef .tc r)) = V (Proc.devRef .tc r) :=
  Cert.RefLib.after_frame lab2_11_writes V hr

/-- The operations of relation label 12 in layer 2: the label's edge mask, the two products, and the two masked messages added to the running sum. -/
def lab2_12 : List (HloOp τ sig (Elt F)) :=
  [
    nullary main_c_350 (constantI S_ 32 12#32),
    unary main_c_350 main_v1659 (broadcastInDim S8192 ![] bcast_S_S8192 : (⟨S_, .i32⟩ : BufTy).Contents (Elt F) → (⟨S8192, .i32⟩ : BufTy).Contents (Elt F)),
    binary main_arg2 main_v1659 main_v1660 (cmpi .eq : (⟨S8192, .i32⟩ : BufTy).Contents (Elt F) → (⟨S8192, .i32⟩ : BufTy).Contents (Elt F) → (⟨S8192, .i1⟩ : BufTy).Contents (Elt F)),
    unary main_v1660 main_v1661 (broadcastInDim S8192x1 ![0] bcast_S8192_S8192x1_0 : (⟨S8192, .i1⟩ : BufTy).Contents (Elt F) → (⟨S8192x1, .i1⟩ : BufTy).Contents (Elt F)),
    unary main_v1039 main_v1662 ((extractStridedSlice S1x512x512 ![12, 0, 0] · slices_S40x512x512_S1x512x512_12_0_0) : (⟨S40x512x512, .f32⟩ : BufTy).Contents (Elt F) → (⟨S1x512x512, .f32⟩ : BufTy).Contents (Elt F)),
    reshape main_v1662 main_v1663 rfl shapeCasts_S1x512x512_S512x512,
    unary main_v1663 main_v1664 ((transpose S512x512 [1, 0] · transposes_S512x512_S512x512_1_0) : (⟨S512x512, .f32⟩ : BufTy).Contents (Elt F) → (⟨S512x512, .f32⟩ : BufTy).Contents (Elt F)),
    binary main_v1033 main_v1664 main_v1665 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1666 ((extractStridedSlice S1x512 ![12, 0] · slices_S40x512_S1x512_12_0) : (⟨S40x512, .f32⟩ : BufTy).Contents (Elt F) → (⟨S1x512, .f32⟩ : BufTy).Contents (Elt F)),
    reshape main_v1666 main_v1667 rfl shapeCasts_S1x512_S512,
    unary main_v1667 main_v1668 (broadcastInDim S1x512 ![1] bcast_S512_S1x512_1 : (⟨S512, .f32⟩ : BufTy).Contents (Elt F) → (⟨S1x512, .f32⟩ : BufTy).Contents (Elt F)),
    unary main_v1668 main_v1669 (broadcastInDim S8192x512 ![0, 1] bcast_S1x512_S8192x512_0_1 : (⟨S1x512, .f32⟩ : BufTy).Contents (Elt F) → (⟨S8192x512, .f32⟩ : BufTy).Contents (Elt F)),
    binary main_v1665 main_v1669 main_v1670 (addf : (⟨S8192x512, .f32⟩ : BufTy).Contents (Elt F) → (⟨S8192x512, .f32⟩ : BufTy).Contents (Elt F) → (⟨S8192x512, .f32⟩ : BufTy).Contents (Elt F)),
    nullary main_c_351 (constantI S_ 32 0#32),
    unary main_c_351 main_v1671 (broadcastInDim S8192 ![] bcast_S_S8192 : (⟨S_, .i32⟩ : BufTy).Contents (Elt F) → (⟨S8192, .i32⟩ : BufTy).Contents (Elt F)),
    binary main_arg3 main_v1671 main_v1672 (cmpi .slt : (⟨S8192, .i32⟩ : BufTy).Contents (Elt F) → (⟨S8192, .i32⟩ : BufTy).Contents (Elt F) → (⟨S8192, .i1⟩ : BufTy).Contents (Elt F)),
    nullary main_c_352 (constantI S_ 32 8192#32),
    unary main_c_352 main_v1673 (broadcastInDim S8192 ![] bcast_S_S8192 : (⟨S_, .i32⟩ : BufTy).Contents (Elt F) → (⟨S8192, .i32⟩ : BufTy).Contents (Elt F)),
    binary main_arg3 main_v1673 main_v1674 (addi : (⟨S8192, .i32⟩ : BufTy).Contents (Elt F) → (⟨S8192, .i32⟩ : BufTy).Contents (Elt F) → (⟨S8192, .i32⟩ : BufTy).Contents (Elt F)),
    ternary main_v1672 main_v1674 main_arg3 main_v1675 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1675 main_v1676 (broadcastInDim S8192x1 ![0] bcast_S8192_S8192x1_0 : (⟨S8192, .i32⟩ : BufTy).Contents (Elt F) → (⟨S8192x1, .i32⟩ : BufTy).Contents (Elt F)),
    binary main_v1670 main_v1676 main_v1677 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_353 (constant S_ .f32 0x00000000#32),
    TRef.unary (TRef.of (T := ⟨S_, .f32⟩) main_cst_353) (TRef.of (T := ⟨S_, .f32⟩) main_call65_v0) id,
    TRef.unary (TRef.of (T := ⟨S8192x1, .i1⟩) main_v1661) (TRef.of (T := ⟨S8192x512, .i1⟩) main_call65_v1) (broadcastInDim S8192x512 ![0, 1] bcast_S8192x1_S8192x512_0_1),
    TRef.unary (TRef.of (T := ⟨S_, .f32⟩) main_call65_v0) (TRef.of (T := ⟨S8192x512, .f32⟩) main_call65_v2) (broadcastInDim S8192x512 ![] bcast_S_S8192x512),
    TRef.ternary (TRef.of (T := ⟨S8192x512, .i1⟩) main_call65_v1) (TRef.of (T := ⟨S8192x512, .f32⟩) main_v1677) (TRef.of (T := ⟨S8192x512, .f32⟩) main_call65_v2) (TRef.of (T := ⟨S8192x512, .f32⟩) main_v1678) select,
    nullary main_c_354 (constantI S_ 32 0#32),
    unary main_c_354 main_v1679 (broadcastInDim S8192 ![] bcast_S_S8192 : (⟨S_, .i32⟩ : BufTy).Contents (Elt F) → (⟨S8192, .i32⟩ : BufTy).Contents (Elt F)),
    binary main_arg1 main_v1679 main_v1680 (cmpi .slt : (⟨S8192, .i32⟩ : BufTy).Contents (Elt F) → (⟨S8192, .i32⟩ : BufTy).Contents (Elt F) → (⟨S8192, .i1⟩ : BufTy).Contents (Elt F)),
    nullary main_c_355 (constantI S_ 32 8192#32),
    unary main_c_355 main_v1681 (broadcastInDim S8192 ![] bcast_S_S8192 : (⟨S_, .i32⟩ : BufTy).Contents (Elt F) → (⟨S8192, .i32⟩ : BufTy).Contents (Elt F)),
    binary main_arg1 main_v1681 main_v1682 (addi : (⟨S8192, .i32⟩ : BufTy).Contents (Elt F) → (⟨S8192, .i32⟩ : BufTy).Contents (Elt F) → (⟨S8192, .i32⟩ : BufTy).Contents (Elt F)),
    ternary main_v1680 main_v1682 main_arg1 main_v1683 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1683 main_v1684 (broadcastInDim S8192x1 ![0] bcast_S8192_S8192x1_0 : (⟨S8192, .i32⟩ : BufTy).Contents (Elt F) → (⟨S8192x1, .i32⟩ : BufTy).Contents (Elt F)),
    ternary main_v1658 main_v1684 main_v1678 main_v1685 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1686 ((extractStridedSlice S1x512x512 ![32, 0, 0] · slices_S40x512x512_S1x512x512_32_0_0) : (⟨S40x512x512, .f32⟩ : BufTy).Contents (Elt F) → (⟨S1x512x512, .f32⟩ : BufTy).Contents (Elt F)),
    reshape main_v1686 main_v1687 rfl shapeCasts_S1x512x512_S512x512,
    unary main_v1687 main_v1688 ((transpose S512x512 [1, 0] · transposes_S512x512_S512x512_1_0) : (⟨S512x512, .f32⟩ : BufTy).Contents (Elt F) → (⟨S512x512, .f32⟩ : BufTy).Contents (Elt F)),
    binary main_v1033 main_v1688 main_v1689 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1690 ((extractStridedSlice S1x512 ![32, 0] · slices_S40x512_S1x512_32_0) : (⟨S40x512, .f32⟩ : BufTy).Contents (Elt F) → (⟨S1x512, .f32⟩ : BufTy).Contents (Elt F)),
    reshape main_v1690 main_v1691 rfl shapeCasts_S1x512_S512,
    unary main_v1691 main_v1692 (broadcastInDim S1x512 ![1] bcast_S512_S1x512_1 : (⟨S512, .f32⟩ : BufTy).Contents (Elt F) → (⟨S1x512, .f32⟩ : BufTy).Contents (Elt F)),
    unary main_v1692 main_v1693 (broadcastInDim S8192x512 ![0, 1] bcast_S1x512_S8192x512_0_1 : (⟨S1x512, .f32⟩ : BufTy).Contents (Elt F) → (⟨S8192x512, .f32⟩ : BufTy).Contents (Elt F)),
    binary main_v1689 main_v1693 main_v1694 (addf : (⟨S8192x512, .f32⟩ : BufTy).Contents (Elt F) → (⟨S8192x512, .f32⟩ : BufTy).Contents (Elt F) → (⟨S8192x512, .f32⟩ : BufTy).Contents (Elt F)),
    nullary main_c_356 (constantI S_ 32 0#32),
    unary main_c_356 main_v1695 (broadcastInDim S8192 ![] bcast_S_S8192 : (⟨S_, .i32⟩ : BufTy).Contents (Elt F) → (⟨S8192, .i32⟩ : BufTy).Contents (Elt F)),
    binary main_arg1 main_v1695 main_v1696 (cmpi .slt : (⟨S8192, .i32⟩ : BufTy).Contents (Elt F) → (⟨S8192, .i32⟩ : BufTy).Contents (Elt F) → (⟨S8192, .i1⟩ : BufTy).Contents (Elt F)),
    nullary main_c_357 (constantI S_ 32 8192#32),
    unary main_c_357 main_v1697 (broadcastInDim S8192 ![] bcast_S_S8192 : (⟨S_, .i32⟩ : BufTy).Contents (Elt F) → (⟨S8192, .i32⟩ : BufTy).Contents (Elt F)),
    binary main_arg1 main_v1697 main_v1698 (addi : (⟨S8192, .i32⟩ : BufTy).Contents (Elt F) → (⟨S8192, .i32⟩ : BufTy).Contents (Elt F) → (⟨S8192, .i32⟩ : BufTy).Contents (Elt F)),
    ternary main_v1696 main_v1698 main_arg1 main_v1699 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1699 main_v1700 (broadcastInDim S8192x1 ![0] bcast_S8192_S8192x1_0 : (⟨S8192, .i32⟩ : BufTy).Contents (Elt F) → (⟨S8192x1, .i32⟩ : BufTy).Contents (Elt F)),
    binary main_v1694 main_v1700 main_v1701 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_358 (constant S_ .f32 0x00000000#32),
    TRef.unary (TRef.of (T := ⟨S_, .f32⟩) main_cst_358) (TRef.of (T := ⟨S_, .f32⟩) main_call66_v0) id,
    TRef.unary (TRef.of (T := ⟨S8192x1, .i1⟩) main_v1661) (TRef.of (T := ⟨S8192x512, .i1⟩) main_call66_v1) (broadcastInDim S8192x512 ![0, 1] bcast_S8192x1_S8192x512_0_1),
    TRef.unary (TRef.of (T := ⟨S_, .f32⟩) main_call66_v0) (TRef.of (T := ⟨S8192x512, .f32⟩) main_call66_v2) (broadcastInDim S8192x512 ![] bcast_S_S8192x512),
    TRef.ternary (TRef.of (T := ⟨S8192x512, .i1⟩) main_call66_v1) (TRef.of (T := ⟨S8192x512, .f32⟩) main_v1701) (TRef.of (T := ⟨S8192x512, .f32⟩) main_call66_v2) (TRef.of (T := ⟨S8192x512, .f32⟩) main_v1702) select,
    nullary main_c_359 (constantI S_ 32 0#32),
    unary main_c_359 main_v1703 (broadcastInDim S8192 ![] bcast_S_S8192 : (⟨S_, .i32⟩ : BufTy).Contents (Elt F) → (⟨S8192, .i32⟩ : BufTy).Contents (Elt F)),
    binary main_arg3 main_v1703 main_v1704 (cmpi .slt : (⟨S8192, .i32⟩ : BufTy).Contents (Elt F) → (⟨S8192, .i32⟩ : BufTy).Contents (Elt F) → (⟨S8192, .i1⟩ : BufTy).Contents (Elt F)),
    nullary main_c_360 (constantI S_ 32 8192#32),
    unary main_c_360 main_v1705 (broadcastInDim S8192 ![] bcast_S_S8192 : (⟨S_, .i32⟩ : BufTy).Contents (Elt F) → (⟨S8192, .i32⟩ : BufTy).Contents (Elt F)),
    binary main_arg3 main_v1705 main_v1706 (addi : (⟨S8192, .i32⟩ : BufTy).Contents (Elt F) → (⟨S8192, .i32⟩ : BufTy).Contents (Elt F) → (⟨S8192, .i32⟩ : BufTy).Contents (Elt F)),
    ternary main_v1704 main_v1706 main_arg3 main_v1707 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1707 main_v1708 (broadcastInDim S8192x1 ![0] bcast_S8192_S8192x1_0 : (⟨S8192, .i32⟩ : BufTy).Contents (Elt F) → (⟨S8192x1, .i32⟩ : BufTy).Contents (Elt F)),
    ternary main_v1685 main_v1708 main_v1702 main_v1709 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_12_sub : (lab2_12 (F := F)).Forall fun op => op.bufs ⊆ tcRefs τ sig := by
  unfold lab2_12
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_12_fresh : (lab2_12 (F := F)).Forall fun op => op.fresh = ∅ := by
  all_fresh lab2_12

/-- The references the line writes, in order. -/
abbrev lab2_12_W : List (Ref sig .tc) := [main_c_350, main_v1659, main_v1660, main_v1661, main_v1662, main_v1663, main_v1664, main_v1665, main_v1666, main_v1667, main_v1668, main_v1669, main_v1670, main_c_351, main_v1671, main_v1672, main_c_352, main_v1673, main_v1674, main_v1675, main_v1676, main_v1677, main_cst_353, main_call65_v0, main_call65_v1, main_call65_v2, main_v1678, main_c_354, main_v1679, main_v1680, main_c_355, main_v1681, main_v1682, main_v1683, main_v1684, main_v1685, main_v1686, main_v1687, main_v1688, main_v1689, main_v1690, main_v1691, main_v1692, main_v1693, main_v1694, main_c_356, main_v1695, main_v1696, main_c_357, main_v1697, main_v1698, main_v1699, main_v1700, main_v1701, main_cst_358, main_call66_v0, main_call66_v1, main_call66_v2, main_v1702, main_c_359, main_v1703, main_v1704, main_c_360, main_v1705, main_v1706, main_v1707, main_v1708, main_v1709]

theorem lab2_12_writes : (lab2_12 (F := F)).map (fun op => op.writes)
    = (lab2_12_W).map fun y => ({Proc.devRef (τ := τ) .tc y} : Finset (DevRef τ sig)) := rfl

/-- A reference the line does not write keeps its contents. -/
theorem lab2_12_frame (V : Valuation τ sig (Elt F)) {r : Ref sig .tc} (hr : r ∉ lab2_12_W) :
    after (lab2_12 (F := F)) V (no_index (Proc.devRef .tc r)) = V (Proc.devRef .tc r) :=
  Cert.RefLib.after_frame lab2_12_writes V hr

/-- The operations of relation label 13 in layer 2: the label's edge mask, the two products, and the two masked messages added to the running sum. -/
def lab2_13 : List (HloOp τ sig (Elt F)) :=
  [
    nullary main_c_361 (constantI S_ 32 13#32),
    unary main_c_361 main_v1710 (broadcastInDim S8192 ![] bcast_S_S8192 : (⟨S_, .i32⟩ : BufTy).Contents (Elt F) → (⟨S8192, .i32⟩ : BufTy).Contents (Elt F)),
    binary main_arg2 main_v1710 main_v1711 (cmpi .eq : (⟨S8192, .i32⟩ : BufTy).Contents (Elt F) → (⟨S8192, .i32⟩ : BufTy).Contents (Elt F) → (⟨S8192, .i1⟩ : BufTy).Contents (Elt F)),
    unary main_v1711 main_v1712 (broadcastInDim S8192x1 ![0] bcast_S8192_S8192x1_0 : (⟨S8192, .i1⟩ : BufTy).Contents (Elt F) → (⟨S8192x1, .i1⟩ : BufTy).Contents (Elt F)),
    unary main_v1039 main_v1713 ((extractStridedSlice S1x512x512 ![13, 0, 0] · slices_S40x512x512_S1x512x512_13_0_0) : (⟨S40x512x512, .f32⟩ : BufTy).Contents (Elt F) → (⟨S1x512x512, .f32⟩ : BufTy).Contents (Elt F)),
    reshape main_v1713 main_v1714 rfl shapeCasts_S1x512x512_S512x512,
    unary main_v1714 main_v1715 ((transpose S512x512 [1, 0] · transposes_S512x512_S512x512_1_0) : (⟨S512x512, .f32⟩ : BufTy).Contents (Elt F) → (⟨S512x512, .f32⟩ : BufTy).Contents (Elt F)),
    binary main_v1033 main_v1715 main_v1716 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1717 ((extractStridedSlice S1x512 ![13, 0] · slices_S40x512_S1x512_13_0) : (⟨S40x512, .f32⟩ : BufTy).Contents (Elt F) → (⟨S1x512, .f32⟩ : BufTy).Contents (Elt F)),
    reshape main_v1717 main_v1718 rfl shapeCasts_S1x512_S512,
    unary main_v1718 main_v1719 (broadcastInDim S1x512 ![1] bcast_S512_S1x512_1 : (⟨S512, .f32⟩ : BufTy).Contents (Elt F) → (⟨S1x512, .f32⟩ : BufTy).Contents (Elt F)),
    unary main_v1719 main_v1720 (broadcastInDim S8192x512 ![0, 1] bcast_S1x512_S8192x512_0_1 : (⟨S1x512, .f32⟩ : BufTy).Contents (Elt F) → (⟨S8192x512, .f32⟩ : BufTy).Contents (Elt F)),
    binary main_v1716 main_v1720 main_v1721 (addf : (⟨S8192x512, .f32⟩ : BufTy).Contents (Elt F) → (⟨S8192x512, .f32⟩ : BufTy).Contents (Elt F) → (⟨S8192x512, .f32⟩ : BufTy).Contents (Elt F)),
    nullary main_c_362 (constantI S_ 32 0#32),
    unary main_c_362 main_v1722 (broadcastInDim S8192 ![] bcast_S_S8192 : (⟨S_, .i32⟩ : BufTy).Contents (Elt F) → (⟨S8192, .i32⟩ : BufTy).Contents (Elt F)),
    binary main_arg3 main_v1722 main_v1723 (cmpi .slt : (⟨S8192, .i32⟩ : BufTy).Contents (Elt F) → (⟨S8192, .i32⟩ : BufTy).Contents (Elt F) → (⟨S8192, .i1⟩ : BufTy).Contents (Elt F)),
    nullary main_c_363 (constantI S_ 32 8192#32),
    unary main_c_363 main_v1724 (broadcastInDim S8192 ![] bcast_S_S8192 : (⟨S_, .i32⟩ : BufTy).Contents (Elt F) → (⟨S8192, .i32⟩ : BufTy).Contents (Elt F)),
    binary main_arg3 main_v1724 main_v1725 (addi : (⟨S8192, .i32⟩ : BufTy).Contents (Elt F) → (⟨S8192, .i32⟩ : BufTy).Contents (Elt F) → (⟨S8192, .i32⟩ : BufTy).Contents (Elt F)),
    ternary main_v1723 main_v1725 main_arg3 main_v1726 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1726 main_v1727 (broadcastInDim S8192x1 ![0] bcast_S8192_S8192x1_0 : (⟨S8192, .i32⟩ : BufTy).Contents (Elt F) → (⟨S8192x1, .i32⟩ : BufTy).Contents (Elt F)),
    binary main_v1721 main_v1727 main_v1728 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_364 (constant S_ .f32 0x00000000#32),
    TRef.unary (TRef.of (T := ⟨S_, .f32⟩) main_cst_364) (TRef.of (T := ⟨S_, .f32⟩) main_call67_v0) id,
    TRef.unary (TRef.of (T := ⟨S8192x1, .i1⟩) main_v1712) (TRef.of (T := ⟨S8192x512, .i1⟩) main_call67_v1) (broadcastInDim S8192x512 ![0, 1] bcast_S8192x1_S8192x512_0_1),
    TRef.unary (TRef.of (T := ⟨S_, .f32⟩) main_call67_v0) (TRef.of (T := ⟨S8192x512, .f32⟩) main_call67_v2) (broadcastInDim S8192x512 ![] bcast_S_S8192x512),
    TRef.ternary (TRef.of (T := ⟨S8192x512, .i1⟩) main_call67_v1) (TRef.of (T := ⟨S8192x512, .f32⟩) main_v1728) (TRef.of (T := ⟨S8192x512, .f32⟩) main_call67_v2) (TRef.of (T := ⟨S8192x512, .f32⟩) main_v1729) select,
    nullary main_c_365 (constantI S_ 32 0#32),
    unary main_c_365 main_v1730 (broadcastInDim S8192 ![] bcast_S_S8192 : (⟨S_, .i32⟩ : BufTy).Contents (Elt F) → (⟨S8192, .i32⟩ : BufTy).Contents (Elt F)),
    binary main_arg1 main_v1730 main_v1731 (cmpi .slt : (⟨S8192, .i32⟩ : BufTy).Contents (Elt F) → (⟨S8192, .i32⟩ : BufTy).Contents (Elt F) → (⟨S8192, .i1⟩ : BufTy).Contents (Elt F)),
    nullary main_c_366 (constantI S_ 32 8192#32),
    unary main_c_366 main_v1732 (broadcastInDim S8192 ![] bcast_S_S8192 : (⟨S_, .i32⟩ : BufTy).Contents (Elt F) → (⟨S8192, .i32⟩ : BufTy).Contents (Elt F)),
    binary main_arg1 main_v1732 main_v1733 (addi : (⟨S8192, .i32⟩ : BufTy).Contents (Elt F) → (⟨S8192, .i32⟩ : BufTy).Contents (Elt F) → (⟨S8192, .i32⟩ : BufTy).Contents (Elt F)),
    ternary main_v1731 main_v1733 main_arg1 main_v1734 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1734 main_v1735 (broadcastInDim S8192x1 ![0] bcast_S8192_S8192x1_0 : (⟨S8192, .i32⟩ : BufTy).Contents (Elt F) → (⟨S8192x1, .i32⟩ : BufTy).Contents (Elt F)),
    ternary main_v1709 main_v1735 main_v1729 main_v1736 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1737 ((extractStridedSlice S1x512x512 ![33, 0, 0] · slices_S40x512x512_S1x512x512_33_0_0) : (⟨S40x512x512, .f32⟩ : BufTy).Contents (Elt F) → (⟨S1x512x512, .f32⟩ : BufTy).Contents (Elt F)),
    reshape main_v1737 main_v1738 rfl shapeCasts_S1x512x512_S512x512,
    unary main_v1738 main_v1739 ((transpose S512x512 [1, 0] · transposes_S512x512_S512x512_1_0) : (⟨S512x512, .f32⟩ : BufTy).Contents (Elt F) → (⟨S512x512, .f32⟩ : BufTy).Contents (Elt F)),
    binary main_v1033 main_v1739 main_v1740 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1741 ((extractStridedSlice S1x512 ![33, 0] · slices_S40x512_S1x512_33_0) : (⟨S40x512, .f32⟩ : BufTy).Contents (Elt F) → (⟨S1x512, .f32⟩ : BufTy).Contents (Elt F)),
    reshape main_v1741 main_v1742 rfl shapeCasts_S1x512_S512,
    unary main_v1742 main_v1743 (broadcastInDim S1x512 ![1] bcast_S512_S1x512_1 : (⟨S512, .f32⟩ : BufTy).Contents (Elt F) → (⟨S1x512, .f32⟩ : BufTy).Contents (Elt F)),
    unary main_v1743 main_v1744 (broadcastInDim S8192x512 ![0, 1] bcast_S1x512_S8192x512_0_1 : (⟨S1x512, .f32⟩ : BufTy).Contents (Elt F) → (⟨S8192x512, .f32⟩ : BufTy).Contents (Elt F)),
    binary main_v1740 main_v1744 main_v1745 (addf : (⟨S8192x512, .f32⟩ : BufTy).Contents (Elt F) → (⟨S8192x512, .f32⟩ : BufTy).Contents (Elt F) → (⟨S8192x512, .f32⟩ : BufTy).Contents (Elt F)),
    nullary main_c_367 (constantI S_ 32 0#32),
    unary main_c_367 main_v1746 (broadcastInDim S8192 ![] bcast_S_S8192 : (⟨S_, .i32⟩ : BufTy).Contents (Elt F) → (⟨S8192, .i32⟩ : BufTy).Contents (Elt F)),
    binary main_arg1 main_v1746 main_v1747 (cmpi .slt : (⟨S8192, .i32⟩ : BufTy).Contents (Elt F) → (⟨S8192, .i32⟩ : BufTy).Contents (Elt F) → (⟨S8192, .i1⟩ : BufTy).Contents (Elt F)),
    nullary main_c_368 (constantI S_ 32 8192#32),
    unary main_c_368 main_v1748 (broadcastInDim S8192 ![] bcast_S_S8192 : (⟨S_, .i32⟩ : BufTy).Contents (Elt F) → (⟨S8192, .i32⟩ : BufTy).Contents (Elt F)),
    binary main_arg1 main_v1748 main_v1749 (addi : (⟨S8192, .i32⟩ : BufTy).Contents (Elt F) → (⟨S8192, .i32⟩ : BufTy).Contents (Elt F) → (⟨S8192, .i32⟩ : BufTy).Contents (Elt F)),
    ternary main_v1747 main_v1749 main_arg1 main_v1750 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1750 main_v1751 (broadcastInDim S8192x1 ![0] bcast_S8192_S8192x1_0 : (⟨S8192, .i32⟩ : BufTy).Contents (Elt F) → (⟨S8192x1, .i32⟩ : BufTy).Contents (Elt F)),
    binary main_v1745 main_v1751 main_v1752 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_369 (constant S_ .f32 0x00000000#32),
    TRef.unary (TRef.of (T := ⟨S_, .f32⟩) main_cst_369) (TRef.of (T := ⟨S_, .f32⟩) main_call68_v0) id,
    TRef.unary (TRef.of (T := ⟨S8192x1, .i1⟩) main_v1712) (TRef.of (T := ⟨S8192x512, .i1⟩) main_call68_v1) (broadcastInDim S8192x512 ![0, 1] bcast_S8192x1_S8192x512_0_1),
    TRef.unary (TRef.of (T := ⟨S_, .f32⟩) main_call68_v0) (TRef.of (T := ⟨S8192x512, .f32⟩) main_call68_v2) (broadcastInDim S8192x512 ![] bcast_S_S8192x512),
    TRef.ternary (TRef.of (T := ⟨S8192x512, .i1⟩) main_call68_v1) (TRef.of (T := ⟨S8192x512, .f32⟩) main_v1752) (TRef.of (T := ⟨S8192x512, .f32⟩) main_call68_v2) (TRef.of (T := ⟨S8192x512, .f32⟩) main_v1753) select,
    nullary main_c_370 (constantI S_ 32 0#32),
    unary main_c_370 main_v1754 (broadcastInDim S8192 ![] bcast_S_S8192 : (⟨S_, .i32⟩ : BufTy).Contents (Elt F) → (⟨S8192, .i32⟩ : BufTy).Contents (Elt F)),
    binary main_arg3 main_v1754 main_v1755 (cmpi .slt : (⟨S8192, .i32⟩ : BufTy).Contents (Elt F) → (⟨S8192, .i32⟩ : BufTy).Contents (Elt F) → (⟨S8192, .i1⟩ : BufTy).Contents (Elt F)),
    nullary main_c_371 (constantI S_ 32 8192#32),
    unary main_c_371 main_v1756 (broadcastInDim S8192 ![] bcast_S_S8192 : (⟨S_, .i32⟩ : BufTy).Contents (Elt F) → (⟨S8192, .i32⟩ : BufTy).Contents (Elt F)),
    binary main_arg3 main_v1756 main_v1757 (addi : (⟨S8192, .i32⟩ : BufTy).Contents (Elt F) → (⟨S8192, .i32⟩ : BufTy).Contents (Elt F) → (⟨S8192, .i32⟩ : BufTy).Contents (Elt F)),
    ternary main_v1755 main_v1757 main_arg3 main_v1758 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1758 main_v1759 (broadcastInDim S8192x1 ![0] bcast_S8192_S8192x1_0 : (⟨S8192, .i32⟩ : BufTy).Contents (Elt F) → (⟨S8192x1, .i32⟩ : BufTy).Contents (Elt F)),
    ternary main_v1736 main_v1759 main_v1753 main_v1760 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_13_sub : (lab2_13 (F := F)).Forall fun op => op.bufs ⊆ tcRefs τ sig := by
  unfold lab2_13
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_13_fresh : (lab2_13 (F := F)).Forall fun op => op.fresh = ∅ := by
  all_fresh lab2_13

/-- The references the line writes, in order. -/
abbrev lab2_13_W : List (Ref sig .tc) := [main_c_361, main_v1710, main_v1711, main_v1712, main_v1713, main_v1714, main_v1715, main_v1716, main_v1717, main_v1718, main_v1719, main_v1720, main_v1721, main_c_362, main_v1722, main_v1723, main_c_363, main_v1724, main_v1725, main_v1726, main_v1727, main_v1728, main_cst_364, main_call67_v0, main_call67_v1, main_call67_v2, main_v1729, main_c_365, main_v1730, main_v1731, main_c_366, main_v1732, main_v1733, main_v1734, main_v1735, main_v1736, main_v1737, main_v1738, main_v1739, main_v1740, main_v1741, main_v1742, main_v1743, main_v1744, main_v1745, main_c_367, main_v1746, main_v1747, main_c_368, main_v1748, main_v1749, main_v1750, main_v1751, main_v1752, main_cst_369, main_call68_v0, main_call68_v1, main_call68_v2, main_v1753, main_c_370, main_v1754, main_v1755, main_c_371, main_v1756, main_v1757, main_v1758, main_v1759, main_v1760]

theorem lab2_13_writes : (lab2_13 (F := F)).map (fun op => op.writes)
    = (lab2_13_W).map fun y => ({Proc.devRef (τ := τ) .tc y} : Finset (DevRef τ sig)) := rfl

/-- A reference the line does not write keeps its contents. -/
theorem lab2_13_frame (V : Valuation τ sig (Elt F)) {r : Ref sig .tc} (hr : r ∉ lab2_13_W) :
    after (lab2_13 (F := F)) V (no_index (Proc.devRef .tc r)) = V (Proc.devRef .tc r) :=
  Cert.RefLib.after_frame lab2_13_writes V hr

/-- The operations of relation label 14 in layer 2: the label's edge mask, the two products, and the two masked messages added to the running sum. -/
def lab2_14 : List (HloOp τ sig (Elt F)) :=
  [
    nullary main_c_372 (constantI S_ 32 14#32),
    unary main_c_372 main_v1761 (broadcastInDim S8192 ![] bcast_S_S8192 : (⟨S_, .i32⟩ : BufTy).Contents (Elt F) → (⟨S8192, .i32⟩ : BufTy).Contents (Elt F)),
    binary main_arg2 main_v1761 main_v1762 (cmpi .eq : (⟨S8192, .i32⟩ : BufTy).Contents (Elt F) → (⟨S8192, .i32⟩ : BufTy).Contents (Elt F) → (⟨S8192, .i1⟩ : BufTy).Contents (Elt F)),
    unary main_v1762 main_v1763 (broadcastInDim S8192x1 ![0] bcast_S8192_S8192x1_0 : (⟨S8192, .i1⟩ : BufTy).Contents (Elt F) → (⟨S8192x1, .i1⟩ : BufTy).Contents (Elt F)),
    unary main_v1039 main_v1764 ((extractStridedSlice S1x512x512 ![14, 0, 0] · slices_S40x512x512_S1x512x512_14_0_0) : (⟨S40x512x512, .f32⟩ : BufTy).Contents (Elt F) → (⟨S1x512x512, .f32⟩ : BufTy).Contents (Elt F)),
    reshape main_v1764 main_v1765 rfl shapeCasts_S1x512x512_S512x512,
    unary main_v1765 main_v1766 ((transpose S512x512 [1, 0] · transposes_S512x512_S512x512_1_0) : (⟨S512x512, .f32⟩ : BufTy).Contents (Elt F) → (⟨S512x512, .f32⟩ : BufTy).Contents (Elt F)),
    binary main_v1033 main_v1766 main_v1767 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1768 ((extractStridedSlice S1x512 ![14, 0] · slices_S40x512_S1x512_14_0) : (⟨S40x512, .f32⟩ : BufTy).Contents (Elt F) → (⟨S1x512, .f32⟩ : BufTy).Contents (Elt F)),
    reshape main_v1768 main_v1769 rfl shapeCasts_S1x512_S512,
    unary main_v1769 main_v1770 (broadcastInDim S1x512 ![1] bcast_S512_S1x512_1 : (⟨S512, .f32⟩ : BufTy).Contents (Elt F) → (⟨S1x512, .f32⟩ : BufTy).Contents (Elt F)),
    unary main_v1770 main_v1771 (broadcastInDim S8192x512 ![0, 1] bcast_S1x512_S8192x512_0_1 : (⟨S1x512, .f32⟩ : BufTy).Contents (Elt F) → (⟨S8192x512, .f32⟩ : BufTy).Contents (Elt F)),
    binary main_v1767 main_v1771 main_v1772 (addf : (⟨S8192x512, .f32⟩ : BufTy).Contents (Elt F) → (⟨S8192x512, .f32⟩ : BufTy).Contents (Elt F) → (⟨S8192x512, .f32⟩ : BufTy).Contents (Elt F)),
    nullary main_c_373 (constantI S_ 32 0#32),
    unary main_c_373 main_v1773 (broadcastInDim S8192 ![] bcast_S_S8192 : (⟨S_, .i32⟩ : BufTy).Contents (Elt F) → (⟨S8192, .i32⟩ : BufTy).Contents (Elt F)),
    binary main_arg3 main_v1773 main_v1774 (cmpi .slt : (⟨S8192, .i32⟩ : BufTy).Contents (Elt F) → (⟨S8192, .i32⟩ : BufTy).Contents (Elt F) → (⟨S8192, .i1⟩ : BufTy).Contents (Elt F)),
    nullary main_c_374 (constantI S_ 32 8192#32),
    unary main_c_374 main_v1775 (broadcastInDim S8192 ![] bcast_S_S8192 : (⟨S_, .i32⟩ : BufTy).Contents (Elt F) → (⟨S8192, .i32⟩ : BufTy).Contents (Elt F)),
    binary main_arg3 main_v1775 main_v1776 (addi : (⟨S8192, .i32⟩ : BufTy).Contents (Elt F) → (⟨S8192, .i32⟩ : BufTy).Contents (Elt F) → (⟨S8192, .i32⟩ : BufTy).Contents (Elt F)),
    ternary main_v1774 main_v1776 main_arg3 main_v1777 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1777 main_v1778 (broadcastInDim S8192x1 ![0] bcast_S8192_S8192x1_0 : (⟨S8192, .i32⟩ : BufTy).Contents (Elt F) → (⟨S8192x1, .i32⟩ : BufTy).Contents (Elt F)),
    binary main_v1772 main_v1778 main_v1779 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_375 (constant S_ .f32 0x00000000#32),
    TRef.unary (TRef.of (T := ⟨S_, .f32⟩) main_cst_375) (TRef.of (T := ⟨S_, .f32⟩) main_call69_v0) id,
    TRef.unary (TRef.of (T := ⟨S8192x1, .i1⟩) main_v1763) (TRef.of (T := ⟨S8192x512, .i1⟩) main_call69_v1) (broadcastInDim S8192x512 ![0, 1] bcast_S8192x1_S8192x512_0_1),
    TRef.unary (TRef.of (T := ⟨S_, .f32⟩) main_call69_v0) (TRef.of (T := ⟨S8192x512, .f32⟩) main_call69_v2) (broadcastInDim S8192x512 ![] bcast_S_S8192x512),
    TRef.ternary (TRef.of (T := ⟨S8192x512, .i1⟩) main_call69_v1) (TRef.of (T := ⟨S8192x512, .f32⟩) main_v1779) (TRef.of (T := ⟨S8192x512, .f32⟩) main_call69_v2) (TRef.of (T := ⟨S8192x512, .f32⟩) main_v1780) select,
    nullary main_c_376 (constantI S_ 32 0#32),
    unary main_c_376 main_v1781 (broadcastInDim S8192 ![] bcast_S_S8192 : (⟨S_, .i32⟩ : BufTy).Contents (Elt F) → (⟨S8192, .i32⟩ : BufTy).Contents (Elt F)),
    binary main_arg1 main_v1781 main_v1782 (cmpi .slt : (⟨S8192, .i32⟩ : BufTy).Contents (Elt F) → (⟨S8192, .i32⟩ : BufTy).Contents (Elt F) → (⟨S8192, .i1⟩ : BufTy).Contents (Elt F)),
    nullary main_c_377 (constantI S_ 32 8192#32),
    unary main_c_377 main_v1783 (broadcastInDim S8192 ![] bcast_S_S8192 : (⟨S_, .i32⟩ : BufTy).Contents (Elt F) → (⟨S8192, .i32⟩ : BufTy).Contents (Elt F)),
    binary main_arg1 main_v1783 main_v1784 (addi : (⟨S8192, .i32⟩ : BufTy).Contents (Elt F) → (⟨S8192, .i32⟩ : BufTy).Contents (Elt F) → (⟨S8192, .i32⟩ : BufTy).Contents (Elt F)),
    ternary main_v1782 main_v1784 main_arg1 main_v1785 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1785 main_v1786 (broadcastInDim S8192x1 ![0] bcast_S8192_S8192x1_0 : (⟨S8192, .i32⟩ : BufTy).Contents (Elt F) → (⟨S8192x1, .i32⟩ : BufTy).Contents (Elt F)),
    ternary main_v1760 main_v1786 main_v1780 main_v1787 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1788 ((extractStridedSlice S1x512x512 ![34, 0, 0] · slices_S40x512x512_S1x512x512_34_0_0) : (⟨S40x512x512, .f32⟩ : BufTy).Contents (Elt F) → (⟨S1x512x512, .f32⟩ : BufTy).Contents (Elt F)),
    reshape main_v1788 main_v1789 rfl shapeCasts_S1x512x512_S512x512,
    unary main_v1789 main_v1790 ((transpose S512x512 [1, 0] · transposes_S512x512_S512x512_1_0) : (⟨S512x512, .f32⟩ : BufTy).Contents (Elt F) → (⟨S512x512, .f32⟩ : BufTy).Contents (Elt F)),
    binary main_v1033 main_v1790 main_v1791 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1792 ((extractStridedSlice S1x512 ![34, 0] · slices_S40x512_S1x512_34_0) : (⟨S40x512, .f32⟩ : BufTy).Contents (Elt F) → (⟨S1x512, .f32⟩ : BufTy).Contents (Elt F)),
    reshape main_v1792 main_v1793 rfl shapeCasts_S1x512_S512,
    unary main_v1793 main_v1794 (broadcastInDim S1x512 ![1] bcast_S512_S1x512_1 : (⟨S512, .f32⟩ : BufTy).Contents (Elt F) → (⟨S1x512, .f32⟩ : BufTy).Contents (Elt F)),
    unary main_v1794 main_v1795 (broadcastInDim S8192x512 ![0, 1] bcast_S1x512_S8192x512_0_1 : (⟨S1x512, .f32⟩ : BufTy).Contents (Elt F) → (⟨S8192x512, .f32⟩ : BufTy).Contents (Elt F)),
    binary main_v1791 main_v1795 main_v1796 (addf : (⟨S8192x512, .f32⟩ : BufTy).Contents (Elt F) → (⟨S8192x512, .f32⟩ : BufTy).Contents (Elt F) → (⟨S8192x512, .f32⟩ : BufTy).Contents (Elt F)),
    nullary main_c_378 (constantI S_ 32 0#32),
    unary main_c_378 main_v1797 (broadcastInDim S8192 ![] bcast_S_S8192 : (⟨S_, .i32⟩ : BufTy).Contents (Elt F) → (⟨S8192, .i32⟩ : BufTy).Contents (Elt F)),
    binary main_arg1 main_v1797 main_v1798 (cmpi .slt : (⟨S8192, .i32⟩ : BufTy).Contents (Elt F) → (⟨S8192, .i32⟩ : BufTy).Contents (Elt F) → (⟨S8192, .i1⟩ : BufTy).Contents (Elt F)),
    nullary main_c_379 (constantI S_ 32 8192#32),
    unary main_c_379 main_v1799 (broadcastInDim S8192 ![] bcast_S_S8192 : (⟨S_, .i32⟩ : BufTy).Contents (Elt F) → (⟨S8192, .i32⟩ : BufTy).Contents (Elt F)),
    binary main_arg1 main_v1799 main_v1800 (addi : (⟨S8192, .i32⟩ : BufTy).Contents (Elt F) → (⟨S8192, .i32⟩ : BufTy).Contents (Elt F) → (⟨S8192, .i32⟩ : BufTy).Contents (Elt F)),
    ternary main_v1798 main_v1800 main_arg1 main_v1801 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1801 main_v1802 (broadcastInDim S8192x1 ![0] bcast_S8192_S8192x1_0 : (⟨S8192, .i32⟩ : BufTy).Contents (Elt F) → (⟨S8192x1, .i32⟩ : BufTy).Contents (Elt F)),
    binary main_v1796 main_v1802 main_v1803 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_380 (constant S_ .f32 0x00000000#32),
    TRef.unary (TRef.of (T := ⟨S_, .f32⟩) main_cst_380) (TRef.of (T := ⟨S_, .f32⟩) main_call70_v0) id,
    TRef.unary (TRef.of (T := ⟨S8192x1, .i1⟩) main_v1763) (TRef.of (T := ⟨S8192x512, .i1⟩) main_call70_v1) (broadcastInDim S8192x512 ![0, 1] bcast_S8192x1_S8192x512_0_1),
    TRef.unary (TRef.of (T := ⟨S_, .f32⟩) main_call70_v0) (TRef.of (T := ⟨S8192x512, .f32⟩) main_call70_v2) (broadcastInDim S8192x512 ![] bcast_S_S8192x512),
    TRef.ternary (TRef.of (T := ⟨S8192x512, .i1⟩) main_call70_v1) (TRef.of (T := ⟨S8192x512, .f32⟩) main_v1803) (TRef.of (T := ⟨S8192x512, .f32⟩) main_call70_v2) (TRef.of (T := ⟨S8192x512, .f32⟩) main_v1804) select,
    nullary main_c_381 (constantI S_ 32 0#32),
    unary main_c_381 main_v1805 (broadcastInDim S8192 ![] bcast_S_S8192 : (⟨S_, .i32⟩ : BufTy).Contents (Elt F) → (⟨S8192, .i32⟩ : BufTy).Contents (Elt F)),
    binary main_arg3 main_v1805 main_v1806 (cmpi .slt : (⟨S8192, .i32⟩ : BufTy).Contents (Elt F) → (⟨S8192, .i32⟩ : BufTy).Contents (Elt F) → (⟨S8192, .i1⟩ : BufTy).Contents (Elt F)),
    nullary main_c_382 (constantI S_ 32 8192#32),
    unary main_c_382 main_v1807 (broadcastInDim S8192 ![] bcast_S_S8192 : (⟨S_, .i32⟩ : BufTy).Contents (Elt F) → (⟨S8192, .i32⟩ : BufTy).Contents (Elt F)),
    binary main_arg3 main_v1807 main_v1808 (addi : (⟨S8192, .i32⟩ : BufTy).Contents (Elt F) → (⟨S8192, .i32⟩ : BufTy).Contents (Elt F) → (⟨S8192, .i32⟩ : BufTy).Contents (Elt F)),
    ternary main_v1806 main_v1808 main_arg3 main_v1809 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1809 main_v1810 (broadcastInDim S8192x1 ![0] bcast_S8192_S8192x1_0 : (⟨S8192, .i32⟩ : BufTy).Contents (Elt F) → (⟨S8192x1, .i32⟩ : BufTy).Contents (Elt F)),
    ternary main_v1787 main_v1810 main_v1804 main_v1811 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_14_sub : (lab2_14 (F := F)).Forall fun op => op.bufs ⊆ tcRefs τ sig := by
  unfold lab2_14
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_14_fresh : (lab2_14 (F := F)).Forall fun op => op.fresh = ∅ := by
  all_fresh lab2_14

/-- The references the line writes, in order. -/
abbrev lab2_14_W : List (Ref sig .tc) := [main_c_372, main_v1761, main_v1762, main_v1763, main_v1764, main_v1765, main_v1766, main_v1767, main_v1768, main_v1769, main_v1770, main_v1771, main_v1772, main_c_373, main_v1773, main_v1774, main_c_374, main_v1775, main_v1776, main_v1777, main_v1778, main_v1779, main_cst_375, main_call69_v0, main_call69_v1, main_call69_v2, main_v1780, main_c_376, main_v1781, main_v1782, main_c_377, main_v1783, main_v1784, main_v1785, main_v1786, main_v1787, main_v1788, main_v1789, main_v1790, main_v1791, main_v1792, main_v1793, main_v1794, main_v1795, main_v1796, main_c_378, main_v1797, main_v1798, main_c_379, main_v1799, main_v1800, main_v1801, main_v1802, main_v1803, main_cst_380, main_call70_v0, main_call70_v1, main_call70_v2, main_v1804, main_c_381, main_v1805, main_v1806, main_c_382, main_v1807, main_v1808, main_v1809, main_v1810, main_v1811]

theorem lab2_14_writes : (lab2_14 (F := F)).map (fun op => op.writes)
    = (lab2_14_W).map fun y => ({Proc.devRef (τ := τ) .tc y} : Finset (DevRef τ sig)) := rfl

/-- A reference the line does not write keeps its contents. -/
theorem lab2_14_frame (V : Valuation τ sig (Elt F)) {r : Ref sig .tc} (hr : r ∉ lab2_14_W) :
    after (lab2_14 (F := F)) V (no_index (Proc.devRef .tc r)) = V (Proc.devRef .tc r) :=
  Cert.RefLib.after_frame lab2_14_writes V hr

/-- The operations of relation label 15 in layer 2: the label's edge mask, the two products, and the two masked messages added to the running sum. -/
def lab2_15 : List (HloOp τ sig (Elt F)) :=
  [
    nullary main_c_383 (constantI S_ 32 15#32),
    unary main_c_383 main_v1812 (broadcastInDim S8192 ![] bcast_S_S8192 : (⟨S_, .i32⟩ : BufTy).Contents (Elt F) → (⟨S8192, .i32⟩ : BufTy).Contents (Elt F)),
    binary main_arg2 main_v1812 main_v1813 (cmpi .eq : (⟨S8192, .i32⟩ : BufTy).Contents (Elt F) → (⟨S8192, .i32⟩ : BufTy).Contents (Elt F) → (⟨S8192, .i1⟩ : BufTy).Contents (Elt F)),
    unary main_v1813 main_v1814 (broadcastInDim S8192x1 ![0] bcast_S8192_S8192x1_0 : (⟨S8192, .i1⟩ : BufTy).Contents (Elt F) → (⟨S8192x1, .i1⟩ : BufTy).Contents (Elt F)),
    unary main_v1039 main_v1815 ((extractStridedSlice S1x512x512 ![15, 0, 0] · slices_S40x512x512_S1x512x512_15_0_0) : (⟨S40x512x512, .f32⟩ : BufTy).Contents (Elt F) → (⟨S1x512x512, .f32⟩ : BufTy).Contents (Elt F)),
    reshape main_v1815 main_v1816 rfl shapeCasts_S1x512x512_S512x512,
    unary main_v1816 main_v1817 ((transpose S512x512 [1, 0] · transposes_S512x512_S512x512_1_0) : (⟨S512x512, .f32⟩ : BufTy).Contents (Elt F) → (⟨S512x512, .f32⟩ : BufTy).Contents (Elt F)),
    binary main_v1033 main_v1817 main_v1818 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1819 ((extractStridedSlice S1x512 ![15, 0] · slices_S40x512_S1x512_15_0) : (⟨S40x512, .f32⟩ : BufTy).Contents (Elt F) → (⟨S1x512, .f32⟩ : BufTy).Contents (Elt F)),
    reshape main_v1819 main_v1820 rfl shapeCasts_S1x512_S512,
    unary main_v1820 main_v1821 (broadcastInDim S1x512 ![1] bcast_S512_S1x512_1 : (⟨S512, .f32⟩ : BufTy).Contents (Elt F) → (⟨S1x512, .f32⟩ : BufTy).Contents (Elt F)),
    unary main_v1821 main_v1822 (broadcastInDim S8192x512 ![0, 1] bcast_S1x512_S8192x512_0_1 : (⟨S1x512, .f32⟩ : BufTy).Contents (Elt F) → (⟨S8192x512, .f32⟩ : BufTy).Contents (Elt F)),
    binary main_v1818 main_v1822 main_v1823 (addf : (⟨S8192x512, .f32⟩ : BufTy).Contents (Elt F) → (⟨S8192x512, .f32⟩ : BufTy).Contents (Elt F) → (⟨S8192x512, .f32⟩ : BufTy).Contents (Elt F)),
    nullary main_c_384 (constantI S_ 32 0#32),
    unary main_c_384 main_v1824 (broadcastInDim S8192 ![] bcast_S_S8192 : (⟨S_, .i32⟩ : BufTy).Contents (Elt F) → (⟨S8192, .i32⟩ : BufTy).Contents (Elt F)),
    binary main_arg3 main_v1824 main_v1825 (cmpi .slt : (⟨S8192, .i32⟩ : BufTy).Contents (Elt F) → (⟨S8192, .i32⟩ : BufTy).Contents (Elt F) → (⟨S8192, .i1⟩ : BufTy).Contents (Elt F)),
    nullary main_c_385 (constantI S_ 32 8192#32),
    unary main_c_385 main_v1826 (broadcastInDim S8192 ![] bcast_S_S8192 : (⟨S_, .i32⟩ : BufTy).Contents (Elt F) → (⟨S8192, .i32⟩ : BufTy).Contents (Elt F)),
    binary main_arg3 main_v1826 main_v1827 (addi : (⟨S8192, .i32⟩ : BufTy).Contents (Elt F) → (⟨S8192, .i32⟩ : BufTy).Contents (Elt F) → (⟨S8192, .i32⟩ : BufTy).Contents (Elt F)),
    ternary main_v1825 main_v1827 main_arg3 main_v1828 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1828 main_v1829 (broadcastInDim S8192x1 ![0] bcast_S8192_S8192x1_0 : (⟨S8192, .i32⟩ : BufTy).Contents (Elt F) → (⟨S8192x1, .i32⟩ : BufTy).Contents (Elt F)),
    binary main_v1823 main_v1829 main_v1830 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_386 (constant S_ .f32 0x00000000#32),
    TRef.unary (TRef.of (T := ⟨S_, .f32⟩) main_cst_386) (TRef.of (T := ⟨S_, .f32⟩) main_call71_v0) id,
    TRef.unary (TRef.of (T := ⟨S8192x1, .i1⟩) main_v1814) (TRef.of (T := ⟨S8192x512, .i1⟩) main_call71_v1) (broadcastInDim S8192x512 ![0, 1] bcast_S8192x1_S8192x512_0_1),
    TRef.unary (TRef.of (T := ⟨S_, .f32⟩) main_call71_v0) (TRef.of (T := ⟨S8192x512, .f32⟩) main_call71_v2) (broadcastInDim S8192x512 ![] bcast_S_S8192x512),
    TRef.ternary (TRef.of (T := ⟨S8192x512, .i1⟩) main_call71_v1) (TRef.of (T := ⟨S8192x512, .f32⟩) main_v1830) (TRef.of (T := ⟨S8192x512, .f32⟩) main_call71_v2) (TRef.of (T := ⟨S8192x512, .f32⟩) main_v1831) select,
    nullary main_c_387 (constantI S_ 32 0#32),
    unary main_c_387 main_v1832 (broadcastInDim S8192 ![] bcast_S_S8192 : (⟨S_, .i32⟩ : BufTy).Contents (Elt F) → (⟨S8192, .i32⟩ : BufTy).Contents (Elt F)),
    binary main_arg1 main_v1832 main_v1833 (cmpi .slt : (⟨S8192, .i32⟩ : BufTy).Contents (Elt F) → (⟨S8192, .i32⟩ : BufTy).Contents (Elt F) → (⟨S8192, .i1⟩ : BufTy).Contents (Elt F)),
    nullary main_c_388 (constantI S_ 32 8192#32),
    unary main_c_388 main_v1834 (broadcastInDim S8192 ![] bcast_S_S8192 : (⟨S_, .i32⟩ : BufTy).Contents (Elt F) → (⟨S8192, .i32⟩ : BufTy).Contents (Elt F)),
    binary main_arg1 main_v1834 main_v1835 (addi : (⟨S8192, .i32⟩ : BufTy).Contents (Elt F) → (⟨S8192, .i32⟩ : BufTy).Contents (Elt F) → (⟨S8192, .i32⟩ : BufTy).Contents (Elt F)),
    ternary main_v1833 main_v1835 main_arg1 main_v1836 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1836 main_v1837 (broadcastInDim S8192x1 ![0] bcast_S8192_S8192x1_0 : (⟨S8192, .i32⟩ : BufTy).Contents (Elt F) → (⟨S8192x1, .i32⟩ : BufTy).Contents (Elt F)),
    ternary main_v1811 main_v1837 main_v1831 main_v1838 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1839 ((extractStridedSlice S1x512x512 ![35, 0, 0] · slices_S40x512x512_S1x512x512_35_0_0) : (⟨S40x512x512, .f32⟩ : BufTy).Contents (Elt F) → (⟨S1x512x512, .f32⟩ : BufTy).Contents (Elt F)),
    reshape main_v1839 main_v1840 rfl shapeCasts_S1x512x512_S512x512,
    unary main_v1840 main_v1841 ((transpose S512x512 [1, 0] · transposes_S512x512_S512x512_1_0) : (⟨S512x512, .f32⟩ : BufTy).Contents (Elt F) → (⟨S512x512, .f32⟩ : BufTy).Contents (Elt F)),
    binary main_v1033 main_v1841 main_v1842 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1843 ((extractStridedSlice S1x512 ![35, 0] · slices_S40x512_S1x512_35_0) : (⟨S40x512, .f32⟩ : BufTy).Contents (Elt F) → (⟨S1x512, .f32⟩ : BufTy).Contents (Elt F)),
    reshape main_v1843 main_v1844 rfl shapeCasts_S1x512_S512,
    unary main_v1844 main_v1845 (broadcastInDim S1x512 ![1] bcast_S512_S1x512_1 : (⟨S512, .f32⟩ : BufTy).Contents (Elt F) → (⟨S1x512, .f32⟩ : BufTy).Contents (Elt F)),
    unary main_v1845 main_v1846 (broadcastInDim S8192x512 ![0, 1] bcast_S1x512_S8192x512_0_1 : (⟨S1x512, .f32⟩ : BufTy).Contents (Elt F) → (⟨S8192x512, .f32⟩ : BufTy).Contents (Elt F)),
    binary main_v1842 main_v1846 main_v1847 (addf : (⟨S8192x512, .f32⟩ : BufTy).Contents (Elt F) → (⟨S8192x512, .f32⟩ : BufTy).Contents (Elt F) → (⟨S8192x512, .f32⟩ : BufTy).Contents (Elt F)),
    nullary main_c_389 (constantI S_ 32 0#32),
    unary main_c_389 main_v1848 (broadcastInDim S8192 ![] bcast_S_S8192 : (⟨S_, .i32⟩ : BufTy).Contents (Elt F) → (⟨S8192, .i32⟩ : BufTy).Contents (Elt F)),
    binary main_arg1 main_v1848 main_v1849 (cmpi .slt : (⟨S8192, .i32⟩ : BufTy).Contents (Elt F) → (⟨S8192, .i32⟩ : BufTy).Contents (Elt F) → (⟨S8192, .i1⟩ : BufTy).Contents (Elt F)),
    nullary main_c_390 (constantI S_ 32 8192#32),
    unary main_c_390 main_v1850 (broadcastInDim S8192 ![] bcast_S_S8192 : (⟨S_, .i32⟩ : BufTy).Contents (Elt F) → (⟨S8192, .i32⟩ : BufTy).Contents (Elt F)),
    binary main_arg1 main_v1850 main_v1851 (addi : (⟨S8192, .i32⟩ : BufTy).Contents (Elt F) → (⟨S8192, .i32⟩ : BufTy).Contents (Elt F) → (⟨S8192, .i32⟩ : BufTy).Contents (Elt F)),
    ternary main_v1849 main_v1851 main_arg1 main_v1852 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1852 main_v1853 (broadcastInDim S8192x1 ![0] bcast_S8192_S8192x1_0 : (⟨S8192, .i32⟩ : BufTy).Contents (Elt F) → (⟨S8192x1, .i32⟩ : BufTy).Contents (Elt F)),
    binary main_v1847 main_v1853 main_v1854 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_391 (constant S_ .f32 0x00000000#32),
    TRef.unary (TRef.of (T := ⟨S_, .f32⟩) main_cst_391) (TRef.of (T := ⟨S_, .f32⟩) main_call72_v0) id,
    TRef.unary (TRef.of (T := ⟨S8192x1, .i1⟩) main_v1814) (TRef.of (T := ⟨S8192x512, .i1⟩) main_call72_v1) (broadcastInDim S8192x512 ![0, 1] bcast_S8192x1_S8192x512_0_1),
    TRef.unary (TRef.of (T := ⟨S_, .f32⟩) main_call72_v0) (TRef.of (T := ⟨S8192x512, .f32⟩) main_call72_v2) (broadcastInDim S8192x512 ![] bcast_S_S8192x512),
    TRef.ternary (TRef.of (T := ⟨S8192x512, .i1⟩) main_call72_v1) (TRef.of (T := ⟨S8192x512, .f32⟩) main_v1854) (TRef.of (T := ⟨S8192x512, .f32⟩) main_call72_v2) (TRef.of (T := ⟨S8192x512, .f32⟩) main_v1855) select,
    nullary main_c_392 (constantI S_ 32 0#32),
    unary main_c_392 main_v1856 (broadcastInDim S8192 ![] bcast_S_S8192 : (⟨S_, .i32⟩ : BufTy).Contents (Elt F) → (⟨S8192, .i32⟩ : BufTy).Contents (Elt F)),
    binary main_arg3 main_v1856 main_v1857 (cmpi .slt : (⟨S8192, .i32⟩ : BufTy).Contents (Elt F) → (⟨S8192, .i32⟩ : BufTy).Contents (Elt F) → (⟨S8192, .i1⟩ : BufTy).Contents (Elt F)),
    nullary main_c_393 (constantI S_ 32 8192#32),
    unary main_c_393 main_v1858 (broadcastInDim S8192 ![] bcast_S_S8192 : (⟨S_, .i32⟩ : BufTy).Contents (Elt F) → (⟨S8192, .i32⟩ : BufTy).Contents (Elt F)),
    binary main_arg3 main_v1858 main_v1859 (addi : (⟨S8192, .i32⟩ : BufTy).Contents (Elt F) → (⟨S8192, .i32⟩ : BufTy).Contents (Elt F) → (⟨S8192, .i32⟩ : BufTy).Contents (Elt F)),
    ternary main_v1857 main_v1859 main_arg3 main_v1860 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1860 main_v1861 (broadcastInDim S8192x1 ![0] bcast_S8192_S8192x1_0 : (⟨S8192, .i32⟩ : BufTy).Contents (Elt F) → (⟨S8192x1, .i32⟩ : BufTy).Contents (Elt F)),
    ternary main_v1838 main_v1861 main_v1855 main_v1862 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_15_sub : (lab2_15 (F := F)).Forall fun op => op.bufs ⊆ tcRefs τ sig := by
  unfold lab2_15
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_15_fresh : (lab2_15 (F := F)).Forall fun op => op.fresh = ∅ := by
  all_fresh lab2_15

/-- The references the line writes, in order. -/
abbrev lab2_15_W : List (Ref sig .tc) := [main_c_383, main_v1812, main_v1813, main_v1814, main_v1815, main_v1816, main_v1817, main_v1818, main_v1819, main_v1820, main_v1821, main_v1822, main_v1823, main_c_384, main_v1824, main_v1825, main_c_385, main_v1826, main_v1827, main_v1828, main_v1829, main_v1830, main_cst_386, main_call71_v0, main_call71_v1, main_call71_v2, main_v1831, main_c_387, main_v1832, main_v1833, main_c_388, main_v1834, main_v1835, main_v1836, main_v1837, main_v1838, main_v1839, main_v1840, main_v1841, main_v1842, main_v1843, main_v1844, main_v1845, main_v1846, main_v1847, main_c_389, main_v1848, main_v1849, main_c_390, main_v1850, main_v1851, main_v1852, main_v1853, main_v1854, main_cst_391, main_call72_v0, main_call72_v1, main_call72_v2, main_v1855, main_c_392, main_v1856, main_v1857, main_c_393, main_v1858, main_v1859, main_v1860, main_v1861, main_v1862]

theorem lab2_15_writes : (lab2_15 (F := F)).map (fun op => op.writes)
    = (lab2_15_W).map fun y => ({Proc.devRef (τ := τ) .tc y} : Finset (DevRef τ sig)) := rfl

/-- A reference the line does not write keeps its contents. -/
theorem lab2_15_frame (V : Valuation τ sig (Elt F)) {r : Ref sig .tc} (hr : r ∉ lab2_15_W) :
    after (lab2_15 (F := F)) V (no_index (Proc.devRef .tc r)) = V (Proc.devRef .tc r) :=
  Cert.RefLib.after_frame lab2_15_writes V hr

/-- The operations of relation label 16 in layer 2: the label's edge mask, the two products, and the two masked messages added to the running sum. -/
def lab2_16 : List (HloOp τ sig (Elt F)) :=
  [
    nullary main_c_394 (constantI S_ 32 16#32),
    unary main_c_394 main_v1863 (broadcastInDim S8192 ![] bcast_S_S8192 : (⟨S_, .i32⟩ : BufTy).Contents (Elt F) → (⟨S8192, .i32⟩ : BufTy).Contents (Elt F)),
    binary main_arg2 main_v1863 main_v1864 (cmpi .eq : (⟨S8192, .i32⟩ : BufTy).Contents (Elt F) → (⟨S8192, .i32⟩ : BufTy).Contents (Elt F) → (⟨S8192, .i1⟩ : BufTy).Contents (Elt F)),
    unary main_v1864 main_v1865 (broadcastInDim S8192x1 ![0] bcast_S8192_S8192x1_0 : (⟨S8192, .i1⟩ : BufTy).Contents (Elt F) → (⟨S8192x1, .i1⟩ : BufTy).Contents (Elt F)),
    unary main_v1039 main_v1866 ((extractStridedSlice S1x512x512 ![16, 0, 0] · slices_S40x512x512_S1x512x512_16_0_0) : (⟨S40x512x512, .f32⟩ : BufTy).Contents (Elt F) → (⟨S1x512x512, .f32⟩ : BufTy).Contents (Elt F)),
    reshape main_v1866 main_v1867 rfl shapeCasts_S1x512x512_S512x512,
    unary main_v1867 main_v1868 ((transpose S512x512 [1, 0] · transposes_S512x512_S512x512_1_0) : (⟨S512x512, .f32⟩ : BufTy).Contents (Elt F) → (⟨S512x512, .f32⟩ : BufTy).Contents (Elt F)),
    binary main_v1033 main_v1868 main_v1869 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1870 ((extractStridedSlice S1x512 ![16, 0] · slices_S40x512_S1x512_16_0) : (⟨S40x512, .f32⟩ : BufTy).Contents (Elt F) → (⟨S1x512, .f32⟩ : BufTy).Contents (Elt F)),
    reshape main_v1870 main_v1871 rfl shapeCasts_S1x512_S512,
    unary main_v1871 main_v1872 (broadcastInDim S1x512 ![1] bcast_S512_S1x512_1 : (⟨S512, .f32⟩ : BufTy).Contents (Elt F) → (⟨S1x512, .f32⟩ : BufTy).Contents (Elt F)),
    unary main_v1872 main_v1873 (broadcastInDim S8192x512 ![0, 1] bcast_S1x512_S8192x512_0_1 : (⟨S1x512, .f32⟩ : BufTy).Contents (Elt F) → (⟨S8192x512, .f32⟩ : BufTy).Contents (Elt F)),
    binary main_v1869 main_v1873 main_v1874 (addf : (⟨S8192x512, .f32⟩ : BufTy).Contents (Elt F) → (⟨S8192x512, .f32⟩ : BufTy).Contents (Elt F) → (⟨S8192x512, .f32⟩ : BufTy).Contents (Elt F)),
    nullary main_c_395 (constantI S_ 32 0#32),
    unary main_c_395 main_v1875 (broadcastInDim S8192 ![] bcast_S_S8192 : (⟨S_, .i32⟩ : BufTy).Contents (Elt F) → (⟨S8192, .i32⟩ : BufTy).Contents (Elt F)),
    binary main_arg3 main_v1875 main_v1876 (cmpi .slt : (⟨S8192, .i32⟩ : BufTy).Contents (Elt F) → (⟨S8192, .i32⟩ : BufTy).Contents (Elt F) → (⟨S8192, .i1⟩ : BufTy).Contents (Elt F)),
    nullary main_c_396 (constantI S_ 32 8192#32),
    unary main_c_396 main_v1877 (broadcastInDim S8192 ![] bcast_S_S8192 : (⟨S_, .i32⟩ : BufTy).Contents (Elt F) → (⟨S8192, .i32⟩ : BufTy).Contents (Elt F)),
    binary main_arg3 main_v1877 main_v1878 (addi : (⟨S8192, .i32⟩ : BufTy).Contents (Elt F) → (⟨S8192, .i32⟩ : BufTy).Contents (Elt F) → (⟨S8192, .i32⟩ : BufTy).Contents (Elt F)),
    ternary main_v1876 main_v1878 main_arg3 main_v1879 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1879 main_v1880 (broadcastInDim S8192x1 ![0] bcast_S8192_S8192x1_0 : (⟨S8192, .i32⟩ : BufTy).Contents (Elt F) → (⟨S8192x1, .i32⟩ : BufTy).Contents (Elt F)),
    binary main_v1874 main_v1880 main_v1881 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_397 (constant S_ .f32 0x00000000#32),
    TRef.unary (TRef.of (T := ⟨S_, .f32⟩) main_cst_397) (TRef.of (T := ⟨S_, .f32⟩) main_call73_v0) id,
    TRef.unary (TRef.of (T := ⟨S8192x1, .i1⟩) main_v1865) (TRef.of (T := ⟨S8192x512, .i1⟩) main_call73_v1) (broadcastInDim S8192x512 ![0, 1] bcast_S8192x1_S8192x512_0_1),
    TRef.unary (TRef.of (T := ⟨S_, .f32⟩) main_call73_v0) (TRef.of (T := ⟨S8192x512, .f32⟩) main_call73_v2) (broadcastInDim S8192x512 ![] bcast_S_S8192x512),
    TRef.ternary (TRef.of (T := ⟨S8192x512, .i1⟩) main_call73_v1) (TRef.of (T := ⟨S8192x512, .f32⟩) main_v1881) (TRef.of (T := ⟨S8192x512, .f32⟩) main_call73_v2) (TRef.of (T := ⟨S8192x512, .f32⟩) main_v1882) select,
    nullary main_c_398 (constantI S_ 32 0#32),
    unary main_c_398 main_v1883 (broadcastInDim S8192 ![] bcast_S_S8192 : (⟨S_, .i32⟩ : BufTy).Contents (Elt F) → (⟨S8192, .i32⟩ : BufTy).Contents (Elt F)),
    binary main_arg1 main_v1883 main_v1884 (cmpi .slt : (⟨S8192, .i32⟩ : BufTy).Contents (Elt F) → (⟨S8192, .i32⟩ : BufTy).Contents (Elt F) → (⟨S8192, .i1⟩ : BufTy).Contents (Elt F)),
    nullary main_c_399 (constantI S_ 32 8192#32),
    unary main_c_399 main_v1885 (broadcastInDim S8192 ![] bcast_S_S8192 : (⟨S_, .i32⟩ : BufTy).Contents (Elt F) → (⟨S8192, .i32⟩ : BufTy).Contents (Elt F)),
    binary main_arg1 main_v1885 main_v1886 (addi : (⟨S8192, .i32⟩ : BufTy).Contents (Elt F) → (⟨S8192, .i32⟩ : BufTy).Contents (Elt F) → (⟨S8192, .i32⟩ : BufTy).Contents (Elt F)),
    ternary main_v1884 main_v1886 main_arg1 main_v1887 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1887 main_v1888 (broadcastInDim S8192x1 ![0] bcast_S8192_S8192x1_0 : (⟨S8192, .i32⟩ : BufTy).Contents (Elt F) → (⟨S8192x1, .i32⟩ : BufTy).Contents (Elt F)),
    ternary main_v1862 main_v1888 main_v1882 main_v1889 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1890 ((extractStridedSlice S1x512x512 ![36, 0, 0] · slices_S40x512x512_S1x512x512_36_0_0) : (⟨S40x512x512, .f32⟩ : BufTy).Contents (Elt F) → (⟨S1x512x512, .f32⟩ : BufTy).Contents (Elt F)),
    reshape main_v1890 main_v1891 rfl shapeCasts_S1x512x512_S512x512,
    unary main_v1891 main_v1892 ((transpose S512x512 [1, 0] · transposes_S512x512_S512x512_1_0) : (⟨S512x512, .f32⟩ : BufTy).Contents (Elt F) → (⟨S512x512, .f32⟩ : BufTy).Contents (Elt F)),
    binary main_v1033 main_v1892 main_v1893 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1894 ((extractStridedSlice S1x512 ![36, 0] · slices_S40x512_S1x512_36_0) : (⟨S40x512, .f32⟩ : BufTy).Contents (Elt F) → (⟨S1x512, .f32⟩ : BufTy).Contents (Elt F)),
    reshape main_v1894 main_v1895 rfl shapeCasts_S1x512_S512,
    unary main_v1895 main_v1896 (broadcastInDim S1x512 ![1] bcast_S512_S1x512_1 : (⟨S512, .f32⟩ : BufTy).Contents (Elt F) → (⟨S1x512, .f32⟩ : BufTy).Contents (Elt F)),
    unary main_v1896 main_v1897 (broadcastInDim S8192x512 ![0, 1] bcast_S1x512_S8192x512_0_1 : (⟨S1x512, .f32⟩ : BufTy).Contents (Elt F) → (⟨S8192x512, .f32⟩ : BufTy).Contents (Elt F)),
    binary main_v1893 main_v1897 main_v1898 (addf : (⟨S8192x512, .f32⟩ : BufTy).Contents (Elt F) → (⟨S8192x512, .f32⟩ : BufTy).Contents (Elt F) → (⟨S8192x512, .f32⟩ : BufTy).Contents (Elt F)),
    nullary main_c_400 (constantI S_ 32 0#32),
    unary main_c_400 main_v1899 (broadcastInDim S8192 ![] bcast_S_S8192 : (⟨S_, .i32⟩ : BufTy).Contents (Elt F) → (⟨S8192, .i32⟩ : BufTy).Contents (Elt F)),
    binary main_arg1 main_v1899 main_v1900 (cmpi .slt : (⟨S8192, .i32⟩ : BufTy).Contents (Elt F) → (⟨S8192, .i32⟩ : BufTy).Contents (Elt F) → (⟨S8192, .i1⟩ : BufTy).Contents (Elt F)),
    nullary main_c_401 (constantI S_ 32 8192#32),
    unary main_c_401 main_v1901 (broadcastInDim S8192 ![] bcast_S_S8192 : (⟨S_, .i32⟩ : BufTy).Contents (Elt F) → (⟨S8192, .i32⟩ : BufTy).Contents (Elt F)),
    binary main_arg1 main_v1901 main_v1902 (addi : (⟨S8192, .i32⟩ : BufTy).Contents (Elt F) → (⟨S8192, .i32⟩ : BufTy).Contents (Elt F) → (⟨S8192, .i32⟩ : BufTy).Contents (Elt F)),
    ternary main_v1900 main_v1902 main_arg1 main_v1903 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1903 main_v1904 (broadcastInDim S8192x1 ![0] bcast_S8192_S8192x1_0 : (⟨S8192, .i32⟩ : BufTy).Contents (Elt F) → (⟨S8192x1, .i32⟩ : BufTy).Contents (Elt F)),
    binary main_v1898 main_v1904 main_v1905 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_402 (constant S_ .f32 0x00000000#32),
    TRef.unary (TRef.of (T := ⟨S_, .f32⟩) main_cst_402) (TRef.of (T := ⟨S_, .f32⟩) main_call74_v0) id,
    TRef.unary (TRef.of (T := ⟨S8192x1, .i1⟩) main_v1865) (TRef.of (T := ⟨S8192x512, .i1⟩) main_call74_v1) (broadcastInDim S8192x512 ![0, 1] bcast_S8192x1_S8192x512_0_1),
    TRef.unary (TRef.of (T := ⟨S_, .f32⟩) main_call74_v0) (TRef.of (T := ⟨S8192x512, .f32⟩) main_call74_v2) (broadcastInDim S8192x512 ![] bcast_S_S8192x512),
    TRef.ternary (TRef.of (T := ⟨S8192x512, .i1⟩) main_call74_v1) (TRef.of (T := ⟨S8192x512, .f32⟩) main_v1905) (TRef.of (T := ⟨S8192x512, .f32⟩) main_call74_v2) (TRef.of (T := ⟨S8192x512, .f32⟩) main_v1906) select,
    nullary main_c_403 (constantI S_ 32 0#32),
    unary main_c_403 main_v1907 (broadcastInDim S8192 ![] bcast_S_S8192 : (⟨S_, .i32⟩ : BufTy).Contents (Elt F) → (⟨S8192, .i32⟩ : BufTy).Contents (Elt F)),
    binary main_arg3 main_v1907 main_v1908 (cmpi .slt : (⟨S8192, .i32⟩ : BufTy).Contents (Elt F) → (⟨S8192, .i32⟩ : BufTy).Contents (Elt F) → (⟨S8192, .i1⟩ : BufTy).Contents (Elt F)),
    nullary main_c_404 (constantI S_ 32 8192#32),
    unary main_c_404 main_v1909 (broadcastInDim S8192 ![] bcast_S_S8192 : (⟨S_, .i32⟩ : BufTy).Contents (Elt F) → (⟨S8192, .i32⟩ : BufTy).Contents (Elt F)),
    binary main_arg3 main_v1909 main_v1910 (addi : (⟨S8192, .i32⟩ : BufTy).Contents (Elt F) → (⟨S8192, .i32⟩ : BufTy).Contents (Elt F) → (⟨S8192, .i32⟩ : BufTy).Contents (Elt F)),
    ternary main_v1908 main_v1910 main_arg3 main_v1911 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1911 main_v1912 (broadcastInDim S8192x1 ![0] bcast_S8192_S8192x1_0 : (⟨S8192, .i32⟩ : BufTy).Contents (Elt F) → (⟨S8192x1, .i32⟩ : BufTy).Contents (Elt F)),
    ternary main_v1889 main_v1912 main_v1906 main_v1913 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_16_sub : (lab2_16 (F := F)).Forall fun op => op.bufs ⊆ tcRefs τ sig := by
  unfold lab2_16
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_16_fresh : (lab2_16 (F := F)).Forall fun op => op.fresh = ∅ := by
  all_fresh lab2_16

/-- The references the line writes, in order. -/
abbrev lab2_16_W : List (Ref sig .tc) := [main_c_394, main_v1863, main_v1864, main_v1865, main_v1866, main_v1867, main_v1868, main_v1869, main_v1870, main_v1871, main_v1872, main_v1873, main_v1874, main_c_395, main_v1875, main_v1876, main_c_396, main_v1877, main_v1878, main_v1879, main_v1880, main_v1881, main_cst_397, main_call73_v0, main_call73_v1, main_call73_v2, main_v1882, main_c_398, main_v1883, main_v1884, main_c_399, main_v1885, main_v1886, main_v1887, main_v1888, main_v1889, main_v1890, main_v1891, main_v1892, main_v1893, main_v1894, main_v1895, main_v1896, main_v1897, main_v1898, main_c_400, main_v1899, main_v1900, main_c_401, main_v1901, main_v1902, main_v1903, main_v1904, main_v1905, main_cst_402, main_call74_v0, main_call74_v1, main_call74_v2, main_v1906, main_c_403, main_v1907, main_v1908, main_c_404, main_v1909, main_v1910, main_v1911, main_v1912, main_v1913]

theorem lab2_16_writes : (lab2_16 (F := F)).map (fun op => op.writes)
    = (lab2_16_W).map fun y => ({Proc.devRef (τ := τ) .tc y} : Finset (DevRef τ sig)) := rfl

/-- A reference the line does not write keeps its contents. -/
theorem lab2_16_frame (V : Valuation τ sig (Elt F)) {r : Ref sig .tc} (hr : r ∉ lab2_16_W) :
    after (lab2_16 (F := F)) V (no_index (Proc.devRef .tc r)) = V (Proc.devRef .tc r) :=
  Cert.RefLib.after_frame lab2_16_writes V hr

/-- The operations of relation label 17 in layer 2: the label's edge mask, the two products, and the two masked messages added to the running sum. -/
def lab2_17 : List (HloOp τ sig (Elt F)) :=
  [
    nullary main_c_405 (constantI S_ 32 17#32),
    unary main_c_405 main_v1914 (broadcastInDim S8192 ![] bcast_S_S8192 : (⟨S_, .i32⟩ : BufTy).Contents (Elt F) → (⟨S8192, .i32⟩ : BufTy).Contents (Elt F)),
    binary main_arg2 main_v1914 main_v1915 (cmpi .eq : (⟨S8192, .i32⟩ : BufTy).Contents (Elt F) → (⟨S8192, .i32⟩ : BufTy).Contents (Elt F) → (⟨S8192, .i1⟩ : BufTy).Contents (Elt F)),
    unary main_v1915 main_v1916 (broadcastInDim S8192x1 ![0] bcast_S8192_S8192x1_0 : (⟨S8192, .i1⟩ : BufTy).Contents (Elt F) → (⟨S8192x1, .i1⟩ : BufTy).Contents (Elt F)),
    unary main_v1039 main_v1917 ((extractStridedSlice S1x512x512 ![17, 0, 0] · slices_S40x512x512_S1x512x512_17_0_0) : (⟨S40x512x512, .f32⟩ : BufTy).Contents (Elt F) → (⟨S1x512x512, .f32⟩ : BufTy).Contents (Elt F)),
    reshape main_v1917 main_v1918 rfl shapeCasts_S1x512x512_S512x512,
    unary main_v1918 main_v1919 ((transpose S512x512 [1, 0] · transposes_S512x512_S512x512_1_0) : (⟨S512x512, .f32⟩ : BufTy).Contents (Elt F) → (⟨S512x512, .f32⟩ : BufTy).Contents (Elt F)),
    binary main_v1033 main_v1919 main_v1920 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1921 ((extractStridedSlice S1x512 ![17, 0] · slices_S40x512_S1x512_17_0) : (⟨S40x512, .f32⟩ : BufTy).Contents (Elt F) → (⟨S1x512, .f32⟩ : BufTy).Contents (Elt F)),
    reshape main_v1921 main_v1922 rfl shapeCasts_S1x512_S512,
    unary main_v1922 main_v1923 (broadcastInDim S1x512 ![1] bcast_S512_S1x512_1 : (⟨S512, .f32⟩ : BufTy).Contents (Elt F) → (⟨S1x512, .f32⟩ : BufTy).Contents (Elt F)),
    unary main_v1923 main_v1924 (broadcastInDim S8192x512 ![0, 1] bcast_S1x512_S8192x512_0_1 : (⟨S1x512, .f32⟩ : BufTy).Contents (Elt F) → (⟨S8192x512, .f32⟩ : BufTy).Contents (Elt F)),
    binary main_v1920 main_v1924 main_v1925 (addf : (⟨S8192x512, .f32⟩ : BufTy).Contents (Elt F) → (⟨S8192x512, .f32⟩ : BufTy).Contents (Elt F) → (⟨S8192x512, .f32⟩ : BufTy).Contents (Elt F)),
    nullary main_c_406 (constantI S_ 32 0#32),
    unary main_c_406 main_v1926 (broadcastInDim S8192 ![] bcast_S_S8192 : (⟨S_, .i32⟩ : BufTy).Contents (Elt F) → (⟨S8192, .i32⟩ : BufTy).Contents (Elt F)),
    binary main_arg3 main_v1926 main_v1927 (cmpi .slt : (⟨S8192, .i32⟩ : BufTy).Contents (Elt F) → (⟨S8192, .i32⟩ : BufTy).Contents (Elt F) → (⟨S8192, .i1⟩ : BufTy).Contents (Elt F)),
    nullary main_c_407 (constantI S_ 32 8192#32),
    unary main_c_407 main_v1928 (broadcastInDim S8192 ![] bcast_S_S8192 : (⟨S_, .i32⟩ : BufTy).Contents (Elt F) → (⟨S8192, .i32⟩ : BufTy).Contents (Elt F)),
    binary main_arg3 main_v1928 main_v1929 (addi : (⟨S8192, .i32⟩ : BufTy).Contents (Elt F) → (⟨S8192, .i32⟩ : BufTy).Contents (Elt F) → (⟨S8192, .i32⟩ : BufTy).Contents (Elt F)),
    ternary main_v1927 main_v1929 main_arg3 main_v1930 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1930 main_v1931 (broadcastInDim S8192x1 ![0] bcast_S8192_S8192x1_0 : (⟨S8192, .i32⟩ : BufTy).Contents (Elt F) → (⟨S8192x1, .i32⟩ : BufTy).Contents (Elt F)),
    binary main_v1925 main_v1931 main_v1932 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_408 (constant S_ .f32 0x00000000#32),
    TRef.unary (TRef.of (T := ⟨S_, .f32⟩) main_cst_408) (TRef.of (T := ⟨S_, .f32⟩) main_call75_v0) id,
    TRef.unary (TRef.of (T := ⟨S8192x1, .i1⟩) main_v1916) (TRef.of (T := ⟨S8192x512, .i1⟩) main_call75_v1) (broadcastInDim S8192x512 ![0, 1] bcast_S8192x1_S8192x512_0_1),
    TRef.unary (TRef.of (T := ⟨S_, .f32⟩) main_call75_v0) (TRef.of (T := ⟨S8192x512, .f32⟩) main_call75_v2) (broadcastInDim S8192x512 ![] bcast_S_S8192x512),
    TRef.ternary (TRef.of (T := ⟨S8192x512, .i1⟩) main_call75_v1) (TRef.of (T := ⟨S8192x512, .f32⟩) main_v1932) (TRef.of (T := ⟨S8192x512, .f32⟩) main_call75_v2) (TRef.of (T := ⟨S8192x512, .f32⟩) main_v1933) select,
    nullary main_c_409 (constantI S_ 32 0#32),
    unary main_c_409 main_v1934 (broadcastInDim S8192 ![] bcast_S_S8192 : (⟨S_, .i32⟩ : BufTy).Contents (Elt F) → (⟨S8192, .i32⟩ : BufTy).Contents (Elt F)),
    binary main_arg1 main_v1934 main_v1935 (cmpi .slt : (⟨S8192, .i32⟩ : BufTy).Contents (Elt F) → (⟨S8192, .i32⟩ : BufTy).Contents (Elt F) → (⟨S8192, .i1⟩ : BufTy).Contents (Elt F)),
    nullary main_c_410 (constantI S_ 32 8192#32),
    unary main_c_410 main_v1936 (broadcastInDim S8192 ![] bcast_S_S8192 : (⟨S_, .i32⟩ : BufTy).Contents (Elt F) → (⟨S8192, .i32⟩ : BufTy).Contents (Elt F)),
    binary main_arg1 main_v1936 main_v1937 (addi : (⟨S8192, .i32⟩ : BufTy).Contents (Elt F) → (⟨S8192, .i32⟩ : BufTy).Contents (Elt F) → (⟨S8192, .i32⟩ : BufTy).Contents (Elt F)),
    ternary main_v1935 main_v1937 main_arg1 main_v1938 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1938 main_v1939 (broadcastInDim S8192x1 ![0] bcast_S8192_S8192x1_0 : (⟨S8192, .i32⟩ : BufTy).Contents (Elt F) → (⟨S8192x1, .i32⟩ : BufTy).Contents (Elt F)),
    ternary main_v1913 main_v1939 main_v1933 main_v1940 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1941 ((extractStridedSlice S1x512x512 ![37, 0, 0] · slices_S40x512x512_S1x512x512_37_0_0) : (⟨S40x512x512, .f32⟩ : BufTy).Contents (Elt F) → (⟨S1x512x512, .f32⟩ : BufTy).Contents (Elt F)),
    reshape main_v1941 main_v1942 rfl shapeCasts_S1x512x512_S512x512,
    unary main_v1942 main_v1943 ((transpose S512x512 [1, 0] · transposes_S512x512_S512x512_1_0) : (⟨S512x512, .f32⟩ : BufTy).Contents (Elt F) → (⟨S512x512, .f32⟩ : BufTy).Contents (Elt F)),
    binary main_v1033 main_v1943 main_v1944 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1945 ((extractStridedSlice S1x512 ![37, 0] · slices_S40x512_S1x512_37_0) : (⟨S40x512, .f32⟩ : BufTy).Contents (Elt F) → (⟨S1x512, .f32⟩ : BufTy).Contents (Elt F)),
    reshape main_v1945 main_v1946 rfl shapeCasts_S1x512_S512,
    unary main_v1946 main_v1947 (broadcastInDim S1x512 ![1] bcast_S512_S1x512_1 : (⟨S512, .f32⟩ : BufTy).Contents (Elt F) → (⟨S1x512, .f32⟩ : BufTy).Contents (Elt F)),
    unary main_v1947 main_v1948 (broadcastInDim S8192x512 ![0, 1] bcast_S1x512_S8192x512_0_1 : (⟨S1x512, .f32⟩ : BufTy).Contents (Elt F) → (⟨S8192x512, .f32⟩ : BufTy).Contents (Elt F)),
    binary main_v1944 main_v1948 main_v1949 (addf : (⟨S8192x512, .f32⟩ : BufTy).Contents (Elt F) → (⟨S8192x512, .f32⟩ : BufTy).Contents (Elt F) → (⟨S8192x512, .f32⟩ : BufTy).Contents (Elt F)),
    nullary main_c_411 (constantI S_ 32 0#32),
    unary main_c_411 main_v1950 (broadcastInDim S8192 ![] bcast_S_S8192 : (⟨S_, .i32⟩ : BufTy).Contents (Elt F) → (⟨S8192, .i32⟩ : BufTy).Contents (Elt F)),
    binary main_arg1 main_v1950 main_v1951 (cmpi .slt : (⟨S8192, .i32⟩ : BufTy).Contents (Elt F) → (⟨S8192, .i32⟩ : BufTy).Contents (Elt F) → (⟨S8192, .i1⟩ : BufTy).Contents (Elt F)),
    nullary main_c_412 (constantI S_ 32 8192#32),
    unary main_c_412 main_v1952 (broadcastInDim S8192 ![] bcast_S_S8192 : (⟨S_, .i32⟩ : BufTy).Contents (Elt F) → (⟨S8192, .i32⟩ : BufTy).Contents (Elt F)),
    binary main_arg1 main_v1952 main_v1953 (addi : (⟨S8192, .i32⟩ : BufTy).Contents (Elt F) → (⟨S8192, .i32⟩ : BufTy).Contents (Elt F) → (⟨S8192, .i32⟩ : BufTy).Contents (Elt F)),
    ternary main_v1951 main_v1953 main_arg1 main_v1954 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1954 main_v1955 (broadcastInDim S8192x1 ![0] bcast_S8192_S8192x1_0 : (⟨S8192, .i32⟩ : BufTy).Contents (Elt F) → (⟨S8192x1, .i32⟩ : BufTy).Contents (Elt F)),
    binary main_v1949 main_v1955 main_v1956 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_413 (constant S_ .f32 0x00000000#32),
    TRef.unary (TRef.of (T := ⟨S_, .f32⟩) main_cst_413) (TRef.of (T := ⟨S_, .f32⟩) main_call76_v0) id,
    TRef.unary (TRef.of (T := ⟨S8192x1, .i1⟩) main_v1916) (TRef.of (T := ⟨S8192x512, .i1⟩) main_call76_v1) (broadcastInDim S8192x512 ![0, 1] bcast_S8192x1_S8192x512_0_1),
    TRef.unary (TRef.of (T := ⟨S_, .f32⟩) main_call76_v0) (TRef.of (T := ⟨S8192x512, .f32⟩) main_call76_v2) (broadcastInDim S8192x512 ![] bcast_S_S8192x512),
    TRef.ternary (TRef.of (T := ⟨S8192x512, .i1⟩) main_call76_v1) (TRef.of (T := ⟨S8192x512, .f32⟩) main_v1956) (TRef.of (T := ⟨S8192x512, .f32⟩) main_call76_v2) (TRef.of (T := ⟨S8192x512, .f32⟩) main_v1957) select,
    nullary main_c_414 (constantI S_ 32 0#32),
    unary main_c_414 main_v1958 (broadcastInDim S8192 ![] bcast_S_S8192 : (⟨S_, .i32⟩ : BufTy).Contents (Elt F) → (⟨S8192, .i32⟩ : BufTy).Contents (Elt F)),
    binary main_arg3 main_v1958 main_v1959 (cmpi .slt : (⟨S8192, .i32⟩ : BufTy).Contents (Elt F) → (⟨S8192, .i32⟩ : BufTy).Contents (Elt F) → (⟨S8192, .i1⟩ : BufTy).Contents (Elt F)),
    nullary main_c_415 (constantI S_ 32 8192#32),
    unary main_c_415 main_v1960 (broadcastInDim S8192 ![] bcast_S_S8192 : (⟨S_, .i32⟩ : BufTy).Contents (Elt F) → (⟨S8192, .i32⟩ : BufTy).Contents (Elt F)),
    binary main_arg3 main_v1960 main_v1961 (addi : (⟨S8192, .i32⟩ : BufTy).Contents (Elt F) → (⟨S8192, .i32⟩ : BufTy).Contents (Elt F) → (⟨S8192, .i32⟩ : BufTy).Contents (Elt F)),
    ternary main_v1959 main_v1961 main_arg3 main_v1962 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1962 main_v1963 (broadcastInDim S8192x1 ![0] bcast_S8192_S8192x1_0 : (⟨S8192, .i32⟩ : BufTy).Contents (Elt F) → (⟨S8192x1, .i32⟩ : BufTy).Contents (Elt F)),
    ternary main_v1940 main_v1963 main_v1957 main_v1964 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_17_sub : (lab2_17 (F := F)).Forall fun op => op.bufs ⊆ tcRefs τ sig := by
  unfold lab2_17
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_17_fresh : (lab2_17 (F := F)).Forall fun op => op.fresh = ∅ := by
  all_fresh lab2_17

/-- The references the line writes, in order. -/
abbrev lab2_17_W : List (Ref sig .tc) := [main_c_405, main_v1914, main_v1915, main_v1916, main_v1917, main_v1918, main_v1919, main_v1920, main_v1921, main_v1922, main_v1923, main_v1924, main_v1925, main_c_406, main_v1926, main_v1927, main_c_407, main_v1928, main_v1929, main_v1930, main_v1931, main_v1932, main_cst_408, main_call75_v0, main_call75_v1, main_call75_v2, main_v1933, main_c_409, main_v1934, main_v1935, main_c_410, main_v1936, main_v1937, main_v1938, main_v1939, main_v1940, main_v1941, main_v1942, main_v1943, main_v1944, main_v1945, main_v1946, main_v1947, main_v1948, main_v1949, main_c_411, main_v1950, main_v1951, main_c_412, main_v1952, main_v1953, main_v1954, main_v1955, main_v1956, main_cst_413, main_call76_v0, main_call76_v1, main_call76_v2, main_v1957, main_c_414, main_v1958, main_v1959, main_c_415, main_v1960, main_v1961, main_v1962, main_v1963, main_v1964]

theorem lab2_17_writes : (lab2_17 (F := F)).map (fun op => op.writes)
    = (lab2_17_W).map fun y => ({Proc.devRef (τ := τ) .tc y} : Finset (DevRef τ sig)) := rfl

/-- A reference the line does not write keeps its contents. -/
theorem lab2_17_frame (V : Valuation τ sig (Elt F)) {r : Ref sig .tc} (hr : r ∉ lab2_17_W) :
    after (lab2_17 (F := F)) V (no_index (Proc.devRef .tc r)) = V (Proc.devRef .tc r) :=
  Cert.RefLib.after_frame lab2_17_writes V hr

/-- The operations of relation label 18 in layer 2: the label's edge mask, the two products, and the two masked messages added to the running sum. -/
def lab2_18 : List (HloOp τ sig (Elt F)) :=
  [
    nullary main_c_416 (constantI S_ 32 18#32),
    unary main_c_416 main_v1965 (broadcastInDim S8192 ![] bcast_S_S8192 : (⟨S_, .i32⟩ : BufTy).Contents (Elt F) → (⟨S8192, .i32⟩ : BufTy).Contents (Elt F)),
    binary main_arg2 main_v1965 main_v1966 (cmpi .eq : (⟨S8192, .i32⟩ : BufTy).Contents (Elt F) → (⟨S8192, .i32⟩ : BufTy).Contents (Elt F) → (⟨S8192, .i1⟩ : BufTy).Contents (Elt F)),
    unary main_v1966 main_v1967 (broadcastInDim S8192x1 ![0] bcast_S8192_S8192x1_0 : (⟨S8192, .i1⟩ : BufTy).Contents (Elt F) → (⟨S8192x1, .i1⟩ : BufTy).Contents (Elt F)),
    unary main_v1039 main_v1968 ((extractStridedSlice S1x512x512 ![18, 0, 0] · slices_S40x512x512_S1x512x512_18_0_0) : (⟨S40x512x512, .f32⟩ : BufTy).Contents (Elt F) → (⟨S1x512x512, .f32⟩ : BufTy).Contents (Elt F)),
    reshape main_v1968 main_v1969 rfl shapeCasts_S1x512x512_S512x512,
    unary main_v1969 main_v1970 ((transpose S512x512 [1, 0] · transposes_S512x512_S512x512_1_0) : (⟨S512x512, .f32⟩ : BufTy).Contents (Elt F) → (⟨S512x512, .f32⟩ : BufTy).Contents (Elt F)),
    binary main_v1033 main_v1970 main_v1971 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1972 ((extractStridedSlice S1x512 ![18, 0] · slices_S40x512_S1x512_18_0) : (⟨S40x512, .f32⟩ : BufTy).Contents (Elt F) → (⟨S1x512, .f32⟩ : BufTy).Contents (Elt F)),
    reshape main_v1972 main_v1973 rfl shapeCasts_S1x512_S512,
    unary main_v1973 main_v1974 (broadcastInDim S1x512 ![1] bcast_S512_S1x512_1 : (⟨S512, .f32⟩ : BufTy).Contents (Elt F) → (⟨S1x512, .f32⟩ : BufTy).Contents (Elt F)),
    unary main_v1974 main_v1975 (broadcastInDim S8192x512 ![0, 1] bcast_S1x512_S8192x512_0_1 : (⟨S1x512, .f32⟩ : BufTy).Contents (Elt F) → (⟨S8192x512, .f32⟩ : BufTy).Contents (Elt F)),
    binary main_v1971 main_v1975 main_v1976 (addf : (⟨S8192x512, .f32⟩ : BufTy).Contents (Elt F) → (⟨S8192x512, .f32⟩ : BufTy).Contents (Elt F) → (⟨S8192x512, .f32⟩ : BufTy).Contents (Elt F)),
    nullary main_c_417 (constantI S_ 32 0#32),
    unary main_c_417 main_v1977 (broadcastInDim S8192 ![] bcast_S_S8192 : (⟨S_, .i32⟩ : BufTy).Contents (Elt F) → (⟨S8192, .i32⟩ : BufTy).Contents (Elt F)),
    binary main_arg3 main_v1977 main_v1978 (cmpi .slt : (⟨S8192, .i32⟩ : BufTy).Contents (Elt F) → (⟨S8192, .i32⟩ : BufTy).Contents (Elt F) → (⟨S8192, .i1⟩ : BufTy).Contents (Elt F)),
    nullary main_c_418 (constantI S_ 32 8192#32),
    unary main_c_418 main_v1979 (broadcastInDim S8192 ![] bcast_S_S8192 : (⟨S_, .i32⟩ : BufTy).Contents (Elt F) → (⟨S8192, .i32⟩ : BufTy).Contents (Elt F)),
    binary main_arg3 main_v1979 main_v1980 (addi : (⟨S8192, .i32⟩ : BufTy).Contents (Elt F) → (⟨S8192, .i32⟩ : BufTy).Contents (Elt F) → (⟨S8192, .i32⟩ : BufTy).Contents (Elt F)),
    ternary main_v1978 main_v1980 main_arg3 main_v1981 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1981 main_v1982 (broadcastInDim S8192x1 ![0] bcast_S8192_S8192x1_0 : (⟨S8192, .i32⟩ : BufTy).Contents (Elt F) → (⟨S8192x1, .i32⟩ : BufTy).Contents (Elt F)),
    binary main_v1976 main_v1982 main_v1983 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_419 (constant S_ .f32 0x00000000#32),
    TRef.unary (TRef.of (T := ⟨S_, .f32⟩) main_cst_419) (TRef.of (T := ⟨S_, .f32⟩) main_call77_v0) id,
    TRef.unary (TRef.of (T := ⟨S8192x1, .i1⟩) main_v1967) (TRef.of (T := ⟨S8192x512, .i1⟩) main_call77_v1) (broadcastInDim S8192x512 ![0, 1] bcast_S8192x1_S8192x512_0_1),
    TRef.unary (TRef.of (T := ⟨S_, .f32⟩) main_call77_v0) (TRef.of (T := ⟨S8192x512, .f32⟩) main_call77_v2) (broadcastInDim S8192x512 ![] bcast_S_S8192x512),
    TRef.ternary (TRef.of (T := ⟨S8192x512, .i1⟩) main_call77_v1) (TRef.of (T := ⟨S8192x512, .f32⟩) main_v1983) (TRef.of (T := ⟨S8192x512, .f32⟩) main_call77_v2) (TRef.of (T := ⟨S8192x512, .f32⟩) main_v1984) select,
    nullary main_c_420 (constantI S_ 32 0#32),
    unary main_c_420 main_v1985 (broadcastInDim S8192 ![] bcast_S_S8192 : (⟨S_, .i32⟩ : BufTy).Contents (Elt F) → (⟨S8192, .i32⟩ : BufTy).Contents (Elt F)),
    binary main_arg1 main_v1985 main_v1986 (cmpi .slt : (⟨S8192, .i32⟩ : BufTy).Contents (Elt F) → (⟨S8192, .i32⟩ : BufTy).Contents (Elt F) → (⟨S8192, .i1⟩ : BufTy).Contents (Elt F)),
    nullary main_c_421 (constantI S_ 32 8192#32),
    unary main_c_421 main_v1987 (broadcastInDim S8192 ![] bcast_S_S8192 : (⟨S_, .i32⟩ : BufTy).Contents (Elt F) → (⟨S8192, .i32⟩ : BufTy).Contents (Elt F)),
    binary main_arg1 main_v1987 main_v1988 (addi : (⟨S8192, .i32⟩ : BufTy).Contents (Elt F) → (⟨S8192, .i32⟩ : BufTy).Contents (Elt F) → (⟨S8192, .i32⟩ : BufTy).Contents (Elt F)),
    ternary main_v1986 main_v1988 main_arg1 main_v1989 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v1989 main_v1990 (broadcastInDim S8192x1 ![0] bcast_S8192_S8192x1_0 : (⟨S8192, .i32⟩ : BufTy).Contents (Elt F) → (⟨S8192x1, .i32⟩ : BufTy).Contents (Elt F)),
    ternary main_v1964 main_v1990 main_v1984 main_v1991 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v1992 ((extractStridedSlice S1x512x512 ![38, 0, 0] · slices_S40x512x512_S1x512x512_38_0_0) : (⟨S40x512x512, .f32⟩ : BufTy).Contents (Elt F) → (⟨S1x512x512, .f32⟩ : BufTy).Contents (Elt F)),
    reshape main_v1992 main_v1993 rfl shapeCasts_S1x512x512_S512x512,
    unary main_v1993 main_v1994 ((transpose S512x512 [1, 0] · transposes_S512x512_S512x512_1_0) : (⟨S512x512, .f32⟩ : BufTy).Contents (Elt F) → (⟨S512x512, .f32⟩ : BufTy).Contents (Elt F)),
    binary main_v1033 main_v1994 main_v1995 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v1996 ((extractStridedSlice S1x512 ![38, 0] · slices_S40x512_S1x512_38_0) : (⟨S40x512, .f32⟩ : BufTy).Contents (Elt F) → (⟨S1x512, .f32⟩ : BufTy).Contents (Elt F)),
    reshape main_v1996 main_v1997 rfl shapeCasts_S1x512_S512,
    unary main_v1997 main_v1998 (broadcastInDim S1x512 ![1] bcast_S512_S1x512_1 : (⟨S512, .f32⟩ : BufTy).Contents (Elt F) → (⟨S1x512, .f32⟩ : BufTy).Contents (Elt F)),
    unary main_v1998 main_v1999 (broadcastInDim S8192x512 ![0, 1] bcast_S1x512_S8192x512_0_1 : (⟨S1x512, .f32⟩ : BufTy).Contents (Elt F) → (⟨S8192x512, .f32⟩ : BufTy).Contents (Elt F)),
    binary main_v1995 main_v1999 main_v2000 (addf : (⟨S8192x512, .f32⟩ : BufTy).Contents (Elt F) → (⟨S8192x512, .f32⟩ : BufTy).Contents (Elt F) → (⟨S8192x512, .f32⟩ : BufTy).Contents (Elt F)),
    nullary main_c_422 (constantI S_ 32 0#32),
    unary main_c_422 main_v2001 (broadcastInDim S8192 ![] bcast_S_S8192 : (⟨S_, .i32⟩ : BufTy).Contents (Elt F) → (⟨S8192, .i32⟩ : BufTy).Contents (Elt F)),
    binary main_arg1 main_v2001 main_v2002 (cmpi .slt : (⟨S8192, .i32⟩ : BufTy).Contents (Elt F) → (⟨S8192, .i32⟩ : BufTy).Contents (Elt F) → (⟨S8192, .i1⟩ : BufTy).Contents (Elt F)),
    nullary main_c_423 (constantI S_ 32 8192#32),
    unary main_c_423 main_v2003 (broadcastInDim S8192 ![] bcast_S_S8192 : (⟨S_, .i32⟩ : BufTy).Contents (Elt F) → (⟨S8192, .i32⟩ : BufTy).Contents (Elt F)),
    binary main_arg1 main_v2003 main_v2004 (addi : (⟨S8192, .i32⟩ : BufTy).Contents (Elt F) → (⟨S8192, .i32⟩ : BufTy).Contents (Elt F) → (⟨S8192, .i32⟩ : BufTy).Contents (Elt F)),
    ternary main_v2002 main_v2004 main_arg1 main_v2005 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v2005 main_v2006 (broadcastInDim S8192x1 ![0] bcast_S8192_S8192x1_0 : (⟨S8192, .i32⟩ : BufTy).Contents (Elt F) → (⟨S8192x1, .i32⟩ : BufTy).Contents (Elt F)),
    binary main_v2000 main_v2006 main_v2007 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_424 (constant S_ .f32 0x00000000#32),
    TRef.unary (TRef.of (T := ⟨S_, .f32⟩) main_cst_424) (TRef.of (T := ⟨S_, .f32⟩) main_call78_v0) id,
    TRef.unary (TRef.of (T := ⟨S8192x1, .i1⟩) main_v1967) (TRef.of (T := ⟨S8192x512, .i1⟩) main_call78_v1) (broadcastInDim S8192x512 ![0, 1] bcast_S8192x1_S8192x512_0_1),
    TRef.unary (TRef.of (T := ⟨S_, .f32⟩) main_call78_v0) (TRef.of (T := ⟨S8192x512, .f32⟩) main_call78_v2) (broadcastInDim S8192x512 ![] bcast_S_S8192x512),
    TRef.ternary (TRef.of (T := ⟨S8192x512, .i1⟩) main_call78_v1) (TRef.of (T := ⟨S8192x512, .f32⟩) main_v2007) (TRef.of (T := ⟨S8192x512, .f32⟩) main_call78_v2) (TRef.of (T := ⟨S8192x512, .f32⟩) main_v2008) select,
    nullary main_c_425 (constantI S_ 32 0#32),
    unary main_c_425 main_v2009 (broadcastInDim S8192 ![] bcast_S_S8192 : (⟨S_, .i32⟩ : BufTy).Contents (Elt F) → (⟨S8192, .i32⟩ : BufTy).Contents (Elt F)),
    binary main_arg3 main_v2009 main_v2010 (cmpi .slt : (⟨S8192, .i32⟩ : BufTy).Contents (Elt F) → (⟨S8192, .i32⟩ : BufTy).Contents (Elt F) → (⟨S8192, .i1⟩ : BufTy).Contents (Elt F)),
    nullary main_c_426 (constantI S_ 32 8192#32),
    unary main_c_426 main_v2011 (broadcastInDim S8192 ![] bcast_S_S8192 : (⟨S_, .i32⟩ : BufTy).Contents (Elt F) → (⟨S8192, .i32⟩ : BufTy).Contents (Elt F)),
    binary main_arg3 main_v2011 main_v2012 (addi : (⟨S8192, .i32⟩ : BufTy).Contents (Elt F) → (⟨S8192, .i32⟩ : BufTy).Contents (Elt F) → (⟨S8192, .i32⟩ : BufTy).Contents (Elt F)),
    ternary main_v2010 main_v2012 main_arg3 main_v2013 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v2013 main_v2014 (broadcastInDim S8192x1 ![0] bcast_S8192_S8192x1_0 : (⟨S8192, .i32⟩ : BufTy).Contents (Elt F) → (⟨S8192x1, .i32⟩ : BufTy).Contents (Elt F)),
    ternary main_v1991 main_v2014 main_v2008 main_v2015 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_18_sub : (lab2_18 (F := F)).Forall fun op => op.bufs ⊆ tcRefs τ sig := by
  unfold lab2_18
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_18_fresh : (lab2_18 (F := F)).Forall fun op => op.fresh = ∅ := by
  all_fresh lab2_18

/-- The references the line writes, in order. -/
abbrev lab2_18_W : List (Ref sig .tc) := [main_c_416, main_v1965, main_v1966, main_v1967, main_v1968, main_v1969, main_v1970, main_v1971, main_v1972, main_v1973, main_v1974, main_v1975, main_v1976, main_c_417, main_v1977, main_v1978, main_c_418, main_v1979, main_v1980, main_v1981, main_v1982, main_v1983, main_cst_419, main_call77_v0, main_call77_v1, main_call77_v2, main_v1984, main_c_420, main_v1985, main_v1986, main_c_421, main_v1987, main_v1988, main_v1989, main_v1990, main_v1991, main_v1992, main_v1993, main_v1994, main_v1995, main_v1996, main_v1997, main_v1998, main_v1999, main_v2000, main_c_422, main_v2001, main_v2002, main_c_423, main_v2003, main_v2004, main_v2005, main_v2006, main_v2007, main_cst_424, main_call78_v0, main_call78_v1, main_call78_v2, main_v2008, main_c_425, main_v2009, main_v2010, main_c_426, main_v2011, main_v2012, main_v2013, main_v2014, main_v2015]

theorem lab2_18_writes : (lab2_18 (F := F)).map (fun op => op.writes)
    = (lab2_18_W).map fun y => ({Proc.devRef (τ := τ) .tc y} : Finset (DevRef τ sig)) := rfl

/-- A reference the line does not write keeps its contents. -/
theorem lab2_18_frame (V : Valuation τ sig (Elt F)) {r : Ref sig .tc} (hr : r ∉ lab2_18_W) :
    after (lab2_18 (F := F)) V (no_index (Proc.devRef .tc r)) = V (Proc.devRef .tc r) :=
  Cert.RefLib.after_frame lab2_18_writes V hr

/-- The operations of relation label 19 in layer 2: the label's edge mask, the two products, and the two masked messages added to the running sum. -/
def lab2_19 : List (HloOp τ sig (Elt F)) :=
  [
    nullary main_c_427 (constantI S_ 32 19#32),
    unary main_c_427 main_v2016 (broadcastInDim S8192 ![] bcast_S_S8192 : (⟨S_, .i32⟩ : BufTy).Contents (Elt F) → (⟨S8192, .i32⟩ : BufTy).Contents (Elt F)),
    binary main_arg2 main_v2016 main_v2017 (cmpi .eq : (⟨S8192, .i32⟩ : BufTy).Contents (Elt F) → (⟨S8192, .i32⟩ : BufTy).Contents (Elt F) → (⟨S8192, .i1⟩ : BufTy).Contents (Elt F)),
    unary main_v2017 main_v2018 (broadcastInDim S8192x1 ![0] bcast_S8192_S8192x1_0 : (⟨S8192, .i1⟩ : BufTy).Contents (Elt F) → (⟨S8192x1, .i1⟩ : BufTy).Contents (Elt F)),
    unary main_v1039 main_v2019 ((extractStridedSlice S1x512x512 ![19, 0, 0] · slices_S40x512x512_S1x512x512_19_0_0) : (⟨S40x512x512, .f32⟩ : BufTy).Contents (Elt F) → (⟨S1x512x512, .f32⟩ : BufTy).Contents (Elt F)),
    reshape main_v2019 main_v2020 rfl shapeCasts_S1x512x512_S512x512,
    unary main_v2020 main_v2021 ((transpose S512x512 [1, 0] · transposes_S512x512_S512x512_1_0) : (⟨S512x512, .f32⟩ : BufTy).Contents (Elt F) → (⟨S512x512, .f32⟩ : BufTy).Contents (Elt F)),
    binary main_v1033 main_v2021 main_v2022 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v2023 ((extractStridedSlice S1x512 ![19, 0] · slices_S40x512_S1x512_19_0) : (⟨S40x512, .f32⟩ : BufTy).Contents (Elt F) → (⟨S1x512, .f32⟩ : BufTy).Contents (Elt F)),
    reshape main_v2023 main_v2024 rfl shapeCasts_S1x512_S512,
    unary main_v2024 main_v2025 (broadcastInDim S1x512 ![1] bcast_S512_S1x512_1 : (⟨S512, .f32⟩ : BufTy).Contents (Elt F) → (⟨S1x512, .f32⟩ : BufTy).Contents (Elt F)),
    unary main_v2025 main_v2026 (broadcastInDim S8192x512 ![0, 1] bcast_S1x512_S8192x512_0_1 : (⟨S1x512, .f32⟩ : BufTy).Contents (Elt F) → (⟨S8192x512, .f32⟩ : BufTy).Contents (Elt F)),
    binary main_v2022 main_v2026 main_v2027 (addf : (⟨S8192x512, .f32⟩ : BufTy).Contents (Elt F) → (⟨S8192x512, .f32⟩ : BufTy).Contents (Elt F) → (⟨S8192x512, .f32⟩ : BufTy).Contents (Elt F)),
    nullary main_c_428 (constantI S_ 32 0#32),
    unary main_c_428 main_v2028 (broadcastInDim S8192 ![] bcast_S_S8192 : (⟨S_, .i32⟩ : BufTy).Contents (Elt F) → (⟨S8192, .i32⟩ : BufTy).Contents (Elt F)),
    binary main_arg3 main_v2028 main_v2029 (cmpi .slt : (⟨S8192, .i32⟩ : BufTy).Contents (Elt F) → (⟨S8192, .i32⟩ : BufTy).Contents (Elt F) → (⟨S8192, .i1⟩ : BufTy).Contents (Elt F)),
    nullary main_c_429 (constantI S_ 32 8192#32),
    unary main_c_429 main_v2030 (broadcastInDim S8192 ![] bcast_S_S8192 : (⟨S_, .i32⟩ : BufTy).Contents (Elt F) → (⟨S8192, .i32⟩ : BufTy).Contents (Elt F)),
    binary main_arg3 main_v2030 main_v2031 (addi : (⟨S8192, .i32⟩ : BufTy).Contents (Elt F) → (⟨S8192, .i32⟩ : BufTy).Contents (Elt F) → (⟨S8192, .i32⟩ : BufTy).Contents (Elt F)),
    ternary main_v2029 main_v2031 main_arg3 main_v2032 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v2032 main_v2033 (broadcastInDim S8192x1 ![0] bcast_S8192_S8192x1_0 : (⟨S8192, .i32⟩ : BufTy).Contents (Elt F) → (⟨S8192x1, .i32⟩ : BufTy).Contents (Elt F)),
    binary main_v2027 main_v2033 main_v2034 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_430 (constant S_ .f32 0x00000000#32),
    TRef.unary (TRef.of (T := ⟨S_, .f32⟩) main_cst_430) (TRef.of (T := ⟨S_, .f32⟩) main_call79_v0) id,
    TRef.unary (TRef.of (T := ⟨S8192x1, .i1⟩) main_v2018) (TRef.of (T := ⟨S8192x512, .i1⟩) main_call79_v1) (broadcastInDim S8192x512 ![0, 1] bcast_S8192x1_S8192x512_0_1),
    TRef.unary (TRef.of (T := ⟨S_, .f32⟩) main_call79_v0) (TRef.of (T := ⟨S8192x512, .f32⟩) main_call79_v2) (broadcastInDim S8192x512 ![] bcast_S_S8192x512),
    TRef.ternary (TRef.of (T := ⟨S8192x512, .i1⟩) main_call79_v1) (TRef.of (T := ⟨S8192x512, .f32⟩) main_v2034) (TRef.of (T := ⟨S8192x512, .f32⟩) main_call79_v2) (TRef.of (T := ⟨S8192x512, .f32⟩) main_v2035) select,
    nullary main_c_431 (constantI S_ 32 0#32),
    unary main_c_431 main_v2036 (broadcastInDim S8192 ![] bcast_S_S8192 : (⟨S_, .i32⟩ : BufTy).Contents (Elt F) → (⟨S8192, .i32⟩ : BufTy).Contents (Elt F)),
    binary main_arg1 main_v2036 main_v2037 (cmpi .slt : (⟨S8192, .i32⟩ : BufTy).Contents (Elt F) → (⟨S8192, .i32⟩ : BufTy).Contents (Elt F) → (⟨S8192, .i1⟩ : BufTy).Contents (Elt F)),
    nullary main_c_432 (constantI S_ 32 8192#32),
    unary main_c_432 main_v2038 (broadcastInDim S8192 ![] bcast_S_S8192 : (⟨S_, .i32⟩ : BufTy).Contents (Elt F) → (⟨S8192, .i32⟩ : BufTy).Contents (Elt F)),
    binary main_arg1 main_v2038 main_v2039 (addi : (⟨S8192, .i32⟩ : BufTy).Contents (Elt F) → (⟨S8192, .i32⟩ : BufTy).Contents (Elt F) → (⟨S8192, .i32⟩ : BufTy).Contents (Elt F)),
    ternary main_v2037 main_v2039 main_arg1 main_v2040 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v2040 main_v2041 (broadcastInDim S8192x1 ![0] bcast_S8192_S8192x1_0 : (⟨S8192, .i32⟩ : BufTy).Contents (Elt F) → (⟨S8192x1, .i32⟩ : BufTy).Contents (Elt F)),
    ternary main_v2015 main_v2041 main_v2035 main_v2042 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)),
    unary main_v1039 main_v2043 ((extractStridedSlice S1x512x512 ![39, 0, 0] · slices_S40x512x512_S1x512x512_39_0_0) : (⟨S40x512x512, .f32⟩ : BufTy).Contents (Elt F) → (⟨S1x512x512, .f32⟩ : BufTy).Contents (Elt F)),
    reshape main_v2043 main_v2044 rfl shapeCasts_S1x512x512_S512x512,
    unary main_v2044 main_v2045 ((transpose S512x512 [1, 0] · transposes_S512x512_S512x512_1_0) : (⟨S512x512, .f32⟩ : BufTy).Contents (Elt F) → (⟨S512x512, .f32⟩ : BufTy).Contents (Elt F)),
    binary main_v1033 main_v2045 main_v2046 ((fun l r => Host.dotGeneral dot_S8192x512_S512x512_S8192x512_1_0_0_1_n_n none l r) : (⟨S8192x512, .f32⟩ : BufTy).Contents (Elt F) → (⟨S512x512, .f32⟩ : BufTy).Contents (Elt F) → (⟨S8192x512, .f32⟩ : BufTy).Contents (Elt F)),
    unary main_v1041 main_v2047 ((extractStridedSlice S1x512 ![39, 0] · slices_S40x512_S1x512_39_0) : (⟨S40x512, .f32⟩ : BufTy).Contents (Elt F) → (⟨S1x512, .f32⟩ : BufTy).Contents (Elt F)),
    reshape main_v2047 main_v2048 rfl shapeCasts_S1x512_S512,
    unary main_v2048 main_v2049 (broadcastInDim S1x512 ![1] bcast_S512_S1x512_1 : (⟨S512, .f32⟩ : BufTy).Contents (Elt F) → (⟨S1x512, .f32⟩ : BufTy).Contents (Elt F)),
    unary main_v2049 main_v2050 (broadcastInDim S8192x512 ![0, 1] bcast_S1x512_S8192x512_0_1 : (⟨S1x512, .f32⟩ : BufTy).Contents (Elt F) → (⟨S8192x512, .f32⟩ : BufTy).Contents (Elt F)),
    binary main_v2046 main_v2050 main_v2051 (addf : (⟨S8192x512, .f32⟩ : BufTy).Contents (Elt F) → (⟨S8192x512, .f32⟩ : BufTy).Contents (Elt F) → (⟨S8192x512, .f32⟩ : BufTy).Contents (Elt F)),
    nullary main_c_433 (constantI S_ 32 0#32),
    unary main_c_433 main_v2052 (broadcastInDim S8192 ![] bcast_S_S8192 : (⟨S_, .i32⟩ : BufTy).Contents (Elt F) → (⟨S8192, .i32⟩ : BufTy).Contents (Elt F)),
    binary main_arg1 main_v2052 main_v2053 (cmpi .slt : (⟨S8192, .i32⟩ : BufTy).Contents (Elt F) → (⟨S8192, .i32⟩ : BufTy).Contents (Elt F) → (⟨S8192, .i1⟩ : BufTy).Contents (Elt F)),
    nullary main_c_434 (constantI S_ 32 8192#32),
    unary main_c_434 main_v2054 (broadcastInDim S8192 ![] bcast_S_S8192 : (⟨S_, .i32⟩ : BufTy).Contents (Elt F) → (⟨S8192, .i32⟩ : BufTy).Contents (Elt F)),
    binary main_arg1 main_v2054 main_v2055 (addi : (⟨S8192, .i32⟩ : BufTy).Contents (Elt F) → (⟨S8192, .i32⟩ : BufTy).Contents (Elt F) → (⟨S8192, .i32⟩ : BufTy).Contents (Elt F)),
    ternary main_v2053 main_v2055 main_arg1 main_v2056 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v2056 main_v2057 (broadcastInDim S8192x1 ![0] bcast_S8192_S8192x1_0 : (⟨S8192, .i32⟩ : BufTy).Contents (Elt F) → (⟨S8192x1, .i32⟩ : BufTy).Contents (Elt F)),
    binary main_v2051 main_v2057 main_v2058 ((fun x i => Host.gather gather_S8192x512_S8192x1_S8192x512_1_0_n_n_0_1_1512 x i) : (⟨S8192x512, .f32⟩ : BufTy).Contents (Elt F) → (⟨S8192x1, .i32⟩ : BufTy).Contents (Elt F) → (⟨S8192x512, .f32⟩ : BufTy).Contents (Elt F)),
    nullary main_cst_435 (constant S_ .f32 0x00000000#32),
    TRef.unary (TRef.of (T := ⟨S_, .f32⟩) main_cst_435) (TRef.of (T := ⟨S_, .f32⟩) main_call80_v0) id,
    TRef.unary (TRef.of (T := ⟨S8192x1, .i1⟩) main_v2018) (TRef.of (T := ⟨S8192x512, .i1⟩) main_call80_v1) (broadcastInDim S8192x512 ![0, 1] bcast_S8192x1_S8192x512_0_1),
    TRef.unary (TRef.of (T := ⟨S_, .f32⟩) main_call80_v0) (TRef.of (T := ⟨S8192x512, .f32⟩) main_call80_v2) (broadcastInDim S8192x512 ![] bcast_S_S8192x512),
    TRef.ternary (TRef.of (T := ⟨S8192x512, .i1⟩) main_call80_v1) (TRef.of (T := ⟨S8192x512, .f32⟩) main_v2058) (TRef.of (T := ⟨S8192x512, .f32⟩) main_call80_v2) (TRef.of (T := ⟨S8192x512, .f32⟩) main_v2059) select,
    nullary main_c_436 (constantI S_ 32 0#32),
    unary main_c_436 main_v2060 (broadcastInDim S8192 ![] bcast_S_S8192 : (⟨S_, .i32⟩ : BufTy).Contents (Elt F) → (⟨S8192, .i32⟩ : BufTy).Contents (Elt F)),
    binary main_arg3 main_v2060 main_v2061 (cmpi .slt : (⟨S8192, .i32⟩ : BufTy).Contents (Elt F) → (⟨S8192, .i32⟩ : BufTy).Contents (Elt F) → (⟨S8192, .i1⟩ : BufTy).Contents (Elt F)),
    nullary main_c_437 (constantI S_ 32 8192#32),
    unary main_c_437 main_v2062 (broadcastInDim S8192 ![] bcast_S_S8192 : (⟨S_, .i32⟩ : BufTy).Contents (Elt F) → (⟨S8192, .i32⟩ : BufTy).Contents (Elt F)),
    binary main_arg3 main_v2062 main_v2063 (addi : (⟨S8192, .i32⟩ : BufTy).Contents (Elt F) → (⟨S8192, .i32⟩ : BufTy).Contents (Elt F) → (⟨S8192, .i32⟩ : BufTy).Contents (Elt F)),
    ternary main_v2061 main_v2063 main_arg3 main_v2064 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v2064 main_v2065 (broadcastInDim S8192x1 ![0] bcast_S8192_S8192x1_0 : (⟨S8192, .i32⟩ : BufTy).Contents (Elt F) → (⟨S8192x1, .i32⟩ : BufTy).Contents (Elt F)),
    ternary main_v2042 main_v2065 main_v2059 main_v2066 ((fun x i u => Host.scatterAdd scatter_S8192x512_S8192x1_S8192x512_1_0_0_1 x i u) : (⟨S8192x512, .f32⟩ : BufTy).Contents (Elt F) → (⟨S8192x1, .i32⟩ : BufTy).Contents (Elt F) → (⟨S8192x512, .f32⟩ : BufTy).Contents (Elt F) → (⟨S8192x512, .f32⟩ : BufTy).Contents (Elt F)) ]

/-- Every operation of the line touches TensorCore references only. -/
theorem lab2_19_sub : (lab2_19 (F := F)).Forall fun op => op.bufs ⊆ tcRefs τ sig := by
  unfold lab2_19
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- No operation of the line allocates a buffer. -/
theorem lab2_19_fresh : (lab2_19 (F := F)).Forall fun op => op.fresh = ∅ := by
  all_fresh lab2_19

/-- The references the line writes, in order. -/
abbrev lab2_19_W : List (Ref sig .tc) := [main_c_427, main_v2016, main_v2017, main_v2018, main_v2019, main_v2020, main_v2021, main_v2022, main_v2023, main_v2024, main_v2025, main_v2026, main_v2027, main_c_428, main_v2028, main_v2029, main_c_429, main_v2030, main_v2031, main_v2032, main_v2033, main_v2034, main_cst_430, main_call79_v0, main_call79_v1, main_call79_v2, main_v2035, main_c_431, main_v2036, main_v2037, main_c_432, main_v2038, main_v2039, main_v2040, main_v2041, main_v2042, main_v2043, main_v2044, main_v2045, main_v2046, main_v2047, main_v2048, main_v2049, main_v2050, main_v2051, main_c_433, main_v2052, main_v2053, main_c_434, main_v2054, main_v2055, main_v2056, main_v2057, main_v2058, main_cst_435, main_call80_v0, main_call80_v1, main_call80_v2, main_v2059, main_c_436, main_v2060, main_v2061, main_c_437, main_v2062, main_v2063, main_v2064, main_v2065, main_v2066]

theorem lab2_19_writes : (lab2_19 (F := F)).map (fun op => op.writes)
    = (lab2_19_W).map fun y => ({Proc.devRef (τ := τ) .tc y} : Finset (DevRef τ sig)) := rfl

/-- A reference the line does not write keeps its contents. -/
theorem lab2_19_frame (V : Valuation τ sig (Elt F)) {r : Ref sig .tc} (hr : r ∉ lab2_19_W) :
    after (lab2_19 (F := F)) V (no_index (Proc.devRef .tc r)) = V (Proc.devRef .tc r) :=
  Cert.RefLib.after_frame lab2_19_writes V hr

/-- The last operations of layer 2: the positive part of the sum. -/
def fin2 : List (HloOp τ sig (Elt F)) :=
  [
    TRef.nullary (TRef.of (T := ⟨S_, .f32⟩) main_call81_cst) (constant S_ .f32 0x00000000#32),
    TRef.unary (TRef.of (T := ⟨S_, .f32⟩) main_call81_cst) (TRef.of (T := ⟨S8192x512, .f32⟩) main_call81_v0) (broadcastInDim S8192x512 ![] bcast_S_S8192x512),
    TRef.binary (TRef.of (T := ⟨S8192x512, .f32⟩) main_v2066) (TRef.of (T := ⟨S8192x512, .f32⟩) main_call81_v0) (TRef.of (T := ⟨S8192x512, .f32⟩) main_v2067) maximumf ]

/-- Every operation of the line touches TensorCore references only. -/
theorem fin2_sub : (fin2 (F := F)).Forall fun op => op.bufs ⊆ tcRefs τ sig := by
  unfold fin2
  exact ⟨nullary_bufs_sub .., unary_bufs_sub .., binary_bufs_sub ..⟩

/-- No operation of the line allocates a buffer. -/
theorem fin2_fresh : (fin2 (F := F)).Forall fun op => op.fresh = ∅ := by
  all_fresh fin2

/-- The references the line writes, in order. -/
abbrev fin2_W : List (Ref sig .tc) := [main_call81_cst, main_call81_v0, main_v2067]

theorem fin2_writes : (fin2 (F := F)).map (fun op => op.writes)
    = (fin2_W).map fun y => ({Proc.devRef (τ := τ) .tc y} : Finset (DevRef τ sig)) := rfl

/-- A reference the line does not write keeps its contents. -/
theorem fin2_frame (V : Valuation τ sig (Elt F)) {r : Ref sig .tc} (hr : r ∉ fin2_W) :
    after (fin2 (F := F)) V (no_index (Proc.devRef .tc r)) = V (Proc.devRef .tc r) :=
  Cert.RefLib.after_frame fin2_writes V hr

/-- Layer 2's operations, in order. -/
def opsL2 : List (HloOp τ sig (Elt F)) :=
  pre2 ++ (lab2_0 ++ (lab2_1 ++ (lab2_2 ++ (lab2_3 ++ (lab2_4 ++ (lab2_5 ++ (lab2_6 ++ (lab2_7 ++ (lab2_8 ++ (lab2_9 ++ (lab2_10 ++ (lab2_11 ++ (lab2_12 ++ (lab2_13 ++ (lab2_14 ++ (lab2_15 ++ (lab2_16 ++ (lab2_17 ++ (lab2_18 ++ (lab2_19 ++ (fin2)))))))))))))))))))))

theorem opsL2_sub : (opsL2 (F := F)).Forall fun op => op.bufs ⊆ tcRefs τ sig := by
  unfold opsL2
  exact Cert.LibAfter.Forall.append pre2_sub (Cert.LibAfter.Forall.append lab2_0_sub (Cert.LibAfter.Forall.append lab2_1_sub (Cert.LibAfter.Forall.append lab2_2_sub (Cert.LibAfter.Forall.append lab2_3_sub (Cert.LibAfter.Forall.append lab2_4_sub (Cert.LibAfter.Forall.append lab2_5_sub (Cert.LibAfter.Forall.append lab2_6_sub (Cert.LibAfter.Forall.append lab2_7_sub (Cert.LibAfter.Forall.append lab2_8_sub (Cert.LibAfter.Forall.append lab2_9_sub (Cert.LibAfter.Forall.append lab2_10_sub (Cert.LibAfter.Forall.append lab2_11_sub (Cert.LibAfter.Forall.append lab2_12_sub (Cert.LibAfter.Forall.append lab2_13_sub (Cert.LibAfter.Forall.append lab2_14_sub (Cert.LibAfter.Forall.append lab2_15_sub (Cert.LibAfter.Forall.append lab2_16_sub (Cert.LibAfter.Forall.append lab2_17_sub (Cert.LibAfter.Forall.append lab2_18_sub (Cert.LibAfter.Forall.append lab2_19_sub (fin2_sub)))))))))))))))))))))

theorem opsL2_fresh : (opsL2 (F := F)).Forall fun op => op.fresh = ∅ := by
  unfold opsL2
  exact Cert.LibAfter.Forall.append pre2_fresh (Cert.LibAfter.Forall.append lab2_0_fresh (Cert.LibAfter.Forall.append lab2_1_fresh (Cert.LibAfter.Forall.append lab2_2_fresh (Cert.LibAfter.Forall.append lab2_3_fresh (Cert.LibAfter.Forall.append lab2_4_fresh (Cert.LibAfter.Forall.append lab2_5_fresh (Cert.LibAfter.Forall.append lab2_6_fresh (Cert.LibAfter.Forall.append lab2_7_fresh (Cert.LibAfter.Forall.append lab2_8_fresh (Cert.LibAfter.Forall.append lab2_9_fresh (Cert.LibAfter.Forall.append lab2_10_fresh (Cert.LibAfter.Forall.append lab2_11_fresh (Cert.LibAfter.Forall.append lab2_12_fresh (Cert.LibAfter.Forall.append lab2_13_fresh (Cert.LibAfter.Forall.append lab2_14_fresh (Cert.LibAfter.Forall.append lab2_15_fresh (Cert.LibAfter.Forall.append lab2_16_fresh (Cert.LibAfter.Forall.append lab2_17_fresh (Cert.LibAfter.Forall.append lab2_18_fresh (Cert.LibAfter.Forall.append lab2_19_fresh (fin2_fresh)))))))))))))))))))))

/-- The references the line writes, in order. -/
abbrev opsL2_W : List (Ref sig .tc) :=
  pre2_W ++ (lab2_0_W ++ (lab2_1_W ++ (lab2_2_W ++ (lab2_3_W ++ (lab2_4_W ++ (lab2_5_W ++ (lab2_6_W ++ (lab2_7_W ++ (lab2_8_W ++ (lab2_9_W ++ (lab2_10_W ++ (lab2_11_W ++ (lab2_12_W ++ (lab2_13_W ++ (lab2_14_W ++ (lab2_15_W ++ (lab2_16_W ++ (lab2_17_W ++ (lab2_18_W ++ (lab2_19_W ++ (fin2_W)))))))))))))))))))))

theorem opsL2_writes : (opsL2 (F := F)).map (fun op => op.writes)
    = (opsL2_W).map fun y => ({Proc.devRef (τ := τ) .tc y} : Finset (DevRef τ sig)) := by
  unfold opsL2
  exact Cert.RefLib.writes_append pre2_writes (Cert.RefLib.writes_append lab2_0_writes (Cert.RefLib.writes_append lab2_1_writes (Cert.RefLib.writes_append lab2_2_writes (Cert.RefLib.writes_append lab2_3_writes (Cert.RefLib.writes_append lab2_4_writes (Cert.RefLib.writes_append lab2_5_writes (Cert.RefLib.writes_append lab2_6_writes (Cert.RefLib.writes_append lab2_7_writes (Cert.RefLib.writes_append lab2_8_writes (Cert.RefLib.writes_append lab2_9_writes (Cert.RefLib.writes_append lab2_10_writes (Cert.RefLib.writes_append lab2_11_writes (Cert.RefLib.writes_append lab2_12_writes (Cert.RefLib.writes_append lab2_13_writes (Cert.RefLib.writes_append lab2_14_writes (Cert.RefLib.writes_append lab2_15_writes (Cert.RefLib.writes_append lab2_16_writes (Cert.RefLib.writes_append lab2_17_writes (Cert.RefLib.writes_append lab2_18_writes (Cert.RefLib.writes_append lab2_19_writes (fin2_writes)))))))))))))))))))))

/-- A reference the line does not write keeps its contents. -/
theorem opsL2_frame (V : Valuation τ sig (Elt F)) {r : Ref sig .tc} (hr : r ∉ opsL2_W) :
    after (opsL2 (F := F)) V (no_index (Proc.devRef .tc r)) = V (Proc.devRef .tc r) :=
  Cert.RefLib.after_frame opsL2_writes V hr

/-- The output projection: the last five operations. -/
def opsF : List (HloOp τ sig (Elt F)) :=
  [
    unary main_arg8 main_v2068 ((transpose S512x256 [1, 0] · transposes_S256x512_S512x256_1_0) : (⟨S256x512, .f32⟩ : BufTy).Contents (Elt F) → (⟨S512x256, .f32⟩ : BufTy).Contents (Elt F)),
    binary main_v2067 main_v2068 main_v2069 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    unary main_arg9 main_v2070 (broadcastInDim S1x256 ![1] bcast_S256_S1x256_1 : (⟨S256, .f32⟩ : BufTy).Contents (Elt F) → (⟨S1x256, .f32⟩ : BufTy).Contents (Elt F)),
    unary main_v2070 main_v2071 (broadcastInDim S8192x256 ![0, 1] bcast_S1x256_S8192x256_0_1 : (⟨S1x256, .f32⟩ : BufTy).Contents (Elt F) → (⟨S8192x256, .f32⟩ : BufTy).Contents (Elt F)),
    binary main_v2069 main_v2071 main_v2072 (addf : (⟨S8192x256, .f32⟩ : BufTy).Contents (Elt F) → (⟨S8192x256, .f32⟩ : BufTy).Contents (Elt F) → (⟨S8192x256, .f32⟩ : BufTy).Contents (Elt F)) ]

/-- Every operation of the line touches TensorCore references only. -/
theorem opsF_sub : (opsF (F := F)).Forall fun op => op.bufs ⊆ tcRefs τ sig := by
  unfold opsF
  exact ⟨unary_bufs_sub .., binary_bufs_sub .., unary_bufs_sub .., unary_bufs_sub .., binary_bufs_sub ..⟩

/-- No operation of the line allocates a buffer. -/
theorem opsF_fresh : (opsF (F := F)).Forall fun op => op.fresh = ∅ := by
  all_fresh opsF

/-- The references the line writes, in order. -/
abbrev opsF_W : List (Ref sig .tc) := [main_v2068, main_v2069, main_v2070, main_v2071, main_v2072]

theorem opsF_writes : (opsF (F := F)).map (fun op => op.writes)
    = (opsF_W).map fun y => ({Proc.devRef (τ := τ) .tc y} : Finset (DevRef τ sig)) := rfl

/-- A reference the line does not write keeps its contents. -/
theorem opsF_frame (V : Valuation τ sig (Elt F)) {r : Ref sig .tc} (hr : r ∉ opsF_W) :
    after (opsF (F := F)) V (no_index (Proc.devRef .tc r)) = V (Proc.devRef .tc r) :=
  Cert.RefLib.after_frame opsF_writes V hr

end Cert.ReferenceIdeal.RefSide

end
-- ==== Proof.RefRun.lean ====
/-
  The reference program's run, over its operations as one list.

  The program is a straight line of host operations: the two layers' operations and the five operations of the output
  projection, one after the other.  From any memory with zero counters every weakly fair execution terminates, and
  every buffer of every device ends at the contents the operations, applied in order, leave in it.
-/
import proofs.«143303_j18098992185957_1_alg».proof.Proof.RefOps1
import proofs.«143303_j18098992185957_1_alg».proof.Proof.RefOps2

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The program's operations, in order: the first layer, the second layer, the output projection. -/
def opsAll : List (HloOp τ sig (Elt F)) :=
  opsL1 ++ (opsL2 ++ (opsF))

theorem opsAll_sub : (opsAll (F := F)).Forall fun op => op.bufs ⊆ tcRefs τ sig := by
  unfold opsAll
  exact Cert.LibAfter.Forall.append opsL1_sub (Cert.LibAfter.Forall.append opsL2_sub (opsF_sub))

theorem opsAll_fresh : (opsAll (F := F)).Forall fun op => op.fresh = ∅ := by
  unfold opsAll
  exact Cert.LibAfter.Forall.append opsL1_fresh (Cert.LibAfter.Forall.append opsL2_fresh (opsF_fresh))

/-- The references the line writes, in order. -/
abbrev opsAll_W : List (Ref sig .tc) :=
  opsL1_W ++ (opsL2_W ++ (opsF_W))

theorem opsAll_writes : (opsAll (F := F)).map (fun op => op.writes)
    = (opsAll_W).map fun y => ({Proc.devRef (τ := τ) .tc y} : Finset (DevRef τ sig)) := by
  unfold opsAll
  exact Cert.RefLib.writes_append opsL1_writes (Cert.RefLib.writes_append opsL2_writes (opsF_writes))

/-- A reference the line does not write keeps its contents. -/
theorem opsAll_frame (V : Valuation τ sig (Elt F)) {r : Ref sig .tc} (hr : r ∉ opsAll_W) :
    after (opsAll (F := F)) V (no_index (Proc.devRef .tc r)) = V (Proc.devRef .tc r) :=
  Cert.RefLib.after_frame opsAll_writes V hr

set_option maxRecDepth 100000 in
set_option maxHeartbeats 0 in
/-- The program is the straight line of its operations. -/
theorem main_eq (c : Dev nD) : main (F := F) c = seq opsAll := rfl

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of the
    program terminates with each buffer at what the operations, in order, leave in it. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = after (opsAll (F := F)) (launchContents m d) (Proc.devRef .tc b) :=
  run_seq scopedRefs_eq scopedSems_eq defs main (fun _ => opsAll) main_eq (fun _ => opsAll_sub) m ρ
    (Cert.LibAfter.fresh_of_forall_dev fun _ => opsAll_fresh)

end Cert.ReferenceIdeal.RefSide

end
-- ==== Proof.RefRead1a.lean ====
/-
  The reference program's layer 1, read piece by piece (the first and last operations and labels 0 to 9).

  For ANY contents of the buffers before a piece of the layer's operations, the buffer the piece ends in holds, after
  the piece, the corresponding step of the network as `Cert.Net` writes it: the self transform `h · W_selfᵀ + b_self`
  after the first operations; for relation label `r`, the running sum with the label's two masked messages added
  (`Cert.Net.step`), the two products `h · W_rᵀ + b_r` and `h · W_{20+r}ᵀ + b_{20+r}` written over the buffers that hold `h`
  and the layer's forty matrices and bias rows; the positive part after the last operations.  Each is the
  composition of the piece's operations, read off operation by operation.
-/
import proofs.«143303_j18098992185957_1_alg».proof.Proof.RefOps1
import proofs.«143303_j18098992185957_1_alg».proof.Proof.Net

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The self transform of every node. -/
theorem pre1_base (Vv : Valuation τ sig (Elt Ideal)) :
    after (pre1 (F := Ideal)) Vv (no_index (Proc.devRef .tc main_v12))
      = Cert.Net.lin dot_S8192x512_S512x512_S8192x512_1_0_0_1_n_n (Vv (Proc.devRef .tc main_arg0)) (Cert.Net.Wself (Vv (Proc.devRef .tc main_arg4)) 0 (by omega)) (Cert.Net.bself (Vv (Proc.devRef .tc main_arg5)) 0 (by omega)) := by
  unfold pre1
  after_results_simp
  rfl

/-- The layer's forty message matrices. -/
theorem pre1_w (Vv : Valuation τ sig (Elt Ideal)) :
    after (pre1 (F := Ideal)) Vv (no_index (Proc.devRef .tc main_v5)) = Cert.Net.W40 (Vv (Proc.devRef .tc main_arg6)) 0 (by omega) := by
  unfold pre1
  after_results_simp
  rfl

/-- The layer's forty bias rows. -/
theorem pre1_b (Vv : Valuation τ sig (Elt Ideal)) :
    after (pre1 (F := Ideal)) Vv (no_index (Proc.devRef .tc main_v7)) = Cert.Net.b40 (Vv (Proc.devRef .tc main_arg7)) 0 (by omega) := by
  unfold pre1
  after_results_simp
  rfl

/-- After the line the running sum holds label 0's two messages added to what it held before. -/
theorem lab1_0_out (Vv : Valuation τ sig (Elt Ideal)) :
    after (lab1_0 (F := Ideal)) Vv (no_index (Proc.devRef .tc main_v63))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 0)
          (Cert.Net.lin dot_S8192x512_S512x512_S8192x512_1_0_0_1_n_n (Vv (Proc.devRef .tc main_arg0)) (Cert.Net.Wsel (Vv (Proc.devRef .tc main_v5)) 0 (by omega)) (Cert.Net.bsel (Vv (Proc.devRef .tc main_v7)) 0 (by omega)))
          (Cert.Net.lin dot_S8192x512_S512x512_S8192x512_1_0_0_1_n_n (Vv (Proc.devRef .tc main_arg0)) (Cert.Net.Wsel (Vv (Proc.devRef .tc main_v5)) (20 + 0) (by omega)) (Cert.Net.bsel (Vv (Proc.devRef .tc main_v7)) (20 + 0) (by omega)))
          (Vv (Proc.devRef .tc main_v12)) := by
  unfold lab1_0
  after_results_simp
  rfl

/-- After the line the running sum holds label 1's two messages added to what it held before. -/
theorem lab1_1_out (Vv : Valuation τ sig (Elt Ideal)) :
    after (lab1_1 (F := Ideal)) Vv (no_index (Proc.devRef .tc main_v114))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 1)
          (Cert.Net.lin dot_S8192x512_S512x512_S8192x512_1_0_0_1_n_n (Vv (Proc.devRef .tc main_arg0)) (Cert.Net.Wsel (Vv (Proc.devRef .tc main_v5)) 1 (by omega)) (Cert.Net.bsel (Vv (Proc.devRef .tc main_v7)) 1 (by omega)))
          (Cert.Net.lin dot_S8192x512_S512x512_S8192x512_1_0_0_1_n_n (Vv (Proc.devRef .tc main_arg0)) (Cert.Net.Wsel (Vv (Proc.devRef .tc main_v5)) (20 + 1) (by omega)) (Cert.Net.bsel (Vv (Proc.devRef .tc main_v7)) (20 + 1) (by omega)))
          (Vv (Proc.devRef .tc main_v63)) := by
  unfold lab1_1
  after_results_simp
  rfl

/-- After the line the running sum holds label 2's two messages added to what it held before. -/
theorem lab1_2_out (Vv : Valuation τ sig (Elt Ideal)) :
    after (lab1_2 (F := Ideal)) Vv (no_index (Proc.devRef .tc main_v165))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 2)
          (Cert.Net.lin dot_S8192x512_S512x512_S8192x512_1_0_0_1_n_n (Vv (Proc.devRef .tc main_arg0)) (Cert.Net.Wsel (Vv (Proc.devRef .tc main_v5)) 2 (by omega)) (Cert.Net.bsel (Vv (Proc.devRef .tc main_v7)) 2 (by omega)))
          (Cert.Net.lin dot_S8192x512_S512x512_S8192x512_1_0_0_1_n_n (Vv (Proc.devRef .tc main_arg0)) (Cert.Net.Wsel (Vv (Proc.devRef .tc main_v5)) (20 + 2) (by omega)) (Cert.Net.bsel (Vv (Proc.devRef .tc main_v7)) (20 + 2) (by omega)))
          (Vv (Proc.devRef .tc main_v114)) := by
  unfold lab1_2
  after_results_simp
  rfl

/-- After the line the running sum holds label 3's two messages added to what it held before. -/
theorem lab1_3_out (Vv : Valuation τ sig (Elt Ideal)) :
    after (lab1_3 (F := Ideal)) Vv (no_index (Proc.devRef .tc main_v216))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 3)
          (Cert.Net.lin dot_S8192x512_S512x512_S8192x512_1_0_0_1_n_n (Vv (Proc.devRef .tc main_arg0)) (Cert.Net.Wsel (Vv (Proc.devRef .tc main_v5)) 3 (by omega)) (Cert.Net.bsel (Vv (Proc.devRef .tc main_v7)) 3 (by omega)))
          (Cert.Net.lin dot_S8192x512_S512x512_S8192x512_1_0_0_1_n_n (Vv (Proc.devRef .tc main_arg0)) (Cert.Net.Wsel (Vv (Proc.devRef .tc main_v5)) (20 + 3) (by omega)) (Cert.Net.bsel (Vv (Proc.devRef .tc main_v7)) (20 + 3) (by omega)))
          (Vv (Proc.devRef .tc main_v165)) := by
  unfold lab1_3
  after_results_simp
  rfl

/-- After the line the running sum holds label 4's two messages added to what it held before. -/
theorem lab1_4_out (Vv : Valuation τ sig (Elt Ideal)) :
    after (lab1_4 (F := Ideal)) Vv (no_index (Proc.devRef .tc main_v267))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 4)
          (Cert.Net.lin dot_S8192x512_S512x512_S8192x512_1_0_0_1_n_n (Vv (Proc.devRef .tc main_arg0)) (Cert.Net.Wsel (Vv (Proc.devRef .tc main_v5)) 4 (by omega)) (Cert.Net.bsel (Vv (Proc.devRef .tc main_v7)) 4 (by omega)))
          (Cert.Net.lin dot_S8192x512_S512x512_S8192x512_1_0_0_1_n_n (Vv (Proc.devRef .tc main_arg0)) (Cert.Net.Wsel (Vv (Proc.devRef .tc main_v5)) (20 + 4) (by omega)) (Cert.Net.bsel (Vv (Proc.devRef .tc main_v7)) (20 + 4) (by omega)))
          (Vv (Proc.devRef .tc main_v216)) := by
  unfold lab1_4
  after_results_simp
  rfl

/-- After the line the running sum holds label 5's two messages added to what it held before. -/
theorem lab1_5_out (Vv : Valuation τ sig (Elt Ideal)) :
    after (lab1_5 (F := Ideal)) Vv (no_index (Proc.devRef .tc main_v318))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 5)
          (Cert.Net.lin dot_S8192x512_S512x512_S8192x512_1_0_0_1_n_n (Vv (Proc.devRef .tc main_arg0)) (Cert.Net.Wsel (Vv (Proc.devRef .tc main_v5)) 5 (by omega)) (Cert.Net.bsel (Vv (Proc.devRef .tc main_v7)) 5 (by omega)))
          (Cert.Net.lin dot_S8192x512_S512x512_S8192x512_1_0_0_1_n_n (Vv (Proc.devRef .tc main_arg0)) (Cert.Net.Wsel (Vv (Proc.devRef .tc main_v5)) (20 + 5) (by omega)) (Cert.Net.bsel (Vv (Proc.devRef .tc main_v7)) (20 + 5) (by omega)))
          (Vv (Proc.devRef .tc main_v267)) := by
  unfold lab1_5
  after_results_simp
  rfl

/-- After the line the running sum holds label 6's two messages added to what it held before. -/
theorem lab1_6_out (Vv : Valuation τ sig (Elt Ideal)) :
    after (lab1_6 (F := Ideal)) Vv (no_index (Proc.devRef .tc main_v369))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 6)
          (Cert.Net.lin dot_S8192x512_S512x512_S8192x512_1_0_0_1_n_n (Vv (Proc.devRef .tc main_arg0)) (Cert.Net.Wsel (Vv (Proc.devRef .tc main_v5)) 6 (by omega)) (Cert.Net.bsel (Vv (Proc.devRef .tc main_v7)) 6 (by omega)))
          (Cert.Net.lin dot_S8192x512_S512x512_S8192x512_1_0_0_1_n_n (Vv (Proc.devRef .tc main_arg0)) (Cert.Net.Wsel (Vv (Proc.devRef .tc main_v5)) (20 + 6) (by omega)) (Cert.Net.bsel (Vv (Proc.devRef .tc main_v7)) (20 + 6) (by omega)))
          (Vv (Proc.devRef .tc main_v318)) := by
  unfold lab1_6
  after_results_simp
  rfl

/-- After the line the running sum holds label 7's two messages added to what it held before. -/
theorem lab1_7_out (Vv : Valuation τ sig (Elt Ideal)) :
    after (lab1_7 (F := Ideal)) Vv (no_index (Proc.devRef .tc main_v420))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 7)
          (Cert.Net.lin dot_S8192x512_S512x512_S8192x512_1_0_0_1_n_n (Vv (Proc.devRef .tc main_arg0)) (Cert.Net.Wsel (Vv (Proc.devRef .tc main_v5)) 7 (by omega)) (Cert.Net.bsel (Vv (Proc.devRef .tc main_v7)) 7 (by omega)))
          (Cert.Net.lin dot_S8192x512_S512x512_S8192x512_1_0_0_1_n_n (Vv (Proc.devRef .tc main_arg0)) (Cert.Net.Wsel (Vv (Proc.devRef .tc main_v5)) (20 + 7) (by omega)) (Cert.Net.bsel (Vv (Proc.devRef .tc main_v7)) (20 + 7) (by omega)))
          (Vv (Proc.devRef .tc main_v369)) := by
  unfold lab1_7
  after_results_simp
  rfl

/-- After the line the running sum holds label 8's two messages added to what it held before. -/
theorem lab1_8_out (Vv : Valuation τ sig (Elt Ideal)) :
    after (lab1_8 (F := Ideal)) Vv (no_index (Proc.devRef .tc main_v471))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 8)
          (Cert.Net.lin dot_S8192x512_S512x512_S8192x512_1_0_0_1_n_n (Vv (Proc.devRef .tc main_arg0)) (Cert.Net.Wsel (Vv (Proc.devRef .tc main_v5)) 8 (by omega)) (Cert.Net.bsel (Vv (Proc.devRef .tc main_v7)) 8 (by omega)))
          (Cert.Net.lin dot_S8192x512_S512x512_S8192x512_1_0_0_1_n_n (Vv (Proc.devRef .tc main_arg0)) (Cert.Net.Wsel (Vv (Proc.devRef .tc main_v5)) (20 + 8) (by omega)) (Cert.Net.bsel (Vv (Proc.devRef .tc main_v7)) (20 + 8) (by omega)))
          (Vv (Proc.devRef .tc main_v420)) := by
  unfold lab1_8
  after_results_simp
  rfl

/-- After the line the running sum holds label 9's two messages added to what it held before. -/
theorem lab1_9_out (Vv : Valuation τ sig (Elt Ideal)) :
    after (lab1_9 (F := Ideal)) Vv (no_index (Proc.devRef .tc main_v522))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 9)
          (Cert.Net.lin dot_S8192x512_S512x512_S8192x512_1_0_0_1_n_n (Vv (Proc.devRef .tc main_arg0)) (Cert.Net.Wsel (Vv (Proc.devRef .tc main_v5)) 9 (by omega)) (Cert.Net.bsel (Vv (Proc.devRef .tc main_v7)) 9 (by omega)))
          (Cert.Net.lin dot_S8192x512_S512x512_S8192x512_1_0_0_1_n_n (Vv (Proc.devRef .tc main_arg0)) (Cert.Net.Wsel (Vv (Proc.devRef .tc main_v5)) (20 + 9) (by omega)) (Cert.Net.bsel (Vv (Proc.devRef .tc main_v7)) (20 + 9) (by omega)))
          (Vv (Proc.devRef .tc main_v471)) := by
  unfold lab1_9
  after_results_simp
  rfl

/-- The layer's result is the positive part of the running sum. -/
theorem fin1_out (Vv : Valuation τ sig (Elt Ideal)) :
    after (fin1 (F := Ideal)) Vv (no_index (Proc.devRef .tc main_v1033)) = Cert.Net.relu (Vv (Proc.devRef .tc main_v1032)) := by
  unfold fin1
  after_results_simp
  rfl

end Cert.ReferenceIdeal.RefSide

end
-- ==== Proof.RefRead1b.lean ====
/-
  The reference program's layer 1, read piece by piece (labels 10 to 19).

  For ANY contents of the buffers before a piece of the layer's operations, the buffer the piece ends in holds, after
  the piece, the corresponding step of the network as `Cert.Net` writes it: the self transform `h · W_selfᵀ + b_self`
  after the first operations; for relation label `r`, the running sum with the label's two masked messages added
  (`Cert.Net.step`), the two products `h · W_rᵀ + b_r` and `h · W_{20+r}ᵀ + b_{20+r}` written over the buffers that hold `h`
  and the layer's forty matrices and bias rows; the positive part after the last operations.  Each is the
  composition of the piece's operations, read off operation by operation.
-/
import proofs.«143303_j18098992185957_1_alg».proof.Proof.RefOps1
import proofs.«143303_j18098992185957_1_alg».proof.Proof.Net

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- After the line the running sum holds label 10's two messages added to what it held before. -/
theorem lab1_10_out (Vv : Valuation τ sig (Elt Ideal)) :
    after (lab1_10 (F := Ideal)) Vv (no_index (Proc.devRef .tc main_v573))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 10)
          (Cert.Net.lin dot_S8192x512_S512x512_S8192x512_1_0_0_1_n_n (Vv (Proc.devRef .tc main_arg0)) (Cert.Net.Wsel (Vv (Proc.devRef .tc main_v5)) 10 (by omega)) (Cert.Net.bsel (Vv (Proc.devRef .tc main_v7)) 10 (by omega)))
          (Cert.Net.lin dot_S8192x512_S512x512_S8192x512_1_0_0_1_n_n (Vv (Proc.devRef .tc main_arg0)) (Cert.Net.Wsel (Vv (Proc.devRef .tc main_v5)) (20 + 10) (by omega)) (Cert.Net.bsel (Vv (Proc.devRef .tc main_v7)) (20 + 10) (by omega)))
          (Vv (Proc.devRef .tc main_v522)) := by
  unfold lab1_10
  after_results_simp
  rfl

/-- After the line the running sum holds label 11's two messages added to what it held before. -/
theorem lab1_11_out (Vv : Valuation τ sig (Elt Ideal)) :
    after (lab1_11 (F := Ideal)) Vv (no_index (Proc.devRef .tc main_v624))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 11)
          (Cert.Net.lin dot_S8192x512_S512x512_S8192x512_1_0_0_1_n_n (Vv (Proc.devRef .tc main_arg0)) (Cert.Net.Wsel (Vv (Proc.devRef .tc main_v5)) 11 (by omega)) (Cert.Net.bsel (Vv (Proc.devRef .tc main_v7)) 11 (by omega)))
          (Cert.Net.lin dot_S8192x512_S512x512_S8192x512_1_0_0_1_n_n (Vv (Proc.devRef .tc main_arg0)) (Cert.Net.Wsel (Vv (Proc.devRef .tc main_v5)) (20 + 11) (by omega)) (Cert.Net.bsel (Vv (Proc.devRef .tc main_v7)) (20 + 11) (by omega)))
          (Vv (Proc.devRef .tc main_v573)) := by
  unfold lab1_11
  after_results_simp
  rfl

/-- After the line the running sum holds label 12's two messages added to what it held before. -/
theorem lab1_12_out (Vv : Valuation τ sig (Elt Ideal)) :
    after (lab1_12 (F := Ideal)) Vv (no_index (Proc.devRef .tc main_v675))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 12)
          (Cert.Net.lin dot_S8192x512_S512x512_S8192x512_1_0_0_1_n_n (Vv (Proc.devRef .tc main_arg0)) (Cert.Net.Wsel (Vv (Proc.devRef .tc main_v5)) 12 (by omega)) (Cert.Net.bsel (Vv (Proc.devRef .tc main_v7)) 12 (by omega)))
          (Cert.Net.lin dot_S8192x512_S512x512_S8192x512_1_0_0_1_n_n (Vv (Proc.devRef .tc main_arg0)) (Cert.Net.Wsel (Vv (Proc.devRef .tc main_v5)) (20 + 12) (by omega)) (Cert.Net.bsel (Vv (Proc.devRef .tc main_v7)) (20 + 12) (by omega)))
          (Vv (Proc.devRef .tc main_v624)) := by
  unfold lab1_12
  after_results_simp
  rfl

/-- After the line the running sum holds label 13's two messages added to what it held before. -/
theorem lab1_13_out (Vv : Valuation τ sig (Elt Ideal)) :
    after (lab1_13 (F := Ideal)) Vv (no_index (Proc.devRef .tc main_v726))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 13)
          (Cert.Net.lin dot_S8192x512_S512x512_S8192x512_1_0_0_1_n_n (Vv (Proc.devRef .tc main_arg0)) (Cert.Net.Wsel (Vv (Proc.devRef .tc main_v5)) 13 (by omega)) (Cert.Net.bsel (Vv (Proc.devRef .tc main_v7)) 13 (by omega)))
          (Cert.Net.lin dot_S8192x512_S512x512_S8192x512_1_0_0_1_n_n (Vv (Proc.devRef .tc main_arg0)) (Cert.Net.Wsel (Vv (Proc.devRef .tc main_v5)) (20 + 13) (by omega)) (Cert.Net.bsel (Vv (Proc.devRef .tc main_v7)) (20 + 13) (by omega)))
          (Vv (Proc.devRef .tc main_v675)) := by
  unfold lab1_13
  after_results_simp
  rfl

/-- After the line the running sum holds label 14's two messages added to what it held before. -/
theorem lab1_14_out (Vv : Valuation τ sig (Elt Ideal)) :
    after (lab1_14 (F := Ideal)) Vv (no_index (Proc.devRef .tc main_v777))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 14)
          (Cert.Net.lin dot_S8192x512_S512x512_S8192x512_1_0_0_1_n_n (Vv (Proc.devRef .tc main_arg0)) (Cert.Net.Wsel (Vv (Proc.devRef .tc main_v5)) 14 (by omega)) (Cert.Net.bsel (Vv (Proc.devRef .tc main_v7)) 14 (by omega)))
          (Cert.Net.lin dot_S8192x512_S512x512_S8192x512_1_0_0_1_n_n (Vv (Proc.devRef .tc main_arg0)) (Cert.Net.Wsel (Vv (Proc.devRef .tc main_v5)) (20 + 14) (by omega)) (Cert.Net.bsel (Vv (Proc.devRef .tc main_v7)) (20 + 14) (by omega)))
          (Vv (Proc.devRef .tc main_v726)) := by
  unfold lab1_14
  after_results_simp
  rfl

/-- After the line the running sum holds label 15's two messages added to what it held before. -/
theorem lab1_15_out (Vv : Valuation τ sig (Elt Ideal)) :
    after (lab1_15 (F := Ideal)) Vv (no_index (Proc.devRef .tc main_v828))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 15)
          (Cert.Net.lin dot_S8192x512_S512x512_S8192x512_1_0_0_1_n_n (Vv (Proc.devRef .tc main_arg0)) (Cert.Net.Wsel (Vv (Proc.devRef .tc main_v5)) 15 (by omega)) (Cert.Net.bsel (Vv (Proc.devRef .tc main_v7)) 15 (by omega)))
          (Cert.Net.lin dot_S8192x512_S512x512_S8192x512_1_0_0_1_n_n (Vv (Proc.devRef .tc main_arg0)) (Cert.Net.Wsel (Vv (Proc.devRef .tc main_v5)) (20 + 15) (by omega)) (Cert.Net.bsel (Vv (Proc.devRef .tc main_v7)) (20 + 15) (by omega)))
          (Vv (Proc.devRef .tc main_v777)) := by
  unfold lab1_15
  after_results_simp
  rfl

/-- After the line the running sum holds label 16's two messages added to what it held before. -/
theorem lab1_16_out (Vv : Valuation τ sig (Elt Ideal)) :
    after (lab1_16 (F := Ideal)) Vv (no_index (Proc.devRef .tc main_v879))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 16)
          (Cert.Net.lin dot_S8192x512_S512x512_S8192x512_1_0_0_1_n_n (Vv (Proc.devRef .tc main_arg0)) (Cert.Net.Wsel (Vv (Proc.devRef .tc main_v5)) 16 (by omega)) (Cert.Net.bsel (Vv (Proc.devRef .tc main_v7)) 16 (by omega)))
          (Cert.Net.lin dot_S8192x512_S512x512_S8192x512_1_0_0_1_n_n (Vv (Proc.devRef .tc main_arg0)) (Cert.Net.Wsel (Vv (Proc.devRef .tc main_v5)) (20 + 16) (by omega)) (Cert.Net.bsel (Vv (Proc.devRef .tc main_v7)) (20 + 16) (by omega)))
          (Vv (Proc.devRef .tc main_v828)) := by
  unfold lab1_16
  after_results_simp
  rfl

/-- After the line the running sum holds label 17's two messages added to what it held before. -/
theorem lab1_17_out (Vv : Valuation τ sig (Elt Ideal)) :
    after (lab1_17 (F := Ideal)) Vv (no_index (Proc.devRef .tc main_v930))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 17)
          (Cert.Net.lin dot_S8192x512_S512x512_S8192x512_1_0_0_1_n_n (Vv (Proc.devRef .tc main_arg0)) (Cert.Net.Wsel (Vv (Proc.devRef .tc main_v5)) 17 (by omega)) (Cert.Net.bsel (Vv (Proc.devRef .tc main_v7)) 17 (by omega)))
          (Cert.Net.lin dot_S8192x512_S512x512_S8192x512_1_0_0_1_n_n (Vv (Proc.devRef .tc main_arg0)) (Cert.Net.Wsel (Vv (Proc.devRef .tc main_v5)) (20 + 17) (by omega)) (Cert.Net.bsel (Vv (Proc.devRef .tc main_v7)) (20 + 17) (by omega)))
          (Vv (Proc.devRef .tc main_v879)) := by
  unfold lab1_17
  after_results_simp
  rfl

/-- After the line the running sum holds label 18's two messages added to what it held before. -/
theorem lab1_18_out (Vv : Valuation τ sig (Elt Ideal)) :
    after (lab1_18 (F := Ideal)) Vv (no_index (Proc.devRef .tc main_v981))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 18)
          (Cert.Net.lin dot_S8192x512_S512x512_S8192x512_1_0_0_1_n_n (Vv (Proc.devRef .tc main_arg0)) (Cert.Net.Wsel (Vv (Proc.devRef .tc main_v5)) 18 (by omega)) (Cert.Net.bsel (Vv (Proc.devRef .tc main_v7)) 18 (by omega)))
          (Cert.Net.lin dot_S8192x512_S512x512_S8192x512_1_0_0_1_n_n (Vv (Proc.devRef .tc main_arg0)) (Cert.Net.Wsel (Vv (Proc.devRef .tc main_v5)) (20 + 18) (by omega)) (Cert.Net.bsel (Vv (Proc.devRef .tc main_v7)) (20 + 18) (by omega)))
          (Vv (Proc.devRef .tc main_v930)) := by
  unfold lab1_18
  after_results_simp
  rfl

/-- After the line the running sum holds label 19's two messages added to what it held before. -/
theorem lab1_19_out (Vv : Valuation τ sig (Elt Ideal)) :
    after (lab1_19 (F := Ideal)) Vv (no_index (Proc.devRef .tc main_v1032))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 19)
          (Cert.Net.lin dot_S8192x512_S512x512_S8192x512_1_0_0_1_n_n (Vv (Proc.devRef .tc main_arg0)) (Cert.Net.Wsel (Vv (Proc.devRef .tc main_v5)) 19 (by omega)) (Cert.Net.bsel (Vv (Proc.devRef .tc main_v7)) 19 (by omega)))
          (Cert.Net.lin dot_S8192x512_S512x512_S8192x512_1_0_0_1_n_n (Vv (Proc.devRef .tc main_arg0)) (Cert.Net.Wsel (Vv (Proc.devRef .tc main_v5)) (20 + 19) (by omega)) (Cert.Net.bsel (Vv (Proc.devRef .tc main_v7)) (20 + 19) (by omega)))
          (Vv (Proc.devRef .tc main_v981)) := by
  unfold lab1_19
  after_results_simp
  rfl

end Cert.ReferenceIdeal.RefSide

end
-- ==== Proof.RefLayer1.lean ====
/-
  The reference program's layer 1, as one function of the buffers it starts from.

  The layer's operations are the concatenation of its pieces, so the buffers after the layer are the buffers after the
  last piece, started from the buffers after the pieces before it.  Each piece adds its step to the running sum and
  leaves alone the buffers the later pieces read (the node numbers, the labels, the layer's input `h`, the layer's
  matrices and bias rows), so the layer's result is the positive part of the twenty steps applied in order to the self
  transform: `Cert.Net.refLayer`, for any contents of the buffers before the layer.
-/
import proofs.«143303_j18098992185957_1_alg».proof.Proof.RefRead1a
import proofs.«143303_j18098992185957_1_alg».proof.Proof.RefRead1b

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 100000 in
set_option maxHeartbeats 4000000 in
/-- After layer 1's operations its result buffer holds the layer of the network, over the argument buffers and the
    layer's input as they were before the operations. -/
theorem opsL1_out (Vv : Valuation τ sig (Elt Ideal)) :
    after (opsL1 (F := Ideal)) Vv (no_index (Proc.devRef .tc main_v1033))
      = Cert.Net.refLayer gather_S8192x512_S8192x1_S8192x512_1_0_n_n_0_1_1512 scatter_S8192x512_S8192x1_S8192x512_1_0_0_1 dot_S8192x512_S512x512_S8192x512_1_0_0_1_n_n
          (Vv (Proc.devRef .tc main_arg1)) (Vv (Proc.devRef .tc main_arg2)) (Vv (Proc.devRef .tc main_arg3)) (Vv (Proc.devRef .tc main_arg4)) (Vv (Proc.devRef .tc main_arg5)) (Vv (Proc.devRef .tc main_arg6)) (Vv (Proc.devRef .tc main_arg7))
          (Vv (Proc.devRef .tc main_arg0)) 0 (by omega) := by
  unfold opsL1
  simp (disch := decide) only [Cert.LibAfter.after_append, fin1_out, lab1_19_out, lab1_18_out, lab1_17_out, lab1_16_out, lab1_15_out, lab1_14_out, lab1_13_out, lab1_12_out, lab1_11_out, lab1_10_out, lab1_9_out, lab1_8_out, lab1_7_out, lab1_6_out, lab1_5_out, lab1_4_out, lab1_3_out, lab1_2_out, lab1_1_out, lab1_0_out, pre1_base, pre1_w, pre1_b, fin1_frame, lab1_19_frame, lab1_18_frame, lab1_17_frame, lab1_16_frame, lab1_15_frame, lab1_14_frame, lab1_13_frame, lab1_12_frame, lab1_11_frame, lab1_10_frame, lab1_9_frame, lab1_8_frame, lab1_7_frame, lab1_6_frame, lab1_5_frame, lab1_4_frame, lab1_3_frame, lab1_2_frame, lab1_1_frame, lab1_0_frame, pre1_frame]
  rfl

end Cert.ReferenceIdeal.RefSide

end
-- ==== Proof.RefRead2a.lean ====
/-
  The reference program's layer 2, read piece by piece (the first and last operations and labels 0 to 9).

  For ANY contents of the buffers before a piece of the layer's operations, the buffer the piece ends in holds, after
  the piece, the corresponding step of the network as `Cert.Net` writes it: the self transform `h · W_selfᵀ + b_self`
  after the first operations; for relation label `r`, the running sum with the label's two masked messages added
  (`Cert.Net.step`), the two products `h · W_rᵀ + b_r` and `h · W_{20+r}ᵀ + b_{20+r}` written over the buffers that hold `h`
  and the layer's forty matrices and bias rows; the positive part after the last operations.  Each is the
  composition of the piece's operations, read off operation by operation.
-/
import proofs.«143303_j18098992185957_1_alg».proof.Proof.RefOps2
import proofs.«143303_j18098992185957_1_alg».proof.Proof.Net

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The self transform of every node. -/
theorem pre2_base (Vv : Valuation τ sig (Elt Ideal)) :
    after (pre2 (F := Ideal)) Vv (no_index (Proc.devRef .tc main_v1046))
      = Cert.Net.lin dot_S8192x512_S512x512_S8192x512_1_0_0_1_n_n (Vv (Proc.devRef .tc main_v1033)) (Cert.Net.Wself (Vv (Proc.devRef .tc main_arg4)) 1 (by omega)) (Cert.Net.bself (Vv (Proc.devRef .tc main_arg5)) 1 (by omega)) := by
  unfold pre2
  after_results_simp
  rfl

set_option maxHeartbeats 4000000 in
/-- The layer's forty message matrices. -/
theorem pre2_w (Vv : Valuation τ sig (Elt Ideal)) :
    after (pre2 (F := Ideal)) Vv (no_index (Proc.devRef .tc main_v1039)) = Cert.Net.W40 (Vv (Proc.devRef .tc main_arg6)) 1 (by omega) := by
  unfold pre2
  after_results_simp
  rfl

set_option maxHeartbeats 4000000 in
/-- The layer's forty bias rows. -/
theorem pre2_b (Vv : Valuation τ sig (Elt Ideal)) :
    after (pre2 (F := Ideal)) Vv (no_index (Proc.devRef .tc main_v1041)) = Cert.Net.b40 (Vv (Proc.devRef .tc main_arg7)) 1 (by omega) := by
  unfold pre2
  after_results_simp
  rfl

set_option maxHeartbeats 4000000 in
/-- After the line the running sum holds label 0's two messages added to what it held before. -/
theorem lab2_0_out (Vv : Valuation τ sig (Elt Ideal)) :
    after (lab2_0 (F := Ideal)) Vv (no_index (Proc.devRef .tc main_v1097))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 0)
          (Cert.Net.lin dot_S8192x512_S512x512_S8192x512_1_0_0_1_n_n (Vv (Proc.devRef .tc main_v1033)) (Cert.Net.Wsel (Vv (Proc.devRef .tc main_v1039)) 0 (by omega)) (Cert.Net.bsel (Vv (Proc.devRef .tc main_v1041)) 0 (by omega)))
          (Cert.Net.lin dot_S8192x512_S512x512_S8192x512_1_0_0_1_n_n (Vv (Proc.devRef .tc main_v1033)) (Cert.Net.Wsel (Vv (Proc.devRef .tc main_v1039)) (20 + 0) (by omega)) (Cert.Net.bsel (Vv (Proc.devRef .tc main_v1041)) (20 + 0) (by omega)))
          (Vv (Proc.devRef .tc main_v1046)) := by
  unfold lab2_0
  after_results_simp
  rfl

set_option maxHeartbeats 4000000 in
/-- After the line the running sum holds label 1's two messages added to what it held before. -/
theorem lab2_1_out (Vv : Valuation τ sig (Elt Ideal)) :
    after (lab2_1 (F := Ideal)) Vv (no_index (Proc.devRef .tc main_v1148))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 1)
          (Cert.Net.lin dot_S8192x512_S512x512_S8192x512_1_0_0_1_n_n (Vv (Proc.devRef .tc main_v1033)) (Cert.Net.Wsel (Vv (Proc.devRef .tc main_v1039)) 1 (by omega)) (Cert.Net.bsel (Vv (Proc.devRef .tc main_v1041)) 1 (by omega)))
          (Cert.Net.lin dot_S8192x512_S512x512_S8192x512_1_0_0_1_n_n (Vv (Proc.devRef .tc main_v1033)) (Cert.Net.Wsel (Vv (Proc.devRef .tc main_v1039)) (20 + 1) (by omega)) (Cert.Net.bsel (Vv (Proc.devRef .tc main_v1041)) (20 + 1) (by omega)))
          (Vv (Proc.devRef .tc main_v1097)) := by
  unfold lab2_1
  after_results_simp
  rfl

set_option maxHeartbeats 4000000 in
/-- After the line the running sum holds label 2's two messages added to what it held before. -/
theorem lab2_2_out (Vv : Valuation τ sig (Elt Ideal)) :
    after (lab2_2 (F := Ideal)) Vv (no_index (Proc.devRef .tc main_v1199))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 2)
          (Cert.Net.lin dot_S8192x512_S512x512_S8192x512_1_0_0_1_n_n (Vv (Proc.devRef .tc main_v1033)) (Cert.Net.Wsel (Vv (Proc.devRef .tc main_v1039)) 2 (by omega)) (Cert.Net.bsel (Vv (Proc.devRef .tc main_v1041)) 2 (by omega)))
          (Cert.Net.lin dot_S8192x512_S512x512_S8192x512_1_0_0_1_n_n (Vv (Proc.devRef .tc main_v1033)) (Cert.Net.Wsel (Vv (Proc.devRef .tc main_v1039)) (20 + 2) (by omega)) (Cert.Net.bsel (Vv (Proc.devRef .tc main_v1041)) (20 + 2) (by omega)))
          (Vv (Proc.devRef .tc main_v1148)) := by
  unfold lab2_2
  after_results_simp
  rfl

set_option maxHeartbeats 4000000 in
/-- After the line the running sum holds label 3's two messages added to what it held before. -/
theorem lab2_3_out (Vv : Valuation τ sig (Elt Ideal)) :
    after (lab2_3 (F := Ideal)) Vv (no_index (Proc.devRef .tc main_v1250))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 3)
          (Cert.Net.lin dot_S8192x512_S512x512_S8192x512_1_0_0_1_n_n (Vv (Proc.devRef .tc main_v1033)) (Cert.Net.Wsel (Vv (Proc.devRef .tc main_v1039)) 3 (by omega)) (Cert.Net.bsel (Vv (Proc.devRef .tc main_v1041)) 3 (by omega)))
          (Cert.Net.lin dot_S8192x512_S512x512_S8192x512_1_0_0_1_n_n (Vv (Proc.devRef .tc main_v1033)) (Cert.Net.Wsel (Vv (Proc.devRef .tc main_v1039)) (20 + 3) (by omega)) (Cert.Net.bsel (Vv (Proc.devRef .tc main_v1041)) (20 + 3) (by omega)))
          (Vv (Proc.devRef .tc main_v1199)) := by
  unfold lab2_3
  after_results_simp
  rfl

set_option maxHeartbeats 4000000 in
/-- After the line the running sum holds label 4's two messages added to what it held before. -/
theorem lab2_4_out (Vv : Valuation τ sig (Elt Ideal)) :
    after (lab2_4 (F := Ideal)) Vv (no_index (Proc.devRef .tc main_v1301))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 4)
          (Cert.Net.lin dot_S8192x512_S512x512_S8192x512_1_0_0_1_n_n (Vv (Proc.devRef .tc main_v1033)) (Cert.Net.Wsel (Vv (Proc.devRef .tc main_v1039)) 4 (by omega)) (Cert.Net.bsel (Vv (Proc.devRef .tc main_v1041)) 4 (by omega)))
          (Cert.Net.lin dot_S8192x512_S512x512_S8192x512_1_0_0_1_n_n (Vv (Proc.devRef .tc main_v1033)) (Cert.Net.Wsel (Vv (Proc.devRef .tc main_v1039)) (20 + 4) (by omega)) (Cert.Net.bsel (Vv (Proc.devRef .tc main_v1041)) (20 + 4) (by omega)))
          (Vv (Proc.devRef .tc main_v1250)) := by
  unfold lab2_4
  after_results_simp
  rfl

set_option maxHeartbeats 4000000 in
/-- After the line the running sum holds label 5's two messages added to what it held before. -/
theorem lab2_5_out (Vv : Valuation τ sig (Elt Ideal)) :
    after (lab2_5 (F := Ideal)) Vv (no_index (Proc.devRef .tc main_v1352))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 5)
          (Cert.Net.lin dot_S8192x512_S512x512_S8192x512_1_0_0_1_n_n (Vv (Proc.devRef .tc main_v1033)) (Cert.Net.Wsel (Vv (Proc.devRef .tc main_v1039)) 5 (by omega)) (Cert.Net.bsel (Vv (Proc.devRef .tc main_v1041)) 5 (by omega)))
          (Cert.Net.lin dot_S8192x512_S512x512_S8192x512_1_0_0_1_n_n (Vv (Proc.devRef .tc main_v1033)) (Cert.Net.Wsel (Vv (Proc.devRef .tc main_v1039)) (20 + 5) (by omega)) (Cert.Net.bsel (Vv (Proc.devRef .tc main_v1041)) (20 + 5) (by omega)))
          (Vv (Proc.devRef .tc main_v1301)) := by
  unfold lab2_5
  after_results_simp
  rfl

set_option maxHeartbeats 4000000 in
/-- After the line the running sum holds label 6's two messages added to what it held before. -/
theorem lab2_6_out (Vv : Valuation τ sig (Elt Ideal)) :
    after (lab2_6 (F := Ideal)) Vv (no_index (Proc.devRef .tc main_v1403))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 6)
          (Cert.Net.lin dot_S8192x512_S512x512_S8192x512_1_0_0_1_n_n (Vv (Proc.devRef .tc main_v1033)) (Cert.Net.Wsel (Vv (Proc.devRef .tc main_v1039)) 6 (by omega)) (Cert.Net.bsel (Vv (Proc.devRef .tc main_v1041)) 6 (by omega)))
          (Cert.Net.lin dot_S8192x512_S512x512_S8192x512_1_0_0_1_n_n (Vv (Proc.devRef .tc main_v1033)) (Cert.Net.Wsel (Vv (Proc.devRef .tc main_v1039)) (20 + 6) (by omega)) (Cert.Net.bsel (Vv (Proc.devRef .tc main_v1041)) (20 + 6) (by omega)))
          (Vv (Proc.devRef .tc main_v1352)) := by
  unfold lab2_6
  after_results_simp
  rfl

set_option maxHeartbeats 4000000 in
/-- After the line the running sum holds label 7's two messages added to what it held before. -/
theorem lab2_7_out (Vv : Valuation τ sig (Elt Ideal)) :
    after (lab2_7 (F := Ideal)) Vv (no_index (Proc.devRef .tc main_v1454))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 7)
          (Cert.Net.lin dot_S8192x512_S512x512_S8192x512_1_0_0_1_n_n (Vv (Proc.devRef .tc main_v1033)) (Cert.Net.Wsel (Vv (Proc.devRef .tc main_v1039)) 7 (by omega)) (Cert.Net.bsel (Vv (Proc.devRef .tc main_v1041)) 7 (by omega)))
          (Cert.Net.lin dot_S8192x512_S512x512_S8192x512_1_0_0_1_n_n (Vv (Proc.devRef .tc main_v1033)) (Cert.Net.Wsel (Vv (Proc.devRef .tc main_v1039)) (20 + 7) (by omega)) (Cert.Net.bsel (Vv (Proc.devRef .tc main_v1041)) (20 + 7) (by omega)))
          (Vv (Proc.devRef .tc main_v1403)) := by
  unfold lab2_7
  after_results_simp
  rfl

set_option maxHeartbeats 4000000 in
/-- After the line the running sum holds label 8's two messages added to what it held before. -/
theorem lab2_8_out (Vv : Valuation τ sig (Elt Ideal)) :
    after (lab2_8 (F := Ideal)) Vv (no_index (Proc.devRef .tc main_v1505))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 8)
          (Cert.Net.lin dot_S8192x512_S512x512_S8192x512_1_0_0_1_n_n (Vv (Proc.devRef .tc main_v1033)) (Cert.Net.Wsel (Vv (Proc.devRef .tc main_v1039)) 8 (by omega)) (Cert.Net.bsel (Vv (Proc.devRef .tc main_v1041)) 8 (by omega)))
          (Cert.Net.lin dot_S8192x512_S512x512_S8192x512_1_0_0_1_n_n (Vv (Proc.devRef .tc main_v1033)) (Cert.Net.Wsel (Vv (Proc.devRef .tc main_v1039)) (20 + 8) (by omega)) (Cert.Net.bsel (Vv (Proc.devRef .tc main_v1041)) (20 + 8) (by omega)))
          (Vv (Proc.devRef .tc main_v1454)) := by
  unfold lab2_8
  after_results_simp
  rfl

set_option maxHeartbeats 4000000 in
/-- After the line the running sum holds label 9's two messages added to what it held before. -/
theorem lab2_9_out (Vv : Valuation τ sig (Elt Ideal)) :
    after (lab2_9 (F := Ideal)) Vv (no_index (Proc.devRef .tc main_v1556))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 9)
          (Cert.Net.lin dot_S8192x512_S512x512_S8192x512_1_0_0_1_n_n (Vv (Proc.devRef .tc main_v1033)) (Cert.Net.Wsel (Vv (Proc.devRef .tc main_v1039)) 9 (by omega)) (Cert.Net.bsel (Vv (Proc.devRef .tc main_v1041)) 9 (by omega)))
          (Cert.Net.lin dot_S8192x512_S512x512_S8192x512_1_0_0_1_n_n (Vv (Proc.devRef .tc main_v1033)) (Cert.Net.Wsel (Vv (Proc.devRef .tc main_v1039)) (20 + 9) (by omega)) (Cert.Net.bsel (Vv (Proc.devRef .tc main_v1041)) (20 + 9) (by omega)))
          (Vv (Proc.devRef .tc main_v1505)) := by
  unfold lab2_9
  after_results_simp
  rfl

set_option maxHeartbeats 4000000 in
/-- The layer's result is the positive part of the running sum. -/
theorem fin2_out (Vv : Valuation τ sig (Elt Ideal)) :
    after (fin2 (F := Ideal)) Vv (no_index (Proc.devRef .tc main_v2067)) = Cert.Net.relu (Vv (Proc.devRef .tc main_v2066)) := by
  unfold fin2
  after_results_simp
  rfl

end Cert.ReferenceIdeal.RefSide

end
-- ==== Proof.RefRead2b.lean ====
/-
  The reference program's layer 2, read piece by piece (labels 10 to 19).

  For ANY contents of the buffers before a piece of the layer's operations, the buffer the piece ends in holds, after
  the piece, the corresponding step of the network as `Cert.Net` writes it: the self transform `h · W_selfᵀ + b_self`
  after the first operations; for relation label `r`, the running sum with the label's two masked messages added
  (`Cert.Net.step`), the two products `h · W_rᵀ + b_r` and `h · W_{20+r}ᵀ + b_{20+r}` written over the buffers that hold `h`
  and the layer's forty matrices and bias rows; the positive part after the last operations.  Each is the
  composition of the piece's operations, read off operation by operation.
-/
import proofs.«143303_j18098992185957_1_alg».proof.Proof.RefOps2
import proofs.«143303_j18098992185957_1_alg».proof.Proof.Net

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- After the line the running sum holds label 10's two messages added to what it held before. -/
theorem lab2_10_out (Vv : Valuation τ sig (Elt Ideal)) :
    after (lab2_10 (F := Ideal)) Vv (no_index (Proc.devRef .tc main_v1607))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 10)
          (Cert.Net.lin dot_S8192x512_S512x512_S8192x512_1_0_0_1_n_n (Vv (Proc.devRef .tc main_v1033)) (Cert.Net.Wsel (Vv (Proc.devRef .tc main_v1039)) 10 (by omega)) (Cert.Net.bsel (Vv (Proc.devRef .tc main_v1041)) 10 (by omega)))
          (Cert.Net.lin dot_S8192x512_S512x512_S8192x512_1_0_0_1_n_n (Vv (Proc.devRef .tc main_v1033)) (Cert.Net.Wsel (Vv (Proc.devRef .tc main_v1039)) (20 + 10) (by omega)) (Cert.Net.bsel (Vv (Proc.devRef .tc main_v1041)) (20 + 10) (by omega)))
          (Vv (Proc.devRef .tc main_v1556)) := by
  unfold lab2_10
  after_results_simp
  rfl

set_option maxHeartbeats 4000000 in
/-- After the line the running sum holds label 11's two messages added to what it held before. -/
theorem lab2_11_out (Vv : Valuation τ sig (Elt Ideal)) :
    after (lab2_11 (F := Ideal)) Vv (no_index (Proc.devRef .tc main_v1658))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 11)
          (Cert.Net.lin dot_S8192x512_S512x512_S8192x512_1_0_0_1_n_n (Vv (Proc.devRef .tc main_v1033)) (Cert.Net.Wsel (Vv (Proc.devRef .tc main_v1039)) 11 (by omega)) (Cert.Net.bsel (Vv (Proc.devRef .tc main_v1041)) 11 (by omega)))
          (Cert.Net.lin dot_S8192x512_S512x512_S8192x512_1_0_0_1_n_n (Vv (Proc.devRef .tc main_v1033)) (Cert.Net.Wsel (Vv (Proc.devRef .tc main_v1039)) (20 + 11) (by omega)) (Cert.Net.bsel (Vv (Proc.devRef .tc main_v1041)) (20 + 11) (by omega)))
          (Vv (Proc.devRef .tc main_v1607)) := by
  unfold lab2_11
  after_results_simp
  rfl

set_option maxHeartbeats 4000000 in
/-- After the line the running sum holds label 12's two messages added to what it held before. -/
theorem lab2_12_out (Vv : Valuation τ sig (Elt Ideal)) :
    after (lab2_12 (F := Ideal)) Vv (no_index (Proc.devRef .tc main_v1709))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 12)
          (Cert.Net.lin dot_S8192x512_S512x512_S8192x512_1_0_0_1_n_n (Vv (Proc.devRef .tc main_v1033)) (Cert.Net.Wsel (Vv (Proc.devRef .tc main_v1039)) 12 (by omega)) (Cert.Net.bsel (Vv (Proc.devRef .tc main_v1041)) 12 (by omega)))
          (Cert.Net.lin dot_S8192x512_S512x512_S8192x512_1_0_0_1_n_n (Vv (Proc.devRef .tc main_v1033)) (Cert.Net.Wsel (Vv (Proc.devRef .tc main_v1039)) (20 + 12) (by omega)) (Cert.Net.bsel (Vv (Proc.devRef .tc main_v1041)) (20 + 12) (by omega)))
          (Vv (Proc.devRef .tc main_v1658)) := by
  unfold lab2_12
  after_results_simp
  rfl

set_option maxHeartbeats 4000000 in
/-- After the line the running sum holds label 13's two messages added to what it held before. -/
theorem lab2_13_out (Vv : Valuation τ sig (Elt Ideal)) :
    after (lab2_13 (F := Ideal)) Vv (no_index (Proc.devRef .tc main_v1760))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 13)
          (Cert.Net.lin dot_S8192x512_S512x512_S8192x512_1_0_0_1_n_n (Vv (Proc.devRef .tc main_v1033)) (Cert.Net.Wsel (Vv (Proc.devRef .tc main_v1039)) 13 (by omega)) (Cert.Net.bsel (Vv (Proc.devRef .tc main_v1041)) 13 (by omega)))
          (Cert.Net.lin dot_S8192x512_S512x512_S8192x512_1_0_0_1_n_n (Vv (Proc.devRef .tc main_v1033)) (Cert.Net.Wsel (Vv (Proc.devRef .tc main_v1039)) (20 + 13) (by omega)) (Cert.Net.bsel (Vv (Proc.devRef .tc main_v1041)) (20 + 13) (by omega)))
          (Vv (Proc.devRef .tc main_v1709)) := by
  unfold lab2_13
  after_results_simp
  rfl

set_option maxHeartbeats 4000000 in
/-- After the line the running sum holds label 14's two messages added to what it held before. -/
theorem lab2_14_out (Vv : Valuation τ sig (Elt Ideal)) :
    after (lab2_14 (F := Ideal)) Vv (no_index (Proc.devRef .tc main_v1811))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 14)
          (Cert.Net.lin dot_S8192x512_S512x512_S8192x512_1_0_0_1_n_n (Vv (Proc.devRef .tc main_v1033)) (Cert.Net.Wsel (Vv (Proc.devRef .tc main_v1039)) 14 (by omega)) (Cert.Net.bsel (Vv (Proc.devRef .tc main_v1041)) 14 (by omega)))
          (Cert.Net.lin dot_S8192x512_S512x512_S8192x512_1_0_0_1_n_n (Vv (Proc.devRef .tc main_v1033)) (Cert.Net.Wsel (Vv (Proc.devRef .tc main_v1039)) (20 + 14) (by omega)) (Cert.Net.bsel (Vv (Proc.devRef .tc main_v1041)) (20 + 14) (by omega)))
          (Vv (Proc.devRef .tc main_v1760)) := by
  unfold lab2_14
  after_results_simp
  rfl

set_option maxHeartbeats 4000000 in
/-- After the line the running sum holds label 15's two messages added to what it held before. -/
theorem lab2_15_out (Vv : Valuation τ sig (Elt Ideal)) :
    after (lab2_15 (F := Ideal)) Vv (no_index (Proc.devRef .tc main_v1862))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 15)
          (Cert.Net.lin dot_S8192x512_S512x512_S8192x512_1_0_0_1_n_n (Vv (Proc.devRef .tc main_v1033)) (Cert.Net.Wsel (Vv (Proc.devRef .tc main_v1039)) 15 (by omega)) (Cert.Net.bsel (Vv (Proc.devRef .tc main_v1041)) 15 (by omega)))
          (Cert.Net.lin dot_S8192x512_S512x512_S8192x512_1_0_0_1_n_n (Vv (Proc.devRef .tc main_v1033)) (Cert.Net.Wsel (Vv (Proc.devRef .tc main_v1039)) (20 + 15) (by omega)) (Cert.Net.bsel (Vv (Proc.devRef .tc main_v1041)) (20 + 15) (by omega)))
          (Vv (Proc.devRef .tc main_v1811)) := by
  unfold lab2_15
  after_results_simp
  rfl

set_option maxHeartbeats 4000000 in
/-- After the line the running sum holds label 16's two messages added to what it held before. -/
theorem lab2_16_out (Vv : Valuation τ sig (Elt Ideal)) :
    after (lab2_16 (F := Ideal)) Vv (no_index (Proc.devRef .tc main_v1913))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 16)
          (Cert.Net.lin dot_S8192x512_S512x512_S8192x512_1_0_0_1_n_n (Vv (Proc.devRef .tc main_v1033)) (Cert.Net.Wsel (Vv (Proc.devRef .tc main_v1039)) 16 (by omega)) (Cert.Net.bsel (Vv (Proc.devRef .tc main_v1041)) 16 (by omega)))
          (Cert.Net.lin dot_S8192x512_S512x512_S8192x512_1_0_0_1_n_n (Vv (Proc.devRef .tc main_v1033)) (Cert.Net.Wsel (Vv (Proc.devRef .tc main_v1039)) (20 + 16) (by omega)) (Cert.Net.bsel (Vv (Proc.devRef .tc main_v1041)) (20 + 16) (by omega)))
          (Vv (Proc.devRef .tc main_v1862)) := by
  unfold lab2_16
  after_results_simp
  rfl

set_option maxHeartbeats 4000000 in
/-- After the line the running sum holds label 17's two messages added to what it held before. -/
theorem lab2_17_out (Vv : Valuation τ sig (Elt Ideal)) :
    after (lab2_17 (F := Ideal)) Vv (no_index (Proc.devRef .tc main_v1964))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 17)
          (Cert.Net.lin dot_S8192x512_S512x512_S8192x512_1_0_0_1_n_n (Vv (Proc.devRef .tc main_v1033)) (Cert.Net.Wsel (Vv (Proc.devRef .tc main_v1039)) 17 (by omega)) (Cert.Net.bsel (Vv (Proc.devRef .tc main_v1041)) 17 (by omega)))
          (Cert.Net.lin dot_S8192x512_S512x512_S8192x512_1_0_0_1_n_n (Vv (Proc.devRef .tc main_v1033)) (Cert.Net.Wsel (Vv (Proc.devRef .tc main_v1039)) (20 + 17) (by omega)) (Cert.Net.bsel (Vv (Proc.devRef .tc main_v1041)) (20 + 17) (by omega)))
          (Vv (Proc.devRef .tc main_v1913)) := by
  unfold lab2_17
  after_results_simp
  rfl

set_option maxHeartbeats 4000000 in
/-- After the line the running sum holds label 18's two messages added to what it held before. -/
theorem lab2_18_out (Vv : Valuation τ sig (Elt Ideal)) :
    after (lab2_18 (F := Ideal)) Vv (no_index (Proc.devRef .tc main_v2015))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 18)
          (Cert.Net.lin dot_S8192x512_S512x512_S8192x512_1_0_0_1_n_n (Vv (Proc.devRef .tc main_v1033)) (Cert.Net.Wsel (Vv (Proc.devRef .tc main_v1039)) 18 (by omega)) (Cert.Net.bsel (Vv (Proc.devRef .tc main_v1041)) 18 (by omega)))
          (Cert.Net.lin dot_S8192x512_S512x512_S8192x512_1_0_0_1_n_n (Vv (Proc.devRef .tc main_v1033)) (Cert.Net.Wsel (Vv (Proc.devRef .tc main_v1039)) (20 + 18) (by omega)) (Cert.Net.bsel (Vv (Proc.devRef .tc main_v1041)) (20 + 18) (by omega)))
          (Vv (Proc.devRef .tc main_v1964)) := by
  unfold lab2_18
  after_results_simp
  rfl

set_option maxHeartbeats 4000000 in
/-- After the line the running sum holds label 19's two messages added to what it held before. -/
theorem lab2_19_out (Vv : Valuation τ sig (Elt Ideal)) :
    after (lab2_19 (F := Ideal)) Vv (no_index (Proc.devRef .tc main_v2066))
      = Cert.Net.step gather_S8192x512_S8192x1_S8192x512_1_0_n_n_0_1_1512 scatter_S8192x512_S8192x1_S8192x512_1_0_0_1 (Vv (Proc.devRef .tc main_arg1)) (Vv (Proc.devRef .tc main_arg2)) (Vv (Proc.devRef .tc main_arg3)) (BitVec.ofNat 32 19)
          (Cert.Net.lin dot_S8192x512_S512x512_S8192x512_1_0_0_1_n_n (Vv (Proc.devRef .tc main_v1033)) (Cert.Net.Wsel (Vv (Proc.devRef .tc main_v1039)) 19 (by omega)) (Cert.Net.bsel (Vv (Proc.devRef .tc main_v1041)) 19 (by omega)))
          (Cert.Net.lin dot_S8192x512_S512x512_S8192x512_1_0_0_1_n_n (Vv (Proc.devRef .tc main_v1033)) (Cert.Net.Wsel (Vv (Proc.devRef .tc main_v1039)) (20 + 19) (by omega)) (Cert.Net.bsel (Vv (Proc.devRef .tc main_v1041)) (20 + 19) (by omega)))
          (Vv (Proc.devRef .tc main_v2015)) := by
  unfold lab2_19
  after_results_simp
  rfl

end Cert.ReferenceIdeal.RefSide

end
-- ==== Proof.RefLayer2.lean ====
/-
  The reference program's layer 2, as one function of the buffers it starts from.

  The layer's operations are the concatenation of its pieces, so the buffers after the layer are the buffers after the
  last piece, started from the buffers after the pieces before it.  Each piece adds its step to the running sum and
  leaves alone the buffers the later pieces read (the node numbers, the labels, the layer's input `h`, the layer's
  matrices and bias rows), so the layer's result is the positive part of the twenty steps applied in order to the self
  transform: `Cert.Net.refLayer`, for any contents of the buffers before the layer.
-/
import proofs.«143303_j18098992185957_1_alg».proof.Proof.RefRead2a
import proofs.«143303_j18098992185957_1_alg».proof.Proof.RefRead2b

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 100000 in
set_option maxHeartbeats 4000000 in
/-- After layer 2's operations its result buffer holds the layer of the network, over the argument buffers and the
    layer's input as they were before the operations. -/
theorem opsL2_out (Vv : Valuation τ sig (Elt Ideal)) :
    after (opsL2 (F := Ideal)) Vv (no_index (Proc.devRef .tc main_v2067))
      = Cert.Net.refLayer gather_S8192x512_S8192x1_S8192x512_1_0_n_n_0_1_1512 scatter_S8192x512_S8192x1_S8192x512_1_0_0_1 dot_S8192x512_S512x512_S8192x512_1_0_0_1_n_n
          (Vv (Proc.devRef .tc main_arg1)) (Vv (Proc.devRef .tc main_arg2)) (Vv (Proc.devRef .tc main_arg3)) (Vv (Proc.devRef .tc main_arg4)) (Vv (Proc.devRef .tc main_arg5)) (Vv (Proc.devRef .tc main_arg6)) (Vv (Proc.devRef .tc main_arg7))
          (Vv (Proc.devRef .tc main_v1033)) 1 (by omega) := by
  unfold opsL2
  simp (disch := decide) only [Cert.LibAfter.after_append, fin2_out, lab2_19_out, lab2_18_out, lab2_17_out, lab2_16_out, lab2_15_out, lab2_14_out, lab2_13_out, lab2_12_out, lab2_11_out, lab2_10_out, lab2_9_out, lab2_8_out, lab2_7_out, lab2_6_out, lab2_5_out, lab2_4_out, lab2_3_out, lab2_2_out, lab2_1_out, lab2_0_out, pre2_base, pre2_w, pre2_b, fin2_frame, lab2_19_frame, lab2_18_frame, lab2_17_frame, lab2_16_frame, lab2_15_frame, lab2_14_frame, lab2_13_frame, lab2_12_frame, lab2_11_frame, lab2_10_frame, lab2_9_frame, lab2_8_frame, lab2_7_frame, lab2_6_frame, lab2_5_frame, lab2_4_frame, lab2_3_frame, lab2_2_frame, lab2_1_frame, lab2_0_frame, pre2_frame]
  rfl

end Cert.ReferenceIdeal.RefSide

end
-- ==== Proof.RefSide.lean ====
/-
  The reference program's result, as the function `Cert.Net.refNet` of the argument arrays.

  The program's operations are the first layer's, the second layer's, and the output projection's.  The first layer
  leaves the layer of the network over the input array in its result buffer and the arguments alone; the second layer
  reads that ONE buffer as its input and leaves the layer over it; the output projection is the product of the second
  layer's result with the transposed output matrix plus the output bias.  Composed, the result buffer holds
  `Cert.Net.refNet` of the argument buffers' launch contents, and no operation writes an argument.
-/
import proofs.«143303_j18098992185957_1_alg».proof.Proof.RefRun
import proofs.«143303_j18098992185957_1_alg».proof.Proof.RefLayer1
import proofs.«143303_j18098992185957_1_alg».proof.Proof.RefLayer2

noncomputable section

namespace Cert.ReferenceIdeal.RefSide

open Cert.ReferenceIdeal Cert.ReferenceIdeal.Gen Idealize.ShloMosaic Idealize.ShloMosaic.TcCoe Idealize.SL.Sem Idealize.ShloMosaic.StableHlo

variable {F : FTy → Type} [FloatOps F]

/-- The output projection `h · W_ffᵀ + b_ff`, over the buffers before its five operations. -/
theorem opsF_out (Vv : Valuation τ sig (Elt Ideal)) :
    after (opsF (F := Ideal)) Vv (no_index (Proc.devRef .tc main_v2072))
      = Cert.Net.linF dot_S8192x512_S512x256_S8192x256_1_0_0_1_n_n (Vv (Proc.devRef .tc main_v2067)) (Vv (Proc.devRef .tc main_arg8)) (Vv (Proc.devRef .tc main_arg9)) := by
  unfold opsF
  after_results_simp
  rfl

set_option maxRecDepth 100000 in
set_option maxHeartbeats 4000000 in
/-- After all the operations the result buffer holds the network of the argument buffers as they were before. -/
theorem result (Vv : Valuation τ sig (Elt Ideal)) :
    after (opsAll (F := Ideal)) Vv (Proc.devRef .tc main_v2072)
      = Cert.Net.refNet gather_S8192x512_S8192x1_S8192x512_1_0_n_n_0_1_1512 scatter_S8192x512_S8192x1_S8192x512_1_0_0_1 dot_S8192x512_S512x512_S8192x512_1_0_0_1_n_n dot_S8192x512_S512x256_S8192x256_1_0_0_1_n_n
          (Vv (Proc.devRef .tc main_arg1)) (Vv (Proc.devRef .tc main_arg2)) (Vv (Proc.devRef .tc main_arg3)) (Vv (Proc.devRef .tc main_arg4)) (Vv (Proc.devRef .tc main_arg5)) (Vv (Proc.devRef .tc main_arg6)) (Vv (Proc.devRef .tc main_arg7)) (Vv (Proc.devRef .tc main_arg0)) (Vv (Proc.devRef .tc main_arg8)) (Vv (Proc.devRef .tc main_arg9)) := by
  unfold opsAll
  simp (disch := decide +kernel) only [Cert.LibAfter.after_append, opsF_out, opsL2_out, opsL1_out, opsF_frame, opsL2_frame, opsL1_frame]
  rfl

set_option maxRecDepth 100000 in
/-- On every device, from any memory with zero counters: every weakly fair execution of the reference program
    terminates with the result buffer at the network of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2072)
        = Cert.Net.refNet gather_S8192x512_S8192x1_S8192x512_1_0_n_n_0_1_1512 scatter_S8192x512_S8192x1_S8192x512_1_0_0_1 dot_S8192x512_S512x512_S8192x512_1_0_0_1_n_n dot_S8192x512_S512x256_S8192x256_1_0_0_1_n_n
            (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg0)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v2072).trans (result (launchContents m c)),
      (h c main_arg0).trans (opsAll_frame (launchContents m c) (by decide +kernel)),
      (h c main_arg1).trans (opsAll_frame (launchContents m c) (by decide +kernel)),
      (h c main_arg2).trans (opsAll_frame (launchContents m c) (by decide +kernel)),
      (h c main_arg3).trans (opsAll_frame (launchContents m c) (by decide +kernel)),
      (h c main_arg4).trans (opsAll_frame (launchContents m c) (by decide +kernel)),
      (h c main_arg5).trans (opsAll_frame (launchContents m c) (by decide +kernel)),
      (h c main_arg6).trans (opsAll_frame (launchContents m c) (by decide +kernel)),
      (h c main_arg7).trans (opsAll_frame (launchContents m c) (by decide +kernel)),
      (h c main_arg8).trans (opsAll_frame (launchContents m c) (by decide +kernel)),
      (h c main_arg9).trans (opsAll_frame (launchContents m c) (by decide +kernel))⟩)
    (run_after (F := Ideal) m ρ)

end Cert.ReferenceIdeal.RefSide

end
-- ==== Proof.LibHostDot.lean ====
/-
  The host's matrix product read at an index, at the ideal values (extended reals, exact operations).

  A plain `stablehlo.dot_general` of an `M×K` by a `K×N` operand (no batch axis; the left operand contracted on its
  second axis, the right on its first) is, at `(r, j)`, the sum over `k : Fin K` of `lhs (r, k) * rhs (k, j)`,
  whatever the operands' float formats and the precision attribute.  It is the host's counterpart of a kernel's plain
  `tpu.matmul` into the zero accumulator read the same way; stated over the same sum, the two meet without any further
  re-indexing.  Standalone: imports only the Idealize library.
-/
import Idealize.ShloMosaic.Lib.ValueIdx
import Idealize.ShloMosaic.Lib.Pipeline.Value
import Idealize.ShloMosaic.PureOps.Ideal.Laws

noncomputable section

namespace Cert.LibHostDot

open Idealize.ShloMosaic Idealize.ShloMosaic.ValueIdx

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The host's plain `M×K` by `K×N` `dot_general` at `(r, j)`: the sum over `k` of `lhs (r, k) * rhs (k, j)`. -/
theorem dotGeneral_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    Host.dotGeneral d prec lhs rhs (ix2 r j) = ∑ k : Fin K, lhs (ix2 r k) * rhs (ix2 k j) := by
  subst hd
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

end Cert.LibHostDot

end
-- ==== Proof.Bridge.lean ====
/-
  A slice of the batched linear map is one linear layer, as whole arrays, at the ideal values (extended reals, exact
  operations).

  The weight stack holds 41 matrices of size 512×512: matrix 0 is the transpose of W0, matrix r + 1 the transpose of
  W40[r]; the bias stack holds the 41 matching rows.  For a row matrix x of 8192 rows, the batched map
  Cert.Spec.tiled x wstack bstack is at (m, n, j) the sum over k of x (n, k) * wstack (m, k, j), plus bstack (m, 0, j).
  Block m of it, cut out along the leading axis and read as an 8192×512 matrix, is therefore the single layer
  x · Wᵀ + b with (W, b) = (W0, b0) for m = 0 and (W40[r], b40[r]) for m = r + 1: both sides are, at (n, j), the
  same sum over k of x (n, k) * W (j, k), plus b j.  The last layer (one 256×512 matrix, no stack) is the same
  statement with a stack of one.

  Every layout operation is read at an index through the library's read-at-an-index lemmas; the narrowing format
  change is the identity at the ideal values; no arithmetic law is used beyond rewriting under the sum.
-/
import proofs.«143303_j18098992185957_1_alg».proof.Proof.Spec
import proofs.«143303_j18098992185957_1_alg».proof.Proof.LibHostDot
import proofs.«143303_j18098992185957_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx

/-! ## The two stacks and the reference's layer -/

/-- The [41, 512, 512] weight stack: W0 given a leading unit axis, W40 appended below it along axis 0, every matrix
    transposed, narrowed to bf16 (the identity at the ideal values). -/
def wstack (W0 : FVec Ideal ⟨2, ![512, 512]⟩ .f32) (W40 : FVec Ideal ⟨3, ![40, 512, 512]⟩ .f32)
    (hb : (⟨2, ![512, 512]⟩ : Shape).BroadcastsInDim ⟨3, ![1, 512, 512]⟩ ![1, 2])
    (hc : Shape.Concatenates [⟨3, ![1, 512, 512]⟩, ⟨3, ![40, 512, 512]⟩] ⟨3, ![41, 512, 512]⟩ 0)
    (ht : (⟨3, ![41, 512, 512]⟩ : Shape).Transposes [0, 2, 1] ⟨3, ![41, 512, 512]⟩)
    (hlt : FTy.bf16.bits < FTy.f32.bits) : FVec Ideal ⟨3, ![41, 512, 512]⟩ .bf16 :=
  truncf (F := Ideal) .bf16 (transpose ⟨3, ![41, 512, 512]⟩ [0, 2, 1]
    (concatenate ⟨3, ![41, 512, 512]⟩ 0
      [⟨⟨3, ![1, 512, 512]⟩, broadcastInDim ⟨3, ![1, 512, 512]⟩ ![1, 2] hb W0⟩, ⟨⟨3, ![40, 512, 512]⟩, W40⟩] hc) ht) hlt

/-- The [41, 1, 512] bias stack: b0 as one row, the 40 rows of b40 appended below it, a unit middle axis added. -/
def bstack (b0 : FVec Ideal ⟨1, ![512]⟩ .f32) (b40 : FVec Ideal ⟨2, ![40, 512]⟩ .f32)
    (hb1 : (⟨1, ![512]⟩ : Shape).BroadcastsInDim ⟨2, ![1, 512]⟩ ![1])
    (hc2 : Shape.Concatenates [⟨2, ![1, 512]⟩, ⟨2, ![40, 512]⟩] ⟨2, ![41, 512]⟩ 0)
    (hb3 : (⟨2, ![41, 512]⟩ : Shape).BroadcastsInDim ⟨3, ![41, 1, 512]⟩ ![0, 2]) : FVec Ideal ⟨3, ![41, 1, 512]⟩ .f32 :=
  broadcastInDim ⟨3, ![41, 1, 512]⟩ ![0, 2] hb3
    (concatenate ⟨2, ![41, 512]⟩ 0
      [⟨⟨2, ![1, 512]⟩, broadcastInDim ⟨2, ![1, 512]⟩ ![1] hb1 b0⟩, ⟨⟨2, ![40, 512]⟩, b40⟩] hc2)

/-- The reference's layer x · Wᵀ + b on 8192 rows: the host's plain product of x with W transposed, plus the bias row
    broadcast over the rows. -/
def lin (d : DotDims ⟨2, ![8192, 512]⟩ ⟨2, ![512, 512]⟩ ⟨2, ![8192, 512]⟩)
    (x : FVec Ideal ⟨2, ![8192, 512]⟩ .f32) (W : FVec Ideal ⟨2, ![512, 512]⟩ .f32) (b : FVec Ideal ⟨1, ![512]⟩ .f32)
    (htr : (⟨2, ![512, 512]⟩ : Shape).Transposes [1, 0] ⟨2, ![512, 512]⟩)
    (hb1 : (⟨1, ![512]⟩ : Shape).BroadcastsInDim ⟨2, ![1, 512]⟩ ![1])
    (hbb : (⟨2, ![1, 512]⟩ : Shape).BroadcastsInDim ⟨2, ![8192, 512]⟩ ![0, 1]) : FVec Ideal ⟨2, ![8192, 512]⟩ .f32 :=
  addf (Host.dotGeneral (F := Ideal) d none x (transpose ⟨2, ![512, 512]⟩ [1, 0] W htr))
    (broadcastInDim ⟨2, ![8192, 512]⟩ ![0, 1] hbb (broadcastInDim ⟨2, ![1, 512]⟩ ![1] hb1 b))

/-! ## The pieces read at an index -/

section Reads
variable {α : Type}

/-- A bias row: a length-J vector given a leading unit axis and broadcast over N rows reads, at (n, j), its entry j. -/
theorem biasRow2_apply {N J : ℕ} (b : (⟨1, ![J]⟩ : Shape).Idx → α)
    (hb1 : (⟨1, ![J]⟩ : Shape).BroadcastsInDim ⟨2, ![1, J]⟩ ![1])
    (hbb : (⟨2, ![1, J]⟩ : Shape).BroadcastsInDim ⟨2, ![N, J]⟩ ![0, 1]) (n : Fin N) (j : Fin J) :
    broadcastInDim ⟨2, ![N, J]⟩ ![0, 1] hbb (broadcastInDim ⟨2, ![1, J]⟩ ![1] hb1 b) (ix2 n j) = b (ix1 j) := by
  refine (broadcastInDim_apply _ hbb _ (ix2 n j) (ix2 (0 : Fin 1) j) fun a => ?_).trans
    (broadcastInDim_apply _ hb1 b (ix2 (0 : Fin 1) j) (ix1 j) fun a => ?_)
  · match a with
    | ⟨0, _⟩ => rfl
    | ⟨1, _⟩ =>
      show j.val = if J = 1 then 0 else j.val
      split
      · have := j.isLt; omega
      · rfl
  · match a with
    | ⟨0, _⟩ =>
      show j.val = if J = 1 then 0 else j.val
      split
      · have := j.isLt; omega
      · rfl

/-- Block m of a [41, 8192, 512] array along its leading axis, read as an 8192×512 matrix, is at (n, j) the array at
    (m, n, j). -/
theorem block_apply (T : (⟨3, ![41, 8192, 512]⟩ : Shape).Idx → α) (m : ℕ) (hm : m < 41)
    (hs : (⟨3, ![41, 8192, 512]⟩ : Shape).Slices ![m, 0, 0] ⟨3, ![1, 8192, 512]⟩)
    (hsc : (⟨3, ![1, 8192, 512]⟩ : Shape).ShapeCasts ⟨2, ![8192, 512]⟩) (n : Fin 8192) (j : Fin 512) :
    shapeCast ⟨2, ![8192, 512]⟩ (extractStridedSlice ⟨3, ![1, 8192, 512]⟩ ![m, 0, 0] T hs) hsc (ix2 n j)
      = T (ix3 (⟨m, hm⟩ : Fin 41) n j) := by
  refine (shapeCast_1ab_ab_apply _ hsc n j).trans ?_
  refine extractStridedSlice_apply _ T hs _ _ fun a => ?_
  match a with
  | ⟨0, _⟩ => rfl
  | ⟨1, _⟩ => show n.val = 0 + n.val; omega
  | ⟨2, _⟩ => show j.val = 0 + j.val; omega

end Reads

/-- Matrix 0 of the weight stack is W0 transposed. -/
theorem wstack_zero_apply (W0 : FVec Ideal ⟨2, ![512, 512]⟩ .f32) (W40 : FVec Ideal ⟨3, ![40, 512, 512]⟩ .f32)
    (hb : (⟨2, ![512, 512]⟩ : Shape).BroadcastsInDim ⟨3, ![1, 512, 512]⟩ ![1, 2])
    (hc : Shape.Concatenates [⟨3, ![1, 512, 512]⟩, ⟨3, ![40, 512, 512]⟩] ⟨3, ![41, 512, 512]⟩ 0)
    (ht : (⟨3, ![41, 512, 512]⟩ : Shape).Transposes [0, 2, 1] ⟨3, ![41, 512, 512]⟩)
    (hlt : FTy.bf16.bits < FTy.f32.bits) (k j : Fin 512) :
    wstack W0 W40 hb hc ht hlt (ix3 (⟨0, by omega⟩ : Fin 41) k j) = W0 (ix2 j k) := by
  unfold wstack
  refine (truncf_apply _ hlt _).trans ?_
  refine (transpose_ix3_021_apply _ ht _ k j).trans ?_
  refine (concatenate_pair_apply_left (t := ⟨3, ![41, 512, 512]⟩) (s₁ := ⟨3, ![1, 512, 512]⟩) (s₂ := ⟨3, ![40, 512, 512]⟩)
    (0 : Fin 3) _ W40 hc _ rfl (ix3 (0 : Fin 1) j k) fun b => ?_).trans ?_
  · match b with
    | ⟨0, _⟩ => rfl
    | ⟨1, _⟩ => rfl
    | ⟨2, _⟩ => rfl
  · refine broadcastInDim_apply _ hb W0 _ (ix2 j k) fun a => ?_
    match a with
    | ⟨0, _⟩ => rfl
    | ⟨1, _⟩ => rfl

/-- Row 0 of the bias stack is b0. -/
theorem bstack_zero_apply (b0 : FVec Ideal ⟨1, ![512]⟩ .f32) (b40 : FVec Ideal ⟨2, ![40, 512]⟩ .f32)
    (hb1 : (⟨1, ![512]⟩ : Shape).BroadcastsInDim ⟨2, ![1, 512]⟩ ![1])
    (hc2 : Shape.Concatenates [⟨2, ![1, 512]⟩, ⟨2, ![40, 512]⟩] ⟨2, ![41, 512]⟩ 0)
    (hb3 : (⟨2, ![41, 512]⟩ : Shape).BroadcastsInDim ⟨3, ![41, 1, 512]⟩ ![0, 2]) (j : Fin 512) :
    bstack b0 b40 hb1 hc2 hb3 (ix3 (⟨0, by omega⟩ : Fin 41) (0 : Fin 1) j) = b0 (ix1 j) := by
  unfold bstack
  refine (broadcastInDim_apply _ hb3 _ _ (ix2 (⟨0, by omega⟩ : Fin 41) j) fun a => ?_).trans ?_
  · match a with
    | ⟨0, _⟩ => rfl
    | ⟨1, _⟩ => rfl
  refine (concatenate_pair_apply_left (t := ⟨2, ![41, 512]⟩) (s₁ := ⟨2, ![1, 512]⟩) (s₂ := ⟨2, ![40, 512]⟩)
    (0 : Fin 2) _ b40 hc2 _ rfl (ix2 (0 : Fin 1) j) fun b => ?_).trans ?_
  · match b with
    | ⟨0, _⟩ => rfl
    | ⟨1, _⟩ => rfl
  · refine broadcastInDim_apply _ hb1 b0 _ (ix1 j) fun a => ?_
    match a with
    | ⟨0, _⟩ => rfl

/-- The reference's layer at (n, j): the sum over k of x (n, k) * W (j, k), plus b j. -/
theorem lin_apply (d : DotDims ⟨2, ![8192, 512]⟩ ⟨2, ![512, 512]⟩ ⟨2, ![8192, 512]⟩) (hd : d = DotDims.plain 8192 512 512)
    (x : FVec Ideal ⟨2, ![8192, 512]⟩ .f32) (W : FVec Ideal ⟨2, ![512, 512]⟩ .f32) (b : FVec Ideal ⟨1, ![512]⟩ .f32)
    (htr : (⟨2, ![512, 512]⟩ : Shape).Transposes [1, 0] ⟨2, ![512, 512]⟩)
    (hb1 : (⟨1, ![512]⟩ : Shape).BroadcastsInDim ⟨2, ![1, 512]⟩ ![1])
    (hbb : (⟨2, ![1, 512]⟩ : Shape).BroadcastsInDim ⟨2, ![8192, 512]⟩ ![0, 1]) (n : Fin 8192) (j : Fin 512) :
    lin d x W b htr hb1 hbb (ix2 n j) = (∑ k : Fin 512, x (ix2 n k) * W (ix2 j k)) + b (ix1 j) := by
  show Host.dotGeneral (F := Ideal) d none x (transpose ⟨2, ![512, 512]⟩ [1, 0] W htr) (ix2 n j)
    + broadcastInDim ⟨2, ![8192, 512]⟩ ![0, 1] hbb (broadcastInDim ⟨2, ![1, 512]⟩ ![1] hb1 b) (ix2 n j) = _
  rw [Cert.LibHostDot.dotGeneral_plain_apply d hd none x _ n j, biasRow2_apply b hb1 hbb n j]
  refine congrArg (· + b (ix1 j)) (Finset.sum_congr rfl fun k _ => ?_)
  exact congrArg (x (ix2 n k) * ·) (transpose_ix2_apply W htr k j)

/-! ## Block 0 of the batched map is the layer (W0, b0) -/

theorem slice_zero (x : FVec Ideal ⟨2, ![8192, 512]⟩ .f32)
    (W0 : FVec Ideal ⟨2, ![512, 512]⟩ .f32) (W40 : FVec Ideal ⟨3, ![40, 512, 512]⟩ .f32)
    (b0 : FVec Ideal ⟨1, ![512]⟩ .f32) (b40 : FVec Ideal ⟨2, ![40, 512]⟩ .f32)
    (hlt : FTy.bf16.bits < FTy.f32.bits)
    (hb : (⟨2, ![512, 512]⟩ : Shape).BroadcastsInDim ⟨3, ![1, 512, 512]⟩ ![1, 2])
    (hc : Shape.Concatenates [⟨3, ![1, 512, 512]⟩, ⟨3, ![40, 512, 512]⟩] ⟨3, ![41, 512, 512]⟩ 0)
    (ht : (⟨3, ![41, 512, 512]⟩ : Shape).Transposes [0, 2, 1] ⟨3, ![41, 512, 512]⟩)
    (hb1 : (⟨1, ![512]⟩ : Shape).BroadcastsInDim ⟨2, ![1, 512]⟩ ![1])
    (hc2 : Shape.Concatenates [⟨2, ![1, 512]⟩, ⟨2, ![40, 512]⟩] ⟨2, ![41, 512]⟩ 0)
    (hb3 : (⟨2, ![41, 512]⟩ : Shape).BroadcastsInDim ⟨3, ![41, 1, 512]⟩ ![0, 2])
    (hs : (⟨3, ![41, 8192, 512]⟩ : Shape).Slices ![0, 0, 0] ⟨3, ![1, 8192, 512]⟩)
    (hsc : (⟨3, ![1, 8192, 512]⟩ : Shape).ShapeCasts ⟨2, ![8192, 512]⟩)
    (d : DotDims ⟨2, ![8192, 512]⟩ ⟨2, ![512, 512]⟩ ⟨2, ![8192, 512]⟩) (hd : d = DotDims.plain 8192 512 512)
    (htr : (⟨2, ![512, 512]⟩ : Shape).Transposes [1, 0] ⟨2, ![512, 512]⟩)
    (hbb : (⟨2, ![1, 512]⟩ : Shape).BroadcastsInDim ⟨2, ![8192, 512]⟩ ![0, 1]) :
    shapeCast ⟨2, ![8192, 512]⟩ (extractStridedSlice ⟨3, ![1, 8192, 512]⟩ ![0, 0, 0]
        (Cert.Spec.tiled (truncf (F := Ideal) .bf16 x hlt) (wstack W0 W40 hb hc ht hlt) (bstack b0 b40 hb1 hc2 hb3)) hs) hsc
      = lin d x W0 b0 htr hb1 hbb := by
  funext i
  obtain ⟨n, j, rfl⟩ : ∃ n j, i = ix2 n j := ⟨i 0, i 1, eq_ix2 i⟩
  refine (block_apply _ 0 (by omega) hs hsc n j).trans ?_
  refine (Cert.Spec.tiled_apply _ _ _ _ n j).trans ?_
  rw [lin_apply d hd x W0 b0 htr hb1 hbb n j, bstack_zero_apply b0 b40 hb1 hc2 hb3 j]
  refine congrArg (· + b0 (ix1 j)) (Finset.sum_congr rfl fun k _ => ?_)
  exact congrArg (x (ix2 n k) * ·) (wstack_zero_apply W0 W40 hb hc ht hlt k j)

/-! ## Block r + 1 of the batched map is the layer (W40[r], b40[r]) -/

/-- Matrix r + 1 of the weight stack is W40[r] transposed. -/
theorem wstack_succ_apply (W0 : FVec Ideal ⟨2, ![512, 512]⟩ .f32) (W40 : FVec Ideal ⟨3, ![40, 512, 512]⟩ .f32)
    (hb : (⟨2, ![512, 512]⟩ : Shape).BroadcastsInDim ⟨3, ![1, 512, 512]⟩ ![1, 2])
    (hc : Shape.Concatenates [⟨3, ![1, 512, 512]⟩, ⟨3, ![40, 512, 512]⟩] ⟨3, ![41, 512, 512]⟩ 0)
    (ht : (⟨3, ![41, 512, 512]⟩ : Shape).Transposes [0, 2, 1] ⟨3, ![41, 512, 512]⟩)
    (hlt : FTy.bf16.bits < FTy.f32.bits) (r : ℕ) (hr : r < 40) (k j : Fin 512) :
    wstack W0 W40 hb hc ht hlt (ix3 (⟨r + 1, by omega⟩ : Fin 41) k j) = W40 (ix3 (⟨r, hr⟩ : Fin 40) j k) := by
  unfold wstack
  refine (truncf_apply _ hlt _).trans ?_
  refine (transpose_ix3_021_apply _ ht _ k j).trans ?_
  refine concatenate_pair_apply_right (t := ⟨3, ![41, 512, 512]⟩) (s₁ := ⟨3, ![1, 512, 512]⟩) (s₂ := ⟨3, ![40, 512, 512]⟩)
    (0 : Fin 3) _ W40 hc _ rfl rfl (ix3 (⟨r, hr⟩ : Fin 40) j k) (fun b hb' => ?_) rfl
  match b with
  | ⟨0, _⟩ => exact absurd rfl hb'
  | ⟨1, _⟩ => rfl
  | ⟨2, _⟩ => rfl

/-- Row r + 1 of the bias stack is b40[r]. -/
theorem bstack_succ_apply (b0 : FVec Ideal ⟨1, ![512]⟩ .f32) (b40 : FVec Ideal ⟨2, ![40, 512]⟩ .f32)
    (hb1 : (⟨1, ![512]⟩ : Shape).BroadcastsInDim ⟨2, ![1, 512]⟩ ![1])
    (hc2 : Shape.Concatenates [⟨2, ![1, 512]⟩, ⟨2, ![40, 512]⟩] ⟨2, ![41, 512]⟩ 0)
    (hb3 : (⟨2, ![41, 512]⟩ : Shape).BroadcastsInDim ⟨3, ![41, 1, 512]⟩ ![0, 2]) (r : ℕ) (hr : r < 40) (j : Fin 512) :
    bstack b0 b40 hb1 hc2 hb3 (ix3 (⟨r + 1, by omega⟩ : Fin 41) (0 : Fin 1) j) = b40 (ix2 (⟨r, hr⟩ : Fin 40) j) := by
  unfold bstack
  refine (broadcastInDim_apply _ hb3 _ _ (ix2 (⟨r + 1, by omega⟩ : Fin 41) j) fun a => ?_).trans ?_
  · match a with
    | ⟨0, _⟩ => rfl
    | ⟨1, _⟩ => rfl
  refine concatenate_pair_apply_right (t := ⟨2, ![41, 512]⟩) (s₁ := ⟨2, ![1, 512]⟩) (s₂ := ⟨2, ![40, 512]⟩)
    (0 : Fin 2) _ b40 hc2 _ rfl rfl (ix2 (⟨r, hr⟩ : Fin 40) j) (fun b hb' => ?_) rfl
  match b with
  | ⟨0, _⟩ => exact absurd rfl hb'
  | ⟨1, _⟩ => rfl

/-- Matrix r of W40, cut out along the leading axis and read as a 512×512 matrix, is at (j, k) W40 at (r, j, k). -/
theorem wslice_apply {α : Type} (W40 : (⟨3, ![40, 512, 512]⟩ : Shape).Idx → α) (r : ℕ) (hr : r < 40)
    (hsw : (⟨3, ![40, 512, 512]⟩ : Shape).Slices ![r, 0, 0] ⟨3, ![1, 512, 512]⟩)
    (hscw : (⟨3, ![1, 512, 512]⟩ : Shape).ShapeCasts ⟨2, ![512, 512]⟩) (j k : Fin 512) :
    shapeCast ⟨2, ![512, 512]⟩ (extractStridedSlice ⟨3, ![1, 512, 512]⟩ ![r, 0, 0] W40 hsw) hscw (ix2 j k)
      = W40 (ix3 (⟨r, hr⟩ : Fin 40) j k) := by
  refine (shapeCast_1ab_ab_apply _ hscw j k).trans ?_
  refine extractStridedSlice_apply _ W40 hsw _ _ fun a => ?_
  match a with
  | ⟨0, _⟩ => rfl
  | ⟨1, _⟩ => show j.val = 0 + j.val; omega
  | ⟨2, _⟩ => show k.val = 0 + k.val; omega

/-- Row r of b40, cut out and read as a length-512 vector, is at j b40 at (r, j). -/
theorem bslice_apply {α : Type} (b40 : (⟨2, ![40, 512]⟩ : Shape).Idx → α) (r : ℕ) (hr : r < 40)
    (hsb : (⟨2, ![40, 512]⟩ : Shape).Slices ![r, 0] ⟨2, ![1, 512]⟩)
    (hscb : (⟨2, ![1, 512]⟩ : Shape).ShapeCasts ⟨1, ![512]⟩) (j : Fin 512) :
    shapeCast ⟨1, ![512]⟩ (extractStridedSlice ⟨2, ![1, 512]⟩ ![r, 0] b40 hsb) hscb (ix1 j)
      = b40 (ix2 (⟨r, hr⟩ : Fin 40) j) := by
  refine (shapeCast_1a_a_apply _ hscb j).trans ?_
  refine extractStridedSlice_apply _ b40 hsb _ _ fun a => ?_
  match a with
  | ⟨0, _⟩ => rfl
  | ⟨1, _⟩ => show j.val = 0 + j.val; omega

theorem slice_succ (r : ℕ) (hr : r < 40) (x : FVec Ideal ⟨2, ![8192, 512]⟩ .f32)
    (W0 : FVec Ideal ⟨2, ![512, 512]⟩ .f32) (W40 : FVec Ideal ⟨3, ![40, 512, 512]⟩ .f32)
    (b0 : FVec Ideal ⟨1, ![512]⟩ .f32) (b40 : FVec Ideal ⟨2, ![40, 512]⟩ .f32)
    (hlt : FTy.bf16.bits < FTy.f32.bits)
    (hb : (⟨2, ![512, 512]⟩ : Shape).BroadcastsInDim ⟨3, ![1, 512, 512]⟩ ![1, 2])
    (hc : Shape.Concatenates [⟨3, ![1, 512, 512]⟩, ⟨3, ![40, 512, 512]⟩] ⟨3, ![41, 512, 512]⟩ 0)
    (ht : (⟨3, ![41, 512, 512]⟩ : Shape).Transposes [0, 2, 1] ⟨3, ![41, 512, 512]⟩)
    (hb1 : (⟨1, ![512]⟩ : Shape).BroadcastsInDim ⟨2, ![1, 512]⟩ ![1])
    (hc2 : Shape.Concatenates [⟨2, ![1, 512]⟩, ⟨2, ![40, 512]⟩] ⟨2, ![41, 512]⟩ 0)
    (hb3 : (⟨2, ![41, 512]⟩ : Shape).BroadcastsInDim ⟨3, ![41, 1, 512]⟩ ![0, 2])
    (hs : (⟨3, ![41, 8192, 512]⟩ : Shape).Slices ![r + 1, 0, 0] ⟨3, ![1, 8192, 512]⟩)
    (hsc : (⟨3, ![1, 8192, 512]⟩ : Shape).ShapeCasts ⟨2, ![8192, 512]⟩)
    (hsw : (⟨3, ![40, 512, 512]⟩ : Shape).Slices ![r, 0, 0] ⟨3, ![1, 512, 512]⟩)
    (hscw : (⟨3, ![1, 512, 512]⟩ : Shape).ShapeCasts ⟨2, ![512, 512]⟩)
    (hsb : (⟨2, ![40, 512]⟩ : Shape).Slices ![r, 0] ⟨2, ![1, 512]⟩)
    (hscb : (⟨2, ![1, 512]⟩ : Shape).ShapeCasts ⟨1, ![512]⟩)
    (d : DotDims ⟨2, ![8192, 512]⟩ ⟨2, ![512, 512]⟩ ⟨2, ![8192, 512]⟩) (hd : d = DotDims.plain 8192 512 512)
    (htr : (⟨2, ![512, 512]⟩ : Shape).Transposes [1, 0] ⟨2, ![512, 512]⟩)
    (hbb : (⟨2, ![1, 512]⟩ : Shape).BroadcastsInDim ⟨2, ![8192, 512]⟩ ![0, 1]) :
    shapeCast ⟨2, ![8192, 512]⟩ (extractStridedSlice ⟨3, ![1, 8192, 512]⟩ ![r + 1, 0, 0]
        (Cert.Spec.tiled (truncf (F := Ideal) .bf16 x hlt) (wstack W0 W40 hb hc ht hlt) (bstack b0 b40 hb1 hc2 hb3)) hs) hsc
      = lin d x (shapeCast ⟨2, ![512, 512]⟩ (extractStridedSlice ⟨3, ![1, 512, 512]⟩ ![r, 0, 0] W40 hsw) hscw)
          (shapeCast ⟨1, ![512]⟩ (extractStridedSlice ⟨2, ![1, 512]⟩ ![r, 0] b40 hsb) hscb) htr hb1 hbb := by
  funext i
  obtain ⟨n, j, rfl⟩ : ∃ n j, i = ix2 n j := ⟨i 0, i 1, eq_ix2 i⟩
  refine (block_apply _ (r + 1) (by omega) hs hsc n j).trans ?_
  refine (Cert.Spec.tiled_apply _ _ _ _ n j).trans ?_
  rw [lin_apply d hd x _ _ htr hb1 hbb n j, bstack_succ_apply b0 b40 hb1 hc2 hb3 r hr j, bslice_apply b40 r hr hsb hscb j]
  refine congrArg (· + b40 (ix2 (⟨r, hr⟩ : Fin 40) j)) (Finset.sum_congr rfl fun k _ => ?_)
  exact congrArg (x (ix2 n k) * ·)
    ((wstack_succ_apply W0 W40 hb hc ht hlt r hr k j).trans (wslice_apply W40 r hr hsw hscw j k).symm)

/-! ## The last layer: a stack of one 512×256 matrix -/

theorem final_layer (h : FVec Ideal ⟨2, ![8192, 512]⟩ .f32)
    (Wff : FVec Ideal ⟨2, ![256, 512]⟩ .f32) (bff : FVec Ideal ⟨1, ![256]⟩ .f32)
    (hlt : FTy.bf16.bits < FTy.f32.bits)
    (htf : (⟨2, ![256, 512]⟩ : Shape).Transposes [1, 0] ⟨2, ![512, 256]⟩)
    (hbw : (⟨2, ![512, 256]⟩ : Shape).BroadcastsInDim ⟨3, ![1, 512, 256]⟩ ![1, 2])
    (hbf : (⟨1, ![256]⟩ : Shape).BroadcastsInDim ⟨3, ![1, 1, 256]⟩ ![2])
    (hscy : (⟨3, ![1, 8192, 256]⟩ : Shape).ShapeCasts ⟨2, ![8192, 256]⟩)
    (d2 : DotDims ⟨2, ![8192, 512]⟩ ⟨2, ![512, 256]⟩ ⟨2, ![8192, 256]⟩) (hd2 : d2 = DotDims.plain 8192 512 256)
    (hb12 : (⟨1, ![256]⟩ : Shape).BroadcastsInDim ⟨2, ![1, 256]⟩ ![1])
    (hbb2 : (⟨2, ![1, 256]⟩ : Shape).BroadcastsInDim ⟨2, ![8192, 256]⟩ ![0, 1]) :
    shapeCast ⟨2, ![8192, 256]⟩
        (Cert.Spec.tiled (truncf (F := Ideal) .bf16 h hlt)
          (truncf (F := Ideal) .bf16 (broadcastInDim ⟨3, ![1, 512, 256]⟩ ![1, 2] hbw
            (transpose ⟨2, ![512, 256]⟩ [1, 0] Wff htf)) hlt)
          (broadcastInDim ⟨3, ![1, 1, 256]⟩ ![2] hbf bff)) hscy
      = addf (Host.dotGeneral (F := Ideal) d2 none h (transpose ⟨2, ![512, 256]⟩ [1, 0] Wff htf))
          (broadcastInDim ⟨2, ![8192, 256]⟩ ![0, 1] hbb2 (broadcastInDim ⟨2, ![1, 256]⟩ ![1] hb12 bff)) := by
  funext i
  obtain ⟨n, j, rfl⟩ : ∃ n j, i = ix2 n j := ⟨i 0, i 1, eq_ix2 i⟩
  refine (shapeCast_1ab_ab_apply _ hscy n j).trans ?_
  refine (Cert.Spec.tiled_apply _ _ _ _ n j).trans ?_
  show _ = Host.dotGeneral (F := Ideal) d2 none h (transpose ⟨2, ![512, 256]⟩ [1, 0] Wff htf) (ix2 n j)
    + broadcastInDim ⟨2, ![8192, 256]⟩ ![0, 1] hbb2 (broadcastInDim ⟨2, ![1, 256]⟩ ![1] hb12 bff) (ix2 n j)
  rw [Cert.LibHostDot.dotGeneral_plain_apply d2 hd2 none h _ n j, biasRow2_apply bff hb12 hbb2 n j]
  have eb : broadcastInDim ⟨3, ![1, 1, 256]⟩ ![2] hbf bff (ix3 (0 : Fin 1) (0 : Fin 1) j) = bff (ix1 j) :=
    broadcastInDim_apply _ hbf bff _ (ix1 j) fun a => match a with | ⟨0, _⟩ => rfl
  rw [eb]
  refine congrArg (· + bff (ix1 j)) (Finset.sum_congr rfl fun k _ => ?_)
  refine congrArg (h (ix2 n k) * ·) ?_
  show broadcastInDim ⟨3, ![1, 512, 256]⟩ ![1, 2] hbw (transpose ⟨2, ![512, 256]⟩ [1, 0] Wff htf) (ix3 (0 : Fin 1) k j) = _
  exact broadcastInDim_apply _ hbw _ _ (ix2 k j) fun a => match a with | ⟨0, _⟩ => rfl | ⟨1, _⟩ => rfl

end Cert.Bridge

end
-- ==== Proof.NetEq.lean ====
/-
  The two arrangements of the network are one function.

  Slice `0` of a layer's stacked product is the self transform `h · W_selfᵀ + b_self`, and slice `r + 1` is the
  product with the `r`-th relation matrix and its bias row (`Cert.Bridge.slice_zero`, `slice_succ`: the narrowing of
  the operands is the identity at the ideal values and the stacked product's entry is the same finite sum).  A layer
  depends on its forty message arrays and its base only through their values (`Cert.Net.layer_congr`), so the kernel
  arrangement's layer is the reference arrangement's; the output projection is the one-matrix case
  (`Cert.Bridge.final_layer`).
-/
import proofs.«143303_j18098992185957_1_alg».proof.Proof.Net
import proofs.«143303_j18098992185957_1_alg».proof.Proof.Bridge

noncomputable section

namespace Cert.Net

open Idealize.ShloMosaic

/-- A slice of the stacked product depends on its position only through the position's value. -/
theorem ysl_congr (y : FVec Ideal ⟨3, ![41, 8192, 512]⟩ .f32) {m m' : ℕ} (h : m = m') (hm : m < 41) (hm' : m' < 41) :
    ysl y m hm = ysl y m' hm' := by
  subst h; rfl

section
variable (g : GatherDims X C1 X) (sc : ScatterDims X C1 X)
  (d : DotDims X ⟨2, ![512, 512]⟩ X) (hd : d = DotDims.plain 8192 512 512)
  (dF : DotDims X ⟨2, ![512, 256]⟩ Y) (hdF : dF = DotDims.plain 8192 512 256)
  (dep rel gov : Ix) (a4 : FVec Ideal ⟨3, ![2, 512, 512]⟩ .f32) (a5 : FVec Ideal ⟨2, ![2, 512]⟩ .f32)
  (a6 : FVec Ideal ⟨4, ![2, 40, 512, 512]⟩ .f32) (a7 : FVec Ideal ⟨3, ![2, 40, 512]⟩ .f32)

include hd in
/-- A layer of the kernel arrangement is the layer of the reference arrangement. -/
theorem kerLayer_eq (h : A) (l : ℕ) (hl : l < 2) :
    kerLayer g sc dep rel gov a4 a5 a6 a7 h l hl = refLayer g sc d dep rel gov a4 a5 a6 a7 h l hl := by
  unfold kerLayer kerLayerOf refLayer
  refine layer_congr g sc dep rel gov ?_ ?_ ?_
  · exact Cert.Bridge.slice_zero h (Wself a4 l hl) (W40 a6 l hl) (bself a5 l hl) (b40 a7 l hl) _ _ _ _ _ _ _ _ _ d hd _ _
  · intro n hn
    exact Cert.Bridge.slice_succ n (by omega) h (Wself a4 l hl) (W40 a6 l hl) (bself a5 l hl) (b40 a7 l hl)
      _ _ _ _ _ _ _ _ _ _ _ _ _ d hd _ _
  · intro n hn
    refine (ysl_congr _ (show n + 21 = 20 + n + 1 by omega) _ (by omega)).trans ?_
    exact Cert.Bridge.slice_succ (20 + n) (by omega) h (Wself a4 l hl) (W40 a6 l hl) (bself a5 l hl) (b40 a7 l hl)
      _ _ _ _ _ _ _ _ _ _ _ _ _ d hd _ _

include hd hdF in
/-- The kernel arrangement of the whole network is the reference arrangement. -/
theorem kerNet_eq (x : A) (a8 : FVec Ideal ⟨2, ![256, 512]⟩ .f32) (a9 : FVec Ideal ⟨1, ![256]⟩ .f32) :
    kerNet g sc dep rel gov a4 a5 a6 a7 x a8 a9 = refNet g sc d dF dep rel gov a4 a5 a6 a7 x a8 a9 := by
  unfold kerNet refNet
  rw [kerLayer_eq g sc d hd dep rel gov a4 a5 a6 a7 x 0 (by omega),
    kerLayer_eq g sc d hd dep rel gov a4 a5 a6 a7 _ 1 (by omega)]
  exact Cert.Bridge.final_layer _ a8 a9 _ _ _ _ _ dF hdF _ _
end

end Cert.Net

end
-- ==== Proof.lean ====
/-
  Two layers of a graph network over dependency edges, followed by an output projection.  Each layer adds to the self
  transform of every node, for each of twenty relation labels, the transformed governor rows at the dependents and the
  transformed dependent rows at the governors, on the edges carrying the label, and takes the positive part.

  The kernel program computes the forty-one products of a layer at once — one call whose grid runs over row tiles and
  over the stacked, transposed weight matrices — and reads the products off the stacked result; the reference computes
  each product `x · Wᵀ + b` separately.  At the ideal values the narrowing of the operands is the identity and a product
  is the same finite sum on both sides, so slice `m` of the stacked result IS the reference's product with matrix `m`
  (no law beyond re-indexing the sum is needed, and the precondition is never opened); the masked gathers and scatters
  around the products are the same operations in the same order in both programs, so they are carried as one function
  of the products (`Cert.Net.layer`).

  The three frames: the two kernel programs' are frame certificates over the run of @main in segments; the reference has
  no kernel, and its frame is its run with the result dropped.  The idealization rewrote nothing, so `preserves` is trivial.
-/
import proofs.«143303_j18098992185957_1_alg».proof.Defs
import proofs.«143303_j18098992185957_1_alg».proof.Proof.Gen.Kernel
import proofs.«143303_j18098992185957_1_alg».proof.Proof.Gen.Kernel.Skeleton
import proofs.«143303_j18098992185957_1_alg».proof.Proof.Gen.Kernel.Launch
import proofs.«143303_j18098992185957_1_alg».proof.Proof.Gen.Kernel.Points
import proofs.«143303_j18098992185957_1_alg».proof.Proof.Gen.KernelIdeal
import proofs.«143303_j18098992185957_1_alg».proof.Proof.Gen.KernelIdeal.Skeleton
import proofs.«143303_j18098992185957_1_alg».proof.Proof.Gen.KernelIdeal.Launch
import proofs.«143303_j18098992185957_1_alg».proof.Proof.Gen.KernelIdeal.Points
import proofs.«143303_j18098992185957_1_alg».proof.Proof.Gen.ReferenceIdeal
import proofs.«143303_j18098992185957_1_alg».proof.Proof.Gen.Pre_finite_inputs
import proofs.«143303_j18098992185957_1_alg».proof.Proof.KernelFrameC
import proofs.«143303_j18098992185957_1_alg».proof.Proof.KernelIdealFrameC
import proofs.«143303_j18098992185957_1_alg».proof.Proof.KernelRun
import proofs.«143303_j18098992185957_1_alg».proof.Proof.KAssemble
import proofs.«143303_j18098992185957_1_alg».proof.Proof.RefSide
import proofs.«143303_j18098992185957_1_alg».proof.Proof.NetEq
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.RefSide.run m ρ)

theorem preserves : Cert.preserves_Kernel_KernelIdeal := trivial

/-- The two gather records, the two scatter records: the same dimension numbers. -/
theorem gather_eq : Cert.KernelIdeal.gather_S8192x512_S8192x1_S8192x512_1_0_n_n_0_1_1512
    = Cert.ReferenceIdeal.gather_S8192x512_S8192x1_S8192x512_1_0_n_n_0_1_1512 := rfl
theorem scatter_eq : Cert.KernelIdeal.scatter_S8192x512_S8192x1_S8192x512_1_0_0_1
    = Cert.ReferenceIdeal.scatter_S8192x512_S8192x1_S8192x512_1_0_0_1 := rfl

/-- Both programs end with the same result array: the kernel's run leaves the network in the stacked arrangement,
    the reference's in the product-by-product arrangement, of arguments that agree, and the two arrangements are one
    function. -/
theorem algebraic : Cert.algebraic_KernelIdeal_ReferenceIdeal := by
  intro m ρ m' ρ' _ hagree
  refine ⟨fun c => Cert.Net.kerNet Cert.KernelIdeal.gather_S8192x512_S8192x1_S8192x512_1_0_n_n_0_1_1512
      Cert.KernelIdeal.scatter_S8192x512_S8192x1_S8192x512_1_0_0_1
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg0)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.KernelIdeal.Walk.result m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.RefSide.run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    rw [gather_eq, scatter_eq]
    exact (Cert.Net.kerNet_eq _ _ _ rfl _ rfl _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
